-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg6 : IVec S100000 32) (main_arg7 : IVec S100000 32) (main_v45 : IVec S_ 1) (main_v50 : IVec S100000 1) : IVec S_ 1 :=
  let main_c_19 : IVec S_ 1 := constantI S_ 1 1#1
  let main_v51 : IVec S_ 1 := (fun x v => Host.reduce IntOp.andi x v reducesTo_S100000_S_d0 h_S_) main_v50 main_c_19
  let main_v52 : IVec S_ 1 := andi main_v45 main_v51
  let main_c_20 : IVec S_ 32 := constantI S_ 32 0#32
  let main_v53 : IVec S100000 32 := broadcastInDim S100000 ![] bcast_S_S100000 main_c_20
  let main_v54 : IVec S100000 1 := cmpi .sge main_arg6 main_v53
  let main_c_21 : IVec S_ 32 := constantI S_ 32 99999#32
  let main_v55 : IVec S100000 32 := broadcastInDim S100000 ![] bcast_S_S100000 main_c_21
  let main_v56 : IVec S100000 1 := cmpi .sle main_arg6 main_v55
  let main_v57 : IVec S100000 1 := andi main_v54 main_v56
  let main_c_22 : IVec S_ 1 := constantI S_ 1 1#1
  let main_v58 : IVec S_ 1 := (fun x v => Host.reduce IntOp.andi x v reducesTo_S100000_S_d0 h_S_) main_v57 main_c_22
  let main_v59 : IVec S_ 1 := andi main_v52 main_v58
  let main_c_23 : IVec S_ 32 := constantI S_ 32 0#32
  let main_v60 : IVec S100000 32 := broadcastInDim S100000 ![] bcast_S_S100000 main_c_23
  let main_v61 : IVec S100000 1 := cmpi .sge main_arg7 main_v60
  let main_c_24 : IVec S_ 32 := constantI S_ 32 99999#32
  let main_v62 : IVec S100000 32 := broadcastInDim S100000 ![] bcast_S_S100000 main_c_24
  let main_v63 : IVec S100000 1 := cmpi .sle main_arg7 main_v62
  let main_v64 : IVec S100000 1 := andi main_v61 main_v63
  let main_c_25 : IVec S_ 1 := constantI S_ 1 1#1
  let main_v65 : IVec S_ 1 := (fun x v => Host.reduce IntOp.andi x v reducesTo_S100000_S_d0 h_S_) main_v64 main_c_25
  let main_v66 : IVec S_ 1 := andi main_v59 main_v65
  main_v66

def fn_part2 {F : FTy → Type} [FloatOps F] (main_arg4 : IVec S100000 32) (main_arg5 : IVec S100000 32) (main_arg6 : IVec S100000 32) (main_arg7 : IVec S100000 32) (main_arg11 : FVec F S512 .f32) (main_v33 : IVec S_ 1) : IVec S_ 1 :=
  let main_v34 : FVec F S512 .f32 := Host.absf main_arg11
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg4 main_v39
  let main_c_15 : IVec S_ 32 := constantI S_ 32 99999#32
  let main_v41 : IVec S100000 32 := broadcastInDim S100000 ![] bcast_S_S100000 main_c_15
  let main_v42 : IVec S100000 1 := cmpi .sle main_arg4 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  let main_c_17 : IVec S_ 32 := constantI S_ 32 0#32
  let main_v46 : IVec S100000 32 := broadcastInDim S100000 ![] bcast_S_S100000 main_c_17
  let main_v47 : IVec S100000 1 := cmpi .sge main_arg5 main_v46
  let main_c_18 : IVec S_ 32 := constantI S_ 32 99999#32
  let main_v48 : IVec S100000 32 := broadcastInDim S100000 ![] bcast_S_S100000 main_c_18
  let main_v49 : IVec S100000 1 := cmpi .sle main_arg5 main_v48
  let main_v50 : IVec S100000 1 := andi main_v47 main_v49
  fn_part3 (F := F) main_arg6 main_arg7 main_v45 main_v50

def fn_part1 {F : FTy → Type} [FloatOps F] (main_arg4 : IVec S100000 32) (main_arg5 : IVec S100000 32) (main_arg6 : IVec S100000 32) (main_arg7 : IVec S100000 32) (main_arg8 : FVec F S512x512 .f32) (main_arg9 : FVec F S512 .f32) (main_arg10 : FVec F S512 .f32) (main_arg11 : FVec F S512 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S512x512 .f32 := Host.absf main_arg8
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg9
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg10
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg4 main_arg5 main_arg6 main_arg7 main_arg11 main_v33

def fn {F : FTy → Type} [FloatOps F] (main_arg0 : FVec F S100000x128 .f32) (main_arg1 : FVec F S100000x128 .f32) (main_arg2 : FVec F S100000x128 .f32) (main_arg3 : FVec F S100000x128 .f32) (main_arg4 : IVec S100000 32) (main_arg5 : IVec S100000 32) (main_arg6 : IVec S100000 32) (main_arg7 : IVec S100000 32) (main_arg8 : FVec F S512x512 .f32) (main_arg9 : FVec F S512 .f32) (main_arg10 : FVec F S512 .f32) (main_arg11 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S100000 : Shape := ⟨1, ![100000]⟩
abbrev S512x512 : Shape := ⟨2, ![512, 512]⟩
abbrev S512 : Shape := ⟨1, ![512]⟩
abbrev S_ : Shape := ⟨0, ![]⟩
abbrev S352 : Shape := ⟨1, ![352]⟩
abbrev S100352 : Shape := ⟨1, ![100352]⟩
abbrev S1x512 : Shape := ⟨2, ![1, 512]⟩
abbrev S25088 : Shape := ⟨1, ![25088]⟩
abbrev S32x7x112 : Shape := ⟨3, ![32, 7, 112]⟩
abbrev S25088x512 : Shape := ⟨2, ![25088, 512]⟩
abbrev S7x112 : Shape := ⟨2, ![7, 112]⟩
abbrev S112x128 : Shape := ⟨2, ![112, 128]⟩
abbrev S1x7x112 : Shape := ⟨3, ![1, 7, 112]⟩
abbrev S1x112 : Shape := ⟨2, ![1, 112]⟩
abbrev S112 : Shape := ⟨1, ![112]⟩
abbrev S100000x512 : Shape := ⟨2, ![100000, 512]⟩
abbrev S896x512 : Shape := ⟨2, ![896, 512]⟩
abbrev S896 : Shape := ⟨1, ![896]⟩
abbrev S896x1 : Shape := ⟨2, ![896, 1]⟩

abbrev nBuf : Table → Nat
  | .hbm => 67
  | .local .tc .vmem => 32
  | .local .scVector .vmem => 44
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000, .i32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S352, .i32⟩
  | .hbm, ⟨14, _⟩ => ⟨S100352, .i32⟩
  | .hbm, ⟨15, _⟩ => ⟨S_, .i32⟩
  | .hbm, ⟨16, _⟩ => ⟨S352, .i32⟩
  | .hbm, ⟨17, _⟩ => ⟨S100352, .i32⟩
  | .hbm, ⟨18, _⟩ => ⟨S_, .i32⟩
  | .hbm, ⟨19, _⟩ => ⟨S352, .i32⟩
  | .hbm, ⟨20, _⟩ => ⟨S100352, .i32⟩
  | .hbm, ⟨21, _⟩ => ⟨S_, .i32⟩
  | .hbm, ⟨22, _⟩ => ⟨S352, .i32⟩
  | .hbm, ⟨23, _⟩ => ⟨S100352, .i32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S25088, .i32⟩
  | .hbm, ⟨28, _⟩ => ⟨S32x7x112, .i32⟩
  | .hbm, ⟨29, _⟩ => ⟨S25088, .i32⟩
  | .hbm, ⟨30, _⟩ => ⟨S32x7x112, .i32⟩
  | .hbm, ⟨31, _⟩ => ⟨S25088, .i32⟩
  | .hbm, ⟨32, _⟩ => ⟨S32x7x112, .i32⟩
  | .hbm, ⟨33, _⟩ => ⟨S25088, .i32⟩
  | .hbm, ⟨34, _⟩ => ⟨S32x7x112, .i32⟩
  | .hbm, ⟨35, _⟩ => ⟨S25088x512, .f32⟩
  | .hbm, ⟨36, _⟩ => ⟨S25088, .i32⟩
  | .hbm, ⟨37, _⟩ => ⟨S32x7x112, .i32⟩
  | .hbm, ⟨38, _⟩ => ⟨S25088, .i32⟩
  | .hbm, ⟨39, _⟩ => ⟨S32x7x112, .i32⟩
  | .hbm, ⟨40, _⟩ => ⟨S25088, .i32⟩
  | .hbm, ⟨41, _⟩ => ⟨S32x7x112, .i32⟩
  | .hbm, ⟨42, _⟩ => ⟨S25088, .i32⟩
  | .hbm, ⟨43, _⟩ => ⟨S32x7x112, .i32⟩
  | .hbm, ⟨44, _⟩ => ⟨S25088x512, .f32⟩
  | .hbm, ⟨45, _⟩ => ⟨S25088, .i32⟩
  | .hbm, ⟨46, _⟩ => ⟨S32x7x112, .i32⟩
  | .hbm, ⟨47, _⟩ => ⟨S25088, .i32⟩
  | .hbm, ⟨48, _⟩ => ⟨S32x7x112, .i32⟩
  | .hbm, ⟨49, _⟩ => ⟨S25088, .i32⟩
  | .hbm, ⟨50, _⟩ => ⟨S32x7x112, .i32⟩
  | .hbm, ⟨51, _⟩ => ⟨S25088, .i32⟩
  | .hbm, ⟨52, _⟩ => ⟨S32x7x112, .i32⟩
  | .hbm, ⟨53, _⟩ => ⟨S25088x512, .f32⟩
  | .hbm, ⟨54, _⟩ => ⟨S25088, .i32⟩
  | .hbm, ⟨55, _⟩ => ⟨S32x7x112, .i32⟩
  | .hbm, ⟨56, _⟩ => ⟨S25088, .i32⟩
  | .hbm, ⟨57, _⟩ => ⟨S32x7x112, .i32⟩
  | .hbm, ⟨58, _⟩ => ⟨S25088, .i32⟩
  | .hbm, ⟨59, _⟩ => ⟨S32x7x112, .i32⟩
  | .hbm, ⟨60, _⟩ => ⟨S25088, .i32⟩
  | .hbm, ⟨61, _⟩ => ⟨S32x7x112, .i32⟩
  | .hbm, ⟨62, _⟩ => ⟨S25088x512, .f32⟩
  | .hbm, ⟨63, _⟩ => ⟨S100000x512, .f32⟩
  | .hbm, ⟨64, _⟩ => ⟨S100000x512, .f32⟩
  | .hbm, ⟨65, _⟩ => ⟨S100000x512, .f32⟩
  | .hbm, ⟨66, _⟩ => ⟨S100000x512, .f32⟩
  | .local .tc .vmem, ⟨0, _⟩ => ⟨S896x512, .f32⟩
  | .local .tc .vmem, ⟨1, _⟩ => ⟨S896x512, .f32⟩
  | .local .tc .vmem, ⟨2, _⟩ => ⟨S512x512, .f32⟩
  | .local .tc .vmem, ⟨3, _⟩ => ⟨S1x512, .f32⟩
  | .local .tc .vmem, ⟨4, _⟩ => ⟨S1x512, .f32⟩
  | .local .tc .vmem, ⟨5, _⟩ => ⟨S1x512, .f32⟩
  | .local .tc .vmem, ⟨6, _⟩ => ⟨S896x512, .f32⟩
  | .local .tc .vmem, ⟨7, _⟩ => ⟨S896x512, .f32⟩
  | .local .tc .vmem, ⟨8, _⟩ => ⟨S896x512, .f32⟩
  | .local .tc .vmem, ⟨9, _⟩ => ⟨S896x512, .f32⟩
  | .local .tc .vmem, ⟨10, _⟩ => ⟨S512x512, .f32⟩
  | .local .tc .vmem, ⟨11, _⟩ => ⟨S1x512, .f32⟩
  | .local .tc .vmem, ⟨12, _⟩ => ⟨S1x512, .f32⟩
  | .local .tc .vmem, ⟨13, _⟩ => ⟨S1x512, .f32⟩
  | .local .tc .vmem, ⟨14, _⟩ => ⟨S896x512, .f32⟩
  | .local .tc .vmem, ⟨15, _⟩ => ⟨S896x512, .f32⟩
  | .local .tc .vmem, ⟨16, _⟩ => ⟨S896x512, .f32⟩
  | .local .tc .vmem, ⟨17, _⟩ => ⟨S896x512, .f32⟩
  | .local .tc .vmem, ⟨18, _⟩ => ⟨S512x512, .f32⟩
  | .local .tc .vmem, ⟨19, _⟩ => ⟨S1x512, .f32⟩
  | .local .tc .vmem, ⟨20, _⟩ => ⟨S1x512, .f32⟩
  | .local .tc .vmem, ⟨21, _⟩ => ⟨S1x512, .f32⟩
  | .local .tc .vmem, ⟨22, _⟩ => ⟨S896x512, .f32⟩
  | .local .tc .vmem, ⟨23, _⟩ => ⟨S896x512, .f32⟩
  | .local .tc .vmem, ⟨24, _⟩ => ⟨S896x512, .f32⟩
  | .local .tc .vmem, ⟨25, _⟩ => ⟨S896x512, .f32⟩
  | .local .tc .vmem, ⟨26, _⟩ => ⟨S512x512, .f32⟩
  | .local .tc .vmem, ⟨27, _⟩ => ⟨S1x512, .f32⟩
  | .local .tc .vmem, ⟨28, _⟩ => ⟨S1x512, .f32⟩
  | .local .tc .vmem, ⟨29, _⟩ => ⟨S1x512, .f32⟩
  | .local .tc .vmem, ⟨30, _⟩ => ⟨S896x512, .f32⟩
  | .local .tc .vmem, ⟨31, _⟩ => ⟨S896x512, .f32⟩
  | .local .scVector .vmem, ⟨0, _⟩ => ⟨S7x112, .i32⟩
  | .local .scVector .vmem, ⟨1, _⟩ => ⟨S7x112, .i32⟩
  | .local .scVector .vmem, ⟨2, _⟩ => ⟨S7x112, .i32⟩
  | .local .scVector .vmem, ⟨3, _⟩ => ⟨S7x112, .i32⟩
  | .local .scVector .vmem, ⟨4, _⟩ => ⟨S112x128, .f32⟩
  | .local .scVector .vmem, ⟨5, _⟩ => ⟨S112x128, .f32⟩
  | .local .scVector .vmem, ⟨6, _⟩ => ⟨S112x128, .f32⟩
  | .local .scVector .vmem, ⟨7, _⟩ => ⟨S112x128, .f32⟩
  | .local .scVector .vmem, ⟨8, _⟩ => ⟨S112x128, .f32⟩
  | .local .scVector .vmem, ⟨9, _⟩ => ⟨S112x128, .f32⟩
  | .local .scVector .vmem, ⟨10, _⟩ => ⟨S112x128, .f32⟩
  | .local .scVector .vmem, ⟨11, _⟩ => ⟨S7x112, .i32⟩
  | .local .scVector .vmem, ⟨12, _⟩ => ⟨S7x112, .i32⟩
  | .local .scVector .vmem, ⟨13, _⟩ => ⟨S7x112, .i32⟩
  | .local .scVector .vmem, ⟨14, _⟩ => ⟨S7x112, .i32⟩
  | .local .scVector .vmem, ⟨15, _⟩ => ⟨S112x128, .f32⟩
  | .local .scVector .vmem, ⟨16, _⟩ => ⟨S112x128, .f32⟩
  | .local .scVector .vmem, ⟨17, _⟩ => ⟨S112x128, .f32⟩
  | .local .scVector .vmem, ⟨18, _⟩ => ⟨S112x128, .f32⟩
  | .local .scVector .vmem, ⟨19, _⟩ => ⟨S112x128, .f32⟩
  | .local .scVector .vmem, ⟨20, _⟩ => ⟨S112x128, .f32⟩
  | .local .scVector .vmem, ⟨21, _⟩ => ⟨S112x128, .f32⟩
  | .local .scVector .vmem, ⟨22, _⟩ => ⟨S7x112, .i32⟩
  | .local .scVector .vmem, ⟨23, _⟩ => ⟨S7x112, .i32⟩
  | .local .scVector .vmem, ⟨24, _⟩ => ⟨S7x112, .i32⟩
  | .local .scVector .vmem, ⟨25, _⟩ => ⟨S7x112, .i32⟩
  | .local .scVector .vmem, ⟨26, _⟩ => ⟨S112x128, .f32⟩
  | .local .scVector .vmem, ⟨27, _⟩ => ⟨S112x128, .f32⟩
  | .local .scVector .vmem, ⟨28, _⟩ => ⟨S112x128, .f32⟩
  | .local .scVector .vmem, ⟨29, _⟩ => ⟨S112x128, .f32⟩
  | .local .scVector .vmem, ⟨30, _⟩ => ⟨S112x128, .f32⟩
  | .local .scVector .vmem, ⟨31, _⟩ => ⟨S112x128, .f32⟩
  | .local .scVector .vmem, ⟨32, _⟩ => ⟨S112x128, .f32⟩
  | .local .scVector .vmem, ⟨33, _⟩ => ⟨S7x112, .i32⟩
  | .local .scVector .vmem, ⟨34, _⟩ => ⟨S7x112, .i32⟩
  | .local .scVector .vmem, ⟨35, _⟩ => ⟨S7x112, .i32⟩
  | .local .scVector .vmem, ⟨36, _⟩ => ⟨S7x112, .i32⟩
  | .local .scVector .vmem, ⟨37, _⟩ => ⟨S112x128, .f32⟩
  | .local .scVector .vmem, ⟨38, _⟩ => ⟨S112x128, .f32⟩
  | .local .scVector .vmem, ⟨39, _⟩ => ⟨S112x128, .f32⟩
  | .local .scVector .vmem, ⟨40, _⟩ => ⟨S112x128, .f32⟩
  | .local .scVector .vmem, ⟨41, _⟩ => ⟨S112x128, .f32⟩
  | .local .scVector .vmem, ⟨42, _⟩ => ⟨S112x128, .f32⟩
  | .local .scVector .vmem, ⟨43, _⟩ => ⟨S112x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 104 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTables nBuf rfl bufTy 4 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v12_scv : Ref sig .scVector := ⟨.hbm, 28, rfl⟩
abbrev main_v14_scv : Ref sig .scVector := ⟨.hbm, 30, rfl⟩
abbrev main_v16_scv : Ref sig .scVector := ⟨.hbm, 32, rfl⟩
abbrev main_v18_scv : Ref sig .scVector := ⟨.hbm, 34, rfl⟩
abbrev main_v19_scv : Ref sig .scVector := ⟨.hbm, 35, rfl⟩
abbrev main_v21_scv : Ref sig .scVector := ⟨.hbm, 37, rfl⟩
abbrev main_v23_scv : Ref sig .scVector := ⟨.hbm, 39, rfl⟩
abbrev main_v25_scv : Ref sig .scVector := ⟨.hbm, 41, rfl⟩
abbrev main_v27_scv : Ref sig .scVector := ⟨.hbm, 43, rfl⟩
abbrev main_v28_scv : Ref sig .scVector := ⟨.hbm, 44, rfl⟩
abbrev main_v30_scv : Ref sig .scVector := ⟨.hbm, 46, rfl⟩
abbrev main_v32_scv : Ref sig .scVector := ⟨.hbm, 48, rfl⟩
abbrev main_v34_scv : Ref sig .scVector := ⟨.hbm, 50, rfl⟩
abbrev main_v36_scv : Ref sig .scVector := ⟨.hbm, 52, rfl⟩
abbrev main_v37_scv : Ref sig .scVector := ⟨.hbm, 53, rfl⟩
abbrev main_v39_scv : Ref sig .scVector := ⟨.hbm, 55, rfl⟩
abbrev main_v41_scv : Ref sig .scVector := ⟨.hbm, 57, rfl⟩
abbrev main_v43_scv : Ref sig .scVector := ⟨.hbm, 59, rfl⟩
abbrev main_v45_scv : Ref sig .scVector := ⟨.hbm, 61, rfl⟩
abbrev main_v46_scv : Ref sig .scVector := ⟨.hbm, 62, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg2_0 : Ref sig .tc := ⟨.vmem, 3, rfl⟩
abbrev cc4_stg3_0 : Ref sig .tc := ⟨.vmem, 4, rfl⟩
abbrev cc4_stg4_0 : Ref sig .tc := ⟨.vmem, 5, rfl⟩
abbrev cc4_stg5_0 : Ref sig .tc := ⟨.vmem, 6, rfl⟩
abbrev cc4_stg5_1 : Ref sig .tc := ⟨.vmem, 7, rfl⟩
abbrev cc5_stg0_0 : Ref sig .tc := ⟨.vmem, 8, rfl⟩
abbrev cc5_stg0_1 : Ref sig .tc := ⟨.vmem, 9, rfl⟩
abbrev cc5_stg1_0 : Ref sig .tc := ⟨.vmem, 10, rfl⟩
abbrev cc5_stg2_0 : Ref sig .tc := ⟨.vmem, 11, rfl⟩
abbrev cc5_stg3_0 : Ref sig .tc := ⟨.vmem, 12, rfl⟩
abbrev cc5_stg4_0 : Ref sig .tc := ⟨.vmem, 13, rfl⟩
abbrev cc5_stg5_0 : Ref sig .tc := ⟨.vmem, 14, rfl⟩
abbrev cc5_stg5_1 : Ref sig .tc := ⟨.vmem, 15, rfl⟩
abbrev cc6_stg0_0 : Ref sig .tc := ⟨.vmem, 16, rfl⟩
abbrev cc6_stg0_1 : Ref sig .tc := ⟨.vmem, 17, rfl⟩
abbrev cc6_stg1_0 : Ref sig .tc := ⟨.vmem, 18, rfl⟩
abbrev cc6_stg2_0 : Ref sig .tc := ⟨.vmem, 19, rfl⟩
abbrev cc6_stg3_0 : Ref sig .tc := ⟨.vmem, 20, rfl⟩
abbrev cc6_stg4_0 : Ref sig .tc := ⟨.vmem, 21, rfl⟩
abbrev cc6_stg5_0 : Ref sig .tc := ⟨.vmem, 22, rfl⟩
abbrev cc6_stg5_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg2_0 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg5_0 : Ref sig .tc := ⟨.vmem, 30, rfl⟩
abbrev cc7_stg5_1 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc1_scratch0 : Ref sig .scVector := ⟨.vmem, 11, rfl⟩
abbrev cc1_scratch1 : Ref sig .scVector := ⟨.vmem, 12, rfl⟩
abbrev cc1_scratch2 : Ref sig .scVector := ⟨.vmem, 13, rfl⟩
abbrev cc1_scratch3 : Ref sig .scVector := ⟨.vmem, 14, rfl⟩
abbrev cc1_scratch4 : Ref sig .scVector := ⟨.vmem, 15, rfl⟩
abbrev cc1_scratch5 : Ref sig .scVector := ⟨.vmem, 16, rfl⟩
abbrev cc1_scratch6 : Ref sig .scVector := ⟨.vmem, 17, rfl⟩
abbrev cc1_scratch7 : Ref sig .scVector := ⟨.vmem, 18, rfl⟩
abbrev cc1_scratch8 : Ref sig .scVector := ⟨.vmem, 19, rfl⟩
abbrev cc1_scratch9 : Ref sig .scVector := ⟨.vmem, 20, rfl⟩
abbrev cc1_scratch10 : Ref sig .scVector := ⟨.vmem, 21, rfl⟩
abbrev cc2_scratch0 : Ref sig .scVector := ⟨.vmem, 22, rfl⟩
abbrev cc2_scratch1 : Ref sig .scVector := ⟨.vmem, 23, rfl⟩
abbrev cc2_scratch2 : Ref sig .scVector := ⟨.vmem, 24, rfl⟩
abbrev cc2_scratch3 : Ref sig .scVector := ⟨.vmem, 25, rfl⟩
abbrev cc2_scratch4 : Ref sig .scVector := ⟨.vmem, 26, rfl⟩
abbrev cc2_scratch5 : Ref sig .scVector := ⟨.vmem, 27, rfl⟩
abbrev cc2_scratch6 : Ref sig .scVector := ⟨.vmem, 28, rfl⟩
abbrev cc2_scratch7 : Ref sig .scVector := ⟨.vmem, 29, rfl⟩
abbrev cc2_scratch8 : Ref sig .scVector := ⟨.vmem, 30, rfl⟩
abbrev cc2_scratch9 : Ref sig .scVector := ⟨.vmem, 31, rfl⟩
abbrev cc2_scratch10 : Ref sig .scVector := ⟨.vmem, 32, rfl⟩
abbrev cc3_scratch0 : Ref sig .scVector := ⟨.vmem, 33, rfl⟩
abbrev cc3_scratch1 : Ref sig .scVector := ⟨.vmem, 34, rfl⟩
abbrev cc3_scratch2 : Ref sig .scVector := ⟨.vmem, 35, rfl⟩
abbrev cc3_scratch3 : Ref sig .scVector := ⟨.vmem, 36, rfl⟩
abbrev cc3_scratch4 : Ref sig .scVector := ⟨.vmem, 37, rfl⟩
abbrev cc3_scratch5 : Ref sig .scVector := ⟨.vmem, 38, rfl⟩
abbrev cc3_scratch6 : Ref sig .scVector := ⟨.vmem, 39, rfl⟩
abbrev cc3_scratch7 : Ref sig .scVector := ⟨.vmem, 40, rfl⟩
abbrev cc3_scratch8 : Ref sig .scVector := ⟨.vmem, 41, rfl⟩
abbrev cc3_scratch9 : Ref sig .scVector := ⟨.vmem, 42, rfl⟩
abbrev cc3_scratch10 : Ref sig .scVector := ⟨.vmem, 43, rfl⟩
abbrev cc4_sem0_0 : DmaSem sig := 72
abbrev cc4_sem0_1 : DmaSem sig := 73
abbrev cc4_sem1_0 : DmaSem sig := 74
abbrev cc4_sem2_0 : DmaSem sig := 75
abbrev cc4_sem3_0 : DmaSem sig := 76
abbrev cc4_sem4_0 : DmaSem sig := 77
abbrev cc4_sem5_0 : DmaSem sig := 78
abbrev cc4_sem5_1 : DmaSem sig := 79
abbrev cc5_sem0_0 : DmaSem sig := 80
abbrev cc5_sem0_1 : DmaSem sig := 81
abbrev cc5_sem1_0 : DmaSem sig := 82
abbrev cc5_sem2_0 : DmaSem sig := 83
abbrev cc5_sem3_0 : DmaSem sig := 84
abbrev cc5_sem4_0 : DmaSem sig := 85
abbrev cc5_sem5_0 : DmaSem sig := 86
abbrev cc5_sem5_1 : DmaSem sig := 87
abbrev cc6_sem0_0 : DmaSem sig := 88
abbrev cc6_sem0_1 : DmaSem sig := 89
abbrev cc6_sem1_0 : DmaSem sig := 90
abbrev cc6_sem2_0 : DmaSem sig := 91
abbrev cc6_sem3_0 : DmaSem sig := 92
abbrev cc6_sem4_0 : DmaSem sig := 93
abbrev cc6_sem5_0 : DmaSem sig := 94
abbrev cc6_sem5_1 : DmaSem sig := 95
abbrev cc7_sem0_0 : DmaSem sig := 96
abbrev cc7_sem0_1 : DmaSem sig := 97
abbrev cc7_sem1_0 : DmaSem sig := 98
abbrev cc7_sem2_0 : DmaSem sig := 99
abbrev cc7_sem3_0 : DmaSem sig := 100
abbrev cc7_sem4_0 : DmaSem sig := 101
abbrev cc7_sem5_0 : DmaSem sig := 102
abbrev cc7_sem5_1 : DmaSem sig := 103
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  v2
def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_49 : BitVec 32 := 0#32
  let v49 : BitVec 32 := Scalar.addi v3 c0_i32_49
  v49
def k0_off2 (i : grid0.Coords) (c0_i32_49 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v49 : BitVec 32 := Scalar.addi v3 c0_i32_49
  let v50 : BitVec 32 := v49
  let c0_i32_50 : BitVec 32 := 0#32
  ![v50.toNat, 0]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32 : BitVec 32 := 112#32
  let v56 : BitVec 32 := Scalar.addi v3 c112_i32
  v56
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32 : BitVec 32 := 224#32
  let v63 : BitVec 32 := Scalar.addi v3 c224_i32
  v63
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32 : BitVec 32 := 336#32
  let v70 : BitVec 32 := Scalar.addi v3 c336_i32
  v70
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32 : BitVec 32 := 448#32
  let v77 : BitVec 32 := Scalar.addi v3 c448_i32
  v77
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32 : BitVec 32 := 560#32
  let v84 : BitVec 32 := Scalar.addi v3 c560_i32
  v84
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32 : BitVec 32 := 672#32
  let v91 : BitVec 32 := Scalar.addi v3 c672_i32
  v91
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_88 : BitVec 32 := 0#32
  let v95 : BitVec 32 := Scalar.addi v3 c0_i32_88
  v95
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_91 : BitVec 32 := 112#32
  let v99 : BitVec 32 := Scalar.addi v3 c112_i32_91
  v99
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_94 : BitVec 32 := 224#32
  let v103 : BitVec 32 := Scalar.addi v3 c224_i32_94
  v103
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_97 : BitVec 32 := 336#32
  let v107 : BitVec 32 := Scalar.addi v3 c336_i32_97
  v107
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_100 : BitVec 32 := 448#32
  let v111 : BitVec 32 := Scalar.addi v3 c448_i32_100
  v111
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_103 : BitVec 32 := 560#32
  let v115 : BitVec 32 := Scalar.addi v3 c560_i32_103
  v115
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_106 : BitVec 32 := 672#32
  let v119 : BitVec 32 := Scalar.addi v3 c672_i32_106
  v119
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_148 : BitVec 32 := 0#32
  let v152 : BitVec 32 := Scalar.addi v3 c0_i32_148
  v152
def k0_off3 (i : grid0.Coords) (c0_i32_148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v152 : BitVec 32 := Scalar.addi v3 c0_i32_148
  let v153 : BitVec 32 := v152
  let c128_i32 : BitVec 32 := 128#32
  ![v153.toNat, 128]
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_154 : BitVec 32 := 112#32
  let v159 : BitVec 32 := Scalar.addi v3 c112_i32_154
  v159
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_161 : BitVec 32 := 224#32
  let v166 : BitVec 32 := Scalar.addi v3 c224_i32_161
  v166
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_168 : BitVec 32 := 336#32
  let v173 : BitVec 32 := Scalar.addi v3 c336_i32_168
  v173
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_175 : BitVec 32 := 448#32
  let v180 : BitVec 32 := Scalar.addi v3 c448_i32_175
  v180
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_182 : BitVec 32 := 560#32
  let v187 : BitVec 32 := Scalar.addi v3 c560_i32_182
  v187
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_189 : BitVec 32 := 672#32
  let v194 : BitVec 32 := Scalar.addi v3 c672_i32_189
  v194
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_192 : BitVec 32 := 0#32
  let v198 : BitVec 32 := Scalar.addi v3 c0_i32_192
  v198
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_195 : BitVec 32 := 112#32
  let v202 : BitVec 32 := Scalar.addi v3 c112_i32_195
  v202
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_198 : BitVec 32 := 224#32
  let v206 : BitVec 32 := Scalar.addi v3 c224_i32_198
  v206
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_201 : BitVec 32 := 336#32
  let v210 : BitVec 32 := Scalar.addi v3 c336_i32_201
  v210
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_204 : BitVec 32 := 448#32
  let v214 : BitVec 32 := Scalar.addi v3 c448_i32_204
  v214
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_207 : BitVec 32 := 560#32
  let v218 : BitVec 32 := Scalar.addi v3 c560_i32_207
  v218
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_210 : BitVec 32 := 672#32
  let v222 : BitVec 32 := Scalar.addi v3 c672_i32_210
  v222
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_252 : BitVec 32 := 0#32
  let v255 : BitVec 32 := Scalar.addi v3 c0_i32_252
  v255
def k0_off4 (i : grid0.Coords) (c0_i32_252 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v255 : BitVec 32 := Scalar.addi v3 c0_i32_252
  let v256 : BitVec 32 := v255
  let c256_i32 : BitVec 32 := 256#32
  ![v256.toNat, 256]
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_258 : BitVec 32 := 112#32
  let v262 : BitVec 32 := Scalar.addi v3 c112_i32_258
  v262
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_265 : BitVec 32 := 224#32
  let v269 : BitVec 32 := Scalar.addi v3 c224_i32_265
  v269
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_272 : BitVec 32 := 336#32
  let v276 : BitVec 32 := Scalar.addi v3 c336_i32_272
  v276
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_279 : BitVec 32 := 448#32
  let v283 : BitVec 32 := Scalar.addi v3 c448_i32_279
  v283
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_286 : BitVec 32 := 560#32
  let v290 : BitVec 32 := Scalar.addi v3 c560_i32_286
  v290
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_293 : BitVec 32 := 672#32
  let v297 : BitVec 32 := Scalar.addi v3 c672_i32_293
  v297
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_296 : BitVec 32 := 0#32
  let v301 : BitVec 32 := Scalar.addi v3 c0_i32_296
  v301
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_299 : BitVec 32 := 112#32
  let v305 : BitVec 32 := Scalar.addi v3 c112_i32_299
  v305
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_302 : BitVec 32 := 224#32
  let v309 : BitVec 32 := Scalar.addi v3 c224_i32_302
  v309
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_305 : BitVec 32 := 336#32
  let v313 : BitVec 32 := Scalar.addi v3 c336_i32_305
  v313
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_308 : BitVec 32 := 448#32
  let v317 : BitVec 32 := Scalar.addi v3 c448_i32_308
  v317
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_311 : BitVec 32 := 560#32
  let v321 : BitVec 32 := Scalar.addi v3 c560_i32_311
  v321
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_314 : BitVec 32 := 672#32
  let v325 : BitVec 32 := Scalar.addi v3 c672_i32_314
  v325
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_356 : BitVec 32 := 0#32
  let v358 : BitVec 32 := Scalar.addi v3 c0_i32_356
  v358
def k0_off5 (i : grid0.Coords) (c0_i32_356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v358 : BitVec 32 := Scalar.addi v3 c0_i32_356
  let v359 : BitVec 32 := v358
  let c384_i32 : BitVec 32 := 384#32
  ![v359.toNat, 384]
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_362 : BitVec 32 := 112#32
  let v365 : BitVec 32 := Scalar.addi v3 c112_i32_362
  v365
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_369 : BitVec 32 := 224#32
  let v372 : BitVec 32 := Scalar.addi v3 c224_i32_369
  v372
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_376 : BitVec 32 := 336#32
  let v379 : BitVec 32 := Scalar.addi v3 c336_i32_376
  v379
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_383 : BitVec 32 := 448#32
  let v386 : BitVec 32 := Scalar.addi v3 c448_i32_383
  v386
def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_390 : BitVec 32 := 560#32
  let v393 : BitVec 32 := Scalar.addi v3 c560_i32_390
  v393
def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_397 : BitVec 32 := 672#32
  let v400 : BitVec 32 := Scalar.addi v3 c672_i32_397
  v400
def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_400 : BitVec 32 := 0#32
  let v404 : BitVec 32 := Scalar.addi v3 c0_i32_400
  v404
def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_403 : BitVec 32 := 112#32
  let v408 : BitVec 32 := Scalar.addi v3 c112_i32_403
  v408
def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_406 : BitVec 32 := 224#32
  let v412 : BitVec 32 := Scalar.addi v3 c224_i32_406
  v412
def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_409 : BitVec 32 := 336#32
  let v416 : BitVec 32 := Scalar.addi v3 c336_i32_409
  v416
def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_412 : BitVec 32 := 448#32
  let v420 : BitVec 32 := Scalar.addi v3 c448_i32_412
  v420
def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_415 : BitVec 32 := 560#32
  let v424 : BitVec 32 := Scalar.addi v3 c560_i32_415
  v424
def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_418 : BitVec 32 := 672#32
  let v428 : BitVec 32 := Scalar.addi v3 c672_i32_418
  v428
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  v2
def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_49 : BitVec 32 := 0#32
  let v49 : BitVec 32 := Scalar.addi v3 c0_i32_49
  v49
def k1_off2 (i : grid1.Coords) (c0_i32_49 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v49 : BitVec 32 := Scalar.addi v3 c0_i32_49
  let v50 : BitVec 32 := v49
  let c0_i32_50 : BitVec 32 := 0#32
  ![v50.toNat, 0]
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32 : BitVec 32 := 112#32
  let v56 : BitVec 32 := Scalar.addi v3 c112_i32
  v56
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32 : BitVec 32 := 224#32
  let v63 : BitVec 32 := Scalar.addi v3 c224_i32
  v63
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32 : BitVec 32 := 336#32
  let v70 : BitVec 32 := Scalar.addi v3 c336_i32
  v70
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32 : BitVec 32 := 448#32
  let v77 : BitVec 32 := Scalar.addi v3 c448_i32
  v77
def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32 : BitVec 32 := 560#32
  let v84 : BitVec 32 := Scalar.addi v3 c560_i32
  v84
def k1_mult8 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32 : BitVec 32 := 672#32
  let v91 : BitVec 32 := Scalar.addi v3 c672_i32
  v91
def k1_mult9 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_88 : BitVec 32 := 0#32
  let v95 : BitVec 32 := Scalar.addi v3 c0_i32_88
  v95
def k1_mult10 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_91 : BitVec 32 := 112#32
  let v99 : BitVec 32 := Scalar.addi v3 c112_i32_91
  v99
def k1_mult11 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_94 : BitVec 32 := 224#32
  let v103 : BitVec 32 := Scalar.addi v3 c224_i32_94
  v103
def k1_mult12 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_97 : BitVec 32 := 336#32
  let v107 : BitVec 32 := Scalar.addi v3 c336_i32_97
  v107
def k1_mult13 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_100 : BitVec 32 := 448#32
  let v111 : BitVec 32 := Scalar.addi v3 c448_i32_100
  v111
def k1_mult14 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_103 : BitVec 32 := 560#32
  let v115 : BitVec 32 := Scalar.addi v3 c560_i32_103
  v115
def k1_mult15 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_106 : BitVec 32 := 672#32
  let v119 : BitVec 32 := Scalar.addi v3 c672_i32_106
  v119
def k1_mult16 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_148 : BitVec 32 := 0#32
  let v152 : BitVec 32 := Scalar.addi v3 c0_i32_148
  v152
def k1_off3 (i : grid1.Coords) (c0_i32_148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v152 : BitVec 32 := Scalar.addi v3 c0_i32_148
  let v153 : BitVec 32 := v152
  let c128_i32 : BitVec 32 := 128#32
  ![v153.toNat, 128]
def k1_mult17 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_154 : BitVec 32 := 112#32
  let v159 : BitVec 32 := Scalar.addi v3 c112_i32_154
  v159
def k1_mult18 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_161 : BitVec 32 := 224#32
  let v166 : BitVec 32 := Scalar.addi v3 c224_i32_161
  v166
def k1_mult19 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_168 : BitVec 32 := 336#32
  let v173 : BitVec 32 := Scalar.addi v3 c336_i32_168
  v173
def k1_mult20 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_175 : BitVec 32 := 448#32
  let v180 : BitVec 32 := Scalar.addi v3 c448_i32_175
  v180
def k1_mult21 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_182 : BitVec 32 := 560#32
  let v187 : BitVec 32 := Scalar.addi v3 c560_i32_182
  v187
def k1_mult22 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_189 : BitVec 32 := 672#32
  let v194 : BitVec 32 := Scalar.addi v3 c672_i32_189
  v194
def k1_mult23 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_192 : BitVec 32 := 0#32
  let v198 : BitVec 32 := Scalar.addi v3 c0_i32_192
  v198
def k1_mult24 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_195 : BitVec 32 := 112#32
  let v202 : BitVec 32 := Scalar.addi v3 c112_i32_195
  v202
def k1_mult25 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_198 : BitVec 32 := 224#32
  let v206 : BitVec 32 := Scalar.addi v3 c224_i32_198
  v206
def k1_mult26 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_201 : BitVec 32 := 336#32
  let v210 : BitVec 32 := Scalar.addi v3 c336_i32_201
  v210
def k1_mult27 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_204 : BitVec 32 := 448#32
  let v214 : BitVec 32 := Scalar.addi v3 c448_i32_204
  v214
def k1_mult28 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_207 : BitVec 32 := 560#32
  let v218 : BitVec 32 := Scalar.addi v3 c560_i32_207
  v218
def k1_mult29 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_210 : BitVec 32 := 672#32
  let v222 : BitVec 32 := Scalar.addi v3 c672_i32_210
  v222
def k1_mult30 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_252 : BitVec 32 := 0#32
  let v255 : BitVec 32 := Scalar.addi v3 c0_i32_252
  v255
def k1_off4 (i : grid1.Coords) (c0_i32_252 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v255 : BitVec 32 := Scalar.addi v3 c0_i32_252
  let v256 : BitVec 32 := v255
  let c256_i32 : BitVec 32 := 256#32
  ![v256.toNat, 256]
def k1_mult31 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_258 : BitVec 32 := 112#32
  let v262 : BitVec 32 := Scalar.addi v3 c112_i32_258
  v262
def k1_mult32 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_265 : BitVec 32 := 224#32
  let v269 : BitVec 32 := Scalar.addi v3 c224_i32_265
  v269
def k1_mult33 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_272 : BitVec 32 := 336#32
  let v276 : BitVec 32 := Scalar.addi v3 c336_i32_272
  v276
def k1_mult34 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_279 : BitVec 32 := 448#32
  let v283 : BitVec 32 := Scalar.addi v3 c448_i32_279
  v283
def k1_mult35 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_286 : BitVec 32 := 560#32
  let v290 : BitVec 32 := Scalar.addi v3 c560_i32_286
  v290
def k1_mult36 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_293 : BitVec 32 := 672#32
  let v297 : BitVec 32 := Scalar.addi v3 c672_i32_293
  v297
def k1_mult37 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_296 : BitVec 32 := 0#32
  let v301 : BitVec 32 := Scalar.addi v3 c0_i32_296
  v301
def k1_mult38 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_299 : BitVec 32 := 112#32
  let v305 : BitVec 32 := Scalar.addi v3 c112_i32_299
  v305
def k1_mult39 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_302 : BitVec 32 := 224#32
  let v309 : BitVec 32 := Scalar.addi v3 c224_i32_302
  v309
def k1_mult40 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_305 : BitVec 32 := 336#32
  let v313 : BitVec 32 := Scalar.addi v3 c336_i32_305
  v313
def k1_mult41 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_308 : BitVec 32 := 448#32
  let v317 : BitVec 32 := Scalar.addi v3 c448_i32_308
  v317
def k1_mult42 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_311 : BitVec 32 := 560#32
  let v321 : BitVec 32 := Scalar.addi v3 c560_i32_311
  v321
def k1_mult43 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_314 : BitVec 32 := 672#32
  let v325 : BitVec 32 := Scalar.addi v3 c672_i32_314
  v325
def k1_mult44 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_356 : BitVec 32 := 0#32
  let v358 : BitVec 32 := Scalar.addi v3 c0_i32_356
  v358
def k1_off5 (i : grid1.Coords) (c0_i32_356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v358 : BitVec 32 := Scalar.addi v3 c0_i32_356
  let v359 : BitVec 32 := v358
  let c384_i32 : BitVec 32 := 384#32
  ![v359.toNat, 384]
def k1_mult45 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_362 : BitVec 32 := 112#32
  let v365 : BitVec 32 := Scalar.addi v3 c112_i32_362
  v365
def k1_mult46 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_369 : BitVec 32 := 224#32
  let v372 : BitVec 32 := Scalar.addi v3 c224_i32_369
  v372
def k1_mult47 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_376 : BitVec 32 := 336#32
  let v379 : BitVec 32 := Scalar.addi v3 c336_i32_376
  v379
def k1_mult48 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_383 : BitVec 32 := 448#32
  let v386 : BitVec 32 := Scalar.addi v3 c448_i32_383
  v386
def k1_mult49 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_390 : BitVec 32 := 560#32
  let v393 : BitVec 32 := Scalar.addi v3 c560_i32_390
  v393
def k1_mult50 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_397 : BitVec 32 := 672#32
  let v400 : BitVec 32 := Scalar.addi v3 c672_i32_397
  v400
def k1_mult51 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_400 : BitVec 32 := 0#32
  let v404 : BitVec 32 := Scalar.addi v3 c0_i32_400
  v404
def k1_mult52 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_403 : BitVec 32 := 112#32
  let v408 : BitVec 32 := Scalar.addi v3 c112_i32_403
  v408
def k1_mult53 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_406 : BitVec 32 := 224#32
  let v412 : BitVec 32 := Scalar.addi v3 c224_i32_406
  v412
def k1_mult54 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_409 : BitVec 32 := 336#32
  let v416 : BitVec 32 := Scalar.addi v3 c336_i32_409
  v416
def k1_mult55 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_412 : BitVec 32 := 448#32
  let v420 : BitVec 32 := Scalar.addi v3 c448_i32_412
  v420
def k1_mult56 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_415 : BitVec 32 := 560#32
  let v424 : BitVec 32 := Scalar.addi v3 c560_i32_415
  v424
def k1_mult57 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_418 : BitVec 32 := 672#32
  let v428 : BitVec 32 := Scalar.addi v3 c672_i32_418
  v428
abbrev grid2 : Pipeline.Grid := ⟨2, ![2, 16], ![false, false]⟩

def k2_mult1 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  v2
def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k2_mult2 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_49 : BitVec 32 := 0#32
  let v49 : BitVec 32 := Scalar.addi v3 c0_i32_49
  v49
def k2_off2 (i : grid2.Coords) (c0_i32_49 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v49 : BitVec 32 := Scalar.addi v3 c0_i32_49
  let v50 : BitVec 32 := v49
  let c0_i32_50 : BitVec 32 := 0#32
  ![v50.toNat, 0]
def k2_mult3 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32 : BitVec 32 := 112#32
  let v56 : BitVec 32 := Scalar.addi v3 c112_i32
  v56
def k2_mult4 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32 : BitVec 32 := 224#32
  let v63 : BitVec 32 := Scalar.addi v3 c224_i32
  v63
def k2_mult5 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32 : BitVec 32 := 336#32
  let v70 : BitVec 32 := Scalar.addi v3 c336_i32
  v70
def k2_mult6 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32 : BitVec 32 := 448#32
  let v77 : BitVec 32 := Scalar.addi v3 c448_i32
  v77
def k2_mult7 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32 : BitVec 32 := 560#32
  let v84 : BitVec 32 := Scalar.addi v3 c560_i32
  v84
def k2_mult8 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32 : BitVec 32 := 672#32
  let v91 : BitVec 32 := Scalar.addi v3 c672_i32
  v91
def k2_mult9 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_88 : BitVec 32 := 0#32
  let v95 : BitVec 32 := Scalar.addi v3 c0_i32_88
  v95
def k2_mult10 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_91 : BitVec 32 := 112#32
  let v99 : BitVec 32 := Scalar.addi v3 c112_i32_91
  v99
def k2_mult11 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_94 : BitVec 32 := 224#32
  let v103 : BitVec 32 := Scalar.addi v3 c224_i32_94
  v103
def k2_mult12 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_97 : BitVec 32 := 336#32
  let v107 : BitVec 32 := Scalar.addi v3 c336_i32_97
  v107
def k2_mult13 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_100 : BitVec 32 := 448#32
  let v111 : BitVec 32 := Scalar.addi v3 c448_i32_100
  v111
def k2_mult14 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_103 : BitVec 32 := 560#32
  let v115 : BitVec 32 := Scalar.addi v3 c560_i32_103
  v115
def k2_mult15 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_106 : BitVec 32 := 672#32
  let v119 : BitVec 32 := Scalar.addi v3 c672_i32_106
  v119
def k2_mult16 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_148 : BitVec 32 := 0#32
  let v152 : BitVec 32 := Scalar.addi v3 c0_i32_148
  v152
def k2_off3 (i : grid2.Coords) (c0_i32_148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v152 : BitVec 32 := Scalar.addi v3 c0_i32_148
  let v153 : BitVec 32 := v152
  let c128_i32 : BitVec 32 := 128#32
  ![v153.toNat, 128]
def k2_mult17 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_154 : BitVec 32 := 112#32
  let v159 : BitVec 32 := Scalar.addi v3 c112_i32_154
  v159
def k2_mult18 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_161 : BitVec 32 := 224#32
  let v166 : BitVec 32 := Scalar.addi v3 c224_i32_161
  v166
def k2_mult19 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_168 : BitVec 32 := 336#32
  let v173 : BitVec 32 := Scalar.addi v3 c336_i32_168
  v173
def k2_mult20 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_175 : BitVec 32 := 448#32
  let v180 : BitVec 32 := Scalar.addi v3 c448_i32_175
  v180
def k2_mult21 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_182 : BitVec 32 := 560#32
  let v187 : BitVec 32 := Scalar.addi v3 c560_i32_182
  v187
def k2_mult22 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_189 : BitVec 32 := 672#32
  let v194 : BitVec 32 := Scalar.addi v3 c672_i32_189
  v194
def k2_mult23 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_192 : BitVec 32 := 0#32
  let v198 : BitVec 32 := Scalar.addi v3 c0_i32_192
  v198
def k2_mult24 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_195 : BitVec 32 := 112#32
  let v202 : BitVec 32 := Scalar.addi v3 c112_i32_195
  v202
def k2_mult25 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_198 : BitVec 32 := 224#32
  let v206 : BitVec 32 := Scalar.addi v3 c224_i32_198
  v206
def k2_mult26 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_201 : BitVec 32 := 336#32
  let v210 : BitVec 32 := Scalar.addi v3 c336_i32_201
  v210
def k2_mult27 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_204 : BitVec 32 := 448#32
  let v214 : BitVec 32 := Scalar.addi v3 c448_i32_204
  v214
def k2_mult28 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_207 : BitVec 32 := 560#32
  let v218 : BitVec 32 := Scalar.addi v3 c560_i32_207
  v218
def k2_mult29 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_210 : BitVec 32 := 672#32
  let v222 : BitVec 32 := Scalar.addi v3 c672_i32_210
  v222
def k2_mult30 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_252 : BitVec 32 := 0#32
  let v255 : BitVec 32 := Scalar.addi v3 c0_i32_252
  v255
def k2_off4 (i : grid2.Coords) (c0_i32_252 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v255 : BitVec 32 := Scalar.addi v3 c0_i32_252
  let v256 : BitVec 32 := v255
  let c256_i32 : BitVec 32 := 256#32
  ![v256.toNat, 256]
def k2_mult31 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_258 : BitVec 32 := 112#32
  let v262 : BitVec 32 := Scalar.addi v3 c112_i32_258
  v262
def k2_mult32 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_265 : BitVec 32 := 224#32
  let v269 : BitVec 32 := Scalar.addi v3 c224_i32_265
  v269
def k2_mult33 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_272 : BitVec 32 := 336#32
  let v276 : BitVec 32 := Scalar.addi v3 c336_i32_272
  v276
def k2_mult34 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_279 : BitVec 32 := 448#32
  let v283 : BitVec 32 := Scalar.addi v3 c448_i32_279
  v283
def k2_mult35 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_286 : BitVec 32 := 560#32
  let v290 : BitVec 32 := Scalar.addi v3 c560_i32_286
  v290
def k2_mult36 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_293 : BitVec 32 := 672#32
  let v297 : BitVec 32 := Scalar.addi v3 c672_i32_293
  v297
def k2_mult37 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_296 : BitVec 32 := 0#32
  let v301 : BitVec 32 := Scalar.addi v3 c0_i32_296
  v301
def k2_mult38 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_299 : BitVec 32 := 112#32
  let v305 : BitVec 32 := Scalar.addi v3 c112_i32_299
  v305
def k2_mult39 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_302 : BitVec 32 := 224#32
  let v309 : BitVec 32 := Scalar.addi v3 c224_i32_302
  v309
def k2_mult40 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_305 : BitVec 32 := 336#32
  let v313 : BitVec 32 := Scalar.addi v3 c336_i32_305
  v313
def k2_mult41 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_308 : BitVec 32 := 448#32
  let v317 : BitVec 32 := Scalar.addi v3 c448_i32_308
  v317
def k2_mult42 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_311 : BitVec 32 := 560#32
  let v321 : BitVec 32 := Scalar.addi v3 c560_i32_311
  v321
def k2_mult43 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_314 : BitVec 32 := 672#32
  let v325 : BitVec 32 := Scalar.addi v3 c672_i32_314
  v325
def k2_mult44 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_356 : BitVec 32 := 0#32
  let v358 : BitVec 32 := Scalar.addi v3 c0_i32_356
  v358
def k2_off5 (i : grid2.Coords) (c0_i32_356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v358 : BitVec 32 := Scalar.addi v3 c0_i32_356
  let v359 : BitVec 32 := v358
  let c384_i32 : BitVec 32 := 384#32
  ![v359.toNat, 384]
def k2_mult45 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_362 : BitVec 32 := 112#32
  let v365 : BitVec 32 := Scalar.addi v3 c112_i32_362
  v365
def k2_mult46 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_369 : BitVec 32 := 224#32
  let v372 : BitVec 32 := Scalar.addi v3 c224_i32_369
  v372
def k2_mult47 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_376 : BitVec 32 := 336#32
  let v379 : BitVec 32 := Scalar.addi v3 c336_i32_376
  v379
def k2_mult48 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_383 : BitVec 32 := 448#32
  let v386 : BitVec 32 := Scalar.addi v3 c448_i32_383
  v386
def k2_mult49 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_390 : BitVec 32 := 560#32
  let v393 : BitVec 32 := Scalar.addi v3 c560_i32_390
  v393
def k2_mult50 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_397 : BitVec 32 := 672#32
  let v400 : BitVec 32 := Scalar.addi v3 c672_i32_397
  v400
def k2_mult51 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_400 : BitVec 32 := 0#32
  let v404 : BitVec 32 := Scalar.addi v3 c0_i32_400
  v404
def k2_mult52 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_403 : BitVec 32 := 112#32
  let v408 : BitVec 32 := Scalar.addi v3 c112_i32_403
  v408
def k2_mult53 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_406 : BitVec 32 := 224#32
  let v412 : BitVec 32 := Scalar.addi v3 c224_i32_406
  v412
def k2_mult54 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_409 : BitVec 32 := 336#32
  let v416 : BitVec 32 := Scalar.addi v3 c336_i32_409
  v416
def k2_mult55 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_412 : BitVec 32 := 448#32
  let v420 : BitVec 32 := Scalar.addi v3 c448_i32_412
  v420
def k2_mult56 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_415 : BitVec 32 := 560#32
  let v424 : BitVec 32 := Scalar.addi v3 c560_i32_415
  v424
def k2_mult57 (i : grid2.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_418 : BitVec 32 := 672#32
  let v428 : BitVec 32 := Scalar.addi v3 c672_i32_418
  v428
abbrev grid3 : Pipeline.Grid := ⟨2, ![2, 16], ![false, false]⟩

def k3_mult1 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  v2
def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k3_mult2 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_49 : BitVec 32 := 0#32
  let v49 : BitVec 32 := Scalar.addi v3 c0_i32_49
  v49
def k3_off2 (i : grid3.Coords) (c0_i32_49 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v49 : BitVec 32 := Scalar.addi v3 c0_i32_49
  let v50 : BitVec 32 := v49
  let c0_i32_50 : BitVec 32 := 0#32
  ![v50.toNat, 0]
def k3_mult3 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32 : BitVec 32 := 112#32
  let v56 : BitVec 32 := Scalar.addi v3 c112_i32
  v56
def k3_mult4 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32 : BitVec 32 := 224#32
  let v63 : BitVec 32 := Scalar.addi v3 c224_i32
  v63
def k3_mult5 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32 : BitVec 32 := 336#32
  let v70 : BitVec 32 := Scalar.addi v3 c336_i32
  v70
def k3_mult6 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32 : BitVec 32 := 448#32
  let v77 : BitVec 32 := Scalar.addi v3 c448_i32
  v77
def k3_mult7 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32 : BitVec 32 := 560#32
  let v84 : BitVec 32 := Scalar.addi v3 c560_i32
  v84
def k3_mult8 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32 : BitVec 32 := 672#32
  let v91 : BitVec 32 := Scalar.addi v3 c672_i32
  v91
def k3_mult9 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_88 : BitVec 32 := 0#32
  let v95 : BitVec 32 := Scalar.addi v3 c0_i32_88
  v95
def k3_mult10 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_91 : BitVec 32 := 112#32
  let v99 : BitVec 32 := Scalar.addi v3 c112_i32_91
  v99
def k3_mult11 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_94 : BitVec 32 := 224#32
  let v103 : BitVec 32 := Scalar.addi v3 c224_i32_94
  v103
def k3_mult12 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_97 : BitVec 32 := 336#32
  let v107 : BitVec 32 := Scalar.addi v3 c336_i32_97
  v107
def k3_mult13 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_100 : BitVec 32 := 448#32
  let v111 : BitVec 32 := Scalar.addi v3 c448_i32_100
  v111
def k3_mult14 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_103 : BitVec 32 := 560#32
  let v115 : BitVec 32 := Scalar.addi v3 c560_i32_103
  v115
def k3_mult15 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_106 : BitVec 32 := 672#32
  let v119 : BitVec 32 := Scalar.addi v3 c672_i32_106
  v119
def k3_mult16 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_148 : BitVec 32 := 0#32
  let v152 : BitVec 32 := Scalar.addi v3 c0_i32_148
  v152
def k3_off3 (i : grid3.Coords) (c0_i32_148 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v152 : BitVec 32 := Scalar.addi v3 c0_i32_148
  let v153 : BitVec 32 := v152
  let c128_i32 : BitVec 32 := 128#32
  ![v153.toNat, 128]
def k3_mult17 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_154 : BitVec 32 := 112#32
  let v159 : BitVec 32 := Scalar.addi v3 c112_i32_154
  v159
def k3_mult18 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_161 : BitVec 32 := 224#32
  let v166 : BitVec 32 := Scalar.addi v3 c224_i32_161
  v166
def k3_mult19 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_168 : BitVec 32 := 336#32
  let v173 : BitVec 32 := Scalar.addi v3 c336_i32_168
  v173
def k3_mult20 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_175 : BitVec 32 := 448#32
  let v180 : BitVec 32 := Scalar.addi v3 c448_i32_175
  v180
def k3_mult21 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_182 : BitVec 32 := 560#32
  let v187 : BitVec 32 := Scalar.addi v3 c560_i32_182
  v187
def k3_mult22 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_189 : BitVec 32 := 672#32
  let v194 : BitVec 32 := Scalar.addi v3 c672_i32_189
  v194
def k3_mult23 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_192 : BitVec 32 := 0#32
  let v198 : BitVec 32 := Scalar.addi v3 c0_i32_192
  v198
def k3_mult24 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_195 : BitVec 32 := 112#32
  let v202 : BitVec 32 := Scalar.addi v3 c112_i32_195
  v202
def k3_mult25 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_198 : BitVec 32 := 224#32
  let v206 : BitVec 32 := Scalar.addi v3 c224_i32_198
  v206
def k3_mult26 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_201 : BitVec 32 := 336#32
  let v210 : BitVec 32 := Scalar.addi v3 c336_i32_201
  v210
def k3_mult27 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_204 : BitVec 32 := 448#32
  let v214 : BitVec 32 := Scalar.addi v3 c448_i32_204
  v214
def k3_mult28 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_207 : BitVec 32 := 560#32
  let v218 : BitVec 32 := Scalar.addi v3 c560_i32_207
  v218
def k3_mult29 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_210 : BitVec 32 := 672#32
  let v222 : BitVec 32 := Scalar.addi v3 c672_i32_210
  v222
def k3_mult30 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_252 : BitVec 32 := 0#32
  let v255 : BitVec 32 := Scalar.addi v3 c0_i32_252
  v255
def k3_off4 (i : grid3.Coords) (c0_i32_252 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v255 : BitVec 32 := Scalar.addi v3 c0_i32_252
  let v256 : BitVec 32 := v255
  let c256_i32 : BitVec 32 := 256#32
  ![v256.toNat, 256]
def k3_mult31 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_258 : BitVec 32 := 112#32
  let v262 : BitVec 32 := Scalar.addi v3 c112_i32_258
  v262
def k3_mult32 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_265 : BitVec 32 := 224#32
  let v269 : BitVec 32 := Scalar.addi v3 c224_i32_265
  v269
def k3_mult33 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_272 : BitVec 32 := 336#32
  let v276 : BitVec 32 := Scalar.addi v3 c336_i32_272
  v276
def k3_mult34 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_279 : BitVec 32 := 448#32
  let v283 : BitVec 32 := Scalar.addi v3 c448_i32_279
  v283
def k3_mult35 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_286 : BitVec 32 := 560#32
  let v290 : BitVec 32 := Scalar.addi v3 c560_i32_286
  v290
def k3_mult36 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_293 : BitVec 32 := 672#32
  let v297 : BitVec 32 := Scalar.addi v3 c672_i32_293
  v297
def k3_mult37 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_296 : BitVec 32 := 0#32
  let v301 : BitVec 32 := Scalar.addi v3 c0_i32_296
  v301
def k3_mult38 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_299 : BitVec 32 := 112#32
  let v305 : BitVec 32 := Scalar.addi v3 c112_i32_299
  v305
def k3_mult39 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_302 : BitVec 32 := 224#32
  let v309 : BitVec 32 := Scalar.addi v3 c224_i32_302
  v309
def k3_mult40 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_305 : BitVec 32 := 336#32
  let v313 : BitVec 32 := Scalar.addi v3 c336_i32_305
  v313
def k3_mult41 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_308 : BitVec 32 := 448#32
  let v317 : BitVec 32 := Scalar.addi v3 c448_i32_308
  v317
def k3_mult42 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_311 : BitVec 32 := 560#32
  let v321 : BitVec 32 := Scalar.addi v3 c560_i32_311
  v321
def k3_mult43 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_314 : BitVec 32 := 672#32
  let v325 : BitVec 32 := Scalar.addi v3 c672_i32_314
  v325
def k3_mult44 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_356 : BitVec 32 := 0#32
  let v358 : BitVec 32 := Scalar.addi v3 c0_i32_356
  v358
def k3_off5 (i : grid3.Coords) (c0_i32_356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let v358 : BitVec 32 := Scalar.addi v3 c0_i32_356
  let v359 : BitVec 32 := v358
  let c384_i32 : BitVec 32 := 384#32
  ![v359.toNat, 384]
def k3_mult45 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_362 : BitVec 32 := 112#32
  let v365 : BitVec 32 := Scalar.addi v3 c112_i32_362
  v365
def k3_mult46 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_369 : BitVec 32 := 224#32
  let v372 : BitVec 32 := Scalar.addi v3 c224_i32_369
  v372
def k3_mult47 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_376 : BitVec 32 := 336#32
  let v379 : BitVec 32 := Scalar.addi v3 c336_i32_376
  v379
def k3_mult48 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_383 : BitVec 32 := 448#32
  let v386 : BitVec 32 := Scalar.addi v3 c448_i32_383
  v386
def k3_mult49 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_390 : BitVec 32 := 560#32
  let v393 : BitVec 32 := Scalar.addi v3 c560_i32_390
  v393
def k3_mult50 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_397 : BitVec 32 := 672#32
  let v400 : BitVec 32 := Scalar.addi v3 c672_i32_397
  v400
def k3_mult51 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c0_i32_400 : BitVec 32 := 0#32
  let v404 : BitVec 32 := Scalar.addi v3 c0_i32_400
  v404
def k3_mult52 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c112_i32_403 : BitVec 32 := 112#32
  let v408 : BitVec 32 := Scalar.addi v3 c112_i32_403
  v408
def k3_mult53 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c224_i32_406 : BitVec 32 := 224#32
  let v412 : BitVec 32 := Scalar.addi v3 c224_i32_406
  v412
def k3_mult54 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c336_i32_409 : BitVec 32 := 336#32
  let v416 : BitVec 32 := Scalar.addi v3 c336_i32_409
  v416
def k3_mult55 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c448_i32_412 : BitVec 32 := 448#32
  let v420 : BitVec 32 := Scalar.addi v3 c448_i32_412
  v420
def k3_mult56 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c560_i32_415 : BitVec 32 := 560#32
  let v424 : BitVec 32 := Scalar.addi v3 c560_i32_415
  v424
def k3_mult57 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let v3 : BitVec 32 := v2
  let c672_i32_418 : BitVec 32 := 672#32
  let v428 : BitVec 32 := Scalar.addi v3 c672_i32_418
  v428
abbrev grid4 : Pipeline.Grid := ⟨1, ![28], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage4_0 : Fin 2 → Memref sig .tc .vmem S896x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S896x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![28], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

abbrev stage5_0 : Fin 2 → Memref sig .tc .vmem S896x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S896x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![28], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

abbrev stage6_0 : Fin 2 → Memref sig .tc .vmem S896x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S896x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![28], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c84_i32 : BitVec 32 := 84#32
  let v0 : BitVec 32 := Scalar.addi c84_i32 arg0
  let c0_i32 : BitVec 32 := 0#32
  let c0_i32_0 : BitVec 32 := 0#32
  ![v0.toNat, c0_i32.toNat]

abbrev stage7_0 : Fin 2 → Memref sig .tc .vmem S896x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S896x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  bcast_S_S352 : S_.BroadcastsInDim S352 (![] : Fin 0 → Fin S352.rank)
  concatenates_S100000_S352_S100352_d0 : Shape.Concatenates [S100000, S352] S100352 0
  shapeCasts_S512_S1x512 : S512.ShapeCasts S1x512
  slices_S100352_S25088_0 : S100352.Slices ![0] S25088
  shapeCasts_S25088_S32x7x112 : S25088.ShapeCasts S32x7x112
  squeezes_S1x7x112_S7x112 : S1x7x112.Squeezes S7x112
  inb_S7x112_S1x112_0_0 : ∀ a, (![0, 0] : Fin 2 → Nat) a + S1x112.size a ≤ S7x112.size a
  squeezes_S1x112_S112 : S1x112.Squeezes S112
  inb_S100000x128_S100000x128_0_0 : ∀ a, (![0, 0] : Fin 2 → Nat) a + S100000x128.size a ≤ S100000x128.size a
  gathers_S100000x128_S112x128 : S100000x128.Gathers 0 S112x128
  inb_S7x112_S1x112_1_0 : ∀ a, (![1, 0] : Fin 2 → Nat) a + S1x112.size a ≤ S7x112.size a
  inb_S7x112_S1x112_2_0 : ∀ a, (![2, 0] : Fin 2 → Nat) a + S1x112.size a ≤ S7x112.size a
  inb_S7x112_S1x112_3_0 : ∀ a, (![3, 0] : Fin 2 → Nat) a + S1x112.size a ≤ S7x112.size a
  inb_S7x112_S1x112_4_0 : ∀ a, (![4, 0] : Fin 2 → Nat) a + S1x112.size a ≤ S7x112.size a
  inb_S7x112_S1x112_5_0 : ∀ a, (![5, 0] : Fin 2 → Nat) a + S1x112.size a ≤ S7x112.size a
  inb_S7x112_S1x112_6_0 : ∀ a, (![6, 0] : Fin 2 → Nat) a + S1x112.size a ≤ S7x112.size a
  slices_S100352_S25088_25088 : S100352.Slices ![25088] S25088
  slices_S100352_S25088_50176 : S100352.Slices ![50176] S25088
  slices_S100352_S25088_75264 : S100352.Slices ![75264] S25088
  inb_S896x512_S896x512_0_0 : ∀ a, (![0, 0] : Fin 2 → Nat) a + S896x512.size a ≤ S896x512.size a
  h_S896x512 : 0 < S896x512.numel
  shapeCasts_S896x512_S896x512 : S896x512.ShapeCasts S896x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S896x512 : S1x512.Broadcasts S896x512
  reduces_S896x512_S896 : S896x512.Reduces [1] S896
  shapeCasts_S896_S896x1 : S896.ShapeCasts S896x1
  broadcasts_S896x1_S896x512 : S896x1.Broadcasts S896x512
  dot_S896x512_S512x512_S896x512_1_1_0_0_n_n_wf : DotDims.WF S896x512 S512x512 S896x512 [1] [1] [0] [0] [] []
  hcc0_scratch11 : 0 + S_.numel ≤ 104
  hcc0_scratch12 : 1 + S_.numel ≤ 104
  hcc0_scratch13 : 2 + S_.numel ≤ 104
  hcc0_scratch14 : 3 + S_.numel ≤ 104
  hcc0_scratch15 : 4 + S_.numel ≤ 104
  hcc0_scratch16 : 5 + S_.numel ≤ 104
  hcc0_scratch17 : 6 + S_.numel ≤ 104
  hcc0_scratch18 : 7 + S_.numel ≤ 104
  hcc0_scratch19 : 8 + S_.numel ≤ 104
  hcc0_scratch20 : 9 + S_.numel ≤ 104
  hcc0_scratch21 : 10 + S_.numel ≤ 104
  hcc0_scratch22 : 11 + S_.numel ≤ 104
  hcc0_scratch23 : 12 + S_.numel ≤ 104
  hcc0_scratch24 : 13 + S_.numel ≤ 104
  hcc0_scratch25 : 14 + S_.numel ≤ 104
  hcc0_scratch26 : 15 + S_.numel ≤ 104
  hcc0_scratch27 : 16 + S_.numel ≤ 104
  hcc0_scratch28 : 17 + S_.numel ≤ 104
  hcc1_scratch11 : 18 + S_.numel ≤ 104
  hcc1_scratch12 : 19 + S_.numel ≤ 104
  hcc1_scratch13 : 20 + S_.numel ≤ 104
  hcc1_scratch14 : 21 + S_.numel ≤ 104
  hcc1_scratch15 : 22 + S_.numel ≤ 104
  hcc1_scratch16 : 23 + S_.numel ≤ 104
  hcc1_scratch17 : 24 + S_.numel ≤ 104
  hcc1_scratch18 : 25 + S_.numel ≤ 104
  hcc1_scratch19 : 26 + S_.numel ≤ 104
  hcc1_scratch20 : 27 + S_.numel ≤ 104
  hcc1_scratch21 : 28 + S_.numel ≤ 104
  hcc1_scratch22 : 29 + S_.numel ≤ 104
  hcc1_scratch23 : 30 + S_.numel ≤ 104
  hcc1_scratch24 : 31 + S_.numel ≤ 104
  hcc1_scratch25 : 32 + S_.numel ≤ 104
  hcc1_scratch26 : 33 + S_.numel ≤ 104
  hcc1_scratch27 : 34 + S_.numel ≤ 104
  hcc1_scratch28 : 35 + S_.numel ≤ 104
  hcc2_scratch11 : 36 + S_.numel ≤ 104
  hcc2_scratch12 : 37 + S_.numel ≤ 104
  hcc2_scratch13 : 38 + S_.numel ≤ 104
  hcc2_scratch14 : 39 + S_.numel ≤ 104
  hcc2_scratch15 : 40 + S_.numel ≤ 104
  hcc2_scratch16 : 41 + S_.numel ≤ 104
  hcc2_scratch17 : 42 + S_.numel ≤ 104
  hcc2_scratch18 : 43 + S_.numel ≤ 104
  hcc2_scratch19 : 44 + S_.numel ≤ 104
  hcc2_scratch20 : 45 + S_.numel ≤ 104
  hcc2_scratch21 : 46 + S_.numel ≤ 104
  hcc2_scratch22 : 47 + S_.numel ≤ 104
  hcc2_scratch23 : 48 + S_.numel ≤ 104
  hcc2_scratch24 : 49 + S_.numel ≤ 104
  hcc2_scratch25 : 50 + S_.numel ≤ 104
  hcc2_scratch26 : 51 + S_.numel ≤ 104
  hcc2_scratch27 : 52 + S_.numel ≤ 104
  hcc2_scratch28 : 53 + S_.numel ≤ 104
  hcc3_scratch11 : 54 + S_.numel ≤ 104
  hcc3_scratch12 : 55 + S_.numel ≤ 104
  hcc3_scratch13 : 56 + S_.numel ≤ 104
  hcc3_scratch14 : 57 + S_.numel ≤ 104
  hcc3_scratch15 : 58 + S_.numel ≤ 104
  hcc3_scratch16 : 59 + S_.numel ≤ 104
  hcc3_scratch17 : 60 + S_.numel ≤ 104
  hcc3_scratch18 : 61 + S_.numel ≤ 104
  hcc3_scratch19 : 62 + S_.numel ≤ 104
  hcc3_scratch20 : 63 + S_.numel ≤ 104
  hcc3_scratch21 : 64 + S_.numel ≤ 104
  hcc3_scratch22 : 65 + S_.numel ≤ 104
  hcc3_scratch23 : 66 + S_.numel ≤ 104
  hcc3_scratch24 : 67 + S_.numel ≤ 104
  hcc3_scratch25 : 68 + S_.numel ≤ 104
  hcc3_scratch26 : 69 + S_.numel ≤ 104
  hcc3_scratch27 : 70 + S_.numel ≤ 104
  hcc3_scratch28 : 71 + S_.numel ≤ 104
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 8 ∣ (k0_mult1 i).toNat
  k0_off1_inb : ∀ i : grid0.Coords, ∀ a, (k0_off1 i) a + S1x7x112.size a ≤ S32x7x112.size a
  k0_mult2_dvd : ∀ i : grid0.Coords, 8 ∣ (k0_mult2 i).toNat
  k0_off2_inb : ∀ i : grid0.Coords, ∀ (r : Fin 7), ∀ a, (k0_off2 i (BitVec.ofNat 32 (112 * r.val))) a + S112x128.size a ≤ S25088x512.size a
  k0_mult3_dvd : ∀ i : grid0.Coords, 8 ∣ (k0_mult3 i).toNat
  k0_mult4_dvd : ∀ i : grid0.Coords, 8 ∣ (k0_mult4 i).toNat
  k0_mult5_dvd : ∀ i : grid0.Coords, 8 ∣ (k0_mult5 i).toNat
  k0_mult6_dvd : ∀ i : grid0.Coords, 8 ∣ (k0_mult6 i).toNat
  k0_mult7_dvd : ∀ i : grid0.Coords, 8 ∣ (k0_mult7 i).toNat
  k0_mult8_dvd : ∀ i : grid0.Coords, 8 ∣ (k0_mult8 i).toNat
  k0_mult9_dvd : ∀ i : grid0.Coords, 8 ∣ (k0_mult9 i).toNat
  k0_mult10_dvd : ∀ i : grid0.Coords, 8 ∣ (k0_mult10 i).toNat
  k0_mult11_dvd : ∀ i : grid0.Coords, 8 ∣ (k0_mult11 i).toNat
  k0_mult12_dvd : ∀ i : grid0.Coords, 8 ∣ (k0_mult12 i).toNat
  k0_mult13_dvd : ∀ i : grid0.Coords, 8 ∣ (k0_mult13 i).toNat
  k0_mult14_dvd : ∀ i : grid0.Coords, 8 ∣ (k0_mult14 i).toNat
  k0_mult15_dvd : ∀ i : grid0.Coords, 8 ∣ (k0_mult15 i).toNat
  k0_mult16_dvd : ∀ i : grid0.Coords, 8 ∣ (k0_mult16 i).toNat
  k0_off3_inb : ∀ i : grid0.Coords, ∀ (r : Fin 7), ∀ a, (k0_off3 i (BitVec.ofNat 32 (112 * r.val))) a + S112x128.size a ≤ S25088x512.size a
  k0_mult17_dvd : ∀ i : grid0.Coords, 8 ∣ (k0_mult17 i).toNat
  k0_mult18_dvd : ∀ i : grid0.Coords, 8 ∣ (k0_mult18 i).toNat
  k0_mult19_dvd : ∀ i : grid0.Coords, 8 ∣ (k0_mult19 i).toNat
  k0_mult20_dvd : ∀ i : grid0.Coords, 8 ∣ (k0_mult20 i).toNat
  k0_mult21_dvd : ∀ i : grid0.Coords, 8 ∣ (k0_mult21 i).toNat
  k0_mult22_dvd : ∀ i : grid0.Coords, 8 ∣ (k0_mult22 i).toNat
  k0_mult23_dvd : ∀ i : grid0.Coords, 8 ∣ (k0_mult23 i).toNat
  k0_mult24_dvd : ∀ i : grid0.Coords, 8 ∣ (k0_mult24 i).toNat
  k0_mult25_dvd : ∀ i : grid0.Coords, 8 ∣ (k0_mult25 i).toNat
  k0_mult26_dvd : ∀ i : grid0.Coords, 8 ∣ (k0_mult26 i).toNat
  k0_mult27_dvd : ∀ i : grid0.Coords, 8 ∣ (k0_mult27 i).toNat
  k0_mult28_dvd : ∀ i : grid0.Coords, 8 ∣ (k0_mult28 i).toNat
  k0_mult29_dvd : ∀ i : grid0.Coords, 8 ∣ (k0_mult29 i).toNat
  k0_mult30_dvd : ∀ i : grid0.Coords, 8 ∣ (k0_mult30 i).toNat
  k0_off4_inb : ∀ i : grid0.Coords, ∀ (r : Fin 7), ∀ a, (k0_off4 i (BitVec.ofNat 32 (112 * r.val))) a + S112x128.size a ≤ S25088x512.size a
  k0_mult31_dvd : ∀ i : grid0.Coords, 8 ∣ (k0_mult31 i).toNat
  k0_mult32_dvd : ∀ i : grid0.Coords, 8 ∣ (k0_mult32 i).toNat
  k0_mult33_dvd : ∀ i : grid0.Coords, 8 ∣ (k0_mult33 i).toNat
  k0_mult34_dvd : ∀ i : grid0.Coords, 8 ∣ (k0_mult34 i).toNat
  k0_mult35_dvd : ∀ i : grid0.Coords, 8 ∣ (k0_mult35 i).toNat
  k0_mult36_dvd : ∀ i : grid0.Coords, 8 ∣ (k0_mult36 i).toNat
  k0_mult37_dvd : ∀ i : grid0.Coords, 8 ∣ (k0_mult37 i).toNat
  k0_mult38_dvd : ∀ i : grid0.Coords, 8 ∣ (k0_mult38 i).toNat
  k0_mult39_dvd : ∀ i : grid0.Coords, 8 ∣ (k0_mult39 i).toNat
  k0_mult40_dvd : ∀ i : grid0.Coords, 8 ∣ (k0_mult40 i).toNat
  k0_mult41_dvd : ∀ i : grid0.Coords, 8 ∣ (k0_mult41 i).toNat
  k0_mult42_dvd : ∀ i : grid0.Coords, 8 ∣ (k0_mult42 i).toNat
  k0_mult43_dvd : ∀ i : grid0.Coords, 8 ∣ (k0_mult43 i).toNat
  k0_mult44_dvd : ∀ i : grid0.Coords, 8 ∣ (k0_mult44 i).toNat
  k0_off5_inb : ∀ i : grid0.Coords, ∀ (r : Fin 7), ∀ a, (k0_off5 i (BitVec.ofNat 32 (112 * r.val))) a + S112x128.size a ≤ S25088x512.size a
  k0_mult45_dvd : ∀ i : grid0.Coords, 8 ∣ (k0_mult45 i).toNat
  k0_mult46_dvd : ∀ i : grid0.Coords, 8 ∣ (k0_mult46 i).toNat
  k0_mult47_dvd : ∀ i : grid0.Coords, 8 ∣ (k0_mult47 i).toNat
  k0_mult48_dvd : ∀ i : grid0.Coords, 8 ∣ (k0_mult48 i).toNat
  k0_mult49_dvd : ∀ i : grid0.Coords, 8 ∣ (k0_mult49 i).toNat
  k0_mult50_dvd : ∀ i : grid0.Coords, 8 ∣ (k0_mult50 i).toNat
  k0_mult51_dvd : ∀ i : grid0.Coords, 8 ∣ (k0_mult51 i).toNat
  k0_mult52_dvd : ∀ i : grid0.Coords, 8 ∣ (k0_mult52 i).toNat
  k0_mult53_dvd : ∀ i : grid0.Coords, 8 ∣ (k0_mult53 i).toNat
  k0_mult54_dvd : ∀ i : grid0.Coords, 8 ∣ (k0_mult54 i).toNat
  k0_mult55_dvd : ∀ i : grid0.Coords, 8 ∣ (k0_mult55 i).toNat
  k0_mult56_dvd : ∀ i : grid0.Coords, 8 ∣ (k0_mult56 i).toNat
  k0_mult57_dvd : ∀ i : grid0.Coords, 8 ∣ (k0_mult57 i).toNat
  hcore1 : grid1.bound 0 ≤ τ.nSC
  hsub1 : grid1.bound 1 ≤ τ.nSub
  k1_mult1_dvd : ∀ i : grid1.Coords, 8 ∣ (k1_mult1 i).toNat
  k1_off1_inb : ∀ i : grid1.Coords, ∀ a, (k1_off1 i) a + S1x7x112.size a ≤ S32x7x112.size a
  k1_mult2_dvd : ∀ i : grid1.Coords, 8 ∣ (k1_mult2 i).toNat
  k1_off2_inb : ∀ i : grid1.Coords, ∀ (r : Fin 7), ∀ a, (k1_off2 i (BitVec.ofNat 32 (112 * r.val))) a + S112x128.size a ≤ S25088x512.size a
  k1_mult3_dvd : ∀ i : grid1.Coords, 8 ∣ (k1_mult3 i).toNat
  k1_mult4_dvd : ∀ i : grid1.Coords, 8 ∣ (k1_mult4 i).toNat
  k1_mult5_dvd : ∀ i : grid1.Coords, 8 ∣ (k1_mult5 i).toNat
  k1_mult6_dvd : ∀ i : grid1.Coords, 8 ∣ (k1_mult6 i).toNat
  k1_mult7_dvd : ∀ i : grid1.Coords, 8 ∣ (k1_mult7 i).toNat
  k1_mult8_dvd : ∀ i : grid1.Coords, 8 ∣ (k1_mult8 i).toNat
  k1_mult9_dvd : ∀ i : grid1.Coords, 8 ∣ (k1_mult9 i).toNat
  k1_mult10_dvd : ∀ i : grid1.Coords, 8 ∣ (k1_mult10 i).toNat
  k1_mult11_dvd : ∀ i : grid1.Coords, 8 ∣ (k1_mult11 i).toNat
  k1_mult12_dvd : ∀ i : grid1.Coords, 8 ∣ (k1_mult12 i).toNat
  k1_mult13_dvd : ∀ i : grid1.Coords, 8 ∣ (k1_mult13 i).toNat
  k1_mult14_dvd : ∀ i : grid1.Coords, 8 ∣ (k1_mult14 i).toNat
  k1_mult15_dvd : ∀ i : grid1.Coords, 8 ∣ (k1_mult15 i).toNat
  k1_mult16_dvd : ∀ i : grid1.Coords, 8 ∣ (k1_mult16 i).toNat
  k1_off3_inb : ∀ i : grid1.Coords, ∀ (r : Fin 7), ∀ a, (k1_off3 i (BitVec.ofNat 32 (112 * r.val))) a + S112x128.size a ≤ S25088x512.size a
  k1_mult17_dvd : ∀ i : grid1.Coords, 8 ∣ (k1_mult17 i).toNat
  k1_mult18_dvd : ∀ i : grid1.Coords, 8 ∣ (k1_mult18 i).toNat
  k1_mult19_dvd : ∀ i : grid1.Coords, 8 ∣ (k1_mult19 i).toNat
  k1_mult20_dvd : ∀ i : grid1.Coords, 8 ∣ (k1_mult20 i).toNat
  k1_mult21_dvd : ∀ i : grid1.Coords, 8 ∣ (k1_mult21 i).toNat
  k1_mult22_dvd : ∀ i : grid1.Coords, 8 ∣ (k1_mult22 i).toNat
  k1_mult23_dvd : ∀ i : grid1.Coords, 8 ∣ (k1_mult23 i).toNat
  k1_mult24_dvd : ∀ i : grid1.Coords, 8 ∣ (k1_mult24 i).toNat
  k1_mult25_dvd : ∀ i : grid1.Coords, 8 ∣ (k1_mult25 i).toNat
  k1_mult26_dvd : ∀ i : grid1.Coords, 8 ∣ (k1_mult26 i).toNat
  k1_mult27_dvd : ∀ i : grid1.Coords, 8 ∣ (k1_mult27 i).toNat
  k1_mult28_dvd : ∀ i : grid1.Coords, 8 ∣ (k1_mult28 i).toNat
  k1_mult29_dvd : ∀ i : grid1.Coords, 8 ∣ (k1_mult29 i).toNat
  k1_mult30_dvd : ∀ i : grid1.Coords, 8 ∣ (k1_mult30 i).toNat
  k1_off4_inb : ∀ i : grid1.Coords, ∀ (r : Fin 7), ∀ a, (k1_off4 i (BitVec.ofNat 32 (112 * r.val))) a + S112x128.size a ≤ S25088x512.size a
  k1_mult31_dvd : ∀ i : grid1.Coords, 8 ∣ (k1_mult31 i).toNat
  k1_mult32_dvd : ∀ i : grid1.Coords, 8 ∣ (k1_mult32 i).toNat
  k1_mult33_dvd : ∀ i : grid1.Coords, 8 ∣ (k1_mult33 i).toNat
  k1_mult34_dvd : ∀ i : grid1.Coords, 8 ∣ (k1_mult34 i).toNat
  k1_mult35_dvd : ∀ i : grid1.Coords, 8 ∣ (k1_mult35 i).toNat
  k1_mult36_dvd : ∀ i : grid1.Coords, 8 ∣ (k1_mult36 i).toNat
  k1_mult37_dvd : ∀ i : grid1.Coords, 8 ∣ (k1_mult37 i).toNat
  k1_mult38_dvd : ∀ i : grid1.Coords, 8 ∣ (k1_mult38 i).toNat
  k1_mult39_dvd : ∀ i : grid1.Coords, 8 ∣ (k1_mult39 i).toNat
  k1_mult40_dvd : ∀ i : grid1.Coords, 8 ∣ (k1_mult40 i).toNat
  k1_mult41_dvd : ∀ i : grid1.Coords, 8 ∣ (k1_mult41 i).toNat
  k1_mult42_dvd : ∀ i : grid1.Coords, 8 ∣ (k1_mult42 i).toNat
  k1_mult43_dvd : ∀ i : grid1.Coords, 8 ∣ (k1_mult43 i).toNat
  k1_mult44_dvd : ∀ i : grid1.Coords, 8 ∣ (k1_mult44 i).toNat
  k1_off5_inb : ∀ i : grid1.Coords, ∀ (r : Fin 7), ∀ a, (k1_off5 i (BitVec.ofNat 32 (112 * r.val))) a + S112x128.size a ≤ S25088x512.size a
  k1_mult45_dvd : ∀ i : grid1.Coords, 8 ∣ (k1_mult45 i).toNat
  k1_mult46_dvd : ∀ i : grid1.Coords, 8 ∣ (k1_mult46 i).toNat
  k1_mult47_dvd : ∀ i : grid1.Coords, 8 ∣ (k1_mult47 i).toNat
  k1_mult48_dvd : ∀ i : grid1.Coords, 8 ∣ (k1_mult48 i).toNat
  k1_mult49_dvd : ∀ i : grid1.Coords, 8 ∣ (k1_mult49 i).toNat
  k1_mult50_dvd : ∀ i : grid1.Coords, 8 ∣ (k1_mult50 i).toNat
  k1_mult51_dvd : ∀ i : grid1.Coords, 8 ∣ (k1_mult51 i).toNat
  k1_mult52_dvd : ∀ i : grid1.Coords, 8 ∣ (k1_mult52 i).toNat
  k1_mult53_dvd : ∀ i : grid1.Coords, 8 ∣ (k1_mult53 i).toNat
  k1_mult54_dvd : ∀ i : grid1.Coords, 8 ∣ (k1_mult54 i).toNat
  k1_mult55_dvd : ∀ i : grid1.Coords, 8 ∣ (k1_mult55 i).toNat
  k1_mult56_dvd : ∀ i : grid1.Coords, 8 ∣ (k1_mult56 i).toNat
  k1_mult57_dvd : ∀ i : grid1.Coords, 8 ∣ (k1_mult57 i).toNat
  hcore2 : grid2.bound 0 ≤ τ.nSC
  hsub2 : grid2.bound 1 ≤ τ.nSub
  k2_mult1_dvd : ∀ i : grid2.Coords, 8 ∣ (k2_mult1 i).toNat
  k2_off1_inb : ∀ i : grid2.Coords, ∀ a, (k2_off1 i) a + S1x7x112.size a ≤ S32x7x112.size a
  k2_mult2_dvd : ∀ i : grid2.Coords, 8 ∣ (k2_mult2 i).toNat
  k2_off2_inb : ∀ i : grid2.Coords, ∀ (r : Fin 7), ∀ a, (k2_off2 i (BitVec.ofNat 32 (112 * r.val))) a + S112x128.size a ≤ S25088x512.size a
  k2_mult3_dvd : ∀ i : grid2.Coords, 8 ∣ (k2_mult3 i).toNat
  k2_mult4_dvd : ∀ i : grid2.Coords, 8 ∣ (k2_mult4 i).toNat
  k2_mult5_dvd : ∀ i : grid2.Coords, 8 ∣ (k2_mult5 i).toNat
  k2_mult6_dvd : ∀ i : grid2.Coords, 8 ∣ (k2_mult6 i).toNat
  k2_mult7_dvd : ∀ i : grid2.Coords, 8 ∣ (k2_mult7 i).toNat
  k2_mult8_dvd : ∀ i : grid2.Coords, 8 ∣ (k2_mult8 i).toNat
  k2_mult9_dvd : ∀ i : grid2.Coords, 8 ∣ (k2_mult9 i).toNat
  k2_mult10_dvd : ∀ i : grid2.Coords, 8 ∣ (k2_mult10 i).toNat
  k2_mult11_dvd : ∀ i : grid2.Coords, 8 ∣ (k2_mult11 i).toNat
  k2_mult12_dvd : ∀ i : grid2.Coords, 8 ∣ (k2_mult12 i).toNat
  k2_mult13_dvd : ∀ i : grid2.Coords, 8 ∣ (k2_mult13 i).toNat
  k2_mult14_dvd : ∀ i : grid2.Coords, 8 ∣ (k2_mult14 i).toNat
  k2_mult15_dvd : ∀ i : grid2.Coords, 8 ∣ (k2_mult15 i).toNat
  k2_mult16_dvd : ∀ i : grid2.Coords, 8 ∣ (k2_mult16 i).toNat
  k2_off3_inb : ∀ i : grid2.Coords, ∀ (r : Fin 7), ∀ a, (k2_off3 i (BitVec.ofNat 32 (112 * r.val))) a + S112x128.size a ≤ S25088x512.size a
  k2_mult17_dvd : ∀ i : grid2.Coords, 8 ∣ (k2_mult17 i).toNat
  k2_mult18_dvd : ∀ i : grid2.Coords, 8 ∣ (k2_mult18 i).toNat
  k2_mult19_dvd : ∀ i : grid2.Coords, 8 ∣ (k2_mult19 i).toNat
  k2_mult20_dvd : ∀ i : grid2.Coords, 8 ∣ (k2_mult20 i).toNat
  k2_mult21_dvd : ∀ i : grid2.Coords, 8 ∣ (k2_mult21 i).toNat
  k2_mult22_dvd : ∀ i : grid2.Coords, 8 ∣ (k2_mult22 i).toNat
  k2_mult23_dvd : ∀ i : grid2.Coords, 8 ∣ (k2_mult23 i).toNat
  k2_mult24_dvd : ∀ i : grid2.Coords, 8 ∣ (k2_mult24 i).toNat
  k2_mult25_dvd : ∀ i : grid2.Coords, 8 ∣ (k2_mult25 i).toNat
  k2_mult26_dvd : ∀ i : grid2.Coords, 8 ∣ (k2_mult26 i).toNat
  k2_mult27_dvd : ∀ i : grid2.Coords, 8 ∣ (k2_mult27 i).toNat
  k2_mult28_dvd : ∀ i : grid2.Coords, 8 ∣ (k2_mult28 i).toNat
  k2_mult29_dvd : ∀ i : grid2.Coords, 8 ∣ (k2_mult29 i).toNat
  k2_mult30_dvd : ∀ i : grid2.Coords, 8 ∣ (k2_mult30 i).toNat
  k2_off4_inb : ∀ i : grid2.Coords, ∀ (r : Fin 7), ∀ a, (k2_off4 i (BitVec.ofNat 32 (112 * r.val))) a + S112x128.size a ≤ S25088x512.size a
  k2_mult31_dvd : ∀ i : grid2.Coords, 8 ∣ (k2_mult31 i).toNat
  k2_mult32_dvd : ∀ i : grid2.Coords, 8 ∣ (k2_mult32 i).toNat
  k2_mult33_dvd : ∀ i : grid2.Coords, 8 ∣ (k2_mult33 i).toNat
  k2_mult34_dvd : ∀ i : grid2.Coords, 8 ∣ (k2_mult34 i).toNat
  k2_mult35_dvd : ∀ i : grid2.Coords, 8 ∣ (k2_mult35 i).toNat
  k2_mult36_dvd : ∀ i : grid2.Coords, 8 ∣ (k2_mult36 i).toNat
  k2_mult37_dvd : ∀ i : grid2.Coords, 8 ∣ (k2_mult37 i).toNat
  k2_mult38_dvd : ∀ i : grid2.Coords, 8 ∣ (k2_mult38 i).toNat
  k2_mult39_dvd : ∀ i : grid2.Coords, 8 ∣ (k2_mult39 i).toNat
  k2_mult40_dvd : ∀ i : grid2.Coords, 8 ∣ (k2_mult40 i).toNat
  k2_mult41_dvd : ∀ i : grid2.Coords, 8 ∣ (k2_mult41 i).toNat
  k2_mult42_dvd : ∀ i : grid2.Coords, 8 ∣ (k2_mult42 i).toNat
  k2_mult43_dvd : ∀ i : grid2.Coords, 8 ∣ (k2_mult43 i).toNat
  k2_mult44_dvd : ∀ i : grid2.Coords, 8 ∣ (k2_mult44 i).toNat
  k2_off5_inb : ∀ i : grid2.Coords, ∀ (r : Fin 7), ∀ a, (k2_off5 i (BitVec.ofNat 32 (112 * r.val))) a + S112x128.size a ≤ S25088x512.size a
  k2_mult45_dvd : ∀ i : grid2.Coords, 8 ∣ (k2_mult45 i).toNat
  k2_mult46_dvd : ∀ i : grid2.Coords, 8 ∣ (k2_mult46 i).toNat
  k2_mult47_dvd : ∀ i : grid2.Coords, 8 ∣ (k2_mult47 i).toNat
  k2_mult48_dvd : ∀ i : grid2.Coords, 8 ∣ (k2_mult48 i).toNat
  k2_mult49_dvd : ∀ i : grid2.Coords, 8 ∣ (k2_mult49 i).toNat
  k2_mult50_dvd : ∀ i : grid2.Coords, 8 ∣ (k2_mult50 i).toNat
  k2_mult51_dvd : ∀ i : grid2.Coords, 8 ∣ (k2_mult51 i).toNat
  k2_mult52_dvd : ∀ i : grid2.Coords, 8 ∣ (k2_mult52 i).toNat
  k2_mult53_dvd : ∀ i : grid2.Coords, 8 ∣ (k2_mult53 i).toNat
  k2_mult54_dvd : ∀ i : grid2.Coords, 8 ∣ (k2_mult54 i).toNat
  k2_mult55_dvd : ∀ i : grid2.Coords, 8 ∣ (k2_mult55 i).toNat
  k2_mult56_dvd : ∀ i : grid2.Coords, 8 ∣ (k2_mult56 i).toNat
  k2_mult57_dvd : ∀ i : grid2.Coords, 8 ∣ (k2_mult57 i).toNat
  hcore3 : grid3.bound 0 ≤ τ.nSC
  hsub3 : grid3.bound 1 ≤ τ.nSub
  k3_mult1_dvd : ∀ i : grid3.Coords, 8 ∣ (k3_mult1 i).toNat
  k3_off1_inb : ∀ i : grid3.Coords, ∀ a, (k3_off1 i) a + S1x7x112.size a ≤ S32x7x112.size a
  k3_mult2_dvd : ∀ i : grid3.Coords, 8 ∣ (k3_mult2 i).toNat
  k3_off2_inb : ∀ i : grid3.Coords, ∀ (r : Fin 7), ∀ a, (k3_off2 i (BitVec.ofNat 32 (112 * r.val))) a + S112x128.size a ≤ S25088x512.size a
  k3_mult3_dvd : ∀ i : grid3.Coords, 8 ∣ (k3_mult3 i).toNat
  k3_mult4_dvd : ∀ i : grid3.Coords, 8 ∣ (k3_mult4 i).toNat
  k3_mult5_dvd : ∀ i : grid3.Coords, 8 ∣ (k3_mult5 i).toNat
  k3_mult6_dvd : ∀ i : grid3.Coords, 8 ∣ (k3_mult6 i).toNat
  k3_mult7_dvd : ∀ i : grid3.Coords, 8 ∣ (k3_mult7 i).toNat
  k3_mult8_dvd : ∀ i : grid3.Coords, 8 ∣ (k3_mult8 i).toNat
  k3_mult9_dvd : ∀ i : grid3.Coords, 8 ∣ (k3_mult9 i).toNat
  k3_mult10_dvd : ∀ i : grid3.Coords, 8 ∣ (k3_mult10 i).toNat
  k3_mult11_dvd : ∀ i : grid3.Coords, 8 ∣ (k3_mult11 i).toNat
  k3_mult12_dvd : ∀ i : grid3.Coords, 8 ∣ (k3_mult12 i).toNat
  k3_mult13_dvd : ∀ i : grid3.Coords, 8 ∣ (k3_mult13 i).toNat
  k3_mult14_dvd : ∀ i : grid3.Coords, 8 ∣ (k3_mult14 i).toNat
  k3_mult15_dvd : ∀ i : grid3.Coords, 8 ∣ (k3_mult15 i).toNat
  k3_mult16_dvd : ∀ i : grid3.Coords, 8 ∣ (k3_mult16 i).toNat
  k3_off3_inb : ∀ i : grid3.Coords, ∀ (r : Fin 7), ∀ a, (k3_off3 i (BitVec.ofNat 32 (112 * r.val))) a + S112x128.size a ≤ S25088x512.size a
  k3_mult17_dvd : ∀ i : grid3.Coords, 8 ∣ (k3_mult17 i).toNat
  k3_mult18_dvd : ∀ i : grid3.Coords, 8 ∣ (k3_mult18 i).toNat
  k3_mult19_dvd : ∀ i : grid3.Coords, 8 ∣ (k3_mult19 i).toNat
  k3_mult20_dvd : ∀ i : grid3.Coords, 8 ∣ (k3_mult20 i).toNat
  k3_mult21_dvd : ∀ i : grid3.Coords, 8 ∣ (k3_mult21 i).toNat
  k3_mult22_dvd : ∀ i : grid3.Coords, 8 ∣ (k3_mult22 i).toNat
  k3_mult23_dvd : ∀ i : grid3.Coords, 8 ∣ (k3_mult23 i).toNat
  k3_mult24_dvd : ∀ i : grid3.Coords, 8 ∣ (k3_mult24 i).toNat
  k3_mult25_dvd : ∀ i : grid3.Coords, 8 ∣ (k3_mult25 i).toNat
  k3_mult26_dvd : ∀ i : grid3.Coords, 8 ∣ (k3_mult26 i).toNat
  k3_mult27_dvd : ∀ i : grid3.Coords, 8 ∣ (k3_mult27 i).toNat
  k3_mult28_dvd : ∀ i : grid3.Coords, 8 ∣ (k3_mult28 i).toNat
  k3_mult29_dvd : ∀ i : grid3.Coords, 8 ∣ (k3_mult29 i).toNat
  k3_mult30_dvd : ∀ i : grid3.Coords, 8 ∣ (k3_mult30 i).toNat
  k3_off4_inb : ∀ i : grid3.Coords, ∀ (r : Fin 7), ∀ a, (k3_off4 i (BitVec.ofNat 32 (112 * r.val))) a + S112x128.size a ≤ S25088x512.size a
  k3_mult31_dvd : ∀ i : grid3.Coords, 8 ∣ (k3_mult31 i).toNat
  k3_mult32_dvd : ∀ i : grid3.Coords, 8 ∣ (k3_mult32 i).toNat
  k3_mult33_dvd : ∀ i : grid3.Coords, 8 ∣ (k3_mult33 i).toNat
  k3_mult34_dvd : ∀ i : grid3.Coords, 8 ∣ (k3_mult34 i).toNat
  k3_mult35_dvd : ∀ i : grid3.Coords, 8 ∣ (k3_mult35 i).toNat
  k3_mult36_dvd : ∀ i : grid3.Coords, 8 ∣ (k3_mult36 i).toNat
  k3_mult37_dvd : ∀ i : grid3.Coords, 8 ∣ (k3_mult37 i).toNat
  k3_mult38_dvd : ∀ i : grid3.Coords, 8 ∣ (k3_mult38 i).toNat
  k3_mult39_dvd : ∀ i : grid3.Coords, 8 ∣ (k3_mult39 i).toNat
  k3_mult40_dvd : ∀ i : grid3.Coords, 8 ∣ (k3_mult40 i).toNat
  k3_mult41_dvd : ∀ i : grid3.Coords, 8 ∣ (k3_mult41 i).toNat
  k3_mult42_dvd : ∀ i : grid3.Coords, 8 ∣ (k3_mult42 i).toNat
  k3_mult43_dvd : ∀ i : grid3.Coords, 8 ∣ (k3_mult43 i).toNat
  k3_mult44_dvd : ∀ i : grid3.Coords, 8 ∣ (k3_mult44 i).toNat
  k3_off5_inb : ∀ i : grid3.Coords, ∀ (r : Fin 7), ∀ a, (k3_off5 i (BitVec.ofNat 32 (112 * r.val))) a + S112x128.size a ≤ S25088x512.size a
  k3_mult45_dvd : ∀ i : grid3.Coords, 8 ∣ (k3_mult45 i).toNat
  k3_mult46_dvd : ∀ i : grid3.Coords, 8 ∣ (k3_mult46 i).toNat
  k3_mult47_dvd : ∀ i : grid3.Coords, 8 ∣ (k3_mult47 i).toNat
  k3_mult48_dvd : ∀ i : grid3.Coords, 8 ∣ (k3_mult48 i).toNat
  k3_mult49_dvd : ∀ i : grid3.Coords, 8 ∣ (k3_mult49 i).toNat
  k3_mult50_dvd : ∀ i : grid3.Coords, 8 ∣ (k3_mult50 i).toNat
  k3_mult51_dvd : ∀ i : grid3.Coords, 8 ∣ (k3_mult51 i).toNat
  k3_mult52_dvd : ∀ i : grid3.Coords, 8 ∣ (k3_mult52 i).toNat
  k3_mult53_dvd : ∀ i : grid3.Coords, 8 ∣ (k3_mult53 i).toNat
  k3_mult54_dvd : ∀ i : grid3.Coords, 8 ∣ (k3_mult54 i).toNat
  k3_mult55_dvd : ∀ i : grid3.Coords, 8 ∣ (k3_mult55 i).toNat
  k3_mult56_dvd : ∀ i : grid3.Coords, 8 ∣ (k3_mult56 i).toNat
  k3_mult57_dvd : ∀ i : grid3.Coords, 8 ∣ (k3_mult57 i).toNat
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S896x512.size a ≤ S25088x512.size a
  hwx4_0 : ∀ i : grid4.Coords, EltTy.bits .f32 = 32 ∨ (Rect.block (s := S25088x512) S896x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hstart4_5 : ∀ (i : grid4.Coords) a, cc4_transform_5 i a * S896x512.size a < S100000x512.size a
  hwx4_5 : ∀ i : grid4.Coords, EltTy.bits .f32 = 32 ∨ (Rect.unit (s := S100000x512) (fun a => cc4_transform_5 i a * S896x512.size a) (fun a => (Pipeline.Clip.of (cc4_transform_5 i a) (S896x512.size a) (S100000x512.size a)).extent (S896x512.size a)) fun a => Pipeline.Clip.inb (Pipeline.Clip.ok_of (hstart4_5 i a))).WholeWords (EltTy.packing .f32)
  hwxs4_5 : ∀ i : grid4.Coords, EltTy.bits .f32 = 32 ∨ (Rect.unit (s := S896x512) (fun _ => 0) (fun a => (Pipeline.Clip.of (cc4_transform_5 i a) (S896x512.size a) (S100000x512.size a)).extent (S896x512.size a)) fun a => (Nat.zero_add _).trans_le (Pipeline.Clip.extent_le (Pipeline.Clip.ok_of (hstart4_5 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S896x512.size a ≤ S25088x512.size a
  hwx5_0 : ∀ i : grid5.Coords, EltTy.bits .f32 = 32 ∨ (Rect.block (s := S25088x512) S896x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_6 i = cc5_transform_6 i'
  hstart5_5 : ∀ (i : grid5.Coords) a, cc5_transform_6 i a * S896x512.size a < S100000x512.size a
  hwx5_5 : ∀ i : grid5.Coords, EltTy.bits .f32 = 32 ∨ (Rect.unit (s := S100000x512) (fun a => cc5_transform_6 i a * S896x512.size a) (fun a => (Pipeline.Clip.of (cc5_transform_6 i a) (S896x512.size a) (S100000x512.size a)).extent (S896x512.size a)) fun a => Pipeline.Clip.inb (Pipeline.Clip.ok_of (hstart5_5 i a))).WholeWords (EltTy.packing .f32)
  hwxs5_5 : ∀ i : grid5.Coords, EltTy.bits .f32 = 32 ∨ (Rect.unit (s := S896x512) (fun _ => 0) (fun a => (Pipeline.Clip.of (cc5_transform_6 i a) (S896x512.size a) (S100000x512.size a)).extent (S896x512.size a)) fun a => (Nat.zero_add _).trans_le (Pipeline.Clip.extent_le (Pipeline.Clip.ok_of (hstart5_5 i a)))).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S896x512.size a ≤ S25088x512.size a
  hwx6_0 : ∀ i : grid6.Coords, EltTy.bits .f32 = 32 ∨ (Rect.block (s := S25088x512) S896x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S512x512.size a
  hwx6_1 : ∀ i : grid6.Coords, EltTy.bits .f32 = 32 ∨ (Rect.block (s := S512x512) S512x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_6 i = cc6_transform_6 i'
  hstart6_5 : ∀ (i : grid6.Coords) a, cc6_transform_6 i a * S896x512.size a < S100000x512.size a
  hwx6_5 : ∀ i : grid6.Coords, EltTy.bits .f32 = 32 ∨ (Rect.unit (s := S100000x512) (fun a => cc6_transform_6 i a * S896x512.size a) (fun a => (Pipeline.Clip.of (cc6_transform_6 i a) (S896x512.size a) (S100000x512.size a)).extent (S896x512.size a)) fun a => Pipeline.Clip.inb (Pipeline.Clip.ok_of (hstart6_5 i a))).WholeWords (EltTy.packing .f32)
  hwxs6_5 : ∀ i : grid6.Coords, EltTy.bits .f32 = 32 ∨ (Rect.unit (s := S896x512) (fun _ => 0) (fun a => (Pipeline.Clip.of (cc6_transform_6 i a) (S896x512.size a) (S100000x512.size a)).extent (S896x512.size a)) fun a => (Nat.zero_add _).trans_le (Pipeline.Clip.extent_le (Pipeline.Clip.ok_of (hstart6_5 i a)))).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S896x512.size a ≤ S25088x512.size a
  hwx7_0 : ∀ i : grid7.Coords, EltTy.bits .f32 = 32 ∨ (Rect.block (s := S25088x512) S896x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S512x512.size a
  hwx7_1 : ∀ i : grid7.Coords, EltTy.bits .f32 = 32 ∨ (Rect.block (s := S512x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_6 i = cc7_transform_6 i'
  hstart7_5 : ∀ (i : grid7.Coords) a, cc7_transform_6 i a * S896x512.size a < S100000x512.size a
  hwx7_5 : ∀ i : grid7.Coords, EltTy.bits .f32 = 32 ∨ (Rect.unit (s := S100000x512) (fun a => cc7_transform_6 i a * S896x512.size a) (fun a => (Pipeline.Clip.of (cc7_transform_6 i a) (S896x512.size a) (S100000x512.size a)).extent (S896x512.size a)) fun a => Pipeline.Clip.inb (Pipeline.Clip.ok_of (hstart7_5 i a))).WholeWords (EltTy.packing .f32)
  hwxs7_5 : ∀ i : grid7.Coords, EltTy.bits .f32 = 32 ∨ (Rect.unit (s := S896x512) (fun _ => 0) (fun a => (Pipeline.Clip.of (cc7_transform_6 i a) (S896x512.size a) (S100000x512.size a)).extent (S896x512.size a)) fun a => (Nat.zero_add _).trans_le (Pipeline.Clip.extent_le (Pipeline.Clip.ok_of (hstart7_5 i a)))).WholeWords (EltTy.packing .f32)

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scratch19 : DmaSems sig S_ := SemArray.consecutive 8 S_ hcc0_scratch19
abbrev cc0_scratch20 : DmaSems sig S_ := SemArray.consecutive 9 S_ hcc0_scratch20
abbrev cc0_scratch21 : DmaSems sig S_ := SemArray.consecutive 10 S_ hcc0_scratch21
abbrev cc0_scratch22 : DmaSems sig S_ := SemArray.consecutive 11 S_ hcc0_scratch22
abbrev cc0_scratch23 : DmaSems sig S_ := SemArray.consecutive 12 S_ hcc0_scratch23
abbrev cc0_scratch24 : DmaSems sig S_ := SemArray.consecutive 13 S_ hcc0_scratch24
abbrev cc0_scratch25 : DmaSems sig S_ := SemArray.consecutive 14 S_ hcc0_scratch25
abbrev cc0_scratch26 : DmaSems sig S_ := SemArray.consecutive 15 S_ hcc0_scratch26
abbrev cc0_scratch27 : DmaSems sig S_ := SemArray.consecutive 16 S_ hcc0_scratch27
abbrev cc0_scratch28 : DmaSems sig S_ := SemArray.consecutive 17 S_ hcc0_scratch28
abbrev cc1_scratch11 : DmaSems sig S_ := SemArray.consecutive 18 S_ hcc1_scratch11
abbrev cc1_scratch12 : DmaSems sig S_ := SemArray.consecutive 19 S_ hcc1_scratch12
abbrev cc1_scratch13 : DmaSems sig S_ := SemArray.consecutive 20 S_ hcc1_scratch13
abbrev cc1_scratch14 : DmaSems sig S_ := SemArray.consecutive 21 S_ hcc1_scratch14
abbrev cc1_scratch15 : DmaSems sig S_ := SemArray.consecutive 22 S_ hcc1_scratch15
abbrev cc1_scratch16 : DmaSems sig S_ := SemArray.consecutive 23 S_ hcc1_scratch16
abbrev cc1_scratch17 : DmaSems sig S_ := SemArray.consecutive 24 S_ hcc1_scratch17
abbrev cc1_scratch18 : DmaSems sig S_ := SemArray.consecutive 25 S_ hcc1_scratch18
abbrev cc1_scratch19 : DmaSems sig S_ := SemArray.consecutive 26 S_ hcc1_scratch19
abbrev cc1_scratch20 : DmaSems sig S_ := SemArray.consecutive 27 S_ hcc1_scratch20
abbrev cc1_scratch21 : DmaSems sig S_ := SemArray.consecutive 28 S_ hcc1_scratch21
abbrev cc1_scratch22 : DmaSems sig S_ := SemArray.consecutive 29 S_ hcc1_scratch22
abbrev cc1_scratch23 : DmaSems sig S_ := SemArray.consecutive 30 S_ hcc1_scratch23
abbrev cc1_scratch24 : DmaSems sig S_ := SemArray.consecutive 31 S_ hcc1_scratch24
abbrev cc1_scratch25 : DmaSems sig S_ := SemArray.consecutive 32 S_ hcc1_scratch25
abbrev cc1_scratch26 : DmaSems sig S_ := SemArray.consecutive 33 S_ hcc1_scratch26
abbrev cc1_scratch27 : DmaSems sig S_ := SemArray.consecutive 34 S_ hcc1_scratch27
abbrev cc1_scratch28 : DmaSems sig S_ := SemArray.consecutive 35 S_ hcc1_scratch28
abbrev cc2_scratch11 : DmaSems sig S_ := SemArray.consecutive 36 S_ hcc2_scratch11
abbrev cc2_scratch12 : DmaSems sig S_ := SemArray.consecutive 37 S_ hcc2_scratch12
abbrev cc2_scratch13 : DmaSems sig S_ := SemArray.consecutive 38 S_ hcc2_scratch13
abbrev cc2_scratch14 : DmaSems sig S_ := SemArray.consecutive 39 S_ hcc2_scratch14
abbrev cc2_scratch15 : DmaSems sig S_ := SemArray.consecutive 40 S_ hcc2_scratch15
abbrev cc2_scratch16 : DmaSems sig S_ := SemArray.consecutive 41 S_ hcc2_scratch16
abbrev cc2_scratch17 : DmaSems sig S_ := SemArray.consecutive 42 S_ hcc2_scratch17
abbrev cc2_scratch18 : DmaSems sig S_ := SemArray.consecutive 43 S_ hcc2_scratch18
abbrev cc2_scratch19 : DmaSems sig S_ := SemArray.consecutive 44 S_ hcc2_scratch19
abbrev cc2_scratch20 : DmaSems sig S_ := SemArray.consecutive 45 S_ hcc2_scratch20
abbrev cc2_scratch21 : DmaSems sig S_ := SemArray.consecutive 46 S_ hcc2_scratch21
abbrev cc2_scratch22 : DmaSems sig S_ := SemArray.consecutive 47 S_ hcc2_scratch22
abbrev cc2_scratch23 : DmaSems sig S_ := SemArray.consecutive 48 S_ hcc2_scratch23
abbrev cc2_scratch24 : DmaSems sig S_ := SemArray.consecutive 49 S_ hcc2_scratch24
abbrev cc2_scratch25 : DmaSems sig S_ := SemArray.consecutive 50 S_ hcc2_scratch25
abbrev cc2_scratch26 : DmaSems sig S_ := SemArray.consecutive 51 S_ hcc2_scratch26
abbrev cc2_scratch27 : DmaSems sig S_ := SemArray.consecutive 52 S_ hcc2_scratch27
abbrev cc2_scratch28 : DmaSems sig S_ := SemArray.consecutive 53 S_ hcc2_scratch28
abbrev cc3_scratch11 : DmaSems sig S_ := SemArray.consecutive 54 S_ hcc3_scratch11
abbrev cc3_scratch12 : DmaSems sig S_ := SemArray.consecutive 55 S_ hcc3_scratch12
abbrev cc3_scratch13 : DmaSems sig S_ := SemArray.consecutive 56 S_ hcc3_scratch13
abbrev cc3_scratch14 : DmaSems sig S_ := SemArray.consecutive 57 S_ hcc3_scratch14
abbrev cc3_scratch15 : DmaSems sig S_ := SemArray.consecutive 58 S_ hcc3_scratch15
abbrev cc3_scratch16 : DmaSems sig S_ := SemArray.consecutive 59 S_ hcc3_scratch16
abbrev cc3_scratch17 : DmaSems sig S_ := SemArray.consecutive 60 S_ hcc3_scratch17
abbrev cc3_scratch18 : DmaSems sig S_ := SemArray.consecutive 61 S_ hcc3_scratch18
abbrev cc3_scratch19 : DmaSems sig S_ := SemArray.consecutive 62 S_ hcc3_scratch19
abbrev cc3_scratch20 : DmaSems sig S_ := SemArray.consecutive 63 S_ hcc3_scratch20
abbrev cc3_scratch21 : DmaSems sig S_ := SemArray.consecutive 64 S_ hcc3_scratch21
abbrev cc3_scratch22 : DmaSems sig S_ := SemArray.consecutive 65 S_ hcc3_scratch22
abbrev cc3_scratch23 : DmaSems sig S_ := SemArray.consecutive 66 S_ hcc3_scratch23
abbrev cc3_scratch24 : DmaSems sig S_ := SemArray.consecutive 67 S_ hcc3_scratch24
abbrev cc3_scratch25 : DmaSems sig S_ := SemArray.consecutive 68 S_ hcc3_scratch25
abbrev cc3_scratch26 : DmaSems sig S_ := SemArray.consecutive 69 S_ hcc3_scratch26
abbrev cc3_scratch27 : DmaSems sig S_ := SemArray.consecutive 70 S_ hcc3_scratch27
abbrev cc3_scratch28 : DmaSems sig S_ := SemArray.consecutive 71 S_ hcc3_scratch28
def dot_S896x512_S512x512_S896x512_1_1_0_0_n_n : DotDims S896x512 S512x512 S896x512 where
  lhsContracting := [1]
  rhsContracting := [1]
  lhsNonContracting := [0]
  rhsNonContracting := [0]
  lhsBatch := []
  rhsBatch := []
  wf := dot_S896x512_S512x512_S896x512_1_1_0_0_n_n_wf

abbrev win4_0 : Pipeline.Window sig grid4 :=
  Pipeline.Window.ofSpec (Memref.whole main_v19) S896x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpecClip (Memref.whole main_v47) S896x512.size cc4_transform_5 reads4_5 true false 2 stage4_5 sem4_5
    hrank4 hreads4_5 hstart4_5 nbuf4_5 (Memref.isWhole_whole _) hwx4_5 hwxs4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v28) S896x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v9) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpecClip (Memref.whole main_v48) S896x512.size cc5_transform_6 reads5_5 true false 2 stage5_5 sem5_5
    hrank5 hreads5_5 hstart5_5 nbuf5_5 (Memref.isWhole_whole _) hwx5_5 hwxs5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v37) S896x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S512x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v8) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v9) S1x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v10) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpecClip (Memref.whole main_v49) S896x512.size cc6_transform_6 reads6_5 true false 2 stage6_5 sem6_5
    hrank6 hreads6_5 hstart6_5 nbuf6_5 (Memref.isWhole_whole _) hwx6_5 hwxs6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v46) S896x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S512x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v8) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v9) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v10) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpecClip (Memref.whole main_v50) S896x512.size cc7_transform_6 reads7_5 true false 2 stage7_5 sem7_5
    hrank7 hreads7_5 hstart7_5 nbuf7_5 (Memref.isWhole_whole _) hwx7_5 hwxs7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S100000 : Shape := ⟨1, ![100000]⟩
abbrev S512x512 : Shape := ⟨2, ![512, 512]⟩
abbrev S512 : Shape := ⟨1, ![512]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x512 : Shape := ⟨2, ![100000, 512]⟩
abbrev S1x512 : Shape := ⟨2, ![1, 512]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S100000, .i32⟩
  | 5 => ⟨S100000, .i32⟩
  | 6 => ⟨S100000, .i32⟩
  | 7 => ⟨S100000, .i32⟩
  | 8 => ⟨S512x512, .f32⟩
  | 9 => ⟨S512, .f32⟩
  | 10 => ⟨S512, .f32⟩
  | 11 => ⟨S512, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S1, .i32⟩
  | 21 => ⟨S_, .i32⟩
  | 22 => ⟨S100000x1, .i32⟩
  | 23 => ⟨S100000x1, .i1⟩
  | 24 => ⟨S1x1, .i32⟩
  | 25 => ⟨S100000x1, .i32⟩
  | 26 => ⟨S100000x1, .i1⟩
  | 27 => ⟨S100000x1, .i1⟩
  | 28 => ⟨S_, .i1⟩
  | 29 => ⟨S100000, .i1⟩
  | 30 => ⟨S100000x128, .f32⟩
  | 31 => ⟨S100000x128, .i1⟩
  | 32 => ⟨S_, .f32⟩
  | 33 => ⟨S100000x128, .f32⟩
  | 34 => ⟨S100000x128, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S1, .i32⟩
  | 44 => ⟨S_, .i32⟩
  | 45 => ⟨S100000x1, .i32⟩
  | 46 => ⟨S100000x1, .i1⟩
  | 47 => ⟨S1x1, .i32⟩
  | 48 => ⟨S100000x1, .i32⟩
  | 49 => ⟨S100000x1, .i1⟩
  | 50 => ⟨S100000x1, .i1⟩
  | 51 => ⟨S_, .i1⟩
  | 52 => ⟨S100000, .i1⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S1, .i32⟩
  | 67 => ⟨S_, .i32⟩
  | 68 => ⟨S100000x1, .i32⟩
  | 69 => ⟨S100000x1, .i1⟩
  | 70 => ⟨S1x1, .i32⟩
  | 71 => ⟨S100000x1, .i32⟩
  | 72 => ⟨S100000x1, .i1⟩
  | 73 => ⟨S100000x1, .i1⟩
  | 74 => ⟨S_, .i1⟩
  | 75 => ⟨S100000, .i1⟩
  | 76 => ⟨S100000x128, .f32⟩
  | 77 => ⟨S100000x128, .i1⟩
  | 78 => ⟨S_, .f32⟩
  | 79 => ⟨S100000x128, .f32⟩
  | 80 => ⟨S100000x128, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x512, .f32⟩
  | 105 => ⟨S512x512, .f32⟩
  | 106 => ⟨S100000x512, .f32⟩
  | 107 => ⟨S1x512, .f32⟩
  | 108 => ⟨S100000x512, .f32⟩
  | 109 => ⟨S100000x512, .f32⟩
  | 110 => ⟨S_, .f32⟩
  | 111 => ⟨S100000x512, .f32⟩
  | 112 => ⟨S100000x512, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S_, .i32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x512, .f32⟩
  | 127 => ⟨S100000x512, .f32⟩
  | _ => ⟨S100000x128, .f32⟩

abbrev hbmTy0_1 (i : Nat) : BufTy := match i % 128 with
  | 0 => ⟨S100000x512, .f32⟩
  | 1 => ⟨S_, .f32⟩
  | 2 => ⟨S_, .f32⟩
  | 3 => ⟨S_, .f32⟩
  | 4 => ⟨S_, .f32⟩
  | 5 => ⟨S100000, .f32⟩
  | 6 => ⟨S100000x1, .f32⟩
  | 7 => ⟨S100000x1, .f32⟩
  | 8 => ⟨S100000x1, .f32⟩
  | 9 => ⟨S_, .f32⟩
  | 10 => ⟨S_, .i1⟩
  | 11 => ⟨S_, .f32⟩
  | 12 => ⟨S_, .f32⟩
  | 13 => ⟨S100000x1, .f32⟩
  | 14 => ⟨S100000x1, .f32⟩
  | 15 => ⟨S100000x512, .f32⟩
  | 16 => ⟨S100000x512, .f32⟩
  | 17 => ⟨S_, .f32⟩
  | 18 => ⟨S100000x1, .f32⟩
  | 19 => ⟨S100000x1, .f32⟩
  | 20 => ⟨S100000x1, .f32⟩
  | 21 => ⟨S100000x512, .f32⟩
  | 22 => ⟨S100000x512, .f32⟩
  | 23 => ⟨S1x512, .f32⟩
  | 24 => ⟨S100000x512, .f32⟩
  | 25 => ⟨S100000x512, .f32⟩
  | 26 => ⟨S1x512, .f32⟩
  | 27 => ⟨S100000x512, .f32⟩
  | 28 => ⟨S100000x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v2 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v3 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_call4_cst : Ref sig .tc := ⟨.hbm, 110, rfl⟩
abbrev main_call4_v0 : Ref sig .tc := ⟨.hbm, 111, rfl⟩
abbrev main_v10 : Ref sig .tc := ⟨.hbm, 112, rfl⟩
abbrev main_cst : Ref sig .tc := ⟨.hbm, 113, rfl⟩
abbrev main_v11 : Ref sig .tc := ⟨.hbm, 114, rfl⟩
abbrev main_v12 : Ref sig .tc := ⟨.hbm, 115, rfl⟩
abbrev main_cst_0 : Ref sig .tc := ⟨.hbm, 116, rfl⟩
abbrev main_v13 : Ref sig .tc := ⟨.hbm, 117, rfl⟩
abbrev main_v14 : Ref sig .tc := ⟨.hbm, 118, rfl⟩
abbrev main_c : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_cst_1 : Ref sig .tc := ⟨.hbm, 130, rfl⟩
abbrev main_call5_v8 : Ref sig .tc := ⟨.hbm, 131, rfl⟩
abbrev main_call5_cst_2 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_cst_3 : Ref sig .tc := ⟨.hbm, 137, rfl⟩
abbrev main_call5_v13 : Ref sig .tc := ⟨.hbm, 138, rfl⟩
abbrev main_call5_cst_4 : Ref sig .tc := ⟨.hbm, 139, rfl⟩
abbrev main_call5_call0_v0 : Ref sig .tc := ⟨.hbm, 140, rfl⟩
abbrev main_call5_call0_v1 : Ref sig .tc := ⟨.hbm, 141, rfl⟩
abbrev main_v15 : Ref sig .tc := ⟨.hbm, 142, rfl⟩
abbrev main_v16 : Ref sig .tc := ⟨.hbm, 143, rfl⟩
abbrev main_v17 : Ref sig .tc := ⟨.hbm, 144, rfl⟩
abbrev main_cst_1 : Ref sig .tc := ⟨.hbm, 145, rfl⟩
abbrev main_v18 : Ref sig .tc := ⟨.hbm, 146, rfl⟩
abbrev main_v19 : Ref sig .tc := ⟨.hbm, 147, rfl⟩
abbrev main_v20 : Ref sig .tc := ⟨.hbm, 148, rfl⟩
abbrev main_v21 : Ref sig .tc := ⟨.hbm, 149, rfl⟩
abbrev main_v22 : Ref sig .tc := ⟨.hbm, 150, rfl⟩
abbrev main_v23 : Ref sig .tc := ⟨.hbm, 151, rfl⟩
abbrev main_v24 : Ref sig .tc := ⟨.hbm, 152, rfl⟩
abbrev main_v25 : Ref sig .tc := ⟨.hbm, 153, rfl⟩
abbrev main_v26 : Ref sig .tc := ⟨.hbm, 154, rfl⟩
abbrev main_v27 : Ref sig .tc := ⟨.hbm, 155, rfl⟩
abbrev main_v28 : Ref sig .tc := ⟨.hbm, 156, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  transposes_S512x512_S512x512_1_0 : S512x512.Transposes [1, 0] S512x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  reducesTo_S100000x512_S100000_d1 : S100000x512.ReducesTo [1] S100000
  bcast_S100000x1_S100000x512_0_1 : S100000x1.BroadcastsInDim S100000x512 (![0, 1] : Fin 2 → Fin S100000x512.rank)
  gather_S100000x128_S100000x1_S100000x128_1_0_n_n_0_1_1128_wf : GatherDims.WF S100000x128 S100000x1 S100000x128 [1] [0] [] [0] [] 1 ![1, 128]
  dot_S100000x512_S512x512_S100000x512_1_0_0_1_n_n_wf : DotDims.WF S100000x512 S512x512 S100000x512 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.ScBase.lean ====
/-
  The program as the SparseCore launch theorem sees it, and the ghost state of its proof.

  @main runs on the TensorCore; four gather calls run on the two SparseCores' sixteen vector subcores each;
  four layer-norm regions run on the TensorCore afterwards.  Three protocols meet: the launch handshakes
  between the TensorCore, the sequencers and the vector subcores (a rounds algebra over the handshake
  semaphores); the regions' staging cells (a rounds algebra of their own); and the vector subcores' own
  copies, every one issued and awaited on a semaphore of its own, for which counters suffice.
-/
import proofs.«215994_g5102421148354_cont_8to1c4_853_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215994_g5102421148354_cont_8to1c4_853_29_alg».proof.Proof.Gen.KernelIdeal
import proofs.«215994_g5102421148354_cont_8to1c4_853_29_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [Cert.KernelIdeal.Facts]

/-! ## The program as the launch theorem sees it -/

/-- The labels of the TensorCore side: the kernels' bodies and the four regions' entries. -/
abbrev ΛP : Labels := Pipeline.Sig Λ₀ (Fin 4) fun p => (pcfgs (F := F) p).Adm
/-- The four SparseCore calls. -/
abbrev K : SparseCore.Cfg τ sig (ΛP (F := F)) 4 := sc (F := F)
/-- The body table below the SparseCore dispatch: the kernels' bodies and the regions' pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four distinct unscoped registers, no SparseCore buffer is handed from task to task,
    and no call has a second body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, the regions' staging rounds, the copies' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 4) (Elt F) ℕ UU ℕ) := embL
/-- The regions' staging rounds: the left factor of the right factor. -/
def EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP; infer_instance

/-! ## A vector subcore's place -/

/-- The SparseCore and the vector subcore that run grid point `L` of a gather call (all four calls share one grid). -/
abbrev cV (L : grid0.Coords) : Fin τ.nSC := (L 0).castLE hcore0
abbrev jV (L : grid0.Coords) : Fin τ.nSub := (L 1).castLE hsub0

/-! ## The gathers' offset lists hold row numbers -/

/-- A row of an index scratch that a copy has just overwritten whole with the words `P` reads words of `P`: if those are row
    numbers of a table of 100000 rows, so is every word the gather's offset list holds. -/
theorem hin_row (d : Dev nD) (c : Fin τ.nSC) (i : Fin τ.nSub) (P : S7x112.Idx → Elt F .i32) (hP : ∀ j, (P j).toNat < 100000)
    (Wm : Memref sig .scVector .vmem S7x112 .i32) (off : Fin 2 → Nat) (h : ∀ a, off a + S1x112.size a ≤ S7x112.size a)
    (si : Buf (Elt F) (Wm.view.loc (V d c i))) (x : S112.Idx) :
    (((Wm.slice (Rect.unit (s := S7x112) off S1x112.size h) (fun _ => rfl)).squeeze S112 squeezes_S1x112_S112).view.read (Elt F)
        (View.write (Elt F) Wm.view si (ReadAs.same.apply P) Finset.univ) x).toNat
      < S100000x128.size gathers_S100000x128_S112x128.axis := by
  rw [View.read_apply]
  simp only [Memref.view_squeeze, Memref.view_slice, View.emb_reshape, View.emb_slice, Function.Embedding.trans_apply, ReadAs.apply]
  rw [View.write_emb_of_mem _ _ (Finset.mem_univ _)]
  simp only [cast_cast, cast_eq]
  exact hP _

/-! ## A wait on a semaphore of the task's own -/

/-- One more wait at the kernel's own index keeps the record of waits admissible. -/
theorem waits_insert {W W' : Waits sig (HIx 4)} (s : SemLoc sig) (h : ∀ p ∈ W', p ∈ W ∨ p.2 = none) :
    ∀ p ∈ insert (s, (default : HIx 4)) W', p ∈ W ∨ p.2 = none := by
  intro p hp
  rcases Finset.mem_insert.mp hp with hp | hp
  · exact .inr (hp ▸ rfl)
  · exact h p hp

end Cert.KernelIdeal.Sc

end
-- ==== Proof.ScGrid.lean ====
/-
  The place of a task: grid point L = (core, subcore) of any of the four gather calls is run by SparseCore (L 0), vector
  subcore (L 1).  The four calls have one grid each, all of extent 2 × 16.
-/
import proofs.«215994_g5102421148354_cont_8to1c4_853_29_alg».proof.Proof.ScBase

noncomputable section

namespace Cert.KernelIdeal.Sc

open Cert.KernelIdeal Cert.KernelIdeal.Gen
open Idealize.ShloMosaic

variable [Cert.KernelIdeal.Facts]

abbrev cV0 (L : grid0.Coords) : Fin τ.nSC := (L 0).castLE hcore0
abbrev jV0 (L : grid0.Coords) : Fin τ.nSub := (L 1).castLE hsub0
abbrev cV1 (L : grid1.Coords) : Fin τ.nSC := (L 0).castLE hcore1
abbrev jV1 (L : grid1.Coords) : Fin τ.nSub := (L 1).castLE hsub1
abbrev cV2 (L : grid2.Coords) : Fin τ.nSC := (L 0).castLE hcore2
abbrev jV2 (L : grid2.Coords) : Fin τ.nSub := (L 1).castLE hsub2
abbrev cV3 (L : grid3.Coords) : Fin τ.nSC := (L 0).castLE hcore3
abbrev jV3 (L : grid3.Coords) : Fin τ.nSub := (L 1).castLE hsub3

end Cert.KernelIdeal.Sc

end
-- ==== Proof.IdxSlab.lean ====
import proofs.«215994_g5102421148354_cont_8to1c4_853_29_alg».proof.Proof.Gen.KernelIdeal
import Idealize.ShloMosaic.Lib.ValueIdx
import Idealize.ShloMosaic.Lib.Pipeline.Value

noncomputable section

namespace Cert.KernelIdeal.Idx

open Cert.KernelIdeal Cert.KernelIdeal.Gen Idealize.ShloMosaic Idealize.ShloMosaic.ValueIdx

/-! ## The index arrays as the kernel's host operations hand them to the gathers

Each index array of 100000 words is padded with zero words to 100352, cut into four stretches of 25088 words, and each
stretch laid out as 32 × 7 × 112 (row-major). Word `(u, v, w)` of stretch `q` is word `25088 q + 784 u + 112 v + w` of
the array where that is below 100000, and the zero word past its end. -/

/-- The index array followed by 352 zero words. -/
def padded (a : IVec S100000 32) : IVec S100352 32 :=
  concatenate S100352 0 [⟨S100000, a⟩, ⟨S352, broadcastInDim S352 ![] bcast_S_S352 (constantI S_ 32 0#32)⟩]
    concatenates_S100000_S352_S100352_d0

/-- Stretch `q` of the padded array, as 32 × 7 × 112. -/
def slab (q : Fin 4) (a : IVec S100000 32) : IVec S32x7x112 32 :=
  match q with
  | 0 => shapeCast S32x7x112 (extractStridedSlice S25088 ![0] (padded a) slices_S100352_S25088_0) shapeCasts_S25088_S32x7x112
  | 1 => shapeCast S32x7x112 (extractStridedSlice S25088 ![25088] (padded a) slices_S100352_S25088_25088) shapeCasts_S25088_S32x7x112
  | 2 => shapeCast S32x7x112 (extractStridedSlice S25088 ![50176] (padded a) slices_S100352_S25088_50176) shapeCasts_S25088_S32x7x112
  | 3 => shapeCast S32x7x112 (extractStridedSlice S25088 ![75264] (padded a) slices_S100352_S25088_75264) shapeCasts_S25088_S32x7x112

/-- A word of the padded array below 100000 is the array's. -/
theorem padded_lo (a : IVec S100000 32) (k : S100352.Idx) (h : (k 0).val < 100000) :
    padded a k = a (ix1 (n := 100000) ⟨(k 0).val, h⟩) := by
  unfold padded
  refine concatenate_apply_piece 0 _ _ k 0 (by show 0 < 2; omega) S100000 a rfl rfl 0 rfl _ ?_ ?_
  · intro b hb
    match b with
    | ⟨0, _⟩ => exact absurd rfl hb
  · show 0 + (k 0).val = (k 0).val
    omega

/-- A word of the padded array from 100000 on is the zero word. -/
theorem padded_hi (a : IVec S100000 32) (k : S100352.Idx) (h : 100000 ≤ (k 0).val) : padded a k = 0#32 := by
  unfold padded
  have hk : (k 0).val < 100352 := (k 0).isLt
  refine (concatenate_apply_piece 0 _ _ k 1 (by show 1 < 2; omega) S352
    (broadcastInDim S352 ![] bcast_S_S352 (constantI S_ 32 0#32)) rfl rfl 100000 rfl
    (ix1 (n := 352) ⟨(k 0).val - 100000, by omega⟩) ?_ ?_).trans rfl
  · intro b hb
    match b with
    | ⟨0, _⟩ => exact absurd rfl hb
  · show 100000 + ((k 0).val - 100000) = (k 0).val
    omega

/-- A stretch of 25088 words at offset `o` of the padded array, as 32 × 7 × 112, read at `(u, v, w)`. -/
theorem slab_core (a : IVec S100000 32) (o : Nat) (hs : S100352.Slices ![o] S25088) (j : S32x7x112.Idx) :
    shapeCast S32x7x112 (extractStridedSlice S25088 ![o] (padded a) hs) shapeCasts_S25088_S32x7x112 j
      = if h : o + 784 * (j 0).val + 112 * (j 1).val + (j 2).val < 100000
          then a (ix1 (n := 100000) ⟨o + 784 * (j 0).val + 112 * (j 1).val + (j 2).val, h⟩) else 0#32 := by
  have h0 : (j 0).val < 32 := (j 0).isLt
  have h1 : (j 1).val < 7 := (j 1).isLt
  have h2 : (j 2).val < 112 := (j 2).isLt
  have ho : o + 25088 ≤ 100352 := hs.2 0
  refine (shapeCast_apply _ _ j (ix1 (n := 25088) ⟨784 * (j 0).val + 112 * (j 1).val + (j 2).val, by omega⟩) ?_).trans ?_
  · rw [Shape.rowMajor_val_one, Shape.rowMajor_val_three]
    show 784 * (j 0).val + 112 * (j 1).val + (j 2).val = ((j 0).val * 7 + (j 1).val) * 112 + (j 2).val
    omega
  refine (extractStridedSlice_apply _ _ hs _
    (ix1 (n := 100352) ⟨o + (784 * (j 0).val + 112 * (j 1).val + (j 2).val), by omega⟩) ?_).trans ?_
  · intro b
    match b with
    | ⟨0, _⟩ => rfl
  by_cases h : o + 784 * (j 0).val + 112 * (j 1).val + (j 2).val < 100000
  · rw [dif_pos h]
    refine (padded_lo a _ (by show o + (784 * (j 0).val + 112 * (j 1).val + (j 2).val) < 100000; omega)).trans ?_
    exact congrArg a (congrArg ix1 (Fin.ext (by
      show o + (784 * (j 0).val + 112 * (j 1).val + (j 2).val) = o + 784 * (j 0).val + 112 * (j 1).val + (j 2).val
      omega)))
  · rw [dif_neg h]
    exact padded_hi a _ (by show 100000 ≤ o + (784 * (j 0).val + 112 * (j 1).val + (j 2).val); omega)

/-- WORD `(u, v, w)` OF STRETCH `q`: word `25088 q + 784 u + 112 v + w` of the array, or the zero word past its end. -/
theorem slab_apply (q : Fin 4) (a : IVec S100000 32) (j : S32x7x112.Idx) :
    slab q a j = if h : 25088 * q.val + 784 * (j 0).val + 112 * (j 1).val + (j 2).val < 100000
      then a (ix1 (n := 100000) ⟨25088 * q.val + 784 * (j 0).val + 112 * (j 1).val + (j 2).val, h⟩) else 0#32 := by
  match q with
  | 0 => exact slab_core a 0 _ j
  | 1 => exact slab_core a 25088 _ j
  | 2 => exact slab_core a 50176 _ j
  | 3 => exact slab_core a 75264 _ j

/-- If every word of the array names a row of the table, so does every word of every stretch (a padded word is the zero
    word). -/
theorem slab_lt (q : Fin 4) (a : IVec S100000 32) (ha : ∀ r, (a r).toNat < 100000) (j : S32x7x112.Idx) :
    (slab q a j).toNat < 100000 := by
  rw [slab_apply]
  split
  · exact ha _
  · show (0#32 : BitVec 32).toNat < 100000
    decide

end Cert.KernelIdeal.Idx

end
-- ==== Proof.ScPay.lean ====
/-
  What the launch handshakes carry.  A gather call hands each of its 32 tasks (2 SparseCores × 16 vector subcores; worker
  2·subcore + core) its own row of the four index arrays, a read share of each of the four tables — held as eleven read
  tokens and their remainder, so that seven gathers may read one table at once — and its 28 pieces of the call's result;
  the task hands the same back, the pieces at whatever it wrote.  A SparseCore's share of a call is its sixteen tasks'.
  The index rows are held at the padded, sliced and reshaped index inputs (idx), the tables at the inputs (tab).
-/
import proofs.«215994_g5102421148354_cont_8to1c4_853_29_alg».proof.Proof.ScGrid
import proofs.«215994_g5102421148354_cont_8to1c4_853_29_alg».proof.Proof.IdxSlab

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-- Part of a buffer held outright, at whatever it holds. -/
def ownedAny (ℓ : Loc nD τ sig) (A : Finset (Idx ℓ)) : sProp 𝕄 := iprop(∃ f : Buf (Elt F) ℓ, ℓ ↦[A]{fullShare} f)
instance ownedAny_storable (ℓ : Loc nD τ sig) (A : Finset (Idx ℓ)) : BI.Storable (upEmb : UEmb _ 𝕄) (ownedAny (F := F) ℓ A) := by
  unfold ownedAny; infer_instance

/-- The read share of a table that the task at grid point (core, subcore) holds: the subcore's token of the core's token. -/
abbrev qTile (c : Fin 2) (i : Fin 16) : PosShare TreeShare := Transfers.shareTok (Transfers.shareTok fullShare 2 c) 16 i

/-- The grid point of gather call 0 that SparseCore c's vector subcore s runs. -/
def coordsV0 (c : Fin (grid0.bound 0)) (s : Fin (grid0.bound 1)) : grid0.Coords :=
  fun | 0 => c | 1 => s | ⟨_ + 2, h⟩ => absurd h (Nat.not_lt.2 (Nat.le_add_left _ _))

/-- The resources of the task of gather call 0 at grid point L, the result's pieces at whatever they hold. -/
def tileRes0 (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    : sProp 𝕄 :=
  iprop(
        ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
      ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
      ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
      ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
      ∗ ((Memref.whole main_arg0_scv : Memref sig .scVector .hbm S100000x128 .f32).view.loc (V d (cV0 L) (jV0 L)) ↦{Transfers.shareDrop qx 11} fx0)
      ∗ (bigSep Finset.univ fun k : Fin 11 => ((Memref.whole main_arg0_scv : Memref sig .scVector .hbm S100000x128 .f32).view.loc (V d (cV0 L) (jV0 L)) ↦{Transfers.shareTok qx 11 k} fx0))
      ∗ ((Memref.whole main_arg1_scv : Memref sig .scVector .hbm S100000x128 .f32).view.loc (V d (cV0 L) (jV0 L)) ↦{Transfers.shareDrop qx 11} fx1)
      ∗ (bigSep Finset.univ fun k : Fin 11 => ((Memref.whole main_arg1_scv : Memref sig .scVector .hbm S100000x128 .f32).view.loc (V d (cV0 L) (jV0 L)) ↦{Transfers.shareTok qx 11 k} fx1))
      ∗ ((Memref.whole main_arg2_scv : Memref sig .scVector .hbm S100000x128 .f32).view.loc (V d (cV0 L) (jV0 L)) ↦{Transfers.shareDrop qx 11} fx2)
      ∗ (bigSep Finset.univ fun k : Fin 11 => ((Memref.whole main_arg2_scv : Memref sig .scVector .hbm S100000x128 .f32).view.loc (V d (cV0 L) (jV0 L)) ↦{Transfers.shareTok qx 11 k} fx2))
      ∗ ((Memref.whole main_arg3_scv : Memref sig .scVector .hbm S100000x128 .f32).view.loc (V d (cV0 L) (jV0 L)) ↦{Transfers.shareDrop qx 11} fx3)
      ∗ (bigSep Finset.univ fun k : Fin 11 => ((Memref.whole main_arg3_scv : Memref sig .scVector .hbm S100000x128 .f32).view.loc (V d (cV0 L) (jV0 L)) ↦{Transfers.shareTok qx 11 k} fx3))
      ∗ ownedAny (F := F) (((Memref.whole main_v19_scv : Memref sig .scVector .hbm S25088x512 .f32).slice (Rect.unit (s := S25088x512) (k0_off2 L 0#32) S112x128.size (k0_off2_inb L 0)) (fun _ => rfl)).view.loc (V d (cV0 L) (jV0 L))) ((Memref.whole main_v19_scv : Memref sig .scVector .hbm S25088x512 .f32).slice (Rect.unit (s := S25088x512) (k0_off2 L 0#32) S112x128.size (k0_off2_inb L 0)) (fun _ => rfl)).view.set
      ∗ ownedAny (F := F) (((Memref.whole main_v19_scv : Memref sig .scVector .hbm S25088x512 .f32).slice (Rect.unit (s := S25088x512) (k0_off2 L 112#32) S112x128.size (k0_off2_inb L 1)) (fun _ => rfl)).view.loc (V d (cV0 L) (jV0 L))) ((Memref.whole main_v19_scv : Memref sig .scVector .hbm S25088x512 .f32).slice (Rect.unit (s := S25088x512) (k0_off2 L 112#32) S112x128.size (k0_off2_inb L 1)) (fun _ => rfl)).view.set
      ∗ ownedAny (F := F) (((Memref.whole main_v19_scv : Memref sig .scVector .hbm S25088x512 .f32).slice (Rect.unit (s := S25088x512) (k0_off2 L 224#32) S112x128.size (k0_off2_inb L 2)) (fun _ => rfl)).view.loc (V d (cV0 L) (jV0 L))) ((Memref.whole main_v19_scv : Memref sig .scVector .hbm S25088x512 .f32).slice (Rect.unit (s := S25088x512) (k0_off2 L 224#32) S112x128.size (k0_off2_inb L 2)) (fun _ => rfl)).view.set
      ∗ ownedAny (F := F) (((Memref.whole main_v19_scv : Memref sig .scVector .hbm S25088x512 .f32).slice (Rect.unit (s := S25088x512) (k0_off2 L 336#32) S112x128.size (k0_off2_inb L 3)) (fun _ => rfl)).view.loc (V d (cV0 L) (jV0 L))) ((Memref.whole main_v19_scv : Memref sig .scVector .hbm S25088x512 .f32).slice (Rect.unit (s := S25088x512) (k0_off2 L 336#32) S112x128.size (k0_off2_inb L 3)) (fun _ => rfl)).view.set
      ∗ ownedAny (F := F) (((Memref.whole main_v19_scv : Memref sig .scVector .hbm S25088x512 .f32).slice (Rect.unit (s := S25088x512) (k0_off2 L 448#32) S112x128.size (k0_off2_inb L 4)) (fun _ => rfl)).view.loc (V d (cV0 L) (jV0 L))) ((Memref.whole main_v19_scv : Memref sig .scVector .hbm S25088x512 .f32).slice (Rect.unit (s := S25088x512) (k0_off2 L 448#32) S112x128.size (k0_off2_inb L 4)) (fun _ => rfl)).view.set
      ∗ ownedAny (F := F) (((Memref.whole main_v19_scv : Memref sig .scVector .hbm S25088x512 .f32).slice (Rect.unit (s := S25088x512) (k0_off2 L 560#32) S112x128.size (k0_off2_inb L 5)) (fun _ => rfl)).view.loc (V d (cV0 L) (jV0 L))) ((Memref.whole main_v19_scv : Memref sig .scVector .hbm S25088x512 .f32).slice (Rect.unit (s := S25088x512) (k0_off2 L 560#32) S112x128.size (k0_off2_inb L 5)) (fun _ => rfl)).view.set
      ∗ ownedAny (F := F) (((Memref.whole main_v19_scv : Memref sig .scVector .hbm S25088x512 .f32).slice (Rect.unit (s := S25088x512) (k0_off2 L 672#32) S112x128.size (k0_off2_inb L 6)) (fun _ => rfl)).view.loc (V d (cV0 L) (jV0 L))) ((Memref.whole main_v19_scv : Memref sig .scVector .hbm S25088x512 .f32).slice (Rect.unit (s := S25088x512) (k0_off2 L 672#32) S112x128.size (k0_off2_inb L 6)) (fun _ => rfl)).view.set
      ∗ ownedAny (F := F) (((Memref.whole main_v19_scv : Memref sig .scVector .hbm S25088x512 .f32).slice (Rect.unit (s := S25088x512) (k0_off3 L 0#32) S112x128.size (k0_off3_inb L 0)) (fun _ => rfl)).view.loc (V d (cV0 L) (jV0 L))) ((Memref.whole main_v19_scv : Memref sig .scVector .hbm S25088x512 .f32).slice (Rect.unit (s := S25088x512) (k0_off3 L 0#32) S112x128.size (k0_off3_inb L 0)) (fun _ => rfl)).view.set
      ∗ ownedAny (F := F) (((Memref.whole main_v19_scv : Memref sig .scVector .hbm S25088x512 .f32).slice (Rect.unit (s := S25088x512) (k0_off3 L 112#32) S112x128.size (k0_off3_inb L 1)) (fun _ => rfl)).view.loc (V d (cV0 L) (jV0 L))) ((Memref.whole main_v19_scv : Memref sig .scVector .hbm S25088x512 .f32).slice (Rect.unit (s := S25088x512) (k0_off3 L 112#32) S112x128.size (k0_off3_inb L 1)) (fun _ => rfl)).view.set
      ∗ ownedAny (F := F) (((Memref.whole main_v19_scv : Memref sig .scVector .hbm S25088x512 .f32).slice (Rect.unit (s := S25088x512) (k0_off3 L 224#32) S112x128.size (k0_off3_inb L 2)) (fun _ => rfl)).view.loc (V d (cV0 L) (jV0 L))) ((Memref.whole main_v19_scv : Memref sig .scVector .hbm S25088x512 .f32).slice (Rect.unit (s := S25088x512) (k0_off3 L 224#32) S112x128.size (k0_off3_inb L 2)) (fun _ => rfl)).view.set
      ∗ ownedAny (F := F) (((Memref.whole main_v19_scv : Memref sig .scVector .hbm S25088x512 .f32).slice (Rect.unit (s := S25088x512) (k0_off3 L 336#32) S112x128.size (k0_off3_inb L 3)) (fun _ => rfl)).view.loc (V d (cV0 L) (jV0 L))) ((Memref.whole main_v19_scv : Memref sig .scVector .hbm S25088x512 .f32).slice (Rect.unit (s := S25088x512) (k0_off3 L 336#32) S112x128.size (k0_off3_inb L 3)) (fun _ => rfl)).view.set
      ∗ ownedAny (F := F) (((Memref.whole main_v19_scv : Memref sig .scVector .hbm S25088x512 .f32).slice (Rect.unit (s := S25088x512) (k0_off3 L 448#32) S112x128.size (k0_off3_inb L 4)) (fun _ => rfl)).view.loc (V d (cV0 L) (jV0 L))) ((Memref.whole main_v19_scv : Memref sig .scVector .hbm S25088x512 .f32).slice (Rect.unit (s := S25088x512) (k0_off3 L 448#32) S112x128.size (k0_off3_inb L 4)) (fun _ => rfl)).view.set
      ∗ ownedAny (F := F) (((Memref.whole main_v19_scv : Memref sig .scVector .hbm S25088x512 .f32).slice (Rect.unit (s := S25088x512) (k0_off3 L 560#32) S112x128.size (k0_off3_inb L 5)) (fun _ => rfl)).view.loc (V d (cV0 L) (jV0 L))) ((Memref.whole main_v19_scv : Memref sig .scVector .hbm S25088x512 .f32).slice (Rect.unit (s := S25088x512) (k0_off3 L 560#32) S112x128.size (k0_off3_inb L 5)) (fun _ => rfl)).view.set
      ∗ ownedAny (F := F) (((Memref.whole main_v19_scv : Memref sig .scVector .hbm S25088x512 .f32).slice (Rect.unit (s := S25088x512) (k0_off3 L 672#32) S112x128.size (k0_off3_inb L 6)) (fun _ => rfl)).view.loc (V d (cV0 L) (jV0 L))) ((Memref.whole main_v19_scv : Memref sig .scVector .hbm S25088x512 .f32).slice (Rect.unit (s := S25088x512) (k0_off3 L 672#32) S112x128.size (k0_off3_inb L 6)) (fun _ => rfl)).view.set
      ∗ ownedAny (F := F) (((Memref.whole main_v19_scv : Memref sig .scVector .hbm S25088x512 .f32).slice (Rect.unit (s := S25088x512) (k0_off4 L 0#32) S112x128.size (k0_off4_inb L 0)) (fun _ => rfl)).view.loc (V d (cV0 L) (jV0 L))) ((Memref.whole main_v19_scv : Memref sig .scVector .hbm S25088x512 .f32).slice (Rect.unit (s := S25088x512) (k0_off4 L 0#32) S112x128.size (k0_off4_inb L 0)) (fun _ => rfl)).view.set
      ∗ ownedAny (F := F) (((Memref.whole main_v19_scv : Memref sig .scVector .hbm S25088x512 .f32).slice (Rect.unit (s := S25088x512) (k0_off4 L 112#32) S112x128.size (k0_off4_inb L 1)) (fun _ => rfl)).view.loc (V d (cV0 L) (jV0 L))) ((Memref.whole main_v19_scv : Memref sig .scVector .hbm S25088x512 .f32).slice (Rect.unit (s := S25088x512) (k0_off4 L 112#32) S112x128.size (k0_off4_inb L 1)) (fun _ => rfl)).view.set
      ∗ ownedAny (F := F) (((Memref.whole main_v19_scv : Memref sig .scVector .hbm S25088x512 .f32).slice (Rect.unit (s := S25088x512) (k0_off4 L 224#32) S112x128.size (k0_off4_inb L 2)) (fun _ => rfl)).view.loc (V d (cV0 L) (jV0 L))) ((Memref.whole main_v19_scv : Memref sig .scVector .hbm S25088x512 .f32).slice (Rect.unit (s := S25088x512) (k0_off4 L 224#32) S112x128.size (k0_off4_inb L 2)) (fun _ => rfl)).view.set
      ∗ ownedAny (F := F) (((Memref.whole main_v19_scv : Memref sig .scVector .hbm S25088x512 .f32).slice (Rect.unit (s := S25088x512) (k0_off4 L 336#32) S112x128.size (k0_off4_inb L 3)) (fun _ => rfl)).view.loc (V d (cV0 L) (jV0 L))) ((Memref.whole main_v19_scv : Memref sig .scVector .hbm S25088x512 .f32).slice (Rect.unit (s := S25088x512) (k0_off4 L 336#32) S112x128.size (k0_off4_inb L 3)) (fun _ => rfl)).view.set
      ∗ ownedAny (F := F) (((Memref.whole main_v19_scv : Memref sig .scVector .hbm S25088x512 .f32).slice (Rect.unit (s := S25088x512) (k0_off4 L 448#32) S112x128.size (k0_off4_inb L 4)) (fun _ => rfl)).view.loc (V d (cV0 L) (jV0 L))) ((Memref.whole main_v19_scv : Memref sig .scVector .hbm S25088x512 .f32).slice (Rect.unit (s := S25088x512) (k0_off4 L 448#32) S112x128.size (k0_off4_inb L 4)) (fun _ => rfl)).view.set
      ∗ ownedAny (F := F) (((Memref.whole main_v19_scv : Memref sig .scVector .hbm S25088x512 .f32).slice (Rect.unit (s := S25088x512) (k0_off4 L 560#32) S112x128.size (k0_off4_inb L 5)) (fun _ => rfl)).view.loc (V d (cV0 L) (jV0 L))) ((Memref.whole main_v19_scv : Memref sig .scVector .hbm S25088x512 .f32).slice (Rect.unit (s := S25088x512) (k0_off4 L 560#32) S112x128.size (k0_off4_inb L 5)) (fun _ => rfl)).view.set
      ∗ ownedAny (F := F) (((Memref.whole main_v19_scv : Memref sig .scVector .hbm S25088x512 .f32).slice (Rect.unit (s := S25088x512) (k0_off4 L 672#32) S112x128.size (k0_off4_inb L 6)) (fun _ => rfl)).view.loc (V d (cV0 L) (jV0 L))) ((Memref.whole main_v19_scv : Memref sig .scVector .hbm S25088x512 .f32).slice (Rect.unit (s := S25088x512) (k0_off4 L 672#32) S112x128.size (k0_off4_inb L 6)) (fun _ => rfl)).view.set
      ∗ ownedAny (F := F) (((Memref.whole main_v19_scv : Memref sig .scVector .hbm S25088x512 .f32).slice (Rect.unit (s := S25088x512) (k0_off5 L 0#32) S112x128.size (k0_off5_inb L 0)) (fun _ => rfl)).view.loc (V d (cV0 L) (jV0 L))) ((Memref.whole main_v19_scv : Memref sig .scVector .hbm S25088x512 .f32).slice (Rect.unit (s := S25088x512) (k0_off5 L 0#32) S112x128.size (k0_off5_inb L 0)) (fun _ => rfl)).view.set
      ∗ ownedAny (F := F) (((Memref.whole main_v19_scv : Memref sig .scVector .hbm S25088x512 .f32).slice (Rect.unit (s := S25088x512) (k0_off5 L 112#32) S112x128.size (k0_off5_inb L 1)) (fun _ => rfl)).view.loc (V d (cV0 L) (jV0 L))) ((Memref.whole main_v19_scv : Memref sig .scVector .hbm S25088x512 .f32).slice (Rect.unit (s := S25088x512) (k0_off5 L 112#32) S112x128.size (k0_off5_inb L 1)) (fun _ => rfl)).view.set
      ∗ ownedAny (F := F) (((Memref.whole main_v19_scv : Memref sig .scVector .hbm S25088x512 .f32).slice (Rect.unit (s := S25088x512) (k0_off5 L 224#32) S112x128.size (k0_off5_inb L 2)) (fun _ => rfl)).view.loc (V d (cV0 L) (jV0 L))) ((Memref.whole main_v19_scv : Memref sig .scVector .hbm S25088x512 .f32).slice (Rect.unit (s := S25088x512) (k0_off5 L 224#32) S112x128.size (k0_off5_inb L 2)) (fun _ => rfl)).view.set
      ∗ ownedAny (F := F) (((Memref.whole main_v19_scv : Memref sig .scVector .hbm S25088x512 .f32).slice (Rect.unit (s := S25088x512) (k0_off5 L 336#32) S112x128.size (k0_off5_inb L 3)) (fun _ => rfl)).view.loc (V d (cV0 L) (jV0 L))) ((Memref.whole main_v19_scv : Memref sig .scVector .hbm S25088x512 .f32).slice (Rect.unit (s := S25088x512) (k0_off5 L 336#32) S112x128.size (k0_off5_inb L 3)) (fun _ => rfl)).view.set
      ∗ ownedAny (F := F) (((Memref.whole main_v19_scv : Memref sig .scVector .hbm S25088x512 .f32).slice (Rect.unit (s := S25088x512) (k0_off5 L 448#32) S112x128.size (k0_off5_inb L 4)) (fun _ => rfl)).view.loc (V d (cV0 L) (jV0 L))) ((Memref.whole main_v19_scv : Memref sig .scVector .hbm S25088x512 .f32).slice (Rect.unit (s := S25088x512) (k0_off5 L 448#32) S112x128.size (k0_off5_inb L 4)) (fun _ => rfl)).view.set
      ∗ ownedAny (F := F) (((Memref.whole main_v19_scv : Memref sig .scVector .hbm S25088x512 .f32).slice (Rect.unit (s := S25088x512) (k0_off5 L 560#32) S112x128.size (k0_off5_inb L 5)) (fun _ => rfl)).view.loc (V d (cV0 L) (jV0 L))) ((Memref.whole main_v19_scv : Memref sig .scVector .hbm S25088x512 .f32).slice (Rect.unit (s := S25088x512) (k0_off5 L 560#32) S112x128.size (k0_off5_inb L 5)) (fun _ => rfl)).view.set
      ∗ ownedAny (F := F) (((Memref.whole main_v19_scv : Memref sig .scVector .hbm S25088x512 .f32).slice (Rect.unit (s := S25088x512) (k0_off5 L 672#32) S112x128.size (k0_off5_inb L 6)) (fun _ => rfl)).view.loc (V d (cV0 L) (jV0 L))) ((Memref.whole main_v19_scv : Memref sig .scVector .hbm S25088x512 .f32).slice (Rect.unit (s := S25088x512) (k0_off5 L 672#32) S112x128.size (k0_off5_inb L 6)) (fun _ => rfl)).view.set
  )

set_option synthInstance.maxHeartbeats 400000 in
set_option synthInstance.maxSize 4096 in
set_option maxHeartbeats 4000000 in
instance tileRes0_storable (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    : BI.Storable (upEmb : UEmb _ 𝕄) (tileRes0 d L qx fi0 fi1 fi2 fi3 fx0 fx1 fx2 fx3) := by
  unfold tileRes0; infer_instance

/-- The grid point of gather call 1 that SparseCore c's vector subcore s runs. -/
def coordsV1 (c : Fin (grid1.bound 0)) (s : Fin (grid1.bound 1)) : grid1.Coords :=
  fun | 0 => c | 1 => s | ⟨_ + 2, h⟩ => absurd h (Nat.not_lt.2 (Nat.le_add_left _ _))

/-- The resources of the task of gather call 1 at grid point L, the result's pieces at whatever they hold. -/
def tileRes1 (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    : sProp 𝕄 :=
  iprop(
        ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
      ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
      ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
      ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
      ∗ ((Memref.whole main_arg0_scv : Memref sig .scVector .hbm S100000x128 .f32).view.loc (V d (cV1 L) (jV1 L)) ↦{Transfers.shareDrop qx 11} fx0)
      ∗ (bigSep Finset.univ fun k : Fin 11 => ((Memref.whole main_arg0_scv : Memref sig .scVector .hbm S100000x128 .f32).view.loc (V d (cV1 L) (jV1 L)) ↦{Transfers.shareTok qx 11 k} fx0))
      ∗ ((Memref.whole main_arg1_scv : Memref sig .scVector .hbm S100000x128 .f32).view.loc (V d (cV1 L) (jV1 L)) ↦{Transfers.shareDrop qx 11} fx1)
      ∗ (bigSep Finset.univ fun k : Fin 11 => ((Memref.whole main_arg1_scv : Memref sig .scVector .hbm S100000x128 .f32).view.loc (V d (cV1 L) (jV1 L)) ↦{Transfers.shareTok qx 11 k} fx1))
      ∗ ((Memref.whole main_arg2_scv : Memref sig .scVector .hbm S100000x128 .f32).view.loc (V d (cV1 L) (jV1 L)) ↦{Transfers.shareDrop qx 11} fx2)
      ∗ (bigSep Finset.univ fun k : Fin 11 => ((Memref.whole main_arg2_scv : Memref sig .scVector .hbm S100000x128 .f32).view.loc (V d (cV1 L) (jV1 L)) ↦{Transfers.shareTok qx 11 k} fx2))
      ∗ ((Memref.whole main_arg3_scv : Memref sig .scVector .hbm S100000x128 .f32).view.loc (V d (cV1 L) (jV1 L)) ↦{Transfers.shareDrop qx 11} fx3)
      ∗ (bigSep Finset.univ fun k : Fin 11 => ((Memref.whole main_arg3_scv : Memref sig .scVector .hbm S100000x128 .f32).view.loc (V d (cV1 L) (jV1 L)) ↦{Transfers.shareTok qx 11 k} fx3))
      ∗ ownedAny (F := F) (((Memref.whole main_v28_scv : Memref sig .scVector .hbm S25088x512 .f32).slice (Rect.unit (s := S25088x512) (k1_off2 L 0#32) S112x128.size (k1_off2_inb L 0)) (fun _ => rfl)).view.loc (V d (cV1 L) (jV1 L))) ((Memref.whole main_v28_scv : Memref sig .scVector .hbm S25088x512 .f32).slice (Rect.unit (s := S25088x512) (k1_off2 L 0#32) S112x128.size (k1_off2_inb L 0)) (fun _ => rfl)).view.set
      ∗ ownedAny (F := F) (((Memref.whole main_v28_scv : Memref sig .scVector .hbm S25088x512 .f32).slice (Rect.unit (s := S25088x512) (k1_off2 L 112#32) S112x128.size (k1_off2_inb L 1)) (fun _ => rfl)).view.loc (V d (cV1 L) (jV1 L))) ((Memref.whole main_v28_scv : Memref sig .scVector .hbm S25088x512 .f32).slice (Rect.unit (s := S25088x512) (k1_off2 L 112#32) S112x128.size (k1_off2_inb L 1)) (fun _ => rfl)).view.set
      ∗ ownedAny (F := F) (((Memref.whole main_v28_scv : Memref sig .scVector .hbm S25088x512 .f32).slice (Rect.unit (s := S25088x512) (k1_off2 L 224#32) S112x128.size (k1_off2_inb L 2)) (fun _ => rfl)).view.loc (V d (cV1 L) (jV1 L))) ((Memref.whole main_v28_scv : Memref sig .scVector .hbm S25088x512 .f32).slice (Rect.unit (s := S25088x512) (k1_off2 L 224#32) S112x128.size (k1_off2_inb L 2)) (fun _ => rfl)).view.set
      ∗ ownedAny (F := F) (((Memref.whole main_v28_scv : Memref sig .scVector .hbm S25088x512 .f32).slice (Rect.unit (s := S25088x512) (k1_off2 L 336#32) S112x128.size (k1_off2_inb L 3)) (fun _ => rfl)).view.loc (V d (cV1 L) (jV1 L))) ((Memref.whole main_v28_scv : Memref sig .scVector .hbm S25088x512 .f32).slice (Rect.unit (s := S25088x512) (k1_off2 L 336#32) S112x128.size (k1_off2_inb L 3)) (fun _ => rfl)).view.set
      ∗ ownedAny (F := F) (((Memref.whole main_v28_scv : Memref sig .scVector .hbm S25088x512 .f32).slice (Rect.unit (s := S25088x512) (k1_off2 L 448#32) S112x128.size (k1_off2_inb L 4)) (fun _ => rfl)).view.loc (V d (cV1 L) (jV1 L))) ((Memref.whole main_v28_scv : Memref sig .scVector .hbm S25088x512 .f32).slice (Rect.unit (s := S25088x512) (k1_off2 L 448#32) S112x128.size (k1_off2_inb L 4)) (fun _ => rfl)).view.set
      ∗ ownedAny (F := F) (((Memref.whole main_v28_scv : Memref sig .scVector .hbm S25088x512 .f32).slice (Rect.unit (s := S25088x512) (k1_off2 L 560#32) S112x128.size (k1_off2_inb L 5)) (fun _ => rfl)).view.loc (V d (cV1 L) (jV1 L))) ((Memref.whole main_v28_scv : Memref sig .scVector .hbm S25088x512 .f32).slice (Rect.unit (s := S25088x512) (k1_off2 L 560#32) S112x128.size (k1_off2_inb L 5)) (fun _ => rfl)).view.set
      ∗ ownedAny (F := F) (((Memref.whole main_v28_scv : Memref sig .scVector .hbm S25088x512 .f32).slice (Rect.unit (s := S25088x512) (k1_off2 L 672#32) S112x128.size (k1_off2_inb L 6)) (fun _ => rfl)).view.loc (V d (cV1 L) (jV1 L))) ((Memref.whole main_v28_scv : Memref sig .scVector .hbm S25088x512 .f32).slice (Rect.unit (s := S25088x512) (k1_off2 L 672#32) S112x128.size (k1_off2_inb L 6)) (fun _ => rfl)).view.set
      ∗ ownedAny (F := F) (((Memref.whole main_v28_scv : Memref sig .scVector .hbm S25088x512 .f32).slice (Rect.unit (s := S25088x512) (k1_off3 L 0#32) S112x128.size (k1_off3_inb L 0)) (fun _ => rfl)).view.loc (V d (cV1 L) (jV1 L))) ((Memref.whole main_v28_scv : Memref sig .scVector .hbm S25088x512 .f32).slice (Rect.unit (s := S25088x512) (k1_off3 L 0#32) S112x128.size (k1_off3_inb L 0)) (fun _ => rfl)).view.set
      ∗ ownedAny (F := F) (((Memref.whole main_v28_scv : Memref sig .scVector .hbm S25088x512 .f32).slice (Rect.unit (s := S25088x512) (k1_off3 L 112#32) S112x128.size (k1_off3_inb L 1)) (fun _ => rfl)).view.loc (V d (cV1 L) (jV1 L))) ((Memref.whole main_v28_scv : Memref sig .scVector .hbm S25088x512 .f32).slice (Rect.unit (s := S25088x512) (k1_off3 L 112#32) S112x128.size (k1_off3_inb L 1)) (fun _ => rfl)).view.set
      ∗ ownedAny (F := F) (((Memref.whole main_v28_scv : Memref sig .scVector .hbm S25088x512 .f32).slice (Rect.unit (s := S25088x512) (k1_off3 L 224#32) S112x128.size (k1_off3_inb L 2)) (fun _ => rfl)).view.loc (V d (cV1 L) (jV1 L))) ((Memref.whole main_v28_scv : Memref sig .scVector .hbm S25088x512 .f32).slice (Rect.unit (s := S25088x512) (k1_off3 L 224#32) S112x128.size (k1_off3_inb L 2)) (fun _ => rfl)).view.set
      ∗ ownedAny (F := F) (((Memref.whole main_v28_scv : Memref sig .scVector .hbm S25088x512 .f32).slice (Rect.unit (s := S25088x512) (k1_off3 L 336#32) S112x128.size (k1_off3_inb L 3)) (fun _ => rfl)).view.loc (V d (cV1 L) (jV1 L))) ((Memref.whole main_v28_scv : Memref sig .scVector .hbm S25088x512 .f32).slice (Rect.unit (s := S25088x512) (k1_off3 L 336#32) S112x128.size (k1_off3_inb L 3)) (fun _ => rfl)).view.set
      ∗ ownedAny (F := F) (((Memref.whole main_v28_scv : Memref sig .scVector .hbm S25088x512 .f32).slice (Rect.unit (s := S25088x512) (k1_off3 L 448#32) S112x128.size (k1_off3_inb L 4)) (fun _ => rfl)).view.loc (V d (cV1 L) (jV1 L))) ((Memref.whole main_v28_scv : Memref sig .scVector .hbm S25088x512 .f32).slice (Rect.unit (s := S25088x512) (k1_off3 L 448#32) S112x128.size (k1_off3_inb L 4)) (fun _ => rfl)).view.set
      ∗ ownedAny (F := F) (((Memref.whole main_v28_scv : Memref sig .scVector .hbm S25088x512 .f32).slice (Rect.unit (s := S25088x512) (k1_off3 L 560#32) S112x128.size (k1_off3_inb L 5)) (fun _ => rfl)).view.loc (V d (cV1 L) (jV1 L))) ((Memref.whole main_v28_scv : Memref sig .scVector .hbm S25088x512 .f32).slice (Rect.unit (s := S25088x512) (k1_off3 L 560#32) S112x128.size (k1_off3_inb L 5)) (fun _ => rfl)).view.set
      ∗ ownedAny (F := F) (((Memref.whole main_v28_scv : Memref sig .scVector .hbm S25088x512 .f32).slice (Rect.unit (s := S25088x512) (k1_off3 L 672#32) S112x128.size (k1_off3_inb L 6)) (fun _ => rfl)).view.loc (V d (cV1 L) (jV1 L))) ((Memref.whole main_v28_scv : Memref sig .scVector .hbm S25088x512 .f32).slice (Rect.unit (s := S25088x512) (k1_off3 L 672#32) S112x128.size (k1_off3_inb L 6)) (fun _ => rfl)).view.set
      ∗ ownedAny (F := F) (((Memref.whole main_v28_scv : Memref sig .scVector .hbm S25088x512 .f32).slice (Rect.unit (s := S25088x512) (k1_off4 L 0#32) S112x128.size (k1_off4_inb L 0)) (fun _ => rfl)).view.loc (V d (cV1 L) (jV1 L))) ((Memref.whole main_v28_scv : Memref sig .scVector .hbm S25088x512 .f32).slice (Rect.unit (s := S25088x512) (k1_off4 L 0#32) S112x128.size (k1_off4_inb L 0)) (fun _ => rfl)).view.set
      ∗ ownedAny (F := F) (((Memref.whole main_v28_scv : Memref sig .scVector .hbm S25088x512 .f32).slice (Rect.unit (s := S25088x512) (k1_off4 L 112#32) S112x128.size (k1_off4_inb L 1)) (fun _ => rfl)).view.loc (V d (cV1 L) (jV1 L))) ((Memref.whole main_v28_scv : Memref sig .scVector .hbm S25088x512 .f32).slice (Rect.unit (s := S25088x512) (k1_off4 L 112#32) S112x128.size (k1_off4_inb L 1)) (fun _ => rfl)).view.set
      ∗ ownedAny (F := F) (((Memref.whole main_v28_scv : Memref sig .scVector .hbm S25088x512 .f32).slice (Rect.unit (s := S25088x512) (k1_off4 L 224#32) S112x128.size (k1_off4_inb L 2)) (fun _ => rfl)).view.loc (V d (cV1 L) (jV1 L))) ((Memref.whole main_v28_scv : Memref sig .scVector .hbm S25088x512 .f32).slice (Rect.unit (s := S25088x512) (k1_off4 L 224#32) S112x128.size (k1_off4_inb L 2)) (fun _ => rfl)).view.set
      ∗ ownedAny (F := F) (((Memref.whole main_v28_scv : Memref sig .scVector .hbm S25088x512 .f32).slice (Rect.unit (s := S25088x512) (k1_off4 L 336#32) S112x128.size (k1_off4_inb L 3)) (fun _ => rfl)).view.loc (V d (cV1 L) (jV1 L))) ((Memref.whole main_v28_scv : Memref sig .scVector .hbm S25088x512 .f32).slice (Rect.unit (s := S25088x512) (k1_off4 L 336#32) S112x128.size (k1_off4_inb L 3)) (fun _ => rfl)).view.set
      ∗ ownedAny (F := F) (((Memref.whole main_v28_scv : Memref sig .scVector .hbm S25088x512 .f32).slice (Rect.unit (s := S25088x512) (k1_off4 L 448#32) S112x128.size (k1_off4_inb L 4)) (fun _ => rfl)).view.loc (V d (cV1 L) (jV1 L))) ((Memref.whole main_v28_scv : Memref sig .scVector .hbm S25088x512 .f32).slice (Rect.unit (s := S25088x512) (k1_off4 L 448#32) S112x128.size (k1_off4_inb L 4)) (fun _ => rfl)).view.set
      ∗ ownedAny (F := F) (((Memref.whole main_v28_scv : Memref sig .scVector .hbm S25088x512 .f32).slice (Rect.unit (s := S25088x512) (k1_off4 L 560#32) S112x128.size (k1_off4_inb L 5)) (fun _ => rfl)).view.loc (V d (cV1 L) (jV1 L))) ((Memref.whole main_v28_scv : Memref sig .scVector .hbm S25088x512 .f32).slice (Rect.unit (s := S25088x512) (k1_off4 L 560#32) S112x128.size (k1_off4_inb L 5)) (fun _ => rfl)).view.set
      ∗ ownedAny (F := F) (((Memref.whole main_v28_scv : Memref sig .scVector .hbm S25088x512 .f32).slice (Rect.unit (s := S25088x512) (k1_off4 L 672#32) S112x128.size (k1_off4_inb L 6)) (fun _ => rfl)).view.loc (V d (cV1 L) (jV1 L))) ((Memref.whole main_v28_scv : Memref sig .scVector .hbm S25088x512 .f32).slice (Rect.unit (s := S25088x512) (k1_off4 L 672#32) S112x128.size (k1_off4_inb L 6)) (fun _ => rfl)).view.set
      ∗ ownedAny (F := F) (((Memref.whole main_v28_scv : Memref sig .scVector .hbm S25088x512 .f32).slice (Rect.unit (s := S25088x512) (k1_off5 L 0#32) S112x128.size (k1_off5_inb L 0)) (fun _ => rfl)).view.loc (V d (cV1 L) (jV1 L))) ((Memref.whole main_v28_scv : Memref sig .scVector .hbm S25088x512 .f32).slice (Rect.unit (s := S25088x512) (k1_off5 L 0#32) S112x128.size (k1_off5_inb L 0)) (fun _ => rfl)).view.set
      ∗ ownedAny (F := F) (((Memref.whole main_v28_scv : Memref sig .scVector .hbm S25088x512 .f32).slice (Rect.unit (s := S25088x512) (k1_off5 L 112#32) S112x128.size (k1_off5_inb L 1)) (fun _ => rfl)).view.loc (V d (cV1 L) (jV1 L))) ((Memref.whole main_v28_scv : Memref sig .scVector .hbm S25088x512 .f32).slice (Rect.unit (s := S25088x512) (k1_off5 L 112#32) S112x128.size (k1_off5_inb L 1)) (fun _ => rfl)).view.set
      ∗ ownedAny (F := F) (((Memref.whole main_v28_scv : Memref sig .scVector .hbm S25088x512 .f32).slice (Rect.unit (s := S25088x512) (k1_off5 L 224#32) S112x128.size (k1_off5_inb L 2)) (fun _ => rfl)).view.loc (V d (cV1 L) (jV1 L))) ((Memref.whole main_v28_scv : Memref sig .scVector .hbm S25088x512 .f32).slice (Rect.unit (s := S25088x512) (k1_off5 L 224#32) S112x128.size (k1_off5_inb L 2)) (fun _ => rfl)).view.set
      ∗ ownedAny (F := F) (((Memref.whole main_v28_scv : Memref sig .scVector .hbm S25088x512 .f32).slice (Rect.unit (s := S25088x512) (k1_off5 L 336#32) S112x128.size (k1_off5_inb L 3)) (fun _ => rfl)).view.loc (V d (cV1 L) (jV1 L))) ((Memref.whole main_v28_scv : Memref sig .scVector .hbm S25088x512 .f32).slice (Rect.unit (s := S25088x512) (k1_off5 L 336#32) S112x128.size (k1_off5_inb L 3)) (fun _ => rfl)).view.set
      ∗ ownedAny (F := F) (((Memref.whole main_v28_scv : Memref sig .scVector .hbm S25088x512 .f32).slice (Rect.unit (s := S25088x512) (k1_off5 L 448#32) S112x128.size (k1_off5_inb L 4)) (fun _ => rfl)).view.loc (V d (cV1 L) (jV1 L))) ((Memref.whole main_v28_scv : Memref sig .scVector .hbm S25088x512 .f32).slice (Rect.unit (s := S25088x512) (k1_off5 L 448#32) S112x128.size (k1_off5_inb L 4)) (fun _ => rfl)).view.set
      ∗ ownedAny (F := F) (((Memref.whole main_v28_scv : Memref sig .scVector .hbm S25088x512 .f32).slice (Rect.unit (s := S25088x512) (k1_off5 L 560#32) S112x128.size (k1_off5_inb L 5)) (fun _ => rfl)).view.loc (V d (cV1 L) (jV1 L))) ((Memref.whole main_v28_scv : Memref sig .scVector .hbm S25088x512 .f32).slice (Rect.unit (s := S25088x512) (k1_off5 L 560#32) S112x128.size (k1_off5_inb L 5)) (fun _ => rfl)).view.set
      ∗ ownedAny (F := F) (((Memref.whole main_v28_scv : Memref sig .scVector .hbm S25088x512 .f32).slice (Rect.unit (s := S25088x512) (k1_off5 L 672#32) S112x128.size (k1_off5_inb L 6)) (fun _ => rfl)).view.loc (V d (cV1 L) (jV1 L))) ((Memref.whole main_v28_scv : Memref sig .scVector .hbm S25088x512 .f32).slice (Rect.unit (s := S25088x512) (k1_off5 L 672#32) S112x128.size (k1_off5_inb L 6)) (fun _ => rfl)).view.set
  )

set_option synthInstance.maxHeartbeats 400000 in
set_option synthInstance.maxSize 4096 in
set_option maxHeartbeats 4000000 in
instance tileRes1_storable (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    : BI.Storable (upEmb : UEmb _ 𝕄) (tileRes1 d L qx fi0 fi1 fi2 fi3 fx0 fx1 fx2 fx3) := by
  unfold tileRes1; infer_instance

/-- The grid point of gather call 2 that SparseCore c's vector subcore s runs. -/
def coordsV2 (c : Fin (grid2.bound 0)) (s : Fin (grid2.bound 1)) : grid2.Coords :=
  fun | 0 => c | 1 => s | ⟨_ + 2, h⟩ => absurd h (Nat.not_lt.2 (Nat.le_add_left _ _))

/-- The resources of the task of gather call 2 at grid point L, the result's pieces at whatever they hold. -/
def tileRes2 (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    : sProp 𝕄 :=
  iprop(
        ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
      ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
      ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
      ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
      ∗ ((Memref.whole main_arg0_scv : Memref sig .scVector .hbm S100000x128 .f32).view.loc (V d (cV2 L) (jV2 L)) ↦{Transfers.shareDrop qx 11} fx0)
      ∗ (bigSep Finset.univ fun k : Fin 11 => ((Memref.whole main_arg0_scv : Memref sig .scVector .hbm S100000x128 .f32).view.loc (V d (cV2 L) (jV2 L)) ↦{Transfers.shareTok qx 11 k} fx0))
      ∗ ((Memref.whole main_arg1_scv : Memref sig .scVector .hbm S100000x128 .f32).view.loc (V d (cV2 L) (jV2 L)) ↦{Transfers.shareDrop qx 11} fx1)
      ∗ (bigSep Finset.univ fun k : Fin 11 => ((Memref.whole main_arg1_scv : Memref sig .scVector .hbm S100000x128 .f32).view.loc (V d (cV2 L) (jV2 L)) ↦{Transfers.shareTok qx 11 k} fx1))
      ∗ ((Memref.whole main_arg2_scv : Memref sig .scVector .hbm S100000x128 .f32).view.loc (V d (cV2 L) (jV2 L)) ↦{Transfers.shareDrop qx 11} fx2)
      ∗ (bigSep Finset.univ fun k : Fin 11 => ((Memref.whole main_arg2_scv : Memref sig .scVector .hbm S100000x128 .f32).view.loc (V d (cV2 L) (jV2 L)) ↦{Transfers.shareTok qx 11 k} fx2))
      ∗ ((Memref.whole main_arg3_scv : Memref sig .scVector .hbm S100000x128 .f32).view.loc (V d (cV2 L) (jV2 L)) ↦{Transfers.shareDrop qx 11} fx3)
      ∗ (bigSep Finset.univ fun k : Fin 11 => ((Memref.whole main_arg3_scv : Memref sig .scVector .hbm S100000x128 .f32).view.loc (V d (cV2 L) (jV2 L)) ↦{Transfers.shareTok qx 11 k} fx3))
      ∗ ownedAny (F := F) (((Memref.whole main_v37_scv : Memref sig .scVector .hbm S25088x512 .f32).slice (Rect.unit (s := S25088x512) (k2_off2 L 0#32) S112x128.size (k2_off2_inb L 0)) (fun _ => rfl)).view.loc (V d (cV2 L) (jV2 L))) ((Memref.whole main_v37_scv : Memref sig .scVector .hbm S25088x512 .f32).slice (Rect.unit (s := S25088x512) (k2_off2 L 0#32) S112x128.size (k2_off2_inb L 0)) (fun _ => rfl)).view.set
      ∗ ownedAny (F := F) (((Memref.whole main_v37_scv : Memref sig .scVector .hbm S25088x512 .f32).slice (Rect.unit (s := S25088x512) (k2_off2 L 112#32) S112x128.size (k2_off2_inb L 1)) (fun _ => rfl)).view.loc (V d (cV2 L) (jV2 L))) ((Memref.whole main_v37_scv : Memref sig .scVector .hbm S25088x512 .f32).slice (Rect.unit (s := S25088x512) (k2_off2 L 112#32) S112x128.size (k2_off2_inb L 1)) (fun _ => rfl)).view.set
      ∗ ownedAny (F := F) (((Memref.whole main_v37_scv : Memref sig .scVector .hbm S25088x512 .f32).slice (Rect.unit (s := S25088x512) (k2_off2 L 224#32) S112x128.size (k2_off2_inb L 2)) (fun _ => rfl)).view.loc (V d (cV2 L) (jV2 L))) ((Memref.whole main_v37_scv : Memref sig .scVector .hbm S25088x512 .f32).slice (Rect.unit (s := S25088x512) (k2_off2 L 224#32) S112x128.size (k2_off2_inb L 2)) (fun _ => rfl)).view.set
      ∗ ownedAny (F := F) (((Memref.whole main_v37_scv : Memref sig .scVector .hbm S25088x512 .f32).slice (Rect.unit (s := S25088x512) (k2_off2 L 336#32) S112x128.size (k2_off2_inb L 3)) (fun _ => rfl)).view.loc (V d (cV2 L) (jV2 L))) ((Memref.whole main_v37_scv : Memref sig .scVector .hbm S25088x512 .f32).slice (Rect.unit (s := S25088x512) (k2_off2 L 336#32) S112x128.size (k2_off2_inb L 3)) (fun _ => rfl)).view.set
      ∗ ownedAny (F := F) (((Memref.whole main_v37_scv : Memref sig .scVector .hbm S25088x512 .f32).slice (Rect.unit (s := S25088x512) (k2_off2 L 448#32) S112x128.size (k2_off2_inb L 4)) (fun _ => rfl)).view.loc (V d (cV2 L) (jV2 L))) ((Memref.whole main_v37_scv : Memref sig .scVector .hbm S25088x512 .f32).slice (Rect.unit (s := S25088x512) (k2_off2 L 448#32) S112x128.size (k2_off2_inb L 4)) (fun _ => rfl)).view.set
      ∗ ownedAny (F := F) (((Memref.whole main_v37_scv : Memref sig .scVector .hbm S25088x512 .f32).slice (Rect.unit (s := S25088x512) (k2_off2 L 560#32) S112x128.size (k2_off2_inb L 5)) (fun _ => rfl)).view.loc (V d (cV2 L) (jV2 L))) ((Memref.whole main_v37_scv : Memref sig .scVector .hbm S25088x512 .f32).slice (Rect.unit (s := S25088x512) (k2_off2 L 560#32) S112x128.size (k2_off2_inb L 5)) (fun _ => rfl)).view.set
      ∗ ownedAny (F := F) (((Memref.whole main_v37_scv : Memref sig .scVector .hbm S25088x512 .f32).slice (Rect.unit (s := S25088x512) (k2_off2 L 672#32) S112x128.size (k2_off2_inb L 6)) (fun _ => rfl)).view.loc (V d (cV2 L) (jV2 L))) ((Memref.whole main_v37_scv : Memref sig .scVector .hbm S25088x512 .f32).slice (Rect.unit (s := S25088x512) (k2_off2 L 672#32) S112x128.size (k2_off2_inb L 6)) (fun _ => rfl)).view.set
      ∗ ownedAny (F := F) (((Memref.whole main_v37_scv : Memref sig .scVector .hbm S25088x512 .f32).slice (Rect.unit (s := S25088x512) (k2_off3 L 0#32) S112x128.size (k2_off3_inb L 0)) (fun _ => rfl)).view.loc (V d (cV2 L) (jV2 L))) ((Memref.whole main_v37_scv : Memref sig .scVector .hbm S25088x512 .f32).slice (Rect.unit (s := S25088x512) (k2_off3 L 0#32) S112x128.size (k2_off3_inb L 0)) (fun _ => rfl)).view.set
      ∗ ownedAny (F := F) (((Memref.whole main_v37_scv : Memref sig .scVector .hbm S25088x512 .f32).slice (Rect.unit (s := S25088x512) (k2_off3 L 112#32) S112x128.size (k2_off3_inb L 1)) (fun _ => rfl)).view.loc (V d (cV2 L) (jV2 L))) ((Memref.whole main_v37_scv : Memref sig .scVector .hbm S25088x512 .f32).slice (Rect.unit (s := S25088x512) (k2_off3 L 112#32) S112x128.size (k2_off3_inb L 1)) (fun _ => rfl)).view.set
      ∗ ownedAny (F := F) (((Memref.whole main_v37_scv : Memref sig .scVector .hbm S25088x512 .f32).slice (Rect.unit (s := S25088x512) (k2_off3 L 224#32) S112x128.size (k2_off3_inb L 2)) (fun _ => rfl)).view.loc (V d (cV2 L) (jV2 L))) ((Memref.whole main_v37_scv : Memref sig .scVector .hbm S25088x512 .f32).slice (Rect.unit (s := S25088x512) (k2_off3 L 224#32) S112x128.size (k2_off3_inb L 2)) (fun _ => rfl)).view.set
      ∗ ownedAny (F := F) (((Memref.whole main_v37_scv : Memref sig .scVector .hbm S25088x512 .f32).slice (Rect.unit (s := S25088x512) (k2_off3 L 336#32) S112x128.size (k2_off3_inb L 3)) (fun _ => rfl)).view.loc (V d (cV2 L) (jV2 L))) ((Memref.whole main_v37_scv : Memref sig .scVector .hbm S25088x512 .f32).slice (Rect.unit (s := S25088x512) (k2_off3 L 336#32) S112x128.size (k2_off3_inb L 3)) (fun _ => rfl)).view.set
      ∗ ownedAny (F := F) (((Memref.whole main_v37_scv : Memref sig .scVector .hbm S25088x512 .f32).slice (Rect.unit (s := S25088x512) (k2_off3 L 448#32) S112x128.size (k2_off3_inb L 4)) (fun _ => rfl)).view.loc (V d (cV2 L) (jV2 L))) ((Memref.whole main_v37_scv : Memref sig .scVector .hbm S25088x512 .f32).slice (Rect.unit (s := S25088x512) (k2_off3 L 448#32) S112x128.size (k2_off3_inb L 4)) (fun _ => rfl)).view.set
      ∗ ownedAny (F := F) (((Memref.whole main_v37_scv : Memref sig .scVector .hbm S25088x512 .f32).slice (Rect.unit (s := S25088x512) (k2_off3 L 560#32) S112x128.size (k2_off3_inb L 5)) (fun _ => rfl)).view.loc (V d (cV2 L) (jV2 L))) ((Memref.whole main_v37_scv : Memref sig .scVector .hbm S25088x512 .f32).slice (Rect.unit (s := S25088x512) (k2_off3 L 560#32) S112x128.size (k2_off3_inb L 5)) (fun _ => rfl)).view.set
      ∗ ownedAny (F := F) (((Memref.whole main_v37_scv : Memref sig .scVector .hbm S25088x512 .f32).slice (Rect.unit (s := S25088x512) (k2_off3 L 672#32) S112x128.size (k2_off3_inb L 6)) (fun _ => rfl)).view.loc (V d (cV2 L) (jV2 L))) ((Memref.whole main_v37_scv : Memref sig .scVector .hbm S25088x512 .f32).slice (Rect.unit (s := S25088x512) (k2_off3 L 672#32) S112x128.size (k2_off3_inb L 6)) (fun _ => rfl)).view.set
      ∗ ownedAny (F := F) (((Memref.whole main_v37_scv : Memref sig .scVector .hbm S25088x512 .f32).slice (Rect.unit (s := S25088x512) (k2_off4 L 0#32) S112x128.size (k2_off4_inb L 0)) (fun _ => rfl)).view.loc (V d (cV2 L) (jV2 L))) ((Memref.whole main_v37_scv : Memref sig .scVector .hbm S25088x512 .f32).slice (Rect.unit (s := S25088x512) (k2_off4 L 0#32) S112x128.size (k2_off4_inb L 0)) (fun _ => rfl)).view.set
      ∗ ownedAny (F := F) (((Memref.whole main_v37_scv : Memref sig .scVector .hbm S25088x512 .f32).slice (Rect.unit (s := S25088x512) (k2_off4 L 112#32) S112x128.size (k2_off4_inb L 1)) (fun _ => rfl)).view.loc (V d (cV2 L) (jV2 L))) ((Memref.whole main_v37_scv : Memref sig .scVector .hbm S25088x512 .f32).slice (Rect.unit (s := S25088x512) (k2_off4 L 112#32) S112x128.size (k2_off4_inb L 1)) (fun _ => rfl)).view.set
      ∗ ownedAny (F := F) (((Memref.whole main_v37_scv : Memref sig .scVector .hbm S25088x512 .f32).slice (Rect.unit (s := S25088x512) (k2_off4 L 224#32) S112x128.size (k2_off4_inb L 2)) (fun _ => rfl)).view.loc (V d (cV2 L) (jV2 L))) ((Memref.whole main_v37_scv : Memref sig .scVector .hbm S25088x512 .f32).slice (Rect.unit (s := S25088x512) (k2_off4 L 224#32) S112x128.size (k2_off4_inb L 2)) (fun _ => rfl)).view.set
      ∗ ownedAny (F := F) (((Memref.whole main_v37_scv : Memref sig .scVector .hbm S25088x512 .f32).slice (Rect.unit (s := S25088x512) (k2_off4 L 336#32) S112x128.size (k2_off4_inb L 3)) (fun _ => rfl)).view.loc (V d (cV2 L) (jV2 L))) ((Memref.whole main_v37_scv : Memref sig .scVector .hbm S25088x512 .f32).slice (Rect.unit (s := S25088x512) (k2_off4 L 336#32) S112x128.size (k2_off4_inb L 3)) (fun _ => rfl)).view.set
      ∗ ownedAny (F := F) (((Memref.whole main_v37_scv : Memref sig .scVector .hbm S25088x512 .f32).slice (Rect.unit (s := S25088x512) (k2_off4 L 448#32) S112x128.size (k2_off4_inb L 4)) (fun _ => rfl)).view.loc (V d (cV2 L) (jV2 L))) ((Memref.whole main_v37_scv : Memref sig .scVector .hbm S25088x512 .f32).slice (Rect.unit (s := S25088x512) (k2_off4 L 448#32) S112x128.size (k2_off4_inb L 4)) (fun _ => rfl)).view.set
      ∗ ownedAny (F := F) (((Memref.whole main_v37_scv : Memref sig .scVector .hbm S25088x512 .f32).slice (Rect.unit (s := S25088x512) (k2_off4 L 560#32) S112x128.size (k2_off4_inb L 5)) (fun _ => rfl)).view.loc (V d (cV2 L) (jV2 L))) ((Memref.whole main_v37_scv : Memref sig .scVector .hbm S25088x512 .f32).slice (Rect.unit (s := S25088x512) (k2_off4 L 560#32) S112x128.size (k2_off4_inb L 5)) (fun _ => rfl)).view.set
      ∗ ownedAny (F := F) (((Memref.whole main_v37_scv : Memref sig .scVector .hbm S25088x512 .f32).slice (Rect.unit (s := S25088x512) (k2_off4 L 672#32) S112x128.size (k2_off4_inb L 6)) (fun _ => rfl)).view.loc (V d (cV2 L) (jV2 L))) ((Memref.whole main_v37_scv : Memref sig .scVector .hbm S25088x512 .f32).slice (Rect.unit (s := S25088x512) (k2_off4 L 672#32) S112x128.size (k2_off4_inb L 6)) (fun _ => rfl)).view.set
      ∗ ownedAny (F := F) (((Memref.whole main_v37_scv : Memref sig .scVector .hbm S25088x512 .f32).slice (Rect.unit (s := S25088x512) (k2_off5 L 0#32) S112x128.size (k2_off5_inb L 0)) (fun _ => rfl)).view.loc (V d (cV2 L) (jV2 L))) ((Memref.whole main_v37_scv : Memref sig .scVector .hbm S25088x512 .f32).slice (Rect.unit (s := S25088x512) (k2_off5 L 0#32) S112x128.size (k2_off5_inb L 0)) (fun _ => rfl)).view.set
      ∗ ownedAny (F := F) (((Memref.whole main_v37_scv : Memref sig .scVector .hbm S25088x512 .f32).slice (Rect.unit (s := S25088x512) (k2_off5 L 112#32) S112x128.size (k2_off5_inb L 1)) (fun _ => rfl)).view.loc (V d (cV2 L) (jV2 L))) ((Memref.whole main_v37_scv : Memref sig .scVector .hbm S25088x512 .f32).slice (Rect.unit (s := S25088x512) (k2_off5 L 112#32) S112x128.size (k2_off5_inb L 1)) (fun _ => rfl)).view.set
      ∗ ownedAny (F := F) (((Memref.whole main_v37_scv : Memref sig .scVector .hbm S25088x512 .f32).slice (Rect.unit (s := S25088x512) (k2_off5 L 224#32) S112x128.size (k2_off5_inb L 2)) (fun _ => rfl)).view.loc (V d (cV2 L) (jV2 L))) ((Memref.whole main_v37_scv : Memref sig .scVector .hbm S25088x512 .f32).slice (Rect.unit (s := S25088x512) (k2_off5 L 224#32) S112x128.size (k2_off5_inb L 2)) (fun _ => rfl)).view.set
      ∗ ownedAny (F := F) (((Memref.whole main_v37_scv : Memref sig .scVector .hbm S25088x512 .f32).slice (Rect.unit (s := S25088x512) (k2_off5 L 336#32) S112x128.size (k2_off5_inb L 3)) (fun _ => rfl)).view.loc (V d (cV2 L) (jV2 L))) ((Memref.whole main_v37_scv : Memref sig .scVector .hbm S25088x512 .f32).slice (Rect.unit (s := S25088x512) (k2_off5 L 336#32) S112x128.size (k2_off5_inb L 3)) (fun _ => rfl)).view.set
      ∗ ownedAny (F := F) (((Memref.whole main_v37_scv : Memref sig .scVector .hbm S25088x512 .f32).slice (Rect.unit (s := S25088x512) (k2_off5 L 448#32) S112x128.size (k2_off5_inb L 4)) (fun _ => rfl)).view.loc (V d (cV2 L) (jV2 L))) ((Memref.whole main_v37_scv : Memref sig .scVector .hbm S25088x512 .f32).slice (Rect.unit (s := S25088x512) (k2_off5 L 448#32) S112x128.size (k2_off5_inb L 4)) (fun _ => rfl)).view.set
      ∗ ownedAny (F := F) (((Memref.whole main_v37_scv : Memref sig .scVector .hbm S25088x512 .f32).slice (Rect.unit (s := S25088x512) (k2_off5 L 560#32) S112x128.size (k2_off5_inb L 5)) (fun _ => rfl)).view.loc (V d (cV2 L) (jV2 L))) ((Memref.whole main_v37_scv : Memref sig .scVector .hbm S25088x512 .f32).slice (Rect.unit (s := S25088x512) (k2_off5 L 560#32) S112x128.size (k2_off5_inb L 5)) (fun _ => rfl)).view.set
      ∗ ownedAny (F := F) (((Memref.whole main_v37_scv : Memref sig .scVector .hbm S25088x512 .f32).slice (Rect.unit (s := S25088x512) (k2_off5 L 672#32) S112x128.size (k2_off5_inb L 6)) (fun _ => rfl)).view.loc (V d (cV2 L) (jV2 L))) ((Memref.whole main_v37_scv : Memref sig .scVector .hbm S25088x512 .f32).slice (Rect.unit (s := S25088x512) (k2_off5 L 672#32) S112x128.size (k2_off5_inb L 6)) (fun _ => rfl)).view.set
  )

set_option synthInstance.maxHeartbeats 400000 in
set_option synthInstance.maxSize 4096 in
set_option maxHeartbeats 4000000 in
instance tileRes2_storable (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    : BI.Storable (upEmb : UEmb _ 𝕄) (tileRes2 d L qx fi0 fi1 fi2 fi3 fx0 fx1 fx2 fx3) := by
  unfold tileRes2; infer_instance

/-- The grid point of gather call 3 that SparseCore c's vector subcore s runs. -/
def coordsV3 (c : Fin (grid3.bound 0)) (s : Fin (grid3.bound 1)) : grid3.Coords :=
  fun | 0 => c | 1 => s | ⟨_ + 2, h⟩ => absurd h (Nat.not_lt.2 (Nat.le_add_left _ _))

/-- The resources of the task of gather call 3 at grid point L, the result's pieces at whatever they hold. -/
def tileRes3 (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    : sProp 𝕄 :=
  iprop(
        ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
      ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
      ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
      ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
      ∗ ((Memref.whole main_arg0_scv : Memref sig .scVector .hbm S100000x128 .f32).view.loc (V d (cV3 L) (jV3 L)) ↦{Transfers.shareDrop qx 11} fx0)
      ∗ (bigSep Finset.univ fun k : Fin 11 => ((Memref.whole main_arg0_scv : Memref sig .scVector .hbm S100000x128 .f32).view.loc (V d (cV3 L) (jV3 L)) ↦{Transfers.shareTok qx 11 k} fx0))
      ∗ ((Memref.whole main_arg1_scv : Memref sig .scVector .hbm S100000x128 .f32).view.loc (V d (cV3 L) (jV3 L)) ↦{Transfers.shareDrop qx 11} fx1)
      ∗ (bigSep Finset.univ fun k : Fin 11 => ((Memref.whole main_arg1_scv : Memref sig .scVector .hbm S100000x128 .f32).view.loc (V d (cV3 L) (jV3 L)) ↦{Transfers.shareTok qx 11 k} fx1))
      ∗ ((Memref.whole main_arg2_scv : Memref sig .scVector .hbm S100000x128 .f32).view.loc (V d (cV3 L) (jV3 L)) ↦{Transfers.shareDrop qx 11} fx2)
      ∗ (bigSep Finset.univ fun k : Fin 11 => ((Memref.whole main_arg2_scv : Memref sig .scVector .hbm S100000x128 .f32).view.loc (V d (cV3 L) (jV3 L)) ↦{Transfers.shareTok qx 11 k} fx2))
      ∗ ((Memref.whole main_arg3_scv : Memref sig .scVector .hbm S100000x128 .f32).view.loc (V d (cV3 L) (jV3 L)) ↦{Transfers.shareDrop qx 11} fx3)
      ∗ (bigSep Finset.univ fun k : Fin 11 => ((Memref.whole main_arg3_scv : Memref sig .scVector .hbm S100000x128 .f32).view.loc (V d (cV3 L) (jV3 L)) ↦{Transfers.shareTok qx 11 k} fx3))
      ∗ ownedAny (F := F) (((Memref.whole main_v46_scv : Memref sig .scVector .hbm S25088x512 .f32).slice (Rect.unit (s := S25088x512) (k3_off2 L 0#32) S112x128.size (k3_off2_inb L 0)) (fun _ => rfl)).view.loc (V d (cV3 L) (jV3 L))) ((Memref.whole main_v46_scv : Memref sig .scVector .hbm S25088x512 .f32).slice (Rect.unit (s := S25088x512) (k3_off2 L 0#32) S112x128.size (k3_off2_inb L 0)) (fun _ => rfl)).view.set
      ∗ ownedAny (F := F) (((Memref.whole main_v46_scv : Memref sig .scVector .hbm S25088x512 .f32).slice (Rect.unit (s := S25088x512) (k3_off2 L 112#32) S112x128.size (k3_off2_inb L 1)) (fun _ => rfl)).view.loc (V d (cV3 L) (jV3 L))) ((Memref.whole main_v46_scv : Memref sig .scVector .hbm S25088x512 .f32).slice (Rect.unit (s := S25088x512) (k3_off2 L 112#32) S112x128.size (k3_off2_inb L 1)) (fun _ => rfl)).view.set
      ∗ ownedAny (F := F) (((Memref.whole main_v46_scv : Memref sig .scVector .hbm S25088x512 .f32).slice (Rect.unit (s := S25088x512) (k3_off2 L 224#32) S112x128.size (k3_off2_inb L 2)) (fun _ => rfl)).view.loc (V d (cV3 L) (jV3 L))) ((Memref.whole main_v46_scv : Memref sig .scVector .hbm S25088x512 .f32).slice (Rect.unit (s := S25088x512) (k3_off2 L 224#32) S112x128.size (k3_off2_inb L 2)) (fun _ => rfl)).view.set
      ∗ ownedAny (F := F) (((Memref.whole main_v46_scv : Memref sig .scVector .hbm S25088x512 .f32).slice (Rect.unit (s := S25088x512) (k3_off2 L 336#32) S112x128.size (k3_off2_inb L 3)) (fun _ => rfl)).view.loc (V d (cV3 L) (jV3 L))) ((Memref.whole main_v46_scv : Memref sig .scVector .hbm S25088x512 .f32).slice (Rect.unit (s := S25088x512) (k3_off2 L 336#32) S112x128.size (k3_off2_inb L 3)) (fun _ => rfl)).view.set
      ∗ ownedAny (F := F) (((Memref.whole main_v46_scv : Memref sig .scVector .hbm S25088x512 .f32).slice (Rect.unit (s := S25088x512) (k3_off2 L 448#32) S112x128.size (k3_off2_inb L 4)) (fun _ => rfl)).view.loc (V d (cV3 L) (jV3 L))) ((Memref.whole main_v46_scv : Memref sig .scVector .hbm S25088x512 .f32).slice (Rect.unit (s := S25088x512) (k3_off2 L 448#32) S112x128.size (k3_off2_inb L 4)) (fun _ => rfl)).view.set
      ∗ ownedAny (F := F) (((Memref.whole main_v46_scv : Memref sig .scVector .hbm S25088x512 .f32).slice (Rect.unit (s := S25088x512) (k3_off2 L 560#32) S112x128.size (k3_off2_inb L 5)) (fun _ => rfl)).view.loc (V d (cV3 L) (jV3 L))) ((Memref.whole main_v46_scv : Memref sig .scVector .hbm S25088x512 .f32).slice (Rect.unit (s := S25088x512) (k3_off2 L 560#32) S112x128.size (k3_off2_inb L 5)) (fun _ => rfl)).view.set
      ∗ ownedAny (F := F) (((Memref.whole main_v46_scv : Memref sig .scVector .hbm S25088x512 .f32).slice (Rect.unit (s := S25088x512) (k3_off2 L 672#32) S112x128.size (k3_off2_inb L 6)) (fun _ => rfl)).view.loc (V d (cV3 L) (jV3 L))) ((Memref.whole main_v46_scv : Memref sig .scVector .hbm S25088x512 .f32).slice (Rect.unit (s := S25088x512) (k3_off2 L 672#32) S112x128.size (k3_off2_inb L 6)) (fun _ => rfl)).view.set
      ∗ ownedAny (F := F) (((Memref.whole main_v46_scv : Memref sig .scVector .hbm S25088x512 .f32).slice (Rect.unit (s := S25088x512) (k3_off3 L 0#32) S112x128.size (k3_off3_inb L 0)) (fun _ => rfl)).view.loc (V d (cV3 L) (jV3 L))) ((Memref.whole main_v46_scv : Memref sig .scVector .hbm S25088x512 .f32).slice (Rect.unit (s := S25088x512) (k3_off3 L 0#32) S112x128.size (k3_off3_inb L 0)) (fun _ => rfl)).view.set
      ∗ ownedAny (F := F) (((Memref.whole main_v46_scv : Memref sig .scVector .hbm S25088x512 .f32).slice (Rect.unit (s := S25088x512) (k3_off3 L 112#32) S112x128.size (k3_off3_inb L 1)) (fun _ => rfl)).view.loc (V d (cV3 L) (jV3 L))) ((Memref.whole main_v46_scv : Memref sig .scVector .hbm S25088x512 .f32).slice (Rect.unit (s := S25088x512) (k3_off3 L 112#32) S112x128.size (k3_off3_inb L 1)) (fun _ => rfl)).view.set
      ∗ ownedAny (F := F) (((Memref.whole main_v46_scv : Memref sig .scVector .hbm S25088x512 .f32).slice (Rect.unit (s := S25088x512) (k3_off3 L 224#32) S112x128.size (k3_off3_inb L 2)) (fun _ => rfl)).view.loc (V d (cV3 L) (jV3 L))) ((Memref.whole main_v46_scv : Memref sig .scVector .hbm S25088x512 .f32).slice (Rect.unit (s := S25088x512) (k3_off3 L 224#32) S112x128.size (k3_off3_inb L 2)) (fun _ => rfl)).view.set
      ∗ ownedAny (F := F) (((Memref.whole main_v46_scv : Memref sig .scVector .hbm S25088x512 .f32).slice (Rect.unit (s := S25088x512) (k3_off3 L 336#32) S112x128.size (k3_off3_inb L 3)) (fun _ => rfl)).view.loc (V d (cV3 L) (jV3 L))) ((Memref.whole main_v46_scv : Memref sig .scVector .hbm S25088x512 .f32).slice (Rect.unit (s := S25088x512) (k3_off3 L 336#32) S112x128.size (k3_off3_inb L 3)) (fun _ => rfl)).view.set
      ∗ ownedAny (F := F) (((Memref.whole main_v46_scv : Memref sig .scVector .hbm S25088x512 .f32).slice (Rect.unit (s := S25088x512) (k3_off3 L 448#32) S112x128.size (k3_off3_inb L 4)) (fun _ => rfl)).view.loc (V d (cV3 L) (jV3 L))) ((Memref.whole main_v46_scv : Memref sig .scVector .hbm S25088x512 .f32).slice (Rect.unit (s := S25088x512) (k3_off3 L 448#32) S112x128.size (k3_off3_inb L 4)) (fun _ => rfl)).view.set
      ∗ ownedAny (F := F) (((Memref.whole main_v46_scv : Memref sig .scVector .hbm S25088x512 .f32).slice (Rect.unit (s := S25088x512) (k3_off3 L 560#32) S112x128.size (k3_off3_inb L 5)) (fun _ => rfl)).view.loc (V d (cV3 L) (jV3 L))) ((Memref.whole main_v46_scv : Memref sig .scVector .hbm S25088x512 .f32).slice (Rect.unit (s := S25088x512) (k3_off3 L 560#32) S112x128.size (k3_off3_inb L 5)) (fun _ => rfl)).view.set
      ∗ ownedAny (F := F) (((Memref.whole main_v46_scv : Memref sig .scVector .hbm S25088x512 .f32).slice (Rect.unit (s := S25088x512) (k3_off3 L 672#32) S112x128.size (k3_off3_inb L 6)) (fun _ => rfl)).view.loc (V d (cV3 L) (jV3 L))) ((Memref.whole main_v46_scv : Memref sig .scVector .hbm S25088x512 .f32).slice (Rect.unit (s := S25088x512) (k3_off3 L 672#32) S112x128.size (k3_off3_inb L 6)) (fun _ => rfl)).view.set
      ∗ ownedAny (F := F) (((Memref.whole main_v46_scv : Memref sig .scVector .hbm S25088x512 .f32).slice (Rect.unit (s := S25088x512) (k3_off4 L 0#32) S112x128.size (k3_off4_inb L 0)) (fun _ => rfl)).view.loc (V d (cV3 L) (jV3 L))) ((Memref.whole main_v46_scv : Memref sig .scVector .hbm S25088x512 .f32).slice (Rect.unit (s := S25088x512) (k3_off4 L 0#32) S112x128.size (k3_off4_inb L 0)) (fun _ => rfl)).view.set
      ∗ ownedAny (F := F) (((Memref.whole main_v46_scv : Memref sig .scVector .hbm S25088x512 .f32).slice (Rect.unit (s := S25088x512) (k3_off4 L 112#32) S112x128.size (k3_off4_inb L 1)) (fun _ => rfl)).view.loc (V d (cV3 L) (jV3 L))) ((Memref.whole main_v46_scv : Memref sig .scVector .hbm S25088x512 .f32).slice (Rect.unit (s := S25088x512) (k3_off4 L 112#32) S112x128.size (k3_off4_inb L 1)) (fun _ => rfl)).view.set
      ∗ ownedAny (F := F) (((Memref.whole main_v46_scv : Memref sig .scVector .hbm S25088x512 .f32).slice (Rect.unit (s := S25088x512) (k3_off4 L 224#32) S112x128.size (k3_off4_inb L 2)) (fun _ => rfl)).view.loc (V d (cV3 L) (jV3 L))) ((Memref.whole main_v46_scv : Memref sig .scVector .hbm S25088x512 .f32).slice (Rect.unit (s := S25088x512) (k3_off4 L 224#32) S112x128.size (k3_off4_inb L 2)) (fun _ => rfl)).view.set
      ∗ ownedAny (F := F) (((Memref.whole main_v46_scv : Memref sig .scVector .hbm S25088x512 .f32).slice (Rect.unit (s := S25088x512) (k3_off4 L 336#32) S112x128.size (k3_off4_inb L 3)) (fun _ => rfl)).view.loc (V d (cV3 L) (jV3 L))) ((Memref.whole main_v46_scv : Memref sig .scVector .hbm S25088x512 .f32).slice (Rect.unit (s := S25088x512) (k3_off4 L 336#32) S112x128.size (k3_off4_inb L 3)) (fun _ => rfl)).view.set
      ∗ ownedAny (F := F) (((Memref.whole main_v46_scv : Memref sig .scVector .hbm S25088x512 .f32).slice (Rect.unit (s := S25088x512) (k3_off4 L 448#32) S112x128.size (k3_off4_inb L 4)) (fun _ => rfl)).view.loc (V d (cV3 L) (jV3 L))) ((Memref.whole main_v46_scv : Memref sig .scVector .hbm S25088x512 .f32).slice (Rect.unit (s := S25088x512) (k3_off4 L 448#32) S112x128.size (k3_off4_inb L 4)) (fun _ => rfl)).view.set
      ∗ ownedAny (F := F) (((Memref.whole main_v46_scv : Memref sig .scVector .hbm S25088x512 .f32).slice (Rect.unit (s := S25088x512) (k3_off4 L 560#32) S112x128.size (k3_off4_inb L 5)) (fun _ => rfl)).view.loc (V d (cV3 L) (jV3 L))) ((Memref.whole main_v46_scv : Memref sig .scVector .hbm S25088x512 .f32).slice (Rect.unit (s := S25088x512) (k3_off4 L 560#32) S112x128.size (k3_off4_inb L 5)) (fun _ => rfl)).view.set
      ∗ ownedAny (F := F) (((Memref.whole main_v46_scv : Memref sig .scVector .hbm S25088x512 .f32).slice (Rect.unit (s := S25088x512) (k3_off4 L 672#32) S112x128.size (k3_off4_inb L 6)) (fun _ => rfl)).view.loc (V d (cV3 L) (jV3 L))) ((Memref.whole main_v46_scv : Memref sig .scVector .hbm S25088x512 .f32).slice (Rect.unit (s := S25088x512) (k3_off4 L 672#32) S112x128.size (k3_off4_inb L 6)) (fun _ => rfl)).view.set
      ∗ ownedAny (F := F) (((Memref.whole main_v46_scv : Memref sig .scVector .hbm S25088x512 .f32).slice (Rect.unit (s := S25088x512) (k3_off5 L 0#32) S112x128.size (k3_off5_inb L 0)) (fun _ => rfl)).view.loc (V d (cV3 L) (jV3 L))) ((Memref.whole main_v46_scv : Memref sig .scVector .hbm S25088x512 .f32).slice (Rect.unit (s := S25088x512) (k3_off5 L 0#32) S112x128.size (k3_off5_inb L 0)) (fun _ => rfl)).view.set
      ∗ ownedAny (F := F) (((Memref.whole main_v46_scv : Memref sig .scVector .hbm S25088x512 .f32).slice (Rect.unit (s := S25088x512) (k3_off5 L 112#32) S112x128.size (k3_off5_inb L 1)) (fun _ => rfl)).view.loc (V d (cV3 L) (jV3 L))) ((Memref.whole main_v46_scv : Memref sig .scVector .hbm S25088x512 .f32).slice (Rect.unit (s := S25088x512) (k3_off5 L 112#32) S112x128.size (k3_off5_inb L 1)) (fun _ => rfl)).view.set
      ∗ ownedAny (F := F) (((Memref.whole main_v46_scv : Memref sig .scVector .hbm S25088x512 .f32).slice (Rect.unit (s := S25088x512) (k3_off5 L 224#32) S112x128.size (k3_off5_inb L 2)) (fun _ => rfl)).view.loc (V d (cV3 L) (jV3 L))) ((Memref.whole main_v46_scv : Memref sig .scVector .hbm S25088x512 .f32).slice (Rect.unit (s := S25088x512) (k3_off5 L 224#32) S112x128.size (k3_off5_inb L 2)) (fun _ => rfl)).view.set
      ∗ ownedAny (F := F) (((Memref.whole main_v46_scv : Memref sig .scVector .hbm S25088x512 .f32).slice (Rect.unit (s := S25088x512) (k3_off5 L 336#32) S112x128.size (k3_off5_inb L 3)) (fun _ => rfl)).view.loc (V d (cV3 L) (jV3 L))) ((Memref.whole main_v46_scv : Memref sig .scVector .hbm S25088x512 .f32).slice (Rect.unit (s := S25088x512) (k3_off5 L 336#32) S112x128.size (k3_off5_inb L 3)) (fun _ => rfl)).view.set
      ∗ ownedAny (F := F) (((Memref.whole main_v46_scv : Memref sig .scVector .hbm S25088x512 .f32).slice (Rect.unit (s := S25088x512) (k3_off5 L 448#32) S112x128.size (k3_off5_inb L 4)) (fun _ => rfl)).view.loc (V d (cV3 L) (jV3 L))) ((Memref.whole main_v46_scv : Memref sig .scVector .hbm S25088x512 .f32).slice (Rect.unit (s := S25088x512) (k3_off5 L 448#32) S112x128.size (k3_off5_inb L 4)) (fun _ => rfl)).view.set
      ∗ ownedAny (F := F) (((Memref.whole main_v46_scv : Memref sig .scVector .hbm S25088x512 .f32).slice (Rect.unit (s := S25088x512) (k3_off5 L 560#32) S112x128.size (k3_off5_inb L 5)) (fun _ => rfl)).view.loc (V d (cV3 L) (jV3 L))) ((Memref.whole main_v46_scv : Memref sig .scVector .hbm S25088x512 .f32).slice (Rect.unit (s := S25088x512) (k3_off5 L 560#32) S112x128.size (k3_off5_inb L 5)) (fun _ => rfl)).view.set
      ∗ ownedAny (F := F) (((Memref.whole main_v46_scv : Memref sig .scVector .hbm S25088x512 .f32).slice (Rect.unit (s := S25088x512) (k3_off5 L 672#32) S112x128.size (k3_off5_inb L 6)) (fun _ => rfl)).view.loc (V d (cV3 L) (jV3 L))) ((Memref.whole main_v46_scv : Memref sig .scVector .hbm S25088x512 .f32).slice (Rect.unit (s := S25088x512) (k3_off5 L 672#32) S112x128.size (k3_off5_inb L 6)) (fun _ => rfl)).view.set
  )

set_option synthInstance.maxHeartbeats 400000 in
set_option synthInstance.maxSize 4096 in
set_option maxHeartbeats 4000000 in
instance tileRes3_storable (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    : BI.Storable (upEmb : UEmb _ 𝕄) (tileRes3 d L qx fi0 fi1 fi2 fi3 fx0 fx1 fx2 fx3) := by
  unfold tileRes3; infer_instance

variable (m : (ℓ : Loc nD τ sig) → Buf (Elt F) ℓ)

theorem nCore_eq (q : Fin 4) : (K (F := F)).nCore q = 2 := by fin_cases q <;> rfl
theorem nSub_eq (q : Fin 4) : (K (F := F)).nSub q = 16 := by fin_cases q <;> rfl

/-- What the task of call q on SparseCore c, vector subcore i is handed, and hands back. -/
def taskRes (q : Fin 4) (d : Dev nD) (c : Fin 2) (i : Fin 16) : sProp 𝕄 :=
  match q with
  | 0 => tileRes0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3))
  | 1 => tileRes1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3))
  | 2 => tileRes2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3))
  | 3 => tileRes3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3))

/-- The payloads: a SparseCore's share of a call is its sixteen tasks'; nothing of the launch's is consumed by a kernel. -/
def P : (K (F := F)).Pay (nD := nD) (Val := Elt F) (Name := ℕ) (U := UU) where
  st := fun q d c => bigSep Finset.univ fun i : Fin 16 => taskRes m q d (Fin.cast (nCore_eq q) c) i
  dn := fun q d c => bigSep Finset.univ fun i : Fin 16 => taskRes m q d (Fin.cast (nCore_eq q) c) i
  go := fun q d c i => taskRes m q d (Fin.cast (nCore_eq q) c) (Fin.cast (nSub_eq q) i)
  td := fun q d c i => taskRes m q d (Fin.cast (nCore_eq q) c) (Fin.cast (nSub_eq q) i)
  x := fun _ _ => iprop(emp)

instance taskRes_storable (q : Fin 4) (d : Dev nD) (c : Fin 2) (i : Fin 16) : BI.Storable (upEmb : UEmb _ 𝕄) (taskRes m q d c i) := by
  match q with
  | 0 => unfold taskRes; infer_instance
  | 1 => unfold taskRes; infer_instance
  | 2 => unfold taskRes; infer_instance
  | 3 => unfold taskRes; infer_instance

instance P_storable : (P (F := F) m).IsStorable where
  st _ _ _ := by unfold P; infer_instance
  dn _ _ _ := by unfold P; infer_instance
  go _ _ _ _ := by unfold P; infer_instance
  td _ _ _ _ := by unfold P; infer_instance

end Cert.KernelIdeal.Sc

end
-- ==== Proof.TcBody.lean ====
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 4: the tile computation on one block of 896 rows -/

section Call4

variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, whether or not it was fetched there: an unfetched input's
    block index has not moved and the body leaves the block in place. -/
theorem before4_0_of {c : Dev nD} (dat : Dat τ (Elt F) Ix Name U Lvl cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, whether or not it was fetched there: an unfetched input's
    block index has not moved and the body leaves the block in place. -/
theorem before4_1_of {c : Dev nD} (dat : Dat τ (Elt F) Ix Name U Lvl cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, whether or not it was fetched there: an unfetched input's
    block index has not moved and the body leaves the block in place. -/
theorem before4_2_of {c : Dev nD} (dat : Dat τ (Elt F) Ix Name U Lvl cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, whether or not it was fetched there: an unfetched input's
    block index has not moved and the body leaves the block in place. -/
theorem before4_3_of {c : Dev nD} (dat : Dat τ (Elt F) Ix Name U Lvl cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, whether or not it was fetched there: an unfetched input's
    block index has not moved and the body leaves the block in place. -/
theorem before4_4_of {c : Dev nD} (dat : Dat τ (Elt F) Ix Name U Lvl cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole 896x512 block, the whole 512x512 weight and the whole 1x512 row, as rectangles. -/
abbrev r4_a : Rect S896x512 := Rect.unit (s := S896x512) ![0, 0] S896x512.size inb_S896x512_S896x512_0_0
abbrev r4_w : Rect S512x512 := Rect.unit (s := S512x512) ![0, 0] S512x512.size inb_S512x512_S512x512_0_0
abbrev r4_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out4_5 (x0 : Vec F S896x512 .f32) (x1 : Vec F S512x512 .f32) (x2 x3 x4 : Vec F S1x512 .f32) : Vec F S896x512 .f32 :=
  View.canon [⟨r4_a, k4_pay1 (View.ld x0 r4_a) (View.ld x1 r4_w) (View.ld x2 r4_v) (View.ld x3 r4_v) (View.ld x4 r4_v)⟩]

/-- The one store covers the whole block. -/
theorem cover4_5 (p0 : Vec F S896x512 .f32) (y : S896x512.Idx) :
    ∃ pc ∈ ([⟨r4_a, p0⟩] : List (View.Piece (Elt F) S896x512 .f32)), y ∈ pc.1.set :=
  View.cover_of_tiled [⟨r4_a, p0⟩] S896x512.size (by rfl) y

set_option maxHeartbeats 4000000 in
/-- The body on whole buffers: from the five inputs at `x0 … x4` and the output buffer at anything, it terminates
    with the inputs unchanged and the output at `out4_5 x0 … x4`. -/
theorem sound_kernel4 (𝒱₀ : Variants) (c : Dev nD) (E : Set Name) (i : grid4.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) 𝒱₀ c none) E (cc4__tc_compute i arg1 harg1 arg2 harg2 arg3 harg3 arg4 harg4 arg5 harg5 arg6 harg6) K := by
  simp only [cc4__tc_compute_eq_skeleton]; unfold cc4__tc_compute_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

end Call4

section Data4

variable (V : (c : Dev nD) → (b : Ref sig .tc) → Buf (Elt F) ((c : Thread nD τ).loc b))
variable (R : Set (SemLoc sig × Ix))

/-- The proof data of call 4 on core `c`: the arrays as the region finds them; after the body at point `t` each
    input's buffer still at its block and the output's at `out4_5` of the five input blocks; between points only
    the core's other scoped buffers, untouched; nothing owed, the pairs the core's waits have recorded so far within
    `R`; every array held whole. -/
def dat4 (c : Dev nD) : Dat τ (Elt F) Ix Name U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.scopedRest (Ix := Ix) (Name := Name) (U := U) (Lvl := Lvl) (Val := Elt F) spec4 c
  q _ := fullShare
  owed _ := 0
  recorded _ := R

theorem A_eq4 (c : Dev nD) (w : Fin cfg4.W) : (dat4 (Name := Name) (U := U) (Lvl := Lvl) V R c).A w = V c (Pipeline.arrRef spec4 w) := by
  dsimp only [dat4]

theorem after4_0 (c : Dev nD) (t : Fin cfg4.N) : (dat4 (Name := Name) (U := U) (Lvl := Lvl) V R c).after 0 t = iblk4 V c 0 t := by dsimp only [dat4]
theorem after4_1 (c : Dev nD) (t : Fin cfg4.N) : (dat4 (Name := Name) (U := U) (Lvl := Lvl) V R c).after 1 t = iblk4 V c 1 t := by dsimp only [dat4]
theorem after4_2 (c : Dev nD) (t : Fin cfg4.N) : (dat4 (Name := Name) (U := U) (Lvl := Lvl) V R c).after 2 t = iblk4 V c 2 t := by dsimp only [dat4]
theorem after4_3 (c : Dev nD) (t : Fin cfg4.N) : (dat4 (Name := Name) (U := U) (Lvl := Lvl) V R c).after 3 t = iblk4 V c 3 t := by dsimp only [dat4]
theorem after4_4 (c : Dev nD) (t : Fin cfg4.N) : (dat4 (Name := Name) (U := U) (Lvl := Lvl) V R c).after 4 t = iblk4 V c 4 t := by dsimp only [dat4]
theorem after4_5 (c : Dev nD) (t : Fin cfg4.N) : (dat4 (Name := Name) (U := U) (Lvl := Lvl) V R c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 (Name := Name) (U := U) (Lvl := Lvl) V R c).before 0 t d = iblk4 V c 0 t :=
  before4_0_of V (dat4 (Name := Name) (U := U) (Lvl := Lvl) V R c) (A_eq4 V R c 0) (after4_0 V R c) t d
theorem before4_1 (c : Dev nD) (t : Fin cfg4.N) (d) : (dat4 (Name := Name) (U := U) (Lvl := Lvl) V R c).before 1 t d = iblk4 V c 1 t :=
  before4_1_of V (dat4 (Name := Name) (U := U) (Lvl := Lvl) V R c) (A_eq4 V R c 1) (after4_1 V R c) t d
theorem before4_2 (c : Dev nD) (t : Fin cfg4.N) (d) : (dat4 (Name := Name) (U := U) (Lvl := Lvl) V R c).before 2 t d = iblk4 V c 2 t :=
  before4_2_of V (dat4 (Name := Name) (U := U) (Lvl := Lvl) V R c) (A_eq4 V R c 2) (after4_2 V R c) t d
theorem before4_3 (c : Dev nD) (t : Fin cfg4.N) (d) : (dat4 (Name := Name) (U := U) (Lvl := Lvl) V R c).before 3 t d = iblk4 V c 3 t :=
  before4_3_of V (dat4 (Name := Name) (U := U) (Lvl := Lvl) V R c) (A_eq4 V R c 3) (after4_3 V R c) t d
theorem before4_4 (c : Dev nD) (t : Fin cfg4.N) (d) : (dat4 (Name := Name) (U := U) (Lvl := Lvl) V R c).before 4 t d = iblk4 V c 4 t :=
  before4_4_of V (dat4 (Name := Name) (U := U) (Lvl := Lvl) V R c) (A_eq4 V R c 4) (after4_4 V R c) t d

/-- The arrays after the write-backs do not depend on the bound on the recorded pairs. -/
theorem arrAt4_indep (R' : Set (SemLoc sig × Ix)) (c : Dev nD) (w : Fin cfg4.W) :
    ∀ n, (dat4 (Name := Name) (U := U) (Lvl := Lvl) V R c).arrAt w n = (dat4 (Name := Name) (U := U) (Lvl := Lvl) V R' c).arrAt w n
  | 0 => rfl
  | n + 1 => funext fun i => by
    rw [Dat.arrAt_succ_apply, Dat.arrAt_succ_apply, arrAt4_indep R' c w n]
    rfl

/-- What the body is called with at point `t`: the invariant, what the core owes, and each window's current buffer. -/
def bodyPre4 (ι : Ix) (c : Dev nD) (t : Fin cfg4.N) : sProp 𝕄 :=
  iprop((dat4 (Name := Name) (U := U) (Lvl := Lvl) V R c).Φ t.castSucc ∗ (dat4 (Name := Name) (U := U) (Lvl := Lvl) V R c).owesAt ι t.castSucc
    ∗ (∃ d, owns (c : Thread nD τ) (st4_0 t) fullShare ((dat4 (Name := Name) (U := U) (Lvl := Lvl) V R c).before 0 t d))
    ∗ (∃ d, owns (c : Thread nD τ) (st4_1 t) fullShare ((dat4 (Name := Name) (U := U) (Lvl := Lvl) V R c).before 1 t d))
    ∗ (∃ d, owns (c : Thread nD τ) (st4_2 t) fullShare ((dat4 (Name := Name) (U := U) (Lvl := Lvl) V R c).before 2 t d))
    ∗ (∃ d, owns (c : Thread nD τ) (st4_3 t) fullShare ((dat4 (Name := Name) (U := U) (Lvl := Lvl) V R c).before 3 t d))
    ∗ (∃ d, owns (c : Thread nD τ) (st4_4 t) fullShare ((dat4 (Name := Name) (U := U) (Lvl := Lvl) V R c).before 4 t d))
    ∗ (∃ d, owns (c : Thread nD τ) (st4_5 t) fullShare ((dat4 (Name := Name) (U := U) (Lvl := Lvl) V R c).before 5 t d)))

/-- and what it returns. -/
def bodyPost4 (ι : Ix) (c : Dev nD) (t : Fin cfg4.N) : sProp 𝕄 :=
  iprop((dat4 (Name := Name) (U := U) (Lvl := Lvl) V R c).Φ t.succ ∗ (dat4 (Name := Name) (U := U) (Lvl := Lvl) V R c).owesAt ι t.succ
    ∗ owns (c : Thread nD τ) (st4_0 t) fullShare ((dat4 (Name := Name) (U := U) (Lvl := Lvl) V R c).after 0 t)
    ∗ owns (c : Thread nD τ) (st4_1 t) fullShare ((dat4 (Name := Name) (U := U) (Lvl := Lvl) V R c).after 1 t)
    ∗ owns (c : Thread nD τ) (st4_2 t) fullShare ((dat4 (Name := Name) (U := U) (Lvl := Lvl) V R c).after 2 t)
    ∗ owns (c : Thread nD τ) (st4_3 t) fullShare ((dat4 (Name := Name) (U := U) (Lvl := Lvl) V R c).after 3 t)
    ∗ owns (c : Thread nD τ) (st4_4 t) fullShare ((dat4 (Name := Name) (U := U) (Lvl := Lvl) V R c).after 4 t)
    ∗ owns (c : Thread nD τ) (st4_5 t) fullShare ((dat4 (Name := Name) (U := U) (Lvl := Lvl) V R c).after 5 t))

/-- The body at any grid point: the inputs' buffers hold their blocks, so the body's triple applies; the invariant and
    what the core owes pass through unread. -/
theorem sound_body4 (𝒱₀ : Variants) (ι : Ix) (c : Dev nD) (t : Fin cfg4.N) :
    bodyPre4 (Name := Name) (U := U) (Lvl := Lvl) V R ι c t
      ⊢ wp frame (wpE (defs₀ (F := F)) 𝒱₀ c none) Set.univ (bodyAt4 t) (fun _ => bodyPost4 (Name := Name) (U := U) (Lvl := Lvl) V R ι c t) := by
  unfold bodyPre4 bodyPost4 bodyAt4
  simp only [before4_0, before4_1, before4_2, before4_3, before4_4]
  rw [show (dat4 (Name := Name) (U := U) (Lvl := Lvl) V R c).Φ t.succ = (dat4 (Name := Name) (U := U) (Lvl := Lvl) V R c).Φ t.castSucc from rfl,
    show (dat4 (Name := Name) (U := U) (Lvl := Lvl) V R c).owesAt ι t.succ = (dat4 (Name := Name) (U := U) (Lvl := Lvl) V R c).owesAt ι t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 𝒱₀ c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 4, at every grid point. -/
theorem body_obligation4 (𝒱₀ : Variants) (ι : Ix) (c : Dev nD) :
    BodyObligation (dat4 (Name := Name) (U := U) (Lvl := Lvl) V R c) (defs₀ (F := F)) 𝒱₀ ι Set.univ := fun t => by
  rw [bigSep_W4, bigSep_W4]
  exact sound_body4 V R 𝒱₀ ι c t

end Data4

end Cert.KernelIdeal.Tc

end
-- ==== Proof.TcBody5.lean ====
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 5: the tile computation on one block of 896 rows -/

section Call5

variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, whether or not it was fetched there: an unfetched input's
    block index has not moved and the body leaves the block in place. -/
theorem before5_0_of {c : Dev nD} (dat : Dat τ (Elt F) Ix Name U Lvl cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 holds its block at every point, whether or not it was fetched there: an unfetched input's
    block index has not moved and the body leaves the block in place. -/
theorem before5_1_of {c : Dev nD} (dat : Dat τ (Elt F) Ix Name U Lvl cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 holds its block at every point, whether or not it was fetched there: an unfetched input's
    block index has not moved and the body leaves the block in place. -/
theorem before5_2_of {c : Dev nD} (dat : Dat τ (Elt F) Ix Name U Lvl cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 holds its block at every point, whether or not it was fetched there: an unfetched input's
    block index has not moved and the body leaves the block in place. -/
theorem before5_3_of {c : Dev nD} (dat : Dat τ (Elt F) Ix Name U Lvl cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 holds its block at every point, whether or not it was fetched there: an unfetched input's
    block index has not moved and the body leaves the block in place. -/
theorem before5_4_of {c : Dev nD} (dat : Dat τ (Elt F) Ix Name U Lvl cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 896x512 block, the whole 512x512 weight and the whole 1x512 row, as rectangles. -/
abbrev r5_a : Rect S896x512 := Rect.unit (s := S896x512) ![0, 0] S896x512.size inb_S896x512_S896x512_0_0
abbrev r5_w : Rect S512x512 := Rect.unit (s := S512x512) ![0, 0] S512x512.size inb_S512x512_S512x512_0_0
abbrev r5_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out5_5 (x0 : Vec F S896x512 .f32) (x1 : Vec F S512x512 .f32) (x2 x3 x4 : Vec F S1x512 .f32) : Vec F S896x512 .f32 :=
  View.canon [⟨r5_a, k5_pay1 (View.ld x0 r5_a) (View.ld x1 r5_w) (View.ld x2 r5_v) (View.ld x3 r5_v) (View.ld x4 r5_v)⟩]

/-- The one store covers the whole block. -/
theorem cover5_5 (p0 : Vec F S896x512 .f32) (y : S896x512.Idx) :
    ∃ pc ∈ ([⟨r5_a, p0⟩] : List (View.Piece (Elt F) S896x512 .f32)), y ∈ pc.1.set :=
  View.cover_of_tiled [⟨r5_a, p0⟩] S896x512.size (by rfl) y

set_option maxHeartbeats 4000000 in
/-- The body on whole buffers: from the five inputs at `x0 … x4` and the output buffer at anything, it terminates
    with the inputs unchanged and the output at `out5_5 x0 … x4`. -/
theorem sound_kernel5 (𝒱₀ : Variants) (c : Dev nD) (E : Set Name) (i : grid5.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) 𝒱₀ c none) E (cc5_body i arg1 harg1 arg2 harg2 arg3 harg3 arg4 harg4 arg5 harg5 argx hargx arg6 harg6) K := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

end Call5

section Data5

variable (V : (c : Dev nD) → (b : Ref sig .tc) → Buf (Elt F) ((c : Thread nD τ).loc b))
variable (R : Set (SemLoc sig × Ix))

/-- The proof data of call 5 on core `c`: the arrays as the region finds them; after the body at point `t` each
    input's buffer still at its block and the output's at `out5_5` of the five input blocks; between points only
    the core's other scoped buffers, untouched; nothing owed, the pairs the core's waits have recorded so far within
    `R`; every array held whole. -/
def dat5 (c : Dev nD) : Dat τ (Elt F) Ix Name U Lvl cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.scopedRest (Ix := Ix) (Name := Name) (U := U) (Lvl := Lvl) (Val := Elt F) spec5 c
  q _ := fullShare
  owed _ := 0
  recorded _ := R

theorem A_eq5 (c : Dev nD) (w : Fin cfg5.W) : (dat5 (Name := Name) (U := U) (Lvl := Lvl) V R c).A w = V c (Pipeline.arrRef spec5 w) := by
  dsimp only [dat5]

theorem after5_0 (c : Dev nD) (t : Fin cfg5.N) : (dat5 (Name := Name) (U := U) (Lvl := Lvl) V R c).after 0 t = iblk5 V c 0 t := by dsimp only [dat5]
theorem after5_1 (c : Dev nD) (t : Fin cfg5.N) : (dat5 (Name := Name) (U := U) (Lvl := Lvl) V R c).after 1 t = iblk5 V c 1 t := by dsimp only [dat5]
theorem after5_2 (c : Dev nD) (t : Fin cfg5.N) : (dat5 (Name := Name) (U := U) (Lvl := Lvl) V R c).after 2 t = iblk5 V c 2 t := by dsimp only [dat5]
theorem after5_3 (c : Dev nD) (t : Fin cfg5.N) : (dat5 (Name := Name) (U := U) (Lvl := Lvl) V R c).after 3 t = iblk5 V c 3 t := by dsimp only [dat5]
theorem after5_4 (c : Dev nD) (t : Fin cfg5.N) : (dat5 (Name := Name) (U := U) (Lvl := Lvl) V R c).after 4 t = iblk5 V c 4 t := by dsimp only [dat5]
theorem after5_5 (c : Dev nD) (t : Fin cfg5.N) : (dat5 (Name := Name) (U := U) (Lvl := Lvl) V R c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 (Name := Name) (U := U) (Lvl := Lvl) V R c).before 0 t d = iblk5 V c 0 t :=
  before5_0_of V (dat5 (Name := Name) (U := U) (Lvl := Lvl) V R c) (A_eq5 V R c 0) (after5_0 V R c) t d
theorem before5_1 (c : Dev nD) (t : Fin cfg5.N) (d) : (dat5 (Name := Name) (U := U) (Lvl := Lvl) V R c).before 1 t d = iblk5 V c 1 t :=
  before5_1_of V (dat5 (Name := Name) (U := U) (Lvl := Lvl) V R c) (A_eq5 V R c 1) (after5_1 V R c) t d
theorem before5_2 (c : Dev nD) (t : Fin cfg5.N) (d) : (dat5 (Name := Name) (U := U) (Lvl := Lvl) V R c).before 2 t d = iblk5 V c 2 t :=
  before5_2_of V (dat5 (Name := Name) (U := U) (Lvl := Lvl) V R c) (A_eq5 V R c 2) (after5_2 V R c) t d
theorem before5_3 (c : Dev nD) (t : Fin cfg5.N) (d) : (dat5 (Name := Name) (U := U) (Lvl := Lvl) V R c).before 3 t d = iblk5 V c 3 t :=
  before5_3_of V (dat5 (Name := Name) (U := U) (Lvl := Lvl) V R c) (A_eq5 V R c 3) (after5_3 V R c) t d
theorem before5_4 (c : Dev nD) (t : Fin cfg5.N) (d) : (dat5 (Name := Name) (U := U) (Lvl := Lvl) V R c).before 4 t d = iblk5 V c 4 t :=
  before5_4_of V (dat5 (Name := Name) (U := U) (Lvl := Lvl) V R c) (A_eq5 V R c 4) (after5_4 V R c) t d

/-- The arrays after the write-backs do not depend on the bound on the recorded pairs. -/
theorem arrAt5_indep (R' : Set (SemLoc sig × Ix)) (c : Dev nD) (w : Fin cfg5.W) :
    ∀ n, (dat5 (Name := Name) (U := U) (Lvl := Lvl) V R c).arrAt w n = (dat5 (Name := Name) (U := U) (Lvl := Lvl) V R' c).arrAt w n
  | 0 => rfl
  | n + 1 => funext fun i => by
    rw [Dat.arrAt_succ_apply, Dat.arrAt_succ_apply, arrAt5_indep R' c w n]
    rfl

/-- What the body is called with at point `t`: the invariant, what the core owes, and each window's current buffer. -/
def bodyPre5 (ι : Ix) (c : Dev nD) (t : Fin cfg5.N) : sProp 𝕄 :=
  iprop((dat5 (Name := Name) (U := U) (Lvl := Lvl) V R c).Φ t.castSucc ∗ (dat5 (Name := Name) (U := U) (Lvl := Lvl) V R c).owesAt ι t.castSucc
    ∗ (∃ d, owns (c : Thread nD τ) (st5_0 t) fullShare ((dat5 (Name := Name) (U := U) (Lvl := Lvl) V R c).before 0 t d))
    ∗ (∃ d, owns (c : Thread nD τ) (st5_1 t) fullShare ((dat5 (Name := Name) (U := U) (Lvl := Lvl) V R c).before 1 t d))
    ∗ (∃ d, owns (c : Thread nD τ) (st5_2 t) fullShare ((dat5 (Name := Name) (U := U) (Lvl := Lvl) V R c).before 2 t d))
    ∗ (∃ d, owns (c : Thread nD τ) (st5_3 t) fullShare ((dat5 (Name := Name) (U := U) (Lvl := Lvl) V R c).before 3 t d))
    ∗ (∃ d, owns (c : Thread nD τ) (st5_4 t) fullShare ((dat5 (Name := Name) (U := U) (Lvl := Lvl) V R c).before 4 t d))
    ∗ (∃ d, owns (c : Thread nD τ) (st5_5 t) fullShare ((dat5 (Name := Name) (U := U) (Lvl := Lvl) V R c).before 5 t d)))

/-- and what it returns. -/
def bodyPost5 (ι : Ix) (c : Dev nD) (t : Fin cfg5.N) : sProp 𝕄 :=
  iprop((dat5 (Name := Name) (U := U) (Lvl := Lvl) V R c).Φ t.succ ∗ (dat5 (Name := Name) (U := U) (Lvl := Lvl) V R c).owesAt ι t.succ
    ∗ owns (c : Thread nD τ) (st5_0 t) fullShare ((dat5 (Name := Name) (U := U) (Lvl := Lvl) V R c).after 0 t)
    ∗ owns (c : Thread nD τ) (st5_1 t) fullShare ((dat5 (Name := Name) (U := U) (Lvl := Lvl) V R c).after 1 t)
    ∗ owns (c : Thread nD τ) (st5_2 t) fullShare ((dat5 (Name := Name) (U := U) (Lvl := Lvl) V R c).after 2 t)
    ∗ owns (c : Thread nD τ) (st5_3 t) fullShare ((dat5 (Name := Name) (U := U) (Lvl := Lvl) V R c).after 3 t)
    ∗ owns (c : Thread nD τ) (st5_4 t) fullShare ((dat5 (Name := Name) (U := U) (Lvl := Lvl) V R c).after 4 t)
    ∗ owns (c : Thread nD τ) (st5_5 t) fullShare ((dat5 (Name := Name) (U := U) (Lvl := Lvl) V R c).after 5 t))

/-- The body at any grid point: the inputs' buffers hold their blocks, so the body's triple applies; the invariant and
    what the core owes pass through unread. -/
theorem sound_body5 (𝒱₀ : Variants) (ι : Ix) (c : Dev nD) (t : Fin cfg5.N) :
    bodyPre5 (Name := Name) (U := U) (Lvl := Lvl) V R ι c t
      ⊢ wp frame (wpE (defs₀ (F := F)) 𝒱₀ c none) Set.univ (bodyAt5 t) (fun _ => bodyPost5 (Name := Name) (U := U) (Lvl := Lvl) V R ι c t) := by
  unfold bodyPre5 bodyPost5 bodyAt5
  simp only [before5_0, before5_1, before5_2, before5_3, before5_4]
  rw [show (dat5 (Name := Name) (U := U) (Lvl := Lvl) V R c).Φ t.succ = (dat5 (Name := Name) (U := U) (Lvl := Lvl) V R c).Φ t.castSucc from rfl,
    show (dat5 (Name := Name) (U := U) (Lvl := Lvl) V R c).owesAt ι t.succ = (dat5 (Name := Name) (U := U) (Lvl := Lvl) V R c).owesAt ι t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 𝒱₀ c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 5, at every grid point. -/
theorem body_obligation5 (𝒱₀ : Variants) (ι : Ix) (c : Dev nD) :
    BodyObligation (dat5 (Name := Name) (U := U) (Lvl := Lvl) V R c) (defs₀ (F := F)) 𝒱₀ ι Set.univ := fun t => by
  rw [bigSep_W5, bigSep_W5]
  exact sound_body5 V R 𝒱₀ ι c t

end Data5

end Cert.KernelIdeal.Tc

end
-- ==== Proof.TcBody6.lean ====
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 6: the tile computation on one block of 896 rows -/

section Call6

variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 holds its block at every point, whether or not it was fetched there: an unfetched input's
    block index has not moved and the body leaves the block in place. -/
theorem before6_0_of {c : Dev nD} (dat : Dat τ (Elt F) Ix Name U Lvl cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 holds its block at every point, whether or not it was fetched there: an unfetched input's
    block index has not moved and the body leaves the block in place. -/
theorem before6_1_of {c : Dev nD} (dat : Dat τ (Elt F) Ix Name U Lvl cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 holds its block at every point, whether or not it was fetched there: an unfetched input's
    block index has not moved and the body leaves the block in place. -/
theorem before6_2_of {c : Dev nD} (dat : Dat τ (Elt F) Ix Name U Lvl cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3 holds its block at every point, whether or not it was fetched there: an unfetched input's
    block index has not moved and the body leaves the block in place. -/
theorem before6_3_of {c : Dev nD} (dat : Dat τ (Elt F) Ix Name U Lvl cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4 holds its block at every point, whether or not it was fetched there: an unfetched input's
    block index has not moved and the body leaves the block in place. -/
theorem before6_4_of {c : Dev nD} (dat : Dat τ (Elt F) Ix Name U Lvl cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The whole 896x512 block, the whole 512x512 weight and the whole 1x512 row, as rectangles. -/
abbrev r6_a : Rect S896x512 := Rect.unit (s := S896x512) ![0, 0] S896x512.size inb_S896x512_S896x512_0_0
abbrev r6_w : Rect S512x512 := Rect.unit (s := S512x512) ![0, 0] S512x512.size inb_S512x512_S512x512_0_0
abbrev r6_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out6_5 (x0 : Vec F S896x512 .f32) (x1 : Vec F S512x512 .f32) (x2 x3 x4 : Vec F S1x512 .f32) : Vec F S896x512 .f32 :=
  View.canon [⟨r6_a, k6_pay1 (View.ld x0 r6_a) (View.ld x1 r6_w) (View.ld x2 r6_v) (View.ld x3 r6_v) (View.ld x4 r6_v)⟩]

/-- The one store covers the whole block. -/
theorem cover6_5 (p0 : Vec F S896x512 .f32) (y : S896x512.Idx) :
    ∃ pc ∈ ([⟨r6_a, p0⟩] : List (View.Piece (Elt F) S896x512 .f32)), y ∈ pc.1.set :=
  View.cover_of_tiled [⟨r6_a, p0⟩] S896x512.size (by rfl) y

set_option maxHeartbeats 4000000 in
/-- The body on whole buffers: from the five inputs at `x0 … x4` and the output buffer at anything, it terminates
    with the inputs unchanged and the output at `out6_5 x0 … x4`. -/
theorem sound_kernel6 (𝒱₀ : Variants) (c : Dev nD) (E : Set Name) (i : grid6.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) 𝒱₀ c none) E (cc6_body i arg1 harg1 arg2 harg2 arg3 harg3 arg4 harg4 arg5 harg5 argx hargx arg6 harg6) K := by
  simp only [cc6_body_eq_skeleton]; unfold cc6_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

end Call6

section Data6

variable (V : (c : Dev nD) → (b : Ref sig .tc) → Buf (Elt F) ((c : Thread nD τ).loc b))
variable (R : Set (SemLoc sig × Ix))

/-- The proof data of call 6 on core `c`: the arrays as the region finds them; after the body at point `t` each
    input's buffer still at its block and the output's at `out6_5` of the five input blocks; between points only
    the core's other scoped buffers, untouched; nothing owed, the pairs the core's waits have recorded so far within
    `R`; every array held whole. -/
def dat6 (c : Dev nD) : Dat τ (Elt F) Ix Name U Lvl cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.scopedRest (Ix := Ix) (Name := Name) (U := U) (Lvl := Lvl) (Val := Elt F) spec6 c
  q _ := fullShare
  owed _ := 0
  recorded _ := R

theorem A_eq6 (c : Dev nD) (w : Fin cfg6.W) : (dat6 (Name := Name) (U := U) (Lvl := Lvl) V R c).A w = V c (Pipeline.arrRef spec6 w) := by
  dsimp only [dat6]

theorem after6_0 (c : Dev nD) (t : Fin cfg6.N) : (dat6 (Name := Name) (U := U) (Lvl := Lvl) V R c).after 0 t = iblk6 V c 0 t := by dsimp only [dat6]
theorem after6_1 (c : Dev nD) (t : Fin cfg6.N) : (dat6 (Name := Name) (U := U) (Lvl := Lvl) V R c).after 1 t = iblk6 V c 1 t := by dsimp only [dat6]
theorem after6_2 (c : Dev nD) (t : Fin cfg6.N) : (dat6 (Name := Name) (U := U) (Lvl := Lvl) V R c).after 2 t = iblk6 V c 2 t := by dsimp only [dat6]
theorem after6_3 (c : Dev nD) (t : Fin cfg6.N) : (dat6 (Name := Name) (U := U) (Lvl := Lvl) V R c).after 3 t = iblk6 V c 3 t := by dsimp only [dat6]
theorem after6_4 (c : Dev nD) (t : Fin cfg6.N) : (dat6 (Name := Name) (U := U) (Lvl := Lvl) V R c).after 4 t = iblk6 V c 4 t := by dsimp only [dat6]
theorem after6_5 (c : Dev nD) (t : Fin cfg6.N) : (dat6 (Name := Name) (U := U) (Lvl := Lvl) V R c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 (Name := Name) (U := U) (Lvl := Lvl) V R c).before 0 t d = iblk6 V c 0 t :=
  before6_0_of V (dat6 (Name := Name) (U := U) (Lvl := Lvl) V R c) (A_eq6 V R c 0) (after6_0 V R c) t d
theorem before6_1 (c : Dev nD) (t : Fin cfg6.N) (d) : (dat6 (Name := Name) (U := U) (Lvl := Lvl) V R c).before 1 t d = iblk6 V c 1 t :=
  before6_1_of V (dat6 (Name := Name) (U := U) (Lvl := Lvl) V R c) (A_eq6 V R c 1) (after6_1 V R c) t d
theorem before6_2 (c : Dev nD) (t : Fin cfg6.N) (d) : (dat6 (Name := Name) (U := U) (Lvl := Lvl) V R c).before 2 t d = iblk6 V c 2 t :=
  before6_2_of V (dat6 (Name := Name) (U := U) (Lvl := Lvl) V R c) (A_eq6 V R c 2) (after6_2 V R c) t d
theorem before6_3 (c : Dev nD) (t : Fin cfg6.N) (d) : (dat6 (Name := Name) (U := U) (Lvl := Lvl) V R c).before 3 t d = iblk6 V c 3 t :=
  before6_3_of V (dat6 (Name := Name) (U := U) (Lvl := Lvl) V R c) (A_eq6 V R c 3) (after6_3 V R c) t d
theorem before6_4 (c : Dev nD) (t : Fin cfg6.N) (d) : (dat6 (Name := Name) (U := U) (Lvl := Lvl) V R c).before 4 t d = iblk6 V c 4 t :=
  before6_4_of V (dat6 (Name := Name) (U := U) (Lvl := Lvl) V R c) (A_eq6 V R c 4) (after6_4 V R c) t d

/-- The arrays after the write-backs do not depend on the bound on the recorded pairs. -/
theorem arrAt6_indep (R' : Set (SemLoc sig × Ix)) (c : Dev nD) (w : Fin cfg6.W) :
    ∀ n, (dat6 (Name := Name) (U := U) (Lvl := Lvl) V R c).arrAt w n = (dat6 (Name := Name) (U := U) (Lvl := Lvl) V R' c).arrAt w n
  | 0 => rfl
  | n + 1 => funext fun i => by
    rw [Dat.arrAt_succ_apply, Dat.arrAt_succ_apply, arrAt6_indep R' c w n]
    rfl

/-- What the body is called with at point `t`: the invariant, what the core owes, and each window's current buffer. -/
def bodyPre6 (ι : Ix) (c : Dev nD) (t : Fin cfg6.N) : sProp 𝕄 :=
  iprop((dat6 (Name := Name) (U := U) (Lvl := Lvl) V R c).Φ t.castSucc ∗ (dat6 (Name := Name) (U := U) (Lvl := Lvl) V R c).owesAt ι t.castSucc
    ∗ (∃ d, owns (c : Thread nD τ) (st6_0 t) fullShare ((dat6 (Name := Name) (U := U) (Lvl := Lvl) V R c).before 0 t d))
    ∗ (∃ d, owns (c : Thread nD τ) (st6_1 t) fullShare ((dat6 (Name := Name) (U := U) (Lvl := Lvl) V R c).before 1 t d))
    ∗ (∃ d, owns (c : Thread nD τ) (st6_2 t) fullShare ((dat6 (Name := Name) (U := U) (Lvl := Lvl) V R c).before 2 t d))
    ∗ (∃ d, owns (c : Thread nD τ) (st6_3 t) fullShare ((dat6 (Name := Name) (U := U) (Lvl := Lvl) V R c).before 3 t d))
    ∗ (∃ d, owns (c : Thread nD τ) (st6_4 t) fullShare ((dat6 (Name := Name) (U := U) (Lvl := Lvl) V R c).before 4 t d))
    ∗ (∃ d, owns (c : Thread nD τ) (st6_5 t) fullShare ((dat6 (Name := Name) (U := U) (Lvl := Lvl) V R c).before 5 t d)))

/-- and what it returns. -/
def bodyPost6 (ι : Ix) (c : Dev nD) (t : Fin cfg6.N) : sProp 𝕄 :=
  iprop((dat6 (Name := Name) (U := U) (Lvl := Lvl) V R c).Φ t.succ ∗ (dat6 (Name := Name) (U := U) (Lvl := Lvl) V R c).owesAt ι t.succ
    ∗ owns (c : Thread nD τ) (st6_0 t) fullShare ((dat6 (Name := Name) (U := U) (Lvl := Lvl) V R c).after 0 t)
    ∗ owns (c : Thread nD τ) (st6_1 t) fullShare ((dat6 (Name := Name) (U := U) (Lvl := Lvl) V R c).after 1 t)
    ∗ owns (c : Thread nD τ) (st6_2 t) fullShare ((dat6 (Name := Name) (U := U) (Lvl := Lvl) V R c).after 2 t)
    ∗ owns (c : Thread nD τ) (st6_3 t) fullShare ((dat6 (Name := Name) (U := U) (Lvl := Lvl) V R c).after 3 t)
    ∗ owns (c : Thread nD τ) (st6_4 t) fullShare ((dat6 (Name := Name) (U := U) (Lvl := Lvl) V R c).after 4 t)
    ∗ owns (c : Thread nD τ) (st6_5 t) fullShare ((dat6 (Name := Name) (U := U) (Lvl := Lvl) V R c).after 5 t))

/-- The body at any grid point: the inputs' buffers hold their blocks, so the body's triple applies; the invariant and
    what the core owes pass through unread. -/
theorem sound_body6 (𝒱₀ : Variants) (ι : Ix) (c : Dev nD) (t : Fin cfg6.N) :
    bodyPre6 (Name := Name) (U := U) (Lvl := Lvl) V R ι c t
      ⊢ wp frame (wpE (defs₀ (F := F)) 𝒱₀ c none) Set.univ (bodyAt6 t) (fun _ => bodyPost6 (Name := Name) (U := U) (Lvl := Lvl) V R ι c t) := by
  unfold bodyPre6 bodyPost6 bodyAt6
  simp only [before6_0, before6_1, before6_2, before6_3, before6_4]
  rw [show (dat6 (Name := Name) (U := U) (Lvl := Lvl) V R c).Φ t.succ = (dat6 (Name := Name) (U := U) (Lvl := Lvl) V R c).Φ t.castSucc from rfl,
    show (dat6 (Name := Name) (U := U) (Lvl := Lvl) V R c).owesAt ι t.succ = (dat6 (Name := Name) (U := U) (Lvl := Lvl) V R c).owesAt ι t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 𝒱₀ c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 6, at every grid point. -/
theorem body_obligation6 (𝒱₀ : Variants) (ι : Ix) (c : Dev nD) :
    BodyObligation (dat6 (Name := Name) (U := U) (Lvl := Lvl) V R c) (defs₀ (F := F)) 𝒱₀ ι Set.univ := fun t => by
  rw [bigSep_W6, bigSep_W6]
  exact sound_body6 V R 𝒱₀ ι c t

end Data6

end Cert.KernelIdeal.Tc

end
-- ==== Proof.TcBody7.lean ====
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 7: the tile computation on one block of 896 rows -/

section Call7

variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 holds its block at every point, whether or not it was fetched there: an unfetched input's
    block index has not moved and the body leaves the block in place. -/
theorem before7_0_of {c : Dev nD} (dat : Dat τ (Elt F) Ix Name U Lvl cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 holds its block at every point, whether or not it was fetched there: an unfetched input's
    block index has not moved and the body leaves the block in place. -/
theorem before7_1_of {c : Dev nD} (dat : Dat τ (Elt F) Ix Name U Lvl cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 holds its block at every point, whether or not it was fetched there: an unfetched input's
    block index has not moved and the body leaves the block in place. -/
theorem before7_2_of {c : Dev nD} (dat : Dat τ (Elt F) Ix Name U Lvl cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 holds its block at every point, whether or not it was fetched there: an unfetched input's
    block index has not moved and the body leaves the block in place. -/
theorem before7_3_of {c : Dev nD} (dat : Dat τ (Elt F) Ix Name U Lvl cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 holds its block at every point, whether or not it was fetched there: an unfetched input's
    block index has not moved and the body leaves the block in place. -/
theorem before7_4_of {c : Dev nD} (dat : Dat τ (Elt F) Ix Name U Lvl cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole 896x512 block, the whole 512x512 weight and the whole 1x512 row, as rectangles. -/
abbrev r7_a : Rect S896x512 := Rect.unit (s := S896x512) ![0, 0] S896x512.size inb_S896x512_S896x512_0_0
abbrev r7_w : Rect S512x512 := Rect.unit (s := S512x512) ![0, 0] S512x512.size inb_S512x512_S512x512_0_0
abbrev r7_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out7_5 (x0 : Vec F S896x512 .f32) (x1 : Vec F S512x512 .f32) (x2 x3 x4 : Vec F S1x512 .f32) : Vec F S896x512 .f32 :=
  View.canon [⟨r7_a, k7_pay1 (View.ld x0 r7_a) (View.ld x1 r7_w) (View.ld x2 r7_v) (View.ld x3 r7_v) (View.ld x4 r7_v)⟩]

/-- The one store covers the whole block. -/
theorem cover7_5 (p0 : Vec F S896x512 .f32) (y : S896x512.Idx) :
    ∃ pc ∈ ([⟨r7_a, p0⟩] : List (View.Piece (Elt F) S896x512 .f32)), y ∈ pc.1.set :=
  View.cover_of_tiled [⟨r7_a, p0⟩] S896x512.size (by rfl) y

set_option maxHeartbeats 4000000 in
/-- The body on whole buffers: from the five inputs at `x0 … x4` and the output buffer at anything, it terminates
    with the inputs unchanged and the output at `out7_5 x0 … x4`. -/
theorem sound_kernel7 (𝒱₀ : Variants) (c : Dev nD) (E : Set Name) (i : grid7.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) 𝒱₀ c none) E (cc7_body i arg1 harg1 arg2 harg2 arg3 harg3 arg4 harg4 arg5 harg5 argx hargx arg6 harg6) K := by
  simp only [cc7_body_eq_skeleton]; unfold cc7_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

end Call7

section Data7

variable (V : (c : Dev nD) → (b : Ref sig .tc) → Buf (Elt F) ((c : Thread nD τ).loc b))
variable (R : Set (SemLoc sig × Ix))

/-- The proof data of call 7 on core `c`: the arrays as the region finds them; after the body at point `t` each
    input's buffer still at its block and the output's at `out7_5` of the five input blocks; between points only
    the core's other scoped buffers, untouched; nothing owed, the pairs the core's waits have recorded so far within
    `R`; every array held whole. -/
def dat7 (c : Dev nD) : Dat τ (Elt F) Ix Name U Lvl cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.scopedRest (Ix := Ix) (Name := Name) (U := U) (Lvl := Lvl) (Val := Elt F) spec7 c
  q _ := fullShare
  owed _ := 0
  recorded _ := R

theorem A_eq7 (c : Dev nD) (w : Fin cfg7.W) : (dat7 (Name := Name) (U := U) (Lvl := Lvl) V R c).A w = V c (Pipeline.arrRef spec7 w) := by
  dsimp only [dat7]

theorem after7_0 (c : Dev nD) (t : Fin cfg7.N) : (dat7 (Name := Name) (U := U) (Lvl := Lvl) V R c).after 0 t = iblk7 V c 0 t := by dsimp only [dat7]
theorem after7_1 (c : Dev nD) (t : Fin cfg7.N) : (dat7 (Name := Name) (U := U) (Lvl := Lvl) V R c).after 1 t = iblk7 V c 1 t := by dsimp only [dat7]
theorem after7_2 (c : Dev nD) (t : Fin cfg7.N) : (dat7 (Name := Name) (U := U) (Lvl := Lvl) V R c).after 2 t = iblk7 V c 2 t := by dsimp only [dat7]
theorem after7_3 (c : Dev nD) (t : Fin cfg7.N) : (dat7 (Name := Name) (U := U) (Lvl := Lvl) V R c).after 3 t = iblk7 V c 3 t := by dsimp only [dat7]
theorem after7_4 (c : Dev nD) (t : Fin cfg7.N) : (dat7 (Name := Name) (U := U) (Lvl := Lvl) V R c).after 4 t = iblk7 V c 4 t := by dsimp only [dat7]
theorem after7_5 (c : Dev nD) (t : Fin cfg7.N) : (dat7 (Name := Name) (U := U) (Lvl := Lvl) V R c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 (Name := Name) (U := U) (Lvl := Lvl) V R c).before 0 t d = iblk7 V c 0 t :=
  before7_0_of V (dat7 (Name := Name) (U := U) (Lvl := Lvl) V R c) (A_eq7 V R c 0) (after7_0 V R c) t d
theorem before7_1 (c : Dev nD) (t : Fin cfg7.N) (d) : (dat7 (Name := Name) (U := U) (Lvl := Lvl) V R c).before 1 t d = iblk7 V c 1 t :=
  before7_1_of V (dat7 (Name := Name) (U := U) (Lvl := Lvl) V R c) (A_eq7 V R c 1) (after7_1 V R c) t d
theorem before7_2 (c : Dev nD) (t : Fin cfg7.N) (d) : (dat7 (Name := Name) (U := U) (Lvl := Lvl) V R c).before 2 t d = iblk7 V c 2 t :=
  before7_2_of V (dat7 (Name := Name) (U := U) (Lvl := Lvl) V R c) (A_eq7 V R c 2) (after7_2 V R c) t d
theorem before7_3 (c : Dev nD) (t : Fin cfg7.N) (d) : (dat7 (Name := Name) (U := U) (Lvl := Lvl) V R c).before 3 t d = iblk7 V c 3 t :=
  before7_3_of V (dat7 (Name := Name) (U := U) (Lvl := Lvl) V R c) (A_eq7 V R c 3) (after7_3 V R c) t d
theorem before7_4 (c : Dev nD) (t : Fin cfg7.N) (d) : (dat7 (Name := Name) (U := U) (Lvl := Lvl) V R c).before 4 t d = iblk7 V c 4 t :=
  before7_4_of V (dat7 (Name := Name) (U := U) (Lvl := Lvl) V R c) (A_eq7 V R c 4) (after7_4 V R c) t d

/-- The arrays after the write-backs do not depend on the bound on the recorded pairs. -/
theorem arrAt7_indep (R' : Set (SemLoc sig × Ix)) (c : Dev nD) (w : Fin cfg7.W) :
    ∀ n, (dat7 (Name := Name) (U := U) (Lvl := Lvl) V R c).arrAt w n = (dat7 (Name := Name) (U := U) (Lvl := Lvl) V R' c).arrAt w n
  | 0 => rfl
  | n + 1 => funext fun i => by
    rw [Dat.arrAt_succ_apply, Dat.arrAt_succ_apply, arrAt7_indep R' c w n]
    rfl

/-- What the body is called with at point `t`: the invariant, what the core owes, and each window's current buffer. -/
def bodyPre7 (ι : Ix) (c : Dev nD) (t : Fin cfg7.N) : sProp 𝕄 :=
  iprop((dat7 (Name := Name) (U := U) (Lvl := Lvl) V R c).Φ t.castSucc ∗ (dat7 (Name := Name) (U := U) (Lvl := Lvl) V R c).owesAt ι t.castSucc
    ∗ (∃ d, owns (c : Thread nD τ) (st7_0 t) fullShare ((dat7 (Name := Name) (U := U) (Lvl := Lvl) V R c).before 0 t d))
    ∗ (∃ d, owns (c : Thread nD τ) (st7_1 t) fullShare ((dat7 (Name := Name) (U := U) (Lvl := Lvl) V R c).before 1 t d))
    ∗ (∃ d, owns (c : Thread nD τ) (st7_2 t) fullShare ((dat7 (Name := Name) (U := U) (Lvl := Lvl) V R c).before 2 t d))
    ∗ (∃ d, owns (c : Thread nD τ) (st7_3 t) fullShare ((dat7 (Name := Name) (U := U) (Lvl := Lvl) V R c).before 3 t d))
    ∗ (∃ d, owns (c : Thread nD τ) (st7_4 t) fullShare ((dat7 (Name := Name) (U := U) (Lvl := Lvl) V R c).before 4 t d))
    ∗ (∃ d, owns (c : Thread nD τ) (st7_5 t) fullShare ((dat7 (Name := Name) (U := U) (Lvl := Lvl) V R c).before 5 t d)))

/-- and what it returns. -/
def bodyPost7 (ι : Ix) (c : Dev nD) (t : Fin cfg7.N) : sProp 𝕄 :=
  iprop((dat7 (Name := Name) (U := U) (Lvl := Lvl) V R c).Φ t.succ ∗ (dat7 (Name := Name) (U := U) (Lvl := Lvl) V R c).owesAt ι t.succ
    ∗ owns (c : Thread nD τ) (st7_0 t) fullShare ((dat7 (Name := Name) (U := U) (Lvl := Lvl) V R c).after 0 t)
    ∗ owns (c : Thread nD τ) (st7_1 t) fullShare ((dat7 (Name := Name) (U := U) (Lvl := Lvl) V R c).after 1 t)
    ∗ owns (c : Thread nD τ) (st7_2 t) fullShare ((dat7 (Name := Name) (U := U) (Lvl := Lvl) V R c).after 2 t)
    ∗ owns (c : Thread nD τ) (st7_3 t) fullShare ((dat7 (Name := Name) (U := U) (Lvl := Lvl) V R c).after 3 t)
    ∗ owns (c : Thread nD τ) (st7_4 t) fullShare ((dat7 (Name := Name) (U := U) (Lvl := Lvl) V R c).after 4 t)
    ∗ owns (c : Thread nD τ) (st7_5 t) fullShare ((dat7 (Name := Name) (U := U) (Lvl := Lvl) V R c).after 5 t))

/-- The body at any grid point: the inputs' buffers hold their blocks, so the body's triple applies; the invariant and
    what the core owes pass through unread. -/
theorem sound_body7 (𝒱₀ : Variants) (ι : Ix) (c : Dev nD) (t : Fin cfg7.N) :
    bodyPre7 (Name := Name) (U := U) (Lvl := Lvl) V R ι c t
      ⊢ wp frame (wpE (defs₀ (F := F)) 𝒱₀ c none) Set.univ (bodyAt7 t) (fun _ => bodyPost7 (Name := Name) (U := U) (Lvl := Lvl) V R ι c t) := by
  unfold bodyPre7 bodyPost7 bodyAt7
  simp only [before7_0, before7_1, before7_2, before7_3, before7_4]
  rw [show (dat7 (Name := Name) (U := U) (Lvl := Lvl) V R c).Φ t.succ = (dat7 (Name := Name) (U := U) (Lvl := Lvl) V R c).Φ t.castSucc from rfl,
    show (dat7 (Name := Name) (U := U) (Lvl := Lvl) V R c).owesAt ι t.succ = (dat7 (Name := Name) (U := U) (Lvl := Lvl) V R c).owesAt ι t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 𝒱₀ c Set.univ _ _ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 7, at every grid point. -/
theorem body_obligation7 (𝒱₀ : Variants) (ι : Ix) (c : Dev nD) :
    BodyObligation (dat7 (Name := Name) (U := U) (Lvl := Lvl) V R c) (defs₀ (F := F)) 𝒱₀ ι Set.univ := fun t => by
  rw [bigSep_W7, bigSep_W7]
  exact sound_body7 V R 𝒱₀ ι c t

end Data7

end Cert.KernelIdeal.Tc

end
-- ==== Proof.TcRegion.lean ====
import proofs.«215994_g5102421148354_cont_8to1c4_853_29_alg».proof.Proof.TcBody
import proofs.«215994_g5102421148354_cont_8to1c4_853_29_alg».proof.Proof.TcBody5
import proofs.«215994_g5102421148354_cont_8to1c4_853_29_alg».proof.Proof.TcBody6
import proofs.«215994_g5102421148354_cont_8to1c4_853_29_alg».proof.Proof.TcBody7
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Regions

variable (V : Fin 4 → (c : Dev nD) → (b : Ref sig .tc) → Buf (Elt F) ((c : Thread nD τ).loc b))
variable (R : Fin 4 → Set (SemLoc sig × Ix))

/-- No call has a prefetched table: the one admissible contents. -/
abbrev adm : (p : Fin 4) → (pcfgs (F := F) p).Adm := fun p => (cfgs p).toPCfg_adm

/-- The proof data of the four calls, call `4 + p` at the buffer contents `V p` its region is entered with and the
    bound `R p` on the pairs the core's waits have recorded by then. -/
def pdats : (p : Fin 4) → (c : Dev nD) → Dat τ (Elt F) Ix Name U Lvl (Pipeline.pin (pcfgs (F := F)) adm p) c
  | ⟨0, _⟩ => fun c => dat4 (V 0) (R 0) c
  | ⟨1, _⟩ => fun c => dat5 (V 1) (R 1) c
  | ⟨2, _⟩ => fun c => dat6 (V 2) (R 2) c
  | ⟨3, _⟩ => fun c => dat7 (V 3) (R 3) c

/-! ## Call 4 as a region of @main -/

/-- The six arrays of call 4 (the gathered slab, the weight, the bias, the scale, the shift, the result), each whole,
    at contents `G w`. -/
def arrs4 (c : Dev nD) (G : (w : Fin 6) → Buf (Elt F) ((c : Thread nD τ).loc (Pipeline.arrRef spec4 w))) : sProp 𝕄 :=
  bigSep Finset.univ fun w : Fin 6 => (((c : Thread nD τ).loc (Pipeline.arrRef spec4 w)) ↦{fullShare} G w : sProp 𝕄)

/-- The result array after call 4's 28 write-backs, and every input array as the region found it. -/
def fin4 (c : Dev nD) (w : Fin 6) : Buf (Elt F) ((c : Thread nD τ).loc (Pipeline.arrRef spec4 w)) :=
  (dat4 (Name := Name) (U := U) (Lvl := Lvl) (V 0) (Set.univ : Set (SemLoc sig × Ix)) c).arrAt w cfg4.N

set_option backward.isDefEq.respectTransparency.types false in
/-- Call 4 as a region: entered holding its six arrays whole at the contents `V 0 c` and owing nothing, the pairs its
    waits have recorded within `R 0`; left holding the arrays at `fin4` and owing nothing, the recorded pairs within
    `R 0` and the region's own staging cells at the index `ι`. Nothing else enters the region; the kernel has no
    semaphore of its own. -/
def reg4 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 0 where
  win := launch4.win.to₀
  block_pos := launch4.block_pos
  stage_whole := launch4.stage_whole
  K := PEmpty
  osem k := k.elim
  ho := Pipeline.OwnSemFacts.none _
  hbody c := (body_obligation4 (V 0) (R 0) 𝒱₀ ι c).loose
  hwaits := Pipeline.hwaits_of_owed_zero _ _ _ _ L lv 0 fun _ _ => rfl
  pre c := iprop(arrs4 (Name := Name) (U := U) (Lvl := Lvl) (Ix := Ix) c (fun w => V 0 c (Pipeline.arrRef spec4 w))
    ∗ ∃ W : Waits sig Ix, ⌜(↑W : Set (SemLoc sig × Ix)) ⊆ R 0⌝ ∗ owes (c : Thread nD τ) (0 : CellTallies nD τ sig Ix) W)
  post c := iprop(arrs4 (Name := Name) (U := U) (Lvl := Lvl) (Ix := Ix) c (fin4 (Ix := Ix) (Name := Name) (U := U) (Lvl := Lvl) V c)
    ∗ ∃ W : Waits sig Ix, ⌜(↑W : Set (SemLoc sig × Ix)) ⊆ R 0 ∪ cfg4.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 0 c launch4.arr_whole ((pdats (Name := Name) (U := U) (Lvl := Lvl) V R 0 c).share_full fun _ => rfl)]
    unfold arrs4
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 0 c).Φ 0 = Pipeline.scopedRest spec4 c from rfl]
    iintro ⟨-, -, Hr⟩
    iexact Hr
  hout c := by
    rw [Pipeline.ownSems0_none, show (pdats (Name := Name) (U := U) (Lvl := Lvl) V R 0 c).Φ (Fin.last _) = Pipeline.scopedRest spec4 c from rfl]
    iintro Hr
    isplitr; · iempintro
    isplitr; · iempintro
    iexact Hr
  hexit c := by
    have harrs : (pdats (Name := Name) (U := U) (Lvl := Lvl) V R 0 c).arrays ((pdats (Name := Name) (U := U) (Lvl := Lvl) V R 0 c).arrAt · (Pipeline.pin (pcfgs (F := F)) adm 0).N)
        = arrs4 (Name := Name) (U := U) (Lvl := Lvl) (Ix := Ix) c (fin4 (Ix := Ix) (Name := Name) (U := U) (Lvl := Lvl) V c) := by
      rw [Pipeline.arrays_eq (Pipeline.pin (pcfgs (F := F)) adm) (pdats (Name := Name) (U := U) (Lvl := Lvl) V R) 0 c launch4.arr_whole ((pdats (Name := Name) (U := U) (Lvl := Lvl) V R 0 c).share_full fun _ => rfl)]
      unfold arrs4 fin4
      exact bigSep_congr fun w _ => congrArg
        (fun x => (((c : Thread nD τ).loc (Pipeline.arrRef spec4 w)) ↦{fullShare} x : sProp 𝕄))
        (arrAt4_indep (Name := Name) (U := U) (Lvl := Lvl) (V 0) (R 0) (Set.univ : Set (SemLoc sig × Ix)) c w cfg4.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 4's region step on core `c`, for any continuation: from the region boundary, the six arrays at `V 0 c`,
    nothing owed, the level facts and the call's staging-cell ghost state, `customCall (entry 0)` runs to the boundary
    and the arrays at `fin4`. -/
theorem region4 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg4 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg4 (Name := Name) (U := U) V R ι 𝒱₀ L lv).pre c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) bd) Set.univ
          (.op (.customCall (Pipeline.entry 0) ()) k) Q :=
  Pipeline.RegionSeg.wp (pcfgs (F := F)) adm (pdats V R) ι cellOf_inj EP defs₀ 𝒱₀ L lv (reg4 V R ι 𝒱₀ L lv) c bd hv k Q

/-! ## Call 5 as a region of @main -/

/-- The six arrays of call 5 (the gathered slab, the weight, the bias, the scale, the shift, the result), each whole,
    at contents `G w`. -/
def arrs5 (c : Dev nD) (G : (w : Fin 6) → Buf (Elt F) ((c : Thread nD τ).loc (Pipeline.arrRef spec5 w))) : sProp 𝕄 :=
  bigSep Finset.univ fun w : Fin 6 => (((c : Thread nD τ).loc (Pipeline.arrRef spec5 w)) ↦{fullShare} G w : sProp 𝕄)

/-- The result array after call 5's 28 write-backs, and every input array as the region found it. -/
def fin5 (c : Dev nD) (w : Fin 6) : Buf (Elt F) ((c : Thread nD τ).loc (Pipeline.arrRef spec5 w)) :=
  (dat5 (Name := Name) (U := U) (Lvl := Lvl) (V 1) (Set.univ : Set (SemLoc sig × Ix)) c).arrAt w cfg5.N

set_option backward.isDefEq.respectTransparency.types false in
/-- Call 5 as a region: entered holding its six arrays whole at the contents `V 1 c` and owing nothing, the pairs its
    waits have recorded within `R 1`; left holding the arrays at `fin5` and owing nothing, the recorded pairs within
    `R 1` and the region's own staging cells at the index `ι`. Nothing else enters the region; the kernel has no
    semaphore of its own. -/
def reg5 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 1 where
  win := launch5.win.to₀
  block_pos := launch5.block_pos
  stage_whole := launch5.stage_whole
  K := PEmpty
  osem k := k.elim
  ho := Pipeline.OwnSemFacts.none _
  hbody c := (body_obligation5 (V 1) (R 1) 𝒱₀ ι c).loose
  hwaits := Pipeline.hwaits_of_owed_zero _ _ _ _ L lv 1 fun _ _ => rfl
  pre c := iprop(arrs5 (Name := Name) (U := U) (Lvl := Lvl) (Ix := Ix) c (fun w => V 1 c (Pipeline.arrRef spec5 w))
    ∗ ∃ W : Waits sig Ix, ⌜(↑W : Set (SemLoc sig × Ix)) ⊆ R 1⌝ ∗ owes (c : Thread nD τ) (0 : CellTallies nD τ sig Ix) W)
  post c := iprop(arrs5 (Name := Name) (U := U) (Lvl := Lvl) (Ix := Ix) c (fin5 (Ix := Ix) (Name := Name) (U := U) (Lvl := Lvl) V c)
    ∗ ∃ W : Waits sig Ix, ⌜(↑W : Set (SemLoc sig × Ix)) ⊆ R 1 ∪ cfg5.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 1 c launch5.arr_whole ((pdats (Name := Name) (U := U) (Lvl := Lvl) V R 1 c).share_full fun _ => rfl)]
    unfold arrs5
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 1 c).Φ 0 = Pipeline.scopedRest spec5 c from rfl]
    iintro ⟨-, -, Hr⟩
    iexact Hr
  hout c := by
    rw [Pipeline.ownSems0_none, show (pdats (Name := Name) (U := U) (Lvl := Lvl) V R 1 c).Φ (Fin.last _) = Pipeline.scopedRest spec5 c from rfl]
    iintro Hr
    isplitr; · iempintro
    isplitr; · iempintro
    iexact Hr
  hexit c := by
    have harrs : (pdats (Name := Name) (U := U) (Lvl := Lvl) V R 1 c).arrays ((pdats (Name := Name) (U := U) (Lvl := Lvl) V R 1 c).arrAt · (Pipeline.pin (pcfgs (F := F)) adm 1).N)
        = arrs5 (Name := Name) (U := U) (Lvl := Lvl) (Ix := Ix) c (fin5 (Ix := Ix) (Name := Name) (U := U) (Lvl := Lvl) V c) := by
      rw [Pipeline.arrays_eq (Pipeline.pin (pcfgs (F := F)) adm) (pdats (Name := Name) (U := U) (Lvl := Lvl) V R) 1 c launch5.arr_whole ((pdats (Name := Name) (U := U) (Lvl := Lvl) V R 1 c).share_full fun _ => rfl)]
      unfold arrs5 fin5
      exact bigSep_congr fun w _ => congrArg
        (fun x => (((c : Thread nD τ).loc (Pipeline.arrRef spec5 w)) ↦{fullShare} x : sProp 𝕄))
        (arrAt5_indep (Name := Name) (U := U) (Lvl := Lvl) (V 1) (R 1) (Set.univ : Set (SemLoc sig × Ix)) c w cfg5.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 5's region step on core `c`, for any continuation: from the region boundary, the six arrays at `V 1 c`,
    nothing owed, the level facts and the call's staging-cell ghost state, `customCall (entry 1)` runs to the boundary
    and the arrays at `fin5`. -/
theorem region5 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 1).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg5 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg5 (Name := Name) (U := U) V R ι 𝒱₀ L lv).pre c ∗ levAts L lv
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift 𝒱₀) (c : Thread nD τ) bd) Set.univ
          (.op (.customCall (Pipeline.entry 1) ()) k) Q :=
  Pipeline.RegionSeg.wp (pcfgs (F := F)) adm (pdats V R) ι cellOf_inj EP defs₀ 𝒱₀ L lv (reg5 V R ι 𝒱₀ L lv) c bd hv k Q

/-! ## Call 6 as a region of @main -/

/-- The six arrays of call 6 (the gathered slab, the weight, the bias, the scale, the shift, the result), each whole,
    at contents `G w`. -/
def arrs6 (c : Dev nD) (G : (w : Fin 6) → Buf (Elt F) ((c : Thread nD τ).loc (Pipeline.arrRef spec6 w))) : sProp 𝕄 :=
  bigSep Finset.univ fun w : Fin 6 => (((c : Thread nD τ).loc (Pipeline.arrRef spec6 w)) ↦{fullShare} G w : sProp 𝕄)

/-- The result array after call 6's 28 write-backs, and every input array as the region found it. -/
def fin6 (c : Dev nD) (w : Fin 6) : Buf (Elt F) ((c : Thread nD τ).loc (Pipeline.arrRef spec6 w)) :=
  (dat6 (Name := Name) (U := U) (Lvl := Lvl) (V 2) (Set.univ : Set (SemLoc sig × Ix)) c).arrAt w cfg6.N

set_option backward.isDefEq.respectTransparency.types false in
/-- Call 6 as a region: entered holding its six arrays whole at the contents `V 2 c` and owing nothing, the pairs its
    waits have recorded within `R 2`; left holding the arrays at `fin6` and owing nothing, the recorded pairs within
    `R 2` and the region's own staging cells at the index `ι`. Nothing else enters the region; the kernel has no
    semaphore of its own. -/
def reg6 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 2 where
  win := launch6.win.to₀
  block_pos := launch6.block_pos
  stage_whole := launch6.stage_whole
  K := PEmpty
  osem k := k.elim
  ho := Pipeline.OwnSemFacts.none _
  hbody c := (body_obligation6 (V 2) (R 2) 𝒱₀ ι c).loose
  hwaits := Pipeline.hwaits_of_owed_zero _ _ _ _ L lv 2 fun _ _ => rfl
  pre c := iprop(arrs6 (Name := Name) (U := U) (Lvl := Lvl) (Ix := Ix) c (fun w => V 2 c (Pipeline.arrRef spec6 w))
    ∗ ∃ W : Waits sig Ix, ⌜(↑W : Set (SemLoc sig × Ix)) ⊆ R 2⌝ ∗ owes (c : Thread nD τ) (0 : CellTallies nD τ sig Ix) W)
  post c := iprop(arrs6 (Name := Name) (U := U) (Lvl := Lvl) (Ix := Ix) c (fin6 (Ix := Ix) (Name := Name) (U := U) (Lvl := Lvl) V c)
    ∗ ∃ W : Waits sig Ix, ⌜(↑W : Set (SemLoc sig × Ix)) ⊆ R 2 ∪ cfg6.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 2 c launch6.arr_whole ((pdats (Name := Name) (U := U) (Lvl := Lvl) V R 2 c).share_full fun _ => rfl)]
    unfold arrs6
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 2 c).Φ 0 = Pipeline.scopedRest spec6 c from rfl]
    iintro ⟨-, -, Hr⟩
    iexact Hr
  hout c := by
    rw [Pipeline.ownSems0_none, show (pdats (Name := Name) (U := U) (Lvl := Lvl) V R 2 c).Φ (Fin.last _) = Pipeline.scopedRest spec6 c from rfl]
    iintro Hr
    isplitr; · iempintro
    isplitr; · iempintro
    iexact Hr
  hexit c := by
    have harrs : (pdats (Name := Name) (U := U) (Lvl := Lvl) V R 2 c).arrays ((pdats (Name := Name) (U := U) (Lvl := Lvl) V R 2 c).arrAt · (Pipeline.pin (pcfgs (F := F)) adm 2).N)
        = arrs6 (Name := Name) (U := U) (Lvl := Lvl) (Ix := Ix) c (fin6 (Ix := Ix) (Name := Name) (U := U) (Lvl := Lvl) V c) := by
      rw [Pipeline.arrays_eq (Pipeline.pin (pcfgs (F := F)) adm) (pdats (Name := Name) (U := U) (Lvl := Lvl) V R) 2 c launch6.arr_whole ((pdats (Name := Name) (U := U) (Lvl := Lvl) V R 2 c).share_full fun _ => rfl)]
      unfold arrs6 fin6
      exact bigSep_congr fun w _ => congrArg
        (fun x => (((c : Thread nD τ).loc (Pipeline.arrRef spec6 w)) ↦{fullShare} x : sProp 𝕄))
        (arrAt6_indep (Name := Name) (U := U) (Lvl := Lvl) (V 2) (R 2) (Set.univ : Set (SemLoc sig × Ix)) c w cfg6.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 6's region step on core `c`, for any continuation: from the region boundary, the six arrays at `V 2 c`,
    nothing owed, the level facts and the call's staging-cell ghost state, `customCall (entry 2)` runs to the boundary
    and the arrays at `fin6`. -/
theorem region6 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 2).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg6 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg6 (Name := Name) (U := U) V R ι 𝒱₀ L lv).pre c ∗ levAts L lv
        ∗ Pipeline.cellsGhost (Pipeline.pin (pcfgs (F := F)) adm) EP 2 c ∗ Pipeline.toksInit (Pipeline.pin (pcfgs (F := F)) adm) EP 2 c)
      ⊢ wp frame (wpE (Pipeline.defs (pcfgs (F := F)) defs₀) (Variants.lift 𝒱₀) (c : Thread nD τ) bd) Set.univ
          (.op (.customCall (Pipeline.entry 2) ()) k) Q :=
  Pipeline.RegionSeg.wp (pcfgs (F := F)) adm (pdats V R) ι cellOf_inj EP defs₀ 𝒱₀ L lv (reg6 V R ι 𝒱₀ L lv) c bd hv k Q

/-! ## Call 7 as a region of @main -/

/-- The six arrays of call 7 (the gathered slab, the weight, the bias, the scale, the shift, the result), each whole,
    at contents `G w`. -/
def arrs7 (c : Dev nD) (G : (w : Fin 6) → Buf (Elt F) ((c : Thread nD τ).loc (Pipeline.arrRef spec7 w))) : sProp 𝕄 :=
  bigSep Finset.univ fun w : Fin 6 => (((c : Thread nD τ).loc (Pipeline.arrRef spec7 w)) ↦{fullShare} G w : sProp 𝕄)

/-- The result array after call 7's 28 write-backs, and every input array as the region found it. -/
def fin7 (c : Dev nD) (w : Fin 6) : Buf (Elt F) ((c : Thread nD τ).loc (Pipeline.arrRef spec7 w)) :=
  (dat7 (Name := Name) (U := U) (Lvl := Lvl) (V 3) (Set.univ : Set (SemLoc sig × Ix)) c).arrAt w cfg7.N

set_option backward.isDefEq.respectTransparency.types false in
/-- Call 7 as a region: entered holding its six arrays whole at the contents `V 3 c` and owing nothing, the pairs its
    waits have recorded within `R 3`; left holding the arrays at `fin7` and owing nothing, the recorded pairs within
    `R 3` and the region's own staging cells at the index `ι`. Nothing else enters the region; the kernel has no
    semaphore of its own. -/
def reg7 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 3 where
  win := launch7.win.to₀
  block_pos := launch7.block_pos
  stage_whole := launch7.stage_whole
  K := PEmpty
  osem k := k.elim
  ho := Pipeline.OwnSemFacts.none _
  hbody c := (body_obligation7 (V 3) (R 3) 𝒱₀ ι c).loose
  hwaits := Pipeline.hwaits_of_owed_zero _ _ _ _ L lv 3 fun _ _ => rfl
  pre c := iprop(arrs7 (Name := Name) (U := U) (Lvl := Lvl) (Ix := Ix) c (fun w => V 3 c (Pipeline.arrRef spec7 w))
    ∗ ∃ W : Waits sig Ix, ⌜(↑W : Set (SemLoc sig × Ix)) ⊆ R 3⌝ ∗ owes (c : Thread nD τ) (0 : CellTallies nD τ sig Ix) W)
  post c := iprop(arrs7 (Name := Name) (U := U) (Lvl := Lvl) (Ix := Ix) c (fin7 (Ix := Ix) (Name := Name) (U := U) (Lvl := Lvl) V c)
    ∗ ∃ W : Waits sig Ix, ⌜(↑W : Set (SemLoc sig × Ix)) ⊆ R 3 ∪ cfg7.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 3 c launch7.arr_whole ((pdats (Name := Name) (U := U) (Lvl := Lvl) V R 3 c).share_full fun _ => rfl)]
    unfold arrs7
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 3 c).Φ 0 = Pipeline.scopedRest spec7 c from rfl]
    iintro ⟨-, -, Hr⟩
    iexact Hr
  hout c := by
    rw [Pipeline.ownSems0_none, show (pdats (Name := Name) (U := U) (Lvl := Lvl) V R 3 c).Φ (Fin.last _) = Pipeline.scopedRest spec7 c from rfl]
    iintro Hr
    isplitr; · iempintro
    isplitr; · iempintro
    iexact Hr
  hexit c := by
    have harrs : (pdats (Name := Name) (U := U) (Lvl := Lvl) V R 3 c).arrays ((pdats (Name := Name) (U := U) (Lvl := Lvl) V R 3 c).arrAt · (Pipeline.pin (pcfgs (F := F)) adm 3).N)
        = arrs7 (Name := Name) (U := U) (Lvl := Lvl) (Ix := Ix) c (fin7 (Ix := Ix) (Name := Name) (U := U) (Lvl := Lvl) V c) := by
      rw [Pipeline.arrays_eq (Pipeline.pin (pcfgs (F := F)) adm) (pdats (Name := Name) (U := U) (Lvl := Lvl) V R) 3 c launch7.arr_whole ((pdats (Name := Name) (U := U) (Lvl := Lvl) V R 3 c).share_full fun _ => rfl)]
      unfold arrs7 fin7
      exact bigSep_congr fun w _ => congrArg
        (fun x => (((c : Thread nD τ).loc (Pipeline.arrRef spec7 w)) ↦{fullShare} x : sProp 𝕄))
        (arrAt7_indep (Name := Name) (U := U) (Lvl := Lvl) (V 3) (R 3) (Set.univ : Set (SemLoc sig × Ix)) c w cfg7.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 7's region step on core `c`, for any continuation: from the region boundary, the six arrays at `V 3 c`,
    nothing owed, the level facts and the call's staging-cell ghost state, `customCall (entry 3)` runs to the boundary
    and the arrays at `fin7`. -/
theorem region7 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 3).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg7 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg7 (Name := Name) (U := U) V R ι 𝒱₀ L lv).pre c ∗ levAts L lv
        ∗ Pipeline.cellsGhost (Pipeline.pin (pcfgs (F := F)) adm) EP 3 c ∗ Pipeline.toksInit (Pipeline.pin (pcfgs (F := F)) adm) EP 3 c)
      ⊢ wp frame (wpE (Pipeline.defs (pcfgs (F := F)) defs₀) (Variants.lift 𝒱₀) (c : Thread nD τ) bd) Set.univ
          (.op (.customCall (Pipeline.entry 3) ()) k) Q :=
  Pipeline.RegionSeg.wp (pcfgs (F := F)) adm (pdats V R) ι cellOf_inj EP defs₀ 𝒱₀ L lv (reg7 V R ι 𝒱₀ L lv) c bd hv k Q

end Regions

end Cert.KernelIdeal.Tc

end
-- ==== Proof.TcLift.lean ====
import proofs.«215994_g5102421148354_cont_8to1c4_853_29_alg».proof.Proof.ScBase
import proofs.«215994_g5102421148354_cont_8to1c4_853_29_alg».proof.Proof.TcRegion
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.SparseCore (T)
open Idealize.ShloMosaic.SparseCore.Cfg (HIx)

local notation "𝕄" => MT nD τ sig (HIx 4) (Elt F) ℕ Sc.UU ℕ

/-! # The four regions inside the SparseCore launch -/

section Lift

variable (V : Fin 4 → (c : Dev nD) → (b : Ref sig .tc) → Buf (Elt F) ((c : Thread nD τ).loc b))

/-- Call 4's region as @main meets it: the lifted `customCall` followed by any continuation `k`, from the region
    boundary, the six arrays at `V 0 d`, nothing owed with the recorded pairs `W`, the level facts and the call's staging-cell ghost state, to
    `k` run from the boundary and the arrays at `fin4 V d`. -/
theorem lift_region4 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs4 (Ix := HIx 4) (Name := ℕ) (U := Sc.UU) (Lvl := ℕ) d (fun w => V 0 d (Pipeline.arrRef spec4 w))
        ∗ owes (T d) (0 : CellTallies nD τ sig (HIx 4)) W
        ∗ Pipeline.cellsGhost (Pipeline.pin (pcfgs (F := F)) adm) (Sc.EP (F := F)) 0 d
        ∗ Pipeline.toksInit (Pipeline.pin (pcfgs (F := F)) adm) (Sc.EP (F := F)) 0 d
        ∗ (iprop(boundary (T d) ∗ arrs4 (Ix := HIx 4) (Name := ℕ) (U := Sc.UU) (Lvl := ℕ) d (fin4 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 0)) ()) k) Q := by
  have hprog : (.op (.customCall (SparseCore.inner (Pipeline.entry 0)) ()) k
        : Prog (TpuEff nD τ sig (Elt F) (SparseCore.Sig (Sc.ΛP (F := F)) 4) .tc) α)
      = (SparseCore.liftProg (Q := 4) (.op (.customCall (Pipeline.entry (0 : Fin 4)) ()) .ret
          : Prog (TpuEff nD τ sig (Elt F) (Sc.ΛP (F := F)) .tc) PUnit)) >>= k := rfl
  rw [hprog, wp_bind]
  have hreg := region4 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg4] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 5's region as @main meets it: the lifted `customCall` followed by any continuation `k`, from the region
    boundary, the six arrays at `V 1 d`, nothing owed with the recorded pairs `W`, the level facts and the call's staging-cell ghost state, to
    `k` run from the boundary and the arrays at `fin5 V d`. -/
theorem lift_region5 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs5 (Ix := HIx 4) (Name := ℕ) (U := Sc.UU) (Lvl := ℕ) d (fun w => V 1 d (Pipeline.arrRef spec5 w))
        ∗ owes (T d) (0 : CellTallies nD τ sig (HIx 4)) W
        ∗ Pipeline.cellsGhost (Pipeline.pin (pcfgs (F := F)) adm) (Sc.EP (F := F)) 1 d
        ∗ Pipeline.toksInit (Pipeline.pin (pcfgs (F := F)) adm) (Sc.EP (F := F)) 1 d
        ∗ (iprop(boundary (T d) ∗ arrs5 (Ix := HIx 4) (Name := ℕ) (U := Sc.UU) (Lvl := ℕ) d (fin5 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 1)) ()) k) Q := by
  have hprog : (.op (.customCall (SparseCore.inner (Pipeline.entry 1)) ()) k
        : Prog (TpuEff nD τ sig (Elt F) (SparseCore.Sig (Sc.ΛP (F := F)) 4) .tc) α)
      = (SparseCore.liftProg (Q := 4) (.op (.customCall (Pipeline.entry (1 : Fin 4)) ()) .ret
          : Prog (TpuEff nD τ sig (Elt F) (Sc.ΛP (F := F)) .tc) PUnit)) >>= k := rfl
  rw [hprog, wp_bind]
  have hreg := region5 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg5] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 6's region as @main meets it: the lifted `customCall` followed by any continuation `k`, from the region
    boundary, the six arrays at `V 2 d`, nothing owed with the recorded pairs `W`, the level facts and the call's staging-cell ghost state, to
    `k` run from the boundary and the arrays at `fin6 V d`. -/
theorem lift_region6 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs6 (Ix := HIx 4) (Name := ℕ) (U := Sc.UU) (Lvl := ℕ) d (fun w => V 2 d (Pipeline.arrRef spec6 w))
        ∗ owes (T d) (0 : CellTallies nD τ sig (HIx 4)) W
        ∗ Pipeline.cellsGhost (Pipeline.pin (pcfgs (F := F)) adm) (Sc.EP (F := F)) 2 d
        ∗ Pipeline.toksInit (Pipeline.pin (pcfgs (F := F)) adm) (Sc.EP (F := F)) 2 d
        ∗ (iprop(boundary (T d) ∗ arrs6 (Ix := HIx 4) (Name := ℕ) (U := Sc.UU) (Lvl := ℕ) d (fin6 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 2)) ()) k) Q := by
  have hprog : (.op (.customCall (SparseCore.inner (Pipeline.entry 2)) ()) k
        : Prog (TpuEff nD τ sig (Elt F) (SparseCore.Sig (Sc.ΛP (F := F)) 4) .tc) α)
      = (SparseCore.liftProg (Q := 4) (.op (.customCall (Pipeline.entry (2 : Fin 4)) ()) .ret
          : Prog (TpuEff nD τ sig (Elt F) (Sc.ΛP (F := F)) .tc) PUnit)) >>= k := rfl
  rw [hprog, wp_bind]
  have hreg := region6 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg6] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 7's region as @main meets it: the lifted `customCall` followed by any continuation `k`, from the region
    boundary, the six arrays at `V 3 d`, nothing owed with the recorded pairs `W`, the level facts and the call's staging-cell ghost state, to
    `k` run from the boundary and the arrays at `fin7 V d`. -/
theorem lift_region7 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs7 (Ix := HIx 4) (Name := ℕ) (U := Sc.UU) (Lvl := ℕ) d (fun w => V 3 d (Pipeline.arrRef spec7 w))
        ∗ owes (T d) (0 : CellTallies nD τ sig (HIx 4)) W
        ∗ Pipeline.cellsGhost (Pipeline.pin (pcfgs (F := F)) adm) (Sc.EP (F := F)) 3 d
        ∗ Pipeline.toksInit (Pipeline.pin (pcfgs (F := F)) adm) (Sc.EP (F := F)) 3 d
        ∗ (iprop(boundary (T d) ∗ arrs7 (Ix := HIx 4) (Name := ℕ) (U := Sc.UU) (Lvl := ℕ) d (fin7 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 3)) ()) k) Q := by
  have hprog : (.op (.customCall (SparseCore.inner (Pipeline.entry 3)) ()) k
        : Prog (TpuEff nD τ sig (Elt F) (SparseCore.Sig (Sc.ΛP (F := F)) 4) .tc) α)
      = (SparseCore.liftProg (Q := 4) (.op (.customCall (Pipeline.entry (3 : Fin 4)) ()) .ret
          : Prog (TpuEff nD τ sig (Elt F) (Sc.ΛP (F := F)) .tc) PUnit)) >>= k := rfl
  rw [hprog, wp_bind]
  have hreg := region7 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg7] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

end Lift

/-! ## What the launch deals the TensorCore, and the regions' ghost state -/

/-- What the launch deals the TensorCore beyond its handshake state opens to the region boundary, @main's arrays at
    the launch contents, its protocol's semaphores at zero and the generator register. -/
theorem tcRes_split (m : (ℓ : Loc nD τ sig) → Buf (Elt F) ℓ) (g : Dev nD → PrngReg) (d : Dev nD) :
    ((Sc.K (F := F)).tcRes m g d : sProp 𝕄)
      ⊢ iprop(boundary (T d) ∗ unscopedBufs d (fun b => m ((SparseCore.T d).loc b)) ∗ (Sc.K (F := F)).tcSems0 d ∗ prngReg d (g d)) := by
  unfold SparseCore.Cfg.tcRes
  exact .rfl

/-- The four regions one by one. -/
theorem bigSep_P4 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The launch's share of the regions' rounds algebra funds, on every device, each region's staging cells and duty tokens. -/
theorem fund_regions :
    (BI.own (Sc.EP (F := F) (initOf (Pipeline.cells (Pipeline.pin (pcfgs (F := F)) adm) cellOf_inj)
        (Pipeline.launchToks (Pipeline.pin (pcfgs (F := F)) adm) cellOf_inj))) : sProp 𝕄)
      ⊢ iprop(|==> bigSep Finset.univ fun d : Dev nD => bigSep Finset.univ fun p : Fin 4 =>
          iprop(Pipeline.cellsGhost (Pipeline.pin (pcfgs (F := F)) adm) (Sc.EP (F := F)) p d
            ∗ Pipeline.toksInit (Pipeline.pin (pcfgs (F := F)) adm) (Sc.EP (F := F)) p d)) := by
  have e : (bigSep Finset.univ fun d : Dev nD => bigSep Finset.univ fun p : Fin 4 =>
        iprop(Pipeline.cellsGhost (Pipeline.pin (pcfgs (F := F)) adm) (Sc.EP (F := F)) p d
          ∗ Pipeline.toksInit (Pipeline.pin (pcfgs (F := F)) adm) (Sc.EP (F := F)) p d) : sProp 𝕄)
      = iprop((bigSep Finset.univ fun d : Dev nD => bigSep Finset.univ fun p : Fin 4 =>
            Pipeline.cellsGhost (Pipeline.pin (pcfgs (F := F)) adm) (Sc.EP (F := F)) p d)
          ∗ (bigSep Finset.univ fun d : Dev nD => bigSep Finset.univ fun p : Fin 4 =>
            (Pipeline.toksInit (Pipeline.pin (pcfgs (F := F)) adm) (Sc.EP (F := F)) p d : sProp 𝕄))) := by
    exact (bigSep_congr fun d _ => bigSep_sep Finset.univ _ _).trans (bigSep_sep Finset.univ _ _)
  rw [e]
  exact Pipeline.fund_ghost (Pipeline.pin (pcfgs (F := F)) adm) (Sc.EP (F := F)) cellOf_inj

end Cert.KernelIdeal.Tc

end
-- ==== Proof.ScLaunch.lean ====
/-
  The launch: from the four calls' task obligations and the proof of @main on the TensorCore to the run of the whole
  program, every argument array ending as it began.

  The ghost state at the launch is the handshakes' rounds, the four regions' staging rounds (funded once, a summand per
  region and device, each consumed at its region's entry) and the copies' counters.  A SparseCore's share of a call is
  its sixteen tasks' by definition, so the split among the tasks is the identity.  No kernel consumes anything of the
  launch's, and no call has a scalar kernel.
-/
import proofs.«215994_g5102421148354_cont_8to1c4_853_29_alg».proof.Proof.ScPay
import proofs.«215994_g5102421148354_cont_8to1c4_853_29_alg».proof.Proof.TcLift

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

variable (m : (ℓ : Loc nD τ sig) → Buf (Elt F) ℓ) (ρ : Dev nD → PrngReg)

/-! ## The launch element -/

/-- The handshake cells' rounds, the regions' staging cells' rounds, and the unit of the counters. -/
def u₀ : UU :=
  (initOf (K (F := F)).hsCells (K (F := F)).hsToks,
    (initOf (Pipeline.cells (Pipeline.pin (pcfgs (F := F)) Tc.adm) cellOf_inj) (Pipeline.launchToks (Pipeline.pin (pcfgs (F := F)) Tc.adm) cellOf_inj), 1))

/-- What @main's proof starts from on device `d` beside the launch's own: the four regions' ghost summands. -/
def G (d : Dev nD) : sProp 𝕄 :=
  bigSep Finset.univ fun p : Fin 4 =>
    iprop(Pipeline.cellsGhost (Pipeline.pin (pcfgs (F := F)) Tc.adm) (EP (F := F)) p d ∗ Pipeline.toksInit (Pipeline.pin (pcfgs (F := F)) Tc.adm) (EP (F := F)) p d)

theorem bigSep_emp' {I : Type} (s : Finset I) : (bigSep s fun _ => iprop(emp)) = (iprop(emp) : sProp 𝕄) := bigSep_emp_const s

/-- The regions' rounds are the left factor of the right factor. -/
theorem own_EP (x : UP) : (BI.own (((Emb.inl : Emb UP (UP × Counters)).trans embR) x) : sProp 𝕄) ⊢ BI.own (EP (F := F) x) :=
  Entails.of_eq rfl

theorem no_scalar : ∀ q : Fin 4, scKind q ≠ Kind.scScalar := by decide

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb (embR) _ _) $$ HR
  icases H2 with ⟨HP, -⟩
  ihave HP' := (own_EP (F := F) _) $$ HP
  imod (Tc.fund_regions (F := F)) $$ HP' with HG
  imodintro
  isplitl [HH]; · iexact HH
  isplitl [HG]; · unfold G; iexact HG
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The split of a SparseCore's share among its tasks -/

theorem vecSplit' (q : Fin 4) : (K (F := F)).VecSplit' (P m) q := by
  intro d c
  have h16 : ∀ (Φ : Fin 16 → sProp 𝕄), (bigSep Finset.univ fun i : Fin ((K (F := F)).nSub q) => Φ (Fin.cast (nSub_eq q) i)) = bigSep Finset.univ Φ := by
    intro Φ
    match q with
    | 0 => exact bigSep_congr fun _ _ => congrArg Φ (Fin.ext rfl)
    | 1 => exact bigSep_congr fun _ _ => congrArg Φ (Fin.ext rfl)
    | 2 => exact bigSep_congr fun _ _ => congrArg Φ (Fin.ext rfl)
    | 3 => exact bigSep_congr fun _ _ => congrArg Φ (Fin.ext rfl)
  show (bigSep Finset.univ fun i : Fin 16 => taskRes m q d (Fin.cast (nCore_eq q) c) i) ⊢ |={Set.univ}=> iprop(
      (bigSep Finset.univ fun i : Fin ((K (F := F)).nSub q) => taskRes m q d (Fin.cast (nCore_eq q) c) (Fin.cast (nSub_eq q) i))
      ∗ ((bigSep Finset.univ fun i : Fin ((K (F := F)).nSub q) => taskRes m q d (Fin.cast (nCore_eq q) c) (Fin.cast (nSub_eq q) i))
          -∗ bigSep Finset.univ fun i : Fin 16 => taskRes m q d (Fin.cast (nCore_eq q) c) i))
  rw [h16 (fun i => taskRes m q d (Fin.cast (nCore_eq q) c) i)]
  iintro H; imodintro
  isplitl [H]; · iexact H
  iintro H; iexact H

/-! ## What @main leaves the claim -/

/-- The twelve argument arrays. -/
abbrev argS : Finset (Ref sig .tc) := {main_arg0, main_arg1, main_arg2, main_arg3, main_arg4, main_arg5, main_arg6, main_arg7, main_arg8, main_arg9, main_arg10, main_arg11}

/-- Every argument array whole, at its launch contents. -/
def FIN (d : Dev nD) : sProp 𝕄 := bigSep argS fun b => ((SparseCore.T d).loc b ↦{fullShare} m ((SparseCore.T d).loc b))

def fq (d : Dev nD) (s' : Phys nD τ sig (Elt F)) : Prop := ∀ b ∈ argS, s'.mem.mem ((SparseCore.T d).loc b) = m ((SparseCore.T d).loc b)

theorem fin_one (d : Dev nD) (s' : Phys nD τ sig (Elt F)) (b : Ref sig .tc) (hb : b ∈ argS) :
    iprop(FIN m d ∗ SI s') ⊢ (⌜s'.mem.mem ((SparseCore.T d).loc b) = m ((SparseCore.T d).loc b)⌝ : sProp 𝕄) := by
  unfold FIN
  rw [SparseCore.bigSep_erase' hb]
  iintro ⟨⟨Hb, -⟩, HSI⟩
  ihave H := (SI_pointsTo_agree (st := s') (ℓ := (SparseCore.T d).loc b) (I := Finset.univ) (q := fullShare) (f := m ((SparseCore.T d).loc b))) $$ [HSI Hb]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx b hb => fin_one m d s' b hb x hx

/-! ## The run -/

def QC : PUnit × MemSt nD τ sig (Elt F) → Prop := fun r => ∀ c : Dev nD, ∀ b ∈ argS, r.2.mem ((SparseCore.T c).loc b) = m ((SparseCore.T c).loc b)

/-- The whole program's run, from the tasks' obligations and @main's proof. -/
theorem run_main [∀ e, Nonempty (Elt F e)]
    (htile : ∀ q, (K (F := F)).TileObl (D (F := F)) 𝒱 (P m) v₀ q)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => absurd (show scKind q = Kind.scScalar from hq) (no_scalar q))
    (fun q _ => htile q)
    (fun q _ => SparseCore.Cfg.VecSplit.of_plain (vecSplit' m q))
    m ρ main (G (F := F)) (FIN m) (u₀ (F := F)) (sep_elim_left.trans (hu₀ m)) hmain (fq m) (hfin m) (QC m) (fun _ h => h)

end Cert.KernelIdeal.Sc

end
-- ==== Proof.MainCut.lean ====
import proofs.«215994_g5102421148354_cont_8to1c4_853_29_alg».proof.Proof.IdxSlab
import Idealize.ShloMosaic.Lib.StableHlo.Run
import Idealize.ShloMosaic.Lib.Pipeline.Frame

set_option maxRecDepth 16384

noncomputable section

namespace Cert.KernelIdeal.Tc

open Cert.KernelIdeal Cert.KernelIdeal.Gen
open Idealize.ShloMosaic Idealize.ShloMosaic.TcCoe Idealize.SL.Sem Idealize.ShloMosaic.StableHlo

variable {F : FTy → Type} [FloatOps F]

/-! # @main cut at its calls

@main is seven straight stretches of host operations around four gather calls on the SparseCores and four regions on
the TensorCore. Each stretch is listed here, with what running it from any buffer contents needs (its operations name
unscoped TensorCore buffers only and allocate none) and what it leaves. -/

/-- The 23 host operations before the first gather call: each index array padded with 352 zero words, the bias, scale and shift rows reshaped to 1 x 512, and the first stretch of each padded index array cut out and laid out as 32 x 7 x 112. -/
abbrev hostA : List (HloOp τ sig (Elt F)) :=
  [ StableHlo.nullary main_c (constantI S_ 32 0#32),
    StableHlo.unary main_c main_v0 (broadcastInDim S352 ![] bcast_S_S352 : (⟨S_, .i32⟩ : BufTy).Contents (Elt F) → (⟨S352, .i32⟩ : BufTy).Contents (Elt F)),
    StableHlo.binary main_arg4 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_0 (constantI S_ 32 0#32),
    StableHlo.unary main_c_0 main_v2 (broadcastInDim S352 ![] bcast_S_S352 : (⟨S_, .i32⟩ : BufTy).Contents (Elt F) → (⟨S352, .i32⟩ : BufTy).Contents (Elt F)),
    StableHlo.binary main_arg5 main_v2 main_v3 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_1 (constantI S_ 32 0#32),
    StableHlo.unary main_c_1 main_v4 (broadcastInDim S352 ![] bcast_S_S352 : (⟨S_, .i32⟩ : BufTy).Contents (Elt F) → (⟨S352, .i32⟩ : BufTy).Contents (Elt F)),
    StableHlo.binary main_arg6 main_v4 main_v5 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_2 (constantI S_ 32 0#32),
    StableHlo.unary main_c_2 main_v6 (broadcastInDim S352 ![] bcast_S_S352 : (⟨S_, .i32⟩ : BufTy).Contents (Elt F) → (⟨S352, .i32⟩ : BufTy).Contents (Elt F)),
    StableHlo.binary main_arg7 main_v6 main_v7 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.reshape main_arg9 main_v8 rfl shapeCasts_S512_S1x512,
    StableHlo.reshape main_arg10 main_v9 rfl shapeCasts_S512_S1x512,
    StableHlo.reshape main_arg11 main_v10 rfl shapeCasts_S512_S1x512,
    StableHlo.unary main_v1 main_v11 ((extractStridedSlice S25088 ![0] · slices_S100352_S25088_0) : (⟨S100352, .i32⟩ : BufTy).Contents (Elt F) → (⟨S25088, .i32⟩ : BufTy).Contents (Elt F)),
    StableHlo.reshape main_v11 main_v12 rfl shapeCasts_S25088_S32x7x112,
    StableHlo.unary main_v3 main_v13 ((extractStridedSlice S25088 ![0] · slices_S100352_S25088_0) : (⟨S100352, .i32⟩ : BufTy).Contents (Elt F) → (⟨S25088, .i32⟩ : BufTy).Contents (Elt F)),
    StableHlo.reshape main_v13 main_v14 rfl shapeCasts_S25088_S32x7x112,
    StableHlo.unary main_v5 main_v15 ((extractStridedSlice S25088 ![0] · slices_S100352_S25088_0) : (⟨S100352, .i32⟩ : BufTy).Contents (Elt F) → (⟨S25088, .i32⟩ : BufTy).Contents (Elt F)),
    StableHlo.reshape main_v15 main_v16 rfl shapeCasts_S25088_S32x7x112,
    StableHlo.unary main_v7 main_v17 ((extractStridedSlice S25088 ![0] · slices_S100352_S25088_0) : (⟨S100352, .i32⟩ : BufTy).Contents (Elt F) → (⟨S25088, .i32⟩ : BufTy).Contents (Elt F)),
    StableHlo.reshape main_v17 main_v18 rfl shapeCasts_S25088_S32x7x112 ]
/-- Each names TensorCore buffers only, -/
theorem hostA_tc : (hostA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostA_sub : ∀ op ∈ (hostA : List (HloOp τ sig (Elt F))), op.bufs ⊆ Pipeline.ucRefs τ sig :=
  fun op h => Pipeline.sub_ucRefs op ((List.forall_iff_forall_mem.mp hostA_tc) op h)
/-- and none allocates a buffer. -/
theorem hostA_fresh : ∀ op ∈ (hostA : List (HloOp τ sig (Elt F))), op.fresh = ∅ :=
  List.forall_iff_forall_mem.mp (by simp only [List.Forall]; repeat' constructor)

/-- The 8 host operations before the second gather call: the second stretch of each padded index array, as 32 x 7 x 112. -/
abbrev hostB1 : List (HloOp τ sig (Elt F)) :=
  [ StableHlo.unary main_v1 main_v20 ((extractStridedSlice S25088 ![25088] · slices_S100352_S25088_25088) : (⟨S100352, .i32⟩ : BufTy).Contents (Elt F) → (⟨S25088, .i32⟩ : BufTy).Contents (Elt F)),
    StableHlo.reshape main_v20 main_v21 rfl shapeCasts_S25088_S32x7x112,
    StableHlo.unary main_v3 main_v22 ((extractStridedSlice S25088 ![25088] · slices_S100352_S25088_25088) : (⟨S100352, .i32⟩ : BufTy).Contents (Elt F) → (⟨S25088, .i32⟩ : BufTy).Contents (Elt F)),
    StableHlo.reshape main_v22 main_v23 rfl shapeCasts_S25088_S32x7x112,
    StableHlo.unary main_v5 main_v24 ((extractStridedSlice S25088 ![25088] · slices_S100352_S25088_25088) : (⟨S100352, .i32⟩ : BufTy).Contents (Elt F) → (⟨S25088, .i32⟩ : BufTy).Contents (Elt F)),
    StableHlo.reshape main_v24 main_v25 rfl shapeCasts_S25088_S32x7x112,
    StableHlo.unary main_v7 main_v26 ((extractStridedSlice S25088 ![25088] · slices_S100352_S25088_25088) : (⟨S100352, .i32⟩ : BufTy).Contents (Elt F) → (⟨S25088, .i32⟩ : BufTy).Contents (Elt F)),
    StableHlo.reshape main_v26 main_v27 rfl shapeCasts_S25088_S32x7x112 ]
/-- Each names TensorCore buffers only, -/
theorem hostB1_tc : (hostB1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB1_sub : ∀ op ∈ (hostB1 : List (HloOp τ sig (Elt F))), op.bufs ⊆ Pipeline.ucRefs τ sig :=
  fun op h => Pipeline.sub_ucRefs op ((List.forall_iff_forall_mem.mp hostB1_tc) op h)
/-- and none allocates a buffer. -/
theorem hostB1_fresh : ∀ op ∈ (hostB1 : List (HloOp τ sig (Elt F))), op.fresh = ∅ :=
  List.forall_iff_forall_mem.mp (by simp only [List.Forall]; repeat' constructor)

/-- The 8 host operations before the third gather call: the third stretch of each padded index array. -/
abbrev hostB2 : List (HloOp τ sig (Elt F)) :=
  [ StableHlo.unary main_v1 main_v29 ((extractStridedSlice S25088 ![50176] · slices_S100352_S25088_50176) : (⟨S100352, .i32⟩ : BufTy).Contents (Elt F) → (⟨S25088, .i32⟩ : BufTy).Contents (Elt F)),
    StableHlo.reshape main_v29 main_v30 rfl shapeCasts_S25088_S32x7x112,
    StableHlo.unary main_v3 main_v31 ((extractStridedSlice S25088 ![50176] · slices_S100352_S25088_50176) : (⟨S100352, .i32⟩ : BufTy).Contents (Elt F) → (⟨S25088, .i32⟩ : BufTy).Contents (Elt F)),
    StableHlo.reshape main_v31 main_v32 rfl shapeCasts_S25088_S32x7x112,
    StableHlo.unary main_v5 main_v33 ((extractStridedSlice S25088 ![50176] · slices_S100352_S25088_50176) : (⟨S100352, .i32⟩ : BufTy).Contents (Elt F) → (⟨S25088, .i32⟩ : BufTy).Contents (Elt F)),
    StableHlo.reshape main_v33 main_v34 rfl shapeCasts_S25088_S32x7x112,
    StableHlo.unary main_v7 main_v35 ((extractStridedSlice S25088 ![50176] · slices_S100352_S25088_50176) : (⟨S100352, .i32⟩ : BufTy).Contents (Elt F) → (⟨S25088, .i32⟩ : BufTy).Contents (Elt F)),
    StableHlo.reshape main_v35 main_v36 rfl shapeCasts_S25088_S32x7x112 ]
/-- Each names TensorCore buffers only, -/
theorem hostB2_tc : (hostB2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB2_sub : ∀ op ∈ (hostB2 : List (HloOp τ sig (Elt F))), op.bufs ⊆ Pipeline.ucRefs τ sig :=
  fun op h => Pipeline.sub_ucRefs op ((List.forall_iff_forall_mem.mp hostB2_tc) op h)
/-- and none allocates a buffer. -/
theorem hostB2_fresh : ∀ op ∈ (hostB2 : List (HloOp τ sig (Elt F))), op.fresh = ∅ :=
  List.forall_iff_forall_mem.mp (by simp only [List.Forall]; repeat' constructor)

/-- The 8 host operations before the fourth gather call: the fourth stretch of each padded index array. -/
abbrev hostB3 : List (HloOp τ sig (Elt F)) :=
  [ StableHlo.unary main_v1 main_v38 ((extractStridedSlice S25088 ![75264] · slices_S100352_S25088_75264) : (⟨S100352, .i32⟩ : BufTy).Contents (Elt F) → (⟨S25088, .i32⟩ : BufTy).Contents (Elt F)),
    StableHlo.reshape main_v38 main_v39 rfl shapeCasts_S25088_S32x7x112,
    StableHlo.unary main_v3 main_v40 ((extractStridedSlice S25088 ![75264] · slices_S100352_S25088_75264) : (⟨S100352, .i32⟩ : BufTy).Contents (Elt F) → (⟨S25088, .i32⟩ : BufTy).Contents (Elt F)),
    StableHlo.reshape main_v40 main_v41 rfl shapeCasts_S25088_S32x7x112,
    StableHlo.unary main_v5 main_v42 ((extractStridedSlice S25088 ![75264] · slices_S100352_S25088_75264) : (⟨S100352, .i32⟩ : BufTy).Contents (Elt F) → (⟨S25088, .i32⟩ : BufTy).Contents (Elt F)),
    StableHlo.reshape main_v42 main_v43 rfl shapeCasts_S25088_S32x7x112,
    StableHlo.unary main_v7 main_v44 ((extractStridedSlice S25088 ![75264] · slices_S100352_S25088_75264) : (⟨S100352, .i32⟩ : BufTy).Contents (Elt F) → (⟨S25088, .i32⟩ : BufTy).Contents (Elt F)),
    StableHlo.reshape main_v44 main_v45 rfl shapeCasts_S25088_S32x7x112 ]
/-- Each names TensorCore buffers only, -/
theorem hostB3_tc : (hostB3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB3_sub : ∀ op ∈ (hostB3 : List (HloOp τ sig (Elt F))), op.bufs ⊆ Pipeline.ucRefs τ sig :=
  fun op h => Pipeline.sub_ucRefs op ((List.forall_iff_forall_mem.mp hostB3_tc) op h)
/-- and none allocates a buffer. -/
theorem hostB3_fresh : ∀ op ∈ (hostB3 : List (HloOp τ sig (Elt F))), op.fresh = ∅ :=
  List.forall_iff_forall_mem.mp (by simp only [List.Forall]; repeat' constructor)

/-- The copy of the first region's result into the buffer the second region writes. -/
abbrev cp1 : List (HloOp τ sig (Elt F)) :=
  [ StableHlo.unary main_v47 main_v48 id ]
/-- Each names TensorCore buffers only, -/
theorem cp1_tc : (cp1 : List (HloOp τ sig (Elt F))).Forall fun op => op.bufs ⊆ StableHlo.tcRefs τ sig :=
  StableHlo.unary_bufs_sub ..
/-- so unscoped ones only; -/
theorem cp1_sub : ∀ op ∈ (cp1 : List (HloOp τ sig (Elt F))), op.bufs ⊆ Pipeline.ucRefs τ sig :=
  fun op h => Pipeline.sub_ucRefs op ((List.forall_iff_forall_mem.mp cp1_tc) op h)
/-- and none allocates a buffer. -/
theorem cp1_fresh : ∀ op ∈ (cp1 : List (HloOp τ sig (Elt F))), op.fresh = ∅ :=
  List.forall_iff_forall_mem.mp (by simp only [List.Forall]; repeat' constructor)

/-- The copy of the second region's result into the buffer the third region writes. -/
abbrev cp2 : List (HloOp τ sig (Elt F)) :=
  [ StableHlo.unary main_v48 main_v49 id ]
/-- Each names TensorCore buffers only, -/
theorem cp2_tc : (cp2 : List (HloOp τ sig (Elt F))).Forall fun op => op.bufs ⊆ StableHlo.tcRefs τ sig :=
  StableHlo.unary_bufs_sub ..
/-- so unscoped ones only; -/
theorem cp2_sub : ∀ op ∈ (cp2 : List (HloOp τ sig (Elt F))), op.bufs ⊆ Pipeline.ucRefs τ sig :=
  fun op h => Pipeline.sub_ucRefs op ((List.forall_iff_forall_mem.mp cp2_tc) op h)
/-- and none allocates a buffer. -/
theorem cp2_fresh : ∀ op ∈ (cp2 : List (HloOp τ sig (Elt F))), op.fresh = ∅ :=
  List.forall_iff_forall_mem.mp (by simp only [List.Forall]; repeat' constructor)

/-- The copy of the third region's result into the buffer the fourth region writes. -/
abbrev cp3 : List (HloOp τ sig (Elt F)) :=
  [ StableHlo.unary main_v49 main_v50 id ]
/-- Each names TensorCore buffers only, -/
theorem cp3_tc : (cp3 : List (HloOp τ sig (Elt F))).Forall fun op => op.bufs ⊆ StableHlo.tcRefs τ sig :=
  StableHlo.unary_bufs_sub ..
/-- so unscoped ones only; -/
theorem cp3_sub : ∀ op ∈ (cp3 : List (HloOp τ sig (Elt F))), op.bufs ⊆ Pipeline.ucRefs τ sig :=
  fun op h => Pipeline.sub_ucRefs op ((List.forall_iff_forall_mem.mp cp3_tc) op h)
/-- and none allocates a buffer. -/
theorem cp3_fresh : ∀ op ∈ (cp3 : List (HloOp τ sig (Elt F))), op.fresh = ∅ :=
  List.forall_iff_forall_mem.mp (by simp only [List.Forall]; repeat' constructor)

/-! ## What each stretch writes, and what it leaves untouched -/

/-- The buffers `hostA` writes. -/
abbrev hostA_W : List (Ref sig .tc) := [main_c, main_v0, main_v1, main_c_0, main_v2, main_v3, main_c_1, main_v4, main_v5, main_c_2, main_v6, main_v7, main_v8, main_v9, main_v10, main_v11, main_v12, main_v13, main_v14, main_v15, main_v16, main_v17, main_v18]
theorem hostA_writes : ∀ op ∈ (hostA : List (HloOp τ sig (Elt F))), op.writes ⊆ (hostA_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostA` does not write keeps its contents through it. -/
theorem hostA_keep (W : Valuation τ sig (Elt F)) (r : Ref sig .tc) (h : r ∉ hostA_W) :
    after hostA W (Proc.devRef .tc r) = W (Proc.devRef .tc r) :=
  after_of_writes_sub hostA W (List.forall_iff_forall_mem.mpr hostA_writes) h

/-- The buffers `hostB1` writes. -/
abbrev hostB1_W : List (Ref sig .tc) := [main_v20, main_v21, main_v22, main_v23, main_v24, main_v25, main_v26, main_v27]
theorem hostB1_writes : ∀ op ∈ (hostB1 : List (HloOp τ sig (Elt F))), op.writes ⊆ (hostB1_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB1` does not write keeps its contents through it. -/
theorem hostB1_keep (W : Valuation τ sig (Elt F)) (r : Ref sig .tc) (h : r ∉ hostB1_W) :
    after hostB1 W (Proc.devRef .tc r) = W (Proc.devRef .tc r) :=
  after_of_writes_sub hostB1 W (List.forall_iff_forall_mem.mpr hostB1_writes) h

/-- The buffers `hostB2` writes. -/
abbrev hostB2_W : List (Ref sig .tc) := [main_v29, main_v30, main_v31, main_v32, main_v33, main_v34, main_v35, main_v36]
theorem hostB2_writes : ∀ op ∈ (hostB2 : List (HloOp τ sig (Elt F))), op.writes ⊆ (hostB2_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB2` does not write keeps its contents through it. -/
theorem hostB2_keep (W : Valuation τ sig (Elt F)) (r : Ref sig .tc) (h : r ∉ hostB2_W) :
    after hostB2 W (Proc.devRef .tc r) = W (Proc.devRef .tc r) :=
  after_of_writes_sub hostB2 W (List.forall_iff_forall_mem.mpr hostB2_writes) h

/-- The buffers `hostB3` writes. -/
abbrev hostB3_W : List (Ref sig .tc) := [main_v38, main_v39, main_v40, main_v41, main_v42, main_v43, main_v44, main_v45]
theorem hostB3_writes : ∀ op ∈ (hostB3 : List (HloOp τ sig (Elt F))), op.writes ⊆ (hostB3_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB3` does not write keeps its contents through it. -/
theorem hostB3_keep (W : Valuation τ sig (Elt F)) (r : Ref sig .tc) (h : r ∉ hostB3_W) :
    after hostB3 W (Proc.devRef .tc r) = W (Proc.devRef .tc r) :=
  after_of_writes_sub hostB3 W (List.forall_iff_forall_mem.mpr hostB3_writes) h

/-- The buffers `cp1` writes. -/
abbrev cp1_W : List (Ref sig .tc) := [main_v48]
theorem cp1_writes : ∀ op ∈ (cp1 : List (HloOp τ sig (Elt F))), op.writes ⊆ (cp1_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp1` does not write keeps its contents through it. -/
theorem cp1_keep (W : Valuation τ sig (Elt F)) (r : Ref sig .tc) (h : r ∉ cp1_W) :
    after cp1 W (Proc.devRef .tc r) = W (Proc.devRef .tc r) :=
  after_of_writes_sub cp1 W (List.forall_iff_forall_mem.mpr cp1_writes) h

/-- The buffers `cp2` writes. -/
abbrev cp2_W : List (Ref sig .tc) := [main_v49]
theorem cp2_writes : ∀ op ∈ (cp2 : List (HloOp τ sig (Elt F))), op.writes ⊆ (cp2_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp2` does not write keeps its contents through it. -/
theorem cp2_keep (W : Valuation τ sig (Elt F)) (r : Ref sig .tc) (h : r ∉ cp2_W) :
    after cp2 W (Proc.devRef .tc r) = W (Proc.devRef .tc r) :=
  after_of_writes_sub cp2 W (List.forall_iff_forall_mem.mpr cp2_writes) h

/-- The buffers `cp3` writes. -/
abbrev cp3_W : List (Ref sig .tc) := [main_v50]
theorem cp3_writes : ∀ op ∈ (cp3 : List (HloOp τ sig (Elt F))), op.writes ⊆ (cp3_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp3` does not write keeps its contents through it. -/
theorem cp3_keep (W : Valuation τ sig (Elt F)) (r : Ref sig .tc) (h : r ∉ cp3_W) :
    after cp3 W (Proc.devRef .tc r) = W (Proc.devRef .tc r) :=
  after_of_writes_sub cp3 W (List.forall_iff_forall_mem.mpr cp3_writes) h

/-! ## What the first stretch leaves -/

/-- `main_v1` holds `main_arg4` followed by 352 zero words. -/
theorem hostA_v1 (W : Valuation τ sig (Elt F)) :
    after hostA W (Proc.devRef .tc main_v1) = Idx.padded (W (Proc.devRef .tc main_arg4)) := by
  simp only [hostA]
  after_results_simp
  rfl

/-- `main_v3` holds `main_arg5` followed by 352 zero words. -/
theorem hostA_v3 (W : Valuation τ sig (Elt F)) :
    after hostA W (Proc.devRef .tc main_v3) = Idx.padded (W (Proc.devRef .tc main_arg5)) := by
  simp only [hostA]
  after_results_simp
  rfl

/-- `main_v5` holds `main_arg6` followed by 352 zero words. -/
theorem hostA_v5 (W : Valuation τ sig (Elt F)) :
    after hostA W (Proc.devRef .tc main_v5) = Idx.padded (W (Proc.devRef .tc main_arg6)) := by
  simp only [hostA]
  after_results_simp
  rfl

/-- `main_v7` holds `main_arg7` followed by 352 zero words. -/
theorem hostA_v7 (W : Valuation τ sig (Elt F)) :
    after hostA W (Proc.devRef .tc main_v7) = Idx.padded (W (Proc.devRef .tc main_arg7)) := by
  simp only [hostA]
  after_results_simp
  rfl

/-- `main_v8` holds `main_arg9` as one row of 512. -/
theorem hostA_v8 (W : Valuation τ sig (Elt F)) :
    after hostA W (Proc.devRef .tc main_v8) = shapeCast S1x512 (W (Proc.devRef .tc main_arg9)) shapeCasts_S512_S1x512 := by
  simp only [hostA]
  after_results_simp
  rfl

/-- `main_v9` holds `main_arg10` as one row of 512. -/
theorem hostA_v9 (W : Valuation τ sig (Elt F)) :
    after hostA W (Proc.devRef .tc main_v9) = shapeCast S1x512 (W (Proc.devRef .tc main_arg10)) shapeCasts_S512_S1x512 := by
  simp only [hostA]
  after_results_simp
  rfl

/-- `main_v10` holds `main_arg11` as one row of 512. -/
theorem hostA_v10 (W : Valuation τ sig (Elt F)) :
    after hostA W (Proc.devRef .tc main_v10) = shapeCast S1x512 (W (Proc.devRef .tc main_arg11)) shapeCasts_S512_S1x512 := by
  simp only [hostA]
  after_results_simp
  rfl

/-- `main_v12` holds stretch 0 of `main_arg4` padded, laid out as 32 x 7 x 112. -/
theorem hostA_v12 (W : Valuation τ sig (Elt F)) :
    after hostA W (Proc.devRef .tc main_v12) = Idx.slab 0 (W (Proc.devRef .tc main_arg4)) := by
  simp only [hostA]
  after_results_simp
  rfl

/-- `main_v14` holds stretch 0 of `main_arg5` padded, laid out as 32 x 7 x 112. -/
theorem hostA_v14 (W : Valuation τ sig (Elt F)) :
    after hostA W (Proc.devRef .tc main_v14) = Idx.slab 0 (W (Proc.devRef .tc main_arg5)) := by
  simp only [hostA]
  after_results_simp
  rfl

/-- `main_v16` holds stretch 0 of `main_arg6` padded, laid out as 32 x 7 x 112. -/
theorem hostA_v16 (W : Valuation τ sig (Elt F)) :
    after hostA W (Proc.devRef .tc main_v16) = Idx.slab 0 (W (Proc.devRef .tc main_arg6)) := by
  simp only [hostA]
  after_results_simp
  rfl

/-- `main_v18` holds stretch 0 of `main_arg7` padded, laid out as 32 x 7 x 112. -/
theorem hostA_v18 (W : Valuation τ sig (Elt F)) :
    after hostA W (Proc.devRef .tc main_v18) = Idx.slab 0 (W (Proc.devRef .tc main_arg7)) := by
  simp only [hostA]
  after_results_simp
  rfl

/-! ## What the later stretches leave -/

/-- `main_v21` holds stretch 1 of the index array `a`, if `main_v1` still holds `a` padded. -/
theorem hostB1_v21 (W : Valuation τ sig (Elt F)) (a : IVec S100000 32)
    (h : W (Proc.devRef .tc main_v1) = Idx.padded a) :
    after hostB1 W (Proc.devRef .tc main_v21) = Idx.slab 1 a := by
  simp only [hostB1]
  after_results_simp
  rw [h]
  rfl

/-- `main_v23` holds stretch 1 of the index array `a`, if `main_v3` still holds `a` padded. -/
theorem hostB1_v23 (W : Valuation τ sig (Elt F)) (a : IVec S100000 32)
    (h : W (Proc.devRef .tc main_v3) = Idx.padded a) :
    after hostB1 W (Proc.devRef .tc main_v23) = Idx.slab 1 a := by
  simp only [hostB1]
  after_results_simp
  rw [h]
  rfl

/-- `main_v25` holds stretch 1 of the index array `a`, if `main_v5` still holds `a` padded. -/
theorem hostB1_v25 (W : Valuation τ sig (Elt F)) (a : IVec S100000 32)
    (h : W (Proc.devRef .tc main_v5) = Idx.padded a) :
    after hostB1 W (Proc.devRef .tc main_v25) = Idx.slab 1 a := by
  simp only [hostB1]
  after_results_simp
  rw [h]
  rfl

/-- `main_v27` holds stretch 1 of the index array `a`, if `main_v7` still holds `a` padded. -/
theorem hostB1_v27 (W : Valuation τ sig (Elt F)) (a : IVec S100000 32)
    (h : W (Proc.devRef .tc main_v7) = Idx.padded a) :
    after hostB1 W (Proc.devRef .tc main_v27) = Idx.slab 1 a := by
  simp only [hostB1]
  after_results_simp
  rw [h]
  rfl

/-- `main_v30` holds stretch 2 of the index array `a`, if `main_v1` still holds `a` padded. -/
theorem hostB2_v30 (W : Valuation τ sig (Elt F)) (a : IVec S100000 32)
    (h : W (Proc.devRef .tc main_v1) = Idx.padded a) :
    after hostB2 W (Proc.devRef .tc main_v30) = Idx.slab 2 a := by
  simp only [hostB2]
  after_results_simp
  rw [h]
  rfl

/-- `main_v32` holds stretch 2 of the index array `a`, if `main_v3` still holds `a` padded. -/
theorem hostB2_v32 (W : Valuation τ sig (Elt F)) (a : IVec S100000 32)
    (h : W (Proc.devRef .tc main_v3) = Idx.padded a) :
    after hostB2 W (Proc.devRef .tc main_v32) = Idx.slab 2 a := by
  simp only [hostB2]
  after_results_simp
  rw [h]
  rfl

/-- `main_v34` holds stretch 2 of the index array `a`, if `main_v5` still holds `a` padded. -/
theorem hostB2_v34 (W : Valuation τ sig (Elt F)) (a : IVec S100000 32)
    (h : W (Proc.devRef .tc main_v5) = Idx.padded a) :
    after hostB2 W (Proc.devRef .tc main_v34) = Idx.slab 2 a := by
  simp only [hostB2]
  after_results_simp
  rw [h]
  rfl

/-- `main_v36` holds stretch 2 of the index array `a`, if `main_v7` still holds `a` padded. -/
theorem hostB2_v36 (W : Valuation τ sig (Elt F)) (a : IVec S100000 32)
    (h : W (Proc.devRef .tc main_v7) = Idx.padded a) :
    after hostB2 W (Proc.devRef .tc main_v36) = Idx.slab 2 a := by
  simp only [hostB2]
  after_results_simp
  rw [h]
  rfl

/-- `main_v39` holds stretch 3 of the index array `a`, if `main_v1` still holds `a` padded. -/
theorem hostB3_v39 (W : Valuation τ sig (Elt F)) (a : IVec S100000 32)
    (h : W (Proc.devRef .tc main_v1) = Idx.padded a) :
    after hostB3 W (Proc.devRef .tc main_v39) = Idx.slab 3 a := by
  simp only [hostB3]
  after_results_simp
  rw [h]
  rfl

/-- `main_v41` holds stretch 3 of the index array `a`, if `main_v3` still holds `a` padded. -/
theorem hostB3_v41 (W : Valuation τ sig (Elt F)) (a : IVec S100000 32)
    (h : W (Proc.devRef .tc main_v3) = Idx.padded a) :
    after hostB3 W (Proc.devRef .tc main_v41) = Idx.slab 3 a := by
  simp only [hostB3]
  after_results_simp
  rw [h]
  rfl

/-- `main_v43` holds stretch 3 of the index array `a`, if `main_v5` still holds `a` padded. -/
theorem hostB3_v43 (W : Valuation τ sig (Elt F)) (a : IVec S100000 32)
    (h : W (Proc.devRef .tc main_v5) = Idx.padded a) :
    after hostB3 W (Proc.devRef .tc main_v43) = Idx.slab 3 a := by
  simp only [hostB3]
  after_results_simp
  rw [h]
  rfl

/-- `main_v45` holds stretch 3 of the index array `a`, if `main_v7` still holds `a` padded. -/
theorem hostB3_v45 (W : Valuation τ sig (Elt F)) (a : IVec S100000 32)
    (h : W (Proc.devRef .tc main_v7) = Idx.padded a) :
    after hostB3 W (Proc.devRef .tc main_v45) = Idx.slab 3 a := by
  simp only [hostB3]
  after_results_simp
  rw [h]
  rfl

/-! ## The copies between regions -/

/-- `main_v48` holds what `main_v47` held. -/
theorem cp1_v48 (W : Valuation τ sig (Elt F)) :
    after cp1 W (Proc.devRef .tc main_v48) = W (Proc.devRef .tc main_v47) := by
  simp only [cp1]
  after_results_simp
  rfl

/-- `main_v49` holds what `main_v48` held. -/
theorem cp2_v49 (W : Valuation τ sig (Elt F)) :
    after cp2 W (Proc.devRef .tc main_v49) = W (Proc.devRef .tc main_v48) := by
  simp only [cp2]
  after_results_simp
  rfl

/-- `main_v50` holds what `main_v49` held. -/
theorem cp3_v50 (W : Valuation τ sig (Elt F)) :
    after cp3 W (Proc.devRef .tc main_v50) = W (Proc.devRef .tc main_v49) := by
  simp only [cp3]
  after_results_simp
  rfl

/-! ## @main is its stretches, calls and regions in order -/

set_option maxHeartbeats 4000000 in
theorem main_eq (d : Dev nD) :
    main (F := F) d =
      (seq hostA >>= fun _ =>
      sc.run d 0 >>= fun _ =>
      seq hostB1 >>= fun _ =>
      sc.run d 1 >>= fun _ =>
      seq hostB2 >>= fun _ =>
      sc.run d 2 >>= fun _ =>
      seq hostB3 >>= fun _ =>
      sc.run d 3 >>= fun _ =>
      Prog.lift (.customCall (SparseCore.inner (Pipeline.entry 0)) ()) >>= fun _ =>
      seq cp1 >>= fun _ =>
      Prog.lift (.customCall (SparseCore.inner (Pipeline.entry 1)) ()) >>= fun _ =>
      seq cp2 >>= fun _ =>
      Prog.lift (.customCall (SparseCore.inner (Pipeline.entry 2)) ()) >>= fun _ =>
      seq cp3 >>= fun _ =>
      Prog.lift (.customCall (SparseCore.inner (Pipeline.entry 3)) ()) >>= fun _ =>
      pure ⟨⟩) := rfl

end Cert.KernelIdeal.Tc

end
-- ==== Proof.ScDealA.lean ====
import proofs.«215994_g5102421148354_cont_8to1c4_853_29_alg».proof.Proof.ScBase

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Dealing a call's arrays to its thirty-two tasks: the generic parts

Task `(c, i)` — SparseCore `c`, vector subcore `i` — is worker `2 i + c` of the thirty-two. An array split into thirty-two
row blocks goes block `2 i + c` to task `(c, i)`; a table read by every task goes out as read shares, the core's token of the
full share and then the subcore's token of that. -/

/-- Task `(c, i)` is worker `2 i + c`. -/
def widEquiv : Fin 2 × Fin 16 ≃ Fin 32 where
  toFun p := ⟨2 * p.2.val + p.1.val, by have := p.1.isLt; have := p.2.isLt; omega⟩
  invFun w := (⟨w.val % 2, Nat.mod_lt _ (by norm_num)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

theorem widEquiv_val (c : Fin 2) (i : Fin 16) : (widEquiv (c, i)).val = 2 * i.val + c.val := rfl

/-- Thirty-two summands, one per worker, are the tasks' summands core by core. -/
theorem bigSep_tasks32 (Φ : Fin 32 → sProp 𝕄) :
    bigSep Finset.univ Φ = bigSep Finset.univ fun c : Fin 2 => bigSep Finset.univ fun i : Fin 16 => Φ (widEquiv (c, i)) :=
  (bigSep_univ_equiv widEquiv Φ).trans (bigSep_univ_prod fun p : Fin 2 × Fin 16 => Φ (widEquiv p))

/-! ### A table every task reads: its read shares -/

/-- The read share of task `(c, i)`: the subcore's token of the core's token of the full share. -/
abbrev qTask (c : Fin 2) (i : Fin 16) : PosShare TreeShare := Transfers.shareTok (Transfers.shareTok fullShare 2 c) 16 i

section Table
variable {ℓ : Loc nD τ sig} (f : Buf (Elt F) ℓ)

/-- What is left of a table's full share once every task has its read share: the remainder after the two cores' tokens
    and, of each core's token, the remainder after its sixteen subcores' tokens. -/
def tabRest : sProp 𝕄 :=
  iprop((ℓ ↦{Transfers.shareDrop fullShare 2} f)
    ∗ bigSep Finset.univ fun c : Fin 2 => ℓ ↦{Transfers.shareDrop (Transfers.shareTok fullShare 2 c) 16} f)

/-- A table whole is the remainder and one read share per task. -/
theorem tab_split : (ℓ ↦{fullShare} f : sProp 𝕄)
    ⊢ iprop(tabRest f ∗ bigSep Finset.univ fun c : Fin 2 => bigSep Finset.univ fun i : Fin 16 => ℓ ↦{qTask c i} f) := by
  refine (Transfers.pointsTo_toks_split fullShare 2).trans ?_
  refine (sep_mono_right (bigSep_mono fun c _ => Transfers.pointsTo_toks_split (Transfers.shareTok fullShare 2 c) 16)).trans ?_
  rw [bigSep_sep']
  unfold tabRest
  iintro ⟨Hd, Hds, Hq⟩
  isplitl [Hd Hds]
  · isplitl [Hd] <;> iassumption
  · iexact Hq

/-- …and back. -/
theorem tab_join : iprop(tabRest f ∗ bigSep Finset.univ fun c : Fin 2 => bigSep Finset.univ fun i : Fin 16 => ℓ ↦{qTask c i} f)
    ⊢ (ℓ ↦{fullShare} f : sProp 𝕄) := by
  have h1 : iprop((ℓ ↦{Transfers.shareDrop fullShare 2} f)
        ∗ bigSep Finset.univ fun c : Fin 2 => iprop((ℓ ↦{Transfers.shareDrop (Transfers.shareTok fullShare 2 c) 16} f)
            ∗ bigSep Finset.univ fun i : Fin 16 => ℓ ↦{qTask c i} f))
      ⊢ (ℓ ↦{fullShare} f : sProp 𝕄) :=
    (sep_mono_right (bigSep_mono fun c _ => Transfers.pointsTo_toks_join (Transfers.shareTok fullShare 2 c) 16)).trans
      (Transfers.pointsTo_toks_join fullShare 2)
  refine (show _ ⊢ _ from ?_).trans h1
  rw [bigSep_sep']
  unfold tabRest
  iintro ⟨⟨Hd, Hds⟩, Hq⟩
  isplitl [Hd]; · iexact Hd
  isplitl [Hds] <;> iassumption

/-- A task's read share is its remainder and eleven tokens, one per copy it keeps in flight. -/
theorem tab_task (qx : PosShare TreeShare) : (ℓ ↦{qx} f : sProp 𝕄)
    ⊣⊢ iprop((ℓ ↦{Transfers.shareDrop qx 11} f) ∗ bigSep Finset.univ fun k : Fin 11 => ℓ ↦{Transfers.shareTok qx 11 k} f) :=
  Transfers.pointsTo_toks qx 11

end Table

/-! ### An index array of thirty-two rows: a row per task -/

theorem idiv : 32 ∣ S32x7x112.size 0 := ⟨1, rfl⟩
/-- Row `w` of an index array, as a rectangle of it. -/
abbrev irow (w : Fin 32) : Rect S32x7x112 := Rect.part (s := S32x7x112) (a₀ := 0) idiv w
/-- …and as a set of its indices. -/
abbrev iRowSet (w : Fin 32) : Finset S32x7x112.Idx := (irow w).set

theorem irows_disjoint : ∀ i ∈ (Finset.univ : Finset (Fin 32)), ∀ j ∈ (Finset.univ : Finset (Fin 32)), i ≠ j →
    Disjoint (iRowSet i) (iRowSet j) := fun i _ j _ h => Rect.part_disjoint idiv h
theorem irows_cover : (Finset.univ : Finset (Fin 32)).biUnion iRowSet = Finset.univ := Rect.biUnion_part idiv

/-- The worker a grid point names. -/
def widL (L : grid0.Coords) : Fin 32 := ⟨2 * (L 1).val + (L 0).val, by
  have h0 : (L 0).val < 2 := (L 0).isLt
  have h1 : (L 1).val < 16 := (L 1).isLt
  omega⟩

/-- The row the task at grid point `L` addresses is row `2 (L 1) + (L 0)`. -/
theorem irowK_eq (L : grid0.Coords) :
    Rect.unit (s := S32x7x112) (k0_off1 L) S1x7x112.size (k0_off1_inb L) = irow (widL L) := by
  unfold irow Rect.part Rect.block
  congr 1 <;> funext a
  · rw [k0_off1_eq]
    match a with
    | 0 => simp [Shape.partIx, Shape.partSize, widL]
    | 1 => simp [Shape.partIx, Shape.partSize]
    | 2 => simp [Shape.partIx, Shape.partSize]
  · match a with
    | 0 => simp [Shape.partSize]
    | 1 => simp [Shape.partSize]
    | 2 => simp [Shape.partSize]

/-! ### The call's result, 25088 × 512: blocks of 112 × 128

Row block `b` (of 224) and column block `t` (of 4) name the rectangle at rows `112 b …`, columns `128 t …`; the 896 of them
are pairwise disjoint and cover the array. Task `w` writes row blocks `7 w … 7 w + 6`. -/

/-- The block sizes. -/
abbrev oSize : Fin S25088x512.rank → Nat := ![112, 128]
/-- The block index of row block `b`, column block `t`. -/
abbrev oIx (b : Fin 224) (t : Fin 4) : Fin S25088x512.rank → Nat := ![b.val, t.val]

theorem oIx_inb (b : Fin 224) (t : Fin 4) : ∀ a, (oIx b t a + 1) * oSize a ≤ S25088x512.size a := by
  intro a
  have hb := b.isLt
  have ht := t.isLt
  match a with
  | 0 => show (b.val + 1) * 112 ≤ 25088; omega
  | 1 => show (t.val + 1) * 128 ≤ 512; omega

/-- Block `(b, t)` of the result. -/
abbrev oBlock (p : Fin 224 × Fin 4) : Rect S25088x512 := Rect.block oSize (oIx p.1 p.2) (oIx_inb p.1 p.2)
abbrev oBlockSet (p : Fin 224 × Fin 4) : Finset S25088x512.Idx := (oBlock p).set

theorem oBlocks_disjoint : ∀ p ∈ (Finset.univ : Finset (Fin 224 × Fin 4)), ∀ p' ∈ (Finset.univ : Finset (Fin 224 × Fin 4)), p ≠ p' →
    Disjoint (oBlockSet p) (oBlockSet p') := by
  intro p _ p' _ h
  refine Rect.block_disjoint _ _ fun e => h ?_
  have e0 := congrFun e 0
  have e1 := congrFun e 1
  exact Prod.ext (Fin.ext e0) (Fin.ext e1)

theorem oBlocks_cover : (Finset.univ : Finset (Fin 224 × Fin 4)).biUnion oBlockSet = Finset.univ := by
  ext j
  simp only [Finset.mem_biUnion, Finset.mem_univ, true_and, iff_true]
  have h0 : (j 0).val < 25088 := (j 0).isLt
  have h1 : (j 1).val < 512 := (j 1).isLt
  refine ⟨(⟨(j 0).val / 112, by omega⟩, ⟨(j 1).val / 128, by omega⟩), Rect.mem_set_unit.mpr fun a => ?_⟩
  match a with
  | 0 =>
    show (j 0).val / 112 * 112 ≤ (j 0).val ∧ (j 0).val < (j 0).val / 112 * 112 + 112
    omega
  | 1 =>
    show (j 1).val / 128 * 128 ≤ (j 1).val ∧ (j 1).val < (j 1).val / 128 * 128 + 128
    omega

end Cert.KernelIdeal.Sc

end
-- ==== Proof.ScDealB.lean ====
import proofs.«215994_g5102421148354_cont_8to1c4_853_29_alg».proof.Proof.ScDealA

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Dealing a call's arrays to its tasks: rows, blocks, and the tasks' own spelling of them -/

/-! ### Small products written out -/

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

theorem bigSep_univ_seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

/-! ### Row blocks of the result: seven per worker -/

/-- Row block `r` of worker `w` is row block `7 w + r` of the 224. -/
def e224 : Fin 32 × Fin 7 ≃ Fin 224 where
  toFun p := ⟨7 * p.1.val + p.2.val, by have := p.1.isLt; have := p.2.isLt; omega⟩
  invFun b := (⟨b.val / 7, by have := b.isLt; omega⟩, ⟨b.val % 7, Nat.mod_lt _ (by norm_num)⟩)
  left_inv p := by
    rcases p with ⟨w, r⟩
    refine Prod.ext (Fin.ext ?_) (Fin.ext ?_)
    · show (7 * w.val + r.val) / 7 = w.val
      have := r.isLt; omega
    · show (7 * w.val + r.val) % 7 = r.val
      have := r.isLt; omega
  right_inv b := Fin.ext (by show 7 * (b.val / 7) + b.val % 7 = b.val; omega)

theorem e224_val (w : Fin 32) (r : Fin 7) : (e224 (w, r)).val = 7 * w.val + r.val := rfl

/-- 896 summands, one per block, are the tasks' summands: core, subcore, row block, column block. -/
theorem bigSep_blocks (Φ : Fin 224 × Fin 4 → sProp 𝕄) :
    bigSep Finset.univ Φ = bigSep Finset.univ fun c : Fin 2 => bigSep Finset.univ fun i : Fin 16 =>
      bigSep Finset.univ fun r : Fin 7 => bigSep Finset.univ fun t : Fin 4 => Φ (e224 (widEquiv (c, i), r), t) := by
  rw [bigSep_univ_prod Φ, bigSep_univ_equiv e224 (fun b : Fin 224 => bigSep Finset.univ fun t : Fin 4 => Φ (b, t)),
    bigSep_univ_prod (fun p : Fin 32 × Fin 7 => bigSep Finset.univ fun t : Fin 4 => Φ (e224 p, t)),
    bigSep_tasks32 (fun w : Fin 32 => bigSep Finset.univ fun r : Fin 7 => bigSep Finset.univ fun t : Fin 4 => Φ (e224 (w, r), t))]

section Arrays
variable (d : Dev nD)

/-! ### An index array whole is its thirty-two rows; the result whole is its 896 blocks -/

theorem rows_main_v12 (f : Buf (Elt F) ((SparseCore.T d).loc main_v12)) :
    ((SparseCore.T d).loc main_v12 ↦{fullShare} f : sProp 𝕄)
      = bigSep Finset.univ fun c : Fin 2 => bigSep Finset.univ fun i : Fin 16 => (SparseCore.T d).loc main_v12 ↦[iRowSet (widEquiv (c, i))]{fullShare} f := by
  rw [← bigSep_tasks32 (fun w : Fin 32 => ((SparseCore.T d).loc main_v12 ↦[iRowSet w]{fullShare} f : sProp 𝕄)),
    ← pointsTo_biUnion Finset.univ (ℓ := (SparseCore.T d).loc main_v12) iRowSet irows_disjoint, irows_cover]; try rfl
theorem rows_main_v14 (f : Buf (Elt F) ((SparseCore.T d).loc main_v14)) :
    ((SparseCore.T d).loc main_v14 ↦{fullShare} f : sProp 𝕄)
      = bigSep Finset.univ fun c : Fin 2 => bigSep Finset.univ fun i : Fin 16 => (SparseCore.T d).loc main_v14 ↦[iRowSet (widEquiv (c, i))]{fullShare} f := by
  rw [← bigSep_tasks32 (fun w : Fin 32 => ((SparseCore.T d).loc main_v14 ↦[iRowSet w]{fullShare} f : sProp 𝕄)),
    ← pointsTo_biUnion Finset.univ (ℓ := (SparseCore.T d).loc main_v14) iRowSet irows_disjoint, irows_cover]; try rfl
theorem rows_main_v16 (f : Buf (Elt F) ((SparseCore.T d).loc main_v16)) :
    ((SparseCore.T d).loc main_v16 ↦{fullShare} f : sProp 𝕄)
      = bigSep Finset.univ fun c : Fin 2 => bigSep Finset.univ fun i : Fin 16 => (SparseCore.T d).loc main_v16 ↦[iRowSet (widEquiv (c, i))]{fullShare} f := by
  rw [← bigSep_tasks32 (fun w : Fin 32 => ((SparseCore.T d).loc main_v16 ↦[iRowSet w]{fullShare} f : sProp 𝕄)),
    ← pointsTo_biUnion Finset.univ (ℓ := (SparseCore.T d).loc main_v16) iRowSet irows_disjoint, irows_cover]; try rfl
theorem rows_main_v18 (f : Buf (Elt F) ((SparseCore.T d).loc main_v18)) :
    ((SparseCore.T d).loc main_v18 ↦{fullShare} f : sProp 𝕄)
      = bigSep Finset.univ fun c : Fin 2 => bigSep Finset.univ fun i : Fin 16 => (SparseCore.T d).loc main_v18 ↦[iRowSet (widEquiv (c, i))]{fullShare} f := by
  rw [← bigSep_tasks32 (fun w : Fin 32 => ((SparseCore.T d).loc main_v18 ↦[iRowSet w]{fullShare} f : sProp 𝕄)),
    ← pointsTo_biUnion Finset.univ (ℓ := (SparseCore.T d).loc main_v18) iRowSet irows_disjoint, irows_cover]; try rfl

theorem blocks_main_v19 (f : Buf (Elt F) ((SparseCore.T d).loc main_v19)) :
    ((SparseCore.T d).loc main_v19 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v19 ↦[oBlockSet (e224 (widEquiv (c, i), r), t)]{fullShare} f := by
  rw [← bigSep_blocks (fun p : Fin 224 × Fin 4 => ((SparseCore.T d).loc main_v19 ↦[oBlockSet p]{fullShare} f : sProp 𝕄)),
    ← pointsTo_biUnion Finset.univ (ℓ := (SparseCore.T d).loc main_v19) oBlockSet oBlocks_disjoint, oBlocks_cover]; try rfl

/-- The result at anything goes out block by block, each at anything. -/
theorem blocks_split_main_v19 :
    (iprop(∃ f, (SparseCore.T d).loc main_v19 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v19 ↦[oBlockSet (e224 (widEquiv (c, i), r), t)]{fullShare} fo) := by
  refine exists_elim fun f => ?_
  rw [blocks_main_v19 d f]
  exact bigSep_mono fun c _ => bigSep_mono fun i _ => bigSep_mono fun r _ => bigSep_mono fun t _ =>
    (show ((SparseCore.T d).loc main_v19 ↦[oBlockSet (e224 (widEquiv (c, i), r), t)]{fullShare} f : sProp 𝕄)
      ⊢ iprop(∃ fo, (SparseCore.T d).loc main_v19 ↦[oBlockSet (e224 (widEquiv (c, i), r), t)]{fullShare} fo) from by
        iintro H; iexists f; iexact H)

set_option maxRecDepth 4096 in
/-- …and the blocks, each at whatever its task left, come back as the result at something. -/
theorem blocks_join_main_v19 :
    (bigSep Finset.univ fun c : Fin 2 => bigSep Finset.univ fun i : Fin 16 => bigSep Finset.univ fun r : Fin 7 =>
        bigSep Finset.univ fun t : Fin 4 => iprop(∃ fo, (SparseCore.T d).loc main_v19 ↦[oBlockSet (e224 (widEquiv (c, i), r), t)]{fullShare} fo))
      ⊢ (iprop(∃ f, (SparseCore.T d).loc main_v19 ↦{fullShare} f) : sProp 𝕄) := by
  rw [← bigSep_blocks (fun p : Fin 224 × Fin 4 => (iprop(∃ fo, (SparseCore.T d).loc main_v19 ↦[oBlockSet p]{fullShare} fo) : sProp 𝕄))]
  refine (bigSep_exists_pi Finset.univ (fun p (fo : Buf (Elt F) ((SparseCore.T d).loc main_v19)) => ((SparseCore.T d).loc main_v19 ↦[oBlockSet p]{fullShare} fo : sProp 𝕄))).trans ?_
  iintro ⟨%fs, H⟩
  have : Nonempty (Buf (Elt F) ((SparseCore.T d).loc main_v19)) := ⟨fs (0, 0)⟩
  ihave H' := (pointsTo_biUnion_join (ℓ := (SparseCore.T d).loc main_v19) (q := fullShare) (Val := Elt F) Finset.univ oBlockSet fs
    (fs (0, 0)) oBlocks_disjoint) $$ H
  icases H' with ⟨%g, -, Hg⟩
  rw [oBlocks_cover]
  iexists g; iexact Hg

end Arrays

end Cert.KernelIdeal.Sc

end
-- ==== Proof.ScDealC.lean ====
import proofs.«215994_g5102421148354_cont_8to1c4_853_29_alg».proof.Proof.ScDealB

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## The tasks' own spelling of their row and their blocks (gather call 0)

A task addresses its row of an index array as a slice at the offsets its grid point computes, squeezed; its blocks of the
result as slices at offsets of the same kind. These are the rows and blocks of the deal. -/

section Spelling
variable (L : grid0.Coords)

theorem iRowSet_eq_main_v12 (w : Fin 32) :
    ((Memref.whole main_v12_scv : Memref sig .scVector .hbm S32x7x112 .i32).view.slice (irow w)).set = iRowSet w := by
  show ((View.whole (main_v12_scv : Ref sig .scVector)).slice (irow w)).set = _
  rw [View.set_slice]; exact Finset.map_refl
theorem set_rowK_main_v12 : (((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v12 (widL L))
  show (((Memref.whole main_v12_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v12_scv : Memref sig .scVector .hbm S32x7x112 .i32).view.slice (irow (widL L))).set
  rw [View.set_reshape]
  exact irowK_eq L ▸ rfl
theorem iRowSet_eq_main_v14 (w : Fin 32) :
    ((Memref.whole main_v14_scv : Memref sig .scVector .hbm S32x7x112 .i32).view.slice (irow w)).set = iRowSet w := by
  show ((View.whole (main_v14_scv : Ref sig .scVector)).slice (irow w)).set = _
  rw [View.set_slice]; exact Finset.map_refl
theorem set_rowK_main_v14 : (((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v14 (widL L))
  show (((Memref.whole main_v14_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v14_scv : Memref sig .scVector .hbm S32x7x112 .i32).view.slice (irow (widL L))).set
  rw [View.set_reshape]
  exact irowK_eq L ▸ rfl
theorem iRowSet_eq_main_v16 (w : Fin 32) :
    ((Memref.whole main_v16_scv : Memref sig .scVector .hbm S32x7x112 .i32).view.slice (irow w)).set = iRowSet w := by
  show ((View.whole (main_v16_scv : Ref sig .scVector)).slice (irow w)).set = _
  rw [View.set_slice]; exact Finset.map_refl
theorem set_rowK_main_v16 : (((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v16 (widL L))
  show (((Memref.whole main_v16_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v16_scv : Memref sig .scVector .hbm S32x7x112 .i32).view.slice (irow (widL L))).set
  rw [View.set_reshape]
  exact irowK_eq L ▸ rfl
theorem iRowSet_eq_main_v18 (w : Fin 32) :
    ((Memref.whole main_v18_scv : Memref sig .scVector .hbm S32x7x112 .i32).view.slice (irow w)).set = iRowSet w := by
  show ((View.whole (main_v18_scv : Ref sig .scVector)).slice (irow w)).set = _
  rw [View.set_slice]; exact Finset.map_refl
theorem set_rowK_main_v18 : (((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v18 (widL L))
  show (((Memref.whole main_v18_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v18_scv : Memref sig .scVector .hbm S32x7x112 .i32).view.slice (irow (widL L))).set
  rw [View.set_reshape]
  exact irowK_eq L ▸ rfl

/-- Piece `r` of column block 0: block `(7 w + r, 0)` of the result. -/
theorem orect2_eq (r : Fin 7) :
    Rect.unit (s := S25088x512) (k0_off2 L (BitVec.ofNat 32 (112 * r.val))) S112x128.size (k0_off2_inb L r)
      = oBlock (e224 (widL L, r), 0) := by
  unfold oBlock Rect.block
  congr 1 <;> funext a
  · rw [k0_off2_eq]
    match a with
    | 0 =>
      show 1568 * (L 1).val + 784 * (L 0).val + 112 * r.val = (7 * (2 * (L 1).val + (L 0).val) + r.val) * 112
      omega
    | 1 => rfl
theorem set_piece2 (r : Fin 7) : ((Memref.whole main_v19_scv : Memref sig .scVector .hbm S25088x512 .f32).slice (Rect.unit (s := S25088x512) (k0_off2 L (BitVec.ofNat 32 (112 * r.val))) S112x128.size (k0_off2_inb L r)) (fun _ => rfl)).view.set = oBlockSet (e224 (widL L, r), 0) := by
  show ((View.whole (main_v19_scv : Ref sig .scVector)).slice
    (Rect.unit (s := S25088x512) (k0_off2 L (BitVec.ofNat 32 (112 * r.val))) S112x128.size (k0_off2_inb L r))).set = _
  rw [View.set_slice, orect2_eq L r]; exact Finset.map_refl
/-- Piece `r` of column block 1: block `(7 w + r, 1)` of the result. -/
theorem orect3_eq (r : Fin 7) :
    Rect.unit (s := S25088x512) (k0_off3 L (BitVec.ofNat 32 (112 * r.val))) S112x128.size (k0_off3_inb L r)
      = oBlock (e224 (widL L, r), 1) := by
  unfold oBlock Rect.block
  congr 1 <;> funext a
  · rw [k0_off3_eq]
    match a with
    | 0 =>
      show 1568 * (L 1).val + 784 * (L 0).val + 112 * r.val = (7 * (2 * (L 1).val + (L 0).val) + r.val) * 112
      omega
    | 1 => rfl
theorem set_piece3 (r : Fin 7) : ((Memref.whole main_v19_scv : Memref sig .scVector .hbm S25088x512 .f32).slice (Rect.unit (s := S25088x512) (k0_off3 L (BitVec.ofNat 32 (112 * r.val))) S112x128.size (k0_off3_inb L r)) (fun _ => rfl)).view.set = oBlockSet (e224 (widL L, r), 1) := by
  show ((View.whole (main_v19_scv : Ref sig .scVector)).slice
    (Rect.unit (s := S25088x512) (k0_off3 L (BitVec.ofNat 32 (112 * r.val))) S112x128.size (k0_off3_inb L r))).set = _
  rw [View.set_slice, orect3_eq L r]; exact Finset.map_refl
/-- Piece `r` of column block 2: block `(7 w + r, 2)` of the result. -/
theorem orect4_eq (r : Fin 7) :
    Rect.unit (s := S25088x512) (k0_off4 L (BitVec.ofNat 32 (112 * r.val))) S112x128.size (k0_off4_inb L r)
      = oBlock (e224 (widL L, r), 2) := by
  unfold oBlock Rect.block
  congr 1 <;> funext a
  · rw [k0_off4_eq]
    match a with
    | 0 =>
      show 1568 * (L 1).val + 784 * (L 0).val + 112 * r.val = (7 * (2 * (L 1).val + (L 0).val) + r.val) * 112
      omega
    | 1 => rfl
theorem set_piece4 (r : Fin 7) : ((Memref.whole main_v19_scv : Memref sig .scVector .hbm S25088x512 .f32).slice (Rect.unit (s := S25088x512) (k0_off4 L (BitVec.ofNat 32 (112 * r.val))) S112x128.size (k0_off4_inb L r)) (fun _ => rfl)).view.set = oBlockSet (e224 (widL L, r), 2) := by
  show ((View.whole (main_v19_scv : Ref sig .scVector)).slice
    (Rect.unit (s := S25088x512) (k0_off4 L (BitVec.ofNat 32 (112 * r.val))) S112x128.size (k0_off4_inb L r))).set = _
  rw [View.set_slice, orect4_eq L r]; exact Finset.map_refl
/-- Piece `r` of column block 3: block `(7 w + r, 3)` of the result. -/
theorem orect5_eq (r : Fin 7) :
    Rect.unit (s := S25088x512) (k0_off5 L (BitVec.ofNat 32 (112 * r.val))) S112x128.size (k0_off5_inb L r)
      = oBlock (e224 (widL L, r), 3) := by
  unfold oBlock Rect.block
  congr 1 <;> funext a
  · rw [k0_off5_eq]
    match a with
    | 0 =>
      show 1568 * (L 1).val + 784 * (L 0).val + 112 * r.val = (7 * (2 * (L 1).val + (L 0).val) + r.val) * 112
      omega
    | 1 => rfl
theorem set_piece5 (r : Fin 7) : ((Memref.whole main_v19_scv : Memref sig .scVector .hbm S25088x512 .f32).slice (Rect.unit (s := S25088x512) (k0_off5 L (BitVec.ofNat 32 (112 * r.val))) S112x128.size (k0_off5_inb L r)) (fun _ => rfl)).view.set = oBlockSet (e224 (widL L, r), 3) := by
  show ((View.whole (main_v19_scv : Ref sig .scVector)).slice
    (Rect.unit (s := S25088x512) (k0_off5 L (BitVec.ofNat 32 (112 * r.val))) S112x128.size (k0_off5_inb L r))).set = _
  rw [View.set_slice, orect5_eq L r]; exact Finset.map_refl

end Spelling

/-! ### HBM is shared: a task's name for an array's location is the TensorCore's -/

section Locations
variable (d : Dev nD) (L : grid0.Coords) (c : Fin τ.nSC) (i : Fin τ.nSub) (q : PosShare TreeShare)

theorem ptsLoc_row_main_v12 (I : Finset (Idx ((SparseCore.T d).loc main_v12))) (f : Buf (Elt F) ((SparseCore.T d).loc main_v12)) :
    ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v12 ↦[I]{q} f) := rfl
theorem ptsLoc_row_main_v14 (I : Finset (Idx ((SparseCore.T d).loc main_v14))) (f : Buf (Elt F) ((SparseCore.T d).loc main_v14)) :
    ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v14 ↦[I]{q} f) := rfl
theorem ptsLoc_row_main_v16 (I : Finset (Idx ((SparseCore.T d).loc main_v16))) (f : Buf (Elt F) ((SparseCore.T d).loc main_v16)) :
    ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v16 ↦[I]{q} f) := rfl
theorem ptsLoc_row_main_v18 (I : Finset (Idx ((SparseCore.T d).loc main_v18))) (f : Buf (Elt F) ((SparseCore.T d).loc main_v18)) :
    ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v18 ↦[I]{q} f) := rfl
theorem ptsLoc_tab_main_arg0 (I : Finset (Idx ((SparseCore.T d).loc main_arg0))) (f : Buf (Elt F) ((SparseCore.T d).loc main_arg0)) :
    ((Memref.whole main_arg0_scv : Memref sig .scVector .hbm S100000x128 .f32).view.loc (V d c i) ↦[I]{q} f : sProp 𝕄)
      = ((SparseCore.T d).loc main_arg0 ↦[I]{q} f) := rfl
theorem ptsLoc_tab_main_arg1 (I : Finset (Idx ((SparseCore.T d).loc main_arg1))) (f : Buf (Elt F) ((SparseCore.T d).loc main_arg1)) :
    ((Memref.whole main_arg1_scv : Memref sig .scVector .hbm S100000x128 .f32).view.loc (V d c i) ↦[I]{q} f : sProp 𝕄)
      = ((SparseCore.T d).loc main_arg1 ↦[I]{q} f) := rfl
theorem ptsLoc_tab_main_arg2 (I : Finset (Idx ((SparseCore.T d).loc main_arg2))) (f : Buf (Elt F) ((SparseCore.T d).loc main_arg2)) :
    ((Memref.whole main_arg2_scv : Memref sig .scVector .hbm S100000x128 .f32).view.loc (V d c i) ↦[I]{q} f : sProp 𝕄)
      = ((SparseCore.T d).loc main_arg2 ↦[I]{q} f) := rfl
theorem ptsLoc_tab_main_arg3 (I : Finset (Idx ((SparseCore.T d).loc main_arg3))) (f : Buf (Elt F) ((SparseCore.T d).loc main_arg3)) :
    ((Memref.whole main_arg3_scv : Memref sig .scVector .hbm S100000x128 .f32).view.loc (V d c i) ↦[I]{q} f : sProp 𝕄)
      = ((SparseCore.T d).loc main_arg3 ↦[I]{q} f) := rfl
theorem ptsLoc_piece_main_v19 (off : Fin S25088x512.rank → Nat) (inb : ∀ a, off a + S112x128.size a ≤ S25088x512.size a)
    (I : Finset (Idx ((SparseCore.T d).loc main_v19))) (f : Buf (Elt F) ((SparseCore.T d).loc main_v19)) :
    (((Memref.whole main_v19_scv : Memref sig .scVector .hbm S25088x512 .f32).slice
        (Rect.unit (s := S25088x512) off S112x128.size inb) (fun _ => rfl)).view.loc (V d c i) ↦[I]{q} f : sProp 𝕄)
      = ((SparseCore.T d).loc main_v19 ↦[I]{q} f) := rfl

end Locations

end Cert.KernelIdeal.Sc

end
-- ==== Proof.ScDeal0.lean ====
import proofs.«215994_g5102421148354_cont_8to1c4_853_29_alg».proof.Proof.ScPay
import proofs.«215994_g5102421148354_cont_8to1c4_853_29_alg».proof.Proof.ScDealC

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 0: a task's resources as it spells them are the deal's -/

theorem sepCongr {A A' B B' : sProp 𝕄} (h1 : A = A') (h2 : B = B') : (iprop(A ∗ B) : sProp 𝕄) = iprop(A' ∗ B') := by
  rw [h1, h2]

theorem tab_task_eq {ℓ : Loc nD τ sig} (f : Buf (Elt F) ℓ) (qx : PosShare TreeShare) :
    (ℓ ↦{qx} f : sProp 𝕄)
      = iprop((ℓ ↦{Transfers.shareDrop qx 11} f) ∗ bigSep Finset.univ fun k : Fin 11 => ℓ ↦{Transfers.shareTok qx 11 k} f) :=
  BI.Entails.antisymm (tab_task f qx).1 (tab_task f qx).2

section Atoms
variable (d : Dev nD) (L : grid0.Coords) (c : Fin τ.nSC) (i : Fin τ.nSub)

theorem pts_rowK_main_v12 (f : Buf (Elt F) (((SparseCore.T d).loc main_v12 : Loc nD τ sig))) :
    ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v12 ↦[iRowSet (widL L)]{fullShare} f) := by
  rw [set_rowK_main_v12]
theorem pts_rowK_main_v14 (f : Buf (Elt F) (((SparseCore.T d).loc main_v14 : Loc nD τ sig))) :
    ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v14 ↦[iRowSet (widL L)]{fullShare} f) := by
  rw [set_rowK_main_v14]
theorem pts_rowK_main_v16 (f : Buf (Elt F) (((SparseCore.T d).loc main_v16 : Loc nD τ sig))) :
    ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v16 ↦[iRowSet (widL L)]{fullShare} f) := by
  rw [set_rowK_main_v16]
theorem pts_rowK_main_v18 (f : Buf (Elt F) (((SparseCore.T d).loc main_v18 : Loc nD τ sig))) :
    ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v18 ↦[iRowSet (widL L)]{fullShare} f) := by
  rw [set_rowK_main_v18]
theorem owned_piece2 (r : Fin 7) :
    ownedAny (F := F) (((Memref.whole main_v19_scv : Memref sig .scVector .hbm S25088x512 .f32).slice (Rect.unit (s := S25088x512) (k0_off2 L (BitVec.ofNat 32 (112 * r.val))) S112x128.size (k0_off2_inb L r)) (fun _ => rfl)).view.loc (V d c i)) ((Memref.whole main_v19_scv : Memref sig .scVector .hbm S25088x512 .f32).slice (Rect.unit (s := S25088x512) (k0_off2 L (BitVec.ofNat 32 (112 * r.val))) S112x128.size (k0_off2_inb L r)) (fun _ => rfl)).view.set
      = ownedAny (F := F) ((SparseCore.T d).loc main_v19) (oBlockSet (e224 (widL L, r), 0)) := by
  rw [set_piece2]
theorem owned_piece3 (r : Fin 7) :
    ownedAny (F := F) (((Memref.whole main_v19_scv : Memref sig .scVector .hbm S25088x512 .f32).slice (Rect.unit (s := S25088x512) (k0_off3 L (BitVec.ofNat 32 (112 * r.val))) S112x128.size (k0_off3_inb L r)) (fun _ => rfl)).view.loc (V d c i)) ((Memref.whole main_v19_scv : Memref sig .scVector .hbm S25088x512 .f32).slice (Rect.unit (s := S25088x512) (k0_off3 L (BitVec.ofNat 32 (112 * r.val))) S112x128.size (k0_off3_inb L r)) (fun _ => rfl)).view.set
      = ownedAny (F := F) ((SparseCore.T d).loc main_v19) (oBlockSet (e224 (widL L, r), 1)) := by
  rw [set_piece3]
theorem owned_piece4 (r : Fin 7) :
    ownedAny (F := F) (((Memref.whole main_v19_scv : Memref sig .scVector .hbm S25088x512 .f32).slice (Rect.unit (s := S25088x512) (k0_off4 L (BitVec.ofNat 32 (112 * r.val))) S112x128.size (k0_off4_inb L r)) (fun _ => rfl)).view.loc (V d c i)) ((Memref.whole main_v19_scv : Memref sig .scVector .hbm S25088x512 .f32).slice (Rect.unit (s := S25088x512) (k0_off4 L (BitVec.ofNat 32 (112 * r.val))) S112x128.size (k0_off4_inb L r)) (fun _ => rfl)).view.set
      = ownedAny (F := F) ((SparseCore.T d).loc main_v19) (oBlockSet (e224 (widL L, r), 2)) := by
  rw [set_piece4]
theorem owned_piece5 (r : Fin 7) :
    ownedAny (F := F) (((Memref.whole main_v19_scv : Memref sig .scVector .hbm S25088x512 .f32).slice (Rect.unit (s := S25088x512) (k0_off5 L (BitVec.ofNat 32 (112 * r.val))) S112x128.size (k0_off5_inb L r)) (fun _ => rfl)).view.loc (V d c i)) ((Memref.whole main_v19_scv : Memref sig .scVector .hbm S25088x512 .f32).slice (Rect.unit (s := S25088x512) (k0_off5 L (BitVec.ofNat 32 (112 * r.val))) S112x128.size (k0_off5_inb L r)) (fun _ => rfl)).view.set
      = ownedAny (F := F) ((SparseCore.T d).loc main_v19) (oBlockSet (e224 (widL L, r), 3)) := by
  rw [set_piece5]

end Atoms

/-- A task's forty holdings in the deal's terms, in the order the task lists them: its row `w` of the four index arrays;
    of each table the remainder of its read share `qx` and the eleven tokens; its 28 blocks of the result at anything. -/
def chain0 (d : Dev nD) (w : Fin 32) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v12 ↦[iRowSet w]{fullShare} fi0)
    ∗ ((SparseCore.T d).loc main_v14 ↦[iRowSet w]{fullShare} fi1)
    ∗ ((SparseCore.T d).loc main_v16 ↦[iRowSet w]{fullShare} fi2)
    ∗ ((SparseCore.T d).loc main_v18 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v19) (oBlockSet (e224 (w, 0), 0))
    ∗ ownedAny (F := F) ((SparseCore.T d).loc main_v19) (oBlockSet (e224 (w, 1), 0))
    ∗ ownedAny (F := F) ((SparseCore.T d).loc main_v19) (oBlockSet (e224 (w, 2), 0))
    ∗ ownedAny (F := F) ((SparseCore.T d).loc main_v19) (oBlockSet (e224 (w, 3), 0))
    ∗ ownedAny (F := F) ((SparseCore.T d).loc main_v19) (oBlockSet (e224 (w, 4), 0))
    ∗ ownedAny (F := F) ((SparseCore.T d).loc main_v19) (oBlockSet (e224 (w, 5), 0))
    ∗ ownedAny (F := F) ((SparseCore.T d).loc main_v19) (oBlockSet (e224 (w, 6), 0))
    ∗ ownedAny (F := F) ((SparseCore.T d).loc main_v19) (oBlockSet (e224 (w, 0), 1))
    ∗ ownedAny (F := F) ((SparseCore.T d).loc main_v19) (oBlockSet (e224 (w, 1), 1))
    ∗ ownedAny (F := F) ((SparseCore.T d).loc main_v19) (oBlockSet (e224 (w, 2), 1))
    ∗ ownedAny (F := F) ((SparseCore.T d).loc main_v19) (oBlockSet (e224 (w, 3), 1))
    ∗ ownedAny (F := F) ((SparseCore.T d).loc main_v19) (oBlockSet (e224 (w, 4), 1))
    ∗ ownedAny (F := F) ((SparseCore.T d).loc main_v19) (oBlockSet (e224 (w, 5), 1))
    ∗ ownedAny (F := F) ((SparseCore.T d).loc main_v19) (oBlockSet (e224 (w, 6), 1))
    ∗ ownedAny (F := F) ((SparseCore.T d).loc main_v19) (oBlockSet (e224 (w, 0), 2))
    ∗ ownedAny (F := F) ((SparseCore.T d).loc main_v19) (oBlockSet (e224 (w, 1), 2))
    ∗ ownedAny (F := F) ((SparseCore.T d).loc main_v19) (oBlockSet (e224 (w, 2), 2))
    ∗ ownedAny (F := F) ((SparseCore.T d).loc main_v19) (oBlockSet (e224 (w, 3), 2))
    ∗ ownedAny (F := F) ((SparseCore.T d).loc main_v19) (oBlockSet (e224 (w, 4), 2))
    ∗ ownedAny (F := F) ((SparseCore.T d).loc main_v19) (oBlockSet (e224 (w, 5), 2))
    ∗ ownedAny (F := F) ((SparseCore.T d).loc main_v19) (oBlockSet (e224 (w, 6), 2))
    ∗ ownedAny (F := F) ((SparseCore.T d).loc main_v19) (oBlockSet (e224 (w, 0), 3))
    ∗ ownedAny (F := F) ((SparseCore.T d).loc main_v19) (oBlockSet (e224 (w, 1), 3))
    ∗ ownedAny (F := F) ((SparseCore.T d).loc main_v19) (oBlockSet (e224 (w, 2), 3))
    ∗ ownedAny (F := F) ((SparseCore.T d).loc main_v19) (oBlockSet (e224 (w, 3), 3))
    ∗ ownedAny (F := F) ((SparseCore.T d).loc main_v19) (oBlockSet (e224 (w, 4), 3))
    ∗ ownedAny (F := F) ((SparseCore.T d).loc main_v19) (oBlockSet (e224 (w, 5), 3))
    ∗ ownedAny (F := F) ((SparseCore.T d).loc main_v19) (oBlockSet (e224 (w, 6), 3)))

theorem widL_coordsV0 (c : Fin 2) (i : Fin 16) : widL (coordsV0 c i) = widEquiv (c, i) := Fin.ext rfl

set_option maxRecDepth 8192 in
set_option maxHeartbeats 1000000 in
theorem tileRes0_chain (d : Dev nD) (c : Fin 2) (i : Fin 16) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes0 d (coordsV0 c i) qx fi0 fi1 fi2 fi3 fx0 fx1 fx2 fx3 = chain0 d (widL (coordsV0 c i)) qx fi0 fi1 fi2 fi3 fx0 fx1 fx2 fx3 := by
  unfold tileRes0 chain0
  exact (sepCongr (pts_rowK_main_v12 d (coordsV0 c i) _ _ _) (sepCongr (pts_rowK_main_v14 d (coordsV0 c i) _ _ _) (sepCongr (pts_rowK_main_v16 d (coordsV0 c i) _ _ _) (sepCongr (pts_rowK_main_v18 d (coordsV0 c i) _ _ _) (sepCongr rfl (sepCongr rfl (sepCongr rfl (sepCongr rfl (sepCongr rfl (sepCongr rfl (sepCongr rfl (sepCongr rfl (sepCongr (owned_piece2 d (coordsV0 c i) _ _ 0) (sepCongr (owned_piece2 d (coordsV0 c i) _ _ 1) (sepCongr (owned_piece2 d (coordsV0 c i) _ _ 2) (sepCongr (owned_piece2 d (coordsV0 c i) _ _ 3) (sepCongr (owned_piece2 d (coordsV0 c i) _ _ 4) (sepCongr (owned_piece2 d (coordsV0 c i) _ _ 5) (sepCongr (owned_piece2 d (coordsV0 c i) _ _ 6) (sepCongr (owned_piece3 d (coordsV0 c i) _ _ 0) (sepCongr (owned_piece3 d (coordsV0 c i) _ _ 1) (sepCongr (owned_piece3 d (coordsV0 c i) _ _ 2) (sepCongr (owned_piece3 d (coordsV0 c i) _ _ 3) (sepCongr (owned_piece3 d (coordsV0 c i) _ _ 4) (sepCongr (owned_piece3 d (coordsV0 c i) _ _ 5) (sepCongr (owned_piece3 d (coordsV0 c i) _ _ 6) (sepCongr (owned_piece4 d (coordsV0 c i) _ _ 0) (sepCongr (owned_piece4 d (coordsV0 c i) _ _ 1) (sepCongr (owned_piece4 d (coordsV0 c i) _ _ 2) (sepCongr (owned_piece4 d (coordsV0 c i) _ _ 3) (sepCongr (owned_piece4 d (coordsV0 c i) _ _ 4) (sepCongr (owned_piece4 d (coordsV0 c i) _ _ 5) (sepCongr (owned_piece4 d (coordsV0 c i) _ _ 6) (sepCongr (owned_piece5 d (coordsV0 c i) _ _ 0) (sepCongr (owned_piece5 d (coordsV0 c i) _ _ 1) (sepCongr (owned_piece5 d (coordsV0 c i) _ _ 2) (sepCongr (owned_piece5 d (coordsV0 c i) _ _ 3) (sepCongr (owned_piece5 d (coordsV0 c i) _ _ 4) (sepCongr (owned_piece5 d (coordsV0 c i) _ _ 5) (owned_piece5 d (coordsV0 c i) _ _ 6))))))))))))))))))))))))))))))))))))))))

/-- The proof mode's `∗` is the concrete one: commutative and associative as equalities. -/
local instance sepPM_comm : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

variable (m : (ℓ : Loc nD τ sig) → Buf (Elt F) ℓ)

/-- What task `(c, i)` of gather call 0 holds, regrouped: its row of the four index arrays, its read share of the four tables,
    its 28 blocks of the result at anything. -/
def nice0 (d : Dev nD) (c : Fin 2) (i : Fin 16) : sProp 𝕄 :=
  iprop(
      ((SparseCore.T d).loc main_v12 ↦[iRowSet (widEquiv (c, i))]{fullShare} (Idx.slab 0 (m ((SparseCore.T d).loc main_arg4))))
    ∗ ((SparseCore.T d).loc main_v14 ↦[iRowSet (widEquiv (c, i))]{fullShare} (Idx.slab 0 (m ((SparseCore.T d).loc main_arg5))))
    ∗ ((SparseCore.T d).loc main_v16 ↦[iRowSet (widEquiv (c, i))]{fullShare} (Idx.slab 0 (m ((SparseCore.T d).loc main_arg6))))
    ∗ ((SparseCore.T d).loc main_v18 ↦[iRowSet (widEquiv (c, i))]{fullShare} (Idx.slab 0 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v19 ↦[oBlockSet (e224 (widEquiv (c, i), r), t)]{fullShare} fo))

set_option maxRecDepth 8192 in
set_option maxHeartbeats 1000000 in
theorem chain0_nice (d : Dev nD) (c : Fin 2) (i : Fin 16) :
    chain0 d (widEquiv (c, i)) (qTask c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) = nice0 m d c i := by
  unfold chain0 nice0 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes0_nice (d : Dev nD) (c : Fin 2) (i : Fin 16) : taskRes m 0 d c i = nice0 m d c i := by
  show tileRes0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) = _
  rw [tileRes0_chain, widL_coordsV0]
  exact chain0_nice m d c i

/-- All thirty-two tasks' holdings, array by array. -/
theorem tasks0_eq (d : Dev nD) :
    (bigSep Finset.univ fun c : Fin 2 => bigSep Finset.univ fun i : Fin 16 => taskRes m 0 d c i)
      = iprop((bigSep Finset.univ fun c : Fin 2 => bigSep Finset.univ fun i : Fin 16 => ((SparseCore.T d).loc main_v12 ↦[iRowSet (widEquiv (c, i))]{fullShare} (Idx.slab 0 (m ((SparseCore.T d).loc main_arg4)))))
        ∗ (bigSep Finset.univ fun c : Fin 2 => bigSep Finset.univ fun i : Fin 16 => ((SparseCore.T d).loc main_v14 ↦[iRowSet (widEquiv (c, i))]{fullShare} (Idx.slab 0 (m ((SparseCore.T d).loc main_arg5)))))
        ∗ (bigSep Finset.univ fun c : Fin 2 => bigSep Finset.univ fun i : Fin 16 => ((SparseCore.T d).loc main_v16 ↦[iRowSet (widEquiv (c, i))]{fullShare} (Idx.slab 0 (m ((SparseCore.T d).loc main_arg6)))))
        ∗ (bigSep Finset.univ fun c : Fin 2 => bigSep Finset.univ fun i : Fin 16 => ((SparseCore.T d).loc main_v18 ↦[iRowSet (widEquiv (c, i))]{fullShare} (Idx.slab 0 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v19 ↦[oBlockSet (e224 (widEquiv (c, i), r), t)]{fullShare} fo))) := by
  have h : (fun c : Fin 2 => bigSep Finset.univ fun i : Fin 16 => taskRes m 0 d c i)
      = fun c : Fin 2 => bigSep Finset.univ fun i : Fin 16 => nice0 m d c i :=
    funext fun c => congrArg (bigSep Finset.univ) (funext fun i => taskRes0_nice m d c i)
  rw [h]
  unfold nice0
  simp only [bigSep_sep']

/-- What gather call 0 takes whole: the four index arrays at their stretch, the four tables, the result at anything. -/
def whole0 (d : Dev nD) : sProp 𝕄 :=
  iprop(((SparseCore.T d).loc main_v12 ↦{fullShare} (Idx.slab 0 (m ((SparseCore.T d).loc main_arg4)))) ∗ ((SparseCore.T d).loc main_v14 ↦{fullShare} (Idx.slab 0 (m ((SparseCore.T d).loc main_arg5))))
    ∗ ((SparseCore.T d).loc main_v16 ↦{fullShare} (Idx.slab 0 (m ((SparseCore.T d).loc main_arg6)))) ∗ ((SparseCore.T d).loc main_v18 ↦{fullShare} (Idx.slab 0 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v19 ↦{fullShare} f)

/-- What is left of the four tables' full shares beside the tasks' read shares. -/
def rest0 (d : Dev nD) : sProp 𝕄 :=
  iprop(tabRest (F := F) (m ((SparseCore.T d).loc main_arg0)) ∗ tabRest (F := F) (m ((SparseCore.T d).loc main_arg1)) ∗ tabRest (F := F) (m ((SparseCore.T d).loc main_arg2)) ∗ tabRest (F := F) (m ((SparseCore.T d).loc main_arg3)))

/-- THE DEAL: the call's arrays whole are the tables' remainders and every task's holdings. -/
theorem deal0_split (d : Dev nD) :
    whole0 m d ⊢ iprop(rest0 m d ∗ bigSep Finset.univ fun c : Fin 2 => bigSep Finset.univ fun i : Fin 16 => taskRes m 0 d c i) := by
  rw [tasks0_eq]
  unfold whole0 rest0
  rw [rows_main_v12 d, rows_main_v14 d, rows_main_v16 d, rows_main_v18 d]
  iintro ⟨H12, H14, H16, H18, Hx0, Hx1, Hx2, Hx3, Ho⟩
  ihave Hx0 := (tab_split (m ((SparseCore.T d).loc main_arg0))) $$ Hx0
  ihave Hx1 := (tab_split (m ((SparseCore.T d).loc main_arg1))) $$ Hx1
  ihave Hx2 := (tab_split (m ((SparseCore.T d).loc main_arg2))) $$ Hx2
  ihave Hx3 := (tab_split (m ((SparseCore.T d).loc main_arg3))) $$ Hx3
  ihave Ho := (blocks_split_main_v19 d) $$ Ho
  icases Hx0 with ⟨Hr0, Hq0⟩
  icases Hx1 with ⟨Hr1, Hq1⟩
  icases Hx2 with ⟨Hr2, Hq2⟩
  icases Hx3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Ho

/-- …and back, the result at whatever the tasks left. -/
theorem deal0_join (d : Dev nD) :
    iprop(rest0 m d ∗ bigSep Finset.univ fun c : Fin 2 => bigSep Finset.univ fun i : Fin 16 => taskRes m 0 d c i) ⊢ whole0 m d := by
  rw [tasks0_eq]
  unfold whole0 rest0
  rw [rows_main_v12 d, rows_main_v14 d, rows_main_v16 d, rows_main_v18 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v19 d); iexact Ho

end Cert.KernelIdeal.Sc

end
-- ==== Proof.ScCall0.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.ScLaunch
import proofs.«215994_g5102421148354_cont_8to1c4_853_29_alg».proof.Proof.MainCut
import proofs.«215994_g5102421148354_cont_8to1c4_853_29_alg».proof.Proof.ScDeal0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 0 works on: its four index arrays, the four tables, its result. -/
abbrev l9_0 : List (DevRef τ sig) := [dr main_v12, dr main_v14, dr main_v16, dr main_v18, dr main_arg0, dr main_arg1, dr main_arg2, dr main_arg3, dr main_v19]
theorem l9_0_sub : (l9_0).toFinset ⊆ Pipeline.ucRefs τ sig := by decide
theorem l9_0_nodup : (l9_0).Nodup := by decide

theorem held9_0 (d : Dev nD) (W : Valuation τ sig (Elt F)) :
    (held (d.tc : Thread nD τ) (l9_0).toFinset W : sProp 𝕄)
      = iprop((((d, dr main_v12) : Loc nD τ sig) ↦{fullShare} W (dr main_v12)) ∗ (((d, dr main_v14) : Loc nD τ sig) ↦{fullShare} W (dr main_v14))
          ∗ (((d, dr main_v16) : Loc nD τ sig) ↦{fullShare} W (dr main_v16)) ∗ (((d, dr main_v18) : Loc nD τ sig) ↦{fullShare} W (dr main_v18))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v19) : Loc nD τ sig) ↦{fullShare} W (dr main_v19))) := by
  unfold held
  rw [bigSep_eq_bigSepL _ l9_0_nodup]
  rfl

/-- A SparseCore's share of call 0, over the two SparseCores: the thirty-two tasks'. -/
theorem st0_eq (d : Dev nD) :
    (bigSep Finset.univ fun c : Fin ((K (F := F)).nCore 0) => (P m).st 0 d c)
      = bigSep Finset.univ fun c : Fin 2 => bigSep Finset.univ fun i : Fin 16 => taskRes m 0 d c i :=
  bigSep_congr fun c _ =>
    show (bigSep Finset.univ fun i : Fin 16 => taskRes m 0 d (Fin.cast (nCore_eq 0) c) i) = bigSep Finset.univ fun i : Fin 16 => taskRes m 0 d c i from
      bigSep_congr fun i _ => congrArg (fun c' => taskRes m 0 d c' i) (Fin.ext rfl)

theorem dn0_eq (d : Dev nD) :
    (bigSep Finset.univ fun c : Fin ((K (F := F)).nCore 0) => (P m).dn 0 d c)
      = bigSep Finset.univ fun c : Fin 2 => bigSep Finset.univ fun i : Fin 16 => taskRes m 0 d c i :=
  bigSep_congr fun c _ =>
    show (bigSep Finset.univ fun i : Fin 16 => taskRes m 0 d (Fin.cast (nCore_eq 0) c) i) = bigSep Finset.univ fun i : Fin 16 => taskRes m 0 d c i from
      bigSep_congr fun i _ => congrArg (fun c' => taskRes m 0 d c' i) (Fin.ext rfl)

set_option maxHeartbeats 4000000 in
theorem call_step0 (κ : GSem nD τ sig → ℕ) (d : Dev nD) (W : Valuation τ sig (Elt F))
    (h12 : W (dr main_v12) = Idx.slab 0 (m ((SparseCore.T d).loc main_arg4))) (h14 : W (dr main_v14) = Idx.slab 0 (m ((SparseCore.T d).loc main_arg5)))
    (h16 : W (dr main_v16) = Idx.slab 0 (m ((SparseCore.T d).loc main_arg6))) (h18 : W (dr main_v18) = Idx.slab 0 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 0 ∗ held (d.tc : Thread nD τ) (Pipeline.ucRefs τ sig) W
        ∗ (∀ f : Buf (Elt F) ((SparseCore.T d).loc main_v19),
            iprop((K (F := F)).tcSt EH d 1 ∗ held (d.tc : Thread nD τ) (Pipeline.ucRefs τ sig) (Function.update W (dr main_v19) f)) -∗ Φ ⟨⟩))
      ⊢ wp frame (wpE ((K (F := F)).defs (D (F := F))) 𝒱 (SparseCore.T d) none) Set.univ ((K (F := F)).run d 0) Φ := by
  rw [held_sub_split (c := (d.tc : Thread nD τ)) l9_0_sub W, held9_0, h12, h14, h16, h18, ha0, ha1, ha2, ha3]
  iintro ⟨#Hctx, Hst, ⟨⟨H12, H14, H16, H18, A0, A1, A2, A3, O19⟩, Hrest⟩, Hk⟩
  ihave Hw := (deal0_split m d) $$ [H12 H14 H16 H18 A0 A1 A2 A3 O19]
  · unfold whole0
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 0) $$ [Hst Htasks Hr0 Hrest Hk]
  isplitr; · iexact Hctx
  isplitl [Hst]; · iexact Hst
  isplitl [Htasks]; · rw [st0_eq]; iexact Htasks
  iintro ⟨Hst, Hdn⟩
  ihave Hdn' := (Entails.of_eq (dn0_eq m d)) $$ Hdn
  ihave Hw2 := (deal0_join m d) $$ [Hr0 Hdn']
  · isplitl [Hr0] <;> iassumption
  unfold whole0
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_0_sub (Function.update W (dr main_v19) f), held9_0,
    Function.update_of_ne (show dr main_v12 ≠ dr main_v19 by decide), Function.update_of_ne (show dr main_v14 ≠ dr main_v19 by decide), Function.update_of_ne (show dr main_v16 ≠ dr main_v19 by decide), Function.update_of_ne (show dr main_v18 ≠ dr main_v19 by decide), Function.update_of_ne (show dr main_arg0 ≠ dr main_v19 by decide), Function.update_of_ne (show dr main_arg1 ≠ dr main_v19 by decide), Function.update_of_ne (show dr main_arg2 ≠ dr main_v19 by decide), Function.update_of_ne (show dr main_arg3 ≠ dr main_v19 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v19) f) (V' := W) (fun b hb =>
    Function.update_of_ne (fun e => (Finset.mem_sdiff.mp hb).2 (e ▸ (by decide : dr main_v19 ∈ (l9_0).toFinset))) _ _)]
  iexact Hrest

end Cert.KernelIdeal.Sc
end
-- ==== Proof.ScDeal1.lean ====
import proofs.«215994_g5102421148354_cont_8to1c4_853_29_alg».proof.Proof.ScDeal0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 1: its arrays dealt to its thirty-two tasks, and back

The same deal as call 0's over this call's index stretches, result array and offset functions. -/

local instance sepPM_comm1 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc1 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 1 names. -/
def widL1 (L : grid1.Coords) : Fin 32 := ⟨2 * (L 1).val + (L 0).val, by
  have h0 : (L 0).val < 2 := (L 0).isLt
  have h1 : (L 1).val < 16 := (L 1).isLt
  omega⟩

theorem irowK1_eq (L : grid1.Coords) :
    Rect.unit (s := S32x7x112) (k1_off1 L) S1x7x112.size (k1_off1_inb L) = irow (widL1 L) := by
  unfold irow Rect.part Rect.block
  congr 1 <;> funext a
  · rw [k1_off1_eq]
    match a with
    | 0 => simp [Shape.partIx, Shape.partSize, widL1]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v21 (f : Buf (Elt F) ((SparseCore.T d).loc main_v21)) :
    ((SparseCore.T d).loc main_v21 ↦{fullShare} f : sProp 𝕄)
      = bigSep Finset.univ fun c : Fin 2 => bigSep Finset.univ fun i : Fin 16 => (SparseCore.T d).loc main_v21 ↦[iRowSet (widEquiv (c, i))]{fullShare} f := by
  rw [← bigSep_tasks32 (fun w : Fin 32 => ((SparseCore.T d).loc main_v21 ↦[iRowSet w]{fullShare} f : sProp 𝕄)),
    ← pointsTo_biUnion Finset.univ (ℓ := (SparseCore.T d).loc main_v21) iRowSet irows_disjoint, irows_cover]; try rfl
theorem rows_main_v23 (f : Buf (Elt F) ((SparseCore.T d).loc main_v23)) :
    ((SparseCore.T d).loc main_v23 ↦{fullShare} f : sProp 𝕄)
      = bigSep Finset.univ fun c : Fin 2 => bigSep Finset.univ fun i : Fin 16 => (SparseCore.T d).loc main_v23 ↦[iRowSet (widEquiv (c, i))]{fullShare} f := by
  rw [← bigSep_tasks32 (fun w : Fin 32 => ((SparseCore.T d).loc main_v23 ↦[iRowSet w]{fullShare} f : sProp 𝕄)),
    ← pointsTo_biUnion Finset.univ (ℓ := (SparseCore.T d).loc main_v23) iRowSet irows_disjoint, irows_cover]; try rfl
theorem rows_main_v25 (f : Buf (Elt F) ((SparseCore.T d).loc main_v25)) :
    ((SparseCore.T d).loc main_v25 ↦{fullShare} f : sProp 𝕄)
      = bigSep Finset.univ fun c : Fin 2 => bigSep Finset.univ fun i : Fin 16 => (SparseCore.T d).loc main_v25 ↦[iRowSet (widEquiv (c, i))]{fullShare} f := by
  rw [← bigSep_tasks32 (fun w : Fin 32 => ((SparseCore.T d).loc main_v25 ↦[iRowSet w]{fullShare} f : sProp 𝕄)),
    ← pointsTo_biUnion Finset.univ (ℓ := (SparseCore.T d).loc main_v25) iRowSet irows_disjoint, irows_cover]; try rfl
theorem rows_main_v27 (f : Buf (Elt F) ((SparseCore.T d).loc main_v27)) :
    ((SparseCore.T d).loc main_v27 ↦{fullShare} f : sProp 𝕄)
      = bigSep Finset.univ fun c : Fin 2 => bigSep Finset.univ fun i : Fin 16 => (SparseCore.T d).loc main_v27 ↦[iRowSet (widEquiv (c, i))]{fullShare} f := by
  rw [← bigSep_tasks32 (fun w : Fin 32 => ((SparseCore.T d).loc main_v27 ↦[iRowSet w]{fullShare} f : sProp 𝕄)),
    ← pointsTo_biUnion Finset.univ (ℓ := (SparseCore.T d).loc main_v27) iRowSet irows_disjoint, irows_cover]; try rfl

theorem blocks_main_v28 (f : Buf (Elt F) ((SparseCore.T d).loc main_v28)) :
    ((SparseCore.T d).loc main_v28 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v28 ↦[oBlockSet (e224 (widEquiv (c, i), r), t)]{fullShare} f := by
  rw [← bigSep_blocks (fun p : Fin 224 × Fin 4 => ((SparseCore.T d).loc main_v28 ↦[oBlockSet p]{fullShare} f : sProp 𝕄)),
    ← pointsTo_biUnion Finset.univ (ℓ := (SparseCore.T d).loc main_v28) oBlockSet oBlocks_disjoint, oBlocks_cover]; try rfl

theorem blocks_split_main_v28 :
    (iprop(∃ f, (SparseCore.T d).loc main_v28 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v28 ↦[oBlockSet (e224 (widEquiv (c, i), r), t)]{fullShare} fo) := by
  refine exists_elim fun f => ?_
  rw [blocks_main_v28 d f]
  exact bigSep_mono fun c _ => bigSep_mono fun i _ => bigSep_mono fun r _ => bigSep_mono fun t _ =>
    (show ((SparseCore.T d).loc main_v28 ↦[oBlockSet (e224 (widEquiv (c, i), r), t)]{fullShare} f : sProp 𝕄)
      ⊢ iprop(∃ fo, (SparseCore.T d).loc main_v28 ↦[oBlockSet (e224 (widEquiv (c, i), r), t)]{fullShare} fo) from by
        iintro H; iexists f; iexact H)

set_option maxRecDepth 4096 in
theorem blocks_join_main_v28 :
    (bigSep Finset.univ fun c : Fin 2 => bigSep Finset.univ fun i : Fin 16 => bigSep Finset.univ fun r : Fin 7 =>
        bigSep Finset.univ fun t : Fin 4 => iprop(∃ fo, (SparseCore.T d).loc main_v28 ↦[oBlockSet (e224 (widEquiv (c, i), r), t)]{fullShare} fo))
      ⊢ (iprop(∃ f, (SparseCore.T d).loc main_v28 ↦{fullShare} f) : sProp 𝕄) := by
  rw [← bigSep_blocks (fun p : Fin 224 × Fin 4 => (iprop(∃ fo, (SparseCore.T d).loc main_v28 ↦[oBlockSet p]{fullShare} fo) : sProp 𝕄))]
  refine (bigSep_exists_pi Finset.univ (fun p (fo : Buf (Elt F) ((SparseCore.T d).loc main_v28)) => ((SparseCore.T d).loc main_v28 ↦[oBlockSet p]{fullShare} fo : sProp 𝕄))).trans ?_
  iintro ⟨%fs, H⟩
  have : Nonempty (Buf (Elt F) ((SparseCore.T d).loc main_v28)) := ⟨fs (0, 0)⟩
  ihave H' := (pointsTo_biUnion_join (ℓ := (SparseCore.T d).loc main_v28) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid1.Coords)

theorem iRowSet_eq_main_v21 (w : Fin 32) :
    ((Memref.whole main_v21_scv : Memref sig .scVector .hbm S32x7x112 .i32).view.slice (irow w)).set = iRowSet w := by
  show ((View.whole (main_v21_scv : Ref sig .scVector)).slice (irow w)).set = _
  rw [View.set_slice]; exact Finset.map_refl
theorem set_rowK_main_v21 : (((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v21 (widL1 L))
  show (((Memref.whole main_v21_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v21_scv : Memref sig .scVector .hbm S32x7x112 .i32).view.slice (irow (widL1 L))).set
  rw [View.set_reshape]
  exact irowK1_eq L ▸ rfl
theorem iRowSet_eq_main_v23 (w : Fin 32) :
    ((Memref.whole main_v23_scv : Memref sig .scVector .hbm S32x7x112 .i32).view.slice (irow w)).set = iRowSet w := by
  show ((View.whole (main_v23_scv : Ref sig .scVector)).slice (irow w)).set = _
  rw [View.set_slice]; exact Finset.map_refl
theorem set_rowK_main_v23 : (((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v23 (widL1 L))
  show (((Memref.whole main_v23_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v23_scv : Memref sig .scVector .hbm S32x7x112 .i32).view.slice (irow (widL1 L))).set
  rw [View.set_reshape]
  exact irowK1_eq L ▸ rfl
theorem iRowSet_eq_main_v25 (w : Fin 32) :
    ((Memref.whole main_v25_scv : Memref sig .scVector .hbm S32x7x112 .i32).view.slice (irow w)).set = iRowSet w := by
  show ((View.whole (main_v25_scv : Ref sig .scVector)).slice (irow w)).set = _
  rw [View.set_slice]; exact Finset.map_refl
theorem set_rowK_main_v25 : (((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v25 (widL1 L))
  show (((Memref.whole main_v25_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v25_scv : Memref sig .scVector .hbm S32x7x112 .i32).view.slice (irow (widL1 L))).set
  rw [View.set_reshape]
  exact irowK1_eq L ▸ rfl
theorem iRowSet_eq_main_v27 (w : Fin 32) :
    ((Memref.whole main_v27_scv : Memref sig .scVector .hbm S32x7x112 .i32).view.slice (irow w)).set = iRowSet w := by
  show ((View.whole (main_v27_scv : Ref sig .scVector)).slice (irow w)).set = _
  rw [View.set_slice]; exact Finset.map_refl
theorem set_rowK_main_v27 : (((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v27 (widL1 L))
  show (((Memref.whole main_v27_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v27_scv : Memref sig .scVector .hbm S32x7x112 .i32).view.slice (irow (widL1 L))).set
  rw [View.set_reshape]
  exact irowK1_eq L ▸ rfl

theorem orect1_2_eq (r : Fin 7) :
    Rect.unit (s := S25088x512) (k1_off2 L (BitVec.ofNat 32 (112 * r.val))) S112x128.size (k1_off2_inb L r)
      = oBlock (e224 (widL1 L, r), 0) := by
  unfold oBlock Rect.block
  congr 1 <;> funext a
  · rw [k1_off2_eq]
    match a with
    | 0 =>
      show 1568 * (L 1).val + 784 * (L 0).val + 112 * r.val = (7 * (2 * (L 1).val + (L 0).val) + r.val) * 112
      omega
    | 1 => rfl
theorem set_piece1_2 (r : Fin 7) : ((Memref.whole main_v28_scv : Memref sig .scVector .hbm S25088x512 .f32).slice (Rect.unit (s := S25088x512) (k1_off2 L (BitVec.ofNat 32 (112 * r.val))) S112x128.size (k1_off2_inb L r)) (fun _ => rfl)).view.set = oBlockSet (e224 (widL1 L, r), 0) := by
  show ((View.whole (main_v28_scv : Ref sig .scVector)).slice
    (Rect.unit (s := S25088x512) (k1_off2 L (BitVec.ofNat 32 (112 * r.val))) S112x128.size (k1_off2_inb L r))).set = _
  rw [View.set_slice, orect1_2_eq L r]; exact Finset.map_refl
theorem orect1_3_eq (r : Fin 7) :
    Rect.unit (s := S25088x512) (k1_off3 L (BitVec.ofNat 32 (112 * r.val))) S112x128.size (k1_off3_inb L r)
      = oBlock (e224 (widL1 L, r), 1) := by
  unfold oBlock Rect.block
  congr 1 <;> funext a
  · rw [k1_off3_eq]
    match a with
    | 0 =>
      show 1568 * (L 1).val + 784 * (L 0).val + 112 * r.val = (7 * (2 * (L 1).val + (L 0).val) + r.val) * 112
      omega
    | 1 => rfl
theorem set_piece1_3 (r : Fin 7) : ((Memref.whole main_v28_scv : Memref sig .scVector .hbm S25088x512 .f32).slice (Rect.unit (s := S25088x512) (k1_off3 L (BitVec.ofNat 32 (112 * r.val))) S112x128.size (k1_off3_inb L r)) (fun _ => rfl)).view.set = oBlockSet (e224 (widL1 L, r), 1) := by
  show ((View.whole (main_v28_scv : Ref sig .scVector)).slice
    (Rect.unit (s := S25088x512) (k1_off3 L (BitVec.ofNat 32 (112 * r.val))) S112x128.size (k1_off3_inb L r))).set = _
  rw [View.set_slice, orect1_3_eq L r]; exact Finset.map_refl
theorem orect1_4_eq (r : Fin 7) :
    Rect.unit (s := S25088x512) (k1_off4 L (BitVec.ofNat 32 (112 * r.val))) S112x128.size (k1_off4_inb L r)
      = oBlock (e224 (widL1 L, r), 2) := by
  unfold oBlock Rect.block
  congr 1 <;> funext a
  · rw [k1_off4_eq]
    match a with
    | 0 =>
      show 1568 * (L 1).val + 784 * (L 0).val + 112 * r.val = (7 * (2 * (L 1).val + (L 0).val) + r.val) * 112
      omega
    | 1 => rfl
theorem set_piece1_4 (r : Fin 7) : ((Memref.whole main_v28_scv : Memref sig .scVector .hbm S25088x512 .f32).slice (Rect.unit (s := S25088x512) (k1_off4 L (BitVec.ofNat 32 (112 * r.val))) S112x128.size (k1_off4_inb L r)) (fun _ => rfl)).view.set = oBlockSet (e224 (widL1 L, r), 2) := by
  show ((View.whole (main_v28_scv : Ref sig .scVector)).slice
    (Rect.unit (s := S25088x512) (k1_off4 L (BitVec.ofNat 32 (112 * r.val))) S112x128.size (k1_off4_inb L r))).set = _
  rw [View.set_slice, orect1_4_eq L r]; exact Finset.map_refl
theorem orect1_5_eq (r : Fin 7) :
    Rect.unit (s := S25088x512) (k1_off5 L (BitVec.ofNat 32 (112 * r.val))) S112x128.size (k1_off5_inb L r)
      = oBlock (e224 (widL1 L, r), 3) := by
  unfold oBlock Rect.block
  congr 1 <;> funext a
  · rw [k1_off5_eq]
    match a with
    | 0 =>
      show 1568 * (L 1).val + 784 * (L 0).val + 112 * r.val = (7 * (2 * (L 1).val + (L 0).val) + r.val) * 112
      omega
    | 1 => rfl
theorem set_piece1_5 (r : Fin 7) : ((Memref.whole main_v28_scv : Memref sig .scVector .hbm S25088x512 .f32).slice (Rect.unit (s := S25088x512) (k1_off5 L (BitVec.ofNat 32 (112 * r.val))) S112x128.size (k1_off5_inb L r)) (fun _ => rfl)).view.set = oBlockSet (e224 (widL1 L, r), 3) := by
  show ((View.whole (main_v28_scv : Ref sig .scVector)).slice
    (Rect.unit (s := S25088x512) (k1_off5 L (BitVec.ofNat 32 (112 * r.val))) S112x128.size (k1_off5_inb L r))).set = _
  rw [View.set_slice, orect1_5_eq L r]; exact Finset.map_refl

end Spelling

section Atoms
variable (d : Dev nD) (L : grid1.Coords) (c : Fin τ.nSC) (i : Fin τ.nSub)

theorem pts_rowK_main_v21 (f : Buf (Elt F) ((SparseCore.T d).loc main_v21)) :
    ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v21 ↦[iRowSet (widL1 L)]{fullShare} f) := by
  rw [set_rowK_main_v21]
theorem pts_rowK_main_v23 (f : Buf (Elt F) ((SparseCore.T d).loc main_v23)) :
    ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v23 ↦[iRowSet (widL1 L)]{fullShare} f) := by
  rw [set_rowK_main_v23]
theorem pts_rowK_main_v25 (f : Buf (Elt F) ((SparseCore.T d).loc main_v25)) :
    ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v25 ↦[iRowSet (widL1 L)]{fullShare} f) := by
  rw [set_rowK_main_v25]
theorem pts_rowK_main_v27 (f : Buf (Elt F) ((SparseCore.T d).loc main_v27)) :
    ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v27 ↦[iRowSet (widL1 L)]{fullShare} f) := by
  rw [set_rowK_main_v27]
theorem owned_piece1_2 (r : Fin 7) :
    ownedAny (F := F) (((Memref.whole main_v28_scv : Memref sig .scVector .hbm S25088x512 .f32).slice (Rect.unit (s := S25088x512) (k1_off2 L (BitVec.ofNat 32 (112 * r.val))) S112x128.size (k1_off2_inb L r)) (fun _ => rfl)).view.loc (V d c i)) ((Memref.whole main_v28_scv : Memref sig .scVector .hbm S25088x512 .f32).slice (Rect.unit (s := S25088x512) (k1_off2 L (BitVec.ofNat 32 (112 * r.val))) S112x128.size (k1_off2_inb L r)) (fun _ => rfl)).view.set
      = ownedAny (F := F) ((SparseCore.T d).loc main_v28) (oBlockSet (e224 (widL1 L, r), 0)) := by
  rw [set_piece1_2]
theorem owned_piece1_3 (r : Fin 7) :
    ownedAny (F := F) (((Memref.whole main_v28_scv : Memref sig .scVector .hbm S25088x512 .f32).slice (Rect.unit (s := S25088x512) (k1_off3 L (BitVec.ofNat 32 (112 * r.val))) S112x128.size (k1_off3_inb L r)) (fun _ => rfl)).view.loc (V d c i)) ((Memref.whole main_v28_scv : Memref sig .scVector .hbm S25088x512 .f32).slice (Rect.unit (s := S25088x512) (k1_off3 L (BitVec.ofNat 32 (112 * r.val))) S112x128.size (k1_off3_inb L r)) (fun _ => rfl)).view.set
      = ownedAny (F := F) ((SparseCore.T d).loc main_v28) (oBlockSet (e224 (widL1 L, r), 1)) := by
  rw [set_piece1_3]
theorem owned_piece1_4 (r : Fin 7) :
    ownedAny (F := F) (((Memref.whole main_v28_scv : Memref sig .scVector .hbm S25088x512 .f32).slice (Rect.unit (s := S25088x512) (k1_off4 L (BitVec.ofNat 32 (112 * r.val))) S112x128.size (k1_off4_inb L r)) (fun _ => rfl)).view.loc (V d c i)) ((Memref.whole main_v28_scv : Memref sig .scVector .hbm S25088x512 .f32).slice (Rect.unit (s := S25088x512) (k1_off4 L (BitVec.ofNat 32 (112 * r.val))) S112x128.size (k1_off4_inb L r)) (fun _ => rfl)).view.set
      = ownedAny (F := F) ((SparseCore.T d).loc main_v28) (oBlockSet (e224 (widL1 L, r), 2)) := by
  rw [set_piece1_4]
theorem owned_piece1_5 (r : Fin 7) :
    ownedAny (F := F) (((Memref.whole main_v28_scv : Memref sig .scVector .hbm S25088x512 .f32).slice (Rect.unit (s := S25088x512) (k1_off5 L (BitVec.ofNat 32 (112 * r.val))) S112x128.size (k1_off5_inb L r)) (fun _ => rfl)).view.loc (V d c i)) ((Memref.whole main_v28_scv : Memref sig .scVector .hbm S25088x512 .f32).slice (Rect.unit (s := S25088x512) (k1_off5 L (BitVec.ofNat 32 (112 * r.val))) S112x128.size (k1_off5_inb L r)) (fun _ => rfl)).view.set
      = ownedAny (F := F) ((SparseCore.T d).loc main_v28) (oBlockSet (e224 (widL1 L, r), 3)) := by
  rw [set_piece1_5]

end Atoms

/-- A task's forty holdings in the deal's terms, in the order the task lists them. -/
def chain1 (d : Dev nD) (w : Fin 32) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v21 ↦[iRowSet w]{fullShare} fi0)
    ∗ ((SparseCore.T d).loc main_v23 ↦[iRowSet w]{fullShare} fi1)
    ∗ ((SparseCore.T d).loc main_v25 ↦[iRowSet w]{fullShare} fi2)
    ∗ ((SparseCore.T d).loc main_v27 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v28) (oBlockSet (e224 (w, 0), 0))
    ∗ ownedAny (F := F) ((SparseCore.T d).loc main_v28) (oBlockSet (e224 (w, 1), 0))
    ∗ ownedAny (F := F) ((SparseCore.T d).loc main_v28) (oBlockSet (e224 (w, 2), 0))
    ∗ ownedAny (F := F) ((SparseCore.T d).loc main_v28) (oBlockSet (e224 (w, 3), 0))
    ∗ ownedAny (F := F) ((SparseCore.T d).loc main_v28) (oBlockSet (e224 (w, 4), 0))
    ∗ ownedAny (F := F) ((SparseCore.T d).loc main_v28) (oBlockSet (e224 (w, 5), 0))
    ∗ ownedAny (F := F) ((SparseCore.T d).loc main_v28) (oBlockSet (e224 (w, 6), 0))
    ∗ ownedAny (F := F) ((SparseCore.T d).loc main_v28) (oBlockSet (e224 (w, 0), 1))
    ∗ ownedAny (F := F) ((SparseCore.T d).loc main_v28) (oBlockSet (e224 (w, 1), 1))
    ∗ ownedAny (F := F) ((SparseCore.T d).loc main_v28) (oBlockSet (e224 (w, 2), 1))
    ∗ ownedAny (F := F) ((SparseCore.T d).loc main_v28) (oBlockSet (e224 (w, 3), 1))
    ∗ ownedAny (F := F) ((SparseCore.T d).loc main_v28) (oBlockSet (e224 (w, 4), 1))
    ∗ ownedAny (F := F) ((SparseCore.T d).loc main_v28) (oBlockSet (e224 (w, 5), 1))
    ∗ ownedAny (F := F) ((SparseCore.T d).loc main_v28) (oBlockSet (e224 (w, 6), 1))
    ∗ ownedAny (F := F) ((SparseCore.T d).loc main_v28) (oBlockSet (e224 (w, 0), 2))
    ∗ ownedAny (F := F) ((SparseCore.T d).loc main_v28) (oBlockSet (e224 (w, 1), 2))
    ∗ ownedAny (F := F) ((SparseCore.T d).loc main_v28) (oBlockSet (e224 (w, 2), 2))
    ∗ ownedAny (F := F) ((SparseCore.T d).loc main_v28) (oBlockSet (e224 (w, 3), 2))
    ∗ ownedAny (F := F) ((SparseCore.T d).loc main_v28) (oBlockSet (e224 (w, 4), 2))
    ∗ ownedAny (F := F) ((SparseCore.T d).loc main_v28) (oBlockSet (e224 (w, 5), 2))
    ∗ ownedAny (F := F) ((SparseCore.T d).loc main_v28) (oBlockSet (e224 (w, 6), 2))
    ∗ ownedAny (F := F) ((SparseCore.T d).loc main_v28) (oBlockSet (e224 (w, 0), 3))
    ∗ ownedAny (F := F) ((SparseCore.T d).loc main_v28) (oBlockSet (e224 (w, 1), 3))
    ∗ ownedAny (F := F) ((SparseCore.T d).loc main_v28) (oBlockSet (e224 (w, 2), 3))
    ∗ ownedAny (F := F) ((SparseCore.T d).loc main_v28) (oBlockSet (e224 (w, 3), 3))
    ∗ ownedAny (F := F) ((SparseCore.T d).loc main_v28) (oBlockSet (e224 (w, 4), 3))
    ∗ ownedAny (F := F) ((SparseCore.T d).loc main_v28) (oBlockSet (e224 (w, 5), 3))
    ∗ ownedAny (F := F) ((SparseCore.T d).loc main_v28) (oBlockSet (e224 (w, 6), 3)))

theorem widL_coordsV1 (c : Fin 2) (i : Fin 16) : widL1 (coordsV1 c i) = widEquiv (c, i) := Fin.ext rfl

set_option maxRecDepth 8192 in
set_option maxHeartbeats 1000000 in
theorem tileRes1_chain (d : Dev nD) (c : Fin 2) (i : Fin 16) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes1 d (coordsV1 c i) qx fi0 fi1 fi2 fi3 fx0 fx1 fx2 fx3 = chain1 d (widL1 (coordsV1 c i)) qx fi0 fi1 fi2 fi3 fx0 fx1 fx2 fx3 := by
  unfold tileRes1 chain1
  exact (sepCongr (pts_rowK_main_v21 d (coordsV1 c i) _ _ _) (sepCongr (pts_rowK_main_v23 d (coordsV1 c i) _ _ _) (sepCongr (pts_rowK_main_v25 d (coordsV1 c i) _ _ _) (sepCongr (pts_rowK_main_v27 d (coordsV1 c i) _ _ _) (sepCongr rfl (sepCongr rfl (sepCongr rfl (sepCongr rfl (sepCongr rfl (sepCongr rfl (sepCongr rfl (sepCongr rfl (sepCongr (owned_piece1_2 d (coordsV1 c i) _ _ 0) (sepCongr (owned_piece1_2 d (coordsV1 c i) _ _ 1) (sepCongr (owned_piece1_2 d (coordsV1 c i) _ _ 2) (sepCongr (owned_piece1_2 d (coordsV1 c i) _ _ 3) (sepCongr (owned_piece1_2 d (coordsV1 c i) _ _ 4) (sepCongr (owned_piece1_2 d (coordsV1 c i) _ _ 5) (sepCongr (owned_piece1_2 d (coordsV1 c i) _ _ 6) (sepCongr (owned_piece1_3 d (coordsV1 c i) _ _ 0) (sepCongr (owned_piece1_3 d (coordsV1 c i) _ _ 1) (sepCongr (owned_piece1_3 d (coordsV1 c i) _ _ 2) (sepCongr (owned_piece1_3 d (coordsV1 c i) _ _ 3) (sepCongr (owned_piece1_3 d (coordsV1 c i) _ _ 4) (sepCongr (owned_piece1_3 d (coordsV1 c i) _ _ 5) (sepCongr (owned_piece1_3 d (coordsV1 c i) _ _ 6) (sepCongr (owned_piece1_4 d (coordsV1 c i) _ _ 0) (sepCongr (owned_piece1_4 d (coordsV1 c i) _ _ 1) (sepCongr (owned_piece1_4 d (coordsV1 c i) _ _ 2) (sepCongr (owned_piece1_4 d (coordsV1 c i) _ _ 3) (sepCongr (owned_piece1_4 d (coordsV1 c i) _ _ 4) (sepCongr (owned_piece1_4 d (coordsV1 c i) _ _ 5) (sepCongr (owned_piece1_4 d (coordsV1 c i) _ _ 6) (sepCongr (owned_piece1_5 d (coordsV1 c i) _ _ 0) (sepCongr (owned_piece1_5 d (coordsV1 c i) _ _ 1) (sepCongr (owned_piece1_5 d (coordsV1 c i) _ _ 2) (sepCongr (owned_piece1_5 d (coordsV1 c i) _ _ 3) (sepCongr (owned_piece1_5 d (coordsV1 c i) _ _ 4) (sepCongr (owned_piece1_5 d (coordsV1 c i) _ _ 5) (owned_piece1_5 d (coordsV1 c i) _ _ 6))))))))))))))))))))))))))))))))))))))))

variable (m : (ℓ : Loc nD τ sig) → Buf (Elt F) ℓ)

/-- What task `(c, i)` of gather call 1 holds, regrouped. -/
def nice1 (d : Dev nD) (c : Fin 2) (i : Fin 16) : sProp 𝕄 :=
  iprop(
      ((SparseCore.T d).loc main_v21 ↦[iRowSet (widEquiv (c, i))]{fullShare} (Idx.slab 1 (m ((SparseCore.T d).loc main_arg4))))
    ∗ ((SparseCore.T d).loc main_v23 ↦[iRowSet (widEquiv (c, i))]{fullShare} (Idx.slab 1 (m ((SparseCore.T d).loc main_arg5))))
    ∗ ((SparseCore.T d).loc main_v25 ↦[iRowSet (widEquiv (c, i))]{fullShare} (Idx.slab 1 (m ((SparseCore.T d).loc main_arg6))))
    ∗ ((SparseCore.T d).loc main_v27 ↦[iRowSet (widEquiv (c, i))]{fullShare} (Idx.slab 1 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v28 ↦[oBlockSet (e224 (widEquiv (c, i), r), t)]{fullShare} fo))

set_option maxRecDepth 8192 in
set_option maxHeartbeats 1000000 in
theorem chain1_nice (d : Dev nD) (c : Fin 2) (i : Fin 16) :
    chain1 d (widEquiv (c, i)) (qTask c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) = nice1 m d c i := by
  unfold chain1 nice1 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes1_nice (d : Dev nD) (c : Fin 2) (i : Fin 16) : taskRes m 1 d c i = nice1 m d c i := by
  show tileRes1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) = _
  rw [tileRes1_chain, widL_coordsV1]
  exact chain1_nice m d c i

theorem tasks1_eq (d : Dev nD) :
    (bigSep Finset.univ fun c : Fin 2 => bigSep Finset.univ fun i : Fin 16 => taskRes m 1 d c i)
      = iprop((bigSep Finset.univ fun c : Fin 2 => bigSep Finset.univ fun i : Fin 16 => ((SparseCore.T d).loc main_v21 ↦[iRowSet (widEquiv (c, i))]{fullShare} (Idx.slab 1 (m ((SparseCore.T d).loc main_arg4)))))
        ∗ (bigSep Finset.univ fun c : Fin 2 => bigSep Finset.univ fun i : Fin 16 => ((SparseCore.T d).loc main_v23 ↦[iRowSet (widEquiv (c, i))]{fullShare} (Idx.slab 1 (m ((SparseCore.T d).loc main_arg5)))))
        ∗ (bigSep Finset.univ fun c : Fin 2 => bigSep Finset.univ fun i : Fin 16 => ((SparseCore.T d).loc main_v25 ↦[iRowSet (widEquiv (c, i))]{fullShare} (Idx.slab 1 (m ((SparseCore.T d).loc main_arg6)))))
        ∗ (bigSep Finset.univ fun c : Fin 2 => bigSep Finset.univ fun i : Fin 16 => ((SparseCore.T d).loc main_v27 ↦[iRowSet (widEquiv (c, i))]{fullShare} (Idx.slab 1 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v28 ↦[oBlockSet (e224 (widEquiv (c, i), r), t)]{fullShare} fo))) := by
  have h : (fun c : Fin 2 => bigSep Finset.univ fun i : Fin 16 => taskRes m 1 d c i)
      = fun c : Fin 2 => bigSep Finset.univ fun i : Fin 16 => nice1 m d c i :=
    funext fun c => congrArg (bigSep Finset.univ) (funext fun i => taskRes1_nice m d c i)
  rw [h]
  unfold nice1
  simp only [bigSep_sep']

/-- What gather call 1 takes whole. -/
def whole1 (d : Dev nD) : sProp 𝕄 :=
  iprop(((SparseCore.T d).loc main_v21 ↦{fullShare} (Idx.slab 1 (m ((SparseCore.T d).loc main_arg4)))) ∗ ((SparseCore.T d).loc main_v23 ↦{fullShare} (Idx.slab 1 (m ((SparseCore.T d).loc main_arg5))))
    ∗ ((SparseCore.T d).loc main_v25 ↦{fullShare} (Idx.slab 1 (m ((SparseCore.T d).loc main_arg6)))) ∗ ((SparseCore.T d).loc main_v27 ↦{fullShare} (Idx.slab 1 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v28 ↦{fullShare} f)

/-- THE DEAL for call 1. -/
theorem deal1_split (d : Dev nD) :
    whole1 m d ⊢ iprop(rest0 m d ∗ bigSep Finset.univ fun c : Fin 2 => bigSep Finset.univ fun i : Fin 16 => taskRes m 1 d c i) := by
  rw [tasks1_eq]
  unfold whole1 rest0
  rw [rows_main_v21 d, rows_main_v23 d, rows_main_v25 d, rows_main_v27 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v28 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal1_join (d : Dev nD) :
    iprop(rest0 m d ∗ bigSep Finset.univ fun c : Fin 2 => bigSep Finset.univ fun i : Fin 16 => taskRes m 1 d c i) ⊢ whole1 m d := by
  rw [tasks1_eq]
  unfold whole1 rest0
  rw [rows_main_v21 d, rows_main_v23 d, rows_main_v25 d, rows_main_v27 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v28 d); iexact Ho

end Cert.KernelIdeal.Sc

end
-- ==== Proof.ScCall1.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.ScLaunch
import proofs.«215994_g5102421148354_cont_8to1c4_853_29_alg».proof.Proof.MainCut
import proofs.«215994_g5102421148354_cont_8to1c4_853_29_alg».proof.Proof.ScDeal1

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 1 works on: its four index arrays, the four tables, its result. -/
abbrev l9_1 : List (DevRef τ sig) := [dr main_v21, dr main_v23, dr main_v25, dr main_v27, dr main_arg0, dr main_arg1, dr main_arg2, dr main_arg3, dr main_v28]
theorem l9_1_sub : (l9_1).toFinset ⊆ Pipeline.ucRefs τ sig := by decide
theorem l9_1_nodup : (l9_1).Nodup := by decide

theorem held9_1 (d : Dev nD) (W : Valuation τ sig (Elt F)) :
    (held (d.tc : Thread nD τ) (l9_1).toFinset W : sProp 𝕄)
      = iprop((((d, dr main_v21) : Loc nD τ sig) ↦{fullShare} W (dr main_v21)) ∗ (((d, dr main_v23) : Loc nD τ sig) ↦{fullShare} W (dr main_v23))
          ∗ (((d, dr main_v25) : Loc nD τ sig) ↦{fullShare} W (dr main_v25)) ∗ (((d, dr main_v27) : Loc nD τ sig) ↦{fullShare} W (dr main_v27))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v28) : Loc nD τ sig) ↦{fullShare} W (dr main_v28))) := by
  unfold held
  rw [bigSep_eq_bigSepL _ l9_1_nodup]
  rfl

/-- A SparseCore's share of call 1, over the two SparseCores: the thirty-two tasks'. -/
theorem st1_eq (d : Dev nD) :
    (bigSep Finset.univ fun c : Fin ((K (F := F)).nCore 1) => (P m).st 1 d c)
      = bigSep Finset.univ fun c : Fin 2 => bigSep Finset.univ fun i : Fin 16 => taskRes m 1 d c i :=
  bigSep_congr fun c _ =>
    show (bigSep Finset.univ fun i : Fin 16 => taskRes m 1 d (Fin.cast (nCore_eq 1) c) i) = bigSep Finset.univ fun i : Fin 16 => taskRes m 1 d c i from
      bigSep_congr fun i _ => congrArg (fun c' => taskRes m 1 d c' i) (Fin.ext rfl)

theorem dn1_eq (d : Dev nD) :
    (bigSep Finset.univ fun c : Fin ((K (F := F)).nCore 1) => (P m).dn 1 d c)
      = bigSep Finset.univ fun c : Fin 2 => bigSep Finset.univ fun i : Fin 16 => taskRes m 1 d c i :=
  bigSep_congr fun c _ =>
    show (bigSep Finset.univ fun i : Fin 16 => taskRes m 1 d (Fin.cast (nCore_eq 1) c) i) = bigSep Finset.univ fun i : Fin 16 => taskRes m 1 d c i from
      bigSep_congr fun i _ => congrArg (fun c' => taskRes m 1 d c' i) (Fin.ext rfl)

set_option maxHeartbeats 4000000 in
theorem call_step1 (κ : GSem nD τ sig → ℕ) (d : Dev nD) (W : Valuation τ sig (Elt F))
    (h12 : W (dr main_v21) = Idx.slab 1 (m ((SparseCore.T d).loc main_arg4))) (h14 : W (dr main_v23) = Idx.slab 1 (m ((SparseCore.T d).loc main_arg5)))
    (h16 : W (dr main_v25) = Idx.slab 1 (m ((SparseCore.T d).loc main_arg6))) (h18 : W (dr main_v27) = Idx.slab 1 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 1 ∗ held (d.tc : Thread nD τ) (Pipeline.ucRefs τ sig) W
        ∗ (∀ f : Buf (Elt F) ((SparseCore.T d).loc main_v28),
            iprop((K (F := F)).tcSt EH d 2 ∗ held (d.tc : Thread nD τ) (Pipeline.ucRefs τ sig) (Function.update W (dr main_v28) f)) -∗ Φ ⟨⟩))
      ⊢ wp frame (wpE ((K (F := F)).defs (D (F := F))) 𝒱 (SparseCore.T d) none) Set.univ ((K (F := F)).run d 1) Φ := by
  rw [held_sub_split (c := (d.tc : Thread nD τ)) l9_1_sub W, held9_1, h12, h14, h16, h18, ha0, ha1, ha2, ha3]
  iintro ⟨#Hctx, Hst, ⟨⟨H12, H14, H16, H18, A0, A1, A2, A3, O19⟩, Hrest⟩, Hk⟩
  ihave Hw := (deal1_split m d) $$ [H12 H14 H16 H18 A0 A1 A2 A3 O19]
  · unfold whole1
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 1) $$ [Hst Htasks Hr0 Hrest Hk]
  isplitr; · iexact Hctx
  isplitl [Hst]; · iexact Hst
  isplitl [Htasks]; · rw [st1_eq]; iexact Htasks
  iintro ⟨Hst, Hdn⟩
  ihave Hdn' := (Entails.of_eq (dn1_eq m d)) $$ Hdn
  ihave Hw2 := (deal1_join m d) $$ [Hr0 Hdn']
  · isplitl [Hr0] <;> iassumption
  unfold whole1
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_1_sub (Function.update W (dr main_v28) f), held9_1,
    Function.update_of_ne (show dr main_v21 ≠ dr main_v28 by decide), Function.update_of_ne (show dr main_v23 ≠ dr main_v28 by decide), Function.update_of_ne (show dr main_v25 ≠ dr main_v28 by decide), Function.update_of_ne (show dr main_v27 ≠ dr main_v28 by decide), Function.update_of_ne (show dr main_arg0 ≠ dr main_v28 by decide), Function.update_of_ne (show dr main_arg1 ≠ dr main_v28 by decide), Function.update_of_ne (show dr main_arg2 ≠ dr main_v28 by decide), Function.update_of_ne (show dr main_arg3 ≠ dr main_v28 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v28) f) (V' := W) (fun b hb =>
    Function.update_of_ne (fun e => (Finset.mem_sdiff.mp hb).2 (e ▸ (by decide : dr main_v28 ∈ (l9_1).toFinset))) _ _)]
  iexact Hrest

end Cert.KernelIdeal.Sc
end
-- ==== Proof.ScDeal2.lean ====
import proofs.«215994_g5102421148354_cont_8to1c4_853_29_alg».proof.Proof.ScDeal0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 2: its arrays dealt to its thirty-two tasks, and back

The same deal as call 0's over this call's index stretches, result array and offset functions. -/

local instance sepPM_comm2 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc2 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 2 names. -/
def widL2 (L : grid2.Coords) : Fin 32 := ⟨2 * (L 1).val + (L 0).val, by
  have h0 : (L 0).val < 2 := (L 0).isLt
  have h1 : (L 1).val < 16 := (L 1).isLt
  omega⟩

theorem irowK2_eq (L : grid2.Coords) :
    Rect.unit (s := S32x7x112) (k2_off1 L) S1x7x112.size (k2_off1_inb L) = irow (widL2 L) := by
  unfold irow Rect.part Rect.block
  congr 1 <;> funext a
  · rw [k2_off1_eq]
    match a with
    | 0 => simp [Shape.partIx, Shape.partSize, widL2]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v30 (f : Buf (Elt F) ((SparseCore.T d).loc main_v30)) :
    ((SparseCore.T d).loc main_v30 ↦{fullShare} f : sProp 𝕄)
      = bigSep Finset.univ fun c : Fin 2 => bigSep Finset.univ fun i : Fin 16 => (SparseCore.T d).loc main_v30 ↦[iRowSet (widEquiv (c, i))]{fullShare} f := by
  rw [← bigSep_tasks32 (fun w : Fin 32 => ((SparseCore.T d).loc main_v30 ↦[iRowSet w]{fullShare} f : sProp 𝕄)),
    ← pointsTo_biUnion Finset.univ (ℓ := (SparseCore.T d).loc main_v30) iRowSet irows_disjoint, irows_cover]; try rfl
theorem rows_main_v32 (f : Buf (Elt F) ((SparseCore.T d).loc main_v32)) :
    ((SparseCore.T d).loc main_v32 ↦{fullShare} f : sProp 𝕄)
      = bigSep Finset.univ fun c : Fin 2 => bigSep Finset.univ fun i : Fin 16 => (SparseCore.T d).loc main_v32 ↦[iRowSet (widEquiv (c, i))]{fullShare} f := by
  rw [← bigSep_tasks32 (fun w : Fin 32 => ((SparseCore.T d).loc main_v32 ↦[iRowSet w]{fullShare} f : sProp 𝕄)),
    ← pointsTo_biUnion Finset.univ (ℓ := (SparseCore.T d).loc main_v32) iRowSet irows_disjoint, irows_cover]; try rfl
theorem rows_main_v34 (f : Buf (Elt F) ((SparseCore.T d).loc main_v34)) :
    ((SparseCore.T d).loc main_v34 ↦{fullShare} f : sProp 𝕄)
      = bigSep Finset.univ fun c : Fin 2 => bigSep Finset.univ fun i : Fin 16 => (SparseCore.T d).loc main_v34 ↦[iRowSet (widEquiv (c, i))]{fullShare} f := by
  rw [← bigSep_tasks32 (fun w : Fin 32 => ((SparseCore.T d).loc main_v34 ↦[iRowSet w]{fullShare} f : sProp 𝕄)),
    ← pointsTo_biUnion Finset.univ (ℓ := (SparseCore.T d).loc main_v34) iRowSet irows_disjoint, irows_cover]; try rfl
theorem rows_main_v36 (f : Buf (Elt F) ((SparseCore.T d).loc main_v36)) :
    ((SparseCore.T d).loc main_v36 ↦{fullShare} f : sProp 𝕄)
      = bigSep Finset.univ fun c : Fin 2 => bigSep Finset.univ fun i : Fin 16 => (SparseCore.T d).loc main_v36 ↦[iRowSet (widEquiv (c, i))]{fullShare} f := by
  rw [← bigSep_tasks32 (fun w : Fin 32 => ((SparseCore.T d).loc main_v36 ↦[iRowSet w]{fullShare} f : sProp 𝕄)),
    ← pointsTo_biUnion Finset.univ (ℓ := (SparseCore.T d).loc main_v36) iRowSet irows_disjoint, irows_cover]; try rfl

theorem blocks_main_v37 (f : Buf (Elt F) ((SparseCore.T d).loc main_v37)) :
    ((SparseCore.T d).loc main_v37 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v37 ↦[oBlockSet (e224 (widEquiv (c, i), r), t)]{fullShare} f := by
  rw [← bigSep_blocks (fun p : Fin 224 × Fin 4 => ((SparseCore.T d).loc main_v37 ↦[oBlockSet p]{fullShare} f : sProp 𝕄)),
    ← pointsTo_biUnion Finset.univ (ℓ := (SparseCore.T d).loc main_v37) oBlockSet oBlocks_disjoint, oBlocks_cover]; try rfl

theorem blocks_split_main_v37 :
    (iprop(∃ f, (SparseCore.T d).loc main_v37 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v37 ↦[oBlockSet (e224 (widEquiv (c, i), r), t)]{fullShare} fo) := by
  refine exists_elim fun f => ?_
  rw [blocks_main_v37 d f]
  exact bigSep_mono fun c _ => bigSep_mono fun i _ => bigSep_mono fun r _ => bigSep_mono fun t _ =>
    (show ((SparseCore.T d).loc main_v37 ↦[oBlockSet (e224 (widEquiv (c, i), r), t)]{fullShare} f : sProp 𝕄)
      ⊢ iprop(∃ fo, (SparseCore.T d).loc main_v37 ↦[oBlockSet (e224 (widEquiv (c, i), r), t)]{fullShare} fo) from by
        iintro H; iexists f; iexact H)

set_option maxRecDepth 4096 in
theorem blocks_join_main_v37 :
    (bigSep Finset.univ fun c : Fin 2 => bigSep Finset.univ fun i : Fin 16 => bigSep Finset.univ fun r : Fin 7 =>
        bigSep Finset.univ fun t : Fin 4 => iprop(∃ fo, (SparseCore.T d).loc main_v37 ↦[oBlockSet (e224 (widEquiv (c, i), r), t)]{fullShare} fo))
      ⊢ (iprop(∃ f, (SparseCore.T d).loc main_v37 ↦{fullShare} f) : sProp 𝕄) := by
  rw [← bigSep_blocks (fun p : Fin 224 × Fin 4 => (iprop(∃ fo, (SparseCore.T d).loc main_v37 ↦[oBlockSet p]{fullShare} fo) : sProp 𝕄))]
  refine (bigSep_exists_pi Finset.univ (fun p (fo : Buf (Elt F) ((SparseCore.T d).loc main_v37)) => ((SparseCore.T d).loc main_v37 ↦[oBlockSet p]{fullShare} fo : sProp 𝕄))).trans ?_
  iintro ⟨%fs, H⟩
  have : Nonempty (Buf (Elt F) ((SparseCore.T d).loc main_v37)) := ⟨fs (0, 0)⟩
  ihave H' := (pointsTo_biUnion_join (ℓ := (SparseCore.T d).loc main_v37) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid2.Coords)

theorem iRowSet_eq_main_v30 (w : Fin 32) :
    ((Memref.whole main_v30_scv : Memref sig .scVector .hbm S32x7x112 .i32).view.slice (irow w)).set = iRowSet w := by
  show ((View.whole (main_v30_scv : Ref sig .scVector)).slice (irow w)).set = _
  rw [View.set_slice]; exact Finset.map_refl
theorem set_rowK_main_v30 : (((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v30 (widL2 L))
  show (((Memref.whole main_v30_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v30_scv : Memref sig .scVector .hbm S32x7x112 .i32).view.slice (irow (widL2 L))).set
  rw [View.set_reshape]
  exact irowK2_eq L ▸ rfl
theorem iRowSet_eq_main_v32 (w : Fin 32) :
    ((Memref.whole main_v32_scv : Memref sig .scVector .hbm S32x7x112 .i32).view.slice (irow w)).set = iRowSet w := by
  show ((View.whole (main_v32_scv : Ref sig .scVector)).slice (irow w)).set = _
  rw [View.set_slice]; exact Finset.map_refl
theorem set_rowK_main_v32 : (((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v32 (widL2 L))
  show (((Memref.whole main_v32_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v32_scv : Memref sig .scVector .hbm S32x7x112 .i32).view.slice (irow (widL2 L))).set
  rw [View.set_reshape]
  exact irowK2_eq L ▸ rfl
theorem iRowSet_eq_main_v34 (w : Fin 32) :
    ((Memref.whole main_v34_scv : Memref sig .scVector .hbm S32x7x112 .i32).view.slice (irow w)).set = iRowSet w := by
  show ((View.whole (main_v34_scv : Ref sig .scVector)).slice (irow w)).set = _
  rw [View.set_slice]; exact Finset.map_refl
theorem set_rowK_main_v34 : (((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v34 (widL2 L))
  show (((Memref.whole main_v34_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v34_scv : Memref sig .scVector .hbm S32x7x112 .i32).view.slice (irow (widL2 L))).set
  rw [View.set_reshape]
  exact irowK2_eq L ▸ rfl
theorem iRowSet_eq_main_v36 (w : Fin 32) :
    ((Memref.whole main_v36_scv : Memref sig .scVector .hbm S32x7x112 .i32).view.slice (irow w)).set = iRowSet w := by
  show ((View.whole (main_v36_scv : Ref sig .scVector)).slice (irow w)).set = _
  rw [View.set_slice]; exact Finset.map_refl
theorem set_rowK_main_v36 : (((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v36 (widL2 L))
  show (((Memref.whole main_v36_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v36_scv : Memref sig .scVector .hbm S32x7x112 .i32).view.slice (irow (widL2 L))).set
  rw [View.set_reshape]
  exact irowK2_eq L ▸ rfl

theorem orect2_2_eq (r : Fin 7) :
    Rect.unit (s := S25088x512) (k2_off2 L (BitVec.ofNat 32 (112 * r.val))) S112x128.size (k2_off2_inb L r)
      = oBlock (e224 (widL2 L, r), 0) := by
  unfold oBlock Rect.block
  congr 1 <;> funext a
  · rw [k2_off2_eq]
    match a with
    | 0 =>
      show 1568 * (L 1).val + 784 * (L 0).val + 112 * r.val = (7 * (2 * (L 1).val + (L 0).val) + r.val) * 112
      omega
    | 1 => rfl
theorem set_piece2_2 (r : Fin 7) : ((Memref.whole main_v37_scv : Memref sig .scVector .hbm S25088x512 .f32).slice (Rect.unit (s := S25088x512) (k2_off2 L (BitVec.ofNat 32 (112 * r.val))) S112x128.size (k2_off2_inb L r)) (fun _ => rfl)).view.set = oBlockSet (e224 (widL2 L, r), 0) := by
  show ((View.whole (main_v37_scv : Ref sig .scVector)).slice
    (Rect.unit (s := S25088x512) (k2_off2 L (BitVec.ofNat 32 (112 * r.val))) S112x128.size (k2_off2_inb L r))).set = _
  rw [View.set_slice, orect2_2_eq L r]; exact Finset.map_refl
theorem orect2_3_eq (r : Fin 7) :
    Rect.unit (s := S25088x512) (k2_off3 L (BitVec.ofNat 32 (112 * r.val))) S112x128.size (k2_off3_inb L r)
      = oBlock (e224 (widL2 L, r), 1) := by
  unfold oBlock Rect.block
  congr 1 <;> funext a
  · rw [k2_off3_eq]
    match a with
    | 0 =>
      show 1568 * (L 1).val + 784 * (L 0).val + 112 * r.val = (7 * (2 * (L 1).val + (L 0).val) + r.val) * 112
      omega
    | 1 => rfl
theorem set_piece2_3 (r : Fin 7) : ((Memref.whole main_v37_scv : Memref sig .scVector .hbm S25088x512 .f32).slice (Rect.unit (s := S25088x512) (k2_off3 L (BitVec.ofNat 32 (112 * r.val))) S112x128.size (k2_off3_inb L r)) (fun _ => rfl)).view.set = oBlockSet (e224 (widL2 L, r), 1) := by
  show ((View.whole (main_v37_scv : Ref sig .scVector)).slice
    (Rect.unit (s := S25088x512) (k2_off3 L (BitVec.ofNat 32 (112 * r.val))) S112x128.size (k2_off3_inb L r))).set = _
  rw [View.set_slice, orect2_3_eq L r]; exact Finset.map_refl
theorem orect2_4_eq (r : Fin 7) :
    Rect.unit (s := S25088x512) (k2_off4 L (BitVec.ofNat 32 (112 * r.val))) S112x128.size (k2_off4_inb L r)
      = oBlock (e224 (widL2 L, r), 2) := by
  unfold oBlock Rect.block
  congr 1 <;> funext a
  · rw [k2_off4_eq]
    match a with
    | 0 =>
      show 1568 * (L 1).val + 784 * (L 0).val + 112 * r.val = (7 * (2 * (L 1).val + (L 0).val) + r.val) * 112
      omega
    | 1 => rfl
theorem set_piece2_4 (r : Fin 7) : ((Memref.whole main_v37_scv : Memref sig .scVector .hbm S25088x512 .f32).slice (Rect.unit (s := S25088x512) (k2_off4 L (BitVec.ofNat 32 (112 * r.val))) S112x128.size (k2_off4_inb L r)) (fun _ => rfl)).view.set = oBlockSet (e224 (widL2 L, r), 2) := by
  show ((View.whole (main_v37_scv : Ref sig .scVector)).slice
    (Rect.unit (s := S25088x512) (k2_off4 L (BitVec.ofNat 32 (112 * r.val))) S112x128.size (k2_off4_inb L r))).set = _
  rw [View.set_slice, orect2_4_eq L r]; exact Finset.map_refl
theorem orect2_5_eq (r : Fin 7) :
    Rect.unit (s := S25088x512) (k2_off5 L (BitVec.ofNat 32 (112 * r.val))) S112x128.size (k2_off5_inb L r)
      = oBlock (e224 (widL2 L, r), 3) := by
  unfold oBlock Rect.block
  congr 1 <;> funext a
  · rw [k2_off5_eq]
    match a with
    | 0 =>
      show 1568 * (L 1).val + 784 * (L 0).val + 112 * r.val = (7 * (2 * (L 1).val + (L 0).val) + r.val) * 112
      omega
    | 1 => rfl
theorem set_piece2_5 (r : Fin 7) : ((Memref.whole main_v37_scv : Memref sig .scVector .hbm S25088x512 .f32).slice (Rect.unit (s := S25088x512) (k2_off5 L (BitVec.ofNat 32 (112 * r.val))) S112x128.size (k2_off5_inb L r)) (fun _ => rfl)).view.set = oBlockSet (e224 (widL2 L, r), 3) := by
  show ((View.whole (main_v37_scv : Ref sig .scVector)).slice
    (Rect.unit (s := S25088x512) (k2_off5 L (BitVec.ofNat 32 (112 * r.val))) S112x128.size (k2_off5_inb L r))).set = _
  rw [View.set_slice, orect2_5_eq L r]; exact Finset.map_refl

end Spelling

section Atoms
variable (d : Dev nD) (L : grid2.Coords) (c : Fin τ.nSC) (i : Fin τ.nSub)

theorem pts_rowK_main_v30 (f : Buf (Elt F) ((SparseCore.T d).loc main_v30)) :
    ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v30 ↦[iRowSet (widL2 L)]{fullShare} f) := by
  rw [set_rowK_main_v30]
theorem pts_rowK_main_v32 (f : Buf (Elt F) ((SparseCore.T d).loc main_v32)) :
    ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v32 ↦[iRowSet (widL2 L)]{fullShare} f) := by
  rw [set_rowK_main_v32]
theorem pts_rowK_main_v34 (f : Buf (Elt F) ((SparseCore.T d).loc main_v34)) :
    ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v34 ↦[iRowSet (widL2 L)]{fullShare} f) := by
  rw [set_rowK_main_v34]
theorem pts_rowK_main_v36 (f : Buf (Elt F) ((SparseCore.T d).loc main_v36)) :
    ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v36 ↦[iRowSet (widL2 L)]{fullShare} f) := by
  rw [set_rowK_main_v36]
theorem owned_piece2_2 (r : Fin 7) :
    ownedAny (F := F) (((Memref.whole main_v37_scv : Memref sig .scVector .hbm S25088x512 .f32).slice (Rect.unit (s := S25088x512) (k2_off2 L (BitVec.ofNat 32 (112 * r.val))) S112x128.size (k2_off2_inb L r)) (fun _ => rfl)).view.loc (V d c i)) ((Memref.whole main_v37_scv : Memref sig .scVector .hbm S25088x512 .f32).slice (Rect.unit (s := S25088x512) (k2_off2 L (BitVec.ofNat 32 (112 * r.val))) S112x128.size (k2_off2_inb L r)) (fun _ => rfl)).view.set
      = ownedAny (F := F) ((SparseCore.T d).loc main_v37) (oBlockSet (e224 (widL2 L, r), 0)) := by
  rw [set_piece2_2]
theorem owned_piece2_3 (r : Fin 7) :
    ownedAny (F := F) (((Memref.whole main_v37_scv : Memref sig .scVector .hbm S25088x512 .f32).slice (Rect.unit (s := S25088x512) (k2_off3 L (BitVec.ofNat 32 (112 * r.val))) S112x128.size (k2_off3_inb L r)) (fun _ => rfl)).view.loc (V d c i)) ((Memref.whole main_v37_scv : Memref sig .scVector .hbm S25088x512 .f32).slice (Rect.unit (s := S25088x512) (k2_off3 L (BitVec.ofNat 32 (112 * r.val))) S112x128.size (k2_off3_inb L r)) (fun _ => rfl)).view.set
      = ownedAny (F := F) ((SparseCore.T d).loc main_v37) (oBlockSet (e224 (widL2 L, r), 1)) := by
  rw [set_piece2_3]
theorem owned_piece2_4 (r : Fin 7) :
    ownedAny (F := F) (((Memref.whole main_v37_scv : Memref sig .scVector .hbm S25088x512 .f32).slice (Rect.unit (s := S25088x512) (k2_off4 L (BitVec.ofNat 32 (112 * r.val))) S112x128.size (k2_off4_inb L r)) (fun _ => rfl)).view.loc (V d c i)) ((Memref.whole main_v37_scv : Memref sig .scVector .hbm S25088x512 .f32).slice (Rect.unit (s := S25088x512) (k2_off4 L (BitVec.ofNat 32 (112 * r.val))) S112x128.size (k2_off4_inb L r)) (fun _ => rfl)).view.set
      = ownedAny (F := F) ((SparseCore.T d).loc main_v37) (oBlockSet (e224 (widL2 L, r), 2)) := by
  rw [set_piece2_4]
theorem owned_piece2_5 (r : Fin 7) :
    ownedAny (F := F) (((Memref.whole main_v37_scv : Memref sig .scVector .hbm S25088x512 .f32).slice (Rect.unit (s := S25088x512) (k2_off5 L (BitVec.ofNat 32 (112 * r.val))) S112x128.size (k2_off5_inb L r)) (fun _ => rfl)).view.loc (V d c i)) ((Memref.whole main_v37_scv : Memref sig .scVector .hbm S25088x512 .f32).slice (Rect.unit (s := S25088x512) (k2_off5 L (BitVec.ofNat 32 (112 * r.val))) S112x128.size (k2_off5_inb L r)) (fun _ => rfl)).view.set
      = ownedAny (F := F) ((SparseCore.T d).loc main_v37) (oBlockSet (e224 (widL2 L, r), 3)) := by
  rw [set_piece2_5]

end Atoms

/-- A task's forty holdings in the deal's terms, in the order the task lists them. -/
def chain2 (d : Dev nD) (w : Fin 32) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v30 ↦[iRowSet w]{fullShare} fi0)
    ∗ ((SparseCore.T d).loc main_v32 ↦[iRowSet w]{fullShare} fi1)
    ∗ ((SparseCore.T d).loc main_v34 ↦[iRowSet w]{fullShare} fi2)
    ∗ ((SparseCore.T d).loc main_v36 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v37) (oBlockSet (e224 (w, 0), 0))
    ∗ ownedAny (F := F) ((SparseCore.T d).loc main_v37) (oBlockSet (e224 (w, 1), 0))
    ∗ ownedAny (F := F) ((SparseCore.T d).loc main_v37) (oBlockSet (e224 (w, 2), 0))
    ∗ ownedAny (F := F) ((SparseCore.T d).loc main_v37) (oBlockSet (e224 (w, 3), 0))
    ∗ ownedAny (F := F) ((SparseCore.T d).loc main_v37) (oBlockSet (e224 (w, 4), 0))
    ∗ ownedAny (F := F) ((SparseCore.T d).loc main_v37) (oBlockSet (e224 (w, 5), 0))
    ∗ ownedAny (F := F) ((SparseCore.T d).loc main_v37) (oBlockSet (e224 (w, 6), 0))
    ∗ ownedAny (F := F) ((SparseCore.T d).loc main_v37) (oBlockSet (e224 (w, 0), 1))
    ∗ ownedAny (F := F) ((SparseCore.T d).loc main_v37) (oBlockSet (e224 (w, 1), 1))
    ∗ ownedAny (F := F) ((SparseCore.T d).loc main_v37) (oBlockSet (e224 (w, 2), 1))
    ∗ ownedAny (F := F) ((SparseCore.T d).loc main_v37) (oBlockSet (e224 (w, 3), 1))
    ∗ ownedAny (F := F) ((SparseCore.T d).loc main_v37) (oBlockSet (e224 (w, 4), 1))
    ∗ ownedAny (F := F) ((SparseCore.T d).loc main_v37) (oBlockSet (e224 (w, 5), 1))
    ∗ ownedAny (F := F) ((SparseCore.T d).loc main_v37) (oBlockSet (e224 (w, 6), 1))
    ∗ ownedAny (F := F) ((SparseCore.T d).loc main_v37) (oBlockSet (e224 (w, 0), 2))
    ∗ ownedAny (F := F) ((SparseCore.T d).loc main_v37) (oBlockSet (e224 (w, 1), 2))
    ∗ ownedAny (F := F) ((SparseCore.T d).loc main_v37) (oBlockSet (e224 (w, 2), 2))
    ∗ ownedAny (F := F) ((SparseCore.T d).loc main_v37) (oBlockSet (e224 (w, 3), 2))
    ∗ ownedAny (F := F) ((SparseCore.T d).loc main_v37) (oBlockSet (e224 (w, 4), 2))
    ∗ ownedAny (F := F) ((SparseCore.T d).loc main_v37) (oBlockSet (e224 (w, 5), 2))
    ∗ ownedAny (F := F) ((SparseCore.T d).loc main_v37) (oBlockSet (e224 (w, 6), 2))
    ∗ ownedAny (F := F) ((SparseCore.T d).loc main_v37) (oBlockSet (e224 (w, 0), 3))
    ∗ ownedAny (F := F) ((SparseCore.T d).loc main_v37) (oBlockSet (e224 (w, 1), 3))
    ∗ ownedAny (F := F) ((SparseCore.T d).loc main_v37) (oBlockSet (e224 (w, 2), 3))
    ∗ ownedAny (F := F) ((SparseCore.T d).loc main_v37) (oBlockSet (e224 (w, 3), 3))
    ∗ ownedAny (F := F) ((SparseCore.T d).loc main_v37) (oBlockSet (e224 (w, 4), 3))
    ∗ ownedAny (F := F) ((SparseCore.T d).loc main_v37) (oBlockSet (e224 (w, 5), 3))
    ∗ ownedAny (F := F) ((SparseCore.T d).loc main_v37) (oBlockSet (e224 (w, 6), 3)))

theorem widL_coordsV2 (c : Fin 2) (i : Fin 16) : widL2 (coordsV2 c i) = widEquiv (c, i) := Fin.ext rfl

set_option maxRecDepth 8192 in
set_option maxHeartbeats 1000000 in
theorem tileRes2_chain (d : Dev nD) (c : Fin 2) (i : Fin 16) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes2 d (coordsV2 c i) qx fi0 fi1 fi2 fi3 fx0 fx1 fx2 fx3 = chain2 d (widL2 (coordsV2 c i)) qx fi0 fi1 fi2 fi3 fx0 fx1 fx2 fx3 := by
  unfold tileRes2 chain2
  exact (sepCongr (pts_rowK_main_v30 d (coordsV2 c i) _ _ _) (sepCongr (pts_rowK_main_v32 d (coordsV2 c i) _ _ _) (sepCongr (pts_rowK_main_v34 d (coordsV2 c i) _ _ _) (sepCongr (pts_rowK_main_v36 d (coordsV2 c i) _ _ _) (sepCongr rfl (sepCongr rfl (sepCongr rfl (sepCongr rfl (sepCongr rfl (sepCongr rfl (sepCongr rfl (sepCongr rfl (sepCongr (owned_piece2_2 d (coordsV2 c i) _ _ 0) (sepCongr (owned_piece2_2 d (coordsV2 c i) _ _ 1) (sepCongr (owned_piece2_2 d (coordsV2 c i) _ _ 2) (sepCongr (owned_piece2_2 d (coordsV2 c i) _ _ 3) (sepCongr (owned_piece2_2 d (coordsV2 c i) _ _ 4) (sepCongr (owned_piece2_2 d (coordsV2 c i) _ _ 5) (sepCongr (owned_piece2_2 d (coordsV2 c i) _ _ 6) (sepCongr (owned_piece2_3 d (coordsV2 c i) _ _ 0) (sepCongr (owned_piece2_3 d (coordsV2 c i) _ _ 1) (sepCongr (owned_piece2_3 d (coordsV2 c i) _ _ 2) (sepCongr (owned_piece2_3 d (coordsV2 c i) _ _ 3) (sepCongr (owned_piece2_3 d (coordsV2 c i) _ _ 4) (sepCongr (owned_piece2_3 d (coordsV2 c i) _ _ 5) (sepCongr (owned_piece2_3 d (coordsV2 c i) _ _ 6) (sepCongr (owned_piece2_4 d (coordsV2 c i) _ _ 0) (sepCongr (owned_piece2_4 d (coordsV2 c i) _ _ 1) (sepCongr (owned_piece2_4 d (coordsV2 c i) _ _ 2) (sepCongr (owned_piece2_4 d (coordsV2 c i) _ _ 3) (sepCongr (owned_piece2_4 d (coordsV2 c i) _ _ 4) (sepCongr (owned_piece2_4 d (coordsV2 c i) _ _ 5) (sepCongr (owned_piece2_4 d (coordsV2 c i) _ _ 6) (sepCongr (owned_piece2_5 d (coordsV2 c i) _ _ 0) (sepCongr (owned_piece2_5 d (coordsV2 c i) _ _ 1) (sepCongr (owned_piece2_5 d (coordsV2 c i) _ _ 2) (sepCongr (owned_piece2_5 d (coordsV2 c i) _ _ 3) (sepCongr (owned_piece2_5 d (coordsV2 c i) _ _ 4) (sepCongr (owned_piece2_5 d (coordsV2 c i) _ _ 5) (owned_piece2_5 d (coordsV2 c i) _ _ 6))))))))))))))))))))))))))))))))))))))))

variable (m : (ℓ : Loc nD τ sig) → Buf (Elt F) ℓ)

/-- What task `(c, i)` of gather call 2 holds, regrouped. -/
def nice2 (d : Dev nD) (c : Fin 2) (i : Fin 16) : sProp 𝕄 :=
  iprop(
      ((SparseCore.T d).loc main_v30 ↦[iRowSet (widEquiv (c, i))]{fullShare} (Idx.slab 2 (m ((SparseCore.T d).loc main_arg4))))
    ∗ ((SparseCore.T d).loc main_v32 ↦[iRowSet (widEquiv (c, i))]{fullShare} (Idx.slab 2 (m ((SparseCore.T d).loc main_arg5))))
    ∗ ((SparseCore.T d).loc main_v34 ↦[iRowSet (widEquiv (c, i))]{fullShare} (Idx.slab 2 (m ((SparseCore.T d).loc main_arg6))))
    ∗ ((SparseCore.T d).loc main_v36 ↦[iRowSet (widEquiv (c, i))]{fullShare} (Idx.slab 2 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v37 ↦[oBlockSet (e224 (widEquiv (c, i), r), t)]{fullShare} fo))

set_option maxRecDepth 8192 in
set_option maxHeartbeats 1000000 in
theorem chain2_nice (d : Dev nD) (c : Fin 2) (i : Fin 16) :
    chain2 d (widEquiv (c, i)) (qTask c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) = nice2 m d c i := by
  unfold chain2 nice2 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes2_nice (d : Dev nD) (c : Fin 2) (i : Fin 16) : taskRes m 2 d c i = nice2 m d c i := by
  show tileRes2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) = _
  rw [tileRes2_chain, widL_coordsV2]
  exact chain2_nice m d c i

theorem tasks2_eq (d : Dev nD) :
    (bigSep Finset.univ fun c : Fin 2 => bigSep Finset.univ fun i : Fin 16 => taskRes m 2 d c i)
      = iprop((bigSep Finset.univ fun c : Fin 2 => bigSep Finset.univ fun i : Fin 16 => ((SparseCore.T d).loc main_v30 ↦[iRowSet (widEquiv (c, i))]{fullShare} (Idx.slab 2 (m ((SparseCore.T d).loc main_arg4)))))
        ∗ (bigSep Finset.univ fun c : Fin 2 => bigSep Finset.univ fun i : Fin 16 => ((SparseCore.T d).loc main_v32 ↦[iRowSet (widEquiv (c, i))]{fullShare} (Idx.slab 2 (m ((SparseCore.T d).loc main_arg5)))))
        ∗ (bigSep Finset.univ fun c : Fin 2 => bigSep Finset.univ fun i : Fin 16 => ((SparseCore.T d).loc main_v34 ↦[iRowSet (widEquiv (c, i))]{fullShare} (Idx.slab 2 (m ((SparseCore.T d).loc main_arg6)))))
        ∗ (bigSep Finset.univ fun c : Fin 2 => bigSep Finset.univ fun i : Fin 16 => ((SparseCore.T d).loc main_v36 ↦[iRowSet (widEquiv (c, i))]{fullShare} (Idx.slab 2 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v37 ↦[oBlockSet (e224 (widEquiv (c, i), r), t)]{fullShare} fo))) := by
  have h : (fun c : Fin 2 => bigSep Finset.univ fun i : Fin 16 => taskRes m 2 d c i)
      = fun c : Fin 2 => bigSep Finset.univ fun i : Fin 16 => nice2 m d c i :=
    funext fun c => congrArg (bigSep Finset.univ) (funext fun i => taskRes2_nice m d c i)
  rw [h]
  unfold nice2
  simp only [bigSep_sep']

/-- What gather call 2 takes whole. -/
def whole2 (d : Dev nD) : sProp 𝕄 :=
  iprop(((SparseCore.T d).loc main_v30 ↦{fullShare} (Idx.slab 2 (m ((SparseCore.T d).loc main_arg4)))) ∗ ((SparseCore.T d).loc main_v32 ↦{fullShare} (Idx.slab 2 (m ((SparseCore.T d).loc main_arg5))))
    ∗ ((SparseCore.T d).loc main_v34 ↦{fullShare} (Idx.slab 2 (m ((SparseCore.T d).loc main_arg6)))) ∗ ((SparseCore.T d).loc main_v36 ↦{fullShare} (Idx.slab 2 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v37 ↦{fullShare} f)

/-- THE DEAL for call 2. -/
theorem deal2_split (d : Dev nD) :
    whole2 m d ⊢ iprop(rest0 m d ∗ bigSep Finset.univ fun c : Fin 2 => bigSep Finset.univ fun i : Fin 16 => taskRes m 2 d c i) := by
  rw [tasks2_eq]
  unfold whole2 rest0
  rw [rows_main_v30 d, rows_main_v32 d, rows_main_v34 d, rows_main_v36 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v37 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal2_join (d : Dev nD) :
    iprop(rest0 m d ∗ bigSep Finset.univ fun c : Fin 2 => bigSep Finset.univ fun i : Fin 16 => taskRes m 2 d c i) ⊢ whole2 m d := by
  rw [tasks2_eq]
  unfold whole2 rest0
  rw [rows_main_v30 d, rows_main_v32 d, rows_main_v34 d, rows_main_v36 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v37 d); iexact Ho

end Cert.KernelIdeal.Sc

end
-- ==== Proof.ScCall2.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.ScLaunch
import proofs.«215994_g5102421148354_cont_8to1c4_853_29_alg».proof.Proof.MainCut
import proofs.«215994_g5102421148354_cont_8to1c4_853_29_alg».proof.Proof.ScDeal2

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 2 works on: its four index arrays, the four tables, its result. -/
abbrev l9_2 : List (DevRef τ sig) := [dr main_v30, dr main_v32, dr main_v34, dr main_v36, dr main_arg0, dr main_arg1, dr main_arg2, dr main_arg3, dr main_v37]
theorem l9_2_sub : (l9_2).toFinset ⊆ Pipeline.ucRefs τ sig := by decide
theorem l9_2_nodup : (l9_2).Nodup := by decide

theorem held9_2 (d : Dev nD) (W : Valuation τ sig (Elt F)) :
    (held (d.tc : Thread nD τ) (l9_2).toFinset W : sProp 𝕄)
      = iprop((((d, dr main_v30) : Loc nD τ sig) ↦{fullShare} W (dr main_v30)) ∗ (((d, dr main_v32) : Loc nD τ sig) ↦{fullShare} W (dr main_v32))
          ∗ (((d, dr main_v34) : Loc nD τ sig) ↦{fullShare} W (dr main_v34)) ∗ (((d, dr main_v36) : Loc nD τ sig) ↦{fullShare} W (dr main_v36))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v37) : Loc nD τ sig) ↦{fullShare} W (dr main_v37))) := by
  unfold held
  rw [bigSep_eq_bigSepL _ l9_2_nodup]
  rfl

/-- A SparseCore's share of call 2, over the two SparseCores: the thirty-two tasks'. -/
theorem st2_eq (d : Dev nD) :
    (bigSep Finset.univ fun c : Fin ((K (F := F)).nCore 2) => (P m).st 2 d c)
      = bigSep Finset.univ fun c : Fin 2 => bigSep Finset.univ fun i : Fin 16 => taskRes m 2 d c i :=
  bigSep_congr fun c _ =>
    show (bigSep Finset.univ fun i : Fin 16 => taskRes m 2 d (Fin.cast (nCore_eq 2) c) i) = bigSep Finset.univ fun i : Fin 16 => taskRes m 2 d c i from
      bigSep_congr fun i _ => congrArg (fun c' => taskRes m 2 d c' i) (Fin.ext rfl)

theorem dn2_eq (d : Dev nD) :
    (bigSep Finset.univ fun c : Fin ((K (F := F)).nCore 2) => (P m).dn 2 d c)
      = bigSep Finset.univ fun c : Fin 2 => bigSep Finset.univ fun i : Fin 16 => taskRes m 2 d c i :=
  bigSep_congr fun c _ =>
    show (bigSep Finset.univ fun i : Fin 16 => taskRes m 2 d (Fin.cast (nCore_eq 2) c) i) = bigSep Finset.univ fun i : Fin 16 => taskRes m 2 d c i from
      bigSep_congr fun i _ => congrArg (fun c' => taskRes m 2 d c' i) (Fin.ext rfl)

set_option maxHeartbeats 4000000 in
theorem call_step2 (κ : GSem nD τ sig → ℕ) (d : Dev nD) (W : Valuation τ sig (Elt F))
    (h12 : W (dr main_v30) = Idx.slab 2 (m ((SparseCore.T d).loc main_arg4))) (h14 : W (dr main_v32) = Idx.slab 2 (m ((SparseCore.T d).loc main_arg5)))
    (h16 : W (dr main_v34) = Idx.slab 2 (m ((SparseCore.T d).loc main_arg6))) (h18 : W (dr main_v36) = Idx.slab 2 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 2 ∗ held (d.tc : Thread nD τ) (Pipeline.ucRefs τ sig) W
        ∗ (∀ f : Buf (Elt F) ((SparseCore.T d).loc main_v37),
            iprop((K (F := F)).tcSt EH d 3 ∗ held (d.tc : Thread nD τ) (Pipeline.ucRefs τ sig) (Function.update W (dr main_v37) f)) -∗ Φ ⟨⟩))
      ⊢ wp frame (wpE ((K (F := F)).defs (D (F := F))) 𝒱 (SparseCore.T d) none) Set.univ ((K (F := F)).run d 2) Φ := by
  rw [held_sub_split (c := (d.tc : Thread nD τ)) l9_2_sub W, held9_2, h12, h14, h16, h18, ha0, ha1, ha2, ha3]
  iintro ⟨#Hctx, Hst, ⟨⟨H12, H14, H16, H18, A0, A1, A2, A3, O19⟩, Hrest⟩, Hk⟩
  ihave Hw := (deal2_split m d) $$ [H12 H14 H16 H18 A0 A1 A2 A3 O19]
  · unfold whole2
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 2) $$ [Hst Htasks Hr0 Hrest Hk]
  isplitr; · iexact Hctx
  isplitl [Hst]; · iexact Hst
  isplitl [Htasks]; · rw [st2_eq]; iexact Htasks
  iintro ⟨Hst, Hdn⟩
  ihave Hdn' := (Entails.of_eq (dn2_eq m d)) $$ Hdn
  ihave Hw2 := (deal2_join m d) $$ [Hr0 Hdn']
  · isplitl [Hr0] <;> iassumption
  unfold whole2
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_2_sub (Function.update W (dr main_v37) f), held9_2,
    Function.update_of_ne (show dr main_v30 ≠ dr main_v37 by decide), Function.update_of_ne (show dr main_v32 ≠ dr main_v37 by decide), Function.update_of_ne (show dr main_v34 ≠ dr main_v37 by decide), Function.update_of_ne (show dr main_v36 ≠ dr main_v37 by decide), Function.update_of_ne (show dr main_arg0 ≠ dr main_v37 by decide), Function.update_of_ne (show dr main_arg1 ≠ dr main_v37 by decide), Function.update_of_ne (show dr main_arg2 ≠ dr main_v37 by decide), Function.update_of_ne (show dr main_arg3 ≠ dr main_v37 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v37) f) (V' := W) (fun b hb =>
    Function.update_of_ne (fun e => (Finset.mem_sdiff.mp hb).2 (e ▸ (by decide : dr main_v37 ∈ (l9_2).toFinset))) _ _)]
  iexact Hrest

end Cert.KernelIdeal.Sc
end
-- ==== Proof.ScDeal3.lean ====
import proofs.«215994_g5102421148354_cont_8to1c4_853_29_alg».proof.Proof.ScDeal0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 3: its arrays dealt to its thirty-two tasks, and back

The same deal as call 0's over this call's index stretches, result array and offset functions. -/

local instance sepPM_comm3 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc3 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 3 names. -/
def widL3 (L : grid3.Coords) : Fin 32 := ⟨2 * (L 1).val + (L 0).val, by
  have h0 : (L 0).val < 2 := (L 0).isLt
  have h1 : (L 1).val < 16 := (L 1).isLt
  omega⟩

theorem irowK3_eq (L : grid3.Coords) :
    Rect.unit (s := S32x7x112) (k3_off1 L) S1x7x112.size (k3_off1_inb L) = irow (widL3 L) := by
  unfold irow Rect.part Rect.block
  congr 1 <;> funext a
  · rw [k3_off1_eq]
    match a with
    | 0 => simp [Shape.partIx, Shape.partSize, widL3]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v39 (f : Buf (Elt F) ((SparseCore.T d).loc main_v39)) :
    ((SparseCore.T d).loc main_v39 ↦{fullShare} f : sProp 𝕄)
      = bigSep Finset.univ fun c : Fin 2 => bigSep Finset.univ fun i : Fin 16 => (SparseCore.T d).loc main_v39 ↦[iRowSet (widEquiv (c, i))]{fullShare} f := by
  rw [← bigSep_tasks32 (fun w : Fin 32 => ((SparseCore.T d).loc main_v39 ↦[iRowSet w]{fullShare} f : sProp 𝕄)),
    ← pointsTo_biUnion Finset.univ (ℓ := (SparseCore.T d).loc main_v39) iRowSet irows_disjoint, irows_cover]; try rfl
theorem rows_main_v41 (f : Buf (Elt F) ((SparseCore.T d).loc main_v41)) :
    ((SparseCore.T d).loc main_v41 ↦{fullShare} f : sProp 𝕄)
      = bigSep Finset.univ fun c : Fin 2 => bigSep Finset.univ fun i : Fin 16 => (SparseCore.T d).loc main_v41 ↦[iRowSet (widEquiv (c, i))]{fullShare} f := by
  rw [← bigSep_tasks32 (fun w : Fin 32 => ((SparseCore.T d).loc main_v41 ↦[iRowSet w]{fullShare} f : sProp 𝕄)),
    ← pointsTo_biUnion Finset.univ (ℓ := (SparseCore.T d).loc main_v41) iRowSet irows_disjoint, irows_cover]; try rfl
theorem rows_main_v43 (f : Buf (Elt F) ((SparseCore.T d).loc main_v43)) :
    ((SparseCore.T d).loc main_v43 ↦{fullShare} f : sProp 𝕄)
      = bigSep Finset.univ fun c : Fin 2 => bigSep Finset.univ fun i : Fin 16 => (SparseCore.T d).loc main_v43 ↦[iRowSet (widEquiv (c, i))]{fullShare} f := by
  rw [← bigSep_tasks32 (fun w : Fin 32 => ((SparseCore.T d).loc main_v43 ↦[iRowSet w]{fullShare} f : sProp 𝕄)),
    ← pointsTo_biUnion Finset.univ (ℓ := (SparseCore.T d).loc main_v43) iRowSet irows_disjoint, irows_cover]; try rfl
theorem rows_main_v45 (f : Buf (Elt F) ((SparseCore.T d).loc main_v45)) :
    ((SparseCore.T d).loc main_v45 ↦{fullShare} f : sProp 𝕄)
      = bigSep Finset.univ fun c : Fin 2 => bigSep Finset.univ fun i : Fin 16 => (SparseCore.T d).loc main_v45 ↦[iRowSet (widEquiv (c, i))]{fullShare} f := by
  rw [← bigSep_tasks32 (fun w : Fin 32 => ((SparseCore.T d).loc main_v45 ↦[iRowSet w]{fullShare} f : sProp 𝕄)),
    ← pointsTo_biUnion Finset.univ (ℓ := (SparseCore.T d).loc main_v45) iRowSet irows_disjoint, irows_cover]; try rfl

theorem blocks_main_v46 (f : Buf (Elt F) ((SparseCore.T d).loc main_v46)) :
    ((SparseCore.T d).loc main_v46 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v46 ↦[oBlockSet (e224 (widEquiv (c, i), r), t)]{fullShare} f := by
  rw [← bigSep_blocks (fun p : Fin 224 × Fin 4 => ((SparseCore.T d).loc main_v46 ↦[oBlockSet p]{fullShare} f : sProp 𝕄)),
    ← pointsTo_biUnion Finset.univ (ℓ := (SparseCore.T d).loc main_v46) oBlockSet oBlocks_disjoint, oBlocks_cover]; try rfl

theorem blocks_split_main_v46 :
    (iprop(∃ f, (SparseCore.T d).loc main_v46 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v46 ↦[oBlockSet (e224 (widEquiv (c, i), r), t)]{fullShare} fo) := by
  refine exists_elim fun f => ?_
  rw [blocks_main_v46 d f]
  exact bigSep_mono fun c _ => bigSep_mono fun i _ => bigSep_mono fun r _ => bigSep_mono fun t _ =>
    (show ((SparseCore.T d).loc main_v46 ↦[oBlockSet (e224 (widEquiv (c, i), r), t)]{fullShare} f : sProp 𝕄)
      ⊢ iprop(∃ fo, (SparseCore.T d).loc main_v46 ↦[oBlockSet (e224 (widEquiv (c, i), r), t)]{fullShare} fo) from by
        iintro H; iexists f; iexact H)

set_option maxRecDepth 4096 in
theorem blocks_join_main_v46 :
    (bigSep Finset.univ fun c : Fin 2 => bigSep Finset.univ fun i : Fin 16 => bigSep Finset.univ fun r : Fin 7 =>
        bigSep Finset.univ fun t : Fin 4 => iprop(∃ fo, (SparseCore.T d).loc main_v46 ↦[oBlockSet (e224 (widEquiv (c, i), r), t)]{fullShare} fo))
      ⊢ (iprop(∃ f, (SparseCore.T d).loc main_v46 ↦{fullShare} f) : sProp 𝕄) := by
  rw [← bigSep_blocks (fun p : Fin 224 × Fin 4 => (iprop(∃ fo, (SparseCore.T d).loc main_v46 ↦[oBlockSet p]{fullShare} fo) : sProp 𝕄))]
  refine (bigSep_exists_pi Finset.univ (fun p (fo : Buf (Elt F) ((SparseCore.T d).loc main_v46)) => ((SparseCore.T d).loc main_v46 ↦[oBlockSet p]{fullShare} fo : sProp 𝕄))).trans ?_
  iintro ⟨%fs, H⟩
  have : Nonempty (Buf (Elt F) ((SparseCore.T d).loc main_v46)) := ⟨fs (0, 0)⟩
  ihave H' := (pointsTo_biUnion_join (ℓ := (SparseCore.T d).loc main_v46) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid3.Coords)

theorem iRowSet_eq_main_v39 (w : Fin 32) :
    ((Memref.whole main_v39_scv : Memref sig .scVector .hbm S32x7x112 .i32).view.slice (irow w)).set = iRowSet w := by
  show ((View.whole (main_v39_scv : Ref sig .scVector)).slice (irow w)).set = _
  rw [View.set_slice]; exact Finset.map_refl
theorem set_rowK_main_v39 : (((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v39 (widL3 L))
  show (((Memref.whole main_v39_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v39_scv : Memref sig .scVector .hbm S32x7x112 .i32).view.slice (irow (widL3 L))).set
  rw [View.set_reshape]
  exact irowK3_eq L ▸ rfl
theorem iRowSet_eq_main_v41 (w : Fin 32) :
    ((Memref.whole main_v41_scv : Memref sig .scVector .hbm S32x7x112 .i32).view.slice (irow w)).set = iRowSet w := by
  show ((View.whole (main_v41_scv : Ref sig .scVector)).slice (irow w)).set = _
  rw [View.set_slice]; exact Finset.map_refl
theorem set_rowK_main_v41 : (((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v41 (widL3 L))
  show (((Memref.whole main_v41_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v41_scv : Memref sig .scVector .hbm S32x7x112 .i32).view.slice (irow (widL3 L))).set
  rw [View.set_reshape]
  exact irowK3_eq L ▸ rfl
theorem iRowSet_eq_main_v43 (w : Fin 32) :
    ((Memref.whole main_v43_scv : Memref sig .scVector .hbm S32x7x112 .i32).view.slice (irow w)).set = iRowSet w := by
  show ((View.whole (main_v43_scv : Ref sig .scVector)).slice (irow w)).set = _
  rw [View.set_slice]; exact Finset.map_refl
theorem set_rowK_main_v43 : (((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v43 (widL3 L))
  show (((Memref.whole main_v43_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v43_scv : Memref sig .scVector .hbm S32x7x112 .i32).view.slice (irow (widL3 L))).set
  rw [View.set_reshape]
  exact irowK3_eq L ▸ rfl
theorem iRowSet_eq_main_v45 (w : Fin 32) :
    ((Memref.whole main_v45_scv : Memref sig .scVector .hbm S32x7x112 .i32).view.slice (irow w)).set = iRowSet w := by
  show ((View.whole (main_v45_scv : Ref sig .scVector)).slice (irow w)).set = _
  rw [View.set_slice]; exact Finset.map_refl
theorem set_rowK_main_v45 : (((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v45 (widL3 L))
  show (((Memref.whole main_v45_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v45_scv : Memref sig .scVector .hbm S32x7x112 .i32).view.slice (irow (widL3 L))).set
  rw [View.set_reshape]
  exact irowK3_eq L ▸ rfl

theorem orect3_2_eq (r : Fin 7) :
    Rect.unit (s := S25088x512) (k3_off2 L (BitVec.ofNat 32 (112 * r.val))) S112x128.size (k3_off2_inb L r)
      = oBlock (e224 (widL3 L, r), 0) := by
  unfold oBlock Rect.block
  congr 1 <;> funext a
  · rw [k3_off2_eq]
    match a with
    | 0 =>
      show 1568 * (L 1).val + 784 * (L 0).val + 112 * r.val = (7 * (2 * (L 1).val + (L 0).val) + r.val) * 112
      omega
    | 1 => rfl
theorem set_piece3_2 (r : Fin 7) : ((Memref.whole main_v46_scv : Memref sig .scVector .hbm S25088x512 .f32).slice (Rect.unit (s := S25088x512) (k3_off2 L (BitVec.ofNat 32 (112 * r.val))) S112x128.size (k3_off2_inb L r)) (fun _ => rfl)).view.set = oBlockSet (e224 (widL3 L, r), 0) := by
  show ((View.whole (main_v46_scv : Ref sig .scVector)).slice
    (Rect.unit (s := S25088x512) (k3_off2 L (BitVec.ofNat 32 (112 * r.val))) S112x128.size (k3_off2_inb L r))).set = _
  rw [View.set_slice, orect3_2_eq L r]; exact Finset.map_refl
theorem orect3_3_eq (r : Fin 7) :
    Rect.unit (s := S25088x512) (k3_off3 L (BitVec.ofNat 32 (112 * r.val))) S112x128.size (k3_off3_inb L r)
      = oBlock (e224 (widL3 L, r), 1) := by
  unfold oBlock Rect.block
  congr 1 <;> funext a
  · rw [k3_off3_eq]
    match a with
    | 0 =>
      show 1568 * (L 1).val + 784 * (L 0).val + 112 * r.val = (7 * (2 * (L 1).val + (L 0).val) + r.val) * 112
      omega
    | 1 => rfl
theorem set_piece3_3 (r : Fin 7) : ((Memref.whole main_v46_scv : Memref sig .scVector .hbm S25088x512 .f32).slice (Rect.unit (s := S25088x512) (k3_off3 L (BitVec.ofNat 32 (112 * r.val))) S112x128.size (k3_off3_inb L r)) (fun _ => rfl)).view.set = oBlockSet (e224 (widL3 L, r), 1) := by
  show ((View.whole (main_v46_scv : Ref sig .scVector)).slice
    (Rect.unit (s := S25088x512) (k3_off3 L (BitVec.ofNat 32 (112 * r.val))) S112x128.size (k3_off3_inb L r))).set = _
  rw [View.set_slice, orect3_3_eq L r]; exact Finset.map_refl
theorem orect3_4_eq (r : Fin 7) :
    Rect.unit (s := S25088x512) (k3_off4 L (BitVec.ofNat 32 (112 * r.val))) S112x128.size (k3_off4_inb L r)
      = oBlock (e224 (widL3 L, r), 2) := by
  unfold oBlock Rect.block
  congr 1 <;> funext a
  · rw [k3_off4_eq]
    match a with
    | 0 =>
      show 1568 * (L 1).val + 784 * (L 0).val + 112 * r.val = (7 * (2 * (L 1).val + (L 0).val) + r.val) * 112
      omega
    | 1 => rfl
theorem set_piece3_4 (r : Fin 7) : ((Memref.whole main_v46_scv : Memref sig .scVector .hbm S25088x512 .f32).slice (Rect.unit (s := S25088x512) (k3_off4 L (BitVec.ofNat 32 (112 * r.val))) S112x128.size (k3_off4_inb L r)) (fun _ => rfl)).view.set = oBlockSet (e224 (widL3 L, r), 2) := by
  show ((View.whole (main_v46_scv : Ref sig .scVector)).slice
    (Rect.unit (s := S25088x512) (k3_off4 L (BitVec.ofNat 32 (112 * r.val))) S112x128.size (k3_off4_inb L r))).set = _
  rw [View.set_slice, orect3_4_eq L r]; exact Finset.map_refl
theorem orect3_5_eq (r : Fin 7) :
    Rect.unit (s := S25088x512) (k3_off5 L (BitVec.ofNat 32 (112 * r.val))) S112x128.size (k3_off5_inb L r)
      = oBlock (e224 (widL3 L, r), 3) := by
  unfold oBlock Rect.block
  congr 1 <;> funext a
  · rw [k3_off5_eq]
    match a with
    | 0 =>
      show 1568 * (L 1).val + 784 * (L 0).val + 112 * r.val = (7 * (2 * (L 1).val + (L 0).val) + r.val) * 112
      omega
    | 1 => rfl
theorem set_piece3_5 (r : Fin 7) : ((Memref.whole main_v46_scv : Memref sig .scVector .hbm S25088x512 .f32).slice (Rect.unit (s := S25088x512) (k3_off5 L (BitVec.ofNat 32 (112 * r.val))) S112x128.size (k3_off5_inb L r)) (fun _ => rfl)).view.set = oBlockSet (e224 (widL3 L, r), 3) := by
  show ((View.whole (main_v46_scv : Ref sig .scVector)).slice
    (Rect.unit (s := S25088x512) (k3_off5 L (BitVec.ofNat 32 (112 * r.val))) S112x128.size (k3_off5_inb L r))).set = _
  rw [View.set_slice, orect3_5_eq L r]; exact Finset.map_refl

end Spelling

section Atoms
variable (d : Dev nD) (L : grid3.Coords) (c : Fin τ.nSC) (i : Fin τ.nSub)

theorem pts_rowK_main_v39 (f : Buf (Elt F) ((SparseCore.T d).loc main_v39)) :
    ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v39 ↦[iRowSet (widL3 L)]{fullShare} f) := by
  rw [set_rowK_main_v39]
theorem pts_rowK_main_v41 (f : Buf (Elt F) ((SparseCore.T d).loc main_v41)) :
    ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v41 ↦[iRowSet (widL3 L)]{fullShare} f) := by
  rw [set_rowK_main_v41]
theorem pts_rowK_main_v43 (f : Buf (Elt F) ((SparseCore.T d).loc main_v43)) :
    ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v43 ↦[iRowSet (widL3 L)]{fullShare} f) := by
  rw [set_rowK_main_v43]
theorem pts_rowK_main_v45 (f : Buf (Elt F) ((SparseCore.T d).loc main_v45)) :
    ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v45 ↦[iRowSet (widL3 L)]{fullShare} f) := by
  rw [set_rowK_main_v45]
theorem owned_piece3_2 (r : Fin 7) :
    ownedAny (F := F) (((Memref.whole main_v46_scv : Memref sig .scVector .hbm S25088x512 .f32).slice (Rect.unit (s := S25088x512) (k3_off2 L (BitVec.ofNat 32 (112 * r.val))) S112x128.size (k3_off2_inb L r)) (fun _ => rfl)).view.loc (V d c i)) ((Memref.whole main_v46_scv : Memref sig .scVector .hbm S25088x512 .f32).slice (Rect.unit (s := S25088x512) (k3_off2 L (BitVec.ofNat 32 (112 * r.val))) S112x128.size (k3_off2_inb L r)) (fun _ => rfl)).view.set
      = ownedAny (F := F) ((SparseCore.T d).loc main_v46) (oBlockSet (e224 (widL3 L, r), 0)) := by
  rw [set_piece3_2]
theorem owned_piece3_3 (r : Fin 7) :
    ownedAny (F := F) (((Memref.whole main_v46_scv : Memref sig .scVector .hbm S25088x512 .f32).slice (Rect.unit (s := S25088x512) (k3_off3 L (BitVec.ofNat 32 (112 * r.val))) S112x128.size (k3_off3_inb L r)) (fun _ => rfl)).view.loc (V d c i)) ((Memref.whole main_v46_scv : Memref sig .scVector .hbm S25088x512 .f32).slice (Rect.unit (s := S25088x512) (k3_off3 L (BitVec.ofNat 32 (112 * r.val))) S112x128.size (k3_off3_inb L r)) (fun _ => rfl)).view.set
      = ownedAny (F := F) ((SparseCore.T d).loc main_v46) (oBlockSet (e224 (widL3 L, r), 1)) := by
  rw [set_piece3_3]
theorem owned_piece3_4 (r : Fin 7) :
    ownedAny (F := F) (((Memref.whole main_v46_scv : Memref sig .scVector .hbm S25088x512 .f32).slice (Rect.unit (s := S25088x512) (k3_off4 L (BitVec.ofNat 32 (112 * r.val))) S112x128.size (k3_off4_inb L r)) (fun _ => rfl)).view.loc (V d c i)) ((Memref.whole main_v46_scv : Memref sig .scVector .hbm S25088x512 .f32).slice (Rect.unit (s := S25088x512) (k3_off4 L (BitVec.ofNat 32 (112 * r.val))) S112x128.size (k3_off4_inb L r)) (fun _ => rfl)).view.set
      = ownedAny (F := F) ((SparseCore.T d).loc main_v46) (oBlockSet (e224 (widL3 L, r), 2)) := by
  rw [set_piece3_4]
theorem owned_piece3_5 (r : Fin 7) :
    ownedAny (F := F) (((Memref.whole main_v46_scv : Memref sig .scVector .hbm S25088x512 .f32).slice (Rect.unit (s := S25088x512) (k3_off5 L (BitVec.ofNat 32 (112 * r.val))) S112x128.size (k3_off5_inb L r)) (fun _ => rfl)).view.loc (V d c i)) ((Memref.whole main_v46_scv : Memref sig .scVector .hbm S25088x512 .f32).slice (Rect.unit (s := S25088x512) (k3_off5 L (BitVec.ofNat 32 (112 * r.val))) S112x128.size (k3_off5_inb L r)) (fun _ => rfl)).view.set
      = ownedAny (F := F) ((SparseCore.T d).loc main_v46) (oBlockSet (e224 (widL3 L, r), 3)) := by
  rw [set_piece3_5]

end Atoms

/-- A task's forty holdings in the deal's terms, in the order the task lists them. -/
def chain3 (d : Dev nD) (w : Fin 32) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v39 ↦[iRowSet w]{fullShare} fi0)
    ∗ ((SparseCore.T d).loc main_v41 ↦[iRowSet w]{fullShare} fi1)
    ∗ ((SparseCore.T d).loc main_v43 ↦[iRowSet w]{fullShare} fi2)
    ∗ ((SparseCore.T d).loc main_v45 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v46) (oBlockSet (e224 (w, 0), 0))
    ∗ ownedAny (F := F) ((SparseCore.T d).loc main_v46) (oBlockSet (e224 (w, 1), 0))
    ∗ ownedAny (F := F) ((SparseCore.T d).loc main_v46) (oBlockSet (e224 (w, 2), 0))
    ∗ ownedAny (F := F) ((SparseCore.T d).loc main_v46) (oBlockSet (e224 (w, 3), 0))
    ∗ ownedAny (F := F) ((SparseCore.T d).loc main_v46) (oBlockSet (e224 (w, 4), 0))
    ∗ ownedAny (F := F) ((SparseCore.T d).loc main_v46) (oBlockSet (e224 (w, 5), 0))
    ∗ ownedAny (F := F) ((SparseCore.T d).loc main_v46) (oBlockSet (e224 (w, 6), 0))
    ∗ ownedAny (F := F) ((SparseCore.T d).loc main_v46) (oBlockSet (e224 (w, 0), 1))
    ∗ ownedAny (F := F) ((SparseCore.T d).loc main_v46) (oBlockSet (e224 (w, 1), 1))
    ∗ ownedAny (F := F) ((SparseCore.T d).loc main_v46) (oBlockSet (e224 (w, 2), 1))
    ∗ ownedAny (F := F) ((SparseCore.T d).loc main_v46) (oBlockSet (e224 (w, 3), 1))
    ∗ ownedAny (F := F) ((SparseCore.T d).loc main_v46) (oBlockSet (e224 (w, 4), 1))
    ∗ ownedAny (F := F) ((SparseCore.T d).loc main_v46) (oBlockSet (e224 (w, 5), 1))
    ∗ ownedAny (F := F) ((SparseCore.T d).loc main_v46) (oBlockSet (e224 (w, 6), 1))
    ∗ ownedAny (F := F) ((SparseCore.T d).loc main_v46) (oBlockSet (e224 (w, 0), 2))
    ∗ ownedAny (F := F) ((SparseCore.T d).loc main_v46) (oBlockSet (e224 (w, 1), 2))
    ∗ ownedAny (F := F) ((SparseCore.T d).loc main_v46) (oBlockSet (e224 (w, 2), 2))
    ∗ ownedAny (F := F) ((SparseCore.T d).loc main_v46) (oBlockSet (e224 (w, 3), 2))
    ∗ ownedAny (F := F) ((SparseCore.T d).loc main_v46) (oBlockSet (e224 (w, 4), 2))
    ∗ ownedAny (F := F) ((SparseCore.T d).loc main_v46) (oBlockSet (e224 (w, 5), 2))
    ∗ ownedAny (F := F) ((SparseCore.T d).loc main_v46) (oBlockSet (e224 (w, 6), 2))
    ∗ ownedAny (F := F) ((SparseCore.T d).loc main_v46) (oBlockSet (e224 (w, 0), 3))
    ∗ ownedAny (F := F) ((SparseCore.T d).loc main_v46) (oBlockSet (e224 (w, 1), 3))
    ∗ ownedAny (F := F) ((SparseCore.T d).loc main_v46) (oBlockSet (e224 (w, 2), 3))
    ∗ ownedAny (F := F) ((SparseCore.T d).loc main_v46) (oBlockSet (e224 (w, 3), 3))
    ∗ ownedAny (F := F) ((SparseCore.T d).loc main_v46) (oBlockSet (e224 (w, 4), 3))
    ∗ ownedAny (F := F) ((SparseCore.T d).loc main_v46) (oBlockSet (e224 (w, 5), 3))
    ∗ ownedAny (F := F) ((SparseCore.T d).loc main_v46) (oBlockSet (e224 (w, 6), 3)))

theorem widL_coordsV3 (c : Fin 2) (i : Fin 16) : widL3 (coordsV3 c i) = widEquiv (c, i) := Fin.ext rfl

set_option maxRecDepth 8192 in
set_option maxHeartbeats 1000000 in
theorem tileRes3_chain (d : Dev nD) (c : Fin 2) (i : Fin 16) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes3 d (coordsV3 c i) qx fi0 fi1 fi2 fi3 fx0 fx1 fx2 fx3 = chain3 d (widL3 (coordsV3 c i)) qx fi0 fi1 fi2 fi3 fx0 fx1 fx2 fx3 := by
  unfold tileRes3 chain3
  exact (sepCongr (pts_rowK_main_v39 d (coordsV3 c i) _ _ _) (sepCongr (pts_rowK_main_v41 d (coordsV3 c i) _ _ _) (sepCongr (pts_rowK_main_v43 d (coordsV3 c i) _ _ _) (sepCongr (pts_rowK_main_v45 d (coordsV3 c i) _ _ _) (sepCongr rfl (sepCongr rfl (sepCongr rfl (sepCongr rfl (sepCongr rfl (sepCongr rfl (sepCongr rfl (sepCongr rfl (sepCongr (owned_piece3_2 d (coordsV3 c i) _ _ 0) (sepCongr (owned_piece3_2 d (coordsV3 c i) _ _ 1) (sepCongr (owned_piece3_2 d (coordsV3 c i) _ _ 2) (sepCongr (owned_piece3_2 d (coordsV3 c i) _ _ 3) (sepCongr (owned_piece3_2 d (coordsV3 c i) _ _ 4) (sepCongr (owned_piece3_2 d (coordsV3 c i) _ _ 5) (sepCongr (owned_piece3_2 d (coordsV3 c i) _ _ 6) (sepCongr (owned_piece3_3 d (coordsV3 c i) _ _ 0) (sepCongr (owned_piece3_3 d (coordsV3 c i) _ _ 1) (sepCongr (owned_piece3_3 d (coordsV3 c i) _ _ 2) (sepCongr (owned_piece3_3 d (coordsV3 c i) _ _ 3) (sepCongr (owned_piece3_3 d (coordsV3 c i) _ _ 4) (sepCongr (owned_piece3_3 d (coordsV3 c i) _ _ 5) (sepCongr (owned_piece3_3 d (coordsV3 c i) _ _ 6) (sepCongr (owned_piece3_4 d (coordsV3 c i) _ _ 0) (sepCongr (owned_piece3_4 d (coordsV3 c i) _ _ 1) (sepCongr (owned_piece3_4 d (coordsV3 c i) _ _ 2) (sepCongr (owned_piece3_4 d (coordsV3 c i) _ _ 3) (sepCongr (owned_piece3_4 d (coordsV3 c i) _ _ 4) (sepCongr (owned_piece3_4 d (coordsV3 c i) _ _ 5) (sepCongr (owned_piece3_4 d (coordsV3 c i) _ _ 6) (sepCongr (owned_piece3_5 d (coordsV3 c i) _ _ 0) (sepCongr (owned_piece3_5 d (coordsV3 c i) _ _ 1) (sepCongr (owned_piece3_5 d (coordsV3 c i) _ _ 2) (sepCongr (owned_piece3_5 d (coordsV3 c i) _ _ 3) (sepCongr (owned_piece3_5 d (coordsV3 c i) _ _ 4) (sepCongr (owned_piece3_5 d (coordsV3 c i) _ _ 5) (owned_piece3_5 d (coordsV3 c i) _ _ 6))))))))))))))))))))))))))))))))))))))))

variable (m : (ℓ : Loc nD τ sig) → Buf (Elt F) ℓ)

/-- What task `(c, i)` of gather call 3 holds, regrouped. -/
def nice3 (d : Dev nD) (c : Fin 2) (i : Fin 16) : sProp 𝕄 :=
  iprop(
      ((SparseCore.T d).loc main_v39 ↦[iRowSet (widEquiv (c, i))]{fullShare} (Idx.slab 3 (m ((SparseCore.T d).loc main_arg4))))
    ∗ ((SparseCore.T d).loc main_v41 ↦[iRowSet (widEquiv (c, i))]{fullShare} (Idx.slab 3 (m ((SparseCore.T d).loc main_arg5))))
    ∗ ((SparseCore.T d).loc main_v43 ↦[iRowSet (widEquiv (c, i))]{fullShare} (Idx.slab 3 (m ((SparseCore.T d).loc main_arg6))))
    ∗ ((SparseCore.T d).loc main_v45 ↦[iRowSet (widEquiv (c, i))]{fullShare} (Idx.slab 3 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v46 ↦[oBlockSet (e224 (widEquiv (c, i), r), t)]{fullShare} fo))

set_option maxRecDepth 8192 in
set_option maxHeartbeats 1000000 in
theorem chain3_nice (d : Dev nD) (c : Fin 2) (i : Fin 16) :
    chain3 d (widEquiv (c, i)) (qTask c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) = nice3 m d c i := by
  unfold chain3 nice3 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes3_nice (d : Dev nD) (c : Fin 2) (i : Fin 16) : taskRes m 3 d c i = nice3 m d c i := by
  show tileRes3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) = _
  rw [tileRes3_chain, widL_coordsV3]
  exact chain3_nice m d c i

theorem tasks3_eq (d : Dev nD) :
    (bigSep Finset.univ fun c : Fin 2 => bigSep Finset.univ fun i : Fin 16 => taskRes m 3 d c i)
      = iprop((bigSep Finset.univ fun c : Fin 2 => bigSep Finset.univ fun i : Fin 16 => ((SparseCore.T d).loc main_v39 ↦[iRowSet (widEquiv (c, i))]{fullShare} (Idx.slab 3 (m ((SparseCore.T d).loc main_arg4)))))
        ∗ (bigSep Finset.univ fun c : Fin 2 => bigSep Finset.univ fun i : Fin 16 => ((SparseCore.T d).loc main_v41 ↦[iRowSet (widEquiv (c, i))]{fullShare} (Idx.slab 3 (m ((SparseCore.T d).loc main_arg5)))))
        ∗ (bigSep Finset.univ fun c : Fin 2 => bigSep Finset.univ fun i : Fin 16 => ((SparseCore.T d).loc main_v43 ↦[iRowSet (widEquiv (c, i))]{fullShare} (Idx.slab 3 (m ((SparseCore.T d).loc main_arg6)))))
        ∗ (bigSep Finset.univ fun c : Fin 2 => bigSep Finset.univ fun i : Fin 16 => ((SparseCore.T d).loc main_v45 ↦[iRowSet (widEquiv (c, i))]{fullShare} (Idx.slab 3 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v46 ↦[oBlockSet (e224 (widEquiv (c, i), r), t)]{fullShare} fo))) := by
  have h : (fun c : Fin 2 => bigSep Finset.univ fun i : Fin 16 => taskRes m 3 d c i)
      = fun c : Fin 2 => bigSep Finset.univ fun i : Fin 16 => nice3 m d c i :=
    funext fun c => congrArg (bigSep Finset.univ) (funext fun i => taskRes3_nice m d c i)
  rw [h]
  unfold nice3
  simp only [bigSep_sep']

/-- What gather call 3 takes whole. -/
def whole3 (d : Dev nD) : sProp 𝕄 :=
  iprop(((SparseCore.T d).loc main_v39 ↦{fullShare} (Idx.slab 3 (m ((SparseCore.T d).loc main_arg4)))) ∗ ((SparseCore.T d).loc main_v41 ↦{fullShare} (Idx.slab 3 (m ((SparseCore.T d).loc main_arg5))))
    ∗ ((SparseCore.T d).loc main_v43 ↦{fullShare} (Idx.slab 3 (m ((SparseCore.T d).loc main_arg6)))) ∗ ((SparseCore.T d).loc main_v45 ↦{fullShare} (Idx.slab 3 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v46 ↦{fullShare} f)

/-- THE DEAL for call 3. -/
theorem deal3_split (d : Dev nD) :
    whole3 m d ⊢ iprop(rest0 m d ∗ bigSep Finset.univ fun c : Fin 2 => bigSep Finset.univ fun i : Fin 16 => taskRes m 3 d c i) := by
  rw [tasks3_eq]
  unfold whole3 rest0
  rw [rows_main_v39 d, rows_main_v41 d, rows_main_v43 d, rows_main_v45 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v46 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal3_join (d : Dev nD) :
    iprop(rest0 m d ∗ bigSep Finset.univ fun c : Fin 2 => bigSep Finset.univ fun i : Fin 16 => taskRes m 3 d c i) ⊢ whole3 m d := by
  rw [tasks3_eq]
  unfold whole3 rest0
  rw [rows_main_v39 d, rows_main_v41 d, rows_main_v43 d, rows_main_v45 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v46 d); iexact Ho

end Cert.KernelIdeal.Sc

end
-- ==== Proof.ScCall3.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.ScLaunch
import proofs.«215994_g5102421148354_cont_8to1c4_853_29_alg».proof.Proof.MainCut
import proofs.«215994_g5102421148354_cont_8to1c4_853_29_alg».proof.Proof.ScDeal3

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 3 works on: its four index arrays, the four tables, its result. -/
abbrev l9_3 : List (DevRef τ sig) := [dr main_v39, dr main_v41, dr main_v43, dr main_v45, dr main_arg0, dr main_arg1, dr main_arg2, dr main_arg3, dr main_v46]
theorem l9_3_sub : (l9_3).toFinset ⊆ Pipeline.ucRefs τ sig := by decide
theorem l9_3_nodup : (l9_3).Nodup := by decide

theorem held9_3 (d : Dev nD) (W : Valuation τ sig (Elt F)) :
    (held (d.tc : Thread nD τ) (l9_3).toFinset W : sProp 𝕄)
      = iprop((((d, dr main_v39) : Loc nD τ sig) ↦{fullShare} W (dr main_v39)) ∗ (((d, dr main_v41) : Loc nD τ sig) ↦{fullShare} W (dr main_v41))
          ∗ (((d, dr main_v43) : Loc nD τ sig) ↦{fullShare} W (dr main_v43)) ∗ (((d, dr main_v45) : Loc nD τ sig) ↦{fullShare} W (dr main_v45))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v46) : Loc nD τ sig) ↦{fullShare} W (dr main_v46))) := by
  unfold held
  rw [bigSep_eq_bigSepL _ l9_3_nodup]
  rfl

/-- A SparseCore's share of call 3, over the two SparseCores: the thirty-two tasks'. -/
theorem st3_eq (d : Dev nD) :
    (bigSep Finset.univ fun c : Fin ((K (F := F)).nCore 3) => (P m).st 3 d c)
      = bigSep Finset.univ fun c : Fin 2 => bigSep Finset.univ fun i : Fin 16 => taskRes m 3 d c i :=
  bigSep_congr fun c _ =>
    show (bigSep Finset.univ fun i : Fin 16 => taskRes m 3 d (Fin.cast (nCore_eq 3) c) i) = bigSep Finset.univ fun i : Fin 16 => taskRes m 3 d c i from
      bigSep_congr fun i _ => congrArg (fun c' => taskRes m 3 d c' i) (Fin.ext rfl)

theorem dn3_eq (d : Dev nD) :
    (bigSep Finset.univ fun c : Fin ((K (F := F)).nCore 3) => (P m).dn 3 d c)
      = bigSep Finset.univ fun c : Fin 2 => bigSep Finset.univ fun i : Fin 16 => taskRes m 3 d c i :=
  bigSep_congr fun c _ =>
    show (bigSep Finset.univ fun i : Fin 16 => taskRes m 3 d (Fin.cast (nCore_eq 3) c) i) = bigSep Finset.univ fun i : Fin 16 => taskRes m 3 d c i from
      bigSep_congr fun i _ => congrArg (fun c' => taskRes m 3 d c' i) (Fin.ext rfl)

set_option maxHeartbeats 4000000 in
theorem call_step3 (κ : GSem nD τ sig → ℕ) (d : Dev nD) (W : Valuation τ sig (Elt F))
    (h12 : W (dr main_v39) = Idx.slab 3 (m ((SparseCore.T d).loc main_arg4))) (h14 : W (dr main_v41) = Idx.slab 3 (m ((SparseCore.T d).loc main_arg5)))
    (h16 : W (dr main_v43) = Idx.slab 3 (m ((SparseCore.T d).loc main_arg6))) (h18 : W (dr main_v45) = Idx.slab 3 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 3 ∗ held (d.tc : Thread nD τ) (Pipeline.ucRefs τ sig) W
        ∗ (∀ f : Buf (Elt F) ((SparseCore.T d).loc main_v46),
            iprop((K (F := F)).tcSt EH d 4 ∗ held (d.tc : Thread nD τ) (Pipeline.ucRefs τ sig) (Function.update W (dr main_v46) f)) -∗ Φ ⟨⟩))
      ⊢ wp frame (wpE ((K (F := F)).defs (D (F := F))) 𝒱 (SparseCore.T d) none) Set.univ ((K (F := F)).run d 3) Φ := by
  rw [held_sub_split (c := (d.tc : Thread nD τ)) l9_3_sub W, held9_3, h12, h14, h16, h18, ha0, ha1, ha2, ha3]
  iintro ⟨#Hctx, Hst, ⟨⟨H12, H14, H16, H18, A0, A1, A2, A3, O19⟩, Hrest⟩, Hk⟩
  ihave Hw := (deal3_split m d) $$ [H12 H14 H16 H18 A0 A1 A2 A3 O19]
  · unfold whole3
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 3) $$ [Hst Htasks Hr0 Hrest Hk]
  isplitr; · iexact Hctx
  isplitl [Hst]; · iexact Hst
  isplitl [Htasks]; · rw [st3_eq]; iexact Htasks
  iintro ⟨Hst, Hdn⟩
  ihave Hdn' := (Entails.of_eq (dn3_eq m d)) $$ Hdn
  ihave Hw2 := (deal3_join m d) $$ [Hr0 Hdn']
  · isplitl [Hr0] <;> iassumption
  unfold whole3
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_3_sub (Function.update W (dr main_v46) f), held9_3,
    Function.update_of_ne (show dr main_v39 ≠ dr main_v46 by decide), Function.update_of_ne (show dr main_v41 ≠ dr main_v46 by decide), Function.update_of_ne (show dr main_v43 ≠ dr main_v46 by decide), Function.update_of_ne (show dr main_v45 ≠ dr main_v46 by decide), Function.update_of_ne (show dr main_arg0 ≠ dr main_v46 by decide), Function.update_of_ne (show dr main_arg1 ≠ dr main_v46 by decide), Function.update_of_ne (show dr main_arg2 ≠ dr main_v46 by decide), Function.update_of_ne (show dr main_arg3 ≠ dr main_v46 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v46) f) (V' := W) (fun b hb =>
    Function.update_of_ne (fun e => (Finset.mem_sdiff.mp hb).2 (e ▸ (by decide : dr main_v46 ∈ (l9_3).toFinset))) _ _)]
  iexact Hrest

end Cert.KernelIdeal.Sc
end
-- ==== Proof.TcSplit.lean ====
import proofs.«215994_g5102421148354_cont_8to1c4_853_29_alg».proof.Proof.TcRegion
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The six arrays of each call among the TensorCore's unscoped buffers -/

/-- The TensorCore's unscoped buffers at contents `W` are call 4's six arrays at `W`'s entries and the rest. -/
theorem unscopedBufs_arrs4 (c : Dev nD) (W : (b : Ref sig .tc) → Buf (Elt F) ((c : Thread nD τ).loc b)) :
    (unscopedBufs c W : sProp 𝕄)
      = iprop(arrs4 (Ix := Ix) (Name := Name) (U := U) (Lvl := Lvl) c (fun w => W (Pipeline.arrRef spec4 w))
          ∗ Pipeline.unscopedRest (Ix := Ix) (Name := Name) (U := U) (Lvl := Lvl) spec4 c W) := by
  unfold arrs4
  exact Pipeline.unscopedBufs_split cfgs 0 launch4.win.arr_unscoped launch4.win.arr_inj c W

/-- The TensorCore's unscoped buffers at contents `W` are call 5's six arrays at `W`'s entries and the rest. -/
theorem unscopedBufs_arrs5 (c : Dev nD) (W : (b : Ref sig .tc) → Buf (Elt F) ((c : Thread nD τ).loc b)) :
    (unscopedBufs c W : sProp 𝕄)
      = iprop(arrs5 (Ix := Ix) (Name := Name) (U := U) (Lvl := Lvl) c (fun w => W (Pipeline.arrRef spec5 w))
          ∗ Pipeline.unscopedRest (Ix := Ix) (Name := Name) (U := U) (Lvl := Lvl) spec5 c W) := by
  unfold arrs5
  exact Pipeline.unscopedBufs_split cfgs 1 launch5.win.arr_unscoped launch5.win.arr_inj c W

/-- The TensorCore's unscoped buffers at contents `W` are call 6's six arrays at `W`'s entries and the rest. -/
theorem unscopedBufs_arrs6 (c : Dev nD) (W : (b : Ref sig .tc) → Buf (Elt F) ((c : Thread nD τ).loc b)) :
    (unscopedBufs c W : sProp 𝕄)
      = iprop(arrs6 (Ix := Ix) (Name := Name) (U := U) (Lvl := Lvl) c (fun w => W (Pipeline.arrRef spec6 w))
          ∗ Pipeline.unscopedRest (Ix := Ix) (Name := Name) (U := U) (Lvl := Lvl) spec6 c W) := by
  unfold arrs6
  exact Pipeline.unscopedBufs_split cfgs 2 launch6.win.arr_unscoped launch6.win.arr_inj c W

/-- The TensorCore's unscoped buffers at contents `W` are call 7's six arrays at `W`'s entries and the rest. -/
theorem unscopedBufs_arrs7 (c : Dev nD) (W : (b : Ref sig .tc) → Buf (Elt F) ((c : Thread nD τ).loc b)) :
    (unscopedBufs c W : sProp 𝕄)
      = iprop(arrs7 (Ix := Ix) (Name := Name) (U := U) (Lvl := Lvl) c (fun w => W (Pipeline.arrRef spec7 w))
          ∗ Pipeline.unscopedRest (Ix := Ix) (Name := Name) (U := U) (Lvl := Lvl) spec7 c W) := by
  unfold arrs7
  exact Pipeline.unscopedBufs_split cfgs 3 launch7.win.arr_unscoped launch7.win.arr_inj c W

/-- Back again: call 4's six arrays at `G` and the rest at `W` are the unscoped buffers at any contents `W'` that has
    the arrays at `G` and agrees with `W` off them. -/
theorem arrs4_unscopedBufs (c : Dev nD) (W W' : (b : Ref sig .tc) → Buf (Elt F) ((c : Thread nD τ).loc b))
    (G : (w : Fin 6) → Buf (Elt F) ((c : Thread nD τ).loc (Pipeline.arrRef spec4 w)))
    (hG : ∀ w, G w = W' (Pipeline.arrRef spec4 w))
    (hrest : ∀ b, b ∉ Finset.univ.image (Pipeline.arrRef spec4) → W' b = W b) :
    iprop(arrs4 (Ix := Ix) (Name := Name) (U := U) (Lvl := Lvl) c G
        ∗ Pipeline.unscopedRest (Ix := Ix) (Name := Name) (U := U) (Lvl := Lvl) spec4 c W)
      ⊢ (unscopedBufs c W' : sProp 𝕄) := by
  rw [unscopedBufs_arrs4 c W']
  refine sep_mono (Entails.of_eq ?_) (Entails.of_eq ?_)
  · unfold arrs4
    exact bigSep_congr fun w _ => by rw [hG]
  · unfold Pipeline.unscopedRest
    exact bigSep_congr fun b hb => by rw [hrest b (Finset.mem_sdiff.mp hb).2]

/-- Back again: call 5's six arrays at `G` and the rest at `W` are the unscoped buffers at any contents `W'` that has
    the arrays at `G` and agrees with `W` off them. -/
theorem arrs5_unscopedBufs (c : Dev nD) (W W' : (b : Ref sig .tc) → Buf (Elt F) ((c : Thread nD τ).loc b))
    (G : (w : Fin 6) → Buf (Elt F) ((c : Thread nD τ).loc (Pipeline.arrRef spec5 w)))
    (hG : ∀ w, G w = W' (Pipeline.arrRef spec5 w))
    (hrest : ∀ b, b ∉ Finset.univ.image (Pipeline.arrRef spec5) → W' b = W b) :
    iprop(arrs5 (Ix := Ix) (Name := Name) (U := U) (Lvl := Lvl) c G
        ∗ Pipeline.unscopedRest (Ix := Ix) (Name := Name) (U := U) (Lvl := Lvl) spec5 c W)
      ⊢ (unscopedBufs c W' : sProp 𝕄) := by
  rw [unscopedBufs_arrs5 c W']
  refine sep_mono (Entails.of_eq ?_) (Entails.of_eq ?_)
  · unfold arrs5
    exact bigSep_congr fun w _ => by rw [hG]
  · unfold Pipeline.unscopedRest
    exact bigSep_congr fun b hb => by rw [hrest b (Finset.mem_sdiff.mp hb).2]

/-- Back again: call 6's six arrays at `G` and the rest at `W` are the unscoped buffers at any contents `W'` that has
    the arrays at `G` and agrees with `W` off them. -/
theorem arrs6_unscopedBufs (c : Dev nD) (W W' : (b : Ref sig .tc) → Buf (Elt F) ((c : Thread nD τ).loc b))
    (G : (w : Fin 6) → Buf (Elt F) ((c : Thread nD τ).loc (Pipeline.arrRef spec6 w)))
    (hG : ∀ w, G w = W' (Pipeline.arrRef spec6 w))
    (hrest : ∀ b, b ∉ Finset.univ.image (Pipeline.arrRef spec6) → W' b = W b) :
    iprop(arrs6 (Ix := Ix) (Name := Name) (U := U) (Lvl := Lvl) c G
        ∗ Pipeline.unscopedRest (Ix := Ix) (Name := Name) (U := U) (Lvl := Lvl) spec6 c W)
      ⊢ (unscopedBufs c W' : sProp 𝕄) := by
  rw [unscopedBufs_arrs6 c W']
  refine sep_mono (Entails.of_eq ?_) (Entails.of_eq ?_)
  · unfold arrs6
    exact bigSep_congr fun w _ => by rw [hG]
  · unfold Pipeline.unscopedRest
    exact bigSep_congr fun b hb => by rw [hrest b (Finset.mem_sdiff.mp hb).2]

/-- Back again: call 7's six arrays at `G` and the rest at `W` are the unscoped buffers at any contents `W'` that has
    the arrays at `G` and agrees with `W` off them. -/
theorem arrs7_unscopedBufs (c : Dev nD) (W W' : (b : Ref sig .tc) → Buf (Elt F) ((c : Thread nD τ).loc b))
    (G : (w : Fin 6) → Buf (Elt F) ((c : Thread nD τ).loc (Pipeline.arrRef spec7 w)))
    (hG : ∀ w, G w = W' (Pipeline.arrRef spec7 w))
    (hrest : ∀ b, b ∉ Finset.univ.image (Pipeline.arrRef spec7) → W' b = W b) :
    iprop(arrs7 (Ix := Ix) (Name := Name) (U := U) (Lvl := Lvl) c G
        ∗ Pipeline.unscopedRest (Ix := Ix) (Name := Name) (U := U) (Lvl := Lvl) spec7 c W)
      ⊢ (unscopedBufs c W' : sProp 𝕄) := by
  rw [unscopedBufs_arrs7 c W']
  refine sep_mono (Entails.of_eq ?_) (Entails.of_eq ?_)
  · unfold arrs7
    exact bigSep_congr fun w _ => by rw [hG]
  · unfold Pipeline.unscopedRest
    exact bigSep_congr fun b hb => by rw [hrest b (Finset.mem_sdiff.mp hb).2]

end Cert.KernelIdeal.Tc

end
-- ==== Proof.TcFin.lean ====
import proofs.«215994_g5102421148354_cont_8to1c4_853_29_alg».proof.Proof.TcRegion
import Idealize.ShloMosaic.Lib.Pipeline.Value
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Fin

variable (V : Fin 4 → (c : Dev nD) → (b : Ref sig .tc) → Buf (Elt F) ((c : Thread nD τ).loc b))

/-! ## The result array after call 4 -/

/-- What grid point `t` of call 4 writes back: the part inside the array of the body's term on the five input blocks. -/
theorem flushed4_5 (c : Dev nD) (t : Fin cfg4.N) :
    (dat4 (Name := Name) (U := U) (Lvl := Lvl) (V 0) (Set.univ : Set (SemLoc sig × Ix)) c).flushed 5 t = (cfg4.win 5).cut (grid4.coords t) (out4_5 (iblk4 (V 0) c 0 t) (iblk4 (V 0) c 1 t) (iblk4 (V 0) c 2 t) (iblk4 (V 0) c 3 t) (iblk4 (V 0) c 4 t)) := by
  show (cfg4.win 5).cut (grid4.coords t) ((dat4 (Name := Name) (U := U) (Lvl := Lvl) (V 0) (Set.univ : Set (SemLoc sig × Ix)) c).after 5 t) = _
  rw [after4_5]

/-- Distinct grid points write distinct blocks of the result. -/
theorem idx_inj4 : ∀ t t' : Fin cfg4.N, win4_5.index t = win4_5.index t' → t = t' :=
  (by decide +kernel : ∀ t t' : Fin grid4.N, win4_5.index t = win4_5.index t' → t = t')

/-- So the blocks two grid points write back share no index of the result. -/
theorem disjoint4 : ∀ t t' : Fin cfg4.N, (cfg4.win 5).flush t = true → (cfg4.win 5).flush t' = true → t ≠ t' →
    Disjoint ((cfg4.win 5).blk t).view.set ((cfg4.win 5).blk t').view.set :=
  fun t t' _ _ hne => (cfg4.win 5).disjoint_blk fun h => hne (idx_inj4 t t' h)

/-- Block `t` of the result after call 4, read back through the window, is the body's term on the matching blocks of
    the gathered slab and on the parameters — cut at the array's end where the block overhangs it. -/
theorem fin4_block (c : Dev nD) (t : Fin cfg4.N) :
    ((cfg4.win 5).blk t).view.read (Elt F) (fin4 (Ix := Ix) (Name := Name) (U := U) (Lvl := Lvl) V c 5) = (cfg4.win 5).cut (grid4.coords t) (out4_5 (iblk4 (V 0) c 0 t) (iblk4 (V 0) c 1 t) (iblk4 (V 0) c 2 t) (iblk4 (V 0) c 3 t) (iblk4 (V 0) c 4 t)) := by
  unfold fin4
  rw [(dat4 (Name := Name) (U := U) (Lvl := Lvl) (V 0) (Set.univ : Set (SemLoc sig × Ix)) c).read_blk_arrAt_eq_flushed 5 disjoint4 cfg4.N t t.isLt (flush4_5 t), flushed4_5]

/-- An index of the result under no block of call 4 holds what the region found there. -/
theorem fin4_rest (c : Dev nD) (i : S100000x512.Idx) (h : ∀ t : Fin cfg4.N, i ∉ ((cfg4.win 5).blk t).view.set) :
    fin4 (Ix := Ix) (Name := Name) (U := U) (Lvl := Lvl) V c 5 i = V 0 c (Pipeline.arrRef spec4 5) i := by
  unfold fin4
  rw [(dat4 (Name := Name) (U := U) (Lvl := Lvl) (V 0) (Set.univ : Set (SemLoc sig × Ix)) c).arrAt_apply_of_forall_not_mem 5 cfg4.N i (fun t _ _ => h t), A_eq4]

/-- The five input arrays leave call 4 as they entered it. -/
theorem fin4_in (c : Dev nD) (w : Fin 6) (hw : (cfg4.win w).isOut = false) :
    fin4 (Ix := Ix) (Name := Name) (U := U) (Lvl := Lvl) V c w = V 0 c (Pipeline.arrRef spec4 w) := by
  unfold fin4
  rw [(dat4 (Name := Name) (U := U) (Lvl := Lvl) (V 0) (Set.univ : Set (SemLoc sig × Ix)) c).arrAt_in w hw, A_eq4]

/-! ## The result array after call 5 -/

/-- What grid point `t` of call 5 writes back: the part inside the array of the body's term on the five input blocks. -/
theorem flushed5_5 (c : Dev nD) (t : Fin cfg5.N) :
    (dat5 (Name := Name) (U := U) (Lvl := Lvl) (V 1) (Set.univ : Set (SemLoc sig × Ix)) c).flushed 5 t = (cfg5.win 5).cut (grid5.coords t) (out5_5 (iblk5 (V 1) c 0 t) (iblk5 (V 1) c 1 t) (iblk5 (V 1) c 2 t) (iblk5 (V 1) c 3 t) (iblk5 (V 1) c 4 t)) := by
  show (cfg5.win 5).cut (grid5.coords t) ((dat5 (Name := Name) (U := U) (Lvl := Lvl) (V 1) (Set.univ : Set (SemLoc sig × Ix)) c).after 5 t) = _
  rw [after5_5]

/-- Distinct grid points write distinct blocks of the result. -/
theorem idx_inj5 : ∀ t t' : Fin cfg5.N, win5_5.index t = win5_5.index t' → t = t' :=
  (by decide +kernel : ∀ t t' : Fin grid5.N, win5_5.index t = win5_5.index t' → t = t')

/-- So the blocks two grid points write back share no index of the result. -/
theorem disjoint5 : ∀ t t' : Fin cfg5.N, (cfg5.win 5).flush t = true → (cfg5.win 5).flush t' = true → t ≠ t' →
    Disjoint ((cfg5.win 5).blk t).view.set ((cfg5.win 5).blk t').view.set :=
  fun t t' _ _ hne => (cfg5.win 5).disjoint_blk fun h => hne (idx_inj5 t t' h)

/-- Block `t` of the result after call 5, read back through the window, is the body's term on the matching blocks of
    the gathered slab and on the parameters — cut at the array's end where the block overhangs it. -/
theorem fin5_block (c : Dev nD) (t : Fin cfg5.N) :
    ((cfg5.win 5).blk t).view.read (Elt F) (fin5 (Ix := Ix) (Name := Name) (U := U) (Lvl := Lvl) V c 5) = (cfg5.win 5).cut (grid5.coords t) (out5_5 (iblk5 (V 1) c 0 t) (iblk5 (V 1) c 1 t) (iblk5 (V 1) c 2 t) (iblk5 (V 1) c 3 t) (iblk5 (V 1) c 4 t)) := by
  unfold fin5
  rw [(dat5 (Name := Name) (U := U) (Lvl := Lvl) (V 1) (Set.univ : Set (SemLoc sig × Ix)) c).read_blk_arrAt_eq_flushed 5 disjoint5 cfg5.N t t.isLt (flush5_5 t), flushed5_5]

/-- An index of the result under no block of call 5 holds what the region found there. -/
theorem fin5_rest (c : Dev nD) (i : S100000x512.Idx) (h : ∀ t : Fin cfg5.N, i ∉ ((cfg5.win 5).blk t).view.set) :
    fin5 (Ix := Ix) (Name := Name) (U := U) (Lvl := Lvl) V c 5 i = V 1 c (Pipeline.arrRef spec5 5) i := by
  unfold fin5
  rw [(dat5 (Name := Name) (U := U) (Lvl := Lvl) (V 1) (Set.univ : Set (SemLoc sig × Ix)) c).arrAt_apply_of_forall_not_mem 5 cfg5.N i (fun t _ _ => h t), A_eq5]

/-- The five input arrays leave call 5 as they entered it. -/
theorem fin5_in (c : Dev nD) (w : Fin 6) (hw : (cfg5.win w).isOut = false) :
    fin5 (Ix := Ix) (Name := Name) (U := U) (Lvl := Lvl) V c w = V 1 c (Pipeline.arrRef spec5 w) := by
  unfold fin5
  rw [(dat5 (Name := Name) (U := U) (Lvl := Lvl) (V 1) (Set.univ : Set (SemLoc sig × Ix)) c).arrAt_in w hw, A_eq5]

/-! ## The result array after call 6 -/

/-- What grid point `t` of call 6 writes back: the part inside the array of the body's term on the five input blocks. -/
theorem flushed6_5 (c : Dev nD) (t : Fin cfg6.N) :
    (dat6 (Name := Name) (U := U) (Lvl := Lvl) (V 2) (Set.univ : Set (SemLoc sig × Ix)) c).flushed 5 t = (cfg6.win 5).cut (grid6.coords t) (out6_5 (iblk6 (V 2) c 0 t) (iblk6 (V 2) c 1 t) (iblk6 (V 2) c 2 t) (iblk6 (V 2) c 3 t) (iblk6 (V 2) c 4 t)) := by
  show (cfg6.win 5).cut (grid6.coords t) ((dat6 (Name := Name) (U := U) (Lvl := Lvl) (V 2) (Set.univ : Set (SemLoc sig × Ix)) c).after 5 t) = _
  rw [after6_5]

/-- Distinct grid points write distinct blocks of the result. -/
theorem idx_inj6 : ∀ t t' : Fin cfg6.N, win6_5.index t = win6_5.index t' → t = t' :=
  (by decide +kernel : ∀ t t' : Fin grid6.N, win6_5.index t = win6_5.index t' → t = t')

/-- So the blocks two grid points write back share no index of the result. -/
theorem disjoint6 : ∀ t t' : Fin cfg6.N, (cfg6.win 5).flush t = true → (cfg6.win 5).flush t' = true → t ≠ t' →
    Disjoint ((cfg6.win 5).blk t).view.set ((cfg6.win 5).blk t').view.set :=
  fun t t' _ _ hne => (cfg6.win 5).disjoint_blk fun h => hne (idx_inj6 t t' h)

/-- Block `t` of the result after call 6, read back through the window, is the body's term on the matching blocks of
    the gathered slab and on the parameters — cut at the array's end where the block overhangs it. -/
theorem fin6_block (c : Dev nD) (t : Fin cfg6.N) :
    ((cfg6.win 5).blk t).view.read (Elt F) (fin6 (Ix := Ix) (Name := Name) (U := U) (Lvl := Lvl) V c 5) = (cfg6.win 5).cut (grid6.coords t) (out6_5 (iblk6 (V 2) c 0 t) (iblk6 (V 2) c 1 t) (iblk6 (V 2) c 2 t) (iblk6 (V 2) c 3 t) (iblk6 (V 2) c 4 t)) := by
  unfold fin6
  rw [(dat6 (Name := Name) (U := U) (Lvl := Lvl) (V 2) (Set.univ : Set (SemLoc sig × Ix)) c).read_blk_arrAt_eq_flushed 5 disjoint6 cfg6.N t t.isLt (flush6_5 t), flushed6_5]

/-- An index of the result under no block of call 6 holds what the region found there. -/
theorem fin6_rest (c : Dev nD) (i : S100000x512.Idx) (h : ∀ t : Fin cfg6.N, i ∉ ((cfg6.win 5).blk t).view.set) :
    fin6 (Ix := Ix) (Name := Name) (U := U) (Lvl := Lvl) V c 5 i = V 2 c (Pipeline.arrRef spec6 5) i := by
  unfold fin6
  rw [(dat6 (Name := Name) (U := U) (Lvl := Lvl) (V 2) (Set.univ : Set (SemLoc sig × Ix)) c).arrAt_apply_of_forall_not_mem 5 cfg6.N i (fun t _ _ => h t), A_eq6]

/-- The five input arrays leave call 6 as they entered it. -/
theorem fin6_in (c : Dev nD) (w : Fin 6) (hw : (cfg6.win w).isOut = false) :
    fin6 (Ix := Ix) (Name := Name) (U := U) (Lvl := Lvl) V c w = V 2 c (Pipeline.arrRef spec6 w) := by
  unfold fin6
  rw [(dat6 (Name := Name) (U := U) (Lvl := Lvl) (V 2) (Set.univ : Set (SemLoc sig × Ix)) c).arrAt_in w hw, A_eq6]

/-! ## The result array after call 7 -/

/-- What grid point `t` of call 7 writes back: the part inside the array of the body's term on the five input blocks. -/
theorem flushed7_5 (c : Dev nD) (t : Fin cfg7.N) :
    (dat7 (Name := Name) (U := U) (Lvl := Lvl) (V 3) (Set.univ : Set (SemLoc sig × Ix)) c).flushed 5 t = (cfg7.win 5).cut (grid7.coords t) (out7_5 (iblk7 (V 3) c 0 t) (iblk7 (V 3) c 1 t) (iblk7 (V 3) c 2 t) (iblk7 (V 3) c 3 t) (iblk7 (V 3) c 4 t)) := by
  show (cfg7.win 5).cut (grid7.coords t) ((dat7 (Name := Name) (U := U) (Lvl := Lvl) (V 3) (Set.univ : Set (SemLoc sig × Ix)) c).after 5 t) = _
  rw [after7_5]

/-- Distinct grid points write distinct blocks of the result. -/
theorem idx_inj7 : ∀ t t' : Fin cfg7.N, win7_5.index t = win7_5.index t' → t = t' :=
  (by decide +kernel : ∀ t t' : Fin grid7.N, win7_5.index t = win7_5.index t' → t = t')

/-- So the blocks two grid points write back share no index of the result. -/
theorem disjoint7 : ∀ t t' : Fin cfg7.N, (cfg7.win 5).flush t = true → (cfg7.win 5).flush t' = true → t ≠ t' →
    Disjoint ((cfg7.win 5).blk t).view.set ((cfg7.win 5).blk t').view.set :=
  fun t t' _ _ hne => (cfg7.win 5).disjoint_blk fun h => hne (idx_inj7 t t' h)

/-- Block `t` of the result after call 7, read back through the window, is the body's term on the matching blocks of
    the gathered slab and on the parameters — cut at the array's end where the block overhangs it. -/
theorem fin7_block (c : Dev nD) (t : Fin cfg7.N) :
    ((cfg7.win 5).blk t).view.read (Elt F) (fin7 (Ix := Ix) (Name := Name) (U := U) (Lvl := Lvl) V c 5) = (cfg7.win 5).cut (grid7.coords t) (out7_5 (iblk7 (V 3) c 0 t) (iblk7 (V 3) c 1 t) (iblk7 (V 3) c 2 t) (iblk7 (V 3) c 3 t) (iblk7 (V 3) c 4 t)) := by
  unfold fin7
  rw [(dat7 (Name := Name) (U := U) (Lvl := Lvl) (V 3) (Set.univ : Set (SemLoc sig × Ix)) c).read_blk_arrAt_eq_flushed 5 disjoint7 cfg7.N t t.isLt (flush7_5 t), flushed7_5]

/-- An index of the result under no block of call 7 holds what the region found there. -/
theorem fin7_rest (c : Dev nD) (i : S100000x512.Idx) (h : ∀ t : Fin cfg7.N, i ∉ ((cfg7.win 5).blk t).view.set) :
    fin7 (Ix := Ix) (Name := Name) (U := U) (Lvl := Lvl) V c 5 i = V 3 c (Pipeline.arrRef spec7 5) i := by
  unfold fin7
  rw [(dat7 (Name := Name) (U := U) (Lvl := Lvl) (V 3) (Set.univ : Set (SemLoc sig × Ix)) c).arrAt_apply_of_forall_not_mem 5 cfg7.N i (fun t _ _ => h t), A_eq7]

/-- The five input arrays leave call 7 as they entered it. -/
theorem fin7_in (c : Dev nD) (w : Fin 6) (hw : (cfg7.win w).isOut = false) :
    fin7 (Ix := Ix) (Name := Name) (U := U) (Lvl := Lvl) V c w = V 3 c (Pipeline.arrRef spec7 w) := by
  unfold fin7
  rw [(dat7 (Name := Name) (U := U) (Lvl := Lvl) (V 3) (Set.univ : Set (SemLoc sig × Ix)) c).arrAt_in w hw, A_eq7]

end Fin

end Cert.KernelIdeal.Tc

end
-- ==== Proof.ScRegion0.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ)

/-- The buffers' contents as the regions' theorems take them: the same on every device. -/
abbrev asV (W : Valuation τ sig (Elt F)) : Fin 4 → (c : Dev nD) → (b : Ref sig .tc) → Buf (Elt F) ((c.tc : Thread nD τ).loc b) := fun _ _ b => W (dr b)

set_option maxHeartbeats 4000000 in
theorem region_step0 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 0 d ∗ Pipeline.toksInit (Pipeline.pin (pcfgs (F := F)) Tc.adm) (EP (F := F)) 0 d
        ∗ (∀ g : Buf (Elt F) ((SparseCore.T d).loc main_v47),
            iprop((K (F := F)).tcSt EH d 4 ∗ boundary (SparseCore.T d) ∗ held (d.tc : Thread nD τ) (Pipeline.ucRefs τ sig) (Function.update W (dr main_v47) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs4 (Ix := HIx 4) (Name := ℕ) (U := UU) (Lvl := ℕ) d (fun b => W (dr b)))) $$ Hub
  icases Hsp with ⟨Harr, Hur⟩
  iapply (Tc.lift_region4 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin4 (Ix := HIx 4) (Name := ℕ) (U := UU) (Lvl := ℕ) (asV W) d w
      = Function.update W (dr main_v47) (Tc.fin4 (Ix := HIx 4) (Name := ℕ) (U := UU) (Lvl := ℕ) (asV W) d 5) (dr (Pipeline.arrRef spec4 w)) := by
    intro w
    fin_cases w
    · exact (Tc.fin4_in (asV W) d 0 rfl).trans (Function.update_of_ne (show dr (Pipeline.arrRef spec4 0) ≠ dr main_v47 by decide) _ _).symm
    · exact (Tc.fin4_in (asV W) d 1 rfl).trans (Function.update_of_ne (show dr (Pipeline.arrRef spec4 1) ≠ dr main_v47 by decide) _ _).symm
    · exact (Tc.fin4_in (asV W) d 2 rfl).trans (Function.update_of_ne (show dr (Pipeline.arrRef spec4 2) ≠ dr main_v47 by decide) _ _).symm
    · exact (Tc.fin4_in (asV W) d 3 rfl).trans (Function.update_of_ne (show dr (Pipeline.arrRef spec4 3) ≠ dr main_v47 by decide) _ _).symm
    · exact (Tc.fin4_in (asV W) d 4 rfl).trans (Function.update_of_ne (show dr (Pipeline.arrRef spec4 4) ≠ dr main_v47 by decide) _ _).symm
    · exact (Function.update_self (dr main_v47) _ W).symm
  have hrest : ∀ b, b ∉ Finset.image (Pipeline.arrRef spec4) Finset.univ →
      Function.update W (dr main_v47) (Tc.fin4 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin4 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs4_unscopedBufs (Ix := HIx 4) (Name := ℕ) (U := UU) (Lvl := ℕ) d (fun b => W (dr b))
      (fun b => Function.update W (dr main_v47) (Tc.fin4 (Ix := HIx 4) (Name := ℕ) (U := UU) (Lvl := ℕ) (asV W) d 5) (dr b)) (Tc.fin4 (asV W) d) hG hrest) $$ [Harr Hur]
  · isplitl [Harr] <;> iassumption
  iapply (Entails.of_eq (Pipeline.unscopedBufs_held d (Function.update W (dr main_v47) (Tc.fin4 (Ix := HIx 4) (Name := ℕ) (U := UU) (Lvl := ℕ) (asV W) d 5))))
  iexact Hub2

end Cert.KernelIdeal.Sc
end
-- ==== Proof.ScRegion1.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step1 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 1 d ∗ Pipeline.toksInit (Pipeline.pin (pcfgs (F := F)) Tc.adm) (EP (F := F)) 1 d
        ∗ (∀ g : Buf (Elt F) ((SparseCore.T d).loc main_v48),
            iprop((K (F := F)).tcSt EH d 4 ∗ boundary (SparseCore.T d) ∗ held (d.tc : Thread nD τ) (Pipeline.ucRefs τ sig) (Function.update W (dr main_v48) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 1)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs5 (Ix := HIx 4) (Name := ℕ) (U := UU) (Lvl := ℕ) d (fun b => W (dr b)))) $$ Hub
  icases Hsp with ⟨Harr, Hur⟩
  iapply (Tc.lift_region5 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin5 (Ix := HIx 4) (Name := ℕ) (U := UU) (Lvl := ℕ) (asV W) d w
      = Function.update W (dr main_v48) (Tc.fin5 (Ix := HIx 4) (Name := ℕ) (U := UU) (Lvl := ℕ) (asV W) d 5) (dr (Pipeline.arrRef spec5 w)) := by
    intro w
    fin_cases w
    · exact (Tc.fin5_in (asV W) d 0 rfl).trans (Function.update_of_ne (show dr (Pipeline.arrRef spec5 0) ≠ dr main_v48 by decide) _ _).symm
    · exact (Tc.fin5_in (asV W) d 1 rfl).trans (Function.update_of_ne (show dr (Pipeline.arrRef spec5 1) ≠ dr main_v48 by decide) _ _).symm
    · exact (Tc.fin5_in (asV W) d 2 rfl).trans (Function.update_of_ne (show dr (Pipeline.arrRef spec5 2) ≠ dr main_v48 by decide) _ _).symm
    · exact (Tc.fin5_in (asV W) d 3 rfl).trans (Function.update_of_ne (show dr (Pipeline.arrRef spec5 3) ≠ dr main_v48 by decide) _ _).symm
    · exact (Tc.fin5_in (asV W) d 4 rfl).trans (Function.update_of_ne (show dr (Pipeline.arrRef spec5 4) ≠ dr main_v48 by decide) _ _).symm
    · exact (Function.update_self (dr main_v48) _ W).symm
  have hrest : ∀ b, b ∉ Finset.image (Pipeline.arrRef spec5) Finset.univ →
      Function.update W (dr main_v48) (Tc.fin5 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin5 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs5_unscopedBufs (Ix := HIx 4) (Name := ℕ) (U := UU) (Lvl := ℕ) d (fun b => W (dr b))
      (fun b => Function.update W (dr main_v48) (Tc.fin5 (Ix := HIx 4) (Name := ℕ) (U := UU) (Lvl := ℕ) (asV W) d 5) (dr b)) (Tc.fin5 (asV W) d) hG hrest) $$ [Harr Hur]
  · isplitl [Harr] <;> iassumption
  iapply (Entails.of_eq (Pipeline.unscopedBufs_held d (Function.update W (dr main_v48) (Tc.fin5 (Ix := HIx 4) (Name := ℕ) (U := UU) (Lvl := ℕ) (asV W) d 5))))
  iexact Hub2

end Cert.KernelIdeal.Sc
end
-- ==== Proof.ScRegion2.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step2 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 2 d ∗ Pipeline.toksInit (Pipeline.pin (pcfgs (F := F)) Tc.adm) (EP (F := F)) 2 d
        ∗ (∀ g : Buf (Elt F) ((SparseCore.T d).loc main_v49),
            iprop((K (F := F)).tcSt EH d 4 ∗ boundary (SparseCore.T d) ∗ held (d.tc : Thread nD τ) (Pipeline.ucRefs τ sig) (Function.update W (dr main_v49) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 2)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs6 (Ix := HIx 4) (Name := ℕ) (U := UU) (Lvl := ℕ) d (fun b => W (dr b)))) $$ Hub
  icases Hsp with ⟨Harr, Hur⟩
  iapply (Tc.lift_region6 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin6 (Ix := HIx 4) (Name := ℕ) (U := UU) (Lvl := ℕ) (asV W) d w
      = Function.update W (dr main_v49) (Tc.fin6 (Ix := HIx 4) (Name := ℕ) (U := UU) (Lvl := ℕ) (asV W) d 5) (dr (Pipeline.arrRef spec6 w)) := by
    intro w
    fin_cases w
    · exact (Tc.fin6_in (asV W) d 0 rfl).trans (Function.update_of_ne (show dr (Pipeline.arrRef spec6 0) ≠ dr main_v49 by decide) _ _).symm
    · exact (Tc.fin6_in (asV W) d 1 rfl).trans (Function.update_of_ne (show dr (Pipeline.arrRef spec6 1) ≠ dr main_v49 by decide) _ _).symm
    · exact (Tc.fin6_in (asV W) d 2 rfl).trans (Function.update_of_ne (show dr (Pipeline.arrRef spec6 2) ≠ dr main_v49 by decide) _ _).symm
    · exact (Tc.fin6_in (asV W) d 3 rfl).trans (Function.update_of_ne (show dr (Pipeline.arrRef spec6 3) ≠ dr main_v49 by decide) _ _).symm
    · exact (Tc.fin6_in (asV W) d 4 rfl).trans (Function.update_of_ne (show dr (Pipeline.arrRef spec6 4) ≠ dr main_v49 by decide) _ _).symm
    · exact (Function.update_self (dr main_v49) _ W).symm
  have hrest : ∀ b, b ∉ Finset.image (Pipeline.arrRef spec6) Finset.univ →
      Function.update W (dr main_v49) (Tc.fin6 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin6 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs6_unscopedBufs (Ix := HIx 4) (Name := ℕ) (U := UU) (Lvl := ℕ) d (fun b => W (dr b))
      (fun b => Function.update W (dr main_v49) (Tc.fin6 (Ix := HIx 4) (Name := ℕ) (U := UU) (Lvl := ℕ) (asV W) d 5) (dr b)) (Tc.fin6 (asV W) d) hG hrest) $$ [Harr Hur]
  · isplitl [Harr] <;> iassumption
  iapply (Entails.of_eq (Pipeline.unscopedBufs_held d (Function.update W (dr main_v49) (Tc.fin6 (Ix := HIx 4) (Name := ℕ) (U := UU) (Lvl := ℕ) (asV W) d 5))))
  iexact Hub2

end Cert.KernelIdeal.Sc
end
-- ==== Proof.ScRegion3.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step3 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 3 d ∗ Pipeline.toksInit (Pipeline.pin (pcfgs (F := F)) Tc.adm) (EP (F := F)) 3 d
        ∗ (∀ g : Buf (Elt F) ((SparseCore.T d).loc main_v50),
            iprop((K (F := F)).tcSt EH d 4 ∗ boundary (SparseCore.T d) ∗ held (d.tc : Thread nD τ) (Pipeline.ucRefs τ sig) (Function.update W (dr main_v50) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 3)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs7 (Ix := HIx 4) (Name := ℕ) (U := UU) (Lvl := ℕ) d (fun b => W (dr b)))) $$ Hub
  icases Hsp with ⟨Harr, Hur⟩
  iapply (Tc.lift_region7 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin7 (Ix := HIx 4) (Name := ℕ) (U := UU) (Lvl := ℕ) (asV W) d w
      = Function.update W (dr main_v50) (Tc.fin7 (Ix := HIx 4) (Name := ℕ) (U := UU) (Lvl := ℕ) (asV W) d 5) (dr (Pipeline.arrRef spec7 w)) := by
    intro w
    fin_cases w
    · exact (Tc.fin7_in (asV W) d 0 rfl).trans (Function.update_of_ne (show dr (Pipeline.arrRef spec7 0) ≠ dr main_v50 by decide) _ _).symm
    · exact (Tc.fin7_in (asV W) d 1 rfl).trans (Function.update_of_ne (show dr (Pipeline.arrRef spec7 1) ≠ dr main_v50 by decide) _ _).symm
    · exact (Tc.fin7_in (asV W) d 2 rfl).trans (Function.update_of_ne (show dr (Pipeline.arrRef spec7 2) ≠ dr main_v50 by decide) _ _).symm
    · exact (Tc.fin7_in (asV W) d 3 rfl).trans (Function.update_of_ne (show dr (Pipeline.arrRef spec7 3) ≠ dr main_v50 by decide) _ _).symm
    · exact (Tc.fin7_in (asV W) d 4 rfl).trans (Function.update_of_ne (show dr (Pipeline.arrRef spec7 4) ≠ dr main_v50 by decide) _ _).symm
    · exact (Function.update_self (dr main_v50) _ W).symm
  have hrest : ∀ b, b ∉ Finset.image (Pipeline.arrRef spec7) Finset.univ →
      Function.update W (dr main_v50) (Tc.fin7 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin7 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs7_unscopedBufs (Ix := HIx 4) (Name := ℕ) (U := UU) (Lvl := ℕ) d (fun b => W (dr b))
      (fun b => Function.update W (dr main_v50) (Tc.fin7 (Ix := HIx 4) (Name := ℕ) (U := UU) (Lvl := ℕ) (asV W) d 5) (dr b)) (Tc.fin7 (asV W) d) hG hrest) $$ [Harr Hur]
  · isplitl [Harr] <;> iassumption
  iapply (Entails.of_eq (Pipeline.unscopedBufs_held d (Function.update W (dr main_v50) (Tc.fin7 (Ix := HIx 4) (Name := ℕ) (U := UU) (Lvl := ℕ) (asV W) d 5))))
  iexact Hub2

end Cert.KernelIdeal.Sc
end
-- ==== Proof.ScScoped.lean ====
/-
  A vector subcore's own storage, with a listed part of it set apart.

  The launch hands a task all of its subcore's scoped semaphores at zero and all of its scoped buffers at whatever they hold,
  each as one product over a finite set.  A kernel uses a few of them by name: the product is the chain over a list of those,
  beside the product over the rest.
-/
import proofs.«215994_g5102421148354_cont_8to1c4_853_29_alg».proof.Proof.ScBase

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [Cert.KernelIdeal.Facts]

local notation "𝕄" => MT nD τ sig (HIx 4) (Elt F) ℕ UU ℕ

/-- The chain over the image of a list is the chain over the list. -/
theorem bigSepL_map {A B : Type} (g : A → B) (l : List A) (Φ : B → sProp 𝕄) :
    bigSepL (l.map g) Φ = bigSepL l fun a => Φ (g a) := by
  induction l with
  | nil => rfl
  | cons a l ih => rw [List.map_cons, bigSepL_cons, bigSepL_cons, ih]

/-- A product over a finite set, a listed part of the set taken out as a chain. -/
theorem bigSep_take {A : Type} [DecidableEq A] (s : Finset A) (l : List A) (hl : l.Nodup) (hs : ∀ a ∈ l, a ∈ s) (Φ : A → sProp 𝕄) :
    bigSep s Φ = iprop(bigSepL l Φ ∗ bigSep (s \ l.toFinset) Φ) := by
  rw [SparseCore.bigSep_sdiff_split' (t := l.toFinset) (fun a ha => hs a (List.mem_toFinset.mp ha)), bigSep_eq_bigSepL l hl]

/-- The subcore's scoped semaphores at zero: those of a list, and the rest. -/
theorem ownSems0_take (thr : Thread nD τ) (l : List (SemLoc sig)) (hl : l.Nodup)
    (hs : ∀ s ∈ l, s.isScoped thr.2.kind = true) :
    (ownSems0 thr : sProp 𝕄)
      = iprop(bigSepL l (fun s => semVal ((thr, s) : GSem nD τ sig) 0)
          ∗ bigSep (ownCells thr \ (l.map fun s => ((thr, s) : GSem nD τ sig)).toFinset) fun g => semVal g 0) := by
  unfold SparseCore.Cfg.ownSems0
  rw [bigSep_take (ownCells thr) (l.map fun s => ((thr, s) : GSem nD τ sig))
      (hl.map (fun _ _ e => (Prod.mk.inj e).2))
      (fun g hg => by
        obtain ⟨s, hs', rfl⟩ := List.mem_map.mp hg
        exact mem_ownCells.mpr ⟨rfl, hs s hs'⟩),
    bigSepL_map]

/-- The subcore's scoped buffers at whatever they hold: those of a list, and the rest. -/
theorem ownBufs_take (thr : Thread nD τ) (l : List (DevRef τ sig)) (hl : l.Nodup) (hs : ∀ b ∈ l, b ∈ ownRefs (sig := sig) thr.2) :
    (ownBufs thr : sProp 𝕄)
      = iprop(bigSepL l (fun b => iprop(∃ f, ((thr.1, b) : Loc nD τ sig) ↦{fullShare} f))
          ∗ bigSep (ownRefs thr.2 \ l.toFinset) fun b => iprop(∃ f, ((thr.1, b) : Loc nD τ sig) ↦{fullShare} f)) := by
  unfold SparseCore.Cfg.ownBufs
  rw [bigSep_take (ownRefs thr.2) l hl hs]

end Cert.KernelIdeal.Sc

end
-- ==== Proof.ScMain.lean ====
/-
  @main on the TensorCore, inside the launch: seven stretches of host operations, four gather calls, four layer-norm regions.
  One valuation of the TensorCore's whole buffers is threaded through.  What is kept throughout: the twelve argument arrays
  and the four padded index arrays stay as the first stretch of host operations left them — every later host operation, call
  and region writes elsewhere.  Each call finds its index arrays at the slab of the padded index inputs that the stretch before
  it cut and reshaped, and the tables at the inputs; at the end the twelve arguments are whole at their launch contents.
-/
import proofs.«215994_g5102421148354_cont_8to1c4_853_29_alg».proof.Proof.ScCall0
import proofs.«215994_g5102421148354_cont_8to1c4_853_29_alg».proof.Proof.ScCall1
import proofs.«215994_g5102421148354_cont_8to1c4_853_29_alg».proof.Proof.ScCall2
import proofs.«215994_g5102421148354_cont_8to1c4_853_29_alg».proof.Proof.ScCall3
import proofs.«215994_g5102421148354_cont_8to1c4_853_29_alg».proof.Proof.ScRegion0
import proofs.«215994_g5102421148354_cont_8to1c4_853_29_alg».proof.Proof.ScRegion1
import proofs.«215994_g5102421148354_cont_8to1c4_853_29_alg».proof.Proof.ScRegion2
import proofs.«215994_g5102421148354_cont_8to1c4_853_29_alg».proof.Proof.ScRegion3
import proofs.«215994_g5102421148354_cont_8to1c4_853_29_alg».proof.Proof.ScScoped

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The launch valuation of device `d`'s buffers. -/
abbrev V0 (d : Dev nD) : Valuation τ sig (Elt F) := fun b => m (d, b)

/-- The buffers no later step writes: the twelve arguments and the four padded index arrays. -/
abbrev keepL : List (Ref sig .tc) := [main_arg0, main_arg1, main_arg2, main_arg3, main_arg4, main_arg5, main_arg6, main_arg7, main_arg8, main_arg9, main_arg10, main_arg11, main_v1, main_v3, main_v5, main_v7]

/-- A valuation agrees with what the first host stretch left on the kept buffers. -/
def Kept (d : Dev nD) (W : Valuation τ sig (Elt F)) : Prop := ∀ b ∈ keepL, W (dr b) = after Tc.hostA (V0 m d) (dr b)

theorem kept_A (d : Dev nD) : Kept m d (after Tc.hostA (V0 m d)) := fun _ _ => rfl

theorem kept_update (d : Dev nD) {W : Valuation τ sig (Elt F)} (h : Kept m d W) (r : Ref sig .tc) (hr : r ∉ keepL) (f : (dr r).ty.Contents (Elt F)) :
    Kept m d (Function.update W (dr r) f) := fun b hb =>
  (Function.update_of_ne (fun e => hr (by rw [← Proc.devRef_injective _ e]; exact hb)) _ _).trans (h b hb)

theorem keep_B1 : ∀ b ∈ keepL, b ∉ Tc.hostB1_W := by decide
theorem keep_B2 : ∀ b ∈ keepL, b ∉ Tc.hostB2_W := by decide
theorem keep_B3 : ∀ b ∈ keepL, b ∉ Tc.hostB3_W := by decide
theorem keep_c1 : ∀ b ∈ keepL, b ∉ Tc.cp1_W := by decide
theorem keep_c2 : ∀ b ∈ keepL, b ∉ Tc.cp2_W := by decide
theorem keep_c3 : ∀ b ∈ keepL, b ∉ Tc.cp3_W := by decide

theorem kept_B1 (d : Dev nD) {W : Valuation τ sig (Elt F)} (h : Kept m d W) : Kept m d (after Tc.hostB1 W) := fun b hb => (Tc.hostB1_keep W b (keep_B1 b hb)).trans (h b hb)
theorem kept_B2 (d : Dev nD) {W : Valuation τ sig (Elt F)} (h : Kept m d W) : Kept m d (after Tc.hostB2 W) := fun b hb => (Tc.hostB2_keep W b (keep_B2 b hb)).trans (h b hb)
theorem kept_B3 (d : Dev nD) {W : Valuation τ sig (Elt F)} (h : Kept m d W) : Kept m d (after Tc.hostB3 W) := fun b hb => (Tc.hostB3_keep W b (keep_B3 b hb)).trans (h b hb)
theorem kept_c1 (d : Dev nD) {W : Valuation τ sig (Elt F)} (h : Kept m d W) : Kept m d (after Tc.cp1 W) := fun b hb => (Tc.cp1_keep W b (keep_c1 b hb)).trans (h b hb)
theorem kept_c2 (d : Dev nD) {W : Valuation τ sig (Elt F)} (h : Kept m d W) : Kept m d (after Tc.cp2 W) := fun b hb => (Tc.cp2_keep W b (keep_c2 b hb)).trans (h b hb)
theorem kept_c3 (d : Dev nD) {W : Valuation τ sig (Elt F)} (h : Kept m d W) : Kept m d (after Tc.cp3 W) := fun b hb => (Tc.cp3_keep W b (keep_c3 b hb)).trans (h b hb)

/-- On a kept valuation an argument array is at its launch contents, -/
theorem kept_arg (d : Dev nD) {W : Valuation τ sig (Elt F)} (h : Kept m d W) (b : Ref sig .tc) (hb : b ∈ keepL) (hA : b ∉ Tc.hostA_W) :
    W (dr b) = m ((SparseCore.T d).loc b) := (h b hb).trans (Tc.hostA_keep (V0 m d) b hA)

/-- The twelve argument arrays, listed. -/
abbrev argL : List (Ref sig .tc) := [main_arg0, main_arg1, main_arg2, main_arg3, main_arg4, main_arg5, main_arg6, main_arg7, main_arg8, main_arg9, main_arg10, main_arg11]
theorem argL_nodup : (argL).Nodup := by decide
theorem argS_eq : argS = (argL).toFinset := by decide
theorem argD_sub : ((argL).map dr).toFinset ⊆ Pipeline.ucRefs τ sig := by decide
theorem argD_nodup : ((argL).map dr).Nodup := argL_nodup.map (Proc.devRef_injective _)

theorem chain12 (Φ : Ref sig .tc → sProp 𝕄) : bigSepL argL Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_arg10 ∗ Φ main_arg11) := rfl

/-- From the TensorCore's whole buffers at a kept valuation: the twelve arguments whole at their launch contents. -/
theorem fin_of_held (d : Dev nD) (W : Valuation τ sig (Elt F)) (h : Kept m d W) :
    (held (d.tc : Thread nD τ) (Pipeline.ucRefs τ sig) W : sProp 𝕄) ⊢ FIN m d := by
  rw [held_sub_split (c := (d.tc : Thread nD τ)) argD_sub W]
  unfold FIN held
  rw [bigSep_eq_bigSepL _ argD_nodup, bigSepL_map, bigSep_eq_bigSepL_of_eq argL argS_eq argL_nodup, chain12, chain12]
  iintro ⟨⟨H0, H1, H2, H3, H4, H5, H6, H7, H8, H9, H10, H11⟩, -⟩
  isplitl [H0]; · rw [← kept_arg m d h main_arg0 (by decide) (by decide)]; iexact H0
  isplitl [H1]; · rw [← kept_arg m d h main_arg1 (by decide) (by decide)]; iexact H1
  isplitl [H2]; · rw [← kept_arg m d h main_arg2 (by decide) (by decide)]; iexact H2
  isplitl [H3]; · rw [← kept_arg m d h main_arg3 (by decide) (by decide)]; iexact H3
  isplitl [H4]; · rw [← kept_arg m d h main_arg4 (by decide) (by decide)]; iexact H4
  isplitl [H5]; · rw [← kept_arg m d h main_arg5 (by decide) (by decide)]; iexact H5
  isplitl [H6]; · rw [← kept_arg m d h main_arg6 (by decide) (by decide)]; iexact H6
  isplitl [H7]; · rw [← kept_arg m d h main_arg7 (by decide) (by decide)]; iexact H7
  isplitl [H8]; · rw [← kept_arg m d h main_arg8 (by decide) (by decide)]; iexact H8
  isplitl [H9]; · rw [← kept_arg m d h main_arg9 (by decide) (by decide)]; iexact H9
  isplitl [H10]; · rw [← kept_arg m d h main_arg10 (by decide) (by decide)]; iexact H10
  rw [← kept_arg m d h main_arg11 (by decide) (by decide)]; iexact H11

set_option maxHeartbeats 16000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  rw [Tc.main_eq]
  simp only [Prog.lift, Prog.bind_op, Prog.bind_ret, Prog.pure_eq_ret]
  unfold G
  rw [Tc.bigSep_P4]
  iintro ⟨#Hctx, Hst, Hres, ⟨Hcg0, Hti0⟩, ⟨Hcg1, Hti1⟩, ⟨Hcg2, Hti2⟩, ⟨Hcg3, Hti3⟩⟩
  ihave Hr := (Tc.tcRes_split m ρ d) $$ Hres
  icases Hr with ⟨Hb, Hub, -, -⟩
  ihave Hh := (Entails.of_eq (show (unscopedBufs d (fun b => m ((SparseCore.T d).loc b)) : sProp 𝕄) = held (d.tc : Thread nD τ) (Pipeline.ucRefs τ sig) (V0 m d) from Pipeline.unscopedBufs_held d (V0 m d))) $$ Hub
  -- the host operations hostA
  ihave Hs0 := (wp_seq 𝒱 none Set.univ d (Pipeline.ucRefs τ sig) _ Tc.hostA Tc.hostA_sub Tc.hostA_fresh (V0 m d)) $$ [Hb Hh]
  · isplitl [Hb] <;> iassumption
  iapply Hs0
  iintro ⟨Hb, Hh⟩
  have hK0 : Kept m d (after Tc.hostA (V0 m d)) := kept_A m d
  generalize hWA : after Tc.hostA (V0 m d) = WA at hK0 ⊢
  -- gather call 0
  rw [wp_bind]
  iapply (call_step0 m κ d WA (hWA ▸ Tc.hostA_v12 (V0 m d)) (hWA ▸ Tc.hostA_v14 (V0 m d)) (hWA ▸ Tc.hostA_v16 (V0 m d)) (hWA ▸ Tc.hostA_v18 (V0 m d)) (kept_arg m d hK0 main_arg0 (by decide) (by decide)) (kept_arg m d hK0 main_arg1 (by decide) (by decide)) (kept_arg m d hK0 main_arg2 (by decide) (by decide)) (kept_arg m d hK0 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f0 ⟨Hst, Hh⟩
  have hK1 : Kept m d (Function.update WA (dr main_v19) f0) := kept_update m d hK0 main_v19 (by decide) f0
  generalize hW1 : Function.update WA (dr main_v19) f0 = W1 at hK1 ⊢
  -- the host operations hostB1
  ihave Hs1 := (wp_seq 𝒱 none Set.univ d (Pipeline.ucRefs τ sig) _ Tc.hostB1 Tc.hostB1_sub Tc.hostB1_fresh W1) $$ [Hb Hh]
  · isplitl [Hb] <;> iassumption
  iapply Hs1
  iintro ⟨Hb, Hh⟩
  have hKB1 : Kept m d (after Tc.hostB1 W1) := kept_B1 m d hK1
  -- gather call 1
  rw [wp_bind]
  iapply (call_step1 m κ d (after Tc.hostB1 W1) (Tc.hostB1_v21 W1 (m ((SparseCore.T d).loc main_arg4)) ((hK1 main_v1 (by decide)).trans (Tc.hostA_v1 (V0 m d)))) (Tc.hostB1_v23 W1 (m ((SparseCore.T d).loc main_arg5)) ((hK1 main_v3 (by decide)).trans (Tc.hostA_v3 (V0 m d)))) (Tc.hostB1_v25 W1 (m ((SparseCore.T d).loc main_arg6)) ((hK1 main_v5 (by decide)).trans (Tc.hostA_v5 (V0 m d)))) (Tc.hostB1_v27 W1 (m ((SparseCore.T d).loc main_arg7)) ((hK1 main_v7 (by decide)).trans (Tc.hostA_v7 (V0 m d)))) (kept_arg m d hKB1 main_arg0 (by decide) (by decide)) (kept_arg m d hKB1 main_arg1 (by decide) (by decide)) (kept_arg m d hKB1 main_arg2 (by decide) (by decide)) (kept_arg m d hKB1 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f1 ⟨Hst, Hh⟩
  have hK2 : Kept m d (Function.update (after Tc.hostB1 W1) (dr main_v28) f1) := kept_update m d hKB1 main_v28 (by decide) f1
  generalize hW2 : Function.update (after Tc.hostB1 W1) (dr main_v28) f1 = W2 at hK2 ⊢
  -- the host operations hostB2
  ihave Hs2 := (wp_seq 𝒱 none Set.univ d (Pipeline.ucRefs τ sig) _ Tc.hostB2 Tc.hostB2_sub Tc.hostB2_fresh W2) $$ [Hb Hh]
  · isplitl [Hb] <;> iassumption
  iapply Hs2
  iintro ⟨Hb, Hh⟩
  have hKB2 : Kept m d (after Tc.hostB2 W2) := kept_B2 m d hK2
  -- gather call 2
  rw [wp_bind]
  iapply (call_step2 m κ d (after Tc.hostB2 W2) (Tc.hostB2_v30 W2 (m ((SparseCore.T d).loc main_arg4)) ((hK2 main_v1 (by decide)).trans (Tc.hostA_v1 (V0 m d)))) (Tc.hostB2_v32 W2 (m ((SparseCore.T d).loc main_arg5)) ((hK2 main_v3 (by decide)).trans (Tc.hostA_v3 (V0 m d)))) (Tc.hostB2_v34 W2 (m ((SparseCore.T d).loc main_arg6)) ((hK2 main_v5 (by decide)).trans (Tc.hostA_v5 (V0 m d)))) (Tc.hostB2_v36 W2 (m ((SparseCore.T d).loc main_arg7)) ((hK2 main_v7 (by decide)).trans (Tc.hostA_v7 (V0 m d)))) (kept_arg m d hKB2 main_arg0 (by decide) (by decide)) (kept_arg m d hKB2 main_arg1 (by decide) (by decide)) (kept_arg m d hKB2 main_arg2 (by decide) (by decide)) (kept_arg m d hKB2 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f2 ⟨Hst, Hh⟩
  have hK3 : Kept m d (Function.update (after Tc.hostB2 W2) (dr main_v37) f2) := kept_update m d hKB2 main_v37 (by decide) f2
  generalize hW3 : Function.update (after Tc.hostB2 W2) (dr main_v37) f2 = W3 at hK3 ⊢
  -- the host operations hostB3
  ihave Hs3 := (wp_seq 𝒱 none Set.univ d (Pipeline.ucRefs τ sig) _ Tc.hostB3 Tc.hostB3_sub Tc.hostB3_fresh W3) $$ [Hb Hh]
  · isplitl [Hb] <;> iassumption
  iapply Hs3
  iintro ⟨Hb, Hh⟩
  have hKB3 : Kept m d (after Tc.hostB3 W3) := kept_B3 m d hK3
  -- gather call 3
  rw [wp_bind]
  iapply (call_step3 m κ d (after Tc.hostB3 W3) (Tc.hostB3_v39 W3 (m ((SparseCore.T d).loc main_arg4)) ((hK3 main_v1 (by decide)).trans (Tc.hostA_v1 (V0 m d)))) (Tc.hostB3_v41 W3 (m ((SparseCore.T d).loc main_arg5)) ((hK3 main_v3 (by decide)).trans (Tc.hostA_v3 (V0 m d)))) (Tc.hostB3_v43 W3 (m ((SparseCore.T d).loc main_arg6)) ((hK3 main_v5 (by decide)).trans (Tc.hostA_v5 (V0 m d)))) (Tc.hostB3_v45 W3 (m ((SparseCore.T d).loc main_arg7)) ((hK3 main_v7 (by decide)).trans (Tc.hostA_v7 (V0 m d)))) (kept_arg m d hKB3 main_arg0 (by decide) (by decide)) (kept_arg m d hKB3 main_arg1 (by decide) (by decide)) (kept_arg m d hKB3 main_arg2 (by decide) (by decide)) (kept_arg m d hKB3 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f3 ⟨Hst, Hh⟩
  have hK4 : Kept m d (Function.update (after Tc.hostB3 W3) (dr main_v46) f3) := kept_update m d hKB3 main_v46 (by decide) f3
  generalize hW4 : Function.update (after Tc.hostB3 W3) (dr main_v46) f3 = W4 at hK4 ⊢
  -- layer-norm region 0
  iapply (region_step0 m κ d W4 _ _) $$ [Hst Hb Hh Hcg0 Hti0 Hcg1 Hti1 Hcg2 Hti2 Hcg3 Hti3]
  isplitr; · iexact Hctx
  isplitl [Hst]; · iexact Hst
  isplitl [Hb]; · iexact Hb
  isplitl [Hh]; · iexact Hh
  isplitl [Hcg0]; · iexact Hcg0
  isplitl [Hti0]; · iexact Hti0
  iintro %g0 ⟨Hst, Hb, Hh⟩
  have hKr0 : Kept m d (Function.update W4 (dr main_v47) g0) := kept_update m d hK4 main_v47 (by decide) g0
  generalize hWr0 : Function.update W4 (dr main_v47) g0 = Wr0 at hKr0 ⊢
  -- the host operations cp1
  ihave Hs4 := (wp_seq 𝒱 none Set.univ d (Pipeline.ucRefs τ sig) _ Tc.cp1 Tc.cp1_sub Tc.cp1_fresh Wr0) $$ [Hb Hh]
  · isplitl [Hb] <;> iassumption
  iapply Hs4
  iintro ⟨Hb, Hh⟩
  have hKc1 : Kept m d (after Tc.cp1 Wr0) := kept_c1 m d hKr0
  generalize hWc1 : after Tc.cp1 Wr0 = Wc1 at hKc1 ⊢
  -- layer-norm region 1
  iapply (region_step1 m κ d Wc1 _ _) $$ [Hst Hb Hh Hcg1 Hti1 Hcg2 Hti2 Hcg3 Hti3]
  isplitr; · iexact Hctx
  isplitl [Hst]; · iexact Hst
  isplitl [Hb]; · iexact Hb
  isplitl [Hh]; · iexact Hh
  isplitl [Hcg1]; · iexact Hcg1
  isplitl [Hti1]; · iexact Hti1
  iintro %g1 ⟨Hst, Hb, Hh⟩
  have hKr1 : Kept m d (Function.update Wc1 (dr main_v48) g1) := kept_update m d hKc1 main_v48 (by decide) g1
  generalize hWr1 : Function.update Wc1 (dr main_v48) g1 = Wr1 at hKr1 ⊢
  -- the host operations cp2
  ihave Hs5 := (wp_seq 𝒱 none Set.univ d (Pipeline.ucRefs τ sig) _ Tc.cp2 Tc.cp2_sub Tc.cp2_fresh Wr1) $$ [Hb Hh]
  · isplitl [Hb] <;> iassumption
  iapply Hs5
  iintro ⟨Hb, Hh⟩
  have hKc2 : Kept m d (after Tc.cp2 Wr1) := kept_c2 m d hKr1
  generalize hWc2 : after Tc.cp2 Wr1 = Wc2 at hKc2 ⊢
  -- layer-norm region 2
  iapply (region_step2 m κ d Wc2 _ _) $$ [Hst Hb Hh Hcg2 Hti2 Hcg3 Hti3]
  isplitr; · iexact Hctx
  isplitl [Hst]; · iexact Hst
  isplitl [Hb]; · iexact Hb
  isplitl [Hh]; · iexact Hh
  isplitl [Hcg2]; · iexact Hcg2
  isplitl [Hti2]; · iexact Hti2
  iintro %g2 ⟨Hst, Hb, Hh⟩
  have hKr2 : Kept m d (Function.update Wc2 (dr main_v49) g2) := kept_update m d hKc2 main_v49 (by decide) g2
  generalize hWr2 : Function.update Wc2 (dr main_v49) g2 = Wr2 at hKr2 ⊢
  -- the host operations cp3
  ihave Hs6 := (wp_seq 𝒱 none Set.univ d (Pipeline.ucRefs τ sig) _ Tc.cp3 Tc.cp3_sub Tc.cp3_fresh Wr2) $$ [Hb Hh]
  · isplitl [Hb] <;> iassumption
  iapply Hs6
  iintro ⟨Hb, Hh⟩
  have hKc3 : Kept m d (after Tc.cp3 Wr2) := kept_c3 m d hKr2
  generalize hWc3 : after Tc.cp3 Wr2 = Wc3 at hKc3 ⊢
  -- layer-norm region 3
  iapply (region_step3 m κ d Wc3 _ _) $$ [Hst Hb Hh Hcg3 Hti3]
  isplitr; · iexact Hctx
  isplitl [Hst]; · iexact Hst
  isplitl [Hb]; · iexact Hb
  isplitl [Hh]; · iexact Hh
  isplitl [Hcg3]; · iexact Hcg3
  isplitl [Hti3]; · iexact Hti3
  iintro %g3 ⟨Hst, Hb, Hh⟩
  have hKr3 : Kept m d (Function.update Wc3 (dr main_v50) g3) := kept_update m d hKc3 main_v50 (by decide) g3
  generalize hWr3 : Function.update Wc3 (dr main_v50) g3 = Wr3 at hKr3 ⊢
  -- the return
  rw [wp_ret]; imodintro
  isplitl [Hst]; · iexact Hst
  iapply (fin_of_held m d Wr3 hKr3)
  iexact Hh

end Cert.KernelIdeal.Sc

end
-- ==== Proof.ScTile0.lean ====
/-
  One vector subcore's task in gather call 0: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScGrid

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body0 (d : Dev nD) (L : grid0.Coords) (O : CellTallies nD τ sig (HIx 4)) (W : Waits sig (HIx 4)) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    :
    iprop(Transfers.MayWaits (V d (cV0 L) (jV0 L)) (none : HIx 4) O
        ∗ ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
        ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
        ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
        ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
        ∗ ((Memref.whole main_arg0_scv : Memref sig .scVector .hbm S100000x128 .f32).view.loc (V d (cV0 L) (jV0 L)) ↦{Transfers.shareTok qx 11 (4 : Fin 11)} fx0)
        ∗ ((Memref.whole main_arg0_scv : Memref sig .scVector .hbm S100000x128 .f32).view.loc (V d (cV0 L) (jV0 L)) ↦{Transfers.shareTok qx 11 (5 : Fin 11)} fx0)
        ∗ ((Memref.whole main_arg0_scv : Memref sig .scVector .hbm S100000x128 .f32).view.loc (V d (cV0 L) (jV0 L)) ↦{Transfers.shareTok qx 11 (6 : Fin 11)} fx0)
        ∗ ((Memref.whole main_arg0_scv : Memref sig .scVector .hbm S100000x128 .f32).view.loc (V d (cV0 L) (jV0 L)) ↦{Transfers.shareTok qx 11 (7 : Fin 11)} fx0)
        ∗ ((Memref.whole main_arg0_scv : Memref sig .scVector .hbm S100000x128 .f32).view.loc (V d (cV0 L) (jV0 L)) ↦{Transfers.shareTok qx 11 (8 : Fin 11)} fx0)
        ∗ ((Memref.whole main_arg0_scv : Memref sig .scVector .hbm S100000x128 .f32).view.loc (V d (cV0 L) (jV0 L)) ↦{Transfers.shareTok qx 11 (9 : Fin 11)} fx0)
        ∗ ((Memref.whole main_arg0_scv : Memref sig .scVector .hbm S100000x128 .f32).view.loc (V d (cV0 L) (jV0 L)) ↦{Transfers.shareTok qx 11 (10 : Fin 11)} fx0)
        ∗ ((Memref.whole main_arg1_scv : Memref sig .scVector .hbm S100000x128 .f32).view.loc (V d (cV0 L) (jV0 L)) ↦{Transfers.shareTok qx 11 (4 : Fin 11)} fx1)
        ∗ ((Memref.whole main_arg1_scv : Memref sig .scVector .hbm S100000x128 .f32).view.loc (V d (cV0 L) (jV0 L)) ↦{Transfers.shareTok qx 11 (5 : Fin 11)} fx1)
        ∗ ((Memref.whole main_arg1_scv : Memref sig .scVector .hbm S100000x128 .f32).view.loc (V d (cV0 L) (jV0 L)) ↦{Transfers.shareTok qx 11 (6 : Fin 11)} fx1)
        ∗ ((Memref.whole main_arg1_scv : Memref sig .scVector .hbm S100000x128 .f32).view.loc (V d (cV0 L) (jV0 L)) ↦{Transfers.shareTok qx 11 (7 : Fin 11)} fx1)
        ∗ ((Memref.whole main_arg1_scv : Memref sig .scVector .hbm S100000x128 .f32).view.loc (V d (cV0 L) (jV0 L)) ↦{Transfers.shareTok qx 11 (8 : Fin 11)} fx1)
        ∗ ((Memref.whole main_arg1_scv : Memref sig .scVector .hbm S100000x128 .f32).view.loc (V d (cV0 L) (jV0 L)) ↦{Transfers.shareTok qx 11 (9 : Fin 11)} fx1)
        ∗ ((Memref.whole main_arg1_scv : Memref sig .scVector .hbm S100000x128 .f32).view.loc (V d (cV0 L) (jV0 L)) ↦{Transfers.shareTok qx 11 (10 : Fin 11)} fx1)
        ∗ ((Memref.whole main_arg2_scv : Memref sig .scVector .hbm S100000x128 .f32).view.loc (V d (cV0 L) (jV0 L)) ↦{Transfers.shareTok qx 11 (4 : Fin 11)} fx2)
        ∗ ((Memref.whole main_arg2_scv : Memref sig .scVector .hbm S100000x128 .f32).view.loc (V d (cV0 L) (jV0 L)) ↦{Transfers.shareTok qx 11 (5 : Fin 11)} fx2)
        ∗ ((Memref.whole main_arg2_scv : Memref sig .scVector .hbm S100000x128 .f32).view.loc (V d (cV0 L) (jV0 L)) ↦{Transfers.shareTok qx 11 (6 : Fin 11)} fx2)
        ∗ ((Memref.whole main_arg2_scv : Memref sig .scVector .hbm S100000x128 .f32).view.loc (V d (cV0 L) (jV0 L)) ↦{Transfers.shareTok qx 11 (7 : Fin 11)} fx2)
        ∗ ((Memref.whole main_arg2_scv : Memref sig .scVector .hbm S100000x128 .f32).view.loc (V d (cV0 L) (jV0 L)) ↦{Transfers.shareTok qx 11 (8 : Fin 11)} fx2)
        ∗ ((Memref.whole main_arg2_scv : Memref sig .scVector .hbm S100000x128 .f32).view.loc (V d (cV0 L) (jV0 L)) ↦{Transfers.shareTok qx 11 (9 : Fin 11)} fx2)
        ∗ ((Memref.whole main_arg2_scv : Memref sig .scVector .hbm S100000x128 .f32).view.loc (V d (cV0 L) (jV0 L)) ↦{Transfers.shareTok qx 11 (10 : Fin 11)} fx2)
        ∗ ((Memref.whole main_arg3_scv : Memref sig .scVector .hbm S100000x128 .f32).view.loc (V d (cV0 L) (jV0 L)) ↦{Transfers.shareTok qx 11 (4 : Fin 11)} fx3)
        ∗ ((Memref.whole main_arg3_scv : Memref sig .scVector .hbm S100000x128 .f32).view.loc (V d (cV0 L) (jV0 L)) ↦{Transfers.shareTok qx 11 (5 : Fin 11)} fx3)
        ∗ ((Memref.whole main_arg3_scv : Memref sig .scVector .hbm S100000x128 .f32).view.loc (V d (cV0 L) (jV0 L)) ↦{Transfers.shareTok qx 11 (6 : Fin 11)} fx3)
        ∗ ((Memref.whole main_arg3_scv : Memref sig .scVector .hbm S100000x128 .f32).view.loc (V d (cV0 L) (jV0 L)) ↦{Transfers.shareTok qx 11 (7 : Fin 11)} fx3)
        ∗ ((Memref.whole main_arg3_scv : Memref sig .scVector .hbm S100000x128 .f32).view.loc (V d (cV0 L) (jV0 L)) ↦{Transfers.shareTok qx 11 (8 : Fin 11)} fx3)
        ∗ ((Memref.whole main_arg3_scv : Memref sig .scVector .hbm S100000x128 .f32).view.loc (V d (cV0 L) (jV0 L)) ↦{Transfers.shareTok qx 11 (9 : Fin 11)} fx3)
        ∗ ((Memref.whole main_arg3_scv : Memref sig .scVector .hbm S100000x128 .f32).view.loc (V d (cV0 L) (jV0 L)) ↦{Transfers.shareTok qx 11 (10 : Fin 11)} fx3)
        ∗ (∃ fo, ((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} fo)
        ∗ (∃ fo, ((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} fo)
        ∗ (∃ fo, ((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} fo)
        ∗ (∃ fo, ((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} fo)
        ∗ (∃ fo, ((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} fo)
        ∗ (∃ fo, ((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} fo)
        ∗ (∃ fo, ((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} fo)
        ∗ (∃ fo, ((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} fo)
        ∗ (∃ fo, ((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} fo)
        ∗ (∃ fo, ((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} fo)
        ∗ (∃ fo, ((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} fo)
        ∗ (∃ fo, ((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} fo)
        ∗ (∃ fo, ((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} fo)
        ∗ (∃ fo, ((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} fo)
        ∗ (∃ fo, ((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} fo)
        ∗ (∃ fo, ((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} fo)
        ∗ (∃ fo, ((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} fo)
        ∗ (∃ fo, ((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} fo)
        ∗ (∃ fo, ((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} fo)
        ∗ (∃ fo, ((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} fo)
        ∗ (∃ fo, ((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} fo)
        ∗ (∃ fo, ((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} fo)
        ∗ (∃ fo, ((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} fo)
        ∗ (∃ fo, ((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} fo)
        ∗ (∃ fo, ((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} fo)
        ∗ (∃ fo, ((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} fo)
        ∗ (∃ fo, ((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} fo)
        ∗ (∃ fo, ((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} fo)
        ∗ (∃ si, (Memref.whole cc0_scratch0 : Memref sig .scVector .vmem S7x112 .i32).view.loc (V d (cV0 L) (jV0 L)) ↦{fullShare} si)
        ∗ (∃ si, (Memref.whole cc0_scratch1 : Memref sig .scVector .vmem S7x112 .i32).view.loc (V d (cV0 L) (jV0 L)) ↦{fullShare} si)
        ∗ (∃ si, (Memref.whole cc0_scratch2 : Memref sig .scVector .vmem S7x112 .i32).view.loc (V d (cV0 L) (jV0 L)) ↦{fullShare} si)
        ∗ (∃ si, (Memref.whole cc0_scratch3 : Memref sig .scVector .vmem S7x112 .i32).view.loc (V d (cV0 L) (jV0 L)) ↦{fullShare} si)
        ∗ (∃ sb, (Memref.whole cc0_scratch4 : Memref sig .scVector .vmem S112x128 .f32).view.loc (V d (cV0 L) (jV0 L)) ↦{fullShare} sb)
        ∗ (∃ sb, (Memref.whole cc0_scratch5 : Memref sig .scVector .vmem S112x128 .f32).view.loc (V d (cV0 L) (jV0 L)) ↦{fullShare} sb)
        ∗ (∃ sb, (Memref.whole cc0_scratch6 : Memref sig .scVector .vmem S112x128 .f32).view.loc (V d (cV0 L) (jV0 L)) ↦{fullShare} sb)
        ∗ (∃ sb, (Memref.whole cc0_scratch7 : Memref sig .scVector .vmem S112x128 .f32).view.loc (V d (cV0 L) (jV0 L)) ↦{fullShare} sb)
        ∗ (∃ sb, (Memref.whole cc0_scratch8 : Memref sig .scVector .vmem S112x128 .f32).view.loc (V d (cV0 L) (jV0 L)) ↦{fullShare} sb)
        ∗ (∃ sb, (Memref.whole cc0_scratch9 : Memref sig .scVector .vmem S112x128 .f32).view.loc (V d (cV0 L) (jV0 L)) ↦{fullShare} sb)
        ∗ (∃ sb, (Memref.whole cc0_scratch10 : Memref sig .scVector .vmem S112x128 .f32).view.loc (V d (cV0 L) (jV0 L)) ↦{fullShare} sb)
        ∗ semVal ((V d (cV0 L) (jV0 L)), SemLoc.dma cc0_scratch11.sem) 0
        ∗ semVal ((V d (cV0 L) (jV0 L)), SemLoc.dma cc0_scratch12.sem) 0
        ∗ semVal ((V d (cV0 L) (jV0 L)), SemLoc.dma cc0_scratch13.sem) 0
        ∗ semVal ((V d (cV0 L) (jV0 L)), SemLoc.dma cc0_scratch14.sem) 0
        ∗ semVal ((V d (cV0 L) (jV0 L)), SemLoc.dma cc0_scratch15.sem) 0
        ∗ semVal ((V d (cV0 L) (jV0 L)), SemLoc.dma cc0_scratch16.sem) 0
        ∗ semVal ((V d (cV0 L) (jV0 L)), SemLoc.dma cc0_scratch17.sem) 0
        ∗ semVal ((V d (cV0 L) (jV0 L)), SemLoc.dma cc0_scratch18.sem) 0
        ∗ semVal ((V d (cV0 L) (jV0 L)), SemLoc.dma cc0_scratch19.sem) 0
        ∗ semVal ((V d (cV0 L) (jV0 L)), SemLoc.dma cc0_scratch20.sem) 0
        ∗ semVal ((V d (cV0 L) (jV0 L)), SemLoc.dma cc0_scratch21.sem) 0
        ∗ semVal ((V d (cV0 L) (jV0 L)), SemLoc.dma cc0_scratch22.sem) 0
        ∗ semVal ((V d (cV0 L) (jV0 L)), SemLoc.dma cc0_scratch23.sem) 0
        ∗ semVal ((V d (cV0 L) (jV0 L)), SemLoc.dma cc0_scratch24.sem) 0
        ∗ semVal ((V d (cV0 L) (jV0 L)), SemLoc.dma cc0_scratch25.sem) 0
        ∗ semVal ((V d (cV0 L) (jV0 L)), SemLoc.dma cc0_scratch26.sem) 0
        ∗ semVal ((V d (cV0 L) (jV0 L)), SemLoc.dma cc0_scratch27.sem) 0
        ∗ semVal ((V d (cV0 L) (jV0 L)), SemLoc.dma cc0_scratch28.sem) 0
        ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(
              ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
            ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
            ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
            ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
            ∗ ((Memref.whole main_arg0_scv : Memref sig .scVector .hbm S100000x128 .f32).view.loc (V d (cV0 L) (jV0 L)) ↦{Transfers.shareTok qx 11 (4 : Fin 11)} fx0)
            ∗ ((Memref.whole main_arg0_scv : Memref sig .scVector .hbm S100000x128 .f32).view.loc (V d (cV0 L) (jV0 L)) ↦{Transfers.shareTok qx 11 (5 : Fin 11)} fx0)
            ∗ ((Memref.whole main_arg0_scv : Memref sig .scVector .hbm S100000x128 .f32).view.loc (V d (cV0 L) (jV0 L)) ↦{Transfers.shareTok qx 11 (6 : Fin 11)} fx0)
            ∗ ((Memref.whole main_arg0_scv : Memref sig .scVector .hbm S100000x128 .f32).view.loc (V d (cV0 L) (jV0 L)) ↦{Transfers.shareTok qx 11 (7 : Fin 11)} fx0)
            ∗ ((Memref.whole main_arg0_scv : Memref sig .scVector .hbm S100000x128 .f32).view.loc (V d (cV0 L) (jV0 L)) ↦{Transfers.shareTok qx 11 (8 : Fin 11)} fx0)
            ∗ ((Memref.whole main_arg0_scv : Memref sig .scVector .hbm S100000x128 .f32).view.loc (V d (cV0 L) (jV0 L)) ↦{Transfers.shareTok qx 11 (9 : Fin 11)} fx0)
            ∗ ((Memref.whole main_arg0_scv : Memref sig .scVector .hbm S100000x128 .f32).view.loc (V d (cV0 L) (jV0 L)) ↦{Transfers.shareTok qx 11 (10 : Fin 11)} fx0)
            ∗ ((Memref.whole main_arg1_scv : Memref sig .scVector .hbm S100000x128 .f32).view.loc (V d (cV0 L) (jV0 L)) ↦{Transfers.shareTok qx 11 (4 : Fin 11)} fx1)
            ∗ ((Memref.whole main_arg1_scv : Memref sig .scVector .hbm S100000x128 .f32).view.loc (V d (cV0 L) (jV0 L)) ↦{Transfers.shareTok qx 11 (5 : Fin 11)} fx1)
            ∗ ((Memref.whole main_arg1_scv : Memref sig .scVector .hbm S100000x128 .f32).view.loc (V d (cV0 L) (jV0 L)) ↦{Transfers.shareTok qx 11 (6 : Fin 11)} fx1)
            ∗ ((Memref.whole main_arg1_scv : Memref sig .scVector .hbm S100000x128 .f32).view.loc (V d (cV0 L) (jV0 L)) ↦{Transfers.shareTok qx 11 (7 : Fin 11)} fx1)
            ∗ ((Memref.whole main_arg1_scv : Memref sig .scVector .hbm S100000x128 .f32).view.loc (V d (cV0 L) (jV0 L)) ↦{Transfers.shareTok qx 11 (8 : Fin 11)} fx1)
            ∗ ((Memref.whole main_arg1_scv : Memref sig .scVector .hbm S100000x128 .f32).view.loc (V d (cV0 L) (jV0 L)) ↦{Transfers.shareTok qx 11 (9 : Fin 11)} fx1)
            ∗ ((Memref.whole main_arg1_scv : Memref sig .scVector .hbm S100000x128 .f32).view.loc (V d (cV0 L) (jV0 L)) ↦{Transfers.shareTok qx 11 (10 : Fin 11)} fx1)
            ∗ ((Memref.whole main_arg2_scv : Memref sig .scVector .hbm S100000x128 .f32).view.loc (V d (cV0 L) (jV0 L)) ↦{Transfers.shareTok qx 11 (4 : Fin 11)} fx2)
            ∗ ((Memref.whole main_arg2_scv : Memref sig .scVector .hbm S100000x128 .f32).view.loc (V d (cV0 L) (jV0 L)) ↦{Transfers.shareTok qx 11 (5 : Fin 11)} fx2)
            ∗ ((Memref.whole main_arg2_scv : Memref sig .scVector .hbm S100000x128 .f32).view.loc (V d (cV0 L) (jV0 L)) ↦{Transfers.shareTok qx 11 (6 : Fin 11)} fx2)
            ∗ ((Memref.whole main_arg2_scv : Memref sig .scVector .hbm S100000x128 .f32).view.loc (V d (cV0 L) (jV0 L)) ↦{Transfers.shareTok qx 11 (7 : Fin 11)} fx2)
            ∗ ((Memref.whole main_arg2_scv : Memref sig .scVector .hbm S100000x128 .f32).view.loc (V d (cV0 L) (jV0 L)) ↦{Transfers.shareTok qx 11 (8 : Fin 11)} fx2)
            ∗ ((Memref.whole main_arg2_scv : Memref sig .scVector .hbm S100000x128 .f32).view.loc (V d (cV0 L) (jV0 L)) ↦{Transfers.shareTok qx 11 (9 : Fin 11)} fx2)
            ∗ ((Memref.whole main_arg2_scv : Memref sig .scVector .hbm S100000x128 .f32).view.loc (V d (cV0 L) (jV0 L)) ↦{Transfers.shareTok qx 11 (10 : Fin 11)} fx2)
            ∗ ((Memref.whole main_arg3_scv : Memref sig .scVector .hbm S100000x128 .f32).view.loc (V d (cV0 L) (jV0 L)) ↦{Transfers.shareTok qx 11 (4 : Fin 11)} fx3)
            ∗ ((Memref.whole main_arg3_scv : Memref sig .scVector .hbm S100000x128 .f32).view.loc (V d (cV0 L) (jV0 L)) ↦{Transfers.shareTok qx 11 (5 : Fin 11)} fx3)
            ∗ ((Memref.whole main_arg3_scv : Memref sig .scVector .hbm S100000x128 .f32).view.loc (V d (cV0 L) (jV0 L)) ↦{Transfers.shareTok qx 11 (6 : Fin 11)} fx3)
            ∗ ((Memref.whole main_arg3_scv : Memref sig .scVector .hbm S100000x128 .f32).view.loc (V d (cV0 L) (jV0 L)) ↦{Transfers.shareTok qx 11 (7 : Fin 11)} fx3)
            ∗ ((Memref.whole main_arg3_scv : Memref sig .scVector .hbm S100000x128 .f32).view.loc (V d (cV0 L) (jV0 L)) ↦{Transfers.shareTok qx 11 (8 : Fin 11)} fx3)
            ∗ ((Memref.whole main_arg3_scv : Memref sig .scVector .hbm S100000x128 .f32).view.loc (V d (cV0 L) (jV0 L)) ↦{Transfers.shareTok qx 11 (9 : Fin 11)} fx3)
            ∗ ((Memref.whole main_arg3_scv : Memref sig .scVector .hbm S100000x128 .f32).view.loc (V d (cV0 L) (jV0 L)) ↦{Transfers.shareTok qx 11 (10 : Fin 11)} fx3)
            ∗ (∃ fo, ((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} fo)
            ∗ (∃ fo, ((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} fo)
            ∗ (∃ fo, ((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} fo)
            ∗ (∃ fo, ((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} fo)
            ∗ (∃ fo, ((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} fo)
            ∗ (∃ fo, ((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} fo)
            ∗ (∃ fo, ((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} fo)
            ∗ (∃ fo, ((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} fo)
            ∗ (∃ fo, ((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} fo)
            ∗ (∃ fo, ((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} fo)
            ∗ (∃ fo, ((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} fo)
            ∗ (∃ fo, ((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} fo)
            ∗ (∃ fo, ((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} fo)
            ∗ (∃ fo, ((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} fo)
            ∗ (∃ fo, ((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} fo)
            ∗ (∃ fo, ((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} fo)
            ∗ (∃ fo, ((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} fo)
            ∗ (∃ fo, ((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} fo)
            ∗ (∃ fo, ((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} fo)
            ∗ (∃ fo, ((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} fo)
            ∗ (∃ fo, ((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} fo)
            ∗ (∃ fo, ((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} fo)
            ∗ (∃ fo, ((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} fo)
            ∗ (∃ fo, ((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} fo)
            ∗ (∃ fo, ((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} fo)
            ∗ (∃ fo, ((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} fo)
            ∗ (∃ fo, ((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} fo)
            ∗ (∃ fo, ((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} fo)
            ∗ (∃ si, (Memref.whole cc0_scratch0 : Memref sig .scVector .vmem S7x112 .i32).view.loc (V d (cV0 L) (jV0 L)) ↦{fullShare} si)
            ∗ (∃ si, (Memref.whole cc0_scratch1 : Memref sig .scVector .vmem S7x112 .i32).view.loc (V d (cV0 L) (jV0 L)) ↦{fullShare} si)
            ∗ (∃ si, (Memref.whole cc0_scratch2 : Memref sig .scVector .vmem S7x112 .i32).view.loc (V d (cV0 L) (jV0 L)) ↦{fullShare} si)
            ∗ (∃ si, (Memref.whole cc0_scratch3 : Memref sig .scVector .vmem S7x112 .i32).view.loc (V d (cV0 L) (jV0 L)) ↦{fullShare} si)
            ∗ (∃ sb, (Memref.whole cc0_scratch4 : Memref sig .scVector .vmem S112x128 .f32).view.loc (V d (cV0 L) (jV0 L)) ↦{fullShare} sb)
            ∗ (∃ sb, (Memref.whole cc0_scratch5 : Memref sig .scVector .vmem S112x128 .f32).view.loc (V d (cV0 L) (jV0 L)) ↦{fullShare} sb)
            ∗ (∃ sb, (Memref.whole cc0_scratch6 : Memref sig .scVector .vmem S112x128 .f32).view.loc (V d (cV0 L) (jV0 L)) ↦{fullShare} sb)
            ∗ (∃ sb, (Memref.whole cc0_scratch7 : Memref sig .scVector .vmem S112x128 .f32).view.loc (V d (cV0 L) (jV0 L)) ↦{fullShare} sb)
            ∗ (∃ sb, (Memref.whole cc0_scratch8 : Memref sig .scVector .vmem S112x128 .f32).view.loc (V d (cV0 L) (jV0 L)) ↦{fullShare} sb)
            ∗ (∃ sb, (Memref.whole cc0_scratch9 : Memref sig .scVector .vmem S112x128 .f32).view.loc (V d (cV0 L) (jV0 L)) ↦{fullShare} sb)
            ∗ (∃ sb, (Memref.whole cc0_scratch10 : Memref sig .scVector .vmem S112x128 .f32).view.loc (V d (cV0 L) (jV0 L)) ↦{fullShare} sb)
            ∗ semVal ((V d (cV0 L) (jV0 L)), SemLoc.dma cc0_scratch11.sem) 0
            ∗ semVal ((V d (cV0 L) (jV0 L)), SemLoc.dma cc0_scratch12.sem) 0
            ∗ semVal ((V d (cV0 L) (jV0 L)), SemLoc.dma cc0_scratch13.sem) 0
            ∗ semVal ((V d (cV0 L) (jV0 L)), SemLoc.dma cc0_scratch14.sem) 0
            ∗ semVal ((V d (cV0 L) (jV0 L)), SemLoc.dma cc0_scratch15.sem) 0
            ∗ semVal ((V d (cV0 L) (jV0 L)), SemLoc.dma cc0_scratch16.sem) 0
            ∗ semVal ((V d (cV0 L) (jV0 L)), SemLoc.dma cc0_scratch17.sem) 0
            ∗ semVal ((V d (cV0 L) (jV0 L)), SemLoc.dma cc0_scratch18.sem) 0
            ∗ semVal ((V d (cV0 L) (jV0 L)), SemLoc.dma cc0_scratch19.sem) 0
            ∗ semVal ((V d (cV0 L) (jV0 L)), SemLoc.dma cc0_scratch20.sem) 0
            ∗ semVal ((V d (cV0 L) (jV0 L)), SemLoc.dma cc0_scratch21.sem) 0
            ∗ semVal ((V d (cV0 L) (jV0 L)), SemLoc.dma cc0_scratch22.sem) 0
            ∗ semVal ((V d (cV0 L) (jV0 L)), SemLoc.dma cc0_scratch23.sem) 0
            ∗ semVal ((V d (cV0 L) (jV0 L)), SemLoc.dma cc0_scratch24.sem) 0
            ∗ semVal ((V d (cV0 L) (jV0 L)), SemLoc.dma cc0_scratch25.sem) 0
            ∗ semVal ((V d (cV0 L) (jV0 L)), SemLoc.dma cc0_scratch26.sem) 0
            ∗ semVal ((V d (cV0 L) (jV0 L)), SemLoc.dma cc0_scratch27.sem) 0
            ∗ semVal ((V d (cV0 L) (jV0 L)), SemLoc.dma cc0_scratch28.sem) 0
            ∗ (∃ W', ⌜∀ p ∈ W', p ∈ W ∨ p.2 = none⌝ ∗ owes (V d (cV0 L) (jV0 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc0_sc_kernel_eq_skeleton, cc0_sc_kernel_skel]
  -- the offset lists' words in range: each list is a row of an index scratch holding the words of the task's index row
  have hin0 := fun Wm off h si x => hin_row (F := F) d (cV0 L) (jV0 L) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0) hfi0 Wm off h si x
  have hin1 := fun Wm off h si x => hin_row (F := F) d (cV0 L) (jV0 L) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1) hfi1 Wm off h si x
  have hin2 := fun Wm off h si x => hin_row (F := F) d (cV0 L) (jV0 L) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2) hfi2 Wm off h si x
  have hin3 := fun Wm off h si x => hin_row (F := F) d (cV0 L) (jV0 L) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScObl0.lean ====
/-
  The launch theorem's obligation for the tasks of gather call 0.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTile0
import proofs.«215994_g5102421148354_cont_8to1c4_853_29_alg».proof.Proof.ScPay
import proofs.«215994_g5102421148354_cont_8to1c4_853_29_alg».proof.Proof.ScScoped

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 0 names. -/
abbrev semL0 : List (SemLoc sig) := [SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scratch23.sem, SemLoc.dma cc0_scratch24.sem, SemLoc.dma cc0_scratch25.sem, SemLoc.dma cc0_scratch26.sem, SemLoc.dma cc0_scratch27.sem, SemLoc.dma cc0_scratch28.sem]
abbrev bufL0 (c : Fin τ.nSC) (i : Fin τ.nSub) : List (DevRef τ sig) := ([cc0_scratch0, cc0_scratch1, cc0_scratch2, cc0_scratch3, cc0_scratch4, cc0_scratch5, cc0_scratch6, cc0_scratch7, cc0_scratch8, cc0_scratch9, cc0_scratch10] : List (Ref sig .scVector)).map (Proc.scVector c i).devRef

theorem semL0_nodup : (semL0).Nodup := by decide
theorem semL0_scoped : ∀ s ∈ semL0, s.isScoped Kind.scVector = true := by decide
theorem bufL0_nodup (c : Fin τ.nSC) (i : Fin τ.nSub) : (bufL0 c i).Nodup :=
  (show ([cc0_scratch0, cc0_scratch1, cc0_scratch2, cc0_scratch3, cc0_scratch4, cc0_scratch5, cc0_scratch6, cc0_scratch7, cc0_scratch8, cc0_scratch9, cc0_scratch10] : List (Ref sig .scVector)).Nodup by decide).map (Proc.devRef_injective _)
theorem bufL0_own (c : Fin τ.nSC) (i : Fin τ.nSub) : ∀ b ∈ bufL0 c i, b ∈ ownRefs (sig := sig) (Proc.scVector c i) := by
  intro b hb
  simp only [bufL0, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_0 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL0_chain (Φ : SemLoc sig → sProp 𝕄) : bigSepL semL0 Φ = iprop(Φ (SemLoc.dma cc0_scratch11.sem) ∗ Φ (SemLoc.dma cc0_scratch12.sem) ∗ Φ (SemLoc.dma cc0_scratch13.sem) ∗ Φ (SemLoc.dma cc0_scratch14.sem) ∗ Φ (SemLoc.dma cc0_scratch15.sem) ∗ Φ (SemLoc.dma cc0_scratch16.sem) ∗ Φ (SemLoc.dma cc0_scratch17.sem) ∗ Φ (SemLoc.dma cc0_scratch18.sem) ∗ Φ (SemLoc.dma cc0_scratch19.sem) ∗ Φ (SemLoc.dma cc0_scratch20.sem) ∗ Φ (SemLoc.dma cc0_scratch21.sem) ∗ Φ (SemLoc.dma cc0_scratch22.sem) ∗ Φ (SemLoc.dma cc0_scratch23.sem) ∗ Φ (SemLoc.dma cc0_scratch24.sem) ∗ Φ (SemLoc.dma cc0_scratch25.sem) ∗ Φ (SemLoc.dma cc0_scratch26.sem) ∗ Φ (SemLoc.dma cc0_scratch27.sem) ∗ Φ (SemLoc.dma cc0_scratch28.sem)) := rfl
theorem bufL0_chain (c : Fin τ.nSC) (i : Fin τ.nSub) (Φ : DevRef τ sig → sProp 𝕄) : bigSepL (bufL0 c i) Φ = iprop(Φ ((Proc.scVector c i).devRef cc0_scratch0) ∗ Φ ((Proc.scVector c i).devRef cc0_scratch1) ∗ Φ ((Proc.scVector c i).devRef cc0_scratch2) ∗ Φ ((Proc.scVector c i).devRef cc0_scratch3) ∗ Φ ((Proc.scVector c i).devRef cc0_scratch4) ∗ Φ ((Proc.scVector c i).devRef cc0_scratch5) ∗ Φ ((Proc.scVector c i).devRef cc0_scratch6) ∗ Φ ((Proc.scVector c i).devRef cc0_scratch7) ∗ Φ ((Proc.scVector c i).devRef cc0_scratch8) ∗ Φ ((Proc.scVector c i).devRef cc0_scratch9) ∗ Φ ((Proc.scVector c i).devRef cc0_scratch10)) := rfl

set_option maxHeartbeats 4000000 in
/-- The task from what the launch hands it: its payload and its subcore's whole scoped storage. -/
theorem tile_full0 (hF : (K (F := F)).Facts) (d : Dev nD) (L : grid0.Coords) (O : CellTallies nD τ sig (HIx 4)) (W : Waits sig (HIx 4))
    (hO : ∀ g, O g none = 0) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    :
    iprop(levAts (K (F := F)).L (K (F := F)).lev ∗ emp ∗ tileRes0 d L qx fi0 fi1 fi2 fi3 fx0 fx1 fx2 fx3
        ∗ scopedBufs (V d (cV0 L) (jV0 L)) ∗ scopedSems0 (V d (cV0 L) (jV0 L)) ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(tileRes0 d L qx fi0 fi1 fi2 fi3 fx0 fx1 fx2 fx3 ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [(K (F := F)).scopedBufs_V hF d (cV0 L) (jV0 L), SparseCore.Cfg.scopedSems0_V (Val := Elt F) d (cV0 L) (jV0 L),
    ownSems0_take (V d (cV0 L) (jV0 L)) semL0 semL0_nodup semL0_scoped,
    ownBufs_take (V d (cV0 L) (jV0 L)) (bufL0 (cV0 L) (jV0 L)) (bufL0_nodup _ _) (bufL0_own _ _)]
  unfold tileRes0 ownedAny
  rw [semL0_chain, bufL0_chain]
  simp only [toks11_0]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV0 L) (jV0 L))) hO) $$ Hlv
  ihave Hwp := (tile_body0 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post0 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 0. -/
theorem defs₀_vector0 (c : Fin τ.nSC) (s : Fin τ.nSub) :
    defs₀ (F := F) (.scVector c s) 0 ()
      = SparseCore.onTile hcore0 hsub0 (fun c s => cc0_sc_kernel (coordsV0 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) ⟨⟩ c s := rfl

/-- An index row of the task reads words of the call's index array, which are row numbers of the tables. -/
theorem row_lt0 (d : Dev nD) (L : grid0.Coords) (a : IVec S100000 32) (ha : ∀ r, (a r).toNat < 100000) (t : Fin 4) :
    ((t = 0 → ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 1 → ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 2 → ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 3 → ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000))
    := by
  refine ⟨?_, ?_, ?_, ?_⟩ <;> (intro _ j; rw [View.read_apply]; simp only [cast_eq]; exact Idx.slab_lt 0 a ha _)

set_option maxHeartbeats 4000000 in
/-- The launch theorem's obligation for the tasks of call 0, the index inputs holding row numbers. -/
theorem tileObl0 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  obtain ⟨h4, h5, h6, h7⟩ := hpre d
  exact (tile_full0 (F := F) facts d (coordsV0 ⟨_, hc.1⟩ ⟨_, hc.2⟩) O W hO (qTile (Fin.cast (nCore_eq 0) c) (Fin.cast (nSub_eq 0) i))
    (Idx.slab 0 (m ((SparseCore.T d).loc main_arg4))) ((row_lt0 d _ _ h4 0).1 rfl)
    (Idx.slab 0 (m ((SparseCore.T d).loc main_arg5))) ((row_lt0 d _ _ h5 1).2.1 rfl)
    (Idx.slab 0 (m ((SparseCore.T d).loc main_arg6))) ((row_lt0 d _ _ h6 2).2.2.1 rfl)
    (Idx.slab 0 (m ((SparseCore.T d).loc main_arg7))) ((row_lt0 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post0)

end Cert.KernelIdeal.Sc

end
-- ==== Proof.ScTile1.lean ====
/-
  One vector subcore's task in gather call 1: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScGrid

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body1 (d : Dev nD) (L : grid1.Coords) (O : CellTallies nD τ sig (HIx 4)) (W : Waits sig (HIx 4)) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    :
    iprop(Transfers.MayWaits (V d (cV1 L) (jV1 L)) (none : HIx 4) O
        ∗ ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
        ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
        ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
        ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
        ∗ ((Memref.whole main_arg0_scv : Memref sig .scVector .hbm S100000x128 .f32).view.loc (V d (cV1 L) (jV1 L)) ↦{Transfers.shareTok qx 11 (4 : Fin 11)} fx0)
        ∗ ((Memref.whole main_arg0_scv : Memref sig .scVector .hbm S100000x128 .f32).view.loc (V d (cV1 L) (jV1 L)) ↦{Transfers.shareTok qx 11 (5 : Fin 11)} fx0)
        ∗ ((Memref.whole main_arg0_scv : Memref sig .scVector .hbm S100000x128 .f32).view.loc (V d (cV1 L) (jV1 L)) ↦{Transfers.shareTok qx 11 (6 : Fin 11)} fx0)
        ∗ ((Memref.whole main_arg0_scv : Memref sig .scVector .hbm S100000x128 .f32).view.loc (V d (cV1 L) (jV1 L)) ↦{Transfers.shareTok qx 11 (7 : Fin 11)} fx0)
        ∗ ((Memref.whole main_arg0_scv : Memref sig .scVector .hbm S100000x128 .f32).view.loc (V d (cV1 L) (jV1 L)) ↦{Transfers.shareTok qx 11 (8 : Fin 11)} fx0)
        ∗ ((Memref.whole main_arg0_scv : Memref sig .scVector .hbm S100000x128 .f32).view.loc (V d (cV1 L) (jV1 L)) ↦{Transfers.shareTok qx 11 (9 : Fin 11)} fx0)
        ∗ ((Memref.whole main_arg0_scv : Memref sig .scVector .hbm S100000x128 .f32).view.loc (V d (cV1 L) (jV1 L)) ↦{Transfers.shareTok qx 11 (10 : Fin 11)} fx0)
        ∗ ((Memref.whole main_arg1_scv : Memref sig .scVector .hbm S100000x128 .f32).view.loc (V d (cV1 L) (jV1 L)) ↦{Transfers.shareTok qx 11 (4 : Fin 11)} fx1)
        ∗ ((Memref.whole main_arg1_scv : Memref sig .scVector .hbm S100000x128 .f32).view.loc (V d (cV1 L) (jV1 L)) ↦{Transfers.shareTok qx 11 (5 : Fin 11)} fx1)
        ∗ ((Memref.whole main_arg1_scv : Memref sig .scVector .hbm S100000x128 .f32).view.loc (V d (cV1 L) (jV1 L)) ↦{Transfers.shareTok qx 11 (6 : Fin 11)} fx1)
        ∗ ((Memref.whole main_arg1_scv : Memref sig .scVector .hbm S100000x128 .f32).view.loc (V d (cV1 L) (jV1 L)) ↦{Transfers.shareTok qx 11 (7 : Fin 11)} fx1)
        ∗ ((Memref.whole main_arg1_scv : Memref sig .scVector .hbm S100000x128 .f32).view.loc (V d (cV1 L) (jV1 L)) ↦{Transfers.shareTok qx 11 (8 : Fin 11)} fx1)
        ∗ ((Memref.whole main_arg1_scv : Memref sig .scVector .hbm S100000x128 .f32).view.loc (V d (cV1 L) (jV1 L)) ↦{Transfers.shareTok qx 11 (9 : Fin 11)} fx1)
        ∗ ((Memref.whole main_arg1_scv : Memref sig .scVector .hbm S100000x128 .f32).view.loc (V d (cV1 L) (jV1 L)) ↦{Transfers.shareTok qx 11 (10 : Fin 11)} fx1)
        ∗ ((Memref.whole main_arg2_scv : Memref sig .scVector .hbm S100000x128 .f32).view.loc (V d (cV1 L) (jV1 L)) ↦{Transfers.shareTok qx 11 (4 : Fin 11)} fx2)
        ∗ ((Memref.whole main_arg2_scv : Memref sig .scVector .hbm S100000x128 .f32).view.loc (V d (cV1 L) (jV1 L)) ↦{Transfers.shareTok qx 11 (5 : Fin 11)} fx2)
        ∗ ((Memref.whole main_arg2_scv : Memref sig .scVector .hbm S100000x128 .f32).view.loc (V d (cV1 L) (jV1 L)) ↦{Transfers.shareTok qx 11 (6 : Fin 11)} fx2)
        ∗ ((Memref.whole main_arg2_scv : Memref sig .scVector .hbm S100000x128 .f32).view.loc (V d (cV1 L) (jV1 L)) ↦{Transfers.shareTok qx 11 (7 : Fin 11)} fx2)
        ∗ ((Memref.whole main_arg2_scv : Memref sig .scVector .hbm S100000x128 .f32).view.loc (V d (cV1 L) (jV1 L)) ↦{Transfers.shareTok qx 11 (8 : Fin 11)} fx2)
        ∗ ((Memref.whole main_arg2_scv : Memref sig .scVector .hbm S100000x128 .f32).view.loc (V d (cV1 L) (jV1 L)) ↦{Transfers.shareTok qx 11 (9 : Fin 11)} fx2)
        ∗ ((Memref.whole main_arg2_scv : Memref sig .scVector .hbm S100000x128 .f32).view.loc (V d (cV1 L) (jV1 L)) ↦{Transfers.shareTok qx 11 (10 : Fin 11)} fx2)
        ∗ ((Memref.whole main_arg3_scv : Memref sig .scVector .hbm S100000x128 .f32).view.loc (V d (cV1 L) (jV1 L)) ↦{Transfers.shareTok qx 11 (4 : Fin 11)} fx3)
        ∗ ((Memref.whole main_arg3_scv : Memref sig .scVector .hbm S100000x128 .f32).view.loc (V d (cV1 L) (jV1 L)) ↦{Transfers.shareTok qx 11 (5 : Fin 11)} fx3)
        ∗ ((Memref.whole main_arg3_scv : Memref sig .scVector .hbm S100000x128 .f32).view.loc (V d (cV1 L) (jV1 L)) ↦{Transfers.shareTok qx 11 (6 : Fin 11)} fx3)
        ∗ ((Memref.whole main_arg3_scv : Memref sig .scVector .hbm S100000x128 .f32).view.loc (V d (cV1 L) (jV1 L)) ↦{Transfers.shareTok qx 11 (7 : Fin 11)} fx3)
        ∗ ((Memref.whole main_arg3_scv : Memref sig .scVector .hbm S100000x128 .f32).view.loc (V d (cV1 L) (jV1 L)) ↦{Transfers.shareTok qx 11 (8 : Fin 11)} fx3)
        ∗ ((Memref.whole main_arg3_scv : Memref sig .scVector .hbm S100000x128 .f32).view.loc (V d (cV1 L) (jV1 L)) ↦{Transfers.shareTok qx 11 (9 : Fin 11)} fx3)
        ∗ ((Memref.whole main_arg3_scv : Memref sig .scVector .hbm S100000x128 .f32).view.loc (V d (cV1 L) (jV1 L)) ↦{Transfers.shareTok qx 11 (10 : Fin 11)} fx3)
        ∗ (∃ fo, ((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} fo)
        ∗ (∃ fo, ((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} fo)
        ∗ (∃ fo, ((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} fo)
        ∗ (∃ fo, ((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} fo)
        ∗ (∃ fo, ((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} fo)
        ∗ (∃ fo, ((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} fo)
        ∗ (∃ fo, ((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} fo)
        ∗ (∃ fo, ((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} fo)
        ∗ (∃ fo, ((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} fo)
        ∗ (∃ fo, ((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} fo)
        ∗ (∃ fo, ((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} fo)
        ∗ (∃ fo, ((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} fo)
        ∗ (∃ fo, ((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} fo)
        ∗ (∃ fo, ((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} fo)
        ∗ (∃ fo, ((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} fo)
        ∗ (∃ fo, ((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} fo)
        ∗ (∃ fo, ((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} fo)
        ∗ (∃ fo, ((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} fo)
        ∗ (∃ fo, ((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} fo)
        ∗ (∃ fo, ((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} fo)
        ∗ (∃ fo, ((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} fo)
        ∗ (∃ fo, ((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} fo)
        ∗ (∃ fo, ((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} fo)
        ∗ (∃ fo, ((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} fo)
        ∗ (∃ fo, ((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} fo)
        ∗ (∃ fo, ((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} fo)
        ∗ (∃ fo, ((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} fo)
        ∗ (∃ fo, ((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} fo)
        ∗ (∃ si, (Memref.whole cc1_scratch0 : Memref sig .scVector .vmem S7x112 .i32).view.loc (V d (cV1 L) (jV1 L)) ↦{fullShare} si)
        ∗ (∃ si, (Memref.whole cc1_scratch1 : Memref sig .scVector .vmem S7x112 .i32).view.loc (V d (cV1 L) (jV1 L)) ↦{fullShare} si)
        ∗ (∃ si, (Memref.whole cc1_scratch2 : Memref sig .scVector .vmem S7x112 .i32).view.loc (V d (cV1 L) (jV1 L)) ↦{fullShare} si)
        ∗ (∃ si, (Memref.whole cc1_scratch3 : Memref sig .scVector .vmem S7x112 .i32).view.loc (V d (cV1 L) (jV1 L)) ↦{fullShare} si)
        ∗ (∃ sb, (Memref.whole cc1_scratch4 : Memref sig .scVector .vmem S112x128 .f32).view.loc (V d (cV1 L) (jV1 L)) ↦{fullShare} sb)
        ∗ (∃ sb, (Memref.whole cc1_scratch5 : Memref sig .scVector .vmem S112x128 .f32).view.loc (V d (cV1 L) (jV1 L)) ↦{fullShare} sb)
        ∗ (∃ sb, (Memref.whole cc1_scratch6 : Memref sig .scVector .vmem S112x128 .f32).view.loc (V d (cV1 L) (jV1 L)) ↦{fullShare} sb)
        ∗ (∃ sb, (Memref.whole cc1_scratch7 : Memref sig .scVector .vmem S112x128 .f32).view.loc (V d (cV1 L) (jV1 L)) ↦{fullShare} sb)
        ∗ (∃ sb, (Memref.whole cc1_scratch8 : Memref sig .scVector .vmem S112x128 .f32).view.loc (V d (cV1 L) (jV1 L)) ↦{fullShare} sb)
        ∗ (∃ sb, (Memref.whole cc1_scratch9 : Memref sig .scVector .vmem S112x128 .f32).view.loc (V d (cV1 L) (jV1 L)) ↦{fullShare} sb)
        ∗ (∃ sb, (Memref.whole cc1_scratch10 : Memref sig .scVector .vmem S112x128 .f32).view.loc (V d (cV1 L) (jV1 L)) ↦{fullShare} sb)
        ∗ semVal ((V d (cV1 L) (jV1 L)), SemLoc.dma cc1_scratch11.sem) 0
        ∗ semVal ((V d (cV1 L) (jV1 L)), SemLoc.dma cc1_scratch12.sem) 0
        ∗ semVal ((V d (cV1 L) (jV1 L)), SemLoc.dma cc1_scratch13.sem) 0
        ∗ semVal ((V d (cV1 L) (jV1 L)), SemLoc.dma cc1_scratch14.sem) 0
        ∗ semVal ((V d (cV1 L) (jV1 L)), SemLoc.dma cc1_scratch15.sem) 0
        ∗ semVal ((V d (cV1 L) (jV1 L)), SemLoc.dma cc1_scratch16.sem) 0
        ∗ semVal ((V d (cV1 L) (jV1 L)), SemLoc.dma cc1_scratch17.sem) 0
        ∗ semVal ((V d (cV1 L) (jV1 L)), SemLoc.dma cc1_scratch18.sem) 0
        ∗ semVal ((V d (cV1 L) (jV1 L)), SemLoc.dma cc1_scratch19.sem) 0
        ∗ semVal ((V d (cV1 L) (jV1 L)), SemLoc.dma cc1_scratch20.sem) 0
        ∗ semVal ((V d (cV1 L) (jV1 L)), SemLoc.dma cc1_scratch21.sem) 0
        ∗ semVal ((V d (cV1 L) (jV1 L)), SemLoc.dma cc1_scratch22.sem) 0
        ∗ semVal ((V d (cV1 L) (jV1 L)), SemLoc.dma cc1_scratch23.sem) 0
        ∗ semVal ((V d (cV1 L) (jV1 L)), SemLoc.dma cc1_scratch24.sem) 0
        ∗ semVal ((V d (cV1 L) (jV1 L)), SemLoc.dma cc1_scratch25.sem) 0
        ∗ semVal ((V d (cV1 L) (jV1 L)), SemLoc.dma cc1_scratch26.sem) 0
        ∗ semVal ((V d (cV1 L) (jV1 L)), SemLoc.dma cc1_scratch27.sem) 0
        ∗ semVal ((V d (cV1 L) (jV1 L)), SemLoc.dma cc1_scratch28.sem) 0
        ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(
              ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
            ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
            ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
            ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
            ∗ ((Memref.whole main_arg0_scv : Memref sig .scVector .hbm S100000x128 .f32).view.loc (V d (cV1 L) (jV1 L)) ↦{Transfers.shareTok qx 11 (4 : Fin 11)} fx0)
            ∗ ((Memref.whole main_arg0_scv : Memref sig .scVector .hbm S100000x128 .f32).view.loc (V d (cV1 L) (jV1 L)) ↦{Transfers.shareTok qx 11 (5 : Fin 11)} fx0)
            ∗ ((Memref.whole main_arg0_scv : Memref sig .scVector .hbm S100000x128 .f32).view.loc (V d (cV1 L) (jV1 L)) ↦{Transfers.shareTok qx 11 (6 : Fin 11)} fx0)
            ∗ ((Memref.whole main_arg0_scv : Memref sig .scVector .hbm S100000x128 .f32).view.loc (V d (cV1 L) (jV1 L)) ↦{Transfers.shareTok qx 11 (7 : Fin 11)} fx0)
            ∗ ((Memref.whole main_arg0_scv : Memref sig .scVector .hbm S100000x128 .f32).view.loc (V d (cV1 L) (jV1 L)) ↦{Transfers.shareTok qx 11 (8 : Fin 11)} fx0)
            ∗ ((Memref.whole main_arg0_scv : Memref sig .scVector .hbm S100000x128 .f32).view.loc (V d (cV1 L) (jV1 L)) ↦{Transfers.shareTok qx 11 (9 : Fin 11)} fx0)
            ∗ ((Memref.whole main_arg0_scv : Memref sig .scVector .hbm S100000x128 .f32).view.loc (V d (cV1 L) (jV1 L)) ↦{Transfers.shareTok qx 11 (10 : Fin 11)} fx0)
            ∗ ((Memref.whole main_arg1_scv : Memref sig .scVector .hbm S100000x128 .f32).view.loc (V d (cV1 L) (jV1 L)) ↦{Transfers.shareTok qx 11 (4 : Fin 11)} fx1)
            ∗ ((Memref.whole main_arg1_scv : Memref sig .scVector .hbm S100000x128 .f32).view.loc (V d (cV1 L) (jV1 L)) ↦{Transfers.shareTok qx 11 (5 : Fin 11)} fx1)
            ∗ ((Memref.whole main_arg1_scv : Memref sig .scVector .hbm S100000x128 .f32).view.loc (V d (cV1 L) (jV1 L)) ↦{Transfers.shareTok qx 11 (6 : Fin 11)} fx1)
            ∗ ((Memref.whole main_arg1_scv : Memref sig .scVector .hbm S100000x128 .f32).view.loc (V d (cV1 L) (jV1 L)) ↦{Transfers.shareTok qx 11 (7 : Fin 11)} fx1)
            ∗ ((Memref.whole main_arg1_scv : Memref sig .scVector .hbm S100000x128 .f32).view.loc (V d (cV1 L) (jV1 L)) ↦{Transfers.shareTok qx 11 (8 : Fin 11)} fx1)
            ∗ ((Memref.whole main_arg1_scv : Memref sig .scVector .hbm S100000x128 .f32).view.loc (V d (cV1 L) (jV1 L)) ↦{Transfers.shareTok qx 11 (9 : Fin 11)} fx1)
            ∗ ((Memref.whole main_arg1_scv : Memref sig .scVector .hbm S100000x128 .f32).view.loc (V d (cV1 L) (jV1 L)) ↦{Transfers.shareTok qx 11 (10 : Fin 11)} fx1)
            ∗ ((Memref.whole main_arg2_scv : Memref sig .scVector .hbm S100000x128 .f32).view.loc (V d (cV1 L) (jV1 L)) ↦{Transfers.shareTok qx 11 (4 : Fin 11)} fx2)
            ∗ ((Memref.whole main_arg2_scv : Memref sig .scVector .hbm S100000x128 .f32).view.loc (V d (cV1 L) (jV1 L)) ↦{Transfers.shareTok qx 11 (5 : Fin 11)} fx2)
            ∗ ((Memref.whole main_arg2_scv : Memref sig .scVector .hbm S100000x128 .f32).view.loc (V d (cV1 L) (jV1 L)) ↦{Transfers.shareTok qx 11 (6 : Fin 11)} fx2)
            ∗ ((Memref.whole main_arg2_scv : Memref sig .scVector .hbm S100000x128 .f32).view.loc (V d (cV1 L) (jV1 L)) ↦{Transfers.shareTok qx 11 (7 : Fin 11)} fx2)
            ∗ ((Memref.whole main_arg2_scv : Memref sig .scVector .hbm S100000x128 .f32).view.loc (V d (cV1 L) (jV1 L)) ↦{Transfers.shareTok qx 11 (8 : Fin 11)} fx2)
            ∗ ((Memref.whole main_arg2_scv : Memref sig .scVector .hbm S100000x128 .f32).view.loc (V d (cV1 L) (jV1 L)) ↦{Transfers.shareTok qx 11 (9 : Fin 11)} fx2)
            ∗ ((Memref.whole main_arg2_scv : Memref sig .scVector .hbm S100000x128 .f32).view.loc (V d (cV1 L) (jV1 L)) ↦{Transfers.shareTok qx 11 (10 : Fin 11)} fx2)
            ∗ ((Memref.whole main_arg3_scv : Memref sig .scVector .hbm S100000x128 .f32).view.loc (V d (cV1 L) (jV1 L)) ↦{Transfers.shareTok qx 11 (4 : Fin 11)} fx3)
            ∗ ((Memref.whole main_arg3_scv : Memref sig .scVector .hbm S100000x128 .f32).view.loc (V d (cV1 L) (jV1 L)) ↦{Transfers.shareTok qx 11 (5 : Fin 11)} fx3)
            ∗ ((Memref.whole main_arg3_scv : Memref sig .scVector .hbm S100000x128 .f32).view.loc (V d (cV1 L) (jV1 L)) ↦{Transfers.shareTok qx 11 (6 : Fin 11)} fx3)
            ∗ ((Memref.whole main_arg3_scv : Memref sig .scVector .hbm S100000x128 .f32).view.loc (V d (cV1 L) (jV1 L)) ↦{Transfers.shareTok qx 11 (7 : Fin 11)} fx3)
            ∗ ((Memref.whole main_arg3_scv : Memref sig .scVector .hbm S100000x128 .f32).view.loc (V d (cV1 L) (jV1 L)) ↦{Transfers.shareTok qx 11 (8 : Fin 11)} fx3)
            ∗ ((Memref.whole main_arg3_scv : Memref sig .scVector .hbm S100000x128 .f32).view.loc (V d (cV1 L) (jV1 L)) ↦{Transfers.shareTok qx 11 (9 : Fin 11)} fx3)
            ∗ ((Memref.whole main_arg3_scv : Memref sig .scVector .hbm S100000x128 .f32).view.loc (V d (cV1 L) (jV1 L)) ↦{Transfers.shareTok qx 11 (10 : Fin 11)} fx3)
            ∗ (∃ fo, ((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} fo)
            ∗ (∃ fo, ((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} fo)
            ∗ (∃ fo, ((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} fo)
            ∗ (∃ fo, ((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} fo)
            ∗ (∃ fo, ((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} fo)
            ∗ (∃ fo, ((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} fo)
            ∗ (∃ fo, ((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} fo)
            ∗ (∃ fo, ((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} fo)
            ∗ (∃ fo, ((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} fo)
            ∗ (∃ fo, ((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} fo)
            ∗ (∃ fo, ((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} fo)
            ∗ (∃ fo, ((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} fo)
            ∗ (∃ fo, ((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} fo)
            ∗ (∃ fo, ((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} fo)
            ∗ (∃ fo, ((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} fo)
            ∗ (∃ fo, ((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} fo)
            ∗ (∃ fo, ((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} fo)
            ∗ (∃ fo, ((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} fo)
            ∗ (∃ fo, ((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} fo)
            ∗ (∃ fo, ((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} fo)
            ∗ (∃ fo, ((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} fo)
            ∗ (∃ fo, ((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} fo)
            ∗ (∃ fo, ((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} fo)
            ∗ (∃ fo, ((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} fo)
            ∗ (∃ fo, ((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} fo)
            ∗ (∃ fo, ((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} fo)
            ∗ (∃ fo, ((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} fo)
            ∗ (∃ fo, ((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} fo)
            ∗ (∃ si, (Memref.whole cc1_scratch0 : Memref sig .scVector .vmem S7x112 .i32).view.loc (V d (cV1 L) (jV1 L)) ↦{fullShare} si)
            ∗ (∃ si, (Memref.whole cc1_scratch1 : Memref sig .scVector .vmem S7x112 .i32).view.loc (V d (cV1 L) (jV1 L)) ↦{fullShare} si)
            ∗ (∃ si, (Memref.whole cc1_scratch2 : Memref sig .scVector .vmem S7x112 .i32).view.loc (V d (cV1 L) (jV1 L)) ↦{fullShare} si)
            ∗ (∃ si, (Memref.whole cc1_scratch3 : Memref sig .scVector .vmem S7x112 .i32).view.loc (V d (cV1 L) (jV1 L)) ↦{fullShare} si)
            ∗ (∃ sb, (Memref.whole cc1_scratch4 : Memref sig .scVector .vmem S112x128 .f32).view.loc (V d (cV1 L) (jV1 L)) ↦{fullShare} sb)
            ∗ (∃ sb, (Memref.whole cc1_scratch5 : Memref sig .scVector .vmem S112x128 .f32).view.loc (V d (cV1 L) (jV1 L)) ↦{fullShare} sb)
            ∗ (∃ sb, (Memref.whole cc1_scratch6 : Memref sig .scVector .vmem S112x128 .f32).view.loc (V d (cV1 L) (jV1 L)) ↦{fullShare} sb)
            ∗ (∃ sb, (Memref.whole cc1_scratch7 : Memref sig .scVector .vmem S112x128 .f32).view.loc (V d (cV1 L) (jV1 L)) ↦{fullShare} sb)
            ∗ (∃ sb, (Memref.whole cc1_scratch8 : Memref sig .scVector .vmem S112x128 .f32).view.loc (V d (cV1 L) (jV1 L)) ↦{fullShare} sb)
            ∗ (∃ sb, (Memref.whole cc1_scratch9 : Memref sig .scVector .vmem S112x128 .f32).view.loc (V d (cV1 L) (jV1 L)) ↦{fullShare} sb)
            ∗ (∃ sb, (Memref.whole cc1_scratch10 : Memref sig .scVector .vmem S112x128 .f32).view.loc (V d (cV1 L) (jV1 L)) ↦{fullShare} sb)
            ∗ semVal ((V d (cV1 L) (jV1 L)), SemLoc.dma cc1_scratch11.sem) 0
            ∗ semVal ((V d (cV1 L) (jV1 L)), SemLoc.dma cc1_scratch12.sem) 0
            ∗ semVal ((V d (cV1 L) (jV1 L)), SemLoc.dma cc1_scratch13.sem) 0
            ∗ semVal ((V d (cV1 L) (jV1 L)), SemLoc.dma cc1_scratch14.sem) 0
            ∗ semVal ((V d (cV1 L) (jV1 L)), SemLoc.dma cc1_scratch15.sem) 0
            ∗ semVal ((V d (cV1 L) (jV1 L)), SemLoc.dma cc1_scratch16.sem) 0
            ∗ semVal ((V d (cV1 L) (jV1 L)), SemLoc.dma cc1_scratch17.sem) 0
            ∗ semVal ((V d (cV1 L) (jV1 L)), SemLoc.dma cc1_scratch18.sem) 0
            ∗ semVal ((V d (cV1 L) (jV1 L)), SemLoc.dma cc1_scratch19.sem) 0
            ∗ semVal ((V d (cV1 L) (jV1 L)), SemLoc.dma cc1_scratch20.sem) 0
            ∗ semVal ((V d (cV1 L) (jV1 L)), SemLoc.dma cc1_scratch21.sem) 0
            ∗ semVal ((V d (cV1 L) (jV1 L)), SemLoc.dma cc1_scratch22.sem) 0
            ∗ semVal ((V d (cV1 L) (jV1 L)), SemLoc.dma cc1_scratch23.sem) 0
            ∗ semVal ((V d (cV1 L) (jV1 L)), SemLoc.dma cc1_scratch24.sem) 0
            ∗ semVal ((V d (cV1 L) (jV1 L)), SemLoc.dma cc1_scratch25.sem) 0
            ∗ semVal ((V d (cV1 L) (jV1 L)), SemLoc.dma cc1_scratch26.sem) 0
            ∗ semVal ((V d (cV1 L) (jV1 L)), SemLoc.dma cc1_scratch27.sem) 0
            ∗ semVal ((V d (cV1 L) (jV1 L)), SemLoc.dma cc1_scratch28.sem) 0
            ∗ (∃ W', ⌜∀ p ∈ W', p ∈ W ∨ p.2 = none⌝ ∗ owes (V d (cV1 L) (jV1 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc1_sc_kernel_eq_skeleton, cc1_sc_kernel_skel]
  -- the offset lists' words in range: each list is a row of an index scratch holding the words of the task's index row
  have hin0 := fun Wm off h si x => hin_row (F := F) d (cV1 L) (jV1 L) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0) hfi0 Wm off h si x
  have hin1 := fun Wm off h si x => hin_row (F := F) d (cV1 L) (jV1 L) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1) hfi1 Wm off h si x
  have hin2 := fun Wm off h si x => hin_row (F := F) d (cV1 L) (jV1 L) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2) hfi2 Wm off h si x
  have hin3 := fun Wm off h si x => hin_row (F := F) d (cV1 L) (jV1 L) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScObl1.lean ====
/-
  The launch theorem's obligation for the tasks of gather call 1.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTile1
import proofs.«215994_g5102421148354_cont_8to1c4_853_29_alg».proof.Proof.ScPay
import proofs.«215994_g5102421148354_cont_8to1c4_853_29_alg».proof.Proof.ScScoped

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 1 names. -/
abbrev semL1 : List (SemLoc sig) := [SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem, SemLoc.dma cc1_scratch19.sem, SemLoc.dma cc1_scratch20.sem, SemLoc.dma cc1_scratch21.sem, SemLoc.dma cc1_scratch22.sem, SemLoc.dma cc1_scratch23.sem, SemLoc.dma cc1_scratch24.sem, SemLoc.dma cc1_scratch25.sem, SemLoc.dma cc1_scratch26.sem, SemLoc.dma cc1_scratch27.sem, SemLoc.dma cc1_scratch28.sem]
abbrev bufL1 (c : Fin τ.nSC) (i : Fin τ.nSub) : List (DevRef τ sig) := ([cc1_scratch0, cc1_scratch1, cc1_scratch2, cc1_scratch3, cc1_scratch4, cc1_scratch5, cc1_scratch6, cc1_scratch7, cc1_scratch8, cc1_scratch9, cc1_scratch10] : List (Ref sig .scVector)).map (Proc.scVector c i).devRef

theorem semL1_nodup : (semL1).Nodup := by decide
theorem semL1_scoped : ∀ s ∈ semL1, s.isScoped Kind.scVector = true := by decide
theorem bufL1_nodup (c : Fin τ.nSC) (i : Fin τ.nSub) : (bufL1 c i).Nodup :=
  (show ([cc1_scratch0, cc1_scratch1, cc1_scratch2, cc1_scratch3, cc1_scratch4, cc1_scratch5, cc1_scratch6, cc1_scratch7, cc1_scratch8, cc1_scratch9, cc1_scratch10] : List (Ref sig .scVector)).Nodup by decide).map (Proc.devRef_injective _)
theorem bufL1_own (c : Fin τ.nSC) (i : Fin τ.nSub) : ∀ b ∈ bufL1 c i, b ∈ ownRefs (sig := sig) (Proc.scVector c i) := by
  intro b hb
  simp only [bufL1, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_1 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL1_chain (Φ : SemLoc sig → sProp 𝕄) : bigSepL semL1 Φ = iprop(Φ (SemLoc.dma cc1_scratch11.sem) ∗ Φ (SemLoc.dma cc1_scratch12.sem) ∗ Φ (SemLoc.dma cc1_scratch13.sem) ∗ Φ (SemLoc.dma cc1_scratch14.sem) ∗ Φ (SemLoc.dma cc1_scratch15.sem) ∗ Φ (SemLoc.dma cc1_scratch16.sem) ∗ Φ (SemLoc.dma cc1_scratch17.sem) ∗ Φ (SemLoc.dma cc1_scratch18.sem) ∗ Φ (SemLoc.dma cc1_scratch19.sem) ∗ Φ (SemLoc.dma cc1_scratch20.sem) ∗ Φ (SemLoc.dma cc1_scratch21.sem) ∗ Φ (SemLoc.dma cc1_scratch22.sem) ∗ Φ (SemLoc.dma cc1_scratch23.sem) ∗ Φ (SemLoc.dma cc1_scratch24.sem) ∗ Φ (SemLoc.dma cc1_scratch25.sem) ∗ Φ (SemLoc.dma cc1_scratch26.sem) ∗ Φ (SemLoc.dma cc1_scratch27.sem) ∗ Φ (SemLoc.dma cc1_scratch28.sem)) := rfl
theorem bufL1_chain (c : Fin τ.nSC) (i : Fin τ.nSub) (Φ : DevRef τ sig → sProp 𝕄) : bigSepL (bufL1 c i) Φ = iprop(Φ ((Proc.scVector c i).devRef cc1_scratch0) ∗ Φ ((Proc.scVector c i).devRef cc1_scratch1) ∗ Φ ((Proc.scVector c i).devRef cc1_scratch2) ∗ Φ ((Proc.scVector c i).devRef cc1_scratch3) ∗ Φ ((Proc.scVector c i).devRef cc1_scratch4) ∗ Φ ((Proc.scVector c i).devRef cc1_scratch5) ∗ Φ ((Proc.scVector c i).devRef cc1_scratch6) ∗ Φ ((Proc.scVector c i).devRef cc1_scratch7) ∗ Φ ((Proc.scVector c i).devRef cc1_scratch8) ∗ Φ ((Proc.scVector c i).devRef cc1_scratch9) ∗ Φ ((Proc.scVector c i).devRef cc1_scratch10)) := rfl

set_option maxHeartbeats 4000000 in
/-- The task from what the launch hands it: its payload and its subcore's whole scoped storage. -/
theorem tile_full1 (hF : (K (F := F)).Facts) (d : Dev nD) (L : grid1.Coords) (O : CellTallies nD τ sig (HIx 4)) (W : Waits sig (HIx 4))
    (hO : ∀ g, O g none = 0) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    :
    iprop(levAts (K (F := F)).L (K (F := F)).lev ∗ emp ∗ tileRes1 d L qx fi0 fi1 fi2 fi3 fx0 fx1 fx2 fx3
        ∗ scopedBufs (V d (cV1 L) (jV1 L)) ∗ scopedSems0 (V d (cV1 L) (jV1 L)) ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(tileRes1 d L qx fi0 fi1 fi2 fi3 fx0 fx1 fx2 fx3 ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [(K (F := F)).scopedBufs_V hF d (cV1 L) (jV1 L), SparseCore.Cfg.scopedSems0_V (Val := Elt F) d (cV1 L) (jV1 L),
    ownSems0_take (V d (cV1 L) (jV1 L)) semL1 semL1_nodup semL1_scoped,
    ownBufs_take (V d (cV1 L) (jV1 L)) (bufL1 (cV1 L) (jV1 L)) (bufL1_nodup _ _) (bufL1_own _ _)]
  unfold tileRes1 ownedAny
  rw [semL1_chain, bufL1_chain]
  simp only [toks11_1]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV1 L) (jV1 L))) hO) $$ Hlv
  ihave Hwp := (tile_body1 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post1 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 1. -/
theorem defs₀_vector1 (c : Fin τ.nSC) (s : Fin τ.nSub) :
    defs₀ (F := F) (.scVector c s) 1 ()
      = SparseCore.onTile hcore1 hsub1 (fun c s => cc1_sc_kernel (coordsV1 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28) ⟨⟩ c s := rfl

/-- An index row of the task reads words of the call's index array, which are row numbers of the tables. -/
theorem row_lt1 (d : Dev nD) (L : grid1.Coords) (a : IVec S100000 32) (ha : ∀ r, (a r).toNat < 100000) (t : Fin 4) :
    ((t = 0 → ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 1 → ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 2 → ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 3 → ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000))
    := by
  refine ⟨?_, ?_, ?_, ?_⟩ <;> (intro _ j; rw [View.read_apply]; simp only [cast_eq]; exact Idx.slab_lt 1 a ha _)

set_option maxHeartbeats 4000000 in
/-- The launch theorem's obligation for the tasks of call 1, the index inputs holding row numbers. -/
theorem tileObl1 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  obtain ⟨h4, h5, h6, h7⟩ := hpre d
  exact (tile_full1 (F := F) facts d (coordsV1 ⟨_, hc.1⟩ ⟨_, hc.2⟩) O W hO (qTile (Fin.cast (nCore_eq 1) c) (Fin.cast (nSub_eq 1) i))
    (Idx.slab 1 (m ((SparseCore.T d).loc main_arg4))) ((row_lt1 d _ _ h4 0).1 rfl)
    (Idx.slab 1 (m ((SparseCore.T d).loc main_arg5))) ((row_lt1 d _ _ h5 1).2.1 rfl)
    (Idx.slab 1 (m ((SparseCore.T d).loc main_arg6))) ((row_lt1 d _ _ h6 2).2.2.1 rfl)
    (Idx.slab 1 (m ((SparseCore.T d).loc main_arg7))) ((row_lt1 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post1)

end Cert.KernelIdeal.Sc

end
-- ==== Proof.ScTile2.lean ====
/-
  One vector subcore's task in gather call 2: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScGrid

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body2 (d : Dev nD) (L : grid2.Coords) (O : CellTallies nD τ sig (HIx 4)) (W : Waits sig (HIx 4)) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    :
    iprop(Transfers.MayWaits (V d (cV2 L) (jV2 L)) (none : HIx 4) O
        ∗ ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
        ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
        ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
        ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
        ∗ ((Memref.whole main_arg0_scv : Memref sig .scVector .hbm S100000x128 .f32).view.loc (V d (cV2 L) (jV2 L)) ↦{Transfers.shareTok qx 11 (4 : Fin 11)} fx0)
        ∗ ((Memref.whole main_arg0_scv : Memref sig .scVector .hbm S100000x128 .f32).view.loc (V d (cV2 L) (jV2 L)) ↦{Transfers.shareTok qx 11 (5 : Fin 11)} fx0)
        ∗ ((Memref.whole main_arg0_scv : Memref sig .scVector .hbm S100000x128 .f32).view.loc (V d (cV2 L) (jV2 L)) ↦{Transfers.shareTok qx 11 (6 : Fin 11)} fx0)
        ∗ ((Memref.whole main_arg0_scv : Memref sig .scVector .hbm S100000x128 .f32).view.loc (V d (cV2 L) (jV2 L)) ↦{Transfers.shareTok qx 11 (7 : Fin 11)} fx0)
        ∗ ((Memref.whole main_arg0_scv : Memref sig .scVector .hbm S100000x128 .f32).view.loc (V d (cV2 L) (jV2 L)) ↦{Transfers.shareTok qx 11 (8 : Fin 11)} fx0)
        ∗ ((Memref.whole main_arg0_scv : Memref sig .scVector .hbm S100000x128 .f32).view.loc (V d (cV2 L) (jV2 L)) ↦{Transfers.shareTok qx 11 (9 : Fin 11)} fx0)
        ∗ ((Memref.whole main_arg0_scv : Memref sig .scVector .hbm S100000x128 .f32).view.loc (V d (cV2 L) (jV2 L)) ↦{Transfers.shareTok qx 11 (10 : Fin 11)} fx0)
        ∗ ((Memref.whole main_arg1_scv : Memref sig .scVector .hbm S100000x128 .f32).view.loc (V d (cV2 L) (jV2 L)) ↦{Transfers.shareTok qx 11 (4 : Fin 11)} fx1)
        ∗ ((Memref.whole main_arg1_scv : Memref sig .scVector .hbm S100000x128 .f32).view.loc (V d (cV2 L) (jV2 L)) ↦{Transfers.shareTok qx 11 (5 : Fin 11)} fx1)
        ∗ ((Memref.whole main_arg1_scv : Memref sig .scVector .hbm S100000x128 .f32).view.loc (V d (cV2 L) (jV2 L)) ↦{Transfers.shareTok qx 11 (6 : Fin 11)} fx1)
        ∗ ((Memref.whole main_arg1_scv : Memref sig .scVector .hbm S100000x128 .f32).view.loc (V d (cV2 L) (jV2 L)) ↦{Transfers.shareTok qx 11 (7 : Fin 11)} fx1)
        ∗ ((Memref.whole main_arg1_scv : Memref sig .scVector .hbm S100000x128 .f32).view.loc (V d (cV2 L) (jV2 L)) ↦{Transfers.shareTok qx 11 (8 : Fin 11)} fx1)
        ∗ ((Memref.whole main_arg1_scv : Memref sig .scVector .hbm S100000x128 .f32).view.loc (V d (cV2 L) (jV2 L)) ↦{Transfers.shareTok qx 11 (9 : Fin 11)} fx1)
        ∗ ((Memref.whole main_arg1_scv : Memref sig .scVector .hbm S100000x128 .f32).view.loc (V d (cV2 L) (jV2 L)) ↦{Transfers.shareTok qx 11 (10 : Fin 11)} fx1)
        ∗ ((Memref.whole main_arg2_scv : Memref sig .scVector .hbm S100000x128 .f32).view.loc (V d (cV2 L) (jV2 L)) ↦{Transfers.shareTok qx 11 (4 : Fin 11)} fx2)
        ∗ ((Memref.whole main_arg2_scv : Memref sig .scVector .hbm S100000x128 .f32).view.loc (V d (cV2 L) (jV2 L)) ↦{Transfers.shareTok qx 11 (5 : Fin 11)} fx2)
        ∗ ((Memref.whole main_arg2_scv : Memref sig .scVector .hbm S100000x128 .f32).view.loc (V d (cV2 L) (jV2 L)) ↦{Transfers.shareTok qx 11 (6 : Fin 11)} fx2)
        ∗ ((Memref.whole main_arg2_scv : Memref sig .scVector .hbm S100000x128 .f32).view.loc (V d (cV2 L) (jV2 L)) ↦{Transfers.shareTok qx 11 (7 : Fin 11)} fx2)
        ∗ ((Memref.whole main_arg2_scv : Memref sig .scVector .hbm S100000x128 .f32).view.loc (V d (cV2 L) (jV2 L)) ↦{Transfers.shareTok qx 11 (8 : Fin 11)} fx2)
        ∗ ((Memref.whole main_arg2_scv : Memref sig .scVector .hbm S100000x128 .f32).view.loc (V d (cV2 L) (jV2 L)) ↦{Transfers.shareTok qx 11 (9 : Fin 11)} fx2)
        ∗ ((Memref.whole main_arg2_scv : Memref sig .scVector .hbm S100000x128 .f32).view.loc (V d (cV2 L) (jV2 L)) ↦{Transfers.shareTok qx 11 (10 : Fin 11)} fx2)
        ∗ ((Memref.whole main_arg3_scv : Memref sig .scVector .hbm S100000x128 .f32).view.loc (V d (cV2 L) (jV2 L)) ↦{Transfers.shareTok qx 11 (4 : Fin 11)} fx3)
        ∗ ((Memref.whole main_arg3_scv : Memref sig .scVector .hbm S100000x128 .f32).view.loc (V d (cV2 L) (jV2 L)) ↦{Transfers.shareTok qx 11 (5 : Fin 11)} fx3)
        ∗ ((Memref.whole main_arg3_scv : Memref sig .scVector .hbm S100000x128 .f32).view.loc (V d (cV2 L) (jV2 L)) ↦{Transfers.shareTok qx 11 (6 : Fin 11)} fx3)
        ∗ ((Memref.whole main_arg3_scv : Memref sig .scVector .hbm S100000x128 .f32).view.loc (V d (cV2 L) (jV2 L)) ↦{Transfers.shareTok qx 11 (7 : Fin 11)} fx3)
        ∗ ((Memref.whole main_arg3_scv : Memref sig .scVector .hbm S100000x128 .f32).view.loc (V d (cV2 L) (jV2 L)) ↦{Transfers.shareTok qx 11 (8 : Fin 11)} fx3)
        ∗ ((Memref.whole main_arg3_scv : Memref sig .scVector .hbm S100000x128 .f32).view.loc (V d (cV2 L) (jV2 L)) ↦{Transfers.shareTok qx 11 (9 : Fin 11)} fx3)
        ∗ ((Memref.whole main_arg3_scv : Memref sig .scVector .hbm S100000x128 .f32).view.loc (V d (cV2 L) (jV2 L)) ↦{Transfers.shareTok qx 11 (10 : Fin 11)} fx3)
        ∗ (∃ fo, ((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} fo)
        ∗ (∃ fo, ((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} fo)
        ∗ (∃ fo, ((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} fo)
        ∗ (∃ fo, ((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} fo)
        ∗ (∃ fo, ((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} fo)
        ∗ (∃ fo, ((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} fo)
        ∗ (∃ fo, ((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} fo)
        ∗ (∃ fo, ((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} fo)
        ∗ (∃ fo, ((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} fo)
        ∗ (∃ fo, ((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} fo)
        ∗ (∃ fo, ((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} fo)
        ∗ (∃ fo, ((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} fo)
        ∗ (∃ fo, ((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} fo)
        ∗ (∃ fo, ((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} fo)
        ∗ (∃ fo, ((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} fo)
        ∗ (∃ fo, ((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} fo)
        ∗ (∃ fo, ((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} fo)
        ∗ (∃ fo, ((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} fo)
        ∗ (∃ fo, ((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} fo)
        ∗ (∃ fo, ((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} fo)
        ∗ (∃ fo, ((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} fo)
        ∗ (∃ fo, ((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} fo)
        ∗ (∃ fo, ((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} fo)
        ∗ (∃ fo, ((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} fo)
        ∗ (∃ fo, ((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} fo)
        ∗ (∃ fo, ((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} fo)
        ∗ (∃ fo, ((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} fo)
        ∗ (∃ fo, ((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} fo)
        ∗ (∃ si, (Memref.whole cc2_scratch0 : Memref sig .scVector .vmem S7x112 .i32).view.loc (V d (cV2 L) (jV2 L)) ↦{fullShare} si)
        ∗ (∃ si, (Memref.whole cc2_scratch1 : Memref sig .scVector .vmem S7x112 .i32).view.loc (V d (cV2 L) (jV2 L)) ↦{fullShare} si)
        ∗ (∃ si, (Memref.whole cc2_scratch2 : Memref sig .scVector .vmem S7x112 .i32).view.loc (V d (cV2 L) (jV2 L)) ↦{fullShare} si)
        ∗ (∃ si, (Memref.whole cc2_scratch3 : Memref sig .scVector .vmem S7x112 .i32).view.loc (V d (cV2 L) (jV2 L)) ↦{fullShare} si)
        ∗ (∃ sb, (Memref.whole cc2_scratch4 : Memref sig .scVector .vmem S112x128 .f32).view.loc (V d (cV2 L) (jV2 L)) ↦{fullShare} sb)
        ∗ (∃ sb, (Memref.whole cc2_scratch5 : Memref sig .scVector .vmem S112x128 .f32).view.loc (V d (cV2 L) (jV2 L)) ↦{fullShare} sb)
        ∗ (∃ sb, (Memref.whole cc2_scratch6 : Memref sig .scVector .vmem S112x128 .f32).view.loc (V d (cV2 L) (jV2 L)) ↦{fullShare} sb)
        ∗ (∃ sb, (Memref.whole cc2_scratch7 : Memref sig .scVector .vmem S112x128 .f32).view.loc (V d (cV2 L) (jV2 L)) ↦{fullShare} sb)
        ∗ (∃ sb, (Memref.whole cc2_scratch8 : Memref sig .scVector .vmem S112x128 .f32).view.loc (V d (cV2 L) (jV2 L)) ↦{fullShare} sb)
        ∗ (∃ sb, (Memref.whole cc2_scratch9 : Memref sig .scVector .vmem S112x128 .f32).view.loc (V d (cV2 L) (jV2 L)) ↦{fullShare} sb)
        ∗ (∃ sb, (Memref.whole cc2_scratch10 : Memref sig .scVector .vmem S112x128 .f32).view.loc (V d (cV2 L) (jV2 L)) ↦{fullShare} sb)
        ∗ semVal ((V d (cV2 L) (jV2 L)), SemLoc.dma cc2_scratch11.sem) 0
        ∗ semVal ((V d (cV2 L) (jV2 L)), SemLoc.dma cc2_scratch12.sem) 0
        ∗ semVal ((V d (cV2 L) (jV2 L)), SemLoc.dma cc2_scratch13.sem) 0
        ∗ semVal ((V d (cV2 L) (jV2 L)), SemLoc.dma cc2_scratch14.sem) 0
        ∗ semVal ((V d (cV2 L) (jV2 L)), SemLoc.dma cc2_scratch15.sem) 0
        ∗ semVal ((V d (cV2 L) (jV2 L)), SemLoc.dma cc2_scratch16.sem) 0
        ∗ semVal ((V d (cV2 L) (jV2 L)), SemLoc.dma cc2_scratch17.sem) 0
        ∗ semVal ((V d (cV2 L) (jV2 L)), SemLoc.dma cc2_scratch18.sem) 0
        ∗ semVal ((V d (cV2 L) (jV2 L)), SemLoc.dma cc2_scratch19.sem) 0
        ∗ semVal ((V d (cV2 L) (jV2 L)), SemLoc.dma cc2_scratch20.sem) 0
        ∗ semVal ((V d (cV2 L) (jV2 L)), SemLoc.dma cc2_scratch21.sem) 0
        ∗ semVal ((V d (cV2 L) (jV2 L)), SemLoc.dma cc2_scratch22.sem) 0
        ∗ semVal ((V d (cV2 L) (jV2 L)), SemLoc.dma cc2_scratch23.sem) 0
        ∗ semVal ((V d (cV2 L) (jV2 L)), SemLoc.dma cc2_scratch24.sem) 0
        ∗ semVal ((V d (cV2 L) (jV2 L)), SemLoc.dma cc2_scratch25.sem) 0
        ∗ semVal ((V d (cV2 L) (jV2 L)), SemLoc.dma cc2_scratch26.sem) 0
        ∗ semVal ((V d (cV2 L) (jV2 L)), SemLoc.dma cc2_scratch27.sem) 0
        ∗ semVal ((V d (cV2 L) (jV2 L)), SemLoc.dma cc2_scratch28.sem) 0
        ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(
              ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
            ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
            ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
            ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
            ∗ ((Memref.whole main_arg0_scv : Memref sig .scVector .hbm S100000x128 .f32).view.loc (V d (cV2 L) (jV2 L)) ↦{Transfers.shareTok qx 11 (4 : Fin 11)} fx0)
            ∗ ((Memref.whole main_arg0_scv : Memref sig .scVector .hbm S100000x128 .f32).view.loc (V d (cV2 L) (jV2 L)) ↦{Transfers.shareTok qx 11 (5 : Fin 11)} fx0)
            ∗ ((Memref.whole main_arg0_scv : Memref sig .scVector .hbm S100000x128 .f32).view.loc (V d (cV2 L) (jV2 L)) ↦{Transfers.shareTok qx 11 (6 : Fin 11)} fx0)
            ∗ ((Memref.whole main_arg0_scv : Memref sig .scVector .hbm S100000x128 .f32).view.loc (V d (cV2 L) (jV2 L)) ↦{Transfers.shareTok qx 11 (7 : Fin 11)} fx0)
            ∗ ((Memref.whole main_arg0_scv : Memref sig .scVector .hbm S100000x128 .f32).view.loc (V d (cV2 L) (jV2 L)) ↦{Transfers.shareTok qx 11 (8 : Fin 11)} fx0)
            ∗ ((Memref.whole main_arg0_scv : Memref sig .scVector .hbm S100000x128 .f32).view.loc (V d (cV2 L) (jV2 L)) ↦{Transfers.shareTok qx 11 (9 : Fin 11)} fx0)
            ∗ ((Memref.whole main_arg0_scv : Memref sig .scVector .hbm S100000x128 .f32).view.loc (V d (cV2 L) (jV2 L)) ↦{Transfers.shareTok qx 11 (10 : Fin 11)} fx0)
            ∗ ((Memref.whole main_arg1_scv : Memref sig .scVector .hbm S100000x128 .f32).view.loc (V d (cV2 L) (jV2 L)) ↦{Transfers.shareTok qx 11 (4 : Fin 11)} fx1)
            ∗ ((Memref.whole main_arg1_scv : Memref sig .scVector .hbm S100000x128 .f32).view.loc (V d (cV2 L) (jV2 L)) ↦{Transfers.shareTok qx 11 (5 : Fin 11)} fx1)
            ∗ ((Memref.whole main_arg1_scv : Memref sig .scVector .hbm S100000x128 .f32).view.loc (V d (cV2 L) (jV2 L)) ↦{Transfers.shareTok qx 11 (6 : Fin 11)} fx1)
            ∗ ((Memref.whole main_arg1_scv : Memref sig .scVector .hbm S100000x128 .f32).view.loc (V d (cV2 L) (jV2 L)) ↦{Transfers.shareTok qx 11 (7 : Fin 11)} fx1)
            ∗ ((Memref.whole main_arg1_scv : Memref sig .scVector .hbm S100000x128 .f32).view.loc (V d (cV2 L) (jV2 L)) ↦{Transfers.shareTok qx 11 (8 : Fin 11)} fx1)
            ∗ ((Memref.whole main_arg1_scv : Memref sig .scVector .hbm S100000x128 .f32).view.loc (V d (cV2 L) (jV2 L)) ↦{Transfers.shareTok qx 11 (9 : Fin 11)} fx1)
            ∗ ((Memref.whole main_arg1_scv : Memref sig .scVector .hbm S100000x128 .f32).view.loc (V d (cV2 L) (jV2 L)) ↦{Transfers.shareTok qx 11 (10 : Fin 11)} fx1)
            ∗ ((Memref.whole main_arg2_scv : Memref sig .scVector .hbm S100000x128 .f32).view.loc (V d (cV2 L) (jV2 L)) ↦{Transfers.shareTok qx 11 (4 : Fin 11)} fx2)
            ∗ ((Memref.whole main_arg2_scv : Memref sig .scVector .hbm S100000x128 .f32).view.loc (V d (cV2 L) (jV2 L)) ↦{Transfers.shareTok qx 11 (5 : Fin 11)} fx2)
            ∗ ((Memref.whole main_arg2_scv : Memref sig .scVector .hbm S100000x128 .f32).view.loc (V d (cV2 L) (jV2 L)) ↦{Transfers.shareTok qx 11 (6 : Fin 11)} fx2)
            ∗ ((Memref.whole main_arg2_scv : Memref sig .scVector .hbm S100000x128 .f32).view.loc (V d (cV2 L) (jV2 L)) ↦{Transfers.shareTok qx 11 (7 : Fin 11)} fx2)
            ∗ ((Memref.whole main_arg2_scv : Memref sig .scVector .hbm S100000x128 .f32).view.loc (V d (cV2 L) (jV2 L)) ↦{Transfers.shareTok qx 11 (8 : Fin 11)} fx2)
            ∗ ((Memref.whole main_arg2_scv : Memref sig .scVector .hbm S100000x128 .f32).view.loc (V d (cV2 L) (jV2 L)) ↦{Transfers.shareTok qx 11 (9 : Fin 11)} fx2)
            ∗ ((Memref.whole main_arg2_scv : Memref sig .scVector .hbm S100000x128 .f32).view.loc (V d (cV2 L) (jV2 L)) ↦{Transfers.shareTok qx 11 (10 : Fin 11)} fx2)
            ∗ ((Memref.whole main_arg3_scv : Memref sig .scVector .hbm S100000x128 .f32).view.loc (V d (cV2 L) (jV2 L)) ↦{Transfers.shareTok qx 11 (4 : Fin 11)} fx3)
            ∗ ((Memref.whole main_arg3_scv : Memref sig .scVector .hbm S100000x128 .f32).view.loc (V d (cV2 L) (jV2 L)) ↦{Transfers.shareTok qx 11 (5 : Fin 11)} fx3)
            ∗ ((Memref.whole main_arg3_scv : Memref sig .scVector .hbm S100000x128 .f32).view.loc (V d (cV2 L) (jV2 L)) ↦{Transfers.shareTok qx 11 (6 : Fin 11)} fx3)
            ∗ ((Memref.whole main_arg3_scv : Memref sig .scVector .hbm S100000x128 .f32).view.loc (V d (cV2 L) (jV2 L)) ↦{Transfers.shareTok qx 11 (7 : Fin 11)} fx3)
            ∗ ((Memref.whole main_arg3_scv : Memref sig .scVector .hbm S100000x128 .f32).view.loc (V d (cV2 L) (jV2 L)) ↦{Transfers.shareTok qx 11 (8 : Fin 11)} fx3)
            ∗ ((Memref.whole main_arg3_scv : Memref sig .scVector .hbm S100000x128 .f32).view.loc (V d (cV2 L) (jV2 L)) ↦{Transfers.shareTok qx 11 (9 : Fin 11)} fx3)
            ∗ ((Memref.whole main_arg3_scv : Memref sig .scVector .hbm S100000x128 .f32).view.loc (V d (cV2 L) (jV2 L)) ↦{Transfers.shareTok qx 11 (10 : Fin 11)} fx3)
            ∗ (∃ fo, ((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} fo)
            ∗ (∃ fo, ((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} fo)
            ∗ (∃ fo, ((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} fo)
            ∗ (∃ fo, ((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} fo)
            ∗ (∃ fo, ((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} fo)
            ∗ (∃ fo, ((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} fo)
            ∗ (∃ fo, ((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} fo)
            ∗ (∃ fo, ((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} fo)
            ∗ (∃ fo, ((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} fo)
            ∗ (∃ fo, ((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} fo)
            ∗ (∃ fo, ((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} fo)
            ∗ (∃ fo, ((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} fo)
            ∗ (∃ fo, ((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} fo)
            ∗ (∃ fo, ((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} fo)
            ∗ (∃ fo, ((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} fo)
            ∗ (∃ fo, ((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} fo)
            ∗ (∃ fo, ((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} fo)
            ∗ (∃ fo, ((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} fo)
            ∗ (∃ fo, ((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} fo)
            ∗ (∃ fo, ((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} fo)
            ∗ (∃ fo, ((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} fo)
            ∗ (∃ fo, ((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} fo)
            ∗ (∃ fo, ((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} fo)
            ∗ (∃ fo, ((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} fo)
            ∗ (∃ fo, ((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} fo)
            ∗ (∃ fo, ((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} fo)
            ∗ (∃ fo, ((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} fo)
            ∗ (∃ fo, ((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} fo)
            ∗ (∃ si, (Memref.whole cc2_scratch0 : Memref sig .scVector .vmem S7x112 .i32).view.loc (V d (cV2 L) (jV2 L)) ↦{fullShare} si)
            ∗ (∃ si, (Memref.whole cc2_scratch1 : Memref sig .scVector .vmem S7x112 .i32).view.loc (V d (cV2 L) (jV2 L)) ↦{fullShare} si)
            ∗ (∃ si, (Memref.whole cc2_scratch2 : Memref sig .scVector .vmem S7x112 .i32).view.loc (V d (cV2 L) (jV2 L)) ↦{fullShare} si)
            ∗ (∃ si, (Memref.whole cc2_scratch3 : Memref sig .scVector .vmem S7x112 .i32).view.loc (V d (cV2 L) (jV2 L)) ↦{fullShare} si)
            ∗ (∃ sb, (Memref.whole cc2_scratch4 : Memref sig .scVector .vmem S112x128 .f32).view.loc (V d (cV2 L) (jV2 L)) ↦{fullShare} sb)
            ∗ (∃ sb, (Memref.whole cc2_scratch5 : Memref sig .scVector .vmem S112x128 .f32).view.loc (V d (cV2 L) (jV2 L)) ↦{fullShare} sb)
            ∗ (∃ sb, (Memref.whole cc2_scratch6 : Memref sig .scVector .vmem S112x128 .f32).view.loc (V d (cV2 L) (jV2 L)) ↦{fullShare} sb)
            ∗ (∃ sb, (Memref.whole cc2_scratch7 : Memref sig .scVector .vmem S112x128 .f32).view.loc (V d (cV2 L) (jV2 L)) ↦{fullShare} sb)
            ∗ (∃ sb, (Memref.whole cc2_scratch8 : Memref sig .scVector .vmem S112x128 .f32).view.loc (V d (cV2 L) (jV2 L)) ↦{fullShare} sb)
            ∗ (∃ sb, (Memref.whole cc2_scratch9 : Memref sig .scVector .vmem S112x128 .f32).view.loc (V d (cV2 L) (jV2 L)) ↦{fullShare} sb)
            ∗ (∃ sb, (Memref.whole cc2_scratch10 : Memref sig .scVector .vmem S112x128 .f32).view.loc (V d (cV2 L) (jV2 L)) ↦{fullShare} sb)
            ∗ semVal ((V d (cV2 L) (jV2 L)), SemLoc.dma cc2_scratch11.sem) 0
            ∗ semVal ((V d (cV2 L) (jV2 L)), SemLoc.dma cc2_scratch12.sem) 0
            ∗ semVal ((V d (cV2 L) (jV2 L)), SemLoc.dma cc2_scratch13.sem) 0
            ∗ semVal ((V d (cV2 L) (jV2 L)), SemLoc.dma cc2_scratch14.sem) 0
            ∗ semVal ((V d (cV2 L) (jV2 L)), SemLoc.dma cc2_scratch15.sem) 0
            ∗ semVal ((V d (cV2 L) (jV2 L)), SemLoc.dma cc2_scratch16.sem) 0
            ∗ semVal ((V d (cV2 L) (jV2 L)), SemLoc.dma cc2_scratch17.sem) 0
            ∗ semVal ((V d (cV2 L) (jV2 L)), SemLoc.dma cc2_scratch18.sem) 0
            ∗ semVal ((V d (cV2 L) (jV2 L)), SemLoc.dma cc2_scratch19.sem) 0
            ∗ semVal ((V d (cV2 L) (jV2 L)), SemLoc.dma cc2_scratch20.sem) 0
            ∗ semVal ((V d (cV2 L) (jV2 L)), SemLoc.dma cc2_scratch21.sem) 0
            ∗ semVal ((V d (cV2 L) (jV2 L)), SemLoc.dma cc2_scratch22.sem) 0
            ∗ semVal ((V d (cV2 L) (jV2 L)), SemLoc.dma cc2_scratch23.sem) 0
            ∗ semVal ((V d (cV2 L) (jV2 L)), SemLoc.dma cc2_scratch24.sem) 0
            ∗ semVal ((V d (cV2 L) (jV2 L)), SemLoc.dma cc2_scratch25.sem) 0
            ∗ semVal ((V d (cV2 L) (jV2 L)), SemLoc.dma cc2_scratch26.sem) 0
            ∗ semVal ((V d (cV2 L) (jV2 L)), SemLoc.dma cc2_scratch27.sem) 0
            ∗ semVal ((V d (cV2 L) (jV2 L)), SemLoc.dma cc2_scratch28.sem) 0
            ∗ (∃ W', ⌜∀ p ∈ W', p ∈ W ∨ p.2 = none⌝ ∗ owes (V d (cV2 L) (jV2 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc2_sc_kernel_eq_skeleton, cc2_sc_kernel_skel]
  -- the offset lists' words in range: each list is a row of an index scratch holding the words of the task's index row
  have hin0 := fun Wm off h si x => hin_row (F := F) d (cV2 L) (jV2 L) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0) hfi0 Wm off h si x
  have hin1 := fun Wm off h si x => hin_row (F := F) d (cV2 L) (jV2 L) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1) hfi1 Wm off h si x
  have hin2 := fun Wm off h si x => hin_row (F := F) d (cV2 L) (jV2 L) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2) hfi2 Wm off h si x
  have hin3 := fun Wm off h si x => hin_row (F := F) d (cV2 L) (jV2 L) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScObl2.lean ====
/-
  The launch theorem's obligation for the tasks of gather call 2.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTile2
import proofs.«215994_g5102421148354_cont_8to1c4_853_29_alg».proof.Proof.ScPay
import proofs.«215994_g5102421148354_cont_8to1c4_853_29_alg».proof.Proof.ScScoped

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 2 names. -/
abbrev semL2 : List (SemLoc sig) := [SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem, SemLoc.dma cc2_scratch19.sem, SemLoc.dma cc2_scratch20.sem, SemLoc.dma cc2_scratch21.sem, SemLoc.dma cc2_scratch22.sem, SemLoc.dma cc2_scratch23.sem, SemLoc.dma cc2_scratch24.sem, SemLoc.dma cc2_scratch25.sem, SemLoc.dma cc2_scratch26.sem, SemLoc.dma cc2_scratch27.sem, SemLoc.dma cc2_scratch28.sem]
abbrev bufL2 (c : Fin τ.nSC) (i : Fin τ.nSub) : List (DevRef τ sig) := ([cc2_scratch0, cc2_scratch1, cc2_scratch2, cc2_scratch3, cc2_scratch4, cc2_scratch5, cc2_scratch6, cc2_scratch7, cc2_scratch8, cc2_scratch9, cc2_scratch10] : List (Ref sig .scVector)).map (Proc.scVector c i).devRef

theorem semL2_nodup : (semL2).Nodup := by decide
theorem semL2_scoped : ∀ s ∈ semL2, s.isScoped Kind.scVector = true := by decide
theorem bufL2_nodup (c : Fin τ.nSC) (i : Fin τ.nSub) : (bufL2 c i).Nodup :=
  (show ([cc2_scratch0, cc2_scratch1, cc2_scratch2, cc2_scratch3, cc2_scratch4, cc2_scratch5, cc2_scratch6, cc2_scratch7, cc2_scratch8, cc2_scratch9, cc2_scratch10] : List (Ref sig .scVector)).Nodup by decide).map (Proc.devRef_injective _)
theorem bufL2_own (c : Fin τ.nSC) (i : Fin τ.nSub) : ∀ b ∈ bufL2 c i, b ∈ ownRefs (sig := sig) (Proc.scVector c i) := by
  intro b hb
  simp only [bufL2, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_2 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL2_chain (Φ : SemLoc sig → sProp 𝕄) : bigSepL semL2 Φ = iprop(Φ (SemLoc.dma cc2_scratch11.sem) ∗ Φ (SemLoc.dma cc2_scratch12.sem) ∗ Φ (SemLoc.dma cc2_scratch13.sem) ∗ Φ (SemLoc.dma cc2_scratch14.sem) ∗ Φ (SemLoc.dma cc2_scratch15.sem) ∗ Φ (SemLoc.dma cc2_scratch16.sem) ∗ Φ (SemLoc.dma cc2_scratch17.sem) ∗ Φ (SemLoc.dma cc2_scratch18.sem) ∗ Φ (SemLoc.dma cc2_scratch19.sem) ∗ Φ (SemLoc.dma cc2_scratch20.sem) ∗ Φ (SemLoc.dma cc2_scratch21.sem) ∗ Φ (SemLoc.dma cc2_scratch22.sem) ∗ Φ (SemLoc.dma cc2_scratch23.sem) ∗ Φ (SemLoc.dma cc2_scratch24.sem) ∗ Φ (SemLoc.dma cc2_scratch25.sem) ∗ Φ (SemLoc.dma cc2_scratch26.sem) ∗ Φ (SemLoc.dma cc2_scratch27.sem) ∗ Φ (SemLoc.dma cc2_scratch28.sem)) := rfl
theorem bufL2_chain (c : Fin τ.nSC) (i : Fin τ.nSub) (Φ : DevRef τ sig → sProp 𝕄) : bigSepL (bufL2 c i) Φ = iprop(Φ ((Proc.scVector c i).devRef cc2_scratch0) ∗ Φ ((Proc.scVector c i).devRef cc2_scratch1) ∗ Φ ((Proc.scVector c i).devRef cc2_scratch2) ∗ Φ ((Proc.scVector c i).devRef cc2_scratch3) ∗ Φ ((Proc.scVector c i).devRef cc2_scratch4) ∗ Φ ((Proc.scVector c i).devRef cc2_scratch5) ∗ Φ ((Proc.scVector c i).devRef cc2_scratch6) ∗ Φ ((Proc.scVector c i).devRef cc2_scratch7) ∗ Φ ((Proc.scVector c i).devRef cc2_scratch8) ∗ Φ ((Proc.scVector c i).devRef cc2_scratch9) ∗ Φ ((Proc.scVector c i).devRef cc2_scratch10)) := rfl

set_option maxHeartbeats 4000000 in
/-- The task from what the launch hands it: its payload and its subcore's whole scoped storage. -/
theorem tile_full2 (hF : (K (F := F)).Facts) (d : Dev nD) (L : grid2.Coords) (O : CellTallies nD τ sig (HIx 4)) (W : Waits sig (HIx 4))
    (hO : ∀ g, O g none = 0) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    :
    iprop(levAts (K (F := F)).L (K (F := F)).lev ∗ emp ∗ tileRes2 d L qx fi0 fi1 fi2 fi3 fx0 fx1 fx2 fx3
        ∗ scopedBufs (V d (cV2 L) (jV2 L)) ∗ scopedSems0 (V d (cV2 L) (jV2 L)) ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(tileRes2 d L qx fi0 fi1 fi2 fi3 fx0 fx1 fx2 fx3 ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') := by
  rw [(K (F := F)).scopedBufs_V hF d (cV2 L) (jV2 L), SparseCore.Cfg.scopedSems0_V (Val := Elt F) d (cV2 L) (jV2 L),
    ownSems0_take (V d (cV2 L) (jV2 L)) semL2 semL2_nodup semL2_scoped,
    ownBufs_take (V d (cV2 L) (jV2 L)) (bufL2 (cV2 L) (jV2 L)) (bufL2_nodup _ _) (bufL2_own _ _)]
  unfold tileRes2 ownedAny
  rw [semL2_chain, bufL2_chain]
  simp only [toks11_2]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV2 L) (jV2 L))) hO) $$ Hlv
  ihave Hwp := (tile_body2 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post2 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 2. -/
theorem defs₀_vector2 (c : Fin τ.nSC) (s : Fin τ.nSub) :
    defs₀ (F := F) (.scVector c s) 2 ()
      = SparseCore.onTile hcore2 hsub2 (fun c s => cc2_sc_kernel (coordsV2 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28) ⟨⟩ c s := rfl

/-- An index row of the task reads words of the call's index array, which are row numbers of the tables. -/
theorem row_lt2 (d : Dev nD) (L : grid2.Coords) (a : IVec S100000 32) (ha : ∀ r, (a r).toNat < 100000) (t : Fin 4) :
    ((t = 0 → ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 1 → ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 2 → ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 3 → ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000))
    := by
  refine ⟨?_, ?_, ?_, ?_⟩ <;> (intro _ j; rw [View.read_apply]; simp only [cast_eq]; exact Idx.slab_lt 2 a ha _)

set_option maxHeartbeats 4000000 in
/-- The launch theorem's obligation for the tasks of call 2, the index inputs holding row numbers. -/
theorem tileObl2 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  obtain ⟨h4, h5, h6, h7⟩ := hpre d
  exact (tile_full2 (F := F) facts d (coordsV2 ⟨_, hc.1⟩ ⟨_, hc.2⟩) O W hO (qTile (Fin.cast (nCore_eq 2) c) (Fin.cast (nSub_eq 2) i))
    (Idx.slab 2 (m ((SparseCore.T d).loc main_arg4))) ((row_lt2 d _ _ h4 0).1 rfl)
    (Idx.slab 2 (m ((SparseCore.T d).loc main_arg5))) ((row_lt2 d _ _ h5 1).2.1 rfl)
    (Idx.slab 2 (m ((SparseCore.T d).loc main_arg6))) ((row_lt2 d _ _ h6 2).2.2.1 rfl)
    (Idx.slab 2 (m ((SparseCore.T d).loc main_arg7))) ((row_lt2 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post2)

end Cert.KernelIdeal.Sc

end
-- ==== Proof.ScTile3.lean ====
/-
  One vector subcore's task in gather call 3: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScGrid

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body3 (d : Dev nD) (L : grid3.Coords) (O : CellTallies nD τ sig (HIx 4)) (W : Waits sig (HIx 4)) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    :
    iprop(Transfers.MayWaits (V d (cV3 L) (jV3 L)) (none : HIx 4) O
        ∗ ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
        ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
        ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
        ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
        ∗ ((Memref.whole main_arg0_scv : Memref sig .scVector .hbm S100000x128 .f32).view.loc (V d (cV3 L) (jV3 L)) ↦{Transfers.shareTok qx 11 (4 : Fin 11)} fx0)
        ∗ ((Memref.whole main_arg0_scv : Memref sig .scVector .hbm S100000x128 .f32).view.loc (V d (cV3 L) (jV3 L)) ↦{Transfers.shareTok qx 11 (5 : Fin 11)} fx0)
        ∗ ((Memref.whole main_arg0_scv : Memref sig .scVector .hbm S100000x128 .f32).view.loc (V d (cV3 L) (jV3 L)) ↦{Transfers.shareTok qx 11 (6 : Fin 11)} fx0)
        ∗ ((Memref.whole main_arg0_scv : Memref sig .scVector .hbm S100000x128 .f32).view.loc (V d (cV3 L) (jV3 L)) ↦{Transfers.shareTok qx 11 (7 : Fin 11)} fx0)
        ∗ ((Memref.whole main_arg0_scv : Memref sig .scVector .hbm S100000x128 .f32).view.loc (V d (cV3 L) (jV3 L)) ↦{Transfers.shareTok qx 11 (8 : Fin 11)} fx0)
        ∗ ((Memref.whole main_arg0_scv : Memref sig .scVector .hbm S100000x128 .f32).view.loc (V d (cV3 L) (jV3 L)) ↦{Transfers.shareTok qx 11 (9 : Fin 11)} fx0)
        ∗ ((Memref.whole main_arg0_scv : Memref sig .scVector .hbm S100000x128 .f32).view.loc (V d (cV3 L) (jV3 L)) ↦{Transfers.shareTok qx 11 (10 : Fin 11)} fx0)
        ∗ ((Memref.whole main_arg1_scv : Memref sig .scVector .hbm S100000x128 .f32).view.loc (V d (cV3 L) (jV3 L)) ↦{Transfers.shareTok qx 11 (4 : Fin 11)} fx1)
        ∗ ((Memref.whole main_arg1_scv : Memref sig .scVector .hbm S100000x128 .f32).view.loc (V d (cV3 L) (jV3 L)) ↦{Transfers.shareTok qx 11 (5 : Fin 11)} fx1)
        ∗ ((Memref.whole main_arg1_scv : Memref sig .scVector .hbm S100000x128 .f32).view.loc (V d (cV3 L) (jV3 L)) ↦{Transfers.shareTok qx 11 (6 : Fin 11)} fx1)
        ∗ ((Memref.whole main_arg1_scv : Memref sig .scVector .hbm S100000x128 .f32).view.loc (V d (cV3 L) (jV3 L)) ↦{Transfers.shareTok qx 11 (7 : Fin 11)} fx1)
        ∗ ((Memref.whole main_arg1_scv : Memref sig .scVector .hbm S100000x128 .f32).view.loc (V d (cV3 L) (jV3 L)) ↦{Transfers.shareTok qx 11 (8 : Fin 11)} fx1)
        ∗ ((Memref.whole main_arg1_scv : Memref sig .scVector .hbm S100000x128 .f32).view.loc (V d (cV3 L) (jV3 L)) ↦{Transfers.shareTok qx 11 (9 : Fin 11)} fx1)
        ∗ ((Memref.whole main_arg1_scv : Memref sig .scVector .hbm S100000x128 .f32).view.loc (V d (cV3 L) (jV3 L)) ↦{Transfers.shareTok qx 11 (10 : Fin 11)} fx1)
        ∗ ((Memref.whole main_arg2_scv : Memref sig .scVector .hbm S100000x128 .f32).view.loc (V d (cV3 L) (jV3 L)) ↦{Transfers.shareTok qx 11 (4 : Fin 11)} fx2)
        ∗ ((Memref.whole main_arg2_scv : Memref sig .scVector .hbm S100000x128 .f32).view.loc (V d (cV3 L) (jV3 L)) ↦{Transfers.shareTok qx 11 (5 : Fin 11)} fx2)
        ∗ ((Memref.whole main_arg2_scv : Memref sig .scVector .hbm S100000x128 .f32).view.loc (V d (cV3 L) (jV3 L)) ↦{Transfers.shareTok qx 11 (6 : Fin 11)} fx2)
        ∗ ((Memref.whole main_arg2_scv : Memref sig .scVector .hbm S100000x128 .f32).view.loc (V d (cV3 L) (jV3 L)) ↦{Transfers.shareTok qx 11 (7 : Fin 11)} fx2)
        ∗ ((Memref.whole main_arg2_scv : Memref sig .scVector .hbm S100000x128 .f32).view.loc (V d (cV3 L) (jV3 L)) ↦{Transfers.shareTok qx 11 (8 : Fin 11)} fx2)
        ∗ ((Memref.whole main_arg2_scv : Memref sig .scVector .hbm S100000x128 .f32).view.loc (V d (cV3 L) (jV3 L)) ↦{Transfers.shareTok qx 11 (9 : Fin 11)} fx2)
        ∗ ((Memref.whole main_arg2_scv : Memref sig .scVector .hbm S100000x128 .f32).view.loc (V d (cV3 L) (jV3 L)) ↦{Transfers.shareTok qx 11 (10 : Fin 11)} fx2)
        ∗ ((Memref.whole main_arg3_scv : Memref sig .scVector .hbm S100000x128 .f32).view.loc (V d (cV3 L) (jV3 L)) ↦{Transfers.shareTok qx 11 (4 : Fin 11)} fx3)
        ∗ ((Memref.whole main_arg3_scv : Memref sig .scVector .hbm S100000x128 .f32).view.loc (V d (cV3 L) (jV3 L)) ↦{Transfers.shareTok qx 11 (5 : Fin 11)} fx3)
        ∗ ((Memref.whole main_arg3_scv : Memref sig .scVector .hbm S100000x128 .f32).view.loc (V d (cV3 L) (jV3 L)) ↦{Transfers.shareTok qx 11 (6 : Fin 11)} fx3)
        ∗ ((Memref.whole main_arg3_scv : Memref sig .scVector .hbm S100000x128 .f32).view.loc (V d (cV3 L) (jV3 L)) ↦{Transfers.shareTok qx 11 (7 : Fin 11)} fx3)
        ∗ ((Memref.whole main_arg3_scv : Memref sig .scVector .hbm S100000x128 .f32).view.loc (V d (cV3 L) (jV3 L)) ↦{Transfers.shareTok qx 11 (8 : Fin 11)} fx3)
        ∗ ((Memref.whole main_arg3_scv : Memref sig .scVector .hbm S100000x128 .f32).view.loc (V d (cV3 L) (jV3 L)) ↦{Transfers.shareTok qx 11 (9 : Fin 11)} fx3)
        ∗ ((Memref.whole main_arg3_scv : Memref sig .scVector .hbm S100000x128 .f32).view.loc (V d (cV3 L) (jV3 L)) ↦{Transfers.shareTok qx 11 (10 : Fin 11)} fx3)
        ∗ (∃ fo, ((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} fo)
        ∗ (∃ fo, ((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} fo)
        ∗ (∃ fo, ((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} fo)
        ∗ (∃ fo, ((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} fo)
        ∗ (∃ fo, ((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} fo)
        ∗ (∃ fo, ((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} fo)
        ∗ (∃ fo, ((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} fo)
        ∗ (∃ fo, ((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} fo)
        ∗ (∃ fo, ((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} fo)
        ∗ (∃ fo, ((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} fo)
        ∗ (∃ fo, ((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} fo)
        ∗ (∃ fo, ((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} fo)
        ∗ (∃ fo, ((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} fo)
        ∗ (∃ fo, ((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} fo)
        ∗ (∃ fo, ((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} fo)
        ∗ (∃ fo, ((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} fo)
        ∗ (∃ fo, ((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} fo)
        ∗ (∃ fo, ((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} fo)
        ∗ (∃ fo, ((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} fo)
        ∗ (∃ fo, ((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} fo)
        ∗ (∃ fo, ((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} fo)
        ∗ (∃ fo, ((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} fo)
        ∗ (∃ fo, ((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} fo)
        ∗ (∃ fo, ((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} fo)
        ∗ (∃ fo, ((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} fo)
        ∗ (∃ fo, ((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} fo)
        ∗ (∃ fo, ((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} fo)
        ∗ (∃ fo, ((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} fo)
        ∗ (∃ si, (Memref.whole cc3_scratch0 : Memref sig .scVector .vmem S7x112 .i32).view.loc (V d (cV3 L) (jV3 L)) ↦{fullShare} si)
        ∗ (∃ si, (Memref.whole cc3_scratch1 : Memref sig .scVector .vmem S7x112 .i32).view.loc (V d (cV3 L) (jV3 L)) ↦{fullShare} si)
        ∗ (∃ si, (Memref.whole cc3_scratch2 : Memref sig .scVector .vmem S7x112 .i32).view.loc (V d (cV3 L) (jV3 L)) ↦{fullShare} si)
        ∗ (∃ si, (Memref.whole cc3_scratch3 : Memref sig .scVector .vmem S7x112 .i32).view.loc (V d (cV3 L) (jV3 L)) ↦{fullShare} si)
        ∗ (∃ sb, (Memref.whole cc3_scratch4 : Memref sig .scVector .vmem S112x128 .f32).view.loc (V d (cV3 L) (jV3 L)) ↦{fullShare} sb)
        ∗ (∃ sb, (Memref.whole cc3_scratch5 : Memref sig .scVector .vmem S112x128 .f32).view.loc (V d (cV3 L) (jV3 L)) ↦{fullShare} sb)
        ∗ (∃ sb, (Memref.whole cc3_scratch6 : Memref sig .scVector .vmem S112x128 .f32).view.loc (V d (cV3 L) (jV3 L)) ↦{fullShare} sb)
        ∗ (∃ sb, (Memref.whole cc3_scratch7 : Memref sig .scVector .vmem S112x128 .f32).view.loc (V d (cV3 L) (jV3 L)) ↦{fullShare} sb)
        ∗ (∃ sb, (Memref.whole cc3_scratch8 : Memref sig .scVector .vmem S112x128 .f32).view.loc (V d (cV3 L) (jV3 L)) ↦{fullShare} sb)
        ∗ (∃ sb, (Memref.whole cc3_scratch9 : Memref sig .scVector .vmem S112x128 .f32).view.loc (V d (cV3 L) (jV3 L)) ↦{fullShare} sb)
        ∗ (∃ sb, (Memref.whole cc3_scratch10 : Memref sig .scVector .vmem S112x128 .f32).view.loc (V d (cV3 L) (jV3 L)) ↦{fullShare} sb)
        ∗ semVal ((V d (cV3 L) (jV3 L)), SemLoc.dma cc3_scratch11.sem) 0
        ∗ semVal ((V d (cV3 L) (jV3 L)), SemLoc.dma cc3_scratch12.sem) 0
        ∗ semVal ((V d (cV3 L) (jV3 L)), SemLoc.dma cc3_scratch13.sem) 0
        ∗ semVal ((V d (cV3 L) (jV3 L)), SemLoc.dma cc3_scratch14.sem) 0
        ∗ semVal ((V d (cV3 L) (jV3 L)), SemLoc.dma cc3_scratch15.sem) 0
        ∗ semVal ((V d (cV3 L) (jV3 L)), SemLoc.dma cc3_scratch16.sem) 0
        ∗ semVal ((V d (cV3 L) (jV3 L)), SemLoc.dma cc3_scratch17.sem) 0
        ∗ semVal ((V d (cV3 L) (jV3 L)), SemLoc.dma cc3_scratch18.sem) 0
        ∗ semVal ((V d (cV3 L) (jV3 L)), SemLoc.dma cc3_scratch19.sem) 0
        ∗ semVal ((V d (cV3 L) (jV3 L)), SemLoc.dma cc3_scratch20.sem) 0
        ∗ semVal ((V d (cV3 L) (jV3 L)), SemLoc.dma cc3_scratch21.sem) 0
        ∗ semVal ((V d (cV3 L) (jV3 L)), SemLoc.dma cc3_scratch22.sem) 0
        ∗ semVal ((V d (cV3 L) (jV3 L)), SemLoc.dma cc3_scratch23.sem) 0
        ∗ semVal ((V d (cV3 L) (jV3 L)), SemLoc.dma cc3_scratch24.sem) 0
        ∗ semVal ((V d (cV3 L) (jV3 L)), SemLoc.dma cc3_scratch25.sem) 0
        ∗ semVal ((V d (cV3 L) (jV3 L)), SemLoc.dma cc3_scratch26.sem) 0
        ∗ semVal ((V d (cV3 L) (jV3 L)), SemLoc.dma cc3_scratch27.sem) 0
        ∗ semVal ((V d (cV3 L) (jV3 L)), SemLoc.dma cc3_scratch28.sem) 0
        ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(
              ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
            ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
            ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
            ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
            ∗ ((Memref.whole main_arg0_scv : Memref sig .scVector .hbm S100000x128 .f32).view.loc (V d (cV3 L) (jV3 L)) ↦{Transfers.shareTok qx 11 (4 : Fin 11)} fx0)
            ∗ ((Memref.whole main_arg0_scv : Memref sig .scVector .hbm S100000x128 .f32).view.loc (V d (cV3 L) (jV3 L)) ↦{Transfers.shareTok qx 11 (5 : Fin 11)} fx0)
            ∗ ((Memref.whole main_arg0_scv : Memref sig .scVector .hbm S100000x128 .f32).view.loc (V d (cV3 L) (jV3 L)) ↦{Transfers.shareTok qx 11 (6 : Fin 11)} fx0)
            ∗ ((Memref.whole main_arg0_scv : Memref sig .scVector .hbm S100000x128 .f32).view.loc (V d (cV3 L) (jV3 L)) ↦{Transfers.shareTok qx 11 (7 : Fin 11)} fx0)
            ∗ ((Memref.whole main_arg0_scv : Memref sig .scVector .hbm S100000x128 .f32).view.loc (V d (cV3 L) (jV3 L)) ↦{Transfers.shareTok qx 11 (8 : Fin 11)} fx0)
            ∗ ((Memref.whole main_arg0_scv : Memref sig .scVector .hbm S100000x128 .f32).view.loc (V d (cV3 L) (jV3 L)) ↦{Transfers.shareTok qx 11 (9 : Fin 11)} fx0)
            ∗ ((Memref.whole main_arg0_scv : Memref sig .scVector .hbm S100000x128 .f32).view.loc (V d (cV3 L) (jV3 L)) ↦{Transfers.shareTok qx 11 (10 : Fin 11)} fx0)
            ∗ ((Memref.whole main_arg1_scv : Memref sig .scVector .hbm S100000x128 .f32).view.loc (V d (cV3 L) (jV3 L)) ↦{Transfers.shareTok qx 11 (4 : Fin 11)} fx1)
            ∗ ((Memref.whole main_arg1_scv : Memref sig .scVector .hbm S100000x128 .f32).view.loc (V d (cV3 L) (jV3 L)) ↦{Transfers.shareTok qx 11 (5 : Fin 11)} fx1)
            ∗ ((Memref.whole main_arg1_scv : Memref sig .scVector .hbm S100000x128 .f32).view.loc (V d (cV3 L) (jV3 L)) ↦{Transfers.shareTok qx 11 (6 : Fin 11)} fx1)
            ∗ ((Memref.whole main_arg1_scv : Memref sig .scVector .hbm S100000x128 .f32).view.loc (V d (cV3 L) (jV3 L)) ↦{Transfers.shareTok qx 11 (7 : Fin 11)} fx1)
            ∗ ((Memref.whole main_arg1_scv : Memref sig .scVector .hbm S100000x128 .f32).view.loc (V d (cV3 L) (jV3 L)) ↦{Transfers.shareTok qx 11 (8 : Fin 11)} fx1)
            ∗ ((Memref.whole main_arg1_scv : Memref sig .scVector .hbm S100000x128 .f32).view.loc (V d (cV3 L) (jV3 L)) ↦{Transfers.shareTok qx 11 (9 : Fin 11)} fx1)
            ∗ ((Memref.whole main_arg1_scv : Memref sig .scVector .hbm S100000x128 .f32).view.loc (V d (cV3 L) (jV3 L)) ↦{Transfers.shareTok qx 11 (10 : Fin 11)} fx1)
            ∗ ((Memref.whole main_arg2_scv : Memref sig .scVector .hbm S100000x128 .f32).view.loc (V d (cV3 L) (jV3 L)) ↦{Transfers.shareTok qx 11 (4 : Fin 11)} fx2)
            ∗ ((Memref.whole main_arg2_scv : Memref sig .scVector .hbm S100000x128 .f32).view.loc (V d (cV3 L) (jV3 L)) ↦{Transfers.shareTok qx 11 (5 : Fin 11)} fx2)
            ∗ ((Memref.whole main_arg2_scv : Memref sig .scVector .hbm S100000x128 .f32).view.loc (V d (cV3 L) (jV3 L)) ↦{Transfers.shareTok qx 11 (6 : Fin 11)} fx2)
            ∗ ((Memref.whole main_arg2_scv : Memref sig .scVector .hbm S100000x128 .f32).view.loc (V d (cV3 L) (jV3 L)) ↦{Transfers.shareTok qx 11 (7 : Fin 11)} fx2)
            ∗ ((Memref.whole main_arg2_scv : Memref sig .scVector .hbm S100000x128 .f32).view.loc (V d (cV3 L) (jV3 L)) ↦{Transfers.shareTok qx 11 (8 : Fin 11)} fx2)
            ∗ ((Memref.whole main_arg2_scv : Memref sig .scVector .hbm S100000x128 .f32).view.loc (V d (cV3 L) (jV3 L)) ↦{Transfers.shareTok qx 11 (9 : Fin 11)} fx2)
            ∗ ((Memref.whole main_arg2_scv : Memref sig .scVector .hbm S100000x128 .f32).view.loc (V d (cV3 L) (jV3 L)) ↦{Transfers.shareTok qx 11 (10 : Fin 11)} fx2)
            ∗ ((Memref.whole main_arg3_scv : Memref sig .scVector .hbm S100000x128 .f32).view.loc (V d (cV3 L) (jV3 L)) ↦{Transfers.shareTok qx 11 (4 : Fin 11)} fx3)
            ∗ ((Memref.whole main_arg3_scv : Memref sig .scVector .hbm S100000x128 .f32).view.loc (V d (cV3 L) (jV3 L)) ↦{Transfers.shareTok qx 11 (5 : Fin 11)} fx3)
            ∗ ((Memref.whole main_arg3_scv : Memref sig .scVector .hbm S100000x128 .f32).view.loc (V d (cV3 L) (jV3 L)) ↦{Transfers.shareTok qx 11 (6 : Fin 11)} fx3)
            ∗ ((Memref.whole main_arg3_scv : Memref sig .scVector .hbm S100000x128 .f32).view.loc (V d (cV3 L) (jV3 L)) ↦{Transfers.shareTok qx 11 (7 : Fin 11)} fx3)
            ∗ ((Memref.whole main_arg3_scv : Memref sig .scVector .hbm S100000x128 .f32).view.loc (V d (cV3 L) (jV3 L)) ↦{Transfers.shareTok qx 11 (8 : Fin 11)} fx3)
            ∗ ((Memref.whole main_arg3_scv : Memref sig .scVector .hbm S100000x128 .f32).view.loc (V d (cV3 L) (jV3 L)) ↦{Transfers.shareTok qx 11 (9 : Fin 11)} fx3)
            ∗ ((Memref.whole main_arg3_scv : Memref sig .scVector .hbm S100000x128 .f32).view.loc (V d (cV3 L) (jV3 L)) ↦{Transfers.shareTok qx 11 (10 : Fin 11)} fx3)
            ∗ (∃ fo, ((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} fo)
            ∗ (∃ fo, ((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} fo)
            ∗ (∃ fo, ((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} fo)
            ∗ (∃ fo, ((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} fo)
            ∗ (∃ fo, ((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} fo)
            ∗ (∃ fo, ((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} fo)
            ∗ (∃ fo, ((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} fo)
            ∗ (∃ fo, ((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} fo)
            ∗ (∃ fo, ((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} fo)
            ∗ (∃ fo, ((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} fo)
            ∗ (∃ fo, ((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} fo)
            ∗ (∃ fo, ((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} fo)
            ∗ (∃ fo, ((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} fo)
            ∗ (∃ fo, ((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} fo)
            ∗ (∃ fo, ((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} fo)
            ∗ (∃ fo, ((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} fo)
            ∗ (∃ fo, ((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} fo)
            ∗ (∃ fo, ((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} fo)
            ∗ (∃ fo, ((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} fo)
            ∗ (∃ fo, ((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} fo)
            ∗ (∃ fo, ((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} fo)
            ∗ (∃ fo, ((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} fo)
            ∗ (∃ fo, ((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} fo)
            ∗ (∃ fo, ((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} fo)
            ∗ (∃ fo, ((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} fo)
            ∗ (∃ fo, ((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} fo)
            ∗ (∃ fo, ((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} fo)
            ∗ (∃ fo, ((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} fo)
            ∗ (∃ si, (Memref.whole cc3_scratch0 : Memref sig .scVector .vmem S7x112 .i32).view.loc (V d (cV3 L) (jV3 L)) ↦{fullShare} si)
            ∗ (∃ si, (Memref.whole cc3_scratch1 : Memref sig .scVector .vmem S7x112 .i32).view.loc (V d (cV3 L) (jV3 L)) ↦{fullShare} si)
            ∗ (∃ si, (Memref.whole cc3_scratch2 : Memref sig .scVector .vmem S7x112 .i32).view.loc (V d (cV3 L) (jV3 L)) ↦{fullShare} si)
            ∗ (∃ si, (Memref.whole cc3_scratch3 : Memref sig .scVector .vmem S7x112 .i32).view.loc (V d (cV3 L) (jV3 L)) ↦{fullShare} si)
            ∗ (∃ sb, (Memref.whole cc3_scratch4 : Memref sig .scVector .vmem S112x128 .f32).view.loc (V d (cV3 L) (jV3 L)) ↦{fullShare} sb)
            ∗ (∃ sb, (Memref.whole cc3_scratch5 : Memref sig .scVector .vmem S112x128 .f32).view.loc (V d (cV3 L) (jV3 L)) ↦{fullShare} sb)
            ∗ (∃ sb, (Memref.whole cc3_scratch6 : Memref sig .scVector .vmem S112x128 .f32).view.loc (V d (cV3 L) (jV3 L)) ↦{fullShare} sb)
            ∗ (∃ sb, (Memref.whole cc3_scratch7 : Memref sig .scVector .vmem S112x128 .f32).view.loc (V d (cV3 L) (jV3 L)) ↦{fullShare} sb)
            ∗ (∃ sb, (Memref.whole cc3_scratch8 : Memref sig .scVector .vmem S112x128 .f32).view.loc (V d (cV3 L) (jV3 L)) ↦{fullShare} sb)
            ∗ (∃ sb, (Memref.whole cc3_scratch9 : Memref sig .scVector .vmem S112x128 .f32).view.loc (V d (cV3 L) (jV3 L)) ↦{fullShare} sb)
            ∗ (∃ sb, (Memref.whole cc3_scratch10 : Memref sig .scVector .vmem S112x128 .f32).view.loc (V d (cV3 L) (jV3 L)) ↦{fullShare} sb)
            ∗ semVal ((V d (cV3 L) (jV3 L)), SemLoc.dma cc3_scratch11.sem) 0
            ∗ semVal ((V d (cV3 L) (jV3 L)), SemLoc.dma cc3_scratch12.sem) 0
            ∗ semVal ((V d (cV3 L) (jV3 L)), SemLoc.dma cc3_scratch13.sem) 0
            ∗ semVal ((V d (cV3 L) (jV3 L)), SemLoc.dma cc3_scratch14.sem) 0
            ∗ semVal ((V d (cV3 L) (jV3 L)), SemLoc.dma cc3_scratch15.sem) 0
            ∗ semVal ((V d (cV3 L) (jV3 L)), SemLoc.dma cc3_scratch16.sem) 0
            ∗ semVal ((V d (cV3 L) (jV3 L)), SemLoc.dma cc3_scratch17.sem) 0
            ∗ semVal ((V d (cV3 L) (jV3 L)), SemLoc.dma cc3_scratch18.sem) 0
            ∗ semVal ((V d (cV3 L) (jV3 L)), SemLoc.dma cc3_scratch19.sem) 0
            ∗ semVal ((V d (cV3 L) (jV3 L)), SemLoc.dma cc3_scratch20.sem) 0
            ∗ semVal ((V d (cV3 L) (jV3 L)), SemLoc.dma cc3_scratch21.sem) 0
            ∗ semVal ((V d (cV3 L) (jV3 L)), SemLoc.dma cc3_scratch22.sem) 0
            ∗ semVal ((V d (cV3 L) (jV3 L)), SemLoc.dma cc3_scratch23.sem) 0
            ∗ semVal ((V d (cV3 L) (jV3 L)), SemLoc.dma cc3_scratch24.sem) 0
            ∗ semVal ((V d (cV3 L) (jV3 L)), SemLoc.dma cc3_scratch25.sem) 0
            ∗ semVal ((V d (cV3 L) (jV3 L)), SemLoc.dma cc3_scratch26.sem) 0
            ∗ semVal ((V d (cV3 L) (jV3 L)), SemLoc.dma cc3_scratch27.sem) 0
            ∗ semVal ((V d (cV3 L) (jV3 L)), SemLoc.dma cc3_scratch28.sem) 0
            ∗ (∃ W', ⌜∀ p ∈ W', p ∈ W ∨ p.2 = none⌝ ∗ owes (V d (cV3 L) (jV3 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc3_sc_kernel_eq_skeleton, cc3_sc_kernel_skel]
  -- the offset lists' words in range: each list is a row of an index scratch holding the words of the task's index row
  have hin0 := fun Wm off h si x => hin_row (F := F) d (cV3 L) (jV3 L) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0) hfi0 Wm off h si x
  have hin1 := fun Wm off h si x => hin_row (F := F) d (cV3 L) (jV3 L) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1) hfi1 Wm off h si x
  have hin2 := fun Wm off h si x => hin_row (F := F) d (cV3 L) (jV3 L) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2) hfi2 Wm off h si x
  have hin3 := fun Wm off h si x => hin_row (F := F) d (cV3 L) (jV3 L) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScObl3.lean ====
/-
  The launch theorem's obligation for the tasks of gather call 3.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTile3
import proofs.«215994_g5102421148354_cont_8to1c4_853_29_alg».proof.Proof.ScPay
import proofs.«215994_g5102421148354_cont_8to1c4_853_29_alg».proof.Proof.ScScoped

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 3 names. -/
abbrev semL3 : List (SemLoc sig) := [SemLoc.dma cc3_scratch11.sem, SemLoc.dma cc3_scratch12.sem, SemLoc.dma cc3_scratch13.sem, SemLoc.dma cc3_scratch14.sem, SemLoc.dma cc3_scratch15.sem, SemLoc.dma cc3_scratch16.sem, SemLoc.dma cc3_scratch17.sem, SemLoc.dma cc3_scratch18.sem, SemLoc.dma cc3_scratch19.sem, SemLoc.dma cc3_scratch20.sem, SemLoc.dma cc3_scratch21.sem, SemLoc.dma cc3_scratch22.sem, SemLoc.dma cc3_scratch23.sem, SemLoc.dma cc3_scratch24.sem, SemLoc.dma cc3_scratch25.sem, SemLoc.dma cc3_scratch26.sem, SemLoc.dma cc3_scratch27.sem, SemLoc.dma cc3_scratch28.sem]
abbrev bufL3 (c : Fin τ.nSC) (i : Fin τ.nSub) : List (DevRef τ sig) := ([cc3_scratch0, cc3_scratch1, cc3_scratch2, cc3_scratch3, cc3_scratch4, cc3_scratch5, cc3_scratch6, cc3_scratch7, cc3_scratch8, cc3_scratch9, cc3_scratch10] : List (Ref sig .scVector)).map (Proc.scVector c i).devRef

theorem semL3_nodup : (semL3).Nodup := by decide
theorem semL3_scoped : ∀ s ∈ semL3, s.isScoped Kind.scVector = true := by decide
theorem bufL3_nodup (c : Fin τ.nSC) (i : Fin τ.nSub) : (bufL3 c i).Nodup :=
  (show ([cc3_scratch0, cc3_scratch1, cc3_scratch2, cc3_scratch3, cc3_scratch4, cc3_scratch5, cc3_scratch6, cc3_scratch7, cc3_scratch8, cc3_scratch9, cc3_scratch10] : List (Ref sig .scVector)).Nodup by decide).map (Proc.devRef_injective _)
theorem bufL3_own (c : Fin τ.nSC) (i : Fin τ.nSub) : ∀ b ∈ bufL3 c i, b ∈ ownRefs (sig := sig) (Proc.scVector c i) := by
  intro b hb
  simp only [bufL3, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_3 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL3_chain (Φ : SemLoc sig → sProp 𝕄) : bigSepL semL3 Φ = iprop(Φ (SemLoc.dma cc3_scratch11.sem) ∗ Φ (SemLoc.dma cc3_scratch12.sem) ∗ Φ (SemLoc.dma cc3_scratch13.sem) ∗ Φ (SemLoc.dma cc3_scratch14.sem) ∗ Φ (SemLoc.dma cc3_scratch15.sem) ∗ Φ (SemLoc.dma cc3_scratch16.sem) ∗ Φ (SemLoc.dma cc3_scratch17.sem) ∗ Φ (SemLoc.dma cc3_scratch18.sem) ∗ Φ (SemLoc.dma cc3_scratch19.sem) ∗ Φ (SemLoc.dma cc3_scratch20.sem) ∗ Φ (SemLoc.dma cc3_scratch21.sem) ∗ Φ (SemLoc.dma cc3_scratch22.sem) ∗ Φ (SemLoc.dma cc3_scratch23.sem) ∗ Φ (SemLoc.dma cc3_scratch24.sem) ∗ Φ (SemLoc.dma cc3_scratch25.sem) ∗ Φ (SemLoc.dma cc3_scratch26.sem) ∗ Φ (SemLoc.dma cc3_scratch27.sem) ∗ Φ (SemLoc.dma cc3_scratch28.sem)) := rfl
theorem bufL3_chain (c : Fin τ.nSC) (i : Fin τ.nSub) (Φ : DevRef τ sig → sProp 𝕄) : bigSepL (bufL3 c i) Φ = iprop(Φ ((Proc.scVector c i).devRef cc3_scratch0) ∗ Φ ((Proc.scVector c i).devRef cc3_scratch1) ∗ Φ ((Proc.scVector c i).devRef cc3_scratch2) ∗ Φ ((Proc.scVector c i).devRef cc3_scratch3) ∗ Φ ((Proc.scVector c i).devRef cc3_scratch4) ∗ Φ ((Proc.scVector c i).devRef cc3_scratch5) ∗ Φ ((Proc.scVector c i).devRef cc3_scratch6) ∗ Φ ((Proc.scVector c i).devRef cc3_scratch7) ∗ Φ ((Proc.scVector c i).devRef cc3_scratch8) ∗ Φ ((Proc.scVector c i).devRef cc3_scratch9) ∗ Φ ((Proc.scVector c i).devRef cc3_scratch10)) := rfl

set_option maxHeartbeats 4000000 in
/-- The task from what the launch hands it: its payload and its subcore's whole scoped storage. -/
theorem tile_full3 (hF : (K (F := F)).Facts) (d : Dev nD) (L : grid3.Coords) (O : CellTallies nD τ sig (HIx 4)) (W : Waits sig (HIx 4))
    (hO : ∀ g, O g none = 0) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    :
    iprop(levAts (K (F := F)).L (K (F := F)).lev ∗ emp ∗ tileRes3 d L qx fi0 fi1 fi2 fi3 fx0 fx1 fx2 fx3
        ∗ scopedBufs (V d (cV3 L) (jV3 L)) ∗ scopedSems0 (V d (cV3 L) (jV3 L)) ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(tileRes3 d L qx fi0 fi1 fi2 fi3 fx0 fx1 fx2 fx3 ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  rw [(K (F := F)).scopedBufs_V hF d (cV3 L) (jV3 L), SparseCore.Cfg.scopedSems0_V (Val := Elt F) d (cV3 L) (jV3 L),
    ownSems0_take (V d (cV3 L) (jV3 L)) semL3 semL3_nodup semL3_scoped,
    ownBufs_take (V d (cV3 L) (jV3 L)) (bufL3 (cV3 L) (jV3 L)) (bufL3_nodup _ _) (bufL3_own _ _)]
  unfold tileRes3 ownedAny
  rw [semL3_chain, bufL3_chain]
  simp only [toks11_3]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV3 L) (jV3 L))) hO) $$ Hlv
  ihave Hwp := (tile_body3 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post3 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 3. -/
theorem defs₀_vector3 (c : Fin τ.nSC) (s : Fin τ.nSub) :
    defs₀ (F := F) (.scVector c s) 3 ()
      = SparseCore.onTile hcore3 hsub3 (fun c s => cc3_sc_kernel (coordsV3 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28) ⟨⟩ c s := rfl

/-- An index row of the task reads words of the call's index array, which are row numbers of the tables. -/
theorem row_lt3 (d : Dev nD) (L : grid3.Coords) (a : IVec S100000 32) (ha : ∀ r, (a r).toNat < 100000) (t : Fin 4) :
    ((t = 0 → ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 1 → ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 2 → ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 3 → ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000))
    := by
  refine ⟨?_, ?_, ?_, ?_⟩ <;> (intro _ j; rw [View.read_apply]; simp only [cast_eq]; exact Idx.slab_lt 3 a ha _)

set_option maxHeartbeats 4000000 in
/-- The launch theorem's obligation for the tasks of call 3, the index inputs holding row numbers. -/
theorem tileObl3 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  obtain ⟨h4, h5, h6, h7⟩ := hpre d
  exact (tile_full3 (F := F) facts d (coordsV3 ⟨_, hc.1⟩ ⟨_, hc.2⟩) O W hO (qTile (Fin.cast (nCore_eq 3) c) (Fin.cast (nSub_eq 3) i))
    (Idx.slab 3 (m ((SparseCore.T d).loc main_arg4))) ((row_lt3 d _ _ h4 0).1 rfl)
    (Idx.slab 3 (m ((SparseCore.T d).loc main_arg5))) ((row_lt3 d _ _ h5 1).2.1 rfl)
    (Idx.slab 3 (m ((SparseCore.T d).loc main_arg6))) ((row_lt3 d _ _ h6 2).2.2.1 rfl)
    (Idx.slab 3 (m ((SparseCore.T d).loc main_arg7))) ((row_lt3 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post3)

end Cert.KernelIdeal.Sc

end
-- ==== Proof.PreDecode.lean ====
import proofs.«215994_g5102421148354_cont_8to1c4_853_29_alg».proof.Proof.Gen.Pre_input_domain
import Idealize.ShloMosaic.Lib.ReduceAll
import Idealize.ShloMosaic.Lib.ValueIdx
import Idealize.ShloMosaic.PureOps.Ideal.Laws

noncomputable section

namespace Cert.Pre_input_domain.Decode

open Cert.Pre_input_domain Cert.Pre_input_domain.Gen Idealize.ShloMosaic

/-! ## The input domain, conjunct by conjunct

The precondition is one bit: the conjunction of twelve `all`s, one per argument array — `|x| < +∞` for every entry of a
float array, `0 ≤ i ∧ i ≤ 99999` (signed) for every entry of an index array. Each `all` is a conjunction folded over the
array, so the bit being set gives the entry's fact at every index. -/

/-- The rank-zero shape has one index. -/
instance : Subsingleton S_.Idx := ⟨fun a b => funext fun d => d.elim0⟩

variable {F : FTy → Type} [FloatOps F]

/-- An entry's absolute value is below `+∞`. -/
abbrev finAt (v : F .f32) : BitVec 1 := FloatOps.cmpf .olt (FloatOps.hostAbsf v) (FloatOps.ofBits (F := F) .f32 0x7F800000#32)
/-- An index is in `[0, 99999]`, signed. -/
abbrev rngAt (v : BitVec 32) : BitVec 1 := IntOp.andi (IntOp.cmpi .sge v 0#32) (IntOp.cmpi .sle v 99999#32)

/-- The twelve conjuncts of the input domain, each at every index of its array. -/
theorem conjuncts (a0 a1 a2 a3 : FVec F S100000x128 .f32) (a4 a5 a6 a7 : IVec S100000 32) (a8 : FVec F S512x512 .f32) (a9 a10 a11 : FVec F S512 .f32)
    (h : fn (F := F) a0 a1 a2 a3 a4 a5 a6 a7 a8 a9 a10 a11 = fun _ => 1#1) :
    (∀ j, finAt (a0 j) = 1#1) ∧ (∀ j, finAt (a1 j) = 1#1) ∧ (∀ j, finAt (a2 j) = 1#1) ∧ (∀ j, finAt (a3 j) = 1#1)
      ∧ (∀ r, rngAt (a4 r) = 1#1) ∧ (∀ r, rngAt (a5 r) = 1#1) ∧ (∀ r, rngAt (a6 r) = 1#1) ∧ (∀ r, rngAt (a7 r) = 1#1)
      ∧ (∀ j, finAt (a8 j) = 1#1) ∧ (∀ j, finAt (a9 j) = 1#1) ∧ (∀ j, finAt (a10 j) = 1#1) ∧ (∀ j, finAt (a11 j) = 1#1) := by
  have h0 := congrFun h ValueIdx.ix0
  dsimp only [fn, fn_part1, fn_part2, fn_part3] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun j => Host.reduce_andi_all _ _ _ _ _ h0 j, fun j => Host.reduce_andi_all _ _ _ _ _ h1 j,
    fun j => Host.reduce_andi_all _ _ _ _ _ h2 j, fun j => Host.reduce_andi_all _ _ _ _ _ h3 j,
    fun r => Host.reduce_andi_all _ _ _ _ _ h4 r, fun r => Host.reduce_andi_all _ _ _ _ _ h5 r,
    fun r => Host.reduce_andi_all _ _ _ _ _ h6 r, fun r => Host.reduce_andi_all _ _ _ _ _ h7 r,
    fun j => Host.reduce_andi_all _ _ _ _ _ h8 j, fun j => Host.reduce_andi_all _ _ _ _ _ h9 j,
    fun j => Host.reduce_andi_all _ _ _ _ _ h10 j, fun j => Host.reduce_andi_all _ _ _ _ _ h11 j⟩

/-! ### An index in range -/

theorem sge_of_rng {v : BitVec 32} (h : rngAt v = 1#1) : IntOp.cmpi .sge v 0#32 = 1#1 := (IntOp.andi_eq_one.1 h).1
theorem sle_of_rng {v : BitVec 32} (h : rngAt v = 1#1) : IntOp.cmpi .sle v 99999#32 = 1#1 := (IntOp.andi_eq_one.1 h).2

/-- A word in `[0, 99999]` read signed is the same number read unsigned. -/
theorem toNat_lt_of_rng {v : BitVec 32} (h : rngAt v = 1#1) : v.toNat < 100000 := by
  have h1 := IntOp.cmpi_sge.1 (sge_of_rng h)
  have h2 := IntOp.cmpi_sle.1 (sle_of_rng h)
  have e0 : (0#32 : BitVec 32).toInt = 0 := by decide
  have e9 : (99999#32 : BitVec 32).toInt = 99999 := by decide
  rw [e0] at h1; rw [e9] at h2
  have hc := BitVec.toInt_eq_toNat_cond v
  have hv := v.isLt
  split_ifs at hc <;> omega

/-- …and the signed reading's natural number is the unsigned reading. -/
theorem toInt_toNat_of_rng {v : BitVec 32} (h : rngAt v = 1#1) : v.toInt.toNat = v.toNat := by
  have h1 := IntOp.cmpi_sge.1 (sge_of_rng h)
  have e0 : (0#32 : BitVec 32).toInt = 0 := by decide
  rw [e0] at h1
  have hc := BitVec.toInt_eq_toNat_cond v
  have hv := v.isLt
  split_ifs at hc <;> omega

/-! ### A finite entry at the ideal instance is a real -/

/-- At the ideal instance `|x| < +∞` says `x` is neither infinity: a real. -/
theorem real_of_fin {v : Ideal .f32} (h : finAt (F := Ideal) v = 1#1) : ∃ x : ℝ, v = (x : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  induction v using EReal.rec with
  | bot => simp at h
  | coe x => exact ⟨x, rfl⟩
  | top => simp at h

/-- The index range and the float arrays' finiteness, from the input domain at the ideal instance. -/
theorem decode (a0 a1 a2 a3 : FVec Ideal S100000x128 .f32) (a4 a5 a6 a7 : IVec S100000 32) (a8 : FVec Ideal S512x512 .f32) (a9 a10 a11 : FVec Ideal S512 .f32)
    (h : fn (F := Ideal) a0 a1 a2 a3 a4 a5 a6 a7 a8 a9 a10 a11 = fun _ => 1#1) :
    ((∀ r, (a4 r).toNat < 100000) ∧ (∀ r, (a5 r).toNat < 100000) ∧ (∀ r, (a6 r).toNat < 100000) ∧ (∀ r, (a7 r).toNat < 100000))
      ∧ (∀ j, ∃ x : ℝ, a0 j = (x : EReal)) ∧ (∀ j, ∃ x : ℝ, a1 j = (x : EReal)) ∧ (∀ j, ∃ x : ℝ, a2 j = (x : EReal))
      ∧ (∀ j, ∃ x : ℝ, a3 j = (x : EReal)) ∧ (∀ j, ∃ x : ℝ, a8 j = (x : EReal)) ∧ (∀ j, ∃ x : ℝ, a9 j = (x : EReal))
      ∧ (∀ j, ∃ x : ℝ, a10 j = (x : EReal)) ∧ (∀ j, ∃ x : ℝ, a11 j = (x : EReal)) := by
  obtain ⟨f0, f1, f2, f3, r4, r5, r6, r7, f8, f9, f10, f11⟩ := conjuncts a0 a1 a2 a3 a4 a5 a6 a7 a8 a9 a10 a11 h
  exact ⟨⟨fun r => toNat_lt_of_rng (r4 r), fun r => toNat_lt_of_rng (r5 r), fun r => toNat_lt_of_rng (r6 r),
      fun r => toNat_lt_of_rng (r7 r)⟩,
    fun j => real_of_fin (f0 j), fun j => real_of_fin (f1 j), fun j => real_of_fin (f2 j), fun j => real_of_fin (f3 j),
    fun j => real_of_fin (f8 j), fun j => real_of_fin (f9 j), fun j => real_of_fin (f10 j), fun j => real_of_fin (f11 j)⟩

end Cert.Pre_input_domain.Decode

end
-- ==== Proof.ScFrame.lean ====
/-
  The idealized kernel's frame: under the precondition every weakly fair execution of the TensorCore's @main, the two
  sequencers and the thirty-two vector subcores terminates, nothing faulting, the twelve argument arrays unchanged.  The
  precondition's range on the four index inputs is what every gather's offsets need; nothing else of it is used here.
-/
import proofs.«215994_g5102421148354_cont_8to1c4_853_29_alg».proof.Proof.ScMain
import proofs.«215994_g5102421148354_cont_8to1c4_853_29_alg».proof.Proof.ScObl0
import proofs.«215994_g5102421148354_cont_8to1c4_853_29_alg».proof.Proof.ScObl1
import proofs.«215994_g5102421148354_cont_8to1c4_853_29_alg».proof.Proof.ScObl2
import proofs.«215994_g5102421148354_cont_8to1c4_853_29_alg».proof.Proof.ScObl3
import proofs.«215994_g5102421148354_cont_8to1c4_853_29_alg».proof.Proof.PreDecode

noncomputable section

namespace Cert.KernelIdeal.Sc

open Cert.KernelIdeal Cert.KernelIdeal.Gen
open Idealize.ShloMosaic
open Idealize.ShloMosaic.SparseCore (S V T)
open Idealize.SL.Sem

variable {F : FTy → Type} [FloatOps F] [Cert.KernelIdeal.Facts] [Cert.Pre_input_domain.Facts]

/-- The four index inputs hold row numbers of the tables, on every device: read off the precondition. -/
theorem idx_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) = fun _ => 1#1) (d : Dev nD) :
    (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000) := by
  obtain ⟨-, -, -, -, h4, h5, h6, h7, -⟩ := Cert.Pre_input_domain.Decode.conjuncts _ _ _ _ _ _ _ _ _ _ _ _ (h d)
  exact ⟨fun r => Cert.Pre_input_domain.Decode.toNat_lt_of_rng (h4 r), fun r => Cert.Pre_input_domain.Decode.toNat_lt_of_rng (h5 r),
    fun r => Cert.Pre_input_domain.Decode.toNat_lt_of_rng (h6 r), fun r => Cert.Pre_input_domain.Decode.toNat_lt_of_rng (h7 r)⟩

/-- The run of the whole program at any float instance, the index inputs holding row numbers. -/
theorem run [∀ e, Nonempty (Elt F e)] (m : (ℓ : Loc nD τ sig) → Buf (Elt F) ℓ) (ρ : Dev nD → PrngReg)
    (hpre : ∀ d : Dev nD, (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    θ_run (Cert.KernelIdeal.defs (F := F)) (Cert.KernelIdeal.threads (F := F)) ⟨m, fun _ => 0, ρ⟩ (QC m) :=
  run_main m ρ (fun q => match q with
    | 0 => tileObl0 m hpre | 1 => tileObl1 m hpre | 2 => tileObl2 m hpre | 3 => tileObl3 m hpre) (hmain m ρ)

end Cert.KernelIdeal.Sc

namespace Cert.Proof

open Cert.KernelIdeal Cert.KernelIdeal.Sc Idealize.ShloMosaic Idealize.SL.Sem

/-- `frame_KernelIdeal` (Defs.lean). -/
theorem frame_KernelIdeal [hKernelIdeal : Cert.KernelIdeal.Facts] [hPre_input_domain : Cert.Pre_input_domain.Facts] : Cert.frame_KernelIdeal := fun m ρ hpre =>
  (θ_run Cert.KernelIdeal.defs _ _).mono (fun _ h c =>
    ⟨h c main_arg0 (by decide), h c main_arg1 (by decide), h c main_arg2 (by decide), h c main_arg3 (by decide), h c main_arg4 (by decide), h c main_arg5 (by decide),
      h c main_arg6 (by decide), h c main_arg7 (by decide), h c main_arg8 (by decide), h c main_arg9 (by decide), h c main_arg10 (by decide), h c main_arg11 (by decide)⟩)
    (Cert.KernelIdeal.Sc.run (F := Ideal) m ρ (Cert.KernelIdeal.Sc.idx_of_pre m hpre))

end Cert.Proof

end
-- ==== Proof.KScBase.lean ====
/-
  The program as the SparseCore launch theorem sees it, and the ghost state of its proof.

  @main runs on the TensorCore; four gather calls run on the two SparseCores' sixteen vector subcores each;
  four layer-norm regions run on the TensorCore afterwards.  Three protocols meet: the launch handshakes
  between the TensorCore, the sequencers and the vector subcores (a rounds algebra over the handshake
  semaphores); the regions' staging cells (a rounds algebra of their own); and the vector subcores' own
  copies, every one issued and awaited on a semaphore of its own, for which counters suffice.
-/
import proofs.«215994_g5102421148354_cont_8to1c4_853_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215994_g5102421148354_cont_8to1c4_853_29_alg».proof.Proof.Gen.Kernel
import proofs.«215994_g5102421148354_cont_8to1c4_853_29_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [Cert.Kernel.Facts]

/-! ## The program as the launch theorem sees it -/

/-- The labels of the TensorCore side: the kernels' bodies and the four regions' entries. -/
abbrev ΛP : Labels := Pipeline.Sig Λ₀ (Fin 4) fun p => (pcfgs (F := F) p).Adm
/-- The four SparseCore calls. -/
abbrev K : SparseCore.Cfg τ sig (ΛP (F := F)) 4 := sc (F := F)
/-- The body table below the SparseCore dispatch: the kernels' bodies and the regions' pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four distinct unscoped registers, no SparseCore buffer is handed from task to task,
    and no call has a second body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, the regions' staging rounds, the copies' counters -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 4) (Elt F) ℕ UU ℕ) := embL
/-- The regions' staging rounds: the left factor of the right factor. -/
def EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP; infer_instance

/-! ## A vector subcore's place -/

/-- The SparseCore and the vector subcore that run grid point `L` of a gather call (all four calls share one grid). -/
abbrev cV (L : grid0.Coords) : Fin τ.nSC := (L 0).castLE hcore0
abbrev jV (L : grid0.Coords) : Fin τ.nSub := (L 1).castLE hsub0

/-! ## The gathers' offset lists hold row numbers -/

/-- A row of an index scratch that a copy has just overwritten whole with the words `P` reads words of `P`: if those are row
    numbers of a table of 100000 rows, so is every word the gather's offset list holds. -/
theorem hin_row (d : Dev nD) (c : Fin τ.nSC) (i : Fin τ.nSub) (P : S7x112.Idx → Elt F .i32) (hP : ∀ j, (P j).toNat < 100000)
    (Wm : Memref sig .scVector .vmem S7x112 .i32) (off : Fin 2 → Nat) (h : ∀ a, off a + S1x112.size a ≤ S7x112.size a)
    (si : Buf (Elt F) (Wm.view.loc (V d c i))) (x : S112.Idx) :
    (((Wm.slice (Rect.unit (s := S7x112) off S1x112.size h) (fun _ => rfl)).squeeze S112 squeezes_S1x112_S112).view.read (Elt F)
        (View.write (Elt F) Wm.view si (ReadAs.same.apply P) Finset.univ) x).toNat
      < S100000x128.size gathers_S100000x128_S112x128.axis := by
  rw [View.read_apply]
  simp only [Memref.view_squeeze, Memref.view_slice, View.emb_reshape, View.emb_slice, Function.Embedding.trans_apply, ReadAs.apply]
  rw [View.write_emb_of_mem _ _ (Finset.mem_univ _)]
  simp only [cast_cast, cast_eq]
  exact hP _

/-! ## A wait on a semaphore of the task's own -/

/-- One more wait at the kernel's own index keeps the record of waits admissible. -/
theorem waits_insert {W W' : Waits sig (HIx 4)} (s : SemLoc sig) (h : ∀ p ∈ W', p ∈ W ∨ p.2 = none) :
    ∀ p ∈ insert (s, (default : HIx 4)) W', p ∈ W ∨ p.2 = none := by
  intro p hp
  rcases Finset.mem_insert.mp hp with hp | hp
  · exact .inr (hp ▸ rfl)
  · exact h p hp

end Cert.Kernel.Sc

end
-- ==== Proof.KScGrid.lean ====
/-
  The place of a task: grid point L = (core, subcore) of any of the four gather calls is run by SparseCore (L 0), vector
  subcore (L 1).  The four calls have one grid each, all of extent 2 × 16.
-/
import proofs.«215994_g5102421148354_cont_8to1c4_853_29_alg».proof.Proof.KScBase

noncomputable section

namespace Cert.Kernel.Sc

open Cert.Kernel Cert.Kernel.Gen
open Idealize.ShloMosaic

variable [Cert.Kernel.Facts]

abbrev cV0 (L : grid0.Coords) : Fin τ.nSC := (L 0).castLE hcore0
abbrev jV0 (L : grid0.Coords) : Fin τ.nSub := (L 1).castLE hsub0
abbrev cV1 (L : grid1.Coords) : Fin τ.nSC := (L 0).castLE hcore1
abbrev jV1 (L : grid1.Coords) : Fin τ.nSub := (L 1).castLE hsub1
abbrev cV2 (L : grid2.Coords) : Fin τ.nSC := (L 0).castLE hcore2
abbrev jV2 (L : grid2.Coords) : Fin τ.nSub := (L 1).castLE hsub2
abbrev cV3 (L : grid3.Coords) : Fin τ.nSC := (L 0).castLE hcore3
abbrev jV3 (L : grid3.Coords) : Fin τ.nSub := (L 1).castLE hsub3

end Cert.Kernel.Sc

end
-- ==== Proof.KIdxSlab.lean ====
import proofs.«215994_g5102421148354_cont_8to1c4_853_29_alg».proof.Proof.Gen.Kernel
import Idealize.ShloMosaic.Lib.ValueIdx
import Idealize.ShloMosaic.Lib.Pipeline.Value

noncomputable section

namespace Cert.Kernel.Idx

open Cert.Kernel Cert.Kernel.Gen Idealize.ShloMosaic Idealize.ShloMosaic.ValueIdx

/-! ## The index arrays as the kernel's host operations hand them to the gathers

Each index array of 100000 words is padded with zero words to 100352, cut into four stretches of 25088 words, and each
stretch laid out as 32 × 7 × 112 (row-major). Word `(u, v, w)` of stretch `q` is word `25088 q + 784 u + 112 v + w` of
the array where that is below 100000, and the zero word past its end. -/

/-- The index array followed by 352 zero words. -/
def padded (a : IVec S100000 32) : IVec S100352 32 :=
  concatenate S100352 0 [⟨S100000, a⟩, ⟨S352, broadcastInDim S352 ![] bcast_S_S352 (constantI S_ 32 0#32)⟩]
    concatenates_S100000_S352_S100352_d0

/-- Stretch `q` of the padded array, as 32 × 7 × 112. -/
def slab (q : Fin 4) (a : IVec S100000 32) : IVec S32x7x112 32 :=
  match q with
  | 0 => shapeCast S32x7x112 (extractStridedSlice S25088 ![0] (padded a) slices_S100352_S25088_0) shapeCasts_S25088_S32x7x112
  | 1 => shapeCast S32x7x112 (extractStridedSlice S25088 ![25088] (padded a) slices_S100352_S25088_25088) shapeCasts_S25088_S32x7x112
  | 2 => shapeCast S32x7x112 (extractStridedSlice S25088 ![50176] (padded a) slices_S100352_S25088_50176) shapeCasts_S25088_S32x7x112
  | 3 => shapeCast S32x7x112 (extractStridedSlice S25088 ![75264] (padded a) slices_S100352_S25088_75264) shapeCasts_S25088_S32x7x112

/-- A word of the padded array below 100000 is the array's. -/
theorem padded_lo (a : IVec S100000 32) (k : S100352.Idx) (h : (k 0).val < 100000) :
    padded a k = a (ix1 (n := 100000) ⟨(k 0).val, h⟩) := by
  unfold padded
  refine concatenate_apply_piece 0 _ _ k 0 (by show 0 < 2; omega) S100000 a rfl rfl 0 rfl _ ?_ ?_
  · intro b hb
    match b with
    | ⟨0, _⟩ => exact absurd rfl hb
  · show 0 + (k 0).val = (k 0).val
    omega

/-- A word of the padded array from 100000 on is the zero word. -/
theorem padded_hi (a : IVec S100000 32) (k : S100352.Idx) (h : 100000 ≤ (k 0).val) : padded a k = 0#32 := by
  unfold padded
  have hk : (k 0).val < 100352 := (k 0).isLt
  refine (concatenate_apply_piece 0 _ _ k 1 (by show 1 < 2; omega) S352
    (broadcastInDim S352 ![] bcast_S_S352 (constantI S_ 32 0#32)) rfl rfl 100000 rfl
    (ix1 (n := 352) ⟨(k 0).val - 100000, by omega⟩) ?_ ?_).trans rfl
  · intro b hb
    match b with
    | ⟨0, _⟩ => exact absurd rfl hb
  · show 100000 + ((k 0).val - 100000) = (k 0).val
    omega

/-- A stretch of 25088 words at offset `o` of the padded array, as 32 × 7 × 112, read at `(u, v, w)`. -/
theorem slab_core (a : IVec S100000 32) (o : Nat) (hs : S100352.Slices ![o] S25088) (j : S32x7x112.Idx) :
    shapeCast S32x7x112 (extractStridedSlice S25088 ![o] (padded a) hs) shapeCasts_S25088_S32x7x112 j
      = if h : o + 784 * (j 0).val + 112 * (j 1).val + (j 2).val < 100000
          then a (ix1 (n := 100000) ⟨o + 784 * (j 0).val + 112 * (j 1).val + (j 2).val, h⟩) else 0#32 := by
  have h0 : (j 0).val < 32 := (j 0).isLt
  have h1 : (j 1).val < 7 := (j 1).isLt
  have h2 : (j 2).val < 112 := (j 2).isLt
  have ho : o + 25088 ≤ 100352 := hs.2 0
  refine (shapeCast_apply _ _ j (ix1 (n := 25088) ⟨784 * (j 0).val + 112 * (j 1).val + (j 2).val, by omega⟩) ?_).trans ?_
  · rw [Shape.rowMajor_val_one, Shape.rowMajor_val_three]
    show 784 * (j 0).val + 112 * (j 1).val + (j 2).val = ((j 0).val * 7 + (j 1).val) * 112 + (j 2).val
    omega
  refine (extractStridedSlice_apply _ _ hs _
    (ix1 (n := 100352) ⟨o + (784 * (j 0).val + 112 * (j 1).val + (j 2).val), by omega⟩) ?_).trans ?_
  · intro b
    match b with
    | ⟨0, _⟩ => rfl
  by_cases h : o + 784 * (j 0).val + 112 * (j 1).val + (j 2).val < 100000
  · rw [dif_pos h]
    refine (padded_lo a _ (by show o + (784 * (j 0).val + 112 * (j 1).val + (j 2).val) < 100000; omega)).trans ?_
    exact congrArg a (congrArg ix1 (Fin.ext (by
      show o + (784 * (j 0).val + 112 * (j 1).val + (j 2).val) = o + 784 * (j 0).val + 112 * (j 1).val + (j 2).val
      omega)))
  · rw [dif_neg h]
    exact padded_hi a _ (by show 100000 ≤ o + (784 * (j 0).val + 112 * (j 1).val + (j 2).val); omega)

/-- WORD `(u, v, w)` OF STRETCH `q`: word `25088 q + 784 u + 112 v + w` of the array, or the zero word past its end. -/
theorem slab_apply (q : Fin 4) (a : IVec S100000 32) (j : S32x7x112.Idx) :
    slab q a j = if h : 25088 * q.val + 784 * (j 0).val + 112 * (j 1).val + (j 2).val < 100000
      then a (ix1 (n := 100000) ⟨25088 * q.val + 784 * (j 0).val + 112 * (j 1).val + (j 2).val, h⟩) else 0#32 := by
  match q with
  | 0 => exact slab_core a 0 _ j
  | 1 => exact slab_core a 25088 _ j
  | 2 => exact slab_core a 50176 _ j
  | 3 => exact slab_core a 75264 _ j

/-- If every word of the array names a row of the table, so does every word of every stretch (a padded word is the zero
    word). -/
theorem slab_lt (q : Fin 4) (a : IVec S100000 32) (ha : ∀ r, (a r).toNat < 100000) (j : S32x7x112.Idx) :
    (slab q a j).toNat < 100000 := by
  rw [slab_apply]
  split
  · exact ha _
  · show (0#32 : BitVec 32).toNat < 100000
    decide

end Cert.Kernel.Idx

end
-- ==== Proof.KScPay.lean ====
/-
  What the launch handshakes carry.  A gather call hands each of its 32 tasks (2 SparseCores × 16 vector subcores; worker
  2·subcore + core) its own row of the four index arrays, a read share of each of the four tables — held as eleven read
  tokens and their remainder, so that seven gathers may read one table at once — and its 28 pieces of the call's result;
  the task hands the same back, the pieces at whatever it wrote.  A SparseCore's share of a call is its sixteen tasks'.
  The index rows are held at the padded, sliced and reshaped index inputs (idx), the tables at the inputs (tab).
-/
import proofs.«215994_g5102421148354_cont_8to1c4_853_29_alg».proof.Proof.KScGrid
import proofs.«215994_g5102421148354_cont_8to1c4_853_29_alg».proof.Proof.KIdxSlab

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-- Part of a buffer held outright, at whatever it holds. -/
def ownedAny (ℓ : Loc nD τ sig) (A : Finset (Idx ℓ)) : sProp 𝕄 := iprop(∃ f : Buf (Elt F) ℓ, ℓ ↦[A]{fullShare} f)
instance ownedAny_storable (ℓ : Loc nD τ sig) (A : Finset (Idx ℓ)) : BI.Storable (upEmb : UEmb _ 𝕄) (ownedAny (F := F) ℓ A) := by
  unfold ownedAny; infer_instance

/-- The read share of a table that the task at grid point (core, subcore) holds: the subcore's token of the core's token. -/
abbrev qTile (c : Fin 2) (i : Fin 16) : PosShare TreeShare := Transfers.shareTok (Transfers.shareTok fullShare 2 c) 16 i

/-- The grid point of gather call 0 that SparseCore c's vector subcore s runs. -/
def coordsV0 (c : Fin (grid0.bound 0)) (s : Fin (grid0.bound 1)) : grid0.Coords :=
  fun | 0 => c | 1 => s | ⟨_ + 2, h⟩ => absurd h (Nat.not_lt.2 (Nat.le_add_left _ _))

/-- The resources of the task of gather call 0 at grid point L, the result's pieces at whatever they hold. -/
def tileRes0 (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    : sProp 𝕄 :=
  iprop(
        ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
      ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
      ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
      ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
      ∗ ((Memref.whole main_arg0_scv : Memref sig .scVector .hbm S100000x128 .f32).view.loc (V d (cV0 L) (jV0 L)) ↦{Transfers.shareDrop qx 11} fx0)
      ∗ (bigSep Finset.univ fun k : Fin 11 => ((Memref.whole main_arg0_scv : Memref sig .scVector .hbm S100000x128 .f32).view.loc (V d (cV0 L) (jV0 L)) ↦{Transfers.shareTok qx 11 k} fx0))
      ∗ ((Memref.whole main_arg1_scv : Memref sig .scVector .hbm S100000x128 .f32).view.loc (V d (cV0 L) (jV0 L)) ↦{Transfers.shareDrop qx 11} fx1)
      ∗ (bigSep Finset.univ fun k : Fin 11 => ((Memref.whole main_arg1_scv : Memref sig .scVector .hbm S100000x128 .f32).view.loc (V d (cV0 L) (jV0 L)) ↦{Transfers.shareTok qx 11 k} fx1))
      ∗ ((Memref.whole main_arg2_scv : Memref sig .scVector .hbm S100000x128 .f32).view.loc (V d (cV0 L) (jV0 L)) ↦{Transfers.shareDrop qx 11} fx2)
      ∗ (bigSep Finset.univ fun k : Fin 11 => ((Memref.whole main_arg2_scv : Memref sig .scVector .hbm S100000x128 .f32).view.loc (V d (cV0 L) (jV0 L)) ↦{Transfers.shareTok qx 11 k} fx2))
      ∗ ((Memref.whole main_arg3_scv : Memref sig .scVector .hbm S100000x128 .f32).view.loc (V d (cV0 L) (jV0 L)) ↦{Transfers.shareDrop qx 11} fx3)
      ∗ (bigSep Finset.univ fun k : Fin 11 => ((Memref.whole main_arg3_scv : Memref sig .scVector .hbm S100000x128 .f32).view.loc (V d (cV0 L) (jV0 L)) ↦{Transfers.shareTok qx 11 k} fx3))
      ∗ ownedAny (F := F) (((Memref.whole main_v19_scv : Memref sig .scVector .hbm S25088x512 .f32).slice (Rect.unit (s := S25088x512) (k0_off2 L 0#32) S112x128.size (k0_off2_inb L 0)) (fun _ => rfl)).view.loc (V d (cV0 L) (jV0 L))) ((Memref.whole main_v19_scv : Memref sig .scVector .hbm S25088x512 .f32).slice (Rect.unit (s := S25088x512) (k0_off2 L 0#32) S112x128.size (k0_off2_inb L 0)) (fun _ => rfl)).view.set
      ∗ ownedAny (F := F) (((Memref.whole main_v19_scv : Memref sig .scVector .hbm S25088x512 .f32).slice (Rect.unit (s := S25088x512) (k0_off2 L 112#32) S112x128.size (k0_off2_inb L 1)) (fun _ => rfl)).view.loc (V d (cV0 L) (jV0 L))) ((Memref.whole main_v19_scv : Memref sig .scVector .hbm S25088x512 .f32).slice (Rect.unit (s := S25088x512) (k0_off2 L 112#32) S112x128.size (k0_off2_inb L 1)) (fun _ => rfl)).view.set
      ∗ ownedAny (F := F) (((Memref.whole main_v19_scv : Memref sig .scVector .hbm S25088x512 .f32).slice (Rect.unit (s := S25088x512) (k0_off2 L 224#32) S112x128.size (k0_off2_inb L 2)) (fun _ => rfl)).view.loc (V d (cV0 L) (jV0 L))) ((Memref.whole main_v19_scv : Memref sig .scVector .hbm S25088x512 .f32).slice (Rect.unit (s := S25088x512) (k0_off2 L 224#32) S112x128.size (k0_off2_inb L 2)) (fun _ => rfl)).view.set
      ∗ ownedAny (F := F) (((Memref.whole main_v19_scv : Memref sig .scVector .hbm S25088x512 .f32).slice (Rect.unit (s := S25088x512) (k0_off2 L 336#32) S112x128.size (k0_off2_inb L 3)) (fun _ => rfl)).view.loc (V d (cV0 L) (jV0 L))) ((Memref.whole main_v19_scv : Memref sig .scVector .hbm S25088x512 .f32).slice (Rect.unit (s := S25088x512) (k0_off2 L 336#32) S112x128.size (k0_off2_inb L 3)) (fun _ => rfl)).view.set
      ∗ ownedAny (F := F) (((Memref.whole main_v19_scv : Memref sig .scVector .hbm S25088x512 .f32).slice (Rect.unit (s := S25088x512) (k0_off2 L 448#32) S112x128.size (k0_off2_inb L 4)) (fun _ => rfl)).view.loc (V d (cV0 L) (jV0 L))) ((Memref.whole main_v19_scv : Memref sig .scVector .hbm S25088x512 .f32).slice (Rect.unit (s := S25088x512) (k0_off2 L 448#32) S112x128.size (k0_off2_inb L 4)) (fun _ => rfl)).view.set
      ∗ ownedAny (F := F) (((Memref.whole main_v19_scv : Memref sig .scVector .hbm S25088x512 .f32).slice (Rect.unit (s := S25088x512) (k0_off2 L 560#32) S112x128.size (k0_off2_inb L 5)) (fun _ => rfl)).view.loc (V d (cV0 L) (jV0 L))) ((Memref.whole main_v19_scv : Memref sig .scVector .hbm S25088x512 .f32).slice (Rect.unit (s := S25088x512) (k0_off2 L 560#32) S112x128.size (k0_off2_inb L 5)) (fun _ => rfl)).view.set
      ∗ ownedAny (F := F) (((Memref.whole main_v19_scv : Memref sig .scVector .hbm S25088x512 .f32).slice (Rect.unit (s := S25088x512) (k0_off2 L 672#32) S112x128.size (k0_off2_inb L 6)) (fun _ => rfl)).view.loc (V d (cV0 L) (jV0 L))) ((Memref.whole main_v19_scv : Memref sig .scVector .hbm S25088x512 .f32).slice (Rect.unit (s := S25088x512) (k0_off2 L 672#32) S112x128.size (k0_off2_inb L 6)) (fun _ => rfl)).view.set
      ∗ ownedAny (F := F) (((Memref.whole main_v19_scv : Memref sig .scVector .hbm S25088x512 .f32).slice (Rect.unit (s := S25088x512) (k0_off3 L 0#32) S112x128.size (k0_off3_inb L 0)) (fun _ => rfl)).view.loc (V d (cV0 L) (jV0 L))) ((Memref.whole main_v19_scv : Memref sig .scVector .hbm S25088x512 .f32).slice (Rect.unit (s := S25088x512) (k0_off3 L 0#32) S112x128.size (k0_off3_inb L 0)) (fun _ => rfl)).view.set
      ∗ ownedAny (F := F) (((Memref.whole main_v19_scv : Memref sig .scVector .hbm S25088x512 .f32).slice (Rect.unit (s := S25088x512) (k0_off3 L 112#32) S112x128.size (k0_off3_inb L 1)) (fun _ => rfl)).view.loc (V d (cV0 L) (jV0 L))) ((Memref.whole main_v19_scv : Memref sig .scVector .hbm S25088x512 .f32).slice (Rect.unit (s := S25088x512) (k0_off3 L 112#32) S112x128.size (k0_off3_inb L 1)) (fun _ => rfl)).view.set
      ∗ ownedAny (F := F) (((Memref.whole main_v19_scv : Memref sig .scVector .hbm S25088x512 .f32).slice (Rect.unit (s := S25088x512) (k0_off3 L 224#32) S112x128.size (k0_off3_inb L 2)) (fun _ => rfl)).view.loc (V d (cV0 L) (jV0 L))) ((Memref.whole main_v19_scv : Memref sig .scVector .hbm S25088x512 .f32).slice (Rect.unit (s := S25088x512) (k0_off3 L 224#32) S112x128.size (k0_off3_inb L 2)) (fun _ => rfl)).view.set
      ∗ ownedAny (F := F) (((Memref.whole main_v19_scv : Memref sig .scVector .hbm S25088x512 .f32).slice (Rect.unit (s := S25088x512) (k0_off3 L 336#32) S112x128.size (k0_off3_inb L 3)) (fun _ => rfl)).view.loc (V d (cV0 L) (jV0 L))) ((Memref.whole main_v19_scv : Memref sig .scVector .hbm S25088x512 .f32).slice (Rect.unit (s := S25088x512) (k0_off3 L 336#32) S112x128.size (k0_off3_inb L 3)) (fun _ => rfl)).view.set
      ∗ ownedAny (F := F) (((Memref.whole main_v19_scv : Memref sig .scVector .hbm S25088x512 .f32).slice (Rect.unit (s := S25088x512) (k0_off3 L 448#32) S112x128.size (k0_off3_inb L 4)) (fun _ => rfl)).view.loc (V d (cV0 L) (jV0 L))) ((Memref.whole main_v19_scv : Memref sig .scVector .hbm S25088x512 .f32).slice (Rect.unit (s := S25088x512) (k0_off3 L 448#32) S112x128.size (k0_off3_inb L 4)) (fun _ => rfl)).view.set
      ∗ ownedAny (F := F) (((Memref.whole main_v19_scv : Memref sig .scVector .hbm S25088x512 .f32).slice (Rect.unit (s := S25088x512) (k0_off3 L 560#32) S112x128.size (k0_off3_inb L 5)) (fun _ => rfl)).view.loc (V d (cV0 L) (jV0 L))) ((Memref.whole main_v19_scv : Memref sig .scVector .hbm S25088x512 .f32).slice (Rect.unit (s := S25088x512) (k0_off3 L 560#32) S112x128.size (k0_off3_inb L 5)) (fun _ => rfl)).view.set
      ∗ ownedAny (F := F) (((Memref.whole main_v19_scv : Memref sig .scVector .hbm S25088x512 .f32).slice (Rect.unit (s := S25088x512) (k0_off3 L 672#32) S112x128.size (k0_off3_inb L 6)) (fun _ => rfl)).view.loc (V d (cV0 L) (jV0 L))) ((Memref.whole main_v19_scv : Memref sig .scVector .hbm S25088x512 .f32).slice (Rect.unit (s := S25088x512) (k0_off3 L 672#32) S112x128.size (k0_off3_inb L 6)) (fun _ => rfl)).view.set
      ∗ ownedAny (F := F) (((Memref.whole main_v19_scv : Memref sig .scVector .hbm S25088x512 .f32).slice (Rect.unit (s := S25088x512) (k0_off4 L 0#32) S112x128.size (k0_off4_inb L 0)) (fun _ => rfl)).view.loc (V d (cV0 L) (jV0 L))) ((Memref.whole main_v19_scv : Memref sig .scVector .hbm S25088x512 .f32).slice (Rect.unit (s := S25088x512) (k0_off4 L 0#32) S112x128.size (k0_off4_inb L 0)) (fun _ => rfl)).view.set
      ∗ ownedAny (F := F) (((Memref.whole main_v19_scv : Memref sig .scVector .hbm S25088x512 .f32).slice (Rect.unit (s := S25088x512) (k0_off4 L 112#32) S112x128.size (k0_off4_inb L 1)) (fun _ => rfl)).view.loc (V d (cV0 L) (jV0 L))) ((Memref.whole main_v19_scv : Memref sig .scVector .hbm S25088x512 .f32).slice (Rect.unit (s := S25088x512) (k0_off4 L 112#32) S112x128.size (k0_off4_inb L 1)) (fun _ => rfl)).view.set
      ∗ ownedAny (F := F) (((Memref.whole main_v19_scv : Memref sig .scVector .hbm S25088x512 .f32).slice (Rect.unit (s := S25088x512) (k0_off4 L 224#32) S112x128.size (k0_off4_inb L 2)) (fun _ => rfl)).view.loc (V d (cV0 L) (jV0 L))) ((Memref.whole main_v19_scv : Memref sig .scVector .hbm S25088x512 .f32).slice (Rect.unit (s := S25088x512) (k0_off4 L 224#32) S112x128.size (k0_off4_inb L 2)) (fun _ => rfl)).view.set
      ∗ ownedAny (F := F) (((Memref.whole main_v19_scv : Memref sig .scVector .hbm S25088x512 .f32).slice (Rect.unit (s := S25088x512) (k0_off4 L 336#32) S112x128.size (k0_off4_inb L 3)) (fun _ => rfl)).view.loc (V d (cV0 L) (jV0 L))) ((Memref.whole main_v19_scv : Memref sig .scVector .hbm S25088x512 .f32).slice (Rect.unit (s := S25088x512) (k0_off4 L 336#32) S112x128.size (k0_off4_inb L 3)) (fun _ => rfl)).view.set
      ∗ ownedAny (F := F) (((Memref.whole main_v19_scv : Memref sig .scVector .hbm S25088x512 .f32).slice (Rect.unit (s := S25088x512) (k0_off4 L 448#32) S112x128.size (k0_off4_inb L 4)) (fun _ => rfl)).view.loc (V d (cV0 L) (jV0 L))) ((Memref.whole main_v19_scv : Memref sig .scVector .hbm S25088x512 .f32).slice (Rect.unit (s := S25088x512) (k0_off4 L 448#32) S112x128.size (k0_off4_inb L 4)) (fun _ => rfl)).view.set
      ∗ ownedAny (F := F) (((Memref.whole main_v19_scv : Memref sig .scVector .hbm S25088x512 .f32).slice (Rect.unit (s := S25088x512) (k0_off4 L 560#32) S112x128.size (k0_off4_inb L 5)) (fun _ => rfl)).view.loc (V d (cV0 L) (jV0 L))) ((Memref.whole main_v19_scv : Memref sig .scVector .hbm S25088x512 .f32).slice (Rect.unit (s := S25088x512) (k0_off4 L 560#32) S112x128.size (k0_off4_inb L 5)) (fun _ => rfl)).view.set
      ∗ ownedAny (F := F) (((Memref.whole main_v19_scv : Memref sig .scVector .hbm S25088x512 .f32).slice (Rect.unit (s := S25088x512) (k0_off4 L 672#32) S112x128.size (k0_off4_inb L 6)) (fun _ => rfl)).view.loc (V d (cV0 L) (jV0 L))) ((Memref.whole main_v19_scv : Memref sig .scVector .hbm S25088x512 .f32).slice (Rect.unit (s := S25088x512) (k0_off4 L 672#32) S112x128.size (k0_off4_inb L 6)) (fun _ => rfl)).view.set
      ∗ ownedAny (F := F) (((Memref.whole main_v19_scv : Memref sig .scVector .hbm S25088x512 .f32).slice (Rect.unit (s := S25088x512) (k0_off5 L 0#32) S112x128.size (k0_off5_inb L 0)) (fun _ => rfl)).view.loc (V d (cV0 L) (jV0 L))) ((Memref.whole main_v19_scv : Memref sig .scVector .hbm S25088x512 .f32).slice (Rect.unit (s := S25088x512) (k0_off5 L 0#32) S112x128.size (k0_off5_inb L 0)) (fun _ => rfl)).view.set
      ∗ ownedAny (F := F) (((Memref.whole main_v19_scv : Memref sig .scVector .hbm S25088x512 .f32).slice (Rect.unit (s := S25088x512) (k0_off5 L 112#32) S112x128.size (k0_off5_inb L 1)) (fun _ => rfl)).view.loc (V d (cV0 L) (jV0 L))) ((Memref.whole main_v19_scv : Memref sig .scVector .hbm S25088x512 .f32).slice (Rect.unit (s := S25088x512) (k0_off5 L 112#32) S112x128.size (k0_off5_inb L 1)) (fun _ => rfl)).view.set
      ∗ ownedAny (F := F) (((Memref.whole main_v19_scv : Memref sig .scVector .hbm S25088x512 .f32).slice (Rect.unit (s := S25088x512) (k0_off5 L 224#32) S112x128.size (k0_off5_inb L 2)) (fun _ => rfl)).view.loc (V d (cV0 L) (jV0 L))) ((Memref.whole main_v19_scv : Memref sig .scVector .hbm S25088x512 .f32).slice (Rect.unit (s := S25088x512) (k0_off5 L 224#32) S112x128.size (k0_off5_inb L 2)) (fun _ => rfl)).view.set
      ∗ ownedAny (F := F) (((Memref.whole main_v19_scv : Memref sig .scVector .hbm S25088x512 .f32).slice (Rect.unit (s := S25088x512) (k0_off5 L 336#32) S112x128.size (k0_off5_inb L 3)) (fun _ => rfl)).view.loc (V d (cV0 L) (jV0 L))) ((Memref.whole main_v19_scv : Memref sig .scVector .hbm S25088x512 .f32).slice (Rect.unit (s := S25088x512) (k0_off5 L 336#32) S112x128.size (k0_off5_inb L 3)) (fun _ => rfl)).view.set
      ∗ ownedAny (F := F) (((Memref.whole main_v19_scv : Memref sig .scVector .hbm S25088x512 .f32).slice (Rect.unit (s := S25088x512) (k0_off5 L 448#32) S112x128.size (k0_off5_inb L 4)) (fun _ => rfl)).view.loc (V d (cV0 L) (jV0 L))) ((Memref.whole main_v19_scv : Memref sig .scVector .hbm S25088x512 .f32).slice (Rect.unit (s := S25088x512) (k0_off5 L 448#32) S112x128.size (k0_off5_inb L 4)) (fun _ => rfl)).view.set
      ∗ ownedAny (F := F) (((Memref.whole main_v19_scv : Memref sig .scVector .hbm S25088x512 .f32).slice (Rect.unit (s := S25088x512) (k0_off5 L 560#32) S112x128.size (k0_off5_inb L 5)) (fun _ => rfl)).view.loc (V d (cV0 L) (jV0 L))) ((Memref.whole main_v19_scv : Memref sig .scVector .hbm S25088x512 .f32).slice (Rect.unit (s := S25088x512) (k0_off5 L 560#32) S112x128.size (k0_off5_inb L 5)) (fun _ => rfl)).view.set
      ∗ ownedAny (F := F) (((Memref.whole main_v19_scv : Memref sig .scVector .hbm S25088x512 .f32).slice (Rect.unit (s := S25088x512) (k0_off5 L 672#32) S112x128.size (k0_off5_inb L 6)) (fun _ => rfl)).view.loc (V d (cV0 L) (jV0 L))) ((Memref.whole main_v19_scv : Memref sig .scVector .hbm S25088x512 .f32).slice (Rect.unit (s := S25088x512) (k0_off5 L 672#32) S112x128.size (k0_off5_inb L 6)) (fun _ => rfl)).view.set
  )

set_option synthInstance.maxHeartbeats 400000 in
set_option synthInstance.maxSize 4096 in
set_option maxHeartbeats 4000000 in
instance tileRes0_storable (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    : BI.Storable (upEmb : UEmb _ 𝕄) (tileRes0 d L qx fi0 fi1 fi2 fi3 fx0 fx1 fx2 fx3) := by
  unfold tileRes0; infer_instance

/-- The grid point of gather call 1 that SparseCore c's vector subcore s runs. -/
def coordsV1 (c : Fin (grid1.bound 0)) (s : Fin (grid1.bound 1)) : grid1.Coords :=
  fun | 0 => c | 1 => s | ⟨_ + 2, h⟩ => absurd h (Nat.not_lt.2 (Nat.le_add_left _ _))

/-- The resources of the task of gather call 1 at grid point L, the result's pieces at whatever they hold. -/
def tileRes1 (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    : sProp 𝕄 :=
  iprop(
        ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
      ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
      ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
      ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
      ∗ ((Memref.whole main_arg0_scv : Memref sig .scVector .hbm S100000x128 .f32).view.loc (V d (cV1 L) (jV1 L)) ↦{Transfers.shareDrop qx 11} fx0)
      ∗ (bigSep Finset.univ fun k : Fin 11 => ((Memref.whole main_arg0_scv : Memref sig .scVector .hbm S100000x128 .f32).view.loc (V d (cV1 L) (jV1 L)) ↦{Transfers.shareTok qx 11 k} fx0))
      ∗ ((Memref.whole main_arg1_scv : Memref sig .scVector .hbm S100000x128 .f32).view.loc (V d (cV1 L) (jV1 L)) ↦{Transfers.shareDrop qx 11} fx1)
      ∗ (bigSep Finset.univ fun k : Fin 11 => ((Memref.whole main_arg1_scv : Memref sig .scVector .hbm S100000x128 .f32).view.loc (V d (cV1 L) (jV1 L)) ↦{Transfers.shareTok qx 11 k} fx1))
      ∗ ((Memref.whole main_arg2_scv : Memref sig .scVector .hbm S100000x128 .f32).view.loc (V d (cV1 L) (jV1 L)) ↦{Transfers.shareDrop qx 11} fx2)
      ∗ (bigSep Finset.univ fun k : Fin 11 => ((Memref.whole main_arg2_scv : Memref sig .scVector .hbm S100000x128 .f32).view.loc (V d (cV1 L) (jV1 L)) ↦{Transfers.shareTok qx 11 k} fx2))
      ∗ ((Memref.whole main_arg3_scv : Memref sig .scVector .hbm S100000x128 .f32).view.loc (V d (cV1 L) (jV1 L)) ↦{Transfers.shareDrop qx 11} fx3)
      ∗ (bigSep Finset.univ fun k : Fin 11 => ((Memref.whole main_arg3_scv : Memref sig .scVector .hbm S100000x128 .f32).view.loc (V d (cV1 L) (jV1 L)) ↦{Transfers.shareTok qx 11 k} fx3))
      ∗ ownedAny (F := F) (((Memref.whole main_v28_scv : Memref sig .scVector .hbm S25088x512 .f32).slice (Rect.unit (s := S25088x512) (k1_off2 L 0#32) S112x128.size (k1_off2_inb L 0)) (fun _ => rfl)).view.loc (V d (cV1 L) (jV1 L))) ((Memref.whole main_v28_scv : Memref sig .scVector .hbm S25088x512 .f32).slice (Rect.unit (s := S25088x512) (k1_off2 L 0#32) S112x128.size (k1_off2_inb L 0)) (fun _ => rfl)).view.set
      ∗ ownedAny (F := F) (((Memref.whole main_v28_scv : Memref sig .scVector .hbm S25088x512 .f32).slice (Rect.unit (s := S25088x512) (k1_off2 L 112#32) S112x128.size (k1_off2_inb L 1)) (fun _ => rfl)).view.loc (V d (cV1 L) (jV1 L))) ((Memref.whole main_v28_scv : Memref sig .scVector .hbm S25088x512 .f32).slice (Rect.unit (s := S25088x512) (k1_off2 L 112#32) S112x128.size (k1_off2_inb L 1)) (fun _ => rfl)).view.set
      ∗ ownedAny (F := F) (((Memref.whole main_v28_scv : Memref sig .scVector .hbm S25088x512 .f32).slice (Rect.unit (s := S25088x512) (k1_off2 L 224#32) S112x128.size (k1_off2_inb L 2)) (fun _ => rfl)).view.loc (V d (cV1 L) (jV1 L))) ((Memref.whole main_v28_scv : Memref sig .scVector .hbm S25088x512 .f32).slice (Rect.unit (s := S25088x512) (k1_off2 L 224#32) S112x128.size (k1_off2_inb L 2)) (fun _ => rfl)).view.set
      ∗ ownedAny (F := F) (((Memref.whole main_v28_scv : Memref sig .scVector .hbm S25088x512 .f32).slice (Rect.unit (s := S25088x512) (k1_off2 L 336#32) S112x128.size (k1_off2_inb L 3)) (fun _ => rfl)).view.loc (V d (cV1 L) (jV1 L))) ((Memref.whole main_v28_scv : Memref sig .scVector .hbm S25088x512 .f32).slice (Rect.unit (s := S25088x512) (k1_off2 L 336#32) S112x128.size (k1_off2_inb L 3)) (fun _ => rfl)).view.set
      ∗ ownedAny (F := F) (((Memref.whole main_v28_scv : Memref sig .scVector .hbm S25088x512 .f32).slice (Rect.unit (s := S25088x512) (k1_off2 L 448#32) S112x128.size (k1_off2_inb L 4)) (fun _ => rfl)).view.loc (V d (cV1 L) (jV1 L))) ((Memref.whole main_v28_scv : Memref sig .scVector .hbm S25088x512 .f32).slice (Rect.unit (s := S25088x512) (k1_off2 L 448#32) S112x128.size (k1_off2_inb L 4)) (fun _ => rfl)).view.set
      ∗ ownedAny (F := F) (((Memref.whole main_v28_scv : Memref sig .scVector .hbm S25088x512 .f32).slice (Rect.unit (s := S25088x512) (k1_off2 L 560#32) S112x128.size (k1_off2_inb L 5)) (fun _ => rfl)).view.loc (V d (cV1 L) (jV1 L))) ((Memref.whole main_v28_scv : Memref sig .scVector .hbm S25088x512 .f32).slice (Rect.unit (s := S25088x512) (k1_off2 L 560#32) S112x128.size (k1_off2_inb L 5)) (fun _ => rfl)).view.set
      ∗ ownedAny (F := F) (((Memref.whole main_v28_scv : Memref sig .scVector .hbm S25088x512 .f32).slice (Rect.unit (s := S25088x512) (k1_off2 L 672#32) S112x128.size (k1_off2_inb L 6)) (fun _ => rfl)).view.loc (V d (cV1 L) (jV1 L))) ((Memref.whole main_v28_scv : Memref sig .scVector .hbm S25088x512 .f32).slice (Rect.unit (s := S25088x512) (k1_off2 L 672#32) S112x128.size (k1_off2_inb L 6)) (fun _ => rfl)).view.set
      ∗ ownedAny (F := F) (((Memref.whole main_v28_scv : Memref sig .scVector .hbm S25088x512 .f32).slice (Rect.unit (s := S25088x512) (k1_off3 L 0#32) S112x128.size (k1_off3_inb L 0)) (fun _ => rfl)).view.loc (V d (cV1 L) (jV1 L))) ((Memref.whole main_v28_scv : Memref sig .scVector .hbm S25088x512 .f32).slice (Rect.unit (s := S25088x512) (k1_off3 L 0#32) S112x128.size (k1_off3_inb L 0)) (fun _ => rfl)).view.set
      ∗ ownedAny (F := F) (((Memref.whole main_v28_scv : Memref sig .scVector .hbm S25088x512 .f32).slice (Rect.unit (s := S25088x512) (k1_off3 L 112#32) S112x128.size (k1_off3_inb L 1)) (fun _ => rfl)).view.loc (V d (cV1 L) (jV1 L))) ((Memref.whole main_v28_scv : Memref sig .scVector .hbm S25088x512 .f32).slice (Rect.unit (s := S25088x512) (k1_off3 L 112#32) S112x128.size (k1_off3_inb L 1)) (fun _ => rfl)).view.set
      ∗ ownedAny (F := F) (((Memref.whole main_v28_scv : Memref sig .scVector .hbm S25088x512 .f32).slice (Rect.unit (s := S25088x512) (k1_off3 L 224#32) S112x128.size (k1_off3_inb L 2)) (fun _ => rfl)).view.loc (V d (cV1 L) (jV1 L))) ((Memref.whole main_v28_scv : Memref sig .scVector .hbm S25088x512 .f32).slice (Rect.unit (s := S25088x512) (k1_off3 L 224#32) S112x128.size (k1_off3_inb L 2)) (fun _ => rfl)).view.set
      ∗ ownedAny (F := F) (((Memref.whole main_v28_scv : Memref sig .scVector .hbm S25088x512 .f32).slice (Rect.unit (s := S25088x512) (k1_off3 L 336#32) S112x128.size (k1_off3_inb L 3)) (fun _ => rfl)).view.loc (V d (cV1 L) (jV1 L))) ((Memref.whole main_v28_scv : Memref sig .scVector .hbm S25088x512 .f32).slice (Rect.unit (s := S25088x512) (k1_off3 L 336#32) S112x128.size (k1_off3_inb L 3)) (fun _ => rfl)).view.set
      ∗ ownedAny (F := F) (((Memref.whole main_v28_scv : Memref sig .scVector .hbm S25088x512 .f32).slice (Rect.unit (s := S25088x512) (k1_off3 L 448#32) S112x128.size (k1_off3_inb L 4)) (fun _ => rfl)).view.loc (V d (cV1 L) (jV1 L))) ((Memref.whole main_v28_scv : Memref sig .scVector .hbm S25088x512 .f32).slice (Rect.unit (s := S25088x512) (k1_off3 L 448#32) S112x128.size (k1_off3_inb L 4)) (fun _ => rfl)).view.set
      ∗ ownedAny (F := F) (((Memref.whole main_v28_scv : Memref sig .scVector .hbm S25088x512 .f32).slice (Rect.unit (s := S25088x512) (k1_off3 L 560#32) S112x128.size (k1_off3_inb L 5)) (fun _ => rfl)).view.loc (V d (cV1 L) (jV1 L))) ((Memref.whole main_v28_scv : Memref sig .scVector .hbm S25088x512 .f32).slice (Rect.unit (s := S25088x512) (k1_off3 L 560#32) S112x128.size (k1_off3_inb L 5)) (fun _ => rfl)).view.set
      ∗ ownedAny (F := F) (((Memref.whole main_v28_scv : Memref sig .scVector .hbm S25088x512 .f32).slice (Rect.unit (s := S25088x512) (k1_off3 L 672#32) S112x128.size (k1_off3_inb L 6)) (fun _ => rfl)).view.loc (V d (cV1 L) (jV1 L))) ((Memref.whole main_v28_scv : Memref sig .scVector .hbm S25088x512 .f32).slice (Rect.unit (s := S25088x512) (k1_off3 L 672#32) S112x128.size (k1_off3_inb L 6)) (fun _ => rfl)).view.set
      ∗ ownedAny (F := F) (((Memref.whole main_v28_scv : Memref sig .scVector .hbm S25088x512 .f32).slice (Rect.unit (s := S25088x512) (k1_off4 L 0#32) S112x128.size (k1_off4_inb L 0)) (fun _ => rfl)).view.loc (V d (cV1 L) (jV1 L))) ((Memref.whole main_v28_scv : Memref sig .scVector .hbm S25088x512 .f32).slice (Rect.unit (s := S25088x512) (k1_off4 L 0#32) S112x128.size (k1_off4_inb L 0)) (fun _ => rfl)).view.set
      ∗ ownedAny (F := F) (((Memref.whole main_v28_scv : Memref sig .scVector .hbm S25088x512 .f32).slice (Rect.unit (s := S25088x512) (k1_off4 L 112#32) S112x128.size (k1_off4_inb L 1)) (fun _ => rfl)).view.loc (V d (cV1 L) (jV1 L))) ((Memref.whole main_v28_scv : Memref sig .scVector .hbm S25088x512 .f32).slice (Rect.unit (s := S25088x512) (k1_off4 L 112#32) S112x128.size (k1_off4_inb L 1)) (fun _ => rfl)).view.set
      ∗ ownedAny (F := F) (((Memref.whole main_v28_scv : Memref sig .scVector .hbm S25088x512 .f32).slice (Rect.unit (s := S25088x512) (k1_off4 L 224#32) S112x128.size (k1_off4_inb L 2)) (fun _ => rfl)).view.loc (V d (cV1 L) (jV1 L))) ((Memref.whole main_v28_scv : Memref sig .scVector .hbm S25088x512 .f32).slice (Rect.unit (s := S25088x512) (k1_off4 L 224#32) S112x128.size (k1_off4_inb L 2)) (fun _ => rfl)).view.set
      ∗ ownedAny (F := F) (((Memref.whole main_v28_scv : Memref sig .scVector .hbm S25088x512 .f32).slice (Rect.unit (s := S25088x512) (k1_off4 L 336#32) S112x128.size (k1_off4_inb L 3)) (fun _ => rfl)).view.loc (V d (cV1 L) (jV1 L))) ((Memref.whole main_v28_scv : Memref sig .scVector .hbm S25088x512 .f32).slice (Rect.unit (s := S25088x512) (k1_off4 L 336#32) S112x128.size (k1_off4_inb L 3)) (fun _ => rfl)).view.set
      ∗ ownedAny (F := F) (((Memref.whole main_v28_scv : Memref sig .scVector .hbm S25088x512 .f32).slice (Rect.unit (s := S25088x512) (k1_off4 L 448#32) S112x128.size (k1_off4_inb L 4)) (fun _ => rfl)).view.loc (V d (cV1 L) (jV1 L))) ((Memref.whole main_v28_scv : Memref sig .scVector .hbm S25088x512 .f32).slice (Rect.unit (s := S25088x512) (k1_off4 L 448#32) S112x128.size (k1_off4_inb L 4)) (fun _ => rfl)).view.set
      ∗ ownedAny (F := F) (((Memref.whole main_v28_scv : Memref sig .scVector .hbm S25088x512 .f32).slice (Rect.unit (s := S25088x512) (k1_off4 L 560#32) S112x128.size (k1_off4_inb L 5)) (fun _ => rfl)).view.loc (V d (cV1 L) (jV1 L))) ((Memref.whole main_v28_scv : Memref sig .scVector .hbm S25088x512 .f32).slice (Rect.unit (s := S25088x512) (k1_off4 L 560#32) S112x128.size (k1_off4_inb L 5)) (fun _ => rfl)).view.set
      ∗ ownedAny (F := F) (((Memref.whole main_v28_scv : Memref sig .scVector .hbm S25088x512 .f32).slice (Rect.unit (s := S25088x512) (k1_off4 L 672#32) S112x128.size (k1_off4_inb L 6)) (fun _ => rfl)).view.loc (V d (cV1 L) (jV1 L))) ((Memref.whole main_v28_scv : Memref sig .scVector .hbm S25088x512 .f32).slice (Rect.unit (s := S25088x512) (k1_off4 L 672#32) S112x128.size (k1_off4_inb L 6)) (fun _ => rfl)).view.set
      ∗ ownedAny (F := F) (((Memref.whole main_v28_scv : Memref sig .scVector .hbm S25088x512 .f32).slice (Rect.unit (s := S25088x512) (k1_off5 L 0#32) S112x128.size (k1_off5_inb L 0)) (fun _ => rfl)).view.loc (V d (cV1 L) (jV1 L))) ((Memref.whole main_v28_scv : Memref sig .scVector .hbm S25088x512 .f32).slice (Rect.unit (s := S25088x512) (k1_off5 L 0#32) S112x128.size (k1_off5_inb L 0)) (fun _ => rfl)).view.set
      ∗ ownedAny (F := F) (((Memref.whole main_v28_scv : Memref sig .scVector .hbm S25088x512 .f32).slice (Rect.unit (s := S25088x512) (k1_off5 L 112#32) S112x128.size (k1_off5_inb L 1)) (fun _ => rfl)).view.loc (V d (cV1 L) (jV1 L))) ((Memref.whole main_v28_scv : Memref sig .scVector .hbm S25088x512 .f32).slice (Rect.unit (s := S25088x512) (k1_off5 L 112#32) S112x128.size (k1_off5_inb L 1)) (fun _ => rfl)).view.set
      ∗ ownedAny (F := F) (((Memref.whole main_v28_scv : Memref sig .scVector .hbm S25088x512 .f32).slice (Rect.unit (s := S25088x512) (k1_off5 L 224#32) S112x128.size (k1_off5_inb L 2)) (fun _ => rfl)).view.loc (V d (cV1 L) (jV1 L))) ((Memref.whole main_v28_scv : Memref sig .scVector .hbm S25088x512 .f32).slice (Rect.unit (s := S25088x512) (k1_off5 L 224#32) S112x128.size (k1_off5_inb L 2)) (fun _ => rfl)).view.set
      ∗ ownedAny (F := F) (((Memref.whole main_v28_scv : Memref sig .scVector .hbm S25088x512 .f32).slice (Rect.unit (s := S25088x512) (k1_off5 L 336#32) S112x128.size (k1_off5_inb L 3)) (fun _ => rfl)).view.loc (V d (cV1 L) (jV1 L))) ((Memref.whole main_v28_scv : Memref sig .scVector .hbm S25088x512 .f32).slice (Rect.unit (s := S25088x512) (k1_off5 L 336#32) S112x128.size (k1_off5_inb L 3)) (fun _ => rfl)).view.set
      ∗ ownedAny (F := F) (((Memref.whole main_v28_scv : Memref sig .scVector .hbm S25088x512 .f32).slice (Rect.unit (s := S25088x512) (k1_off5 L 448#32) S112x128.size (k1_off5_inb L 4)) (fun _ => rfl)).view.loc (V d (cV1 L) (jV1 L))) ((Memref.whole main_v28_scv : Memref sig .scVector .hbm S25088x512 .f32).slice (Rect.unit (s := S25088x512) (k1_off5 L 448#32) S112x128.size (k1_off5_inb L 4)) (fun _ => rfl)).view.set
      ∗ ownedAny (F := F) (((Memref.whole main_v28_scv : Memref sig .scVector .hbm S25088x512 .f32).slice (Rect.unit (s := S25088x512) (k1_off5 L 560#32) S112x128.size (k1_off5_inb L 5)) (fun _ => rfl)).view.loc (V d (cV1 L) (jV1 L))) ((Memref.whole main_v28_scv : Memref sig .scVector .hbm S25088x512 .f32).slice (Rect.unit (s := S25088x512) (k1_off5 L 560#32) S112x128.size (k1_off5_inb L 5)) (fun _ => rfl)).view.set
      ∗ ownedAny (F := F) (((Memref.whole main_v28_scv : Memref sig .scVector .hbm S25088x512 .f32).slice (Rect.unit (s := S25088x512) (k1_off5 L 672#32) S112x128.size (k1_off5_inb L 6)) (fun _ => rfl)).view.loc (V d (cV1 L) (jV1 L))) ((Memref.whole main_v28_scv : Memref sig .scVector .hbm S25088x512 .f32).slice (Rect.unit (s := S25088x512) (k1_off5 L 672#32) S112x128.size (k1_off5_inb L 6)) (fun _ => rfl)).view.set
  )

set_option synthInstance.maxHeartbeats 400000 in
set_option synthInstance.maxSize 4096 in
set_option maxHeartbeats 4000000 in
instance tileRes1_storable (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    : BI.Storable (upEmb : UEmb _ 𝕄) (tileRes1 d L qx fi0 fi1 fi2 fi3 fx0 fx1 fx2 fx3) := by
  unfold tileRes1; infer_instance

/-- The grid point of gather call 2 that SparseCore c's vector subcore s runs. -/
def coordsV2 (c : Fin (grid2.bound 0)) (s : Fin (grid2.bound 1)) : grid2.Coords :=
  fun | 0 => c | 1 => s | ⟨_ + 2, h⟩ => absurd h (Nat.not_lt.2 (Nat.le_add_left _ _))

/-- The resources of the task of gather call 2 at grid point L, the result's pieces at whatever they hold. -/
def tileRes2 (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    : sProp 𝕄 :=
  iprop(
        ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
      ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
      ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
      ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
      ∗ ((Memref.whole main_arg0_scv : Memref sig .scVector .hbm S100000x128 .f32).view.loc (V d (cV2 L) (jV2 L)) ↦{Transfers.shareDrop qx 11} fx0)
      ∗ (bigSep Finset.univ fun k : Fin 11 => ((Memref.whole main_arg0_scv : Memref sig .scVector .hbm S100000x128 .f32).view.loc (V d (cV2 L) (jV2 L)) ↦{Transfers.shareTok qx 11 k} fx0))
      ∗ ((Memref.whole main_arg1_scv : Memref sig .scVector .hbm S100000x128 .f32).view.loc (V d (cV2 L) (jV2 L)) ↦{Transfers.shareDrop qx 11} fx1)
      ∗ (bigSep Finset.univ fun k : Fin 11 => ((Memref.whole main_arg1_scv : Memref sig .scVector .hbm S100000x128 .f32).view.loc (V d (cV2 L) (jV2 L)) ↦{Transfers.shareTok qx 11 k} fx1))
      ∗ ((Memref.whole main_arg2_scv : Memref sig .scVector .hbm S100000x128 .f32).view.loc (V d (cV2 L) (jV2 L)) ↦{Transfers.shareDrop qx 11} fx2)
      ∗ (bigSep Finset.univ fun k : Fin 11 => ((Memref.whole main_arg2_scv : Memref sig .scVector .hbm S100000x128 .f32).view.loc (V d (cV2 L) (jV2 L)) ↦{Transfers.shareTok qx 11 k} fx2))
      ∗ ((Memref.whole main_arg3_scv : Memref sig .scVector .hbm S100000x128 .f32).view.loc (V d (cV2 L) (jV2 L)) ↦{Transfers.shareDrop qx 11} fx3)
      ∗ (bigSep Finset.univ fun k : Fin 11 => ((Memref.whole main_arg3_scv : Memref sig .scVector .hbm S100000x128 .f32).view.loc (V d (cV2 L) (jV2 L)) ↦{Transfers.shareTok qx 11 k} fx3))
      ∗ ownedAny (F := F) (((Memref.whole main_v37_scv : Memref sig .scVector .hbm S25088x512 .f32).slice (Rect.unit (s := S25088x512) (k2_off2 L 0#32) S112x128.size (k2_off2_inb L 0)) (fun _ => rfl)).view.loc (V d (cV2 L) (jV2 L))) ((Memref.whole main_v37_scv : Memref sig .scVector .hbm S25088x512 .f32).slice (Rect.unit (s := S25088x512) (k2_off2 L 0#32) S112x128.size (k2_off2_inb L 0)) (fun _ => rfl)).view.set
      ∗ ownedAny (F := F) (((Memref.whole main_v37_scv : Memref sig .scVector .hbm S25088x512 .f32).slice (Rect.unit (s := S25088x512) (k2_off2 L 112#32) S112x128.size (k2_off2_inb L 1)) (fun _ => rfl)).view.loc (V d (cV2 L) (jV2 L))) ((Memref.whole main_v37_scv : Memref sig .scVector .hbm S25088x512 .f32).slice (Rect.unit (s := S25088x512) (k2_off2 L 112#32) S112x128.size (k2_off2_inb L 1)) (fun _ => rfl)).view.set
      ∗ ownedAny (F := F) (((Memref.whole main_v37_scv : Memref sig .scVector .hbm S25088x512 .f32).slice (Rect.unit (s := S25088x512) (k2_off2 L 224#32) S112x128.size (k2_off2_inb L 2)) (fun _ => rfl)).view.loc (V d (cV2 L) (jV2 L))) ((Memref.whole main_v37_scv : Memref sig .scVector .hbm S25088x512 .f32).slice (Rect.unit (s := S25088x512) (k2_off2 L 224#32) S112x128.size (k2_off2_inb L 2)) (fun _ => rfl)).view.set
      ∗ ownedAny (F := F) (((Memref.whole main_v37_scv : Memref sig .scVector .hbm S25088x512 .f32).slice (Rect.unit (s := S25088x512) (k2_off2 L 336#32) S112x128.size (k2_off2_inb L 3)) (fun _ => rfl)).view.loc (V d (cV2 L) (jV2 L))) ((Memref.whole main_v37_scv : Memref sig .scVector .hbm S25088x512 .f32).slice (Rect.unit (s := S25088x512) (k2_off2 L 336#32) S112x128.size (k2_off2_inb L 3)) (fun _ => rfl)).view.set
      ∗ ownedAny (F := F) (((Memref.whole main_v37_scv : Memref sig .scVector .hbm S25088x512 .f32).slice (Rect.unit (s := S25088x512) (k2_off2 L 448#32) S112x128.size (k2_off2_inb L 4)) (fun _ => rfl)).view.loc (V d (cV2 L) (jV2 L))) ((Memref.whole main_v37_scv : Memref sig .scVector .hbm S25088x512 .f32).slice (Rect.unit (s := S25088x512) (k2_off2 L 448#32) S112x128.size (k2_off2_inb L 4)) (fun _ => rfl)).view.set
      ∗ ownedAny (F := F) (((Memref.whole main_v37_scv : Memref sig .scVector .hbm S25088x512 .f32).slice (Rect.unit (s := S25088x512) (k2_off2 L 560#32) S112x128.size (k2_off2_inb L 5)) (fun _ => rfl)).view.loc (V d (cV2 L) (jV2 L))) ((Memref.whole main_v37_scv : Memref sig .scVector .hbm S25088x512 .f32).slice (Rect.unit (s := S25088x512) (k2_off2 L 560#32) S112x128.size (k2_off2_inb L 5)) (fun _ => rfl)).view.set
      ∗ ownedAny (F := F) (((Memref.whole main_v37_scv : Memref sig .scVector .hbm S25088x512 .f32).slice (Rect.unit (s := S25088x512) (k2_off2 L 672#32) S112x128.size (k2_off2_inb L 6)) (fun _ => rfl)).view.loc (V d (cV2 L) (jV2 L))) ((Memref.whole main_v37_scv : Memref sig .scVector .hbm S25088x512 .f32).slice (Rect.unit (s := S25088x512) (k2_off2 L 672#32) S112x128.size (k2_off2_inb L 6)) (fun _ => rfl)).view.set
      ∗ ownedAny (F := F) (((Memref.whole main_v37_scv : Memref sig .scVector .hbm S25088x512 .f32).slice (Rect.unit (s := S25088x512) (k2_off3 L 0#32) S112x128.size (k2_off3_inb L 0)) (fun _ => rfl)).view.loc (V d (cV2 L) (jV2 L))) ((Memref.whole main_v37_scv : Memref sig .scVector .hbm S25088x512 .f32).slice (Rect.unit (s := S25088x512) (k2_off3 L 0#32) S112x128.size (k2_off3_inb L 0)) (fun _ => rfl)).view.set
      ∗ ownedAny (F := F) (((Memref.whole main_v37_scv : Memref sig .scVector .hbm S25088x512 .f32).slice (Rect.unit (s := S25088x512) (k2_off3 L 112#32) S112x128.size (k2_off3_inb L 1)) (fun _ => rfl)).view.loc (V d (cV2 L) (jV2 L))) ((Memref.whole main_v37_scv : Memref sig .scVector .hbm S25088x512 .f32).slice (Rect.unit (s := S25088x512) (k2_off3 L 112#32) S112x128.size (k2_off3_inb L 1)) (fun _ => rfl)).view.set
      ∗ ownedAny (F := F) (((Memref.whole main_v37_scv : Memref sig .scVector .hbm S25088x512 .f32).slice (Rect.unit (s := S25088x512) (k2_off3 L 224#32) S112x128.size (k2_off3_inb L 2)) (fun _ => rfl)).view.loc (V d (cV2 L) (jV2 L))) ((Memref.whole main_v37_scv : Memref sig .scVector .hbm S25088x512 .f32).slice (Rect.unit (s := S25088x512) (k2_off3 L 224#32) S112x128.size (k2_off3_inb L 2)) (fun _ => rfl)).view.set
      ∗ ownedAny (F := F) (((Memref.whole main_v37_scv : Memref sig .scVector .hbm S25088x512 .f32).slice (Rect.unit (s := S25088x512) (k2_off3 L 336#32) S112x128.size (k2_off3_inb L 3)) (fun _ => rfl)).view.loc (V d (cV2 L) (jV2 L))) ((Memref.whole main_v37_scv : Memref sig .scVector .hbm S25088x512 .f32).slice (Rect.unit (s := S25088x512) (k2_off3 L 336#32) S112x128.size (k2_off3_inb L 3)) (fun _ => rfl)).view.set
      ∗ ownedAny (F := F) (((Memref.whole main_v37_scv : Memref sig .scVector .hbm S25088x512 .f32).slice (Rect.unit (s := S25088x512) (k2_off3 L 448#32) S112x128.size (k2_off3_inb L 4)) (fun _ => rfl)).view.loc (V d (cV2 L) (jV2 L))) ((Memref.whole main_v37_scv : Memref sig .scVector .hbm S25088x512 .f32).slice (Rect.unit (s := S25088x512) (k2_off3 L 448#32) S112x128.size (k2_off3_inb L 4)) (fun _ => rfl)).view.set
      ∗ ownedAny (F := F) (((Memref.whole main_v37_scv : Memref sig .scVector .hbm S25088x512 .f32).slice (Rect.unit (s := S25088x512) (k2_off3 L 560#32) S112x128.size (k2_off3_inb L 5)) (fun _ => rfl)).view.loc (V d (cV2 L) (jV2 L))) ((Memref.whole main_v37_scv : Memref sig .scVector .hbm S25088x512 .f32).slice (Rect.unit (s := S25088x512) (k2_off3 L 560#32) S112x128.size (k2_off3_inb L 5)) (fun _ => rfl)).view.set
      ∗ ownedAny (F := F) (((Memref.whole main_v37_scv : Memref sig .scVector .hbm S25088x512 .f32).slice (Rect.unit (s := S25088x512) (k2_off3 L 672#32) S112x128.size (k2_off3_inb L 6)) (fun _ => rfl)).view.loc (V d (cV2 L) (jV2 L))) ((Memref.whole main_v37_scv : Memref sig .scVector .hbm S25088x512 .f32).slice (Rect.unit (s := S25088x512) (k2_off3 L 672#32) S112x128.size (k2_off3_inb L 6)) (fun _ => rfl)).view.set
      ∗ ownedAny (F := F) (((Memref.whole main_v37_scv : Memref sig .scVector .hbm S25088x512 .f32).slice (Rect.unit (s := S25088x512) (k2_off4 L 0#32) S112x128.size (k2_off4_inb L 0)) (fun _ => rfl)).view.loc (V d (cV2 L) (jV2 L))) ((Memref.whole main_v37_scv : Memref sig .scVector .hbm S25088x512 .f32).slice (Rect.unit (s := S25088x512) (k2_off4 L 0#32) S112x128.size (k2_off4_inb L 0)) (fun _ => rfl)).view.set
      ∗ ownedAny (F := F) (((Memref.whole main_v37_scv : Memref sig .scVector .hbm S25088x512 .f32).slice (Rect.unit (s := S25088x512) (k2_off4 L 112#32) S112x128.size (k2_off4_inb L 1)) (fun _ => rfl)).view.loc (V d (cV2 L) (jV2 L))) ((Memref.whole main_v37_scv : Memref sig .scVector .hbm S25088x512 .f32).slice (Rect.unit (s := S25088x512) (k2_off4 L 112#32) S112x128.size (k2_off4_inb L 1)) (fun _ => rfl)).view.set
      ∗ ownedAny (F := F) (((Memref.whole main_v37_scv : Memref sig .scVector .hbm S25088x512 .f32).slice (Rect.unit (s := S25088x512) (k2_off4 L 224#32) S112x128.size (k2_off4_inb L 2)) (fun _ => rfl)).view.loc (V d (cV2 L) (jV2 L))) ((Memref.whole main_v37_scv : Memref sig .scVector .hbm S25088x512 .f32).slice (Rect.unit (s := S25088x512) (k2_off4 L 224#32) S112x128.size (k2_off4_inb L 2)) (fun _ => rfl)).view.set
      ∗ ownedAny (F := F) (((Memref.whole main_v37_scv : Memref sig .scVector .hbm S25088x512 .f32).slice (Rect.unit (s := S25088x512) (k2_off4 L 336#32) S112x128.size (k2_off4_inb L 3)) (fun _ => rfl)).view.loc (V d (cV2 L) (jV2 L))) ((Memref.whole main_v37_scv : Memref sig .scVector .hbm S25088x512 .f32).slice (Rect.unit (s := S25088x512) (k2_off4 L 336#32) S112x128.size (k2_off4_inb L 3)) (fun _ => rfl)).view.set
      ∗ ownedAny (F := F) (((Memref.whole main_v37_scv : Memref sig .scVector .hbm S25088x512 .f32).slice (Rect.unit (s := S25088x512) (k2_off4 L 448#32) S112x128.size (k2_off4_inb L 4)) (fun _ => rfl)).view.loc (V d (cV2 L) (jV2 L))) ((Memref.whole main_v37_scv : Memref sig .scVector .hbm S25088x512 .f32).slice (Rect.unit (s := S25088x512) (k2_off4 L 448#32) S112x128.size (k2_off4_inb L 4)) (fun _ => rfl)).view.set
      ∗ ownedAny (F := F) (((Memref.whole main_v37_scv : Memref sig .scVector .hbm S25088x512 .f32).slice (Rect.unit (s := S25088x512) (k2_off4 L 560#32) S112x128.size (k2_off4_inb L 5)) (fun _ => rfl)).view.loc (V d (cV2 L) (jV2 L))) ((Memref.whole main_v37_scv : Memref sig .scVector .hbm S25088x512 .f32).slice (Rect.unit (s := S25088x512) (k2_off4 L 560#32) S112x128.size (k2_off4_inb L 5)) (fun _ => rfl)).view.set
      ∗ ownedAny (F := F) (((Memref.whole main_v37_scv : Memref sig .scVector .hbm S25088x512 .f32).slice (Rect.unit (s := S25088x512) (k2_off4 L 672#32) S112x128.size (k2_off4_inb L 6)) (fun _ => rfl)).view.loc (V d (cV2 L) (jV2 L))) ((Memref.whole main_v37_scv : Memref sig .scVector .hbm S25088x512 .f32).slice (Rect.unit (s := S25088x512) (k2_off4 L 672#32) S112x128.size (k2_off4_inb L 6)) (fun _ => rfl)).view.set
      ∗ ownedAny (F := F) (((Memref.whole main_v37_scv : Memref sig .scVector .hbm S25088x512 .f32).slice (Rect.unit (s := S25088x512) (k2_off5 L 0#32) S112x128.size (k2_off5_inb L 0)) (fun _ => rfl)).view.loc (V d (cV2 L) (jV2 L))) ((Memref.whole main_v37_scv : Memref sig .scVector .hbm S25088x512 .f32).slice (Rect.unit (s := S25088x512) (k2_off5 L 0#32) S112x128.size (k2_off5_inb L 0)) (fun _ => rfl)).view.set
      ∗ ownedAny (F := F) (((Memref.whole main_v37_scv : Memref sig .scVector .hbm S25088x512 .f32).slice (Rect.unit (s := S25088x512) (k2_off5 L 112#32) S112x128.size (k2_off5_inb L 1)) (fun _ => rfl)).view.loc (V d (cV2 L) (jV2 L))) ((Memref.whole main_v37_scv : Memref sig .scVector .hbm S25088x512 .f32).slice (Rect.unit (s := S25088x512) (k2_off5 L 112#32) S112x128.size (k2_off5_inb L 1)) (fun _ => rfl)).view.set
      ∗ ownedAny (F := F) (((Memref.whole main_v37_scv : Memref sig .scVector .hbm S25088x512 .f32).slice (Rect.unit (s := S25088x512) (k2_off5 L 224#32) S112x128.size (k2_off5_inb L 2)) (fun _ => rfl)).view.loc (V d (cV2 L) (jV2 L))) ((Memref.whole main_v37_scv : Memref sig .scVector .hbm S25088x512 .f32).slice (Rect.unit (s := S25088x512) (k2_off5 L 224#32) S112x128.size (k2_off5_inb L 2)) (fun _ => rfl)).view.set
      ∗ ownedAny (F := F) (((Memref.whole main_v37_scv : Memref sig .scVector .hbm S25088x512 .f32).slice (Rect.unit (s := S25088x512) (k2_off5 L 336#32) S112x128.size (k2_off5_inb L 3)) (fun _ => rfl)).view.loc (V d (cV2 L) (jV2 L))) ((Memref.whole main_v37_scv : Memref sig .scVector .hbm S25088x512 .f32).slice (Rect.unit (s := S25088x512) (k2_off5 L 336#32) S112x128.size (k2_off5_inb L 3)) (fun _ => rfl)).view.set
      ∗ ownedAny (F := F) (((Memref.whole main_v37_scv : Memref sig .scVector .hbm S25088x512 .f32).slice (Rect.unit (s := S25088x512) (k2_off5 L 448#32) S112x128.size (k2_off5_inb L 4)) (fun _ => rfl)).view.loc (V d (cV2 L) (jV2 L))) ((Memref.whole main_v37_scv : Memref sig .scVector .hbm S25088x512 .f32).slice (Rect.unit (s := S25088x512) (k2_off5 L 448#32) S112x128.size (k2_off5_inb L 4)) (fun _ => rfl)).view.set
      ∗ ownedAny (F := F) (((Memref.whole main_v37_scv : Memref sig .scVector .hbm S25088x512 .f32).slice (Rect.unit (s := S25088x512) (k2_off5 L 560#32) S112x128.size (k2_off5_inb L 5)) (fun _ => rfl)).view.loc (V d (cV2 L) (jV2 L))) ((Memref.whole main_v37_scv : Memref sig .scVector .hbm S25088x512 .f32).slice (Rect.unit (s := S25088x512) (k2_off5 L 560#32) S112x128.size (k2_off5_inb L 5)) (fun _ => rfl)).view.set
      ∗ ownedAny (F := F) (((Memref.whole main_v37_scv : Memref sig .scVector .hbm S25088x512 .f32).slice (Rect.unit (s := S25088x512) (k2_off5 L 672#32) S112x128.size (k2_off5_inb L 6)) (fun _ => rfl)).view.loc (V d (cV2 L) (jV2 L))) ((Memref.whole main_v37_scv : Memref sig .scVector .hbm S25088x512 .f32).slice (Rect.unit (s := S25088x512) (k2_off5 L 672#32) S112x128.size (k2_off5_inb L 6)) (fun _ => rfl)).view.set
  )

set_option synthInstance.maxHeartbeats 400000 in
set_option synthInstance.maxSize 4096 in
set_option maxHeartbeats 4000000 in
instance tileRes2_storable (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    : BI.Storable (upEmb : UEmb _ 𝕄) (tileRes2 d L qx fi0 fi1 fi2 fi3 fx0 fx1 fx2 fx3) := by
  unfold tileRes2; infer_instance

/-- The grid point of gather call 3 that SparseCore c's vector subcore s runs. -/
def coordsV3 (c : Fin (grid3.bound 0)) (s : Fin (grid3.bound 1)) : grid3.Coords :=
  fun | 0 => c | 1 => s | ⟨_ + 2, h⟩ => absurd h (Nat.not_lt.2 (Nat.le_add_left _ _))

/-- The resources of the task of gather call 3 at grid point L, the result's pieces at whatever they hold. -/
def tileRes3 (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    : sProp 𝕄 :=
  iprop(
        ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
      ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
      ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
      ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
      ∗ ((Memref.whole main_arg0_scv : Memref sig .scVector .hbm S100000x128 .f32).view.loc (V d (cV3 L) (jV3 L)) ↦{Transfers.shareDrop qx 11} fx0)
      ∗ (bigSep Finset.univ fun k : Fin 11 => ((Memref.whole main_arg0_scv : Memref sig .scVector .hbm S100000x128 .f32).view.loc (V d (cV3 L) (jV3 L)) ↦{Transfers.shareTok qx 11 k} fx0))
      ∗ ((Memref.whole main_arg1_scv : Memref sig .scVector .hbm S100000x128 .f32).view.loc (V d (cV3 L) (jV3 L)) ↦{Transfers.shareDrop qx 11} fx1)
      ∗ (bigSep Finset.univ fun k : Fin 11 => ((Memref.whole main_arg1_scv : Memref sig .scVector .hbm S100000x128 .f32).view.loc (V d (cV3 L) (jV3 L)) ↦{Transfers.shareTok qx 11 k} fx1))
      ∗ ((Memref.whole main_arg2_scv : Memref sig .scVector .hbm S100000x128 .f32).view.loc (V d (cV3 L) (jV3 L)) ↦{Transfers.shareDrop qx 11} fx2)
      ∗ (bigSep Finset.univ fun k : Fin 11 => ((Memref.whole main_arg2_scv : Memref sig .scVector .hbm S100000x128 .f32).view.loc (V d (cV3 L) (jV3 L)) ↦{Transfers.shareTok qx 11 k} fx2))
      ∗ ((Memref.whole main_arg3_scv : Memref sig .scVector .hbm S100000x128 .f32).view.loc (V d (cV3 L) (jV3 L)) ↦{Transfers.shareDrop qx 11} fx3)
      ∗ (bigSep Finset.univ fun k : Fin 11 => ((Memref.whole main_arg3_scv : Memref sig .scVector .hbm S100000x128 .f32).view.loc (V d (cV3 L) (jV3 L)) ↦{Transfers.shareTok qx 11 k} fx3))
      ∗ ownedAny (F := F) (((Memref.whole main_v46_scv : Memref sig .scVector .hbm S25088x512 .f32).slice (Rect.unit (s := S25088x512) (k3_off2 L 0#32) S112x128.size (k3_off2_inb L 0)) (fun _ => rfl)).view.loc (V d (cV3 L) (jV3 L))) ((Memref.whole main_v46_scv : Memref sig .scVector .hbm S25088x512 .f32).slice (Rect.unit (s := S25088x512) (k3_off2 L 0#32) S112x128.size (k3_off2_inb L 0)) (fun _ => rfl)).view.set
      ∗ ownedAny (F := F) (((Memref.whole main_v46_scv : Memref sig .scVector .hbm S25088x512 .f32).slice (Rect.unit (s := S25088x512) (k3_off2 L 112#32) S112x128.size (k3_off2_inb L 1)) (fun _ => rfl)).view.loc (V d (cV3 L) (jV3 L))) ((Memref.whole main_v46_scv : Memref sig .scVector .hbm S25088x512 .f32).slice (Rect.unit (s := S25088x512) (k3_off2 L 112#32) S112x128.size (k3_off2_inb L 1)) (fun _ => rfl)).view.set
      ∗ ownedAny (F := F) (((Memref.whole main_v46_scv : Memref sig .scVector .hbm S25088x512 .f32).slice (Rect.unit (s := S25088x512) (k3_off2 L 224#32) S112x128.size (k3_off2_inb L 2)) (fun _ => rfl)).view.loc (V d (cV3 L) (jV3 L))) ((Memref.whole main_v46_scv : Memref sig .scVector .hbm S25088x512 .f32).slice (Rect.unit (s := S25088x512) (k3_off2 L 224#32) S112x128.size (k3_off2_inb L 2)) (fun _ => rfl)).view.set
      ∗ ownedAny (F := F) (((Memref.whole main_v46_scv : Memref sig .scVector .hbm S25088x512 .f32).slice (Rect.unit (s := S25088x512) (k3_off2 L 336#32) S112x128.size (k3_off2_inb L 3)) (fun _ => rfl)).view.loc (V d (cV3 L) (jV3 L))) ((Memref.whole main_v46_scv : Memref sig .scVector .hbm S25088x512 .f32).slice (Rect.unit (s := S25088x512) (k3_off2 L 336#32) S112x128.size (k3_off2_inb L 3)) (fun _ => rfl)).view.set
      ∗ ownedAny (F := F) (((Memref.whole main_v46_scv : Memref sig .scVector .hbm S25088x512 .f32).slice (Rect.unit (s := S25088x512) (k3_off2 L 448#32) S112x128.size (k3_off2_inb L 4)) (fun _ => rfl)).view.loc (V d (cV3 L) (jV3 L))) ((Memref.whole main_v46_scv : Memref sig .scVector .hbm S25088x512 .f32).slice (Rect.unit (s := S25088x512) (k3_off2 L 448#32) S112x128.size (k3_off2_inb L 4)) (fun _ => rfl)).view.set
      ∗ ownedAny (F := F) (((Memref.whole main_v46_scv : Memref sig .scVector .hbm S25088x512 .f32).slice (Rect.unit (s := S25088x512) (k3_off2 L 560#32) S112x128.size (k3_off2_inb L 5)) (fun _ => rfl)).view.loc (V d (cV3 L) (jV3 L))) ((Memref.whole main_v46_scv : Memref sig .scVector .hbm S25088x512 .f32).slice (Rect.unit (s := S25088x512) (k3_off2 L 560#32) S112x128.size (k3_off2_inb L 5)) (fun _ => rfl)).view.set
      ∗ ownedAny (F := F) (((Memref.whole main_v46_scv : Memref sig .scVector .hbm S25088x512 .f32).slice (Rect.unit (s := S25088x512) (k3_off2 L 672#32) S112x128.size (k3_off2_inb L 6)) (fun _ => rfl)).view.loc (V d (cV3 L) (jV3 L))) ((Memref.whole main_v46_scv : Memref sig .scVector .hbm S25088x512 .f32).slice (Rect.unit (s := S25088x512) (k3_off2 L 672#32) S112x128.size (k3_off2_inb L 6)) (fun _ => rfl)).view.set
      ∗ ownedAny (F := F) (((Memref.whole main_v46_scv : Memref sig .scVector .hbm S25088x512 .f32).slice (Rect.unit (s := S25088x512) (k3_off3 L 0#32) S112x128.size (k3_off3_inb L 0)) (fun _ => rfl)).view.loc (V d (cV3 L) (jV3 L))) ((Memref.whole main_v46_scv : Memref sig .scVector .hbm S25088x512 .f32).slice (Rect.unit (s := S25088x512) (k3_off3 L 0#32) S112x128.size (k3_off3_inb L 0)) (fun _ => rfl)).view.set
      ∗ ownedAny (F := F) (((Memref.whole main_v46_scv : Memref sig .scVector .hbm S25088x512 .f32).slice (Rect.unit (s := S25088x512) (k3_off3 L 112#32) S112x128.size (k3_off3_inb L 1)) (fun _ => rfl)).view.loc (V d (cV3 L) (jV3 L))) ((Memref.whole main_v46_scv : Memref sig .scVector .hbm S25088x512 .f32).slice (Rect.unit (s := S25088x512) (k3_off3 L 112#32) S112x128.size (k3_off3_inb L 1)) (fun _ => rfl)).view.set
      ∗ ownedAny (F := F) (((Memref.whole main_v46_scv : Memref sig .scVector .hbm S25088x512 .f32).slice (Rect.unit (s := S25088x512) (k3_off3 L 224#32) S112x128.size (k3_off3_inb L 2)) (fun _ => rfl)).view.loc (V d (cV3 L) (jV3 L))) ((Memref.whole main_v46_scv : Memref sig .scVector .hbm S25088x512 .f32).slice (Rect.unit (s := S25088x512) (k3_off3 L 224#32) S112x128.size (k3_off3_inb L 2)) (fun _ => rfl)).view.set
      ∗ ownedAny (F := F) (((Memref.whole main_v46_scv : Memref sig .scVector .hbm S25088x512 .f32).slice (Rect.unit (s := S25088x512) (k3_off3 L 336#32) S112x128.size (k3_off3_inb L 3)) (fun _ => rfl)).view.loc (V d (cV3 L) (jV3 L))) ((Memref.whole main_v46_scv : Memref sig .scVector .hbm S25088x512 .f32).slice (Rect.unit (s := S25088x512) (k3_off3 L 336#32) S112x128.size (k3_off3_inb L 3)) (fun _ => rfl)).view.set
      ∗ ownedAny (F := F) (((Memref.whole main_v46_scv : Memref sig .scVector .hbm S25088x512 .f32).slice (Rect.unit (s := S25088x512) (k3_off3 L 448#32) S112x128.size (k3_off3_inb L 4)) (fun _ => rfl)).view.loc (V d (cV3 L) (jV3 L))) ((Memref.whole main_v46_scv : Memref sig .scVector .hbm S25088x512 .f32).slice (Rect.unit (s := S25088x512) (k3_off3 L 448#32) S112x128.size (k3_off3_inb L 4)) (fun _ => rfl)).view.set
      ∗ ownedAny (F := F) (((Memref.whole main_v46_scv : Memref sig .scVector .hbm S25088x512 .f32).slice (Rect.unit (s := S25088x512) (k3_off3 L 560#32) S112x128.size (k3_off3_inb L 5)) (fun _ => rfl)).view.loc (V d (cV3 L) (jV3 L))) ((Memref.whole main_v46_scv : Memref sig .scVector .hbm S25088x512 .f32).slice (Rect.unit (s := S25088x512) (k3_off3 L 560#32) S112x128.size (k3_off3_inb L 5)) (fun _ => rfl)).view.set
      ∗ ownedAny (F := F) (((Memref.whole main_v46_scv : Memref sig .scVector .hbm S25088x512 .f32).slice (Rect.unit (s := S25088x512) (k3_off3 L 672#32) S112x128.size (k3_off3_inb L 6)) (fun _ => rfl)).view.loc (V d (cV3 L) (jV3 L))) ((Memref.whole main_v46_scv : Memref sig .scVector .hbm S25088x512 .f32).slice (Rect.unit (s := S25088x512) (k3_off3 L 672#32) S112x128.size (k3_off3_inb L 6)) (fun _ => rfl)).view.set
      ∗ ownedAny (F := F) (((Memref.whole main_v46_scv : Memref sig .scVector .hbm S25088x512 .f32).slice (Rect.unit (s := S25088x512) (k3_off4 L 0#32) S112x128.size (k3_off4_inb L 0)) (fun _ => rfl)).view.loc (V d (cV3 L) (jV3 L))) ((Memref.whole main_v46_scv : Memref sig .scVector .hbm S25088x512 .f32).slice (Rect.unit (s := S25088x512) (k3_off4 L 0#32) S112x128.size (k3_off4_inb L 0)) (fun _ => rfl)).view.set
      ∗ ownedAny (F := F) (((Memref.whole main_v46_scv : Memref sig .scVector .hbm S25088x512 .f32).slice (Rect.unit (s := S25088x512) (k3_off4 L 112#32) S112x128.size (k3_off4_inb L 1)) (fun _ => rfl)).view.loc (V d (cV3 L) (jV3 L))) ((Memref.whole main_v46_scv : Memref sig .scVector .hbm S25088x512 .f32).slice (Rect.unit (s := S25088x512) (k3_off4 L 112#32) S112x128.size (k3_off4_inb L 1)) (fun _ => rfl)).view.set
      ∗ ownedAny (F := F) (((Memref.whole main_v46_scv : Memref sig .scVector .hbm S25088x512 .f32).slice (Rect.unit (s := S25088x512) (k3_off4 L 224#32) S112x128.size (k3_off4_inb L 2)) (fun _ => rfl)).view.loc (V d (cV3 L) (jV3 L))) ((Memref.whole main_v46_scv : Memref sig .scVector .hbm S25088x512 .f32).slice (Rect.unit (s := S25088x512) (k3_off4 L 224#32) S112x128.size (k3_off4_inb L 2)) (fun _ => rfl)).view.set
      ∗ ownedAny (F := F) (((Memref.whole main_v46_scv : Memref sig .scVector .hbm S25088x512 .f32).slice (Rect.unit (s := S25088x512) (k3_off4 L 336#32) S112x128.size (k3_off4_inb L 3)) (fun _ => rfl)).view.loc (V d (cV3 L) (jV3 L))) ((Memref.whole main_v46_scv : Memref sig .scVector .hbm S25088x512 .f32).slice (Rect.unit (s := S25088x512) (k3_off4 L 336#32) S112x128.size (k3_off4_inb L 3)) (fun _ => rfl)).view.set
      ∗ ownedAny (F := F) (((Memref.whole main_v46_scv : Memref sig .scVector .hbm S25088x512 .f32).slice (Rect.unit (s := S25088x512) (k3_off4 L 448#32) S112x128.size (k3_off4_inb L 4)) (fun _ => rfl)).view.loc (V d (cV3 L) (jV3 L))) ((Memref.whole main_v46_scv : Memref sig .scVector .hbm S25088x512 .f32).slice (Rect.unit (s := S25088x512) (k3_off4 L 448#32) S112x128.size (k3_off4_inb L 4)) (fun _ => rfl)).view.set
      ∗ ownedAny (F := F) (((Memref.whole main_v46_scv : Memref sig .scVector .hbm S25088x512 .f32).slice (Rect.unit (s := S25088x512) (k3_off4 L 560#32) S112x128.size (k3_off4_inb L 5)) (fun _ => rfl)).view.loc (V d (cV3 L) (jV3 L))) ((Memref.whole main_v46_scv : Memref sig .scVector .hbm S25088x512 .f32).slice (Rect.unit (s := S25088x512) (k3_off4 L 560#32) S112x128.size (k3_off4_inb L 5)) (fun _ => rfl)).view.set
      ∗ ownedAny (F := F) (((Memref.whole main_v46_scv : Memref sig .scVector .hbm S25088x512 .f32).slice (Rect.unit (s := S25088x512) (k3_off4 L 672#32) S112x128.size (k3_off4_inb L 6)) (fun _ => rfl)).view.loc (V d (cV3 L) (jV3 L))) ((Memref.whole main_v46_scv : Memref sig .scVector .hbm S25088x512 .f32).slice (Rect.unit (s := S25088x512) (k3_off4 L 672#32) S112x128.size (k3_off4_inb L 6)) (fun _ => rfl)).view.set
      ∗ ownedAny (F := F) (((Memref.whole main_v46_scv : Memref sig .scVector .hbm S25088x512 .f32).slice (Rect.unit (s := S25088x512) (k3_off5 L 0#32) S112x128.size (k3_off5_inb L 0)) (fun _ => rfl)).view.loc (V d (cV3 L) (jV3 L))) ((Memref.whole main_v46_scv : Memref sig .scVector .hbm S25088x512 .f32).slice (Rect.unit (s := S25088x512) (k3_off5 L 0#32) S112x128.size (k3_off5_inb L 0)) (fun _ => rfl)).view.set
      ∗ ownedAny (F := F) (((Memref.whole main_v46_scv : Memref sig .scVector .hbm S25088x512 .f32).slice (Rect.unit (s := S25088x512) (k3_off5 L 112#32) S112x128.size (k3_off5_inb L 1)) (fun _ => rfl)).view.loc (V d (cV3 L) (jV3 L))) ((Memref.whole main_v46_scv : Memref sig .scVector .hbm S25088x512 .f32).slice (Rect.unit (s := S25088x512) (k3_off5 L 112#32) S112x128.size (k3_off5_inb L 1)) (fun _ => rfl)).view.set
      ∗ ownedAny (F := F) (((Memref.whole main_v46_scv : Memref sig .scVector .hbm S25088x512 .f32).slice (Rect.unit (s := S25088x512) (k3_off5 L 224#32) S112x128.size (k3_off5_inb L 2)) (fun _ => rfl)).view.loc (V d (cV3 L) (jV3 L))) ((Memref.whole main_v46_scv : Memref sig .scVector .hbm S25088x512 .f32).slice (Rect.unit (s := S25088x512) (k3_off5 L 224#32) S112x128.size (k3_off5_inb L 2)) (fun _ => rfl)).view.set
      ∗ ownedAny (F := F) (((Memref.whole main_v46_scv : Memref sig .scVector .hbm S25088x512 .f32).slice (Rect.unit (s := S25088x512) (k3_off5 L 336#32) S112x128.size (k3_off5_inb L 3)) (fun _ => rfl)).view.loc (V d (cV3 L) (jV3 L))) ((Memref.whole main_v46_scv : Memref sig .scVector .hbm S25088x512 .f32).slice (Rect.unit (s := S25088x512) (k3_off5 L 336#32) S112x128.size (k3_off5_inb L 3)) (fun _ => rfl)).view.set
      ∗ ownedAny (F := F) (((Memref.whole main_v46_scv : Memref sig .scVector .hbm S25088x512 .f32).slice (Rect.unit (s := S25088x512) (k3_off5 L 448#32) S112x128.size (k3_off5_inb L 4)) (fun _ => rfl)).view.loc (V d (cV3 L) (jV3 L))) ((Memref.whole main_v46_scv : Memref sig .scVector .hbm S25088x512 .f32).slice (Rect.unit (s := S25088x512) (k3_off5 L 448#32) S112x128.size (k3_off5_inb L 4)) (fun _ => rfl)).view.set
      ∗ ownedAny (F := F) (((Memref.whole main_v46_scv : Memref sig .scVector .hbm S25088x512 .f32).slice (Rect.unit (s := S25088x512) (k3_off5 L 560#32) S112x128.size (k3_off5_inb L 5)) (fun _ => rfl)).view.loc (V d (cV3 L) (jV3 L))) ((Memref.whole main_v46_scv : Memref sig .scVector .hbm S25088x512 .f32).slice (Rect.unit (s := S25088x512) (k3_off5 L 560#32) S112x128.size (k3_off5_inb L 5)) (fun _ => rfl)).view.set
      ∗ ownedAny (F := F) (((Memref.whole main_v46_scv : Memref sig .scVector .hbm S25088x512 .f32).slice (Rect.unit (s := S25088x512) (k3_off5 L 672#32) S112x128.size (k3_off5_inb L 6)) (fun _ => rfl)).view.loc (V d (cV3 L) (jV3 L))) ((Memref.whole main_v46_scv : Memref sig .scVector .hbm S25088x512 .f32).slice (Rect.unit (s := S25088x512) (k3_off5 L 672#32) S112x128.size (k3_off5_inb L 6)) (fun _ => rfl)).view.set
  )

set_option synthInstance.maxHeartbeats 400000 in
set_option synthInstance.maxSize 4096 in
set_option maxHeartbeats 4000000 in
instance tileRes3_storable (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    : BI.Storable (upEmb : UEmb _ 𝕄) (tileRes3 d L qx fi0 fi1 fi2 fi3 fx0 fx1 fx2 fx3) := by
  unfold tileRes3; infer_instance

variable (m : (ℓ : Loc nD τ sig) → Buf (Elt F) ℓ)

theorem nCore_eq (q : Fin 4) : (K (F := F)).nCore q = 2 := by fin_cases q <;> rfl
theorem nSub_eq (q : Fin 4) : (K (F := F)).nSub q = 16 := by fin_cases q <;> rfl

/-- What the task of call q on SparseCore c, vector subcore i is handed, and hands back. -/
def taskRes (q : Fin 4) (d : Dev nD) (c : Fin 2) (i : Fin 16) : sProp 𝕄 :=
  match q with
  | 0 => tileRes0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3))
  | 1 => tileRes1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3))
  | 2 => tileRes2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3))
  | 3 => tileRes3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3))

/-- The payloads: a SparseCore's share of a call is its sixteen tasks'; nothing of the launch's is consumed by a kernel. -/
def P : (K (F := F)).Pay (nD := nD) (Val := Elt F) (Name := ℕ) (U := UU) where
  st := fun q d c => bigSep Finset.univ fun i : Fin 16 => taskRes m q d (Fin.cast (nCore_eq q) c) i
  dn := fun q d c => bigSep Finset.univ fun i : Fin 16 => taskRes m q d (Fin.cast (nCore_eq q) c) i
  go := fun q d c i => taskRes m q d (Fin.cast (nCore_eq q) c) (Fin.cast (nSub_eq q) i)
  td := fun q d c i => taskRes m q d (Fin.cast (nCore_eq q) c) (Fin.cast (nSub_eq q) i)
  x := fun _ _ => iprop(emp)

instance taskRes_storable (q : Fin 4) (d : Dev nD) (c : Fin 2) (i : Fin 16) : BI.Storable (upEmb : UEmb _ 𝕄) (taskRes m q d c i) := by
  match q with
  | 0 => unfold taskRes; infer_instance
  | 1 => unfold taskRes; infer_instance
  | 2 => unfold taskRes; infer_instance
  | 3 => unfold taskRes; infer_instance

instance P_storable : (P (F := F) m).IsStorable where
  st _ _ _ := by unfold P; infer_instance
  dn _ _ _ := by unfold P; infer_instance
  go _ _ _ _ := by unfold P; infer_instance
  td _ _ _ _ := by unfold P; infer_instance

end Cert.Kernel.Sc

end
-- ==== Proof.KTcBody.lean ====
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 4: the tile computation on one block of 896 rows -/

section Call4

variable (V : (c : Dev nD) → (b : Ref sig .tc) → Buf (Elt F) ((c : Thread nD τ).loc b))

/-- Window `w`'s block at grid point `t`, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 holds its block at every point, whether or not it was fetched there: an unfetched input's
    block index has not moved and the body leaves the block in place. -/
theorem before4_0_of {c : Dev nD} (dat : Dat τ (Elt F) Ix Name U Lvl cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 holds its block at every point, whether or not it was fetched there: an unfetched input's
    block index has not moved and the body leaves the block in place. -/
theorem before4_1_of {c : Dev nD} (dat : Dat τ (Elt F) Ix Name U Lvl cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 holds its block at every point, whether or not it was fetched there: an unfetched input's
    block index has not moved and the body leaves the block in place. -/
theorem before4_2_of {c : Dev nD} (dat : Dat τ (Elt F) Ix Name U Lvl cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 holds its block at every point, whether or not it was fetched there: an unfetched input's
    block index has not moved and the body leaves the block in place. -/
theorem before4_3_of {c : Dev nD} (dat : Dat τ (Elt F) Ix Name U Lvl cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 holds its block at every point, whether or not it was fetched there: an unfetched input's
    block index has not moved and the body leaves the block in place. -/
theorem before4_4_of {c : Dev nD} (dat : Dat τ (Elt F) Ix Name U Lvl cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole 896x512 block, the whole 512x512 weight and the whole 1x512 row, as rectangles. -/
abbrev r4_a : Rect S896x512 := Rect.unit (s := S896x512) ![0, 0] S896x512.size inb_S896x512_S896x512_0_0
abbrev r4_w : Rect S512x512 := Rect.unit (s := S512x512) ![0, 0] S512x512.size inb_S512x512_S512x512_0_0
abbrev r4_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out4_5 (x0 : Vec F S896x512 .f32) (x1 : Vec F S512x512 .f32) (x2 x3 x4 : Vec F S1x512 .f32) : Vec F S896x512 .f32 :=
  View.canon [⟨r4_a, k4_pay1 (View.ld x0 r4_a) (View.ld x1 r4_w) (View.ld x2 r4_v) (View.ld x3 r4_v) (View.ld x4 r4_v)⟩]

/-- The one store covers the whole block. -/
theorem cover4_5 (p0 : Vec F S896x512 .f32) (y : S896x512.Idx) :
    ∃ pc ∈ ([⟨r4_a, p0⟩] : List (View.Piece (Elt F) S896x512 .f32)), y ∈ pc.1.set :=
  View.cover_of_tiled [⟨r4_a, p0⟩] S896x512.size (by rfl) y

set_option maxHeartbeats 4000000 in
/-- The body on whole buffers: from the five inputs at `x0 … x4` and the output buffer at anything, it terminates
    with the inputs unchanged and the output at `out4_5 x0 … x4`. -/
theorem sound_kernel4 (𝒱₀ : Variants) (c : Dev nD) (E : Set Name) (i : grid4.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) 𝒱₀ c none) E (cc4__tc_compute i arg1 harg1 arg2 harg2 arg3 harg3 arg4 harg4 arg5 harg5 arg6 harg6) K := by
  simp only [cc4__tc_compute_eq_skeleton]; unfold cc4__tc_compute_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

end Call4

section Data4

variable (V : (c : Dev nD) → (b : Ref sig .tc) → Buf (Elt F) ((c : Thread nD τ).loc b))
variable (R : Set (SemLoc sig × Ix))

/-- The proof data of call 4 on core `c`: the arrays as the region finds them; after the body at point `t` each
    input's buffer still at its block and the output's at `out4_5` of the five input blocks; between points only
    the core's other scoped buffers, untouched; nothing owed, the pairs the core's waits have recorded so far within
    `R`; every array held whole. -/
def dat4 (c : Dev nD) : Dat τ (Elt F) Ix Name U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.scopedRest (Ix := Ix) (Name := Name) (U := U) (Lvl := Lvl) (Val := Elt F) spec4 c
  q _ := fullShare
  owed _ := 0
  recorded _ := R

theorem A_eq4 (c : Dev nD) (w : Fin cfg4.W) : (dat4 (Name := Name) (U := U) (Lvl := Lvl) V R c).A w = V c (Pipeline.arrRef spec4 w) := by
  dsimp only [dat4]

theorem after4_0 (c : Dev nD) (t : Fin cfg4.N) : (dat4 (Name := Name) (U := U) (Lvl := Lvl) V R c).after 0 t = iblk4 V c 0 t := by dsimp only [dat4]
theorem after4_1 (c : Dev nD) (t : Fin cfg4.N) : (dat4 (Name := Name) (U := U) (Lvl := Lvl) V R c).after 1 t = iblk4 V c 1 t := by dsimp only [dat4]
theorem after4_2 (c : Dev nD) (t : Fin cfg4.N) : (dat4 (Name := Name) (U := U) (Lvl := Lvl) V R c).after 2 t = iblk4 V c 2 t := by dsimp only [dat4]
theorem after4_3 (c : Dev nD) (t : Fin cfg4.N) : (dat4 (Name := Name) (U := U) (Lvl := Lvl) V R c).after 3 t = iblk4 V c 3 t := by dsimp only [dat4]
theorem after4_4 (c : Dev nD) (t : Fin cfg4.N) : (dat4 (Name := Name) (U := U) (Lvl := Lvl) V R c).after 4 t = iblk4 V c 4 t := by dsimp only [dat4]
theorem after4_5 (c : Dev nD) (t : Fin cfg4.N) : (dat4 (Name := Name) (U := U) (Lvl := Lvl) V R c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 (Name := Name) (U := U) (Lvl := Lvl) V R c).before 0 t d = iblk4 V c 0 t :=
  before4_0_of V (dat4 (Name := Name) (U := U) (Lvl := Lvl) V R c) (A_eq4 V R c 0) (after4_0 V R c) t d
theorem before4_1 (c : Dev nD) (t : Fin cfg4.N) (d) : (dat4 (Name := Name) (U := U) (Lvl := Lvl) V R c).before 1 t d = iblk4 V c 1 t :=
  before4_1_of V (dat4 (Name := Name) (U := U) (Lvl := Lvl) V R c) (A_eq4 V R c 1) (after4_1 V R c) t d
theorem before4_2 (c : Dev nD) (t : Fin cfg4.N) (d) : (dat4 (Name := Name) (U := U) (Lvl := Lvl) V R c).before 2 t d = iblk4 V c 2 t :=
  before4_2_of V (dat4 (Name := Name) (U := U) (Lvl := Lvl) V R c) (A_eq4 V R c 2) (after4_2 V R c) t d
theorem before4_3 (c : Dev nD) (t : Fin cfg4.N) (d) : (dat4 (Name := Name) (U := U) (Lvl := Lvl) V R c).before 3 t d = iblk4 V c 3 t :=
  before4_3_of V (dat4 (Name := Name) (U := U) (Lvl := Lvl) V R c) (A_eq4 V R c 3) (after4_3 V R c) t d
theorem before4_4 (c : Dev nD) (t : Fin cfg4.N) (d) : (dat4 (Name := Name) (U := U) (Lvl := Lvl) V R c).before 4 t d = iblk4 V c 4 t :=
  before4_4_of V (dat4 (Name := Name) (U := U) (Lvl := Lvl) V R c) (A_eq4 V R c 4) (after4_4 V R c) t d

/-- The arrays after the write-backs do not depend on the bound on the recorded pairs. -/
theorem arrAt4_indep (R' : Set (SemLoc sig × Ix)) (c : Dev nD) (w : Fin cfg4.W) :
    ∀ n, (dat4 (Name := Name) (U := U) (Lvl := Lvl) V R c).arrAt w n = (dat4 (Name := Name) (U := U) (Lvl := Lvl) V R' c).arrAt w n
  | 0 => rfl
  | n + 1 => funext fun i => by
    rw [Dat.arrAt_succ_apply, Dat.arrAt_succ_apply, arrAt4_indep R' c w n]
    rfl

/-- What the body is called with at point `t`: the invariant, what the core owes, and each window's current buffer. -/
def bodyPre4 (ι : Ix) (c : Dev nD) (t : Fin cfg4.N) : sProp 𝕄 :=
  iprop((dat4 (Name := Name) (U := U) (Lvl := Lvl) V R c).Φ t.castSucc ∗ (dat4 (Name := Name) (U := U) (Lvl := Lvl) V R c).owesAt ι t.castSucc
    ∗ (∃ d, owns (c : Thread nD τ) (st4_0 t) fullShare ((dat4 (Name := Name) (U := U) (Lvl := Lvl) V R c).before 0 t d))
    ∗ (∃ d, owns (c : Thread nD τ) (st4_1 t) fullShare ((dat4 (Name := Name) (U := U) (Lvl := Lvl) V R c).before 1 t d))
    ∗ (∃ d, owns (c : Thread nD τ) (st4_2 t) fullShare ((dat4 (Name := Name) (U := U) (Lvl := Lvl) V R c).before 2 t d))
    ∗ (∃ d, owns (c : Thread nD τ) (st4_3 t) fullShare ((dat4 (Name := Name) (U := U) (Lvl := Lvl) V R c).before 3 t d))
    ∗ (∃ d, owns (c : Thread nD τ) (st4_4 t) fullShare ((dat4 (Name := Name) (U := U) (Lvl := Lvl) V R c).before 4 t d))
    ∗ (∃ d, owns (c : Thread nD τ) (st4_5 t) fullShare ((dat4 (Name := Name) (U := U) (Lvl := Lvl) V R c).before 5 t d)))

/-- and what it returns. -/
def bodyPost4 (ι : Ix) (c : Dev nD) (t : Fin cfg4.N) : sProp 𝕄 :=
  iprop((dat4 (Name := Name) (U := U) (Lvl := Lvl) V R c).Φ t.succ ∗ (dat4 (Name := Name) (U := U) (Lvl := Lvl) V R c).owesAt ι t.succ
    ∗ owns (c : Thread nD τ) (st4_0 t) fullShare ((dat4 (Name := Name) (U := U) (Lvl := Lvl) V R c).after 0 t)
    ∗ owns (c : Thread nD τ) (st4_1 t) fullShare ((dat4 (Name := Name) (U := U) (Lvl := Lvl) V R c).after 1 t)
    ∗ owns (c : Thread nD τ) (st4_2 t) fullShare ((dat4 (Name := Name) (U := U) (Lvl := Lvl) V R c).after 2 t)
    ∗ owns (c : Thread nD τ) (st4_3 t) fullShare ((dat4 (Name := Name) (U := U) (Lvl := Lvl) V R c).after 3 t)
    ∗ owns (c : Thread nD τ) (st4_4 t) fullShare ((dat4 (Name := Name) (U := U) (Lvl := Lvl) V R c).after 4 t)
    ∗ owns (c : Thread nD τ) (st4_5 t) fullShare ((dat4 (Name := Name) (U := U) (Lvl := Lvl) V R c).after 5 t))

/-- The body at any grid point: the inputs' buffers hold their blocks, so the body's triple applies; the invariant and
    what the core owes pass through unread. -/
theorem sound_body4 (𝒱₀ : Variants) (ι : Ix) (c : Dev nD) (t : Fin cfg4.N) :
    bodyPre4 (Name := Name) (U := U) (Lvl := Lvl) V R ι c t
      ⊢ wp frame (wpE (defs₀ (F := F)) 𝒱₀ c none) Set.univ (bodyAt4 t) (fun _ => bodyPost4 (Name := Name) (U := U) (Lvl := Lvl) V R ι c t) := by
  unfold bodyPre4 bodyPost4 bodyAt4
  simp only [before4_0, before4_1, before4_2, before4_3, before4_4]
  rw [show (dat4 (Name := Name) (U := U) (Lvl := Lvl) V R c).Φ t.succ = (dat4 (Name := Name) (U := U) (Lvl := Lvl) V R c).Φ t.castSucc from rfl,
    show (dat4 (Name := Name) (U := U) (Lvl := Lvl) V R c).owesAt ι t.succ = (dat4 (Name := Name) (U := U) (Lvl := Lvl) V R c).owesAt ι t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 𝒱₀ c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 4, at every grid point. -/
theorem body_obligation4 (𝒱₀ : Variants) (ι : Ix) (c : Dev nD) :
    BodyObligation (dat4 (Name := Name) (U := U) (Lvl := Lvl) V R c) (defs₀ (F := F)) 𝒱₀ ι Set.univ := fun t => by
  rw [bigSep_W4, bigSep_W4]
  exact sound_body4 V R 𝒱₀ ι c t

end Data4

end Cert.Kernel.Tc

end
-- ==== Proof.KTcBody5.lean ====
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 5: the tile computation on one block of 896 rows -/

section Call5

variable (V : (c : Dev nD) → (b : Ref sig .tc) → Buf (Elt F) ((c : Thread nD τ).loc b))

/-- Window `w`'s block at grid point `t`, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 holds its block at every point, whether or not it was fetched there: an unfetched input's
    block index has not moved and the body leaves the block in place. -/
theorem before5_0_of {c : Dev nD} (dat : Dat τ (Elt F) Ix Name U Lvl cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 holds its block at every point, whether or not it was fetched there: an unfetched input's
    block index has not moved and the body leaves the block in place. -/
theorem before5_1_of {c : Dev nD} (dat : Dat τ (Elt F) Ix Name U Lvl cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 holds its block at every point, whether or not it was fetched there: an unfetched input's
    block index has not moved and the body leaves the block in place. -/
theorem before5_2_of {c : Dev nD} (dat : Dat τ (Elt F) Ix Name U Lvl cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 holds its block at every point, whether or not it was fetched there: an unfetched input's
    block index has not moved and the body leaves the block in place. -/
theorem before5_3_of {c : Dev nD} (dat : Dat τ (Elt F) Ix Name U Lvl cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 holds its block at every point, whether or not it was fetched there: an unfetched input's
    block index has not moved and the body leaves the block in place. -/
theorem before5_4_of {c : Dev nD} (dat : Dat τ (Elt F) Ix Name U Lvl cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole 896x512 block, the whole 512x512 weight and the whole 1x512 row, as rectangles. -/
abbrev r5_a : Rect S896x512 := Rect.unit (s := S896x512) ![0, 0] S896x512.size inb_S896x512_S896x512_0_0
abbrev r5_w : Rect S512x512 := Rect.unit (s := S512x512) ![0, 0] S512x512.size inb_S512x512_S512x512_0_0
abbrev r5_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out5_5 (x0 : Vec F S896x512 .f32) (x1 : Vec F S512x512 .f32) (x2 x3 x4 : Vec F S1x512 .f32) : Vec F S896x512 .f32 :=
  View.canon [⟨r5_a, k5_pay1 (View.ld x0 r5_a) (View.ld x1 r5_w) (View.ld x2 r5_v) (View.ld x3 r5_v) (View.ld x4 r5_v)⟩]

/-- The one store covers the whole block. -/
theorem cover5_5 (p0 : Vec F S896x512 .f32) (y : S896x512.Idx) :
    ∃ pc ∈ ([⟨r5_a, p0⟩] : List (View.Piece (Elt F) S896x512 .f32)), y ∈ pc.1.set :=
  View.cover_of_tiled [⟨r5_a, p0⟩] S896x512.size (by rfl) y

set_option maxHeartbeats 4000000 in
/-- The body on whole buffers: from the five inputs at `x0 … x4` and the output buffer at anything, it terminates
    with the inputs unchanged and the output at `out5_5 x0 … x4`. -/
theorem sound_kernel5 (𝒱₀ : Variants) (c : Dev nD) (E : Set Name) (i : grid5.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) 𝒱₀ c none) E (cc5_body i arg1 harg1 arg2 harg2 arg3 harg3 arg4 harg4 arg5 harg5 argx hargx arg6 harg6) K := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

end Call5

section Data5

variable (V : (c : Dev nD) → (b : Ref sig .tc) → Buf (Elt F) ((c : Thread nD τ).loc b))
variable (R : Set (SemLoc sig × Ix))

/-- The proof data of call 5 on core `c`: the arrays as the region finds them; after the body at point `t` each
    input's buffer still at its block and the output's at `out5_5` of the five input blocks; between points only
    the core's other scoped buffers, untouched; nothing owed, the pairs the core's waits have recorded so far within
    `R`; every array held whole. -/
def dat5 (c : Dev nD) : Dat τ (Elt F) Ix Name U Lvl cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.scopedRest (Ix := Ix) (Name := Name) (U := U) (Lvl := Lvl) (Val := Elt F) spec5 c
  q _ := fullShare
  owed _ := 0
  recorded _ := R

theorem A_eq5 (c : Dev nD) (w : Fin cfg5.W) : (dat5 (Name := Name) (U := U) (Lvl := Lvl) V R c).A w = V c (Pipeline.arrRef spec5 w) := by
  dsimp only [dat5]

theorem after5_0 (c : Dev nD) (t : Fin cfg5.N) : (dat5 (Name := Name) (U := U) (Lvl := Lvl) V R c).after 0 t = iblk5 V c 0 t := by dsimp only [dat5]
theorem after5_1 (c : Dev nD) (t : Fin cfg5.N) : (dat5 (Name := Name) (U := U) (Lvl := Lvl) V R c).after 1 t = iblk5 V c 1 t := by dsimp only [dat5]
theorem after5_2 (c : Dev nD) (t : Fin cfg5.N) : (dat5 (Name := Name) (U := U) (Lvl := Lvl) V R c).after 2 t = iblk5 V c 2 t := by dsimp only [dat5]
theorem after5_3 (c : Dev nD) (t : Fin cfg5.N) : (dat5 (Name := Name) (U := U) (Lvl := Lvl) V R c).after 3 t = iblk5 V c 3 t := by dsimp only [dat5]
theorem after5_4 (c : Dev nD) (t : Fin cfg5.N) : (dat5 (Name := Name) (U := U) (Lvl := Lvl) V R c).after 4 t = iblk5 V c 4 t := by dsimp only [dat5]
theorem after5_5 (c : Dev nD) (t : Fin cfg5.N) : (dat5 (Name := Name) (U := U) (Lvl := Lvl) V R c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 (Name := Name) (U := U) (Lvl := Lvl) V R c).before 0 t d = iblk5 V c 0 t :=
  before5_0_of V (dat5 (Name := Name) (U := U) (Lvl := Lvl) V R c) (A_eq5 V R c 0) (after5_0 V R c) t d
theorem before5_1 (c : Dev nD) (t : Fin cfg5.N) (d) : (dat5 (Name := Name) (U := U) (Lvl := Lvl) V R c).before 1 t d = iblk5 V c 1 t :=
  before5_1_of V (dat5 (Name := Name) (U := U) (Lvl := Lvl) V R c) (A_eq5 V R c 1) (after5_1 V R c) t d
theorem before5_2 (c : Dev nD) (t : Fin cfg5.N) (d) : (dat5 (Name := Name) (U := U) (Lvl := Lvl) V R c).before 2 t d = iblk5 V c 2 t :=
  before5_2_of V (dat5 (Name := Name) (U := U) (Lvl := Lvl) V R c) (A_eq5 V R c 2) (after5_2 V R c) t d
theorem before5_3 (c : Dev nD) (t : Fin cfg5.N) (d) : (dat5 (Name := Name) (U := U) (Lvl := Lvl) V R c).before 3 t d = iblk5 V c 3 t :=
  before5_3_of V (dat5 (Name := Name) (U := U) (Lvl := Lvl) V R c) (A_eq5 V R c 3) (after5_3 V R c) t d
theorem before5_4 (c : Dev nD) (t : Fin cfg5.N) (d) : (dat5 (Name := Name) (U := U) (Lvl := Lvl) V R c).before 4 t d = iblk5 V c 4 t :=
  before5_4_of V (dat5 (Name := Name) (U := U) (Lvl := Lvl) V R c) (A_eq5 V R c 4) (after5_4 V R c) t d

/-- The arrays after the write-backs do not depend on the bound on the recorded pairs. -/
theorem arrAt5_indep (R' : Set (SemLoc sig × Ix)) (c : Dev nD) (w : Fin cfg5.W) :
    ∀ n, (dat5 (Name := Name) (U := U) (Lvl := Lvl) V R c).arrAt w n = (dat5 (Name := Name) (U := U) (Lvl := Lvl) V R' c).arrAt w n
  | 0 => rfl
  | n + 1 => funext fun i => by
    rw [Dat.arrAt_succ_apply, Dat.arrAt_succ_apply, arrAt5_indep R' c w n]
    rfl

/-- What the body is called with at point `t`: the invariant, what the core owes, and each window's current buffer. -/
def bodyPre5 (ι : Ix) (c : Dev nD) (t : Fin cfg5.N) : sProp 𝕄 :=
  iprop((dat5 (Name := Name) (U := U) (Lvl := Lvl) V R c).Φ t.castSucc ∗ (dat5 (Name := Name) (U := U) (Lvl := Lvl) V R c).owesAt ι t.castSucc
    ∗ (∃ d, owns (c : Thread nD τ) (st5_0 t) fullShare ((dat5 (Name := Name) (U := U) (Lvl := Lvl) V R c).before 0 t d))
    ∗ (∃ d, owns (c : Thread nD τ) (st5_1 t) fullShare ((dat5 (Name := Name) (U := U) (Lvl := Lvl) V R c).before 1 t d))
    ∗ (∃ d, owns (c : Thread nD τ) (st5_2 t) fullShare ((dat5 (Name := Name) (U := U) (Lvl := Lvl) V R c).before 2 t d))
    ∗ (∃ d, owns (c : Thread nD τ) (st5_3 t) fullShare ((dat5 (Name := Name) (U := U) (Lvl := Lvl) V R c).before 3 t d))
    ∗ (∃ d, owns (c : Thread nD τ) (st5_4 t) fullShare ((dat5 (Name := Name) (U := U) (Lvl := Lvl) V R c).before 4 t d))
    ∗ (∃ d, owns (c : Thread nD τ) (st5_5 t) fullShare ((dat5 (Name := Name) (U := U) (Lvl := Lvl) V R c).before 5 t d)))

/-- and what it returns. -/
def bodyPost5 (ι : Ix) (c : Dev nD) (t : Fin cfg5.N) : sProp 𝕄 :=
  iprop((dat5 (Name := Name) (U := U) (Lvl := Lvl) V R c).Φ t.succ ∗ (dat5 (Name := Name) (U := U) (Lvl := Lvl) V R c).owesAt ι t.succ
    ∗ owns (c : Thread nD τ) (st5_0 t) fullShare ((dat5 (Name := Name) (U := U) (Lvl := Lvl) V R c).after 0 t)
    ∗ owns (c : Thread nD τ) (st5_1 t) fullShare ((dat5 (Name := Name) (U := U) (Lvl := Lvl) V R c).after 1 t)
    ∗ owns (c : Thread nD τ) (st5_2 t) fullShare ((dat5 (Name := Name) (U := U) (Lvl := Lvl) V R c).after 2 t)
    ∗ owns (c : Thread nD τ) (st5_3 t) fullShare ((dat5 (Name := Name) (U := U) (Lvl := Lvl) V R c).after 3 t)
    ∗ owns (c : Thread nD τ) (st5_4 t) fullShare ((dat5 (Name := Name) (U := U) (Lvl := Lvl) V R c).after 4 t)
    ∗ owns (c : Thread nD τ) (st5_5 t) fullShare ((dat5 (Name := Name) (U := U) (Lvl := Lvl) V R c).after 5 t))

/-- The body at any grid point: the inputs' buffers hold their blocks, so the body's triple applies; the invariant and
    what the core owes pass through unread. -/
theorem sound_body5 (𝒱₀ : Variants) (ι : Ix) (c : Dev nD) (t : Fin cfg5.N) :
    bodyPre5 (Name := Name) (U := U) (Lvl := Lvl) V R ι c t
      ⊢ wp frame (wpE (defs₀ (F := F)) 𝒱₀ c none) Set.univ (bodyAt5 t) (fun _ => bodyPost5 (Name := Name) (U := U) (Lvl := Lvl) V R ι c t) := by
  unfold bodyPre5 bodyPost5 bodyAt5
  simp only [before5_0, before5_1, before5_2, before5_3, before5_4]
  rw [show (dat5 (Name := Name) (U := U) (Lvl := Lvl) V R c).Φ t.succ = (dat5 (Name := Name) (U := U) (Lvl := Lvl) V R c).Φ t.castSucc from rfl,
    show (dat5 (Name := Name) (U := U) (Lvl := Lvl) V R c).owesAt ι t.succ = (dat5 (Name := Name) (U := U) (Lvl := Lvl) V R c).owesAt ι t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 𝒱₀ c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 5, at every grid point. -/
theorem body_obligation5 (𝒱₀ : Variants) (ι : Ix) (c : Dev nD) :
    BodyObligation (dat5 (Name := Name) (U := U) (Lvl := Lvl) V R c) (defs₀ (F := F)) 𝒱₀ ι Set.univ := fun t => by
  rw [bigSep_W5, bigSep_W5]
  exact sound_body5 V R 𝒱₀ ι c t

end Data5

end Cert.Kernel.Tc

end
-- ==== Proof.KTcBody6.lean ====
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 6: the tile computation on one block of 896 rows -/

section Call6

variable (V : (c : Dev nD) → (b : Ref sig .tc) → Buf (Elt F) ((c : Thread nD τ).loc b))

/-- Window `w`'s block at grid point `t`, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 holds its block at every point, whether or not it was fetched there: an unfetched input's
    block index has not moved and the body leaves the block in place. -/
theorem before6_0_of {c : Dev nD} (dat : Dat τ (Elt F) Ix Name U Lvl cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 holds its block at every point, whether or not it was fetched there: an unfetched input's
    block index has not moved and the body leaves the block in place. -/
theorem before6_1_of {c : Dev nD} (dat : Dat τ (Elt F) Ix Name U Lvl cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2 holds its block at every point, whether or not it was fetched there: an unfetched input's
    block index has not moved and the body leaves the block in place. -/
theorem before6_2_of {c : Dev nD} (dat : Dat τ (Elt F) Ix Name U Lvl cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3 holds its block at every point, whether or not it was fetched there: an unfetched input's
    block index has not moved and the body leaves the block in place. -/
theorem before6_3_of {c : Dev nD} (dat : Dat τ (Elt F) Ix Name U Lvl cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4 holds its block at every point, whether or not it was fetched there: an unfetched input's
    block index has not moved and the body leaves the block in place. -/
theorem before6_4_of {c : Dev nD} (dat : Dat τ (Elt F) Ix Name U Lvl cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The whole 896x512 block, the whole 512x512 weight and the whole 1x512 row, as rectangles. -/
abbrev r6_a : Rect S896x512 := Rect.unit (s := S896x512) ![0, 0] S896x512.size inb_S896x512_S896x512_0_0
abbrev r6_w : Rect S512x512 := Rect.unit (s := S512x512) ![0, 0] S512x512.size inb_S512x512_S512x512_0_0
abbrev r6_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out6_5 (x0 : Vec F S896x512 .f32) (x1 : Vec F S512x512 .f32) (x2 x3 x4 : Vec F S1x512 .f32) : Vec F S896x512 .f32 :=
  View.canon [⟨r6_a, k6_pay1 (View.ld x0 r6_a) (View.ld x1 r6_w) (View.ld x2 r6_v) (View.ld x3 r6_v) (View.ld x4 r6_v)⟩]

/-- The one store covers the whole block. -/
theorem cover6_5 (p0 : Vec F S896x512 .f32) (y : S896x512.Idx) :
    ∃ pc ∈ ([⟨r6_a, p0⟩] : List (View.Piece (Elt F) S896x512 .f32)), y ∈ pc.1.set :=
  View.cover_of_tiled [⟨r6_a, p0⟩] S896x512.size (by rfl) y

set_option maxHeartbeats 4000000 in
/-- The body on whole buffers: from the five inputs at `x0 … x4` and the output buffer at anything, it terminates
    with the inputs unchanged and the output at `out6_5 x0 … x4`. -/
theorem sound_kernel6 (𝒱₀ : Variants) (c : Dev nD) (E : Set Name) (i : grid6.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) 𝒱₀ c none) E (cc6_body i arg1 harg1 arg2 harg2 arg3 harg3 arg4 harg4 arg5 harg5 argx hargx arg6 harg6) K := by
  simp only [cc6_body_eq_skeleton]; unfold cc6_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

end Call6

section Data6

variable (V : (c : Dev nD) → (b : Ref sig .tc) → Buf (Elt F) ((c : Thread nD τ).loc b))
variable (R : Set (SemLoc sig × Ix))

/-- The proof data of call 6 on core `c`: the arrays as the region finds them; after the body at point `t` each
    input's buffer still at its block and the output's at `out6_5` of the five input blocks; between points only
    the core's other scoped buffers, untouched; nothing owed, the pairs the core's waits have recorded so far within
    `R`; every array held whole. -/
def dat6 (c : Dev nD) : Dat τ (Elt F) Ix Name U Lvl cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.scopedRest (Ix := Ix) (Name := Name) (U := U) (Lvl := Lvl) (Val := Elt F) spec6 c
  q _ := fullShare
  owed _ := 0
  recorded _ := R

theorem A_eq6 (c : Dev nD) (w : Fin cfg6.W) : (dat6 (Name := Name) (U := U) (Lvl := Lvl) V R c).A w = V c (Pipeline.arrRef spec6 w) := by
  dsimp only [dat6]

theorem after6_0 (c : Dev nD) (t : Fin cfg6.N) : (dat6 (Name := Name) (U := U) (Lvl := Lvl) V R c).after 0 t = iblk6 V c 0 t := by dsimp only [dat6]
theorem after6_1 (c : Dev nD) (t : Fin cfg6.N) : (dat6 (Name := Name) (U := U) (Lvl := Lvl) V R c).after 1 t = iblk6 V c 1 t := by dsimp only [dat6]
theorem after6_2 (c : Dev nD) (t : Fin cfg6.N) : (dat6 (Name := Name) (U := U) (Lvl := Lvl) V R c).after 2 t = iblk6 V c 2 t := by dsimp only [dat6]
theorem after6_3 (c : Dev nD) (t : Fin cfg6.N) : (dat6 (Name := Name) (U := U) (Lvl := Lvl) V R c).after 3 t = iblk6 V c 3 t := by dsimp only [dat6]
theorem after6_4 (c : Dev nD) (t : Fin cfg6.N) : (dat6 (Name := Name) (U := U) (Lvl := Lvl) V R c).after 4 t = iblk6 V c 4 t := by dsimp only [dat6]
theorem after6_5 (c : Dev nD) (t : Fin cfg6.N) : (dat6 (Name := Name) (U := U) (Lvl := Lvl) V R c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 (Name := Name) (U := U) (Lvl := Lvl) V R c).before 0 t d = iblk6 V c 0 t :=
  before6_0_of V (dat6 (Name := Name) (U := U) (Lvl := Lvl) V R c) (A_eq6 V R c 0) (after6_0 V R c) t d
theorem before6_1 (c : Dev nD) (t : Fin cfg6.N) (d) : (dat6 (Name := Name) (U := U) (Lvl := Lvl) V R c).before 1 t d = iblk6 V c 1 t :=
  before6_1_of V (dat6 (Name := Name) (U := U) (Lvl := Lvl) V R c) (A_eq6 V R c 1) (after6_1 V R c) t d
theorem before6_2 (c : Dev nD) (t : Fin cfg6.N) (d) : (dat6 (Name := Name) (U := U) (Lvl := Lvl) V R c).before 2 t d = iblk6 V c 2 t :=
  before6_2_of V (dat6 (Name := Name) (U := U) (Lvl := Lvl) V R c) (A_eq6 V R c 2) (after6_2 V R c) t d
theorem before6_3 (c : Dev nD) (t : Fin cfg6.N) (d) : (dat6 (Name := Name) (U := U) (Lvl := Lvl) V R c).before 3 t d = iblk6 V c 3 t :=
  before6_3_of V (dat6 (Name := Name) (U := U) (Lvl := Lvl) V R c) (A_eq6 V R c 3) (after6_3 V R c) t d
theorem before6_4 (c : Dev nD) (t : Fin cfg6.N) (d) : (dat6 (Name := Name) (U := U) (Lvl := Lvl) V R c).before 4 t d = iblk6 V c 4 t :=
  before6_4_of V (dat6 (Name := Name) (U := U) (Lvl := Lvl) V R c) (A_eq6 V R c 4) (after6_4 V R c) t d

/-- The arrays after the write-backs do not depend on the bound on the recorded pairs. -/
theorem arrAt6_indep (R' : Set (SemLoc sig × Ix)) (c : Dev nD) (w : Fin cfg6.W) :
    ∀ n, (dat6 (Name := Name) (U := U) (Lvl := Lvl) V R c).arrAt w n = (dat6 (Name := Name) (U := U) (Lvl := Lvl) V R' c).arrAt w n
  | 0 => rfl
  | n + 1 => funext fun i => by
    rw [Dat.arrAt_succ_apply, Dat.arrAt_succ_apply, arrAt6_indep R' c w n]
    rfl

/-- What the body is called with at point `t`: the invariant, what the core owes, and each window's current buffer. -/
def bodyPre6 (ι : Ix) (c : Dev nD) (t : Fin cfg6.N) : sProp 𝕄 :=
  iprop((dat6 (Name := Name) (U := U) (Lvl := Lvl) V R c).Φ t.castSucc ∗ (dat6 (Name := Name) (U := U) (Lvl := Lvl) V R c).owesAt ι t.castSucc
    ∗ (∃ d, owns (c : Thread nD τ) (st6_0 t) fullShare ((dat6 (Name := Name) (U := U) (Lvl := Lvl) V R c).before 0 t d))
    ∗ (∃ d, owns (c : Thread nD τ) (st6_1 t) fullShare ((dat6 (Name := Name) (U := U) (Lvl := Lvl) V R c).before 1 t d))
    ∗ (∃ d, owns (c : Thread nD τ) (st6_2 t) fullShare ((dat6 (Name := Name) (U := U) (Lvl := Lvl) V R c).before 2 t d))
    ∗ (∃ d, owns (c : Thread nD τ) (st6_3 t) fullShare ((dat6 (Name := Name) (U := U) (Lvl := Lvl) V R c).before 3 t d))
    ∗ (∃ d, owns (c : Thread nD τ) (st6_4 t) fullShare ((dat6 (Name := Name) (U := U) (Lvl := Lvl) V R c).before 4 t d))
    ∗ (∃ d, owns (c : Thread nD τ) (st6_5 t) fullShare ((dat6 (Name := Name) (U := U) (Lvl := Lvl) V R c).before 5 t d)))

/-- and what it returns. -/
def bodyPost6 (ι : Ix) (c : Dev nD) (t : Fin cfg6.N) : sProp 𝕄 :=
  iprop((dat6 (Name := Name) (U := U) (Lvl := Lvl) V R c).Φ t.succ ∗ (dat6 (Name := Name) (U := U) (Lvl := Lvl) V R c).owesAt ι t.succ
    ∗ owns (c : Thread nD τ) (st6_0 t) fullShare ((dat6 (Name := Name) (U := U) (Lvl := Lvl) V R c).after 0 t)
    ∗ owns (c : Thread nD τ) (st6_1 t) fullShare ((dat6 (Name := Name) (U := U) (Lvl := Lvl) V R c).after 1 t)
    ∗ owns (c : Thread nD τ) (st6_2 t) fullShare ((dat6 (Name := Name) (U := U) (Lvl := Lvl) V R c).after 2 t)
    ∗ owns (c : Thread nD τ) (st6_3 t) fullShare ((dat6 (Name := Name) (U := U) (Lvl := Lvl) V R c).after 3 t)
    ∗ owns (c : Thread nD τ) (st6_4 t) fullShare ((dat6 (Name := Name) (U := U) (Lvl := Lvl) V R c).after 4 t)
    ∗ owns (c : Thread nD τ) (st6_5 t) fullShare ((dat6 (Name := Name) (U := U) (Lvl := Lvl) V R c).after 5 t))

/-- The body at any grid point: the inputs' buffers hold their blocks, so the body's triple applies; the invariant and
    what the core owes pass through unread. -/
theorem sound_body6 (𝒱₀ : Variants) (ι : Ix) (c : Dev nD) (t : Fin cfg6.N) :
    bodyPre6 (Name := Name) (U := U) (Lvl := Lvl) V R ι c t
      ⊢ wp frame (wpE (defs₀ (F := F)) 𝒱₀ c none) Set.univ (bodyAt6 t) (fun _ => bodyPost6 (Name := Name) (U := U) (Lvl := Lvl) V R ι c t) := by
  unfold bodyPre6 bodyPost6 bodyAt6
  simp only [before6_0, before6_1, before6_2, before6_3, before6_4]
  rw [show (dat6 (Name := Name) (U := U) (Lvl := Lvl) V R c).Φ t.succ = (dat6 (Name := Name) (U := U) (Lvl := Lvl) V R c).Φ t.castSucc from rfl,
    show (dat6 (Name := Name) (U := U) (Lvl := Lvl) V R c).owesAt ι t.succ = (dat6 (Name := Name) (U := U) (Lvl := Lvl) V R c).owesAt ι t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 𝒱₀ c Set.univ _ _ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 6, at every grid point. -/
theorem body_obligation6 (𝒱₀ : Variants) (ι : Ix) (c : Dev nD) :
    BodyObligation (dat6 (Name := Name) (U := U) (Lvl := Lvl) V R c) (defs₀ (F := F)) 𝒱₀ ι Set.univ := fun t => by
  rw [bigSep_W6, bigSep_W6]
  exact sound_body6 V R 𝒱₀ ι c t

end Data6

end Cert.Kernel.Tc

end
-- ==== Proof.KTcBody7.lean ====
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # Call 7: the tile computation on one block of 896 rows -/

section Call7

variable (V : (c : Dev nD) → (b : Ref sig .tc) → Buf (Elt F) ((c : Thread nD τ).loc b))

/-- Window `w`'s block at grid point `t`, read off the array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 holds its block at every point, whether or not it was fetched there: an unfetched input's
    block index has not moved and the body leaves the block in place. -/
theorem before7_0_of {c : Dev nD} (dat : Dat τ (Elt F) Ix Name U Lvl cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 holds its block at every point, whether or not it was fetched there: an unfetched input's
    block index has not moved and the body leaves the block in place. -/
theorem before7_1_of {c : Dev nD} (dat : Dat τ (Elt F) Ix Name U Lvl cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2 holds its block at every point, whether or not it was fetched there: an unfetched input's
    block index has not moved and the body leaves the block in place. -/
theorem before7_2_of {c : Dev nD} (dat : Dat τ (Elt F) Ix Name U Lvl cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3 holds its block at every point, whether or not it was fetched there: an unfetched input's
    block index has not moved and the body leaves the block in place. -/
theorem before7_3_of {c : Dev nD} (dat : Dat τ (Elt F) Ix Name U Lvl cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4 holds its block at every point, whether or not it was fetched there: an unfetched input's
    block index has not moved and the body leaves the block in place. -/
theorem before7_4_of {c : Dev nD} (dat : Dat τ (Elt F) Ix Name U Lvl cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole 896x512 block, the whole 512x512 weight and the whole 1x512 row, as rectangles. -/
abbrev r7_a : Rect S896x512 := Rect.unit (s := S896x512) ![0, 0] S896x512.size inb_S896x512_S896x512_0_0
abbrev r7_w : Rect S512x512 := Rect.unit (s := S512x512) ![0, 0] S512x512.size inb_S512x512_S512x512_0_0
abbrev r7_v : Rect S1x512 := Rect.unit (s := S1x512) ![0, 0] S1x512.size inb_S1x512_S1x512_0_0

/-- What the body leaves in the output block: the normalised, scaled and shifted rows
    `layer_norm (relu (x · Wᵀ + b)) * γ + β` of the gathered block `x0`, as one pure term of the five inputs. -/
def out7_5 (x0 : Vec F S896x512 .f32) (x1 : Vec F S512x512 .f32) (x2 x3 x4 : Vec F S1x512 .f32) : Vec F S896x512 .f32 :=
  View.canon [⟨r7_a, k7_pay1 (View.ld x0 r7_a) (View.ld x1 r7_w) (View.ld x2 r7_v) (View.ld x3 r7_v) (View.ld x4 r7_v)⟩]

/-- The one store covers the whole block. -/
theorem cover7_5 (p0 : Vec F S896x512 .f32) (y : S896x512.Idx) :
    ∃ pc ∈ ([⟨r7_a, p0⟩] : List (View.Piece (Elt F) S896x512 .f32)), y ∈ pc.1.set :=
  View.cover_of_tiled [⟨r7_a, p0⟩] S896x512.size (by rfl) y

set_option maxHeartbeats 4000000 in
/-- The body on whole buffers: from the five inputs at `x0 … x4` and the output buffer at anything, it terminates
    with the inputs unchanged and the output at `out7_5 x0 … x4`. -/
theorem sound_kernel7 (𝒱₀ : Variants) (c : Dev nD) (E : Set Name) (i : grid7.Coords)
    (arg1 : Memref sig .tc .vmem S896x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (argx : Memref sig .tc .hbm S100000x512 .f32) (hargx : argx.IsWhole) (arg6 : Memref sig .tc .vmem S896x512 .f32) (harg6 : arg6.IsWhole)
    (x0 : Vec F S896x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) 𝒱₀ c none) E (cc7_body i arg1 harg1 arg2 harg2 arg3 harg3 arg4 harg4 arg5 harg5 argx hargx arg6 harg6) K := by
  simp only [cc7_body_eq_skeleton]; unfold cc7_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

end Call7

section Data7

variable (V : (c : Dev nD) → (b : Ref sig .tc) → Buf (Elt F) ((c : Thread nD τ).loc b))
variable (R : Set (SemLoc sig × Ix))

/-- The proof data of call 7 on core `c`: the arrays as the region finds them; after the body at point `t` each
    input's buffer still at its block and the output's at `out7_5` of the five input blocks; between points only
    the core's other scoped buffers, untouched; nothing owed, the pairs the core's waits have recorded so far within
    `R`; every array held whole. -/
def dat7 (c : Dev nD) : Dat τ (Elt F) Ix Name U Lvl cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.scopedRest (Ix := Ix) (Name := Name) (U := U) (Lvl := Lvl) (Val := Elt F) spec7 c
  q _ := fullShare
  owed _ := 0
  recorded _ := R

theorem A_eq7 (c : Dev nD) (w : Fin cfg7.W) : (dat7 (Name := Name) (U := U) (Lvl := Lvl) V R c).A w = V c (Pipeline.arrRef spec7 w) := by
  dsimp only [dat7]

theorem after7_0 (c : Dev nD) (t : Fin cfg7.N) : (dat7 (Name := Name) (U := U) (Lvl := Lvl) V R c).after 0 t = iblk7 V c 0 t := by dsimp only [dat7]
theorem after7_1 (c : Dev nD) (t : Fin cfg7.N) : (dat7 (Name := Name) (U := U) (Lvl := Lvl) V R c).after 1 t = iblk7 V c 1 t := by dsimp only [dat7]
theorem after7_2 (c : Dev nD) (t : Fin cfg7.N) : (dat7 (Name := Name) (U := U) (Lvl := Lvl) V R c).after 2 t = iblk7 V c 2 t := by dsimp only [dat7]
theorem after7_3 (c : Dev nD) (t : Fin cfg7.N) : (dat7 (Name := Name) (U := U) (Lvl := Lvl) V R c).after 3 t = iblk7 V c 3 t := by dsimp only [dat7]
theorem after7_4 (c : Dev nD) (t : Fin cfg7.N) : (dat7 (Name := Name) (U := U) (Lvl := Lvl) V R c).after 4 t = iblk7 V c 4 t := by dsimp only [dat7]
theorem after7_5 (c : Dev nD) (t : Fin cfg7.N) : (dat7 (Name := Name) (U := U) (Lvl := Lvl) V R c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 (Name := Name) (U := U) (Lvl := Lvl) V R c).before 0 t d = iblk7 V c 0 t :=
  before7_0_of V (dat7 (Name := Name) (U := U) (Lvl := Lvl) V R c) (A_eq7 V R c 0) (after7_0 V R c) t d
theorem before7_1 (c : Dev nD) (t : Fin cfg7.N) (d) : (dat7 (Name := Name) (U := U) (Lvl := Lvl) V R c).before 1 t d = iblk7 V c 1 t :=
  before7_1_of V (dat7 (Name := Name) (U := U) (Lvl := Lvl) V R c) (A_eq7 V R c 1) (after7_1 V R c) t d
theorem before7_2 (c : Dev nD) (t : Fin cfg7.N) (d) : (dat7 (Name := Name) (U := U) (Lvl := Lvl) V R c).before 2 t d = iblk7 V c 2 t :=
  before7_2_of V (dat7 (Name := Name) (U := U) (Lvl := Lvl) V R c) (A_eq7 V R c 2) (after7_2 V R c) t d
theorem before7_3 (c : Dev nD) (t : Fin cfg7.N) (d) : (dat7 (Name := Name) (U := U) (Lvl := Lvl) V R c).before 3 t d = iblk7 V c 3 t :=
  before7_3_of V (dat7 (Name := Name) (U := U) (Lvl := Lvl) V R c) (A_eq7 V R c 3) (after7_3 V R c) t d
theorem before7_4 (c : Dev nD) (t : Fin cfg7.N) (d) : (dat7 (Name := Name) (U := U) (Lvl := Lvl) V R c).before 4 t d = iblk7 V c 4 t :=
  before7_4_of V (dat7 (Name := Name) (U := U) (Lvl := Lvl) V R c) (A_eq7 V R c 4) (after7_4 V R c) t d

/-- The arrays after the write-backs do not depend on the bound on the recorded pairs. -/
theorem arrAt7_indep (R' : Set (SemLoc sig × Ix)) (c : Dev nD) (w : Fin cfg7.W) :
    ∀ n, (dat7 (Name := Name) (U := U) (Lvl := Lvl) V R c).arrAt w n = (dat7 (Name := Name) (U := U) (Lvl := Lvl) V R' c).arrAt w n
  | 0 => rfl
  | n + 1 => funext fun i => by
    rw [Dat.arrAt_succ_apply, Dat.arrAt_succ_apply, arrAt7_indep R' c w n]
    rfl

/-- What the body is called with at point `t`: the invariant, what the core owes, and each window's current buffer. -/
def bodyPre7 (ι : Ix) (c : Dev nD) (t : Fin cfg7.N) : sProp 𝕄 :=
  iprop((dat7 (Name := Name) (U := U) (Lvl := Lvl) V R c).Φ t.castSucc ∗ (dat7 (Name := Name) (U := U) (Lvl := Lvl) V R c).owesAt ι t.castSucc
    ∗ (∃ d, owns (c : Thread nD τ) (st7_0 t) fullShare ((dat7 (Name := Name) (U := U) (Lvl := Lvl) V R c).before 0 t d))
    ∗ (∃ d, owns (c : Thread nD τ) (st7_1 t) fullShare ((dat7 (Name := Name) (U := U) (Lvl := Lvl) V R c).before 1 t d))
    ∗ (∃ d, owns (c : Thread nD τ) (st7_2 t) fullShare ((dat7 (Name := Name) (U := U) (Lvl := Lvl) V R c).before 2 t d))
    ∗ (∃ d, owns (c : Thread nD τ) (st7_3 t) fullShare ((dat7 (Name := Name) (U := U) (Lvl := Lvl) V R c).before 3 t d))
    ∗ (∃ d, owns (c : Thread nD τ) (st7_4 t) fullShare ((dat7 (Name := Name) (U := U) (Lvl := Lvl) V R c).before 4 t d))
    ∗ (∃ d, owns (c : Thread nD τ) (st7_5 t) fullShare ((dat7 (Name := Name) (U := U) (Lvl := Lvl) V R c).before 5 t d)))

/-- and what it returns. -/
def bodyPost7 (ι : Ix) (c : Dev nD) (t : Fin cfg7.N) : sProp 𝕄 :=
  iprop((dat7 (Name := Name) (U := U) (Lvl := Lvl) V R c).Φ t.succ ∗ (dat7 (Name := Name) (U := U) (Lvl := Lvl) V R c).owesAt ι t.succ
    ∗ owns (c : Thread nD τ) (st7_0 t) fullShare ((dat7 (Name := Name) (U := U) (Lvl := Lvl) V R c).after 0 t)
    ∗ owns (c : Thread nD τ) (st7_1 t) fullShare ((dat7 (Name := Name) (U := U) (Lvl := Lvl) V R c).after 1 t)
    ∗ owns (c : Thread nD τ) (st7_2 t) fullShare ((dat7 (Name := Name) (U := U) (Lvl := Lvl) V R c).after 2 t)
    ∗ owns (c : Thread nD τ) (st7_3 t) fullShare ((dat7 (Name := Name) (U := U) (Lvl := Lvl) V R c).after 3 t)
    ∗ owns (c : Thread nD τ) (st7_4 t) fullShare ((dat7 (Name := Name) (U := U) (Lvl := Lvl) V R c).after 4 t)
    ∗ owns (c : Thread nD τ) (st7_5 t) fullShare ((dat7 (Name := Name) (U := U) (Lvl := Lvl) V R c).after 5 t))

/-- The body at any grid point: the inputs' buffers hold their blocks, so the body's triple applies; the invariant and
    what the core owes pass through unread. -/
theorem sound_body7 (𝒱₀ : Variants) (ι : Ix) (c : Dev nD) (t : Fin cfg7.N) :
    bodyPre7 (Name := Name) (U := U) (Lvl := Lvl) V R ι c t
      ⊢ wp frame (wpE (defs₀ (F := F)) 𝒱₀ c none) Set.univ (bodyAt7 t) (fun _ => bodyPost7 (Name := Name) (U := U) (Lvl := Lvl) V R ι c t) := by
  unfold bodyPre7 bodyPost7 bodyAt7
  simp only [before7_0, before7_1, before7_2, before7_3, before7_4]
  rw [show (dat7 (Name := Name) (U := U) (Lvl := Lvl) V R c).Φ t.succ = (dat7 (Name := Name) (U := U) (Lvl := Lvl) V R c).Φ t.castSucc from rfl,
    show (dat7 (Name := Name) (U := U) (Lvl := Lvl) V R c).owesAt ι t.succ = (dat7 (Name := Name) (U := U) (Lvl := Lvl) V R c).owesAt ι t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 𝒱₀ c Set.univ _ _ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of call 7, at every grid point. -/
theorem body_obligation7 (𝒱₀ : Variants) (ι : Ix) (c : Dev nD) :
    BodyObligation (dat7 (Name := Name) (U := U) (Lvl := Lvl) V R c) (defs₀ (F := F)) 𝒱₀ ι Set.univ := fun t => by
  rw [bigSep_W7, bigSep_W7]
  exact sound_body7 V R 𝒱₀ ι c t

end Data7

end Cert.Kernel.Tc

end
-- ==== Proof.KTcRegion.lean ====
import proofs.«215994_g5102421148354_cont_8to1c4_853_29_alg».proof.Proof.KTcBody
import proofs.«215994_g5102421148354_cont_8to1c4_853_29_alg».proof.Proof.KTcBody5
import proofs.«215994_g5102421148354_cont_8to1c4_853_29_alg».proof.Proof.KTcBody6
import proofs.«215994_g5102421148354_cont_8to1c4_853_29_alg».proof.Proof.KTcBody7
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Regions

variable (V : Fin 4 → (c : Dev nD) → (b : Ref sig .tc) → Buf (Elt F) ((c : Thread nD τ).loc b))
variable (R : Fin 4 → Set (SemLoc sig × Ix))

/-- No call has a prefetched table: the one admissible contents. -/
abbrev adm : (p : Fin 4) → (pcfgs (F := F) p).Adm := fun p => (cfgs p).toPCfg_adm

/-- The proof data of the four calls, call `4 + p` at the buffer contents `V p` its region is entered with and the
    bound `R p` on the pairs the core's waits have recorded by then. -/
def pdats : (p : Fin 4) → (c : Dev nD) → Dat τ (Elt F) Ix Name U Lvl (Pipeline.pin (pcfgs (F := F)) adm p) c
  | ⟨0, _⟩ => fun c => dat4 (V 0) (R 0) c
  | ⟨1, _⟩ => fun c => dat5 (V 1) (R 1) c
  | ⟨2, _⟩ => fun c => dat6 (V 2) (R 2) c
  | ⟨3, _⟩ => fun c => dat7 (V 3) (R 3) c

/-! ## Call 4 as a region of @main -/

/-- The six arrays of call 4 (the gathered slab, the weight, the bias, the scale, the shift, the result), each whole,
    at contents `G w`. -/
def arrs4 (c : Dev nD) (G : (w : Fin 6) → Buf (Elt F) ((c : Thread nD τ).loc (Pipeline.arrRef spec4 w))) : sProp 𝕄 :=
  bigSep Finset.univ fun w : Fin 6 => (((c : Thread nD τ).loc (Pipeline.arrRef spec4 w)) ↦{fullShare} G w : sProp 𝕄)

/-- The result array after call 4's 28 write-backs, and every input array as the region found it. -/
def fin4 (c : Dev nD) (w : Fin 6) : Buf (Elt F) ((c : Thread nD τ).loc (Pipeline.arrRef spec4 w)) :=
  (dat4 (Name := Name) (U := U) (Lvl := Lvl) (V 0) (Set.univ : Set (SemLoc sig × Ix)) c).arrAt w cfg4.N

set_option backward.isDefEq.respectTransparency.types false in
/-- Call 4 as a region: entered holding its six arrays whole at the contents `V 0 c` and owing nothing, the pairs its
    waits have recorded within `R 0`; left holding the arrays at `fin4` and owing nothing, the recorded pairs within
    `R 0` and the region's own staging cells at the index `ι`. Nothing else enters the region; the kernel has no
    semaphore of its own. -/
def reg4 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 0 where
  win := launch4.win.to₀
  block_pos := launch4.block_pos
  stage_whole := launch4.stage_whole
  K := PEmpty
  osem k := k.elim
  ho := Pipeline.OwnSemFacts.none _
  hbody c := (body_obligation4 (V 0) (R 0) 𝒱₀ ι c).loose
  hwaits := Pipeline.hwaits_of_owed_zero _ _ _ _ L lv 0 fun _ _ => rfl
  pre c := iprop(arrs4 (Name := Name) (U := U) (Lvl := Lvl) (Ix := Ix) c (fun w => V 0 c (Pipeline.arrRef spec4 w))
    ∗ ∃ W : Waits sig Ix, ⌜(↑W : Set (SemLoc sig × Ix)) ⊆ R 0⌝ ∗ owes (c : Thread nD τ) (0 : CellTallies nD τ sig Ix) W)
  post c := iprop(arrs4 (Name := Name) (U := U) (Lvl := Lvl) (Ix := Ix) c (fin4 (Ix := Ix) (Name := Name) (U := U) (Lvl := Lvl) V c)
    ∗ ∃ W : Waits sig Ix, ⌜(↑W : Set (SemLoc sig × Ix)) ⊆ R 0 ∪ cfg4.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 0 c launch4.arr_whole ((pdats (Name := Name) (U := U) (Lvl := Lvl) V R 0 c).share_full fun _ => rfl)]
    unfold arrs4
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 0 c).Φ 0 = Pipeline.scopedRest spec4 c from rfl]
    iintro ⟨-, -, Hr⟩
    iexact Hr
  hout c := by
    rw [Pipeline.ownSems0_none, show (pdats (Name := Name) (U := U) (Lvl := Lvl) V R 0 c).Φ (Fin.last _) = Pipeline.scopedRest spec4 c from rfl]
    iintro Hr
    isplitr; · iempintro
    isplitr; · iempintro
    iexact Hr
  hexit c := by
    have harrs : (pdats (Name := Name) (U := U) (Lvl := Lvl) V R 0 c).arrays ((pdats (Name := Name) (U := U) (Lvl := Lvl) V R 0 c).arrAt · (Pipeline.pin (pcfgs (F := F)) adm 0).N)
        = arrs4 (Name := Name) (U := U) (Lvl := Lvl) (Ix := Ix) c (fin4 (Ix := Ix) (Name := Name) (U := U) (Lvl := Lvl) V c) := by
      rw [Pipeline.arrays_eq (Pipeline.pin (pcfgs (F := F)) adm) (pdats (Name := Name) (U := U) (Lvl := Lvl) V R) 0 c launch4.arr_whole ((pdats (Name := Name) (U := U) (Lvl := Lvl) V R 0 c).share_full fun _ => rfl)]
      unfold arrs4 fin4
      exact bigSep_congr fun w _ => congrArg
        (fun x => (((c : Thread nD τ).loc (Pipeline.arrRef spec4 w)) ↦{fullShare} x : sProp 𝕄))
        (arrAt4_indep (Name := Name) (U := U) (Lvl := Lvl) (V 0) (R 0) (Set.univ : Set (SemLoc sig × Ix)) c w cfg4.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 4's region step on core `c`, for any continuation: from the region boundary, the six arrays at `V 0 c`,
    nothing owed, the level facts and the call's staging-cell ghost state, `customCall (entry 0)` runs to the boundary
    and the arrays at `fin4`. -/
theorem region4 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg4 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg4 (Name := Name) (U := U) V R ι 𝒱₀ L lv).pre c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) bd) Set.univ
          (.op (.customCall (Pipeline.entry 0) ()) k) Q :=
  Pipeline.RegionSeg.wp (pcfgs (F := F)) adm (pdats V R) ι cellOf_inj EP defs₀ 𝒱₀ L lv (reg4 V R ι 𝒱₀ L lv) c bd hv k Q

/-! ## Call 5 as a region of @main -/

/-- The six arrays of call 5 (the gathered slab, the weight, the bias, the scale, the shift, the result), each whole,
    at contents `G w`. -/
def arrs5 (c : Dev nD) (G : (w : Fin 6) → Buf (Elt F) ((c : Thread nD τ).loc (Pipeline.arrRef spec5 w))) : sProp 𝕄 :=
  bigSep Finset.univ fun w : Fin 6 => (((c : Thread nD τ).loc (Pipeline.arrRef spec5 w)) ↦{fullShare} G w : sProp 𝕄)

/-- The result array after call 5's 28 write-backs, and every input array as the region found it. -/
def fin5 (c : Dev nD) (w : Fin 6) : Buf (Elt F) ((c : Thread nD τ).loc (Pipeline.arrRef spec5 w)) :=
  (dat5 (Name := Name) (U := U) (Lvl := Lvl) (V 1) (Set.univ : Set (SemLoc sig × Ix)) c).arrAt w cfg5.N

set_option backward.isDefEq.respectTransparency.types false in
/-- Call 5 as a region: entered holding its six arrays whole at the contents `V 1 c` and owing nothing, the pairs its
    waits have recorded within `R 1`; left holding the arrays at `fin5` and owing nothing, the recorded pairs within
    `R 1` and the region's own staging cells at the index `ι`. Nothing else enters the region; the kernel has no
    semaphore of its own. -/
def reg5 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 1 where
  win := launch5.win.to₀
  block_pos := launch5.block_pos
  stage_whole := launch5.stage_whole
  K := PEmpty
  osem k := k.elim
  ho := Pipeline.OwnSemFacts.none _
  hbody c := (body_obligation5 (V 1) (R 1) 𝒱₀ ι c).loose
  hwaits := Pipeline.hwaits_of_owed_zero _ _ _ _ L lv 1 fun _ _ => rfl
  pre c := iprop(arrs5 (Name := Name) (U := U) (Lvl := Lvl) (Ix := Ix) c (fun w => V 1 c (Pipeline.arrRef spec5 w))
    ∗ ∃ W : Waits sig Ix, ⌜(↑W : Set (SemLoc sig × Ix)) ⊆ R 1⌝ ∗ owes (c : Thread nD τ) (0 : CellTallies nD τ sig Ix) W)
  post c := iprop(arrs5 (Name := Name) (U := U) (Lvl := Lvl) (Ix := Ix) c (fin5 (Ix := Ix) (Name := Name) (U := U) (Lvl := Lvl) V c)
    ∗ ∃ W : Waits sig Ix, ⌜(↑W : Set (SemLoc sig × Ix)) ⊆ R 1 ∪ cfg5.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 1 c launch5.arr_whole ((pdats (Name := Name) (U := U) (Lvl := Lvl) V R 1 c).share_full fun _ => rfl)]
    unfold arrs5
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 1 c).Φ 0 = Pipeline.scopedRest spec5 c from rfl]
    iintro ⟨-, -, Hr⟩
    iexact Hr
  hout c := by
    rw [Pipeline.ownSems0_none, show (pdats (Name := Name) (U := U) (Lvl := Lvl) V R 1 c).Φ (Fin.last _) = Pipeline.scopedRest spec5 c from rfl]
    iintro Hr
    isplitr; · iempintro
    isplitr; · iempintro
    iexact Hr
  hexit c := by
    have harrs : (pdats (Name := Name) (U := U) (Lvl := Lvl) V R 1 c).arrays ((pdats (Name := Name) (U := U) (Lvl := Lvl) V R 1 c).arrAt · (Pipeline.pin (pcfgs (F := F)) adm 1).N)
        = arrs5 (Name := Name) (U := U) (Lvl := Lvl) (Ix := Ix) c (fin5 (Ix := Ix) (Name := Name) (U := U) (Lvl := Lvl) V c) := by
      rw [Pipeline.arrays_eq (Pipeline.pin (pcfgs (F := F)) adm) (pdats (Name := Name) (U := U) (Lvl := Lvl) V R) 1 c launch5.arr_whole ((pdats (Name := Name) (U := U) (Lvl := Lvl) V R 1 c).share_full fun _ => rfl)]
      unfold arrs5 fin5
      exact bigSep_congr fun w _ => congrArg
        (fun x => (((c : Thread nD τ).loc (Pipeline.arrRef spec5 w)) ↦{fullShare} x : sProp 𝕄))
        (arrAt5_indep (Name := Name) (U := U) (Lvl := Lvl) (V 1) (R 1) (Set.univ : Set (SemLoc sig × Ix)) c w cfg5.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 5's region step on core `c`, for any continuation: from the region boundary, the six arrays at `V 1 c`,
    nothing owed, the level facts and the call's staging-cell ghost state, `customCall (entry 1)` runs to the boundary
    and the arrays at `fin5`. -/
theorem region5 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 1).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg5 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg5 (Name := Name) (U := U) V R ι 𝒱₀ L lv).pre c ∗ levAts L lv
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift 𝒱₀) (c : Thread nD τ) bd) Set.univ
          (.op (.customCall (Pipeline.entry 1) ()) k) Q :=
  Pipeline.RegionSeg.wp (pcfgs (F := F)) adm (pdats V R) ι cellOf_inj EP defs₀ 𝒱₀ L lv (reg5 V R ι 𝒱₀ L lv) c bd hv k Q

/-! ## Call 6 as a region of @main -/

/-- The six arrays of call 6 (the gathered slab, the weight, the bias, the scale, the shift, the result), each whole,
    at contents `G w`. -/
def arrs6 (c : Dev nD) (G : (w : Fin 6) → Buf (Elt F) ((c : Thread nD τ).loc (Pipeline.arrRef spec6 w))) : sProp 𝕄 :=
  bigSep Finset.univ fun w : Fin 6 => (((c : Thread nD τ).loc (Pipeline.arrRef spec6 w)) ↦{fullShare} G w : sProp 𝕄)

/-- The result array after call 6's 28 write-backs, and every input array as the region found it. -/
def fin6 (c : Dev nD) (w : Fin 6) : Buf (Elt F) ((c : Thread nD τ).loc (Pipeline.arrRef spec6 w)) :=
  (dat6 (Name := Name) (U := U) (Lvl := Lvl) (V 2) (Set.univ : Set (SemLoc sig × Ix)) c).arrAt w cfg6.N

set_option backward.isDefEq.respectTransparency.types false in
/-- Call 6 as a region: entered holding its six arrays whole at the contents `V 2 c` and owing nothing, the pairs its
    waits have recorded within `R 2`; left holding the arrays at `fin6` and owing nothing, the recorded pairs within
    `R 2` and the region's own staging cells at the index `ι`. Nothing else enters the region; the kernel has no
    semaphore of its own. -/
def reg6 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 2 where
  win := launch6.win.to₀
  block_pos := launch6.block_pos
  stage_whole := launch6.stage_whole
  K := PEmpty
  osem k := k.elim
  ho := Pipeline.OwnSemFacts.none _
  hbody c := (body_obligation6 (V 2) (R 2) 𝒱₀ ι c).loose
  hwaits := Pipeline.hwaits_of_owed_zero _ _ _ _ L lv 2 fun _ _ => rfl
  pre c := iprop(arrs6 (Name := Name) (U := U) (Lvl := Lvl) (Ix := Ix) c (fun w => V 2 c (Pipeline.arrRef spec6 w))
    ∗ ∃ W : Waits sig Ix, ⌜(↑W : Set (SemLoc sig × Ix)) ⊆ R 2⌝ ∗ owes (c : Thread nD τ) (0 : CellTallies nD τ sig Ix) W)
  post c := iprop(arrs6 (Name := Name) (U := U) (Lvl := Lvl) (Ix := Ix) c (fin6 (Ix := Ix) (Name := Name) (U := U) (Lvl := Lvl) V c)
    ∗ ∃ W : Waits sig Ix, ⌜(↑W : Set (SemLoc sig × Ix)) ⊆ R 2 ∪ cfg6.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 2 c launch6.arr_whole ((pdats (Name := Name) (U := U) (Lvl := Lvl) V R 2 c).share_full fun _ => rfl)]
    unfold arrs6
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 2 c).Φ 0 = Pipeline.scopedRest spec6 c from rfl]
    iintro ⟨-, -, Hr⟩
    iexact Hr
  hout c := by
    rw [Pipeline.ownSems0_none, show (pdats (Name := Name) (U := U) (Lvl := Lvl) V R 2 c).Φ (Fin.last _) = Pipeline.scopedRest spec6 c from rfl]
    iintro Hr
    isplitr; · iempintro
    isplitr; · iempintro
    iexact Hr
  hexit c := by
    have harrs : (pdats (Name := Name) (U := U) (Lvl := Lvl) V R 2 c).arrays ((pdats (Name := Name) (U := U) (Lvl := Lvl) V R 2 c).arrAt · (Pipeline.pin (pcfgs (F := F)) adm 2).N)
        = arrs6 (Name := Name) (U := U) (Lvl := Lvl) (Ix := Ix) c (fin6 (Ix := Ix) (Name := Name) (U := U) (Lvl := Lvl) V c) := by
      rw [Pipeline.arrays_eq (Pipeline.pin (pcfgs (F := F)) adm) (pdats (Name := Name) (U := U) (Lvl := Lvl) V R) 2 c launch6.arr_whole ((pdats (Name := Name) (U := U) (Lvl := Lvl) V R 2 c).share_full fun _ => rfl)]
      unfold arrs6 fin6
      exact bigSep_congr fun w _ => congrArg
        (fun x => (((c : Thread nD τ).loc (Pipeline.arrRef spec6 w)) ↦{fullShare} x : sProp 𝕄))
        (arrAt6_indep (Name := Name) (U := U) (Lvl := Lvl) (V 2) (R 2) (Set.univ : Set (SemLoc sig × Ix)) c w cfg6.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 6's region step on core `c`, for any continuation: from the region boundary, the six arrays at `V 2 c`,
    nothing owed, the level facts and the call's staging-cell ghost state, `customCall (entry 2)` runs to the boundary
    and the arrays at `fin6`. -/
theorem region6 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 2).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg6 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg6 (Name := Name) (U := U) V R ι 𝒱₀ L lv).pre c ∗ levAts L lv
        ∗ Pipeline.cellsGhost (Pipeline.pin (pcfgs (F := F)) adm) EP 2 c ∗ Pipeline.toksInit (Pipeline.pin (pcfgs (F := F)) adm) EP 2 c)
      ⊢ wp frame (wpE (Pipeline.defs (pcfgs (F := F)) defs₀) (Variants.lift 𝒱₀) (c : Thread nD τ) bd) Set.univ
          (.op (.customCall (Pipeline.entry 2) ()) k) Q :=
  Pipeline.RegionSeg.wp (pcfgs (F := F)) adm (pdats V R) ι cellOf_inj EP defs₀ 𝒱₀ L lv (reg6 V R ι 𝒱₀ L lv) c bd hv k Q

/-! ## Call 7 as a region of @main -/

/-- The six arrays of call 7 (the gathered slab, the weight, the bias, the scale, the shift, the result), each whole,
    at contents `G w`. -/
def arrs7 (c : Dev nD) (G : (w : Fin 6) → Buf (Elt F) ((c : Thread nD τ).loc (Pipeline.arrRef spec7 w))) : sProp 𝕄 :=
  bigSep Finset.univ fun w : Fin 6 => (((c : Thread nD τ).loc (Pipeline.arrRef spec7 w)) ↦{fullShare} G w : sProp 𝕄)

/-- The result array after call 7's 28 write-backs, and every input array as the region found it. -/
def fin7 (c : Dev nD) (w : Fin 6) : Buf (Elt F) ((c : Thread nD τ).loc (Pipeline.arrRef spec7 w)) :=
  (dat7 (Name := Name) (U := U) (Lvl := Lvl) (V 3) (Set.univ : Set (SemLoc sig × Ix)) c).arrAt w cfg7.N

set_option backward.isDefEq.respectTransparency.types false in
/-- Call 7 as a region: entered holding its six arrays whole at the contents `V 3 c` and owing nothing, the pairs its
    waits have recorded within `R 3`; left holding the arrays at `fin7` and owing nothing, the recorded pairs within
    `R 3` and the region's own staging cells at the index `ι`. Nothing else enters the region; the kernel has no
    semaphore of its own. -/
def reg7 (ι : Ix) (𝒱₀ : Variants) (L : GSem nD τ sig → Finset Ix) (lv : GSem nD τ sig → Ix → Lvl) :
    Pipeline.RegionSeg (pcfgs (F := F)) adm (pdats (Name := Name) (U := U) (Lvl := Lvl) V R) ι defs₀ 𝒱₀ L lv 3 where
  win := launch7.win.to₀
  block_pos := launch7.block_pos
  stage_whole := launch7.stage_whole
  K := PEmpty
  osem k := k.elim
  ho := Pipeline.OwnSemFacts.none _
  hbody c := (body_obligation7 (V 3) (R 3) 𝒱₀ ι c).loose
  hwaits := Pipeline.hwaits_of_owed_zero _ _ _ _ L lv 3 fun _ _ => rfl
  pre c := iprop(arrs7 (Name := Name) (U := U) (Lvl := Lvl) (Ix := Ix) c (fun w => V 3 c (Pipeline.arrRef spec7 w))
    ∗ ∃ W : Waits sig Ix, ⌜(↑W : Set (SemLoc sig × Ix)) ⊆ R 3⌝ ∗ owes (c : Thread nD τ) (0 : CellTallies nD τ sig Ix) W)
  post c := iprop(arrs7 (Name := Name) (U := U) (Lvl := Lvl) (Ix := Ix) c (fin7 (Ix := Ix) (Name := Name) (U := U) (Lvl := Lvl) V c)
    ∗ ∃ W : Waits sig Ix, ⌜(↑W : Set (SemLoc sig × Ix)) ⊆ R 3 ∪ cfg7.waitPairs ι⌝ ∗ owes (c : Thread nD τ) (0 : CellTallies nD τ sig Ix) W)
  X _ := iprop(emp)
  Y _ := iprop(emp)
  Z _ := iprop(emp)
  hentry c := by
    rw [Pipeline.ownSems0_none, Pipeline.arrays_eq (Pipeline.pin (pcfgs (F := F)) adm) (pdats (Name := Name) (U := U) (Lvl := Lvl) V R) 3 c launch7.arr_whole ((pdats (Name := Name) (U := U) (Lvl := Lvl) V R 3 c).share_full fun _ => rfl)]
    unfold arrs7
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr <;> iempintro
  hin c := by
    rw [show (pdats (Name := Name) (U := U) (Lvl := Lvl) V R 3 c).Φ 0 = Pipeline.scopedRest spec7 c from rfl]
    iintro ⟨-, -, Hr⟩
    iexact Hr
  hout c := by
    rw [Pipeline.ownSems0_none, show (pdats (Name := Name) (U := U) (Lvl := Lvl) V R 3 c).Φ (Fin.last _) = Pipeline.scopedRest spec7 c from rfl]
    iintro Hr
    isplitr; · iempintro
    isplitr; · iempintro
    iexact Hr
  hexit c := by
    have harrs : (pdats (Name := Name) (U := U) (Lvl := Lvl) V R 3 c).arrays ((pdats (Name := Name) (U := U) (Lvl := Lvl) V R 3 c).arrAt · (Pipeline.pin (pcfgs (F := F)) adm 3).N)
        = arrs7 (Name := Name) (U := U) (Lvl := Lvl) (Ix := Ix) c (fin7 (Ix := Ix) (Name := Name) (U := U) (Lvl := Lvl) V c) := by
      rw [Pipeline.arrays_eq (Pipeline.pin (pcfgs (F := F)) adm) (pdats (Name := Name) (U := U) (Lvl := Lvl) V R) 3 c launch7.arr_whole ((pdats (Name := Name) (U := U) (Lvl := Lvl) V R 3 c).share_full fun _ => rfl)]
      unfold arrs7 fin7
      exact bigSep_congr fun w _ => congrArg
        (fun x => (((c : Thread nD τ).loc (Pipeline.arrRef spec7 w)) ↦{fullShare} x : sProp 𝕄))
        (arrAt7_indep (Name := Name) (U := U) (Lvl := Lvl) (V 3) (R 3) (Set.univ : Set (SemLoc sig × Ix)) c w cfg7.N)
    rw [harrs]
    iintro ⟨Ha, HO, -, -⟩
    imodintro
    isplitl [Ha]; · iexact Ha
    unfold Pipeline.Dat.owesAt Pipeline.owesWithin
    icases HO with ⟨%W, %hW, HO⟩; iexists W; isplitr; · ipureintro; exact hW
    iexact HO

/-- Call 7's region step on core `c`, for any continuation: from the region boundary, the six arrays at `V 3 c`,
    nothing owed, the level facts and the call's staging-cell ghost state, `customCall (entry 3)` runs to the boundary
    and the arrays at `fin7`. -/
theorem region7 [∀ e, Nonempty (Elt F e)] [Infinite Name] (EP : Emb (URounds (GSem nD τ sig) Unit) 𝕄) [EP.LandsIn (upEmb : UEmb _ 𝕄)]
    (ι : Ix) (𝒱₀ : Variants) (L : GSem nD τ sig → Finset Ix) (lv : GSem nD τ sig → Ix → Lvl) (c : Dev nD)
    (bd : Option (Variants.lift 𝒱₀).V)
    (hv : ∀ u ∈ bd, (Variants.lift 𝒱₀).lt (.inr ((Pipeline.pin (pcfgs (F := F)) adm 3).tripCount + 1)) u)
    {α : Type} (k : PUnit → Prog (TpuEff nD τ sig (Elt F) (Pipeline.Sig Λ₀ (Fin 4) fun p => (pcfgs (F := F) p).Adm) .tc) α) (Q : α → sProp 𝕄) :
    iprop((iprop(boundary (c : Thread nD τ) ∗ (reg7 (Name := Name) (U := U) V R ι 𝒱₀ L lv).post c)
            -∗ wp frame (wpE (Pipeline.defs (pcfgs (F := F)) defs₀) (Variants.lift 𝒱₀) (c : Thread nD τ) bd) Set.univ (k ⟨⟩) Q)
        ∗ boundary (c : Thread nD τ) ∗ (reg7 (Name := Name) (U := U) V R ι 𝒱₀ L lv).pre c ∗ levAts L lv
        ∗ Pipeline.cellsGhost (Pipeline.pin (pcfgs (F := F)) adm) EP 3 c ∗ Pipeline.toksInit (Pipeline.pin (pcfgs (F := F)) adm) EP 3 c)
      ⊢ wp frame (wpE (Pipeline.defs (pcfgs (F := F)) defs₀) (Variants.lift 𝒱₀) (c : Thread nD τ) bd) Set.univ
          (.op (.customCall (Pipeline.entry 3) ()) k) Q :=
  Pipeline.RegionSeg.wp (pcfgs (F := F)) adm (pdats V R) ι cellOf_inj EP defs₀ 𝒱₀ L lv (reg7 V R ι 𝒱₀ L lv) c bd hv k Q

end Regions

end Cert.Kernel.Tc

end
-- ==== Proof.KTcLift.lean ====
import proofs.«215994_g5102421148354_cont_8to1c4_853_29_alg».proof.Proof.KScBase
import proofs.«215994_g5102421148354_cont_8to1c4_853_29_alg».proof.Proof.KTcRegion
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.SparseCore (T)
open Idealize.ShloMosaic.SparseCore.Cfg (HIx)

local notation "𝕄" => MT nD τ sig (HIx 4) (Elt F) ℕ Sc.UU ℕ

/-! # The four regions inside the SparseCore launch -/

section Lift

variable (V : Fin 4 → (c : Dev nD) → (b : Ref sig .tc) → Buf (Elt F) ((c : Thread nD τ).loc b))

/-- Call 4's region as @main meets it: the lifted `customCall` followed by any continuation `k`, from the region
    boundary, the six arrays at `V 0 d`, nothing owed with the recorded pairs `W`, the level facts and the call's staging-cell ghost state, to
    `k` run from the boundary and the arrays at `fin4 V d`. -/
theorem lift_region4 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs4 (Ix := HIx 4) (Name := ℕ) (U := Sc.UU) (Lvl := ℕ) d (fun w => V 0 d (Pipeline.arrRef spec4 w))
        ∗ owes (T d) (0 : CellTallies nD τ sig (HIx 4)) W
        ∗ Pipeline.cellsGhost (Pipeline.pin (pcfgs (F := F)) adm) (Sc.EP (F := F)) 0 d
        ∗ Pipeline.toksInit (Pipeline.pin (pcfgs (F := F)) adm) (Sc.EP (F := F)) 0 d
        ∗ (iprop(boundary (T d) ∗ arrs4 (Ix := HIx 4) (Name := ℕ) (U := Sc.UU) (Lvl := ℕ) d (fin4 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 0)) ()) k) Q := by
  have hprog : (.op (.customCall (SparseCore.inner (Pipeline.entry 0)) ()) k
        : Prog (TpuEff nD τ sig (Elt F) (SparseCore.Sig (Sc.ΛP (F := F)) 4) .tc) α)
      = (SparseCore.liftProg (Q := 4) (.op (.customCall (Pipeline.entry (0 : Fin 4)) ()) .ret
          : Prog (TpuEff nD τ sig (Elt F) (Sc.ΛP (F := F)) .tc) PUnit)) >>= k := rfl
  rw [hprog, wp_bind]
  have hreg := region4 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg4] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 5's region as @main meets it: the lifted `customCall` followed by any continuation `k`, from the region
    boundary, the six arrays at `V 1 d`, nothing owed with the recorded pairs `W`, the level facts and the call's staging-cell ghost state, to
    `k` run from the boundary and the arrays at `fin5 V d`. -/
theorem lift_region5 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs5 (Ix := HIx 4) (Name := ℕ) (U := Sc.UU) (Lvl := ℕ) d (fun w => V 1 d (Pipeline.arrRef spec5 w))
        ∗ owes (T d) (0 : CellTallies nD τ sig (HIx 4)) W
        ∗ Pipeline.cellsGhost (Pipeline.pin (pcfgs (F := F)) adm) (Sc.EP (F := F)) 1 d
        ∗ Pipeline.toksInit (Pipeline.pin (pcfgs (F := F)) adm) (Sc.EP (F := F)) 1 d
        ∗ (iprop(boundary (T d) ∗ arrs5 (Ix := HIx 4) (Name := ℕ) (U := Sc.UU) (Lvl := ℕ) d (fin5 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 1)) ()) k) Q := by
  have hprog : (.op (.customCall (SparseCore.inner (Pipeline.entry 1)) ()) k
        : Prog (TpuEff nD τ sig (Elt F) (SparseCore.Sig (Sc.ΛP (F := F)) 4) .tc) α)
      = (SparseCore.liftProg (Q := 4) (.op (.customCall (Pipeline.entry (1 : Fin 4)) ()) .ret
          : Prog (TpuEff nD τ sig (Elt F) (Sc.ΛP (F := F)) .tc) PUnit)) >>= k := rfl
  rw [hprog, wp_bind]
  have hreg := region5 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg5] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 6's region as @main meets it: the lifted `customCall` followed by any continuation `k`, from the region
    boundary, the six arrays at `V 2 d`, nothing owed with the recorded pairs `W`, the level facts and the call's staging-cell ghost state, to
    `k` run from the boundary and the arrays at `fin6 V d`. -/
theorem lift_region6 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs6 (Ix := HIx 4) (Name := ℕ) (U := Sc.UU) (Lvl := ℕ) d (fun w => V 2 d (Pipeline.arrRef spec6 w))
        ∗ owes (T d) (0 : CellTallies nD τ sig (HIx 4)) W
        ∗ Pipeline.cellsGhost (Pipeline.pin (pcfgs (F := F)) adm) (Sc.EP (F := F)) 2 d
        ∗ Pipeline.toksInit (Pipeline.pin (pcfgs (F := F)) adm) (Sc.EP (F := F)) 2 d
        ∗ (iprop(boundary (T d) ∗ arrs6 (Ix := HIx 4) (Name := ℕ) (U := Sc.UU) (Lvl := ℕ) d (fin6 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 2)) ()) k) Q := by
  have hprog : (.op (.customCall (SparseCore.inner (Pipeline.entry 2)) ()) k
        : Prog (TpuEff nD τ sig (Elt F) (SparseCore.Sig (Sc.ΛP (F := F)) 4) .tc) α)
      = (SparseCore.liftProg (Q := 4) (.op (.customCall (Pipeline.entry (2 : Fin 4)) ()) .ret
          : Prog (TpuEff nD τ sig (Elt F) (Sc.ΛP (F := F)) .tc) PUnit)) >>= k := rfl
  rw [hprog, wp_bind]
  have hreg := region6 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg6] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

/-- Call 7's region as @main meets it: the lifted `customCall` followed by any continuation `k`, from the region
    boundary, the six arrays at `V 3 d`, nothing owed with the recorded pairs `W`, the level facts and the call's staging-cell ghost state, to
    `k` run from the boundary and the arrays at `fin7 V d`. -/
theorem lift_region7 [∀ e, Nonempty (Elt F e)] (lv : GSem nD τ sig → HIx 4 → ℕ) (d : Dev nD) (W : Waits sig (HIx 4)) {α : Type}
    (k : PUnit → Prog (TpuEff nD τ sig (Elt F) (SparseCore.Sig (Sc.ΛP (F := F)) 4) .tc) α) (Q : α → sProp 𝕄) :
    iprop(levAts (Sc.K (F := F)).L lv ∗ boundary (T d)
        ∗ arrs7 (Ix := HIx 4) (Name := ℕ) (U := Sc.UU) (Lvl := ℕ) d (fun w => V 3 d (Pipeline.arrRef spec7 w))
        ∗ owes (T d) (0 : CellTallies nD τ sig (HIx 4)) W
        ∗ Pipeline.cellsGhost (Pipeline.pin (pcfgs (F := F)) adm) (Sc.EP (F := F)) 3 d
        ∗ Pipeline.toksInit (Pipeline.pin (pcfgs (F := F)) adm) (Sc.EP (F := F)) 3 d
        ∗ (iprop(boundary (T d) ∗ arrs7 (Ix := HIx 4) (Name := ℕ) (U := Sc.UU) (Lvl := ℕ) d (fin7 (Ix := HIx 4) (Name := ℕ) (U := Sc.UU) (Lvl := ℕ) V d)
              ∗ ∃ W' : Waits sig (HIx 4), ⌜∀ x ∈ W', x ∈ W ∨ x.2 = none⌝ ∗ owes (T d) (0 : CellTallies nD τ sig (HIx 4)) W')
            -∗ wp frame (wpE ((Sc.K (F := F)).defs (Sc.D (F := F))) Sc.𝒱 (T d) none) Set.univ (k ⟨⟩) Q))
      ⊢ wp frame (wpE ((Sc.K (F := F)).defs (Sc.D (F := F))) Sc.𝒱 (T d) none) Set.univ
          (.op (.customCall (SparseCore.inner (Pipeline.entry 3)) ()) k) Q := by
  have hprog : (.op (.customCall (SparseCore.inner (Pipeline.entry 3)) ()) k
        : Prog (TpuEff nD τ sig (Elt F) (SparseCore.Sig (Sc.ΛP (F := F)) 4) .tc) α)
      = (SparseCore.liftProg (Q := 4) (.op (.customCall (Pipeline.entry (3 : Fin 4)) ()) .ret
          : Prog (TpuEff nD τ sig (Elt F) (Sc.ΛP (F := F)) .tc) PUnit)) >>= k := rfl
  rw [hprog, wp_bind]
  have hreg := region7 (Name := ℕ) (U := Sc.UU) V (fun _ => (↑W : Set (SemLoc sig × HIx 4))) (Sc.EP (F := F)) (none : HIx 4) Variants.none (Sc.K (F := F)).L lv d none
    (fun u hu => (Option.not_mem_none u hu).elim) .ret
    (fun a => wp frame (wpE ((Sc.K (F := F)).defs (Sc.D (F := F))) Sc.𝒱 (T d) none) Set.univ (k a) Q)
  dsimp only [reg7] at hreg
  iintro ⟨Hlev, Hb, Ha, Ho, Hc, Ht, Hk⟩
  iapply ((Sc.K (F := F)).wp_liftProg (Sc.D (F := F)) Sc.𝒱 (T d) Set.univ none _ _)
  iapply hreg
  isplitl [Hk]
  · iintro ⟨Hb, Ha, %W', %hW', HO⟩
    rw [wp_ret, fupd_wp_eq]
    iapply Hk
    isplitl [Hb]; · iexact Hb
    isplitl [Ha]; · iexact Ha
    iexists W'
    isplitr
    · ipureintro
      intro x hx
      rcases hW' (Finset.mem_coe.mpr hx) with h | ⟨w, s, e⟩
      · exact Or.inl (Finset.mem_coe.mp h)
      · exact Or.inr (by rw [e])
    iexact HO
  isplitl [Hb]; · iexact Hb
  isplitl [Ha Ho]
  · isplitl [Ha]; · iexact Ha
    iexists W
    isplitr; · ipureintro; exact fun _ h => h
    iexact Ho
  isplitl [Hlev]; · iexact Hlev
  isplitl [Hc]; · iexact Hc
  iexact Ht

end Lift

/-! ## What the launch deals the TensorCore, and the regions' ghost state -/

/-- What the launch deals the TensorCore beyond its handshake state opens to the region boundary, @main's arrays at
    the launch contents, its protocol's semaphores at zero and the generator register. -/
theorem tcRes_split (m : (ℓ : Loc nD τ sig) → Buf (Elt F) ℓ) (g : Dev nD → PrngReg) (d : Dev nD) :
    ((Sc.K (F := F)).tcRes m g d : sProp 𝕄)
      ⊢ iprop(boundary (T d) ∗ unscopedBufs d (fun b => m ((SparseCore.T d).loc b)) ∗ (Sc.K (F := F)).tcSems0 d ∗ prngReg d (g d)) := by
  unfold SparseCore.Cfg.tcRes
  exact .rfl

/-- The four regions one by one. -/
theorem bigSep_P4 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- The launch's share of the regions' rounds algebra funds, on every device, each region's staging cells and duty tokens. -/
theorem fund_regions :
    (BI.own (Sc.EP (F := F) (initOf (Pipeline.cells (Pipeline.pin (pcfgs (F := F)) adm) cellOf_inj)
        (Pipeline.launchToks (Pipeline.pin (pcfgs (F := F)) adm) cellOf_inj))) : sProp 𝕄)
      ⊢ iprop(|==> bigSep Finset.univ fun d : Dev nD => bigSep Finset.univ fun p : Fin 4 =>
          iprop(Pipeline.cellsGhost (Pipeline.pin (pcfgs (F := F)) adm) (Sc.EP (F := F)) p d
            ∗ Pipeline.toksInit (Pipeline.pin (pcfgs (F := F)) adm) (Sc.EP (F := F)) p d)) := by
  have e : (bigSep Finset.univ fun d : Dev nD => bigSep Finset.univ fun p : Fin 4 =>
        iprop(Pipeline.cellsGhost (Pipeline.pin (pcfgs (F := F)) adm) (Sc.EP (F := F)) p d
          ∗ Pipeline.toksInit (Pipeline.pin (pcfgs (F := F)) adm) (Sc.EP (F := F)) p d) : sProp 𝕄)
      = iprop((bigSep Finset.univ fun d : Dev nD => bigSep Finset.univ fun p : Fin 4 =>
            Pipeline.cellsGhost (Pipeline.pin (pcfgs (F := F)) adm) (Sc.EP (F := F)) p d)
          ∗ (bigSep Finset.univ fun d : Dev nD => bigSep Finset.univ fun p : Fin 4 =>
            (Pipeline.toksInit (Pipeline.pin (pcfgs (F := F)) adm) (Sc.EP (F := F)) p d : sProp 𝕄))) := by
    exact (bigSep_congr fun d _ => bigSep_sep Finset.univ _ _).trans (bigSep_sep Finset.univ _ _)
  rw [e]
  exact Pipeline.fund_ghost (Pipeline.pin (pcfgs (F := F)) adm) (Sc.EP (F := F)) cellOf_inj

end Cert.Kernel.Tc

end
-- ==== Proof.KScLaunch.lean ====
/-
  The launch: from the four calls' task obligations and the proof of @main on the TensorCore to the run of the whole
  program, every argument array ending as it began.

  The ghost state at the launch is the handshakes' rounds, the four regions' staging rounds (funded once, a summand per
  region and device, each consumed at its region's entry) and the copies' counters.  A SparseCore's share of a call is
  its sixteen tasks' by definition, so the split among the tasks is the identity.  No kernel consumes anything of the
  launch's, and no call has a scalar kernel.
-/
import proofs.«215994_g5102421148354_cont_8to1c4_853_29_alg».proof.Proof.KScPay
import proofs.«215994_g5102421148354_cont_8to1c4_853_29_alg».proof.Proof.KTcLift

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

variable (m : (ℓ : Loc nD τ sig) → Buf (Elt F) ℓ) (ρ : Dev nD → PrngReg)

/-! ## The launch element -/

/-- The handshake cells' rounds, the regions' staging cells' rounds, and the unit of the counters. -/
def u₀ : UU :=
  (initOf (K (F := F)).hsCells (K (F := F)).hsToks,
    (initOf (Pipeline.cells (Pipeline.pin (pcfgs (F := F)) Tc.adm) cellOf_inj) (Pipeline.launchToks (Pipeline.pin (pcfgs (F := F)) Tc.adm) cellOf_inj), 1))

/-- What @main's proof starts from on device `d` beside the launch's own: the four regions' ghost summands. -/
def G (d : Dev nD) : sProp 𝕄 :=
  bigSep Finset.univ fun p : Fin 4 =>
    iprop(Pipeline.cellsGhost (Pipeline.pin (pcfgs (F := F)) Tc.adm) (EP (F := F)) p d ∗ Pipeline.toksInit (Pipeline.pin (pcfgs (F := F)) Tc.adm) (EP (F := F)) p d)

theorem bigSep_emp' {I : Type} (s : Finset I) : (bigSep s fun _ => iprop(emp)) = (iprop(emp) : sProp 𝕄) := bigSep_emp_const s

/-- The regions' rounds are the left factor of the right factor. -/
theorem own_EP (x : UP) : (BI.own (((Emb.inl : Emb UP (UP × Counters)).trans embR) x) : sProp 𝕄) ⊢ BI.own (EP (F := F) x) :=
  Entails.of_eq rfl

theorem no_scalar : ∀ q : Fin 4, scKind q ≠ Kind.scScalar := by decide

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb (embR) _ _) $$ HR
  icases H2 with ⟨HP, -⟩
  ihave HP' := (own_EP (F := F) _) $$ HP
  imod (Tc.fund_regions (F := F)) $$ HP' with HG
  imodintro
  isplitl [HH]; · iexact HH
  isplitl [HG]; · unfold G; iexact HG
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The split of a SparseCore's share among its tasks -/

theorem vecSplit' (q : Fin 4) : (K (F := F)).VecSplit' (P m) q := by
  intro d c
  have h16 : ∀ (Φ : Fin 16 → sProp 𝕄), (bigSep Finset.univ fun i : Fin ((K (F := F)).nSub q) => Φ (Fin.cast (nSub_eq q) i)) = bigSep Finset.univ Φ := by
    intro Φ
    match q with
    | 0 => exact bigSep_congr fun _ _ => congrArg Φ (Fin.ext rfl)
    | 1 => exact bigSep_congr fun _ _ => congrArg Φ (Fin.ext rfl)
    | 2 => exact bigSep_congr fun _ _ => congrArg Φ (Fin.ext rfl)
    | 3 => exact bigSep_congr fun _ _ => congrArg Φ (Fin.ext rfl)
  show (bigSep Finset.univ fun i : Fin 16 => taskRes m q d (Fin.cast (nCore_eq q) c) i) ⊢ |={Set.univ}=> iprop(
      (bigSep Finset.univ fun i : Fin ((K (F := F)).nSub q) => taskRes m q d (Fin.cast (nCore_eq q) c) (Fin.cast (nSub_eq q) i))
      ∗ ((bigSep Finset.univ fun i : Fin ((K (F := F)).nSub q) => taskRes m q d (Fin.cast (nCore_eq q) c) (Fin.cast (nSub_eq q) i))
          -∗ bigSep Finset.univ fun i : Fin 16 => taskRes m q d (Fin.cast (nCore_eq q) c) i))
  rw [h16 (fun i => taskRes m q d (Fin.cast (nCore_eq q) c) i)]
  iintro H; imodintro
  isplitl [H]; · iexact H
  iintro H; iexact H

/-! ## What @main leaves the claim -/

/-- The twelve argument arrays. -/
abbrev argS : Finset (Ref sig .tc) := {main_arg0, main_arg1, main_arg2, main_arg3, main_arg4, main_arg5, main_arg6, main_arg7, main_arg8, main_arg9, main_arg10, main_arg11}

/-- Every argument array whole, at its launch contents. -/
def FIN (d : Dev nD) : sProp 𝕄 := bigSep argS fun b => ((SparseCore.T d).loc b ↦{fullShare} m ((SparseCore.T d).loc b))

def fq (d : Dev nD) (s' : Phys nD τ sig (Elt F)) : Prop := ∀ b ∈ argS, s'.mem.mem ((SparseCore.T d).loc b) = m ((SparseCore.T d).loc b)

theorem fin_one (d : Dev nD) (s' : Phys nD τ sig (Elt F)) (b : Ref sig .tc) (hb : b ∈ argS) :
    iprop(FIN m d ∗ SI s') ⊢ (⌜s'.mem.mem ((SparseCore.T d).loc b) = m ((SparseCore.T d).loc b)⌝ : sProp 𝕄) := by
  unfold FIN
  rw [SparseCore.bigSep_erase' hb]
  iintro ⟨⟨Hb, -⟩, HSI⟩
  ihave H := (SI_pointsTo_agree (st := s') (ℓ := (SparseCore.T d).loc b) (I := Finset.univ) (q := fullShare) (f := m ((SparseCore.T d).loc b))) $$ [HSI Hb]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx b hb => fin_one m d s' b hb x hx

/-! ## The run -/

def QC : PUnit × MemSt nD τ sig (Elt F) → Prop := fun r => ∀ c : Dev nD, ∀ b ∈ argS, r.2.mem ((SparseCore.T c).loc b) = m ((SparseCore.T c).loc b)

/-- The whole program's run, from the tasks' obligations and @main's proof. -/
theorem run_main [∀ e, Nonempty (Elt F e)]
    (htile : ∀ q, (K (F := F)).TileObl (D (F := F)) 𝒱 (P m) v₀ q)
    (hmain : ∀ (κ : GSem nD τ sig → ℕ) (d : Dev nD),
      iprop((K (F := F)).ctx EH (P m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => absurd (show scKind q = Kind.scScalar from hq) (no_scalar q))
    (fun q _ => htile q)
    (fun q _ => SparseCore.Cfg.VecSplit.of_plain (vecSplit' m q))
    m ρ main (G (F := F)) (FIN m) (u₀ (F := F)) (sep_elim_left.trans (hu₀ m)) hmain (fq m) (hfin m) (QC m) (fun _ h => h)

end Cert.Kernel.Sc

end
-- ==== Proof.KMainCut.lean ====
import proofs.«215994_g5102421148354_cont_8to1c4_853_29_alg».proof.Proof.KIdxSlab
import Idealize.ShloMosaic.Lib.StableHlo.Run
import Idealize.ShloMosaic.Lib.Pipeline.Frame

set_option maxRecDepth 16384

noncomputable section

namespace Cert.Kernel.Tc

open Cert.Kernel Cert.Kernel.Gen
open Idealize.ShloMosaic Idealize.ShloMosaic.TcCoe Idealize.SL.Sem Idealize.ShloMosaic.StableHlo

variable {F : FTy → Type} [FloatOps F]

/-! # @main cut at its calls

@main is seven straight stretches of host operations around four gather calls on the SparseCores and four regions on
the TensorCore. Each stretch is listed here, with what running it from any buffer contents needs (its operations name
unscoped TensorCore buffers only and allocate none) and what it leaves. -/

/-- The 23 host operations before the first gather call: each index array padded with 352 zero words, the bias, scale and shift rows reshaped to 1 x 512, and the first stretch of each padded index array cut out and laid out as 32 x 7 x 112. -/
abbrev hostA : List (HloOp τ sig (Elt F)) :=
  [ StableHlo.nullary main_c (constantI S_ 32 0#32),
    StableHlo.unary main_c main_v0 (broadcastInDim S352 ![] bcast_S_S352 : (⟨S_, .i32⟩ : BufTy).Contents (Elt F) → (⟨S352, .i32⟩ : BufTy).Contents (Elt F)),
    StableHlo.binary main_arg4 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_0 (constantI S_ 32 0#32),
    StableHlo.unary main_c_0 main_v2 (broadcastInDim S352 ![] bcast_S_S352 : (⟨S_, .i32⟩ : BufTy).Contents (Elt F) → (⟨S352, .i32⟩ : BufTy).Contents (Elt F)),
    StableHlo.binary main_arg5 main_v2 main_v3 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_1 (constantI S_ 32 0#32),
    StableHlo.unary main_c_1 main_v4 (broadcastInDim S352 ![] bcast_S_S352 : (⟨S_, .i32⟩ : BufTy).Contents (Elt F) → (⟨S352, .i32⟩ : BufTy).Contents (Elt F)),
    StableHlo.binary main_arg6 main_v4 main_v5 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.nullary main_c_2 (constantI S_ 32 0#32),
    StableHlo.unary main_c_2 main_v6 (broadcastInDim S352 ![] bcast_S_S352 : (⟨S_, .i32⟩ : BufTy).Contents (Elt F) → (⟨S352, .i32⟩ : BufTy).Contents (Elt F)),
    StableHlo.binary main_arg7 main_v6 main_v7 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F)),
    StableHlo.reshape main_arg9 main_v8 rfl shapeCasts_S512_S1x512,
    StableHlo.reshape main_arg10 main_v9 rfl shapeCasts_S512_S1x512,
    StableHlo.reshape main_arg11 main_v10 rfl shapeCasts_S512_S1x512,
    StableHlo.unary main_v1 main_v11 ((extractStridedSlice S25088 ![0] · slices_S100352_S25088_0) : (⟨S100352, .i32⟩ : BufTy).Contents (Elt F) → (⟨S25088, .i32⟩ : BufTy).Contents (Elt F)),
    StableHlo.reshape main_v11 main_v12 rfl shapeCasts_S25088_S32x7x112,
    StableHlo.unary main_v3 main_v13 ((extractStridedSlice S25088 ![0] · slices_S100352_S25088_0) : (⟨S100352, .i32⟩ : BufTy).Contents (Elt F) → (⟨S25088, .i32⟩ : BufTy).Contents (Elt F)),
    StableHlo.reshape main_v13 main_v14 rfl shapeCasts_S25088_S32x7x112,
    StableHlo.unary main_v5 main_v15 ((extractStridedSlice S25088 ![0] · slices_S100352_S25088_0) : (⟨S100352, .i32⟩ : BufTy).Contents (Elt F) → (⟨S25088, .i32⟩ : BufTy).Contents (Elt F)),
    StableHlo.reshape main_v15 main_v16 rfl shapeCasts_S25088_S32x7x112,
    StableHlo.unary main_v7 main_v17 ((extractStridedSlice S25088 ![0] · slices_S100352_S25088_0) : (⟨S100352, .i32⟩ : BufTy).Contents (Elt F) → (⟨S25088, .i32⟩ : BufTy).Contents (Elt F)),
    StableHlo.reshape main_v17 main_v18 rfl shapeCasts_S25088_S32x7x112 ]
/-- Each names TensorCore buffers only, -/
theorem hostA_tc : (hostA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostA_sub : ∀ op ∈ (hostA : List (HloOp τ sig (Elt F))), op.bufs ⊆ Pipeline.ucRefs τ sig :=
  fun op h => Pipeline.sub_ucRefs op ((List.forall_iff_forall_mem.mp hostA_tc) op h)
/-- and none allocates a buffer. -/
theorem hostA_fresh : ∀ op ∈ (hostA : List (HloOp τ sig (Elt F))), op.fresh = ∅ :=
  List.forall_iff_forall_mem.mp (by simp only [List.Forall]; repeat' constructor)

/-- The 8 host operations before the second gather call: the second stretch of each padded index array, as 32 x 7 x 112. -/
abbrev hostB1 : List (HloOp τ sig (Elt F)) :=
  [ StableHlo.unary main_v1 main_v20 ((extractStridedSlice S25088 ![25088] · slices_S100352_S25088_25088) : (⟨S100352, .i32⟩ : BufTy).Contents (Elt F) → (⟨S25088, .i32⟩ : BufTy).Contents (Elt F)),
    StableHlo.reshape main_v20 main_v21 rfl shapeCasts_S25088_S32x7x112,
    StableHlo.unary main_v3 main_v22 ((extractStridedSlice S25088 ![25088] · slices_S100352_S25088_25088) : (⟨S100352, .i32⟩ : BufTy).Contents (Elt F) → (⟨S25088, .i32⟩ : BufTy).Contents (Elt F)),
    StableHlo.reshape main_v22 main_v23 rfl shapeCasts_S25088_S32x7x112,
    StableHlo.unary main_v5 main_v24 ((extractStridedSlice S25088 ![25088] · slices_S100352_S25088_25088) : (⟨S100352, .i32⟩ : BufTy).Contents (Elt F) → (⟨S25088, .i32⟩ : BufTy).Contents (Elt F)),
    StableHlo.reshape main_v24 main_v25 rfl shapeCasts_S25088_S32x7x112,
    StableHlo.unary main_v7 main_v26 ((extractStridedSlice S25088 ![25088] · slices_S100352_S25088_25088) : (⟨S100352, .i32⟩ : BufTy).Contents (Elt F) → (⟨S25088, .i32⟩ : BufTy).Contents (Elt F)),
    StableHlo.reshape main_v26 main_v27 rfl shapeCasts_S25088_S32x7x112 ]
/-- Each names TensorCore buffers only, -/
theorem hostB1_tc : (hostB1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB1_sub : ∀ op ∈ (hostB1 : List (HloOp τ sig (Elt F))), op.bufs ⊆ Pipeline.ucRefs τ sig :=
  fun op h => Pipeline.sub_ucRefs op ((List.forall_iff_forall_mem.mp hostB1_tc) op h)
/-- and none allocates a buffer. -/
theorem hostB1_fresh : ∀ op ∈ (hostB1 : List (HloOp τ sig (Elt F))), op.fresh = ∅ :=
  List.forall_iff_forall_mem.mp (by simp only [List.Forall]; repeat' constructor)

/-- The 8 host operations before the third gather call: the third stretch of each padded index array. -/
abbrev hostB2 : List (HloOp τ sig (Elt F)) :=
  [ StableHlo.unary main_v1 main_v29 ((extractStridedSlice S25088 ![50176] · slices_S100352_S25088_50176) : (⟨S100352, .i32⟩ : BufTy).Contents (Elt F) → (⟨S25088, .i32⟩ : BufTy).Contents (Elt F)),
    StableHlo.reshape main_v29 main_v30 rfl shapeCasts_S25088_S32x7x112,
    StableHlo.unary main_v3 main_v31 ((extractStridedSlice S25088 ![50176] · slices_S100352_S25088_50176) : (⟨S100352, .i32⟩ : BufTy).Contents (Elt F) → (⟨S25088, .i32⟩ : BufTy).Contents (Elt F)),
    StableHlo.reshape main_v31 main_v32 rfl shapeCasts_S25088_S32x7x112,
    StableHlo.unary main_v5 main_v33 ((extractStridedSlice S25088 ![50176] · slices_S100352_S25088_50176) : (⟨S100352, .i32⟩ : BufTy).Contents (Elt F) → (⟨S25088, .i32⟩ : BufTy).Contents (Elt F)),
    StableHlo.reshape main_v33 main_v34 rfl shapeCasts_S25088_S32x7x112,
    StableHlo.unary main_v7 main_v35 ((extractStridedSlice S25088 ![50176] · slices_S100352_S25088_50176) : (⟨S100352, .i32⟩ : BufTy).Contents (Elt F) → (⟨S25088, .i32⟩ : BufTy).Contents (Elt F)),
    StableHlo.reshape main_v35 main_v36 rfl shapeCasts_S25088_S32x7x112 ]
/-- Each names TensorCore buffers only, -/
theorem hostB2_tc : (hostB2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB2_sub : ∀ op ∈ (hostB2 : List (HloOp τ sig (Elt F))), op.bufs ⊆ Pipeline.ucRefs τ sig :=
  fun op h => Pipeline.sub_ucRefs op ((List.forall_iff_forall_mem.mp hostB2_tc) op h)
/-- and none allocates a buffer. -/
theorem hostB2_fresh : ∀ op ∈ (hostB2 : List (HloOp τ sig (Elt F))), op.fresh = ∅ :=
  List.forall_iff_forall_mem.mp (by simp only [List.Forall]; repeat' constructor)

/-- The 8 host operations before the fourth gather call: the fourth stretch of each padded index array. -/
abbrev hostB3 : List (HloOp τ sig (Elt F)) :=
  [ StableHlo.unary main_v1 main_v38 ((extractStridedSlice S25088 ![75264] · slices_S100352_S25088_75264) : (⟨S100352, .i32⟩ : BufTy).Contents (Elt F) → (⟨S25088, .i32⟩ : BufTy).Contents (Elt F)),
    StableHlo.reshape main_v38 main_v39 rfl shapeCasts_S25088_S32x7x112,
    StableHlo.unary main_v3 main_v40 ((extractStridedSlice S25088 ![75264] · slices_S100352_S25088_75264) : (⟨S100352, .i32⟩ : BufTy).Contents (Elt F) → (⟨S25088, .i32⟩ : BufTy).Contents (Elt F)),
    StableHlo.reshape main_v40 main_v41 rfl shapeCasts_S25088_S32x7x112,
    StableHlo.unary main_v5 main_v42 ((extractStridedSlice S25088 ![75264] · slices_S100352_S25088_75264) : (⟨S100352, .i32⟩ : BufTy).Contents (Elt F) → (⟨S25088, .i32⟩ : BufTy).Contents (Elt F)),
    StableHlo.reshape main_v42 main_v43 rfl shapeCasts_S25088_S32x7x112,
    StableHlo.unary main_v7 main_v44 ((extractStridedSlice S25088 ![75264] · slices_S100352_S25088_75264) : (⟨S100352, .i32⟩ : BufTy).Contents (Elt F) → (⟨S25088, .i32⟩ : BufTy).Contents (Elt F)),
    StableHlo.reshape main_v44 main_v45 rfl shapeCasts_S25088_S32x7x112 ]
/-- Each names TensorCore buffers only, -/
theorem hostB3_tc : (hostB3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- so unscoped ones only; -/
theorem hostB3_sub : ∀ op ∈ (hostB3 : List (HloOp τ sig (Elt F))), op.bufs ⊆ Pipeline.ucRefs τ sig :=
  fun op h => Pipeline.sub_ucRefs op ((List.forall_iff_forall_mem.mp hostB3_tc) op h)
/-- and none allocates a buffer. -/
theorem hostB3_fresh : ∀ op ∈ (hostB3 : List (HloOp τ sig (Elt F))), op.fresh = ∅ :=
  List.forall_iff_forall_mem.mp (by simp only [List.Forall]; repeat' constructor)

/-- The copy of the first region's result into the buffer the second region writes. -/
abbrev cp1 : List (HloOp τ sig (Elt F)) :=
  [ StableHlo.unary main_v47 main_v48 id ]
/-- Each names TensorCore buffers only, -/
theorem cp1_tc : (cp1 : List (HloOp τ sig (Elt F))).Forall fun op => op.bufs ⊆ StableHlo.tcRefs τ sig :=
  StableHlo.unary_bufs_sub ..
/-- so unscoped ones only; -/
theorem cp1_sub : ∀ op ∈ (cp1 : List (HloOp τ sig (Elt F))), op.bufs ⊆ Pipeline.ucRefs τ sig :=
  fun op h => Pipeline.sub_ucRefs op ((List.forall_iff_forall_mem.mp cp1_tc) op h)
/-- and none allocates a buffer. -/
theorem cp1_fresh : ∀ op ∈ (cp1 : List (HloOp τ sig (Elt F))), op.fresh = ∅ :=
  List.forall_iff_forall_mem.mp (by simp only [List.Forall]; repeat' constructor)

/-- The copy of the second region's result into the buffer the third region writes. -/
abbrev cp2 : List (HloOp τ sig (Elt F)) :=
  [ StableHlo.unary main_v48 main_v49 id ]
/-- Each names TensorCore buffers only, -/
theorem cp2_tc : (cp2 : List (HloOp τ sig (Elt F))).Forall fun op => op.bufs ⊆ StableHlo.tcRefs τ sig :=
  StableHlo.unary_bufs_sub ..
/-- so unscoped ones only; -/
theorem cp2_sub : ∀ op ∈ (cp2 : List (HloOp τ sig (Elt F))), op.bufs ⊆ Pipeline.ucRefs τ sig :=
  fun op h => Pipeline.sub_ucRefs op ((List.forall_iff_forall_mem.mp cp2_tc) op h)
/-- and none allocates a buffer. -/
theorem cp2_fresh : ∀ op ∈ (cp2 : List (HloOp τ sig (Elt F))), op.fresh = ∅ :=
  List.forall_iff_forall_mem.mp (by simp only [List.Forall]; repeat' constructor)

/-- The copy of the third region's result into the buffer the fourth region writes. -/
abbrev cp3 : List (HloOp τ sig (Elt F)) :=
  [ StableHlo.unary main_v49 main_v50 id ]
/-- Each names TensorCore buffers only, -/
theorem cp3_tc : (cp3 : List (HloOp τ sig (Elt F))).Forall fun op => op.bufs ⊆ StableHlo.tcRefs τ sig :=
  StableHlo.unary_bufs_sub ..
/-- so unscoped ones only; -/
theorem cp3_sub : ∀ op ∈ (cp3 : List (HloOp τ sig (Elt F))), op.bufs ⊆ Pipeline.ucRefs τ sig :=
  fun op h => Pipeline.sub_ucRefs op ((List.forall_iff_forall_mem.mp cp3_tc) op h)
/-- and none allocates a buffer. -/
theorem cp3_fresh : ∀ op ∈ (cp3 : List (HloOp τ sig (Elt F))), op.fresh = ∅ :=
  List.forall_iff_forall_mem.mp (by simp only [List.Forall]; repeat' constructor)

/-! ## What each stretch writes, and what it leaves untouched -/

/-- The buffers `hostA` writes. -/
abbrev hostA_W : List (Ref sig .tc) := [main_c, main_v0, main_v1, main_c_0, main_v2, main_v3, main_c_1, main_v4, main_v5, main_c_2, main_v6, main_v7, main_v8, main_v9, main_v10, main_v11, main_v12, main_v13, main_v14, main_v15, main_v16, main_v17, main_v18]
theorem hostA_writes : ∀ op ∈ (hostA : List (HloOp τ sig (Elt F))), op.writes ⊆ (hostA_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostA` does not write keeps its contents through it. -/
theorem hostA_keep (W : Valuation τ sig (Elt F)) (r : Ref sig .tc) (h : r ∉ hostA_W) :
    after hostA W (Proc.devRef .tc r) = W (Proc.devRef .tc r) :=
  after_of_writes_sub hostA W (List.forall_iff_forall_mem.mpr hostA_writes) h

/-- The buffers `hostB1` writes. -/
abbrev hostB1_W : List (Ref sig .tc) := [main_v20, main_v21, main_v22, main_v23, main_v24, main_v25, main_v26, main_v27]
theorem hostB1_writes : ∀ op ∈ (hostB1 : List (HloOp τ sig (Elt F))), op.writes ⊆ (hostB1_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB1` does not write keeps its contents through it. -/
theorem hostB1_keep (W : Valuation τ sig (Elt F)) (r : Ref sig .tc) (h : r ∉ hostB1_W) :
    after hostB1 W (Proc.devRef .tc r) = W (Proc.devRef .tc r) :=
  after_of_writes_sub hostB1 W (List.forall_iff_forall_mem.mpr hostB1_writes) h

/-- The buffers `hostB2` writes. -/
abbrev hostB2_W : List (Ref sig .tc) := [main_v29, main_v30, main_v31, main_v32, main_v33, main_v34, main_v35, main_v36]
theorem hostB2_writes : ∀ op ∈ (hostB2 : List (HloOp τ sig (Elt F))), op.writes ⊆ (hostB2_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB2` does not write keeps its contents through it. -/
theorem hostB2_keep (W : Valuation τ sig (Elt F)) (r : Ref sig .tc) (h : r ∉ hostB2_W) :
    after hostB2 W (Proc.devRef .tc r) = W (Proc.devRef .tc r) :=
  after_of_writes_sub hostB2 W (List.forall_iff_forall_mem.mpr hostB2_writes) h

/-- The buffers `hostB3` writes. -/
abbrev hostB3_W : List (Ref sig .tc) := [main_v38, main_v39, main_v40, main_v41, main_v42, main_v43, main_v44, main_v45]
theorem hostB3_writes : ∀ op ∈ (hostB3 : List (HloOp τ sig (Elt F))), op.writes ⊆ (hostB3_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `hostB3` does not write keeps its contents through it. -/
theorem hostB3_keep (W : Valuation τ sig (Elt F)) (r : Ref sig .tc) (h : r ∉ hostB3_W) :
    after hostB3 W (Proc.devRef .tc r) = W (Proc.devRef .tc r) :=
  after_of_writes_sub hostB3 W (List.forall_iff_forall_mem.mpr hostB3_writes) h

/-- The buffers `cp1` writes. -/
abbrev cp1_W : List (Ref sig .tc) := [main_v48]
theorem cp1_writes : ∀ op ∈ (cp1 : List (HloOp τ sig (Elt F))), op.writes ⊆ (cp1_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp1` does not write keeps its contents through it. -/
theorem cp1_keep (W : Valuation τ sig (Elt F)) (r : Ref sig .tc) (h : r ∉ cp1_W) :
    after cp1 W (Proc.devRef .tc r) = W (Proc.devRef .tc r) :=
  after_of_writes_sub cp1 W (List.forall_iff_forall_mem.mpr cp1_writes) h

/-- The buffers `cp2` writes. -/
abbrev cp2_W : List (Ref sig .tc) := [main_v49]
theorem cp2_writes : ∀ op ∈ (cp2 : List (HloOp τ sig (Elt F))), op.writes ⊆ (cp2_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp2` does not write keeps its contents through it. -/
theorem cp2_keep (W : Valuation τ sig (Elt F)) (r : Ref sig .tc) (h : r ∉ cp2_W) :
    after cp2 W (Proc.devRef .tc r) = W (Proc.devRef .tc r) :=
  after_of_writes_sub cp2 W (List.forall_iff_forall_mem.mpr cp2_writes) h

/-- The buffers `cp3` writes. -/
abbrev cp3_W : List (Ref sig .tc) := [main_v50]
theorem cp3_writes : ∀ op ∈ (cp3 : List (HloOp τ sig (Elt F))), op.writes ⊆ (cp3_W.map (Proc.devRef (τ := τ) .tc)).toFinset := by
  intro _ h
  repeat (cases h with
    | head => simp only [nullary_writes, unary_writes, binary_writes, reshape_writes, Finset.singleton_subset_iff,
        List.mem_toFinset]; exact List.mem_map_of_mem (by decide)
    | tail _ h => ?_)
  exact nomatch h
/-- A buffer `cp3` does not write keeps its contents through it. -/
theorem cp3_keep (W : Valuation τ sig (Elt F)) (r : Ref sig .tc) (h : r ∉ cp3_W) :
    after cp3 W (Proc.devRef .tc r) = W (Proc.devRef .tc r) :=
  after_of_writes_sub cp3 W (List.forall_iff_forall_mem.mpr cp3_writes) h

/-! ## What the first stretch leaves -/

/-- `main_v1` holds `main_arg4` followed by 352 zero words. -/
theorem hostA_v1 (W : Valuation τ sig (Elt F)) :
    after hostA W (Proc.devRef .tc main_v1) = Idx.padded (W (Proc.devRef .tc main_arg4)) := by
  simp only [hostA]
  after_results_simp
  rfl

/-- `main_v3` holds `main_arg5` followed by 352 zero words. -/
theorem hostA_v3 (W : Valuation τ sig (Elt F)) :
    after hostA W (Proc.devRef .tc main_v3) = Idx.padded (W (Proc.devRef .tc main_arg5)) := by
  simp only [hostA]
  after_results_simp
  rfl

/-- `main_v5` holds `main_arg6` followed by 352 zero words. -/
theorem hostA_v5 (W : Valuation τ sig (Elt F)) :
    after hostA W (Proc.devRef .tc main_v5) = Idx.padded (W (Proc.devRef .tc main_arg6)) := by
  simp only [hostA]
  after_results_simp
  rfl

/-- `main_v7` holds `main_arg7` followed by 352 zero words. -/
theorem hostA_v7 (W : Valuation τ sig (Elt F)) :
    after hostA W (Proc.devRef .tc main_v7) = Idx.padded (W (Proc.devRef .tc main_arg7)) := by
  simp only [hostA]
  after_results_simp
  rfl

/-- `main_v8` holds `main_arg9` as one row of 512. -/
theorem hostA_v8 (W : Valuation τ sig (Elt F)) :
    after hostA W (Proc.devRef .tc main_v8) = shapeCast S1x512 (W (Proc.devRef .tc main_arg9)) shapeCasts_S512_S1x512 := by
  simp only [hostA]
  after_results_simp
  rfl

/-- `main_v9` holds `main_arg10` as one row of 512. -/
theorem hostA_v9 (W : Valuation τ sig (Elt F)) :
    after hostA W (Proc.devRef .tc main_v9) = shapeCast S1x512 (W (Proc.devRef .tc main_arg10)) shapeCasts_S512_S1x512 := by
  simp only [hostA]
  after_results_simp
  rfl

/-- `main_v10` holds `main_arg11` as one row of 512. -/
theorem hostA_v10 (W : Valuation τ sig (Elt F)) :
    after hostA W (Proc.devRef .tc main_v10) = shapeCast S1x512 (W (Proc.devRef .tc main_arg11)) shapeCasts_S512_S1x512 := by
  simp only [hostA]
  after_results_simp
  rfl

/-- `main_v12` holds stretch 0 of `main_arg4` padded, laid out as 32 x 7 x 112. -/
theorem hostA_v12 (W : Valuation τ sig (Elt F)) :
    after hostA W (Proc.devRef .tc main_v12) = Idx.slab 0 (W (Proc.devRef .tc main_arg4)) := by
  simp only [hostA]
  after_results_simp
  rfl

/-- `main_v14` holds stretch 0 of `main_arg5` padded, laid out as 32 x 7 x 112. -/
theorem hostA_v14 (W : Valuation τ sig (Elt F)) :
    after hostA W (Proc.devRef .tc main_v14) = Idx.slab 0 (W (Proc.devRef .tc main_arg5)) := by
  simp only [hostA]
  after_results_simp
  rfl

/-- `main_v16` holds stretch 0 of `main_arg6` padded, laid out as 32 x 7 x 112. -/
theorem hostA_v16 (W : Valuation τ sig (Elt F)) :
    after hostA W (Proc.devRef .tc main_v16) = Idx.slab 0 (W (Proc.devRef .tc main_arg6)) := by
  simp only [hostA]
  after_results_simp
  rfl

/-- `main_v18` holds stretch 0 of `main_arg7` padded, laid out as 32 x 7 x 112. -/
theorem hostA_v18 (W : Valuation τ sig (Elt F)) :
    after hostA W (Proc.devRef .tc main_v18) = Idx.slab 0 (W (Proc.devRef .tc main_arg7)) := by
  simp only [hostA]
  after_results_simp
  rfl

/-! ## What the later stretches leave -/

/-- `main_v21` holds stretch 1 of the index array `a`, if `main_v1` still holds `a` padded. -/
theorem hostB1_v21 (W : Valuation τ sig (Elt F)) (a : IVec S100000 32)
    (h : W (Proc.devRef .tc main_v1) = Idx.padded a) :
    after hostB1 W (Proc.devRef .tc main_v21) = Idx.slab 1 a := by
  simp only [hostB1]
  after_results_simp
  rw [h]
  rfl

/-- `main_v23` holds stretch 1 of the index array `a`, if `main_v3` still holds `a` padded. -/
theorem hostB1_v23 (W : Valuation τ sig (Elt F)) (a : IVec S100000 32)
    (h : W (Proc.devRef .tc main_v3) = Idx.padded a) :
    after hostB1 W (Proc.devRef .tc main_v23) = Idx.slab 1 a := by
  simp only [hostB1]
  after_results_simp
  rw [h]
  rfl

/-- `main_v25` holds stretch 1 of the index array `a`, if `main_v5` still holds `a` padded. -/
theorem hostB1_v25 (W : Valuation τ sig (Elt F)) (a : IVec S100000 32)
    (h : W (Proc.devRef .tc main_v5) = Idx.padded a) :
    after hostB1 W (Proc.devRef .tc main_v25) = Idx.slab 1 a := by
  simp only [hostB1]
  after_results_simp
  rw [h]
  rfl

/-- `main_v27` holds stretch 1 of the index array `a`, if `main_v7` still holds `a` padded. -/
theorem hostB1_v27 (W : Valuation τ sig (Elt F)) (a : IVec S100000 32)
    (h : W (Proc.devRef .tc main_v7) = Idx.padded a) :
    after hostB1 W (Proc.devRef .tc main_v27) = Idx.slab 1 a := by
  simp only [hostB1]
  after_results_simp
  rw [h]
  rfl

/-- `main_v30` holds stretch 2 of the index array `a`, if `main_v1` still holds `a` padded. -/
theorem hostB2_v30 (W : Valuation τ sig (Elt F)) (a : IVec S100000 32)
    (h : W (Proc.devRef .tc main_v1) = Idx.padded a) :
    after hostB2 W (Proc.devRef .tc main_v30) = Idx.slab 2 a := by
  simp only [hostB2]
  after_results_simp
  rw [h]
  rfl

/-- `main_v32` holds stretch 2 of the index array `a`, if `main_v3` still holds `a` padded. -/
theorem hostB2_v32 (W : Valuation τ sig (Elt F)) (a : IVec S100000 32)
    (h : W (Proc.devRef .tc main_v3) = Idx.padded a) :
    after hostB2 W (Proc.devRef .tc main_v32) = Idx.slab 2 a := by
  simp only [hostB2]
  after_results_simp
  rw [h]
  rfl

/-- `main_v34` holds stretch 2 of the index array `a`, if `main_v5` still holds `a` padded. -/
theorem hostB2_v34 (W : Valuation τ sig (Elt F)) (a : IVec S100000 32)
    (h : W (Proc.devRef .tc main_v5) = Idx.padded a) :
    after hostB2 W (Proc.devRef .tc main_v34) = Idx.slab 2 a := by
  simp only [hostB2]
  after_results_simp
  rw [h]
  rfl

/-- `main_v36` holds stretch 2 of the index array `a`, if `main_v7` still holds `a` padded. -/
theorem hostB2_v36 (W : Valuation τ sig (Elt F)) (a : IVec S100000 32)
    (h : W (Proc.devRef .tc main_v7) = Idx.padded a) :
    after hostB2 W (Proc.devRef .tc main_v36) = Idx.slab 2 a := by
  simp only [hostB2]
  after_results_simp
  rw [h]
  rfl

/-- `main_v39` holds stretch 3 of the index array `a`, if `main_v1` still holds `a` padded. -/
theorem hostB3_v39 (W : Valuation τ sig (Elt F)) (a : IVec S100000 32)
    (h : W (Proc.devRef .tc main_v1) = Idx.padded a) :
    after hostB3 W (Proc.devRef .tc main_v39) = Idx.slab 3 a := by
  simp only [hostB3]
  after_results_simp
  rw [h]
  rfl

/-- `main_v41` holds stretch 3 of the index array `a`, if `main_v3` still holds `a` padded. -/
theorem hostB3_v41 (W : Valuation τ sig (Elt F)) (a : IVec S100000 32)
    (h : W (Proc.devRef .tc main_v3) = Idx.padded a) :
    after hostB3 W (Proc.devRef .tc main_v41) = Idx.slab 3 a := by
  simp only [hostB3]
  after_results_simp
  rw [h]
  rfl

/-- `main_v43` holds stretch 3 of the index array `a`, if `main_v5` still holds `a` padded. -/
theorem hostB3_v43 (W : Valuation τ sig (Elt F)) (a : IVec S100000 32)
    (h : W (Proc.devRef .tc main_v5) = Idx.padded a) :
    after hostB3 W (Proc.devRef .tc main_v43) = Idx.slab 3 a := by
  simp only [hostB3]
  after_results_simp
  rw [h]
  rfl

/-- `main_v45` holds stretch 3 of the index array `a`, if `main_v7` still holds `a` padded. -/
theorem hostB3_v45 (W : Valuation τ sig (Elt F)) (a : IVec S100000 32)
    (h : W (Proc.devRef .tc main_v7) = Idx.padded a) :
    after hostB3 W (Proc.devRef .tc main_v45) = Idx.slab 3 a := by
  simp only [hostB3]
  after_results_simp
  rw [h]
  rfl

/-! ## The copies between regions -/

/-- `main_v48` holds what `main_v47` held. -/
theorem cp1_v48 (W : Valuation τ sig (Elt F)) :
    after cp1 W (Proc.devRef .tc main_v48) = W (Proc.devRef .tc main_v47) := by
  simp only [cp1]
  after_results_simp
  rfl

/-- `main_v49` holds what `main_v48` held. -/
theorem cp2_v49 (W : Valuation τ sig (Elt F)) :
    after cp2 W (Proc.devRef .tc main_v49) = W (Proc.devRef .tc main_v48) := by
  simp only [cp2]
  after_results_simp
  rfl

/-- `main_v50` holds what `main_v49` held. -/
theorem cp3_v50 (W : Valuation τ sig (Elt F)) :
    after cp3 W (Proc.devRef .tc main_v50) = W (Proc.devRef .tc main_v49) := by
  simp only [cp3]
  after_results_simp
  rfl

/-! ## @main is its stretches, calls and regions in order -/

set_option maxHeartbeats 4000000 in
theorem main_eq (d : Dev nD) :
    main (F := F) d =
      (seq hostA >>= fun _ =>
      sc.run d 0 >>= fun _ =>
      seq hostB1 >>= fun _ =>
      sc.run d 1 >>= fun _ =>
      seq hostB2 >>= fun _ =>
      sc.run d 2 >>= fun _ =>
      seq hostB3 >>= fun _ =>
      sc.run d 3 >>= fun _ =>
      Prog.lift (.customCall (SparseCore.inner (Pipeline.entry 0)) ()) >>= fun _ =>
      seq cp1 >>= fun _ =>
      Prog.lift (.customCall (SparseCore.inner (Pipeline.entry 1)) ()) >>= fun _ =>
      seq cp2 >>= fun _ =>
      Prog.lift (.customCall (SparseCore.inner (Pipeline.entry 2)) ()) >>= fun _ =>
      seq cp3 >>= fun _ =>
      Prog.lift (.customCall (SparseCore.inner (Pipeline.entry 3)) ()) >>= fun _ =>
      pure ⟨⟩) := rfl

end Cert.Kernel.Tc

end
-- ==== Proof.KScDealA.lean ====
import proofs.«215994_g5102421148354_cont_8to1c4_853_29_alg».proof.Proof.KScBase

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Dealing a call's arrays to its thirty-two tasks: the generic parts

Task `(c, i)` — SparseCore `c`, vector subcore `i` — is worker `2 i + c` of the thirty-two. An array split into thirty-two
row blocks goes block `2 i + c` to task `(c, i)`; a table read by every task goes out as read shares, the core's token of the
full share and then the subcore's token of that. -/

/-- Task `(c, i)` is worker `2 i + c`. -/
def widEquiv : Fin 2 × Fin 16 ≃ Fin 32 where
  toFun p := ⟨2 * p.2.val + p.1.val, by have := p.1.isLt; have := p.2.isLt; omega⟩
  invFun w := (⟨w.val % 2, Nat.mod_lt _ (by norm_num)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

theorem widEquiv_val (c : Fin 2) (i : Fin 16) : (widEquiv (c, i)).val = 2 * i.val + c.val := rfl

/-- Thirty-two summands, one per worker, are the tasks' summands core by core. -/
theorem bigSep_tasks32 (Φ : Fin 32 → sProp 𝕄) :
    bigSep Finset.univ Φ = bigSep Finset.univ fun c : Fin 2 => bigSep Finset.univ fun i : Fin 16 => Φ (widEquiv (c, i)) :=
  (bigSep_univ_equiv widEquiv Φ).trans (bigSep_univ_prod fun p : Fin 2 × Fin 16 => Φ (widEquiv p))

/-! ### A table every task reads: its read shares -/

/-- The read share of task `(c, i)`: the subcore's token of the core's token of the full share. -/
abbrev qTask (c : Fin 2) (i : Fin 16) : PosShare TreeShare := Transfers.shareTok (Transfers.shareTok fullShare 2 c) 16 i

section Table
variable {ℓ : Loc nD τ sig} (f : Buf (Elt F) ℓ)

/-- What is left of a table's full share once every task has its read share: the remainder after the two cores' tokens
    and, of each core's token, the remainder after its sixteen subcores' tokens. -/
def tabRest : sProp 𝕄 :=
  iprop((ℓ ↦{Transfers.shareDrop fullShare 2} f)
    ∗ bigSep Finset.univ fun c : Fin 2 => ℓ ↦{Transfers.shareDrop (Transfers.shareTok fullShare 2 c) 16} f)

/-- A table whole is the remainder and one read share per task. -/
theorem tab_split : (ℓ ↦{fullShare} f : sProp 𝕄)
    ⊢ iprop(tabRest f ∗ bigSep Finset.univ fun c : Fin 2 => bigSep Finset.univ fun i : Fin 16 => ℓ ↦{qTask c i} f) := by
  refine (Transfers.pointsTo_toks_split fullShare 2).trans ?_
  refine (sep_mono_right (bigSep_mono fun c _ => Transfers.pointsTo_toks_split (Transfers.shareTok fullShare 2 c) 16)).trans ?_
  rw [bigSep_sep']
  unfold tabRest
  iintro ⟨Hd, Hds, Hq⟩
  isplitl [Hd Hds]
  · isplitl [Hd] <;> iassumption
  · iexact Hq

/-- …and back. -/
theorem tab_join : iprop(tabRest f ∗ bigSep Finset.univ fun c : Fin 2 => bigSep Finset.univ fun i : Fin 16 => ℓ ↦{qTask c i} f)
    ⊢ (ℓ ↦{fullShare} f : sProp 𝕄) := by
  have h1 : iprop((ℓ ↦{Transfers.shareDrop fullShare 2} f)
        ∗ bigSep Finset.univ fun c : Fin 2 => iprop((ℓ ↦{Transfers.shareDrop (Transfers.shareTok fullShare 2 c) 16} f)
            ∗ bigSep Finset.univ fun i : Fin 16 => ℓ ↦{qTask c i} f))
      ⊢ (ℓ ↦{fullShare} f : sProp 𝕄) :=
    (sep_mono_right (bigSep_mono fun c _ => Transfers.pointsTo_toks_join (Transfers.shareTok fullShare 2 c) 16)).trans
      (Transfers.pointsTo_toks_join fullShare 2)
  refine (show _ ⊢ _ from ?_).trans h1
  rw [bigSep_sep']
  unfold tabRest
  iintro ⟨⟨Hd, Hds⟩, Hq⟩
  isplitl [Hd]; · iexact Hd
  isplitl [Hds] <;> iassumption

/-- A task's read share is its remainder and eleven tokens, one per copy it keeps in flight. -/
theorem tab_task (qx : PosShare TreeShare) : (ℓ ↦{qx} f : sProp 𝕄)
    ⊣⊢ iprop((ℓ ↦{Transfers.shareDrop qx 11} f) ∗ bigSep Finset.univ fun k : Fin 11 => ℓ ↦{Transfers.shareTok qx 11 k} f) :=
  Transfers.pointsTo_toks qx 11

end Table

/-! ### An index array of thirty-two rows: a row per task -/

theorem idiv : 32 ∣ S32x7x112.size 0 := ⟨1, rfl⟩
/-- Row `w` of an index array, as a rectangle of it. -/
abbrev irow (w : Fin 32) : Rect S32x7x112 := Rect.part (s := S32x7x112) (a₀ := 0) idiv w
/-- …and as a set of its indices. -/
abbrev iRowSet (w : Fin 32) : Finset S32x7x112.Idx := (irow w).set

theorem irows_disjoint : ∀ i ∈ (Finset.univ : Finset (Fin 32)), ∀ j ∈ (Finset.univ : Finset (Fin 32)), i ≠ j →
    Disjoint (iRowSet i) (iRowSet j) := fun i _ j _ h => Rect.part_disjoint idiv h
theorem irows_cover : (Finset.univ : Finset (Fin 32)).biUnion iRowSet = Finset.univ := Rect.biUnion_part idiv

/-- The worker a grid point names. -/
def widL (L : grid0.Coords) : Fin 32 := ⟨2 * (L 1).val + (L 0).val, by
  have h0 : (L 0).val < 2 := (L 0).isLt
  have h1 : (L 1).val < 16 := (L 1).isLt
  omega⟩

/-- The row the task at grid point `L` addresses is row `2 (L 1) + (L 0)`. -/
theorem irowK_eq (L : grid0.Coords) :
    Rect.unit (s := S32x7x112) (k0_off1 L) S1x7x112.size (k0_off1_inb L) = irow (widL L) := by
  unfold irow Rect.part Rect.block
  congr 1 <;> funext a
  · rw [k0_off1_eq]
    match a with
    | 0 => simp [Shape.partIx, Shape.partSize, widL]
    | 1 => simp [Shape.partIx, Shape.partSize]
    | 2 => simp [Shape.partIx, Shape.partSize]
  · match a with
    | 0 => simp [Shape.partSize]
    | 1 => simp [Shape.partSize]
    | 2 => simp [Shape.partSize]

/-! ### The call's result, 25088 × 512: blocks of 112 × 128

Row block `b` (of 224) and column block `t` (of 4) name the rectangle at rows `112 b …`, columns `128 t …`; the 896 of them
are pairwise disjoint and cover the array. Task `w` writes row blocks `7 w … 7 w + 6`. -/

/-- The block sizes. -/
abbrev oSize : Fin S25088x512.rank → Nat := ![112, 128]
/-- The block index of row block `b`, column block `t`. -/
abbrev oIx (b : Fin 224) (t : Fin 4) : Fin S25088x512.rank → Nat := ![b.val, t.val]

theorem oIx_inb (b : Fin 224) (t : Fin 4) : ∀ a, (oIx b t a + 1) * oSize a ≤ S25088x512.size a := by
  intro a
  have hb := b.isLt
  have ht := t.isLt
  match a with
  | 0 => show (b.val + 1) * 112 ≤ 25088; omega
  | 1 => show (t.val + 1) * 128 ≤ 512; omega

/-- Block `(b, t)` of the result. -/
abbrev oBlock (p : Fin 224 × Fin 4) : Rect S25088x512 := Rect.block oSize (oIx p.1 p.2) (oIx_inb p.1 p.2)
abbrev oBlockSet (p : Fin 224 × Fin 4) : Finset S25088x512.Idx := (oBlock p).set

theorem oBlocks_disjoint : ∀ p ∈ (Finset.univ : Finset (Fin 224 × Fin 4)), ∀ p' ∈ (Finset.univ : Finset (Fin 224 × Fin 4)), p ≠ p' →
    Disjoint (oBlockSet p) (oBlockSet p') := by
  intro p _ p' _ h
  refine Rect.block_disjoint _ _ fun e => h ?_
  have e0 := congrFun e 0
  have e1 := congrFun e 1
  exact Prod.ext (Fin.ext e0) (Fin.ext e1)

theorem oBlocks_cover : (Finset.univ : Finset (Fin 224 × Fin 4)).biUnion oBlockSet = Finset.univ := by
  ext j
  simp only [Finset.mem_biUnion, Finset.mem_univ, true_and, iff_true]
  have h0 : (j 0).val < 25088 := (j 0).isLt
  have h1 : (j 1).val < 512 := (j 1).isLt
  refine ⟨(⟨(j 0).val / 112, by omega⟩, ⟨(j 1).val / 128, by omega⟩), Rect.mem_set_unit.mpr fun a => ?_⟩
  match a with
  | 0 =>
    show (j 0).val / 112 * 112 ≤ (j 0).val ∧ (j 0).val < (j 0).val / 112 * 112 + 112
    omega
  | 1 =>
    show (j 1).val / 128 * 128 ≤ (j 1).val ∧ (j 1).val < (j 1).val / 128 * 128 + 128
    omega

end Cert.Kernel.Sc

end
-- ==== Proof.KScDealB.lean ====
import proofs.«215994_g5102421148354_cont_8to1c4_853_29_alg».proof.Proof.KScDealA

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Dealing a call's arrays to its tasks: rows, blocks, and the tasks' own spelling of them -/

/-! ### Small products written out -/

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

theorem bigSep_univ_seven (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

/-! ### Row blocks of the result: seven per worker -/

/-- Row block `r` of worker `w` is row block `7 w + r` of the 224. -/
def e224 : Fin 32 × Fin 7 ≃ Fin 224 where
  toFun p := ⟨7 * p.1.val + p.2.val, by have := p.1.isLt; have := p.2.isLt; omega⟩
  invFun b := (⟨b.val / 7, by have := b.isLt; omega⟩, ⟨b.val % 7, Nat.mod_lt _ (by norm_num)⟩)
  left_inv p := by
    rcases p with ⟨w, r⟩
    refine Prod.ext (Fin.ext ?_) (Fin.ext ?_)
    · show (7 * w.val + r.val) / 7 = w.val
      have := r.isLt; omega
    · show (7 * w.val + r.val) % 7 = r.val
      have := r.isLt; omega
  right_inv b := Fin.ext (by show 7 * (b.val / 7) + b.val % 7 = b.val; omega)

theorem e224_val (w : Fin 32) (r : Fin 7) : (e224 (w, r)).val = 7 * w.val + r.val := rfl

/-- 896 summands, one per block, are the tasks' summands: core, subcore, row block, column block. -/
theorem bigSep_blocks (Φ : Fin 224 × Fin 4 → sProp 𝕄) :
    bigSep Finset.univ Φ = bigSep Finset.univ fun c : Fin 2 => bigSep Finset.univ fun i : Fin 16 =>
      bigSep Finset.univ fun r : Fin 7 => bigSep Finset.univ fun t : Fin 4 => Φ (e224 (widEquiv (c, i), r), t) := by
  rw [bigSep_univ_prod Φ, bigSep_univ_equiv e224 (fun b : Fin 224 => bigSep Finset.univ fun t : Fin 4 => Φ (b, t)),
    bigSep_univ_prod (fun p : Fin 32 × Fin 7 => bigSep Finset.univ fun t : Fin 4 => Φ (e224 p, t)),
    bigSep_tasks32 (fun w : Fin 32 => bigSep Finset.univ fun r : Fin 7 => bigSep Finset.univ fun t : Fin 4 => Φ (e224 (w, r), t))]

section Arrays
variable (d : Dev nD)

/-! ### An index array whole is its thirty-two rows; the result whole is its 896 blocks -/

theorem rows_main_v12 (f : Buf (Elt F) ((SparseCore.T d).loc main_v12)) :
    ((SparseCore.T d).loc main_v12 ↦{fullShare} f : sProp 𝕄)
      = bigSep Finset.univ fun c : Fin 2 => bigSep Finset.univ fun i : Fin 16 => (SparseCore.T d).loc main_v12 ↦[iRowSet (widEquiv (c, i))]{fullShare} f := by
  rw [← bigSep_tasks32 (fun w : Fin 32 => ((SparseCore.T d).loc main_v12 ↦[iRowSet w]{fullShare} f : sProp 𝕄)),
    ← pointsTo_biUnion Finset.univ (ℓ := (SparseCore.T d).loc main_v12) iRowSet irows_disjoint, irows_cover]; try rfl
theorem rows_main_v14 (f : Buf (Elt F) ((SparseCore.T d).loc main_v14)) :
    ((SparseCore.T d).loc main_v14 ↦{fullShare} f : sProp 𝕄)
      = bigSep Finset.univ fun c : Fin 2 => bigSep Finset.univ fun i : Fin 16 => (SparseCore.T d).loc main_v14 ↦[iRowSet (widEquiv (c, i))]{fullShare} f := by
  rw [← bigSep_tasks32 (fun w : Fin 32 => ((SparseCore.T d).loc main_v14 ↦[iRowSet w]{fullShare} f : sProp 𝕄)),
    ← pointsTo_biUnion Finset.univ (ℓ := (SparseCore.T d).loc main_v14) iRowSet irows_disjoint, irows_cover]; try rfl
theorem rows_main_v16 (f : Buf (Elt F) ((SparseCore.T d).loc main_v16)) :
    ((SparseCore.T d).loc main_v16 ↦{fullShare} f : sProp 𝕄)
      = bigSep Finset.univ fun c : Fin 2 => bigSep Finset.univ fun i : Fin 16 => (SparseCore.T d).loc main_v16 ↦[iRowSet (widEquiv (c, i))]{fullShare} f := by
  rw [← bigSep_tasks32 (fun w : Fin 32 => ((SparseCore.T d).loc main_v16 ↦[iRowSet w]{fullShare} f : sProp 𝕄)),
    ← pointsTo_biUnion Finset.univ (ℓ := (SparseCore.T d).loc main_v16) iRowSet irows_disjoint, irows_cover]; try rfl
theorem rows_main_v18 (f : Buf (Elt F) ((SparseCore.T d).loc main_v18)) :
    ((SparseCore.T d).loc main_v18 ↦{fullShare} f : sProp 𝕄)
      = bigSep Finset.univ fun c : Fin 2 => bigSep Finset.univ fun i : Fin 16 => (SparseCore.T d).loc main_v18 ↦[iRowSet (widEquiv (c, i))]{fullShare} f := by
  rw [← bigSep_tasks32 (fun w : Fin 32 => ((SparseCore.T d).loc main_v18 ↦[iRowSet w]{fullShare} f : sProp 𝕄)),
    ← pointsTo_biUnion Finset.univ (ℓ := (SparseCore.T d).loc main_v18) iRowSet irows_disjoint, irows_cover]; try rfl

theorem blocks_main_v19 (f : Buf (Elt F) ((SparseCore.T d).loc main_v19)) :
    ((SparseCore.T d).loc main_v19 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v19 ↦[oBlockSet (e224 (widEquiv (c, i), r), t)]{fullShare} f := by
  rw [← bigSep_blocks (fun p : Fin 224 × Fin 4 => ((SparseCore.T d).loc main_v19 ↦[oBlockSet p]{fullShare} f : sProp 𝕄)),
    ← pointsTo_biUnion Finset.univ (ℓ := (SparseCore.T d).loc main_v19) oBlockSet oBlocks_disjoint, oBlocks_cover]; try rfl

/-- The result at anything goes out block by block, each at anything. -/
theorem blocks_split_main_v19 :
    (iprop(∃ f, (SparseCore.T d).loc main_v19 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v19 ↦[oBlockSet (e224 (widEquiv (c, i), r), t)]{fullShare} fo) := by
  refine exists_elim fun f => ?_
  rw [blocks_main_v19 d f]
  exact bigSep_mono fun c _ => bigSep_mono fun i _ => bigSep_mono fun r _ => bigSep_mono fun t _ =>
    (show ((SparseCore.T d).loc main_v19 ↦[oBlockSet (e224 (widEquiv (c, i), r), t)]{fullShare} f : sProp 𝕄)
      ⊢ iprop(∃ fo, (SparseCore.T d).loc main_v19 ↦[oBlockSet (e224 (widEquiv (c, i), r), t)]{fullShare} fo) from by
        iintro H; iexists f; iexact H)

set_option maxRecDepth 4096 in
/-- …and the blocks, each at whatever its task left, come back as the result at something. -/
theorem blocks_join_main_v19 :
    (bigSep Finset.univ fun c : Fin 2 => bigSep Finset.univ fun i : Fin 16 => bigSep Finset.univ fun r : Fin 7 =>
        bigSep Finset.univ fun t : Fin 4 => iprop(∃ fo, (SparseCore.T d).loc main_v19 ↦[oBlockSet (e224 (widEquiv (c, i), r), t)]{fullShare} fo))
      ⊢ (iprop(∃ f, (SparseCore.T d).loc main_v19 ↦{fullShare} f) : sProp 𝕄) := by
  rw [← bigSep_blocks (fun p : Fin 224 × Fin 4 => (iprop(∃ fo, (SparseCore.T d).loc main_v19 ↦[oBlockSet p]{fullShare} fo) : sProp 𝕄))]
  refine (bigSep_exists_pi Finset.univ (fun p (fo : Buf (Elt F) ((SparseCore.T d).loc main_v19)) => ((SparseCore.T d).loc main_v19 ↦[oBlockSet p]{fullShare} fo : sProp 𝕄))).trans ?_
  iintro ⟨%fs, H⟩
  have : Nonempty (Buf (Elt F) ((SparseCore.T d).loc main_v19)) := ⟨fs (0, 0)⟩
  ihave H' := (pointsTo_biUnion_join (ℓ := (SparseCore.T d).loc main_v19) (q := fullShare) (Val := Elt F) Finset.univ oBlockSet fs
    (fs (0, 0)) oBlocks_disjoint) $$ H
  icases H' with ⟨%g, -, Hg⟩
  rw [oBlocks_cover]
  iexists g; iexact Hg

end Arrays

end Cert.Kernel.Sc

end
-- ==== Proof.KScDealC.lean ====
import proofs.«215994_g5102421148354_cont_8to1c4_853_29_alg».proof.Proof.KScDealB

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## The tasks' own spelling of their row and their blocks (gather call 0)

A task addresses its row of an index array as a slice at the offsets its grid point computes, squeezed; its blocks of the
result as slices at offsets of the same kind. These are the rows and blocks of the deal. -/

section Spelling
variable (L : grid0.Coords)

theorem iRowSet_eq_main_v12 (w : Fin 32) :
    ((Memref.whole main_v12_scv : Memref sig .scVector .hbm S32x7x112 .i32).view.slice (irow w)).set = iRowSet w := by
  show ((View.whole (main_v12_scv : Ref sig .scVector)).slice (irow w)).set = _
  rw [View.set_slice]; exact Finset.map_refl
theorem set_rowK_main_v12 : (((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v12 (widL L))
  show (((Memref.whole main_v12_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v12_scv : Memref sig .scVector .hbm S32x7x112 .i32).view.slice (irow (widL L))).set
  rw [View.set_reshape]
  exact irowK_eq L ▸ rfl
theorem iRowSet_eq_main_v14 (w : Fin 32) :
    ((Memref.whole main_v14_scv : Memref sig .scVector .hbm S32x7x112 .i32).view.slice (irow w)).set = iRowSet w := by
  show ((View.whole (main_v14_scv : Ref sig .scVector)).slice (irow w)).set = _
  rw [View.set_slice]; exact Finset.map_refl
theorem set_rowK_main_v14 : (((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v14 (widL L))
  show (((Memref.whole main_v14_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v14_scv : Memref sig .scVector .hbm S32x7x112 .i32).view.slice (irow (widL L))).set
  rw [View.set_reshape]
  exact irowK_eq L ▸ rfl
theorem iRowSet_eq_main_v16 (w : Fin 32) :
    ((Memref.whole main_v16_scv : Memref sig .scVector .hbm S32x7x112 .i32).view.slice (irow w)).set = iRowSet w := by
  show ((View.whole (main_v16_scv : Ref sig .scVector)).slice (irow w)).set = _
  rw [View.set_slice]; exact Finset.map_refl
theorem set_rowK_main_v16 : (((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v16 (widL L))
  show (((Memref.whole main_v16_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v16_scv : Memref sig .scVector .hbm S32x7x112 .i32).view.slice (irow (widL L))).set
  rw [View.set_reshape]
  exact irowK_eq L ▸ rfl
theorem iRowSet_eq_main_v18 (w : Fin 32) :
    ((Memref.whole main_v18_scv : Memref sig .scVector .hbm S32x7x112 .i32).view.slice (irow w)).set = iRowSet w := by
  show ((View.whole (main_v18_scv : Ref sig .scVector)).slice (irow w)).set = _
  rw [View.set_slice]; exact Finset.map_refl
theorem set_rowK_main_v18 : (((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set = iRowSet (widL L) := by
  refine Eq.trans ?_ (iRowSet_eq_main_v18 (widL L))
  show (((Memref.whole main_v18_scv : Memref sig .scVector .hbm S32x7x112 .i32).view.slice
      (Rect.unit (s := S32x7x112) (k0_off1 L) S1x7x112.size (k0_off1_inb L))).reshape S7x112 squeezes_S1x7x112_S7x112.numel_eq).set
    = ((Memref.whole main_v18_scv : Memref sig .scVector .hbm S32x7x112 .i32).view.slice (irow (widL L))).set
  rw [View.set_reshape]
  exact irowK_eq L ▸ rfl

/-- Piece `r` of column block 0: block `(7 w + r, 0)` of the result. -/
theorem orect2_eq (r : Fin 7) :
    Rect.unit (s := S25088x512) (k0_off2 L (BitVec.ofNat 32 (112 * r.val))) S112x128.size (k0_off2_inb L r)
      = oBlock (e224 (widL L, r), 0) := by
  unfold oBlock Rect.block
  congr 1 <;> funext a
  · rw [k0_off2_eq]
    match a with
    | 0 =>
      show 1568 * (L 1).val + 784 * (L 0).val + 112 * r.val = (7 * (2 * (L 1).val + (L 0).val) + r.val) * 112
      omega
    | 1 => rfl
theorem set_piece2 (r : Fin 7) : ((Memref.whole main_v19_scv : Memref sig .scVector .hbm S25088x512 .f32).slice (Rect.unit (s := S25088x512) (k0_off2 L (BitVec.ofNat 32 (112 * r.val))) S112x128.size (k0_off2_inb L r)) (fun _ => rfl)).view.set = oBlockSet (e224 (widL L, r), 0) := by
  show ((View.whole (main_v19_scv : Ref sig .scVector)).slice
    (Rect.unit (s := S25088x512) (k0_off2 L (BitVec.ofNat 32 (112 * r.val))) S112x128.size (k0_off2_inb L r))).set = _
  rw [View.set_slice, orect2_eq L r]; exact Finset.map_refl
/-- Piece `r` of column block 1: block `(7 w + r, 1)` of the result. -/
theorem orect3_eq (r : Fin 7) :
    Rect.unit (s := S25088x512) (k0_off3 L (BitVec.ofNat 32 (112 * r.val))) S112x128.size (k0_off3_inb L r)
      = oBlock (e224 (widL L, r), 1) := by
  unfold oBlock Rect.block
  congr 1 <;> funext a
  · rw [k0_off3_eq]
    match a with
    | 0 =>
      show 1568 * (L 1).val + 784 * (L 0).val + 112 * r.val = (7 * (2 * (L 1).val + (L 0).val) + r.val) * 112
      omega
    | 1 => rfl
theorem set_piece3 (r : Fin 7) : ((Memref.whole main_v19_scv : Memref sig .scVector .hbm S25088x512 .f32).slice (Rect.unit (s := S25088x512) (k0_off3 L (BitVec.ofNat 32 (112 * r.val))) S112x128.size (k0_off3_inb L r)) (fun _ => rfl)).view.set = oBlockSet (e224 (widL L, r), 1) := by
  show ((View.whole (main_v19_scv : Ref sig .scVector)).slice
    (Rect.unit (s := S25088x512) (k0_off3 L (BitVec.ofNat 32 (112 * r.val))) S112x128.size (k0_off3_inb L r))).set = _
  rw [View.set_slice, orect3_eq L r]; exact Finset.map_refl
/-- Piece `r` of column block 2: block `(7 w + r, 2)` of the result. -/
theorem orect4_eq (r : Fin 7) :
    Rect.unit (s := S25088x512) (k0_off4 L (BitVec.ofNat 32 (112 * r.val))) S112x128.size (k0_off4_inb L r)
      = oBlock (e224 (widL L, r), 2) := by
  unfold oBlock Rect.block
  congr 1 <;> funext a
  · rw [k0_off4_eq]
    match a with
    | 0 =>
      show 1568 * (L 1).val + 784 * (L 0).val + 112 * r.val = (7 * (2 * (L 1).val + (L 0).val) + r.val) * 112
      omega
    | 1 => rfl
theorem set_piece4 (r : Fin 7) : ((Memref.whole main_v19_scv : Memref sig .scVector .hbm S25088x512 .f32).slice (Rect.unit (s := S25088x512) (k0_off4 L (BitVec.ofNat 32 (112 * r.val))) S112x128.size (k0_off4_inb L r)) (fun _ => rfl)).view.set = oBlockSet (e224 (widL L, r), 2) := by
  show ((View.whole (main_v19_scv : Ref sig .scVector)).slice
    (Rect.unit (s := S25088x512) (k0_off4 L (BitVec.ofNat 32 (112 * r.val))) S112x128.size (k0_off4_inb L r))).set = _
  rw [View.set_slice, orect4_eq L r]; exact Finset.map_refl
/-- Piece `r` of column block 3: block `(7 w + r, 3)` of the result. -/
theorem orect5_eq (r : Fin 7) :
    Rect.unit (s := S25088x512) (k0_off5 L (BitVec.ofNat 32 (112 * r.val))) S112x128.size (k0_off5_inb L r)
      = oBlock (e224 (widL L, r), 3) := by
  unfold oBlock Rect.block
  congr 1 <;> funext a
  · rw [k0_off5_eq]
    match a with
    | 0 =>
      show 1568 * (L 1).val + 784 * (L 0).val + 112 * r.val = (7 * (2 * (L 1).val + (L 0).val) + r.val) * 112
      omega
    | 1 => rfl
theorem set_piece5 (r : Fin 7) : ((Memref.whole main_v19_scv : Memref sig .scVector .hbm S25088x512 .f32).slice (Rect.unit (s := S25088x512) (k0_off5 L (BitVec.ofNat 32 (112 * r.val))) S112x128.size (k0_off5_inb L r)) (fun _ => rfl)).view.set = oBlockSet (e224 (widL L, r), 3) := by
  show ((View.whole (main_v19_scv : Ref sig .scVector)).slice
    (Rect.unit (s := S25088x512) (k0_off5 L (BitVec.ofNat 32 (112 * r.val))) S112x128.size (k0_off5_inb L r))).set = _
  rw [View.set_slice, orect5_eq L r]; exact Finset.map_refl

end Spelling

/-! ### HBM is shared: a task's name for an array's location is the TensorCore's -/

section Locations
variable (d : Dev nD) (L : grid0.Coords) (c : Fin τ.nSC) (i : Fin τ.nSub) (q : PosShare TreeShare)

theorem ptsLoc_row_main_v12 (I : Finset (Idx ((SparseCore.T d).loc main_v12))) (f : Buf (Elt F) ((SparseCore.T d).loc main_v12)) :
    ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v12 ↦[I]{q} f) := rfl
theorem ptsLoc_row_main_v14 (I : Finset (Idx ((SparseCore.T d).loc main_v14))) (f : Buf (Elt F) ((SparseCore.T d).loc main_v14)) :
    ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v14 ↦[I]{q} f) := rfl
theorem ptsLoc_row_main_v16 (I : Finset (Idx ((SparseCore.T d).loc main_v16))) (f : Buf (Elt F) ((SparseCore.T d).loc main_v16)) :
    ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v16 ↦[I]{q} f) := rfl
theorem ptsLoc_row_main_v18 (I : Finset (Idx ((SparseCore.T d).loc main_v18))) (f : Buf (Elt F) ((SparseCore.T d).loc main_v18)) :
    ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[I]{q} f : sProp 𝕄) = ((SparseCore.T d).loc main_v18 ↦[I]{q} f) := rfl
theorem ptsLoc_tab_main_arg0 (I : Finset (Idx ((SparseCore.T d).loc main_arg0))) (f : Buf (Elt F) ((SparseCore.T d).loc main_arg0)) :
    ((Memref.whole main_arg0_scv : Memref sig .scVector .hbm S100000x128 .f32).view.loc (V d c i) ↦[I]{q} f : sProp 𝕄)
      = ((SparseCore.T d).loc main_arg0 ↦[I]{q} f) := rfl
theorem ptsLoc_tab_main_arg1 (I : Finset (Idx ((SparseCore.T d).loc main_arg1))) (f : Buf (Elt F) ((SparseCore.T d).loc main_arg1)) :
    ((Memref.whole main_arg1_scv : Memref sig .scVector .hbm S100000x128 .f32).view.loc (V d c i) ↦[I]{q} f : sProp 𝕄)
      = ((SparseCore.T d).loc main_arg1 ↦[I]{q} f) := rfl
theorem ptsLoc_tab_main_arg2 (I : Finset (Idx ((SparseCore.T d).loc main_arg2))) (f : Buf (Elt F) ((SparseCore.T d).loc main_arg2)) :
    ((Memref.whole main_arg2_scv : Memref sig .scVector .hbm S100000x128 .f32).view.loc (V d c i) ↦[I]{q} f : sProp 𝕄)
      = ((SparseCore.T d).loc main_arg2 ↦[I]{q} f) := rfl
theorem ptsLoc_tab_main_arg3 (I : Finset (Idx ((SparseCore.T d).loc main_arg3))) (f : Buf (Elt F) ((SparseCore.T d).loc main_arg3)) :
    ((Memref.whole main_arg3_scv : Memref sig .scVector .hbm S100000x128 .f32).view.loc (V d c i) ↦[I]{q} f : sProp 𝕄)
      = ((SparseCore.T d).loc main_arg3 ↦[I]{q} f) := rfl
theorem ptsLoc_piece_main_v19 (off : Fin S25088x512.rank → Nat) (inb : ∀ a, off a + S112x128.size a ≤ S25088x512.size a)
    (I : Finset (Idx ((SparseCore.T d).loc main_v19))) (f : Buf (Elt F) ((SparseCore.T d).loc main_v19)) :
    (((Memref.whole main_v19_scv : Memref sig .scVector .hbm S25088x512 .f32).slice
        (Rect.unit (s := S25088x512) off S112x128.size inb) (fun _ => rfl)).view.loc (V d c i) ↦[I]{q} f : sProp 𝕄)
      = ((SparseCore.T d).loc main_v19 ↦[I]{q} f) := rfl

end Locations

end Cert.Kernel.Sc

end
-- ==== Proof.KScDeal0.lean ====
import proofs.«215994_g5102421148354_cont_8to1c4_853_29_alg».proof.Proof.KScPay
import proofs.«215994_g5102421148354_cont_8to1c4_853_29_alg».proof.Proof.KScDealC

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Gather call 0: a task's resources as it spells them are the deal's -/

theorem sepCongr {A A' B B' : sProp 𝕄} (h1 : A = A') (h2 : B = B') : (iprop(A ∗ B) : sProp 𝕄) = iprop(A' ∗ B') := by
  rw [h1, h2]

theorem tab_task_eq {ℓ : Loc nD τ sig} (f : Buf (Elt F) ℓ) (qx : PosShare TreeShare) :
    (ℓ ↦{qx} f : sProp 𝕄)
      = iprop((ℓ ↦{Transfers.shareDrop qx 11} f) ∗ bigSep Finset.univ fun k : Fin 11 => ℓ ↦{Transfers.shareTok qx 11 k} f) :=
  BI.Entails.antisymm (tab_task f qx).1 (tab_task f qx).2

section Atoms
variable (d : Dev nD) (L : grid0.Coords) (c : Fin τ.nSC) (i : Fin τ.nSub)

theorem pts_rowK_main_v12 (f : Buf (Elt F) (((SparseCore.T d).loc main_v12 : Loc nD τ sig))) :
    ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v12 ↦[iRowSet (widL L)]{fullShare} f) := by
  rw [set_rowK_main_v12]
theorem pts_rowK_main_v14 (f : Buf (Elt F) (((SparseCore.T d).loc main_v14 : Loc nD τ sig))) :
    ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v14 ↦[iRowSet (widL L)]{fullShare} f) := by
  rw [set_rowK_main_v14]
theorem pts_rowK_main_v16 (f : Buf (Elt F) (((SparseCore.T d).loc main_v16 : Loc nD τ sig))) :
    ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v16 ↦[iRowSet (widL L)]{fullShare} f) := by
  rw [set_rowK_main_v16]
theorem pts_rowK_main_v18 (f : Buf (Elt F) (((SparseCore.T d).loc main_v18 : Loc nD τ sig))) :
    ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d c i) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} f : sProp 𝕄)
      = ((SparseCore.T d).loc main_v18 ↦[iRowSet (widL L)]{fullShare} f) := by
  rw [set_rowK_main_v18]
theorem owned_piece2 (r : Fin 7) :
    ownedAny (F := F) (((Memref.whole main_v19_scv : Memref sig .scVector .hbm S25088x512 .f32).slice (Rect.unit (s := S25088x512) (k0_off2 L (BitVec.ofNat 32 (112 * r.val))) S112x128.size (k0_off2_inb L r)) (fun _ => rfl)).view.loc (V d c i)) ((Memref.whole main_v19_scv : Memref sig .scVector .hbm S25088x512 .f32).slice (Rect.unit (s := S25088x512) (k0_off2 L (BitVec.ofNat 32 (112 * r.val))) S112x128.size (k0_off2_inb L r)) (fun _ => rfl)).view.set
      = ownedAny (F := F) ((SparseCore.T d).loc main_v19) (oBlockSet (e224 (widL L, r), 0)) := by
  rw [set_piece2]
theorem owned_piece3 (r : Fin 7) :
    ownedAny (F := F) (((Memref.whole main_v19_scv : Memref sig .scVector .hbm S25088x512 .f32).slice (Rect.unit (s := S25088x512) (k0_off3 L (BitVec.ofNat 32 (112 * r.val))) S112x128.size (k0_off3_inb L r)) (fun _ => rfl)).view.loc (V d c i)) ((Memref.whole main_v19_scv : Memref sig .scVector .hbm S25088x512 .f32).slice (Rect.unit (s := S25088x512) (k0_off3 L (BitVec.ofNat 32 (112 * r.val))) S112x128.size (k0_off3_inb L r)) (fun _ => rfl)).view.set
      = ownedAny (F := F) ((SparseCore.T d).loc main_v19) (oBlockSet (e224 (widL L, r), 1)) := by
  rw [set_piece3]
theorem owned_piece4 (r : Fin 7) :
    ownedAny (F := F) (((Memref.whole main_v19_scv : Memref sig .scVector .hbm S25088x512 .f32).slice (Rect.unit (s := S25088x512) (k0_off4 L (BitVec.ofNat 32 (112 * r.val))) S112x128.size (k0_off4_inb L r)) (fun _ => rfl)).view.loc (V d c i)) ((Memref.whole main_v19_scv : Memref sig .scVector .hbm S25088x512 .f32).slice (Rect.unit (s := S25088x512) (k0_off4 L (BitVec.ofNat 32 (112 * r.val))) S112x128.size (k0_off4_inb L r)) (fun _ => rfl)).view.set
      = ownedAny (F := F) ((SparseCore.T d).loc main_v19) (oBlockSet (e224 (widL L, r), 2)) := by
  rw [set_piece4]
theorem owned_piece5 (r : Fin 7) :
    ownedAny (F := F) (((Memref.whole main_v19_scv : Memref sig .scVector .hbm S25088x512 .f32).slice (Rect.unit (s := S25088x512) (k0_off5 L (BitVec.ofNat 32 (112 * r.val))) S112x128.size (k0_off5_inb L r)) (fun _ => rfl)).view.loc (V d c i)) ((Memref.whole main_v19_scv : Memref sig .scVector .hbm S25088x512 .f32).slice (Rect.unit (s := S25088x512) (k0_off5 L (BitVec.ofNat 32 (112 * r.val))) S112x128.size (k0_off5_inb L r)) (fun _ => rfl)).view.set
      = ownedAny (F := F) ((SparseCore.T d).loc main_v19) (oBlockSet (e224 (widL L, r), 3)) := by
  rw [set_piece5]

end Atoms

/-- A task's forty holdings in the deal's terms, in the order the task lists them: its row `w` of the four index arrays;
    of each table the remainder of its read share `qx` and the eleven tokens; its 28 blocks of the result at anything. -/
def chain0 (d : Dev nD) (w : Fin 32) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v12 ↦[iRowSet w]{fullShare} fi0)
    ∗ ((SparseCore.T d).loc main_v14 ↦[iRowSet w]{fullShare} fi1)
    ∗ ((SparseCore.T d).loc main_v16 ↦[iRowSet w]{fullShare} fi2)
    ∗ ((SparseCore.T d).loc main_v18 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v19) (oBlockSet (e224 (w, 0), 0))
    ∗ ownedAny (F := F) ((SparseCore.T d).loc main_v19) (oBlockSet (e224 (w, 1), 0))
    ∗ ownedAny (F := F) ((SparseCore.T d).loc main_v19) (oBlockSet (e224 (w, 2), 0))
    ∗ ownedAny (F := F) ((SparseCore.T d).loc main_v19) (oBlockSet (e224 (w, 3), 0))
    ∗ ownedAny (F := F) ((SparseCore.T d).loc main_v19) (oBlockSet (e224 (w, 4), 0))
    ∗ ownedAny (F := F) ((SparseCore.T d).loc main_v19) (oBlockSet (e224 (w, 5), 0))
    ∗ ownedAny (F := F) ((SparseCore.T d).loc main_v19) (oBlockSet (e224 (w, 6), 0))
    ∗ ownedAny (F := F) ((SparseCore.T d).loc main_v19) (oBlockSet (e224 (w, 0), 1))
    ∗ ownedAny (F := F) ((SparseCore.T d).loc main_v19) (oBlockSet (e224 (w, 1), 1))
    ∗ ownedAny (F := F) ((SparseCore.T d).loc main_v19) (oBlockSet (e224 (w, 2), 1))
    ∗ ownedAny (F := F) ((SparseCore.T d).loc main_v19) (oBlockSet (e224 (w, 3), 1))
    ∗ ownedAny (F := F) ((SparseCore.T d).loc main_v19) (oBlockSet (e224 (w, 4), 1))
    ∗ ownedAny (F := F) ((SparseCore.T d).loc main_v19) (oBlockSet (e224 (w, 5), 1))
    ∗ ownedAny (F := F) ((SparseCore.T d).loc main_v19) (oBlockSet (e224 (w, 6), 1))
    ∗ ownedAny (F := F) ((SparseCore.T d).loc main_v19) (oBlockSet (e224 (w, 0), 2))
    ∗ ownedAny (F := F) ((SparseCore.T d).loc main_v19) (oBlockSet (e224 (w, 1), 2))
    ∗ ownedAny (F := F) ((SparseCore.T d).loc main_v19) (oBlockSet (e224 (w, 2), 2))
    ∗ ownedAny (F := F) ((SparseCore.T d).loc main_v19) (oBlockSet (e224 (w, 3), 2))
    ∗ ownedAny (F := F) ((SparseCore.T d).loc main_v19) (oBlockSet (e224 (w, 4), 2))
    ∗ ownedAny (F := F) ((SparseCore.T d).loc main_v19) (oBlockSet (e224 (w, 5), 2))
    ∗ ownedAny (F := F) ((SparseCore.T d).loc main_v19) (oBlockSet (e224 (w, 6), 2))
    ∗ ownedAny (F := F) ((SparseCore.T d).loc main_v19) (oBlockSet (e224 (w, 0), 3))
    ∗ ownedAny (F := F) ((SparseCore.T d).loc main_v19) (oBlockSet (e224 (w, 1), 3))
    ∗ ownedAny (F := F) ((SparseCore.T d).loc main_v19) (oBlockSet (e224 (w, 2), 3))
    ∗ ownedAny (F := F) ((SparseCore.T d).loc main_v19) (oBlockSet (e224 (w, 3), 3))
    ∗ ownedAny (F := F) ((SparseCore.T d).loc main_v19) (oBlockSet (e224 (w, 4), 3))
    ∗ ownedAny (F := F) ((SparseCore.T d).loc main_v19) (oBlockSet (e224 (w, 5), 3))
    ∗ ownedAny (F := F) ((SparseCore.T d).loc main_v19) (oBlockSet (e224 (w, 6), 3)))

theorem widL_coordsV0 (c : Fin 2) (i : Fin 16) : widL (coordsV0 c i) = widEquiv (c, i) := Fin.ext rfl

set_option maxRecDepth 8192 in
set_option maxHeartbeats 1000000 in
theorem tileRes0_chain (d : Dev nD) (c : Fin 2) (i : Fin 16) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes0 d (coordsV0 c i) qx fi0 fi1 fi2 fi3 fx0 fx1 fx2 fx3 = chain0 d (widL (coordsV0 c i)) qx fi0 fi1 fi2 fi3 fx0 fx1 fx2 fx3 := by
  unfold tileRes0 chain0
  exact (sepCongr (pts_rowK_main_v12 d (coordsV0 c i) _ _ _) (sepCongr (pts_rowK_main_v14 d (coordsV0 c i) _ _ _) (sepCongr (pts_rowK_main_v16 d (coordsV0 c i) _ _ _) (sepCongr (pts_rowK_main_v18 d (coordsV0 c i) _ _ _) (sepCongr rfl (sepCongr rfl (sepCongr rfl (sepCongr rfl (sepCongr rfl (sepCongr rfl (sepCongr rfl (sepCongr rfl (sepCongr (owned_piece2 d (coordsV0 c i) _ _ 0) (sepCongr (owned_piece2 d (coordsV0 c i) _ _ 1) (sepCongr (owned_piece2 d (coordsV0 c i) _ _ 2) (sepCongr (owned_piece2 d (coordsV0 c i) _ _ 3) (sepCongr (owned_piece2 d (coordsV0 c i) _ _ 4) (sepCongr (owned_piece2 d (coordsV0 c i) _ _ 5) (sepCongr (owned_piece2 d (coordsV0 c i) _ _ 6) (sepCongr (owned_piece3 d (coordsV0 c i) _ _ 0) (sepCongr (owned_piece3 d (coordsV0 c i) _ _ 1) (sepCongr (owned_piece3 d (coordsV0 c i) _ _ 2) (sepCongr (owned_piece3 d (coordsV0 c i) _ _ 3) (sepCongr (owned_piece3 d (coordsV0 c i) _ _ 4) (sepCongr (owned_piece3 d (coordsV0 c i) _ _ 5) (sepCongr (owned_piece3 d (coordsV0 c i) _ _ 6) (sepCongr (owned_piece4 d (coordsV0 c i) _ _ 0) (sepCongr (owned_piece4 d (coordsV0 c i) _ _ 1) (sepCongr (owned_piece4 d (coordsV0 c i) _ _ 2) (sepCongr (owned_piece4 d (coordsV0 c i) _ _ 3) (sepCongr (owned_piece4 d (coordsV0 c i) _ _ 4) (sepCongr (owned_piece4 d (coordsV0 c i) _ _ 5) (sepCongr (owned_piece4 d (coordsV0 c i) _ _ 6) (sepCongr (owned_piece5 d (coordsV0 c i) _ _ 0) (sepCongr (owned_piece5 d (coordsV0 c i) _ _ 1) (sepCongr (owned_piece5 d (coordsV0 c i) _ _ 2) (sepCongr (owned_piece5 d (coordsV0 c i) _ _ 3) (sepCongr (owned_piece5 d (coordsV0 c i) _ _ 4) (sepCongr (owned_piece5 d (coordsV0 c i) _ _ 5) (owned_piece5 d (coordsV0 c i) _ _ 6))))))))))))))))))))))))))))))))))))))))

/-- The proof mode's `∗` is the concrete one: commutative and associative as equalities. -/
local instance sepPM_comm : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

variable (m : (ℓ : Loc nD τ sig) → Buf (Elt F) ℓ)

/-- What task `(c, i)` of gather call 0 holds, regrouped: its row of the four index arrays, its read share of the four tables,
    its 28 blocks of the result at anything. -/
def nice0 (d : Dev nD) (c : Fin 2) (i : Fin 16) : sProp 𝕄 :=
  iprop(
      ((SparseCore.T d).loc main_v12 ↦[iRowSet (widEquiv (c, i))]{fullShare} (Idx.slab 0 (m ((SparseCore.T d).loc main_arg4))))
    ∗ ((SparseCore.T d).loc main_v14 ↦[iRowSet (widEquiv (c, i))]{fullShare} (Idx.slab 0 (m ((SparseCore.T d).loc main_arg5))))
    ∗ ((SparseCore.T d).loc main_v16 ↦[iRowSet (widEquiv (c, i))]{fullShare} (Idx.slab 0 (m ((SparseCore.T d).loc main_arg6))))
    ∗ ((SparseCore.T d).loc main_v18 ↦[iRowSet (widEquiv (c, i))]{fullShare} (Idx.slab 0 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v19 ↦[oBlockSet (e224 (widEquiv (c, i), r), t)]{fullShare} fo))

set_option maxRecDepth 8192 in
set_option maxHeartbeats 1000000 in
theorem chain0_nice (d : Dev nD) (c : Fin 2) (i : Fin 16) :
    chain0 d (widEquiv (c, i)) (qTask c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) = nice0 m d c i := by
  unfold chain0 nice0 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes0_nice (d : Dev nD) (c : Fin 2) (i : Fin 16) : taskRes m 0 d c i = nice0 m d c i := by
  show tileRes0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) = _
  rw [tileRes0_chain, widL_coordsV0]
  exact chain0_nice m d c i

/-- All thirty-two tasks' holdings, array by array. -/
theorem tasks0_eq (d : Dev nD) :
    (bigSep Finset.univ fun c : Fin 2 => bigSep Finset.univ fun i : Fin 16 => taskRes m 0 d c i)
      = iprop((bigSep Finset.univ fun c : Fin 2 => bigSep Finset.univ fun i : Fin 16 => ((SparseCore.T d).loc main_v12 ↦[iRowSet (widEquiv (c, i))]{fullShare} (Idx.slab 0 (m ((SparseCore.T d).loc main_arg4)))))
        ∗ (bigSep Finset.univ fun c : Fin 2 => bigSep Finset.univ fun i : Fin 16 => ((SparseCore.T d).loc main_v14 ↦[iRowSet (widEquiv (c, i))]{fullShare} (Idx.slab 0 (m ((SparseCore.T d).loc main_arg5)))))
        ∗ (bigSep Finset.univ fun c : Fin 2 => bigSep Finset.univ fun i : Fin 16 => ((SparseCore.T d).loc main_v16 ↦[iRowSet (widEquiv (c, i))]{fullShare} (Idx.slab 0 (m ((SparseCore.T d).loc main_arg6)))))
        ∗ (bigSep Finset.univ fun c : Fin 2 => bigSep Finset.univ fun i : Fin 16 => ((SparseCore.T d).loc main_v18 ↦[iRowSet (widEquiv (c, i))]{fullShare} (Idx.slab 0 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v19 ↦[oBlockSet (e224 (widEquiv (c, i), r), t)]{fullShare} fo))) := by
  have h : (fun c : Fin 2 => bigSep Finset.univ fun i : Fin 16 => taskRes m 0 d c i)
      = fun c : Fin 2 => bigSep Finset.univ fun i : Fin 16 => nice0 m d c i :=
    funext fun c => congrArg (bigSep Finset.univ) (funext fun i => taskRes0_nice m d c i)
  rw [h]
  unfold nice0
  simp only [bigSep_sep']

/-- What gather call 0 takes whole: the four index arrays at their stretch, the four tables, the result at anything. -/
def whole0 (d : Dev nD) : sProp 𝕄 :=
  iprop(((SparseCore.T d).loc main_v12 ↦{fullShare} (Idx.slab 0 (m ((SparseCore.T d).loc main_arg4)))) ∗ ((SparseCore.T d).loc main_v14 ↦{fullShare} (Idx.slab 0 (m ((SparseCore.T d).loc main_arg5))))
    ∗ ((SparseCore.T d).loc main_v16 ↦{fullShare} (Idx.slab 0 (m ((SparseCore.T d).loc main_arg6)))) ∗ ((SparseCore.T d).loc main_v18 ↦{fullShare} (Idx.slab 0 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v19 ↦{fullShare} f)

/-- What is left of the four tables' full shares beside the tasks' read shares. -/
def rest0 (d : Dev nD) : sProp 𝕄 :=
  iprop(tabRest (F := F) (m ((SparseCore.T d).loc main_arg0)) ∗ tabRest (F := F) (m ((SparseCore.T d).loc main_arg1)) ∗ tabRest (F := F) (m ((SparseCore.T d).loc main_arg2)) ∗ tabRest (F := F) (m ((SparseCore.T d).loc main_arg3)))

/-- THE DEAL: the call's arrays whole are the tables' remainders and every task's holdings. -/
theorem deal0_split (d : Dev nD) :
    whole0 m d ⊢ iprop(rest0 m d ∗ bigSep Finset.univ fun c : Fin 2 => bigSep Finset.univ fun i : Fin 16 => taskRes m 0 d c i) := by
  rw [tasks0_eq]
  unfold whole0 rest0
  rw [rows_main_v12 d, rows_main_v14 d, rows_main_v16 d, rows_main_v18 d]
  iintro ⟨H12, H14, H16, H18, Hx0, Hx1, Hx2, Hx3, Ho⟩
  ihave Hx0 := (tab_split (m ((SparseCore.T d).loc main_arg0))) $$ Hx0
  ihave Hx1 := (tab_split (m ((SparseCore.T d).loc main_arg1))) $$ Hx1
  ihave Hx2 := (tab_split (m ((SparseCore.T d).loc main_arg2))) $$ Hx2
  ihave Hx3 := (tab_split (m ((SparseCore.T d).loc main_arg3))) $$ Hx3
  ihave Ho := (blocks_split_main_v19 d) $$ Ho
  icases Hx0 with ⟨Hr0, Hq0⟩
  icases Hx1 with ⟨Hr1, Hq1⟩
  icases Hx2 with ⟨Hr2, Hq2⟩
  icases Hx3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Ho

/-- …and back, the result at whatever the tasks left. -/
theorem deal0_join (d : Dev nD) :
    iprop(rest0 m d ∗ bigSep Finset.univ fun c : Fin 2 => bigSep Finset.univ fun i : Fin 16 => taskRes m 0 d c i) ⊢ whole0 m d := by
  rw [tasks0_eq]
  unfold whole0 rest0
  rw [rows_main_v12 d, rows_main_v14 d, rows_main_v16 d, rows_main_v18 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v19 d); iexact Ho

end Cert.Kernel.Sc

end
-- ==== Proof.KScCall0.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.KScLaunch
import proofs.«215994_g5102421148354_cont_8to1c4_853_29_alg».proof.Proof.KMainCut
import proofs.«215994_g5102421148354_cont_8to1c4_853_29_alg».proof.Proof.KScDeal0

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 0 works on: its four index arrays, the four tables, its result. -/
abbrev l9_0 : List (DevRef τ sig) := [dr main_v12, dr main_v14, dr main_v16, dr main_v18, dr main_arg0, dr main_arg1, dr main_arg2, dr main_arg3, dr main_v19]
theorem l9_0_sub : (l9_0).toFinset ⊆ Pipeline.ucRefs τ sig := by decide
theorem l9_0_nodup : (l9_0).Nodup := by decide

theorem held9_0 (d : Dev nD) (W : Valuation τ sig (Elt F)) :
    (held (d.tc : Thread nD τ) (l9_0).toFinset W : sProp 𝕄)
      = iprop((((d, dr main_v12) : Loc nD τ sig) ↦{fullShare} W (dr main_v12)) ∗ (((d, dr main_v14) : Loc nD τ sig) ↦{fullShare} W (dr main_v14))
          ∗ (((d, dr main_v16) : Loc nD τ sig) ↦{fullShare} W (dr main_v16)) ∗ (((d, dr main_v18) : Loc nD τ sig) ↦{fullShare} W (dr main_v18))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v19) : Loc nD τ sig) ↦{fullShare} W (dr main_v19))) := by
  unfold held
  rw [bigSep_eq_bigSepL _ l9_0_nodup]
  rfl

/-- A SparseCore's share of call 0, over the two SparseCores: the thirty-two tasks'. -/
theorem st0_eq (d : Dev nD) :
    (bigSep Finset.univ fun c : Fin ((K (F := F)).nCore 0) => (P m).st 0 d c)
      = bigSep Finset.univ fun c : Fin 2 => bigSep Finset.univ fun i : Fin 16 => taskRes m 0 d c i :=
  bigSep_congr fun c _ =>
    show (bigSep Finset.univ fun i : Fin 16 => taskRes m 0 d (Fin.cast (nCore_eq 0) c) i) = bigSep Finset.univ fun i : Fin 16 => taskRes m 0 d c i from
      bigSep_congr fun i _ => congrArg (fun c' => taskRes m 0 d c' i) (Fin.ext rfl)

theorem dn0_eq (d : Dev nD) :
    (bigSep Finset.univ fun c : Fin ((K (F := F)).nCore 0) => (P m).dn 0 d c)
      = bigSep Finset.univ fun c : Fin 2 => bigSep Finset.univ fun i : Fin 16 => taskRes m 0 d c i :=
  bigSep_congr fun c _ =>
    show (bigSep Finset.univ fun i : Fin 16 => taskRes m 0 d (Fin.cast (nCore_eq 0) c) i) = bigSep Finset.univ fun i : Fin 16 => taskRes m 0 d c i from
      bigSep_congr fun i _ => congrArg (fun c' => taskRes m 0 d c' i) (Fin.ext rfl)

set_option maxHeartbeats 4000000 in
theorem call_step0 (κ : GSem nD τ sig → ℕ) (d : Dev nD) (W : Valuation τ sig (Elt F))
    (h12 : W (dr main_v12) = Idx.slab 0 (m ((SparseCore.T d).loc main_arg4))) (h14 : W (dr main_v14) = Idx.slab 0 (m ((SparseCore.T d).loc main_arg5)))
    (h16 : W (dr main_v16) = Idx.slab 0 (m ((SparseCore.T d).loc main_arg6))) (h18 : W (dr main_v18) = Idx.slab 0 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 0 ∗ held (d.tc : Thread nD τ) (Pipeline.ucRefs τ sig) W
        ∗ (∀ f : Buf (Elt F) ((SparseCore.T d).loc main_v19),
            iprop((K (F := F)).tcSt EH d 1 ∗ held (d.tc : Thread nD τ) (Pipeline.ucRefs τ sig) (Function.update W (dr main_v19) f)) -∗ Φ ⟨⟩))
      ⊢ wp frame (wpE ((K (F := F)).defs (D (F := F))) 𝒱 (SparseCore.T d) none) Set.univ ((K (F := F)).run d 0) Φ := by
  rw [held_sub_split (c := (d.tc : Thread nD τ)) l9_0_sub W, held9_0, h12, h14, h16, h18, ha0, ha1, ha2, ha3]
  iintro ⟨#Hctx, Hst, ⟨⟨H12, H14, H16, H18, A0, A1, A2, A3, O19⟩, Hrest⟩, Hk⟩
  ihave Hw := (deal0_split m d) $$ [H12 H14 H16 H18 A0 A1 A2 A3 O19]
  · unfold whole0
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 0) $$ [Hst Htasks Hr0 Hrest Hk]
  isplitr; · iexact Hctx
  isplitl [Hst]; · iexact Hst
  isplitl [Htasks]; · rw [st0_eq]; iexact Htasks
  iintro ⟨Hst, Hdn⟩
  ihave Hdn' := (Entails.of_eq (dn0_eq m d)) $$ Hdn
  ihave Hw2 := (deal0_join m d) $$ [Hr0 Hdn']
  · isplitl [Hr0] <;> iassumption
  unfold whole0
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_0_sub (Function.update W (dr main_v19) f), held9_0,
    Function.update_of_ne (show dr main_v12 ≠ dr main_v19 by decide), Function.update_of_ne (show dr main_v14 ≠ dr main_v19 by decide), Function.update_of_ne (show dr main_v16 ≠ dr main_v19 by decide), Function.update_of_ne (show dr main_v18 ≠ dr main_v19 by decide), Function.update_of_ne (show dr main_arg0 ≠ dr main_v19 by decide), Function.update_of_ne (show dr main_arg1 ≠ dr main_v19 by decide), Function.update_of_ne (show dr main_arg2 ≠ dr main_v19 by decide), Function.update_of_ne (show dr main_arg3 ≠ dr main_v19 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v19) f) (V' := W) (fun b hb =>
    Function.update_of_ne (fun e => (Finset.mem_sdiff.mp hb).2 (e ▸ (by decide : dr main_v19 ∈ (l9_0).toFinset))) _ _)]
  iexact Hrest

end Cert.Kernel.Sc
end
-- ==== Proof.KScDeal1.lean ====
import proofs.«215994_g5102421148354_cont_8to1c4_853_29_alg».proof.Proof.KScDeal0

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Gather call 1: its arrays dealt to its thirty-two tasks, and back

The same deal as call 0's over this call's index stretches, result array and offset functions. -/

local instance sepPM_comm1 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc1 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 1 names. -/
def widL1 (L : grid1.Coords) : Fin 32 := ⟨2 * (L 1).val + (L 0).val, by
  have h0 : (L 0).val < 2 := (L 0).isLt
  have h1 : (L 1).val < 16 := (L 1).isLt
  omega⟩

theorem irowK1_eq (L : grid1.Coords) :
    Rect.unit (s := S32x7x112) (k1_off1 L) S1x7x112.size (k1_off1_inb L) = irow (widL1 L) := by
  unfold irow Rect.part Rect.block
  congr 1 <;> funext a
  · rw [k1_off1_eq]
    match a with
    | 0 => simp [Shape.partIx, Shape.partSize, widL1]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v21 (f : Buf (Elt F) ((SparseCore.T d).loc main_v21)) :
    ((SparseCore.T d).loc main_v21 ↦{fullShare} f : sProp 𝕄)
      = bigSep Finset.univ fun c : Fin 2 => bigSep Finset.univ fun i : Fin 16 => (SparseCore.T d).loc main_v21 ↦[iRowSet (widEquiv (c, i))]{fullShare} f := by
  rw [← bigSep_tasks32 (fun w : Fin 32 => ((SparseCore.T d).loc main_v21 ↦[iRowSet w]{fullShare} f : sProp 𝕄)),
    ← pointsTo_biUnion Finset.univ (ℓ := (SparseCore.T d).loc main_v21) iRowSet irows_disjoint, irows_cover]; try rfl
theorem rows_main_v23 (f : Buf (Elt F) ((SparseCore.T d).loc main_v23)) :
    ((SparseCore.T d).loc main_v23 ↦{fullShare} f : sProp 𝕄)
      = bigSep Finset.univ fun c : Fin 2 => bigSep Finset.univ fun i : Fin 16 => (SparseCore.T d).loc main_v23 ↦[iRowSet (widEquiv (c, i))]{fullShare} f := by
  rw [← bigSep_tasks32 (fun w : Fin 32 => ((SparseCore.T d).loc main_v23 ↦[iRowSet w]{fullShare} f : sProp 𝕄)),
    ← pointsTo_biUnion Finset.univ (ℓ := (SparseCore.T d).loc main_v23) iRowSet irows_disjoint, irows_cover]; try rfl
theorem rows_main_v25 (f : Buf (Elt F) ((SparseCore.T d).loc main_v25)) :
    ((SparseCore.T d).loc main_v25 ↦{fullShare} f : sProp 𝕄)
      = bigSep Finset.univ fun c : Fin 2 => bigSep Finset.univ fun i : Fin 16 => (SparseCore.T d).loc main_v25 ↦[iRowSet (widEquiv (c, i))]{fullShare} f := by
  rw [← bigSep_tasks32 (fun w : Fin 32 => ((SparseCore.T d).loc main_v25 ↦[iRowSet w]{fullShare} f : sProp 𝕄)),
    ← pointsTo_biUnion Finset.univ (ℓ := (SparseCore.T d).loc main_v25) iRowSet irows_disjoint, irows_cover]; try rfl
theorem rows_main_v27 (f : Buf (Elt F) ((SparseCore.T d).loc main_v27)) :
    ((SparseCore.T d).loc main_v27 ↦{fullShare} f : sProp 𝕄)
      = bigSep Finset.univ fun c : Fin 2 => bigSep Finset.univ fun i : Fin 16 => (SparseCore.T d).loc main_v27 ↦[iRowSet (widEquiv (c, i))]{fullShare} f := by
  rw [← bigSep_tasks32 (fun w : Fin 32 => ((SparseCore.T d).loc main_v27 ↦[iRowSet w]{fullShare} f : sProp 𝕄)),
    ← pointsTo_biUnion Finset.univ (ℓ := (SparseCore.T d).loc main_v27) iRowSet irows_disjoint, irows_cover]; try rfl

theorem blocks_main_v28 (f : Buf (Elt F) ((SparseCore.T d).loc main_v28)) :
    ((SparseCore.T d).loc main_v28 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v28 ↦[oBlockSet (e224 (widEquiv (c, i), r), t)]{fullShare} f := by
  rw [← bigSep_blocks (fun p : Fin 224 × Fin 4 => ((SparseCore.T d).loc main_v28 ↦[oBlockSet p]{fullShare} f : sProp 𝕄)),
    ← pointsTo_biUnion Finset.univ (ℓ := (SparseCore.T d).loc main_v28) oBlockSet oBlocks_disjoint, oBlocks_cover]; try rfl

theorem blocks_split_main_v28 :
    (iprop(∃ f, (SparseCore.T d).loc main_v28 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v28 ↦[oBlockSet (e224 (widEquiv (c, i), r), t)]{fullShare} fo) := by
  refine exists_elim fun f => ?_
  rw [blocks_main_v28 d f]
  exact bigSep_mono fun c _ => bigSep_mono fun i _ => bigSep_mono fun r _ => bigSep_mono fun t _ =>
    (show ((SparseCore.T d).loc main_v28 ↦[oBlockSet (e224 (widEquiv (c, i), r), t)]{fullShare} f : sProp 𝕄)
      ⊢ iprop(∃ fo, (SparseCore.T d).loc main_v28 ↦[oBlockSet (e224 (widEquiv (c, i), r), t)]{fullShare} fo) from by
        iintro H; iexists f; iexact H)

set_option maxRecDepth 4096 in
theorem blocks_join_main_v28 :
    (bigSep Finset.univ fun c : Fin 2 => bigSep Finset.univ fun i : Fin 16 => bigSep Finset.univ fun r : Fin 7 =>
        bigSep Finset.univ fun t : Fin 4 => iprop(∃ fo, (SparseCore.T d).loc main_v28 ↦[oBlockSet (e224 (widEquiv (c, i), r), t)]{fullShare} fo))
      ⊢ (iprop(∃ f, (SparseCore.T d).loc main_v28 ↦{fullShare} f) : sProp 𝕄) := by
  rw [← bigSep_blocks (fun p : Fin 224 × Fin 4 => (iprop(∃ fo, (SparseCore.T d).loc main_v28 ↦[oBlockSet p]{fullShare} fo) : sProp 𝕄))]
  refine (bigSep_exists_pi Finset.univ (fun p (fo : Buf (Elt F) ((SparseCore.T d).loc main_v28)) => ((SparseCore.T d).loc main_v28 ↦[oBlockSet p]{fullShare} fo : sProp 𝕄))).trans ?_
  iintro ⟨%fs, H⟩
  have : Nonempty (Buf (Elt F) ((SparseCore.T d).loc main_v28)) := ⟨fs (0, 0)⟩
  ihave H' := (pointsTo_biUnion_join (ℓ := (SparseCore.T d).loc main_v28) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid1.Coords)

theorem iRowSet_eq_main_v21 (w : Fin 32) :
    ((Memref.whole main_v21_scv : Memref sig .scVector .hbm S32x7x112 .i32).view.slice (irow w)).set = iRowSet w := by
  show ((View.whole (main_v21_scv : Ref sig .scVector)).slice (irow w)).set = _
  rw [View.set_slice]; exact Finset.map_refl
theorem set_rowK_main_v21 : (((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v21 (widL1 L))
  show (((Memref.whole main_v21_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v21_scv : Memref sig .scVector .hbm S32x7x112 .i32).view.slice (irow (widL1 L))).set
  rw [View.set_reshape]
  exact irowK1_eq L ▸ rfl
theorem iRowSet_eq_main_v23 (w : Fin 32) :
    ((Memref.whole main_v23_scv : Memref sig .scVector .hbm S32x7x112 .i32).view.slice (irow w)).set = iRowSet w := by
  show ((View.whole (main_v23_scv : Ref sig .scVector)).slice (irow w)).set = _
  rw [View.set_slice]; exact Finset.map_refl
theorem set_rowK_main_v23 : (((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v23 (widL1 L))
  show (((Memref.whole main_v23_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v23_scv : Memref sig .scVector .hbm S32x7x112 .i32).view.slice (irow (widL1 L))).set
  rw [View.set_reshape]
  exact irowK1_eq L ▸ rfl
theorem iRowSet_eq_main_v25 (w : Fin 32) :
    ((Memref.whole main_v25_scv : Memref sig .scVector .hbm S32x7x112 .i32).view.slice (irow w)).set = iRowSet w := by
  show ((View.whole (main_v25_scv : Ref sig .scVector)).slice (irow w)).set = _
  rw [View.set_slice]; exact Finset.map_refl
theorem set_rowK_main_v25 : (((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v25 (widL1 L))
  show (((Memref.whole main_v25_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v25_scv : Memref sig .scVector .hbm S32x7x112 .i32).view.slice (irow (widL1 L))).set
  rw [View.set_reshape]
  exact irowK1_eq L ▸ rfl
theorem iRowSet_eq_main_v27 (w : Fin 32) :
    ((Memref.whole main_v27_scv : Memref sig .scVector .hbm S32x7x112 .i32).view.slice (irow w)).set = iRowSet w := by
  show ((View.whole (main_v27_scv : Ref sig .scVector)).slice (irow w)).set = _
  rw [View.set_slice]; exact Finset.map_refl
theorem set_rowK_main_v27 : (((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set = iRowSet (widL1 L) := by
  refine Eq.trans ?_ (iRowSet_eq_main_v27 (widL1 L))
  show (((Memref.whole main_v27_scv : Memref sig .scVector .hbm S32x7x112 .i32).view.slice
      (Rect.unit (s := S32x7x112) (k1_off1 L) S1x7x112.size (k1_off1_inb L))).reshape S7x112 squeezes_S1x7x112_S7x112.numel_eq).set
    = ((Memref.whole main_v27_scv : Memref sig .scVector .hbm S32x7x112 .i32).view.slice (irow (widL1 L))).set
  rw [View.set_reshape]
  exact irowK1_eq L ▸ rfl

theorem orect1_2_eq (r : Fin 7) :
    Rect.unit (s := S25088x512) (k1_off2 L (BitVec.ofNat 32 (112 * r.val))) S112x128.size (k1_off2_inb L r)
      = oBlock (e224 (widL1 L, r), 0) := by
  unfold oBlock Rect.block
  congr 1 <;> funext a
  · rw [k1_off2_eq]
    match a with
    | 0 =>
      show 1568 * (L 1).val + 784 * (L 0).val + 112 * r.val = (7 * (2 * (L 1).val + (L 0).val) + r.val) * 112
      omega
    | 1 => rfl
theorem set_piece1_2 (r : Fin 7) : ((Memref.whole main_v28_scv : Memref sig .scVector .hbm S25088x512 .f32).slice (Rect.unit (s := S25088x512) (k1_off2 L (BitVec.ofNat 32 (112 * r.val))) S112x128.size (k1_off2_inb L r)) (fun _ => rfl)).view.set = oBlockSet (e224 (widL1 L, r), 0) := by
  show ((View.whole (main_v28_scv : Ref sig .scVector)).slice
    (Rect.unit (s := S25088x512) (k1_off2 L (BitVec.ofNat 32 (112 * r.val))) S112x128.size (k1_off2_inb L r))).set = _
  rw [View.set_slice, orect1_2_eq L r]; exact Finset.map_refl
theorem orect1_3_eq (r : Fin 7) :
    Rect.unit (s := S25088x512) (k1_off3 L (BitVec.ofNat 32 (112 * r.val))) S112x128.size (k1_off3_inb L r)
      = oBlock (e224 (widL1 L, r), 1) := by
  unfold oBlock Rect.block
  congr 1 <;> funext a
  · rw [k1_off3_eq]
    match a with
    | 0 =>
      show 1568 * (L 1).val + 784 * (L 0).val + 112 * r.val = (7 * (2 * (L 1).val + (L 0).val) + r.val) * 112
      omega
    | 1 => rfl
theorem set_piece1_3 (r : Fin 7) : ((Memref.whole main_v28_scv : Memref sig .scVector .hbm S25088x512 .f32).slice (Rect.unit (s := S25088x512) (k1_off3 L (BitVec.ofNat 32 (112 * r.val))) S112x128.size (k1_off3_inb L r)) (fun _ => rfl)).view.set = oBlockSet (e224 (widL1 L, r), 1) := by
  show ((View.whole (main_v28_scv : Ref sig .scVector)).slice
    (Rect.unit (s := S25088x512) (k1_off3 L (BitVec.ofNat 32 (112 * r.val))) S112x128.size (k1_off3_inb L r))).set = _
  rw [View.set_slice, orect1_3_eq L r]; exact Finset.map_refl
theorem orect1_4_eq (r : Fin 7) :
    Rect.unit (s := S25088x512) (k1_off4 L (BitVec.ofNat 32 (112 * r.val))) S112x128.size (k1_off4_inb L r)
      = oBlock (e224 (widL1 L, r), 2) := by
  unfold oBlock Rect.block
  congr 1 <;> funext a
  · rw [k1_off4_eq]
    match a with
    | 0 =>
      show 1568 * (L 1).val + 784 * (L 0).val + 112 * r.val = (7 * (2 * (L 1).val + (L 0).val) + r.val) * 112
      omega
    | 1 => rfl
theorem set_piece1_4 (r : Fin 7) : ((Memref.whole main_v28_scv : Memref sig .scVector .hbm S25088x512 .f32).slice (Rect.unit (s := S25088x512) (k1_off4 L (BitVec.ofNat 32 (112 * r.val))) S112x128.size (k1_off4_inb L r)) (fun _ => rfl)).view.set = oBlockSet (e224 (widL1 L, r), 2) := by
  show ((View.whole (main_v28_scv : Ref sig .scVector)).slice
    (Rect.unit (s := S25088x512) (k1_off4 L (BitVec.ofNat 32 (112 * r.val))) S112x128.size (k1_off4_inb L r))).set = _
  rw [View.set_slice, orect1_4_eq L r]; exact Finset.map_refl
theorem orect1_5_eq (r : Fin 7) :
    Rect.unit (s := S25088x512) (k1_off5 L (BitVec.ofNat 32 (112 * r.val))) S112x128.size (k1_off5_inb L r)
      = oBlock (e224 (widL1 L, r), 3) := by
  unfold oBlock Rect.block
  congr 1 <;> funext a
  · rw [k1_off5_eq]
    match a with
    | 0 =>
      show 1568 * (L 1).val + 784 * (L 0).val + 112 * r.val = (7 * (2 * (L 1).val + (L 0).val) + r.val) * 112
      omega
    | 1 => rfl
theorem set_piece1_5 (r : Fin 7) : ((Memref.whole main_v28_scv : Memref sig .scVector .hbm S25088x512 .f32).slice (Rect.unit (s := S25088x512) (k1_off5 L (BitVec.ofNat 32 (112 * r.val))) S112x128.size (k1_off5_inb L r)) (fun _ => rfl)).view.set = oBlockSet (e224 (widL1 L, r), 3) := by
  show ((View.whole (main_v28_scv : Ref sig .scVector)).slice
    (Rect.unit (s := S25088x512) (k1_off5 L (BitVec.ofNat 32 (112 * r.val))) S112x128.size (k1_off5_inb L r))).set = _
  rw [View.set_slice, orect1_5_eq L r]; exact Finset.map_refl

end Spelling

section Atoms
variable (d : Dev nD) (L : grid1.Coords) (c : Fin τ.nSC) (i : Fin τ.nSub)

theorem pts_rowK_main_v21 (f : Buf (Elt F) ((SparseCore.T d).loc main_v21)) :
    ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v21 ↦[iRowSet (widL1 L)]{fullShare} f) := by
  rw [set_rowK_main_v21]
theorem pts_rowK_main_v23 (f : Buf (Elt F) ((SparseCore.T d).loc main_v23)) :
    ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v23 ↦[iRowSet (widL1 L)]{fullShare} f) := by
  rw [set_rowK_main_v23]
theorem pts_rowK_main_v25 (f : Buf (Elt F) ((SparseCore.T d).loc main_v25)) :
    ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v25 ↦[iRowSet (widL1 L)]{fullShare} f) := by
  rw [set_rowK_main_v25]
theorem pts_rowK_main_v27 (f : Buf (Elt F) ((SparseCore.T d).loc main_v27)) :
    ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d c i) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} f : sProp 𝕄)
      = ((SparseCore.T d).loc main_v27 ↦[iRowSet (widL1 L)]{fullShare} f) := by
  rw [set_rowK_main_v27]
theorem owned_piece1_2 (r : Fin 7) :
    ownedAny (F := F) (((Memref.whole main_v28_scv : Memref sig .scVector .hbm S25088x512 .f32).slice (Rect.unit (s := S25088x512) (k1_off2 L (BitVec.ofNat 32 (112 * r.val))) S112x128.size (k1_off2_inb L r)) (fun _ => rfl)).view.loc (V d c i)) ((Memref.whole main_v28_scv : Memref sig .scVector .hbm S25088x512 .f32).slice (Rect.unit (s := S25088x512) (k1_off2 L (BitVec.ofNat 32 (112 * r.val))) S112x128.size (k1_off2_inb L r)) (fun _ => rfl)).view.set
      = ownedAny (F := F) ((SparseCore.T d).loc main_v28) (oBlockSet (e224 (widL1 L, r), 0)) := by
  rw [set_piece1_2]
theorem owned_piece1_3 (r : Fin 7) :
    ownedAny (F := F) (((Memref.whole main_v28_scv : Memref sig .scVector .hbm S25088x512 .f32).slice (Rect.unit (s := S25088x512) (k1_off3 L (BitVec.ofNat 32 (112 * r.val))) S112x128.size (k1_off3_inb L r)) (fun _ => rfl)).view.loc (V d c i)) ((Memref.whole main_v28_scv : Memref sig .scVector .hbm S25088x512 .f32).slice (Rect.unit (s := S25088x512) (k1_off3 L (BitVec.ofNat 32 (112 * r.val))) S112x128.size (k1_off3_inb L r)) (fun _ => rfl)).view.set
      = ownedAny (F := F) ((SparseCore.T d).loc main_v28) (oBlockSet (e224 (widL1 L, r), 1)) := by
  rw [set_piece1_3]
theorem owned_piece1_4 (r : Fin 7) :
    ownedAny (F := F) (((Memref.whole main_v28_scv : Memref sig .scVector .hbm S25088x512 .f32).slice (Rect.unit (s := S25088x512) (k1_off4 L (BitVec.ofNat 32 (112 * r.val))) S112x128.size (k1_off4_inb L r)) (fun _ => rfl)).view.loc (V d c i)) ((Memref.whole main_v28_scv : Memref sig .scVector .hbm S25088x512 .f32).slice (Rect.unit (s := S25088x512) (k1_off4 L (BitVec.ofNat 32 (112 * r.val))) S112x128.size (k1_off4_inb L r)) (fun _ => rfl)).view.set
      = ownedAny (F := F) ((SparseCore.T d).loc main_v28) (oBlockSet (e224 (widL1 L, r), 2)) := by
  rw [set_piece1_4]
theorem owned_piece1_5 (r : Fin 7) :
    ownedAny (F := F) (((Memref.whole main_v28_scv : Memref sig .scVector .hbm S25088x512 .f32).slice (Rect.unit (s := S25088x512) (k1_off5 L (BitVec.ofNat 32 (112 * r.val))) S112x128.size (k1_off5_inb L r)) (fun _ => rfl)).view.loc (V d c i)) ((Memref.whole main_v28_scv : Memref sig .scVector .hbm S25088x512 .f32).slice (Rect.unit (s := S25088x512) (k1_off5 L (BitVec.ofNat 32 (112 * r.val))) S112x128.size (k1_off5_inb L r)) (fun _ => rfl)).view.set
      = ownedAny (F := F) ((SparseCore.T d).loc main_v28) (oBlockSet (e224 (widL1 L, r), 3)) := by
  rw [set_piece1_5]

end Atoms

/-- A task's forty holdings in the deal's terms, in the order the task lists them. -/
def chain1 (d : Dev nD) (w : Fin 32) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v21 ↦[iRowSet w]{fullShare} fi0)
    ∗ ((SparseCore.T d).loc main_v23 ↦[iRowSet w]{fullShare} fi1)
    ∗ ((SparseCore.T d).loc main_v25 ↦[iRowSet w]{fullShare} fi2)
    ∗ ((SparseCore.T d).loc main_v27 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v28) (oBlockSet (e224 (w, 0), 0))
    ∗ ownedAny (F := F) ((SparseCore.T d).loc main_v28) (oBlockSet (e224 (w, 1), 0))
    ∗ ownedAny (F := F) ((SparseCore.T d).loc main_v28) (oBlockSet (e224 (w, 2), 0))
    ∗ ownedAny (F := F) ((SparseCore.T d).loc main_v28) (oBlockSet (e224 (w, 3), 0))
    ∗ ownedAny (F := F) ((SparseCore.T d).loc main_v28) (oBlockSet (e224 (w, 4), 0))
    ∗ ownedAny (F := F) ((SparseCore.T d).loc main_v28) (oBlockSet (e224 (w, 5), 0))
    ∗ ownedAny (F := F) ((SparseCore.T d).loc main_v28) (oBlockSet (e224 (w, 6), 0))
    ∗ ownedAny (F := F) ((SparseCore.T d).loc main_v28) (oBlockSet (e224 (w, 0), 1))
    ∗ ownedAny (F := F) ((SparseCore.T d).loc main_v28) (oBlockSet (e224 (w, 1), 1))
    ∗ ownedAny (F := F) ((SparseCore.T d).loc main_v28) (oBlockSet (e224 (w, 2), 1))
    ∗ ownedAny (F := F) ((SparseCore.T d).loc main_v28) (oBlockSet (e224 (w, 3), 1))
    ∗ ownedAny (F := F) ((SparseCore.T d).loc main_v28) (oBlockSet (e224 (w, 4), 1))
    ∗ ownedAny (F := F) ((SparseCore.T d).loc main_v28) (oBlockSet (e224 (w, 5), 1))
    ∗ ownedAny (F := F) ((SparseCore.T d).loc main_v28) (oBlockSet (e224 (w, 6), 1))
    ∗ ownedAny (F := F) ((SparseCore.T d).loc main_v28) (oBlockSet (e224 (w, 0), 2))
    ∗ ownedAny (F := F) ((SparseCore.T d).loc main_v28) (oBlockSet (e224 (w, 1), 2))
    ∗ ownedAny (F := F) ((SparseCore.T d).loc main_v28) (oBlockSet (e224 (w, 2), 2))
    ∗ ownedAny (F := F) ((SparseCore.T d).loc main_v28) (oBlockSet (e224 (w, 3), 2))
    ∗ ownedAny (F := F) ((SparseCore.T d).loc main_v28) (oBlockSet (e224 (w, 4), 2))
    ∗ ownedAny (F := F) ((SparseCore.T d).loc main_v28) (oBlockSet (e224 (w, 5), 2))
    ∗ ownedAny (F := F) ((SparseCore.T d).loc main_v28) (oBlockSet (e224 (w, 6), 2))
    ∗ ownedAny (F := F) ((SparseCore.T d).loc main_v28) (oBlockSet (e224 (w, 0), 3))
    ∗ ownedAny (F := F) ((SparseCore.T d).loc main_v28) (oBlockSet (e224 (w, 1), 3))
    ∗ ownedAny (F := F) ((SparseCore.T d).loc main_v28) (oBlockSet (e224 (w, 2), 3))
    ∗ ownedAny (F := F) ((SparseCore.T d).loc main_v28) (oBlockSet (e224 (w, 3), 3))
    ∗ ownedAny (F := F) ((SparseCore.T d).loc main_v28) (oBlockSet (e224 (w, 4), 3))
    ∗ ownedAny (F := F) ((SparseCore.T d).loc main_v28) (oBlockSet (e224 (w, 5), 3))
    ∗ ownedAny (F := F) ((SparseCore.T d).loc main_v28) (oBlockSet (e224 (w, 6), 3)))

theorem widL_coordsV1 (c : Fin 2) (i : Fin 16) : widL1 (coordsV1 c i) = widEquiv (c, i) := Fin.ext rfl

set_option maxRecDepth 8192 in
set_option maxHeartbeats 1000000 in
theorem tileRes1_chain (d : Dev nD) (c : Fin 2) (i : Fin 16) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes1 d (coordsV1 c i) qx fi0 fi1 fi2 fi3 fx0 fx1 fx2 fx3 = chain1 d (widL1 (coordsV1 c i)) qx fi0 fi1 fi2 fi3 fx0 fx1 fx2 fx3 := by
  unfold tileRes1 chain1
  exact (sepCongr (pts_rowK_main_v21 d (coordsV1 c i) _ _ _) (sepCongr (pts_rowK_main_v23 d (coordsV1 c i) _ _ _) (sepCongr (pts_rowK_main_v25 d (coordsV1 c i) _ _ _) (sepCongr (pts_rowK_main_v27 d (coordsV1 c i) _ _ _) (sepCongr rfl (sepCongr rfl (sepCongr rfl (sepCongr rfl (sepCongr rfl (sepCongr rfl (sepCongr rfl (sepCongr rfl (sepCongr (owned_piece1_2 d (coordsV1 c i) _ _ 0) (sepCongr (owned_piece1_2 d (coordsV1 c i) _ _ 1) (sepCongr (owned_piece1_2 d (coordsV1 c i) _ _ 2) (sepCongr (owned_piece1_2 d (coordsV1 c i) _ _ 3) (sepCongr (owned_piece1_2 d (coordsV1 c i) _ _ 4) (sepCongr (owned_piece1_2 d (coordsV1 c i) _ _ 5) (sepCongr (owned_piece1_2 d (coordsV1 c i) _ _ 6) (sepCongr (owned_piece1_3 d (coordsV1 c i) _ _ 0) (sepCongr (owned_piece1_3 d (coordsV1 c i) _ _ 1) (sepCongr (owned_piece1_3 d (coordsV1 c i) _ _ 2) (sepCongr (owned_piece1_3 d (coordsV1 c i) _ _ 3) (sepCongr (owned_piece1_3 d (coordsV1 c i) _ _ 4) (sepCongr (owned_piece1_3 d (coordsV1 c i) _ _ 5) (sepCongr (owned_piece1_3 d (coordsV1 c i) _ _ 6) (sepCongr (owned_piece1_4 d (coordsV1 c i) _ _ 0) (sepCongr (owned_piece1_4 d (coordsV1 c i) _ _ 1) (sepCongr (owned_piece1_4 d (coordsV1 c i) _ _ 2) (sepCongr (owned_piece1_4 d (coordsV1 c i) _ _ 3) (sepCongr (owned_piece1_4 d (coordsV1 c i) _ _ 4) (sepCongr (owned_piece1_4 d (coordsV1 c i) _ _ 5) (sepCongr (owned_piece1_4 d (coordsV1 c i) _ _ 6) (sepCongr (owned_piece1_5 d (coordsV1 c i) _ _ 0) (sepCongr (owned_piece1_5 d (coordsV1 c i) _ _ 1) (sepCongr (owned_piece1_5 d (coordsV1 c i) _ _ 2) (sepCongr (owned_piece1_5 d (coordsV1 c i) _ _ 3) (sepCongr (owned_piece1_5 d (coordsV1 c i) _ _ 4) (sepCongr (owned_piece1_5 d (coordsV1 c i) _ _ 5) (owned_piece1_5 d (coordsV1 c i) _ _ 6))))))))))))))))))))))))))))))))))))))))

variable (m : (ℓ : Loc nD τ sig) → Buf (Elt F) ℓ)

/-- What task `(c, i)` of gather call 1 holds, regrouped. -/
def nice1 (d : Dev nD) (c : Fin 2) (i : Fin 16) : sProp 𝕄 :=
  iprop(
      ((SparseCore.T d).loc main_v21 ↦[iRowSet (widEquiv (c, i))]{fullShare} (Idx.slab 1 (m ((SparseCore.T d).loc main_arg4))))
    ∗ ((SparseCore.T d).loc main_v23 ↦[iRowSet (widEquiv (c, i))]{fullShare} (Idx.slab 1 (m ((SparseCore.T d).loc main_arg5))))
    ∗ ((SparseCore.T d).loc main_v25 ↦[iRowSet (widEquiv (c, i))]{fullShare} (Idx.slab 1 (m ((SparseCore.T d).loc main_arg6))))
    ∗ ((SparseCore.T d).loc main_v27 ↦[iRowSet (widEquiv (c, i))]{fullShare} (Idx.slab 1 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v28 ↦[oBlockSet (e224 (widEquiv (c, i), r), t)]{fullShare} fo))

set_option maxRecDepth 8192 in
set_option maxHeartbeats 1000000 in
theorem chain1_nice (d : Dev nD) (c : Fin 2) (i : Fin 16) :
    chain1 d (widEquiv (c, i)) (qTask c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) = nice1 m d c i := by
  unfold chain1 nice1 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes1_nice (d : Dev nD) (c : Fin 2) (i : Fin 16) : taskRes m 1 d c i = nice1 m d c i := by
  show tileRes1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) = _
  rw [tileRes1_chain, widL_coordsV1]
  exact chain1_nice m d c i

theorem tasks1_eq (d : Dev nD) :
    (bigSep Finset.univ fun c : Fin 2 => bigSep Finset.univ fun i : Fin 16 => taskRes m 1 d c i)
      = iprop((bigSep Finset.univ fun c : Fin 2 => bigSep Finset.univ fun i : Fin 16 => ((SparseCore.T d).loc main_v21 ↦[iRowSet (widEquiv (c, i))]{fullShare} (Idx.slab 1 (m ((SparseCore.T d).loc main_arg4)))))
        ∗ (bigSep Finset.univ fun c : Fin 2 => bigSep Finset.univ fun i : Fin 16 => ((SparseCore.T d).loc main_v23 ↦[iRowSet (widEquiv (c, i))]{fullShare} (Idx.slab 1 (m ((SparseCore.T d).loc main_arg5)))))
        ∗ (bigSep Finset.univ fun c : Fin 2 => bigSep Finset.univ fun i : Fin 16 => ((SparseCore.T d).loc main_v25 ↦[iRowSet (widEquiv (c, i))]{fullShare} (Idx.slab 1 (m ((SparseCore.T d).loc main_arg6)))))
        ∗ (bigSep Finset.univ fun c : Fin 2 => bigSep Finset.univ fun i : Fin 16 => ((SparseCore.T d).loc main_v27 ↦[iRowSet (widEquiv (c, i))]{fullShare} (Idx.slab 1 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v28 ↦[oBlockSet (e224 (widEquiv (c, i), r), t)]{fullShare} fo))) := by
  have h : (fun c : Fin 2 => bigSep Finset.univ fun i : Fin 16 => taskRes m 1 d c i)
      = fun c : Fin 2 => bigSep Finset.univ fun i : Fin 16 => nice1 m d c i :=
    funext fun c => congrArg (bigSep Finset.univ) (funext fun i => taskRes1_nice m d c i)
  rw [h]
  unfold nice1
  simp only [bigSep_sep']

/-- What gather call 1 takes whole. -/
def whole1 (d : Dev nD) : sProp 𝕄 :=
  iprop(((SparseCore.T d).loc main_v21 ↦{fullShare} (Idx.slab 1 (m ((SparseCore.T d).loc main_arg4)))) ∗ ((SparseCore.T d).loc main_v23 ↦{fullShare} (Idx.slab 1 (m ((SparseCore.T d).loc main_arg5))))
    ∗ ((SparseCore.T d).loc main_v25 ↦{fullShare} (Idx.slab 1 (m ((SparseCore.T d).loc main_arg6)))) ∗ ((SparseCore.T d).loc main_v27 ↦{fullShare} (Idx.slab 1 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v28 ↦{fullShare} f)

/-- THE DEAL for call 1. -/
theorem deal1_split (d : Dev nD) :
    whole1 m d ⊢ iprop(rest0 m d ∗ bigSep Finset.univ fun c : Fin 2 => bigSep Finset.univ fun i : Fin 16 => taskRes m 1 d c i) := by
  rw [tasks1_eq]
  unfold whole1 rest0
  rw [rows_main_v21 d, rows_main_v23 d, rows_main_v25 d, rows_main_v27 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v28 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal1_join (d : Dev nD) :
    iprop(rest0 m d ∗ bigSep Finset.univ fun c : Fin 2 => bigSep Finset.univ fun i : Fin 16 => taskRes m 1 d c i) ⊢ whole1 m d := by
  rw [tasks1_eq]
  unfold whole1 rest0
  rw [rows_main_v21 d, rows_main_v23 d, rows_main_v25 d, rows_main_v27 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v28 d); iexact Ho

end Cert.Kernel.Sc

end
-- ==== Proof.KScCall1.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.KScLaunch
import proofs.«215994_g5102421148354_cont_8to1c4_853_29_alg».proof.Proof.KMainCut
import proofs.«215994_g5102421148354_cont_8to1c4_853_29_alg».proof.Proof.KScDeal1

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 1 works on: its four index arrays, the four tables, its result. -/
abbrev l9_1 : List (DevRef τ sig) := [dr main_v21, dr main_v23, dr main_v25, dr main_v27, dr main_arg0, dr main_arg1, dr main_arg2, dr main_arg3, dr main_v28]
theorem l9_1_sub : (l9_1).toFinset ⊆ Pipeline.ucRefs τ sig := by decide
theorem l9_1_nodup : (l9_1).Nodup := by decide

theorem held9_1 (d : Dev nD) (W : Valuation τ sig (Elt F)) :
    (held (d.tc : Thread nD τ) (l9_1).toFinset W : sProp 𝕄)
      = iprop((((d, dr main_v21) : Loc nD τ sig) ↦{fullShare} W (dr main_v21)) ∗ (((d, dr main_v23) : Loc nD τ sig) ↦{fullShare} W (dr main_v23))
          ∗ (((d, dr main_v25) : Loc nD τ sig) ↦{fullShare} W (dr main_v25)) ∗ (((d, dr main_v27) : Loc nD τ sig) ↦{fullShare} W (dr main_v27))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v28) : Loc nD τ sig) ↦{fullShare} W (dr main_v28))) := by
  unfold held
  rw [bigSep_eq_bigSepL _ l9_1_nodup]
  rfl

/-- A SparseCore's share of call 1, over the two SparseCores: the thirty-two tasks'. -/
theorem st1_eq (d : Dev nD) :
    (bigSep Finset.univ fun c : Fin ((K (F := F)).nCore 1) => (P m).st 1 d c)
      = bigSep Finset.univ fun c : Fin 2 => bigSep Finset.univ fun i : Fin 16 => taskRes m 1 d c i :=
  bigSep_congr fun c _ =>
    show (bigSep Finset.univ fun i : Fin 16 => taskRes m 1 d (Fin.cast (nCore_eq 1) c) i) = bigSep Finset.univ fun i : Fin 16 => taskRes m 1 d c i from
      bigSep_congr fun i _ => congrArg (fun c' => taskRes m 1 d c' i) (Fin.ext rfl)

theorem dn1_eq (d : Dev nD) :
    (bigSep Finset.univ fun c : Fin ((K (F := F)).nCore 1) => (P m).dn 1 d c)
      = bigSep Finset.univ fun c : Fin 2 => bigSep Finset.univ fun i : Fin 16 => taskRes m 1 d c i :=
  bigSep_congr fun c _ =>
    show (bigSep Finset.univ fun i : Fin 16 => taskRes m 1 d (Fin.cast (nCore_eq 1) c) i) = bigSep Finset.univ fun i : Fin 16 => taskRes m 1 d c i from
      bigSep_congr fun i _ => congrArg (fun c' => taskRes m 1 d c' i) (Fin.ext rfl)

set_option maxHeartbeats 4000000 in
theorem call_step1 (κ : GSem nD τ sig → ℕ) (d : Dev nD) (W : Valuation τ sig (Elt F))
    (h12 : W (dr main_v21) = Idx.slab 1 (m ((SparseCore.T d).loc main_arg4))) (h14 : W (dr main_v23) = Idx.slab 1 (m ((SparseCore.T d).loc main_arg5)))
    (h16 : W (dr main_v25) = Idx.slab 1 (m ((SparseCore.T d).loc main_arg6))) (h18 : W (dr main_v27) = Idx.slab 1 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 1 ∗ held (d.tc : Thread nD τ) (Pipeline.ucRefs τ sig) W
        ∗ (∀ f : Buf (Elt F) ((SparseCore.T d).loc main_v28),
            iprop((K (F := F)).tcSt EH d 2 ∗ held (d.tc : Thread nD τ) (Pipeline.ucRefs τ sig) (Function.update W (dr main_v28) f)) -∗ Φ ⟨⟩))
      ⊢ wp frame (wpE ((K (F := F)).defs (D (F := F))) 𝒱 (SparseCore.T d) none) Set.univ ((K (F := F)).run d 1) Φ := by
  rw [held_sub_split (c := (d.tc : Thread nD τ)) l9_1_sub W, held9_1, h12, h14, h16, h18, ha0, ha1, ha2, ha3]
  iintro ⟨#Hctx, Hst, ⟨⟨H12, H14, H16, H18, A0, A1, A2, A3, O19⟩, Hrest⟩, Hk⟩
  ihave Hw := (deal1_split m d) $$ [H12 H14 H16 H18 A0 A1 A2 A3 O19]
  · unfold whole1
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 1) $$ [Hst Htasks Hr0 Hrest Hk]
  isplitr; · iexact Hctx
  isplitl [Hst]; · iexact Hst
  isplitl [Htasks]; · rw [st1_eq]; iexact Htasks
  iintro ⟨Hst, Hdn⟩
  ihave Hdn' := (Entails.of_eq (dn1_eq m d)) $$ Hdn
  ihave Hw2 := (deal1_join m d) $$ [Hr0 Hdn']
  · isplitl [Hr0] <;> iassumption
  unfold whole1
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_1_sub (Function.update W (dr main_v28) f), held9_1,
    Function.update_of_ne (show dr main_v21 ≠ dr main_v28 by decide), Function.update_of_ne (show dr main_v23 ≠ dr main_v28 by decide), Function.update_of_ne (show dr main_v25 ≠ dr main_v28 by decide), Function.update_of_ne (show dr main_v27 ≠ dr main_v28 by decide), Function.update_of_ne (show dr main_arg0 ≠ dr main_v28 by decide), Function.update_of_ne (show dr main_arg1 ≠ dr main_v28 by decide), Function.update_of_ne (show dr main_arg2 ≠ dr main_v28 by decide), Function.update_of_ne (show dr main_arg3 ≠ dr main_v28 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v28) f) (V' := W) (fun b hb =>
    Function.update_of_ne (fun e => (Finset.mem_sdiff.mp hb).2 (e ▸ (by decide : dr main_v28 ∈ (l9_1).toFinset))) _ _)]
  iexact Hrest

end Cert.Kernel.Sc
end
-- ==== Proof.KScDeal2.lean ====
import proofs.«215994_g5102421148354_cont_8to1c4_853_29_alg».proof.Proof.KScDeal0

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Gather call 2: its arrays dealt to its thirty-two tasks, and back

The same deal as call 0's over this call's index stretches, result array and offset functions. -/

local instance sepPM_comm2 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc2 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 2 names. -/
def widL2 (L : grid2.Coords) : Fin 32 := ⟨2 * (L 1).val + (L 0).val, by
  have h0 : (L 0).val < 2 := (L 0).isLt
  have h1 : (L 1).val < 16 := (L 1).isLt
  omega⟩

theorem irowK2_eq (L : grid2.Coords) :
    Rect.unit (s := S32x7x112) (k2_off1 L) S1x7x112.size (k2_off1_inb L) = irow (widL2 L) := by
  unfold irow Rect.part Rect.block
  congr 1 <;> funext a
  · rw [k2_off1_eq]
    match a with
    | 0 => simp [Shape.partIx, Shape.partSize, widL2]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v30 (f : Buf (Elt F) ((SparseCore.T d).loc main_v30)) :
    ((SparseCore.T d).loc main_v30 ↦{fullShare} f : sProp 𝕄)
      = bigSep Finset.univ fun c : Fin 2 => bigSep Finset.univ fun i : Fin 16 => (SparseCore.T d).loc main_v30 ↦[iRowSet (widEquiv (c, i))]{fullShare} f := by
  rw [← bigSep_tasks32 (fun w : Fin 32 => ((SparseCore.T d).loc main_v30 ↦[iRowSet w]{fullShare} f : sProp 𝕄)),
    ← pointsTo_biUnion Finset.univ (ℓ := (SparseCore.T d).loc main_v30) iRowSet irows_disjoint, irows_cover]; try rfl
theorem rows_main_v32 (f : Buf (Elt F) ((SparseCore.T d).loc main_v32)) :
    ((SparseCore.T d).loc main_v32 ↦{fullShare} f : sProp 𝕄)
      = bigSep Finset.univ fun c : Fin 2 => bigSep Finset.univ fun i : Fin 16 => (SparseCore.T d).loc main_v32 ↦[iRowSet (widEquiv (c, i))]{fullShare} f := by
  rw [← bigSep_tasks32 (fun w : Fin 32 => ((SparseCore.T d).loc main_v32 ↦[iRowSet w]{fullShare} f : sProp 𝕄)),
    ← pointsTo_biUnion Finset.univ (ℓ := (SparseCore.T d).loc main_v32) iRowSet irows_disjoint, irows_cover]; try rfl
theorem rows_main_v34 (f : Buf (Elt F) ((SparseCore.T d).loc main_v34)) :
    ((SparseCore.T d).loc main_v34 ↦{fullShare} f : sProp 𝕄)
      = bigSep Finset.univ fun c : Fin 2 => bigSep Finset.univ fun i : Fin 16 => (SparseCore.T d).loc main_v34 ↦[iRowSet (widEquiv (c, i))]{fullShare} f := by
  rw [← bigSep_tasks32 (fun w : Fin 32 => ((SparseCore.T d).loc main_v34 ↦[iRowSet w]{fullShare} f : sProp 𝕄)),
    ← pointsTo_biUnion Finset.univ (ℓ := (SparseCore.T d).loc main_v34) iRowSet irows_disjoint, irows_cover]; try rfl
theorem rows_main_v36 (f : Buf (Elt F) ((SparseCore.T d).loc main_v36)) :
    ((SparseCore.T d).loc main_v36 ↦{fullShare} f : sProp 𝕄)
      = bigSep Finset.univ fun c : Fin 2 => bigSep Finset.univ fun i : Fin 16 => (SparseCore.T d).loc main_v36 ↦[iRowSet (widEquiv (c, i))]{fullShare} f := by
  rw [← bigSep_tasks32 (fun w : Fin 32 => ((SparseCore.T d).loc main_v36 ↦[iRowSet w]{fullShare} f : sProp 𝕄)),
    ← pointsTo_biUnion Finset.univ (ℓ := (SparseCore.T d).loc main_v36) iRowSet irows_disjoint, irows_cover]; try rfl

theorem blocks_main_v37 (f : Buf (Elt F) ((SparseCore.T d).loc main_v37)) :
    ((SparseCore.T d).loc main_v37 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v37 ↦[oBlockSet (e224 (widEquiv (c, i), r), t)]{fullShare} f := by
  rw [← bigSep_blocks (fun p : Fin 224 × Fin 4 => ((SparseCore.T d).loc main_v37 ↦[oBlockSet p]{fullShare} f : sProp 𝕄)),
    ← pointsTo_biUnion Finset.univ (ℓ := (SparseCore.T d).loc main_v37) oBlockSet oBlocks_disjoint, oBlocks_cover]; try rfl

theorem blocks_split_main_v37 :
    (iprop(∃ f, (SparseCore.T d).loc main_v37 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v37 ↦[oBlockSet (e224 (widEquiv (c, i), r), t)]{fullShare} fo) := by
  refine exists_elim fun f => ?_
  rw [blocks_main_v37 d f]
  exact bigSep_mono fun c _ => bigSep_mono fun i _ => bigSep_mono fun r _ => bigSep_mono fun t _ =>
    (show ((SparseCore.T d).loc main_v37 ↦[oBlockSet (e224 (widEquiv (c, i), r), t)]{fullShare} f : sProp 𝕄)
      ⊢ iprop(∃ fo, (SparseCore.T d).loc main_v37 ↦[oBlockSet (e224 (widEquiv (c, i), r), t)]{fullShare} fo) from by
        iintro H; iexists f; iexact H)

set_option maxRecDepth 4096 in
theorem blocks_join_main_v37 :
    (bigSep Finset.univ fun c : Fin 2 => bigSep Finset.univ fun i : Fin 16 => bigSep Finset.univ fun r : Fin 7 =>
        bigSep Finset.univ fun t : Fin 4 => iprop(∃ fo, (SparseCore.T d).loc main_v37 ↦[oBlockSet (e224 (widEquiv (c, i), r), t)]{fullShare} fo))
      ⊢ (iprop(∃ f, (SparseCore.T d).loc main_v37 ↦{fullShare} f) : sProp 𝕄) := by
  rw [← bigSep_blocks (fun p : Fin 224 × Fin 4 => (iprop(∃ fo, (SparseCore.T d).loc main_v37 ↦[oBlockSet p]{fullShare} fo) : sProp 𝕄))]
  refine (bigSep_exists_pi Finset.univ (fun p (fo : Buf (Elt F) ((SparseCore.T d).loc main_v37)) => ((SparseCore.T d).loc main_v37 ↦[oBlockSet p]{fullShare} fo : sProp 𝕄))).trans ?_
  iintro ⟨%fs, H⟩
  have : Nonempty (Buf (Elt F) ((SparseCore.T d).loc main_v37)) := ⟨fs (0, 0)⟩
  ihave H' := (pointsTo_biUnion_join (ℓ := (SparseCore.T d).loc main_v37) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid2.Coords)

theorem iRowSet_eq_main_v30 (w : Fin 32) :
    ((Memref.whole main_v30_scv : Memref sig .scVector .hbm S32x7x112 .i32).view.slice (irow w)).set = iRowSet w := by
  show ((View.whole (main_v30_scv : Ref sig .scVector)).slice (irow w)).set = _
  rw [View.set_slice]; exact Finset.map_refl
theorem set_rowK_main_v30 : (((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v30 (widL2 L))
  show (((Memref.whole main_v30_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v30_scv : Memref sig .scVector .hbm S32x7x112 .i32).view.slice (irow (widL2 L))).set
  rw [View.set_reshape]
  exact irowK2_eq L ▸ rfl
theorem iRowSet_eq_main_v32 (w : Fin 32) :
    ((Memref.whole main_v32_scv : Memref sig .scVector .hbm S32x7x112 .i32).view.slice (irow w)).set = iRowSet w := by
  show ((View.whole (main_v32_scv : Ref sig .scVector)).slice (irow w)).set = _
  rw [View.set_slice]; exact Finset.map_refl
theorem set_rowK_main_v32 : (((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v32 (widL2 L))
  show (((Memref.whole main_v32_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v32_scv : Memref sig .scVector .hbm S32x7x112 .i32).view.slice (irow (widL2 L))).set
  rw [View.set_reshape]
  exact irowK2_eq L ▸ rfl
theorem iRowSet_eq_main_v34 (w : Fin 32) :
    ((Memref.whole main_v34_scv : Memref sig .scVector .hbm S32x7x112 .i32).view.slice (irow w)).set = iRowSet w := by
  show ((View.whole (main_v34_scv : Ref sig .scVector)).slice (irow w)).set = _
  rw [View.set_slice]; exact Finset.map_refl
theorem set_rowK_main_v34 : (((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v34 (widL2 L))
  show (((Memref.whole main_v34_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v34_scv : Memref sig .scVector .hbm S32x7x112 .i32).view.slice (irow (widL2 L))).set
  rw [View.set_reshape]
  exact irowK2_eq L ▸ rfl
theorem iRowSet_eq_main_v36 (w : Fin 32) :
    ((Memref.whole main_v36_scv : Memref sig .scVector .hbm S32x7x112 .i32).view.slice (irow w)).set = iRowSet w := by
  show ((View.whole (main_v36_scv : Ref sig .scVector)).slice (irow w)).set = _
  rw [View.set_slice]; exact Finset.map_refl
theorem set_rowK_main_v36 : (((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set = iRowSet (widL2 L) := by
  refine Eq.trans ?_ (iRowSet_eq_main_v36 (widL2 L))
  show (((Memref.whole main_v36_scv : Memref sig .scVector .hbm S32x7x112 .i32).view.slice
      (Rect.unit (s := S32x7x112) (k2_off1 L) S1x7x112.size (k2_off1_inb L))).reshape S7x112 squeezes_S1x7x112_S7x112.numel_eq).set
    = ((Memref.whole main_v36_scv : Memref sig .scVector .hbm S32x7x112 .i32).view.slice (irow (widL2 L))).set
  rw [View.set_reshape]
  exact irowK2_eq L ▸ rfl

theorem orect2_2_eq (r : Fin 7) :
    Rect.unit (s := S25088x512) (k2_off2 L (BitVec.ofNat 32 (112 * r.val))) S112x128.size (k2_off2_inb L r)
      = oBlock (e224 (widL2 L, r), 0) := by
  unfold oBlock Rect.block
  congr 1 <;> funext a
  · rw [k2_off2_eq]
    match a with
    | 0 =>
      show 1568 * (L 1).val + 784 * (L 0).val + 112 * r.val = (7 * (2 * (L 1).val + (L 0).val) + r.val) * 112
      omega
    | 1 => rfl
theorem set_piece2_2 (r : Fin 7) : ((Memref.whole main_v37_scv : Memref sig .scVector .hbm S25088x512 .f32).slice (Rect.unit (s := S25088x512) (k2_off2 L (BitVec.ofNat 32 (112 * r.val))) S112x128.size (k2_off2_inb L r)) (fun _ => rfl)).view.set = oBlockSet (e224 (widL2 L, r), 0) := by
  show ((View.whole (main_v37_scv : Ref sig .scVector)).slice
    (Rect.unit (s := S25088x512) (k2_off2 L (BitVec.ofNat 32 (112 * r.val))) S112x128.size (k2_off2_inb L r))).set = _
  rw [View.set_slice, orect2_2_eq L r]; exact Finset.map_refl
theorem orect2_3_eq (r : Fin 7) :
    Rect.unit (s := S25088x512) (k2_off3 L (BitVec.ofNat 32 (112 * r.val))) S112x128.size (k2_off3_inb L r)
      = oBlock (e224 (widL2 L, r), 1) := by
  unfold oBlock Rect.block
  congr 1 <;> funext a
  · rw [k2_off3_eq]
    match a with
    | 0 =>
      show 1568 * (L 1).val + 784 * (L 0).val + 112 * r.val = (7 * (2 * (L 1).val + (L 0).val) + r.val) * 112
      omega
    | 1 => rfl
theorem set_piece2_3 (r : Fin 7) : ((Memref.whole main_v37_scv : Memref sig .scVector .hbm S25088x512 .f32).slice (Rect.unit (s := S25088x512) (k2_off3 L (BitVec.ofNat 32 (112 * r.val))) S112x128.size (k2_off3_inb L r)) (fun _ => rfl)).view.set = oBlockSet (e224 (widL2 L, r), 1) := by
  show ((View.whole (main_v37_scv : Ref sig .scVector)).slice
    (Rect.unit (s := S25088x512) (k2_off3 L (BitVec.ofNat 32 (112 * r.val))) S112x128.size (k2_off3_inb L r))).set = _
  rw [View.set_slice, orect2_3_eq L r]; exact Finset.map_refl
theorem orect2_4_eq (r : Fin 7) :
    Rect.unit (s := S25088x512) (k2_off4 L (BitVec.ofNat 32 (112 * r.val))) S112x128.size (k2_off4_inb L r)
      = oBlock (e224 (widL2 L, r), 2) := by
  unfold oBlock Rect.block
  congr 1 <;> funext a
  · rw [k2_off4_eq]
    match a with
    | 0 =>
      show 1568 * (L 1).val + 784 * (L 0).val + 112 * r.val = (7 * (2 * (L 1).val + (L 0).val) + r.val) * 112
      omega
    | 1 => rfl
theorem set_piece2_4 (r : Fin 7) : ((Memref.whole main_v37_scv : Memref sig .scVector .hbm S25088x512 .f32).slice (Rect.unit (s := S25088x512) (k2_off4 L (BitVec.ofNat 32 (112 * r.val))) S112x128.size (k2_off4_inb L r)) (fun _ => rfl)).view.set = oBlockSet (e224 (widL2 L, r), 2) := by
  show ((View.whole (main_v37_scv : Ref sig .scVector)).slice
    (Rect.unit (s := S25088x512) (k2_off4 L (BitVec.ofNat 32 (112 * r.val))) S112x128.size (k2_off4_inb L r))).set = _
  rw [View.set_slice, orect2_4_eq L r]; exact Finset.map_refl
theorem orect2_5_eq (r : Fin 7) :
    Rect.unit (s := S25088x512) (k2_off5 L (BitVec.ofNat 32 (112 * r.val))) S112x128.size (k2_off5_inb L r)
      = oBlock (e224 (widL2 L, r), 3) := by
  unfold oBlock Rect.block
  congr 1 <;> funext a
  · rw [k2_off5_eq]
    match a with
    | 0 =>
      show 1568 * (L 1).val + 784 * (L 0).val + 112 * r.val = (7 * (2 * (L 1).val + (L 0).val) + r.val) * 112
      omega
    | 1 => rfl
theorem set_piece2_5 (r : Fin 7) : ((Memref.whole main_v37_scv : Memref sig .scVector .hbm S25088x512 .f32).slice (Rect.unit (s := S25088x512) (k2_off5 L (BitVec.ofNat 32 (112 * r.val))) S112x128.size (k2_off5_inb L r)) (fun _ => rfl)).view.set = oBlockSet (e224 (widL2 L, r), 3) := by
  show ((View.whole (main_v37_scv : Ref sig .scVector)).slice
    (Rect.unit (s := S25088x512) (k2_off5 L (BitVec.ofNat 32 (112 * r.val))) S112x128.size (k2_off5_inb L r))).set = _
  rw [View.set_slice, orect2_5_eq L r]; exact Finset.map_refl

end Spelling

section Atoms
variable (d : Dev nD) (L : grid2.Coords) (c : Fin τ.nSC) (i : Fin τ.nSub)

theorem pts_rowK_main_v30 (f : Buf (Elt F) ((SparseCore.T d).loc main_v30)) :
    ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v30 ↦[iRowSet (widL2 L)]{fullShare} f) := by
  rw [set_rowK_main_v30]
theorem pts_rowK_main_v32 (f : Buf (Elt F) ((SparseCore.T d).loc main_v32)) :
    ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v32 ↦[iRowSet (widL2 L)]{fullShare} f) := by
  rw [set_rowK_main_v32]
theorem pts_rowK_main_v34 (f : Buf (Elt F) ((SparseCore.T d).loc main_v34)) :
    ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v34 ↦[iRowSet (widL2 L)]{fullShare} f) := by
  rw [set_rowK_main_v34]
theorem pts_rowK_main_v36 (f : Buf (Elt F) ((SparseCore.T d).loc main_v36)) :
    ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d c i) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} f : sProp 𝕄)
      = ((SparseCore.T d).loc main_v36 ↦[iRowSet (widL2 L)]{fullShare} f) := by
  rw [set_rowK_main_v36]
theorem owned_piece2_2 (r : Fin 7) :
    ownedAny (F := F) (((Memref.whole main_v37_scv : Memref sig .scVector .hbm S25088x512 .f32).slice (Rect.unit (s := S25088x512) (k2_off2 L (BitVec.ofNat 32 (112 * r.val))) S112x128.size (k2_off2_inb L r)) (fun _ => rfl)).view.loc (V d c i)) ((Memref.whole main_v37_scv : Memref sig .scVector .hbm S25088x512 .f32).slice (Rect.unit (s := S25088x512) (k2_off2 L (BitVec.ofNat 32 (112 * r.val))) S112x128.size (k2_off2_inb L r)) (fun _ => rfl)).view.set
      = ownedAny (F := F) ((SparseCore.T d).loc main_v37) (oBlockSet (e224 (widL2 L, r), 0)) := by
  rw [set_piece2_2]
theorem owned_piece2_3 (r : Fin 7) :
    ownedAny (F := F) (((Memref.whole main_v37_scv : Memref sig .scVector .hbm S25088x512 .f32).slice (Rect.unit (s := S25088x512) (k2_off3 L (BitVec.ofNat 32 (112 * r.val))) S112x128.size (k2_off3_inb L r)) (fun _ => rfl)).view.loc (V d c i)) ((Memref.whole main_v37_scv : Memref sig .scVector .hbm S25088x512 .f32).slice (Rect.unit (s := S25088x512) (k2_off3 L (BitVec.ofNat 32 (112 * r.val))) S112x128.size (k2_off3_inb L r)) (fun _ => rfl)).view.set
      = ownedAny (F := F) ((SparseCore.T d).loc main_v37) (oBlockSet (e224 (widL2 L, r), 1)) := by
  rw [set_piece2_3]
theorem owned_piece2_4 (r : Fin 7) :
    ownedAny (F := F) (((Memref.whole main_v37_scv : Memref sig .scVector .hbm S25088x512 .f32).slice (Rect.unit (s := S25088x512) (k2_off4 L (BitVec.ofNat 32 (112 * r.val))) S112x128.size (k2_off4_inb L r)) (fun _ => rfl)).view.loc (V d c i)) ((Memref.whole main_v37_scv : Memref sig .scVector .hbm S25088x512 .f32).slice (Rect.unit (s := S25088x512) (k2_off4 L (BitVec.ofNat 32 (112 * r.val))) S112x128.size (k2_off4_inb L r)) (fun _ => rfl)).view.set
      = ownedAny (F := F) ((SparseCore.T d).loc main_v37) (oBlockSet (e224 (widL2 L, r), 2)) := by
  rw [set_piece2_4]
theorem owned_piece2_5 (r : Fin 7) :
    ownedAny (F := F) (((Memref.whole main_v37_scv : Memref sig .scVector .hbm S25088x512 .f32).slice (Rect.unit (s := S25088x512) (k2_off5 L (BitVec.ofNat 32 (112 * r.val))) S112x128.size (k2_off5_inb L r)) (fun _ => rfl)).view.loc (V d c i)) ((Memref.whole main_v37_scv : Memref sig .scVector .hbm S25088x512 .f32).slice (Rect.unit (s := S25088x512) (k2_off5 L (BitVec.ofNat 32 (112 * r.val))) S112x128.size (k2_off5_inb L r)) (fun _ => rfl)).view.set
      = ownedAny (F := F) ((SparseCore.T d).loc main_v37) (oBlockSet (e224 (widL2 L, r), 3)) := by
  rw [set_piece2_5]

end Atoms

/-- A task's forty holdings in the deal's terms, in the order the task lists them. -/
def chain2 (d : Dev nD) (w : Fin 32) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v30 ↦[iRowSet w]{fullShare} fi0)
    ∗ ((SparseCore.T d).loc main_v32 ↦[iRowSet w]{fullShare} fi1)
    ∗ ((SparseCore.T d).loc main_v34 ↦[iRowSet w]{fullShare} fi2)
    ∗ ((SparseCore.T d).loc main_v36 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v37) (oBlockSet (e224 (w, 0), 0))
    ∗ ownedAny (F := F) ((SparseCore.T d).loc main_v37) (oBlockSet (e224 (w, 1), 0))
    ∗ ownedAny (F := F) ((SparseCore.T d).loc main_v37) (oBlockSet (e224 (w, 2), 0))
    ∗ ownedAny (F := F) ((SparseCore.T d).loc main_v37) (oBlockSet (e224 (w, 3), 0))
    ∗ ownedAny (F := F) ((SparseCore.T d).loc main_v37) (oBlockSet (e224 (w, 4), 0))
    ∗ ownedAny (F := F) ((SparseCore.T d).loc main_v37) (oBlockSet (e224 (w, 5), 0))
    ∗ ownedAny (F := F) ((SparseCore.T d).loc main_v37) (oBlockSet (e224 (w, 6), 0))
    ∗ ownedAny (F := F) ((SparseCore.T d).loc main_v37) (oBlockSet (e224 (w, 0), 1))
    ∗ ownedAny (F := F) ((SparseCore.T d).loc main_v37) (oBlockSet (e224 (w, 1), 1))
    ∗ ownedAny (F := F) ((SparseCore.T d).loc main_v37) (oBlockSet (e224 (w, 2), 1))
    ∗ ownedAny (F := F) ((SparseCore.T d).loc main_v37) (oBlockSet (e224 (w, 3), 1))
    ∗ ownedAny (F := F) ((SparseCore.T d).loc main_v37) (oBlockSet (e224 (w, 4), 1))
    ∗ ownedAny (F := F) ((SparseCore.T d).loc main_v37) (oBlockSet (e224 (w, 5), 1))
    ∗ ownedAny (F := F) ((SparseCore.T d).loc main_v37) (oBlockSet (e224 (w, 6), 1))
    ∗ ownedAny (F := F) ((SparseCore.T d).loc main_v37) (oBlockSet (e224 (w, 0), 2))
    ∗ ownedAny (F := F) ((SparseCore.T d).loc main_v37) (oBlockSet (e224 (w, 1), 2))
    ∗ ownedAny (F := F) ((SparseCore.T d).loc main_v37) (oBlockSet (e224 (w, 2), 2))
    ∗ ownedAny (F := F) ((SparseCore.T d).loc main_v37) (oBlockSet (e224 (w, 3), 2))
    ∗ ownedAny (F := F) ((SparseCore.T d).loc main_v37) (oBlockSet (e224 (w, 4), 2))
    ∗ ownedAny (F := F) ((SparseCore.T d).loc main_v37) (oBlockSet (e224 (w, 5), 2))
    ∗ ownedAny (F := F) ((SparseCore.T d).loc main_v37) (oBlockSet (e224 (w, 6), 2))
    ∗ ownedAny (F := F) ((SparseCore.T d).loc main_v37) (oBlockSet (e224 (w, 0), 3))
    ∗ ownedAny (F := F) ((SparseCore.T d).loc main_v37) (oBlockSet (e224 (w, 1), 3))
    ∗ ownedAny (F := F) ((SparseCore.T d).loc main_v37) (oBlockSet (e224 (w, 2), 3))
    ∗ ownedAny (F := F) ((SparseCore.T d).loc main_v37) (oBlockSet (e224 (w, 3), 3))
    ∗ ownedAny (F := F) ((SparseCore.T d).loc main_v37) (oBlockSet (e224 (w, 4), 3))
    ∗ ownedAny (F := F) ((SparseCore.T d).loc main_v37) (oBlockSet (e224 (w, 5), 3))
    ∗ ownedAny (F := F) ((SparseCore.T d).loc main_v37) (oBlockSet (e224 (w, 6), 3)))

theorem widL_coordsV2 (c : Fin 2) (i : Fin 16) : widL2 (coordsV2 c i) = widEquiv (c, i) := Fin.ext rfl

set_option maxRecDepth 8192 in
set_option maxHeartbeats 1000000 in
theorem tileRes2_chain (d : Dev nD) (c : Fin 2) (i : Fin 16) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes2 d (coordsV2 c i) qx fi0 fi1 fi2 fi3 fx0 fx1 fx2 fx3 = chain2 d (widL2 (coordsV2 c i)) qx fi0 fi1 fi2 fi3 fx0 fx1 fx2 fx3 := by
  unfold tileRes2 chain2
  exact (sepCongr (pts_rowK_main_v30 d (coordsV2 c i) _ _ _) (sepCongr (pts_rowK_main_v32 d (coordsV2 c i) _ _ _) (sepCongr (pts_rowK_main_v34 d (coordsV2 c i) _ _ _) (sepCongr (pts_rowK_main_v36 d (coordsV2 c i) _ _ _) (sepCongr rfl (sepCongr rfl (sepCongr rfl (sepCongr rfl (sepCongr rfl (sepCongr rfl (sepCongr rfl (sepCongr rfl (sepCongr (owned_piece2_2 d (coordsV2 c i) _ _ 0) (sepCongr (owned_piece2_2 d (coordsV2 c i) _ _ 1) (sepCongr (owned_piece2_2 d (coordsV2 c i) _ _ 2) (sepCongr (owned_piece2_2 d (coordsV2 c i) _ _ 3) (sepCongr (owned_piece2_2 d (coordsV2 c i) _ _ 4) (sepCongr (owned_piece2_2 d (coordsV2 c i) _ _ 5) (sepCongr (owned_piece2_2 d (coordsV2 c i) _ _ 6) (sepCongr (owned_piece2_3 d (coordsV2 c i) _ _ 0) (sepCongr (owned_piece2_3 d (coordsV2 c i) _ _ 1) (sepCongr (owned_piece2_3 d (coordsV2 c i) _ _ 2) (sepCongr (owned_piece2_3 d (coordsV2 c i) _ _ 3) (sepCongr (owned_piece2_3 d (coordsV2 c i) _ _ 4) (sepCongr (owned_piece2_3 d (coordsV2 c i) _ _ 5) (sepCongr (owned_piece2_3 d (coordsV2 c i) _ _ 6) (sepCongr (owned_piece2_4 d (coordsV2 c i) _ _ 0) (sepCongr (owned_piece2_4 d (coordsV2 c i) _ _ 1) (sepCongr (owned_piece2_4 d (coordsV2 c i) _ _ 2) (sepCongr (owned_piece2_4 d (coordsV2 c i) _ _ 3) (sepCongr (owned_piece2_4 d (coordsV2 c i) _ _ 4) (sepCongr (owned_piece2_4 d (coordsV2 c i) _ _ 5) (sepCongr (owned_piece2_4 d (coordsV2 c i) _ _ 6) (sepCongr (owned_piece2_5 d (coordsV2 c i) _ _ 0) (sepCongr (owned_piece2_5 d (coordsV2 c i) _ _ 1) (sepCongr (owned_piece2_5 d (coordsV2 c i) _ _ 2) (sepCongr (owned_piece2_5 d (coordsV2 c i) _ _ 3) (sepCongr (owned_piece2_5 d (coordsV2 c i) _ _ 4) (sepCongr (owned_piece2_5 d (coordsV2 c i) _ _ 5) (owned_piece2_5 d (coordsV2 c i) _ _ 6))))))))))))))))))))))))))))))))))))))))

variable (m : (ℓ : Loc nD τ sig) → Buf (Elt F) ℓ)

/-- What task `(c, i)` of gather call 2 holds, regrouped. -/
def nice2 (d : Dev nD) (c : Fin 2) (i : Fin 16) : sProp 𝕄 :=
  iprop(
      ((SparseCore.T d).loc main_v30 ↦[iRowSet (widEquiv (c, i))]{fullShare} (Idx.slab 2 (m ((SparseCore.T d).loc main_arg4))))
    ∗ ((SparseCore.T d).loc main_v32 ↦[iRowSet (widEquiv (c, i))]{fullShare} (Idx.slab 2 (m ((SparseCore.T d).loc main_arg5))))
    ∗ ((SparseCore.T d).loc main_v34 ↦[iRowSet (widEquiv (c, i))]{fullShare} (Idx.slab 2 (m ((SparseCore.T d).loc main_arg6))))
    ∗ ((SparseCore.T d).loc main_v36 ↦[iRowSet (widEquiv (c, i))]{fullShare} (Idx.slab 2 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v37 ↦[oBlockSet (e224 (widEquiv (c, i), r), t)]{fullShare} fo))

set_option maxRecDepth 8192 in
set_option maxHeartbeats 1000000 in
theorem chain2_nice (d : Dev nD) (c : Fin 2) (i : Fin 16) :
    chain2 d (widEquiv (c, i)) (qTask c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) = nice2 m d c i := by
  unfold chain2 nice2 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes2_nice (d : Dev nD) (c : Fin 2) (i : Fin 16) : taskRes m 2 d c i = nice2 m d c i := by
  show tileRes2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) = _
  rw [tileRes2_chain, widL_coordsV2]
  exact chain2_nice m d c i

theorem tasks2_eq (d : Dev nD) :
    (bigSep Finset.univ fun c : Fin 2 => bigSep Finset.univ fun i : Fin 16 => taskRes m 2 d c i)
      = iprop((bigSep Finset.univ fun c : Fin 2 => bigSep Finset.univ fun i : Fin 16 => ((SparseCore.T d).loc main_v30 ↦[iRowSet (widEquiv (c, i))]{fullShare} (Idx.slab 2 (m ((SparseCore.T d).loc main_arg4)))))
        ∗ (bigSep Finset.univ fun c : Fin 2 => bigSep Finset.univ fun i : Fin 16 => ((SparseCore.T d).loc main_v32 ↦[iRowSet (widEquiv (c, i))]{fullShare} (Idx.slab 2 (m ((SparseCore.T d).loc main_arg5)))))
        ∗ (bigSep Finset.univ fun c : Fin 2 => bigSep Finset.univ fun i : Fin 16 => ((SparseCore.T d).loc main_v34 ↦[iRowSet (widEquiv (c, i))]{fullShare} (Idx.slab 2 (m ((SparseCore.T d).loc main_arg6)))))
        ∗ (bigSep Finset.univ fun c : Fin 2 => bigSep Finset.univ fun i : Fin 16 => ((SparseCore.T d).loc main_v36 ↦[iRowSet (widEquiv (c, i))]{fullShare} (Idx.slab 2 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v37 ↦[oBlockSet (e224 (widEquiv (c, i), r), t)]{fullShare} fo))) := by
  have h : (fun c : Fin 2 => bigSep Finset.univ fun i : Fin 16 => taskRes m 2 d c i)
      = fun c : Fin 2 => bigSep Finset.univ fun i : Fin 16 => nice2 m d c i :=
    funext fun c => congrArg (bigSep Finset.univ) (funext fun i => taskRes2_nice m d c i)
  rw [h]
  unfold nice2
  simp only [bigSep_sep']

/-- What gather call 2 takes whole. -/
def whole2 (d : Dev nD) : sProp 𝕄 :=
  iprop(((SparseCore.T d).loc main_v30 ↦{fullShare} (Idx.slab 2 (m ((SparseCore.T d).loc main_arg4)))) ∗ ((SparseCore.T d).loc main_v32 ↦{fullShare} (Idx.slab 2 (m ((SparseCore.T d).loc main_arg5))))
    ∗ ((SparseCore.T d).loc main_v34 ↦{fullShare} (Idx.slab 2 (m ((SparseCore.T d).loc main_arg6)))) ∗ ((SparseCore.T d).loc main_v36 ↦{fullShare} (Idx.slab 2 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v37 ↦{fullShare} f)

/-- THE DEAL for call 2. -/
theorem deal2_split (d : Dev nD) :
    whole2 m d ⊢ iprop(rest0 m d ∗ bigSep Finset.univ fun c : Fin 2 => bigSep Finset.univ fun i : Fin 16 => taskRes m 2 d c i) := by
  rw [tasks2_eq]
  unfold whole2 rest0
  rw [rows_main_v30 d, rows_main_v32 d, rows_main_v34 d, rows_main_v36 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v37 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal2_join (d : Dev nD) :
    iprop(rest0 m d ∗ bigSep Finset.univ fun c : Fin 2 => bigSep Finset.univ fun i : Fin 16 => taskRes m 2 d c i) ⊢ whole2 m d := by
  rw [tasks2_eq]
  unfold whole2 rest0
  rw [rows_main_v30 d, rows_main_v32 d, rows_main_v34 d, rows_main_v36 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v37 d); iexact Ho

end Cert.Kernel.Sc

end
-- ==== Proof.KScCall2.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.KScLaunch
import proofs.«215994_g5102421148354_cont_8to1c4_853_29_alg».proof.Proof.KMainCut
import proofs.«215994_g5102421148354_cont_8to1c4_853_29_alg».proof.Proof.KScDeal2

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 2 works on: its four index arrays, the four tables, its result. -/
abbrev l9_2 : List (DevRef τ sig) := [dr main_v30, dr main_v32, dr main_v34, dr main_v36, dr main_arg0, dr main_arg1, dr main_arg2, dr main_arg3, dr main_v37]
theorem l9_2_sub : (l9_2).toFinset ⊆ Pipeline.ucRefs τ sig := by decide
theorem l9_2_nodup : (l9_2).Nodup := by decide

theorem held9_2 (d : Dev nD) (W : Valuation τ sig (Elt F)) :
    (held (d.tc : Thread nD τ) (l9_2).toFinset W : sProp 𝕄)
      = iprop((((d, dr main_v30) : Loc nD τ sig) ↦{fullShare} W (dr main_v30)) ∗ (((d, dr main_v32) : Loc nD τ sig) ↦{fullShare} W (dr main_v32))
          ∗ (((d, dr main_v34) : Loc nD τ sig) ↦{fullShare} W (dr main_v34)) ∗ (((d, dr main_v36) : Loc nD τ sig) ↦{fullShare} W (dr main_v36))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v37) : Loc nD τ sig) ↦{fullShare} W (dr main_v37))) := by
  unfold held
  rw [bigSep_eq_bigSepL _ l9_2_nodup]
  rfl

/-- A SparseCore's share of call 2, over the two SparseCores: the thirty-two tasks'. -/
theorem st2_eq (d : Dev nD) :
    (bigSep Finset.univ fun c : Fin ((K (F := F)).nCore 2) => (P m).st 2 d c)
      = bigSep Finset.univ fun c : Fin 2 => bigSep Finset.univ fun i : Fin 16 => taskRes m 2 d c i :=
  bigSep_congr fun c _ =>
    show (bigSep Finset.univ fun i : Fin 16 => taskRes m 2 d (Fin.cast (nCore_eq 2) c) i) = bigSep Finset.univ fun i : Fin 16 => taskRes m 2 d c i from
      bigSep_congr fun i _ => congrArg (fun c' => taskRes m 2 d c' i) (Fin.ext rfl)

theorem dn2_eq (d : Dev nD) :
    (bigSep Finset.univ fun c : Fin ((K (F := F)).nCore 2) => (P m).dn 2 d c)
      = bigSep Finset.univ fun c : Fin 2 => bigSep Finset.univ fun i : Fin 16 => taskRes m 2 d c i :=
  bigSep_congr fun c _ =>
    show (bigSep Finset.univ fun i : Fin 16 => taskRes m 2 d (Fin.cast (nCore_eq 2) c) i) = bigSep Finset.univ fun i : Fin 16 => taskRes m 2 d c i from
      bigSep_congr fun i _ => congrArg (fun c' => taskRes m 2 d c' i) (Fin.ext rfl)

set_option maxHeartbeats 4000000 in
theorem call_step2 (κ : GSem nD τ sig → ℕ) (d : Dev nD) (W : Valuation τ sig (Elt F))
    (h12 : W (dr main_v30) = Idx.slab 2 (m ((SparseCore.T d).loc main_arg4))) (h14 : W (dr main_v32) = Idx.slab 2 (m ((SparseCore.T d).loc main_arg5)))
    (h16 : W (dr main_v34) = Idx.slab 2 (m ((SparseCore.T d).loc main_arg6))) (h18 : W (dr main_v36) = Idx.slab 2 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 2 ∗ held (d.tc : Thread nD τ) (Pipeline.ucRefs τ sig) W
        ∗ (∀ f : Buf (Elt F) ((SparseCore.T d).loc main_v37),
            iprop((K (F := F)).tcSt EH d 3 ∗ held (d.tc : Thread nD τ) (Pipeline.ucRefs τ sig) (Function.update W (dr main_v37) f)) -∗ Φ ⟨⟩))
      ⊢ wp frame (wpE ((K (F := F)).defs (D (F := F))) 𝒱 (SparseCore.T d) none) Set.univ ((K (F := F)).run d 2) Φ := by
  rw [held_sub_split (c := (d.tc : Thread nD τ)) l9_2_sub W, held9_2, h12, h14, h16, h18, ha0, ha1, ha2, ha3]
  iintro ⟨#Hctx, Hst, ⟨⟨H12, H14, H16, H18, A0, A1, A2, A3, O19⟩, Hrest⟩, Hk⟩
  ihave Hw := (deal2_split m d) $$ [H12 H14 H16 H18 A0 A1 A2 A3 O19]
  · unfold whole2
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 2) $$ [Hst Htasks Hr0 Hrest Hk]
  isplitr; · iexact Hctx
  isplitl [Hst]; · iexact Hst
  isplitl [Htasks]; · rw [st2_eq]; iexact Htasks
  iintro ⟨Hst, Hdn⟩
  ihave Hdn' := (Entails.of_eq (dn2_eq m d)) $$ Hdn
  ihave Hw2 := (deal2_join m d) $$ [Hr0 Hdn']
  · isplitl [Hr0] <;> iassumption
  unfold whole2
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_2_sub (Function.update W (dr main_v37) f), held9_2,
    Function.update_of_ne (show dr main_v30 ≠ dr main_v37 by decide), Function.update_of_ne (show dr main_v32 ≠ dr main_v37 by decide), Function.update_of_ne (show dr main_v34 ≠ dr main_v37 by decide), Function.update_of_ne (show dr main_v36 ≠ dr main_v37 by decide), Function.update_of_ne (show dr main_arg0 ≠ dr main_v37 by decide), Function.update_of_ne (show dr main_arg1 ≠ dr main_v37 by decide), Function.update_of_ne (show dr main_arg2 ≠ dr main_v37 by decide), Function.update_of_ne (show dr main_arg3 ≠ dr main_v37 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v37) f) (V' := W) (fun b hb =>
    Function.update_of_ne (fun e => (Finset.mem_sdiff.mp hb).2 (e ▸ (by decide : dr main_v37 ∈ (l9_2).toFinset))) _ _)]
  iexact Hrest

end Cert.Kernel.Sc
end
-- ==== Proof.KScDeal3.lean ====
import proofs.«215994_g5102421148354_cont_8to1c4_853_29_alg».proof.Proof.KScDeal0

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 4) (Elt F) ℕ UU ℕ

/-! ## Gather call 3: its arrays dealt to its thirty-two tasks, and back

The same deal as call 0's over this call's index stretches, result array and offset functions. -/

local instance sepPM_comm3 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPM_assoc3 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

/-- The worker a grid point of call 3 names. -/
def widL3 (L : grid3.Coords) : Fin 32 := ⟨2 * (L 1).val + (L 0).val, by
  have h0 : (L 0).val < 2 := (L 0).isLt
  have h1 : (L 1).val < 16 := (L 1).isLt
  omega⟩

theorem irowK3_eq (L : grid3.Coords) :
    Rect.unit (s := S32x7x112) (k3_off1 L) S1x7x112.size (k3_off1_inb L) = irow (widL3 L) := by
  unfold irow Rect.part Rect.block
  congr 1 <;> funext a
  · rw [k3_off1_eq]
    match a with
    | 0 => simp [Shape.partIx, Shape.partSize, widL3]
    | 1 => simp [Shape.partIx, Shape.partSize]
    | 2 => simp [Shape.partIx, Shape.partSize]
  · match a with
    | 0 => simp [Shape.partSize]
    | 1 => simp [Shape.partSize]
    | 2 => simp [Shape.partSize]

section Arrays
variable (d : Dev nD)

theorem rows_main_v39 (f : Buf (Elt F) ((SparseCore.T d).loc main_v39)) :
    ((SparseCore.T d).loc main_v39 ↦{fullShare} f : sProp 𝕄)
      = bigSep Finset.univ fun c : Fin 2 => bigSep Finset.univ fun i : Fin 16 => (SparseCore.T d).loc main_v39 ↦[iRowSet (widEquiv (c, i))]{fullShare} f := by
  rw [← bigSep_tasks32 (fun w : Fin 32 => ((SparseCore.T d).loc main_v39 ↦[iRowSet w]{fullShare} f : sProp 𝕄)),
    ← pointsTo_biUnion Finset.univ (ℓ := (SparseCore.T d).loc main_v39) iRowSet irows_disjoint, irows_cover]; try rfl
theorem rows_main_v41 (f : Buf (Elt F) ((SparseCore.T d).loc main_v41)) :
    ((SparseCore.T d).loc main_v41 ↦{fullShare} f : sProp 𝕄)
      = bigSep Finset.univ fun c : Fin 2 => bigSep Finset.univ fun i : Fin 16 => (SparseCore.T d).loc main_v41 ↦[iRowSet (widEquiv (c, i))]{fullShare} f := by
  rw [← bigSep_tasks32 (fun w : Fin 32 => ((SparseCore.T d).loc main_v41 ↦[iRowSet w]{fullShare} f : sProp 𝕄)),
    ← pointsTo_biUnion Finset.univ (ℓ := (SparseCore.T d).loc main_v41) iRowSet irows_disjoint, irows_cover]; try rfl
theorem rows_main_v43 (f : Buf (Elt F) ((SparseCore.T d).loc main_v43)) :
    ((SparseCore.T d).loc main_v43 ↦{fullShare} f : sProp 𝕄)
      = bigSep Finset.univ fun c : Fin 2 => bigSep Finset.univ fun i : Fin 16 => (SparseCore.T d).loc main_v43 ↦[iRowSet (widEquiv (c, i))]{fullShare} f := by
  rw [← bigSep_tasks32 (fun w : Fin 32 => ((SparseCore.T d).loc main_v43 ↦[iRowSet w]{fullShare} f : sProp 𝕄)),
    ← pointsTo_biUnion Finset.univ (ℓ := (SparseCore.T d).loc main_v43) iRowSet irows_disjoint, irows_cover]; try rfl
theorem rows_main_v45 (f : Buf (Elt F) ((SparseCore.T d).loc main_v45)) :
    ((SparseCore.T d).loc main_v45 ↦{fullShare} f : sProp 𝕄)
      = bigSep Finset.univ fun c : Fin 2 => bigSep Finset.univ fun i : Fin 16 => (SparseCore.T d).loc main_v45 ↦[iRowSet (widEquiv (c, i))]{fullShare} f := by
  rw [← bigSep_tasks32 (fun w : Fin 32 => ((SparseCore.T d).loc main_v45 ↦[iRowSet w]{fullShare} f : sProp 𝕄)),
    ← pointsTo_biUnion Finset.univ (ℓ := (SparseCore.T d).loc main_v45) iRowSet irows_disjoint, irows_cover]; try rfl

theorem blocks_main_v46 (f : Buf (Elt F) ((SparseCore.T d).loc main_v46)) :
    ((SparseCore.T d).loc main_v46 ↦{fullShare} f : sProp 𝕄)
      = bigSep Finset.univ fun c : Fin 2 => bigSep Finset.univ fun i : Fin 16 => bigSep Finset.univ fun r : Fin 7 =>
          bigSep Finset.univ fun t : Fin 4 => (SparseCore.T d).loc main_v46 ↦[oBlockSet (e224 (widEquiv (c, i), r), t)]{fullShare} f := by
  rw [← bigSep_blocks (fun p : Fin 224 × Fin 4 => ((SparseCore.T d).loc main_v46 ↦[oBlockSet p]{fullShare} f : sProp 𝕄)),
    ← pointsTo_biUnion Finset.univ (ℓ := (SparseCore.T d).loc main_v46) oBlockSet oBlocks_disjoint, oBlocks_cover]; try rfl

theorem blocks_split_main_v46 :
    (iprop(∃ f, (SparseCore.T d).loc main_v46 ↦{fullShare} f) : sProp 𝕄)
      ⊢ bigSep Finset.univ fun c : Fin 2 => bigSep Finset.univ fun i : Fin 16 => bigSep Finset.univ fun r : Fin 7 =>
          bigSep Finset.univ fun t : Fin 4 => iprop(∃ fo, (SparseCore.T d).loc main_v46 ↦[oBlockSet (e224 (widEquiv (c, i), r), t)]{fullShare} fo) := by
  refine exists_elim fun f => ?_
  rw [blocks_main_v46 d f]
  exact bigSep_mono fun c _ => bigSep_mono fun i _ => bigSep_mono fun r _ => bigSep_mono fun t _ =>
    (show ((SparseCore.T d).loc main_v46 ↦[oBlockSet (e224 (widEquiv (c, i), r), t)]{fullShare} f : sProp 𝕄)
      ⊢ iprop(∃ fo, (SparseCore.T d).loc main_v46 ↦[oBlockSet (e224 (widEquiv (c, i), r), t)]{fullShare} fo) from by
        iintro H; iexists f; iexact H)

set_option maxRecDepth 4096 in
theorem blocks_join_main_v46 :
    (bigSep Finset.univ fun c : Fin 2 => bigSep Finset.univ fun i : Fin 16 => bigSep Finset.univ fun r : Fin 7 =>
        bigSep Finset.univ fun t : Fin 4 => iprop(∃ fo, (SparseCore.T d).loc main_v46 ↦[oBlockSet (e224 (widEquiv (c, i), r), t)]{fullShare} fo))
      ⊢ (iprop(∃ f, (SparseCore.T d).loc main_v46 ↦{fullShare} f) : sProp 𝕄) := by
  rw [← bigSep_blocks (fun p : Fin 224 × Fin 4 => (iprop(∃ fo, (SparseCore.T d).loc main_v46 ↦[oBlockSet p]{fullShare} fo) : sProp 𝕄))]
  refine (bigSep_exists_pi Finset.univ (fun p (fo : Buf (Elt F) ((SparseCore.T d).loc main_v46)) => ((SparseCore.T d).loc main_v46 ↦[oBlockSet p]{fullShare} fo : sProp 𝕄))).trans ?_
  iintro ⟨%fs, H⟩
  have : Nonempty (Buf (Elt F) ((SparseCore.T d).loc main_v46)) := ⟨fs (0, 0)⟩
  ihave H' := (pointsTo_biUnion_join (ℓ := (SparseCore.T d).loc main_v46) (q := fullShare) (Val := Elt F) Finset.univ oBlockSet fs
    (fs (0, 0)) oBlocks_disjoint) $$ H
  icases H' with ⟨%g, -, Hg⟩
  rw [oBlocks_cover]
  iexists g; iexact Hg

end Arrays

section Spelling
variable (L : grid3.Coords)

theorem iRowSet_eq_main_v39 (w : Fin 32) :
    ((Memref.whole main_v39_scv : Memref sig .scVector .hbm S32x7x112 .i32).view.slice (irow w)).set = iRowSet w := by
  show ((View.whole (main_v39_scv : Ref sig .scVector)).slice (irow w)).set = _
  rw [View.set_slice]; exact Finset.map_refl
theorem set_rowK_main_v39 : (((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v39 (widL3 L))
  show (((Memref.whole main_v39_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v39_scv : Memref sig .scVector .hbm S32x7x112 .i32).view.slice (irow (widL3 L))).set
  rw [View.set_reshape]
  exact irowK3_eq L ▸ rfl
theorem iRowSet_eq_main_v41 (w : Fin 32) :
    ((Memref.whole main_v41_scv : Memref sig .scVector .hbm S32x7x112 .i32).view.slice (irow w)).set = iRowSet w := by
  show ((View.whole (main_v41_scv : Ref sig .scVector)).slice (irow w)).set = _
  rw [View.set_slice]; exact Finset.map_refl
theorem set_rowK_main_v41 : (((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v41 (widL3 L))
  show (((Memref.whole main_v41_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v41_scv : Memref sig .scVector .hbm S32x7x112 .i32).view.slice (irow (widL3 L))).set
  rw [View.set_reshape]
  exact irowK3_eq L ▸ rfl
theorem iRowSet_eq_main_v43 (w : Fin 32) :
    ((Memref.whole main_v43_scv : Memref sig .scVector .hbm S32x7x112 .i32).view.slice (irow w)).set = iRowSet w := by
  show ((View.whole (main_v43_scv : Ref sig .scVector)).slice (irow w)).set = _
  rw [View.set_slice]; exact Finset.map_refl
theorem set_rowK_main_v43 : (((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v43 (widL3 L))
  show (((Memref.whole main_v43_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v43_scv : Memref sig .scVector .hbm S32x7x112 .i32).view.slice (irow (widL3 L))).set
  rw [View.set_reshape]
  exact irowK3_eq L ▸ rfl
theorem iRowSet_eq_main_v45 (w : Fin 32) :
    ((Memref.whole main_v45_scv : Memref sig .scVector .hbm S32x7x112 .i32).view.slice (irow w)).set = iRowSet w := by
  show ((View.whole (main_v45_scv : Ref sig .scVector)).slice (irow w)).set = _
  rw [View.set_slice]; exact Finset.map_refl
theorem set_rowK_main_v45 : (((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set = iRowSet (widL3 L) := by
  refine Eq.trans ?_ (iRowSet_eq_main_v45 (widL3 L))
  show (((Memref.whole main_v45_scv : Memref sig .scVector .hbm S32x7x112 .i32).view.slice
      (Rect.unit (s := S32x7x112) (k3_off1 L) S1x7x112.size (k3_off1_inb L))).reshape S7x112 squeezes_S1x7x112_S7x112.numel_eq).set
    = ((Memref.whole main_v45_scv : Memref sig .scVector .hbm S32x7x112 .i32).view.slice (irow (widL3 L))).set
  rw [View.set_reshape]
  exact irowK3_eq L ▸ rfl

theorem orect3_2_eq (r : Fin 7) :
    Rect.unit (s := S25088x512) (k3_off2 L (BitVec.ofNat 32 (112 * r.val))) S112x128.size (k3_off2_inb L r)
      = oBlock (e224 (widL3 L, r), 0) := by
  unfold oBlock Rect.block
  congr 1 <;> funext a
  · rw [k3_off2_eq]
    match a with
    | 0 =>
      show 1568 * (L 1).val + 784 * (L 0).val + 112 * r.val = (7 * (2 * (L 1).val + (L 0).val) + r.val) * 112
      omega
    | 1 => rfl
theorem set_piece3_2 (r : Fin 7) : ((Memref.whole main_v46_scv : Memref sig .scVector .hbm S25088x512 .f32).slice (Rect.unit (s := S25088x512) (k3_off2 L (BitVec.ofNat 32 (112 * r.val))) S112x128.size (k3_off2_inb L r)) (fun _ => rfl)).view.set = oBlockSet (e224 (widL3 L, r), 0) := by
  show ((View.whole (main_v46_scv : Ref sig .scVector)).slice
    (Rect.unit (s := S25088x512) (k3_off2 L (BitVec.ofNat 32 (112 * r.val))) S112x128.size (k3_off2_inb L r))).set = _
  rw [View.set_slice, orect3_2_eq L r]; exact Finset.map_refl
theorem orect3_3_eq (r : Fin 7) :
    Rect.unit (s := S25088x512) (k3_off3 L (BitVec.ofNat 32 (112 * r.val))) S112x128.size (k3_off3_inb L r)
      = oBlock (e224 (widL3 L, r), 1) := by
  unfold oBlock Rect.block
  congr 1 <;> funext a
  · rw [k3_off3_eq]
    match a with
    | 0 =>
      show 1568 * (L 1).val + 784 * (L 0).val + 112 * r.val = (7 * (2 * (L 1).val + (L 0).val) + r.val) * 112
      omega
    | 1 => rfl
theorem set_piece3_3 (r : Fin 7) : ((Memref.whole main_v46_scv : Memref sig .scVector .hbm S25088x512 .f32).slice (Rect.unit (s := S25088x512) (k3_off3 L (BitVec.ofNat 32 (112 * r.val))) S112x128.size (k3_off3_inb L r)) (fun _ => rfl)).view.set = oBlockSet (e224 (widL3 L, r), 1) := by
  show ((View.whole (main_v46_scv : Ref sig .scVector)).slice
    (Rect.unit (s := S25088x512) (k3_off3 L (BitVec.ofNat 32 (112 * r.val))) S112x128.size (k3_off3_inb L r))).set = _
  rw [View.set_slice, orect3_3_eq L r]; exact Finset.map_refl
theorem orect3_4_eq (r : Fin 7) :
    Rect.unit (s := S25088x512) (k3_off4 L (BitVec.ofNat 32 (112 * r.val))) S112x128.size (k3_off4_inb L r)
      = oBlock (e224 (widL3 L, r), 2) := by
  unfold oBlock Rect.block
  congr 1 <;> funext a
  · rw [k3_off4_eq]
    match a with
    | 0 =>
      show 1568 * (L 1).val + 784 * (L 0).val + 112 * r.val = (7 * (2 * (L 1).val + (L 0).val) + r.val) * 112
      omega
    | 1 => rfl
theorem set_piece3_4 (r : Fin 7) : ((Memref.whole main_v46_scv : Memref sig .scVector .hbm S25088x512 .f32).slice (Rect.unit (s := S25088x512) (k3_off4 L (BitVec.ofNat 32 (112 * r.val))) S112x128.size (k3_off4_inb L r)) (fun _ => rfl)).view.set = oBlockSet (e224 (widL3 L, r), 2) := by
  show ((View.whole (main_v46_scv : Ref sig .scVector)).slice
    (Rect.unit (s := S25088x512) (k3_off4 L (BitVec.ofNat 32 (112 * r.val))) S112x128.size (k3_off4_inb L r))).set = _
  rw [View.set_slice, orect3_4_eq L r]; exact Finset.map_refl
theorem orect3_5_eq (r : Fin 7) :
    Rect.unit (s := S25088x512) (k3_off5 L (BitVec.ofNat 32 (112 * r.val))) S112x128.size (k3_off5_inb L r)
      = oBlock (e224 (widL3 L, r), 3) := by
  unfold oBlock Rect.block
  congr 1 <;> funext a
  · rw [k3_off5_eq]
    match a with
    | 0 =>
      show 1568 * (L 1).val + 784 * (L 0).val + 112 * r.val = (7 * (2 * (L 1).val + (L 0).val) + r.val) * 112
      omega
    | 1 => rfl
theorem set_piece3_5 (r : Fin 7) : ((Memref.whole main_v46_scv : Memref sig .scVector .hbm S25088x512 .f32).slice (Rect.unit (s := S25088x512) (k3_off5 L (BitVec.ofNat 32 (112 * r.val))) S112x128.size (k3_off5_inb L r)) (fun _ => rfl)).view.set = oBlockSet (e224 (widL3 L, r), 3) := by
  show ((View.whole (main_v46_scv : Ref sig .scVector)).slice
    (Rect.unit (s := S25088x512) (k3_off5 L (BitVec.ofNat 32 (112 * r.val))) S112x128.size (k3_off5_inb L r))).set = _
  rw [View.set_slice, orect3_5_eq L r]; exact Finset.map_refl

end Spelling

section Atoms
variable (d : Dev nD) (L : grid3.Coords) (c : Fin τ.nSC) (i : Fin τ.nSub)

theorem pts_rowK_main_v39 (f : Buf (Elt F) ((SparseCore.T d).loc main_v39)) :
    ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v39 ↦[iRowSet (widL3 L)]{fullShare} f) := by
  rw [set_rowK_main_v39]
theorem pts_rowK_main_v41 (f : Buf (Elt F) ((SparseCore.T d).loc main_v41)) :
    ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v41 ↦[iRowSet (widL3 L)]{fullShare} f) := by
  rw [set_rowK_main_v41]
theorem pts_rowK_main_v43 (f : Buf (Elt F) ((SparseCore.T d).loc main_v43)) :
    ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v43 ↦[iRowSet (widL3 L)]{fullShare} f) := by
  rw [set_rowK_main_v43]
theorem pts_rowK_main_v45 (f : Buf (Elt F) ((SparseCore.T d).loc main_v45)) :
    ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d c i) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} f : sProp 𝕄)
      = ((SparseCore.T d).loc main_v45 ↦[iRowSet (widL3 L)]{fullShare} f) := by
  rw [set_rowK_main_v45]
theorem owned_piece3_2 (r : Fin 7) :
    ownedAny (F := F) (((Memref.whole main_v46_scv : Memref sig .scVector .hbm S25088x512 .f32).slice (Rect.unit (s := S25088x512) (k3_off2 L (BitVec.ofNat 32 (112 * r.val))) S112x128.size (k3_off2_inb L r)) (fun _ => rfl)).view.loc (V d c i)) ((Memref.whole main_v46_scv : Memref sig .scVector .hbm S25088x512 .f32).slice (Rect.unit (s := S25088x512) (k3_off2 L (BitVec.ofNat 32 (112 * r.val))) S112x128.size (k3_off2_inb L r)) (fun _ => rfl)).view.set
      = ownedAny (F := F) ((SparseCore.T d).loc main_v46) (oBlockSet (e224 (widL3 L, r), 0)) := by
  rw [set_piece3_2]
theorem owned_piece3_3 (r : Fin 7) :
    ownedAny (F := F) (((Memref.whole main_v46_scv : Memref sig .scVector .hbm S25088x512 .f32).slice (Rect.unit (s := S25088x512) (k3_off3 L (BitVec.ofNat 32 (112 * r.val))) S112x128.size (k3_off3_inb L r)) (fun _ => rfl)).view.loc (V d c i)) ((Memref.whole main_v46_scv : Memref sig .scVector .hbm S25088x512 .f32).slice (Rect.unit (s := S25088x512) (k3_off3 L (BitVec.ofNat 32 (112 * r.val))) S112x128.size (k3_off3_inb L r)) (fun _ => rfl)).view.set
      = ownedAny (F := F) ((SparseCore.T d).loc main_v46) (oBlockSet (e224 (widL3 L, r), 1)) := by
  rw [set_piece3_3]
theorem owned_piece3_4 (r : Fin 7) :
    ownedAny (F := F) (((Memref.whole main_v46_scv : Memref sig .scVector .hbm S25088x512 .f32).slice (Rect.unit (s := S25088x512) (k3_off4 L (BitVec.ofNat 32 (112 * r.val))) S112x128.size (k3_off4_inb L r)) (fun _ => rfl)).view.loc (V d c i)) ((Memref.whole main_v46_scv : Memref sig .scVector .hbm S25088x512 .f32).slice (Rect.unit (s := S25088x512) (k3_off4 L (BitVec.ofNat 32 (112 * r.val))) S112x128.size (k3_off4_inb L r)) (fun _ => rfl)).view.set
      = ownedAny (F := F) ((SparseCore.T d).loc main_v46) (oBlockSet (e224 (widL3 L, r), 2)) := by
  rw [set_piece3_4]
theorem owned_piece3_5 (r : Fin 7) :
    ownedAny (F := F) (((Memref.whole main_v46_scv : Memref sig .scVector .hbm S25088x512 .f32).slice (Rect.unit (s := S25088x512) (k3_off5 L (BitVec.ofNat 32 (112 * r.val))) S112x128.size (k3_off5_inb L r)) (fun _ => rfl)).view.loc (V d c i)) ((Memref.whole main_v46_scv : Memref sig .scVector .hbm S25088x512 .f32).slice (Rect.unit (s := S25088x512) (k3_off5 L (BitVec.ofNat 32 (112 * r.val))) S112x128.size (k3_off5_inb L r)) (fun _ => rfl)).view.set
      = ownedAny (F := F) ((SparseCore.T d).loc main_v46) (oBlockSet (e224 (widL3 L, r), 3)) := by
  rw [set_piece3_5]

end Atoms

/-- A task's forty holdings in the deal's terms, in the order the task lists them. -/
def chain3 (d : Dev nD) (w : Fin 32) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) : sProp 𝕄 :=
  iprop(
      ((SparseCore.T d).loc main_v39 ↦[iRowSet w]{fullShare} fi0)
    ∗ ((SparseCore.T d).loc main_v41 ↦[iRowSet w]{fullShare} fi1)
    ∗ ((SparseCore.T d).loc main_v43 ↦[iRowSet w]{fullShare} fi2)
    ∗ ((SparseCore.T d).loc main_v45 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ownedAny (F := F) ((SparseCore.T d).loc main_v46) (oBlockSet (e224 (w, 0), 0))
    ∗ ownedAny (F := F) ((SparseCore.T d).loc main_v46) (oBlockSet (e224 (w, 1), 0))
    ∗ ownedAny (F := F) ((SparseCore.T d).loc main_v46) (oBlockSet (e224 (w, 2), 0))
    ∗ ownedAny (F := F) ((SparseCore.T d).loc main_v46) (oBlockSet (e224 (w, 3), 0))
    ∗ ownedAny (F := F) ((SparseCore.T d).loc main_v46) (oBlockSet (e224 (w, 4), 0))
    ∗ ownedAny (F := F) ((SparseCore.T d).loc main_v46) (oBlockSet (e224 (w, 5), 0))
    ∗ ownedAny (F := F) ((SparseCore.T d).loc main_v46) (oBlockSet (e224 (w, 6), 0))
    ∗ ownedAny (F := F) ((SparseCore.T d).loc main_v46) (oBlockSet (e224 (w, 0), 1))
    ∗ ownedAny (F := F) ((SparseCore.T d).loc main_v46) (oBlockSet (e224 (w, 1), 1))
    ∗ ownedAny (F := F) ((SparseCore.T d).loc main_v46) (oBlockSet (e224 (w, 2), 1))
    ∗ ownedAny (F := F) ((SparseCore.T d).loc main_v46) (oBlockSet (e224 (w, 3), 1))
    ∗ ownedAny (F := F) ((SparseCore.T d).loc main_v46) (oBlockSet (e224 (w, 4), 1))
    ∗ ownedAny (F := F) ((SparseCore.T d).loc main_v46) (oBlockSet (e224 (w, 5), 1))
    ∗ ownedAny (F := F) ((SparseCore.T d).loc main_v46) (oBlockSet (e224 (w, 6), 1))
    ∗ ownedAny (F := F) ((SparseCore.T d).loc main_v46) (oBlockSet (e224 (w, 0), 2))
    ∗ ownedAny (F := F) ((SparseCore.T d).loc main_v46) (oBlockSet (e224 (w, 1), 2))
    ∗ ownedAny (F := F) ((SparseCore.T d).loc main_v46) (oBlockSet (e224 (w, 2), 2))
    ∗ ownedAny (F := F) ((SparseCore.T d).loc main_v46) (oBlockSet (e224 (w, 3), 2))
    ∗ ownedAny (F := F) ((SparseCore.T d).loc main_v46) (oBlockSet (e224 (w, 4), 2))
    ∗ ownedAny (F := F) ((SparseCore.T d).loc main_v46) (oBlockSet (e224 (w, 5), 2))
    ∗ ownedAny (F := F) ((SparseCore.T d).loc main_v46) (oBlockSet (e224 (w, 6), 2))
    ∗ ownedAny (F := F) ((SparseCore.T d).loc main_v46) (oBlockSet (e224 (w, 0), 3))
    ∗ ownedAny (F := F) ((SparseCore.T d).loc main_v46) (oBlockSet (e224 (w, 1), 3))
    ∗ ownedAny (F := F) ((SparseCore.T d).loc main_v46) (oBlockSet (e224 (w, 2), 3))
    ∗ ownedAny (F := F) ((SparseCore.T d).loc main_v46) (oBlockSet (e224 (w, 3), 3))
    ∗ ownedAny (F := F) ((SparseCore.T d).loc main_v46) (oBlockSet (e224 (w, 4), 3))
    ∗ ownedAny (F := F) ((SparseCore.T d).loc main_v46) (oBlockSet (e224 (w, 5), 3))
    ∗ ownedAny (F := F) ((SparseCore.T d).loc main_v46) (oBlockSet (e224 (w, 6), 3)))

theorem widL_coordsV3 (c : Fin 2) (i : Fin 16) : widL3 (coordsV3 c i) = widEquiv (c, i) := Fin.ext rfl

set_option maxRecDepth 8192 in
set_option maxHeartbeats 1000000 in
theorem tileRes3_chain (d : Dev nD) (c : Fin 2) (i : Fin 16) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) :
    tileRes3 d (coordsV3 c i) qx fi0 fi1 fi2 fi3 fx0 fx1 fx2 fx3 = chain3 d (widL3 (coordsV3 c i)) qx fi0 fi1 fi2 fi3 fx0 fx1 fx2 fx3 := by
  unfold tileRes3 chain3
  exact (sepCongr (pts_rowK_main_v39 d (coordsV3 c i) _ _ _) (sepCongr (pts_rowK_main_v41 d (coordsV3 c i) _ _ _) (sepCongr (pts_rowK_main_v43 d (coordsV3 c i) _ _ _) (sepCongr (pts_rowK_main_v45 d (coordsV3 c i) _ _ _) (sepCongr rfl (sepCongr rfl (sepCongr rfl (sepCongr rfl (sepCongr rfl (sepCongr rfl (sepCongr rfl (sepCongr rfl (sepCongr (owned_piece3_2 d (coordsV3 c i) _ _ 0) (sepCongr (owned_piece3_2 d (coordsV3 c i) _ _ 1) (sepCongr (owned_piece3_2 d (coordsV3 c i) _ _ 2) (sepCongr (owned_piece3_2 d (coordsV3 c i) _ _ 3) (sepCongr (owned_piece3_2 d (coordsV3 c i) _ _ 4) (sepCongr (owned_piece3_2 d (coordsV3 c i) _ _ 5) (sepCongr (owned_piece3_2 d (coordsV3 c i) _ _ 6) (sepCongr (owned_piece3_3 d (coordsV3 c i) _ _ 0) (sepCongr (owned_piece3_3 d (coordsV3 c i) _ _ 1) (sepCongr (owned_piece3_3 d (coordsV3 c i) _ _ 2) (sepCongr (owned_piece3_3 d (coordsV3 c i) _ _ 3) (sepCongr (owned_piece3_3 d (coordsV3 c i) _ _ 4) (sepCongr (owned_piece3_3 d (coordsV3 c i) _ _ 5) (sepCongr (owned_piece3_3 d (coordsV3 c i) _ _ 6) (sepCongr (owned_piece3_4 d (coordsV3 c i) _ _ 0) (sepCongr (owned_piece3_4 d (coordsV3 c i) _ _ 1) (sepCongr (owned_piece3_4 d (coordsV3 c i) _ _ 2) (sepCongr (owned_piece3_4 d (coordsV3 c i) _ _ 3) (sepCongr (owned_piece3_4 d (coordsV3 c i) _ _ 4) (sepCongr (owned_piece3_4 d (coordsV3 c i) _ _ 5) (sepCongr (owned_piece3_4 d (coordsV3 c i) _ _ 6) (sepCongr (owned_piece3_5 d (coordsV3 c i) _ _ 0) (sepCongr (owned_piece3_5 d (coordsV3 c i) _ _ 1) (sepCongr (owned_piece3_5 d (coordsV3 c i) _ _ 2) (sepCongr (owned_piece3_5 d (coordsV3 c i) _ _ 3) (sepCongr (owned_piece3_5 d (coordsV3 c i) _ _ 4) (sepCongr (owned_piece3_5 d (coordsV3 c i) _ _ 5) (owned_piece3_5 d (coordsV3 c i) _ _ 6))))))))))))))))))))))))))))))))))))))))

variable (m : (ℓ : Loc nD τ sig) → Buf (Elt F) ℓ)

/-- What task `(c, i)` of gather call 3 holds, regrouped. -/
def nice3 (d : Dev nD) (c : Fin 2) (i : Fin 16) : sProp 𝕄 :=
  iprop(
      ((SparseCore.T d).loc main_v39 ↦[iRowSet (widEquiv (c, i))]{fullShare} (Idx.slab 3 (m ((SparseCore.T d).loc main_arg4))))
    ∗ ((SparseCore.T d).loc main_v41 ↦[iRowSet (widEquiv (c, i))]{fullShare} (Idx.slab 3 (m ((SparseCore.T d).loc main_arg5))))
    ∗ ((SparseCore.T d).loc main_v43 ↦[iRowSet (widEquiv (c, i))]{fullShare} (Idx.slab 3 (m ((SparseCore.T d).loc main_arg6))))
    ∗ ((SparseCore.T d).loc main_v45 ↦[iRowSet (widEquiv (c, i))]{fullShare} (Idx.slab 3 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        iprop(∃ fo, (SparseCore.T d).loc main_v46 ↦[oBlockSet (e224 (widEquiv (c, i), r), t)]{fullShare} fo))

set_option maxRecDepth 8192 in
set_option maxHeartbeats 1000000 in
theorem chain3_nice (d : Dev nD) (c : Fin 2) (i : Fin 16) :
    chain3 d (widEquiv (c, i)) (qTask c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) = nice3 m d c i := by
  unfold chain3 nice3 ownedAny
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskRes3_nice (d : Dev nD) (c : Fin 2) (i : Fin 16) : taskRes m 3 d c i = nice3 m d c i := by
  show tileRes3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) = _
  rw [tileRes3_chain, widL_coordsV3]
  exact chain3_nice m d c i

theorem tasks3_eq (d : Dev nD) :
    (bigSep Finset.univ fun c : Fin 2 => bigSep Finset.univ fun i : Fin 16 => taskRes m 3 d c i)
      = iprop((bigSep Finset.univ fun c : Fin 2 => bigSep Finset.univ fun i : Fin 16 => ((SparseCore.T d).loc main_v39 ↦[iRowSet (widEquiv (c, i))]{fullShare} (Idx.slab 3 (m ((SparseCore.T d).loc main_arg4)))))
        ∗ (bigSep Finset.univ fun c : Fin 2 => bigSep Finset.univ fun i : Fin 16 => ((SparseCore.T d).loc main_v41 ↦[iRowSet (widEquiv (c, i))]{fullShare} (Idx.slab 3 (m ((SparseCore.T d).loc main_arg5)))))
        ∗ (bigSep Finset.univ fun c : Fin 2 => bigSep Finset.univ fun i : Fin 16 => ((SparseCore.T d).loc main_v43 ↦[iRowSet (widEquiv (c, i))]{fullShare} (Idx.slab 3 (m ((SparseCore.T d).loc main_arg6)))))
        ∗ (bigSep Finset.univ fun c : Fin 2 => bigSep Finset.univ fun i : Fin 16 => ((SparseCore.T d).loc main_v45 ↦[iRowSet (widEquiv (c, i))]{fullShare} (Idx.slab 3 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        iprop(∃ fo, (SparseCore.T d).loc main_v46 ↦[oBlockSet (e224 (widEquiv (c, i), r), t)]{fullShare} fo))) := by
  have h : (fun c : Fin 2 => bigSep Finset.univ fun i : Fin 16 => taskRes m 3 d c i)
      = fun c : Fin 2 => bigSep Finset.univ fun i : Fin 16 => nice3 m d c i :=
    funext fun c => congrArg (bigSep Finset.univ) (funext fun i => taskRes3_nice m d c i)
  rw [h]
  unfold nice3
  simp only [bigSep_sep']

/-- What gather call 3 takes whole. -/
def whole3 (d : Dev nD) : sProp 𝕄 :=
  iprop(((SparseCore.T d).loc main_v39 ↦{fullShare} (Idx.slab 3 (m ((SparseCore.T d).loc main_arg4)))) ∗ ((SparseCore.T d).loc main_v41 ↦{fullShare} (Idx.slab 3 (m ((SparseCore.T d).loc main_arg5))))
    ∗ ((SparseCore.T d).loc main_v43 ↦{fullShare} (Idx.slab 3 (m ((SparseCore.T d).loc main_arg6)))) ∗ ((SparseCore.T d).loc main_v45 ↦{fullShare} (Idx.slab 3 (m ((SparseCore.T d).loc main_arg7))))
    ∗ ((SparseCore.T d).loc main_arg0 ↦{fullShare} (m ((SparseCore.T d).loc main_arg0))) ∗ ((SparseCore.T d).loc main_arg1 ↦{fullShare} (m ((SparseCore.T d).loc main_arg1)))
    ∗ ((SparseCore.T d).loc main_arg2 ↦{fullShare} (m ((SparseCore.T d).loc main_arg2))) ∗ ((SparseCore.T d).loc main_arg3 ↦{fullShare} (m ((SparseCore.T d).loc main_arg3)))
    ∗ ∃ f, (SparseCore.T d).loc main_v46 ↦{fullShare} f)

/-- THE DEAL for call 3. -/
theorem deal3_split (d : Dev nD) :
    whole3 m d ⊢ iprop(rest0 m d ∗ bigSep Finset.univ fun c : Fin 2 => bigSep Finset.univ fun i : Fin 16 => taskRes m 3 d c i) := by
  rw [tasks3_eq]
  unfold whole3 rest0
  rw [rows_main_v39 d, rows_main_v41 d, rows_main_v43 d, rows_main_v45 d]
  iintro ⟨H12, H14, H16, H18, Hx0, Hx1, Hx2, Hx3, Ho⟩
  ihave Hs0 := (tab_split (m ((SparseCore.T d).loc main_arg0))) $$ Hx0
  ihave Hs1 := (tab_split (m ((SparseCore.T d).loc main_arg1))) $$ Hx1
  ihave Hs2 := (tab_split (m ((SparseCore.T d).loc main_arg2))) $$ Hx2
  ihave Hs3 := (tab_split (m ((SparseCore.T d).loc main_arg3))) $$ Hx3
  ihave Hob := (blocks_split_main_v46 d) $$ Ho
  icases Hs0 with ⟨Hr0, Hq0⟩
  icases Hs1 with ⟨Hr1, Hq1⟩
  icases Hs2 with ⟨Hr2, Hq2⟩
  icases Hs3 with ⟨Hr3, Hq3⟩
  isplitl [Hr0 Hr1 Hr2 Hr3]
  · isplitl [Hr0]; · iexact Hr0
    isplitl [Hr1]; · iexact Hr1
    isplitl [Hr2]; · iexact Hr2
    iexact Hr3
  isplitl [H12]; · iexact H12
  isplitl [H14]; · iexact H14
  isplitl [H16]; · iexact H16
  isplitl [H18]; · iexact H18
  isplitl [Hq0]; · iexact Hq0
  isplitl [Hq1]; · iexact Hq1
  isplitl [Hq2]; · iexact Hq2
  isplitl [Hq3]; · iexact Hq3
  iexact Hob

theorem deal3_join (d : Dev nD) :
    iprop(rest0 m d ∗ bigSep Finset.univ fun c : Fin 2 => bigSep Finset.univ fun i : Fin 16 => taskRes m 3 d c i) ⊢ whole3 m d := by
  rw [tasks3_eq]
  unfold whole3 rest0
  rw [rows_main_v39 d, rows_main_v41 d, rows_main_v43 d, rows_main_v45 d]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iapply (blocks_join_main_v46 d); iexact Ho

end Cert.Kernel.Sc

end
-- ==== Proof.KScCall3.lean ====
/-
  One gather call as @main meets it on the TensorCore.  Of the TensorCore's whole buffers the call works on nine: its four
  index arrays (at the padded, sliced, reshaped index inputs), the four tables (at the inputs), and its result.  They are
  dealt out to the call's thirty-two tasks, the call is made, and they come back, the result at whatever the tasks wrote.
-/
import proofs.«215994_g5102421148354_cont_8to1c4_853_29_alg».proof.Proof.KScLaunch
import proofs.«215994_g5102421148354_cont_8to1c4_853_29_alg».proof.Proof.KMainCut
import proofs.«215994_g5102421148354_cont_8to1c4_853_29_alg».proof.Proof.KScDeal3

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The nine buffers call 3 works on: its four index arrays, the four tables, its result. -/
abbrev l9_3 : List (DevRef τ sig) := [dr main_v39, dr main_v41, dr main_v43, dr main_v45, dr main_arg0, dr main_arg1, dr main_arg2, dr main_arg3, dr main_v46]
theorem l9_3_sub : (l9_3).toFinset ⊆ Pipeline.ucRefs τ sig := by decide
theorem l9_3_nodup : (l9_3).Nodup := by decide

theorem held9_3 (d : Dev nD) (W : Valuation τ sig (Elt F)) :
    (held (d.tc : Thread nD τ) (l9_3).toFinset W : sProp 𝕄)
      = iprop((((d, dr main_v39) : Loc nD τ sig) ↦{fullShare} W (dr main_v39)) ∗ (((d, dr main_v41) : Loc nD τ sig) ↦{fullShare} W (dr main_v41))
          ∗ (((d, dr main_v43) : Loc nD τ sig) ↦{fullShare} W (dr main_v43)) ∗ (((d, dr main_v45) : Loc nD τ sig) ↦{fullShare} W (dr main_v45))
          ∗ (((d, dr main_arg0) : Loc nD τ sig) ↦{fullShare} W (dr main_arg0)) ∗ (((d, dr main_arg1) : Loc nD τ sig) ↦{fullShare} W (dr main_arg1))
          ∗ (((d, dr main_arg2) : Loc nD τ sig) ↦{fullShare} W (dr main_arg2)) ∗ (((d, dr main_arg3) : Loc nD τ sig) ↦{fullShare} W (dr main_arg3))
          ∗ (((d, dr main_v46) : Loc nD τ sig) ↦{fullShare} W (dr main_v46))) := by
  unfold held
  rw [bigSep_eq_bigSepL _ l9_3_nodup]
  rfl

/-- A SparseCore's share of call 3, over the two SparseCores: the thirty-two tasks'. -/
theorem st3_eq (d : Dev nD) :
    (bigSep Finset.univ fun c : Fin ((K (F := F)).nCore 3) => (P m).st 3 d c)
      = bigSep Finset.univ fun c : Fin 2 => bigSep Finset.univ fun i : Fin 16 => taskRes m 3 d c i :=
  bigSep_congr fun c _ =>
    show (bigSep Finset.univ fun i : Fin 16 => taskRes m 3 d (Fin.cast (nCore_eq 3) c) i) = bigSep Finset.univ fun i : Fin 16 => taskRes m 3 d c i from
      bigSep_congr fun i _ => congrArg (fun c' => taskRes m 3 d c' i) (Fin.ext rfl)

theorem dn3_eq (d : Dev nD) :
    (bigSep Finset.univ fun c : Fin ((K (F := F)).nCore 3) => (P m).dn 3 d c)
      = bigSep Finset.univ fun c : Fin 2 => bigSep Finset.univ fun i : Fin 16 => taskRes m 3 d c i :=
  bigSep_congr fun c _ =>
    show (bigSep Finset.univ fun i : Fin 16 => taskRes m 3 d (Fin.cast (nCore_eq 3) c) i) = bigSep Finset.univ fun i : Fin 16 => taskRes m 3 d c i from
      bigSep_congr fun i _ => congrArg (fun c' => taskRes m 3 d c' i) (Fin.ext rfl)

set_option maxHeartbeats 4000000 in
theorem call_step3 (κ : GSem nD τ sig → ℕ) (d : Dev nD) (W : Valuation τ sig (Elt F))
    (h12 : W (dr main_v39) = Idx.slab 3 (m ((SparseCore.T d).loc main_arg4))) (h14 : W (dr main_v41) = Idx.slab 3 (m ((SparseCore.T d).loc main_arg5)))
    (h16 : W (dr main_v43) = Idx.slab 3 (m ((SparseCore.T d).loc main_arg6))) (h18 : W (dr main_v45) = Idx.slab 3 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (P m) κ ∗ (K (F := F)).tcSt EH d 3 ∗ held (d.tc : Thread nD τ) (Pipeline.ucRefs τ sig) W
        ∗ (∀ f : Buf (Elt F) ((SparseCore.T d).loc main_v46),
            iprop((K (F := F)).tcSt EH d 4 ∗ held (d.tc : Thread nD τ) (Pipeline.ucRefs τ sig) (Function.update W (dr main_v46) f)) -∗ Φ ⟨⟩))
      ⊢ wp frame (wpE ((K (F := F)).defs (D (F := F))) 𝒱 (SparseCore.T d) none) Set.univ ((K (F := F)).run d 3) Φ := by
  rw [held_sub_split (c := (d.tc : Thread nD τ)) l9_3_sub W, held9_3, h12, h14, h16, h18, ha0, ha1, ha2, ha3]
  iintro ⟨#Hctx, Hst, ⟨⟨H12, H14, H16, H18, A0, A1, A2, A3, O19⟩, Hrest⟩, Hk⟩
  ihave Hw := (deal3_split m d) $$ [H12 H14 H16 H18 A0 A1 A2 A3 O19]
  · unfold whole3
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := P m) κ d 3) $$ [Hst Htasks Hr0 Hrest Hk]
  isplitr; · iexact Hctx
  isplitl [Hst]; · iexact Hst
  isplitl [Htasks]; · rw [st3_eq]; iexact Htasks
  iintro ⟨Hst, Hdn⟩
  ihave Hdn' := (Entails.of_eq (dn3_eq m d)) $$ Hdn
  ihave Hw2 := (deal3_join m d) $$ [Hr0 Hdn']
  · isplitl [Hr0] <;> iassumption
  unfold whole3
  icases Hw2 with ⟨H12, H14, H16, H18, A0, A1, A2, A3, ⟨%f, O19⟩⟩
  ispecialize Hk $$ %f
  iapply Hk
  isplitl [Hst]; · iexact Hst
  rw [held_sub_split (c := (d.tc : Thread nD τ)) l9_3_sub (Function.update W (dr main_v46) f), held9_3,
    Function.update_of_ne (show dr main_v39 ≠ dr main_v46 by decide), Function.update_of_ne (show dr main_v41 ≠ dr main_v46 by decide), Function.update_of_ne (show dr main_v43 ≠ dr main_v46 by decide), Function.update_of_ne (show dr main_v45 ≠ dr main_v46 by decide), Function.update_of_ne (show dr main_arg0 ≠ dr main_v46 by decide), Function.update_of_ne (show dr main_arg1 ≠ dr main_v46 by decide), Function.update_of_ne (show dr main_arg2 ≠ dr main_v46 by decide), Function.update_of_ne (show dr main_arg3 ≠ dr main_v46 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v46) f) (V' := W) (fun b hb =>
    Function.update_of_ne (fun e => (Finset.mem_sdiff.mp hb).2 (e ▸ (by decide : dr main_v46 ∈ (l9_3).toFinset))) _ _)]
  iexact Hrest

end Cert.Kernel.Sc
end
-- ==== Proof.KTcSplit.lean ====
import proofs.«215994_g5102421148354_cont_8to1c4_853_29_alg».proof.Proof.KTcRegion
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The six arrays of each call among the TensorCore's unscoped buffers -/

/-- The TensorCore's unscoped buffers at contents `W` are call 4's six arrays at `W`'s entries and the rest. -/
theorem unscopedBufs_arrs4 (c : Dev nD) (W : (b : Ref sig .tc) → Buf (Elt F) ((c : Thread nD τ).loc b)) :
    (unscopedBufs c W : sProp 𝕄)
      = iprop(arrs4 (Ix := Ix) (Name := Name) (U := U) (Lvl := Lvl) c (fun w => W (Pipeline.arrRef spec4 w))
          ∗ Pipeline.unscopedRest (Ix := Ix) (Name := Name) (U := U) (Lvl := Lvl) spec4 c W) := by
  unfold arrs4
  exact Pipeline.unscopedBufs_split cfgs 0 launch4.win.arr_unscoped launch4.win.arr_inj c W

/-- The TensorCore's unscoped buffers at contents `W` are call 5's six arrays at `W`'s entries and the rest. -/
theorem unscopedBufs_arrs5 (c : Dev nD) (W : (b : Ref sig .tc) → Buf (Elt F) ((c : Thread nD τ).loc b)) :
    (unscopedBufs c W : sProp 𝕄)
      = iprop(arrs5 (Ix := Ix) (Name := Name) (U := U) (Lvl := Lvl) c (fun w => W (Pipeline.arrRef spec5 w))
          ∗ Pipeline.unscopedRest (Ix := Ix) (Name := Name) (U := U) (Lvl := Lvl) spec5 c W) := by
  unfold arrs5
  exact Pipeline.unscopedBufs_split cfgs 1 launch5.win.arr_unscoped launch5.win.arr_inj c W

/-- The TensorCore's unscoped buffers at contents `W` are call 6's six arrays at `W`'s entries and the rest. -/
theorem unscopedBufs_arrs6 (c : Dev nD) (W : (b : Ref sig .tc) → Buf (Elt F) ((c : Thread nD τ).loc b)) :
    (unscopedBufs c W : sProp 𝕄)
      = iprop(arrs6 (Ix := Ix) (Name := Name) (U := U) (Lvl := Lvl) c (fun w => W (Pipeline.arrRef spec6 w))
          ∗ Pipeline.unscopedRest (Ix := Ix) (Name := Name) (U := U) (Lvl := Lvl) spec6 c W) := by
  unfold arrs6
  exact Pipeline.unscopedBufs_split cfgs 2 launch6.win.arr_unscoped launch6.win.arr_inj c W

/-- The TensorCore's unscoped buffers at contents `W` are call 7's six arrays at `W`'s entries and the rest. -/
theorem unscopedBufs_arrs7 (c : Dev nD) (W : (b : Ref sig .tc) → Buf (Elt F) ((c : Thread nD τ).loc b)) :
    (unscopedBufs c W : sProp 𝕄)
      = iprop(arrs7 (Ix := Ix) (Name := Name) (U := U) (Lvl := Lvl) c (fun w => W (Pipeline.arrRef spec7 w))
          ∗ Pipeline.unscopedRest (Ix := Ix) (Name := Name) (U := U) (Lvl := Lvl) spec7 c W) := by
  unfold arrs7
  exact Pipeline.unscopedBufs_split cfgs 3 launch7.win.arr_unscoped launch7.win.arr_inj c W

/-- Back again: call 4's six arrays at `G` and the rest at `W` are the unscoped buffers at any contents `W'` that has
    the arrays at `G` and agrees with `W` off them. -/
theorem arrs4_unscopedBufs (c : Dev nD) (W W' : (b : Ref sig .tc) → Buf (Elt F) ((c : Thread nD τ).loc b))
    (G : (w : Fin 6) → Buf (Elt F) ((c : Thread nD τ).loc (Pipeline.arrRef spec4 w)))
    (hG : ∀ w, G w = W' (Pipeline.arrRef spec4 w))
    (hrest : ∀ b, b ∉ Finset.univ.image (Pipeline.arrRef spec4) → W' b = W b) :
    iprop(arrs4 (Ix := Ix) (Name := Name) (U := U) (Lvl := Lvl) c G
        ∗ Pipeline.unscopedRest (Ix := Ix) (Name := Name) (U := U) (Lvl := Lvl) spec4 c W)
      ⊢ (unscopedBufs c W' : sProp 𝕄) := by
  rw [unscopedBufs_arrs4 c W']
  refine sep_mono (Entails.of_eq ?_) (Entails.of_eq ?_)
  · unfold arrs4
    exact bigSep_congr fun w _ => by rw [hG]
  · unfold Pipeline.unscopedRest
    exact bigSep_congr fun b hb => by rw [hrest b (Finset.mem_sdiff.mp hb).2]

/-- Back again: call 5's six arrays at `G` and the rest at `W` are the unscoped buffers at any contents `W'` that has
    the arrays at `G` and agrees with `W` off them. -/
theorem arrs5_unscopedBufs (c : Dev nD) (W W' : (b : Ref sig .tc) → Buf (Elt F) ((c : Thread nD τ).loc b))
    (G : (w : Fin 6) → Buf (Elt F) ((c : Thread nD τ).loc (Pipeline.arrRef spec5 w)))
    (hG : ∀ w, G w = W' (Pipeline.arrRef spec5 w))
    (hrest : ∀ b, b ∉ Finset.univ.image (Pipeline.arrRef spec5) → W' b = W b) :
    iprop(arrs5 (Ix := Ix) (Name := Name) (U := U) (Lvl := Lvl) c G
        ∗ Pipeline.unscopedRest (Ix := Ix) (Name := Name) (U := U) (Lvl := Lvl) spec5 c W)
      ⊢ (unscopedBufs c W' : sProp 𝕄) := by
  rw [unscopedBufs_arrs5 c W']
  refine sep_mono (Entails.of_eq ?_) (Entails.of_eq ?_)
  · unfold arrs5
    exact bigSep_congr fun w _ => by rw [hG]
  · unfold Pipeline.unscopedRest
    exact bigSep_congr fun b hb => by rw [hrest b (Finset.mem_sdiff.mp hb).2]

/-- Back again: call 6's six arrays at `G` and the rest at `W` are the unscoped buffers at any contents `W'` that has
    the arrays at `G` and agrees with `W` off them. -/
theorem arrs6_unscopedBufs (c : Dev nD) (W W' : (b : Ref sig .tc) → Buf (Elt F) ((c : Thread nD τ).loc b))
    (G : (w : Fin 6) → Buf (Elt F) ((c : Thread nD τ).loc (Pipeline.arrRef spec6 w)))
    (hG : ∀ w, G w = W' (Pipeline.arrRef spec6 w))
    (hrest : ∀ b, b ∉ Finset.univ.image (Pipeline.arrRef spec6) → W' b = W b) :
    iprop(arrs6 (Ix := Ix) (Name := Name) (U := U) (Lvl := Lvl) c G
        ∗ Pipeline.unscopedRest (Ix := Ix) (Name := Name) (U := U) (Lvl := Lvl) spec6 c W)
      ⊢ (unscopedBufs c W' : sProp 𝕄) := by
  rw [unscopedBufs_arrs6 c W']
  refine sep_mono (Entails.of_eq ?_) (Entails.of_eq ?_)
  · unfold arrs6
    exact bigSep_congr fun w _ => by rw [hG]
  · unfold Pipeline.unscopedRest
    exact bigSep_congr fun b hb => by rw [hrest b (Finset.mem_sdiff.mp hb).2]

/-- Back again: call 7's six arrays at `G` and the rest at `W` are the unscoped buffers at any contents `W'` that has
    the arrays at `G` and agrees with `W` off them. -/
theorem arrs7_unscopedBufs (c : Dev nD) (W W' : (b : Ref sig .tc) → Buf (Elt F) ((c : Thread nD τ).loc b))
    (G : (w : Fin 6) → Buf (Elt F) ((c : Thread nD τ).loc (Pipeline.arrRef spec7 w)))
    (hG : ∀ w, G w = W' (Pipeline.arrRef spec7 w))
    (hrest : ∀ b, b ∉ Finset.univ.image (Pipeline.arrRef spec7) → W' b = W b) :
    iprop(arrs7 (Ix := Ix) (Name := Name) (U := U) (Lvl := Lvl) c G
        ∗ Pipeline.unscopedRest (Ix := Ix) (Name := Name) (U := U) (Lvl := Lvl) spec7 c W)
      ⊢ (unscopedBufs c W' : sProp 𝕄) := by
  rw [unscopedBufs_arrs7 c W']
  refine sep_mono (Entails.of_eq ?_) (Entails.of_eq ?_)
  · unfold arrs7
    exact bigSep_congr fun w _ => by rw [hG]
  · unfold Pipeline.unscopedRest
    exact bigSep_congr fun b hb => by rw [hrest b (Finset.mem_sdiff.mp hb).2]

end Cert.Kernel.Tc

end
-- ==== Proof.KTcFin.lean ====
import proofs.«215994_g5102421148354_cont_8to1c4_853_29_alg».proof.Proof.KTcRegion
import Idealize.ShloMosaic.Lib.Pipeline.Value
import proofs.«215994_g5102421148354_cont_8to1c4_853_29_alg».proof.Proof.Gen.Kernel.Launch
import proofs.«215994_g5102421148354_cont_8to1c4_853_29_alg».proof.Proof.Gen.Kernel.Skeleton
import proofs.«215994_g5102421148354_cont_8to1c4_853_29_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Fin

variable (V : Fin 4 → (c : Dev nD) → (b : Ref sig .tc) → Buf (Elt F) ((c : Thread nD τ).loc b))

/-! ## The result array after call 4 -/

/-- What grid point `t` of call 4 writes back: the part inside the array of the body's term on the five input blocks. -/
theorem flushed4_5 (c : Dev nD) (t : Fin cfg4.N) :
    (dat4 (Name := Name) (U := U) (Lvl := Lvl) (V 0) (Set.univ : Set (SemLoc sig × Ix)) c).flushed 5 t = (cfg4.win 5).cut (grid4.coords t) (out4_5 (iblk4 (V 0) c 0 t) (iblk4 (V 0) c 1 t) (iblk4 (V 0) c 2 t) (iblk4 (V 0) c 3 t) (iblk4 (V 0) c 4 t)) := by
  show (cfg4.win 5).cut (grid4.coords t) ((dat4 (Name := Name) (U := U) (Lvl := Lvl) (V 0) (Set.univ : Set (SemLoc sig × Ix)) c).after 5 t) = _
  rw [after4_5]

/-- Distinct grid points write distinct blocks of the result. -/
theorem idx_inj4 : ∀ t t' : Fin cfg4.N, win4_5.index t = win4_5.index t' → t = t' :=
  (by decide +kernel : ∀ t t' : Fin grid4.N, win4_5.index t = win4_5.index t' → t = t')

/-- So the blocks two grid points write back share no index of the result. -/
theorem disjoint4 : ∀ t t' : Fin cfg4.N, (cfg4.win 5).flush t = true → (cfg4.win 5).flush t' = true → t ≠ t' →
    Disjoint ((cfg4.win 5).blk t).view.set ((cfg4.win 5).blk t').view.set :=
  fun t t' _ _ hne => (cfg4.win 5).disjoint_blk fun h => hne (idx_inj4 t t' h)

/-- Block `t` of the result after call 4, read back through the window, is the body's term on the matching blocks of
    the gathered slab and on the parameters — cut at the array's end where the block overhangs it. -/
theorem fin4_block (c : Dev nD) (t : Fin cfg4.N) :
    ((cfg4.win 5).blk t).view.read (Elt F) (fin4 (Ix := Ix) (Name := Name) (U := U) (Lvl := Lvl) V c 5) = (cfg4.win 5).cut (grid4.coords t) (out4_5 (iblk4 (V 0) c 0 t) (iblk4 (V 0) c 1 t) (iblk4 (V 0) c 2 t) (iblk4 (V 0) c 3 t) (iblk4 (V 0) c 4 t)) := by
  unfold fin4
  rw [(dat4 (Name := Name) (U := U) (Lvl := Lvl) (V 0) (Set.univ : Set (SemLoc sig × Ix)) c).read_blk_arrAt_eq_flushed 5 disjoint4 cfg4.N t t.isLt (flush4_5 t), flushed4_5]

/-- An index of the result under no block of call 4 holds what the region found there. -/
theorem fin4_rest (c : Dev nD) (i : S100000x512.Idx) (h : ∀ t : Fin cfg4.N, i ∉ ((cfg4.win 5).blk t).view.set) :
    fin4 (Ix := Ix) (Name := Name) (U := U) (Lvl := Lvl) V c 5 i = V 0 c (Pipeline.arrRef spec4 5) i := by
  unfold fin4
  rw [(dat4 (Name := Name) (U := U) (Lvl := Lvl) (V 0) (Set.univ : Set (SemLoc sig × Ix)) c).arrAt_apply_of_forall_not_mem 5 cfg4.N i (fun t _ _ => h t), A_eq4]

/-- The five input arrays leave call 4 as they entered it. -/
theorem fin4_in (c : Dev nD) (w : Fin 6) (hw : (cfg4.win w).isOut = false) :
    fin4 (Ix := Ix) (Name := Name) (U := U) (Lvl := Lvl) V c w = V 0 c (Pipeline.arrRef spec4 w) := by
  unfold fin4
  rw [(dat4 (Name := Name) (U := U) (Lvl := Lvl) (V 0) (Set.univ : Set (SemLoc sig × Ix)) c).arrAt_in w hw, A_eq4]

/-! ## The result array after call 5 -/

/-- What grid point `t` of call 5 writes back: the part inside the array of the body's term on the five input blocks. -/
theorem flushed5_5 (c : Dev nD) (t : Fin cfg5.N) :
    (dat5 (Name := Name) (U := U) (Lvl := Lvl) (V 1) (Set.univ : Set (SemLoc sig × Ix)) c).flushed 5 t = (cfg5.win 5).cut (grid5.coords t) (out5_5 (iblk5 (V 1) c 0 t) (iblk5 (V 1) c 1 t) (iblk5 (V 1) c 2 t) (iblk5 (V 1) c 3 t) (iblk5 (V 1) c 4 t)) := by
  show (cfg5.win 5).cut (grid5.coords t) ((dat5 (Name := Name) (U := U) (Lvl := Lvl) (V 1) (Set.univ : Set (SemLoc sig × Ix)) c).after 5 t) = _
  rw [after5_5]

/-- Distinct grid points write distinct blocks of the result. -/
theorem idx_inj5 : ∀ t t' : Fin cfg5.N, win5_5.index t = win5_5.index t' → t = t' :=
  (by decide +kernel : ∀ t t' : Fin grid5.N, win5_5.index t = win5_5.index t' → t = t')

/-- So the blocks two grid points write back share no index of the result. -/
theorem disjoint5 : ∀ t t' : Fin cfg5.N, (cfg5.win 5).flush t = true → (cfg5.win 5).flush t' = true → t ≠ t' →
    Disjoint ((cfg5.win 5).blk t).view.set ((cfg5.win 5).blk t').view.set :=
  fun t t' _ _ hne => (cfg5.win 5).disjoint_blk fun h => hne (idx_inj5 t t' h)

/-- Block `t` of the result after call 5, read back through the window, is the body's term on the matching blocks of
    the gathered slab and on the parameters — cut at the array's end where the block overhangs it. -/
theorem fin5_block (c : Dev nD) (t : Fin cfg5.N) :
    ((cfg5.win 5).blk t).view.read (Elt F) (fin5 (Ix := Ix) (Name := Name) (U := U) (Lvl := Lvl) V c 5) = (cfg5.win 5).cut (grid5.coords t) (out5_5 (iblk5 (V 1) c 0 t) (iblk5 (V 1) c 1 t) (iblk5 (V 1) c 2 t) (iblk5 (V 1) c 3 t) (iblk5 (V 1) c 4 t)) := by
  unfold fin5
  rw [(dat5 (Name := Name) (U := U) (Lvl := Lvl) (V 1) (Set.univ : Set (SemLoc sig × Ix)) c).read_blk_arrAt_eq_flushed 5 disjoint5 cfg5.N t t.isLt (flush5_5 t), flushed5_5]

/-- An index of the result under no block of call 5 holds what the region found there. -/
theorem fin5_rest (c : Dev nD) (i : S100000x512.Idx) (h : ∀ t : Fin cfg5.N, i ∉ ((cfg5.win 5).blk t).view.set) :
    fin5 (Ix := Ix) (Name := Name) (U := U) (Lvl := Lvl) V c 5 i = V 1 c (Pipeline.arrRef spec5 5) i := by
  unfold fin5
  rw [(dat5 (Name := Name) (U := U) (Lvl := Lvl) (V 1) (Set.univ : Set (SemLoc sig × Ix)) c).arrAt_apply_of_forall_not_mem 5 cfg5.N i (fun t _ _ => h t), A_eq5]

/-- The five input arrays leave call 5 as they entered it. -/
theorem fin5_in (c : Dev nD) (w : Fin 6) (hw : (cfg5.win w).isOut = false) :
    fin5 (Ix := Ix) (Name := Name) (U := U) (Lvl := Lvl) V c w = V 1 c (Pipeline.arrRef spec5 w) := by
  unfold fin5
  rw [(dat5 (Name := Name) (U := U) (Lvl := Lvl) (V 1) (Set.univ : Set (SemLoc sig × Ix)) c).arrAt_in w hw, A_eq5]

/-! ## The result array after call 6 -/

/-- What grid point `t` of call 6 writes back: the part inside the array of the body's term on the five input blocks. -/
theorem flushed6_5 (c : Dev nD) (t : Fin cfg6.N) :
    (dat6 (Name := Name) (U := U) (Lvl := Lvl) (V 2) (Set.univ : Set (SemLoc sig × Ix)) c).flushed 5 t = (cfg6.win 5).cut (grid6.coords t) (out6_5 (iblk6 (V 2) c 0 t) (iblk6 (V 2) c 1 t) (iblk6 (V 2) c 2 t) (iblk6 (V 2) c 3 t) (iblk6 (V 2) c 4 t)) := by
  show (cfg6.win 5).cut (grid6.coords t) ((dat6 (Name := Name) (U := U) (Lvl := Lvl) (V 2) (Set.univ : Set (SemLoc sig × Ix)) c).after 5 t) = _
  rw [after6_5]

/-- Distinct grid points write distinct blocks of the result. -/
theorem idx_inj6 : ∀ t t' : Fin cfg6.N, win6_5.index t = win6_5.index t' → t = t' :=
  (by decide +kernel : ∀ t t' : Fin grid6.N, win6_5.index t = win6_5.index t' → t = t')

/-- So the blocks two grid points write back share no index of the result. -/
theorem disjoint6 : ∀ t t' : Fin cfg6.N, (cfg6.win 5).flush t = true → (cfg6.win 5).flush t' = true → t ≠ t' →
    Disjoint ((cfg6.win 5).blk t).view.set ((cfg6.win 5).blk t').view.set :=
  fun t t' _ _ hne => (cfg6.win 5).disjoint_blk fun h => hne (idx_inj6 t t' h)

/-- Block `t` of the result after call 6, read back through the window, is the body's term on the matching blocks of
    the gathered slab and on the parameters — cut at the array's end where the block overhangs it. -/
theorem fin6_block (c : Dev nD) (t : Fin cfg6.N) :
    ((cfg6.win 5).blk t).view.read (Elt F) (fin6 (Ix := Ix) (Name := Name) (U := U) (Lvl := Lvl) V c 5) = (cfg6.win 5).cut (grid6.coords t) (out6_5 (iblk6 (V 2) c 0 t) (iblk6 (V 2) c 1 t) (iblk6 (V 2) c 2 t) (iblk6 (V 2) c 3 t) (iblk6 (V 2) c 4 t)) := by
  unfold fin6
  rw [(dat6 (Name := Name) (U := U) (Lvl := Lvl) (V 2) (Set.univ : Set (SemLoc sig × Ix)) c).read_blk_arrAt_eq_flushed 5 disjoint6 cfg6.N t t.isLt (flush6_5 t), flushed6_5]

/-- An index of the result under no block of call 6 holds what the region found there. -/
theorem fin6_rest (c : Dev nD) (i : S100000x512.Idx) (h : ∀ t : Fin cfg6.N, i ∉ ((cfg6.win 5).blk t).view.set) :
    fin6 (Ix := Ix) (Name := Name) (U := U) (Lvl := Lvl) V c 5 i = V 2 c (Pipeline.arrRef spec6 5) i := by
  unfold fin6
  rw [(dat6 (Name := Name) (U := U) (Lvl := Lvl) (V 2) (Set.univ : Set (SemLoc sig × Ix)) c).arrAt_apply_of_forall_not_mem 5 cfg6.N i (fun t _ _ => h t), A_eq6]

/-- The five input arrays leave call 6 as they entered it. -/
theorem fin6_in (c : Dev nD) (w : Fin 6) (hw : (cfg6.win w).isOut = false) :
    fin6 (Ix := Ix) (Name := Name) (U := U) (Lvl := Lvl) V c w = V 2 c (Pipeline.arrRef spec6 w) := by
  unfold fin6
  rw [(dat6 (Name := Name) (U := U) (Lvl := Lvl) (V 2) (Set.univ : Set (SemLoc sig × Ix)) c).arrAt_in w hw, A_eq6]

/-! ## The result array after call 7 -/

/-- What grid point `t` of call 7 writes back: the part inside the array of the body's term on the five input blocks. -/
theorem flushed7_5 (c : Dev nD) (t : Fin cfg7.N) :
    (dat7 (Name := Name) (U := U) (Lvl := Lvl) (V 3) (Set.univ : Set (SemLoc sig × Ix)) c).flushed 5 t = (cfg7.win 5).cut (grid7.coords t) (out7_5 (iblk7 (V 3) c 0 t) (iblk7 (V 3) c 1 t) (iblk7 (V 3) c 2 t) (iblk7 (V 3) c 3 t) (iblk7 (V 3) c 4 t)) := by
  show (cfg7.win 5).cut (grid7.coords t) ((dat7 (Name := Name) (U := U) (Lvl := Lvl) (V 3) (Set.univ : Set (SemLoc sig × Ix)) c).after 5 t) = _
  rw [after7_5]

/-- Distinct grid points write distinct blocks of the result. -/
theorem idx_inj7 : ∀ t t' : Fin cfg7.N, win7_5.index t = win7_5.index t' → t = t' :=
  (by decide +kernel : ∀ t t' : Fin grid7.N, win7_5.index t = win7_5.index t' → t = t')

/-- So the blocks two grid points write back share no index of the result. -/
theorem disjoint7 : ∀ t t' : Fin cfg7.N, (cfg7.win 5).flush t = true → (cfg7.win 5).flush t' = true → t ≠ t' →
    Disjoint ((cfg7.win 5).blk t).view.set ((cfg7.win 5).blk t').view.set :=
  fun t t' _ _ hne => (cfg7.win 5).disjoint_blk fun h => hne (idx_inj7 t t' h)

/-- Block `t` of the result after call 7, read back through the window, is the body's term on the matching blocks of
    the gathered slab and on the parameters — cut at the array's end where the block overhangs it. -/
theorem fin7_block (c : Dev nD) (t : Fin cfg7.N) :
    ((cfg7.win 5).blk t).view.read (Elt F) (fin7 (Ix := Ix) (Name := Name) (U := U) (Lvl := Lvl) V c 5) = (cfg7.win 5).cut (grid7.coords t) (out7_5 (iblk7 (V 3) c 0 t) (iblk7 (V 3) c 1 t) (iblk7 (V 3) c 2 t) (iblk7 (V 3) c 3 t) (iblk7 (V 3) c 4 t)) := by
  unfold fin7
  rw [(dat7 (Name := Name) (U := U) (Lvl := Lvl) (V 3) (Set.univ : Set (SemLoc sig × Ix)) c).read_blk_arrAt_eq_flushed 5 disjoint7 cfg7.N t t.isLt (flush7_5 t), flushed7_5]

/-- An index of the result under no block of call 7 holds what the region found there. -/
theorem fin7_rest (c : Dev nD) (i : S100000x512.Idx) (h : ∀ t : Fin cfg7.N, i ∉ ((cfg7.win 5).blk t).view.set) :
    fin7 (Ix := Ix) (Name := Name) (U := U) (Lvl := Lvl) V c 5 i = V 3 c (Pipeline.arrRef spec7 5) i := by
  unfold fin7
  rw [(dat7 (Name := Name) (U := U) (Lvl := Lvl) (V 3) (Set.univ : Set (SemLoc sig × Ix)) c).arrAt_apply_of_forall_not_mem 5 cfg7.N i (fun t _ _ => h t), A_eq7]

/-- The five input arrays leave call 7 as they entered it. -/
theorem fin7_in (c : Dev nD) (w : Fin 6) (hw : (cfg7.win w).isOut = false) :
    fin7 (Ix := Ix) (Name := Name) (U := U) (Lvl := Lvl) V c w = V 3 c (Pipeline.arrRef spec7 w) := by
  unfold fin7
  rw [(dat7 (Name := Name) (U := U) (Lvl := Lvl) (V 3) (Set.univ : Set (SemLoc sig × Ix)) c).arrAt_in w hw, A_eq7]

end Fin

end Cert.Kernel.Tc

end
-- ==== Proof.KScRegion0.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.KScLaunch
import proofs.«215994_g5102421148354_cont_8to1c4_853_29_alg».proof.Proof.KTcSplit
import proofs.«215994_g5102421148354_cont_8to1c4_853_29_alg».proof.Proof.KTcFin

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ)

/-- The buffers' contents as the regions' theorems take them: the same on every device. -/
abbrev asV (W : Valuation τ sig (Elt F)) : Fin 4 → (c : Dev nD) → (b : Ref sig .tc) → Buf (Elt F) ((c.tc : Thread nD τ).loc b) := fun _ _ b => W (dr b)

set_option maxHeartbeats 4000000 in
theorem region_step0 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 0 d ∗ Pipeline.toksInit (Pipeline.pin (pcfgs (F := F)) Tc.adm) (EP (F := F)) 0 d
        ∗ (∀ g : Buf (Elt F) ((SparseCore.T d).loc main_v47),
            iprop((K (F := F)).tcSt EH d 4 ∗ boundary (SparseCore.T d) ∗ held (d.tc : Thread nD τ) (Pipeline.ucRefs τ sig) (Function.update W (dr main_v47) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs4 (Ix := HIx 4) (Name := ℕ) (U := UU) (Lvl := ℕ) d (fun b => W (dr b)))) $$ Hub
  icases Hsp with ⟨Harr, Hur⟩
  iapply (Tc.lift_region4 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin4 (Ix := HIx 4) (Name := ℕ) (U := UU) (Lvl := ℕ) (asV W) d w
      = Function.update W (dr main_v47) (Tc.fin4 (Ix := HIx 4) (Name := ℕ) (U := UU) (Lvl := ℕ) (asV W) d 5) (dr (Pipeline.arrRef spec4 w)) := by
    intro w
    fin_cases w
    · exact (Tc.fin4_in (asV W) d 0 rfl).trans (Function.update_of_ne (show dr (Pipeline.arrRef spec4 0) ≠ dr main_v47 by decide) _ _).symm
    · exact (Tc.fin4_in (asV W) d 1 rfl).trans (Function.update_of_ne (show dr (Pipeline.arrRef spec4 1) ≠ dr main_v47 by decide) _ _).symm
    · exact (Tc.fin4_in (asV W) d 2 rfl).trans (Function.update_of_ne (show dr (Pipeline.arrRef spec4 2) ≠ dr main_v47 by decide) _ _).symm
    · exact (Tc.fin4_in (asV W) d 3 rfl).trans (Function.update_of_ne (show dr (Pipeline.arrRef spec4 3) ≠ dr main_v47 by decide) _ _).symm
    · exact (Tc.fin4_in (asV W) d 4 rfl).trans (Function.update_of_ne (show dr (Pipeline.arrRef spec4 4) ≠ dr main_v47 by decide) _ _).symm
    · exact (Function.update_self (dr main_v47) _ W).symm
  have hrest : ∀ b, b ∉ Finset.image (Pipeline.arrRef spec4) Finset.univ →
      Function.update W (dr main_v47) (Tc.fin4 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin4 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs4_unscopedBufs (Ix := HIx 4) (Name := ℕ) (U := UU) (Lvl := ℕ) d (fun b => W (dr b))
      (fun b => Function.update W (dr main_v47) (Tc.fin4 (Ix := HIx 4) (Name := ℕ) (U := UU) (Lvl := ℕ) (asV W) d 5) (dr b)) (Tc.fin4 (asV W) d) hG hrest) $$ [Harr Hur]
  · isplitl [Harr] <;> iassumption
  iapply (Entails.of_eq (Pipeline.unscopedBufs_held d (Function.update W (dr main_v47) (Tc.fin4 (Ix := HIx 4) (Name := ℕ) (U := UU) (Lvl := ℕ) (asV W) d 5))))
  iexact Hub2

end Cert.Kernel.Sc
end
-- ==== Proof.KScRegion1.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.KScLaunch
import proofs.«215994_g5102421148354_cont_8to1c4_853_29_alg».proof.Proof.KScRegion0
import proofs.«215994_g5102421148354_cont_8to1c4_853_29_alg».proof.Proof.KTcSplit
import proofs.«215994_g5102421148354_cont_8to1c4_853_29_alg».proof.Proof.KTcFin

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step1 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 1 d ∗ Pipeline.toksInit (Pipeline.pin (pcfgs (F := F)) Tc.adm) (EP (F := F)) 1 d
        ∗ (∀ g : Buf (Elt F) ((SparseCore.T d).loc main_v48),
            iprop((K (F := F)).tcSt EH d 4 ∗ boundary (SparseCore.T d) ∗ held (d.tc : Thread nD τ) (Pipeline.ucRefs τ sig) (Function.update W (dr main_v48) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 1)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs5 (Ix := HIx 4) (Name := ℕ) (U := UU) (Lvl := ℕ) d (fun b => W (dr b)))) $$ Hub
  icases Hsp with ⟨Harr, Hur⟩
  iapply (Tc.lift_region5 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin5 (Ix := HIx 4) (Name := ℕ) (U := UU) (Lvl := ℕ) (asV W) d w
      = Function.update W (dr main_v48) (Tc.fin5 (Ix := HIx 4) (Name := ℕ) (U := UU) (Lvl := ℕ) (asV W) d 5) (dr (Pipeline.arrRef spec5 w)) := by
    intro w
    fin_cases w
    · exact (Tc.fin5_in (asV W) d 0 rfl).trans (Function.update_of_ne (show dr (Pipeline.arrRef spec5 0) ≠ dr main_v48 by decide) _ _).symm
    · exact (Tc.fin5_in (asV W) d 1 rfl).trans (Function.update_of_ne (show dr (Pipeline.arrRef spec5 1) ≠ dr main_v48 by decide) _ _).symm
    · exact (Tc.fin5_in (asV W) d 2 rfl).trans (Function.update_of_ne (show dr (Pipeline.arrRef spec5 2) ≠ dr main_v48 by decide) _ _).symm
    · exact (Tc.fin5_in (asV W) d 3 rfl).trans (Function.update_of_ne (show dr (Pipeline.arrRef spec5 3) ≠ dr main_v48 by decide) _ _).symm
    · exact (Tc.fin5_in (asV W) d 4 rfl).trans (Function.update_of_ne (show dr (Pipeline.arrRef spec5 4) ≠ dr main_v48 by decide) _ _).symm
    · exact (Function.update_self (dr main_v48) _ W).symm
  have hrest : ∀ b, b ∉ Finset.image (Pipeline.arrRef spec5) Finset.univ →
      Function.update W (dr main_v48) (Tc.fin5 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin5 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs5_unscopedBufs (Ix := HIx 4) (Name := ℕ) (U := UU) (Lvl := ℕ) d (fun b => W (dr b))
      (fun b => Function.update W (dr main_v48) (Tc.fin5 (Ix := HIx 4) (Name := ℕ) (U := UU) (Lvl := ℕ) (asV W) d 5) (dr b)) (Tc.fin5 (asV W) d) hG hrest) $$ [Harr Hur]
  · isplitl [Harr] <;> iassumption
  iapply (Entails.of_eq (Pipeline.unscopedBufs_held d (Function.update W (dr main_v48) (Tc.fin5 (Ix := HIx 4) (Name := ℕ) (U := UU) (Lvl := ℕ) (asV W) d 5))))
  iexact Hub2

end Cert.Kernel.Sc
end
-- ==== Proof.KScRegion2.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.KScLaunch
import proofs.«215994_g5102421148354_cont_8to1c4_853_29_alg».proof.Proof.KScRegion0
import proofs.«215994_g5102421148354_cont_8to1c4_853_29_alg».proof.Proof.KTcSplit
import proofs.«215994_g5102421148354_cont_8to1c4_853_29_alg».proof.Proof.KTcFin

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step2 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 2 d ∗ Pipeline.toksInit (Pipeline.pin (pcfgs (F := F)) Tc.adm) (EP (F := F)) 2 d
        ∗ (∀ g : Buf (Elt F) ((SparseCore.T d).loc main_v49),
            iprop((K (F := F)).tcSt EH d 4 ∗ boundary (SparseCore.T d) ∗ held (d.tc : Thread nD τ) (Pipeline.ucRefs τ sig) (Function.update W (dr main_v49) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 2)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs6 (Ix := HIx 4) (Name := ℕ) (U := UU) (Lvl := ℕ) d (fun b => W (dr b)))) $$ Hub
  icases Hsp with ⟨Harr, Hur⟩
  iapply (Tc.lift_region6 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin6 (Ix := HIx 4) (Name := ℕ) (U := UU) (Lvl := ℕ) (asV W) d w
      = Function.update W (dr main_v49) (Tc.fin6 (Ix := HIx 4) (Name := ℕ) (U := UU) (Lvl := ℕ) (asV W) d 5) (dr (Pipeline.arrRef spec6 w)) := by
    intro w
    fin_cases w
    · exact (Tc.fin6_in (asV W) d 0 rfl).trans (Function.update_of_ne (show dr (Pipeline.arrRef spec6 0) ≠ dr main_v49 by decide) _ _).symm
    · exact (Tc.fin6_in (asV W) d 1 rfl).trans (Function.update_of_ne (show dr (Pipeline.arrRef spec6 1) ≠ dr main_v49 by decide) _ _).symm
    · exact (Tc.fin6_in (asV W) d 2 rfl).trans (Function.update_of_ne (show dr (Pipeline.arrRef spec6 2) ≠ dr main_v49 by decide) _ _).symm
    · exact (Tc.fin6_in (asV W) d 3 rfl).trans (Function.update_of_ne (show dr (Pipeline.arrRef spec6 3) ≠ dr main_v49 by decide) _ _).symm
    · exact (Tc.fin6_in (asV W) d 4 rfl).trans (Function.update_of_ne (show dr (Pipeline.arrRef spec6 4) ≠ dr main_v49 by decide) _ _).symm
    · exact (Function.update_self (dr main_v49) _ W).symm
  have hrest : ∀ b, b ∉ Finset.image (Pipeline.arrRef spec6) Finset.univ →
      Function.update W (dr main_v49) (Tc.fin6 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin6 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs6_unscopedBufs (Ix := HIx 4) (Name := ℕ) (U := UU) (Lvl := ℕ) d (fun b => W (dr b))
      (fun b => Function.update W (dr main_v49) (Tc.fin6 (Ix := HIx 4) (Name := ℕ) (U := UU) (Lvl := ℕ) (asV W) d 5) (dr b)) (Tc.fin6 (asV W) d) hG hrest) $$ [Harr Hur]
  · isplitl [Harr] <;> iassumption
  iapply (Entails.of_eq (Pipeline.unscopedBufs_held d (Function.update W (dr main_v49) (Tc.fin6 (Ix := HIx 4) (Name := ℕ) (U := UU) (Lvl := ℕ) (asV W) d 5))))
  iexact Hub2

end Cert.Kernel.Sc
end
-- ==== Proof.KScRegion3.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.KScLaunch
import proofs.«215994_g5102421148354_cont_8to1c4_853_29_alg».proof.Proof.KScRegion0
import proofs.«215994_g5102421148354_cont_8to1c4_853_29_alg».proof.Proof.KTcSplit
import proofs.«215994_g5102421148354_cont_8to1c4_853_29_alg».proof.Proof.KTcFin

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ)

set_option maxHeartbeats 4000000 in
theorem region_step3 [∀ e, Nonempty (Elt F e)] (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH (P m) κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 3 d ∗ Pipeline.toksInit (Pipeline.pin (pcfgs (F := F)) Tc.adm) (EP (F := F)) 3 d
        ∗ (∀ g : Buf (Elt F) ((SparseCore.T d).loc main_v50),
            iprop((K (F := F)).tcSt EH d 4 ∗ boundary (SparseCore.T d) ∗ held (d.tc : Thread nD τ) (Pipeline.ucRefs τ sig) (Function.update W (dr main_v50) g))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 3)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs7 (Ix := HIx 4) (Name := ℕ) (U := UU) (Lvl := ℕ) d (fun b => W (dr b)))) $$ Hub
  icases Hsp with ⟨Harr, Hur⟩
  iapply (Tc.lift_region7 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin7 (Ix := HIx 4) (Name := ℕ) (U := UU) (Lvl := ℕ) (asV W) d w
      = Function.update W (dr main_v50) (Tc.fin7 (Ix := HIx 4) (Name := ℕ) (U := UU) (Lvl := ℕ) (asV W) d 5) (dr (Pipeline.arrRef spec7 w)) := by
    intro w
    fin_cases w
    · exact (Tc.fin7_in (asV W) d 0 rfl).trans (Function.update_of_ne (show dr (Pipeline.arrRef spec7 0) ≠ dr main_v50 by decide) _ _).symm
    · exact (Tc.fin7_in (asV W) d 1 rfl).trans (Function.update_of_ne (show dr (Pipeline.arrRef spec7 1) ≠ dr main_v50 by decide) _ _).symm
    · exact (Tc.fin7_in (asV W) d 2 rfl).trans (Function.update_of_ne (show dr (Pipeline.arrRef spec7 2) ≠ dr main_v50 by decide) _ _).symm
    · exact (Tc.fin7_in (asV W) d 3 rfl).trans (Function.update_of_ne (show dr (Pipeline.arrRef spec7 3) ≠ dr main_v50 by decide) _ _).symm
    · exact (Tc.fin7_in (asV W) d 4 rfl).trans (Function.update_of_ne (show dr (Pipeline.arrRef spec7 4) ≠ dr main_v50 by decide) _ _).symm
    · exact (Function.update_self (dr main_v50) _ W).symm
  have hrest : ∀ b, b ∉ Finset.image (Pipeline.arrRef spec7) Finset.univ →
      Function.update W (dr main_v50) (Tc.fin7 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  ispecialize Hk $$ %(Tc.fin7 (Ix := HIx 4) (Name := ℕ) (U := UU) (Lvl := ℕ) (asV W) d 5)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs7_unscopedBufs (Ix := HIx 4) (Name := ℕ) (U := UU) (Lvl := ℕ) d (fun b => W (dr b))
      (fun b => Function.update W (dr main_v50) (Tc.fin7 (Ix := HIx 4) (Name := ℕ) (U := UU) (Lvl := ℕ) (asV W) d 5) (dr b)) (Tc.fin7 (asV W) d) hG hrest) $$ [Harr Hur]
  · isplitl [Harr] <;> iassumption
  iapply (Entails.of_eq (Pipeline.unscopedBufs_held d (Function.update W (dr main_v50) (Tc.fin7 (Ix := HIx 4) (Name := ℕ) (U := UU) (Lvl := ℕ) (asV W) d 5))))
  iexact Hub2

end Cert.Kernel.Sc
end
-- ==== Proof.KScScoped.lean ====
/-
  A vector subcore's own storage, with a listed part of it set apart.

  The launch hands a task all of its subcore's scoped semaphores at zero and all of its scoped buffers at whatever they hold,
  each as one product over a finite set.  A kernel uses a few of them by name: the product is the chain over a list of those,
  beside the product over the rest.
-/
import proofs.«215994_g5102421148354_cont_8to1c4_853_29_alg».proof.Proof.KScBase

noncomputable section

namespace Cert.Kernel.Sc

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [Cert.Kernel.Facts]

local notation "𝕄" => MT nD τ sig (HIx 4) (Elt F) ℕ UU ℕ

/-- The chain over the image of a list is the chain over the list. -/
theorem bigSepL_map {A B : Type} (g : A → B) (l : List A) (Φ : B → sProp 𝕄) :
    bigSepL (l.map g) Φ = bigSepL l fun a => Φ (g a) := by
  induction l with
  | nil => rfl
  | cons a l ih => rw [List.map_cons, bigSepL_cons, bigSepL_cons, ih]

/-- A product over a finite set, a listed part of the set taken out as a chain. -/
theorem bigSep_take {A : Type} [DecidableEq A] (s : Finset A) (l : List A) (hl : l.Nodup) (hs : ∀ a ∈ l, a ∈ s) (Φ : A → sProp 𝕄) :
    bigSep s Φ = iprop(bigSepL l Φ ∗ bigSep (s \ l.toFinset) Φ) := by
  rw [SparseCore.bigSep_sdiff_split' (t := l.toFinset) (fun a ha => hs a (List.mem_toFinset.mp ha)), bigSep_eq_bigSepL l hl]

/-- The subcore's scoped semaphores at zero: those of a list, and the rest. -/
theorem ownSems0_take (thr : Thread nD τ) (l : List (SemLoc sig)) (hl : l.Nodup)
    (hs : ∀ s ∈ l, s.isScoped thr.2.kind = true) :
    (ownSems0 thr : sProp 𝕄)
      = iprop(bigSepL l (fun s => semVal ((thr, s) : GSem nD τ sig) 0)
          ∗ bigSep (ownCells thr \ (l.map fun s => ((thr, s) : GSem nD τ sig)).toFinset) fun g => semVal g 0) := by
  unfold SparseCore.Cfg.ownSems0
  rw [bigSep_take (ownCells thr) (l.map fun s => ((thr, s) : GSem nD τ sig))
      (hl.map (fun _ _ e => (Prod.mk.inj e).2))
      (fun g hg => by
        obtain ⟨s, hs', rfl⟩ := List.mem_map.mp hg
        exact mem_ownCells.mpr ⟨rfl, hs s hs'⟩),
    bigSepL_map]

/-- The subcore's scoped buffers at whatever they hold: those of a list, and the rest. -/
theorem ownBufs_take (thr : Thread nD τ) (l : List (DevRef τ sig)) (hl : l.Nodup) (hs : ∀ b ∈ l, b ∈ ownRefs (sig := sig) thr.2) :
    (ownBufs thr : sProp 𝕄)
      = iprop(bigSepL l (fun b => iprop(∃ f, ((thr.1, b) : Loc nD τ sig) ↦{fullShare} f))
          ∗ bigSep (ownRefs thr.2 \ l.toFinset) fun b => iprop(∃ f, ((thr.1, b) : Loc nD τ sig) ↦{fullShare} f)) := by
  unfold SparseCore.Cfg.ownBufs
  rw [bigSep_take (ownRefs thr.2) l hl hs]

end Cert.Kernel.Sc

end
-- ==== Proof.KScMain.lean ====
/-
  @main on the TensorCore, inside the launch: seven stretches of host operations, four gather calls, four layer-norm regions.
  One valuation of the TensorCore's whole buffers is threaded through.  What is kept throughout: the twelve argument arrays
  and the four padded index arrays stay as the first stretch of host operations left them — every later host operation, call
  and region writes elsewhere.  Each call finds its index arrays at the slab of the padded index inputs that the stretch before
  it cut and reshaped, and the tables at the inputs; at the end the twelve arguments are whole at their launch contents.
-/
import proofs.«215994_g5102421148354_cont_8to1c4_853_29_alg».proof.Proof.KScCall0
import proofs.«215994_g5102421148354_cont_8to1c4_853_29_alg».proof.Proof.KScCall1
import proofs.«215994_g5102421148354_cont_8to1c4_853_29_alg».proof.Proof.KScCall2
import proofs.«215994_g5102421148354_cont_8to1c4_853_29_alg».proof.Proof.KScCall3
import proofs.«215994_g5102421148354_cont_8to1c4_853_29_alg».proof.Proof.KScRegion0
import proofs.«215994_g5102421148354_cont_8to1c4_853_29_alg».proof.Proof.KScRegion1
import proofs.«215994_g5102421148354_cont_8to1c4_853_29_alg».proof.Proof.KScRegion2
import proofs.«215994_g5102421148354_cont_8to1c4_853_29_alg».proof.Proof.KScRegion3
import proofs.«215994_g5102421148354_cont_8to1c4_853_29_alg».proof.Proof.KScScoped

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.Kernel.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

/-- The launch valuation of device `d`'s buffers. -/
abbrev V0 (d : Dev nD) : Valuation τ sig (Elt F) := fun b => m (d, b)

/-- The buffers no later step writes: the twelve arguments and the four padded index arrays. -/
abbrev keepL : List (Ref sig .tc) := [main_arg0, main_arg1, main_arg2, main_arg3, main_arg4, main_arg5, main_arg6, main_arg7, main_arg8, main_arg9, main_arg10, main_arg11, main_v1, main_v3, main_v5, main_v7]

/-- A valuation agrees with what the first host stretch left on the kept buffers. -/
def Kept (d : Dev nD) (W : Valuation τ sig (Elt F)) : Prop := ∀ b ∈ keepL, W (dr b) = after Tc.hostA (V0 m d) (dr b)

theorem kept_A (d : Dev nD) : Kept m d (after Tc.hostA (V0 m d)) := fun _ _ => rfl

theorem kept_update (d : Dev nD) {W : Valuation τ sig (Elt F)} (h : Kept m d W) (r : Ref sig .tc) (hr : r ∉ keepL) (f : (dr r).ty.Contents (Elt F)) :
    Kept m d (Function.update W (dr r) f) := fun b hb =>
  (Function.update_of_ne (fun e => hr (by rw [← Proc.devRef_injective _ e]; exact hb)) _ _).trans (h b hb)

theorem keep_B1 : ∀ b ∈ keepL, b ∉ Tc.hostB1_W := by decide
theorem keep_B2 : ∀ b ∈ keepL, b ∉ Tc.hostB2_W := by decide
theorem keep_B3 : ∀ b ∈ keepL, b ∉ Tc.hostB3_W := by decide
theorem keep_c1 : ∀ b ∈ keepL, b ∉ Tc.cp1_W := by decide
theorem keep_c2 : ∀ b ∈ keepL, b ∉ Tc.cp2_W := by decide
theorem keep_c3 : ∀ b ∈ keepL, b ∉ Tc.cp3_W := by decide

theorem kept_B1 (d : Dev nD) {W : Valuation τ sig (Elt F)} (h : Kept m d W) : Kept m d (after Tc.hostB1 W) := fun b hb => (Tc.hostB1_keep W b (keep_B1 b hb)).trans (h b hb)
theorem kept_B2 (d : Dev nD) {W : Valuation τ sig (Elt F)} (h : Kept m d W) : Kept m d (after Tc.hostB2 W) := fun b hb => (Tc.hostB2_keep W b (keep_B2 b hb)).trans (h b hb)
theorem kept_B3 (d : Dev nD) {W : Valuation τ sig (Elt F)} (h : Kept m d W) : Kept m d (after Tc.hostB3 W) := fun b hb => (Tc.hostB3_keep W b (keep_B3 b hb)).trans (h b hb)
theorem kept_c1 (d : Dev nD) {W : Valuation τ sig (Elt F)} (h : Kept m d W) : Kept m d (after Tc.cp1 W) := fun b hb => (Tc.cp1_keep W b (keep_c1 b hb)).trans (h b hb)
theorem kept_c2 (d : Dev nD) {W : Valuation τ sig (Elt F)} (h : Kept m d W) : Kept m d (after Tc.cp2 W) := fun b hb => (Tc.cp2_keep W b (keep_c2 b hb)).trans (h b hb)
theorem kept_c3 (d : Dev nD) {W : Valuation τ sig (Elt F)} (h : Kept m d W) : Kept m d (after Tc.cp3 W) := fun b hb => (Tc.cp3_keep W b (keep_c3 b hb)).trans (h b hb)

/-- On a kept valuation an argument array is at its launch contents, -/
theorem kept_arg (d : Dev nD) {W : Valuation τ sig (Elt F)} (h : Kept m d W) (b : Ref sig .tc) (hb : b ∈ keepL) (hA : b ∉ Tc.hostA_W) :
    W (dr b) = m ((SparseCore.T d).loc b) := (h b hb).trans (Tc.hostA_keep (V0 m d) b hA)

/-- The twelve argument arrays, listed. -/
abbrev argL : List (Ref sig .tc) := [main_arg0, main_arg1, main_arg2, main_arg3, main_arg4, main_arg5, main_arg6, main_arg7, main_arg8, main_arg9, main_arg10, main_arg11]
theorem argL_nodup : (argL).Nodup := by decide
theorem argS_eq : argS = (argL).toFinset := by decide
theorem argD_sub : ((argL).map dr).toFinset ⊆ Pipeline.ucRefs τ sig := by decide
theorem argD_nodup : ((argL).map dr).Nodup := argL_nodup.map (Proc.devRef_injective _)

theorem chain12 (Φ : Ref sig .tc → sProp 𝕄) : bigSepL argL Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_arg10 ∗ Φ main_arg11) := rfl

/-- From the TensorCore's whole buffers at a kept valuation: the twelve arguments whole at their launch contents. -/
theorem fin_of_held (d : Dev nD) (W : Valuation τ sig (Elt F)) (h : Kept m d W) :
    (held (d.tc : Thread nD τ) (Pipeline.ucRefs τ sig) W : sProp 𝕄) ⊢ FIN m d := by
  rw [held_sub_split (c := (d.tc : Thread nD τ)) argD_sub W]
  unfold FIN held
  rw [bigSep_eq_bigSepL _ argD_nodup, bigSepL_map, bigSep_eq_bigSepL_of_eq argL argS_eq argL_nodup, chain12, chain12]
  iintro ⟨⟨H0, H1, H2, H3, H4, H5, H6, H7, H8, H9, H10, H11⟩, -⟩
  isplitl [H0]; · rw [← kept_arg m d h main_arg0 (by decide) (by decide)]; iexact H0
  isplitl [H1]; · rw [← kept_arg m d h main_arg1 (by decide) (by decide)]; iexact H1
  isplitl [H2]; · rw [← kept_arg m d h main_arg2 (by decide) (by decide)]; iexact H2
  isplitl [H3]; · rw [← kept_arg m d h main_arg3 (by decide) (by decide)]; iexact H3
  isplitl [H4]; · rw [← kept_arg m d h main_arg4 (by decide) (by decide)]; iexact H4
  isplitl [H5]; · rw [← kept_arg m d h main_arg5 (by decide) (by decide)]; iexact H5
  isplitl [H6]; · rw [← kept_arg m d h main_arg6 (by decide) (by decide)]; iexact H6
  isplitl [H7]; · rw [← kept_arg m d h main_arg7 (by decide) (by decide)]; iexact H7
  isplitl [H8]; · rw [← kept_arg m d h main_arg8 (by decide) (by decide)]; iexact H8
  isplitl [H9]; · rw [← kept_arg m d h main_arg9 (by decide) (by decide)]; iexact H9
  isplitl [H10]; · rw [← kept_arg m d h main_arg10 (by decide) (by decide)]; iexact H10
  rw [← kept_arg m d h main_arg11 (by decide) (by decide)]; iexact H11

set_option maxHeartbeats 16000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  rw [Tc.main_eq]
  simp only [Prog.lift, Prog.bind_op, Prog.bind_ret, Prog.pure_eq_ret]
  unfold G
  rw [Tc.bigSep_P4]
  iintro ⟨#Hctx, Hst, Hres, ⟨Hcg0, Hti0⟩, ⟨Hcg1, Hti1⟩, ⟨Hcg2, Hti2⟩, ⟨Hcg3, Hti3⟩⟩
  ihave Hr := (Tc.tcRes_split m ρ d) $$ Hres
  icases Hr with ⟨Hb, Hub, -, -⟩
  ihave Hh := (Entails.of_eq (show (unscopedBufs d (fun b => m ((SparseCore.T d).loc b)) : sProp 𝕄) = held (d.tc : Thread nD τ) (Pipeline.ucRefs τ sig) (V0 m d) from Pipeline.unscopedBufs_held d (V0 m d))) $$ Hub
  -- the host operations hostA
  ihave Hs0 := (wp_seq 𝒱 none Set.univ d (Pipeline.ucRefs τ sig) _ Tc.hostA Tc.hostA_sub Tc.hostA_fresh (V0 m d)) $$ [Hb Hh]
  · isplitl [Hb] <;> iassumption
  iapply Hs0
  iintro ⟨Hb, Hh⟩
  have hK0 : Kept m d (after Tc.hostA (V0 m d)) := kept_A m d
  generalize hWA : after Tc.hostA (V0 m d) = WA at hK0 ⊢
  -- gather call 0
  rw [wp_bind]
  iapply (call_step0 m κ d WA (hWA ▸ Tc.hostA_v12 (V0 m d)) (hWA ▸ Tc.hostA_v14 (V0 m d)) (hWA ▸ Tc.hostA_v16 (V0 m d)) (hWA ▸ Tc.hostA_v18 (V0 m d)) (kept_arg m d hK0 main_arg0 (by decide) (by decide)) (kept_arg m d hK0 main_arg1 (by decide) (by decide)) (kept_arg m d hK0 main_arg2 (by decide) (by decide)) (kept_arg m d hK0 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f0 ⟨Hst, Hh⟩
  have hK1 : Kept m d (Function.update WA (dr main_v19) f0) := kept_update m d hK0 main_v19 (by decide) f0
  generalize hW1 : Function.update WA (dr main_v19) f0 = W1 at hK1 ⊢
  -- the host operations hostB1
  ihave Hs1 := (wp_seq 𝒱 none Set.univ d (Pipeline.ucRefs τ sig) _ Tc.hostB1 Tc.hostB1_sub Tc.hostB1_fresh W1) $$ [Hb Hh]
  · isplitl [Hb] <;> iassumption
  iapply Hs1
  iintro ⟨Hb, Hh⟩
  have hKB1 : Kept m d (after Tc.hostB1 W1) := kept_B1 m d hK1
  -- gather call 1
  rw [wp_bind]
  iapply (call_step1 m κ d (after Tc.hostB1 W1) (Tc.hostB1_v21 W1 (m ((SparseCore.T d).loc main_arg4)) ((hK1 main_v1 (by decide)).trans (Tc.hostA_v1 (V0 m d)))) (Tc.hostB1_v23 W1 (m ((SparseCore.T d).loc main_arg5)) ((hK1 main_v3 (by decide)).trans (Tc.hostA_v3 (V0 m d)))) (Tc.hostB1_v25 W1 (m ((SparseCore.T d).loc main_arg6)) ((hK1 main_v5 (by decide)).trans (Tc.hostA_v5 (V0 m d)))) (Tc.hostB1_v27 W1 (m ((SparseCore.T d).loc main_arg7)) ((hK1 main_v7 (by decide)).trans (Tc.hostA_v7 (V0 m d)))) (kept_arg m d hKB1 main_arg0 (by decide) (by decide)) (kept_arg m d hKB1 main_arg1 (by decide) (by decide)) (kept_arg m d hKB1 main_arg2 (by decide) (by decide)) (kept_arg m d hKB1 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f1 ⟨Hst, Hh⟩
  have hK2 : Kept m d (Function.update (after Tc.hostB1 W1) (dr main_v28) f1) := kept_update m d hKB1 main_v28 (by decide) f1
  generalize hW2 : Function.update (after Tc.hostB1 W1) (dr main_v28) f1 = W2 at hK2 ⊢
  -- the host operations hostB2
  ihave Hs2 := (wp_seq 𝒱 none Set.univ d (Pipeline.ucRefs τ sig) _ Tc.hostB2 Tc.hostB2_sub Tc.hostB2_fresh W2) $$ [Hb Hh]
  · isplitl [Hb] <;> iassumption
  iapply Hs2
  iintro ⟨Hb, Hh⟩
  have hKB2 : Kept m d (after Tc.hostB2 W2) := kept_B2 m d hK2
  -- gather call 2
  rw [wp_bind]
  iapply (call_step2 m κ d (after Tc.hostB2 W2) (Tc.hostB2_v30 W2 (m ((SparseCore.T d).loc main_arg4)) ((hK2 main_v1 (by decide)).trans (Tc.hostA_v1 (V0 m d)))) (Tc.hostB2_v32 W2 (m ((SparseCore.T d).loc main_arg5)) ((hK2 main_v3 (by decide)).trans (Tc.hostA_v3 (V0 m d)))) (Tc.hostB2_v34 W2 (m ((SparseCore.T d).loc main_arg6)) ((hK2 main_v5 (by decide)).trans (Tc.hostA_v5 (V0 m d)))) (Tc.hostB2_v36 W2 (m ((SparseCore.T d).loc main_arg7)) ((hK2 main_v7 (by decide)).trans (Tc.hostA_v7 (V0 m d)))) (kept_arg m d hKB2 main_arg0 (by decide) (by decide)) (kept_arg m d hKB2 main_arg1 (by decide) (by decide)) (kept_arg m d hKB2 main_arg2 (by decide) (by decide)) (kept_arg m d hKB2 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f2 ⟨Hst, Hh⟩
  have hK3 : Kept m d (Function.update (after Tc.hostB2 W2) (dr main_v37) f2) := kept_update m d hKB2 main_v37 (by decide) f2
  generalize hW3 : Function.update (after Tc.hostB2 W2) (dr main_v37) f2 = W3 at hK3 ⊢
  -- the host operations hostB3
  ihave Hs3 := (wp_seq 𝒱 none Set.univ d (Pipeline.ucRefs τ sig) _ Tc.hostB3 Tc.hostB3_sub Tc.hostB3_fresh W3) $$ [Hb Hh]
  · isplitl [Hb] <;> iassumption
  iapply Hs3
  iintro ⟨Hb, Hh⟩
  have hKB3 : Kept m d (after Tc.hostB3 W3) := kept_B3 m d hK3
  -- gather call 3
  rw [wp_bind]
  iapply (call_step3 m κ d (after Tc.hostB3 W3) (Tc.hostB3_v39 W3 (m ((SparseCore.T d).loc main_arg4)) ((hK3 main_v1 (by decide)).trans (Tc.hostA_v1 (V0 m d)))) (Tc.hostB3_v41 W3 (m ((SparseCore.T d).loc main_arg5)) ((hK3 main_v3 (by decide)).trans (Tc.hostA_v3 (V0 m d)))) (Tc.hostB3_v43 W3 (m ((SparseCore.T d).loc main_arg6)) ((hK3 main_v5 (by decide)).trans (Tc.hostA_v5 (V0 m d)))) (Tc.hostB3_v45 W3 (m ((SparseCore.T d).loc main_arg7)) ((hK3 main_v7 (by decide)).trans (Tc.hostA_v7 (V0 m d)))) (kept_arg m d hKB3 main_arg0 (by decide) (by decide)) (kept_arg m d hKB3 main_arg1 (by decide) (by decide)) (kept_arg m d hKB3 main_arg2 (by decide) (by decide)) (kept_arg m d hKB3 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro %f3 ⟨Hst, Hh⟩
  have hK4 : Kept m d (Function.update (after Tc.hostB3 W3) (dr main_v46) f3) := kept_update m d hKB3 main_v46 (by decide) f3
  generalize hW4 : Function.update (after Tc.hostB3 W3) (dr main_v46) f3 = W4 at hK4 ⊢
  -- layer-norm region 0
  iapply (region_step0 m κ d W4 _ _) $$ [Hst Hb Hh Hcg0 Hti0 Hcg1 Hti1 Hcg2 Hti2 Hcg3 Hti3]
  isplitr; · iexact Hctx
  isplitl [Hst]; · iexact Hst
  isplitl [Hb]; · iexact Hb
  isplitl [Hh]; · iexact Hh
  isplitl [Hcg0]; · iexact Hcg0
  isplitl [Hti0]; · iexact Hti0
  iintro %g0 ⟨Hst, Hb, Hh⟩
  have hKr0 : Kept m d (Function.update W4 (dr main_v47) g0) := kept_update m d hK4 main_v47 (by decide) g0
  generalize hWr0 : Function.update W4 (dr main_v47) g0 = Wr0 at hKr0 ⊢
  -- the host operations cp1
  ihave Hs4 := (wp_seq 𝒱 none Set.univ d (Pipeline.ucRefs τ sig) _ Tc.cp1 Tc.cp1_sub Tc.cp1_fresh Wr0) $$ [Hb Hh]
  · isplitl [Hb] <;> iassumption
  iapply Hs4
  iintro ⟨Hb, Hh⟩
  have hKc1 : Kept m d (after Tc.cp1 Wr0) := kept_c1 m d hKr0
  generalize hWc1 : after Tc.cp1 Wr0 = Wc1 at hKc1 ⊢
  -- layer-norm region 1
  iapply (region_step1 m κ d Wc1 _ _) $$ [Hst Hb Hh Hcg1 Hti1 Hcg2 Hti2 Hcg3 Hti3]
  isplitr; · iexact Hctx
  isplitl [Hst]; · iexact Hst
  isplitl [Hb]; · iexact Hb
  isplitl [Hh]; · iexact Hh
  isplitl [Hcg1]; · iexact Hcg1
  isplitl [Hti1]; · iexact Hti1
  iintro %g1 ⟨Hst, Hb, Hh⟩
  have hKr1 : Kept m d (Function.update Wc1 (dr main_v48) g1) := kept_update m d hKc1 main_v48 (by decide) g1
  generalize hWr1 : Function.update Wc1 (dr main_v48) g1 = Wr1 at hKr1 ⊢
  -- the host operations cp2
  ihave Hs5 := (wp_seq 𝒱 none Set.univ d (Pipeline.ucRefs τ sig) _ Tc.cp2 Tc.cp2_sub Tc.cp2_fresh Wr1) $$ [Hb Hh]
  · isplitl [Hb] <;> iassumption
  iapply Hs5
  iintro ⟨Hb, Hh⟩
  have hKc2 : Kept m d (after Tc.cp2 Wr1) := kept_c2 m d hKr1
  generalize hWc2 : after Tc.cp2 Wr1 = Wc2 at hKc2 ⊢
  -- layer-norm region 2
  iapply (region_step2 m κ d Wc2 _ _) $$ [Hst Hb Hh Hcg2 Hti2 Hcg3 Hti3]
  isplitr; · iexact Hctx
  isplitl [Hst]; · iexact Hst
  isplitl [Hb]; · iexact Hb
  isplitl [Hh]; · iexact Hh
  isplitl [Hcg2]; · iexact Hcg2
  isplitl [Hti2]; · iexact Hti2
  iintro %g2 ⟨Hst, Hb, Hh⟩
  have hKr2 : Kept m d (Function.update Wc2 (dr main_v49) g2) := kept_update m d hKc2 main_v49 (by decide) g2
  generalize hWr2 : Function.update Wc2 (dr main_v49) g2 = Wr2 at hKr2 ⊢
  -- the host operations cp3
  ihave Hs6 := (wp_seq 𝒱 none Set.univ d (Pipeline.ucRefs τ sig) _ Tc.cp3 Tc.cp3_sub Tc.cp3_fresh Wr2) $$ [Hb Hh]
  · isplitl [Hb] <;> iassumption
  iapply Hs6
  iintro ⟨Hb, Hh⟩
  have hKc3 : Kept m d (after Tc.cp3 Wr2) := kept_c3 m d hKr2
  generalize hWc3 : after Tc.cp3 Wr2 = Wc3 at hKc3 ⊢
  -- layer-norm region 3
  iapply (region_step3 m κ d Wc3 _ _) $$ [Hst Hb Hh Hcg3 Hti3]
  isplitr; · iexact Hctx
  isplitl [Hst]; · iexact Hst
  isplitl [Hb]; · iexact Hb
  isplitl [Hh]; · iexact Hh
  isplitl [Hcg3]; · iexact Hcg3
  isplitl [Hti3]; · iexact Hti3
  iintro %g3 ⟨Hst, Hb, Hh⟩
  have hKr3 : Kept m d (Function.update Wc3 (dr main_v50) g3) := kept_update m d hKc3 main_v50 (by decide) g3
  generalize hWr3 : Function.update Wc3 (dr main_v50) g3 = Wr3 at hKr3 ⊢
  -- the return
  rw [wp_ret]; imodintro
  isplitl [Hst]; · iexact Hst
  iapply (fin_of_held m d Wr3 hKr3)
  iexact Hh

end Cert.Kernel.Sc

end
-- ==== Proof.KScTile0.lean ====
/-
  One vector subcore's task in gather call 0: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.KScGrid

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body0 (d : Dev nD) (L : grid0.Coords) (O : CellTallies nD τ sig (HIx 4)) (W : Waits sig (HIx 4)) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    :
    iprop(Transfers.MayWaits (V d (cV0 L) (jV0 L)) (none : HIx 4) O
        ∗ ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
        ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
        ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
        ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
        ∗ ((Memref.whole main_arg0_scv : Memref sig .scVector .hbm S100000x128 .f32).view.loc (V d (cV0 L) (jV0 L)) ↦{Transfers.shareTok qx 11 (4 : Fin 11)} fx0)
        ∗ ((Memref.whole main_arg0_scv : Memref sig .scVector .hbm S100000x128 .f32).view.loc (V d (cV0 L) (jV0 L)) ↦{Transfers.shareTok qx 11 (5 : Fin 11)} fx0)
        ∗ ((Memref.whole main_arg0_scv : Memref sig .scVector .hbm S100000x128 .f32).view.loc (V d (cV0 L) (jV0 L)) ↦{Transfers.shareTok qx 11 (6 : Fin 11)} fx0)
        ∗ ((Memref.whole main_arg0_scv : Memref sig .scVector .hbm S100000x128 .f32).view.loc (V d (cV0 L) (jV0 L)) ↦{Transfers.shareTok qx 11 (7 : Fin 11)} fx0)
        ∗ ((Memref.whole main_arg0_scv : Memref sig .scVector .hbm S100000x128 .f32).view.loc (V d (cV0 L) (jV0 L)) ↦{Transfers.shareTok qx 11 (8 : Fin 11)} fx0)
        ∗ ((Memref.whole main_arg0_scv : Memref sig .scVector .hbm S100000x128 .f32).view.loc (V d (cV0 L) (jV0 L)) ↦{Transfers.shareTok qx 11 (9 : Fin 11)} fx0)
        ∗ ((Memref.whole main_arg0_scv : Memref sig .scVector .hbm S100000x128 .f32).view.loc (V d (cV0 L) (jV0 L)) ↦{Transfers.shareTok qx 11 (10 : Fin 11)} fx0)
        ∗ ((Memref.whole main_arg1_scv : Memref sig .scVector .hbm S100000x128 .f32).view.loc (V d (cV0 L) (jV0 L)) ↦{Transfers.shareTok qx 11 (4 : Fin 11)} fx1)
        ∗ ((Memref.whole main_arg1_scv : Memref sig .scVector .hbm S100000x128 .f32).view.loc (V d (cV0 L) (jV0 L)) ↦{Transfers.shareTok qx 11 (5 : Fin 11)} fx1)
        ∗ ((Memref.whole main_arg1_scv : Memref sig .scVector .hbm S100000x128 .f32).view.loc (V d (cV0 L) (jV0 L)) ↦{Transfers.shareTok qx 11 (6 : Fin 11)} fx1)
        ∗ ((Memref.whole main_arg1_scv : Memref sig .scVector .hbm S100000x128 .f32).view.loc (V d (cV0 L) (jV0 L)) ↦{Transfers.shareTok qx 11 (7 : Fin 11)} fx1)
        ∗ ((Memref.whole main_arg1_scv : Memref sig .scVector .hbm S100000x128 .f32).view.loc (V d (cV0 L) (jV0 L)) ↦{Transfers.shareTok qx 11 (8 : Fin 11)} fx1)
        ∗ ((Memref.whole main_arg1_scv : Memref sig .scVector .hbm S100000x128 .f32).view.loc (V d (cV0 L) (jV0 L)) ↦{Transfers.shareTok qx 11 (9 : Fin 11)} fx1)
        ∗ ((Memref.whole main_arg1_scv : Memref sig .scVector .hbm S100000x128 .f32).view.loc (V d (cV0 L) (jV0 L)) ↦{Transfers.shareTok qx 11 (10 : Fin 11)} fx1)
        ∗ ((Memref.whole main_arg2_scv : Memref sig .scVector .hbm S100000x128 .f32).view.loc (V d (cV0 L) (jV0 L)) ↦{Transfers.shareTok qx 11 (4 : Fin 11)} fx2)
        ∗ ((Memref.whole main_arg2_scv : Memref sig .scVector .hbm S100000x128 .f32).view.loc (V d (cV0 L) (jV0 L)) ↦{Transfers.shareTok qx 11 (5 : Fin 11)} fx2)
        ∗ ((Memref.whole main_arg2_scv : Memref sig .scVector .hbm S100000x128 .f32).view.loc (V d (cV0 L) (jV0 L)) ↦{Transfers.shareTok qx 11 (6 : Fin 11)} fx2)
        ∗ ((Memref.whole main_arg2_scv : Memref sig .scVector .hbm S100000x128 .f32).view.loc (V d (cV0 L) (jV0 L)) ↦{Transfers.shareTok qx 11 (7 : Fin 11)} fx2)
        ∗ ((Memref.whole main_arg2_scv : Memref sig .scVector .hbm S100000x128 .f32).view.loc (V d (cV0 L) (jV0 L)) ↦{Transfers.shareTok qx 11 (8 : Fin 11)} fx2)
        ∗ ((Memref.whole main_arg2_scv : Memref sig .scVector .hbm S100000x128 .f32).view.loc (V d (cV0 L) (jV0 L)) ↦{Transfers.shareTok qx 11 (9 : Fin 11)} fx2)
        ∗ ((Memref.whole main_arg2_scv : Memref sig .scVector .hbm S100000x128 .f32).view.loc (V d (cV0 L) (jV0 L)) ↦{Transfers.shareTok qx 11 (10 : Fin 11)} fx2)
        ∗ ((Memref.whole main_arg3_scv : Memref sig .scVector .hbm S100000x128 .f32).view.loc (V d (cV0 L) (jV0 L)) ↦{Transfers.shareTok qx 11 (4 : Fin 11)} fx3)
        ∗ ((Memref.whole main_arg3_scv : Memref sig .scVector .hbm S100000x128 .f32).view.loc (V d (cV0 L) (jV0 L)) ↦{Transfers.shareTok qx 11 (5 : Fin 11)} fx3)
        ∗ ((Memref.whole main_arg3_scv : Memref sig .scVector .hbm S100000x128 .f32).view.loc (V d (cV0 L) (jV0 L)) ↦{Transfers.shareTok qx 11 (6 : Fin 11)} fx3)
        ∗ ((Memref.whole main_arg3_scv : Memref sig .scVector .hbm S100000x128 .f32).view.loc (V d (cV0 L) (jV0 L)) ↦{Transfers.shareTok qx 11 (7 : Fin 11)} fx3)
        ∗ ((Memref.whole main_arg3_scv : Memref sig .scVector .hbm S100000x128 .f32).view.loc (V d (cV0 L) (jV0 L)) ↦{Transfers.shareTok qx 11 (8 : Fin 11)} fx3)
        ∗ ((Memref.whole main_arg3_scv : Memref sig .scVector .hbm S100000x128 .f32).view.loc (V d (cV0 L) (jV0 L)) ↦{Transfers.shareTok qx 11 (9 : Fin 11)} fx3)
        ∗ ((Memref.whole main_arg3_scv : Memref sig .scVector .hbm S100000x128 .f32).view.loc (V d (cV0 L) (jV0 L)) ↦{Transfers.shareTok qx 11 (10 : Fin 11)} fx3)
        ∗ (∃ fo, ((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} fo)
        ∗ (∃ fo, ((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} fo)
        ∗ (∃ fo, ((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} fo)
        ∗ (∃ fo, ((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} fo)
        ∗ (∃ fo, ((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} fo)
        ∗ (∃ fo, ((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} fo)
        ∗ (∃ fo, ((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} fo)
        ∗ (∃ fo, ((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} fo)
        ∗ (∃ fo, ((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} fo)
        ∗ (∃ fo, ((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} fo)
        ∗ (∃ fo, ((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} fo)
        ∗ (∃ fo, ((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} fo)
        ∗ (∃ fo, ((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} fo)
        ∗ (∃ fo, ((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} fo)
        ∗ (∃ fo, ((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} fo)
        ∗ (∃ fo, ((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} fo)
        ∗ (∃ fo, ((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} fo)
        ∗ (∃ fo, ((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} fo)
        ∗ (∃ fo, ((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} fo)
        ∗ (∃ fo, ((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} fo)
        ∗ (∃ fo, ((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} fo)
        ∗ (∃ fo, ((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} fo)
        ∗ (∃ fo, ((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} fo)
        ∗ (∃ fo, ((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} fo)
        ∗ (∃ fo, ((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} fo)
        ∗ (∃ fo, ((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} fo)
        ∗ (∃ fo, ((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} fo)
        ∗ (∃ fo, ((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} fo)
        ∗ (∃ si, (Memref.whole cc0_scratch0 : Memref sig .scVector .vmem S7x112 .i32).view.loc (V d (cV0 L) (jV0 L)) ↦{fullShare} si)
        ∗ (∃ si, (Memref.whole cc0_scratch1 : Memref sig .scVector .vmem S7x112 .i32).view.loc (V d (cV0 L) (jV0 L)) ↦{fullShare} si)
        ∗ (∃ si, (Memref.whole cc0_scratch2 : Memref sig .scVector .vmem S7x112 .i32).view.loc (V d (cV0 L) (jV0 L)) ↦{fullShare} si)
        ∗ (∃ si, (Memref.whole cc0_scratch3 : Memref sig .scVector .vmem S7x112 .i32).view.loc (V d (cV0 L) (jV0 L)) ↦{fullShare} si)
        ∗ (∃ sb, (Memref.whole cc0_scratch4 : Memref sig .scVector .vmem S112x128 .f32).view.loc (V d (cV0 L) (jV0 L)) ↦{fullShare} sb)
        ∗ (∃ sb, (Memref.whole cc0_scratch5 : Memref sig .scVector .vmem S112x128 .f32).view.loc (V d (cV0 L) (jV0 L)) ↦{fullShare} sb)
        ∗ (∃ sb, (Memref.whole cc0_scratch6 : Memref sig .scVector .vmem S112x128 .f32).view.loc (V d (cV0 L) (jV0 L)) ↦{fullShare} sb)
        ∗ (∃ sb, (Memref.whole cc0_scratch7 : Memref sig .scVector .vmem S112x128 .f32).view.loc (V d (cV0 L) (jV0 L)) ↦{fullShare} sb)
        ∗ (∃ sb, (Memref.whole cc0_scratch8 : Memref sig .scVector .vmem S112x128 .f32).view.loc (V d (cV0 L) (jV0 L)) ↦{fullShare} sb)
        ∗ (∃ sb, (Memref.whole cc0_scratch9 : Memref sig .scVector .vmem S112x128 .f32).view.loc (V d (cV0 L) (jV0 L)) ↦{fullShare} sb)
        ∗ (∃ sb, (Memref.whole cc0_scratch10 : Memref sig .scVector .vmem S112x128 .f32).view.loc (V d (cV0 L) (jV0 L)) ↦{fullShare} sb)
        ∗ semVal ((V d (cV0 L) (jV0 L)), SemLoc.dma cc0_scratch11.sem) 0
        ∗ semVal ((V d (cV0 L) (jV0 L)), SemLoc.dma cc0_scratch12.sem) 0
        ∗ semVal ((V d (cV0 L) (jV0 L)), SemLoc.dma cc0_scratch13.sem) 0
        ∗ semVal ((V d (cV0 L) (jV0 L)), SemLoc.dma cc0_scratch14.sem) 0
        ∗ semVal ((V d (cV0 L) (jV0 L)), SemLoc.dma cc0_scratch15.sem) 0
        ∗ semVal ((V d (cV0 L) (jV0 L)), SemLoc.dma cc0_scratch16.sem) 0
        ∗ semVal ((V d (cV0 L) (jV0 L)), SemLoc.dma cc0_scratch17.sem) 0
        ∗ semVal ((V d (cV0 L) (jV0 L)), SemLoc.dma cc0_scratch18.sem) 0
        ∗ semVal ((V d (cV0 L) (jV0 L)), SemLoc.dma cc0_scratch19.sem) 0
        ∗ semVal ((V d (cV0 L) (jV0 L)), SemLoc.dma cc0_scratch20.sem) 0
        ∗ semVal ((V d (cV0 L) (jV0 L)), SemLoc.dma cc0_scratch21.sem) 0
        ∗ semVal ((V d (cV0 L) (jV0 L)), SemLoc.dma cc0_scratch22.sem) 0
        ∗ semVal ((V d (cV0 L) (jV0 L)), SemLoc.dma cc0_scratch23.sem) 0
        ∗ semVal ((V d (cV0 L) (jV0 L)), SemLoc.dma cc0_scratch24.sem) 0
        ∗ semVal ((V d (cV0 L) (jV0 L)), SemLoc.dma cc0_scratch25.sem) 0
        ∗ semVal ((V d (cV0 L) (jV0 L)), SemLoc.dma cc0_scratch26.sem) 0
        ∗ semVal ((V d (cV0 L) (jV0 L)), SemLoc.dma cc0_scratch27.sem) 0
        ∗ semVal ((V d (cV0 L) (jV0 L)), SemLoc.dma cc0_scratch28.sem) 0
        ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(
              ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
            ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
            ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
            ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
            ∗ ((Memref.whole main_arg0_scv : Memref sig .scVector .hbm S100000x128 .f32).view.loc (V d (cV0 L) (jV0 L)) ↦{Transfers.shareTok qx 11 (4 : Fin 11)} fx0)
            ∗ ((Memref.whole main_arg0_scv : Memref sig .scVector .hbm S100000x128 .f32).view.loc (V d (cV0 L) (jV0 L)) ↦{Transfers.shareTok qx 11 (5 : Fin 11)} fx0)
            ∗ ((Memref.whole main_arg0_scv : Memref sig .scVector .hbm S100000x128 .f32).view.loc (V d (cV0 L) (jV0 L)) ↦{Transfers.shareTok qx 11 (6 : Fin 11)} fx0)
            ∗ ((Memref.whole main_arg0_scv : Memref sig .scVector .hbm S100000x128 .f32).view.loc (V d (cV0 L) (jV0 L)) ↦{Transfers.shareTok qx 11 (7 : Fin 11)} fx0)
            ∗ ((Memref.whole main_arg0_scv : Memref sig .scVector .hbm S100000x128 .f32).view.loc (V d (cV0 L) (jV0 L)) ↦{Transfers.shareTok qx 11 (8 : Fin 11)} fx0)
            ∗ ((Memref.whole main_arg0_scv : Memref sig .scVector .hbm S100000x128 .f32).view.loc (V d (cV0 L) (jV0 L)) ↦{Transfers.shareTok qx 11 (9 : Fin 11)} fx0)
            ∗ ((Memref.whole main_arg0_scv : Memref sig .scVector .hbm S100000x128 .f32).view.loc (V d (cV0 L) (jV0 L)) ↦{Transfers.shareTok qx 11 (10 : Fin 11)} fx0)
            ∗ ((Memref.whole main_arg1_scv : Memref sig .scVector .hbm S100000x128 .f32).view.loc (V d (cV0 L) (jV0 L)) ↦{Transfers.shareTok qx 11 (4 : Fin 11)} fx1)
            ∗ ((Memref.whole main_arg1_scv : Memref sig .scVector .hbm S100000x128 .f32).view.loc (V d (cV0 L) (jV0 L)) ↦{Transfers.shareTok qx 11 (5 : Fin 11)} fx1)
            ∗ ((Memref.whole main_arg1_scv : Memref sig .scVector .hbm S100000x128 .f32).view.loc (V d (cV0 L) (jV0 L)) ↦{Transfers.shareTok qx 11 (6 : Fin 11)} fx1)
            ∗ ((Memref.whole main_arg1_scv : Memref sig .scVector .hbm S100000x128 .f32).view.loc (V d (cV0 L) (jV0 L)) ↦{Transfers.shareTok qx 11 (7 : Fin 11)} fx1)
            ∗ ((Memref.whole main_arg1_scv : Memref sig .scVector .hbm S100000x128 .f32).view.loc (V d (cV0 L) (jV0 L)) ↦{Transfers.shareTok qx 11 (8 : Fin 11)} fx1)
            ∗ ((Memref.whole main_arg1_scv : Memref sig .scVector .hbm S100000x128 .f32).view.loc (V d (cV0 L) (jV0 L)) ↦{Transfers.shareTok qx 11 (9 : Fin 11)} fx1)
            ∗ ((Memref.whole main_arg1_scv : Memref sig .scVector .hbm S100000x128 .f32).view.loc (V d (cV0 L) (jV0 L)) ↦{Transfers.shareTok qx 11 (10 : Fin 11)} fx1)
            ∗ ((Memref.whole main_arg2_scv : Memref sig .scVector .hbm S100000x128 .f32).view.loc (V d (cV0 L) (jV0 L)) ↦{Transfers.shareTok qx 11 (4 : Fin 11)} fx2)
            ∗ ((Memref.whole main_arg2_scv : Memref sig .scVector .hbm S100000x128 .f32).view.loc (V d (cV0 L) (jV0 L)) ↦{Transfers.shareTok qx 11 (5 : Fin 11)} fx2)
            ∗ ((Memref.whole main_arg2_scv : Memref sig .scVector .hbm S100000x128 .f32).view.loc (V d (cV0 L) (jV0 L)) ↦{Transfers.shareTok qx 11 (6 : Fin 11)} fx2)
            ∗ ((Memref.whole main_arg2_scv : Memref sig .scVector .hbm S100000x128 .f32).view.loc (V d (cV0 L) (jV0 L)) ↦{Transfers.shareTok qx 11 (7 : Fin 11)} fx2)
            ∗ ((Memref.whole main_arg2_scv : Memref sig .scVector .hbm S100000x128 .f32).view.loc (V d (cV0 L) (jV0 L)) ↦{Transfers.shareTok qx 11 (8 : Fin 11)} fx2)
            ∗ ((Memref.whole main_arg2_scv : Memref sig .scVector .hbm S100000x128 .f32).view.loc (V d (cV0 L) (jV0 L)) ↦{Transfers.shareTok qx 11 (9 : Fin 11)} fx2)
            ∗ ((Memref.whole main_arg2_scv : Memref sig .scVector .hbm S100000x128 .f32).view.loc (V d (cV0 L) (jV0 L)) ↦{Transfers.shareTok qx 11 (10 : Fin 11)} fx2)
            ∗ ((Memref.whole main_arg3_scv : Memref sig .scVector .hbm S100000x128 .f32).view.loc (V d (cV0 L) (jV0 L)) ↦{Transfers.shareTok qx 11 (4 : Fin 11)} fx3)
            ∗ ((Memref.whole main_arg3_scv : Memref sig .scVector .hbm S100000x128 .f32).view.loc (V d (cV0 L) (jV0 L)) ↦{Transfers.shareTok qx 11 (5 : Fin 11)} fx3)
            ∗ ((Memref.whole main_arg3_scv : Memref sig .scVector .hbm S100000x128 .f32).view.loc (V d (cV0 L) (jV0 L)) ↦{Transfers.shareTok qx 11 (6 : Fin 11)} fx3)
            ∗ ((Memref.whole main_arg3_scv : Memref sig .scVector .hbm S100000x128 .f32).view.loc (V d (cV0 L) (jV0 L)) ↦{Transfers.shareTok qx 11 (7 : Fin 11)} fx3)
            ∗ ((Memref.whole main_arg3_scv : Memref sig .scVector .hbm S100000x128 .f32).view.loc (V d (cV0 L) (jV0 L)) ↦{Transfers.shareTok qx 11 (8 : Fin 11)} fx3)
            ∗ ((Memref.whole main_arg3_scv : Memref sig .scVector .hbm S100000x128 .f32).view.loc (V d (cV0 L) (jV0 L)) ↦{Transfers.shareTok qx 11 (9 : Fin 11)} fx3)
            ∗ ((Memref.whole main_arg3_scv : Memref sig .scVector .hbm S100000x128 .f32).view.loc (V d (cV0 L) (jV0 L)) ↦{Transfers.shareTok qx 11 (10 : Fin 11)} fx3)
            ∗ (∃ fo, ((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} fo)
            ∗ (∃ fo, ((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} fo)
            ∗ (∃ fo, ((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} fo)
            ∗ (∃ fo, ((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} fo)
            ∗ (∃ fo, ((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} fo)
            ∗ (∃ fo, ((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} fo)
            ∗ (∃ fo, ((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} fo)
            ∗ (∃ fo, ((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} fo)
            ∗ (∃ fo, ((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} fo)
            ∗ (∃ fo, ((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} fo)
            ∗ (∃ fo, ((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} fo)
            ∗ (∃ fo, ((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} fo)
            ∗ (∃ fo, ((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} fo)
            ∗ (∃ fo, ((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} fo)
            ∗ (∃ fo, ((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} fo)
            ∗ (∃ fo, ((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} fo)
            ∗ (∃ fo, ((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} fo)
            ∗ (∃ fo, ((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} fo)
            ∗ (∃ fo, ((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} fo)
            ∗ (∃ fo, ((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} fo)
            ∗ (∃ fo, ((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} fo)
            ∗ (∃ fo, ((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} fo)
            ∗ (∃ fo, ((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} fo)
            ∗ (∃ fo, ((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} fo)
            ∗ (∃ fo, ((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} fo)
            ∗ (∃ fo, ((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} fo)
            ∗ (∃ fo, ((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} fo)
            ∗ (∃ fo, ((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} fo)
            ∗ (∃ si, (Memref.whole cc0_scratch0 : Memref sig .scVector .vmem S7x112 .i32).view.loc (V d (cV0 L) (jV0 L)) ↦{fullShare} si)
            ∗ (∃ si, (Memref.whole cc0_scratch1 : Memref sig .scVector .vmem S7x112 .i32).view.loc (V d (cV0 L) (jV0 L)) ↦{fullShare} si)
            ∗ (∃ si, (Memref.whole cc0_scratch2 : Memref sig .scVector .vmem S7x112 .i32).view.loc (V d (cV0 L) (jV0 L)) ↦{fullShare} si)
            ∗ (∃ si, (Memref.whole cc0_scratch3 : Memref sig .scVector .vmem S7x112 .i32).view.loc (V d (cV0 L) (jV0 L)) ↦{fullShare} si)
            ∗ (∃ sb, (Memref.whole cc0_scratch4 : Memref sig .scVector .vmem S112x128 .f32).view.loc (V d (cV0 L) (jV0 L)) ↦{fullShare} sb)
            ∗ (∃ sb, (Memref.whole cc0_scratch5 : Memref sig .scVector .vmem S112x128 .f32).view.loc (V d (cV0 L) (jV0 L)) ↦{fullShare} sb)
            ∗ (∃ sb, (Memref.whole cc0_scratch6 : Memref sig .scVector .vmem S112x128 .f32).view.loc (V d (cV0 L) (jV0 L)) ↦{fullShare} sb)
            ∗ (∃ sb, (Memref.whole cc0_scratch7 : Memref sig .scVector .vmem S112x128 .f32).view.loc (V d (cV0 L) (jV0 L)) ↦{fullShare} sb)
            ∗ (∃ sb, (Memref.whole cc0_scratch8 : Memref sig .scVector .vmem S112x128 .f32).view.loc (V d (cV0 L) (jV0 L)) ↦{fullShare} sb)
            ∗ (∃ sb, (Memref.whole cc0_scratch9 : Memref sig .scVector .vmem S112x128 .f32).view.loc (V d (cV0 L) (jV0 L)) ↦{fullShare} sb)
            ∗ (∃ sb, (Memref.whole cc0_scratch10 : Memref sig .scVector .vmem S112x128 .f32).view.loc (V d (cV0 L) (jV0 L)) ↦{fullShare} sb)
            ∗ semVal ((V d (cV0 L) (jV0 L)), SemLoc.dma cc0_scratch11.sem) 0
            ∗ semVal ((V d (cV0 L) (jV0 L)), SemLoc.dma cc0_scratch12.sem) 0
            ∗ semVal ((V d (cV0 L) (jV0 L)), SemLoc.dma cc0_scratch13.sem) 0
            ∗ semVal ((V d (cV0 L) (jV0 L)), SemLoc.dma cc0_scratch14.sem) 0
            ∗ semVal ((V d (cV0 L) (jV0 L)), SemLoc.dma cc0_scratch15.sem) 0
            ∗ semVal ((V d (cV0 L) (jV0 L)), SemLoc.dma cc0_scratch16.sem) 0
            ∗ semVal ((V d (cV0 L) (jV0 L)), SemLoc.dma cc0_scratch17.sem) 0
            ∗ semVal ((V d (cV0 L) (jV0 L)), SemLoc.dma cc0_scratch18.sem) 0
            ∗ semVal ((V d (cV0 L) (jV0 L)), SemLoc.dma cc0_scratch19.sem) 0
            ∗ semVal ((V d (cV0 L) (jV0 L)), SemLoc.dma cc0_scratch20.sem) 0
            ∗ semVal ((V d (cV0 L) (jV0 L)), SemLoc.dma cc0_scratch21.sem) 0
            ∗ semVal ((V d (cV0 L) (jV0 L)), SemLoc.dma cc0_scratch22.sem) 0
            ∗ semVal ((V d (cV0 L) (jV0 L)), SemLoc.dma cc0_scratch23.sem) 0
            ∗ semVal ((V d (cV0 L) (jV0 L)), SemLoc.dma cc0_scratch24.sem) 0
            ∗ semVal ((V d (cV0 L) (jV0 L)), SemLoc.dma cc0_scratch25.sem) 0
            ∗ semVal ((V d (cV0 L) (jV0 L)), SemLoc.dma cc0_scratch26.sem) 0
            ∗ semVal ((V d (cV0 L) (jV0 L)), SemLoc.dma cc0_scratch27.sem) 0
            ∗ semVal ((V d (cV0 L) (jV0 L)), SemLoc.dma cc0_scratch28.sem) 0
            ∗ (∃ W', ⌜∀ p ∈ W', p ∈ W ∨ p.2 = none⌝ ∗ owes (V d (cV0 L) (jV0 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc0_sc_kernel_eq_skeleton, cc0_sc_kernel_skel]
  -- the offset lists' words in range: each list is a row of an index scratch holding the words of the task's index row
  have hin0 := fun Wm off h si x => hin_row (F := F) d (cV0 L) (jV0 L) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0) hfi0 Wm off h si x
  have hin1 := fun Wm off h si x => hin_row (F := F) d (cV0 L) (jV0 L) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1) hfi1 Wm off h si x
  have hin2 := fun Wm off h si x => hin_row (F := F) d (cV0 L) (jV0 L) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2) hfi2 Wm off h si x
  have hin3 := fun Wm off h si x => hin_row (F := F) d (cV0 L) (jV0 L) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.Kernel.Sc

end
-- ==== Proof.KScObl0.lean ====
/-
  The launch theorem's obligation for the tasks of gather call 0.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.KScTile0
import proofs.«215994_g5102421148354_cont_8to1c4_853_29_alg».proof.Proof.KScPay
import proofs.«215994_g5102421148354_cont_8to1c4_853_29_alg».proof.Proof.KScScoped

noncomputable section

namespace Cert.Kernel.Sc

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

/-- The eighteen semaphores and the eleven scratch buffers the kernel of call 0 names. -/
abbrev semL0 : List (SemLoc sig) := [SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scratch23.sem, SemLoc.dma cc0_scratch24.sem, SemLoc.dma cc0_scratch25.sem, SemLoc.dma cc0_scratch26.sem, SemLoc.dma cc0_scratch27.sem, SemLoc.dma cc0_scratch28.sem]
abbrev bufL0 (c : Fin τ.nSC) (i : Fin τ.nSub) : List (DevRef τ sig) := ([cc0_scratch0, cc0_scratch1, cc0_scratch2, cc0_scratch3, cc0_scratch4, cc0_scratch5, cc0_scratch6, cc0_scratch7, cc0_scratch8, cc0_scratch9, cc0_scratch10] : List (Ref sig .scVector)).map (Proc.scVector c i).devRef

theorem semL0_nodup : (semL0).Nodup := by decide
theorem semL0_scoped : ∀ s ∈ semL0, s.isScoped Kind.scVector = true := by decide
theorem bufL0_nodup (c : Fin τ.nSC) (i : Fin τ.nSub) : (bufL0 c i).Nodup :=
  (show ([cc0_scratch0, cc0_scratch1, cc0_scratch2, cc0_scratch3, cc0_scratch4, cc0_scratch5, cc0_scratch6, cc0_scratch7, cc0_scratch8, cc0_scratch9, cc0_scratch10] : List (Ref sig .scVector)).Nodup by decide).map (Proc.devRef_injective _)
theorem bufL0_own (c : Fin τ.nSC) (i : Fin τ.nSub) : ∀ b ∈ bufL0 c i, b ∈ ownRefs (sig := sig) (Proc.scVector c i) := by
  intro b hb
  simp only [bufL0, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_0 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL0_chain (Φ : SemLoc sig → sProp 𝕄) : bigSepL semL0 Φ = iprop(Φ (SemLoc.dma cc0_scratch11.sem) ∗ Φ (SemLoc.dma cc0_scratch12.sem) ∗ Φ (SemLoc.dma cc0_scratch13.sem) ∗ Φ (SemLoc.dma cc0_scratch14.sem) ∗ Φ (SemLoc.dma cc0_scratch15.sem) ∗ Φ (SemLoc.dma cc0_scratch16.sem) ∗ Φ (SemLoc.dma cc0_scratch17.sem) ∗ Φ (SemLoc.dma cc0_scratch18.sem) ∗ Φ (SemLoc.dma cc0_scratch19.sem) ∗ Φ (SemLoc.dma cc0_scratch20.sem) ∗ Φ (SemLoc.dma cc0_scratch21.sem) ∗ Φ (SemLoc.dma cc0_scratch22.sem) ∗ Φ (SemLoc.dma cc0_scratch23.sem) ∗ Φ (SemLoc.dma cc0_scratch24.sem) ∗ Φ (SemLoc.dma cc0_scratch25.sem) ∗ Φ (SemLoc.dma cc0_scratch26.sem) ∗ Φ (SemLoc.dma cc0_scratch27.sem) ∗ Φ (SemLoc.dma cc0_scratch28.sem)) := rfl
theorem bufL0_chain (c : Fin τ.nSC) (i : Fin τ.nSub) (Φ : DevRef τ sig → sProp 𝕄) : bigSepL (bufL0 c i) Φ = iprop(Φ ((Proc.scVector c i).devRef cc0_scratch0) ∗ Φ ((Proc.scVector c i).devRef cc0_scratch1) ∗ Φ ((Proc.scVector c i).devRef cc0_scratch2) ∗ Φ ((Proc.scVector c i).devRef cc0_scratch3) ∗ Φ ((Proc.scVector c i).devRef cc0_scratch4) ∗ Φ ((Proc.scVector c i).devRef cc0_scratch5) ∗ Φ ((Proc.scVector c i).devRef cc0_scratch6) ∗ Φ ((Proc.scVector c i).devRef cc0_scratch7) ∗ Φ ((Proc.scVector c i).devRef cc0_scratch8) ∗ Φ ((Proc.scVector c i).devRef cc0_scratch9) ∗ Φ ((Proc.scVector c i).devRef cc0_scratch10)) := rfl

set_option maxHeartbeats 4000000 in
/-- The task from what the launch hands it: its payload and its subcore's whole scoped storage. -/
theorem tile_full0 (hF : (K (F := F)).Facts) (d : Dev nD) (L : grid0.Coords) (O : CellTallies nD τ sig (HIx 4)) (W : Waits sig (HIx 4))
    (hO : ∀ g, O g none = 0) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    :
    iprop(levAts (K (F := F)).L (K (F := F)).lev ∗ emp ∗ tileRes0 d L qx fi0 fi1 fi2 fi3 fx0 fx1 fx2 fx3
        ∗ scopedBufs (V d (cV0 L) (jV0 L)) ∗ scopedSems0 (V d (cV0 L) (jV0 L)) ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(tileRes0 d L qx fi0 fi1 fi2 fi3 fx0 fx1 fx2 fx3 ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [(K (F := F)).scopedBufs_V hF d (cV0 L) (jV0 L), SparseCore.Cfg.scopedSems0_V (Val := Elt F) d (cV0 L) (jV0 L),
    ownSems0_take (V d (cV0 L) (jV0 L)) semL0 semL0_nodup semL0_scoped,
    ownBufs_take (V d (cV0 L) (jV0 L)) (bufL0 (cV0 L) (jV0 L)) (bufL0_nodup _ _) (bufL0_own _ _)]
  unfold tileRes0 ownedAny
  rw [semL0_chain, bufL0_chain]
  simp only [toks11_0]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV0 L) (jV0 L))) hO) $$ Hlv
  ihave Hwp := (tile_body0 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post0 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 0. -/
theorem defs₀_vector0 (c : Fin τ.nSC) (s : Fin τ.nSub) :
    defs₀ (F := F) (.scVector c s) 0 ()
      = SparseCore.onTile hcore0 hsub0 (fun c s => cc0_sc_kernel (coordsV0 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) ⟨⟩ c s := rfl

/-- An index row of the task reads words of the call's index array, which are row numbers of the tables. -/
theorem row_lt0 (d : Dev nD) (L : grid0.Coords) (a : IVec S100000 32) (ha : ∀ r, (a r).toNat < 100000) (t : Fin 4) :
    ((t = 0 → ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 1 → ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 2 → ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 3 → ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000))
    := by
  refine ⟨?_, ?_, ?_, ?_⟩ <;> (intro _ j; rw [View.read_apply]; simp only [cast_eq]; exact Idx.slab_lt 0 a ha _)

set_option maxHeartbeats 4000000 in
/-- The launch theorem's obligation for the tasks of call 0, the index inputs holding row numbers. -/
theorem tileObl0 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  obtain ⟨h4, h5, h6, h7⟩ := hpre d
  exact (tile_full0 (F := F) facts d (coordsV0 ⟨_, hc.1⟩ ⟨_, hc.2⟩) O W hO (qTile (Fin.cast (nCore_eq 0) c) (Fin.cast (nSub_eq 0) i))
    (Idx.slab 0 (m ((SparseCore.T d).loc main_arg4))) ((row_lt0 d _ _ h4 0).1 rfl)
    (Idx.slab 0 (m ((SparseCore.T d).loc main_arg5))) ((row_lt0 d _ _ h5 1).2.1 rfl)
    (Idx.slab 0 (m ((SparseCore.T d).loc main_arg6))) ((row_lt0 d _ _ h6 2).2.2.1 rfl)
    (Idx.slab 0 (m ((SparseCore.T d).loc main_arg7))) ((row_lt0 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post0)

end Cert.Kernel.Sc

end
-- ==== Proof.KScTile1.lean ====
/-
  One vector subcore's task in gather call 1: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.KScGrid

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body1 (d : Dev nD) (L : grid1.Coords) (O : CellTallies nD τ sig (HIx 4)) (W : Waits sig (HIx 4)) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    :
    iprop(Transfers.MayWaits (V d (cV1 L) (jV1 L)) (none : HIx 4) O
        ∗ ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
        ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
        ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
        ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
        ∗ ((Memref.whole main_arg0_scv : Memref sig .scVector .hbm S100000x128 .f32).view.loc (V d (cV1 L) (jV1 L)) ↦{Transfers.shareTok qx 11 (4 : Fin 11)} fx0)
        ∗ ((Memref.whole main_arg0_scv : Memref sig .scVector .hbm S100000x128 .f32).view.loc (V d (cV1 L) (jV1 L)) ↦{Transfers.shareTok qx 11 (5 : Fin 11)} fx0)
        ∗ ((Memref.whole main_arg0_scv : Memref sig .scVector .hbm S100000x128 .f32).view.loc (V d (cV1 L) (jV1 L)) ↦{Transfers.shareTok qx 11 (6 : Fin 11)} fx0)
        ∗ ((Memref.whole main_arg0_scv : Memref sig .scVector .hbm S100000x128 .f32).view.loc (V d (cV1 L) (jV1 L)) ↦{Transfers.shareTok qx 11 (7 : Fin 11)} fx0)
        ∗ ((Memref.whole main_arg0_scv : Memref sig .scVector .hbm S100000x128 .f32).view.loc (V d (cV1 L) (jV1 L)) ↦{Transfers.shareTok qx 11 (8 : Fin 11)} fx0)
        ∗ ((Memref.whole main_arg0_scv : Memref sig .scVector .hbm S100000x128 .f32).view.loc (V d (cV1 L) (jV1 L)) ↦{Transfers.shareTok qx 11 (9 : Fin 11)} fx0)
        ∗ ((Memref.whole main_arg0_scv : Memref sig .scVector .hbm S100000x128 .f32).view.loc (V d (cV1 L) (jV1 L)) ↦{Transfers.shareTok qx 11 (10 : Fin 11)} fx0)
        ∗ ((Memref.whole main_arg1_scv : Memref sig .scVector .hbm S100000x128 .f32).view.loc (V d (cV1 L) (jV1 L)) ↦{Transfers.shareTok qx 11 (4 : Fin 11)} fx1)
        ∗ ((Memref.whole main_arg1_scv : Memref sig .scVector .hbm S100000x128 .f32).view.loc (V d (cV1 L) (jV1 L)) ↦{Transfers.shareTok qx 11 (5 : Fin 11)} fx1)
        ∗ ((Memref.whole main_arg1_scv : Memref sig .scVector .hbm S100000x128 .f32).view.loc (V d (cV1 L) (jV1 L)) ↦{Transfers.shareTok qx 11 (6 : Fin 11)} fx1)
        ∗ ((Memref.whole main_arg1_scv : Memref sig .scVector .hbm S100000x128 .f32).view.loc (V d (cV1 L) (jV1 L)) ↦{Transfers.shareTok qx 11 (7 : Fin 11)} fx1)
        ∗ ((Memref.whole main_arg1_scv : Memref sig .scVector .hbm S100000x128 .f32).view.loc (V d (cV1 L) (jV1 L)) ↦{Transfers.shareTok qx 11 (8 : Fin 11)} fx1)
        ∗ ((Memref.whole main_arg1_scv : Memref sig .scVector .hbm S100000x128 .f32).view.loc (V d (cV1 L) (jV1 L)) ↦{Transfers.shareTok qx 11 (9 : Fin 11)} fx1)
        ∗ ((Memref.whole main_arg1_scv : Memref sig .scVector .hbm S100000x128 .f32).view.loc (V d (cV1 L) (jV1 L)) ↦{Transfers.shareTok qx 11 (10 : Fin 11)} fx1)
        ∗ ((Memref.whole main_arg2_scv : Memref sig .scVector .hbm S100000x128 .f32).view.loc (V d (cV1 L) (jV1 L)) ↦{Transfers.shareTok qx 11 (4 : Fin 11)} fx2)
        ∗ ((Memref.whole main_arg2_scv : Memref sig .scVector .hbm S100000x128 .f32).view.loc (V d (cV1 L) (jV1 L)) ↦{Transfers.shareTok qx 11 (5 : Fin 11)} fx2)
        ∗ ((Memref.whole main_arg2_scv : Memref sig .scVector .hbm S100000x128 .f32).view.loc (V d (cV1 L) (jV1 L)) ↦{Transfers.shareTok qx 11 (6 : Fin 11)} fx2)
        ∗ ((Memref.whole main_arg2_scv : Memref sig .scVector .hbm S100000x128 .f32).view.loc (V d (cV1 L) (jV1 L)) ↦{Transfers.shareTok qx 11 (7 : Fin 11)} fx2)
        ∗ ((Memref.whole main_arg2_scv : Memref sig .scVector .hbm S100000x128 .f32).view.loc (V d (cV1 L) (jV1 L)) ↦{Transfers.shareTok qx 11 (8 : Fin 11)} fx2)
        ∗ ((Memref.whole main_arg2_scv : Memref sig .scVector .hbm S100000x128 .f32).view.loc (V d (cV1 L) (jV1 L)) ↦{Transfers.shareTok qx 11 (9 : Fin 11)} fx2)
        ∗ ((Memref.whole main_arg2_scv : Memref sig .scVector .hbm S100000x128 .f32).view.loc (V d (cV1 L) (jV1 L)) ↦{Transfers.shareTok qx 11 (10 : Fin 11)} fx2)
        ∗ ((Memref.whole main_arg3_scv : Memref sig .scVector .hbm S100000x128 .f32).view.loc (V d (cV1 L) (jV1 L)) ↦{Transfers.shareTok qx 11 (4 : Fin 11)} fx3)
        ∗ ((Memref.whole main_arg3_scv : Memref sig .scVector .hbm S100000x128 .f32).view.loc (V d (cV1 L) (jV1 L)) ↦{Transfers.shareTok qx 11 (5 : Fin 11)} fx3)
        ∗ ((Memref.whole main_arg3_scv : Memref sig .scVector .hbm S100000x128 .f32).view.loc (V d (cV1 L) (jV1 L)) ↦{Transfers.shareTok qx 11 (6 : Fin 11)} fx3)
        ∗ ((Memref.whole main_arg3_scv : Memref sig .scVector .hbm S100000x128 .f32).view.loc (V d (cV1 L) (jV1 L)) ↦{Transfers.shareTok qx 11 (7 : Fin 11)} fx3)
        ∗ ((Memref.whole main_arg3_scv : Memref sig .scVector .hbm S100000x128 .f32).view.loc (V d (cV1 L) (jV1 L)) ↦{Transfers.shareTok qx 11 (8 : Fin 11)} fx3)
        ∗ ((Memref.whole main_arg3_scv : Memref sig .scVector .hbm S100000x128 .f32).view.loc (V d (cV1 L) (jV1 L)) ↦{Transfers.shareTok qx 11 (9 : Fin 11)} fx3)
        ∗ ((Memref.whole main_arg3_scv : Memref sig .scVector .hbm S100000x128 .f32).view.loc (V d (cV1 L) (jV1 L)) ↦{Transfers.shareTok qx 11 (10 : Fin 11)} fx3)
        ∗ (∃ fo, ((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} fo)
        ∗ (∃ fo, ((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} fo)
        ∗ (∃ fo, ((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} fo)
        ∗ (∃ fo, ((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} fo)
        ∗ (∃ fo, ((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} fo)
        ∗ (∃ fo, ((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} fo)
        ∗ (∃ fo, ((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} fo)
        ∗ (∃ fo, ((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} fo)
        ∗ (∃ fo, ((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} fo)
        ∗ (∃ fo, ((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} fo)
        ∗ (∃ fo, ((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} fo)
        ∗ (∃ fo, ((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} fo)
        ∗ (∃ fo, ((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} fo)
        ∗ (∃ fo, ((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} fo)
        ∗ (∃ fo, ((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} fo)
        ∗ (∃ fo, ((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} fo)
        ∗ (∃ fo, ((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} fo)
        ∗ (∃ fo, ((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} fo)
        ∗ (∃ fo, ((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} fo)
        ∗ (∃ fo, ((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} fo)
        ∗ (∃ fo, ((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} fo)
        ∗ (∃ fo, ((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} fo)
        ∗ (∃ fo, ((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} fo)
        ∗ (∃ fo, ((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} fo)
        ∗ (∃ fo, ((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} fo)
        ∗ (∃ fo, ((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} fo)
        ∗ (∃ fo, ((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} fo)
        ∗ (∃ fo, ((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} fo)
        ∗ (∃ si, (Memref.whole cc1_scratch0 : Memref sig .scVector .vmem S7x112 .i32).view.loc (V d (cV1 L) (jV1 L)) ↦{fullShare} si)
        ∗ (∃ si, (Memref.whole cc1_scratch1 : Memref sig .scVector .vmem S7x112 .i32).view.loc (V d (cV1 L) (jV1 L)) ↦{fullShare} si)
        ∗ (∃ si, (Memref.whole cc1_scratch2 : Memref sig .scVector .vmem S7x112 .i32).view.loc (V d (cV1 L) (jV1 L)) ↦{fullShare} si)
        ∗ (∃ si, (Memref.whole cc1_scratch3 : Memref sig .scVector .vmem S7x112 .i32).view.loc (V d (cV1 L) (jV1 L)) ↦{fullShare} si)
        ∗ (∃ sb, (Memref.whole cc1_scratch4 : Memref sig .scVector .vmem S112x128 .f32).view.loc (V d (cV1 L) (jV1 L)) ↦{fullShare} sb)
        ∗ (∃ sb, (Memref.whole cc1_scratch5 : Memref sig .scVector .vmem S112x128 .f32).view.loc (V d (cV1 L) (jV1 L)) ↦{fullShare} sb)
        ∗ (∃ sb, (Memref.whole cc1_scratch6 : Memref sig .scVector .vmem S112x128 .f32).view.loc (V d (cV1 L) (jV1 L)) ↦{fullShare} sb)
        ∗ (∃ sb, (Memref.whole cc1_scratch7 : Memref sig .scVector .vmem S112x128 .f32).view.loc (V d (cV1 L) (jV1 L)) ↦{fullShare} sb)
        ∗ (∃ sb, (Memref.whole cc1_scratch8 : Memref sig .scVector .vmem S112x128 .f32).view.loc (V d (cV1 L) (jV1 L)) ↦{fullShare} sb)
        ∗ (∃ sb, (Memref.whole cc1_scratch9 : Memref sig .scVector .vmem S112x128 .f32).view.loc (V d (cV1 L) (jV1 L)) ↦{fullShare} sb)
        ∗ (∃ sb, (Memref.whole cc1_scratch10 : Memref sig .scVector .vmem S112x128 .f32).view.loc (V d (cV1 L) (jV1 L)) ↦{fullShare} sb)
        ∗ semVal ((V d (cV1 L) (jV1 L)), SemLoc.dma cc1_scratch11.sem) 0
        ∗ semVal ((V d (cV1 L) (jV1 L)), SemLoc.dma cc1_scratch12.sem) 0
        ∗ semVal ((V d (cV1 L) (jV1 L)), SemLoc.dma cc1_scratch13.sem) 0
        ∗ semVal ((V d (cV1 L) (jV1 L)), SemLoc.dma cc1_scratch14.sem) 0
        ∗ semVal ((V d (cV1 L) (jV1 L)), SemLoc.dma cc1_scratch15.sem) 0
        ∗ semVal ((V d (cV1 L) (jV1 L)), SemLoc.dma cc1_scratch16.sem) 0
        ∗ semVal ((V d (cV1 L) (jV1 L)), SemLoc.dma cc1_scratch17.sem) 0
        ∗ semVal ((V d (cV1 L) (jV1 L)), SemLoc.dma cc1_scratch18.sem) 0
        ∗ semVal ((V d (cV1 L) (jV1 L)), SemLoc.dma cc1_scratch19.sem) 0
        ∗ semVal ((V d (cV1 L) (jV1 L)), SemLoc.dma cc1_scratch20.sem) 0
        ∗ semVal ((V d (cV1 L) (jV1 L)), SemLoc.dma cc1_scratch21.sem) 0
        ∗ semVal ((V d (cV1 L) (jV1 L)), SemLoc.dma cc1_scratch22.sem) 0
        ∗ semVal ((V d (cV1 L) (jV1 L)), SemLoc.dma cc1_scratch23.sem) 0
        ∗ semVal ((V d (cV1 L) (jV1 L)), SemLoc.dma cc1_scratch24.sem) 0
        ∗ semVal ((V d (cV1 L) (jV1 L)), SemLoc.dma cc1_scratch25.sem) 0
        ∗ semVal ((V d (cV1 L) (jV1 L)), SemLoc.dma cc1_scratch26.sem) 0
        ∗ semVal ((V d (cV1 L) (jV1 L)), SemLoc.dma cc1_scratch27.sem) 0
        ∗ semVal ((V d (cV1 L) (jV1 L)), SemLoc.dma cc1_scratch28.sem) 0
        ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(
              ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
            ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
            ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
            ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
            ∗ ((Memref.whole main_arg0_scv : Memref sig .scVector .hbm S100000x128 .f32).view.loc (V d (cV1 L) (jV1 L)) ↦{Transfers.shareTok qx 11 (4 : Fin 11)} fx0)
            ∗ ((Memref.whole main_arg0_scv : Memref sig .scVector .hbm S100000x128 .f32).view.loc (V d (cV1 L) (jV1 L)) ↦{Transfers.shareTok qx 11 (5 : Fin 11)} fx0)
            ∗ ((Memref.whole main_arg0_scv : Memref sig .scVector .hbm S100000x128 .f32).view.loc (V d (cV1 L) (jV1 L)) ↦{Transfers.shareTok qx 11 (6 : Fin 11)} fx0)
            ∗ ((Memref.whole main_arg0_scv : Memref sig .scVector .hbm S100000x128 .f32).view.loc (V d (cV1 L) (jV1 L)) ↦{Transfers.shareTok qx 11 (7 : Fin 11)} fx0)
            ∗ ((Memref.whole main_arg0_scv : Memref sig .scVector .hbm S100000x128 .f32).view.loc (V d (cV1 L) (jV1 L)) ↦{Transfers.shareTok qx 11 (8 : Fin 11)} fx0)
            ∗ ((Memref.whole main_arg0_scv : Memref sig .scVector .hbm S100000x128 .f32).view.loc (V d (cV1 L) (jV1 L)) ↦{Transfers.shareTok qx 11 (9 : Fin 11)} fx0)
            ∗ ((Memref.whole main_arg0_scv : Memref sig .scVector .hbm S100000x128 .f32).view.loc (V d (cV1 L) (jV1 L)) ↦{Transfers.shareTok qx 11 (10 : Fin 11)} fx0)
            ∗ ((Memref.whole main_arg1_scv : Memref sig .scVector .hbm S100000x128 .f32).view.loc (V d (cV1 L) (jV1 L)) ↦{Transfers.shareTok qx 11 (4 : Fin 11)} fx1)
            ∗ ((Memref.whole main_arg1_scv : Memref sig .scVector .hbm S100000x128 .f32).view.loc (V d (cV1 L) (jV1 L)) ↦{Transfers.shareTok qx 11 (5 : Fin 11)} fx1)
            ∗ ((Memref.whole main_arg1_scv : Memref sig .scVector .hbm S100000x128 .f32).view.loc (V d (cV1 L) (jV1 L)) ↦{Transfers.shareTok qx 11 (6 : Fin 11)} fx1)
            ∗ ((Memref.whole main_arg1_scv : Memref sig .scVector .hbm S100000x128 .f32).view.loc (V d (cV1 L) (jV1 L)) ↦{Transfers.shareTok qx 11 (7 : Fin 11)} fx1)
            ∗ ((Memref.whole main_arg1_scv : Memref sig .scVector .hbm S100000x128 .f32).view.loc (V d (cV1 L) (jV1 L)) ↦{Transfers.shareTok qx 11 (8 : Fin 11)} fx1)
            ∗ ((Memref.whole main_arg1_scv : Memref sig .scVector .hbm S100000x128 .f32).view.loc (V d (cV1 L) (jV1 L)) ↦{Transfers.shareTok qx 11 (9 : Fin 11)} fx1)
            ∗ ((Memref.whole main_arg1_scv : Memref sig .scVector .hbm S100000x128 .f32).view.loc (V d (cV1 L) (jV1 L)) ↦{Transfers.shareTok qx 11 (10 : Fin 11)} fx1)
            ∗ ((Memref.whole main_arg2_scv : Memref sig .scVector .hbm S100000x128 .f32).view.loc (V d (cV1 L) (jV1 L)) ↦{Transfers.shareTok qx 11 (4 : Fin 11)} fx2)
            ∗ ((Memref.whole main_arg2_scv : Memref sig .scVector .hbm S100000x128 .f32).view.loc (V d (cV1 L) (jV1 L)) ↦{Transfers.shareTok qx 11 (5 : Fin 11)} fx2)
            ∗ ((Memref.whole main_arg2_scv : Memref sig .scVector .hbm S100000x128 .f32).view.loc (V d (cV1 L) (jV1 L)) ↦{Transfers.shareTok qx 11 (6 : Fin 11)} fx2)
            ∗ ((Memref.whole main_arg2_scv : Memref sig .scVector .hbm S100000x128 .f32).view.loc (V d (cV1 L) (jV1 L)) ↦{Transfers.shareTok qx 11 (7 : Fin 11)} fx2)
            ∗ ((Memref.whole main_arg2_scv : Memref sig .scVector .hbm S100000x128 .f32).view.loc (V d (cV1 L) (jV1 L)) ↦{Transfers.shareTok qx 11 (8 : Fin 11)} fx2)
            ∗ ((Memref.whole main_arg2_scv : Memref sig .scVector .hbm S100000x128 .f32).view.loc (V d (cV1 L) (jV1 L)) ↦{Transfers.shareTok qx 11 (9 : Fin 11)} fx2)
            ∗ ((Memref.whole main_arg2_scv : Memref sig .scVector .hbm S100000x128 .f32).view.loc (V d (cV1 L) (jV1 L)) ↦{Transfers.shareTok qx 11 (10 : Fin 11)} fx2)
            ∗ ((Memref.whole main_arg3_scv : Memref sig .scVector .hbm S100000x128 .f32).view.loc (V d (cV1 L) (jV1 L)) ↦{Transfers.shareTok qx 11 (4 : Fin 11)} fx3)
            ∗ ((Memref.whole main_arg3_scv : Memref sig .scVector .hbm S100000x128 .f32).view.loc (V d (cV1 L) (jV1 L)) ↦{Transfers.shareTok qx 11 (5 : Fin 11)} fx3)
            ∗ ((Memref.whole main_arg3_scv : Memref sig .scVector .hbm S100000x128 .f32).view.loc (V d (cV1 L) (jV1 L)) ↦{Transfers.shareTok qx 11 (6 : Fin 11)} fx3)
            ∗ ((Memref.whole main_arg3_scv : Memref sig .scVector .hbm S100000x128 .f32).view.loc (V d (cV1 L) (jV1 L)) ↦{Transfers.shareTok qx 11 (7 : Fin 11)} fx3)
            ∗ ((Memref.whole main_arg3_scv : Memref sig .scVector .hbm S100000x128 .f32).view.loc (V d (cV1 L) (jV1 L)) ↦{Transfers.shareTok qx 11 (8 : Fin 11)} fx3)
            ∗ ((Memref.whole main_arg3_scv : Memref sig .scVector .hbm S100000x128 .f32).view.loc (V d (cV1 L) (jV1 L)) ↦{Transfers.shareTok qx 11 (9 : Fin 11)} fx3)
            ∗ ((Memref.whole main_arg3_scv : Memref sig .scVector .hbm S100000x128 .f32).view.loc (V d (cV1 L) (jV1 L)) ↦{Transfers.shareTok qx 11 (10 : Fin 11)} fx3)
            ∗ (∃ fo, ((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} fo)
            ∗ (∃ fo, ((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} fo)
            ∗ (∃ fo, ((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} fo)
            ∗ (∃ fo, ((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} fo)
            ∗ (∃ fo, ((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} fo)
            ∗ (∃ fo, ((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} fo)
            ∗ (∃ fo, ((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} fo)
            ∗ (∃ fo, ((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} fo)
            ∗ (∃ fo, ((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} fo)
            ∗ (∃ fo, ((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} fo)
            ∗ (∃ fo, ((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} fo)
            ∗ (∃ fo, ((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} fo)
            ∗ (∃ fo, ((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} fo)
            ∗ (∃ fo, ((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} fo)
            ∗ (∃ fo, ((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} fo)
            ∗ (∃ fo, ((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} fo)
            ∗ (∃ fo, ((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} fo)
            ∗ (∃ fo, ((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} fo)
            ∗ (∃ fo, ((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} fo)
            ∗ (∃ fo, ((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} fo)
            ∗ (∃ fo, ((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} fo)
            ∗ (∃ fo, ((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} fo)
            ∗ (∃ fo, ((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} fo)
            ∗ (∃ fo, ((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} fo)
            ∗ (∃ fo, ((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} fo)
            ∗ (∃ fo, ((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} fo)
            ∗ (∃ fo, ((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} fo)
            ∗ (∃ fo, ((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} fo)
            ∗ (∃ si, (Memref.whole cc1_scratch0 : Memref sig .scVector .vmem S7x112 .i32).view.loc (V d (cV1 L) (jV1 L)) ↦{fullShare} si)
            ∗ (∃ si, (Memref.whole cc1_scratch1 : Memref sig .scVector .vmem S7x112 .i32).view.loc (V d (cV1 L) (jV1 L)) ↦{fullShare} si)
            ∗ (∃ si, (Memref.whole cc1_scratch2 : Memref sig .scVector .vmem S7x112 .i32).view.loc (V d (cV1 L) (jV1 L)) ↦{fullShare} si)
            ∗ (∃ si, (Memref.whole cc1_scratch3 : Memref sig .scVector .vmem S7x112 .i32).view.loc (V d (cV1 L) (jV1 L)) ↦{fullShare} si)
            ∗ (∃ sb, (Memref.whole cc1_scratch4 : Memref sig .scVector .vmem S112x128 .f32).view.loc (V d (cV1 L) (jV1 L)) ↦{fullShare} sb)
            ∗ (∃ sb, (Memref.whole cc1_scratch5 : Memref sig .scVector .vmem S112x128 .f32).view.loc (V d (cV1 L) (jV1 L)) ↦{fullShare} sb)
            ∗ (∃ sb, (Memref.whole cc1_scratch6 : Memref sig .scVector .vmem S112x128 .f32).view.loc (V d (cV1 L) (jV1 L)) ↦{fullShare} sb)
            ∗ (∃ sb, (Memref.whole cc1_scratch7 : Memref sig .scVector .vmem S112x128 .f32).view.loc (V d (cV1 L) (jV1 L)) ↦{fullShare} sb)
            ∗ (∃ sb, (Memref.whole cc1_scratch8 : Memref sig .scVector .vmem S112x128 .f32).view.loc (V d (cV1 L) (jV1 L)) ↦{fullShare} sb)
            ∗ (∃ sb, (Memref.whole cc1_scratch9 : Memref sig .scVector .vmem S112x128 .f32).view.loc (V d (cV1 L) (jV1 L)) ↦{fullShare} sb)
            ∗ (∃ sb, (Memref.whole cc1_scratch10 : Memref sig .scVector .vmem S112x128 .f32).view.loc (V d (cV1 L) (jV1 L)) ↦{fullShare} sb)
            ∗ semVal ((V d (cV1 L) (jV1 L)), SemLoc.dma cc1_scratch11.sem) 0
            ∗ semVal ((V d (cV1 L) (jV1 L)), SemLoc.dma cc1_scratch12.sem) 0
            ∗ semVal ((V d (cV1 L) (jV1 L)), SemLoc.dma cc1_scratch13.sem) 0
            ∗ semVal ((V d (cV1 L) (jV1 L)), SemLoc.dma cc1_scratch14.sem) 0
            ∗ semVal ((V d (cV1 L) (jV1 L)), SemLoc.dma cc1_scratch15.sem) 0
            ∗ semVal ((V d (cV1 L) (jV1 L)), SemLoc.dma cc1_scratch16.sem) 0
            ∗ semVal ((V d (cV1 L) (jV1 L)), SemLoc.dma cc1_scratch17.sem) 0
            ∗ semVal ((V d (cV1 L) (jV1 L)), SemLoc.dma cc1_scratch18.sem) 0
            ∗ semVal ((V d (cV1 L) (jV1 L)), SemLoc.dma cc1_scratch19.sem) 0
            ∗ semVal ((V d (cV1 L) (jV1 L)), SemLoc.dma cc1_scratch20.sem) 0
            ∗ semVal ((V d (cV1 L) (jV1 L)), SemLoc.dma cc1_scratch21.sem) 0
            ∗ semVal ((V d (cV1 L) (jV1 L)), SemLoc.dma cc1_scratch22.sem) 0
            ∗ semVal ((V d (cV1 L) (jV1 L)), SemLoc.dma cc1_scratch23.sem) 0
            ∗ semVal ((V d (cV1 L) (jV1 L)), SemLoc.dma cc1_scratch24.sem) 0
            ∗ semVal ((V d (cV1 L) (jV1 L)), SemLoc.dma cc1_scratch25.sem) 0
            ∗ semVal ((V d (cV1 L) (jV1 L)), SemLoc.dma cc1_scratch26.sem) 0
            ∗ semVal ((V d (cV1 L) (jV1 L)), SemLoc.dma cc1_scratch27.sem) 0
            ∗ semVal ((V d (cV1 L) (jV1 L)), SemLoc.dma cc1_scratch28.sem) 0
            ∗ (∃ W', ⌜∀ p ∈ W', p ∈ W ∨ p.2 = none⌝ ∗ owes (V d (cV1 L) (jV1 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc1_sc_kernel_eq_skeleton, cc1_sc_kernel_skel]
  -- the offset lists' words in range: each list is a row of an index scratch holding the words of the task's index row
  have hin0 := fun Wm off h si x => hin_row (F := F) d (cV1 L) (jV1 L) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0) hfi0 Wm off h si x
  have hin1 := fun Wm off h si x => hin_row (F := F) d (cV1 L) (jV1 L) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1) hfi1 Wm off h si x
  have hin2 := fun Wm off h si x => hin_row (F := F) d (cV1 L) (jV1 L) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2) hfi2 Wm off h si x
  have hin3 := fun Wm off h si x => hin_row (F := F) d (cV1 L) (jV1 L) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.Kernel.Sc

end
-- ==== Proof.KScObl1.lean ====
/-
  The launch theorem's obligation for the tasks of gather call 1.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.KScTile1
import proofs.«215994_g5102421148354_cont_8to1c4_853_29_alg».proof.Proof.KScPay
import proofs.«215994_g5102421148354_cont_8to1c4_853_29_alg».proof.Proof.KScScoped

noncomputable section

namespace Cert.Kernel.Sc

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

/-- The eighteen semaphores and the eleven scratch buffers the kernel of call 1 names. -/
abbrev semL1 : List (SemLoc sig) := [SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem, SemLoc.dma cc1_scratch19.sem, SemLoc.dma cc1_scratch20.sem, SemLoc.dma cc1_scratch21.sem, SemLoc.dma cc1_scratch22.sem, SemLoc.dma cc1_scratch23.sem, SemLoc.dma cc1_scratch24.sem, SemLoc.dma cc1_scratch25.sem, SemLoc.dma cc1_scratch26.sem, SemLoc.dma cc1_scratch27.sem, SemLoc.dma cc1_scratch28.sem]
abbrev bufL1 (c : Fin τ.nSC) (i : Fin τ.nSub) : List (DevRef τ sig) := ([cc1_scratch0, cc1_scratch1, cc1_scratch2, cc1_scratch3, cc1_scratch4, cc1_scratch5, cc1_scratch6, cc1_scratch7, cc1_scratch8, cc1_scratch9, cc1_scratch10] : List (Ref sig .scVector)).map (Proc.scVector c i).devRef

theorem semL1_nodup : (semL1).Nodup := by decide
theorem semL1_scoped : ∀ s ∈ semL1, s.isScoped Kind.scVector = true := by decide
theorem bufL1_nodup (c : Fin τ.nSC) (i : Fin τ.nSub) : (bufL1 c i).Nodup :=
  (show ([cc1_scratch0, cc1_scratch1, cc1_scratch2, cc1_scratch3, cc1_scratch4, cc1_scratch5, cc1_scratch6, cc1_scratch7, cc1_scratch8, cc1_scratch9, cc1_scratch10] : List (Ref sig .scVector)).Nodup by decide).map (Proc.devRef_injective _)
theorem bufL1_own (c : Fin τ.nSC) (i : Fin τ.nSub) : ∀ b ∈ bufL1 c i, b ∈ ownRefs (sig := sig) (Proc.scVector c i) := by
  intro b hb
  simp only [bufL1, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_1 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL1_chain (Φ : SemLoc sig → sProp 𝕄) : bigSepL semL1 Φ = iprop(Φ (SemLoc.dma cc1_scratch11.sem) ∗ Φ (SemLoc.dma cc1_scratch12.sem) ∗ Φ (SemLoc.dma cc1_scratch13.sem) ∗ Φ (SemLoc.dma cc1_scratch14.sem) ∗ Φ (SemLoc.dma cc1_scratch15.sem) ∗ Φ (SemLoc.dma cc1_scratch16.sem) ∗ Φ (SemLoc.dma cc1_scratch17.sem) ∗ Φ (SemLoc.dma cc1_scratch18.sem) ∗ Φ (SemLoc.dma cc1_scratch19.sem) ∗ Φ (SemLoc.dma cc1_scratch20.sem) ∗ Φ (SemLoc.dma cc1_scratch21.sem) ∗ Φ (SemLoc.dma cc1_scratch22.sem) ∗ Φ (SemLoc.dma cc1_scratch23.sem) ∗ Φ (SemLoc.dma cc1_scratch24.sem) ∗ Φ (SemLoc.dma cc1_scratch25.sem) ∗ Φ (SemLoc.dma cc1_scratch26.sem) ∗ Φ (SemLoc.dma cc1_scratch27.sem) ∗ Φ (SemLoc.dma cc1_scratch28.sem)) := rfl
theorem bufL1_chain (c : Fin τ.nSC) (i : Fin τ.nSub) (Φ : DevRef τ sig → sProp 𝕄) : bigSepL (bufL1 c i) Φ = iprop(Φ ((Proc.scVector c i).devRef cc1_scratch0) ∗ Φ ((Proc.scVector c i).devRef cc1_scratch1) ∗ Φ ((Proc.scVector c i).devRef cc1_scratch2) ∗ Φ ((Proc.scVector c i).devRef cc1_scratch3) ∗ Φ ((Proc.scVector c i).devRef cc1_scratch4) ∗ Φ ((Proc.scVector c i).devRef cc1_scratch5) ∗ Φ ((Proc.scVector c i).devRef cc1_scratch6) ∗ Φ ((Proc.scVector c i).devRef cc1_scratch7) ∗ Φ ((Proc.scVector c i).devRef cc1_scratch8) ∗ Φ ((Proc.scVector c i).devRef cc1_scratch9) ∗ Φ ((Proc.scVector c i).devRef cc1_scratch10)) := rfl

set_option maxHeartbeats 4000000 in
/-- The task from what the launch hands it: its payload and its subcore's whole scoped storage. -/
theorem tile_full1 (hF : (K (F := F)).Facts) (d : Dev nD) (L : grid1.Coords) (O : CellTallies nD τ sig (HIx 4)) (W : Waits sig (HIx 4))
    (hO : ∀ g, O g none = 0) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    :
    iprop(levAts (K (F := F)).L (K (F := F)).lev ∗ emp ∗ tileRes1 d L qx fi0 fi1 fi2 fi3 fx0 fx1 fx2 fx3
        ∗ scopedBufs (V d (cV1 L) (jV1 L)) ∗ scopedSems0 (V d (cV1 L) (jV1 L)) ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(tileRes1 d L qx fi0 fi1 fi2 fi3 fx0 fx1 fx2 fx3 ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [(K (F := F)).scopedBufs_V hF d (cV1 L) (jV1 L), SparseCore.Cfg.scopedSems0_V (Val := Elt F) d (cV1 L) (jV1 L),
    ownSems0_take (V d (cV1 L) (jV1 L)) semL1 semL1_nodup semL1_scoped,
    ownBufs_take (V d (cV1 L) (jV1 L)) (bufL1 (cV1 L) (jV1 L)) (bufL1_nodup _ _) (bufL1_own _ _)]
  unfold tileRes1 ownedAny
  rw [semL1_chain, bufL1_chain]
  simp only [toks11_1]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV1 L) (jV1 L))) hO) $$ Hlv
  ihave Hwp := (tile_body1 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post1 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 1. -/
theorem defs₀_vector1 (c : Fin τ.nSC) (s : Fin τ.nSub) :
    defs₀ (F := F) (.scVector c s) 1 ()
      = SparseCore.onTile hcore1 hsub1 (fun c s => cc1_sc_kernel (coordsV1 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28) ⟨⟩ c s := rfl

/-- An index row of the task reads words of the call's index array, which are row numbers of the tables. -/
theorem row_lt1 (d : Dev nD) (L : grid1.Coords) (a : IVec S100000 32) (ha : ∀ r, (a r).toNat < 100000) (t : Fin 4) :
    ((t = 0 → ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 1 → ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 2 → ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 3 → ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000))
    := by
  refine ⟨?_, ?_, ?_, ?_⟩ <;> (intro _ j; rw [View.read_apply]; simp only [cast_eq]; exact Idx.slab_lt 1 a ha _)

set_option maxHeartbeats 4000000 in
/-- The launch theorem's obligation for the tasks of call 1, the index inputs holding row numbers. -/
theorem tileObl1 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  obtain ⟨h4, h5, h6, h7⟩ := hpre d
  exact (tile_full1 (F := F) facts d (coordsV1 ⟨_, hc.1⟩ ⟨_, hc.2⟩) O W hO (qTile (Fin.cast (nCore_eq 1) c) (Fin.cast (nSub_eq 1) i))
    (Idx.slab 1 (m ((SparseCore.T d).loc main_arg4))) ((row_lt1 d _ _ h4 0).1 rfl)
    (Idx.slab 1 (m ((SparseCore.T d).loc main_arg5))) ((row_lt1 d _ _ h5 1).2.1 rfl)
    (Idx.slab 1 (m ((SparseCore.T d).loc main_arg6))) ((row_lt1 d _ _ h6 2).2.2.1 rfl)
    (Idx.slab 1 (m ((SparseCore.T d).loc main_arg7))) ((row_lt1 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post1)

end Cert.Kernel.Sc

end
-- ==== Proof.KScTile2.lean ====
/-
  One vector subcore's task in gather call 2: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.KScGrid

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body2 (d : Dev nD) (L : grid2.Coords) (O : CellTallies nD τ sig (HIx 4)) (W : Waits sig (HIx 4)) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    :
    iprop(Transfers.MayWaits (V d (cV2 L) (jV2 L)) (none : HIx 4) O
        ∗ ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
        ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
        ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
        ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
        ∗ ((Memref.whole main_arg0_scv : Memref sig .scVector .hbm S100000x128 .f32).view.loc (V d (cV2 L) (jV2 L)) ↦{Transfers.shareTok qx 11 (4 : Fin 11)} fx0)
        ∗ ((Memref.whole main_arg0_scv : Memref sig .scVector .hbm S100000x128 .f32).view.loc (V d (cV2 L) (jV2 L)) ↦{Transfers.shareTok qx 11 (5 : Fin 11)} fx0)
        ∗ ((Memref.whole main_arg0_scv : Memref sig .scVector .hbm S100000x128 .f32).view.loc (V d (cV2 L) (jV2 L)) ↦{Transfers.shareTok qx 11 (6 : Fin 11)} fx0)
        ∗ ((Memref.whole main_arg0_scv : Memref sig .scVector .hbm S100000x128 .f32).view.loc (V d (cV2 L) (jV2 L)) ↦{Transfers.shareTok qx 11 (7 : Fin 11)} fx0)
        ∗ ((Memref.whole main_arg0_scv : Memref sig .scVector .hbm S100000x128 .f32).view.loc (V d (cV2 L) (jV2 L)) ↦{Transfers.shareTok qx 11 (8 : Fin 11)} fx0)
        ∗ ((Memref.whole main_arg0_scv : Memref sig .scVector .hbm S100000x128 .f32).view.loc (V d (cV2 L) (jV2 L)) ↦{Transfers.shareTok qx 11 (9 : Fin 11)} fx0)
        ∗ ((Memref.whole main_arg0_scv : Memref sig .scVector .hbm S100000x128 .f32).view.loc (V d (cV2 L) (jV2 L)) ↦{Transfers.shareTok qx 11 (10 : Fin 11)} fx0)
        ∗ ((Memref.whole main_arg1_scv : Memref sig .scVector .hbm S100000x128 .f32).view.loc (V d (cV2 L) (jV2 L)) ↦{Transfers.shareTok qx 11 (4 : Fin 11)} fx1)
        ∗ ((Memref.whole main_arg1_scv : Memref sig .scVector .hbm S100000x128 .f32).view.loc (V d (cV2 L) (jV2 L)) ↦{Transfers.shareTok qx 11 (5 : Fin 11)} fx1)
        ∗ ((Memref.whole main_arg1_scv : Memref sig .scVector .hbm S100000x128 .f32).view.loc (V d (cV2 L) (jV2 L)) ↦{Transfers.shareTok qx 11 (6 : Fin 11)} fx1)
        ∗ ((Memref.whole main_arg1_scv : Memref sig .scVector .hbm S100000x128 .f32).view.loc (V d (cV2 L) (jV2 L)) ↦{Transfers.shareTok qx 11 (7 : Fin 11)} fx1)
        ∗ ((Memref.whole main_arg1_scv : Memref sig .scVector .hbm S100000x128 .f32).view.loc (V d (cV2 L) (jV2 L)) ↦{Transfers.shareTok qx 11 (8 : Fin 11)} fx1)
        ∗ ((Memref.whole main_arg1_scv : Memref sig .scVector .hbm S100000x128 .f32).view.loc (V d (cV2 L) (jV2 L)) ↦{Transfers.shareTok qx 11 (9 : Fin 11)} fx1)
        ∗ ((Memref.whole main_arg1_scv : Memref sig .scVector .hbm S100000x128 .f32).view.loc (V d (cV2 L) (jV2 L)) ↦{Transfers.shareTok qx 11 (10 : Fin 11)} fx1)
        ∗ ((Memref.whole main_arg2_scv : Memref sig .scVector .hbm S100000x128 .f32).view.loc (V d (cV2 L) (jV2 L)) ↦{Transfers.shareTok qx 11 (4 : Fin 11)} fx2)
        ∗ ((Memref.whole main_arg2_scv : Memref sig .scVector .hbm S100000x128 .f32).view.loc (V d (cV2 L) (jV2 L)) ↦{Transfers.shareTok qx 11 (5 : Fin 11)} fx2)
        ∗ ((Memref.whole main_arg2_scv : Memref sig .scVector .hbm S100000x128 .f32).view.loc (V d (cV2 L) (jV2 L)) ↦{Transfers.shareTok qx 11 (6 : Fin 11)} fx2)
        ∗ ((Memref.whole main_arg2_scv : Memref sig .scVector .hbm S100000x128 .f32).view.loc (V d (cV2 L) (jV2 L)) ↦{Transfers.shareTok qx 11 (7 : Fin 11)} fx2)
        ∗ ((Memref.whole main_arg2_scv : Memref sig .scVector .hbm S100000x128 .f32).view.loc (V d (cV2 L) (jV2 L)) ↦{Transfers.shareTok qx 11 (8 : Fin 11)} fx2)
        ∗ ((Memref.whole main_arg2_scv : Memref sig .scVector .hbm S100000x128 .f32).view.loc (V d (cV2 L) (jV2 L)) ↦{Transfers.shareTok qx 11 (9 : Fin 11)} fx2)
        ∗ ((Memref.whole main_arg2_scv : Memref sig .scVector .hbm S100000x128 .f32).view.loc (V d (cV2 L) (jV2 L)) ↦{Transfers.shareTok qx 11 (10 : Fin 11)} fx2)
        ∗ ((Memref.whole main_arg3_scv : Memref sig .scVector .hbm S100000x128 .f32).view.loc (V d (cV2 L) (jV2 L)) ↦{Transfers.shareTok qx 11 (4 : Fin 11)} fx3)
        ∗ ((Memref.whole main_arg3_scv : Memref sig .scVector .hbm S100000x128 .f32).view.loc (V d (cV2 L) (jV2 L)) ↦{Transfers.shareTok qx 11 (5 : Fin 11)} fx3)
        ∗ ((Memref.whole main_arg3_scv : Memref sig .scVector .hbm S100000x128 .f32).view.loc (V d (cV2 L) (jV2 L)) ↦{Transfers.shareTok qx 11 (6 : Fin 11)} fx3)
        ∗ ((Memref.whole main_arg3_scv : Memref sig .scVector .hbm S100000x128 .f32).view.loc (V d (cV2 L) (jV2 L)) ↦{Transfers.shareTok qx 11 (7 : Fin 11)} fx3)
        ∗ ((Memref.whole main_arg3_scv : Memref sig .scVector .hbm S100000x128 .f32).view.loc (V d (cV2 L) (jV2 L)) ↦{Transfers.shareTok qx 11 (8 : Fin 11)} fx3)
        ∗ ((Memref.whole main_arg3_scv : Memref sig .scVector .hbm S100000x128 .f32).view.loc (V d (cV2 L) (jV2 L)) ↦{Transfers.shareTok qx 11 (9 : Fin 11)} fx3)
        ∗ ((Memref.whole main_arg3_scv : Memref sig .scVector .hbm S100000x128 .f32).view.loc (V d (cV2 L) (jV2 L)) ↦{Transfers.shareTok qx 11 (10 : Fin 11)} fx3)
        ∗ (∃ fo, ((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} fo)
        ∗ (∃ fo, ((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} fo)
        ∗ (∃ fo, ((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} fo)
        ∗ (∃ fo, ((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} fo)
        ∗ (∃ fo, ((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} fo)
        ∗ (∃ fo, ((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} fo)
        ∗ (∃ fo, ((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} fo)
        ∗ (∃ fo, ((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} fo)
        ∗ (∃ fo, ((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} fo)
        ∗ (∃ fo, ((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} fo)
        ∗ (∃ fo, ((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} fo)
        ∗ (∃ fo, ((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} fo)
        ∗ (∃ fo, ((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} fo)
        ∗ (∃ fo, ((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} fo)
        ∗ (∃ fo, ((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} fo)
        ∗ (∃ fo, ((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} fo)
        ∗ (∃ fo, ((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} fo)
        ∗ (∃ fo, ((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} fo)
        ∗ (∃ fo, ((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} fo)
        ∗ (∃ fo, ((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} fo)
        ∗ (∃ fo, ((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} fo)
        ∗ (∃ fo, ((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} fo)
        ∗ (∃ fo, ((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} fo)
        ∗ (∃ fo, ((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} fo)
        ∗ (∃ fo, ((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} fo)
        ∗ (∃ fo, ((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} fo)
        ∗ (∃ fo, ((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} fo)
        ∗ (∃ fo, ((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} fo)
        ∗ (∃ si, (Memref.whole cc2_scratch0 : Memref sig .scVector .vmem S7x112 .i32).view.loc (V d (cV2 L) (jV2 L)) ↦{fullShare} si)
        ∗ (∃ si, (Memref.whole cc2_scratch1 : Memref sig .scVector .vmem S7x112 .i32).view.loc (V d (cV2 L) (jV2 L)) ↦{fullShare} si)
        ∗ (∃ si, (Memref.whole cc2_scratch2 : Memref sig .scVector .vmem S7x112 .i32).view.loc (V d (cV2 L) (jV2 L)) ↦{fullShare} si)
        ∗ (∃ si, (Memref.whole cc2_scratch3 : Memref sig .scVector .vmem S7x112 .i32).view.loc (V d (cV2 L) (jV2 L)) ↦{fullShare} si)
        ∗ (∃ sb, (Memref.whole cc2_scratch4 : Memref sig .scVector .vmem S112x128 .f32).view.loc (V d (cV2 L) (jV2 L)) ↦{fullShare} sb)
        ∗ (∃ sb, (Memref.whole cc2_scratch5 : Memref sig .scVector .vmem S112x128 .f32).view.loc (V d (cV2 L) (jV2 L)) ↦{fullShare} sb)
        ∗ (∃ sb, (Memref.whole cc2_scratch6 : Memref sig .scVector .vmem S112x128 .f32).view.loc (V d (cV2 L) (jV2 L)) ↦{fullShare} sb)
        ∗ (∃ sb, (Memref.whole cc2_scratch7 : Memref sig .scVector .vmem S112x128 .f32).view.loc (V d (cV2 L) (jV2 L)) ↦{fullShare} sb)
        ∗ (∃ sb, (Memref.whole cc2_scratch8 : Memref sig .scVector .vmem S112x128 .f32).view.loc (V d (cV2 L) (jV2 L)) ↦{fullShare} sb)
        ∗ (∃ sb, (Memref.whole cc2_scratch9 : Memref sig .scVector .vmem S112x128 .f32).view.loc (V d (cV2 L) (jV2 L)) ↦{fullShare} sb)
        ∗ (∃ sb, (Memref.whole cc2_scratch10 : Memref sig .scVector .vmem S112x128 .f32).view.loc (V d (cV2 L) (jV2 L)) ↦{fullShare} sb)
        ∗ semVal ((V d (cV2 L) (jV2 L)), SemLoc.dma cc2_scratch11.sem) 0
        ∗ semVal ((V d (cV2 L) (jV2 L)), SemLoc.dma cc2_scratch12.sem) 0
        ∗ semVal ((V d (cV2 L) (jV2 L)), SemLoc.dma cc2_scratch13.sem) 0
        ∗ semVal ((V d (cV2 L) (jV2 L)), SemLoc.dma cc2_scratch14.sem) 0
        ∗ semVal ((V d (cV2 L) (jV2 L)), SemLoc.dma cc2_scratch15.sem) 0
        ∗ semVal ((V d (cV2 L) (jV2 L)), SemLoc.dma cc2_scratch16.sem) 0
        ∗ semVal ((V d (cV2 L) (jV2 L)), SemLoc.dma cc2_scratch17.sem) 0
        ∗ semVal ((V d (cV2 L) (jV2 L)), SemLoc.dma cc2_scratch18.sem) 0
        ∗ semVal ((V d (cV2 L) (jV2 L)), SemLoc.dma cc2_scratch19.sem) 0
        ∗ semVal ((V d (cV2 L) (jV2 L)), SemLoc.dma cc2_scratch20.sem) 0
        ∗ semVal ((V d (cV2 L) (jV2 L)), SemLoc.dma cc2_scratch21.sem) 0
        ∗ semVal ((V d (cV2 L) (jV2 L)), SemLoc.dma cc2_scratch22.sem) 0
        ∗ semVal ((V d (cV2 L) (jV2 L)), SemLoc.dma cc2_scratch23.sem) 0
        ∗ semVal ((V d (cV2 L) (jV2 L)), SemLoc.dma cc2_scratch24.sem) 0
        ∗ semVal ((V d (cV2 L) (jV2 L)), SemLoc.dma cc2_scratch25.sem) 0
        ∗ semVal ((V d (cV2 L) (jV2 L)), SemLoc.dma cc2_scratch26.sem) 0
        ∗ semVal ((V d (cV2 L) (jV2 L)), SemLoc.dma cc2_scratch27.sem) 0
        ∗ semVal ((V d (cV2 L) (jV2 L)), SemLoc.dma cc2_scratch28.sem) 0
        ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(
              ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
            ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
            ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
            ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
            ∗ ((Memref.whole main_arg0_scv : Memref sig .scVector .hbm S100000x128 .f32).view.loc (V d (cV2 L) (jV2 L)) ↦{Transfers.shareTok qx 11 (4 : Fin 11)} fx0)
            ∗ ((Memref.whole main_arg0_scv : Memref sig .scVector .hbm S100000x128 .f32).view.loc (V d (cV2 L) (jV2 L)) ↦{Transfers.shareTok qx 11 (5 : Fin 11)} fx0)
            ∗ ((Memref.whole main_arg0_scv : Memref sig .scVector .hbm S100000x128 .f32).view.loc (V d (cV2 L) (jV2 L)) ↦{Transfers.shareTok qx 11 (6 : Fin 11)} fx0)
            ∗ ((Memref.whole main_arg0_scv : Memref sig .scVector .hbm S100000x128 .f32).view.loc (V d (cV2 L) (jV2 L)) ↦{Transfers.shareTok qx 11 (7 : Fin 11)} fx0)
            ∗ ((Memref.whole main_arg0_scv : Memref sig .scVector .hbm S100000x128 .f32).view.loc (V d (cV2 L) (jV2 L)) ↦{Transfers.shareTok qx 11 (8 : Fin 11)} fx0)
            ∗ ((Memref.whole main_arg0_scv : Memref sig .scVector .hbm S100000x128 .f32).view.loc (V d (cV2 L) (jV2 L)) ↦{Transfers.shareTok qx 11 (9 : Fin 11)} fx0)
            ∗ ((Memref.whole main_arg0_scv : Memref sig .scVector .hbm S100000x128 .f32).view.loc (V d (cV2 L) (jV2 L)) ↦{Transfers.shareTok qx 11 (10 : Fin 11)} fx0)
            ∗ ((Memref.whole main_arg1_scv : Memref sig .scVector .hbm S100000x128 .f32).view.loc (V d (cV2 L) (jV2 L)) ↦{Transfers.shareTok qx 11 (4 : Fin 11)} fx1)
            ∗ ((Memref.whole main_arg1_scv : Memref sig .scVector .hbm S100000x128 .f32).view.loc (V d (cV2 L) (jV2 L)) ↦{Transfers.shareTok qx 11 (5 : Fin 11)} fx1)
            ∗ ((Memref.whole main_arg1_scv : Memref sig .scVector .hbm S100000x128 .f32).view.loc (V d (cV2 L) (jV2 L)) ↦{Transfers.shareTok qx 11 (6 : Fin 11)} fx1)
            ∗ ((Memref.whole main_arg1_scv : Memref sig .scVector .hbm S100000x128 .f32).view.loc (V d (cV2 L) (jV2 L)) ↦{Transfers.shareTok qx 11 (7 : Fin 11)} fx1)
            ∗ ((Memref.whole main_arg1_scv : Memref sig .scVector .hbm S100000x128 .f32).view.loc (V d (cV2 L) (jV2 L)) ↦{Transfers.shareTok qx 11 (8 : Fin 11)} fx1)
            ∗ ((Memref.whole main_arg1_scv : Memref sig .scVector .hbm S100000x128 .f32).view.loc (V d (cV2 L) (jV2 L)) ↦{Transfers.shareTok qx 11 (9 : Fin 11)} fx1)
            ∗ ((Memref.whole main_arg1_scv : Memref sig .scVector .hbm S100000x128 .f32).view.loc (V d (cV2 L) (jV2 L)) ↦{Transfers.shareTok qx 11 (10 : Fin 11)} fx1)
            ∗ ((Memref.whole main_arg2_scv : Memref sig .scVector .hbm S100000x128 .f32).view.loc (V d (cV2 L) (jV2 L)) ↦{Transfers.shareTok qx 11 (4 : Fin 11)} fx2)
            ∗ ((Memref.whole main_arg2_scv : Memref sig .scVector .hbm S100000x128 .f32).view.loc (V d (cV2 L) (jV2 L)) ↦{Transfers.shareTok qx 11 (5 : Fin 11)} fx2)
            ∗ ((Memref.whole main_arg2_scv : Memref sig .scVector .hbm S100000x128 .f32).view.loc (V d (cV2 L) (jV2 L)) ↦{Transfers.shareTok qx 11 (6 : Fin 11)} fx2)
            ∗ ((Memref.whole main_arg2_scv : Memref sig .scVector .hbm S100000x128 .f32).view.loc (V d (cV2 L) (jV2 L)) ↦{Transfers.shareTok qx 11 (7 : Fin 11)} fx2)
            ∗ ((Memref.whole main_arg2_scv : Memref sig .scVector .hbm S100000x128 .f32).view.loc (V d (cV2 L) (jV2 L)) ↦{Transfers.shareTok qx 11 (8 : Fin 11)} fx2)
            ∗ ((Memref.whole main_arg2_scv : Memref sig .scVector .hbm S100000x128 .f32).view.loc (V d (cV2 L) (jV2 L)) ↦{Transfers.shareTok qx 11 (9 : Fin 11)} fx2)
            ∗ ((Memref.whole main_arg2_scv : Memref sig .scVector .hbm S100000x128 .f32).view.loc (V d (cV2 L) (jV2 L)) ↦{Transfers.shareTok qx 11 (10 : Fin 11)} fx2)
            ∗ ((Memref.whole main_arg3_scv : Memref sig .scVector .hbm S100000x128 .f32).view.loc (V d (cV2 L) (jV2 L)) ↦{Transfers.shareTok qx 11 (4 : Fin 11)} fx3)
            ∗ ((Memref.whole main_arg3_scv : Memref sig .scVector .hbm S100000x128 .f32).view.loc (V d (cV2 L) (jV2 L)) ↦{Transfers.shareTok qx 11 (5 : Fin 11)} fx3)
            ∗ ((Memref.whole main_arg3_scv : Memref sig .scVector .hbm S100000x128 .f32).view.loc (V d (cV2 L) (jV2 L)) ↦{Transfers.shareTok qx 11 (6 : Fin 11)} fx3)
            ∗ ((Memref.whole main_arg3_scv : Memref sig .scVector .hbm S100000x128 .f32).view.loc (V d (cV2 L) (jV2 L)) ↦{Transfers.shareTok qx 11 (7 : Fin 11)} fx3)
            ∗ ((Memref.whole main_arg3_scv : Memref sig .scVector .hbm S100000x128 .f32).view.loc (V d (cV2 L) (jV2 L)) ↦{Transfers.shareTok qx 11 (8 : Fin 11)} fx3)
            ∗ ((Memref.whole main_arg3_scv : Memref sig .scVector .hbm S100000x128 .f32).view.loc (V d (cV2 L) (jV2 L)) ↦{Transfers.shareTok qx 11 (9 : Fin 11)} fx3)
            ∗ ((Memref.whole main_arg3_scv : Memref sig .scVector .hbm S100000x128 .f32).view.loc (V d (cV2 L) (jV2 L)) ↦{Transfers.shareTok qx 11 (10 : Fin 11)} fx3)
            ∗ (∃ fo, ((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} fo)
            ∗ (∃ fo, ((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} fo)
            ∗ (∃ fo, ((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} fo)
            ∗ (∃ fo, ((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} fo)
            ∗ (∃ fo, ((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} fo)
            ∗ (∃ fo, ((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} fo)
            ∗ (∃ fo, ((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} fo)
            ∗ (∃ fo, ((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} fo)
            ∗ (∃ fo, ((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} fo)
            ∗ (∃ fo, ((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} fo)
            ∗ (∃ fo, ((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} fo)
            ∗ (∃ fo, ((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} fo)
            ∗ (∃ fo, ((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} fo)
            ∗ (∃ fo, ((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} fo)
            ∗ (∃ fo, ((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} fo)
            ∗ (∃ fo, ((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} fo)
            ∗ (∃ fo, ((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} fo)
            ∗ (∃ fo, ((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} fo)
            ∗ (∃ fo, ((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} fo)
            ∗ (∃ fo, ((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} fo)
            ∗ (∃ fo, ((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} fo)
            ∗ (∃ fo, ((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} fo)
            ∗ (∃ fo, ((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} fo)
            ∗ (∃ fo, ((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} fo)
            ∗ (∃ fo, ((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} fo)
            ∗ (∃ fo, ((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} fo)
            ∗ (∃ fo, ((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} fo)
            ∗ (∃ fo, ((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} fo)
            ∗ (∃ si, (Memref.whole cc2_scratch0 : Memref sig .scVector .vmem S7x112 .i32).view.loc (V d (cV2 L) (jV2 L)) ↦{fullShare} si)
            ∗ (∃ si, (Memref.whole cc2_scratch1 : Memref sig .scVector .vmem S7x112 .i32).view.loc (V d (cV2 L) (jV2 L)) ↦{fullShare} si)
            ∗ (∃ si, (Memref.whole cc2_scratch2 : Memref sig .scVector .vmem S7x112 .i32).view.loc (V d (cV2 L) (jV2 L)) ↦{fullShare} si)
            ∗ (∃ si, (Memref.whole cc2_scratch3 : Memref sig .scVector .vmem S7x112 .i32).view.loc (V d (cV2 L) (jV2 L)) ↦{fullShare} si)
            ∗ (∃ sb, (Memref.whole cc2_scratch4 : Memref sig .scVector .vmem S112x128 .f32).view.loc (V d (cV2 L) (jV2 L)) ↦{fullShare} sb)
            ∗ (∃ sb, (Memref.whole cc2_scratch5 : Memref sig .scVector .vmem S112x128 .f32).view.loc (V d (cV2 L) (jV2 L)) ↦{fullShare} sb)
            ∗ (∃ sb, (Memref.whole cc2_scratch6 : Memref sig .scVector .vmem S112x128 .f32).view.loc (V d (cV2 L) (jV2 L)) ↦{fullShare} sb)
            ∗ (∃ sb, (Memref.whole cc2_scratch7 : Memref sig .scVector .vmem S112x128 .f32).view.loc (V d (cV2 L) (jV2 L)) ↦{fullShare} sb)
            ∗ (∃ sb, (Memref.whole cc2_scratch8 : Memref sig .scVector .vmem S112x128 .f32).view.loc (V d (cV2 L) (jV2 L)) ↦{fullShare} sb)
            ∗ (∃ sb, (Memref.whole cc2_scratch9 : Memref sig .scVector .vmem S112x128 .f32).view.loc (V d (cV2 L) (jV2 L)) ↦{fullShare} sb)
            ∗ (∃ sb, (Memref.whole cc2_scratch10 : Memref sig .scVector .vmem S112x128 .f32).view.loc (V d (cV2 L) (jV2 L)) ↦{fullShare} sb)
            ∗ semVal ((V d (cV2 L) (jV2 L)), SemLoc.dma cc2_scratch11.sem) 0
            ∗ semVal ((V d (cV2 L) (jV2 L)), SemLoc.dma cc2_scratch12.sem) 0
            ∗ semVal ((V d (cV2 L) (jV2 L)), SemLoc.dma cc2_scratch13.sem) 0
            ∗ semVal ((V d (cV2 L) (jV2 L)), SemLoc.dma cc2_scratch14.sem) 0
            ∗ semVal ((V d (cV2 L) (jV2 L)), SemLoc.dma cc2_scratch15.sem) 0
            ∗ semVal ((V d (cV2 L) (jV2 L)), SemLoc.dma cc2_scratch16.sem) 0
            ∗ semVal ((V d (cV2 L) (jV2 L)), SemLoc.dma cc2_scratch17.sem) 0
            ∗ semVal ((V d (cV2 L) (jV2 L)), SemLoc.dma cc2_scratch18.sem) 0
            ∗ semVal ((V d (cV2 L) (jV2 L)), SemLoc.dma cc2_scratch19.sem) 0
            ∗ semVal ((V d (cV2 L) (jV2 L)), SemLoc.dma cc2_scratch20.sem) 0
            ∗ semVal ((V d (cV2 L) (jV2 L)), SemLoc.dma cc2_scratch21.sem) 0
            ∗ semVal ((V d (cV2 L) (jV2 L)), SemLoc.dma cc2_scratch22.sem) 0
            ∗ semVal ((V d (cV2 L) (jV2 L)), SemLoc.dma cc2_scratch23.sem) 0
            ∗ semVal ((V d (cV2 L) (jV2 L)), SemLoc.dma cc2_scratch24.sem) 0
            ∗ semVal ((V d (cV2 L) (jV2 L)), SemLoc.dma cc2_scratch25.sem) 0
            ∗ semVal ((V d (cV2 L) (jV2 L)), SemLoc.dma cc2_scratch26.sem) 0
            ∗ semVal ((V d (cV2 L) (jV2 L)), SemLoc.dma cc2_scratch27.sem) 0
            ∗ semVal ((V d (cV2 L) (jV2 L)), SemLoc.dma cc2_scratch28.sem) 0
            ∗ (∃ W', ⌜∀ p ∈ W', p ∈ W ∨ p.2 = none⌝ ∗ owes (V d (cV2 L) (jV2 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc2_sc_kernel_eq_skeleton, cc2_sc_kernel_skel]
  -- the offset lists' words in range: each list is a row of an index scratch holding the words of the task's index row
  have hin0 := fun Wm off h si x => hin_row (F := F) d (cV2 L) (jV2 L) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0) hfi0 Wm off h si x
  have hin1 := fun Wm off h si x => hin_row (F := F) d (cV2 L) (jV2 L) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1) hfi1 Wm off h si x
  have hin2 := fun Wm off h si x => hin_row (F := F) d (cV2 L) (jV2 L) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2) hfi2 Wm off h si x
  have hin3 := fun Wm off h si x => hin_row (F := F) d (cV2 L) (jV2 L) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.Kernel.Sc

end
-- ==== Proof.KScObl2.lean ====
/-
  The launch theorem's obligation for the tasks of gather call 2.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.KScTile2
import proofs.«215994_g5102421148354_cont_8to1c4_853_29_alg».proof.Proof.KScPay
import proofs.«215994_g5102421148354_cont_8to1c4_853_29_alg».proof.Proof.KScScoped

noncomputable section

namespace Cert.Kernel.Sc

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

/-- The eighteen semaphores and the eleven scratch buffers the kernel of call 2 names. -/
abbrev semL2 : List (SemLoc sig) := [SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem, SemLoc.dma cc2_scratch19.sem, SemLoc.dma cc2_scratch20.sem, SemLoc.dma cc2_scratch21.sem, SemLoc.dma cc2_scratch22.sem, SemLoc.dma cc2_scratch23.sem, SemLoc.dma cc2_scratch24.sem, SemLoc.dma cc2_scratch25.sem, SemLoc.dma cc2_scratch26.sem, SemLoc.dma cc2_scratch27.sem, SemLoc.dma cc2_scratch28.sem]
abbrev bufL2 (c : Fin τ.nSC) (i : Fin τ.nSub) : List (DevRef τ sig) := ([cc2_scratch0, cc2_scratch1, cc2_scratch2, cc2_scratch3, cc2_scratch4, cc2_scratch5, cc2_scratch6, cc2_scratch7, cc2_scratch8, cc2_scratch9, cc2_scratch10] : List (Ref sig .scVector)).map (Proc.scVector c i).devRef

theorem semL2_nodup : (semL2).Nodup := by decide
theorem semL2_scoped : ∀ s ∈ semL2, s.isScoped Kind.scVector = true := by decide
theorem bufL2_nodup (c : Fin τ.nSC) (i : Fin τ.nSub) : (bufL2 c i).Nodup :=
  (show ([cc2_scratch0, cc2_scratch1, cc2_scratch2, cc2_scratch3, cc2_scratch4, cc2_scratch5, cc2_scratch6, cc2_scratch7, cc2_scratch8, cc2_scratch9, cc2_scratch10] : List (Ref sig .scVector)).Nodup by decide).map (Proc.devRef_injective _)
theorem bufL2_own (c : Fin τ.nSC) (i : Fin τ.nSub) : ∀ b ∈ bufL2 c i, b ∈ ownRefs (sig := sig) (Proc.scVector c i) := by
  intro b hb
  simp only [bufL2, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_2 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL2_chain (Φ : SemLoc sig → sProp 𝕄) : bigSepL semL2 Φ = iprop(Φ (SemLoc.dma cc2_scratch11.sem) ∗ Φ (SemLoc.dma cc2_scratch12.sem) ∗ Φ (SemLoc.dma cc2_scratch13.sem) ∗ Φ (SemLoc.dma cc2_scratch14.sem) ∗ Φ (SemLoc.dma cc2_scratch15.sem) ∗ Φ (SemLoc.dma cc2_scratch16.sem) ∗ Φ (SemLoc.dma cc2_scratch17.sem) ∗ Φ (SemLoc.dma cc2_scratch18.sem) ∗ Φ (SemLoc.dma cc2_scratch19.sem) ∗ Φ (SemLoc.dma cc2_scratch20.sem) ∗ Φ (SemLoc.dma cc2_scratch21.sem) ∗ Φ (SemLoc.dma cc2_scratch22.sem) ∗ Φ (SemLoc.dma cc2_scratch23.sem) ∗ Φ (SemLoc.dma cc2_scratch24.sem) ∗ Φ (SemLoc.dma cc2_scratch25.sem) ∗ Φ (SemLoc.dma cc2_scratch26.sem) ∗ Φ (SemLoc.dma cc2_scratch27.sem) ∗ Φ (SemLoc.dma cc2_scratch28.sem)) := rfl
theorem bufL2_chain (c : Fin τ.nSC) (i : Fin τ.nSub) (Φ : DevRef τ sig → sProp 𝕄) : bigSepL (bufL2 c i) Φ = iprop(Φ ((Proc.scVector c i).devRef cc2_scratch0) ∗ Φ ((Proc.scVector c i).devRef cc2_scratch1) ∗ Φ ((Proc.scVector c i).devRef cc2_scratch2) ∗ Φ ((Proc.scVector c i).devRef cc2_scratch3) ∗ Φ ((Proc.scVector c i).devRef cc2_scratch4) ∗ Φ ((Proc.scVector c i).devRef cc2_scratch5) ∗ Φ ((Proc.scVector c i).devRef cc2_scratch6) ∗ Φ ((Proc.scVector c i).devRef cc2_scratch7) ∗ Φ ((Proc.scVector c i).devRef cc2_scratch8) ∗ Φ ((Proc.scVector c i).devRef cc2_scratch9) ∗ Φ ((Proc.scVector c i).devRef cc2_scratch10)) := rfl

set_option maxHeartbeats 4000000 in
/-- The task from what the launch hands it: its payload and its subcore's whole scoped storage. -/
theorem tile_full2 (hF : (K (F := F)).Facts) (d : Dev nD) (L : grid2.Coords) (O : CellTallies nD τ sig (HIx 4)) (W : Waits sig (HIx 4))
    (hO : ∀ g, O g none = 0) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    :
    iprop(levAts (K (F := F)).L (K (F := F)).lev ∗ emp ∗ tileRes2 d L qx fi0 fi1 fi2 fi3 fx0 fx1 fx2 fx3
        ∗ scopedBufs (V d (cV2 L) (jV2 L)) ∗ scopedSems0 (V d (cV2 L) (jV2 L)) ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(tileRes2 d L qx fi0 fi1 fi2 fi3 fx0 fx1 fx2 fx3 ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') := by
  rw [(K (F := F)).scopedBufs_V hF d (cV2 L) (jV2 L), SparseCore.Cfg.scopedSems0_V (Val := Elt F) d (cV2 L) (jV2 L),
    ownSems0_take (V d (cV2 L) (jV2 L)) semL2 semL2_nodup semL2_scoped,
    ownBufs_take (V d (cV2 L) (jV2 L)) (bufL2 (cV2 L) (jV2 L)) (bufL2_nodup _ _) (bufL2_own _ _)]
  unfold tileRes2 ownedAny
  rw [semL2_chain, bufL2_chain]
  simp only [toks11_2]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV2 L) (jV2 L))) hO) $$ Hlv
  ihave Hwp := (tile_body2 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post2 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 2. -/
theorem defs₀_vector2 (c : Fin τ.nSC) (s : Fin τ.nSub) :
    defs₀ (F := F) (.scVector c s) 2 ()
      = SparseCore.onTile hcore2 hsub2 (fun c s => cc2_sc_kernel (coordsV2 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28) ⟨⟩ c s := rfl

/-- An index row of the task reads words of the call's index array, which are row numbers of the tables. -/
theorem row_lt2 (d : Dev nD) (L : grid2.Coords) (a : IVec S100000 32) (ha : ∀ r, (a r).toNat < 100000) (t : Fin 4) :
    ((t = 0 → ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 1 → ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 2 → ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 3 → ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000))
    := by
  refine ⟨?_, ?_, ?_, ?_⟩ <;> (intro _ j; rw [View.read_apply]; simp only [cast_eq]; exact Idx.slab_lt 2 a ha _)

set_option maxHeartbeats 4000000 in
/-- The launch theorem's obligation for the tasks of call 2, the index inputs holding row numbers. -/
theorem tileObl2 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  obtain ⟨h4, h5, h6, h7⟩ := hpre d
  exact (tile_full2 (F := F) facts d (coordsV2 ⟨_, hc.1⟩ ⟨_, hc.2⟩) O W hO (qTile (Fin.cast (nCore_eq 2) c) (Fin.cast (nSub_eq 2) i))
    (Idx.slab 2 (m ((SparseCore.T d).loc main_arg4))) ((row_lt2 d _ _ h4 0).1 rfl)
    (Idx.slab 2 (m ((SparseCore.T d).loc main_arg5))) ((row_lt2 d _ _ h5 1).2.1 rfl)
    (Idx.slab 2 (m ((SparseCore.T d).loc main_arg6))) ((row_lt2 d _ _ h6 2).2.2.1 rfl)
    (Idx.slab 2 (m ((SparseCore.T d).loc main_arg7))) ((row_lt2 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post2)

end Cert.Kernel.Sc

end
-- ==== Proof.KScTile3.lean ====
/-
  One vector subcore's task in gather call 3: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.KScGrid

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_body3 (d : Dev nD) (L : grid3.Coords) (O : CellTallies nD τ sig (HIx 4)) (W : Waits sig (HIx 4)) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    :
    iprop(Transfers.MayWaits (V d (cV3 L) (jV3 L)) (none : HIx 4) O
        ∗ ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
        ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
        ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
        ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
        ∗ ((Memref.whole main_arg0_scv : Memref sig .scVector .hbm S100000x128 .f32).view.loc (V d (cV3 L) (jV3 L)) ↦{Transfers.shareTok qx 11 (4 : Fin 11)} fx0)
        ∗ ((Memref.whole main_arg0_scv : Memref sig .scVector .hbm S100000x128 .f32).view.loc (V d (cV3 L) (jV3 L)) ↦{Transfers.shareTok qx 11 (5 : Fin 11)} fx0)
        ∗ ((Memref.whole main_arg0_scv : Memref sig .scVector .hbm S100000x128 .f32).view.loc (V d (cV3 L) (jV3 L)) ↦{Transfers.shareTok qx 11 (6 : Fin 11)} fx0)
        ∗ ((Memref.whole main_arg0_scv : Memref sig .scVector .hbm S100000x128 .f32).view.loc (V d (cV3 L) (jV3 L)) ↦{Transfers.shareTok qx 11 (7 : Fin 11)} fx0)
        ∗ ((Memref.whole main_arg0_scv : Memref sig .scVector .hbm S100000x128 .f32).view.loc (V d (cV3 L) (jV3 L)) ↦{Transfers.shareTok qx 11 (8 : Fin 11)} fx0)
        ∗ ((Memref.whole main_arg0_scv : Memref sig .scVector .hbm S100000x128 .f32).view.loc (V d (cV3 L) (jV3 L)) ↦{Transfers.shareTok qx 11 (9 : Fin 11)} fx0)
        ∗ ((Memref.whole main_arg0_scv : Memref sig .scVector .hbm S100000x128 .f32).view.loc (V d (cV3 L) (jV3 L)) ↦{Transfers.shareTok qx 11 (10 : Fin 11)} fx0)
        ∗ ((Memref.whole main_arg1_scv : Memref sig .scVector .hbm S100000x128 .f32).view.loc (V d (cV3 L) (jV3 L)) ↦{Transfers.shareTok qx 11 (4 : Fin 11)} fx1)
        ∗ ((Memref.whole main_arg1_scv : Memref sig .scVector .hbm S100000x128 .f32).view.loc (V d (cV3 L) (jV3 L)) ↦{Transfers.shareTok qx 11 (5 : Fin 11)} fx1)
        ∗ ((Memref.whole main_arg1_scv : Memref sig .scVector .hbm S100000x128 .f32).view.loc (V d (cV3 L) (jV3 L)) ↦{Transfers.shareTok qx 11 (6 : Fin 11)} fx1)
        ∗ ((Memref.whole main_arg1_scv : Memref sig .scVector .hbm S100000x128 .f32).view.loc (V d (cV3 L) (jV3 L)) ↦{Transfers.shareTok qx 11 (7 : Fin 11)} fx1)
        ∗ ((Memref.whole main_arg1_scv : Memref sig .scVector .hbm S100000x128 .f32).view.loc (V d (cV3 L) (jV3 L)) ↦{Transfers.shareTok qx 11 (8 : Fin 11)} fx1)
        ∗ ((Memref.whole main_arg1_scv : Memref sig .scVector .hbm S100000x128 .f32).view.loc (V d (cV3 L) (jV3 L)) ↦{Transfers.shareTok qx 11 (9 : Fin 11)} fx1)
        ∗ ((Memref.whole main_arg1_scv : Memref sig .scVector .hbm S100000x128 .f32).view.loc (V d (cV3 L) (jV3 L)) ↦{Transfers.shareTok qx 11 (10 : Fin 11)} fx1)
        ∗ ((Memref.whole main_arg2_scv : Memref sig .scVector .hbm S100000x128 .f32).view.loc (V d (cV3 L) (jV3 L)) ↦{Transfers.shareTok qx 11 (4 : Fin 11)} fx2)
        ∗ ((Memref.whole main_arg2_scv : Memref sig .scVector .hbm S100000x128 .f32).view.loc (V d (cV3 L) (jV3 L)) ↦{Transfers.shareTok qx 11 (5 : Fin 11)} fx2)
        ∗ ((Memref.whole main_arg2_scv : Memref sig .scVector .hbm S100000x128 .f32).view.loc (V d (cV3 L) (jV3 L)) ↦{Transfers.shareTok qx 11 (6 : Fin 11)} fx2)
        ∗ ((Memref.whole main_arg2_scv : Memref sig .scVector .hbm S100000x128 .f32).view.loc (V d (cV3 L) (jV3 L)) ↦{Transfers.shareTok qx 11 (7 : Fin 11)} fx2)
        ∗ ((Memref.whole main_arg2_scv : Memref sig .scVector .hbm S100000x128 .f32).view.loc (V d (cV3 L) (jV3 L)) ↦{Transfers.shareTok qx 11 (8 : Fin 11)} fx2)
        ∗ ((Memref.whole main_arg2_scv : Memref sig .scVector .hbm S100000x128 .f32).view.loc (V d (cV3 L) (jV3 L)) ↦{Transfers.shareTok qx 11 (9 : Fin 11)} fx2)
        ∗ ((Memref.whole main_arg2_scv : Memref sig .scVector .hbm S100000x128 .f32).view.loc (V d (cV3 L) (jV3 L)) ↦{Transfers.shareTok qx 11 (10 : Fin 11)} fx2)
        ∗ ((Memref.whole main_arg3_scv : Memref sig .scVector .hbm S100000x128 .f32).view.loc (V d (cV3 L) (jV3 L)) ↦{Transfers.shareTok qx 11 (4 : Fin 11)} fx3)
        ∗ ((Memref.whole main_arg3_scv : Memref sig .scVector .hbm S100000x128 .f32).view.loc (V d (cV3 L) (jV3 L)) ↦{Transfers.shareTok qx 11 (5 : Fin 11)} fx3)
        ∗ ((Memref.whole main_arg3_scv : Memref sig .scVector .hbm S100000x128 .f32).view.loc (V d (cV3 L) (jV3 L)) ↦{Transfers.shareTok qx 11 (6 : Fin 11)} fx3)
        ∗ ((Memref.whole main_arg3_scv : Memref sig .scVector .hbm S100000x128 .f32).view.loc (V d (cV3 L) (jV3 L)) ↦{Transfers.shareTok qx 11 (7 : Fin 11)} fx3)
        ∗ ((Memref.whole main_arg3_scv : Memref sig .scVector .hbm S100000x128 .f32).view.loc (V d (cV3 L) (jV3 L)) ↦{Transfers.shareTok qx 11 (8 : Fin 11)} fx3)
        ∗ ((Memref.whole main_arg3_scv : Memref sig .scVector .hbm S100000x128 .f32).view.loc (V d (cV3 L) (jV3 L)) ↦{Transfers.shareTok qx 11 (9 : Fin 11)} fx3)
        ∗ ((Memref.whole main_arg3_scv : Memref sig .scVector .hbm S100000x128 .f32).view.loc (V d (cV3 L) (jV3 L)) ↦{Transfers.shareTok qx 11 (10 : Fin 11)} fx3)
        ∗ (∃ fo, ((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} fo)
        ∗ (∃ fo, ((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} fo)
        ∗ (∃ fo, ((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} fo)
        ∗ (∃ fo, ((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} fo)
        ∗ (∃ fo, ((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} fo)
        ∗ (∃ fo, ((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} fo)
        ∗ (∃ fo, ((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} fo)
        ∗ (∃ fo, ((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} fo)
        ∗ (∃ fo, ((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} fo)
        ∗ (∃ fo, ((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} fo)
        ∗ (∃ fo, ((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} fo)
        ∗ (∃ fo, ((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} fo)
        ∗ (∃ fo, ((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} fo)
        ∗ (∃ fo, ((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} fo)
        ∗ (∃ fo, ((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} fo)
        ∗ (∃ fo, ((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} fo)
        ∗ (∃ fo, ((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} fo)
        ∗ (∃ fo, ((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} fo)
        ∗ (∃ fo, ((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} fo)
        ∗ (∃ fo, ((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} fo)
        ∗ (∃ fo, ((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} fo)
        ∗ (∃ fo, ((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} fo)
        ∗ (∃ fo, ((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} fo)
        ∗ (∃ fo, ((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} fo)
        ∗ (∃ fo, ((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} fo)
        ∗ (∃ fo, ((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} fo)
        ∗ (∃ fo, ((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} fo)
        ∗ (∃ fo, ((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} fo)
        ∗ (∃ si, (Memref.whole cc3_scratch0 : Memref sig .scVector .vmem S7x112 .i32).view.loc (V d (cV3 L) (jV3 L)) ↦{fullShare} si)
        ∗ (∃ si, (Memref.whole cc3_scratch1 : Memref sig .scVector .vmem S7x112 .i32).view.loc (V d (cV3 L) (jV3 L)) ↦{fullShare} si)
        ∗ (∃ si, (Memref.whole cc3_scratch2 : Memref sig .scVector .vmem S7x112 .i32).view.loc (V d (cV3 L) (jV3 L)) ↦{fullShare} si)
        ∗ (∃ si, (Memref.whole cc3_scratch3 : Memref sig .scVector .vmem S7x112 .i32).view.loc (V d (cV3 L) (jV3 L)) ↦{fullShare} si)
        ∗ (∃ sb, (Memref.whole cc3_scratch4 : Memref sig .scVector .vmem S112x128 .f32).view.loc (V d (cV3 L) (jV3 L)) ↦{fullShare} sb)
        ∗ (∃ sb, (Memref.whole cc3_scratch5 : Memref sig .scVector .vmem S112x128 .f32).view.loc (V d (cV3 L) (jV3 L)) ↦{fullShare} sb)
        ∗ (∃ sb, (Memref.whole cc3_scratch6 : Memref sig .scVector .vmem S112x128 .f32).view.loc (V d (cV3 L) (jV3 L)) ↦{fullShare} sb)
        ∗ (∃ sb, (Memref.whole cc3_scratch7 : Memref sig .scVector .vmem S112x128 .f32).view.loc (V d (cV3 L) (jV3 L)) ↦{fullShare} sb)
        ∗ (∃ sb, (Memref.whole cc3_scratch8 : Memref sig .scVector .vmem S112x128 .f32).view.loc (V d (cV3 L) (jV3 L)) ↦{fullShare} sb)
        ∗ (∃ sb, (Memref.whole cc3_scratch9 : Memref sig .scVector .vmem S112x128 .f32).view.loc (V d (cV3 L) (jV3 L)) ↦{fullShare} sb)
        ∗ (∃ sb, (Memref.whole cc3_scratch10 : Memref sig .scVector .vmem S112x128 .f32).view.loc (V d (cV3 L) (jV3 L)) ↦{fullShare} sb)
        ∗ semVal ((V d (cV3 L) (jV3 L)), SemLoc.dma cc3_scratch11.sem) 0
        ∗ semVal ((V d (cV3 L) (jV3 L)), SemLoc.dma cc3_scratch12.sem) 0
        ∗ semVal ((V d (cV3 L) (jV3 L)), SemLoc.dma cc3_scratch13.sem) 0
        ∗ semVal ((V d (cV3 L) (jV3 L)), SemLoc.dma cc3_scratch14.sem) 0
        ∗ semVal ((V d (cV3 L) (jV3 L)), SemLoc.dma cc3_scratch15.sem) 0
        ∗ semVal ((V d (cV3 L) (jV3 L)), SemLoc.dma cc3_scratch16.sem) 0
        ∗ semVal ((V d (cV3 L) (jV3 L)), SemLoc.dma cc3_scratch17.sem) 0
        ∗ semVal ((V d (cV3 L) (jV3 L)), SemLoc.dma cc3_scratch18.sem) 0
        ∗ semVal ((V d (cV3 L) (jV3 L)), SemLoc.dma cc3_scratch19.sem) 0
        ∗ semVal ((V d (cV3 L) (jV3 L)), SemLoc.dma cc3_scratch20.sem) 0
        ∗ semVal ((V d (cV3 L) (jV3 L)), SemLoc.dma cc3_scratch21.sem) 0
        ∗ semVal ((V d (cV3 L) (jV3 L)), SemLoc.dma cc3_scratch22.sem) 0
        ∗ semVal ((V d (cV3 L) (jV3 L)), SemLoc.dma cc3_scratch23.sem) 0
        ∗ semVal ((V d (cV3 L) (jV3 L)), SemLoc.dma cc3_scratch24.sem) 0
        ∗ semVal ((V d (cV3 L) (jV3 L)), SemLoc.dma cc3_scratch25.sem) 0
        ∗ semVal ((V d (cV3 L) (jV3 L)), SemLoc.dma cc3_scratch26.sem) 0
        ∗ semVal ((V d (cV3 L) (jV3 L)), SemLoc.dma cc3_scratch27.sem) 0
        ∗ semVal ((V d (cV3 L) (jV3 L)), SemLoc.dma cc3_scratch28.sem) 0
        ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(
              ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
            ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
            ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
            ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
            ∗ ((Memref.whole main_arg0_scv : Memref sig .scVector .hbm S100000x128 .f32).view.loc (V d (cV3 L) (jV3 L)) ↦{Transfers.shareTok qx 11 (4 : Fin 11)} fx0)
            ∗ ((Memref.whole main_arg0_scv : Memref sig .scVector .hbm S100000x128 .f32).view.loc (V d (cV3 L) (jV3 L)) ↦{Transfers.shareTok qx 11 (5 : Fin 11)} fx0)
            ∗ ((Memref.whole main_arg0_scv : Memref sig .scVector .hbm S100000x128 .f32).view.loc (V d (cV3 L) (jV3 L)) ↦{Transfers.shareTok qx 11 (6 : Fin 11)} fx0)
            ∗ ((Memref.whole main_arg0_scv : Memref sig .scVector .hbm S100000x128 .f32).view.loc (V d (cV3 L) (jV3 L)) ↦{Transfers.shareTok qx 11 (7 : Fin 11)} fx0)
            ∗ ((Memref.whole main_arg0_scv : Memref sig .scVector .hbm S100000x128 .f32).view.loc (V d (cV3 L) (jV3 L)) ↦{Transfers.shareTok qx 11 (8 : Fin 11)} fx0)
            ∗ ((Memref.whole main_arg0_scv : Memref sig .scVector .hbm S100000x128 .f32).view.loc (V d (cV3 L) (jV3 L)) ↦{Transfers.shareTok qx 11 (9 : Fin 11)} fx0)
            ∗ ((Memref.whole main_arg0_scv : Memref sig .scVector .hbm S100000x128 .f32).view.loc (V d (cV3 L) (jV3 L)) ↦{Transfers.shareTok qx 11 (10 : Fin 11)} fx0)
            ∗ ((Memref.whole main_arg1_scv : Memref sig .scVector .hbm S100000x128 .f32).view.loc (V d (cV3 L) (jV3 L)) ↦{Transfers.shareTok qx 11 (4 : Fin 11)} fx1)
            ∗ ((Memref.whole main_arg1_scv : Memref sig .scVector .hbm S100000x128 .f32).view.loc (V d (cV3 L) (jV3 L)) ↦{Transfers.shareTok qx 11 (5 : Fin 11)} fx1)
            ∗ ((Memref.whole main_arg1_scv : Memref sig .scVector .hbm S100000x128 .f32).view.loc (V d (cV3 L) (jV3 L)) ↦{Transfers.shareTok qx 11 (6 : Fin 11)} fx1)
            ∗ ((Memref.whole main_arg1_scv : Memref sig .scVector .hbm S100000x128 .f32).view.loc (V d (cV3 L) (jV3 L)) ↦{Transfers.shareTok qx 11 (7 : Fin 11)} fx1)
            ∗ ((Memref.whole main_arg1_scv : Memref sig .scVector .hbm S100000x128 .f32).view.loc (V d (cV3 L) (jV3 L)) ↦{Transfers.shareTok qx 11 (8 : Fin 11)} fx1)
            ∗ ((Memref.whole main_arg1_scv : Memref sig .scVector .hbm S100000x128 .f32).view.loc (V d (cV3 L) (jV3 L)) ↦{Transfers.shareTok qx 11 (9 : Fin 11)} fx1)
            ∗ ((Memref.whole main_arg1_scv : Memref sig .scVector .hbm S100000x128 .f32).view.loc (V d (cV3 L) (jV3 L)) ↦{Transfers.shareTok qx 11 (10 : Fin 11)} fx1)
            ∗ ((Memref.whole main_arg2_scv : Memref sig .scVector .hbm S100000x128 .f32).view.loc (V d (cV3 L) (jV3 L)) ↦{Transfers.shareTok qx 11 (4 : Fin 11)} fx2)
            ∗ ((Memref.whole main_arg2_scv : Memref sig .scVector .hbm S100000x128 .f32).view.loc (V d (cV3 L) (jV3 L)) ↦{Transfers.shareTok qx 11 (5 : Fin 11)} fx2)
            ∗ ((Memref.whole main_arg2_scv : Memref sig .scVector .hbm S100000x128 .f32).view.loc (V d (cV3 L) (jV3 L)) ↦{Transfers.shareTok qx 11 (6 : Fin 11)} fx2)
            ∗ ((Memref.whole main_arg2_scv : Memref sig .scVector .hbm S100000x128 .f32).view.loc (V d (cV3 L) (jV3 L)) ↦{Transfers.shareTok qx 11 (7 : Fin 11)} fx2)
            ∗ ((Memref.whole main_arg2_scv : Memref sig .scVector .hbm S100000x128 .f32).view.loc (V d (cV3 L) (jV3 L)) ↦{Transfers.shareTok qx 11 (8 : Fin 11)} fx2)
            ∗ ((Memref.whole main_arg2_scv : Memref sig .scVector .hbm S100000x128 .f32).view.loc (V d (cV3 L) (jV3 L)) ↦{Transfers.shareTok qx 11 (9 : Fin 11)} fx2)
            ∗ ((Memref.whole main_arg2_scv : Memref sig .scVector .hbm S100000x128 .f32).view.loc (V d (cV3 L) (jV3 L)) ↦{Transfers.shareTok qx 11 (10 : Fin 11)} fx2)
            ∗ ((Memref.whole main_arg3_scv : Memref sig .scVector .hbm S100000x128 .f32).view.loc (V d (cV3 L) (jV3 L)) ↦{Transfers.shareTok qx 11 (4 : Fin 11)} fx3)
            ∗ ((Memref.whole main_arg3_scv : Memref sig .scVector .hbm S100000x128 .f32).view.loc (V d (cV3 L) (jV3 L)) ↦{Transfers.shareTok qx 11 (5 : Fin 11)} fx3)
            ∗ ((Memref.whole main_arg3_scv : Memref sig .scVector .hbm S100000x128 .f32).view.loc (V d (cV3 L) (jV3 L)) ↦{Transfers.shareTok qx 11 (6 : Fin 11)} fx3)
            ∗ ((Memref.whole main_arg3_scv : Memref sig .scVector .hbm S100000x128 .f32).view.loc (V d (cV3 L) (jV3 L)) ↦{Transfers.shareTok qx 11 (7 : Fin 11)} fx3)
            ∗ ((Memref.whole main_arg3_scv : Memref sig .scVector .hbm S100000x128 .f32).view.loc (V d (cV3 L) (jV3 L)) ↦{Transfers.shareTok qx 11 (8 : Fin 11)} fx3)
            ∗ ((Memref.whole main_arg3_scv : Memref sig .scVector .hbm S100000x128 .f32).view.loc (V d (cV3 L) (jV3 L)) ↦{Transfers.shareTok qx 11 (9 : Fin 11)} fx3)
            ∗ ((Memref.whole main_arg3_scv : Memref sig .scVector .hbm S100000x128 .f32).view.loc (V d (cV3 L) (jV3 L)) ↦{Transfers.shareTok qx 11 (10 : Fin 11)} fx3)
            ∗ (∃ fo, ((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} fo)
            ∗ (∃ fo, ((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} fo)
            ∗ (∃ fo, ((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} fo)
            ∗ (∃ fo, ((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} fo)
            ∗ (∃ fo, ((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} fo)
            ∗ (∃ fo, ((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} fo)
            ∗ (∃ fo, ((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} fo)
            ∗ (∃ fo, ((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} fo)
            ∗ (∃ fo, ((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} fo)
            ∗ (∃ fo, ((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} fo)
            ∗ (∃ fo, ((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} fo)
            ∗ (∃ fo, ((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} fo)
            ∗ (∃ fo, ((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} fo)
            ∗ (∃ fo, ((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} fo)
            ∗ (∃ fo, ((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} fo)
            ∗ (∃ fo, ((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} fo)
            ∗ (∃ fo, ((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} fo)
            ∗ (∃ fo, ((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} fo)
            ∗ (∃ fo, ((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} fo)
            ∗ (∃ fo, ((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} fo)
            ∗ (∃ fo, ((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} fo)
            ∗ (∃ fo, ((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} fo)
            ∗ (∃ fo, ((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} fo)
            ∗ (∃ fo, ((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} fo)
            ∗ (∃ fo, ((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} fo)
            ∗ (∃ fo, ((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} fo)
            ∗ (∃ fo, ((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} fo)
            ∗ (∃ fo, ((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} fo)
            ∗ (∃ si, (Memref.whole cc3_scratch0 : Memref sig .scVector .vmem S7x112 .i32).view.loc (V d (cV3 L) (jV3 L)) ↦{fullShare} si)
            ∗ (∃ si, (Memref.whole cc3_scratch1 : Memref sig .scVector .vmem S7x112 .i32).view.loc (V d (cV3 L) (jV3 L)) ↦{fullShare} si)
            ∗ (∃ si, (Memref.whole cc3_scratch2 : Memref sig .scVector .vmem S7x112 .i32).view.loc (V d (cV3 L) (jV3 L)) ↦{fullShare} si)
            ∗ (∃ si, (Memref.whole cc3_scratch3 : Memref sig .scVector .vmem S7x112 .i32).view.loc (V d (cV3 L) (jV3 L)) ↦{fullShare} si)
            ∗ (∃ sb, (Memref.whole cc3_scratch4 : Memref sig .scVector .vmem S112x128 .f32).view.loc (V d (cV3 L) (jV3 L)) ↦{fullShare} sb)
            ∗ (∃ sb, (Memref.whole cc3_scratch5 : Memref sig .scVector .vmem S112x128 .f32).view.loc (V d (cV3 L) (jV3 L)) ↦{fullShare} sb)
            ∗ (∃ sb, (Memref.whole cc3_scratch6 : Memref sig .scVector .vmem S112x128 .f32).view.loc (V d (cV3 L) (jV3 L)) ↦{fullShare} sb)
            ∗ (∃ sb, (Memref.whole cc3_scratch7 : Memref sig .scVector .vmem S112x128 .f32).view.loc (V d (cV3 L) (jV3 L)) ↦{fullShare} sb)
            ∗ (∃ sb, (Memref.whole cc3_scratch8 : Memref sig .scVector .vmem S112x128 .f32).view.loc (V d (cV3 L) (jV3 L)) ↦{fullShare} sb)
            ∗ (∃ sb, (Memref.whole cc3_scratch9 : Memref sig .scVector .vmem S112x128 .f32).view.loc (V d (cV3 L) (jV3 L)) ↦{fullShare} sb)
            ∗ (∃ sb, (Memref.whole cc3_scratch10 : Memref sig .scVector .vmem S112x128 .f32).view.loc (V d (cV3 L) (jV3 L)) ↦{fullShare} sb)
            ∗ semVal ((V d (cV3 L) (jV3 L)), SemLoc.dma cc3_scratch11.sem) 0
            ∗ semVal ((V d (cV3 L) (jV3 L)), SemLoc.dma cc3_scratch12.sem) 0
            ∗ semVal ((V d (cV3 L) (jV3 L)), SemLoc.dma cc3_scratch13.sem) 0
            ∗ semVal ((V d (cV3 L) (jV3 L)), SemLoc.dma cc3_scratch14.sem) 0
            ∗ semVal ((V d (cV3 L) (jV3 L)), SemLoc.dma cc3_scratch15.sem) 0
            ∗ semVal ((V d (cV3 L) (jV3 L)), SemLoc.dma cc3_scratch16.sem) 0
            ∗ semVal ((V d (cV3 L) (jV3 L)), SemLoc.dma cc3_scratch17.sem) 0
            ∗ semVal ((V d (cV3 L) (jV3 L)), SemLoc.dma cc3_scratch18.sem) 0
            ∗ semVal ((V d (cV3 L) (jV3 L)), SemLoc.dma cc3_scratch19.sem) 0
            ∗ semVal ((V d (cV3 L) (jV3 L)), SemLoc.dma cc3_scratch20.sem) 0
            ∗ semVal ((V d (cV3 L) (jV3 L)), SemLoc.dma cc3_scratch21.sem) 0
            ∗ semVal ((V d (cV3 L) (jV3 L)), SemLoc.dma cc3_scratch22.sem) 0
            ∗ semVal ((V d (cV3 L) (jV3 L)), SemLoc.dma cc3_scratch23.sem) 0
            ∗ semVal ((V d (cV3 L) (jV3 L)), SemLoc.dma cc3_scratch24.sem) 0
            ∗ semVal ((V d (cV3 L) (jV3 L)), SemLoc.dma cc3_scratch25.sem) 0
            ∗ semVal ((V d (cV3 L) (jV3 L)), SemLoc.dma cc3_scratch26.sem) 0
            ∗ semVal ((V d (cV3 L) (jV3 L)), SemLoc.dma cc3_scratch27.sem) 0
            ∗ semVal ((V d (cV3 L) (jV3 L)), SemLoc.dma cc3_scratch28.sem) 0
            ∗ (∃ W', ⌜∀ p ∈ W', p ∈ W ∨ p.2 = none⌝ ∗ owes (V d (cV3 L) (jV3 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc3_sc_kernel_eq_skeleton, cc3_sc_kernel_skel]
  -- the offset lists' words in range: each list is a row of an index scratch holding the words of the task's index row
  have hin0 := fun Wm off h si x => hin_row (F := F) d (cV3 L) (jV3 L) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0) hfi0 Wm off h si x
  have hin1 := fun Wm off h si x => hin_row (F := F) d (cV3 L) (jV3 L) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1) hfi1 Wm off h si x
  have hin2 := fun Wm off h si x => hin_row (F := F) d (cV3 L) (jV3 L) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2) hfi2 Wm off h si x
  have hin3 := fun Wm off h si x => hin_row (F := F) d (cV3 L) (jV3 L) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3) hfi3 Wm off h si x
  sl_exec_parts
  sl_step
  iframe
  isplitl [HO0_0]; · iexists _; iexact HO0_0
  isplitl [HO0_1]; · iexists _; iexact HO0_1
  isplitl [HO0_2]; · iexists _; iexact HO0_2
  isplitl [HO0_3]; · iexists _; iexact HO0_3
  isplitl [HO0_4]; · iexists _; iexact HO0_4
  isplitl [HO0_5]; · iexists _; iexact HO0_5
  isplitl [HO0_6]; · iexists _; iexact HO0_6
  isplitl [HO1_0]; · iexists _; iexact HO1_0
  isplitl [HO1_1]; · iexists _; iexact HO1_1
  isplitl [HO1_2]; · iexists _; iexact HO1_2
  isplitl [HO1_3]; · iexists _; iexact HO1_3
  isplitl [HO1_4]; · iexists _; iexact HO1_4
  isplitl [HO1_5]; · iexists _; iexact HO1_5
  isplitl [HO1_6]; · iexists _; iexact HO1_6
  isplitl [HO2_0]; · iexists _; iexact HO2_0
  isplitl [HO2_1]; · iexists _; iexact HO2_1
  isplitl [HO2_2]; · iexists _; iexact HO2_2
  isplitl [HO2_3]; · iexists _; iexact HO2_3
  isplitl [HO2_4]; · iexists _; iexact HO2_4
  isplitl [HO2_5]; · iexists _; iexact HO2_5
  isplitl [HO2_6]; · iexists _; iexact HO2_6
  isplitl [HO3_0]; · iexists _; iexact HO3_0
  isplitl [HO3_1]; · iexists _; iexact HO3_1
  isplitl [HO3_2]; · iexists _; iexact HO3_2
  isplitl [HO3_3]; · iexists _; iexact HO3_3
  isplitl [HO3_4]; · iexists _; iexact HO3_4
  isplitl [HO3_5]; · iexists _; iexact HO3_5
  isplitl [HO3_6]; · iexists _; iexact HO3_6
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.Kernel.Sc

end
-- ==== Proof.KScObl3.lean ====
/-
  The launch theorem's obligation for the tasks of gather call 3.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.KScTile3
import proofs.«215994_g5102421148354_cont_8to1c4_853_29_alg».proof.Proof.KScPay
import proofs.«215994_g5102421148354_cont_8to1c4_853_29_alg».proof.Proof.KScScoped

noncomputable section

namespace Cert.Kernel.Sc

open Cert.Kernel Cert.Kernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 4) (Elt F) ℕ UU ℕ

/-- The eighteen semaphores and the eleven scratch buffers the kernel of call 3 names. -/
abbrev semL3 : List (SemLoc sig) := [SemLoc.dma cc3_scratch11.sem, SemLoc.dma cc3_scratch12.sem, SemLoc.dma cc3_scratch13.sem, SemLoc.dma cc3_scratch14.sem, SemLoc.dma cc3_scratch15.sem, SemLoc.dma cc3_scratch16.sem, SemLoc.dma cc3_scratch17.sem, SemLoc.dma cc3_scratch18.sem, SemLoc.dma cc3_scratch19.sem, SemLoc.dma cc3_scratch20.sem, SemLoc.dma cc3_scratch21.sem, SemLoc.dma cc3_scratch22.sem, SemLoc.dma cc3_scratch23.sem, SemLoc.dma cc3_scratch24.sem, SemLoc.dma cc3_scratch25.sem, SemLoc.dma cc3_scratch26.sem, SemLoc.dma cc3_scratch27.sem, SemLoc.dma cc3_scratch28.sem]
abbrev bufL3 (c : Fin τ.nSC) (i : Fin τ.nSub) : List (DevRef τ sig) := ([cc3_scratch0, cc3_scratch1, cc3_scratch2, cc3_scratch3, cc3_scratch4, cc3_scratch5, cc3_scratch6, cc3_scratch7, cc3_scratch8, cc3_scratch9, cc3_scratch10] : List (Ref sig .scVector)).map (Proc.scVector c i).devRef

theorem semL3_nodup : (semL3).Nodup := by decide
theorem semL3_scoped : ∀ s ∈ semL3, s.isScoped Kind.scVector = true := by decide
theorem bufL3_nodup (c : Fin τ.nSC) (i : Fin τ.nSub) : (bufL3 c i).Nodup :=
  (show ([cc3_scratch0, cc3_scratch1, cc3_scratch2, cc3_scratch3, cc3_scratch4, cc3_scratch5, cc3_scratch6, cc3_scratch7, cc3_scratch8, cc3_scratch9, cc3_scratch10] : List (Ref sig .scVector)).Nodup by decide).map (Proc.devRef_injective _)
theorem bufL3_own (c : Fin τ.nSC) (i : Fin τ.nSub) : ∀ b ∈ bufL3 c i, b ∈ ownRefs (sig := sig) (Proc.scVector c i) := by
  intro b hb
  simp only [bufL3, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11_3 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semL3_chain (Φ : SemLoc sig → sProp 𝕄) : bigSepL semL3 Φ = iprop(Φ (SemLoc.dma cc3_scratch11.sem) ∗ Φ (SemLoc.dma cc3_scratch12.sem) ∗ Φ (SemLoc.dma cc3_scratch13.sem) ∗ Φ (SemLoc.dma cc3_scratch14.sem) ∗ Φ (SemLoc.dma cc3_scratch15.sem) ∗ Φ (SemLoc.dma cc3_scratch16.sem) ∗ Φ (SemLoc.dma cc3_scratch17.sem) ∗ Φ (SemLoc.dma cc3_scratch18.sem) ∗ Φ (SemLoc.dma cc3_scratch19.sem) ∗ Φ (SemLoc.dma cc3_scratch20.sem) ∗ Φ (SemLoc.dma cc3_scratch21.sem) ∗ Φ (SemLoc.dma cc3_scratch22.sem) ∗ Φ (SemLoc.dma cc3_scratch23.sem) ∗ Φ (SemLoc.dma cc3_scratch24.sem) ∗ Φ (SemLoc.dma cc3_scratch25.sem) ∗ Φ (SemLoc.dma cc3_scratch26.sem) ∗ Φ (SemLoc.dma cc3_scratch27.sem) ∗ Φ (SemLoc.dma cc3_scratch28.sem)) := rfl
theorem bufL3_chain (c : Fin τ.nSC) (i : Fin τ.nSub) (Φ : DevRef τ sig → sProp 𝕄) : bigSepL (bufL3 c i) Φ = iprop(Φ ((Proc.scVector c i).devRef cc3_scratch0) ∗ Φ ((Proc.scVector c i).devRef cc3_scratch1) ∗ Φ ((Proc.scVector c i).devRef cc3_scratch2) ∗ Φ ((Proc.scVector c i).devRef cc3_scratch3) ∗ Φ ((Proc.scVector c i).devRef cc3_scratch4) ∗ Φ ((Proc.scVector c i).devRef cc3_scratch5) ∗ Φ ((Proc.scVector c i).devRef cc3_scratch6) ∗ Φ ((Proc.scVector c i).devRef cc3_scratch7) ∗ Φ ((Proc.scVector c i).devRef cc3_scratch8) ∗ Φ ((Proc.scVector c i).devRef cc3_scratch9) ∗ Φ ((Proc.scVector c i).devRef cc3_scratch10)) := rfl

set_option maxHeartbeats 4000000 in
/-- The task from what the launch hands it: its payload and its subcore's whole scoped storage. -/
theorem tile_full3 (hF : (K (F := F)).Facts) (d : Dev nD) (L : grid3.Coords) (O : CellTallies nD τ sig (HIx 4)) (W : Waits sig (HIx 4))
    (hO : ∀ g, O g none = 0) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    :
    iprop(levAts (K (F := F)).L (K (F := F)).lev ∗ emp ∗ tileRes3 d L qx fi0 fi1 fi2 fi3 fx0 fx1 fx2 fx3
        ∗ scopedBufs (V d (cV3 L) (jV3 L)) ∗ scopedSems0 (V d (cV3 L) (jV3 L)) ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(tileRes3 d L qx fi0 fi1 fi2 fi3 fx0 fx1 fx2 fx3 ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  rw [(K (F := F)).scopedBufs_V hF d (cV3 L) (jV3 L), SparseCore.Cfg.scopedSems0_V (Val := Elt F) d (cV3 L) (jV3 L),
    ownSems0_take (V d (cV3 L) (jV3 L)) semL3 semL3_nodup semL3_scoped,
    ownBufs_take (V d (cV3 L) (jV3 L)) (bufL3 (cV3 L) (jV3 L)) (bufL3_nodup _ _) (bufL3_own _ _)]
  unfold tileRes3 ownedAny
  rw [semL3_chain, bufL3_chain]
  simp only [toks11_3]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV3 L) (jV3 L))) hO) $$ Hlv
  ihave Hwp := (tile_body3 (F := F) d L O W qx fi0 hfi0 fi1 hfi1 fi2 hfi2 fi3 hfi3 fx0 fx1 fx2 fx3) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_post3 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 3. -/
theorem defs₀_vector3 (c : Fin τ.nSC) (s : Fin τ.nSub) :
    defs₀ (F := F) (.scVector c s) 3 ()
      = SparseCore.onTile hcore3 hsub3 (fun c s => cc3_sc_kernel (coordsV3 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28) ⟨⟩ c s := rfl

/-- An index row of the task reads words of the call's index array, which are row numbers of the tables. -/
theorem row_lt3 (d : Dev nD) (L : grid3.Coords) (a : IVec S100000 32) (ha : ∀ r, (a r).toNat < 100000) (t : Fin 4) :
    ((t = 0 → ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 1 → ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 2 → ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 3 → ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000))
    := by
  refine ⟨?_, ?_, ?_, ?_⟩ <;> (intro _ j; rw [View.read_apply]; simp only [cast_eq]; exact Idx.slab_lt 3 a ha _)

set_option maxHeartbeats 4000000 in
/-- The launch theorem's obligation for the tasks of call 3, the index inputs holding row numbers. -/
theorem tileObl3 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  obtain ⟨h4, h5, h6, h7⟩ := hpre d
  exact (tile_full3 (F := F) facts d (coordsV3 ⟨_, hc.1⟩ ⟨_, hc.2⟩) O W hO (qTile (Fin.cast (nCore_eq 3) c) (Fin.cast (nSub_eq 3) i))
    (Idx.slab 3 (m ((SparseCore.T d).loc main_arg4))) ((row_lt3 d _ _ h4 0).1 rfl)
    (Idx.slab 3 (m ((SparseCore.T d).loc main_arg5))) ((row_lt3 d _ _ h5 1).2.1 rfl)
    (Idx.slab 3 (m ((SparseCore.T d).loc main_arg6))) ((row_lt3 d _ _ h6 2).2.2.1 rfl)
    (Idx.slab 3 (m ((SparseCore.T d).loc main_arg7))) ((row_lt3 d _ _ h7 3).2.2.2 rfl)
    (m ((SparseCore.T d).loc main_arg0)) (m ((SparseCore.T d).loc main_arg1)) (m ((SparseCore.T d).loc main_arg2)) (m ((SparseCore.T d).loc main_arg3))).trans
    (wp_mono frame _ _ fun _ => obl_post3)

end Cert.Kernel.Sc

end
-- ==== Proof.KScFrame.lean ====
/-
  The idealized kernel's frame: under the precondition every weakly fair execution of the TensorCore's @main, the two
  sequencers and the thirty-two vector subcores terminates, nothing faulting, the twelve argument arrays unchanged.  The
  precondition's range on the four index inputs is what every gather's offsets need; nothing else of it is used here.
-/
import proofs.«215994_g5102421148354_cont_8to1c4_853_29_alg».proof.Proof.KScMain
import proofs.«215994_g5102421148354_cont_8to1c4_853_29_alg».proof.Proof.KScObl0
import proofs.«215994_g5102421148354_cont_8to1c4_853_29_alg».proof.Proof.KScObl1
import proofs.«215994_g5102421148354_cont_8to1c4_853_29_alg».proof.Proof.KScObl2
import proofs.«215994_g5102421148354_cont_8to1c4_853_29_alg».proof.Proof.KScObl3
import proofs.«215994_g5102421148354_cont_8to1c4_853_29_alg».proof.Proof.PreDecode

noncomputable section

namespace Cert.Kernel.Sc

open Cert.Kernel Cert.Kernel.Gen
open Idealize.ShloMosaic
open Idealize.ShloMosaic.SparseCore (S V T)
open Idealize.SL.Sem

variable {F : FTy → Type} [FloatOps F] [Cert.Kernel.Facts] [Cert.Pre_input_domain.Facts]

/-- The four index inputs hold row numbers of the tables, on every device: read off the precondition. -/
theorem idx_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) = fun _ => 1#1) (d : Dev nD) :
    (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000) := by
  obtain ⟨-, -, -, -, h4, h5, h6, h7, -⟩ := Cert.Pre_input_domain.Decode.conjuncts _ _ _ _ _ _ _ _ _ _ _ _ (h d)
  exact ⟨fun r => Cert.Pre_input_domain.Decode.toNat_lt_of_rng (h4 r), fun r => Cert.Pre_input_domain.Decode.toNat_lt_of_rng (h5 r),
    fun r => Cert.Pre_input_domain.Decode.toNat_lt_of_rng (h6 r), fun r => Cert.Pre_input_domain.Decode.toNat_lt_of_rng (h7 r)⟩

/-- The run of the whole program at any float instance, the index inputs holding row numbers. -/
theorem run [∀ e, Nonempty (Elt F e)] (m : (ℓ : Loc nD τ sig) → Buf (Elt F) ℓ) (ρ : Dev nD → PrngReg)
    (hpre : ∀ d : Dev nD, (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    θ_run (Cert.Kernel.defs (F := F)) (Cert.Kernel.threads (F := F)) ⟨m, fun _ => 0, ρ⟩ (QC m) :=
  run_main m ρ (fun q => match q with
    | 0 => tileObl0 m hpre | 1 => tileObl1 m hpre | 2 => tileObl2 m hpre | 3 => tileObl3 m hpre) (hmain m ρ)

end Cert.Kernel.Sc

namespace Cert.Proof

open Cert.Kernel Cert.Kernel.Sc Idealize.ShloMosaic Idealize.SL.Sem

/-- `frame_Kernel` (Defs.lean). -/
theorem frame_Kernel [hKernel : Cert.Kernel.Facts] [hPre_input_domain : Cert.Pre_input_domain.Facts] : Cert.frame_Kernel := fun m ρ hpre =>
  (θ_run Cert.Kernel.defs _ _).mono (fun _ h c =>
    ⟨h c main_arg0 (by decide), h c main_arg1 (by decide), h c main_arg2 (by decide), h c main_arg3 (by decide), h c main_arg4 (by decide), h c main_arg5 (by decide),
      h c main_arg6 (by decide), h c main_arg7 (by decide), h c main_arg8 (by decide), h c main_arg9 (by decide), h c main_arg10 (by decide), h c main_arg11 (by decide)⟩)
    (Cert.Kernel.Sc.run (F := Bits) m ρ (Cert.Kernel.Sc.idx_of_pre m hpre))

end Cert.Proof

end
-- ==== Proof.RefOps.lean ====
import proofs.«215994_g5102421148354_cont_8to1c4_853_29_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's @main as a list of operations

@main calls four module-local functions (the row lookup four times, the rectifier, the variance, each of the lookup and
the variance calling a select of its own). A call executes the callee's body on the operands, so the program is the
straight line of the callees' operations at their call sites, each over the buffers that call names. The line is cut
into seven stretches, one per stage of the computation. -/

/-- The first row lookup, `jnp.take` of table 0 at index array 0 in fill mode, as its twenty-three operations: negative indices wrapped by the table's height, the in-range mask, the gather, and the select against the fill value. -/
abbrev opsT0 : List (HloOp τ sig (Elt F)) :=
  [ StableHlo.TRef.nullary main_call0.c (constantI S_ 32 0#32),
    StableHlo.TRef.unary main_call0.c main_call0.v0 (broadcastInDim S100000 ![] bcast_S_S100000),
    StableHlo.TRef.binary (TRef.of main_arg4 : TRef sig ⟨S100000, .i32⟩) main_call0.v0 main_call0.v1 (cmpi .slt),
    StableHlo.TRef.nullary main_call0.c_0 (constantI S_ 32 100000#32),
    StableHlo.TRef.unary main_call0.c_0 main_call0.v2 (broadcastInDim S100000 ![] bcast_S_S100000),
    StableHlo.TRef.binary (TRef.of main_arg4 : TRef sig ⟨S100000, .i32⟩) main_call0.v2 main_call0.v3 addi,
    StableHlo.TRef.ternary main_call0.v1 main_call0.v3 (TRef.of main_arg4 : TRef sig ⟨S100000, .i32⟩) main_call0.call0.v0 select,
    StableHlo.TRef.unary main_call0.call0.v0 main_call0.v5 (broadcastInDim S100000x1 ![0] bcast_S100000_S100000x1_0),
    StableHlo.TRef.nullary main_call0.c_1 (constantI S1 32 99999#32),
    StableHlo.TRef.nullary main_call0.c_2 (constantI S_ 32 0#32),
    StableHlo.TRef.unary main_call0.c_2 main_call0.v6 (broadcastInDim S100000x1 ![] bcast_S_S100000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S100000x1 ![0, 1] bcast_S1x1_S100000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S100000x1_S100000_d1 h_S_),
    StableHlo.TRef.binary (TRef.of main_arg0 : TRef sig ⟨S100000x128, .f32⟩) main_call0.v5 main_call0.v13 (fun x i => Host.gather gather_S100000x128_S100000x1_S100000x128_1_0_n_n_0_1_1128 x i),
    StableHlo.TRef.unary main_call0.v12 main_call0.v14 (broadcastInDim S100000x128 ![0] bcast_S100000_S100000x128_0),
    StableHlo.TRef.nullary main_call0.cst (constant S_ .f32 0x7FC00000#32),
    StableHlo.TRef.unary main_call0.cst main_call0.v15 (broadcastInDim S100000x128 ![] bcast_S_S100000x128),
    StableHlo.TRef.ternary main_call0.v14 main_call0.v13 main_call0.v15 main_call0.v16 select ]

/-- The second row lookup (table 1 at index array 1): the same twenty-three operations over their own buffers. -/
abbrev opsT1 : List (HloOp τ sig (Elt F)) :=
  [ StableHlo.TRef.nullary main_call1.c (constantI S_ 32 0#32),
    StableHlo.TRef.unary main_call1.c main_call1.v0 (broadcastInDim S100000 ![] bcast_S_S100000),
    StableHlo.TRef.binary (TRef.of main_arg5 : TRef sig ⟨S100000, .i32⟩) main_call1.v0 main_call1.v1 (cmpi .slt),
    StableHlo.TRef.nullary main_call1.c_0 (constantI S_ 32 100000#32),
    StableHlo.TRef.unary main_call1.c_0 main_call1.v2 (broadcastInDim S100000 ![] bcast_S_S100000),
    StableHlo.TRef.binary (TRef.of main_arg5 : TRef sig ⟨S100000, .i32⟩) main_call1.v2 main_call1.v3 addi,
    StableHlo.TRef.ternary main_call1.v1 main_call1.v3 (TRef.of main_arg5 : TRef sig ⟨S100000, .i32⟩) main_call1.call0.v0 select,
    StableHlo.TRef.unary main_call1.call0.v0 main_call1.v5 (broadcastInDim S100000x1 ![0] bcast_S100000_S100000x1_0),
    StableHlo.TRef.nullary main_call1.c_1 (constantI S1 32 99999#32),
    StableHlo.TRef.nullary main_call1.c_2 (constantI S_ 32 0#32),
    StableHlo.TRef.unary main_call1.c_2 main_call1.v6 (broadcastInDim S100000x1 ![] bcast_S_S100000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S100000x1 ![0, 1] bcast_S1x1_S100000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S100000x1_S100000_d1 h_S_),
    StableHlo.TRef.binary (TRef.of main_arg1 : TRef sig ⟨S100000x128, .f32⟩) main_call1.v5 main_call1.v13 (fun x i => Host.gather gather_S100000x128_S100000x1_S100000x128_1_0_n_n_0_1_1128 x i),
    StableHlo.TRef.unary main_call1.v12 main_call1.v14 (broadcastInDim S100000x128 ![0] bcast_S100000_S100000x128_0),
    StableHlo.TRef.nullary main_call1.cst (constant S_ .f32 0x7FC00000#32),
    StableHlo.TRef.unary main_call1.cst main_call1.v15 (broadcastInDim S100000x128 ![] bcast_S_S100000x128),
    StableHlo.TRef.ternary main_call1.v14 main_call1.v13 main_call1.v15 main_call1.v16 select ]

/-- The third row lookup (table 2 at index array 2). -/
abbrev opsT2 : List (HloOp τ sig (Elt F)) :=
  [ StableHlo.TRef.nullary main_call2.c (constantI S_ 32 0#32),
    StableHlo.TRef.unary main_call2.c main_call2.v0 (broadcastInDim S100000 ![] bcast_S_S100000),
    StableHlo.TRef.binary (TRef.of main_arg6 : TRef sig ⟨S100000, .i32⟩) main_call2.v0 main_call2.v1 (cmpi .slt),
    StableHlo.TRef.nullary main_call2.c_0 (constantI S_ 32 100000#32),
    StableHlo.TRef.unary main_call2.c_0 main_call2.v2 (broadcastInDim S100000 ![] bcast_S_S100000),
    StableHlo.TRef.binary (TRef.of main_arg6 : TRef sig ⟨S100000, .i32⟩) main_call2.v2 main_call2.v3 addi,
    StableHlo.TRef.ternary main_call2.v1 main_call2.v3 (TRef.of main_arg6 : TRef sig ⟨S100000, .i32⟩) main_call2.call0.v0 select,
    StableHlo.TRef.unary main_call2.call0.v0 main_call2.v5 (broadcastInDim S100000x1 ![0] bcast_S100000_S100000x1_0),
    StableHlo.TRef.nullary main_call2.c_1 (constantI S1 32 99999#32),
    StableHlo.TRef.nullary main_call2.c_2 (constantI S_ 32 0#32),
    StableHlo.TRef.unary main_call2.c_2 main_call2.v6 (broadcastInDim S100000x1 ![] bcast_S_S100000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S100000x1 ![0, 1] bcast_S1x1_S100000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S100000x1_S100000_d1 h_S_),
    StableHlo.TRef.binary (TRef.of main_arg2 : TRef sig ⟨S100000x128, .f32⟩) main_call2.v5 main_call2.v13 (fun x i => Host.gather gather_S100000x128_S100000x1_S100000x128_1_0_n_n_0_1_1128 x i),
    StableHlo.TRef.unary main_call2.v12 main_call2.v14 (broadcastInDim S100000x128 ![0] bcast_S100000_S100000x128_0),
    StableHlo.TRef.nullary main_call2.cst (constant S_ .f32 0x7FC00000#32),
    StableHlo.TRef.unary main_call2.cst main_call2.v15 (broadcastInDim S100000x128 ![] bcast_S_S100000x128),
    StableHlo.TRef.ternary main_call2.v14 main_call2.v13 main_call2.v15 main_call2.v16 select ]

/-- The fourth row lookup (table 3 at index array 3). -/
abbrev opsT3 : List (HloOp τ sig (Elt F)) :=
  [ StableHlo.TRef.nullary main_call3.c (constantI S_ 32 0#32),
    StableHlo.TRef.unary main_call3.c main_call3.v0 (broadcastInDim S100000 ![] bcast_S_S100000),
    StableHlo.TRef.binary (TRef.of main_arg7 : TRef sig ⟨S100000, .i32⟩) main_call3.v0 main_call3.v1 (cmpi .slt),
    StableHlo.TRef.nullary main_call3.c_0 (constantI S_ 32 100000#32),
    StableHlo.TRef.unary main_call3.c_0 main_call3.v2 (broadcastInDim S100000 ![] bcast_S_S100000),
    StableHlo.TRef.binary (TRef.of main_arg7 : TRef sig ⟨S100000, .i32⟩) main_call3.v2 main_call3.v3 addi,
    StableHlo.TRef.ternary main_call3.v1 main_call3.v3 (TRef.of main_arg7 : TRef sig ⟨S100000, .i32⟩) main_call3.call0.v0 select,
    StableHlo.TRef.unary main_call3.call0.v0 main_call3.v5 (broadcastInDim S100000x1 ![0] bcast_S100000_S100000x1_0),
    StableHlo.TRef.nullary main_call3.c_1 (constantI S1 32 99999#32),
    StableHlo.TRef.nullary main_call3.c_2 (constantI S_ 32 0#32),
    StableHlo.TRef.unary main_call3.c_2 main_call3.v6 (broadcastInDim S100000x1 ![] bcast_S_S100000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S100000x1 ![0, 1] bcast_S1x1_S100000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S100000x1_S100000_d1 h_S_),
    StableHlo.TRef.binary (TRef.of main_arg3 : TRef sig ⟨S100000x128, .f32⟩) main_call3.v5 main_call3.v13 (fun x i => Host.gather gather_S100000x128_S100000x1_S100000x128_1_0_n_n_0_1_1128 x i),
    StableHlo.TRef.unary main_call3.v12 main_call3.v14 (broadcastInDim S100000x128 ![0] bcast_S100000_S100000x128_0),
    StableHlo.TRef.nullary main_call3.cst (constant S_ .f32 0x7FC00000#32),
    StableHlo.TRef.unary main_call3.cst main_call3.v15 (broadcastInDim S100000x128 ![] bcast_S_S100000x128),
    StableHlo.TRef.ternary main_call3.v14 main_call3.v13 main_call3.v15 main_call3.v16 select ]

/-- The four looked-up blocks concatenated along the columns, the product with the transposed weight, the bias, the rectifier, then the row mean of the rectified array (row sum over 512) and the integer zero that the variance takes as its degrees-of-freedom correction. -/
abbrev opsMid : List (HloOp τ sig (Elt F)) :=
  [ StableHlo.nary ![main_v0, main_v1, main_v2, main_v3] main_v4 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.unary main_arg8 main_v5 ((transpose S512x512 [1, 0] · transposes_S512x512_S512x512_1_0) : (⟨S512x512, .f32⟩ : BufTy).Contents (Elt F) → (⟨S512x512, .f32⟩ : BufTy).Contents (Elt F)),
    StableHlo.binary main_v4 main_v5 main_v6 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg9 main_v7 (broadcastInDim S1x512 ![1] bcast_S512_S1x512_1 : (⟨S512, .f32⟩ : BufTy).Contents (Elt F) → (⟨S1x512, .f32⟩ : BufTy).Contents (Elt F)),
    StableHlo.unary main_v7 main_v8 (broadcastInDim S100000x512 ![0, 1] bcast_S1x512_S100000x512_0_1 : (⟨S1x512, .f32⟩ : BufTy).Contents (Elt F) → (⟨S100000x512, .f32⟩ : BufTy).Contents (Elt F)),
    StableHlo.binary main_v6 main_v8 main_v9 (addf : (⟨S100000x512, .f32⟩ : BufTy).Contents (Elt F) → (⟨S100000x512, .f32⟩ : BufTy).Contents (Elt F) → (⟨S100000x512, .f32⟩ : BufTy).Contents (Elt F)),
    StableHlo.TRef.nullary main_call4.cst (constant S_ .f32 0x00000000#32),
    StableHlo.TRef.unary main_call4.cst main_call4.v0 (broadcastInDim S100000x512 ![] bcast_S_S100000x512),
    StableHlo.TRef.binary (TRef.of main_v9 : TRef sig ⟨S100000x512, .f32⟩) main_call4.v0 main_call4.v1 maximumf,
    StableHlo.nullary main_cst (constant S_ .f32 0x00000000#32),
    StableHlo.binary main_v10 main_cst main_v11 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.nullary main_cst_0 (constant S_ .f32 0x44000000#32),
    StableHlo.unary main_cst_0 main_v13 (broadcastInDim S100000x1 ![] bcast_S_S100000x1 : (⟨S_, .f32⟩ : BufTy).Contents (Elt F) → (⟨S100000x1, .f32⟩ : BufTy).Contents (Elt F)),
    StableHlo.binary main_v12 main_v13 main_v14 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32) ]

/-- The row variance of the rectified array: row mean, centred squares, their row sum over `512 - ddof`, selected against the fill value where that count is not positive. -/
abbrev opsVar : List (HloOp τ sig (Elt F)) :=
  [ StableHlo.TRef.nullary main_call5.cst (constant S_ .f32 0x00000000#32),
    StableHlo.TRef.binary (TRef.of main_v10 : TRef sig ⟨S100000x512, .f32⟩) main_call5.cst main_call5.v0 (fun x v => Host.reduceAdd x v reducesTo_S100000x512_S100000_d1 h_S_),
    StableHlo.TRef.unary main_call5.v0 main_call5.v1 (broadcastInDim S100000x1 ![0] bcast_S100000_S100000x1_0),
    StableHlo.TRef.nullary main_call5.cst_0 (constant S_ .f32 0x44000000#32),
    StableHlo.TRef.unary main_call5.cst_0 main_call5.v2 (broadcastInDim S100000x1 ![] bcast_S_S100000x1),
    StableHlo.TRef.binary main_call5.v1 main_call5.v2 main_call5.v3 Host.divf,
    StableHlo.TRef.unary main_call5.v3 main_call5.v4 (broadcastInDim S100000x512 ![0, 1] bcast_S100000x1_S100000x512_0_1),
    StableHlo.TRef.binary (TRef.of main_v10 : TRef sig ⟨S100000x512, .f32⟩) main_call5.v4 main_call5.v5 subf,
    StableHlo.TRef.binary main_call5.v5 main_call5.v5 main_call5.v6 mulf,
    StableHlo.TRef.unary (TRef.of main_c : TRef sig ⟨S_, .i32⟩) main_call5.v7 (sitofp .f32),
    StableHlo.TRef.nullary main_call5.cst_1 (constant S_ .f32 0x44000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x512_S100000_d1 h_S_),
    StableHlo.TRef.unary main_call5.v9 main_call5.v10 (broadcastInDim S100000x1 ![0] bcast_S100000_S100000x1_0),
    StableHlo.TRef.unary main_call5.v8 main_call5.v11 (broadcastInDim S100000x1 ![] bcast_S_S100000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S100000x1 ![] bcast_S_S100000x1),
    StableHlo.TRef.ternary main_call5.v13 main_call5.v12 main_call5.call0.v1 main_call5.call0.v2 (fun p a b => select (broadcastInDim S100000x1 ![] bcast_S_S100000x1 p) a b) ]

/-- The normalisation: centre by the row mean, divide by the square root of variance plus epsilon, scale and shift by the two broadcast vectors. -/
abbrev opsTail : List (HloOp τ sig (Elt F)) :=
  [ StableHlo.unary main_v14 main_v16 (broadcastInDim S100000x512 ![0, 1] bcast_S100000x1_S100000x512_0_1 : (⟨S100000x1, .f32⟩ : BufTy).Contents (Elt F) → (⟨S100000x512, .f32⟩ : BufTy).Contents (Elt F)),
    StableHlo.binary main_v10 main_v16 main_v17 (subf : (⟨S100000x512, .f32⟩ : BufTy).Contents (Elt F) → (⟨S100000x512, .f32⟩ : BufTy).Contents (Elt F) → (⟨S100000x512, .f32⟩ : BufTy).Contents (Elt F)),
    StableHlo.nullary main_cst_1 (constant S_ .f32 0x358637BD#32),
    StableHlo.unary main_cst_1 main_v18 (broadcastInDim S100000x1 ![] bcast_S_S100000x1 : (⟨S_, .f32⟩ : BufTy).Contents (Elt F) → (⟨S100000x1, .f32⟩ : BufTy).Contents (Elt F)),
    StableHlo.binary main_v15 main_v18 main_v19 (addf : (⟨S100000x1, .f32⟩ : BufTy).Contents (Elt F) → (⟨S100000x1, .f32⟩ : BufTy).Contents (Elt F) → (⟨S100000x1, .f32⟩ : BufTy).Contents (Elt F)),
    StableHlo.unary main_v19 main_v20 (Host.sqrt : (⟨S100000x1, .f32⟩ : BufTy).Contents (Elt F) → (⟨S100000x1, .f32⟩ : BufTy).Contents (Elt F)),
    StableHlo.unary main_v20 main_v21 (broadcastInDim S100000x512 ![0, 1] bcast_S100000x1_S100000x512_0_1 : (⟨S100000x1, .f32⟩ : BufTy).Contents (Elt F) → (⟨S100000x512, .f32⟩ : BufTy).Contents (Elt F)),
    StableHlo.binary main_v17 main_v21 main_v22 (Host.divf : (⟨S100000x512, .f32⟩ : BufTy).Contents (Elt F) → (⟨S100000x512, .f32⟩ : BufTy).Contents (Elt F) → (⟨S100000x512, .f32⟩ : BufTy).Contents (Elt F)),
    StableHlo.unary main_arg10 main_v23 (broadcastInDim S1x512 ![1] bcast_S512_S1x512_1 : (⟨S512, .f32⟩ : BufTy).Contents (Elt F) → (⟨S1x512, .f32⟩ : BufTy).Contents (Elt F)),
    StableHlo.unary main_v23 main_v24 (broadcastInDim S100000x512 ![0, 1] bcast_S1x512_S100000x512_0_1 : (⟨S1x512, .f32⟩ : BufTy).Contents (Elt F) → (⟨S100000x512, .f32⟩ : BufTy).Contents (Elt F)),
    StableHlo.binary main_v22 main_v24 main_v25 (mulf : (⟨S100000x512, .f32⟩ : BufTy).Contents (Elt F) → (⟨S100000x512, .f32⟩ : BufTy).Contents (Elt F) → (⟨S100000x512, .f32⟩ : BufTy).Contents (Elt F)),
    StableHlo.unary main_arg11 main_v26 (broadcastInDim S1x512 ![1] bcast_S512_S1x512_1 : (⟨S512, .f32⟩ : BufTy).Contents (Elt F) → (⟨S1x512, .f32⟩ : BufTy).Contents (Elt F)),
    StableHlo.unary main_v26 main_v27 (broadcastInDim S100000x512 ![0, 1] bcast_S1x512_S100000x512_0_1 : (⟨S1x512, .f32⟩ : BufTy).Contents (Elt F) → (⟨S100000x512, .f32⟩ : BufTy).Contents (Elt F)),
    StableHlo.binary main_v25 main_v27 main_v28 (addf : (⟨S100000x512, .f32⟩ : BufTy).Contents (Elt F) → (⟨S100000x512, .f32⟩ : BufTy).Contents (Elt F) → (⟨S100000x512, .f32⟩ : BufTy).Contents (Elt F)) ]

/-- @main's 145 operations, in order: the seven stretches one after the other. -/
abbrev ops : List (HloOp τ sig (Elt F)) := opsT0 ++ opsT1 ++ opsT2 ++ opsT3 ++ opsMid ++ opsVar ++ opsTail

set_option maxRecDepth 16384 in
set_option maxHeartbeats 4000000 in
/-- @main is that straight line: a call unfolds to its callee's body over the call's buffers, and sequencing a body before
    the rest of the line computes to the line itself. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only, and none allocates. -/

theorem opsT0_sub : (opsT0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsT1_sub : (opsT1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsT2_sub : (opsT2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsT3_sub : (opsT3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsMid_sub : (opsMid : List (HloOp τ sig (Elt F))).Forall fun op => op.bufs ⊆ tcRefs τ sig :=
  ⟨nary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub ..⟩
theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsTail_sub : (opsTail : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h) | h
    exacts [List.forall_iff_forall_mem.mp opsT0_sub op h, List.forall_iff_forall_mem.mp opsT1_sub op h,
      List.forall_iff_forall_mem.mp opsT2_sub op h, List.forall_iff_forall_mem.mp opsT3_sub op h,
      List.forall_iff_forall_mem.mp opsMid_sub op h, List.forall_iff_forall_mem.mp opsVar_sub op h,
      List.forall_iff_forall_mem.mp opsTail_sub op h]

theorem opsT0_fresh : ∀ op ∈ (opsT0 : List (HloOp τ sig (Elt F))), op.fresh = ∅ := by
  intro _ h; (repeat (cases h with | head => rfl | tail _ h => ?_)); exact nomatch h
theorem opsT1_fresh : ∀ op ∈ (opsT1 : List (HloOp τ sig (Elt F))), op.fresh = ∅ := by
  intro _ h; (repeat (cases h with | head => rfl | tail _ h => ?_)); exact nomatch h
theorem opsT2_fresh : ∀ op ∈ (opsT2 : List (HloOp τ sig (Elt F))), op.fresh = ∅ := by
  intro _ h; (repeat (cases h with | head => rfl | tail _ h => ?_)); exact nomatch h
theorem opsT3_fresh : ∀ op ∈ (opsT3 : List (HloOp τ sig (Elt F))), op.fresh = ∅ := by
  intro _ h; (repeat (cases h with | head => rfl | tail _ h => ?_)); exact nomatch h
theorem opsMid_fresh : ∀ op ∈ (opsMid : List (HloOp τ sig (Elt F))), op.fresh = ∅ := by
  intro _ h; (repeat (cases h with | head => rfl | tail _ h => ?_)); exact nomatch h
theorem opsVar_fresh : ∀ op ∈ (opsVar : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [opsT0_fresh op h, opsT1_fresh op h, opsT2_fresh op h, opsT3_fresh op h, opsMid_fresh op h, opsVar_fresh op h,
    opsTail_fresh op h]

end Cert.ReferenceIdeal.RefRun

end
-- ==== Proof.RefStages.lean ====
import proofs.«215994_g5102421148354_cont_8to1c4_853_29_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The reference's result as a pure term, stage by stage

Each definition is one stage of the reference function as the composition of its operations' functions, over the
contents of the arrays the stage reads. -/

/-! ### A row lookup (`jnp.take` along the rows, fill mode) -/

/-- The index array with its negative entries wrapped by the table's height: `i + 100000` where `i < 0`, else `i`. -/
def takeWrap (i : IVec S100000 32) : IVec S100000 32 :=
  select (cmpi .slt i (broadcastInDim S100000 ![] bcast_S_S100000 (constantI S_ 32 0#32)))
    (addi i (broadcastInDim S100000 ![] bcast_S_S100000 (constantI S_ 32 100000#32))) i

/-- The wrapped indices as a column: the gather's start indices, one per output row. -/
def takeStart (i : IVec S100000 32) : IVec S100000x1 32 :=
  broadcastInDim S100000x1 ![0] bcast_S100000_S100000x1_0 (takeWrap i)

/-- Row by row, whether the start index lies in `[0, 99999]`: the conjunction over the (one) index component of
    `0 ≤ start` and `start ≤ 99999`. -/
def takeMask (i : IVec S100000 32) : IVec S100000 1 :=
  Host.reduce IntOp.andi
    (andi (cmpi .sge (takeStart i) (broadcastInDim S100000x1 ![] bcast_S_S100000x1 (constantI S_ 32 0#32)))
      (cmpi .sle (takeStart i)
        (broadcastInDim S100000x1 ![0, 1] bcast_S1x1_S100000x1_0_1
          (broadcastInDim S1x1 ![1] bcast_S1_S1x1_1 (constantI S1 32 99999#32)))))
    (constantI S_ 1 1#1) reducesTo_S100000x1_S100000_d1 h_S_

/-- The gather itself: output row `r` is the table's row at start index `r` (clamped into the table by the gather). -/
def takeGather (x : FVec F S100000x128 .f32) (i : IVec S100000 32) : FVec F S100000x128 .f32 :=
  Host.gather gather_S100000x128_S100000x1_S100000x128_1_0_n_n_0_1_1128 x (takeStart i)

/-- The lookup: the gathered row where the index is in range, the fill value (a quiet NaN) elsewhere. -/
def take (x : FVec F S100000x128 .f32) (i : IVec S100000 32) : FVec F S100000x128 .f32 :=
  select (broadcastInDim S100000x128 ![0] bcast_S100000_S100000x128_0 (takeMask i)) (takeGather x i)
    (broadcastInDim S100000x128 ![] bcast_S_S100000x128 (constant S_ .f32 0x7FC00000#32))

/-! ### The dense layer -/

/-- The four looked-up blocks side by side: columns `128 t … 128 t + 127` are block `t`. -/
def cat (t0 t1 t2 t3 : FVec F S100000x128 .f32) : FVec F S100000x512 .f32 :=
  concatenate S100000x512 1 [⟨S100000x128, t0⟩, ⟨S100000x128, t1⟩, ⟨S100000x128, t2⟩, ⟨S100000x128, t3⟩]
    concatenates_S100000x128_S100000x128_S100000x128_S100000x128_S100000x512_d1

/-- `g · wᵀ + b`: the product with the transposed weight, the bias added to every row. -/
def lin (g : FVec F S100000x512 .f32) (w : FVec F S512x512 .f32) (b : FVec F S512 .f32) : FVec F S100000x512 .f32 :=
  addf
    (Host.dotGeneral dot_S100000x512_S512x512_S100000x512_1_0_0_1_n_n none g
      (transpose S512x512 [1, 0] w transposes_S512x512_S512x512_1_0))
    (broadcastInDim S100000x512 ![0, 1] bcast_S1x512_S100000x512_0_1 (broadcastInDim S1x512 ![1] bcast_S512_S1x512_1 b))

/-- The rectifier: the maximum with zero, element by element. -/
def relu (y : FVec F S100000x512 .f32) : FVec F S100000x512 .f32 :=
  maximumf y (broadcastInDim S100000x512 ![] bcast_S_S100000x512 (constant S_ .f32 0x00000000#32))

/-- The rectified dense layer of the four lookups. -/
def act (a0 a1 a2 a3 : FVec F S100000x128 .f32) (a4 a5 a6 a7 : IVec S100000 32) (a8 : FVec F S512x512 .f32)
    (a9 : FVec F S512 .f32) : FVec F S100000x512 .f32 :=
  relu (lin (cat (take a0 a4) (take a1 a5) (take a2 a6) (take a3 a7)) a8 a9)

/-! ### The layer norm over the 512 columns -/

/-- The row mean as a column: the row sum divided by 512. -/
def rowMean (y : FVec F S100000x512 .f32) : FVec F S100000x1 .f32 :=
  Host.divf
    (broadcastInDim S100000x1 ![0] bcast_S100000_S100000x1_0
      (Host.reduceAdd y (constant S_ .f32 0x00000000#32) reducesTo_S100000x512_S100000_d1 h_S_))
    (broadcastInDim S100000x1 ![] bcast_S_S100000x1 (constant S_ .f32 0x44000000#32))

/-- The squared deviations from the row mean. -/
def sqDev (y : FVec F S100000x512 .f32) : FVec F S100000x512 .f32 :=
  mulf (subf y (broadcastInDim S100000x512 ![0, 1] bcast_S100000x1_S100000x512_0_1 (rowMean y)))
    (subf y (broadcastInDim S100000x512 ![0, 1] bcast_S100000x1_S100000x512_0_1 (rowMean y)))

/-- The variance's divisor: `512 - ddof`, the correction converted to a float. -/
def varCount (ddof : IVec S_ 32) : FVec F S_ .f32 :=
  subf (constant S_ .f32 0x44000000#32) (sitofp .f32 ddof)

/-- The row variance as a column: the row sum of squared deviations over `512 - ddof` where that count is positive,
    the fill value (a quiet NaN) otherwise. -/
def rowVar (y : FVec F S100000x512 .f32) (ddof : IVec S_ 32) : FVec F S100000x1 .f32 :=
  select (broadcastInDim S100000x1 ![] bcast_S_S100000x1 (cmpf .ogt (varCount (F := F) ddof) (constant S_ .f32 0x00000000#32)))
    (Host.divf
      (broadcastInDim S100000x1 ![0] bcast_S100000_S100000x1_0
        (Host.reduceAdd (sqDev y) (constant S_ .f32 0x00000000#32) reducesTo_S100000x512_S100000_d1 h_S_))
      (broadcastInDim S100000x1 ![] bcast_S_S100000x1 (varCount ddof)))
    (broadcastInDim S100000x1 ![] bcast_S_S100000x1 (id (constant S_ .f32 0x7FC00000#32)))

/-- The normalisation given the mean column `mu` and the variance column `v`:
    `(y - mu) / sqrt (v + 1e-6) * gamma + beta`, mean, deviation and the two vectors broadcast over the array. -/
def normWith (y : FVec F S100000x512 .f32) (mu v : FVec F S100000x1 .f32) (gamma beta : FVec F S512 .f32) :
    FVec F S100000x512 .f32 :=
  addf
    (mulf
      (Host.divf (subf y (broadcastInDim S100000x512 ![0, 1] bcast_S100000x1_S100000x512_0_1 mu))
        (broadcastInDim S100000x512 ![0, 1] bcast_S100000x1_S100000x512_0_1
          (Host.sqrt (addf v (broadcastInDim S100000x1 ![] bcast_S_S100000x1 (constant S_ .f32 0x358637BD#32))))))
      (broadcastInDim S100000x512 ![0, 1] bcast_S1x512_S100000x512_0_1 (broadcastInDim S1x512 ![1] bcast_S512_S1x512_1 gamma)))
    (broadcastInDim S100000x512 ![0, 1] bcast_S1x512_S100000x512_0_1 (broadcastInDim S1x512 ![1] bcast_S512_S1x512_1 beta))

/-- The layer norm of `y` over its columns, with the population variance (correction zero). -/
def layerNorm (y : FVec F S100000x512 .f32) (gamma beta : FVec F S512 .f32) : FVec F S100000x512 .f32 :=
  normWith y (rowMean y) (rowVar y (constantI S_ 32 0#32)) gamma beta

/-- The reference's result as a pure term of its twelve argument arrays: the layer norm of the rectified dense layer of
    the four row lookups. -/
def res (a0 a1 a2 a3 : FVec F S100000x128 .f32) (a4 a5 a6 a7 : IVec S100000 32) (a8 : FVec F S512x512 .f32)
    (a9 a10 a11 : FVec F S512 .f32) : FVec F S100000x512 .f32 :=
  layerNorm (act a0 a1 a2 a3 a4 a5 a6 a7 a8 a9) a10 a11

end Cert.ReferenceIdeal.RefRun

end
-- ==== Proof.RefWinBase.lean ====
import proofs.«215994_g5102421148354_cont_8to1c4_853_29_alg».proof.Proof.RefOps
import proofs.«215994_g5102421148354_cont_8to1c4_853_29_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch of the line leaves in the buffers

For each of the seven stretches of the reference's line, from ANY contents `W` of the device's buffers: the buffers it
does not write keep their contents, and each buffer a later stretch reads holds its stage's pure term of the contents
the stretch read. The stretches join by `after_app`. -/

/-- Running two stretches one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefRun

end
-- ==== Proof.RefWinT01.lean ====
import proofs.«215994_g5102421148354_cont_8to1c4_853_29_alg».proof.Proof.RefWinBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The first two row lookups -/
/-- The buffers the stretch `opsT0` writes. -/
abbrev opsT0_W : List (Ref sig .tc) :=
  [(main_call0.c).ref, (main_call0.v0).ref, (main_call0.v1).ref, (main_call0.c_0).ref, (main_call0.v2).ref, (main_call0.v3).ref, (main_call0.call0.v0).ref, (main_call0.v5).ref, (main_call0.c_1).ref, (main_call0.c_2).ref, (main_call0.v6).ref, (main_call0.v7).ref, (main_call0.v8).ref, (main_call0.v9).ref, (main_call0.v10).ref, (main_call0.v11).ref, (main_call0.c_3).ref, (main_call0.v12).ref, (main_call0.v13).ref, (main_call0.v14).ref, (main_call0.cst).ref, (main_call0.v15).ref, (main_call0.v16).ref]
theorem opsT0_writes : ∀ op ∈ (opsT0 : List (HloOp τ sig (Elt F))), op.writes ⊆ (opsT0_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsT0_keep (W : Valuation τ sig (Elt F)) (r : Ref sig .tc) (h : r ∉ opsT0_W) :
    after opsT0 W (Proc.devRef .tc r) = W (Proc.devRef .tc r) :=
  after_of_writes_sub opsT0 W (List.forall_iff_forall_mem.mpr opsT0_writes) h

attribute [local irreducible] Host.reduce Host.gather in
set_option maxRecDepth 8192 in
/-- The lookup's result buffer holds `take` of the table and index array the stretch read. -/
theorem opsT0_v0 (W : Valuation τ sig (Elt F)) :
    after opsT0 W (Proc.devRef .tc main_v0) = take (W (Proc.devRef .tc main_arg0)) (W (Proc.devRef .tc main_arg4)) := by
  simp only [opsT0]
  after_results_simp
  rfl

/-- The buffers the stretch `opsT1` writes. -/
abbrev opsT1_W : List (Ref sig .tc) :=
  [(main_call1.c).ref, (main_call1.v0).ref, (main_call1.v1).ref, (main_call1.c_0).ref, (main_call1.v2).ref, (main_call1.v3).ref, (main_call1.call0.v0).ref, (main_call1.v5).ref, (main_call1.c_1).ref, (main_call1.c_2).ref, (main_call1.v6).ref, (main_call1.v7).ref, (main_call1.v8).ref, (main_call1.v9).ref, (main_call1.v10).ref, (main_call1.v11).ref, (main_call1.c_3).ref, (main_call1.v12).ref, (main_call1.v13).ref, (main_call1.v14).ref, (main_call1.cst).ref, (main_call1.v15).ref, (main_call1.v16).ref]
theorem opsT1_writes : ∀ op ∈ (opsT1 : List (HloOp τ sig (Elt F))), op.writes ⊆ (opsT1_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsT1_keep (W : Valuation τ sig (Elt F)) (r : Ref sig .tc) (h : r ∉ opsT1_W) :
    after opsT1 W (Proc.devRef .tc r) = W (Proc.devRef .tc r) :=
  after_of_writes_sub opsT1 W (List.forall_iff_forall_mem.mpr opsT1_writes) h

attribute [local irreducible] Host.reduce Host.gather in
set_option maxRecDepth 8192 in
/-- The lookup's result buffer holds `take` of the table and index array the stretch read. -/
theorem opsT1_v1 (W : Valuation τ sig (Elt F)) :
    after opsT1 W (Proc.devRef .tc main_v1) = take (W (Proc.devRef .tc main_arg1)) (W (Proc.devRef .tc main_arg5)) := by
  simp only [opsT1]
  after_results_simp
  rfl

end Cert.ReferenceIdeal.RefRun

end
-- ==== Proof.RefWinT23.lean ====
import proofs.«215994_g5102421148354_cont_8to1c4_853_29_alg».proof.Proof.RefWinBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The last two row lookups -/
/-- The buffers the stretch `opsT2` writes. -/
abbrev opsT2_W : List (Ref sig .tc) :=
  [(main_call2.c).ref, (main_call2.v0).ref, (main_call2.v1).ref, (main_call2.c_0).ref, (main_call2.v2).ref, (main_call2.v3).ref, (main_call2.call0.v0).ref, (main_call2.v5).ref, (main_call2.c_1).ref, (main_call2.c_2).ref, (main_call2.v6).ref, (main_call2.v7).ref, (main_call2.v8).ref, (main_call2.v9).ref, (main_call2.v10).ref, (main_call2.v11).ref, (main_call2.c_3).ref, (main_call2.v12).ref, (main_call2.v13).ref, (main_call2.v14).ref, (main_call2.cst).ref, (main_call2.v15).ref, (main_call2.v16).ref]
theorem opsT2_writes : ∀ op ∈ (opsT2 : List (HloOp τ sig (Elt F))), op.writes ⊆ (opsT2_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsT2_keep (W : Valuation τ sig (Elt F)) (r : Ref sig .tc) (h : r ∉ opsT2_W) :
    after opsT2 W (Proc.devRef .tc r) = W (Proc.devRef .tc r) :=
  after_of_writes_sub opsT2 W (List.forall_iff_forall_mem.mpr opsT2_writes) h

attribute [local irreducible] Host.reduce Host.gather in
set_option maxRecDepth 8192 in
/-- The lookup's result buffer holds `take` of the table and index array the stretch read. -/
theorem opsT2_v2 (W : Valuation τ sig (Elt F)) :
    after opsT2 W (Proc.devRef .tc main_v2) = take (W (Proc.devRef .tc main_arg2)) (W (Proc.devRef .tc main_arg6)) := by
  simp only [opsT2]
  after_results_simp
  rfl

/-- The buffers the stretch `opsT3` writes. -/
abbrev opsT3_W : List (Ref sig .tc) :=
  [(main_call3.c).ref, (main_call3.v0).ref, (main_call3.v1).ref, (main_call3.c_0).ref, (main_call3.v2).ref, (main_call3.v3).ref, (main_call3.call0.v0).ref, (main_call3.v5).ref, (main_call3.c_1).ref, (main_call3.c_2).ref, (main_call3.v6).ref, (main_call3.v7).ref, (main_call3.v8).ref, (main_call3.v9).ref, (main_call3.v10).ref, (main_call3.v11).ref, (main_call3.c_3).ref, (main_call3.v12).ref, (main_call3.v13).ref, (main_call3.v14).ref, (main_call3.cst).ref, (main_call3.v15).ref, (main_call3.v16).ref]
theorem opsT3_writes : ∀ op ∈ (opsT3 : List (HloOp τ sig (Elt F))), op.writes ⊆ (opsT3_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsT3_keep (W : Valuation τ sig (Elt F)) (r : Ref sig .tc) (h : r ∉ opsT3_W) :
    after opsT3 W (Proc.devRef .tc r) = W (Proc.devRef .tc r) :=
  after_of_writes_sub opsT3 W (List.forall_iff_forall_mem.mpr opsT3_writes) h

attribute [local irreducible] Host.reduce Host.gather in
set_option maxRecDepth 8192 in
/-- The lookup's result buffer holds `take` of the table and index array the stretch read. -/
theorem opsT3_v3 (W : Valuation τ sig (Elt F)) :
    after opsT3 W (Proc.devRef .tc main_v3) = take (W (Proc.devRef .tc main_arg3)) (W (Proc.devRef .tc main_arg7)) := by
  simp only [opsT3]
  after_results_simp
  rfl

end Cert.ReferenceIdeal.RefRun

end
-- ==== Proof.RefWinL.lean ====
import proofs.«215994_g5102421148354_cont_8to1c4_853_29_alg».proof.Proof.RefWinBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The dense layer, the row statistics and the normalisation -/
/-- The buffers the stretch `opsMid` writes. -/
abbrev opsMid_W : List (Ref sig .tc) :=
  [main_v4, main_v5, main_v6, main_v7, main_v8, main_v9, (main_call4.cst).ref, (main_call4.v0).ref, (main_call4.v1).ref, main_cst, main_v11, main_v12, main_cst_0, main_v13, main_v14, main_c]
theorem opsMid_writes : ∀ op ∈ (opsMid : List (HloOp τ sig (Elt F))), op.writes ⊆ (opsMid_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsMid_keep (W : Valuation τ sig (Elt F)) (r : Ref sig .tc) (h : r ∉ opsMid_W) :
    after opsMid W (Proc.devRef .tc r) = W (Proc.devRef .tc r) :=
  after_of_writes_sub opsMid W (List.forall_iff_forall_mem.mpr opsMid_writes) h

attribute [local irreducible] Host.reduceAdd concatenate transpose in
set_option maxRecDepth 8192 in
/-- The rectified dense layer of the four looked-up blocks the stretch read. -/
theorem opsMid_v10 (W : Valuation τ sig (Elt F)) :
    after opsMid W (Proc.devRef .tc main_v10) = relu (lin (cat (W (Proc.devRef .tc main_v0)) (W (Proc.devRef .tc main_v1)) (W (Proc.devRef .tc main_v2)) (W (Proc.devRef .tc main_v3))) (W (Proc.devRef .tc main_arg8)) (W (Proc.devRef .tc main_arg9))) := by
  simp only [opsMid]
  after_results_simp
  rfl

attribute [local irreducible] Host.reduceAdd concatenate transpose in
set_option maxRecDepth 8192 in
/-- The row mean of that rectified array. -/
theorem opsMid_v14 (W : Valuation τ sig (Elt F)) :
    after opsMid W (Proc.devRef .tc main_v14) = rowMean (relu (lin (cat (W (Proc.devRef .tc main_v0)) (W (Proc.devRef .tc main_v1)) (W (Proc.devRef .tc main_v2)) (W (Proc.devRef .tc main_v3))) (W (Proc.devRef .tc main_arg8)) (W (Proc.devRef .tc main_arg9)))) := by
  simp only [opsMid]
  after_results_simp
  rfl

attribute [local irreducible] Host.reduceAdd concatenate transpose in
set_option maxRecDepth 8192 in
/-- The variance's correction: the integer zero. -/
theorem opsMid_c (W : Valuation τ sig (Elt F)) :
    after opsMid W (Proc.devRef .tc main_c) = constantI S_ 32 0#32 := by
  simp only [opsMid]
  after_results_simp

/-- The buffers the stretch `opsVar` writes. -/
abbrev opsVar_W : List (Ref sig .tc) :=
  [(main_call5.cst).ref, (main_call5.v0).ref, (main_call5.v1).ref, (main_call5.cst_0).ref, (main_call5.v2).ref, (main_call5.v3).ref, (main_call5.v4).ref, (main_call5.v5).ref, (main_call5.v6).ref, (main_call5.v7).ref, (main_call5.cst_1).ref, (main_call5.v8).ref, (main_call5.cst_2).ref, (main_call5.v9).ref, (main_call5.v10).ref, (main_call5.v11).ref, (main_call5.v12).ref, (main_call5.cst_3).ref, (main_call5.v13).ref, (main_call5.cst_4).ref, (main_call5.call0.v0).ref, (main_call5.call0.v1).ref, (main_call5.call0.v2).ref]
theorem opsVar_writes : ∀ op ∈ (opsVar : List (HloOp τ sig (Elt F))), op.writes ⊆ (opsVar_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsVar_keep (W : Valuation τ sig (Elt F)) (r : Ref sig .tc) (h : r ∉ opsVar_W) :
    after opsVar W (Proc.devRef .tc r) = W (Proc.devRef .tc r) :=
  after_of_writes_sub opsVar W (List.forall_iff_forall_mem.mpr opsVar_writes) h

attribute [local irreducible] Host.reduceAdd in
set_option maxRecDepth 8192 in
/-- The row variance of the array the stretch read, at the correction it read. -/
theorem opsVar_v15 (W : Valuation τ sig (Elt F)) :
    after opsVar W (Proc.devRef .tc main_v15) = rowVar (W (Proc.devRef .tc main_v10)) (W (Proc.devRef .tc main_c)) := by
  simp only [opsVar]
  after_results_simp
  rfl

/-- The buffers the stretch `opsTail` writes. -/
abbrev opsTail_W : List (Ref sig .tc) :=
  [main_v16, main_v17, main_cst_1, main_v18, main_v19, main_v20, main_v21, main_v22, main_v23, main_v24, main_v25, main_v26, main_v27, main_v28]
theorem opsTail_writes : ∀ op ∈ (opsTail : List (HloOp τ sig (Elt F))), op.writes ⊆ (opsTail_W.map (Proc.devRef (τ := τ) .tc)).toFinset := by
  intro _ h
  repeat (cases h with
    | head => simp only [nullary_writes, unary_writes, binary_writes, ternary_writes, nary_writes, Finset.singleton_subset_iff,
        List.mem_toFinset]; exact List.mem_map_of_mem (by decide)
    | tail _ h => ?_)
  exact nomatch h
/-- A buffer the stretch does not write keeps its contents through it. -/
theorem opsTail_keep (W : Valuation τ sig (Elt F)) (r : Ref sig .tc) (h : r ∉ opsTail_W) :
    after opsTail W (Proc.devRef .tc r) = W (Proc.devRef .tc r) :=
  after_of_writes_sub opsTail W (List.forall_iff_forall_mem.mpr opsTail_writes) h

attribute [local irreducible] Host.reduceAdd in
set_option maxRecDepth 8192 in
/-- The normalisation of the array by the mean and variance columns the stretch read, scaled and shifted. -/
theorem opsTail_v28 (W : Valuation τ sig (Elt F)) :
    after opsTail W (Proc.devRef .tc main_v28) = normWith (W (Proc.devRef .tc main_v10)) (W (Proc.devRef .tc main_v14)) (W (Proc.devRef .tc main_v15)) (W (Proc.devRef .tc main_arg10)) (W (Proc.devRef .tc main_arg11)) := by
  simp only [opsTail]
  after_results_simp
  rfl

end Cert.ReferenceIdeal.RefRun

end
-- ==== Proof.RefRun.lean ====
import proofs.«215994_g5102421148354_cont_8to1c4_853_29_alg».proof.Proof.RefWinT01
import proofs.«215994_g5102421148354_cont_8to1c4_853_29_alg».proof.Proof.RefWinT23
import proofs.«215994_g5102421148354_cont_8to1c4_853_29_alg».proof.Proof.RefWinL

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's run

The seven stretches joined: from any contents `V` the whole line leaves the result buffer at `res` of the argument
buffers' contents and writes no argument buffer; `run_seq` then gives the statement over every weakly fair execution. -/

/-- A buffer none of the seven stretches writes keeps its contents through the whole line. -/
theorem ops_keep (V : Valuation τ sig (Elt F)) (r : Ref sig .tc) (h0 : r ∉ opsT0_W) (h1 : r ∉ opsT1_W) (h2 : r ∉ opsT2_W)
    (h3 : r ∉ opsT3_W) (h4 : r ∉ opsMid_W) (h5 : r ∉ opsVar_W) (h6 : r ∉ opsTail_W) :
    after ops V (Proc.devRef .tc r) = V (Proc.devRef .tc r) := by
  simp only [ops, after_app]
  rw [opsTail_keep _ r h6, opsVar_keep _ r h5, opsMid_keep _ r h4, opsT3_keep _ r h3, opsT2_keep _ r h2, opsT1_keep _ r h1,
    opsT0_keep _ r h0]

/-- The result buffer after the whole line: `res` of the twelve argument buffers' contents. Read backwards, stretch by
    stretch: the normalisation reads the rectified array, its mean and its variance; the variance and the mean read the
    rectified array; that reads the four lookups, the weight and the bias; each lookup reads its table and index array;
    everything else a stretch is asked for it did not write. -/
theorem ops_v28 (V : Valuation τ sig (Elt F)) :
    after ops V (Proc.devRef .tc main_v28) = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [ops, after_app]
  rw [opsTail_v28]
  rw [opsVar_v15, opsVar_keep _ main_v10 (by decide), opsVar_keep _ main_v14 (by decide), opsVar_keep _ main_arg10 (by decide), opsVar_keep _ main_arg11 (by decide)]
  rw [opsMid_v10, opsMid_v14, opsMid_c, opsMid_keep _ main_arg10 (by decide), opsMid_keep _ main_arg11 (by decide)]
  rw [opsT3_v3, opsT3_keep _ main_v0 (by decide), opsT3_keep _ main_v1 (by decide), opsT3_keep _ main_v2 (by decide), opsT3_keep _ main_arg8 (by decide), opsT3_keep _ main_arg9 (by decide), opsT3_keep _ main_arg10 (by decide), opsT3_keep _ main_arg11 (by decide)]
  rw [opsT2_v2, opsT2_keep _ main_v0 (by decide), opsT2_keep _ main_v1 (by decide), opsT2_keep _ main_arg3 (by decide), opsT2_keep _ main_arg7 (by decide), opsT2_keep _ main_arg8 (by decide), opsT2_keep _ main_arg9 (by decide), opsT2_keep _ main_arg10 (by decide), opsT2_keep _ main_arg11 (by decide)]
  rw [opsT1_v1, opsT1_keep _ main_v0 (by decide), opsT1_keep _ main_arg2 (by decide), opsT1_keep _ main_arg6 (by decide), opsT1_keep _ main_arg3 (by decide), opsT1_keep _ main_arg7 (by decide), opsT1_keep _ main_arg8 (by decide), opsT1_keep _ main_arg9 (by decide), opsT1_keep _ main_arg10 (by decide), opsT1_keep _ main_arg11 (by decide)]
  rw [opsT0_v0, opsT0_keep _ main_arg1 (by decide), opsT0_keep _ main_arg5 (by decide), opsT0_keep _ main_arg2 (by decide), opsT0_keep _ main_arg6 (by decide), opsT0_keep _ main_arg3 (by decide), opsT0_keep _ main_arg7 (by decide), opsT0_keep _ main_arg8 (by decide), opsT0_keep _ main_arg9 (by decide), opsT0_keep _ main_arg10 (by decide), opsT0_keep _ main_arg11 (by decide)]
  rfl

/-- An argument buffer after the whole line: what it held. -/
theorem ops_arg (V : Valuation τ sig (Elt F)) (r : Ref sig .tc)
    (h : r ∈ [main_arg0, main_arg1, main_arg2, main_arg3, main_arg4, main_arg5, main_arg6, main_arg7, main_arg8, main_arg9,
      main_arg10, main_arg11]) :
    after ops V (Proc.devRef .tc r) = V (Proc.devRef .tc r) := by
  simp only [List.mem_cons, List.not_mem_nil, or_false] at h
  rcases h with rfl | rfl | rfl | rfl | rfl | rfl | rfl | rfl | rfl | rfl | rfl | rfl <;>
    exact ops_keep V _ (by decide) (by decide) (by decide) (by decide) (by decide) (by decide) (by decide)

/-- On every device, for any float values, from any memory with zero counters: every weakly fair execution of @main
    terminates with the result at `res` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v28).trans (ops_v28 (launchContents m c)),
      (h c main_arg0).trans (ops_arg (launchContents m c) main_arg0 (by decide)),
      (h c main_arg1).trans (ops_arg (launchContents m c) main_arg1 (by decide)),
      (h c main_arg2).trans (ops_arg (launchContents m c) main_arg2 (by decide)),
      (h c main_arg3).trans (ops_arg (launchContents m c) main_arg3 (by decide)),
      (h c main_arg4).trans (ops_arg (launchContents m c) main_arg4 (by decide)),
      (h c main_arg5).trans (ops_arg (launchContents m c) main_arg5 (by decide)),
      (h c main_arg6).trans (ops_arg (launchContents m c) main_arg6 (by decide)),
      (h c main_arg7).trans (ops_arg (launchContents m c) main_arg7 (by decide)),
      (h c main_arg8).trans (ops_arg (launchContents m c) main_arg8 (by decide)),
      (h c main_arg9).trans (ops_arg (launchContents m c) main_arg9 (by decide)),
      (h c main_arg10).trans (ops_arg (launchContents m c) main_arg10 (by decide)),
      (h c main_arg11).trans (ops_arg (launchContents m c) main_arg11 (by decide))⟩)
    (run_seq scopedRefs_eq scopedSems_eq defs main (fun _ => ops) main_eq (fun _ => ops_sub) m ρ (fun _ => ops_fresh))

end Cert.ReferenceIdeal.RefRun

end
-- ==== Proof.RefFrame.lean ====
import proofs.«215994_g5102421148354_cont_8to1c4_853_29_alg».proof.Defs
import proofs.«215994_g5102421148354_cont_8to1c4_853_29_alg».proof.Proof.Gen.Pre_input_domain
import proofs.«215994_g5102421148354_cont_8to1c4_853_29_alg».proof.Proof.RefRun

noncomputable section

namespace Cert.ReferenceIdeal.RefRun

open Idealize.ShloMosaic Idealize.SL.Sem

/-- The reference's frame: its run with the result's value dropped (the precondition is not needed: the reference
    terminates and leaves its arguments from every memory). -/
theorem frame : Cert.frame_ReferenceIdeal := fun m ρ _ =>
  (θ_run _ _ _).mono (fun _ h c => (h c).2) (run (F := Ideal) m ρ)

end Cert.ReferenceIdeal.RefRun

end
-- ==== Proof.RefTakeIdx.lean ====
import proofs.«215994_g5102421148354_cont_8to1c4_853_29_alg».proof.Proof.RefStages
import Idealize.ShloMosaic.Lib.ValueIdx

noncomputable section

namespace Cert.ReferenceIdeal.RefRun

open Cert.ReferenceIdeal Cert.ReferenceIdeal.Gen Idealize.ShloMosaic Idealize.ShloMosaic.ValueIdx

variable {F : FTy → Type} [FloatOps F]

/-! ## A row lookup read at an index, under the index range

With every index in `[0, 99999]` nothing is wrapped, the in-range mask is set everywhere, the gather's clamp does
nothing, and the select takes the gathered row: the lookup at `(r, c)` is the table at `(i r, c)`. The range is
stated elementwise in the comparisons the lookup itself makes: `0 ≤ i r` and `i r ≤ 99999`, signed. -/

/-- A conjunction folded from `1` over bits that are all `1` is `1`. -/
theorem foldl_andi_one {β : Type} (l : List β) (g : β → BitVec 1) (hg : ∀ n ∈ l, g n = 1#1) :
    l.foldl (fun r n => IntOp.andi r (g n)) 1#1 = 1#1 := by
  induction l with
  | nil => rfl
  | cons a l ih =>
    rw [List.foldl_cons, hg a List.mem_cons_self]
    have h1 : IntOp.andi 1#1 1#1 = 1#1 := by decide
    rw [h1]; exact ih (fun n hn => hg n (List.mem_cons_of_mem _ hn))

/-- The start-index column at `(r, 0)` is the wrapped index at `r`. -/
theorem takeStart_apply (i : IVec S100000 32) (k : S100000x1.Idx) :
    takeStart i k = takeWrap i (ix1 (n := 100000) (k 0)) := by
  unfold takeStart broadcastInDim
  congr 1; funext a; match a with | ⟨0, _⟩ => rfl

/-- The signed comparison `v ≥ 0` as an inequality of integers. -/
theorem sge_zero_iff (v : BitVec 32) : IntOp.cmpi .sge v 0#32 = 1#1 ↔ 0 ≤ v.toInt := by
  unfold IntOp.cmpi
  simp only [BitVec.sle, BitVec.toInt_zero]
  by_cases h : 0 ≤ v.toInt <;> simp [h]

/-- The signed comparison `v ≤ c` as an inequality of integers. -/
theorem sle_iff (v c : BitVec 32) : IntOp.cmpi .sle v c = 1#1 ↔ v.toInt ≤ c.toInt := by
  unfold IntOp.cmpi
  simp only [BitVec.sle]
  by_cases h : v.toInt ≤ c.toInt <;> simp [h]

/-- A non-negative integer is not below zero. -/
theorem slt_zero_of_nonneg (v : BitVec 32) (h : 0 ≤ v.toInt) : IntOp.cmpi .slt v 0#32 = 0#1 := by
  unfold IntOp.cmpi
  simp only [BitVec.slt, BitVec.toInt_zero]
  have : ¬ v.toInt < 0 := by omega
  simp [this]

/-- A non-negative index is its own wrapped index. -/
theorem takeWrap_apply (i : IVec S100000 32) (r : S100000.Idx) (h : IntOp.cmpi .sge (i r) 0#32 = 1#1) :
    takeWrap i r = i r := by
  unfold takeWrap
  rw [select_apply]
  have h0 : cmpi .slt i (broadcastInDim S100000 ![] bcast_S_S100000 (constantI S_ 32 0#32)) r = 0#1 :=
    slt_zero_of_nonneg (i r) ((sge_zero_iff _).1 h)
  rw [h0, select_zero]

/-- With every index in `[0, 99999]` the in-range mask is set in every row. -/
theorem takeMask_one (i : IVec S100000 32) (hlo : ∀ r, IntOp.cmpi .sge (i r) 0#32 = 1#1)
    (hhi : ∀ r, IntOp.cmpi .sle (i r) 99999#32 = 1#1) (r : S100000.Idx) : takeMask i r = 1#1 := by
  unfold takeMask Host.reduce
  refine foldl_andi_one _ _ ?_
  intro n _
  show IntOp.andi (IntOp.cmpi .sge (takeStart i (S100000x1.rowMajor.symm n)) 0#32)
      (IntOp.cmpi .sle (takeStart i (S100000x1.rowMajor.symm n)) 99999#32) = 1#1
  rw [takeStart_apply, takeWrap_apply i _ (hlo _), hlo, hhi]; decide

/-- The row gather's dimension numbers: one start-index component, naming the row; the row collapsed, the columns the offset axis. -/
abbrev gd : GatherDims S100000x128 S100000x1 S100000x128 := gather_S100000x128_S100000x1_S100000x128_1_0_n_n_0_1_1128

/-- THE GATHER READ AT `(r, c)`: the table at the row the start index names, read signed and clamped into
    `[0, 99999]`, and at column `c`. On the row axis the operand index is the clamped start (the axis is collapsed
    and not a batching one); on the column axis it is the result's offset coordinate (the start index map does not
    name that axis). -/
theorem takeGather_apply (x : FVec F S100000x128 .f32) (i : IVec S100000 32) (j : S100000x128.Idx) :
    takeGather x i j
      = x (ix2 (n0 := 100000) (n1 := 128)
          ⟨min (takeWrap i (ix1 (n := 100000) (j 0))).toInt.toNat 99999, by omega⟩ (j 1)) := by
  unfold takeGather Host.gather
  congr 1
  funext a
  refine Fin.ext ?_
  match a with
  | ⟨0, _⟩ =>
    show gd.start j (takeStart i) 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl), takeStart_apply]
    rfl
  | ⟨1, _⟩ =>
    show gd.start j (takeStart i) 1 + gd.batchCoord j 1 + gd.offCoord j 1 = (j 1).val
    have hs : gd.start j (takeStart i) 1 = 0 := by
      unfold GatherDims.start
      rw [dif_neg (show (1 : Fin 2) ∉ gd.startIndexMap by decide)]
    rw [hs, GatherDims.batchCoord_eq_zero _ _ _ List.not_mem_nil, Nat.add_zero, Nat.zero_add]
    unfold GatherDims.offCoord
    rw [dif_pos ((GatherDims.mem_sKept _ _).mpr ⟨by decide, List.not_mem_nil⟩)]
    rfl

/-- THE LOOKUP READ AT `(r, c)` under the index range: the table's row `i r`, column `c`. -/
theorem take_apply (x : FVec F S100000x128 .f32) (i : IVec S100000 32) (hlo : ∀ r, IntOp.cmpi .sge (i r) 0#32 = 1#1)
    (hhi : ∀ r, IntOp.cmpi .sle (i r) 99999#32 = 1#1) (j : S100000x128.Idx)
    (hr : (i (ix1 (n := 100000) (j 0))).toInt.toNat < 100000) :
    take x i j = x (ix2 (n0 := 100000) (n1 := 128) ⟨(i (ix1 (n := 100000) (j 0))).toInt.toNat, hr⟩ (j 1)) := by
  unfold take
  rw [select_apply]
  have hm : broadcastInDim S100000x128 ![0] bcast_S100000_S100000x128_0 (takeMask i) j = 1#1 := by
    unfold broadcastInDim; exact takeMask_one i hlo hhi _
  rw [hm, select_one, takeGather_apply]
  have hv : min (takeWrap i (ix1 (n := 100000) (j 0))).toInt.toNat 99999 = (i (ix1 (n := 100000) (j 0))).toInt.toNat := by
    rw [takeWrap_apply i _ (hlo _)]; omega
  exact congrArg (fun v : Fin 100000 => x (ix2 (n0 := 100000) (n1 := 128) v (j 1))) (Fin.ext hv)

/-- The row index is in the table. -/
theorem take_row_lt (i : IVec S100000 32) (hhi : ∀ r, IntOp.cmpi .sle (i r) 99999#32 = 1#1) (r : S100000.Idx) :
    (i r).toInt.toNat < 100000 := by
  have h := (sle_iff _ _).1 (hhi r)
  have h9 : (99999#32 : BitVec 32).toInt = 99999 := by decide
  rw [h9] at h
  omega

end Cert.ReferenceIdeal.RefRun

end
-- ==== Proof.RefCatIdx.lean ====
import proofs.«215994_g5102421148354_cont_8to1c4_853_29_alg».proof.Proof.RefStages
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.ValueIdx

variable {F : FTy → Type} [FloatOps F]

/-- THE CONCATENATION READ AT `(r, 128 k + c)`: block `k` at `(r, c)`. -/
theorem cat_apply (t0 t1 t2 t3 : FVec F S100000x128 .f32) (j : S100000x512.Idx) (k : Fin 4) (c : Fin 128)
    (hc : 128 * k.val + c.val = (j 1).val) :
    cat t0 t1 t2 t3 j = (![t0, t1, t2, t3] k) (ix2 (n0 := 100000) (n1 := 128) (j 0) c) := by
  unfold cat
  have hi : ∀ b : Fin S100000x128.rank, b.cast (rfl : S100000x128.rank = S100000x512.rank) ≠ (1 : Fin S100000x512.rank) →
      ((ix2 (n0 := 100000) (n1 := 128) (j 0) c) b).val = (j (b.cast rfl)).val := by
    intro b hb
    match b with
    | ⟨0, _⟩ => rfl
    | ⟨1, _⟩ => exact absurd rfl hb
  fin_cases k
  · exact concatenate_apply_piece 1 _ _ j 0 (by show 0 < 4; omega) S100000x128 t0 rfl rfl 0 rfl _ hi (by simpa using hc)
  · exact concatenate_apply_piece 1 _ _ j 1 (by show 1 < 4; omega) S100000x128 t1 rfl rfl 128 rfl _ hi (by simpa using hc)
  · exact concatenate_apply_piece 1 _ _ j 2 (by show 2 < 4; omega) S100000x128 t2 rfl rfl 256 rfl _ hi (by simpa using hc)
  · exact concatenate_apply_piece 1 _ _ j 3 (by show 3 < 4; omega) S100000x128 t3 rfl rfl 384 rfl _ hi (by simpa using hc)

end Cert.ReferenceIdeal.RefRun

end
-- ==== Proof.RowSpec.lean ====
import Idealize.ShloMosaic.PureOps.Ideal
import Idealize.ShloMosaic.PureOps.Ideal.Laws
import Idealize.ShloMosaic.Lib.ValueIdx

noncomputable section

open scoped BigOperators

namespace Cert.RowSpec

open Idealize.ShloMosaic

/-! ## One row of the computation, over the extended reals

A row `g` of 512 gathered values goes through the dense layer `max (g · wᵀ + b) 0` and then a layer norm over its 512
entries: mean `Σ y / 512`, variance `Σ (y - mean)² / 512`, and `(y - mean) / sqrt (variance + ε) · γ + β`. The two
programs differ in one place: one divides by the square root, the other multiplies by the reciprocal square root. For a
row of reals these agree, since the variance is then a real that is not negative and `ε` is positive. -/

/-- The layer norm's `ε`, as the word both programs hold. -/
abbrev eps : EReal := Ideal.ofBits .f32 0x358637BD#32
/-- The row length as the float both programs divide by. -/
abbrev c512 : EReal := Ideal.ofBits .f32 0x44000000#32

/-- The rectified dense layer of a row. -/
def rowY (g : Fin 512 → EReal) (w : Fin 512 → Fin 512 → EReal) (b : Fin 512 → EReal) (c : Fin 512) : EReal :=
  max ((∑ k : Fin 512, g k * w c k) + b c) 0

/-- A row's mean. -/
def rowMean (y : Fin 512 → EReal) : EReal := Ideal.div (∑ c : Fin 512, y c) c512

/-- A row's (population) variance. -/
def rowVar (y : Fin 512 → EReal) : EReal :=
  Ideal.div (∑ c : Fin 512, (y c - rowMean y) * (y c - rowMean y)) c512

/-- The row's result, dividing by the square root. -/
def rowFn (g : Fin 512 → EReal) (w : Fin 512 → Fin 512 → EReal) (b γ β : Fin 512 → EReal) : Fin 512 → EReal := fun c =>
  Ideal.div (rowY g w b c - rowMean (rowY g w b)) (Ideal.sqrt (rowVar (rowY g w b) + eps)) * γ c + β c

/-- The row's result, multiplying by the reciprocal square root. -/
def rowFnK (g : Fin 512 → EReal) (w : Fin 512 → Fin 512 → EReal) (b γ β : Fin 512 → EReal) : Fin 512 → EReal := fun c =>
  (rowY g w b c - rowMean (rowY g w b)) * Ideal.rsqrt (rowVar (rowY g w b) + eps) * γ c + β c

theorem c512_eq : c512 = ((512 : ℝ) : EReal) := by
  simp [c512, Ideal.ofBits, Ideal.ieee, -EReal.coe_mul]; norm_num

theorem eps_pos : ∃ e : ℝ, 0 < e ∧ eps = (e : EReal) := by
  refine ⟨(8796093 : ℝ) * (2 : ℝ) ^ (-43 : ℤ), by positivity, ?_⟩
  simp [eps, Ideal.ofBits, Ideal.ieee, -EReal.coe_mul]

/-- A finite sum of reals is a real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Dividing by the square root of a positive real is multiplying by its reciprocal square root. -/
theorem div_sqrt_eq_mul_rsqrt (y : EReal) (v : ℝ) (hv : 0 < v) :
    Ideal.div y (Ideal.sqrt (v : EReal)) = y * Ideal.rsqrt (v : EReal) := by
  have hs : 0 < Real.sqrt v := Real.sqrt_pos.2 hv
  have h1 : Ideal.sqrt (v : EReal) = ((Real.sqrt v : ℝ) : EReal) := by
    show (if v < 0 then ⊥ else ((Real.sqrt v : ℝ) : EReal)) = _
    rw [if_neg (not_lt.2 hv.le)]
  have h2 : Ideal.rsqrt (v : EReal) = (((Real.sqrt v)⁻¹ : ℝ) : EReal) := by
    show (if v < 0 then ⊥ else if v = 0 then ⊤ else (((Real.sqrt v)⁻¹ : ℝ) : EReal)) = _
    rw [if_neg (not_lt.2 hv.le), if_neg hv.ne']
  rw [h1, h2, Ideal.div_coe hs.ne', one_div]

/-- The maximum of two reals, as extended reals. -/
theorem coe_max (x y : ℝ) : ((max x y : ℝ) : EReal) = max (x : EReal) (y : EReal) :=
  EReal.coe_strictMono.monotone.map_max

/-- A real over 512 is a real. -/
theorem div_c512 (x : ℝ) : Ideal.div (x : EReal) c512 = ((x / 512 : ℝ) : EReal) := by
  rw [c512_eq, Ideal.div_coe (by norm_num : (512 : ℝ) ≠ 0), ← EReal.coe_mul, mul_one_div]

/-- FOR A ROW OF REALS (and real weights and bias) the two spellings of the layer norm agree: the variance is a real that
    is not negative, so `variance + ε` is a positive real. -/
theorem rowFnK_eq_rowFn (g : Fin 512 → EReal) (w : Fin 512 → Fin 512 → EReal) (b γ β : Fin 512 → EReal)
    (hg : ∀ k, ∃ x : ℝ, g k = (x : EReal)) (hw : ∀ c k, ∃ x : ℝ, w c k = (x : EReal)) (hb : ∀ c, ∃ x : ℝ, b c = (x : EReal)) :
    rowFnK g w b γ β = rowFn g w b γ β := by
  choose g' hg' using hg
  choose w' hw' using hw
  choose b' hb' using hb
  obtain ⟨e, he, hee⟩ := eps_pos
  -- the rectified row is a row of reals
  have hy : ∀ c, rowY g w b c = ((max ((∑ k : Fin 512, g' k * w' c k) + b' c) 0 : ℝ) : EReal) := by
    intro c
    unfold rowY
    rw [coe_max, EReal.coe_add, ← coe_sum, EReal.coe_zero, hb']
    congr 2
    exact Finset.sum_congr rfl fun k _ => by rw [hg', hw', EReal.coe_mul]
  set y' : Fin 512 → ℝ := fun c => max ((∑ k : Fin 512, g' k * w' c k) + b' c) 0 with hy'
  have hyf : rowY g w b = fun c => ((y' c : ℝ) : EReal) := funext hy
  -- its mean is a real
  have hm : rowMean (rowY g w b) = (((∑ c : Fin 512, y' c) / 512 : ℝ) : EReal) := by
    unfold rowMean
    rw [hyf, coe_sum, div_c512]
  -- its variance is a real that is not negative
  set m' : ℝ := (∑ c : Fin 512, y' c) / 512 with hm'
  have hv : rowVar (rowY g w b) = (((∑ c : Fin 512, (y' c - m') * (y' c - m')) / 512 : ℝ) : EReal) := by
    unfold rowVar
    rw [hm, hyf]
    have : (∑ c : Fin 512, (((y' c : ℝ) : EReal) - ((m' : ℝ) : EReal)) * (((y' c : ℝ) : EReal) - ((m' : ℝ) : EReal)))
        = ∑ c : Fin 512, (((y' c - m') * (y' c - m') : ℝ) : EReal) :=
      Finset.sum_congr rfl fun c _ => by rw [← EReal.coe_sub, ← EReal.coe_mul]
    rw [this, coe_sum, div_c512]
  have hv0 : 0 ≤ (∑ c : Fin 512, (y' c - m') * (y' c - m')) / 512 :=
    div_nonneg (Finset.sum_nonneg fun c _ => mul_self_nonneg _) (by norm_num)
  funext c
  unfold rowFnK rowFn
  rw [hv, hee, ← EReal.coe_add, div_sqrt_eq_mul_rsqrt _ _ (by linarith)]

end Cert.RowSpec

end
-- ==== Proof.RefRow.lean ====
import proofs.«215994_g5102421148354_cont_8to1c4_853_29_alg».proof.Proof.RefStages
import proofs.«215994_g5102421148354_cont_8to1c4_853_29_alg».proof.Proof.RefTakeIdx
import proofs.«215994_g5102421148354_cont_8to1c4_853_29_alg».proof.Proof.RefCatIdx
import proofs.«215994_g5102421148354_cont_8to1c4_853_29_alg».proof.Proof.RowSpec
import proofs.«215994_g5102421148354_cont_8to1c4_853_29_alg».proof.Proof.PreDecode
import Idealize.ShloMosaic.Lib.Pipeline.Value
import Idealize.ShloMosaic.Lib.ValueIdx
import Idealize.ShloMosaic.PureOps.Ideal.Laws

noncomputable section

open scoped BigOperators

namespace Cert.ReferenceIdeal.RefRun

open Cert.ReferenceIdeal Cert.ReferenceIdeal.Gen Idealize.ShloMosaic Idealize.ShloMosaic.ValueIdx

/-! ## The reference's result, row by row

Each stage of the reference's pure term read at an index over the extended reals; entry `(R, c)` of the result is the
row function of row `R` of the concatenated lookups, the weight, and the three vectors. -/

/-- The dense layer's contraction: the array's second axis against the transposed weight's first. -/
abbrev DD : DotDims S100000x512 S512x512 S100000x512 := dot_S100000x512_S512x512_S100000x512_1_0_0_1_n_n

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
/-- A scalar broadcast to a column, at any index. -/
theorem scalarCol_apply {α : Type} (v : S_.Idx → α) (j : S100000x1.Idx) :
    broadcastInDim S100000x1 ![] bcast_S_S100000x1 v j = v ix0 := by
  unfold broadcastInDim
  exact congrArg v (funext fun a => a.elim0)
theorem c512Col_apply (j : S100000x1.Idx) :
    broadcastInDim S100000x1 ![] bcast_S_S100000x1 (constant (F := Ideal) S_ .f32 0x44000000#32) j = RowSpec.c512 := rfl
theorem epsCol_apply (j : S100000x1.Idx) :
    broadcastInDim S100000x1 ![] bcast_S_S100000x1 (constant (F := Ideal) S_ .f32 0x358637BD#32) j = RowSpec.eps := rfl

/-- The dense layer at `(R, c)`: `Σ_k g (R, k) · w (c, k) + b c` (the weight is transposed, then contracted on its first
    axis). -/
theorem lin_apply (g : FVec Ideal S100000x512 .f32) (w : FVec Ideal S512x512 .f32) (b : FVec Ideal S512 .f32)
    (R : Fin 100000) (c : Fin 512) :
    lin g w b (ix2 (n0 := 100000) (n1 := 512) R c)
      = (∑ k : Fin 512, g (ix2 (n0 := 100000) (n1 := 512) R k) * w (ix2 (n0 := 512) (n1 := 512) c k)) + b (ix1 (n := 512) c) := by
  unfold lin
  rw [addf_apply]
  congr 1
  · refine (Ideal.dotGeneral_apply DD none .single g _ _).trans ?_
    refine ((contrEquiv1 DD 512 rfl rfl).symm.sum_comp _).symm.trans ?_
    refine Finset.sum_congr rfl fun k _ => ?_
    have hl : DD.lhsIdx (ix2 (n0 := 100000) (n1 := 512) R c) ((contrEquiv1 DD 512 rfl rfl).symm k) = (ix2 (n0 := 100000) (n1 := 512) R k) := by
      funext a; refine Fin.ext ?_
      match a with
      | ⟨0, _⟩ => rfl
      | ⟨1, _⟩ => exact contrEquiv1_symm_val DD 512 rfl rfl k
    have hr : transpose S512x512 [1, 0] w transposes_S512x512_S512x512_1_0
        (DD.rhsIdx (ix2 (n0 := 100000) (n1 := 512) R c) ((contrEquiv1 DD 512 rfl rfl).symm k)) = w (ix2 (n0 := 512) (n1 := 512) c k) := by
      refine transpose_apply _ w _ _ _ fun b => ?_
      match b with
      | ⟨0, _⟩ => exact (contrEquiv1_symm_val DD 512 rfl rfl k).symm
      | ⟨1, _⟩ => rfl
    rw [hl, hr]
  · unfold broadcastInDim
    refine congrArg b ?_
    funext a; match a with | ⟨0, _⟩ => rfl

/-- The rectifier at an index. -/
theorem relu_apply (y : FVec Ideal S100000x512 .f32) (j : S100000x512.Idx) : relu y j = max (y j) 0 := by
  unfold relu
  rw [maximumf_apply]
  show max (y j) (Ideal.ofBits .f32 0x00000000#32) = _
  rw [Ideal.ofBits_zero_f32]

/-- The sum over the columns, as the host takes it from zero, at row `R`. -/
theorem rowSum_apply (y : FVec Ideal S100000x512 .f32) (R : Fin 100000) :
    Host.reduceAdd y (constant S_ .f32 0x00000000#32) reducesTo_S100000x512_S100000_d1 h_S_ (ix1 (n := 100000) R)
      = ∑ c : Fin 512, y (ix2 (n0 := 100000) (n1 := 512) R c) := by
  have hred : S100000x512.Reduces [1] S100000 := by decide
  show Ideal.hostReduceAdd reducesTo_S100000x512_S100000_d1 y (Ideal.ofBits .f32 0x00000000#32) (ix1 (n := 100000) R) = _
  rw [Ideal.hostReduceAdd_single _ hred, Ideal.ofBits_zero_f32, zero_add]
  refine Finset.sum_congr rfl fun k _ => congrArg y ?_
  funext a; refine Fin.ext ?_
  match a with
  | ⟨0, _⟩ => rfl
  | ⟨1, _⟩ => rfl

/-- A column built from a vector over the rows, at `(R, 0)`. -/
theorem col_apply {α : Type} (v : S100000.Idx → α) (R : Fin 100000) :
    broadcastInDim S100000x1 ![0] bcast_S100000_S100000x1_0 v (ix2 (n0 := 100000) (n1 := 1) R 0) = v (ix1 (n := 100000) R) := by
  unfold broadcastInDim
  refine congrArg v ?_
  funext a; match a with | ⟨0, _⟩ => rfl

/-- A column broadcast over the array, at `(R, c)`. -/
theorem colBcast_apply {α : Type} (v : S100000x1.Idx → α) (R : Fin 100000) (c : Fin 512) :
    broadcastInDim S100000x512 ![0, 1] bcast_S100000x1_S100000x512_0_1 v (ix2 (n0 := 100000) (n1 := 512) R c) = v (ix2 (n0 := 100000) (n1 := 1) R 0) := by
  unfold broadcastInDim
  refine congrArg v ?_
  funext a; refine Fin.ext ?_
  match a with
  | ⟨0, _⟩ => rfl
  | ⟨1, _⟩ => rfl

/-- A vector over the columns broadcast over the array, at `(R, c)`. -/
theorem vecBcast_apply {α : Type} (v : S512.Idx → α) (R : Fin 100000) (c : Fin 512) :
    broadcastInDim S100000x512 ![0, 1] bcast_S1x512_S100000x512_0_1 (broadcastInDim S1x512 ![1] bcast_S512_S1x512_1 v) (ix2 (n0 := 100000) (n1 := 512) R c)
      = v (ix1 (n := 512) c) := by
  unfold broadcastInDim
  refine congrArg v ?_
  funext a; match a with | ⟨0, _⟩ => rfl

/-- The row mean at row `R`. -/
theorem rowMean_apply (y : FVec Ideal S100000x512 .f32) (R : Fin 100000) :
    rowMean y (ix2 (n0 := 100000) (n1 := 1) R 0) = RowSpec.rowMean (fun c => y (ix2 (n0 := 100000) (n1 := 512) R c)) := by
  unfold rowMean RowSpec.rowMean
  rw [hostDivf_apply, col_apply, rowSum_apply, c512Col_apply]

/-- The squared deviation at `(R, c)`. -/
theorem sqDev_apply (y : FVec Ideal S100000x512 .f32) (R : Fin 100000) (c : Fin 512) :
    sqDev y (ix2 (n0 := 100000) (n1 := 512) R c)
      = (y (ix2 (n0 := 100000) (n1 := 512) R c) - RowSpec.rowMean (fun c => y (ix2 (n0 := 100000) (n1 := 512) R c))) * (y (ix2 (n0 := 100000) (n1 := 512) R c) - RowSpec.rowMean (fun c => y (ix2 (n0 := 100000) (n1 := 512) R c))) := by
  unfold sqDev
  rw [mulf_apply, subf_apply, colBcast_apply, rowMean_apply]

/-- The variance's divisor at correction zero is the row length. -/
theorem varCount_zero (i : S_.Idx) : varCount (F := Ideal) (constantI S_ 32 0#32) i = RowSpec.c512 := by
  show RowSpec.c512 - (((0#32 : BitVec 32).toInt : ℝ) : EReal) = _
  have : ((0#32 : BitVec 32).toInt : ℝ) = 0 := by norm_num
  rw [this, EReal.coe_zero, sub_zero]

/-- The row variance (correction zero) at row `R`. -/
theorem rowVar_apply (y : FVec Ideal S100000x512 .f32) (R : Fin 100000) :
    rowVar y (constantI S_ 32 0#32) (ix2 (n0 := 100000) (n1 := 1) R 0) = RowSpec.rowVar (fun c => y (ix2 (n0 := 100000) (n1 := 512) R c)) := by
  unfold rowVar RowSpec.rowVar
  rw [select_apply]
  have hc : broadcastInDim S100000x1 ![] bcast_S_S100000x1
      (cmpf .ogt (varCount (F := Ideal) (constantI S_ 32 0#32)) (constant S_ .f32 0x00000000#32)) (ix2 (n0 := 100000) (n1 := 1) R 0) = 1#1 := by
    rw [scalarCol_apply, cmpf_apply, varCount_zero]
    show Ideal.cmp .ogt RowSpec.c512 (Ideal.ofBits .f32 0x00000000#32) = 1#1
    rw [Ideal.ofBits_zero_f32, RowSpec.c512_eq]
    unfold Ideal.cmp
    have : (0 : EReal) < ((512 : ℝ) : EReal) := by exact_mod_cast (by norm_num : (0 : ℝ) < 512)
    simp [this]
  rw [hc, select_one, hostDivf_apply, col_apply, rowSum_apply, scalarCol_apply, varCount_zero]
  have hs : (∑ c : Fin 512, sqDev y (ix2 (n0 := 100000) (n1 := 512) R c)) = ∑ c : Fin 512, (y (ix2 (n0 := 100000) (n1 := 512) R c) - RowSpec.rowMean (fun c => y (ix2 (n0 := 100000) (n1 := 512) R c))) * (y (ix2 (n0 := 100000) (n1 := 512) R c) - RowSpec.rowMean (fun c => y (ix2 (n0 := 100000) (n1 := 512) R c))) :=
    Finset.sum_congr rfl fun c _ => sqDev_apply y R c
  rw [hs]

/-- The normalisation at `(R, c)`. -/
theorem normWith_apply (y : FVec Ideal S100000x512 .f32) (mu v : FVec Ideal S100000x1 .f32) (gamma beta : FVec Ideal S512 .f32)
    (R : Fin 100000) (c : Fin 512) :
    normWith y mu v gamma beta (ix2 (n0 := 100000) (n1 := 512) R c)
      = Ideal.div (y (ix2 (n0 := 100000) (n1 := 512) R c) - mu (ix2 (n0 := 100000) (n1 := 1) R 0)) (Ideal.sqrt (v (ix2 (n0 := 100000) (n1 := 1) R 0) + RowSpec.eps)) * gamma (ix1 (n := 512) c)
          + beta (ix1 (n := 512) c) := by
  unfold normWith
  rw [addf_apply, mulf_apply, vecBcast_apply, vecBcast_apply, hostDivf_apply, subf_apply, colBcast_apply, colBcast_apply,
    hostSqrt_apply, addf_apply, epsCol_apply]

/-! ### The gathered row, and the result at an index -/

open Cert.Pre_input_domain.Decode (rngAt sge_of_rng sle_of_rng toInt_toNat_of_rng)

/-- The lookup at `(R, cc)` under the index range, the index word read unsigned. -/
theorem take_apply_toNat (x : FVec Ideal S100000x128 .f32) (i : IVec S100000 32) (hi : ∀ r, rngAt (i r) = 1#1)
    (R : Fin 100000) (cc : Fin 128) (hr : (i (ix1 (n := 100000) R)).toNat < 100000) :
    take x i (ix2 (n0 := 100000) (n1 := 128) R cc) = x (ix2 (n0 := 100000) (n1 := 128) ⟨(i (ix1 (n := 100000) R)).toNat, hr⟩ cc) := by
  have e := toInt_toNat_of_rng (hi (ix1 (n := 100000) R))
  rw [take_apply x i (fun r => sge_of_rng (hi r)) (fun r => sle_of_rng (hi r)) _
    (by show (i (ix1 (n := 100000) R)).toInt.toNat < 100000; omega)]
  exact congrArg (fun v : Fin 100000 => x (ix2 (n0 := 100000) (n1 := 128) v cc)) (Fin.ext e)

section Blocks
variable (t0 t1 t2 t3 : FVec Ideal S100000x128 .f32) (j : S100000x512.Idx) (cc : Fin 128)
/-- Columns `0 … 127` of the concatenation are the first block. -/
theorem cat_block0 (hc : cc.val = (j 1).val) : cat t0 t1 t2 t3 j = t0 (ix2 (n0 := 100000) (n1 := 128) (j 0) cc) :=
  cat_apply t0 t1 t2 t3 j 0 cc (by show 128 * 0 + cc.val = (j 1).val; omega)
/-- Columns `128 … 255` are the second. -/
theorem cat_block1 (hc : 128 + cc.val = (j 1).val) : cat t0 t1 t2 t3 j = t1 (ix2 (n0 := 100000) (n1 := 128) (j 0) cc) :=
  cat_apply t0 t1 t2 t3 j 1 cc (by show 128 * 1 + cc.val = (j 1).val; omega)
/-- Columns `256 … 383` are the third. -/
theorem cat_block2 (hc : 256 + cc.val = (j 1).val) : cat t0 t1 t2 t3 j = t2 (ix2 (n0 := 100000) (n1 := 128) (j 0) cc) :=
  cat_apply t0 t1 t2 t3 j 2 cc (by show 128 * 2 + cc.val = (j 1).val; omega)
/-- Columns `384 … 511` are the fourth. -/
theorem cat_block3 (hc : 384 + cc.val = (j 1).val) : cat t0 t1 t2 t3 j = t3 (ix2 (n0 := 100000) (n1 := 128) (j 0) cc) :=
  cat_apply t0 t1 t2 t3 j 3 cc (by show 128 * 3 + cc.val = (j 1).val; omega)
end Blocks

/-- The rectified dense layer at `(R, c)`, for a row `g` that is row `R` of the concatenated lookups. -/
theorem act_apply (a0 a1 a2 a3 : FVec Ideal S100000x128 .f32) (a4 a5 a6 a7 : IVec S100000 32) (a8 : FVec Ideal S512x512 .f32) (a9 : FVec Ideal S512 .f32)
    (R : Fin 100000) (g : Fin 512 → EReal) (hg : ∀ k : Fin 512, cat (take a0 a4) (take a1 a5) (take a2 a6) (take a3 a7) (ix2 (n0 := 100000) (n1 := 512) R k) = g k) (c : Fin 512) :
    act a0 a1 a2 a3 a4 a5 a6 a7 a8 a9 (ix2 (n0 := 100000) (n1 := 512) R c) = RowSpec.rowY g (fun c k => a8 (ix2 (n0 := 512) (n1 := 512) c k)) (fun c => a9 (ix1 (n := 512) c)) c := by
  unfold act RowSpec.rowY
  rw [relu_apply, lin_apply]
  have hs : (∑ k : Fin 512, cat (take a0 a4) (take a1 a5) (take a2 a6) (take a3 a7) (ix2 (n0 := 100000) (n1 := 512) R k) * a8 (ix2 (n0 := 512) (n1 := 512) c k))
      = ∑ k : Fin 512, g k * a8 (ix2 (n0 := 512) (n1 := 512) c k) := Finset.sum_congr rfl fun k _ => by rw [hg]
  rw [hs]

/-- ENTRY `(R, c)` OF THE REFERENCE'S RESULT: the row function of row `R` of the concatenated lookups. -/
theorem res_apply_of (a0 a1 a2 a3 : FVec Ideal S100000x128 .f32) (a4 a5 a6 a7 : IVec S100000 32) (a8 : FVec Ideal S512x512 .f32) (a9 a10 a11 : FVec Ideal S512 .f32)
    (R : Fin 100000) (g : Fin 512 → EReal) (hg : ∀ k : Fin 512, cat (take a0 a4) (take a1 a5) (take a2 a6) (take a3 a7) (ix2 (n0 := 100000) (n1 := 512) R k) = g k) (c : Fin 512) :
    res a0 a1 a2 a3 a4 a5 a6 a7 a8 a9 a10 a11 (ix2 (n0 := 100000) (n1 := 512) R c) = RowSpec.rowFn g (fun c k => a8 (ix2 (n0 := 512) (n1 := 512) c k)) (fun c => a9 (ix1 (n := 512) c)) (fun c => a10 (ix1 (n := 512) c)) (fun c => a11 (ix1 (n := 512) c)) c := by
  have hA : (fun c => act a0 a1 a2 a3 a4 a5 a6 a7 a8 a9 (ix2 (n0 := 100000) (n1 := 512) R c)) = RowSpec.rowY g (fun c k => a8 (ix2 (n0 := 512) (n1 := 512) c k)) (fun c => a9 (ix1 (n := 512) c)) :=
    funext fun c => act_apply a0 a1 a2 a3 a4 a5 a6 a7 a8 a9 R g hg c
  unfold res layerNorm RowSpec.rowFn
  rw [normWith_apply, rowMean_apply, rowVar_apply, hA, act_apply a0 a1 a2 a3 a4 a5 a6 a7 a8 a9 R g hg c]

/-- The same under the index range, for a row `g` given block by block: on columns `128 t … 128 t + 127` it is table `t`
    at row `i_t R` (the index word read unsigned). -/
theorem res_apply (a0 a1 a2 a3 : FVec Ideal S100000x128 .f32) (a4 a5 a6 a7 : IVec S100000 32) (a8 : FVec Ideal S512x512 .f32) (a9 a10 a11 : FVec Ideal S512 .f32)
    (h4 : ∀ r, rngAt (a4 r) = 1#1) (h5 : ∀ r, rngAt (a5 r) = 1#1) (h6 : ∀ r, rngAt (a6 r) = 1#1) (h7 : ∀ r, rngAt (a7 r) = 1#1)
    (R : Fin 100000) (hr4 : (a4 (ix1 (n := 100000) R)).toNat < 100000) (hr5 : (a5 (ix1 (n := 100000) R)).toNat < 100000)
    (hr6 : (a6 (ix1 (n := 100000) R)).toNat < 100000) (hr7 : (a7 (ix1 (n := 100000) R)).toNat < 100000) (g : Fin 512 → EReal)
    (hg0 : ∀ (cc : Fin 128) (k : Fin 512), cc.val = k.val → g k = a0 (ix2 (n0 := 100000) (n1 := 128) ⟨(a4 (ix1 (n := 100000) R)).toNat, hr4⟩ cc))
    (hg1 : ∀ (cc : Fin 128) (k : Fin 512), 128 + cc.val = k.val → g k = a1 (ix2 (n0 := 100000) (n1 := 128) ⟨(a5 (ix1 (n := 100000) R)).toNat, hr5⟩ cc))
    (hg2 : ∀ (cc : Fin 128) (k : Fin 512), 256 + cc.val = k.val → g k = a2 (ix2 (n0 := 100000) (n1 := 128) ⟨(a6 (ix1 (n := 100000) R)).toNat, hr6⟩ cc))
    (hg3 : ∀ (cc : Fin 128) (k : Fin 512), 384 + cc.val = k.val → g k = a3 (ix2 (n0 := 100000) (n1 := 128) ⟨(a7 (ix1 (n := 100000) R)).toNat, hr7⟩ cc))
    (c : Fin 512) :
    res a0 a1 a2 a3 a4 a5 a6 a7 a8 a9 a10 a11 (ix2 (n0 := 100000) (n1 := 512) R c) = RowSpec.rowFn g (fun c k => a8 (ix2 (n0 := 512) (n1 := 512) c k)) (fun c => a9 (ix1 (n := 512) c)) (fun c => a10 (ix1 (n := 512) c)) (fun c => a11 (ix1 (n := 512) c)) c := by
  refine res_apply_of a0 a1 a2 a3 a4 a5 a6 a7 a8 a9 a10 a11 R g (fun k => ?_) c
  have hk := k.isLt
  by_cases h1 : k.val < 128
  · rw [cat_block0 _ _ _ _ _ ⟨k.val, h1⟩ rfl]
    show take a0 a4 (ix2 (n0 := 100000) (n1 := 128) R ⟨k.val, h1⟩) = g k
    rw [take_apply_toNat a0 a4 h4 R _ hr4]
    exact (hg0 ⟨k.val, h1⟩ k rfl).symm
  by_cases h2 : k.val < 256
  · have e : 128 + (k.val - 128) = k.val := by omega
    rw [cat_block1 _ _ _ _ _ ⟨k.val - 128, by omega⟩ e]
    show take a1 a5 (ix2 (n0 := 100000) (n1 := 128) R ⟨k.val - 128, by omega⟩) = g k
    rw [take_apply_toNat a1 a5 h5 R _ hr5]
    exact (hg1 ⟨k.val - 128, by omega⟩ k e).symm
  by_cases h3 : k.val < 384
  · have e : 256 + (k.val - 256) = k.val := by omega
    rw [cat_block2 _ _ _ _ _ ⟨k.val - 256, by omega⟩ e]
    show take a2 a6 (ix2 (n0 := 100000) (n1 := 128) R ⟨k.val - 256, by omega⟩) = g k
    rw [take_apply_toNat a2 a6 h6 R _ hr6]
    exact (hg2 ⟨k.val - 256, by omega⟩ k e).symm
  · have e : 384 + (k.val - 384) = k.val := by omega
    rw [cat_block3 _ _ _ _ _ ⟨k.val - 384, by omega⟩ e]
    show take a3 a7 (ix2 (n0 := 100000) (n1 := 128) R ⟨k.val - 384, by omega⟩) = g k
    rw [take_apply_toNat a3 a7 h7 R _ hr7]
    exact (hg3 ⟨k.val - 384, by omega⟩ k e).symm

end Cert.ReferenceIdeal.RefRun

end
-- ==== Proof.KerRow.lean ====
import proofs.«215994_g5102421148354_cont_8to1c4_853_29_alg».proof.Proof.Gen.KernelIdeal.Skeleton
import proofs.«215994_g5102421148354_cont_8to1c4_853_29_alg».proof.Proof.RowSpec
import Idealize.ShloMosaic.Lib.Pipeline.Value
import Idealize.ShloMosaic.Lib.ValueIdx
import Idealize.ShloMosaic.PureOps.Ideal.Laws

noncomputable section

open scoped BigOperators

namespace Cert.KernelIdeal.KerRow

open Cert.KernelIdeal Cert.KernelIdeal.Gen Idealize.ShloMosaic Idealize.ShloMosaic.ValueIdx Cert.RowSpec

/-! ## The TensorCore body's block, row by row

The body's one store writes, into a block of 896 rows, a term of the five blocks it loaded. Here that term is cut into
its stages, each read at an index over the extended reals: entry `(r, c)` of the result is the row function of row `r`
of the gathered block, the weight, and the three vectors. -/

section Stages
variable {F : FTy → Type} [FloatOps F]

/-- `x · wᵀ + b`: the product into a zero accumulator, the bias row added to every row. -/
def kLin (v0 : Vec F S896x512 .f32) (v2 : Vec F S512x512 .f32) (v4 : Vec F S1x512 .f32) : FVec F S896x512 .f32 :=
  addf (matmul dot_S896x512_S512x512_S896x512_1_1_0_0_n_n none (shapeCast S896x512 v0 shapeCasts_S896x512_S896x512) v2
      (constant S896x512 .f32 0x00000000#32))
    (broadcastTo S896x512 (shapeCast S1x512 v4 shapeCasts_S1x512_S1x512) broadcasts_S1x512_S896x512)

/-- The rectifier. -/
def kY (v0 : Vec F S896x512 .f32) (v2 : Vec F S512x512 .f32) (v4 : Vec F S1x512 .f32) : FVec F S896x512 .f32 :=
  maximumf (kLin v0 v2 v4) (broadcast S896x512 (Scalar.ofBits .f32 0x00000000#32))

/-- A block's row sums, as a column. -/
def kRowSum (v : FVec F S896x512 .f32) : FVec F S896x1 .f32 :=
  shapeCast S896x1 (multiReduction .add [1] S896 v 0x00000000#32 reduces_S896x512_S896 (.inl rfl) rfl) shapeCasts_S896_S896x1

/-- The row means. -/
def kMean (y : FVec F S896x512 .f32) : FVec F S896x1 .f32 :=
  divf (kRowSum y) (broadcast S896x1 (Scalar.ofBits .f32 0x44000000#32))

/-- The deviations from the row means. -/
def kDev (y : FVec F S896x512 .f32) : FVec F S896x512 .f32 :=
  subf y (broadcastTo S896x512 (kMean y) broadcasts_S896x1_S896x512)

/-- The row variances. -/
def kVar (y : FVec F S896x512 .f32) : FVec F S896x1 .f32 :=
  divf (kRowSum (mulf (kDev y) (kDev y))) (broadcast S896x1 (Scalar.ofBits .f32 0x44000000#32))

/-- The stored term: deviations times the reciprocal square root of variance plus `ε`, scaled and shifted. -/
def kOut (v0 : Vec F S896x512 .f32) (v2 : Vec F S512x512 .f32) (v4 v26 v30 : Vec F S1x512 .f32) : FVec F S896x512 .f32 :=
  addf
    (mulf
      (mulf (kDev (kY v0 v2 v4))
        (broadcastTo S896x512 (rsqrt (addf (kVar (kY v0 v2 v4)) (broadcast S896x1 (Scalar.ofBits .f32 0x358637BD#32))))
          broadcasts_S896x1_S896x512))
      (broadcastTo S896x512 (shapeCast S1x512 v26 shapeCasts_S1x512_S1x512) broadcasts_S1x512_S896x512))
    (broadcastTo S896x512 (shapeCast S1x512 v30 shapeCasts_S1x512_S1x512) broadcasts_S1x512_S896x512)

/-- The body's stored term is these stages composed. -/
theorem k4_pay1_eq (v0 : Vec F S896x512 .f32) (v2 : Vec F S512x512 .f32) (v4 v26 v30 : Vec F S1x512 .f32) :
    k4_pay1 v0 v2 v4 v26 v30 = kOut v0 v2 v4 v26 v30 := rfl

end Stages

/-! ### The layout operations and the two contractions at an index -/

/-- The product into a zero accumulator at `(r, c)`: `Σ_k x (r, k) · w (c, k)` (both operands contracted on their
    second axis). -/
theorem mm_apply (v0 : FVec Ideal S896x512 .f32) (v2 : FVec Ideal S512x512 .f32) (r : Fin 896) (c : Fin 512) :
    matmul dot_S896x512_S512x512_S896x512_1_1_0_0_n_n none v0 v2 (constant S896x512 .f32 0x00000000#32)
        (ix2 (n0 := 896) (n1 := 512) r c)
      = ∑ k : Fin 512, v0 (ix2 (n0 := 896) (n1 := 512) r k) * v2 (ix2 (n0 := 512) (n1 := 512) c k) := by
  refine (Ideal.matmul_constant_zero_apply _ none v0 v2 _).trans ?_
  refine ((contrEquiv1 dot_S896x512_S512x512_S896x512_1_1_0_0_n_n 512 rfl rfl).symm.sum_comp _).symm.trans ?_
  refine Finset.sum_congr rfl fun k _ => ?_
  have hl : dot_S896x512_S512x512_S896x512_1_1_0_0_n_n.lhsIdx (ix2 (n0 := 896) (n1 := 512) r c)
      ((contrEquiv1 dot_S896x512_S512x512_S896x512_1_1_0_0_n_n 512 rfl rfl).symm k) = ix2 (n0 := 896) (n1 := 512) r k := by
    funext a; refine Fin.ext ?_
    match a with
    | ⟨0, _⟩ => rfl
    | ⟨1, _⟩ => exact contrEquiv1_symm_val dot_S896x512_S512x512_S896x512_1_1_0_0_n_n 512 rfl rfl k
  have hr : dot_S896x512_S512x512_S896x512_1_1_0_0_n_n.rhsIdx (ix2 (n0 := 896) (n1 := 512) r c)
      ((contrEquiv1 dot_S896x512_S512x512_S896x512_1_1_0_0_n_n 512 rfl rfl).symm k) = ix2 (n0 := 512) (n1 := 512) c k := by
    funext a; refine Fin.ext ?_
    match a with
    | ⟨0, _⟩ => rfl
    | ⟨1, _⟩ => exact contrEquiv1_symm_val dot_S896x512_S512x512_S896x512_1_1_0_0_n_n 512 rfl rfl k
  rw [hl, hr]

/-- A row vector broadcast over the block, at `(r, c)`: its entry `c`. -/
theorem bcastRow_apply {α : Type} (v : S1x512.Idx → α) (r : Fin 896) (c : Fin 512) :
    broadcastTo S896x512 v broadcasts_S1x512_S896x512 (ix2 (n0 := 896) (n1 := 512) r c) = v (ix2 (n0 := 1) (n1 := 512) 0 c) := by
  refine broadcastTo_apply v _ _ _ fun a => ?_
  match a with
  | ⟨0, _⟩ => rfl
  | ⟨1, _⟩ => rfl

/-- A column broadcast over the block, at `(r, c)`: its entry `r`. -/
theorem bcastCol_apply {α : Type} (v : S896x1.Idx → α) (r : Fin 896) (c : Fin 512) :
    broadcastTo S896x512 v broadcasts_S896x1_S896x512 (ix2 (n0 := 896) (n1 := 512) r c) = v (ix2 (n0 := 896) (n1 := 1) r 0) := by
  refine broadcastTo_apply v _ _ _ fun a => ?_
  match a with
  | ⟨0, _⟩ => rfl
  | ⟨1, _⟩ => rfl

/-- A block's row sum at row `r`. -/
theorem kRowSum_apply (v : FVec Ideal S896x512 .f32) (r : Fin 896) :
    kRowSum v (ix2 (n0 := 896) (n1 := 1) r 0) = ∑ c : Fin 512, v (ix2 (n0 := 896) (n1 := 512) r c) := by
  unfold kRowSum
  refine (shapeCast_apply _ _ _ (ix1 (n := 896) r) ?_).trans ?_
  · rw [Shape.rowMajor_val_one, Shape.rowMajor_val_two]
    show r.val = r.val * 1 + 0
    omega
  refine (Ideal.multiReduction_add_single v _ reduces_S896x512_S896 _ _ _).trans ?_
  refine Finset.sum_congr rfl fun k _ => congrArg v ?_
  funext a; refine Fin.ext ?_
  match a with
  | ⟨0, _⟩ => rfl
  | ⟨1, _⟩ => rfl

/-! ### The stages at an index -/

/-- The rectified dense layer at `(r, c)`: the row function's first stage on row `r`. -/
theorem kY_apply (v0 : FVec Ideal S896x512 .f32) (v2 : FVec Ideal S512x512 .f32) (v4 : FVec Ideal S1x512 .f32)
    (r : Fin 896) (c : Fin 512) :
    kY (F := Ideal) v0 v2 v4 (ix2 (n0 := 896) (n1 := 512) r c)
      = rowY (fun k => v0 (ix2 (n0 := 896) (n1 := 512) r k)) (fun c k => v2 (ix2 (n0 := 512) (n1 := 512) c k))
          (fun c => v4 (ix2 (n0 := 1) (n1 := 512) 0 c)) c := by
  unfold kY kLin rowY
  rw [maximumf_apply, addf_apply, shapeCast_self, shapeCast_self, mm_apply, bcastRow_apply, broadcast_apply]
  show max _ (Ideal.ofBits .f32 0x00000000#32) = _
  rw [Ideal.ofBits_zero_f32]

/-- The row mean at row `r`. -/
theorem kMean_apply (y : FVec Ideal S896x512 .f32) (r : Fin 896) :
    kMean (F := Ideal) y (ix2 (n0 := 896) (n1 := 1) r 0) = rowMean (fun c => y (ix2 (n0 := 896) (n1 := 512) r c)) := by
  unfold kMean rowMean
  rw [divf_apply, kRowSum_apply, broadcast_apply]
  rfl

/-- The deviation at `(r, c)`. -/
theorem kDev_apply (y : FVec Ideal S896x512 .f32) (r : Fin 896) (c : Fin 512) :
    kDev (F := Ideal) y (ix2 (n0 := 896) (n1 := 512) r c)
      = y (ix2 (n0 := 896) (n1 := 512) r c) - rowMean (fun c => y (ix2 (n0 := 896) (n1 := 512) r c)) := by
  unfold kDev
  rw [subf_apply, bcastCol_apply, kMean_apply]

/-- The row variance at row `r`. -/
theorem kVar_apply (y : FVec Ideal S896x512 .f32) (r : Fin 896) :
    kVar (F := Ideal) y (ix2 (n0 := 896) (n1 := 1) r 0) = rowVar (fun c => y (ix2 (n0 := 896) (n1 := 512) r c)) := by
  unfold kVar rowVar
  rw [divf_apply, kRowSum_apply, broadcast_apply]
  have : (∑ c : Fin 512, mulf (kDev (F := Ideal) y) (kDev (F := Ideal) y) (ix2 (n0 := 896) (n1 := 512) r c))
      = ∑ c : Fin 512, (y (ix2 (n0 := 896) (n1 := 512) r c) - rowMean (fun c => y (ix2 (n0 := 896) (n1 := 512) r c)))
          * (y (ix2 (n0 := 896) (n1 := 512) r c) - rowMean (fun c => y (ix2 (n0 := 896) (n1 := 512) r c))) :=
    Finset.sum_congr rfl fun c _ => by rw [mulf_apply, kDev_apply]
  rw [this]
  rfl

/-- THE STORED TERM AT `(r, c)`: the row function (reciprocal-square-root spelling) of row `r` of the gathered block,
    the weight, and row 0 of the bias, scale and shift blocks. -/
theorem kOut_apply (v0 : FVec Ideal S896x512 .f32) (v2 : FVec Ideal S512x512 .f32) (v4 v26 v30 : FVec Ideal S1x512 .f32)
    (r : Fin 896) (c : Fin 512) :
    kOut (F := Ideal) v0 v2 v4 v26 v30 (ix2 (n0 := 896) (n1 := 512) r c)
      = rowFnK (fun k => v0 (ix2 (n0 := 896) (n1 := 512) r k)) (fun c k => v2 (ix2 (n0 := 512) (n1 := 512) c k))
          (fun c => v4 (ix2 (n0 := 1) (n1 := 512) 0 c)) (fun c => v26 (ix2 (n0 := 1) (n1 := 512) 0 c))
          (fun c => v30 (ix2 (n0 := 1) (n1 := 512) 0 c)) c := by
  have hY : (fun c => kY (F := Ideal) v0 v2 v4 (ix2 (n0 := 896) (n1 := 512) r c))
      = rowY (fun k => v0 (ix2 (n0 := 896) (n1 := 512) r k)) (fun c k => v2 (ix2 (n0 := 512) (n1 := 512) c k))
          (fun c => v4 (ix2 (n0 := 1) (n1 := 512) 0 c)) := funext fun c => kY_apply v0 v2 v4 r c
  unfold kOut rowFnK
  rw [addf_apply, mulf_apply, mulf_apply, kDev_apply, bcastCol_apply, bcastRow_apply, bcastRow_apply, shapeCast_self,
    shapeCast_self, hY, kY_apply]
  show _ * Ideal.rsqrt (kVar (F := Ideal) (kY (F := Ideal) v0 v2 v4) (ix2 (n0 := 896) (n1 := 1) r 0) + eps) * _ + _ = _
  rw [kVar_apply, hY]

/-- The same for the body's stored term as the program spells it. -/
theorem k4_pay1_apply (v0 : FVec Ideal S896x512 .f32) (v2 : FVec Ideal S512x512 .f32) (v4 v26 v30 : FVec Ideal S1x512 .f32)
    (r : Fin 896) (c : Fin 512) :
    k4_pay1 (F := Ideal) v0 v2 v4 v26 v30 (ix2 (n0 := 896) (n1 := 512) r c)
      = rowFnK (fun k => v0 (ix2 (n0 := 896) (n1 := 512) r k)) (fun c k => v2 (ix2 (n0 := 512) (n1 := 512) c k))
          (fun c => v4 (ix2 (n0 := 1) (n1 := 512) 0 c)) (fun c => v26 (ix2 (n0 := 1) (n1 := 512) 0 c))
          (fun c => v30 (ix2 (n0 := 1) (n1 := 512) 0 c)) c := by
  rw [k4_pay1_eq]; exact kOut_apply v0 v2 v4 v26 v30 r c

/-- With real entries in the gathered block, the weight and the bias: the row function as the reference spells it. -/
theorem k4_pay1_apply_rowFn (v0 : FVec Ideal S896x512 .f32) (v2 : FVec Ideal S512x512 .f32) (v4 v26 v30 : FVec Ideal S1x512 .f32)
    (h0 : ∀ j, ∃ x : ℝ, v0 j = (x : EReal)) (h2 : ∀ j, ∃ x : ℝ, v2 j = (x : EReal)) (h4 : ∀ j, ∃ x : ℝ, v4 j = (x : EReal))
    (r : Fin 896) (c : Fin 512) :
    k4_pay1 (F := Ideal) v0 v2 v4 v26 v30 (ix2 (n0 := 896) (n1 := 512) r c)
      = rowFn (fun k => v0 (ix2 (n0 := 896) (n1 := 512) r k)) (fun c k => v2 (ix2 (n0 := 512) (n1 := 512) c k))
          (fun c => v4 (ix2 (n0 := 1) (n1 := 512) 0 c)) (fun c => v26 (ix2 (n0 := 1) (n1 := 512) 0 c))
          (fun c => v30 (ix2 (n0 := 1) (n1 := 512) 0 c)) c := by
  rw [k4_pay1_apply, rowFnK_eq_rowFn _ _ _ _ _ (fun k => h0 _) (fun c k => h2 _) (fun c => h4 _)]

end Cert.KernelIdeal.KerRow

end
-- ==== Proof.KerRowOut.lean ====
import proofs.«215994_g5102421148354_cont_8to1c4_853_29_alg».proof.Proof.TcBody
import proofs.«215994_g5102421148354_cont_8to1c4_853_29_alg».proof.Proof.KerRow

noncomputable section

namespace Cert.KernelIdeal.KerRow

open Cert.KernelIdeal Cert.KernelIdeal.Gen Idealize.ShloMosaic Idealize.ShloMosaic.ValueIdx Cert.RowSpec

/-- What the body leaves in its output block is its stored term of the five blocks it loaded: the one store and the
    five loads are through the whole-block rectangle. -/
theorem out4_5_eq {F : FTy → Type} [FloatOps F] (x0 : Vec F S896x512 .f32) (x1 : Vec F S512x512 .f32)
    (x2 x3 x4 : Vec F S1x512 .f32) : Cert.KernelIdeal.Tc.out4_5 x0 x1 x2 x3 x4 = k4_pay1 x0 x1 x2 x3 x4 := by
  have hz : (![0, 0] : Fin 2 → Nat) = fun _ => 0 := by funext a; fin_cases a <;> rfl
  unfold Cert.KernelIdeal.Tc.out4_5
  rw [View.canon_unit_zero hz, View.ld_unit_zero hz, View.ld_unit_zero hz, View.ld_unit_zero hz, View.ld_unit_zero hz,
    View.ld_unit_zero hz]

/-- ENTRY `(r, c)` OF THE BODY'S OUTPUT BLOCK: the row function of row `r` of the gathered block. -/
theorem out4_5_apply (x0 : Vec Ideal S896x512 .f32) (x1 : Vec Ideal S512x512 .f32) (x2 x3 x4 : Vec Ideal S1x512 .f32)
    (h0 : ∀ j, ∃ x : ℝ, x0 j = (x : EReal)) (h1 : ∀ j, ∃ x : ℝ, x1 j = (x : EReal)) (h2 : ∀ j, ∃ x : ℝ, x2 j = (x : EReal))
    (r : Fin 896) (c : Fin 512) :
    Cert.KernelIdeal.Tc.out4_5 (F := Ideal) x0 x1 x2 x3 x4 (ix2 (n0 := 896) (n1 := 512) r c)
      = rowFn (fun k => x0 (ix2 (n0 := 896) (n1 := 512) r k)) (fun c k => x1 (ix2 (n0 := 512) (n1 := 512) c k))
          (fun c => x2 (ix2 (n0 := 1) (n1 := 512) 0 c)) (fun c => x3 (ix2 (n0 := 1) (n1 := 512) 0 c))
          (fun c => x4 (ix2 (n0 := 1) (n1 := 512) 0 c)) c := by
  rw [out4_5_eq]; exact k4_pay1_apply_rowFn x0 x1 x2 x3 x4 h0 h1 h2 r c

end Cert.KernelIdeal.KerRow

end
-- ==== Proof.TcRows.lean ====
import proofs.«215994_g5102421148354_cont_8to1c4_853_29_alg».proof.Proof.TcRegion
import Idealize.ShloMosaic.Lib.Pipeline.Value
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rows call 4 writes -/

/-- Grid point `t` of call 4 writes block `0 + t` of the result, -/
theorem idx4 : ∀ t : Fin cfg4.N, win4_5.index t = ![0 + t.val, 0] :=
  (by decide +kernel : ∀ t : Fin grid4.N, win4_5.index t = ![0 + t.val, 0])

/-- of which the transfer moves the rows inside the array: all 896, or those up to row 100000. -/
theorem xsize4 : ∀ t : Fin cfg4.N, win4_5.xsize (grid4.coords t) = ![min 896 (100000 - (0 + t.val) * 896), 512] :=
  (by decide +kernel : ∀ t : Fin grid4.N, win4_5.xsize (grid4.coords t) = ![min 896 (100000 - (0 + t.val) * 896), 512])

/-- An index of the result lies under grid point `t`'s block exactly when its row is one of the block's 896 rows
    (those below row 100000). -/
theorem mem_blk4_iff (t : Fin cfg4.N) (i : S100000x512.Idx) :
    i ∈ ((cfg4.win 5).blk t).view.set ↔ (0 + t.val) * 896 ≤ (i 0).val ∧ (i 0).val < min ((0 + t.val + 1) * 896) 100000 := by
  show i ∈ (win4_5.arr.view.slice (win4_5.rect t)).set ↔ _
  rw [View.set_slice]
  show i ∈ (win4_5.rect t).set.map (View.whole main_v47).emb ↔ _
  rw [View.emb_whole, Finset.map_refl, Rect.mem_set_unit]
  show (∀ a : Fin 2, win4_5.index t a * win4_5.size a ≤ (i a).val
      ∧ (i a).val < win4_5.index t a * win4_5.size a + win4_5.xsize (grid4.coords t) a) ↔ _
  rw [Fin.forall_fin_two, idx4 t, xsize4 t]
  show (((0 + t.val) * 896 ≤ (i 0).val ∧ (i 0).val < (0 + t.val) * 896 + min 896 (100000 - (0 + t.val) * 896))
      ∧ (0 * 512 ≤ (i 1).val ∧ (i 1).val < 0 * 512 + 512)) ↔ _
  have h0 : (i 0).val < 100000 := (i 0).isLt
  have h1 : (i 1).val < 512 := (i 1).isLt
  have ht : t.val < 28 := t.isLt
  omega

/-! ## The rows call 5 writes -/

/-- Grid point `t` of call 5 writes block `28 + t` of the result, -/
theorem idx5 : ∀ t : Fin cfg5.N, win5_5.index t = ![28 + t.val, 0] :=
  (by decide +kernel : ∀ t : Fin grid5.N, win5_5.index t = ![28 + t.val, 0])

/-- of which the transfer moves the rows inside the array: all 896, or those up to row 100000. -/
theorem xsize5 : ∀ t : Fin cfg5.N, win5_5.xsize (grid5.coords t) = ![min 896 (100000 - (28 + t.val) * 896), 512] :=
  (by decide +kernel : ∀ t : Fin grid5.N, win5_5.xsize (grid5.coords t) = ![min 896 (100000 - (28 + t.val) * 896), 512])

/-- An index of the result lies under grid point `t`'s block exactly when its row is one of the block's 896 rows
    (those below row 100000). -/
theorem mem_blk5_iff (t : Fin cfg5.N) (i : S100000x512.Idx) :
    i ∈ ((cfg5.win 5).blk t).view.set ↔ (28 + t.val) * 896 ≤ (i 0).val ∧ (i 0).val < min ((28 + t.val + 1) * 896) 100000 := by
  show i ∈ (win5_5.arr.view.slice (win5_5.rect t)).set ↔ _
  rw [View.set_slice]
  show i ∈ (win5_5.rect t).set.map (View.whole main_v48).emb ↔ _
  rw [View.emb_whole, Finset.map_refl, Rect.mem_set_unit]
  show (∀ a : Fin 2, win5_5.index t a * win5_5.size a ≤ (i a).val
      ∧ (i a).val < win5_5.index t a * win5_5.size a + win5_5.xsize (grid5.coords t) a) ↔ _
  rw [Fin.forall_fin_two, idx5 t, xsize5 t]
  show (((28 + t.val) * 896 ≤ (i 0).val ∧ (i 0).val < (28 + t.val) * 896 + min 896 (100000 - (28 + t.val) * 896))
      ∧ (0 * 512 ≤ (i 1).val ∧ (i 1).val < 0 * 512 + 512)) ↔ _
  have h0 : (i 0).val < 100000 := (i 0).isLt
  have h1 : (i 1).val < 512 := (i 1).isLt
  have ht : t.val < 28 := t.isLt
  omega

/-! ## The rows call 6 writes -/

/-- Grid point `t` of call 6 writes block `56 + t` of the result, -/
theorem idx6 : ∀ t : Fin cfg6.N, win6_5.index t = ![56 + t.val, 0] :=
  (by decide +kernel : ∀ t : Fin grid6.N, win6_5.index t = ![56 + t.val, 0])

/-- of which the transfer moves the rows inside the array: all 896, or those up to row 100000. -/
theorem xsize6 : ∀ t : Fin cfg6.N, win6_5.xsize (grid6.coords t) = ![min 896 (100000 - (56 + t.val) * 896), 512] :=
  (by decide +kernel : ∀ t : Fin grid6.N, win6_5.xsize (grid6.coords t) = ![min 896 (100000 - (56 + t.val) * 896), 512])

/-- An index of the result lies under grid point `t`'s block exactly when its row is one of the block's 896 rows
    (those below row 100000). -/
theorem mem_blk6_iff (t : Fin cfg6.N) (i : S100000x512.Idx) :
    i ∈ ((cfg6.win 5).blk t).view.set ↔ (56 + t.val) * 896 ≤ (i 0).val ∧ (i 0).val < min ((56 + t.val + 1) * 896) 100000 := by
  show i ∈ (win6_5.arr.view.slice (win6_5.rect t)).set ↔ _
  rw [View.set_slice]
  show i ∈ (win6_5.rect t).set.map (View.whole main_v49).emb ↔ _
  rw [View.emb_whole, Finset.map_refl, Rect.mem_set_unit]
  show (∀ a : Fin 2, win6_5.index t a * win6_5.size a ≤ (i a).val
      ∧ (i a).val < win6_5.index t a * win6_5.size a + win6_5.xsize (grid6.coords t) a) ↔ _
  rw [Fin.forall_fin_two, idx6 t, xsize6 t]
  show (((56 + t.val) * 896 ≤ (i 0).val ∧ (i 0).val < (56 + t.val) * 896 + min 896 (100000 - (56 + t.val) * 896))
      ∧ (0 * 512 ≤ (i 1).val ∧ (i 1).val < 0 * 512 + 512)) ↔ _
  have h0 : (i 0).val < 100000 := (i 0).isLt
  have h1 : (i 1).val < 512 := (i 1).isLt
  have ht : t.val < 28 := t.isLt
  omega

/-! ## The rows call 7 writes -/

/-- Grid point `t` of call 7 writes block `84 + t` of the result, -/
theorem idx7 : ∀ t : Fin cfg7.N, win7_5.index t = ![84 + t.val, 0] :=
  (by decide +kernel : ∀ t : Fin grid7.N, win7_5.index t = ![84 + t.val, 0])

/-- of which the transfer moves the rows inside the array: all 896, or those up to row 100000. -/
theorem xsize7 : ∀ t : Fin cfg7.N, win7_5.xsize (grid7.coords t) = ![min 896 (100000 - (84 + t.val) * 896), 512] :=
  (by decide +kernel : ∀ t : Fin grid7.N, win7_5.xsize (grid7.coords t) = ![min 896 (100000 - (84 + t.val) * 896), 512])

/-- An index of the result lies under grid point `t`'s block exactly when its row is one of the block's 896 rows
    (those below row 100000). -/
theorem mem_blk7_iff (t : Fin cfg7.N) (i : S100000x512.Idx) :
    i ∈ ((cfg7.win 5).blk t).view.set ↔ (84 + t.val) * 896 ≤ (i 0).val ∧ (i 0).val < min ((84 + t.val + 1) * 896) 100000 := by
  show i ∈ (win7_5.arr.view.slice (win7_5.rect t)).set ↔ _
  rw [View.set_slice]
  show i ∈ (win7_5.rect t).set.map (View.whole main_v50).emb ↔ _
  rw [View.emb_whole, Finset.map_refl, Rect.mem_set_unit]
  show (∀ a : Fin 2, win7_5.index t a * win7_5.size a ≤ (i a).val
      ∧ (i a).val < win7_5.index t a * win7_5.size a + win7_5.xsize (grid7.coords t) a) ↔ _
  rw [Fin.forall_fin_two, idx7 t, xsize7 t]
  show (((84 + t.val) * 896 ≤ (i 0).val ∧ (i 0).val < (84 + t.val) * 896 + min 896 (100000 - (84 + t.val) * 896))
      ∧ (0 * 512 ≤ (i 1).val ∧ (i 1).val < 0 * 512 + 512)) ↔ _
  have h0 : (i 0).val < 100000 := (i 0).isLt
  have h1 : (i 1).val < 512 := (i 1).isLt
  have ht : t.val < 28 := t.isLt
  omega

end Cert.KernelIdeal.Tc

end
-- ==== Proof.ScVal.lean ====
/-
  The value a gather call leaves in its result.  Row R of a call's slab belongs to worker R / 784, chunk (R mod 784) / 112,
  place R mod 112 of the chunk; column k belongs to table k / 128.  The entry there is the table's row named by the call's
  index word for (worker, chunk, place), at column k mod 128.  A gather delivers exactly that: its offset list is the chunk's
  row of an index scratch holding the worker's index row, and its payload reads the table at the listed row.
-/
import proofs.«215994_g5102421148354_cont_8to1c4_853_29_alg».proof.Proof.ScGrid
import Idealize.ShloMosaic.Lib.ValueIdx

noncomputable section

namespace Cert.KernelIdeal.Sc

open Cert.KernelIdeal Cert.KernelIdeal.Gen
open Idealize.ShloMosaic Idealize.ShloMosaic.ValueIdx
open Idealize.ShloMosaic.SparseCore (S V T)

variable {F : FTy → Type} [Cert.KernelIdeal.Facts]

/-- A row of an index scratch just overwritten whole with `P` reads `P` along that row. -/
theorem scratch_row_read (d : Dev nD) (c : Fin τ.nSC) (i : Fin τ.nSub) (P : S7x112.Idx → Elt F .i32)
    (Wm : Memref sig .scVector .vmem S7x112 .i32) (r : Fin 7) (h : ∀ a, (![r.val, 0] : Fin 2 → Nat) a + S1x112.size a ≤ S7x112.size a)
    (si : Buf (Elt F) (Wm.view.loc (V d c i))) (x : S112.Idx) :
    ((Wm.slice (Rect.unit (s := S7x112) ![r.val, 0] S1x112.size h) (fun _ => rfl)).squeeze S112 squeezes_S1x112_S112).view.read (Elt F)
        (View.write (Elt F) Wm.view si P Finset.univ) x
      = P (ix2 (n0 := 7) (n1 := 112) r (x 0)) := by
  rw [View.read_apply]
  simp only [Memref.view_squeeze, Memref.view_slice, View.emb_reshape, View.emb_slice, Function.Embedding.trans_apply]
  rw [View.write_emb_of_mem _ _ (Finset.mem_univ _)]
  simp only [cast_cast, cast_eq]
  congr 1
  funext a
  apply Fin.ext
  rw [Rect.emb_apply]
  have hx : (Shape.reshapeEquiv (squeezes_S1x112_S112.numel_eq) x) = Fin.cons ⟨0, Nat.one_pos⟩ x := Shape.reshapeEquiv_cons_one _ x
  show (Rect.unit (s := S7x112) ![r.val, 0] S1x112.size h).off a + (Rect.unit (s := S7x112) ![r.val, 0] S1x112.size h).stride a * ((Shape.reshapeEquiv (squeezes_S1x112_S112.numel_eq) x) a : Nat) = _
  rw [hx]
  fin_cases a
  · simp [Rect.unit, ix2]; rfl
  · simp [Rect.unit, ix2]; rfl

/-- What a gather leaves at index `y` of its row buffer: the table at the row the offset list's word for `y`'s row names, in
    `y`'s column — the list being row `r` of an index scratch just overwritten whole with `P`. -/
theorem gather_val (d : Dev nD) (c : Fin τ.nSC) (i : Fin τ.nSub) (Xm : Memref sig .scVector .hbm S100000x128 .f32)
    (fx : Buf (Elt F) (Xm.view.loc (V d c i))) (P : S7x112.Idx → Elt F .i32) (hP : ∀ j, (P j).toNat < 100000)
    (Wm : Memref sig .scVector .vmem S7x112 .i32) (r : Fin 7) (h : ∀ a, (![r.val, 0] : Fin 2 → Nat) a + S1x112.size a ≤ S7x112.size a)
    (si : Buf (Elt F) (Wm.view.loc (V d c i)))
    (hn : S112.numel = S112x128.size gathers_S100000x128_S112x128.axis')
    (hin : ∀ x, (((Wm.slice (Rect.unit (s := S7x112) ![r.val, 0] S1x112.size h) (fun _ => rfl)).squeeze S112 squeezes_S1x112_S112).view.read (Elt F)
        (View.write (Elt F) Wm.view si P Finset.univ) x).toNat < S100000x128.size gathers_S100000x128_S112x128.axis)
    (y : S112x128.Idx) :
    (Xm.slice (Rect.unit (s := S100000x128) ![0, 0] S100000x128.size inb_S100000x128_S100000x128_0_0) (fun _ => rfl)).view.read (Elt F) fx
        (gathers_S100000x128_S112x128.idx (SparseCore.rows (((Wm.slice (Rect.unit (s := S7x112) ![r.val, 0] S1x112.size h) (fun _ => rfl)).squeeze S112 squeezes_S1x112_S112).view.read (Elt F)
          (View.write (Elt F) Wm.view si P Finset.univ)) hn hin) y)
      = Xm.view.read (Elt F) fx (ix2 (n0 := 100000) (n1 := 128) ⟨(P (ix2 (n0 := 7) (n1 := 112) r (y 0))).toNat, hP _⟩ (y 1)) := by
  rw [View.read_apply, View.read_apply]
  simp only [Memref.view_slice, View.emb_slice, Function.Embedding.trans_apply]
  congr 3
  funext a
  apply Fin.ext
  rw [Rect.emb_apply]
  fin_cases a
  · show 0 + 1 * ((gathers_S100000x128_S112x128.idx _ y gathers_S100000x128_S112x128.axis : Fin _) : Nat) = _
    rw [Shape.Gathers.idx_axis]
    simp only [SparseCore.rows, Nat.zero_add, Nat.one_mul]
    rw [scratch_row_read]
    have hx : (S112.rowMajor.symm (Fin.cast hn.symm (y gathers_S100000x128_S112x128.axis'))) 0 = y 0 := by
      apply Fin.ext
      have h1 := Shape.rowMajor_val_one (S112.rowMajor.symm (Fin.cast hn.symm (y gathers_S100000x128_S112x128.axis')))
      rw [Equiv.apply_symm_apply] at h1
      exact h1.symm
    rw [hx]
  · show 0 + 1 * _ = _
    rw [Shape.Gathers.idx_of_ne _ _ _ _ (by decide)]
    first | rfl | simp [ix2] | (simp [ix2]; rfl)

/-- Contents that read the same through a view agree on the view's elements. -/
theorem piece_congr {κ : Kind} {sp : Space} {s : Shape} {e : EltTy} (v : View sig κ sp s e) (f g : v.ty.Contents (Elt F))
    (h : ∀ y, v.read (Elt F) f y = v.read (Elt F) g y) : ∀ i ∈ v.set, f i = g i := by
  intro i hi
  obtain ⟨y, -, rfl⟩ := Finset.mem_map.mp hi
  have h1 := h y
  rw [View.read_apply, View.read_apply] at h1
  exact (cast_bijective _).injective h1

/-- What the copy-out of a row buffer carries, the buffer's newest listed write being a gather's payload. -/
theorem pay_val (d : Dev nD) (c : Fin τ.nSC) (i : Fin τ.nSub) (Xm : Memref sig .scVector .hbm S100000x128 .f32)
    (fx : Buf (Elt F) (Xm.view.loc (V d c i))) (P : S7x112.Idx → Elt F .i32) (hP : ∀ j, (P j).toNat < 100000)
    (Wm : Memref sig .scVector .vmem S7x112 .i32) (r : Fin 7) (h : ∀ a, (![r.val, 0] : Fin 2 → Nat) a + S1x112.size a ≤ S7x112.size a)
    (si : Buf (Elt F) (Wm.view.loc (V d c i)))
    (hn : S112.numel = S112x128.size gathers_S100000x128_S112x128.axis')
    (hin : ∀ x, (((Wm.slice (Rect.unit (s := S7x112) ![r.val, 0] S1x112.size h) (fun _ => rfl)).squeeze S112 squeezes_S1x112_S112).view.read (Elt F)
        (View.write (Elt F) Wm.view si (ReadAs.same.apply P) Finset.univ) x).toNat < S100000x128.size gathers_S100000x128_S112x128.axis)
    (Bm : Memref sig .scVector .vmem S112x128 .f32) (sb : Buf (Elt F) (Bm.view.loc (V d c i)))
    (Lst : List (View.Piece (Elt F) S112x128 .f32)) (y : S112x128.Idx) :
    ReadAs.same.apply (Bm.view.read (Elt F) (Bm.view.writes (Elt F) sb
        (⟨Rect.whole S112x128, SparseCore.gatherPayload gathers_S100000x128_S112x128
            ((Xm.slice (Rect.unit (s := S100000x128) ![0, 0] S100000x128.size inb_S100000x128_S100000x128_0_0) (fun _ => rfl)).view.read (Elt F) fx)
            (SparseCore.rows (((Wm.slice (Rect.unit (s := S7x112) ![r.val, 0] S1x112.size h) (fun _ => rfl)).squeeze S112 squeezes_S1x112_S112).view.read (Elt F)
              (View.write (Elt F) Wm.view si (ReadAs.same.apply P) Finset.univ)) hn hin)⟩ :: Lst))) y
      = Xm.view.read (Elt F) fx (ix2 (n0 := 100000) (n1 := 128) ⟨(P (ix2 (n0 := 7) (n1 := 112) r (y 0))).toNat, hP _⟩ (y 1)) := by
  have h1 := View.read_writes_cons_emb (Val := Elt F) (v := Bm.view) (f := sb) (Rect.whole S112x128)
    (SparseCore.gatherPayload gathers_S100000x128_S112x128
            ((Xm.slice (Rect.unit (s := S100000x128) ![0, 0] S100000x128.size inb_S100000x128_S100000x128_0_0) (fun _ => rfl)).view.read (Elt F) fx)
            (SparseCore.rows (((Wm.slice (Rect.unit (s := S7x112) ![r.val, 0] S1x112.size h) (fun _ => rfl)).squeeze S112 squeezes_S1x112_S112).view.read (Elt F)
              (View.write (Elt F) Wm.view si (ReadAs.same.apply P) Finset.univ)) hn hin)) Lst y
  rw [Rect.emb_whole_apply] at h1
  show Bm.view.read (Elt F) _ y = _
  rw [h1]
  exact gather_val d c i Xm fx P hP Wm r h si hn hin y

/-- Row `n` of a table at column `c` (row 0 if `n` names no row, which the index range excludes). -/
def rowAt (x : S100000x128.Idx → Elt F .f32) (n : Nat) (c : Fin 128) : Elt F .f32 :=
  if h : n < 100000 then x (ix2 (n0 := 100000) (n1 := 128) ⟨n, h⟩ c) else x (ix2 (n0 := 100000) (n1 := 128) ⟨0, by decide⟩ c)

theorem rowAt_lt (x : S100000x128.Idx → Elt F .f32) (n : Nat) (h : n < 100000) (c : Fin 128) :
    rowAt x n c = x (ix2 (n0 := 100000) (n1 := 128) ⟨n, h⟩ c) := dif_pos h

/-- The gathered slab of one call, from the four tables and the call's four index arrays. -/
def slabG (x0 x1 x2 x3 : S100000x128.Idx → Elt F .f32) (s0 s1 s2 s3 : S32x7x112.Idx → Elt F .i32) : S25088x512.Idx → Elt F .f32 := fun j =>
  let w : Fin 32 := ⟨(j 0).val / 784, by have := (j 0).isLt; change (j 0).val < 25088 at this; omega⟩
  let ch : Fin 7 := ⟨(j 0).val % 784 / 112, by omega⟩
  let pl : Fin 112 := ⟨(j 0).val % 112, by omega⟩
  let c : Fin 128 := ⟨(j 1).val % 128, by omega⟩
  if (j 1).val < 128 then rowAt x0 (s0 (ix3 (n0 := 32) (n1 := 7) (n2 := 112) w ch pl)).toNat c
  else if (j 1).val < 256 then rowAt x1 (s1 (ix3 (n0 := 32) (n1 := 7) (n2 := 112) w ch pl)).toNat c
  else if (j 1).val < 384 then rowAt x2 (s2 (ix3 (n0 := 32) (n1 := 7) (n2 := 112) w ch pl)).toNat c
  else rowAt x3 (s3 (ix3 (n0 := 32) (n1 := 7) (n2 := 112) w ch pl)).toNat c

end Cert.KernelIdeal.Sc

end
-- ==== Proof.ScPayG.lean ====
/-
  The payloads with the value.  A task is handed what it was handed before; it hands back its index rows and read tokens
  as they were and its 28 pieces of the call's result AT the gathered slab (slabG of the four tables and the call's four
  index arrays): row 784·worker + 112·chunk + place, column 128·table + c holds the table's row named by the index word at
  (worker, chunk, place), column c.
-/
import proofs.«215994_g5102421148354_cont_8to1c4_853_29_alg».proof.Proof.ScPay
import proofs.«215994_g5102421148354_cont_8to1c4_853_29_alg».proof.Proof.ScVal

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

set_option maxHeartbeats 8000000 in
/-- The resources of the task of gather call 0 at grid point L, the result's pieces at the array G. -/
def tileResG0 (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    (G : Buf (Elt F) ((Memref.whole main_v19_scv : Memref sig .scVector .hbm S25088x512 .f32).view.loc (V d (cV0 L) (jV0 L))))
    : sProp 𝕄 :=
  iprop(
        ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
      ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
      ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
      ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
      ∗ ((Memref.whole main_arg0_scv : Memref sig .scVector .hbm S100000x128 .f32).view.loc (V d (cV0 L) (jV0 L)) ↦{Transfers.shareDrop qx 11} fx0)
      ∗ (bigSep Finset.univ fun k : Fin 11 => ((Memref.whole main_arg0_scv : Memref sig .scVector .hbm S100000x128 .f32).view.loc (V d (cV0 L) (jV0 L)) ↦{Transfers.shareTok qx 11 k} fx0))
      ∗ ((Memref.whole main_arg1_scv : Memref sig .scVector .hbm S100000x128 .f32).view.loc (V d (cV0 L) (jV0 L)) ↦{Transfers.shareDrop qx 11} fx1)
      ∗ (bigSep Finset.univ fun k : Fin 11 => ((Memref.whole main_arg1_scv : Memref sig .scVector .hbm S100000x128 .f32).view.loc (V d (cV0 L) (jV0 L)) ↦{Transfers.shareTok qx 11 k} fx1))
      ∗ ((Memref.whole main_arg2_scv : Memref sig .scVector .hbm S100000x128 .f32).view.loc (V d (cV0 L) (jV0 L)) ↦{Transfers.shareDrop qx 11} fx2)
      ∗ (bigSep Finset.univ fun k : Fin 11 => ((Memref.whole main_arg2_scv : Memref sig .scVector .hbm S100000x128 .f32).view.loc (V d (cV0 L) (jV0 L)) ↦{Transfers.shareTok qx 11 k} fx2))
      ∗ ((Memref.whole main_arg3_scv : Memref sig .scVector .hbm S100000x128 .f32).view.loc (V d (cV0 L) (jV0 L)) ↦{Transfers.shareDrop qx 11} fx3)
      ∗ (bigSep Finset.univ fun k : Fin 11 => ((Memref.whole main_arg3_scv : Memref sig .scVector .hbm S100000x128 .f32).view.loc (V d (cV0 L) (jV0 L)) ↦{Transfers.shareTok qx 11 k} fx3))
      ∗ (((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} G)
      ∗ (((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} G)
      ∗ (((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} G)
      ∗ (((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} G)
      ∗ (((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} G)
      ∗ (((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} G)
      ∗ (((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} G)
      ∗ (((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} G)
      ∗ (((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} G)
      ∗ (((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} G)
      ∗ (((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} G)
      ∗ (((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} G)
      ∗ (((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} G)
      ∗ (((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} G)
      ∗ (((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} G)
      ∗ (((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} G)
      ∗ (((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} G)
      ∗ (((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} G)
      ∗ (((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} G)
      ∗ (((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} G)
      ∗ (((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} G)
      ∗ (((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} G)
      ∗ (((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} G)
      ∗ (((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} G)
      ∗ (((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} G)
      ∗ (((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} G)
      ∗ (((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} G)
      ∗ (((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} G)
  )

set_option synthInstance.maxHeartbeats 400000 in
set_option synthInstance.maxSize 4096 in
set_option maxHeartbeats 16000000 in
instance tileResG0_storable (d : Dev nD) (L : grid0.Coords) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L))))
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    (G : Buf (Elt F) ((Memref.whole main_v19_scv : Memref sig .scVector .hbm S25088x512 .f32).view.loc (V d (cV0 L) (jV0 L))))
    : BI.Storable (upEmb : UEmb _ 𝕄) (tileResG0 d L qx fi0 fi1 fi2 fi3 fx0 fx1 fx2 fx3 G) := by
  unfold tileResG0; infer_instance

set_option maxHeartbeats 8000000 in
/-- The resources of the task of gather call 1 at grid point L, the result's pieces at the array G. -/
def tileResG1 (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    (G : Buf (Elt F) ((Memref.whole main_v28_scv : Memref sig .scVector .hbm S25088x512 .f32).view.loc (V d (cV1 L) (jV1 L))))
    : sProp 𝕄 :=
  iprop(
        ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
      ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
      ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
      ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
      ∗ ((Memref.whole main_arg0_scv : Memref sig .scVector .hbm S100000x128 .f32).view.loc (V d (cV1 L) (jV1 L)) ↦{Transfers.shareDrop qx 11} fx0)
      ∗ (bigSep Finset.univ fun k : Fin 11 => ((Memref.whole main_arg0_scv : Memref sig .scVector .hbm S100000x128 .f32).view.loc (V d (cV1 L) (jV1 L)) ↦{Transfers.shareTok qx 11 k} fx0))
      ∗ ((Memref.whole main_arg1_scv : Memref sig .scVector .hbm S100000x128 .f32).view.loc (V d (cV1 L) (jV1 L)) ↦{Transfers.shareDrop qx 11} fx1)
      ∗ (bigSep Finset.univ fun k : Fin 11 => ((Memref.whole main_arg1_scv : Memref sig .scVector .hbm S100000x128 .f32).view.loc (V d (cV1 L) (jV1 L)) ↦{Transfers.shareTok qx 11 k} fx1))
      ∗ ((Memref.whole main_arg2_scv : Memref sig .scVector .hbm S100000x128 .f32).view.loc (V d (cV1 L) (jV1 L)) ↦{Transfers.shareDrop qx 11} fx2)
      ∗ (bigSep Finset.univ fun k : Fin 11 => ((Memref.whole main_arg2_scv : Memref sig .scVector .hbm S100000x128 .f32).view.loc (V d (cV1 L) (jV1 L)) ↦{Transfers.shareTok qx 11 k} fx2))
      ∗ ((Memref.whole main_arg3_scv : Memref sig .scVector .hbm S100000x128 .f32).view.loc (V d (cV1 L) (jV1 L)) ↦{Transfers.shareDrop qx 11} fx3)
      ∗ (bigSep Finset.univ fun k : Fin 11 => ((Memref.whole main_arg3_scv : Memref sig .scVector .hbm S100000x128 .f32).view.loc (V d (cV1 L) (jV1 L)) ↦{Transfers.shareTok qx 11 k} fx3))
      ∗ (((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} G)
      ∗ (((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} G)
      ∗ (((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} G)
      ∗ (((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} G)
      ∗ (((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} G)
      ∗ (((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} G)
      ∗ (((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} G)
      ∗ (((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} G)
      ∗ (((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} G)
      ∗ (((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} G)
      ∗ (((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} G)
      ∗ (((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} G)
      ∗ (((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} G)
      ∗ (((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} G)
      ∗ (((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} G)
      ∗ (((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} G)
      ∗ (((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} G)
      ∗ (((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} G)
      ∗ (((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} G)
      ∗ (((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} G)
      ∗ (((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} G)
      ∗ (((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} G)
      ∗ (((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} G)
      ∗ (((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} G)
      ∗ (((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} G)
      ∗ (((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} G)
      ∗ (((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} G)
      ∗ (((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} G)
  )

set_option synthInstance.maxHeartbeats 400000 in
set_option synthInstance.maxSize 4096 in
set_option maxHeartbeats 16000000 in
instance tileResG1_storable (d : Dev nD) (L : grid1.Coords) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L))))
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    (G : Buf (Elt F) ((Memref.whole main_v28_scv : Memref sig .scVector .hbm S25088x512 .f32).view.loc (V d (cV1 L) (jV1 L))))
    : BI.Storable (upEmb : UEmb _ 𝕄) (tileResG1 d L qx fi0 fi1 fi2 fi3 fx0 fx1 fx2 fx3 G) := by
  unfold tileResG1; infer_instance

set_option maxHeartbeats 8000000 in
/-- The resources of the task of gather call 2 at grid point L, the result's pieces at the array G. -/
def tileResG2 (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    (G : Buf (Elt F) ((Memref.whole main_v37_scv : Memref sig .scVector .hbm S25088x512 .f32).view.loc (V d (cV2 L) (jV2 L))))
    : sProp 𝕄 :=
  iprop(
        ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
      ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
      ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
      ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
      ∗ ((Memref.whole main_arg0_scv : Memref sig .scVector .hbm S100000x128 .f32).view.loc (V d (cV2 L) (jV2 L)) ↦{Transfers.shareDrop qx 11} fx0)
      ∗ (bigSep Finset.univ fun k : Fin 11 => ((Memref.whole main_arg0_scv : Memref sig .scVector .hbm S100000x128 .f32).view.loc (V d (cV2 L) (jV2 L)) ↦{Transfers.shareTok qx 11 k} fx0))
      ∗ ((Memref.whole main_arg1_scv : Memref sig .scVector .hbm S100000x128 .f32).view.loc (V d (cV2 L) (jV2 L)) ↦{Transfers.shareDrop qx 11} fx1)
      ∗ (bigSep Finset.univ fun k : Fin 11 => ((Memref.whole main_arg1_scv : Memref sig .scVector .hbm S100000x128 .f32).view.loc (V d (cV2 L) (jV2 L)) ↦{Transfers.shareTok qx 11 k} fx1))
      ∗ ((Memref.whole main_arg2_scv : Memref sig .scVector .hbm S100000x128 .f32).view.loc (V d (cV2 L) (jV2 L)) ↦{Transfers.shareDrop qx 11} fx2)
      ∗ (bigSep Finset.univ fun k : Fin 11 => ((Memref.whole main_arg2_scv : Memref sig .scVector .hbm S100000x128 .f32).view.loc (V d (cV2 L) (jV2 L)) ↦{Transfers.shareTok qx 11 k} fx2))
      ∗ ((Memref.whole main_arg3_scv : Memref sig .scVector .hbm S100000x128 .f32).view.loc (V d (cV2 L) (jV2 L)) ↦{Transfers.shareDrop qx 11} fx3)
      ∗ (bigSep Finset.univ fun k : Fin 11 => ((Memref.whole main_arg3_scv : Memref sig .scVector .hbm S100000x128 .f32).view.loc (V d (cV2 L) (jV2 L)) ↦{Transfers.shareTok qx 11 k} fx3))
      ∗ (((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} G)
      ∗ (((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} G)
      ∗ (((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} G)
      ∗ (((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} G)
      ∗ (((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} G)
      ∗ (((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} G)
      ∗ (((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} G)
      ∗ (((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} G)
      ∗ (((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} G)
      ∗ (((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} G)
      ∗ (((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} G)
      ∗ (((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} G)
      ∗ (((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} G)
      ∗ (((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} G)
      ∗ (((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} G)
      ∗ (((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} G)
      ∗ (((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} G)
      ∗ (((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} G)
      ∗ (((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} G)
      ∗ (((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} G)
      ∗ (((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} G)
      ∗ (((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} G)
      ∗ (((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} G)
      ∗ (((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} G)
      ∗ (((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} G)
      ∗ (((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} G)
      ∗ (((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} G)
      ∗ (((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} G)
  )

set_option synthInstance.maxHeartbeats 400000 in
set_option synthInstance.maxSize 4096 in
set_option maxHeartbeats 16000000 in
instance tileResG2_storable (d : Dev nD) (L : grid2.Coords) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L))))
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    (G : Buf (Elt F) ((Memref.whole main_v37_scv : Memref sig .scVector .hbm S25088x512 .f32).view.loc (V d (cV2 L) (jV2 L))))
    : BI.Storable (upEmb : UEmb _ 𝕄) (tileResG2 d L qx fi0 fi1 fi2 fi3 fx0 fx1 fx2 fx3 G) := by
  unfold tileResG2; infer_instance

set_option maxHeartbeats 8000000 in
/-- The resources of the task of gather call 3 at grid point L, the result's pieces at the array G. -/
def tileResG3 (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    (G : Buf (Elt F) ((Memref.whole main_v46_scv : Memref sig .scVector .hbm S25088x512 .f32).view.loc (V d (cV3 L) (jV3 L))))
    : sProp 𝕄 :=
  iprop(
        ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
      ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
      ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
      ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
      ∗ ((Memref.whole main_arg0_scv : Memref sig .scVector .hbm S100000x128 .f32).view.loc (V d (cV3 L) (jV3 L)) ↦{Transfers.shareDrop qx 11} fx0)
      ∗ (bigSep Finset.univ fun k : Fin 11 => ((Memref.whole main_arg0_scv : Memref sig .scVector .hbm S100000x128 .f32).view.loc (V d (cV3 L) (jV3 L)) ↦{Transfers.shareTok qx 11 k} fx0))
      ∗ ((Memref.whole main_arg1_scv : Memref sig .scVector .hbm S100000x128 .f32).view.loc (V d (cV3 L) (jV3 L)) ↦{Transfers.shareDrop qx 11} fx1)
      ∗ (bigSep Finset.univ fun k : Fin 11 => ((Memref.whole main_arg1_scv : Memref sig .scVector .hbm S100000x128 .f32).view.loc (V d (cV3 L) (jV3 L)) ↦{Transfers.shareTok qx 11 k} fx1))
      ∗ ((Memref.whole main_arg2_scv : Memref sig .scVector .hbm S100000x128 .f32).view.loc (V d (cV3 L) (jV3 L)) ↦{Transfers.shareDrop qx 11} fx2)
      ∗ (bigSep Finset.univ fun k : Fin 11 => ((Memref.whole main_arg2_scv : Memref sig .scVector .hbm S100000x128 .f32).view.loc (V d (cV3 L) (jV3 L)) ↦{Transfers.shareTok qx 11 k} fx2))
      ∗ ((Memref.whole main_arg3_scv : Memref sig .scVector .hbm S100000x128 .f32).view.loc (V d (cV3 L) (jV3 L)) ↦{Transfers.shareDrop qx 11} fx3)
      ∗ (bigSep Finset.univ fun k : Fin 11 => ((Memref.whole main_arg3_scv : Memref sig .scVector .hbm S100000x128 .f32).view.loc (V d (cV3 L) (jV3 L)) ↦{Transfers.shareTok qx 11 k} fx3))
      ∗ (((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} G)
      ∗ (((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} G)
      ∗ (((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} G)
      ∗ (((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} G)
      ∗ (((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} G)
      ∗ (((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} G)
      ∗ (((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} G)
      ∗ (((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} G)
      ∗ (((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} G)
      ∗ (((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} G)
      ∗ (((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} G)
      ∗ (((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} G)
      ∗ (((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} G)
      ∗ (((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} G)
      ∗ (((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} G)
      ∗ (((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} G)
      ∗ (((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} G)
      ∗ (((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} G)
      ∗ (((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} G)
      ∗ (((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} G)
      ∗ (((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} G)
      ∗ (((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} G)
      ∗ (((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} G)
      ∗ (((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} G)
      ∗ (((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} G)
      ∗ (((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} G)
      ∗ (((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} G)
      ∗ (((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} G)
  )

set_option synthInstance.maxHeartbeats 400000 in
set_option synthInstance.maxSize 4096 in
set_option maxHeartbeats 16000000 in
instance tileResG3_storable (d : Dev nD) (L : grid3.Coords) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L))))
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    (G : Buf (Elt F) ((Memref.whole main_v46_scv : Memref sig .scVector .hbm S25088x512 .f32).view.loc (V d (cV3 L) (jV3 L))))
    : BI.Storable (upEmb : UEmb _ 𝕄) (tileResG3 d L qx fi0 fi1 fi2 fi3 fx0 fx1 fx2 fx3 G) := by
  unfold tileResG3; infer_instance

variable (m : (ℓ : Loc nD τ sig) → Buf (Elt F) ℓ)

/-- The gathered slab of call q on device d, from the launch contents of the tables and index inputs. -/
def slabOfM (q : Fin 4) (d : Dev nD) : S25088x512.Idx → Elt F .f32 :=
  slabG (m ((SparseCore.T d).loc main_arg0)) (m ((SparseCore.T d).loc main_arg1)) (m ((SparseCore.T d).loc main_arg2)) (m ((SparseCore.T d).loc main_arg3))
    (Idx.slab q (m ((SparseCore.T d).loc main_arg4))) (Idx.slab q (m ((SparseCore.T d).loc main_arg5))) (Idx.slab q (m ((SparseCore.T d).loc main_arg6))) (Idx.slab q (m ((SparseCore.T d).loc main_arg7)))

/-- What the task of call q on SparseCore c, vector subcore i hands back, the result's pieces at the array G. -/
def taskResG (q : Fin 4) (d : Dev nD) (c : Fin 2) (i : Fin 16) (G : S25088x512.Idx → Elt F .f32) : sProp 𝕄 :=
  match q with
  | 0 => tileResG0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) G
  | 1 => tileResG1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) G
  | 2 => tileResG2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) G
  | 3 => tileResG3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) G

instance taskResG_storable (q : Fin 4) (d : Dev nD) (c : Fin 2) (i : Fin 16) (G : S25088x512.Idx → Elt F .f32) : BI.Storable (upEmb : UEmb _ 𝕄) (taskResG m q d c i G) := by
  match q with
  | 0 => unfold taskResG; infer_instance
  | 1 => unfold taskResG; infer_instance
  | 2 => unfold taskResG; infer_instance
  | 3 => unfold taskResG; infer_instance

/-- The payloads with the value: handed out as before, handed back at the gathered slab. -/
def PG : (K (F := F)).Pay (nD := nD) (Val := Elt F) (Name := ℕ) (U := UU) where
  st := fun q d c => bigSep Finset.univ fun i : Fin 16 => taskRes m q d (Fin.cast (nCore_eq q) c) i
  dn := fun q d c => bigSep Finset.univ fun i : Fin 16 => taskResG m q d (Fin.cast (nCore_eq q) c) i (slabOfM m q d)
  go := fun q d c i => taskRes m q d (Fin.cast (nCore_eq q) c) (Fin.cast (nSub_eq q) i)
  td := fun q d c i => taskResG m q d (Fin.cast (nCore_eq q) c) (Fin.cast (nSub_eq q) i) (slabOfM m q d)
  x := fun _ _ => iprop(emp)

instance PG_storable : (PG (F := F) m).IsStorable where
  st _ _ _ := by unfold PG; infer_instance
  dn _ _ _ := by unfold PG; infer_instance
  go _ _ _ _ := by unfold PG; infer_instance
  td _ _ _ _ := by unfold PG; infer_instance

end Cert.KernelIdeal.Sc

end
-- ==== Proof.ScLaunchG.lean ====
/-
  The launch with the value: as before, over the payloads that carry the gathered slabs, and @main's proof now also leaves the
  result array whole at a stated contents `Rv`; the run then ends with the result array at `Rv` and every argument unchanged.
-/
import proofs.«215994_g5102421148354_cont_8to1c4_853_29_alg».proof.Proof.ScLaunch
import proofs.«215994_g5102421148354_cont_8to1c4_853_29_alg».proof.Proof.ScPayG

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

variable (m : (ℓ : Loc nD τ sig) → Buf (Elt F) ℓ) (ρ : Dev nD → PrngReg)
variable (Rv : (d : Dev nD) → Buf (Elt F) ((SparseCore.T d).loc main_v50))

theorem hu₀G : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (PG m).x q thr) := by
  unfold u₀
  iintro Hu
  ihave H := (ownU_pair _ _) $$ Hu
  icases H with ⟨HH, HR⟩
  ihave H2 := (own_pair_emb (embR) _ _) $$ HR
  icases H2 with ⟨HP, -⟩
  ihave HP' := (own_EP (F := F) _) $$ HP
  imod (Tc.fund_regions (F := F)) $$ HP' with HG
  imodintro
  isplitl [HH]; · iexact HH
  isplitl [HG]; · unfold G; iexact HG
  unfold PG; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

theorem vecSplitG' (q : Fin 4) : (K (F := F)).VecSplit' (PG m) q := by
  intro d c
  have h16 : ∀ (Φ : Fin 16 → sProp 𝕄), (bigSep Finset.univ fun i : Fin ((K (F := F)).nSub q) => Φ (Fin.cast (nSub_eq q) i)) = bigSep Finset.univ Φ := by
    intro Φ
    match q with
    | 0 => exact bigSep_congr fun _ _ => congrArg Φ (Fin.ext rfl)
    | 1 => exact bigSep_congr fun _ _ => congrArg Φ (Fin.ext rfl)
    | 2 => exact bigSep_congr fun _ _ => congrArg Φ (Fin.ext rfl)
    | 3 => exact bigSep_congr fun _ _ => congrArg Φ (Fin.ext rfl)
  show (bigSep Finset.univ fun i : Fin 16 => taskRes m q d (Fin.cast (nCore_eq q) c) i) ⊢ |={Set.univ}=> iprop(
      (bigSep Finset.univ fun i : Fin ((K (F := F)).nSub q) => taskRes m q d (Fin.cast (nCore_eq q) c) (Fin.cast (nSub_eq q) i))
      ∗ ((bigSep Finset.univ fun i : Fin ((K (F := F)).nSub q) => taskResG m q d (Fin.cast (nCore_eq q) c) (Fin.cast (nSub_eq q) i) (slabOfM m q d))
          -∗ bigSep Finset.univ fun i : Fin 16 => taskResG m q d (Fin.cast (nCore_eq q) c) i (slabOfM m q d)))
  rw [h16 (fun i => taskRes m q d (Fin.cast (nCore_eq q) c) i), h16 (fun i => taskResG m q d (Fin.cast (nCore_eq q) c) i (slabOfM m q d))]
  iintro H; imodintro
  isplitl [H]; · iexact H
  iintro H; iexact H

/-- Every argument array whole at its launch contents, and the result array whole at `Rv`. -/
def FING (d : Dev nD) : sProp 𝕄 := iprop(FIN m d ∗ ((SparseCore.T d).loc main_v50 ↦{fullShare} Rv d))

def fqG (d : Dev nD) (s' : Phys nD τ sig (Elt F)) : Prop := fq m d s' ∧ s'.mem.mem ((SparseCore.T d).loc main_v50) = Rv d

theorem hfinG (d : Dev nD) (s' : Phys nD τ sig (Elt F)) : iprop(FING m Rv d ∗ SI s') ⊢ (⌜fqG m Rv d s'⌝ : sProp 𝕄) := by
  have hdrop : iprop(FING m Rv d ∗ SI s') ⊢ (iprop(FIN m d ∗ SI s') : sProp 𝕄) := by
    unfold FING
    iintro ⟨⟨HF, -⟩, HSI⟩
    isplitl [HF] <;> iassumption
  have h1 : iprop(FING m Rv d ∗ SI s') ⊢ (⌜fq m d s'⌝ : sProp 𝕄) := hdrop.trans (hfin m d s')
  have h2 : iprop(FING m Rv d ∗ SI s') ⊢ (⌜s'.mem.mem ((SparseCore.T d).loc main_v50) = Rv d⌝ : sProp 𝕄) := by
    unfold FING
    iintro ⟨⟨-, Hv⟩, HSI⟩
    ihave H := (SI_pointsTo_agree (st := s') (ℓ := (SparseCore.T d).loc main_v50) (I := Finset.univ) (q := fullShare) (f := Rv d)) $$ [HSI Hv]
    · isplitl [HSI] <;> iassumption
    icases H with %hx
    ipureintro; exact funext fun i => hx i (Finset.mem_univ i)
  exact fun x hx => ⟨h1 x hx, h2 x hx⟩

def QCG : PUnit × MemSt nD τ sig (Elt F) → Prop := fun r => ∀ c : Dev nD,
  (∀ b ∈ argS, r.2.mem ((SparseCore.T c).loc b) = m ((SparseCore.T c).loc b)) ∧ r.2.mem ((SparseCore.T c).loc main_v50) = Rv c

/-- The whole program's run with the value, from the tasks' obligations and @main's proof. -/
theorem run_mainG [∀ e, Nonempty (Elt F e)]
    (htile : ∀ q, (K (F := F)).TileObl (D (F := F)) 𝒱 (PG m) v₀ q)
    (hmain : ∀ (κ : GSem nD τ sig → ℕ) (d : Dev nD),
      iprop((K (F := F)).ctx EH (PG m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 4 ∗ FING m Rv d)) :
    θ_run (Cert.KernelIdeal.defs (F := F)) (Cert.KernelIdeal.threads (F := F)) ⟨m, fun _ => 0, ρ⟩ (QCG m Rv) :=
  SparseCore.Cfg.θ_run_sc (K := K (F := F)) (D := D (F := F)) (𝒱 := 𝒱) (EH := EH) (P := PG m) facts v₀
    (fun q hq => absurd (show scKind q = Kind.scScalar from hq) (no_scalar q))
    (fun q _ => htile q)
    (fun q _ => SparseCore.Cfg.VecSplit.of_plain (vecSplitG' m q))
    m ρ main (G (F := F)) (FING m Rv) (u₀ (F := F)) (sep_elim_left.trans (hu₀G m)) hmain (fqG m Rv) (hfinG m Rv) (QCG m Rv) (fun _ h => h)

end Cert.KernelIdeal.Sc

end
-- ==== Proof.ScDealG0.lean ====
import proofs.«215994_g5102421148354_cont_8to1c4_853_29_alg».proof.Proof.ScPayG
import proofs.«215994_g5102421148354_cont_8to1c4_853_29_alg».proof.Proof.ScDeal0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 0: the tasks' holdings come back with the result's value

The same join as before, the tasks' 28 blocks now each holding the restriction of one array `G` to it: the result comes
back whole at `G`. -/

local instance sepPMG_comm0 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPMG_assoc0 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

section AtomsG
variable (d : Dev nD) (L : grid0.Coords) (c : Fin τ.nSC) (i : Fin τ.nSub)

theorem ptsG_piece0_2 (G : Buf (Elt F) ((SparseCore.T d).loc main_v19)) (r : Fin 7) :
    (((Memref.whole main_v19_scv : Memref sig .scVector .hbm S25088x512 .f32).slice (Rect.unit (s := S25088x512) (k0_off2 L (BitVec.ofNat 32 (112 * r.val))) S112x128.size (k0_off2_inb L r)) (fun _ => rfl)).view.loc (V d c i) ↦[((Memref.whole main_v19_scv : Memref sig .scVector .hbm S25088x512 .f32).slice (Rect.unit (s := S25088x512) (k0_off2 L (BitVec.ofNat 32 (112 * r.val))) S112x128.size (k0_off2_inb L r)) (fun _ => rfl)).view.set]{fullShare} G : sProp 𝕄)
      = ((SparseCore.T d).loc main_v19 ↦[oBlockSet (e224 (widL L, r), 0)]{fullShare} G) := by
  rw [set_piece2]
theorem ptsG_piece0_3 (G : Buf (Elt F) ((SparseCore.T d).loc main_v19)) (r : Fin 7) :
    (((Memref.whole main_v19_scv : Memref sig .scVector .hbm S25088x512 .f32).slice (Rect.unit (s := S25088x512) (k0_off3 L (BitVec.ofNat 32 (112 * r.val))) S112x128.size (k0_off3_inb L r)) (fun _ => rfl)).view.loc (V d c i) ↦[((Memref.whole main_v19_scv : Memref sig .scVector .hbm S25088x512 .f32).slice (Rect.unit (s := S25088x512) (k0_off3 L (BitVec.ofNat 32 (112 * r.val))) S112x128.size (k0_off3_inb L r)) (fun _ => rfl)).view.set]{fullShare} G : sProp 𝕄)
      = ((SparseCore.T d).loc main_v19 ↦[oBlockSet (e224 (widL L, r), 1)]{fullShare} G) := by
  rw [set_piece3]
theorem ptsG_piece0_4 (G : Buf (Elt F) ((SparseCore.T d).loc main_v19)) (r : Fin 7) :
    (((Memref.whole main_v19_scv : Memref sig .scVector .hbm S25088x512 .f32).slice (Rect.unit (s := S25088x512) (k0_off4 L (BitVec.ofNat 32 (112 * r.val))) S112x128.size (k0_off4_inb L r)) (fun _ => rfl)).view.loc (V d c i) ↦[((Memref.whole main_v19_scv : Memref sig .scVector .hbm S25088x512 .f32).slice (Rect.unit (s := S25088x512) (k0_off4 L (BitVec.ofNat 32 (112 * r.val))) S112x128.size (k0_off4_inb L r)) (fun _ => rfl)).view.set]{fullShare} G : sProp 𝕄)
      = ((SparseCore.T d).loc main_v19 ↦[oBlockSet (e224 (widL L, r), 2)]{fullShare} G) := by
  rw [set_piece4]
theorem ptsG_piece0_5 (G : Buf (Elt F) ((SparseCore.T d).loc main_v19)) (r : Fin 7) :
    (((Memref.whole main_v19_scv : Memref sig .scVector .hbm S25088x512 .f32).slice (Rect.unit (s := S25088x512) (k0_off5 L (BitVec.ofNat 32 (112 * r.val))) S112x128.size (k0_off5_inb L r)) (fun _ => rfl)).view.loc (V d c i) ↦[((Memref.whole main_v19_scv : Memref sig .scVector .hbm S25088x512 .f32).slice (Rect.unit (s := S25088x512) (k0_off5 L (BitVec.ofNat 32 (112 * r.val))) S112x128.size (k0_off5_inb L r)) (fun _ => rfl)).view.set]{fullShare} G : sProp 𝕄)
      = ((SparseCore.T d).loc main_v19 ↦[oBlockSet (e224 (widL L, r), 3)]{fullShare} G) := by
  rw [set_piece5]

end AtomsG

/-- A task's forty holdings in the deal's terms, its blocks at `G`. -/
def chainG0 (d : Dev nD) (w : Fin 32) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) : sProp 𝕄 :=
  iprop(
      ((SparseCore.T d).loc main_v12 ↦[iRowSet w]{fullShare} fi0)
    ∗ ((SparseCore.T d).loc main_v14 ↦[iRowSet w]{fullShare} fi1)
    ∗ ((SparseCore.T d).loc main_v16 ↦[iRowSet w]{fullShare} fi2)
    ∗ ((SparseCore.T d).loc main_v18 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ((SparseCore.T d).loc main_v19 ↦[oBlockSet (e224 (w, 0), 0)]{fullShare} G)
    ∗ ((SparseCore.T d).loc main_v19 ↦[oBlockSet (e224 (w, 1), 0)]{fullShare} G)
    ∗ ((SparseCore.T d).loc main_v19 ↦[oBlockSet (e224 (w, 2), 0)]{fullShare} G)
    ∗ ((SparseCore.T d).loc main_v19 ↦[oBlockSet (e224 (w, 3), 0)]{fullShare} G)
    ∗ ((SparseCore.T d).loc main_v19 ↦[oBlockSet (e224 (w, 4), 0)]{fullShare} G)
    ∗ ((SparseCore.T d).loc main_v19 ↦[oBlockSet (e224 (w, 5), 0)]{fullShare} G)
    ∗ ((SparseCore.T d).loc main_v19 ↦[oBlockSet (e224 (w, 6), 0)]{fullShare} G)
    ∗ ((SparseCore.T d).loc main_v19 ↦[oBlockSet (e224 (w, 0), 1)]{fullShare} G)
    ∗ ((SparseCore.T d).loc main_v19 ↦[oBlockSet (e224 (w, 1), 1)]{fullShare} G)
    ∗ ((SparseCore.T d).loc main_v19 ↦[oBlockSet (e224 (w, 2), 1)]{fullShare} G)
    ∗ ((SparseCore.T d).loc main_v19 ↦[oBlockSet (e224 (w, 3), 1)]{fullShare} G)
    ∗ ((SparseCore.T d).loc main_v19 ↦[oBlockSet (e224 (w, 4), 1)]{fullShare} G)
    ∗ ((SparseCore.T d).loc main_v19 ↦[oBlockSet (e224 (w, 5), 1)]{fullShare} G)
    ∗ ((SparseCore.T d).loc main_v19 ↦[oBlockSet (e224 (w, 6), 1)]{fullShare} G)
    ∗ ((SparseCore.T d).loc main_v19 ↦[oBlockSet (e224 (w, 0), 2)]{fullShare} G)
    ∗ ((SparseCore.T d).loc main_v19 ↦[oBlockSet (e224 (w, 1), 2)]{fullShare} G)
    ∗ ((SparseCore.T d).loc main_v19 ↦[oBlockSet (e224 (w, 2), 2)]{fullShare} G)
    ∗ ((SparseCore.T d).loc main_v19 ↦[oBlockSet (e224 (w, 3), 2)]{fullShare} G)
    ∗ ((SparseCore.T d).loc main_v19 ↦[oBlockSet (e224 (w, 4), 2)]{fullShare} G)
    ∗ ((SparseCore.T d).loc main_v19 ↦[oBlockSet (e224 (w, 5), 2)]{fullShare} G)
    ∗ ((SparseCore.T d).loc main_v19 ↦[oBlockSet (e224 (w, 6), 2)]{fullShare} G)
    ∗ ((SparseCore.T d).loc main_v19 ↦[oBlockSet (e224 (w, 0), 3)]{fullShare} G)
    ∗ ((SparseCore.T d).loc main_v19 ↦[oBlockSet (e224 (w, 1), 3)]{fullShare} G)
    ∗ ((SparseCore.T d).loc main_v19 ↦[oBlockSet (e224 (w, 2), 3)]{fullShare} G)
    ∗ ((SparseCore.T d).loc main_v19 ↦[oBlockSet (e224 (w, 3), 3)]{fullShare} G)
    ∗ ((SparseCore.T d).loc main_v19 ↦[oBlockSet (e224 (w, 4), 3)]{fullShare} G)
    ∗ ((SparseCore.T d).loc main_v19 ↦[oBlockSet (e224 (w, 5), 3)]{fullShare} G)
    ∗ ((SparseCore.T d).loc main_v19 ↦[oBlockSet (e224 (w, 6), 3)]{fullShare} G))

set_option maxRecDepth 8192 in
set_option maxHeartbeats 1000000 in
theorem tileResG0_chain (d : Dev nD) (c : Fin 2) (i : Fin 16) (qx : PosShare TreeShare) (fi0 : Buf (Elt F) (((SparseCore.T d).loc main_v12 : Loc nD τ sig))) (fi1 : Buf (Elt F) (((SparseCore.T d).loc main_v14 : Loc nD τ sig))) (fi2 : Buf (Elt F) (((SparseCore.T d).loc main_v16 : Loc nD τ sig))) (fi3 : Buf (Elt F) (((SparseCore.T d).loc main_v18 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) :
    tileResG0 d (coordsV0 c i) qx fi0 fi1 fi2 fi3 fx0 fx1 fx2 fx3 G = chainG0 d (widL (coordsV0 c i)) qx fi0 fi1 fi2 fi3 fx0 fx1 fx2 fx3 G := by
  unfold tileResG0 chainG0
  exact (sepCongr (pts_rowK_main_v12 d (coordsV0 c i) _ _ _) (sepCongr (pts_rowK_main_v14 d (coordsV0 c i) _ _ _) (sepCongr (pts_rowK_main_v16 d (coordsV0 c i) _ _ _) (sepCongr (pts_rowK_main_v18 d (coordsV0 c i) _ _ _) (sepCongr rfl (sepCongr rfl (sepCongr rfl (sepCongr rfl (sepCongr rfl (sepCongr rfl (sepCongr rfl (sepCongr rfl (sepCongr (ptsG_piece0_2 d (coordsV0 c i) _ _ G 0) (sepCongr (ptsG_piece0_2 d (coordsV0 c i) _ _ G 1) (sepCongr (ptsG_piece0_2 d (coordsV0 c i) _ _ G 2) (sepCongr (ptsG_piece0_2 d (coordsV0 c i) _ _ G 3) (sepCongr (ptsG_piece0_2 d (coordsV0 c i) _ _ G 4) (sepCongr (ptsG_piece0_2 d (coordsV0 c i) _ _ G 5) (sepCongr (ptsG_piece0_2 d (coordsV0 c i) _ _ G 6) (sepCongr (ptsG_piece0_3 d (coordsV0 c i) _ _ G 0) (sepCongr (ptsG_piece0_3 d (coordsV0 c i) _ _ G 1) (sepCongr (ptsG_piece0_3 d (coordsV0 c i) _ _ G 2) (sepCongr (ptsG_piece0_3 d (coordsV0 c i) _ _ G 3) (sepCongr (ptsG_piece0_3 d (coordsV0 c i) _ _ G 4) (sepCongr (ptsG_piece0_3 d (coordsV0 c i) _ _ G 5) (sepCongr (ptsG_piece0_3 d (coordsV0 c i) _ _ G 6) (sepCongr (ptsG_piece0_4 d (coordsV0 c i) _ _ G 0) (sepCongr (ptsG_piece0_4 d (coordsV0 c i) _ _ G 1) (sepCongr (ptsG_piece0_4 d (coordsV0 c i) _ _ G 2) (sepCongr (ptsG_piece0_4 d (coordsV0 c i) _ _ G 3) (sepCongr (ptsG_piece0_4 d (coordsV0 c i) _ _ G 4) (sepCongr (ptsG_piece0_4 d (coordsV0 c i) _ _ G 5) (sepCongr (ptsG_piece0_4 d (coordsV0 c i) _ _ G 6) (sepCongr (ptsG_piece0_5 d (coordsV0 c i) _ _ G 0) (sepCongr (ptsG_piece0_5 d (coordsV0 c i) _ _ G 1) (sepCongr (ptsG_piece0_5 d (coordsV0 c i) _ _ G 2) (sepCongr (ptsG_piece0_5 d (coordsV0 c i) _ _ G 3) (sepCongr (ptsG_piece0_5 d (coordsV0 c i) _ _ G 4) (sepCongr (ptsG_piece0_5 d (coordsV0 c i) _ _ G 5) (ptsG_piece0_5 d (coordsV0 c i) _ _ G 6))))))))))))))))))))))))))))))))))))))))

variable (m : (ℓ : Loc nD τ sig) → Buf (Elt F) ℓ)

/-- What task `(c, i)` holds, regrouped, its blocks at `G`. -/
def niceG0 (d : Dev nD) (c : Fin 2) (i : Fin 16) (G : S25088x512.Idx → Elt F .f32) : sProp 𝕄 :=
  iprop(
      ((SparseCore.T d).loc main_v12 ↦[iRowSet (widEquiv (c, i))]{fullShare} (Idx.slab 0 (m ((SparseCore.T d).loc main_arg4))))
    ∗ ((SparseCore.T d).loc main_v14 ↦[iRowSet (widEquiv (c, i))]{fullShare} (Idx.slab 0 (m ((SparseCore.T d).loc main_arg5))))
    ∗ ((SparseCore.T d).loc main_v16 ↦[iRowSet (widEquiv (c, i))]{fullShare} (Idx.slab 0 (m ((SparseCore.T d).loc main_arg6))))
    ∗ ((SparseCore.T d).loc main_v18 ↦[iRowSet (widEquiv (c, i))]{fullShare} (Idx.slab 0 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        ((SparseCore.T d).loc main_v19 ↦[oBlockSet (e224 (widEquiv (c, i), r), t)]{fullShare} G))

set_option maxRecDepth 8192 in
set_option maxHeartbeats 1000000 in
theorem chainG0_nice (d : Dev nD) (c : Fin 2) (i : Fin 16) (G : S25088x512.Idx → Elt F .f32) :
    chainG0 d (widEquiv (c, i)) (qTask c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) G = niceG0 m d c i G := by
  unfold chainG0 niceG0
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskResG0_nice (d : Dev nD) (c : Fin 2) (i : Fin 16) (G : S25088x512.Idx → Elt F .f32) : taskResG m 0 d c i G = niceG0 m d c i G := by
  show tileResG0 d (coordsV0 c i) (qTile c i) (Idx.slab 0 (m ((SparseCore.T d).loc main_arg4))) (Idx.slab 0 (m ((SparseCore.T d).loc main_arg5))) (Idx.slab 0 (m ((SparseCore.T d).loc main_arg6))) (Idx.slab 0 (m ((SparseCore.T d).loc main_arg7))) (m ((SparseCore.T d).loc main_arg0)) (m ((SparseCore.T d).loc main_arg1)) (m ((SparseCore.T d).loc main_arg2)) (m ((SparseCore.T d).loc main_arg3)) G = _
  rw [tileResG0_chain, widL_coordsV0]
  exact chainG0_nice m d c i G

theorem tasksG0_eq (d : Dev nD) (G : S25088x512.Idx → Elt F .f32) :
    (bigSep Finset.univ fun c : Fin 2 => bigSep Finset.univ fun i : Fin 16 => taskResG m 0 d c i G)
      = iprop((bigSep Finset.univ fun c : Fin 2 => bigSep Finset.univ fun i : Fin 16 => ((SparseCore.T d).loc main_v12 ↦[iRowSet (widEquiv (c, i))]{fullShare} (Idx.slab 0 (m ((SparseCore.T d).loc main_arg4)))))
        ∗ (bigSep Finset.univ fun c : Fin 2 => bigSep Finset.univ fun i : Fin 16 => ((SparseCore.T d).loc main_v14 ↦[iRowSet (widEquiv (c, i))]{fullShare} (Idx.slab 0 (m ((SparseCore.T d).loc main_arg5)))))
        ∗ (bigSep Finset.univ fun c : Fin 2 => bigSep Finset.univ fun i : Fin 16 => ((SparseCore.T d).loc main_v16 ↦[iRowSet (widEquiv (c, i))]{fullShare} (Idx.slab 0 (m ((SparseCore.T d).loc main_arg6)))))
        ∗ (bigSep Finset.univ fun c : Fin 2 => bigSep Finset.univ fun i : Fin 16 => ((SparseCore.T d).loc main_v18 ↦[iRowSet (widEquiv (c, i))]{fullShare} (Idx.slab 0 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        ((SparseCore.T d).loc main_v19 ↦[oBlockSet (e224 (widEquiv (c, i), r), t)]{fullShare} G))) := by
  have h : (fun c : Fin 2 => bigSep Finset.univ fun i : Fin 16 => taskResG m 0 d c i G)
      = fun c : Fin 2 => bigSep Finset.univ fun i : Fin 16 => niceG0 m d c i G :=
    funext fun c => congrArg (bigSep Finset.univ) (funext fun i => taskResG0_nice m d c i G)
  rw [h]
  unfold niceG0
  simp only [bigSep_sep']

/-- THE JOIN WITH VALUES for call 0: the tables' remainders and every task's holdings, the blocks at `G`, are the call's
    eight input arrays as they were and the result whole at `G`. -/
theorem deal0_joinG (d : Dev nD) (G : S25088x512.Idx → Elt F .f32) :
    iprop(rest0 m d ∗ bigSep Finset.univ fun c : Fin 2 => bigSep Finset.univ fun i : Fin 16 => taskResG m 0 d c i G)
      ⊢ iprop(((SparseCore.T d).loc main_v12 ↦{fullShare} (Idx.slab 0 (m ((SparseCore.T d).loc main_arg4)))) ∗ ((SparseCore.T d).loc main_v14 ↦{fullShare} (Idx.slab 0 (m ((SparseCore.T d).loc main_arg5))))
        ∗ ((SparseCore.T d).loc main_v16 ↦{fullShare} (Idx.slab 0 (m ((SparseCore.T d).loc main_arg6)))) ∗ ((SparseCore.T d).loc main_v18 ↦{fullShare} (Idx.slab 0 (m ((SparseCore.T d).loc main_arg7))))
        ∗ ((SparseCore.T d).loc main_arg0 ↦{fullShare} (m ((SparseCore.T d).loc main_arg0))) ∗ ((SparseCore.T d).loc main_arg1 ↦{fullShare} (m ((SparseCore.T d).loc main_arg1)))
        ∗ ((SparseCore.T d).loc main_arg2 ↦{fullShare} (m ((SparseCore.T d).loc main_arg2))) ∗ ((SparseCore.T d).loc main_arg3 ↦{fullShare} (m ((SparseCore.T d).loc main_arg3)))
        ∗ ((SparseCore.T d).loc main_v19 ↦{fullShare} G)) := by
  rw [tasksG0_eq]
  unfold rest0
  rw [rows_main_v12 d, rows_main_v14 d, rows_main_v16 d, rows_main_v18 d, blocks_main_v19 d G]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iexact Ho

end Cert.KernelIdeal.Sc

end
-- ==== Proof.ScCallG0.lean ====
/-
  One gather call as @main meets it, with the value: the call's result comes back whole AT the gathered slab.
-/
import proofs.«215994_g5102421148354_cont_8to1c4_853_29_alg».proof.Proof.ScCall0
import proofs.«215994_g5102421148354_cont_8to1c4_853_29_alg».proof.Proof.ScPayG
import proofs.«215994_g5102421148354_cont_8to1c4_853_29_alg».proof.Proof.ScDealG0

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

theorem stG0_eq (d : Dev nD) :
    (bigSep Finset.univ fun c : Fin ((K (F := F)).nCore 0) => (PG m).st 0 d c)
      = bigSep Finset.univ fun c : Fin 2 => bigSep Finset.univ fun i : Fin 16 => taskRes m 0 d c i :=
  bigSep_congr fun c _ =>
    show (bigSep Finset.univ fun i : Fin 16 => taskRes m 0 d (Fin.cast (nCore_eq 0) c) i) = bigSep Finset.univ fun i : Fin 16 => taskRes m 0 d c i from
      bigSep_congr fun i _ => congrArg (fun c' => taskRes m 0 d c' i) (Fin.ext rfl)

theorem dnG0_eq (d : Dev nD) :
    (bigSep Finset.univ fun c : Fin ((K (F := F)).nCore 0) => (PG m).dn 0 d c)
      = bigSep Finset.univ fun c : Fin 2 => bigSep Finset.univ fun i : Fin 16 => taskResG m 0 d c i (slabOfM m 0 d) :=
  bigSep_congr fun c _ =>
    show (bigSep Finset.univ fun i : Fin 16 => taskResG m 0 d (Fin.cast (nCore_eq 0) c) i (slabOfM m 0 d)) = bigSep Finset.univ fun i : Fin 16 => taskResG m 0 d c i (slabOfM m 0 d) from
      bigSep_congr fun i _ => congrArg (fun c' => taskResG m 0 d c' i (slabOfM m 0 d)) (Fin.ext rfl)

set_option maxHeartbeats 4000000 in
theorem call_stepG0 (κ : GSem nD τ sig → ℕ) (d : Dev nD) (W : Valuation τ sig (Elt F))
    (h12 : W (dr main_v12) = Idx.slab 0 (m ((SparseCore.T d).loc main_arg4))) (h14 : W (dr main_v14) = Idx.slab 0 (m ((SparseCore.T d).loc main_arg5)))
    (h16 : W (dr main_v16) = Idx.slab 0 (m ((SparseCore.T d).loc main_arg6))) (h18 : W (dr main_v18) = Idx.slab 0 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (PG m) κ ∗ (K (F := F)).tcSt EH d 0 ∗ held (d.tc : Thread nD τ) (Pipeline.ucRefs τ sig) W
        ∗ (iprop((K (F := F)).tcSt EH d 1 ∗ held (d.tc : Thread nD τ) (Pipeline.ucRefs τ sig) (Function.update W (dr main_v19) (slabOfM m 0 d))) -∗ Φ ⟨⟩))
      ⊢ wp frame (wpE ((K (F := F)).defs (D (F := F))) 𝒱 (SparseCore.T d) none) Set.univ ((K (F := F)).run d 0) Φ := by
  rw [held_sub_split (c := (d.tc : Thread nD τ)) l9_0_sub W, held9_0, h12, h14, h16, h18, ha0, ha1, ha2, ha3]
  iintro ⟨#Hctx, Hst, ⟨⟨H12, H14, H16, H18, A0, A1, A2, A3, O19⟩, Hrest⟩, Hk⟩
  ihave Hw := (deal0_split m d) $$ [H12 H14 H16 H18 A0 A1 A2 A3 O19]
  · unfold whole0
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := PG m) κ d 0) $$ [Hst Htasks Hr0 Hrest Hk]
  isplitr; · iexact Hctx
  isplitl [Hst]; · iexact Hst
  isplitl [Htasks]; · rw [stG0_eq]; iexact Htasks
  iintro ⟨Hst, Hdn⟩
  ihave Hdn' := (Entails.of_eq (dnG0_eq m d)) $$ Hdn
  ihave Hw2 := (deal0_joinG m d (slabOfM m 0 d)) $$ [Hr0 Hdn']
  · isplitl [Hr0] <;> iassumption
  icases Hw2 with ⟨H12, H14, H16, H18, A0, A1, A2, A3, O19⟩
  iapply Hk
  isplitl [Hst]; · iexact Hst
  rw [held_sub_split (c := (d.tc : Thread nD τ)) l9_0_sub (Function.update W (dr main_v19) (slabOfM m 0 d)), held9_0,
    Function.update_of_ne (show dr main_v12 ≠ dr main_v19 by decide), Function.update_of_ne (show dr main_v14 ≠ dr main_v19 by decide), Function.update_of_ne (show dr main_v16 ≠ dr main_v19 by decide), Function.update_of_ne (show dr main_v18 ≠ dr main_v19 by decide), Function.update_of_ne (show dr main_arg0 ≠ dr main_v19 by decide), Function.update_of_ne (show dr main_arg1 ≠ dr main_v19 by decide), Function.update_of_ne (show dr main_arg2 ≠ dr main_v19 by decide), Function.update_of_ne (show dr main_arg3 ≠ dr main_v19 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v19) (slabOfM m 0 d)) (V' := W) (fun b hb =>
    Function.update_of_ne (fun e => (Finset.mem_sdiff.mp hb).2 (e ▸ (by decide : dr main_v19 ∈ (l9_0).toFinset))) _ _)]
  iexact Hrest

end Cert.KernelIdeal.Sc

end
-- ==== Proof.ScDealG1.lean ====
import proofs.«215994_g5102421148354_cont_8to1c4_853_29_alg».proof.Proof.ScPayG
import proofs.«215994_g5102421148354_cont_8to1c4_853_29_alg».proof.Proof.ScDeal1

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 1: the tasks' holdings come back with the result's value

The same join as before, the tasks' 28 blocks now each holding the restriction of one array `G` to it: the result comes
back whole at `G`. -/

local instance sepPMG_comm1 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPMG_assoc1 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

section AtomsG
variable (d : Dev nD) (L : grid1.Coords) (c : Fin τ.nSC) (i : Fin τ.nSub)

theorem ptsG_piece1_2 (G : Buf (Elt F) ((SparseCore.T d).loc main_v28)) (r : Fin 7) :
    (((Memref.whole main_v28_scv : Memref sig .scVector .hbm S25088x512 .f32).slice (Rect.unit (s := S25088x512) (k1_off2 L (BitVec.ofNat 32 (112 * r.val))) S112x128.size (k1_off2_inb L r)) (fun _ => rfl)).view.loc (V d c i) ↦[((Memref.whole main_v28_scv : Memref sig .scVector .hbm S25088x512 .f32).slice (Rect.unit (s := S25088x512) (k1_off2 L (BitVec.ofNat 32 (112 * r.val))) S112x128.size (k1_off2_inb L r)) (fun _ => rfl)).view.set]{fullShare} G : sProp 𝕄)
      = ((SparseCore.T d).loc main_v28 ↦[oBlockSet (e224 (widL1 L, r), 0)]{fullShare} G) := by
  rw [set_piece1_2]
theorem ptsG_piece1_3 (G : Buf (Elt F) ((SparseCore.T d).loc main_v28)) (r : Fin 7) :
    (((Memref.whole main_v28_scv : Memref sig .scVector .hbm S25088x512 .f32).slice (Rect.unit (s := S25088x512) (k1_off3 L (BitVec.ofNat 32 (112 * r.val))) S112x128.size (k1_off3_inb L r)) (fun _ => rfl)).view.loc (V d c i) ↦[((Memref.whole main_v28_scv : Memref sig .scVector .hbm S25088x512 .f32).slice (Rect.unit (s := S25088x512) (k1_off3 L (BitVec.ofNat 32 (112 * r.val))) S112x128.size (k1_off3_inb L r)) (fun _ => rfl)).view.set]{fullShare} G : sProp 𝕄)
      = ((SparseCore.T d).loc main_v28 ↦[oBlockSet (e224 (widL1 L, r), 1)]{fullShare} G) := by
  rw [set_piece1_3]
theorem ptsG_piece1_4 (G : Buf (Elt F) ((SparseCore.T d).loc main_v28)) (r : Fin 7) :
    (((Memref.whole main_v28_scv : Memref sig .scVector .hbm S25088x512 .f32).slice (Rect.unit (s := S25088x512) (k1_off4 L (BitVec.ofNat 32 (112 * r.val))) S112x128.size (k1_off4_inb L r)) (fun _ => rfl)).view.loc (V d c i) ↦[((Memref.whole main_v28_scv : Memref sig .scVector .hbm S25088x512 .f32).slice (Rect.unit (s := S25088x512) (k1_off4 L (BitVec.ofNat 32 (112 * r.val))) S112x128.size (k1_off4_inb L r)) (fun _ => rfl)).view.set]{fullShare} G : sProp 𝕄)
      = ((SparseCore.T d).loc main_v28 ↦[oBlockSet (e224 (widL1 L, r), 2)]{fullShare} G) := by
  rw [set_piece1_4]
theorem ptsG_piece1_5 (G : Buf (Elt F) ((SparseCore.T d).loc main_v28)) (r : Fin 7) :
    (((Memref.whole main_v28_scv : Memref sig .scVector .hbm S25088x512 .f32).slice (Rect.unit (s := S25088x512) (k1_off5 L (BitVec.ofNat 32 (112 * r.val))) S112x128.size (k1_off5_inb L r)) (fun _ => rfl)).view.loc (V d c i) ↦[((Memref.whole main_v28_scv : Memref sig .scVector .hbm S25088x512 .f32).slice (Rect.unit (s := S25088x512) (k1_off5 L (BitVec.ofNat 32 (112 * r.val))) S112x128.size (k1_off5_inb L r)) (fun _ => rfl)).view.set]{fullShare} G : sProp 𝕄)
      = ((SparseCore.T d).loc main_v28 ↦[oBlockSet (e224 (widL1 L, r), 3)]{fullShare} G) := by
  rw [set_piece1_5]

end AtomsG

/-- A task's forty holdings in the deal's terms, its blocks at `G`. -/
def chainG1 (d : Dev nD) (w : Fin 32) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) : sProp 𝕄 :=
  iprop(
      ((SparseCore.T d).loc main_v21 ↦[iRowSet w]{fullShare} fi0)
    ∗ ((SparseCore.T d).loc main_v23 ↦[iRowSet w]{fullShare} fi1)
    ∗ ((SparseCore.T d).loc main_v25 ↦[iRowSet w]{fullShare} fi2)
    ∗ ((SparseCore.T d).loc main_v27 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ((SparseCore.T d).loc main_v28 ↦[oBlockSet (e224 (w, 0), 0)]{fullShare} G)
    ∗ ((SparseCore.T d).loc main_v28 ↦[oBlockSet (e224 (w, 1), 0)]{fullShare} G)
    ∗ ((SparseCore.T d).loc main_v28 ↦[oBlockSet (e224 (w, 2), 0)]{fullShare} G)
    ∗ ((SparseCore.T d).loc main_v28 ↦[oBlockSet (e224 (w, 3), 0)]{fullShare} G)
    ∗ ((SparseCore.T d).loc main_v28 ↦[oBlockSet (e224 (w, 4), 0)]{fullShare} G)
    ∗ ((SparseCore.T d).loc main_v28 ↦[oBlockSet (e224 (w, 5), 0)]{fullShare} G)
    ∗ ((SparseCore.T d).loc main_v28 ↦[oBlockSet (e224 (w, 6), 0)]{fullShare} G)
    ∗ ((SparseCore.T d).loc main_v28 ↦[oBlockSet (e224 (w, 0), 1)]{fullShare} G)
    ∗ ((SparseCore.T d).loc main_v28 ↦[oBlockSet (e224 (w, 1), 1)]{fullShare} G)
    ∗ ((SparseCore.T d).loc main_v28 ↦[oBlockSet (e224 (w, 2), 1)]{fullShare} G)
    ∗ ((SparseCore.T d).loc main_v28 ↦[oBlockSet (e224 (w, 3), 1)]{fullShare} G)
    ∗ ((SparseCore.T d).loc main_v28 ↦[oBlockSet (e224 (w, 4), 1)]{fullShare} G)
    ∗ ((SparseCore.T d).loc main_v28 ↦[oBlockSet (e224 (w, 5), 1)]{fullShare} G)
    ∗ ((SparseCore.T d).loc main_v28 ↦[oBlockSet (e224 (w, 6), 1)]{fullShare} G)
    ∗ ((SparseCore.T d).loc main_v28 ↦[oBlockSet (e224 (w, 0), 2)]{fullShare} G)
    ∗ ((SparseCore.T d).loc main_v28 ↦[oBlockSet (e224 (w, 1), 2)]{fullShare} G)
    ∗ ((SparseCore.T d).loc main_v28 ↦[oBlockSet (e224 (w, 2), 2)]{fullShare} G)
    ∗ ((SparseCore.T d).loc main_v28 ↦[oBlockSet (e224 (w, 3), 2)]{fullShare} G)
    ∗ ((SparseCore.T d).loc main_v28 ↦[oBlockSet (e224 (w, 4), 2)]{fullShare} G)
    ∗ ((SparseCore.T d).loc main_v28 ↦[oBlockSet (e224 (w, 5), 2)]{fullShare} G)
    ∗ ((SparseCore.T d).loc main_v28 ↦[oBlockSet (e224 (w, 6), 2)]{fullShare} G)
    ∗ ((SparseCore.T d).loc main_v28 ↦[oBlockSet (e224 (w, 0), 3)]{fullShare} G)
    ∗ ((SparseCore.T d).loc main_v28 ↦[oBlockSet (e224 (w, 1), 3)]{fullShare} G)
    ∗ ((SparseCore.T d).loc main_v28 ↦[oBlockSet (e224 (w, 2), 3)]{fullShare} G)
    ∗ ((SparseCore.T d).loc main_v28 ↦[oBlockSet (e224 (w, 3), 3)]{fullShare} G)
    ∗ ((SparseCore.T d).loc main_v28 ↦[oBlockSet (e224 (w, 4), 3)]{fullShare} G)
    ∗ ((SparseCore.T d).loc main_v28 ↦[oBlockSet (e224 (w, 5), 3)]{fullShare} G)
    ∗ ((SparseCore.T d).loc main_v28 ↦[oBlockSet (e224 (w, 6), 3)]{fullShare} G))

set_option maxRecDepth 8192 in
set_option maxHeartbeats 1000000 in
theorem tileResG1_chain (d : Dev nD) (c : Fin 2) (i : Fin 16) (qx : PosShare TreeShare) (fi0 : Buf (Elt F) (((SparseCore.T d).loc main_v21 : Loc nD τ sig))) (fi1 : Buf (Elt F) (((SparseCore.T d).loc main_v23 : Loc nD τ sig))) (fi2 : Buf (Elt F) (((SparseCore.T d).loc main_v25 : Loc nD τ sig))) (fi3 : Buf (Elt F) (((SparseCore.T d).loc main_v27 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) :
    tileResG1 d (coordsV1 c i) qx fi0 fi1 fi2 fi3 fx0 fx1 fx2 fx3 G = chainG1 d (widL1 (coordsV1 c i)) qx fi0 fi1 fi2 fi3 fx0 fx1 fx2 fx3 G := by
  unfold tileResG1 chainG1
  exact (sepCongr (pts_rowK_main_v21 d (coordsV1 c i) _ _ _) (sepCongr (pts_rowK_main_v23 d (coordsV1 c i) _ _ _) (sepCongr (pts_rowK_main_v25 d (coordsV1 c i) _ _ _) (sepCongr (pts_rowK_main_v27 d (coordsV1 c i) _ _ _) (sepCongr rfl (sepCongr rfl (sepCongr rfl (sepCongr rfl (sepCongr rfl (sepCongr rfl (sepCongr rfl (sepCongr rfl (sepCongr (ptsG_piece1_2 d (coordsV1 c i) _ _ G 0) (sepCongr (ptsG_piece1_2 d (coordsV1 c i) _ _ G 1) (sepCongr (ptsG_piece1_2 d (coordsV1 c i) _ _ G 2) (sepCongr (ptsG_piece1_2 d (coordsV1 c i) _ _ G 3) (sepCongr (ptsG_piece1_2 d (coordsV1 c i) _ _ G 4) (sepCongr (ptsG_piece1_2 d (coordsV1 c i) _ _ G 5) (sepCongr (ptsG_piece1_2 d (coordsV1 c i) _ _ G 6) (sepCongr (ptsG_piece1_3 d (coordsV1 c i) _ _ G 0) (sepCongr (ptsG_piece1_3 d (coordsV1 c i) _ _ G 1) (sepCongr (ptsG_piece1_3 d (coordsV1 c i) _ _ G 2) (sepCongr (ptsG_piece1_3 d (coordsV1 c i) _ _ G 3) (sepCongr (ptsG_piece1_3 d (coordsV1 c i) _ _ G 4) (sepCongr (ptsG_piece1_3 d (coordsV1 c i) _ _ G 5) (sepCongr (ptsG_piece1_3 d (coordsV1 c i) _ _ G 6) (sepCongr (ptsG_piece1_4 d (coordsV1 c i) _ _ G 0) (sepCongr (ptsG_piece1_4 d (coordsV1 c i) _ _ G 1) (sepCongr (ptsG_piece1_4 d (coordsV1 c i) _ _ G 2) (sepCongr (ptsG_piece1_4 d (coordsV1 c i) _ _ G 3) (sepCongr (ptsG_piece1_4 d (coordsV1 c i) _ _ G 4) (sepCongr (ptsG_piece1_4 d (coordsV1 c i) _ _ G 5) (sepCongr (ptsG_piece1_4 d (coordsV1 c i) _ _ G 6) (sepCongr (ptsG_piece1_5 d (coordsV1 c i) _ _ G 0) (sepCongr (ptsG_piece1_5 d (coordsV1 c i) _ _ G 1) (sepCongr (ptsG_piece1_5 d (coordsV1 c i) _ _ G 2) (sepCongr (ptsG_piece1_5 d (coordsV1 c i) _ _ G 3) (sepCongr (ptsG_piece1_5 d (coordsV1 c i) _ _ G 4) (sepCongr (ptsG_piece1_5 d (coordsV1 c i) _ _ G 5) (ptsG_piece1_5 d (coordsV1 c i) _ _ G 6))))))))))))))))))))))))))))))))))))))))

variable (m : (ℓ : Loc nD τ sig) → Buf (Elt F) ℓ)

/-- What task `(c, i)` holds, regrouped, its blocks at `G`. -/
def niceG1 (d : Dev nD) (c : Fin 2) (i : Fin 16) (G : S25088x512.Idx → Elt F .f32) : sProp 𝕄 :=
  iprop(
      ((SparseCore.T d).loc main_v21 ↦[iRowSet (widEquiv (c, i))]{fullShare} (Idx.slab 1 (m ((SparseCore.T d).loc main_arg4))))
    ∗ ((SparseCore.T d).loc main_v23 ↦[iRowSet (widEquiv (c, i))]{fullShare} (Idx.slab 1 (m ((SparseCore.T d).loc main_arg5))))
    ∗ ((SparseCore.T d).loc main_v25 ↦[iRowSet (widEquiv (c, i))]{fullShare} (Idx.slab 1 (m ((SparseCore.T d).loc main_arg6))))
    ∗ ((SparseCore.T d).loc main_v27 ↦[iRowSet (widEquiv (c, i))]{fullShare} (Idx.slab 1 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        ((SparseCore.T d).loc main_v28 ↦[oBlockSet (e224 (widEquiv (c, i), r), t)]{fullShare} G))

set_option maxRecDepth 8192 in
set_option maxHeartbeats 1000000 in
theorem chainG1_nice (d : Dev nD) (c : Fin 2) (i : Fin 16) (G : S25088x512.Idx → Elt F .f32) :
    chainG1 d (widEquiv (c, i)) (qTask c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) G = niceG1 m d c i G := by
  unfold chainG1 niceG1
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskResG1_nice (d : Dev nD) (c : Fin 2) (i : Fin 16) (G : S25088x512.Idx → Elt F .f32) : taskResG m 1 d c i G = niceG1 m d c i G := by
  show tileResG1 d (coordsV1 c i) (qTile c i) (Idx.slab 1 (m ((SparseCore.T d).loc main_arg4))) (Idx.slab 1 (m ((SparseCore.T d).loc main_arg5))) (Idx.slab 1 (m ((SparseCore.T d).loc main_arg6))) (Idx.slab 1 (m ((SparseCore.T d).loc main_arg7))) (m ((SparseCore.T d).loc main_arg0)) (m ((SparseCore.T d).loc main_arg1)) (m ((SparseCore.T d).loc main_arg2)) (m ((SparseCore.T d).loc main_arg3)) G = _
  rw [tileResG1_chain, widL_coordsV1]
  exact chainG1_nice m d c i G

theorem tasksG1_eq (d : Dev nD) (G : S25088x512.Idx → Elt F .f32) :
    (bigSep Finset.univ fun c : Fin 2 => bigSep Finset.univ fun i : Fin 16 => taskResG m 1 d c i G)
      = iprop((bigSep Finset.univ fun c : Fin 2 => bigSep Finset.univ fun i : Fin 16 => ((SparseCore.T d).loc main_v21 ↦[iRowSet (widEquiv (c, i))]{fullShare} (Idx.slab 1 (m ((SparseCore.T d).loc main_arg4)))))
        ∗ (bigSep Finset.univ fun c : Fin 2 => bigSep Finset.univ fun i : Fin 16 => ((SparseCore.T d).loc main_v23 ↦[iRowSet (widEquiv (c, i))]{fullShare} (Idx.slab 1 (m ((SparseCore.T d).loc main_arg5)))))
        ∗ (bigSep Finset.univ fun c : Fin 2 => bigSep Finset.univ fun i : Fin 16 => ((SparseCore.T d).loc main_v25 ↦[iRowSet (widEquiv (c, i))]{fullShare} (Idx.slab 1 (m ((SparseCore.T d).loc main_arg6)))))
        ∗ (bigSep Finset.univ fun c : Fin 2 => bigSep Finset.univ fun i : Fin 16 => ((SparseCore.T d).loc main_v27 ↦[iRowSet (widEquiv (c, i))]{fullShare} (Idx.slab 1 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        ((SparseCore.T d).loc main_v28 ↦[oBlockSet (e224 (widEquiv (c, i), r), t)]{fullShare} G))) := by
  have h : (fun c : Fin 2 => bigSep Finset.univ fun i : Fin 16 => taskResG m 1 d c i G)
      = fun c : Fin 2 => bigSep Finset.univ fun i : Fin 16 => niceG1 m d c i G :=
    funext fun c => congrArg (bigSep Finset.univ) (funext fun i => taskResG1_nice m d c i G)
  rw [h]
  unfold niceG1
  simp only [bigSep_sep']

/-- THE JOIN WITH VALUES for call 1: the tables' remainders and every task's holdings, the blocks at `G`, are the call's
    eight input arrays as they were and the result whole at `G`. -/
theorem deal1_joinG (d : Dev nD) (G : S25088x512.Idx → Elt F .f32) :
    iprop(rest0 m d ∗ bigSep Finset.univ fun c : Fin 2 => bigSep Finset.univ fun i : Fin 16 => taskResG m 1 d c i G)
      ⊢ iprop(((SparseCore.T d).loc main_v21 ↦{fullShare} (Idx.slab 1 (m ((SparseCore.T d).loc main_arg4)))) ∗ ((SparseCore.T d).loc main_v23 ↦{fullShare} (Idx.slab 1 (m ((SparseCore.T d).loc main_arg5))))
        ∗ ((SparseCore.T d).loc main_v25 ↦{fullShare} (Idx.slab 1 (m ((SparseCore.T d).loc main_arg6)))) ∗ ((SparseCore.T d).loc main_v27 ↦{fullShare} (Idx.slab 1 (m ((SparseCore.T d).loc main_arg7))))
        ∗ ((SparseCore.T d).loc main_arg0 ↦{fullShare} (m ((SparseCore.T d).loc main_arg0))) ∗ ((SparseCore.T d).loc main_arg1 ↦{fullShare} (m ((SparseCore.T d).loc main_arg1)))
        ∗ ((SparseCore.T d).loc main_arg2 ↦{fullShare} (m ((SparseCore.T d).loc main_arg2))) ∗ ((SparseCore.T d).loc main_arg3 ↦{fullShare} (m ((SparseCore.T d).loc main_arg3)))
        ∗ ((SparseCore.T d).loc main_v28 ↦{fullShare} G)) := by
  rw [tasksG1_eq]
  unfold rest0
  rw [rows_main_v21 d, rows_main_v23 d, rows_main_v25 d, rows_main_v27 d, blocks_main_v28 d G]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iexact Ho

end Cert.KernelIdeal.Sc

end
-- ==== Proof.ScCallG1.lean ====
/-
  One gather call as @main meets it, with the value: the call's result comes back whole AT the gathered slab.
-/
import proofs.«215994_g5102421148354_cont_8to1c4_853_29_alg».proof.Proof.ScCall1
import proofs.«215994_g5102421148354_cont_8to1c4_853_29_alg».proof.Proof.ScPayG
import proofs.«215994_g5102421148354_cont_8to1c4_853_29_alg».proof.Proof.ScDealG1

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

theorem stG1_eq (d : Dev nD) :
    (bigSep Finset.univ fun c : Fin ((K (F := F)).nCore 1) => (PG m).st 1 d c)
      = bigSep Finset.univ fun c : Fin 2 => bigSep Finset.univ fun i : Fin 16 => taskRes m 1 d c i :=
  bigSep_congr fun c _ =>
    show (bigSep Finset.univ fun i : Fin 16 => taskRes m 1 d (Fin.cast (nCore_eq 1) c) i) = bigSep Finset.univ fun i : Fin 16 => taskRes m 1 d c i from
      bigSep_congr fun i _ => congrArg (fun c' => taskRes m 1 d c' i) (Fin.ext rfl)

theorem dnG1_eq (d : Dev nD) :
    (bigSep Finset.univ fun c : Fin ((K (F := F)).nCore 1) => (PG m).dn 1 d c)
      = bigSep Finset.univ fun c : Fin 2 => bigSep Finset.univ fun i : Fin 16 => taskResG m 1 d c i (slabOfM m 1 d) :=
  bigSep_congr fun c _ =>
    show (bigSep Finset.univ fun i : Fin 16 => taskResG m 1 d (Fin.cast (nCore_eq 1) c) i (slabOfM m 1 d)) = bigSep Finset.univ fun i : Fin 16 => taskResG m 1 d c i (slabOfM m 1 d) from
      bigSep_congr fun i _ => congrArg (fun c' => taskResG m 1 d c' i (slabOfM m 1 d)) (Fin.ext rfl)

set_option maxHeartbeats 4000000 in
theorem call_stepG1 (κ : GSem nD τ sig → ℕ) (d : Dev nD) (W : Valuation τ sig (Elt F))
    (h12 : W (dr main_v21) = Idx.slab 1 (m ((SparseCore.T d).loc main_arg4))) (h14 : W (dr main_v23) = Idx.slab 1 (m ((SparseCore.T d).loc main_arg5)))
    (h16 : W (dr main_v25) = Idx.slab 1 (m ((SparseCore.T d).loc main_arg6))) (h18 : W (dr main_v27) = Idx.slab 1 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (PG m) κ ∗ (K (F := F)).tcSt EH d 1 ∗ held (d.tc : Thread nD τ) (Pipeline.ucRefs τ sig) W
        ∗ (iprop((K (F := F)).tcSt EH d 2 ∗ held (d.tc : Thread nD τ) (Pipeline.ucRefs τ sig) (Function.update W (dr main_v28) (slabOfM m 1 d))) -∗ Φ ⟨⟩))
      ⊢ wp frame (wpE ((K (F := F)).defs (D (F := F))) 𝒱 (SparseCore.T d) none) Set.univ ((K (F := F)).run d 1) Φ := by
  rw [held_sub_split (c := (d.tc : Thread nD τ)) l9_1_sub W, held9_1, h12, h14, h16, h18, ha0, ha1, ha2, ha3]
  iintro ⟨#Hctx, Hst, ⟨⟨H12, H14, H16, H18, A0, A1, A2, A3, O19⟩, Hrest⟩, Hk⟩
  ihave Hw := (deal1_split m d) $$ [H12 H14 H16 H18 A0 A1 A2 A3 O19]
  · unfold whole1
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := PG m) κ d 1) $$ [Hst Htasks Hr0 Hrest Hk]
  isplitr; · iexact Hctx
  isplitl [Hst]; · iexact Hst
  isplitl [Htasks]; · rw [stG1_eq]; iexact Htasks
  iintro ⟨Hst, Hdn⟩
  ihave Hdn' := (Entails.of_eq (dnG1_eq m d)) $$ Hdn
  ihave Hw2 := (deal1_joinG m d (slabOfM m 1 d)) $$ [Hr0 Hdn']
  · isplitl [Hr0] <;> iassumption
  icases Hw2 with ⟨H12, H14, H16, H18, A0, A1, A2, A3, O19⟩
  iapply Hk
  isplitl [Hst]; · iexact Hst
  rw [held_sub_split (c := (d.tc : Thread nD τ)) l9_1_sub (Function.update W (dr main_v28) (slabOfM m 1 d)), held9_1,
    Function.update_of_ne (show dr main_v21 ≠ dr main_v28 by decide), Function.update_of_ne (show dr main_v23 ≠ dr main_v28 by decide), Function.update_of_ne (show dr main_v25 ≠ dr main_v28 by decide), Function.update_of_ne (show dr main_v27 ≠ dr main_v28 by decide), Function.update_of_ne (show dr main_arg0 ≠ dr main_v28 by decide), Function.update_of_ne (show dr main_arg1 ≠ dr main_v28 by decide), Function.update_of_ne (show dr main_arg2 ≠ dr main_v28 by decide), Function.update_of_ne (show dr main_arg3 ≠ dr main_v28 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v28) (slabOfM m 1 d)) (V' := W) (fun b hb =>
    Function.update_of_ne (fun e => (Finset.mem_sdiff.mp hb).2 (e ▸ (by decide : dr main_v28 ∈ (l9_1).toFinset))) _ _)]
  iexact Hrest

end Cert.KernelIdeal.Sc

end
-- ==== Proof.ScDealG2.lean ====
import proofs.«215994_g5102421148354_cont_8to1c4_853_29_alg».proof.Proof.ScPayG
import proofs.«215994_g5102421148354_cont_8to1c4_853_29_alg».proof.Proof.ScDeal2

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 2: the tasks' holdings come back with the result's value

The same join as before, the tasks' 28 blocks now each holding the restriction of one array `G` to it: the result comes
back whole at `G`. -/

local instance sepPMG_comm2 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPMG_assoc2 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

section AtomsG
variable (d : Dev nD) (L : grid2.Coords) (c : Fin τ.nSC) (i : Fin τ.nSub)

theorem ptsG_piece2_2 (G : Buf (Elt F) ((SparseCore.T d).loc main_v37)) (r : Fin 7) :
    (((Memref.whole main_v37_scv : Memref sig .scVector .hbm S25088x512 .f32).slice (Rect.unit (s := S25088x512) (k2_off2 L (BitVec.ofNat 32 (112 * r.val))) S112x128.size (k2_off2_inb L r)) (fun _ => rfl)).view.loc (V d c i) ↦[((Memref.whole main_v37_scv : Memref sig .scVector .hbm S25088x512 .f32).slice (Rect.unit (s := S25088x512) (k2_off2 L (BitVec.ofNat 32 (112 * r.val))) S112x128.size (k2_off2_inb L r)) (fun _ => rfl)).view.set]{fullShare} G : sProp 𝕄)
      = ((SparseCore.T d).loc main_v37 ↦[oBlockSet (e224 (widL2 L, r), 0)]{fullShare} G) := by
  rw [set_piece2_2]
theorem ptsG_piece2_3 (G : Buf (Elt F) ((SparseCore.T d).loc main_v37)) (r : Fin 7) :
    (((Memref.whole main_v37_scv : Memref sig .scVector .hbm S25088x512 .f32).slice (Rect.unit (s := S25088x512) (k2_off3 L (BitVec.ofNat 32 (112 * r.val))) S112x128.size (k2_off3_inb L r)) (fun _ => rfl)).view.loc (V d c i) ↦[((Memref.whole main_v37_scv : Memref sig .scVector .hbm S25088x512 .f32).slice (Rect.unit (s := S25088x512) (k2_off3 L (BitVec.ofNat 32 (112 * r.val))) S112x128.size (k2_off3_inb L r)) (fun _ => rfl)).view.set]{fullShare} G : sProp 𝕄)
      = ((SparseCore.T d).loc main_v37 ↦[oBlockSet (e224 (widL2 L, r), 1)]{fullShare} G) := by
  rw [set_piece2_3]
theorem ptsG_piece2_4 (G : Buf (Elt F) ((SparseCore.T d).loc main_v37)) (r : Fin 7) :
    (((Memref.whole main_v37_scv : Memref sig .scVector .hbm S25088x512 .f32).slice (Rect.unit (s := S25088x512) (k2_off4 L (BitVec.ofNat 32 (112 * r.val))) S112x128.size (k2_off4_inb L r)) (fun _ => rfl)).view.loc (V d c i) ↦[((Memref.whole main_v37_scv : Memref sig .scVector .hbm S25088x512 .f32).slice (Rect.unit (s := S25088x512) (k2_off4 L (BitVec.ofNat 32 (112 * r.val))) S112x128.size (k2_off4_inb L r)) (fun _ => rfl)).view.set]{fullShare} G : sProp 𝕄)
      = ((SparseCore.T d).loc main_v37 ↦[oBlockSet (e224 (widL2 L, r), 2)]{fullShare} G) := by
  rw [set_piece2_4]
theorem ptsG_piece2_5 (G : Buf (Elt F) ((SparseCore.T d).loc main_v37)) (r : Fin 7) :
    (((Memref.whole main_v37_scv : Memref sig .scVector .hbm S25088x512 .f32).slice (Rect.unit (s := S25088x512) (k2_off5 L (BitVec.ofNat 32 (112 * r.val))) S112x128.size (k2_off5_inb L r)) (fun _ => rfl)).view.loc (V d c i) ↦[((Memref.whole main_v37_scv : Memref sig .scVector .hbm S25088x512 .f32).slice (Rect.unit (s := S25088x512) (k2_off5 L (BitVec.ofNat 32 (112 * r.val))) S112x128.size (k2_off5_inb L r)) (fun _ => rfl)).view.set]{fullShare} G : sProp 𝕄)
      = ((SparseCore.T d).loc main_v37 ↦[oBlockSet (e224 (widL2 L, r), 3)]{fullShare} G) := by
  rw [set_piece2_5]

end AtomsG

/-- A task's forty holdings in the deal's terms, its blocks at `G`. -/
def chainG2 (d : Dev nD) (w : Fin 32) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) : sProp 𝕄 :=
  iprop(
      ((SparseCore.T d).loc main_v30 ↦[iRowSet w]{fullShare} fi0)
    ∗ ((SparseCore.T d).loc main_v32 ↦[iRowSet w]{fullShare} fi1)
    ∗ ((SparseCore.T d).loc main_v34 ↦[iRowSet w]{fullShare} fi2)
    ∗ ((SparseCore.T d).loc main_v36 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ((SparseCore.T d).loc main_v37 ↦[oBlockSet (e224 (w, 0), 0)]{fullShare} G)
    ∗ ((SparseCore.T d).loc main_v37 ↦[oBlockSet (e224 (w, 1), 0)]{fullShare} G)
    ∗ ((SparseCore.T d).loc main_v37 ↦[oBlockSet (e224 (w, 2), 0)]{fullShare} G)
    ∗ ((SparseCore.T d).loc main_v37 ↦[oBlockSet (e224 (w, 3), 0)]{fullShare} G)
    ∗ ((SparseCore.T d).loc main_v37 ↦[oBlockSet (e224 (w, 4), 0)]{fullShare} G)
    ∗ ((SparseCore.T d).loc main_v37 ↦[oBlockSet (e224 (w, 5), 0)]{fullShare} G)
    ∗ ((SparseCore.T d).loc main_v37 ↦[oBlockSet (e224 (w, 6), 0)]{fullShare} G)
    ∗ ((SparseCore.T d).loc main_v37 ↦[oBlockSet (e224 (w, 0), 1)]{fullShare} G)
    ∗ ((SparseCore.T d).loc main_v37 ↦[oBlockSet (e224 (w, 1), 1)]{fullShare} G)
    ∗ ((SparseCore.T d).loc main_v37 ↦[oBlockSet (e224 (w, 2), 1)]{fullShare} G)
    ∗ ((SparseCore.T d).loc main_v37 ↦[oBlockSet (e224 (w, 3), 1)]{fullShare} G)
    ∗ ((SparseCore.T d).loc main_v37 ↦[oBlockSet (e224 (w, 4), 1)]{fullShare} G)
    ∗ ((SparseCore.T d).loc main_v37 ↦[oBlockSet (e224 (w, 5), 1)]{fullShare} G)
    ∗ ((SparseCore.T d).loc main_v37 ↦[oBlockSet (e224 (w, 6), 1)]{fullShare} G)
    ∗ ((SparseCore.T d).loc main_v37 ↦[oBlockSet (e224 (w, 0), 2)]{fullShare} G)
    ∗ ((SparseCore.T d).loc main_v37 ↦[oBlockSet (e224 (w, 1), 2)]{fullShare} G)
    ∗ ((SparseCore.T d).loc main_v37 ↦[oBlockSet (e224 (w, 2), 2)]{fullShare} G)
    ∗ ((SparseCore.T d).loc main_v37 ↦[oBlockSet (e224 (w, 3), 2)]{fullShare} G)
    ∗ ((SparseCore.T d).loc main_v37 ↦[oBlockSet (e224 (w, 4), 2)]{fullShare} G)
    ∗ ((SparseCore.T d).loc main_v37 ↦[oBlockSet (e224 (w, 5), 2)]{fullShare} G)
    ∗ ((SparseCore.T d).loc main_v37 ↦[oBlockSet (e224 (w, 6), 2)]{fullShare} G)
    ∗ ((SparseCore.T d).loc main_v37 ↦[oBlockSet (e224 (w, 0), 3)]{fullShare} G)
    ∗ ((SparseCore.T d).loc main_v37 ↦[oBlockSet (e224 (w, 1), 3)]{fullShare} G)
    ∗ ((SparseCore.T d).loc main_v37 ↦[oBlockSet (e224 (w, 2), 3)]{fullShare} G)
    ∗ ((SparseCore.T d).loc main_v37 ↦[oBlockSet (e224 (w, 3), 3)]{fullShare} G)
    ∗ ((SparseCore.T d).loc main_v37 ↦[oBlockSet (e224 (w, 4), 3)]{fullShare} G)
    ∗ ((SparseCore.T d).loc main_v37 ↦[oBlockSet (e224 (w, 5), 3)]{fullShare} G)
    ∗ ((SparseCore.T d).loc main_v37 ↦[oBlockSet (e224 (w, 6), 3)]{fullShare} G))

set_option maxRecDepth 8192 in
set_option maxHeartbeats 1000000 in
theorem tileResG2_chain (d : Dev nD) (c : Fin 2) (i : Fin 16) (qx : PosShare TreeShare) (fi0 : Buf (Elt F) (((SparseCore.T d).loc main_v30 : Loc nD τ sig))) (fi1 : Buf (Elt F) (((SparseCore.T d).loc main_v32 : Loc nD τ sig))) (fi2 : Buf (Elt F) (((SparseCore.T d).loc main_v34 : Loc nD τ sig))) (fi3 : Buf (Elt F) (((SparseCore.T d).loc main_v36 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) :
    tileResG2 d (coordsV2 c i) qx fi0 fi1 fi2 fi3 fx0 fx1 fx2 fx3 G = chainG2 d (widL2 (coordsV2 c i)) qx fi0 fi1 fi2 fi3 fx0 fx1 fx2 fx3 G := by
  unfold tileResG2 chainG2
  exact (sepCongr (pts_rowK_main_v30 d (coordsV2 c i) _ _ _) (sepCongr (pts_rowK_main_v32 d (coordsV2 c i) _ _ _) (sepCongr (pts_rowK_main_v34 d (coordsV2 c i) _ _ _) (sepCongr (pts_rowK_main_v36 d (coordsV2 c i) _ _ _) (sepCongr rfl (sepCongr rfl (sepCongr rfl (sepCongr rfl (sepCongr rfl (sepCongr rfl (sepCongr rfl (sepCongr rfl (sepCongr (ptsG_piece2_2 d (coordsV2 c i) _ _ G 0) (sepCongr (ptsG_piece2_2 d (coordsV2 c i) _ _ G 1) (sepCongr (ptsG_piece2_2 d (coordsV2 c i) _ _ G 2) (sepCongr (ptsG_piece2_2 d (coordsV2 c i) _ _ G 3) (sepCongr (ptsG_piece2_2 d (coordsV2 c i) _ _ G 4) (sepCongr (ptsG_piece2_2 d (coordsV2 c i) _ _ G 5) (sepCongr (ptsG_piece2_2 d (coordsV2 c i) _ _ G 6) (sepCongr (ptsG_piece2_3 d (coordsV2 c i) _ _ G 0) (sepCongr (ptsG_piece2_3 d (coordsV2 c i) _ _ G 1) (sepCongr (ptsG_piece2_3 d (coordsV2 c i) _ _ G 2) (sepCongr (ptsG_piece2_3 d (coordsV2 c i) _ _ G 3) (sepCongr (ptsG_piece2_3 d (coordsV2 c i) _ _ G 4) (sepCongr (ptsG_piece2_3 d (coordsV2 c i) _ _ G 5) (sepCongr (ptsG_piece2_3 d (coordsV2 c i) _ _ G 6) (sepCongr (ptsG_piece2_4 d (coordsV2 c i) _ _ G 0) (sepCongr (ptsG_piece2_4 d (coordsV2 c i) _ _ G 1) (sepCongr (ptsG_piece2_4 d (coordsV2 c i) _ _ G 2) (sepCongr (ptsG_piece2_4 d (coordsV2 c i) _ _ G 3) (sepCongr (ptsG_piece2_4 d (coordsV2 c i) _ _ G 4) (sepCongr (ptsG_piece2_4 d (coordsV2 c i) _ _ G 5) (sepCongr (ptsG_piece2_4 d (coordsV2 c i) _ _ G 6) (sepCongr (ptsG_piece2_5 d (coordsV2 c i) _ _ G 0) (sepCongr (ptsG_piece2_5 d (coordsV2 c i) _ _ G 1) (sepCongr (ptsG_piece2_5 d (coordsV2 c i) _ _ G 2) (sepCongr (ptsG_piece2_5 d (coordsV2 c i) _ _ G 3) (sepCongr (ptsG_piece2_5 d (coordsV2 c i) _ _ G 4) (sepCongr (ptsG_piece2_5 d (coordsV2 c i) _ _ G 5) (ptsG_piece2_5 d (coordsV2 c i) _ _ G 6))))))))))))))))))))))))))))))))))))))))

variable (m : (ℓ : Loc nD τ sig) → Buf (Elt F) ℓ)

/-- What task `(c, i)` holds, regrouped, its blocks at `G`. -/
def niceG2 (d : Dev nD) (c : Fin 2) (i : Fin 16) (G : S25088x512.Idx → Elt F .f32) : sProp 𝕄 :=
  iprop(
      ((SparseCore.T d).loc main_v30 ↦[iRowSet (widEquiv (c, i))]{fullShare} (Idx.slab 2 (m ((SparseCore.T d).loc main_arg4))))
    ∗ ((SparseCore.T d).loc main_v32 ↦[iRowSet (widEquiv (c, i))]{fullShare} (Idx.slab 2 (m ((SparseCore.T d).loc main_arg5))))
    ∗ ((SparseCore.T d).loc main_v34 ↦[iRowSet (widEquiv (c, i))]{fullShare} (Idx.slab 2 (m ((SparseCore.T d).loc main_arg6))))
    ∗ ((SparseCore.T d).loc main_v36 ↦[iRowSet (widEquiv (c, i))]{fullShare} (Idx.slab 2 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        ((SparseCore.T d).loc main_v37 ↦[oBlockSet (e224 (widEquiv (c, i), r), t)]{fullShare} G))

set_option maxRecDepth 8192 in
set_option maxHeartbeats 1000000 in
theorem chainG2_nice (d : Dev nD) (c : Fin 2) (i : Fin 16) (G : S25088x512.Idx → Elt F .f32) :
    chainG2 d (widEquiv (c, i)) (qTask c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) G = niceG2 m d c i G := by
  unfold chainG2 niceG2
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskResG2_nice (d : Dev nD) (c : Fin 2) (i : Fin 16) (G : S25088x512.Idx → Elt F .f32) : taskResG m 2 d c i G = niceG2 m d c i G := by
  show tileResG2 d (coordsV2 c i) (qTile c i) (Idx.slab 2 (m ((SparseCore.T d).loc main_arg4))) (Idx.slab 2 (m ((SparseCore.T d).loc main_arg5))) (Idx.slab 2 (m ((SparseCore.T d).loc main_arg6))) (Idx.slab 2 (m ((SparseCore.T d).loc main_arg7))) (m ((SparseCore.T d).loc main_arg0)) (m ((SparseCore.T d).loc main_arg1)) (m ((SparseCore.T d).loc main_arg2)) (m ((SparseCore.T d).loc main_arg3)) G = _
  rw [tileResG2_chain, widL_coordsV2]
  exact chainG2_nice m d c i G

theorem tasksG2_eq (d : Dev nD) (G : S25088x512.Idx → Elt F .f32) :
    (bigSep Finset.univ fun c : Fin 2 => bigSep Finset.univ fun i : Fin 16 => taskResG m 2 d c i G)
      = iprop((bigSep Finset.univ fun c : Fin 2 => bigSep Finset.univ fun i : Fin 16 => ((SparseCore.T d).loc main_v30 ↦[iRowSet (widEquiv (c, i))]{fullShare} (Idx.slab 2 (m ((SparseCore.T d).loc main_arg4)))))
        ∗ (bigSep Finset.univ fun c : Fin 2 => bigSep Finset.univ fun i : Fin 16 => ((SparseCore.T d).loc main_v32 ↦[iRowSet (widEquiv (c, i))]{fullShare} (Idx.slab 2 (m ((SparseCore.T d).loc main_arg5)))))
        ∗ (bigSep Finset.univ fun c : Fin 2 => bigSep Finset.univ fun i : Fin 16 => ((SparseCore.T d).loc main_v34 ↦[iRowSet (widEquiv (c, i))]{fullShare} (Idx.slab 2 (m ((SparseCore.T d).loc main_arg6)))))
        ∗ (bigSep Finset.univ fun c : Fin 2 => bigSep Finset.univ fun i : Fin 16 => ((SparseCore.T d).loc main_v36 ↦[iRowSet (widEquiv (c, i))]{fullShare} (Idx.slab 2 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        ((SparseCore.T d).loc main_v37 ↦[oBlockSet (e224 (widEquiv (c, i), r), t)]{fullShare} G))) := by
  have h : (fun c : Fin 2 => bigSep Finset.univ fun i : Fin 16 => taskResG m 2 d c i G)
      = fun c : Fin 2 => bigSep Finset.univ fun i : Fin 16 => niceG2 m d c i G :=
    funext fun c => congrArg (bigSep Finset.univ) (funext fun i => taskResG2_nice m d c i G)
  rw [h]
  unfold niceG2
  simp only [bigSep_sep']

/-- THE JOIN WITH VALUES for call 2: the tables' remainders and every task's holdings, the blocks at `G`, are the call's
    eight input arrays as they were and the result whole at `G`. -/
theorem deal2_joinG (d : Dev nD) (G : S25088x512.Idx → Elt F .f32) :
    iprop(rest0 m d ∗ bigSep Finset.univ fun c : Fin 2 => bigSep Finset.univ fun i : Fin 16 => taskResG m 2 d c i G)
      ⊢ iprop(((SparseCore.T d).loc main_v30 ↦{fullShare} (Idx.slab 2 (m ((SparseCore.T d).loc main_arg4)))) ∗ ((SparseCore.T d).loc main_v32 ↦{fullShare} (Idx.slab 2 (m ((SparseCore.T d).loc main_arg5))))
        ∗ ((SparseCore.T d).loc main_v34 ↦{fullShare} (Idx.slab 2 (m ((SparseCore.T d).loc main_arg6)))) ∗ ((SparseCore.T d).loc main_v36 ↦{fullShare} (Idx.slab 2 (m ((SparseCore.T d).loc main_arg7))))
        ∗ ((SparseCore.T d).loc main_arg0 ↦{fullShare} (m ((SparseCore.T d).loc main_arg0))) ∗ ((SparseCore.T d).loc main_arg1 ↦{fullShare} (m ((SparseCore.T d).loc main_arg1)))
        ∗ ((SparseCore.T d).loc main_arg2 ↦{fullShare} (m ((SparseCore.T d).loc main_arg2))) ∗ ((SparseCore.T d).loc main_arg3 ↦{fullShare} (m ((SparseCore.T d).loc main_arg3)))
        ∗ ((SparseCore.T d).loc main_v37 ↦{fullShare} G)) := by
  rw [tasksG2_eq]
  unfold rest0
  rw [rows_main_v30 d, rows_main_v32 d, rows_main_v34 d, rows_main_v36 d, blocks_main_v37 d G]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iexact Ho

end Cert.KernelIdeal.Sc

end
-- ==== Proof.ScCallG2.lean ====
/-
  One gather call as @main meets it, with the value: the call's result comes back whole AT the gathered slab.
-/
import proofs.«215994_g5102421148354_cont_8to1c4_853_29_alg».proof.Proof.ScCall2
import proofs.«215994_g5102421148354_cont_8to1c4_853_29_alg».proof.Proof.ScPayG
import proofs.«215994_g5102421148354_cont_8to1c4_853_29_alg».proof.Proof.ScDealG2

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

theorem stG2_eq (d : Dev nD) :
    (bigSep Finset.univ fun c : Fin ((K (F := F)).nCore 2) => (PG m).st 2 d c)
      = bigSep Finset.univ fun c : Fin 2 => bigSep Finset.univ fun i : Fin 16 => taskRes m 2 d c i :=
  bigSep_congr fun c _ =>
    show (bigSep Finset.univ fun i : Fin 16 => taskRes m 2 d (Fin.cast (nCore_eq 2) c) i) = bigSep Finset.univ fun i : Fin 16 => taskRes m 2 d c i from
      bigSep_congr fun i _ => congrArg (fun c' => taskRes m 2 d c' i) (Fin.ext rfl)

theorem dnG2_eq (d : Dev nD) :
    (bigSep Finset.univ fun c : Fin ((K (F := F)).nCore 2) => (PG m).dn 2 d c)
      = bigSep Finset.univ fun c : Fin 2 => bigSep Finset.univ fun i : Fin 16 => taskResG m 2 d c i (slabOfM m 2 d) :=
  bigSep_congr fun c _ =>
    show (bigSep Finset.univ fun i : Fin 16 => taskResG m 2 d (Fin.cast (nCore_eq 2) c) i (slabOfM m 2 d)) = bigSep Finset.univ fun i : Fin 16 => taskResG m 2 d c i (slabOfM m 2 d) from
      bigSep_congr fun i _ => congrArg (fun c' => taskResG m 2 d c' i (slabOfM m 2 d)) (Fin.ext rfl)

set_option maxHeartbeats 4000000 in
theorem call_stepG2 (κ : GSem nD τ sig → ℕ) (d : Dev nD) (W : Valuation τ sig (Elt F))
    (h12 : W (dr main_v30) = Idx.slab 2 (m ((SparseCore.T d).loc main_arg4))) (h14 : W (dr main_v32) = Idx.slab 2 (m ((SparseCore.T d).loc main_arg5)))
    (h16 : W (dr main_v34) = Idx.slab 2 (m ((SparseCore.T d).loc main_arg6))) (h18 : W (dr main_v36) = Idx.slab 2 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (PG m) κ ∗ (K (F := F)).tcSt EH d 2 ∗ held (d.tc : Thread nD τ) (Pipeline.ucRefs τ sig) W
        ∗ (iprop((K (F := F)).tcSt EH d 3 ∗ held (d.tc : Thread nD τ) (Pipeline.ucRefs τ sig) (Function.update W (dr main_v37) (slabOfM m 2 d))) -∗ Φ ⟨⟩))
      ⊢ wp frame (wpE ((K (F := F)).defs (D (F := F))) 𝒱 (SparseCore.T d) none) Set.univ ((K (F := F)).run d 2) Φ := by
  rw [held_sub_split (c := (d.tc : Thread nD τ)) l9_2_sub W, held9_2, h12, h14, h16, h18, ha0, ha1, ha2, ha3]
  iintro ⟨#Hctx, Hst, ⟨⟨H12, H14, H16, H18, A0, A1, A2, A3, O19⟩, Hrest⟩, Hk⟩
  ihave Hw := (deal2_split m d) $$ [H12 H14 H16 H18 A0 A1 A2 A3 O19]
  · unfold whole2
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := PG m) κ d 2) $$ [Hst Htasks Hr0 Hrest Hk]
  isplitr; · iexact Hctx
  isplitl [Hst]; · iexact Hst
  isplitl [Htasks]; · rw [stG2_eq]; iexact Htasks
  iintro ⟨Hst, Hdn⟩
  ihave Hdn' := (Entails.of_eq (dnG2_eq m d)) $$ Hdn
  ihave Hw2 := (deal2_joinG m d (slabOfM m 2 d)) $$ [Hr0 Hdn']
  · isplitl [Hr0] <;> iassumption
  icases Hw2 with ⟨H12, H14, H16, H18, A0, A1, A2, A3, O19⟩
  iapply Hk
  isplitl [Hst]; · iexact Hst
  rw [held_sub_split (c := (d.tc : Thread nD τ)) l9_2_sub (Function.update W (dr main_v37) (slabOfM m 2 d)), held9_2,
    Function.update_of_ne (show dr main_v30 ≠ dr main_v37 by decide), Function.update_of_ne (show dr main_v32 ≠ dr main_v37 by decide), Function.update_of_ne (show dr main_v34 ≠ dr main_v37 by decide), Function.update_of_ne (show dr main_v36 ≠ dr main_v37 by decide), Function.update_of_ne (show dr main_arg0 ≠ dr main_v37 by decide), Function.update_of_ne (show dr main_arg1 ≠ dr main_v37 by decide), Function.update_of_ne (show dr main_arg2 ≠ dr main_v37 by decide), Function.update_of_ne (show dr main_arg3 ≠ dr main_v37 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v37) (slabOfM m 2 d)) (V' := W) (fun b hb =>
    Function.update_of_ne (fun e => (Finset.mem_sdiff.mp hb).2 (e ▸ (by decide : dr main_v37 ∈ (l9_2).toFinset))) _ _)]
  iexact Hrest

end Cert.KernelIdeal.Sc

end
-- ==== Proof.ScDealG3.lean ====
import proofs.«215994_g5102421148354_cont_8to1c4_853_29_alg».proof.Proof.ScPayG
import proofs.«215994_g5102421148354_cont_8to1c4_853_29_alg».proof.Proof.ScDeal3

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig (HIx 4) (Elt F) ℕ UU ℕ

/-! ## Gather call 3: the tasks' holdings come back with the result's value

The same join as before, the tasks' 28 blocks now each holding the restriction of one array `G` to it: the result comes
back whole at `G`. -/

local instance sepPMG_comm3 : Std.Commutative (α := sProp 𝕄) (fun a b => iprop(a ∗ b)) :=
  ⟨fun a b => Idealize.SL.BI.Entails.antisymm (Idealize.SL.BI.sep_comm (P := a) (Q := b)) (Idealize.SL.BI.sep_comm (P := b) (Q := a))⟩
local instance sepPMG_assoc3 : Std.Associative (α := sProp 𝕄) (fun a b => iprop(a ∗ b)) :=
  ⟨fun a b c => Idealize.SL.BI.Entails.antisymm (Idealize.SL.BI.sep_assoc (P := a) (Q := b) (R := c))
    (Idealize.SL.BI.sep_assoc' (P := a) (Q := b) (R := c))⟩

section AtomsG
variable (d : Dev nD) (L : grid3.Coords) (c : Fin τ.nSC) (i : Fin τ.nSub)

theorem ptsG_piece3_2 (G : Buf (Elt F) ((SparseCore.T d).loc main_v46)) (r : Fin 7) :
    (((Memref.whole main_v46_scv : Memref sig .scVector .hbm S25088x512 .f32).slice (Rect.unit (s := S25088x512) (k3_off2 L (BitVec.ofNat 32 (112 * r.val))) S112x128.size (k3_off2_inb L r)) (fun _ => rfl)).view.loc (V d c i) ↦[((Memref.whole main_v46_scv : Memref sig .scVector .hbm S25088x512 .f32).slice (Rect.unit (s := S25088x512) (k3_off2 L (BitVec.ofNat 32 (112 * r.val))) S112x128.size (k3_off2_inb L r)) (fun _ => rfl)).view.set]{fullShare} G : sProp 𝕄)
      = ((SparseCore.T d).loc main_v46 ↦[oBlockSet (e224 (widL3 L, r), 0)]{fullShare} G) := by
  rw [set_piece3_2]
theorem ptsG_piece3_3 (G : Buf (Elt F) ((SparseCore.T d).loc main_v46)) (r : Fin 7) :
    (((Memref.whole main_v46_scv : Memref sig .scVector .hbm S25088x512 .f32).slice (Rect.unit (s := S25088x512) (k3_off3 L (BitVec.ofNat 32 (112 * r.val))) S112x128.size (k3_off3_inb L r)) (fun _ => rfl)).view.loc (V d c i) ↦[((Memref.whole main_v46_scv : Memref sig .scVector .hbm S25088x512 .f32).slice (Rect.unit (s := S25088x512) (k3_off3 L (BitVec.ofNat 32 (112 * r.val))) S112x128.size (k3_off3_inb L r)) (fun _ => rfl)).view.set]{fullShare} G : sProp 𝕄)
      = ((SparseCore.T d).loc main_v46 ↦[oBlockSet (e224 (widL3 L, r), 1)]{fullShare} G) := by
  rw [set_piece3_3]
theorem ptsG_piece3_4 (G : Buf (Elt F) ((SparseCore.T d).loc main_v46)) (r : Fin 7) :
    (((Memref.whole main_v46_scv : Memref sig .scVector .hbm S25088x512 .f32).slice (Rect.unit (s := S25088x512) (k3_off4 L (BitVec.ofNat 32 (112 * r.val))) S112x128.size (k3_off4_inb L r)) (fun _ => rfl)).view.loc (V d c i) ↦[((Memref.whole main_v46_scv : Memref sig .scVector .hbm S25088x512 .f32).slice (Rect.unit (s := S25088x512) (k3_off4 L (BitVec.ofNat 32 (112 * r.val))) S112x128.size (k3_off4_inb L r)) (fun _ => rfl)).view.set]{fullShare} G : sProp 𝕄)
      = ((SparseCore.T d).loc main_v46 ↦[oBlockSet (e224 (widL3 L, r), 2)]{fullShare} G) := by
  rw [set_piece3_4]
theorem ptsG_piece3_5 (G : Buf (Elt F) ((SparseCore.T d).loc main_v46)) (r : Fin 7) :
    (((Memref.whole main_v46_scv : Memref sig .scVector .hbm S25088x512 .f32).slice (Rect.unit (s := S25088x512) (k3_off5 L (BitVec.ofNat 32 (112 * r.val))) S112x128.size (k3_off5_inb L r)) (fun _ => rfl)).view.loc (V d c i) ↦[((Memref.whole main_v46_scv : Memref sig .scVector .hbm S25088x512 .f32).slice (Rect.unit (s := S25088x512) (k3_off5 L (BitVec.ofNat 32 (112 * r.val))) S112x128.size (k3_off5_inb L r)) (fun _ => rfl)).view.set]{fullShare} G : sProp 𝕄)
      = ((SparseCore.T d).loc main_v46 ↦[oBlockSet (e224 (widL3 L, r), 3)]{fullShare} G) := by
  rw [set_piece3_5]

end AtomsG

/-- A task's forty holdings in the deal's terms, its blocks at `G`. -/
def chainG3 (d : Dev nD) (w : Fin 32) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) : sProp 𝕄 :=
  iprop(
      ((SparseCore.T d).loc main_v39 ↦[iRowSet w]{fullShare} fi0)
    ∗ ((SparseCore.T d).loc main_v41 ↦[iRowSet w]{fullShare} fi1)
    ∗ ((SparseCore.T d).loc main_v43 ↦[iRowSet w]{fullShare} fi2)
    ∗ ((SparseCore.T d).loc main_v45 ↦[iRowSet w]{fullShare} fi3)
    ∗ ((SparseCore.T d).loc main_arg0 ↦{Transfers.shareDrop qx 11} fx0)
    ∗ (bigSep Finset.univ fun k : Fin 11 => ((SparseCore.T d).loc main_arg0 ↦{Transfers.shareTok qx 11 k} fx0))
    ∗ ((SparseCore.T d).loc main_arg1 ↦{Transfers.shareDrop qx 11} fx1)
    ∗ (bigSep Finset.univ fun k : Fin 11 => ((SparseCore.T d).loc main_arg1 ↦{Transfers.shareTok qx 11 k} fx1))
    ∗ ((SparseCore.T d).loc main_arg2 ↦{Transfers.shareDrop qx 11} fx2)
    ∗ (bigSep Finset.univ fun k : Fin 11 => ((SparseCore.T d).loc main_arg2 ↦{Transfers.shareTok qx 11 k} fx2))
    ∗ ((SparseCore.T d).loc main_arg3 ↦{Transfers.shareDrop qx 11} fx3)
    ∗ (bigSep Finset.univ fun k : Fin 11 => ((SparseCore.T d).loc main_arg3 ↦{Transfers.shareTok qx 11 k} fx3))
    ∗ ((SparseCore.T d).loc main_v46 ↦[oBlockSet (e224 (w, 0), 0)]{fullShare} G)
    ∗ ((SparseCore.T d).loc main_v46 ↦[oBlockSet (e224 (w, 1), 0)]{fullShare} G)
    ∗ ((SparseCore.T d).loc main_v46 ↦[oBlockSet (e224 (w, 2), 0)]{fullShare} G)
    ∗ ((SparseCore.T d).loc main_v46 ↦[oBlockSet (e224 (w, 3), 0)]{fullShare} G)
    ∗ ((SparseCore.T d).loc main_v46 ↦[oBlockSet (e224 (w, 4), 0)]{fullShare} G)
    ∗ ((SparseCore.T d).loc main_v46 ↦[oBlockSet (e224 (w, 5), 0)]{fullShare} G)
    ∗ ((SparseCore.T d).loc main_v46 ↦[oBlockSet (e224 (w, 6), 0)]{fullShare} G)
    ∗ ((SparseCore.T d).loc main_v46 ↦[oBlockSet (e224 (w, 0), 1)]{fullShare} G)
    ∗ ((SparseCore.T d).loc main_v46 ↦[oBlockSet (e224 (w, 1), 1)]{fullShare} G)
    ∗ ((SparseCore.T d).loc main_v46 ↦[oBlockSet (e224 (w, 2), 1)]{fullShare} G)
    ∗ ((SparseCore.T d).loc main_v46 ↦[oBlockSet (e224 (w, 3), 1)]{fullShare} G)
    ∗ ((SparseCore.T d).loc main_v46 ↦[oBlockSet (e224 (w, 4), 1)]{fullShare} G)
    ∗ ((SparseCore.T d).loc main_v46 ↦[oBlockSet (e224 (w, 5), 1)]{fullShare} G)
    ∗ ((SparseCore.T d).loc main_v46 ↦[oBlockSet (e224 (w, 6), 1)]{fullShare} G)
    ∗ ((SparseCore.T d).loc main_v46 ↦[oBlockSet (e224 (w, 0), 2)]{fullShare} G)
    ∗ ((SparseCore.T d).loc main_v46 ↦[oBlockSet (e224 (w, 1), 2)]{fullShare} G)
    ∗ ((SparseCore.T d).loc main_v46 ↦[oBlockSet (e224 (w, 2), 2)]{fullShare} G)
    ∗ ((SparseCore.T d).loc main_v46 ↦[oBlockSet (e224 (w, 3), 2)]{fullShare} G)
    ∗ ((SparseCore.T d).loc main_v46 ↦[oBlockSet (e224 (w, 4), 2)]{fullShare} G)
    ∗ ((SparseCore.T d).loc main_v46 ↦[oBlockSet (e224 (w, 5), 2)]{fullShare} G)
    ∗ ((SparseCore.T d).loc main_v46 ↦[oBlockSet (e224 (w, 6), 2)]{fullShare} G)
    ∗ ((SparseCore.T d).loc main_v46 ↦[oBlockSet (e224 (w, 0), 3)]{fullShare} G)
    ∗ ((SparseCore.T d).loc main_v46 ↦[oBlockSet (e224 (w, 1), 3)]{fullShare} G)
    ∗ ((SparseCore.T d).loc main_v46 ↦[oBlockSet (e224 (w, 2), 3)]{fullShare} G)
    ∗ ((SparseCore.T d).loc main_v46 ↦[oBlockSet (e224 (w, 3), 3)]{fullShare} G)
    ∗ ((SparseCore.T d).loc main_v46 ↦[oBlockSet (e224 (w, 4), 3)]{fullShare} G)
    ∗ ((SparseCore.T d).loc main_v46 ↦[oBlockSet (e224 (w, 5), 3)]{fullShare} G)
    ∗ ((SparseCore.T d).loc main_v46 ↦[oBlockSet (e224 (w, 6), 3)]{fullShare} G))

set_option maxRecDepth 8192 in
set_option maxHeartbeats 1000000 in
theorem tileResG3_chain (d : Dev nD) (c : Fin 2) (i : Fin 16) (qx : PosShare TreeShare) (fi0 : Buf (Elt F) (((SparseCore.T d).loc main_v39 : Loc nD τ sig))) (fi1 : Buf (Elt F) (((SparseCore.T d).loc main_v41 : Loc nD τ sig))) (fi2 : Buf (Elt F) (((SparseCore.T d).loc main_v43 : Loc nD τ sig))) (fi3 : Buf (Elt F) (((SparseCore.T d).loc main_v45 : Loc nD τ sig))) (fx0 : Buf (Elt F) (((SparseCore.T d).loc main_arg0 : Loc nD τ sig))) (fx1 : Buf (Elt F) (((SparseCore.T d).loc main_arg1 : Loc nD τ sig))) (fx2 : Buf (Elt F) (((SparseCore.T d).loc main_arg2 : Loc nD τ sig))) (fx3 : Buf (Elt F) (((SparseCore.T d).loc main_arg3 : Loc nD τ sig))) (G : S25088x512.Idx → Elt F .f32) :
    tileResG3 d (coordsV3 c i) qx fi0 fi1 fi2 fi3 fx0 fx1 fx2 fx3 G = chainG3 d (widL3 (coordsV3 c i)) qx fi0 fi1 fi2 fi3 fx0 fx1 fx2 fx3 G := by
  unfold tileResG3 chainG3
  exact (sepCongr (pts_rowK_main_v39 d (coordsV3 c i) _ _ _) (sepCongr (pts_rowK_main_v41 d (coordsV3 c i) _ _ _) (sepCongr (pts_rowK_main_v43 d (coordsV3 c i) _ _ _) (sepCongr (pts_rowK_main_v45 d (coordsV3 c i) _ _ _) (sepCongr rfl (sepCongr rfl (sepCongr rfl (sepCongr rfl (sepCongr rfl (sepCongr rfl (sepCongr rfl (sepCongr rfl (sepCongr (ptsG_piece3_2 d (coordsV3 c i) _ _ G 0) (sepCongr (ptsG_piece3_2 d (coordsV3 c i) _ _ G 1) (sepCongr (ptsG_piece3_2 d (coordsV3 c i) _ _ G 2) (sepCongr (ptsG_piece3_2 d (coordsV3 c i) _ _ G 3) (sepCongr (ptsG_piece3_2 d (coordsV3 c i) _ _ G 4) (sepCongr (ptsG_piece3_2 d (coordsV3 c i) _ _ G 5) (sepCongr (ptsG_piece3_2 d (coordsV3 c i) _ _ G 6) (sepCongr (ptsG_piece3_3 d (coordsV3 c i) _ _ G 0) (sepCongr (ptsG_piece3_3 d (coordsV3 c i) _ _ G 1) (sepCongr (ptsG_piece3_3 d (coordsV3 c i) _ _ G 2) (sepCongr (ptsG_piece3_3 d (coordsV3 c i) _ _ G 3) (sepCongr (ptsG_piece3_3 d (coordsV3 c i) _ _ G 4) (sepCongr (ptsG_piece3_3 d (coordsV3 c i) _ _ G 5) (sepCongr (ptsG_piece3_3 d (coordsV3 c i) _ _ G 6) (sepCongr (ptsG_piece3_4 d (coordsV3 c i) _ _ G 0) (sepCongr (ptsG_piece3_4 d (coordsV3 c i) _ _ G 1) (sepCongr (ptsG_piece3_4 d (coordsV3 c i) _ _ G 2) (sepCongr (ptsG_piece3_4 d (coordsV3 c i) _ _ G 3) (sepCongr (ptsG_piece3_4 d (coordsV3 c i) _ _ G 4) (sepCongr (ptsG_piece3_4 d (coordsV3 c i) _ _ G 5) (sepCongr (ptsG_piece3_4 d (coordsV3 c i) _ _ G 6) (sepCongr (ptsG_piece3_5 d (coordsV3 c i) _ _ G 0) (sepCongr (ptsG_piece3_5 d (coordsV3 c i) _ _ G 1) (sepCongr (ptsG_piece3_5 d (coordsV3 c i) _ _ G 2) (sepCongr (ptsG_piece3_5 d (coordsV3 c i) _ _ G 3) (sepCongr (ptsG_piece3_5 d (coordsV3 c i) _ _ G 4) (sepCongr (ptsG_piece3_5 d (coordsV3 c i) _ _ G 5) (ptsG_piece3_5 d (coordsV3 c i) _ _ G 6))))))))))))))))))))))))))))))))))))))))

variable (m : (ℓ : Loc nD τ sig) → Buf (Elt F) ℓ)

/-- What task `(c, i)` holds, regrouped, its blocks at `G`. -/
def niceG3 (d : Dev nD) (c : Fin 2) (i : Fin 16) (G : S25088x512.Idx → Elt F .f32) : sProp 𝕄 :=
  iprop(
      ((SparseCore.T d).loc main_v39 ↦[iRowSet (widEquiv (c, i))]{fullShare} (Idx.slab 3 (m ((SparseCore.T d).loc main_arg4))))
    ∗ ((SparseCore.T d).loc main_v41 ↦[iRowSet (widEquiv (c, i))]{fullShare} (Idx.slab 3 (m ((SparseCore.T d).loc main_arg5))))
    ∗ ((SparseCore.T d).loc main_v43 ↦[iRowSet (widEquiv (c, i))]{fullShare} (Idx.slab 3 (m ((SparseCore.T d).loc main_arg6))))
    ∗ ((SparseCore.T d).loc main_v45 ↦[iRowSet (widEquiv (c, i))]{fullShare} (Idx.slab 3 (m ((SparseCore.T d).loc main_arg7))))
    ∗ ((SparseCore.T d).loc main_arg0 ↦{qTask c i} (m ((SparseCore.T d).loc main_arg0)))
    ∗ ((SparseCore.T d).loc main_arg1 ↦{qTask c i} (m ((SparseCore.T d).loc main_arg1)))
    ∗ ((SparseCore.T d).loc main_arg2 ↦{qTask c i} (m ((SparseCore.T d).loc main_arg2)))
    ∗ ((SparseCore.T d).loc main_arg3 ↦{qTask c i} (m ((SparseCore.T d).loc main_arg3)))
    ∗ bigSep Finset.univ fun r : Fin 7 => bigSep Finset.univ fun t : Fin 4 =>
        ((SparseCore.T d).loc main_v46 ↦[oBlockSet (e224 (widEquiv (c, i), r), t)]{fullShare} G))

set_option maxRecDepth 8192 in
set_option maxHeartbeats 1000000 in
theorem chainG3_nice (d : Dev nD) (c : Fin 2) (i : Fin 16) (G : S25088x512.Idx → Elt F .f32) :
    chainG3 d (widEquiv (c, i)) (qTask c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) G = niceG3 m d c i G := by
  unfold chainG3 niceG3
  rw [bigSep_univ_seven]
  simp only [bigSep_univ_four]
  rw [tab_task_eq (m ((SparseCore.T d).loc main_arg0)) (qTask c i), tab_task_eq (m ((SparseCore.T d).loc main_arg1)) (qTask c i), tab_task_eq (m ((SparseCore.T d).loc main_arg2)) (qTask c i),
    tab_task_eq (m ((SparseCore.T d).loc main_arg3)) (qTask c i)]
  ac_rfl

theorem taskResG3_nice (d : Dev nD) (c : Fin 2) (i : Fin 16) (G : S25088x512.Idx → Elt F .f32) : taskResG m 3 d c i G = niceG3 m d c i G := by
  show tileResG3 d (coordsV3 c i) (qTile c i) (Idx.slab 3 (m ((SparseCore.T d).loc main_arg4))) (Idx.slab 3 (m ((SparseCore.T d).loc main_arg5))) (Idx.slab 3 (m ((SparseCore.T d).loc main_arg6))) (Idx.slab 3 (m ((SparseCore.T d).loc main_arg7))) (m ((SparseCore.T d).loc main_arg0)) (m ((SparseCore.T d).loc main_arg1)) (m ((SparseCore.T d).loc main_arg2)) (m ((SparseCore.T d).loc main_arg3)) G = _
  rw [tileResG3_chain, widL_coordsV3]
  exact chainG3_nice m d c i G

theorem tasksG3_eq (d : Dev nD) (G : S25088x512.Idx → Elt F .f32) :
    (bigSep Finset.univ fun c : Fin 2 => bigSep Finset.univ fun i : Fin 16 => taskResG m 3 d c i G)
      = iprop((bigSep Finset.univ fun c : Fin 2 => bigSep Finset.univ fun i : Fin 16 => ((SparseCore.T d).loc main_v39 ↦[iRowSet (widEquiv (c, i))]{fullShare} (Idx.slab 3 (m ((SparseCore.T d).loc main_arg4)))))
        ∗ (bigSep Finset.univ fun c : Fin 2 => bigSep Finset.univ fun i : Fin 16 => ((SparseCore.T d).loc main_v41 ↦[iRowSet (widEquiv (c, i))]{fullShare} (Idx.slab 3 (m ((SparseCore.T d).loc main_arg5)))))
        ∗ (bigSep Finset.univ fun c : Fin 2 => bigSep Finset.univ fun i : Fin 16 => ((SparseCore.T d).loc main_v43 ↦[iRowSet (widEquiv (c, i))]{fullShare} (Idx.slab 3 (m ((SparseCore.T d).loc main_arg6)))))
        ∗ (bigSep Finset.univ fun c : Fin 2 => bigSep Finset.univ fun i : Fin 16 => ((SparseCore.T d).loc main_v45 ↦[iRowSet (widEquiv (c, i))]{fullShare} (Idx.slab 3 (m ((SparseCore.T d).loc main_arg7)))))
        ∗ (bigSep Finset.univ fun c : Fin 2 => bigSep Finset.univ fun i : Fin 16 => ((SparseCore.T d).loc main_arg0 ↦{qTask c i} (m ((SparseCore.T d).loc main_arg0))))
        ∗ (bigSep Finset.univ fun c : Fin 2 => bigSep Finset.univ fun i : Fin 16 => ((SparseCore.T d).loc main_arg1 ↦{qTask c i} (m ((SparseCore.T d).loc main_arg1))))
        ∗ (bigSep Finset.univ fun c : Fin 2 => bigSep Finset.univ fun i : Fin 16 => ((SparseCore.T d).loc main_arg2 ↦{qTask c i} (m ((SparseCore.T d).loc main_arg2))))
        ∗ (bigSep Finset.univ fun c : Fin 2 => bigSep Finset.univ fun i : Fin 16 => ((SparseCore.T d).loc main_arg3 ↦{qTask c i} (m ((SparseCore.T d).loc main_arg3))))
        ∗ (bigSep Finset.univ fun c : Fin 2 => bigSep Finset.univ fun i : Fin 16 => bigSep Finset.univ fun r : Fin 7 => bigSep Finset.univ fun t : Fin 4 =>
        ((SparseCore.T d).loc main_v46 ↦[oBlockSet (e224 (widEquiv (c, i), r), t)]{fullShare} G))) := by
  have h : (fun c : Fin 2 => bigSep Finset.univ fun i : Fin 16 => taskResG m 3 d c i G)
      = fun c : Fin 2 => bigSep Finset.univ fun i : Fin 16 => niceG3 m d c i G :=
    funext fun c => congrArg (bigSep Finset.univ) (funext fun i => taskResG3_nice m d c i G)
  rw [h]
  unfold niceG3
  simp only [bigSep_sep']

/-- THE JOIN WITH VALUES for call 3: the tables' remainders and every task's holdings, the blocks at `G`, are the call's
    eight input arrays as they were and the result whole at `G`. -/
theorem deal3_joinG (d : Dev nD) (G : S25088x512.Idx → Elt F .f32) :
    iprop(rest0 m d ∗ bigSep Finset.univ fun c : Fin 2 => bigSep Finset.univ fun i : Fin 16 => taskResG m 3 d c i G)
      ⊢ iprop(((SparseCore.T d).loc main_v39 ↦{fullShare} (Idx.slab 3 (m ((SparseCore.T d).loc main_arg4)))) ∗ ((SparseCore.T d).loc main_v41 ↦{fullShare} (Idx.slab 3 (m ((SparseCore.T d).loc main_arg5))))
        ∗ ((SparseCore.T d).loc main_v43 ↦{fullShare} (Idx.slab 3 (m ((SparseCore.T d).loc main_arg6)))) ∗ ((SparseCore.T d).loc main_v45 ↦{fullShare} (Idx.slab 3 (m ((SparseCore.T d).loc main_arg7))))
        ∗ ((SparseCore.T d).loc main_arg0 ↦{fullShare} (m ((SparseCore.T d).loc main_arg0))) ∗ ((SparseCore.T d).loc main_arg1 ↦{fullShare} (m ((SparseCore.T d).loc main_arg1)))
        ∗ ((SparseCore.T d).loc main_arg2 ↦{fullShare} (m ((SparseCore.T d).loc main_arg2))) ∗ ((SparseCore.T d).loc main_arg3 ↦{fullShare} (m ((SparseCore.T d).loc main_arg3)))
        ∗ ((SparseCore.T d).loc main_v46 ↦{fullShare} G)) := by
  rw [tasksG3_eq]
  unfold rest0
  rw [rows_main_v39 d, rows_main_v41 d, rows_main_v43 d, rows_main_v45 d, blocks_main_v46 d G]
  iintro ⟨⟨Hr0, Hr1, Hr2, Hr3⟩, H12, H14, H16, H18, Hq0, Hq1, Hq2, Hq3, Ho⟩
  isplitl [H12]; · iexact H12
  isplitl [H14]; · iexact H14
  isplitl [H16]; · iexact H16
  isplitl [H18]; · iexact H18
  isplitl [Hr0 Hq0]
  · iapply (tab_join (m ((SparseCore.T d).loc main_arg0))); isplitl [Hr0] <;> iassumption
  isplitl [Hr1 Hq1]
  · iapply (tab_join (m ((SparseCore.T d).loc main_arg1))); isplitl [Hr1] <;> iassumption
  isplitl [Hr2 Hq2]
  · iapply (tab_join (m ((SparseCore.T d).loc main_arg2))); isplitl [Hr2] <;> iassumption
  isplitl [Hr3 Hq3]
  · iapply (tab_join (m ((SparseCore.T d).loc main_arg3))); isplitl [Hr3] <;> iassumption
  iexact Ho

end Cert.KernelIdeal.Sc

end
-- ==== Proof.ScCallG3.lean ====
/-
  One gather call as @main meets it, with the value: the call's result comes back whole AT the gathered slab.
-/
import proofs.«215994_g5102421148354_cont_8to1c4_853_29_alg».proof.Proof.ScCall3
import proofs.«215994_g5102421148354_cont_8to1c4_853_29_alg».proof.Proof.ScPayG
import proofs.«215994_g5102421148354_cont_8to1c4_853_29_alg».proof.Proof.ScDealG3

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable {F : FTy → Type} [FloatOps F] [Cert.KernelIdeal.Facts]

local notation "𝕄" => MT nD τ sig (HIx 4) (Elt F) ℕ UU ℕ
local notation "dr" => Proc.devRef (τ := τ) (sig := sig) Proc.tc

variable (m : (ℓ : Loc nD τ sig) → Buf (Elt F) ℓ) (ρ : Dev nD → PrngReg)

theorem stG3_eq (d : Dev nD) :
    (bigSep Finset.univ fun c : Fin ((K (F := F)).nCore 3) => (PG m).st 3 d c)
      = bigSep Finset.univ fun c : Fin 2 => bigSep Finset.univ fun i : Fin 16 => taskRes m 3 d c i :=
  bigSep_congr fun c _ =>
    show (bigSep Finset.univ fun i : Fin 16 => taskRes m 3 d (Fin.cast (nCore_eq 3) c) i) = bigSep Finset.univ fun i : Fin 16 => taskRes m 3 d c i from
      bigSep_congr fun i _ => congrArg (fun c' => taskRes m 3 d c' i) (Fin.ext rfl)

theorem dnG3_eq (d : Dev nD) :
    (bigSep Finset.univ fun c : Fin ((K (F := F)).nCore 3) => (PG m).dn 3 d c)
      = bigSep Finset.univ fun c : Fin 2 => bigSep Finset.univ fun i : Fin 16 => taskResG m 3 d c i (slabOfM m 3 d) :=
  bigSep_congr fun c _ =>
    show (bigSep Finset.univ fun i : Fin 16 => taskResG m 3 d (Fin.cast (nCore_eq 3) c) i (slabOfM m 3 d)) = bigSep Finset.univ fun i : Fin 16 => taskResG m 3 d c i (slabOfM m 3 d) from
      bigSep_congr fun i _ => congrArg (fun c' => taskResG m 3 d c' i (slabOfM m 3 d)) (Fin.ext rfl)

set_option maxHeartbeats 4000000 in
theorem call_stepG3 (κ : GSem nD τ sig → ℕ) (d : Dev nD) (W : Valuation τ sig (Elt F))
    (h12 : W (dr main_v39) = Idx.slab 3 (m ((SparseCore.T d).loc main_arg4))) (h14 : W (dr main_v41) = Idx.slab 3 (m ((SparseCore.T d).loc main_arg5)))
    (h16 : W (dr main_v43) = Idx.slab 3 (m ((SparseCore.T d).loc main_arg6))) (h18 : W (dr main_v45) = Idx.slab 3 (m ((SparseCore.T d).loc main_arg7)))
    (ha0 : W (dr main_arg0) = m ((SparseCore.T d).loc main_arg0)) (ha1 : W (dr main_arg1) = m ((SparseCore.T d).loc main_arg1))
    (ha2 : W (dr main_arg2) = m ((SparseCore.T d).loc main_arg2)) (ha3 : W (dr main_arg3) = m ((SparseCore.T d).loc main_arg3))
    {Φ : PUnit → sProp 𝕄} :
    iprop((K (F := F)).ctx EH (PG m) κ ∗ (K (F := F)).tcSt EH d 3 ∗ held (d.tc : Thread nD τ) (Pipeline.ucRefs τ sig) W
        ∗ (iprop((K (F := F)).tcSt EH d 4 ∗ held (d.tc : Thread nD τ) (Pipeline.ucRefs τ sig) (Function.update W (dr main_v46) (slabOfM m 3 d))) -∗ Φ ⟨⟩))
      ⊢ wp frame (wpE ((K (F := F)).defs (D (F := F))) 𝒱 (SparseCore.T d) none) Set.univ ((K (F := F)).run d 3) Φ := by
  rw [held_sub_split (c := (d.tc : Thread nD τ)) l9_3_sub W, held9_3, h12, h14, h16, h18, ha0, ha1, ha2, ha3]
  iintro ⟨#Hctx, Hst, ⟨⟨H12, H14, H16, H18, A0, A1, A2, A3, O19⟩, Hrest⟩, Hk⟩
  ihave Hw := (deal3_split m d) $$ [H12 H14 H16 H18 A0 A1 A2 A3 O19]
  · unfold whole3
    isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexists _; iexact O19
  icases Hw with ⟨Hr0, Htasks⟩
  iapply ((K (F := F)).wp_run (D (F := F)) 𝒱 (EH := EH) (P := PG m) κ d 3) $$ [Hst Htasks Hr0 Hrest Hk]
  isplitr; · iexact Hctx
  isplitl [Hst]; · iexact Hst
  isplitl [Htasks]; · rw [stG3_eq]; iexact Htasks
  iintro ⟨Hst, Hdn⟩
  ihave Hdn' := (Entails.of_eq (dnG3_eq m d)) $$ Hdn
  ihave Hw2 := (deal3_joinG m d (slabOfM m 3 d)) $$ [Hr0 Hdn']
  · isplitl [Hr0] <;> iassumption
  icases Hw2 with ⟨H12, H14, H16, H18, A0, A1, A2, A3, O19⟩
  iapply Hk
  isplitl [Hst]; · iexact Hst
  rw [held_sub_split (c := (d.tc : Thread nD τ)) l9_3_sub (Function.update W (dr main_v46) (slabOfM m 3 d)), held9_3,
    Function.update_of_ne (show dr main_v39 ≠ dr main_v46 by decide), Function.update_of_ne (show dr main_v41 ≠ dr main_v46 by decide), Function.update_of_ne (show dr main_v43 ≠ dr main_v46 by decide), Function.update_of_ne (show dr main_v45 ≠ dr main_v46 by decide), Function.update_of_ne (show dr main_arg0 ≠ dr main_v46 by decide), Function.update_of_ne (show dr main_arg1 ≠ dr main_v46 by decide), Function.update_of_ne (show dr main_arg2 ≠ dr main_v46 by decide), Function.update_of_ne (show dr main_arg3 ≠ dr main_v46 by decide), Function.update_self, h12, h14, h16, h18, ha0, ha1, ha2, ha3]
  isplitl [H12 H14 H16 H18 A0 A1 A2 A3 O19]
  · isplitl [H12]; · iexact H12
    isplitl [H14]; · iexact H14
    isplitl [H16]; · iexact H16
    isplitl [H18]; · iexact H18
    isplitl [A0]; · iexact A0
    isplitl [A1]; · iexact A1
    isplitl [A2]; · iexact A2
    isplitl [A3]; · iexact A3
    iexact O19
  rw [held_congr (c := (d.tc : Thread nD τ)) (V := Function.update W (dr main_v46) (slabOfM m 3 d)) (V' := W) (fun b hb =>
    Function.update_of_ne (fun e => (Finset.mem_sdiff.mp hb).2 (e ▸ (by decide : dr main_v46 ∈ (l9_3).toFinset))) _ _)]
  iexact Hrest

end Cert.KernelIdeal.Sc

end
-- ==== Proof.ScRegionG0.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

set_option maxHeartbeats 4000000 in
theorem region_stepG0 [∀ e, Nonempty (Elt F e)] (PP : (K (F := F)).Pay (nD := nD) (Val := Elt F) (Name := ℕ) (U := UU)) (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH PP κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 0 d ∗ Pipeline.toksInit (Pipeline.pin (pcfgs (F := F)) Tc.adm) (EP (F := F)) 0 d
        ∗ (iprop((K (F := F)).tcSt EH d 4 ∗ boundary (SparseCore.T d) ∗ held (d.tc : Thread nD τ) (Pipeline.ucRefs τ sig)
                (Function.update W (dr main_v47) (Tc.fin4 (Ix := HIx 4) (Name := ℕ) (U := UU) (Lvl := ℕ) (asV W) d 5)))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs4 (Ix := HIx 4) (Name := ℕ) (U := UU) (Lvl := ℕ) d (fun b => W (dr b)))) $$ Hub
  icases Hsp with ⟨Harr, Hur⟩
  iapply (Tc.lift_region4 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin4 (Ix := HIx 4) (Name := ℕ) (U := UU) (Lvl := ℕ) (asV W) d w
      = Function.update W (dr main_v47) (Tc.fin4 (Ix := HIx 4) (Name := ℕ) (U := UU) (Lvl := ℕ) (asV W) d 5) (dr (Pipeline.arrRef spec4 w)) := by
    intro w
    fin_cases w
    · exact (Tc.fin4_in (asV W) d 0 rfl).trans (Function.update_of_ne (show dr (Pipeline.arrRef spec4 0) ≠ dr main_v47 by decide) _ _).symm
    · exact (Tc.fin4_in (asV W) d 1 rfl).trans (Function.update_of_ne (show dr (Pipeline.arrRef spec4 1) ≠ dr main_v47 by decide) _ _).symm
    · exact (Tc.fin4_in (asV W) d 2 rfl).trans (Function.update_of_ne (show dr (Pipeline.arrRef spec4 2) ≠ dr main_v47 by decide) _ _).symm
    · exact (Tc.fin4_in (asV W) d 3 rfl).trans (Function.update_of_ne (show dr (Pipeline.arrRef spec4 3) ≠ dr main_v47 by decide) _ _).symm
    · exact (Tc.fin4_in (asV W) d 4 rfl).trans (Function.update_of_ne (show dr (Pipeline.arrRef spec4 4) ≠ dr main_v47 by decide) _ _).symm
    · exact (Function.update_self (dr main_v47) _ W).symm
  have hrest : ∀ b, b ∉ Finset.image (Pipeline.arrRef spec4) Finset.univ →
      Function.update W (dr main_v47) (Tc.fin4 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs4_unscopedBufs (Ix := HIx 4) (Name := ℕ) (U := UU) (Lvl := ℕ) d (fun b => W (dr b))
      (fun b => Function.update W (dr main_v47) (Tc.fin4 (Ix := HIx 4) (Name := ℕ) (U := UU) (Lvl := ℕ) (asV W) d 5) (dr b)) (Tc.fin4 (asV W) d) hG hrest) $$ [Harr Hur]
  · isplitl [Harr] <;> iassumption
  iapply (Entails.of_eq (Pipeline.unscopedBufs_held d (Function.update W (dr main_v47) (Tc.fin4 (Ix := HIx 4) (Name := ℕ) (U := UU) (Lvl := ℕ) (asV W) d 5))))
  iexact Hub2

end Cert.KernelIdeal.Sc
end
-- ==== Proof.ScRegionG1.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

set_option maxHeartbeats 4000000 in
theorem region_stepG1 [∀ e, Nonempty (Elt F e)] (PP : (K (F := F)).Pay (nD := nD) (Val := Elt F) (Name := ℕ) (U := UU)) (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH PP κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 1 d ∗ Pipeline.toksInit (Pipeline.pin (pcfgs (F := F)) Tc.adm) (EP (F := F)) 1 d
        ∗ (iprop((K (F := F)).tcSt EH d 4 ∗ boundary (SparseCore.T d) ∗ held (d.tc : Thread nD τ) (Pipeline.ucRefs τ sig)
                (Function.update W (dr main_v48) (Tc.fin5 (Ix := HIx 4) (Name := ℕ) (U := UU) (Lvl := ℕ) (asV W) d 5)))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 1)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs5 (Ix := HIx 4) (Name := ℕ) (U := UU) (Lvl := ℕ) d (fun b => W (dr b)))) $$ Hub
  icases Hsp with ⟨Harr, Hur⟩
  iapply (Tc.lift_region5 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin5 (Ix := HIx 4) (Name := ℕ) (U := UU) (Lvl := ℕ) (asV W) d w
      = Function.update W (dr main_v48) (Tc.fin5 (Ix := HIx 4) (Name := ℕ) (U := UU) (Lvl := ℕ) (asV W) d 5) (dr (Pipeline.arrRef spec5 w)) := by
    intro w
    fin_cases w
    · exact (Tc.fin5_in (asV W) d 0 rfl).trans (Function.update_of_ne (show dr (Pipeline.arrRef spec5 0) ≠ dr main_v48 by decide) _ _).symm
    · exact (Tc.fin5_in (asV W) d 1 rfl).trans (Function.update_of_ne (show dr (Pipeline.arrRef spec5 1) ≠ dr main_v48 by decide) _ _).symm
    · exact (Tc.fin5_in (asV W) d 2 rfl).trans (Function.update_of_ne (show dr (Pipeline.arrRef spec5 2) ≠ dr main_v48 by decide) _ _).symm
    · exact (Tc.fin5_in (asV W) d 3 rfl).trans (Function.update_of_ne (show dr (Pipeline.arrRef spec5 3) ≠ dr main_v48 by decide) _ _).symm
    · exact (Tc.fin5_in (asV W) d 4 rfl).trans (Function.update_of_ne (show dr (Pipeline.arrRef spec5 4) ≠ dr main_v48 by decide) _ _).symm
    · exact (Function.update_self (dr main_v48) _ W).symm
  have hrest : ∀ b, b ∉ Finset.image (Pipeline.arrRef spec5) Finset.univ →
      Function.update W (dr main_v48) (Tc.fin5 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs5_unscopedBufs (Ix := HIx 4) (Name := ℕ) (U := UU) (Lvl := ℕ) d (fun b => W (dr b))
      (fun b => Function.update W (dr main_v48) (Tc.fin5 (Ix := HIx 4) (Name := ℕ) (U := UU) (Lvl := ℕ) (asV W) d 5) (dr b)) (Tc.fin5 (asV W) d) hG hrest) $$ [Harr Hur]
  · isplitl [Harr] <;> iassumption
  iapply (Entails.of_eq (Pipeline.unscopedBufs_held d (Function.update W (dr main_v48) (Tc.fin5 (Ix := HIx 4) (Name := ℕ) (U := UU) (Lvl := ℕ) (asV W) d 5))))
  iexact Hub2

end Cert.KernelIdeal.Sc
end
-- ==== Proof.ScRegionG2.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

set_option maxHeartbeats 4000000 in
theorem region_stepG2 [∀ e, Nonempty (Elt F e)] (PP : (K (F := F)).Pay (nD := nD) (Val := Elt F) (Name := ℕ) (U := UU)) (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH PP κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 2 d ∗ Pipeline.toksInit (Pipeline.pin (pcfgs (F := F)) Tc.adm) (EP (F := F)) 2 d
        ∗ (iprop((K (F := F)).tcSt EH d 4 ∗ boundary (SparseCore.T d) ∗ held (d.tc : Thread nD τ) (Pipeline.ucRefs τ sig)
                (Function.update W (dr main_v49) (Tc.fin6 (Ix := HIx 4) (Name := ℕ) (U := UU) (Lvl := ℕ) (asV W) d 5)))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 2)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs6 (Ix := HIx 4) (Name := ℕ) (U := UU) (Lvl := ℕ) d (fun b => W (dr b)))) $$ Hub
  icases Hsp with ⟨Harr, Hur⟩
  iapply (Tc.lift_region6 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin6 (Ix := HIx 4) (Name := ℕ) (U := UU) (Lvl := ℕ) (asV W) d w
      = Function.update W (dr main_v49) (Tc.fin6 (Ix := HIx 4) (Name := ℕ) (U := UU) (Lvl := ℕ) (asV W) d 5) (dr (Pipeline.arrRef spec6 w)) := by
    intro w
    fin_cases w
    · exact (Tc.fin6_in (asV W) d 0 rfl).trans (Function.update_of_ne (show dr (Pipeline.arrRef spec6 0) ≠ dr main_v49 by decide) _ _).symm
    · exact (Tc.fin6_in (asV W) d 1 rfl).trans (Function.update_of_ne (show dr (Pipeline.arrRef spec6 1) ≠ dr main_v49 by decide) _ _).symm
    · exact (Tc.fin6_in (asV W) d 2 rfl).trans (Function.update_of_ne (show dr (Pipeline.arrRef spec6 2) ≠ dr main_v49 by decide) _ _).symm
    · exact (Tc.fin6_in (asV W) d 3 rfl).trans (Function.update_of_ne (show dr (Pipeline.arrRef spec6 3) ≠ dr main_v49 by decide) _ _).symm
    · exact (Tc.fin6_in (asV W) d 4 rfl).trans (Function.update_of_ne (show dr (Pipeline.arrRef spec6 4) ≠ dr main_v49 by decide) _ _).symm
    · exact (Function.update_self (dr main_v49) _ W).symm
  have hrest : ∀ b, b ∉ Finset.image (Pipeline.arrRef spec6) Finset.univ →
      Function.update W (dr main_v49) (Tc.fin6 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs6_unscopedBufs (Ix := HIx 4) (Name := ℕ) (U := UU) (Lvl := ℕ) d (fun b => W (dr b))
      (fun b => Function.update W (dr main_v49) (Tc.fin6 (Ix := HIx 4) (Name := ℕ) (U := UU) (Lvl := ℕ) (asV W) d 5) (dr b)) (Tc.fin6 (asV W) d) hG hrest) $$ [Harr Hur]
  · isplitl [Harr] <;> iassumption
  iapply (Entails.of_eq (Pipeline.unscopedBufs_held d (Function.update W (dr main_v49) (Tc.fin6 (Ix := HIx 4) (Name := ℕ) (U := UU) (Lvl := ℕ) (asV W) d 5))))
  iexact Hub2

end Cert.KernelIdeal.Sc
end
-- ==== Proof.ScRegionG3.lean ====
/-
  One layer-norm region as @main meets it on the TensorCore, after the fourth gather call.  The TensorCore then owes the
  launch nothing more; the region's waits are recorded at the kernels' own index, of level zero, so the bound on the
  recorded waits survives.  Of the TensorCore's whole buffers the region works on six; its result array comes back at what
  the region wrote, every other buffer as it was.
-/
import proofs.«215994_g5102421148354_cont_8to1c4_853_29_alg».proof.Proof.ScLaunch
import proofs.«215994_g5102421148354_cont_8to1c4_853_29_alg».proof.Proof.ScRegion0
import proofs.«215994_g5102421148354_cont_8to1c4_853_29_alg».proof.Proof.TcSplit
import proofs.«215994_g5102421148354_cont_8to1c4_853_29_alg».proof.Proof.TcFin

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Cert.KernelIdeal.Facts]

local notation "𝕄" => MT nD τ sig (HIx 4) (Elt F) ℕ UU ℕ
local notation "dr" => Proc.devRef (τ := τ) (sig := sig) Proc.tc

set_option maxHeartbeats 4000000 in
theorem region_stepG3 [∀ e, Nonempty (Elt F e)] (PP : (K (F := F)).Pay (nD := nD) (Val := Elt F) (Name := ℕ) (U := UU)) (κ : GSem nD τ sig → ℕ) (d : Dev nD) (W : Valuation τ sig (Elt F)) {α : Type}
    (k : PUnit → Prog (TpuEff nD τ sig (Elt F) (SparseCore.Sig (ΛP (F := F)) 4) .tc) α) (Q : α → sProp 𝕄) :
    iprop((K (F := F)).ctx EH PP κ ∗ (K (F := F)).tcSt EH d 4 ∗ boundary (SparseCore.T d) ∗ held (d.tc : Thread nD τ) (Pipeline.ucRefs τ sig) W
        ∗ Pipeline.cellsGhost (Pipeline.pin (pcfgs (F := F)) Tc.adm) (EP (F := F)) 3 d ∗ Pipeline.toksInit (Pipeline.pin (pcfgs (F := F)) Tc.adm) (EP (F := F)) 3 d
        ∗ (iprop((K (F := F)).tcSt EH d 4 ∗ boundary (SparseCore.T d) ∗ held (d.tc : Thread nD τ) (Pipeline.ucRefs τ sig)
                (Function.update W (dr main_v50) (Tc.fin7 (Ix := HIx 4) (Name := ℕ) (U := UU) (Lvl := ℕ) (asV W) d 5)))
              -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 3)) ()) k) Q := by
  unfold SparseCore.Cfg.tcSt
  rw [(K (F := F)).Otc_end d (le_refl 4)]
  iintro ⟨#Hctx, ⟨⟨%W0, %hW0, HO⟩, Hat, Hrd, Hrs, Htoks⟩, Hb, Hh, Hcg, Hti, Hk⟩
  ihave Hlev := (SparseCore.Cfg.ctx_levAts κ) $$ Hctx
  ihave Hub := (Entails.of_eq (Pipeline.unscopedBufs_held d W).symm) $$ Hh
  ihave Hsp := (Entails.of_eq (Tc.unscopedBufs_arrs7 (Ix := HIx 4) (Name := ℕ) (U := UU) (Lvl := ℕ) d (fun b => W (dr b)))) $$ Hub
  icases Hsp with ⟨Harr, Hur⟩
  iapply (Tc.lift_region7 (F := F) (asV W) (K (F := F)).lev d W0 k Q) $$ [Hlev Hb Harr HO Hcg Hti Hat Hrd Hrs Htoks Hur Hk]
  isplitl [Hlev]; · iexact Hlev
  isplitl [Hb]; · iexact Hb
  isplitl [Harr]; · iexact Harr
  isplitl [HO]; · iexact HO
  isplitl [Hcg]; · iexact Hcg
  isplitl [Hti]; · iexact Hti
  iintro ⟨Hb, Harr, ⟨%W1, %hW1, HO⟩⟩
  have hG : ∀ w : Fin 6, Tc.fin7 (Ix := HIx 4) (Name := ℕ) (U := UU) (Lvl := ℕ) (asV W) d w
      = Function.update W (dr main_v50) (Tc.fin7 (Ix := HIx 4) (Name := ℕ) (U := UU) (Lvl := ℕ) (asV W) d 5) (dr (Pipeline.arrRef spec7 w)) := by
    intro w
    fin_cases w
    · exact (Tc.fin7_in (asV W) d 0 rfl).trans (Function.update_of_ne (show dr (Pipeline.arrRef spec7 0) ≠ dr main_v50 by decide) _ _).symm
    · exact (Tc.fin7_in (asV W) d 1 rfl).trans (Function.update_of_ne (show dr (Pipeline.arrRef spec7 1) ≠ dr main_v50 by decide) _ _).symm
    · exact (Tc.fin7_in (asV W) d 2 rfl).trans (Function.update_of_ne (show dr (Pipeline.arrRef spec7 2) ≠ dr main_v50 by decide) _ _).symm
    · exact (Tc.fin7_in (asV W) d 3 rfl).trans (Function.update_of_ne (show dr (Pipeline.arrRef spec7 3) ≠ dr main_v50 by decide) _ _).symm
    · exact (Tc.fin7_in (asV W) d 4 rfl).trans (Function.update_of_ne (show dr (Pipeline.arrRef spec7 4) ≠ dr main_v50 by decide) _ _).symm
    · exact (Function.update_self (dr main_v50) _ W).symm
  have hrest : ∀ b, b ∉ Finset.image (Pipeline.arrRef spec7) Finset.univ →
      Function.update W (dr main_v50) (Tc.fin7 (Ix := HIx 4) (Name := ℕ) (U := UU) (Lvl := ℕ) (asV W) d 5) (dr b) = W (dr b) := by
    intro b hb
    exact Function.update_of_ne (fun e => hb (by rw [Proc.devRef_injective _ e]; exact Finset.mem_image.mpr ⟨5, Finset.mem_univ _, rfl⟩)) _ _
  have hWB : (K (F := F)).WBelow (SparseCore.T d) W1 (8 * 4) := fun p hp =>
    (hW1 p hp).elim (fun h => hW0 p h) (fun h => by
      have h0 : (K (F := F)).lev (SparseCore.T d, p.1) p.2 = 0 := by rw [h]; rfl
      omega)
  iapply Hk
  isplitl [HO Hat Hrd Hrs Htoks]
  · isplitl [HO]
    · iexists W1; isplitr
      · ipureintro; exact hWB
      · iexact HO
    isplitl [Hat]; · iexact Hat
    isplitl [Hrd]; · iexact Hrd
    isplitl [Hrs]; · iexact Hrs
    iexact Htoks
  isplitl [Hb]; · iexact Hb
  ihave Hub2 := (Tc.arrs7_unscopedBufs (Ix := HIx 4) (Name := ℕ) (U := UU) (Lvl := ℕ) d (fun b => W (dr b))
      (fun b => Function.update W (dr main_v50) (Tc.fin7 (Ix := HIx 4) (Name := ℕ) (U := UU) (Lvl := ℕ) (asV W) d 5) (dr b)) (Tc.fin7 (asV W) d) hG hrest) $$ [Harr Hur]
  · isplitl [Harr] <;> iassumption
  iapply (Entails.of_eq (Pipeline.unscopedBufs_held d (Function.update W (dr main_v50) (Tc.fin7 (Ix := HIx 4) (Name := ℕ) (U := UU) (Lvl := ℕ) (asV W) d 5))))
  iexact Hub2

end Cert.KernelIdeal.Sc
end
-- ==== Proof.TcFinal.lean ====
import proofs.«215994_g5102421148354_cont_8to1c4_853_29_alg».proof.Proof.TcFin
import proofs.«215994_g5102421148354_cont_8to1c4_853_29_alg».proof.Proof.TcRows
import proofs.«215994_g5102421148354_cont_8to1c4_853_29_alg».proof.Proof.MainCut
import proofs.«215994_g5102421148354_cont_8to1c4_853_29_alg».proof.Proof.KerRowOut
import proofs.«215994_g5102421148354_cont_8to1c4_853_29_alg».proof.Proof.RowSpec
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

open Idealize.ShloMosaic.ValueIdx Cert.RowSpec

/-! ## Call 4: blocks and rows -/

section Call4

theorem t_lt4 (t : Fin cfg4.N) : t.val < 28 := Nat.lt_of_lt_of_eq (show t.val < grid4.N from t.isLt) N_4

theorem idx4_0 : ∀ t : Fin cfg4.N, win4_0.index t = ![t.val, 0] :=
  (by decide +kernel : ∀ t : Fin grid4.N, win4_0.index t = ![t.val, 0])
theorem idx4_1 : ∀ t : Fin cfg4.N, win4_1.index t = ![0, 0] :=
  (by decide +kernel : ∀ t : Fin grid4.N, win4_1.index t = ![0, 0])
theorem idx4_2 : ∀ t : Fin cfg4.N, win4_2.index t = ![0, 0] :=
  (by decide +kernel : ∀ t : Fin grid4.N, win4_2.index t = ![0, 0])
theorem idx4_3 : ∀ t : Fin cfg4.N, win4_3.index t = ![0, 0] :=
  (by decide +kernel : ∀ t : Fin grid4.N, win4_3.index t = ![0, 0])
theorem idx4_4 : ∀ t : Fin cfg4.N, win4_4.index t = ![0, 0] :=
  (by decide +kernel : ∀ t : Fin grid4.N, win4_4.index t = ![0, 0])

variable (X : (c : Dev nD) → (b : Ref sig .tc) → Buf (Elt F) ((c : Thread nD τ).loc b))

/-- Entry `(y, k)` of the gathered block at grid point `t` is entry `(896 t + y, k)` of the slab. -/
theorem iblk4_0_apply (c : Dev nD) (t : Fin cfg4.N) (y : Fin 896) (k : Fin 512) :
    iblk4 X c 0 t (ix2 (n0 := 896) (n1 := 512) y k)
      = X c (Pipeline.arrRef spec4 0) (ix2 (n0 := 25088) (n1 := 512)
          ⟨t.val * 896 + y.val, by have ht := t_lt4 t; have := y.isLt; omega⟩ k) := by
  unfold iblk4
  rw [View.read_apply, cast_eq]
  congr 1
  have hemb : ((cfg4.win 0).blk t).view.emb (ix2 (n0 := 896) (n1 := 512) y k)
      = ((cfg4.win 0).rect t).emb (ix2 (n0 := 896) (n1 := 512) y k) := rfl
  rw [hemb]
  have e0 := (cfg4.win 0).rect_emb_val t (ix2 (n0 := 896) (n1 := 512) y k) 0
  have e1 := (cfg4.win 0).rect_emb_val t (ix2 (n0 := 896) (n1 := 512) y k) 1
  have i0 : (cfg4.win 0).index t 0 = t.val := congrFun (idx4_0 t) 0
  have i1 : (cfg4.win 0).index t 1 = 0 := congrFun (idx4_0 t) 1
  have s0 : (cfg4.win 0).size 0 = 896 := rfl
  have s1 : (cfg4.win 0).size 1 = 512 := rfl
  rw [i0, s0] at e0
  rw [i1, s1] at e1
  funext a
  apply Fin.ext
  match a with
  | ⟨0, _⟩ =>
    show ((((cfg4.win 0).rect t).emb (ix2 (n0 := 896) (n1 := 512) y k)) 0).val = t.val * 896 + y.val
    rw [e0]; rfl
  | ⟨1, _⟩ =>
    show ((((cfg4.win 0).rect t).emb (ix2 (n0 := 896) (n1 := 512) y k)) 1).val = k.val
    rw [e1]
    show 0 * 512 + k.val = k.val
    omega

/-- Window 1's block is its whole array at every grid point. -/
theorem iblk4_1_apply (c : Dev nD) (t : Fin cfg4.N) (y : Fin 512) (k : Fin 512) :
    iblk4 X c 1 t (ix2 (n0 := 512) (n1 := 512) y k)
      = X c (Pipeline.arrRef spec4 1) (ix2 (n0 := 512) (n1 := 512) y k) := by
  unfold iblk4
  rw [View.read_apply, cast_eq]
  congr 1
  have hemb : ((cfg4.win 1).blk t).view.emb (ix2 (n0 := 512) (n1 := 512) y k) = ((cfg4.win 1).rect t).emb (ix2 (n0 := 512) (n1 := 512) y k) := rfl
  rw [hemb]
  have e0 := (cfg4.win 1).rect_emb_val t (ix2 (n0 := 512) (n1 := 512) y k) 0
  have e1 := (cfg4.win 1).rect_emb_val t (ix2 (n0 := 512) (n1 := 512) y k) 1
  have i0 : (cfg4.win 1).index t 0 = 0 := congrFun (idx4_1 t) 0
  have i1 : (cfg4.win 1).index t 1 = 0 := congrFun (idx4_1 t) 1
  rw [i0, Nat.zero_mul, Nat.zero_add] at e0
  rw [i1, Nat.zero_mul, Nat.zero_add] at e1
  funext a
  apply Fin.ext
  match a with
  | ⟨0, _⟩ =>
    show ((((cfg4.win 1).rect t).emb (ix2 (n0 := 512) (n1 := 512) y k)) 0).val = y.val
    rw [e0]; rfl
  | ⟨1, _⟩ =>
    show ((((cfg4.win 1).rect t).emb (ix2 (n0 := 512) (n1 := 512) y k)) 1).val = k.val
    rw [e1]; rfl

/-- Window 2's block is its whole array at every grid point. -/
theorem iblk4_2_apply (c : Dev nD) (t : Fin cfg4.N) (y : Fin 1) (k : Fin 512) :
    iblk4 X c 2 t (ix2 (n0 := 1) (n1 := 512) y k)
      = X c (Pipeline.arrRef spec4 2) (ix2 (n0 := 1) (n1 := 512) y k) := by
  unfold iblk4
  rw [View.read_apply, cast_eq]
  congr 1
  have hemb : ((cfg4.win 2).blk t).view.emb (ix2 (n0 := 1) (n1 := 512) y k) = ((cfg4.win 2).rect t).emb (ix2 (n0 := 1) (n1 := 512) y k) := rfl
  rw [hemb]
  have e0 := (cfg4.win 2).rect_emb_val t (ix2 (n0 := 1) (n1 := 512) y k) 0
  have e1 := (cfg4.win 2).rect_emb_val t (ix2 (n0 := 1) (n1 := 512) y k) 1
  have i0 : (cfg4.win 2).index t 0 = 0 := congrFun (idx4_2 t) 0
  have i1 : (cfg4.win 2).index t 1 = 0 := congrFun (idx4_2 t) 1
  rw [i0, Nat.zero_mul, Nat.zero_add] at e0
  rw [i1, Nat.zero_mul, Nat.zero_add] at e1
  funext a
  apply Fin.ext
  match a with
  | ⟨0, _⟩ =>
    show ((((cfg4.win 2).rect t).emb (ix2 (n0 := 1) (n1 := 512) y k)) 0).val = y.val
    rw [e0]; rfl
  | ⟨1, _⟩ =>
    show ((((cfg4.win 2).rect t).emb (ix2 (n0 := 1) (n1 := 512) y k)) 1).val = k.val
    rw [e1]; rfl

/-- Window 3's block is its whole array at every grid point. -/
theorem iblk4_3_apply (c : Dev nD) (t : Fin cfg4.N) (y : Fin 1) (k : Fin 512) :
    iblk4 X c 3 t (ix2 (n0 := 1) (n1 := 512) y k)
      = X c (Pipeline.arrRef spec4 3) (ix2 (n0 := 1) (n1 := 512) y k) := by
  unfold iblk4
  rw [View.read_apply, cast_eq]
  congr 1
  have hemb : ((cfg4.win 3).blk t).view.emb (ix2 (n0 := 1) (n1 := 512) y k) = ((cfg4.win 3).rect t).emb (ix2 (n0 := 1) (n1 := 512) y k) := rfl
  rw [hemb]
  have e0 := (cfg4.win 3).rect_emb_val t (ix2 (n0 := 1) (n1 := 512) y k) 0
  have e1 := (cfg4.win 3).rect_emb_val t (ix2 (n0 := 1) (n1 := 512) y k) 1
  have i0 : (cfg4.win 3).index t 0 = 0 := congrFun (idx4_3 t) 0
  have i1 : (cfg4.win 3).index t 1 = 0 := congrFun (idx4_3 t) 1
  rw [i0, Nat.zero_mul, Nat.zero_add] at e0
  rw [i1, Nat.zero_mul, Nat.zero_add] at e1
  funext a
  apply Fin.ext
  match a with
  | ⟨0, _⟩ =>
    show ((((cfg4.win 3).rect t).emb (ix2 (n0 := 1) (n1 := 512) y k)) 0).val = y.val
    rw [e0]; rfl
  | ⟨1, _⟩ =>
    show ((((cfg4.win 3).rect t).emb (ix2 (n0 := 1) (n1 := 512) y k)) 1).val = k.val
    rw [e1]; rfl

/-- Window 4's block is its whole array at every grid point. -/
theorem iblk4_4_apply (c : Dev nD) (t : Fin cfg4.N) (y : Fin 1) (k : Fin 512) :
    iblk4 X c 4 t (ix2 (n0 := 1) (n1 := 512) y k)
      = X c (Pipeline.arrRef spec4 4) (ix2 (n0 := 1) (n1 := 512) y k) := by
  unfold iblk4
  rw [View.read_apply, cast_eq]
  congr 1
  have hemb : ((cfg4.win 4).blk t).view.emb (ix2 (n0 := 1) (n1 := 512) y k) = ((cfg4.win 4).rect t).emb (ix2 (n0 := 1) (n1 := 512) y k) := rfl
  rw [hemb]
  have e0 := (cfg4.win 4).rect_emb_val t (ix2 (n0 := 1) (n1 := 512) y k) 0
  have e1 := (cfg4.win 4).rect_emb_val t (ix2 (n0 := 1) (n1 := 512) y k) 1
  have i0 : (cfg4.win 4).index t 0 = 0 := congrFun (idx4_4 t) 0
  have i1 : (cfg4.win 4).index t 1 = 0 := congrFun (idx4_4 t) 1
  rw [i0, Nat.zero_mul, Nat.zero_add] at e0
  rw [i1, Nat.zero_mul, Nat.zero_add] at e1
  funext a
  apply Fin.ext
  match a with
  | ⟨0, _⟩ =>
    show ((((cfg4.win 4).rect t).emb (ix2 (n0 := 1) (n1 := 512) y k)) 0).val = y.val
    rw [e0]; rfl
  | ⟨1, _⟩ =>
    show ((((cfg4.win 4).rect t).emb (ix2 (n0 := 1) (n1 := 512) y k)) 1).val = k.val
    rw [e1]; rfl

variable (V : Fin 4 → (c : Dev nD) → (b : Ref sig .tc) → Buf (Elt F) ((c : Thread nD τ).loc b))

/-- The result after call 4 under grid point `t`'s block, element by element. -/
theorem fin4_at (c : Dev nD) (t : Fin cfg4.N) (y : ((cfg4.win 5).xblock (grid4.coords t)).Idx) :
    fin4 (Ix := Ix) (Name := Name) (U := U) (Lvl := Lvl) V c 5 (((cfg4.win 5).blk t).view.emb y)
      = out4_5 (iblk4 (V 0) c 0 t) (iblk4 (V 0) c 1 t) (iblk4 (V 0) c 2 t) (iblk4 (V 0) c 3 t) (iblk4 (V 0) c 4 t) ((cfg4.win 5).xinj (grid4.coords t) y) := by
  have h := congrFun (fin4_block (Ix := Ix) (Name := Name) (U := U) (Lvl := Lvl) V c t) y
  rw [show ((cfg4.win 5).blk t).view.read (Elt F) (fin4 (Ix := Ix) (Name := Name) (U := U) (Lvl := Lvl) V c 5) y = fin4 (Ix := Ix) (Name := Name) (U := U) (Lvl := Lvl) V c 5 (((cfg4.win 5).blk t).view.emb y)
    from (View.read_apply _ _).trans (cast_eq _ _)] at h
  exact h

/-- Row `R` of the result after call 4, when it lies in grid point `t`'s block. -/
theorem fin4_row (c : Dev nD) (t : Fin cfg4.N) (R : Fin 100000) (cc : Fin 512)
    (hlo : (0 + t.val) * 896 ≤ R.val) (hhi : R.val < (0 + t.val + 1) * 896) :
    fin4 (Ix := Ix) (Name := Name) (U := U) (Lvl := Lvl) V c 5 (ix2 (n0 := 100000) (n1 := 512) R cc)
      = out4_5 (iblk4 (V 0) c 0 t) (iblk4 (V 0) c 1 t) (iblk4 (V 0) c 2 t) (iblk4 (V 0) c 3 t) (iblk4 (V 0) c 4 t) (ix2 (n0 := 896) (n1 := 512) ⟨R.val - (0 + t.val) * 896, by omega⟩ cc) := by
  have hR := R.isLt
  have hmem : ix2 (n0 := 100000) (n1 := 512) R cc ∈ ((cfg4.win 5).blk t).view.set :=
    (mem_blk4_iff t _).mpr ⟨hlo, by show R.val < min ((0 + t.val + 1) * 896) 100000; omega⟩
  obtain ⟨y, -, hy⟩ := Finset.mem_map.mp hmem
  have h0 := congrArg (fun i : S100000x512.Idx => (i 0).val) hy
  have h1 := congrArg (fun i : S100000x512.Idx => (i 1).val) hy
  have e0 := (cfg4.win 5).rect_emb_val t y 0
  have e1 := (cfg4.win 5).rect_emb_val t y 1
  have i0 := congrFun (idx4 t) 0
  have i1 := congrFun (idx4 t) 1
  have hemb : ((cfg4.win 5).blk t).view.emb y = ((cfg4.win 5).rect t).emb y := rfl
  rw [hemb] at h0 h1
  rw [← hy, fin4_at (Ix := Ix) (Name := Name) (U := U) (Lvl := Lvl) V c t y]
  congr 1
  funext a
  apply Fin.ext
  match a with
  | ⟨0, _⟩ =>
    show (y 0).val = R.val - (0 + t.val) * 896
    have hs : (cfg4.win 5).size 0 = 896 := rfl
    have hi : (cfg4.win 5).index t 0 = 0 + t.val := i0
    have hr : (ix2 (n0 := 100000) (n1 := 512) R cc 0).val = R.val := rfl
    rw [e0, hs, hi, hr] at h0
    omega
  | ⟨1, _⟩ =>
    show (y 1).val = cc.val
    have hs : (cfg4.win 5).size 1 = 512 := rfl
    have hi : (cfg4.win 5).index t 1 = 0 := i1
    have hr : (ix2 (n0 := 100000) (n1 := 512) R cc 1).val = cc.val := rfl
    rw [e1, hs, hi, hr] at h1
    omega

/-- A row outside call 4's 28 blocks is as the region found it. -/
theorem fin4_outside (c : Dev nD) (R : Fin 100000) (cc : Fin 512)
    (h : R.val < 0 * 896 ∨ (0 + 28) * 896 ≤ R.val) :
    fin4 (Ix := Ix) (Name := Name) (U := U) (Lvl := Lvl) V c 5 (ix2 (n0 := 100000) (n1 := 512) R cc) = V 0 c (Pipeline.arrRef spec4 5) (ix2 (n0 := 100000) (n1 := 512) R cc) :=
  fin4_rest (Ix := Ix) (Name := Name) (U := U) (Lvl := Lvl) V c _ fun t hm => by
    have ht := t_lt4 t
    have hh := (mem_blk4_iff t _).mp hm
    have hr : (ix2 (n0 := 100000) (n1 := 512) R cc 0).val = R.val := rfl
    rw [hr] at hh
    omega

end Call4

/-! ## Call 5: blocks and rows -/

section Call5

theorem t_lt5 (t : Fin cfg5.N) : t.val < 28 := Nat.lt_of_lt_of_eq (show t.val < grid5.N from t.isLt) N_5

theorem idx5_0 : ∀ t : Fin cfg5.N, win5_0.index t = ![t.val, 0] :=
  (by decide +kernel : ∀ t : Fin grid5.N, win5_0.index t = ![t.val, 0])
theorem idx5_1 : ∀ t : Fin cfg5.N, win5_1.index t = ![0, 0] :=
  (by decide +kernel : ∀ t : Fin grid5.N, win5_1.index t = ![0, 0])
theorem idx5_2 : ∀ t : Fin cfg5.N, win5_2.index t = ![0, 0] :=
  (by decide +kernel : ∀ t : Fin grid5.N, win5_2.index t = ![0, 0])
theorem idx5_3 : ∀ t : Fin cfg5.N, win5_3.index t = ![0, 0] :=
  (by decide +kernel : ∀ t : Fin grid5.N, win5_3.index t = ![0, 0])
theorem idx5_4 : ∀ t : Fin cfg5.N, win5_4.index t = ![0, 0] :=
  (by decide +kernel : ∀ t : Fin grid5.N, win5_4.index t = ![0, 0])

variable (X : (c : Dev nD) → (b : Ref sig .tc) → Buf (Elt F) ((c : Thread nD τ).loc b))

/-- Entry `(y, k)` of the gathered block at grid point `t` is entry `(896 t + y, k)` of the slab. -/
theorem iblk5_0_apply (c : Dev nD) (t : Fin cfg5.N) (y : Fin 896) (k : Fin 512) :
    iblk5 X c 0 t (ix2 (n0 := 896) (n1 := 512) y k)
      = X c (Pipeline.arrRef spec5 0) (ix2 (n0 := 25088) (n1 := 512)
          ⟨t.val * 896 + y.val, by have ht := t_lt5 t; have := y.isLt; omega⟩ k) := by
  unfold iblk5
  rw [View.read_apply, cast_eq]
  congr 1
  have hemb : ((cfg5.win 0).blk t).view.emb (ix2 (n0 := 896) (n1 := 512) y k)
      = ((cfg5.win 0).rect t).emb (ix2 (n0 := 896) (n1 := 512) y k) := rfl
  rw [hemb]
  have e0 := (cfg5.win 0).rect_emb_val t (ix2 (n0 := 896) (n1 := 512) y k) 0
  have e1 := (cfg5.win 0).rect_emb_val t (ix2 (n0 := 896) (n1 := 512) y k) 1
  have i0 : (cfg5.win 0).index t 0 = t.val := congrFun (idx5_0 t) 0
  have i1 : (cfg5.win 0).index t 1 = 0 := congrFun (idx5_0 t) 1
  have s0 : (cfg5.win 0).size 0 = 896 := rfl
  have s1 : (cfg5.win 0).size 1 = 512 := rfl
  rw [i0, s0] at e0
  rw [i1, s1] at e1
  funext a
  apply Fin.ext
  match a with
  | ⟨0, _⟩ =>
    show ((((cfg5.win 0).rect t).emb (ix2 (n0 := 896) (n1 := 512) y k)) 0).val = t.val * 896 + y.val
    rw [e0]; rfl
  | ⟨1, _⟩ =>
    show ((((cfg5.win 0).rect t).emb (ix2 (n0 := 896) (n1 := 512) y k)) 1).val = k.val
    rw [e1]
    show 0 * 512 + k.val = k.val
    omega

/-- Window 1's block is its whole array at every grid point. -/
theorem iblk5_1_apply (c : Dev nD) (t : Fin cfg5.N) (y : Fin 512) (k : Fin 512) :
    iblk5 X c 1 t (ix2 (n0 := 512) (n1 := 512) y k)
      = X c (Pipeline.arrRef spec5 1) (ix2 (n0 := 512) (n1 := 512) y k) := by
  unfold iblk5
  rw [View.read_apply, cast_eq]
  congr 1
  have hemb : ((cfg5.win 1).blk t).view.emb (ix2 (n0 := 512) (n1 := 512) y k) = ((cfg5.win 1).rect t).emb (ix2 (n0 := 512) (n1 := 512) y k) := rfl
  rw [hemb]
  have e0 := (cfg5.win 1).rect_emb_val t (ix2 (n0 := 512) (n1 := 512) y k) 0
  have e1 := (cfg5.win 1).rect_emb_val t (ix2 (n0 := 512) (n1 := 512) y k) 1
  have i0 : (cfg5.win 1).index t 0 = 0 := congrFun (idx5_1 t) 0
  have i1 : (cfg5.win 1).index t 1 = 0 := congrFun (idx5_1 t) 1
  rw [i0, Nat.zero_mul, Nat.zero_add] at e0
  rw [i1, Nat.zero_mul, Nat.zero_add] at e1
  funext a
  apply Fin.ext
  match a with
  | ⟨0, _⟩ =>
    show ((((cfg5.win 1).rect t).emb (ix2 (n0 := 512) (n1 := 512) y k)) 0).val = y.val
    rw [e0]; rfl
  | ⟨1, _⟩ =>
    show ((((cfg5.win 1).rect t).emb (ix2 (n0 := 512) (n1 := 512) y k)) 1).val = k.val
    rw [e1]; rfl

/-- Window 2's block is its whole array at every grid point. -/
theorem iblk5_2_apply (c : Dev nD) (t : Fin cfg5.N) (y : Fin 1) (k : Fin 512) :
    iblk5 X c 2 t (ix2 (n0 := 1) (n1 := 512) y k)
      = X c (Pipeline.arrRef spec5 2) (ix2 (n0 := 1) (n1 := 512) y k) := by
  unfold iblk5
  rw [View.read_apply, cast_eq]
  congr 1
  have hemb : ((cfg5.win 2).blk t).view.emb (ix2 (n0 := 1) (n1 := 512) y k) = ((cfg5.win 2).rect t).emb (ix2 (n0 := 1) (n1 := 512) y k) := rfl
  rw [hemb]
  have e0 := (cfg5.win 2).rect_emb_val t (ix2 (n0 := 1) (n1 := 512) y k) 0
  have e1 := (cfg5.win 2).rect_emb_val t (ix2 (n0 := 1) (n1 := 512) y k) 1
  have i0 : (cfg5.win 2).index t 0 = 0 := congrFun (idx5_2 t) 0
  have i1 : (cfg5.win 2).index t 1 = 0 := congrFun (idx5_2 t) 1
  rw [i0, Nat.zero_mul, Nat.zero_add] at e0
  rw [i1, Nat.zero_mul, Nat.zero_add] at e1
  funext a
  apply Fin.ext
  match a with
  | ⟨0, _⟩ =>
    show ((((cfg5.win 2).rect t).emb (ix2 (n0 := 1) (n1 := 512) y k)) 0).val = y.val
    rw [e0]; rfl
  | ⟨1, _⟩ =>
    show ((((cfg5.win 2).rect t).emb (ix2 (n0 := 1) (n1 := 512) y k)) 1).val = k.val
    rw [e1]; rfl

/-- Window 3's block is its whole array at every grid point. -/
theorem iblk5_3_apply (c : Dev nD) (t : Fin cfg5.N) (y : Fin 1) (k : Fin 512) :
    iblk5 X c 3 t (ix2 (n0 := 1) (n1 := 512) y k)
      = X c (Pipeline.arrRef spec5 3) (ix2 (n0 := 1) (n1 := 512) y k) := by
  unfold iblk5
  rw [View.read_apply, cast_eq]
  congr 1
  have hemb : ((cfg5.win 3).blk t).view.emb (ix2 (n0 := 1) (n1 := 512) y k) = ((cfg5.win 3).rect t).emb (ix2 (n0 := 1) (n1 := 512) y k) := rfl
  rw [hemb]
  have e0 := (cfg5.win 3).rect_emb_val t (ix2 (n0 := 1) (n1 := 512) y k) 0
  have e1 := (cfg5.win 3).rect_emb_val t (ix2 (n0 := 1) (n1 := 512) y k) 1
  have i0 : (cfg5.win 3).index t 0 = 0 := congrFun (idx5_3 t) 0
  have i1 : (cfg5.win 3).index t 1 = 0 := congrFun (idx5_3 t) 1
  rw [i0, Nat.zero_mul, Nat.zero_add] at e0
  rw [i1, Nat.zero_mul, Nat.zero_add] at e1
  funext a
  apply Fin.ext
  match a with
  | ⟨0, _⟩ =>
    show ((((cfg5.win 3).rect t).emb (ix2 (n0 := 1) (n1 := 512) y k)) 0).val = y.val
    rw [e0]; rfl
  | ⟨1, _⟩ =>
    show ((((cfg5.win 3).rect t).emb (ix2 (n0 := 1) (n1 := 512) y k)) 1).val = k.val
    rw [e1]; rfl

/-- Window 4's block is its whole array at every grid point. -/
theorem iblk5_4_apply (c : Dev nD) (t : Fin cfg5.N) (y : Fin 1) (k : Fin 512) :
    iblk5 X c 4 t (ix2 (n0 := 1) (n1 := 512) y k)
      = X c (Pipeline.arrRef spec5 4) (ix2 (n0 := 1) (n1 := 512) y k) := by
  unfold iblk5
  rw [View.read_apply, cast_eq]
  congr 1
  have hemb : ((cfg5.win 4).blk t).view.emb (ix2 (n0 := 1) (n1 := 512) y k) = ((cfg5.win 4).rect t).emb (ix2 (n0 := 1) (n1 := 512) y k) := rfl
  rw [hemb]
  have e0 := (cfg5.win 4).rect_emb_val t (ix2 (n0 := 1) (n1 := 512) y k) 0
  have e1 := (cfg5.win 4).rect_emb_val t (ix2 (n0 := 1) (n1 := 512) y k) 1
  have i0 : (cfg5.win 4).index t 0 = 0 := congrFun (idx5_4 t) 0
  have i1 : (cfg5.win 4).index t 1 = 0 := congrFun (idx5_4 t) 1
  rw [i0, Nat.zero_mul, Nat.zero_add] at e0
  rw [i1, Nat.zero_mul, Nat.zero_add] at e1
  funext a
  apply Fin.ext
  match a with
  | ⟨0, _⟩ =>
    show ((((cfg5.win 4).rect t).emb (ix2 (n0 := 1) (n1 := 512) y k)) 0).val = y.val
    rw [e0]; rfl
  | ⟨1, _⟩ =>
    show ((((cfg5.win 4).rect t).emb (ix2 (n0 := 1) (n1 := 512) y k)) 1).val = k.val
    rw [e1]; rfl

variable (V : Fin 4 → (c : Dev nD) → (b : Ref sig .tc) → Buf (Elt F) ((c : Thread nD τ).loc b))

/-- The result after call 5 under grid point `t`'s block, element by element. -/
theorem fin5_at (c : Dev nD) (t : Fin cfg5.N) (y : ((cfg5.win 5).xblock (grid5.coords t)).Idx) :
    fin5 (Ix := Ix) (Name := Name) (U := U) (Lvl := Lvl) V c 5 (((cfg5.win 5).blk t).view.emb y)
      = out5_5 (iblk5 (V 1) c 0 t) (iblk5 (V 1) c 1 t) (iblk5 (V 1) c 2 t) (iblk5 (V 1) c 3 t) (iblk5 (V 1) c 4 t) ((cfg5.win 5).xinj (grid5.coords t) y) := by
  have h := congrFun (fin5_block (Ix := Ix) (Name := Name) (U := U) (Lvl := Lvl) V c t) y
  rw [show ((cfg5.win 5).blk t).view.read (Elt F) (fin5 (Ix := Ix) (Name := Name) (U := U) (Lvl := Lvl) V c 5) y = fin5 (Ix := Ix) (Name := Name) (U := U) (Lvl := Lvl) V c 5 (((cfg5.win 5).blk t).view.emb y)
    from (View.read_apply _ _).trans (cast_eq _ _)] at h
  exact h

/-- Row `R` of the result after call 5, when it lies in grid point `t`'s block. -/
theorem fin5_row (c : Dev nD) (t : Fin cfg5.N) (R : Fin 100000) (cc : Fin 512)
    (hlo : (28 + t.val) * 896 ≤ R.val) (hhi : R.val < (28 + t.val + 1) * 896) :
    fin5 (Ix := Ix) (Name := Name) (U := U) (Lvl := Lvl) V c 5 (ix2 (n0 := 100000) (n1 := 512) R cc)
      = out5_5 (iblk5 (V 1) c 0 t) (iblk5 (V 1) c 1 t) (iblk5 (V 1) c 2 t) (iblk5 (V 1) c 3 t) (iblk5 (V 1) c 4 t) (ix2 (n0 := 896) (n1 := 512) ⟨R.val - (28 + t.val) * 896, by omega⟩ cc) := by
  have hR := R.isLt
  have hmem : ix2 (n0 := 100000) (n1 := 512) R cc ∈ ((cfg5.win 5).blk t).view.set :=
    (mem_blk5_iff t _).mpr ⟨hlo, by show R.val < min ((28 + t.val + 1) * 896) 100000; omega⟩
  obtain ⟨y, -, hy⟩ := Finset.mem_map.mp hmem
  have h0 := congrArg (fun i : S100000x512.Idx => (i 0).val) hy
  have h1 := congrArg (fun i : S100000x512.Idx => (i 1).val) hy
  have e0 := (cfg5.win 5).rect_emb_val t y 0
  have e1 := (cfg5.win 5).rect_emb_val t y 1
  have i0 := congrFun (idx5 t) 0
  have i1 := congrFun (idx5 t) 1
  have hemb : ((cfg5.win 5).blk t).view.emb y = ((cfg5.win 5).rect t).emb y := rfl
  rw [hemb] at h0 h1
  rw [← hy, fin5_at (Ix := Ix) (Name := Name) (U := U) (Lvl := Lvl) V c t y]
  congr 1
  funext a
  apply Fin.ext
  match a with
  | ⟨0, _⟩ =>
    show (y 0).val = R.val - (28 + t.val) * 896
    have hs : (cfg5.win 5).size 0 = 896 := rfl
    have hi : (cfg5.win 5).index t 0 = 28 + t.val := i0
    have hr : (ix2 (n0 := 100000) (n1 := 512) R cc 0).val = R.val := rfl
    rw [e0, hs, hi, hr] at h0
    omega
  | ⟨1, _⟩ =>
    show (y 1).val = cc.val
    have hs : (cfg5.win 5).size 1 = 512 := rfl
    have hi : (cfg5.win 5).index t 1 = 0 := i1
    have hr : (ix2 (n0 := 100000) (n1 := 512) R cc 1).val = cc.val := rfl
    rw [e1, hs, hi, hr] at h1
    omega

/-- A row outside call 5's 28 blocks is as the region found it. -/
theorem fin5_outside (c : Dev nD) (R : Fin 100000) (cc : Fin 512)
    (h : R.val < 28 * 896 ∨ (28 + 28) * 896 ≤ R.val) :
    fin5 (Ix := Ix) (Name := Name) (U := U) (Lvl := Lvl) V c 5 (ix2 (n0 := 100000) (n1 := 512) R cc) = V 1 c (Pipeline.arrRef spec5 5) (ix2 (n0 := 100000) (n1 := 512) R cc) :=
  fin5_rest (Ix := Ix) (Name := Name) (U := U) (Lvl := Lvl) V c _ fun t hm => by
    have ht := t_lt5 t
    have hh := (mem_blk5_iff t _).mp hm
    have hr : (ix2 (n0 := 100000) (n1 := 512) R cc 0).val = R.val := rfl
    rw [hr] at hh
    omega

end Call5

/-! ## Call 6: blocks and rows -/

section Call6

theorem t_lt6 (t : Fin cfg6.N) : t.val < 28 := Nat.lt_of_lt_of_eq (show t.val < grid6.N from t.isLt) N_6

theorem idx6_0 : ∀ t : Fin cfg6.N, win6_0.index t = ![t.val, 0] :=
  (by decide +kernel : ∀ t : Fin grid6.N, win6_0.index t = ![t.val, 0])
theorem idx6_1 : ∀ t : Fin cfg6.N, win6_1.index t = ![0, 0] :=
  (by decide +kernel : ∀ t : Fin grid6.N, win6_1.index t = ![0, 0])
theorem idx6_2 : ∀ t : Fin cfg6.N, win6_2.index t = ![0, 0] :=
  (by decide +kernel : ∀ t : Fin grid6.N, win6_2.index t = ![0, 0])
theorem idx6_3 : ∀ t : Fin cfg6.N, win6_3.index t = ![0, 0] :=
  (by decide +kernel : ∀ t : Fin grid6.N, win6_3.index t = ![0, 0])
theorem idx6_4 : ∀ t : Fin cfg6.N, win6_4.index t = ![0, 0] :=
  (by decide +kernel : ∀ t : Fin grid6.N, win6_4.index t = ![0, 0])

variable (X : (c : Dev nD) → (b : Ref sig .tc) → Buf (Elt F) ((c : Thread nD τ).loc b))

/-- Entry `(y, k)` of the gathered block at grid point `t` is entry `(896 t + y, k)` of the slab. -/
theorem iblk6_0_apply (c : Dev nD) (t : Fin cfg6.N) (y : Fin 896) (k : Fin 512) :
    iblk6 X c 0 t (ix2 (n0 := 896) (n1 := 512) y k)
      = X c (Pipeline.arrRef spec6 0) (ix2 (n0 := 25088) (n1 := 512)
          ⟨t.val * 896 + y.val, by have ht := t_lt6 t; have := y.isLt; omega⟩ k) := by
  unfold iblk6
  rw [View.read_apply, cast_eq]
  congr 1
  have hemb : ((cfg6.win 0).blk t).view.emb (ix2 (n0 := 896) (n1 := 512) y k)
      = ((cfg6.win 0).rect t).emb (ix2 (n0 := 896) (n1 := 512) y k) := rfl
  rw [hemb]
  have e0 := (cfg6.win 0).rect_emb_val t (ix2 (n0 := 896) (n1 := 512) y k) 0
  have e1 := (cfg6.win 0).rect_emb_val t (ix2 (n0 := 896) (n1 := 512) y k) 1
  have i0 : (cfg6.win 0).index t 0 = t.val := congrFun (idx6_0 t) 0
  have i1 : (cfg6.win 0).index t 1 = 0 := congrFun (idx6_0 t) 1
  have s0 : (cfg6.win 0).size 0 = 896 := rfl
  have s1 : (cfg6.win 0).size 1 = 512 := rfl
  rw [i0, s0] at e0
  rw [i1, s1] at e1
  funext a
  apply Fin.ext
  match a with
  | ⟨0, _⟩ =>
    show ((((cfg6.win 0).rect t).emb (ix2 (n0 := 896) (n1 := 512) y k)) 0).val = t.val * 896 + y.val
    rw [e0]; rfl
  | ⟨1, _⟩ =>
    show ((((cfg6.win 0).rect t).emb (ix2 (n0 := 896) (n1 := 512) y k)) 1).val = k.val
    rw [e1]
    show 0 * 512 + k.val = k.val
    omega

/-- Window 1's block is its whole array at every grid point. -/
theorem iblk6_1_apply (c : Dev nD) (t : Fin cfg6.N) (y : Fin 512) (k : Fin 512) :
    iblk6 X c 1 t (ix2 (n0 := 512) (n1 := 512) y k)
      = X c (Pipeline.arrRef spec6 1) (ix2 (n0 := 512) (n1 := 512) y k) := by
  unfold iblk6
  rw [View.read_apply, cast_eq]
  congr 1
  have hemb : ((cfg6.win 1).blk t).view.emb (ix2 (n0 := 512) (n1 := 512) y k) = ((cfg6.win 1).rect t).emb (ix2 (n0 := 512) (n1 := 512) y k) := rfl
  rw [hemb]
  have e0 := (cfg6.win 1).rect_emb_val t (ix2 (n0 := 512) (n1 := 512) y k) 0
  have e1 := (cfg6.win 1).rect_emb_val t (ix2 (n0 := 512) (n1 := 512) y k) 1
  have i0 : (cfg6.win 1).index t 0 = 0 := congrFun (idx6_1 t) 0
  have i1 : (cfg6.win 1).index t 1 = 0 := congrFun (idx6_1 t) 1
  rw [i0, Nat.zero_mul, Nat.zero_add] at e0
  rw [i1, Nat.zero_mul, Nat.zero_add] at e1
  funext a
  apply Fin.ext
  match a with
  | ⟨0, _⟩ =>
    show ((((cfg6.win 1).rect t).emb (ix2 (n0 := 512) (n1 := 512) y k)) 0).val = y.val
    rw [e0]; rfl
  | ⟨1, _⟩ =>
    show ((((cfg6.win 1).rect t).emb (ix2 (n0 := 512) (n1 := 512) y k)) 1).val = k.val
    rw [e1]; rfl

/-- Window 2's block is its whole array at every grid point. -/
theorem iblk6_2_apply (c : Dev nD) (t : Fin cfg6.N) (y : Fin 1) (k : Fin 512) :
    iblk6 X c 2 t (ix2 (n0 := 1) (n1 := 512) y k)
      = X c (Pipeline.arrRef spec6 2) (ix2 (n0 := 1) (n1 := 512) y k) := by
  unfold iblk6
  rw [View.read_apply, cast_eq]
  congr 1
  have hemb : ((cfg6.win 2).blk t).view.emb (ix2 (n0 := 1) (n1 := 512) y k) = ((cfg6.win 2).rect t).emb (ix2 (n0 := 1) (n1 := 512) y k) := rfl
  rw [hemb]
  have e0 := (cfg6.win 2).rect_emb_val t (ix2 (n0 := 1) (n1 := 512) y k) 0
  have e1 := (cfg6.win 2).rect_emb_val t (ix2 (n0 := 1) (n1 := 512) y k) 1
  have i0 : (cfg6.win 2).index t 0 = 0 := congrFun (idx6_2 t) 0
  have i1 : (cfg6.win 2).index t 1 = 0 := congrFun (idx6_2 t) 1
  rw [i0, Nat.zero_mul, Nat.zero_add] at e0
  rw [i1, Nat.zero_mul, Nat.zero_add] at e1
  funext a
  apply Fin.ext
  match a with
  | ⟨0, _⟩ =>
    show ((((cfg6.win 2).rect t).emb (ix2 (n0 := 1) (n1 := 512) y k)) 0).val = y.val
    rw [e0]; rfl
  | ⟨1, _⟩ =>
    show ((((cfg6.win 2).rect t).emb (ix2 (n0 := 1) (n1 := 512) y k)) 1).val = k.val
    rw [e1]; rfl

/-- Window 3's block is its whole array at every grid point. -/
theorem iblk6_3_apply (c : Dev nD) (t : Fin cfg6.N) (y : Fin 1) (k : Fin 512) :
    iblk6 X c 3 t (ix2 (n0 := 1) (n1 := 512) y k)
      = X c (Pipeline.arrRef spec6 3) (ix2 (n0 := 1) (n1 := 512) y k) := by
  unfold iblk6
  rw [View.read_apply, cast_eq]
  congr 1
  have hemb : ((cfg6.win 3).blk t).view.emb (ix2 (n0 := 1) (n1 := 512) y k) = ((cfg6.win 3).rect t).emb (ix2 (n0 := 1) (n1 := 512) y k) := rfl
  rw [hemb]
  have e0 := (cfg6.win 3).rect_emb_val t (ix2 (n0 := 1) (n1 := 512) y k) 0
  have e1 := (cfg6.win 3).rect_emb_val t (ix2 (n0 := 1) (n1 := 512) y k) 1
  have i0 : (cfg6.win 3).index t 0 = 0 := congrFun (idx6_3 t) 0
  have i1 : (cfg6.win 3).index t 1 = 0 := congrFun (idx6_3 t) 1
  rw [i0, Nat.zero_mul, Nat.zero_add] at e0
  rw [i1, Nat.zero_mul, Nat.zero_add] at e1
  funext a
  apply Fin.ext
  match a with
  | ⟨0, _⟩ =>
    show ((((cfg6.win 3).rect t).emb (ix2 (n0 := 1) (n1 := 512) y k)) 0).val = y.val
    rw [e0]; rfl
  | ⟨1, _⟩ =>
    show ((((cfg6.win 3).rect t).emb (ix2 (n0 := 1) (n1 := 512) y k)) 1).val = k.val
    rw [e1]; rfl

/-- Window 4's block is its whole array at every grid point. -/
theorem iblk6_4_apply (c : Dev nD) (t : Fin cfg6.N) (y : Fin 1) (k : Fin 512) :
    iblk6 X c 4 t (ix2 (n0 := 1) (n1 := 512) y k)
      = X c (Pipeline.arrRef spec6 4) (ix2 (n0 := 1) (n1 := 512) y k) := by
  unfold iblk6
  rw [View.read_apply, cast_eq]
  congr 1
  have hemb : ((cfg6.win 4).blk t).view.emb (ix2 (n0 := 1) (n1 := 512) y k) = ((cfg6.win 4).rect t).emb (ix2 (n0 := 1) (n1 := 512) y k) := rfl
  rw [hemb]
  have e0 := (cfg6.win 4).rect_emb_val t (ix2 (n0 := 1) (n1 := 512) y k) 0
  have e1 := (cfg6.win 4).rect_emb_val t (ix2 (n0 := 1) (n1 := 512) y k) 1
  have i0 : (cfg6.win 4).index t 0 = 0 := congrFun (idx6_4 t) 0
  have i1 : (cfg6.win 4).index t 1 = 0 := congrFun (idx6_4 t) 1
  rw [i0, Nat.zero_mul, Nat.zero_add] at e0
  rw [i1, Nat.zero_mul, Nat.zero_add] at e1
  funext a
  apply Fin.ext
  match a with
  | ⟨0, _⟩ =>
    show ((((cfg6.win 4).rect t).emb (ix2 (n0 := 1) (n1 := 512) y k)) 0).val = y.val
    rw [e0]; rfl
  | ⟨1, _⟩ =>
    show ((((cfg6.win 4).rect t).emb (ix2 (n0 := 1) (n1 := 512) y k)) 1).val = k.val
    rw [e1]; rfl

variable (V : Fin 4 → (c : Dev nD) → (b : Ref sig .tc) → Buf (Elt F) ((c : Thread nD τ).loc b))

/-- The result after call 6 under grid point `t`'s block, element by element. -/
theorem fin6_at (c : Dev nD) (t : Fin cfg6.N) (y : ((cfg6.win 5).xblock (grid6.coords t)).Idx) :
    fin6 (Ix := Ix) (Name := Name) (U := U) (Lvl := Lvl) V c 5 (((cfg6.win 5).blk t).view.emb y)
      = out6_5 (iblk6 (V 2) c 0 t) (iblk6 (V 2) c 1 t) (iblk6 (V 2) c 2 t) (iblk6 (V 2) c 3 t) (iblk6 (V 2) c 4 t) ((cfg6.win 5).xinj (grid6.coords t) y) := by
  have h := congrFun (fin6_block (Ix := Ix) (Name := Name) (U := U) (Lvl := Lvl) V c t) y
  rw [show ((cfg6.win 5).blk t).view.read (Elt F) (fin6 (Ix := Ix) (Name := Name) (U := U) (Lvl := Lvl) V c 5) y = fin6 (Ix := Ix) (Name := Name) (U := U) (Lvl := Lvl) V c 5 (((cfg6.win 5).blk t).view.emb y)
    from (View.read_apply _ _).trans (cast_eq _ _)] at h
  exact h

/-- Row `R` of the result after call 6, when it lies in grid point `t`'s block. -/
theorem fin6_row (c : Dev nD) (t : Fin cfg6.N) (R : Fin 100000) (cc : Fin 512)
    (hlo : (56 + t.val) * 896 ≤ R.val) (hhi : R.val < (56 + t.val + 1) * 896) :
    fin6 (Ix := Ix) (Name := Name) (U := U) (Lvl := Lvl) V c 5 (ix2 (n0 := 100000) (n1 := 512) R cc)
      = out6_5 (iblk6 (V 2) c 0 t) (iblk6 (V 2) c 1 t) (iblk6 (V 2) c 2 t) (iblk6 (V 2) c 3 t) (iblk6 (V 2) c 4 t) (ix2 (n0 := 896) (n1 := 512) ⟨R.val - (56 + t.val) * 896, by omega⟩ cc) := by
  have hR := R.isLt
  have hmem : ix2 (n0 := 100000) (n1 := 512) R cc ∈ ((cfg6.win 5).blk t).view.set :=
    (mem_blk6_iff t _).mpr ⟨hlo, by show R.val < min ((56 + t.val + 1) * 896) 100000; omega⟩
  obtain ⟨y, -, hy⟩ := Finset.mem_map.mp hmem
  have h0 := congrArg (fun i : S100000x512.Idx => (i 0).val) hy
  have h1 := congrArg (fun i : S100000x512.Idx => (i 1).val) hy
  have e0 := (cfg6.win 5).rect_emb_val t y 0
  have e1 := (cfg6.win 5).rect_emb_val t y 1
  have i0 := congrFun (idx6 t) 0
  have i1 := congrFun (idx6 t) 1
  have hemb : ((cfg6.win 5).blk t).view.emb y = ((cfg6.win 5).rect t).emb y := rfl
  rw [hemb] at h0 h1
  rw [← hy, fin6_at (Ix := Ix) (Name := Name) (U := U) (Lvl := Lvl) V c t y]
  congr 1
  funext a
  apply Fin.ext
  match a with
  | ⟨0, _⟩ =>
    show (y 0).val = R.val - (56 + t.val) * 896
    have hs : (cfg6.win 5).size 0 = 896 := rfl
    have hi : (cfg6.win 5).index t 0 = 56 + t.val := i0
    have hr : (ix2 (n0 := 100000) (n1 := 512) R cc 0).val = R.val := rfl
    rw [e0, hs, hi, hr] at h0
    omega
  | ⟨1, _⟩ =>
    show (y 1).val = cc.val
    have hs : (cfg6.win 5).size 1 = 512 := rfl
    have hi : (cfg6.win 5).index t 1 = 0 := i1
    have hr : (ix2 (n0 := 100000) (n1 := 512) R cc 1).val = cc.val := rfl
    rw [e1, hs, hi, hr] at h1
    omega

/-- A row outside call 6's 28 blocks is as the region found it. -/
theorem fin6_outside (c : Dev nD) (R : Fin 100000) (cc : Fin 512)
    (h : R.val < 56 * 896 ∨ (56 + 28) * 896 ≤ R.val) :
    fin6 (Ix := Ix) (Name := Name) (U := U) (Lvl := Lvl) V c 5 (ix2 (n0 := 100000) (n1 := 512) R cc) = V 2 c (Pipeline.arrRef spec6 5) (ix2 (n0 := 100000) (n1 := 512) R cc) :=
  fin6_rest (Ix := Ix) (Name := Name) (U := U) (Lvl := Lvl) V c _ fun t hm => by
    have ht := t_lt6 t
    have hh := (mem_blk6_iff t _).mp hm
    have hr : (ix2 (n0 := 100000) (n1 := 512) R cc 0).val = R.val := rfl
    rw [hr] at hh
    omega

end Call6

/-! ## Call 7: blocks and rows -/

section Call7

theorem t_lt7 (t : Fin cfg7.N) : t.val < 28 := Nat.lt_of_lt_of_eq (show t.val < grid7.N from t.isLt) N_7

theorem idx7_0 : ∀ t : Fin cfg7.N, win7_0.index t = ![t.val, 0] :=
  (by decide +kernel : ∀ t : Fin grid7.N, win7_0.index t = ![t.val, 0])
theorem idx7_1 : ∀ t : Fin cfg7.N, win7_1.index t = ![0, 0] :=
  (by decide +kernel : ∀ t : Fin grid7.N, win7_1.index t = ![0, 0])
theorem idx7_2 : ∀ t : Fin cfg7.N, win7_2.index t = ![0, 0] :=
  (by decide +kernel : ∀ t : Fin grid7.N, win7_2.index t = ![0, 0])
theorem idx7_3 : ∀ t : Fin cfg7.N, win7_3.index t = ![0, 0] :=
  (by decide +kernel : ∀ t : Fin grid7.N, win7_3.index t = ![0, 0])
theorem idx7_4 : ∀ t : Fin cfg7.N, win7_4.index t = ![0, 0] :=
  (by decide +kernel : ∀ t : Fin grid7.N, win7_4.index t = ![0, 0])

variable (X : (c : Dev nD) → (b : Ref sig .tc) → Buf (Elt F) ((c : Thread nD τ).loc b))

/-- Entry `(y, k)` of the gathered block at grid point `t` is entry `(896 t + y, k)` of the slab. -/
theorem iblk7_0_apply (c : Dev nD) (t : Fin cfg7.N) (y : Fin 896) (k : Fin 512) :
    iblk7 X c 0 t (ix2 (n0 := 896) (n1 := 512) y k)
      = X c (Pipeline.arrRef spec7 0) (ix2 (n0 := 25088) (n1 := 512)
          ⟨t.val * 896 + y.val, by have ht := t_lt7 t; have := y.isLt; omega⟩ k) := by
  unfold iblk7
  rw [View.read_apply, cast_eq]
  congr 1
  have hemb : ((cfg7.win 0).blk t).view.emb (ix2 (n0 := 896) (n1 := 512) y k)
      = ((cfg7.win 0).rect t).emb (ix2 (n0 := 896) (n1 := 512) y k) := rfl
  rw [hemb]
  have e0 := (cfg7.win 0).rect_emb_val t (ix2 (n0 := 896) (n1 := 512) y k) 0
  have e1 := (cfg7.win 0).rect_emb_val t (ix2 (n0 := 896) (n1 := 512) y k) 1
  have i0 : (cfg7.win 0).index t 0 = t.val := congrFun (idx7_0 t) 0
  have i1 : (cfg7.win 0).index t 1 = 0 := congrFun (idx7_0 t) 1
  have s0 : (cfg7.win 0).size 0 = 896 := rfl
  have s1 : (cfg7.win 0).size 1 = 512 := rfl
  rw [i0, s0] at e0
  rw [i1, s1] at e1
  funext a
  apply Fin.ext
  match a with
  | ⟨0, _⟩ =>
    show ((((cfg7.win 0).rect t).emb (ix2 (n0 := 896) (n1 := 512) y k)) 0).val = t.val * 896 + y.val
    rw [e0]; rfl
  | ⟨1, _⟩ =>
    show ((((cfg7.win 0).rect t).emb (ix2 (n0 := 896) (n1 := 512) y k)) 1).val = k.val
    rw [e1]
    show 0 * 512 + k.val = k.val
    omega

/-- Window 1's block is its whole array at every grid point. -/
theorem iblk7_1_apply (c : Dev nD) (t : Fin cfg7.N) (y : Fin 512) (k : Fin 512) :
    iblk7 X c 1 t (ix2 (n0 := 512) (n1 := 512) y k)
      = X c (Pipeline.arrRef spec7 1) (ix2 (n0 := 512) (n1 := 512) y k) := by
  unfold iblk7
  rw [View.read_apply, cast_eq]
  congr 1
  have hemb : ((cfg7.win 1).blk t).view.emb (ix2 (n0 := 512) (n1 := 512) y k) = ((cfg7.win 1).rect t).emb (ix2 (n0 := 512) (n1 := 512) y k) := rfl
  rw [hemb]
  have e0 := (cfg7.win 1).rect_emb_val t (ix2 (n0 := 512) (n1 := 512) y k) 0
  have e1 := (cfg7.win 1).rect_emb_val t (ix2 (n0 := 512) (n1 := 512) y k) 1
  have i0 : (cfg7.win 1).index t 0 = 0 := congrFun (idx7_1 t) 0
  have i1 : (cfg7.win 1).index t 1 = 0 := congrFun (idx7_1 t) 1
  rw [i0, Nat.zero_mul, Nat.zero_add] at e0
  rw [i1, Nat.zero_mul, Nat.zero_add] at e1
  funext a
  apply Fin.ext
  match a with
  | ⟨0, _⟩ =>
    show ((((cfg7.win 1).rect t).emb (ix2 (n0 := 512) (n1 := 512) y k)) 0).val = y.val
    rw [e0]; rfl
  | ⟨1, _⟩ =>
    show ((((cfg7.win 1).rect t).emb (ix2 (n0 := 512) (n1 := 512) y k)) 1).val = k.val
    rw [e1]; rfl

/-- Window 2's block is its whole array at every grid point. -/
theorem iblk7_2_apply (c : Dev nD) (t : Fin cfg7.N) (y : Fin 1) (k : Fin 512) :
    iblk7 X c 2 t (ix2 (n0 := 1) (n1 := 512) y k)
      = X c (Pipeline.arrRef spec7 2) (ix2 (n0 := 1) (n1 := 512) y k) := by
  unfold iblk7
  rw [View.read_apply, cast_eq]
  congr 1
  have hemb : ((cfg7.win 2).blk t).view.emb (ix2 (n0 := 1) (n1 := 512) y k) = ((cfg7.win 2).rect t).emb (ix2 (n0 := 1) (n1 := 512) y k) := rfl
  rw [hemb]
  have e0 := (cfg7.win 2).rect_emb_val t (ix2 (n0 := 1) (n1 := 512) y k) 0
  have e1 := (cfg7.win 2).rect_emb_val t (ix2 (n0 := 1) (n1 := 512) y k) 1
  have i0 : (cfg7.win 2).index t 0 = 0 := congrFun (idx7_2 t) 0
  have i1 : (cfg7.win 2).index t 1 = 0 := congrFun (idx7_2 t) 1
  rw [i0, Nat.zero_mul, Nat.zero_add] at e0
  rw [i1, Nat.zero_mul, Nat.zero_add] at e1
  funext a
  apply Fin.ext
  match a with
  | ⟨0, _⟩ =>
    show ((((cfg7.win 2).rect t).emb (ix2 (n0 := 1) (n1 := 512) y k)) 0).val = y.val
    rw [e0]; rfl
  | ⟨1, _⟩ =>
    show ((((cfg7.win 2).rect t).emb (ix2 (n0 := 1) (n1 := 512) y k)) 1).val = k.val
    rw [e1]; rfl

/-- Window 3's block is its whole array at every grid point. -/
theorem iblk7_3_apply (c : Dev nD) (t : Fin cfg7.N) (y : Fin 1) (k : Fin 512) :
    iblk7 X c 3 t (ix2 (n0 := 1) (n1 := 512) y k)
      = X c (Pipeline.arrRef spec7 3) (ix2 (n0 := 1) (n1 := 512) y k) := by
  unfold iblk7
  rw [View.read_apply, cast_eq]
  congr 1
  have hemb : ((cfg7.win 3).blk t).view.emb (ix2 (n0 := 1) (n1 := 512) y k) = ((cfg7.win 3).rect t).emb (ix2 (n0 := 1) (n1 := 512) y k) := rfl
  rw [hemb]
  have e0 := (cfg7.win 3).rect_emb_val t (ix2 (n0 := 1) (n1 := 512) y k) 0
  have e1 := (cfg7.win 3).rect_emb_val t (ix2 (n0 := 1) (n1 := 512) y k) 1
  have i0 : (cfg7.win 3).index t 0 = 0 := congrFun (idx7_3 t) 0
  have i1 : (cfg7.win 3).index t 1 = 0 := congrFun (idx7_3 t) 1
  rw [i0, Nat.zero_mul, Nat.zero_add] at e0
  rw [i1, Nat.zero_mul, Nat.zero_add] at e1
  funext a
  apply Fin.ext
  match a with
  | ⟨0, _⟩ =>
    show ((((cfg7.win 3).rect t).emb (ix2 (n0 := 1) (n1 := 512) y k)) 0).val = y.val
    rw [e0]; rfl
  | ⟨1, _⟩ =>
    show ((((cfg7.win 3).rect t).emb (ix2 (n0 := 1) (n1 := 512) y k)) 1).val = k.val
    rw [e1]; rfl

/-- Window 4's block is its whole array at every grid point. -/
theorem iblk7_4_apply (c : Dev nD) (t : Fin cfg7.N) (y : Fin 1) (k : Fin 512) :
    iblk7 X c 4 t (ix2 (n0 := 1) (n1 := 512) y k)
      = X c (Pipeline.arrRef spec7 4) (ix2 (n0 := 1) (n1 := 512) y k) := by
  unfold iblk7
  rw [View.read_apply, cast_eq]
  congr 1
  have hemb : ((cfg7.win 4).blk t).view.emb (ix2 (n0 := 1) (n1 := 512) y k) = ((cfg7.win 4).rect t).emb (ix2 (n0 := 1) (n1 := 512) y k) := rfl
  rw [hemb]
  have e0 := (cfg7.win 4).rect_emb_val t (ix2 (n0 := 1) (n1 := 512) y k) 0
  have e1 := (cfg7.win 4).rect_emb_val t (ix2 (n0 := 1) (n1 := 512) y k) 1
  have i0 : (cfg7.win 4).index t 0 = 0 := congrFun (idx7_4 t) 0
  have i1 : (cfg7.win 4).index t 1 = 0 := congrFun (idx7_4 t) 1
  rw [i0, Nat.zero_mul, Nat.zero_add] at e0
  rw [i1, Nat.zero_mul, Nat.zero_add] at e1
  funext a
  apply Fin.ext
  match a with
  | ⟨0, _⟩ =>
    show ((((cfg7.win 4).rect t).emb (ix2 (n0 := 1) (n1 := 512) y k)) 0).val = y.val
    rw [e0]; rfl
  | ⟨1, _⟩ =>
    show ((((cfg7.win 4).rect t).emb (ix2 (n0 := 1) (n1 := 512) y k)) 1).val = k.val
    rw [e1]; rfl

variable (V : Fin 4 → (c : Dev nD) → (b : Ref sig .tc) → Buf (Elt F) ((c : Thread nD τ).loc b))

/-- The result after call 7 under grid point `t`'s block, element by element. -/
theorem fin7_at (c : Dev nD) (t : Fin cfg7.N) (y : ((cfg7.win 5).xblock (grid7.coords t)).Idx) :
    fin7 (Ix := Ix) (Name := Name) (U := U) (Lvl := Lvl) V c 5 (((cfg7.win 5).blk t).view.emb y)
      = out7_5 (iblk7 (V 3) c 0 t) (iblk7 (V 3) c 1 t) (iblk7 (V 3) c 2 t) (iblk7 (V 3) c 3 t) (iblk7 (V 3) c 4 t) ((cfg7.win 5).xinj (grid7.coords t) y) := by
  have h := congrFun (fin7_block (Ix := Ix) (Name := Name) (U := U) (Lvl := Lvl) V c t) y
  rw [show ((cfg7.win 5).blk t).view.read (Elt F) (fin7 (Ix := Ix) (Name := Name) (U := U) (Lvl := Lvl) V c 5) y = fin7 (Ix := Ix) (Name := Name) (U := U) (Lvl := Lvl) V c 5 (((cfg7.win 5).blk t).view.emb y)
    from (View.read_apply _ _).trans (cast_eq _ _)] at h
  exact h

/-- Row `R` of the result after call 7, when it lies in grid point `t`'s block. -/
theorem fin7_row (c : Dev nD) (t : Fin cfg7.N) (R : Fin 100000) (cc : Fin 512)
    (hlo : (84 + t.val) * 896 ≤ R.val) (hhi : R.val < (84 + t.val + 1) * 896) :
    fin7 (Ix := Ix) (Name := Name) (U := U) (Lvl := Lvl) V c 5 (ix2 (n0 := 100000) (n1 := 512) R cc)
      = out7_5 (iblk7 (V 3) c 0 t) (iblk7 (V 3) c 1 t) (iblk7 (V 3) c 2 t) (iblk7 (V 3) c 3 t) (iblk7 (V 3) c 4 t) (ix2 (n0 := 896) (n1 := 512) ⟨R.val - (84 + t.val) * 896, by omega⟩ cc) := by
  have hR := R.isLt
  have hmem : ix2 (n0 := 100000) (n1 := 512) R cc ∈ ((cfg7.win 5).blk t).view.set :=
    (mem_blk7_iff t _).mpr ⟨hlo, by show R.val < min ((84 + t.val + 1) * 896) 100000; omega⟩
  obtain ⟨y, -, hy⟩ := Finset.mem_map.mp hmem
  have h0 := congrArg (fun i : S100000x512.Idx => (i 0).val) hy
  have h1 := congrArg (fun i : S100000x512.Idx => (i 1).val) hy
  have e0 := (cfg7.win 5).rect_emb_val t y 0
  have e1 := (cfg7.win 5).rect_emb_val t y 1
  have i0 := congrFun (idx7 t) 0
  have i1 := congrFun (idx7 t) 1
  have hemb : ((cfg7.win 5).blk t).view.emb y = ((cfg7.win 5).rect t).emb y := rfl
  rw [hemb] at h0 h1
  rw [← hy, fin7_at (Ix := Ix) (Name := Name) (U := U) (Lvl := Lvl) V c t y]
  congr 1
  funext a
  apply Fin.ext
  match a with
  | ⟨0, _⟩ =>
    show (y 0).val = R.val - (84 + t.val) * 896
    have hs : (cfg7.win 5).size 0 = 896 := rfl
    have hi : (cfg7.win 5).index t 0 = 84 + t.val := i0
    have hr : (ix2 (n0 := 100000) (n1 := 512) R cc 0).val = R.val := rfl
    rw [e0, hs, hi, hr] at h0
    omega
  | ⟨1, _⟩ =>
    show (y 1).val = cc.val
    have hs : (cfg7.win 5).size 1 = 512 := rfl
    have hi : (cfg7.win 5).index t 1 = 0 := i1
    have hr : (ix2 (n0 := 100000) (n1 := 512) R cc 1).val = cc.val := rfl
    rw [e1, hs, hi, hr] at h1
    omega

/-- A row outside call 7's 28 blocks is as the region found it. -/
theorem fin7_outside (c : Dev nD) (R : Fin 100000) (cc : Fin 512)
    (h : R.val < 84 * 896 ∨ (84 + 28) * 896 ≤ R.val) :
    fin7 (Ix := Ix) (Name := Name) (U := U) (Lvl := Lvl) V c 5 (ix2 (n0 := 100000) (n1 := 512) R cc) = V 3 c (Pipeline.arrRef spec7 5) (ix2 (n0 := 100000) (n1 := 512) R cc) :=
  fin7_rest (Ix := Ix) (Name := Name) (U := U) (Lvl := Lvl) V c _ fun t hm => by
    have ht := t_lt7 t
    have hh := (mem_blk7_iff t _).mp hm
    have hr : (ix2 (n0 := 100000) (n1 := 512) R cc 0).val = R.val := rfl
    rw [hr] at hh
    omega

end Call7

end Cert.KernelIdeal.Tc

end
-- ==== Proof.TcFinalRow.lean ====
import proofs.«215994_g5102421148354_cont_8to1c4_853_29_alg».proof.Proof.TcFinal
import proofs.«215994_g5102421148354_cont_8to1c4_853_29_alg».proof.Proof.Gen.KernelIdeal.Launch
import proofs.«215994_g5102421148354_cont_8to1c4_853_29_alg».proof.Proof.Gen.KernelIdeal.Skeleton
import proofs.«215994_g5102421148354_cont_8to1c4_853_29_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

open Idealize.ShloMosaic.ValueIdx Cert.RowSpec Idealize.ShloMosaic.StableHlo

/-! # Every row of the result is the row function of its slab row -/

/-- A vector of 512 laid out as one row, read at any index of the row. -/
theorem row1_apply_idx {α : Type} (a : S512.Idx → α) (j : S1x512.Idx) :
    shapeCast S1x512 a shapeCasts_S512_S1x512 j = a (ix1 (n := 512) (j 1)) :=
  Idealize.ShloMosaic.shapeCast_apply a _ _ _ (by
    rw [Shape.rowMajor_val_one, Shape.rowMajor_val_two]
    have h0 : (j 0).val < 1 := (j 0).isLt
    show (j 1).val = (j 0).val * 512 + (j 1).val
    omega)

section RowFn

variable (V : Fin 4 → (c : Dev nD) → (b : Ref sig .tc) → Buf (Elt Ideal) ((c : Thread nD τ).loc b))

/-- Call 4: every row `R` it writes (rows 0 to 25088 - 1, below 100000) ends as the row function of row `R - 0` of
    its slab and of the weight, bias, scale and shift. -/
theorem fin4_rowFn (c : Dev nD) (G : Vec Ideal S25088x512 .f32) (a8 : Vec Ideal S512x512 .f32) (a9 a10 a11 : Vec Ideal S512 .f32)
    (hG : V 0 c (Pipeline.arrRef spec4 0) = G) (h8 : V 0 c (Pipeline.arrRef spec4 1) = a8)
    (h9 : V 0 c (Pipeline.arrRef spec4 2) = shapeCast S1x512 a9 shapeCasts_S512_S1x512)
    (h10 : V 0 c (Pipeline.arrRef spec4 3) = shapeCast S1x512 a10 shapeCasts_S512_S1x512)
    (h11 : V 0 c (Pipeline.arrRef spec4 4) = shapeCast S1x512 a11 shapeCasts_S512_S1x512)
    (rG : ∀ j, ∃ x : ℝ, G j = (x : EReal)) (r8 : ∀ j, ∃ x : ℝ, a8 j = (x : EReal)) (r9 : ∀ j, ∃ x : ℝ, a9 j = (x : EReal))
    (R : Fin 100000) (cc : Fin 512) (hlo : 0 ≤ R.val) (hhi : R.val < 25088) :
    fin4 (Ix := Ix) (Name := Name) (U := U) (Lvl := Lvl) V c 5 (ix2 (n0 := 100000) (n1 := 512) R cc)
      = rowFn (fun k => G (ix2 (n0 := 25088) (n1 := 512) ⟨R.val - 0, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  have hR := R.isLt
  have hq : (R.val - 0) / 896 < 28 := by omega
  obtain ⟨t, htv⟩ : ∃ t : Fin cfg4.N, t.val = (R.val - 0) / 896 :=
    ⟨⟨(R.val - 0) / 896, show (R.val - 0) / 896 < grid4.N by rw [N_4]; exact hq⟩, rfl⟩
  have hlo' : (0 + t.val) * 896 ≤ R.val := by rw [htv]; omega
  have hhi' : R.val < (0 + t.val + 1) * 896 := by rw [htv]; omega
  have H0 : ∀ j, ∃ x : ℝ, iblk4 (V 0) c 0 t j = (x : EReal) := fun j => by
    have e : j = ix2 (n0 := 896) (n1 := 512) (j 0) (j 1) := eq_ix2 j
    have h := iblk4_0_apply (V 0) c t (j 0) (j 1)
    rw [← e] at h
    rw [h, hG]; exact rG _
  have H1 : ∀ j, ∃ x : ℝ, iblk4 (V 0) c 1 t j = (x : EReal) := fun j => by
    have e : j = ix2 (n0 := 512) (n1 := 512) (j 0) (j 1) := eq_ix2 j
    have h := iblk4_1_apply (V 0) c t (j 0) (j 1)
    rw [← e] at h
    rw [h, h8]; exact r8 _
  have H2 : ∀ j, ∃ x : ℝ, iblk4 (V 0) c 2 t j = (x : EReal) := fun j => by
    have e : j = ix2 (n0 := 1) (n1 := 512) (j 0) (j 1) := eq_ix2 j
    have h := iblk4_2_apply (V 0) c t (j 0) (j 1)
    rw [← e] at h
    rw [h, h9, row1_apply_idx]; exact r9 _
  have f0 : (fun k : Fin 512 => iblk4 (V 0) c 0 t (ix2 (n0 := 896) (n1 := 512) (⟨R.val - (0 + t.val) * 896, by omega⟩ : Fin 896) k))
      = fun k => G (ix2 (n0 := 25088) (n1 := 512) ⟨R.val - 0, by omega⟩ k) := by
    funext k
    rw [iblk4_0_apply, hG]
    exact congrArg (fun r : Fin 25088 => G (ix2 (n0 := 25088) (n1 := 512) r k)) (Fin.ext (by
      show t.val * 896 + (R.val - (0 + t.val) * 896) = R.val - 0
      rw [htv]; omega))
  have f1 : (fun (c' : Fin 512) (k : Fin 512) => iblk4 (V 0) c 1 t (ix2 (n0 := 512) (n1 := 512) c' k))
      = fun c' k => a8 (ix2 (n0 := 512) (n1 := 512) c' k) := by
    funext c' k; rw [iblk4_1_apply, h8]
  have f2 : (fun c' : Fin 512 => iblk4 (V 0) c 2 t (ix2 (n0 := 1) (n1 := 512) 0 c')) = fun c' => a9 (ix1 (n := 512) c') := by
    funext c'; rw [iblk4_2_apply, h9, row1_apply_idx]
  have f3 : (fun c' : Fin 512 => iblk4 (V 0) c 3 t (ix2 (n0 := 1) (n1 := 512) 0 c')) = fun c' => a10 (ix1 (n := 512) c') := by
    funext c'; rw [iblk4_3_apply, h10, row1_apply_idx]
  have f4 : (fun c' : Fin 512 => iblk4 (V 0) c 4 t (ix2 (n0 := 1) (n1 := 512) 0 c')) = fun c' => a11 (ix1 (n := 512) c') := by
    funext c'; rw [iblk4_4_apply, h11, row1_apply_idx]
  rw [fin4_row (Ix := Ix) (Name := Name) (U := U) (Lvl := Lvl) V c t R cc hlo' hhi']
  show out4_5 (F := Ideal) (iblk4 (V 0) c 0 t) (iblk4 (V 0) c 1 t) (iblk4 (V 0) c 2 t) (iblk4 (V 0) c 3 t) (iblk4 (V 0) c 4 t) (ix2 (n0 := 896) (n1 := 512) (⟨R.val - (0 + t.val) * 896, by omega⟩ : Fin 896) cc) = _
  rw [KerRow.out4_5_apply _ _ _ _ _ H0 H1 H2, f0, f1, f2, f3, f4]

/-- Call 5: every row `R` it writes (rows 25088 to 50176 - 1, below 100000) ends as the row function of row `R - 25088` of
    its slab and of the weight, bias, scale and shift. -/
theorem fin5_rowFn (c : Dev nD) (G : Vec Ideal S25088x512 .f32) (a8 : Vec Ideal S512x512 .f32) (a9 a10 a11 : Vec Ideal S512 .f32)
    (hG : V 1 c (Pipeline.arrRef spec5 0) = G) (h8 : V 1 c (Pipeline.arrRef spec5 1) = a8)
    (h9 : V 1 c (Pipeline.arrRef spec5 2) = shapeCast S1x512 a9 shapeCasts_S512_S1x512)
    (h10 : V 1 c (Pipeline.arrRef spec5 3) = shapeCast S1x512 a10 shapeCasts_S512_S1x512)
    (h11 : V 1 c (Pipeline.arrRef spec5 4) = shapeCast S1x512 a11 shapeCasts_S512_S1x512)
    (rG : ∀ j, ∃ x : ℝ, G j = (x : EReal)) (r8 : ∀ j, ∃ x : ℝ, a8 j = (x : EReal)) (r9 : ∀ j, ∃ x : ℝ, a9 j = (x : EReal))
    (R : Fin 100000) (cc : Fin 512) (hlo : 25088 ≤ R.val) (hhi : R.val < 50176) :
    fin5 (Ix := Ix) (Name := Name) (U := U) (Lvl := Lvl) V c 5 (ix2 (n0 := 100000) (n1 := 512) R cc)
      = rowFn (fun k => G (ix2 (n0 := 25088) (n1 := 512) ⟨R.val - 25088, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  have hR := R.isLt
  have hq : (R.val - 25088) / 896 < 28 := by omega
  obtain ⟨t, htv⟩ : ∃ t : Fin cfg5.N, t.val = (R.val - 25088) / 896 :=
    ⟨⟨(R.val - 25088) / 896, show (R.val - 25088) / 896 < grid5.N by rw [N_5]; exact hq⟩, rfl⟩
  have hlo' : (28 + t.val) * 896 ≤ R.val := by rw [htv]; omega
  have hhi' : R.val < (28 + t.val + 1) * 896 := by rw [htv]; omega
  have H0 : ∀ j, ∃ x : ℝ, iblk5 (V 1) c 0 t j = (x : EReal) := fun j => by
    have e : j = ix2 (n0 := 896) (n1 := 512) (j 0) (j 1) := eq_ix2 j
    have h := iblk5_0_apply (V 1) c t (j 0) (j 1)
    rw [← e] at h
    rw [h, hG]; exact rG _
  have H1 : ∀ j, ∃ x : ℝ, iblk5 (V 1) c 1 t j = (x : EReal) := fun j => by
    have e : j = ix2 (n0 := 512) (n1 := 512) (j 0) (j 1) := eq_ix2 j
    have h := iblk5_1_apply (V 1) c t (j 0) (j 1)
    rw [← e] at h
    rw [h, h8]; exact r8 _
  have H2 : ∀ j, ∃ x : ℝ, iblk5 (V 1) c 2 t j = (x : EReal) := fun j => by
    have e : j = ix2 (n0 := 1) (n1 := 512) (j 0) (j 1) := eq_ix2 j
    have h := iblk5_2_apply (V 1) c t (j 0) (j 1)
    rw [← e] at h
    rw [h, h9, row1_apply_idx]; exact r9 _
  have f0 : (fun k : Fin 512 => iblk5 (V 1) c 0 t (ix2 (n0 := 896) (n1 := 512) (⟨R.val - (28 + t.val) * 896, by omega⟩ : Fin 896) k))
      = fun k => G (ix2 (n0 := 25088) (n1 := 512) ⟨R.val - 25088, by omega⟩ k) := by
    funext k
    rw [iblk5_0_apply, hG]
    exact congrArg (fun r : Fin 25088 => G (ix2 (n0 := 25088) (n1 := 512) r k)) (Fin.ext (by
      show t.val * 896 + (R.val - (28 + t.val) * 896) = R.val - 25088
      rw [htv]; omega))
  have f1 : (fun (c' : Fin 512) (k : Fin 512) => iblk5 (V 1) c 1 t (ix2 (n0 := 512) (n1 := 512) c' k))
      = fun c' k => a8 (ix2 (n0 := 512) (n1 := 512) c' k) := by
    funext c' k; rw [iblk5_1_apply, h8]
  have f2 : (fun c' : Fin 512 => iblk5 (V 1) c 2 t (ix2 (n0 := 1) (n1 := 512) 0 c')) = fun c' => a9 (ix1 (n := 512) c') := by
    funext c'; rw [iblk5_2_apply, h9, row1_apply_idx]
  have f3 : (fun c' : Fin 512 => iblk5 (V 1) c 3 t (ix2 (n0 := 1) (n1 := 512) 0 c')) = fun c' => a10 (ix1 (n := 512) c') := by
    funext c'; rw [iblk5_3_apply, h10, row1_apply_idx]
  have f4 : (fun c' : Fin 512 => iblk5 (V 1) c 4 t (ix2 (n0 := 1) (n1 := 512) 0 c')) = fun c' => a11 (ix1 (n := 512) c') := by
    funext c'; rw [iblk5_4_apply, h11, row1_apply_idx]
  rw [fin5_row (Ix := Ix) (Name := Name) (U := U) (Lvl := Lvl) V c t R cc hlo' hhi']
  show out4_5 (F := Ideal) (iblk5 (V 1) c 0 t) (iblk5 (V 1) c 1 t) (iblk5 (V 1) c 2 t) (iblk5 (V 1) c 3 t) (iblk5 (V 1) c 4 t) (ix2 (n0 := 896) (n1 := 512) (⟨R.val - (28 + t.val) * 896, by omega⟩ : Fin 896) cc) = _
  rw [KerRow.out4_5_apply _ _ _ _ _ H0 H1 H2, f0, f1, f2, f3, f4]

/-- Call 6: every row `R` it writes (rows 50176 to 75264 - 1, below 100000) ends as the row function of row `R - 50176` of
    its slab and of the weight, bias, scale and shift. -/
theorem fin6_rowFn (c : Dev nD) (G : Vec Ideal S25088x512 .f32) (a8 : Vec Ideal S512x512 .f32) (a9 a10 a11 : Vec Ideal S512 .f32)
    (hG : V 2 c (Pipeline.arrRef spec6 0) = G) (h8 : V 2 c (Pipeline.arrRef spec6 1) = a8)
    (h9 : V 2 c (Pipeline.arrRef spec6 2) = shapeCast S1x512 a9 shapeCasts_S512_S1x512)
    (h10 : V 2 c (Pipeline.arrRef spec6 3) = shapeCast S1x512 a10 shapeCasts_S512_S1x512)
    (h11 : V 2 c (Pipeline.arrRef spec6 4) = shapeCast S1x512 a11 shapeCasts_S512_S1x512)
    (rG : ∀ j, ∃ x : ℝ, G j = (x : EReal)) (r8 : ∀ j, ∃ x : ℝ, a8 j = (x : EReal)) (r9 : ∀ j, ∃ x : ℝ, a9 j = (x : EReal))
    (R : Fin 100000) (cc : Fin 512) (hlo : 50176 ≤ R.val) (hhi : R.val < 75264) :
    fin6 (Ix := Ix) (Name := Name) (U := U) (Lvl := Lvl) V c 5 (ix2 (n0 := 100000) (n1 := 512) R cc)
      = rowFn (fun k => G (ix2 (n0 := 25088) (n1 := 512) ⟨R.val - 50176, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  have hR := R.isLt
  have hq : (R.val - 50176) / 896 < 28 := by omega
  obtain ⟨t, htv⟩ : ∃ t : Fin cfg6.N, t.val = (R.val - 50176) / 896 :=
    ⟨⟨(R.val - 50176) / 896, show (R.val - 50176) / 896 < grid6.N by rw [N_6]; exact hq⟩, rfl⟩
  have hlo' : (56 + t.val) * 896 ≤ R.val := by rw [htv]; omega
  have hhi' : R.val < (56 + t.val + 1) * 896 := by rw [htv]; omega
  have H0 : ∀ j, ∃ x : ℝ, iblk6 (V 2) c 0 t j = (x : EReal) := fun j => by
    have e : j = ix2 (n0 := 896) (n1 := 512) (j 0) (j 1) := eq_ix2 j
    have h := iblk6_0_apply (V 2) c t (j 0) (j 1)
    rw [← e] at h
    rw [h, hG]; exact rG _
  have H1 : ∀ j, ∃ x : ℝ, iblk6 (V 2) c 1 t j = (x : EReal) := fun j => by
    have e : j = ix2 (n0 := 512) (n1 := 512) (j 0) (j 1) := eq_ix2 j
    have h := iblk6_1_apply (V 2) c t (j 0) (j 1)
    rw [← e] at h
    rw [h, h8]; exact r8 _
  have H2 : ∀ j, ∃ x : ℝ, iblk6 (V 2) c 2 t j = (x : EReal) := fun j => by
    have e : j = ix2 (n0 := 1) (n1 := 512) (j 0) (j 1) := eq_ix2 j
    have h := iblk6_2_apply (V 2) c t (j 0) (j 1)
    rw [← e] at h
    rw [h, h9, row1_apply_idx]; exact r9 _
  have f0 : (fun k : Fin 512 => iblk6 (V 2) c 0 t (ix2 (n0 := 896) (n1 := 512) (⟨R.val - (56 + t.val) * 896, by omega⟩ : Fin 896) k))
      = fun k => G (ix2 (n0 := 25088) (n1 := 512) ⟨R.val - 50176, by omega⟩ k) := by
    funext k
    rw [iblk6_0_apply, hG]
    exact congrArg (fun r : Fin 25088 => G (ix2 (n0 := 25088) (n1 := 512) r k)) (Fin.ext (by
      show t.val * 896 + (R.val - (56 + t.val) * 896) = R.val - 50176
      rw [htv]; omega))
  have f1 : (fun (c' : Fin 512) (k : Fin 512) => iblk6 (V 2) c 1 t (ix2 (n0 := 512) (n1 := 512) c' k))
      = fun c' k => a8 (ix2 (n0 := 512) (n1 := 512) c' k) := by
    funext c' k; rw [iblk6_1_apply, h8]
  have f2 : (fun c' : Fin 512 => iblk6 (V 2) c 2 t (ix2 (n0 := 1) (n1 := 512) 0 c')) = fun c' => a9 (ix1 (n := 512) c') := by
    funext c'; rw [iblk6_2_apply, h9, row1_apply_idx]
  have f3 : (fun c' : Fin 512 => iblk6 (V 2) c 3 t (ix2 (n0 := 1) (n1 := 512) 0 c')) = fun c' => a10 (ix1 (n := 512) c') := by
    funext c'; rw [iblk6_3_apply, h10, row1_apply_idx]
  have f4 : (fun c' : Fin 512 => iblk6 (V 2) c 4 t (ix2 (n0 := 1) (n1 := 512) 0 c')) = fun c' => a11 (ix1 (n := 512) c') := by
    funext c'; rw [iblk6_4_apply, h11, row1_apply_idx]
  rw [fin6_row (Ix := Ix) (Name := Name) (U := U) (Lvl := Lvl) V c t R cc hlo' hhi']
  show out4_5 (F := Ideal) (iblk6 (V 2) c 0 t) (iblk6 (V 2) c 1 t) (iblk6 (V 2) c 2 t) (iblk6 (V 2) c 3 t) (iblk6 (V 2) c 4 t) (ix2 (n0 := 896) (n1 := 512) (⟨R.val - (56 + t.val) * 896, by omega⟩ : Fin 896) cc) = _
  rw [KerRow.out4_5_apply _ _ _ _ _ H0 H1 H2, f0, f1, f2, f3, f4]

/-- Call 7: every row `R` it writes (rows 75264 to 100352 - 1, below 100000) ends as the row function of row `R - 75264` of
    its slab and of the weight, bias, scale and shift. -/
theorem fin7_rowFn (c : Dev nD) (G : Vec Ideal S25088x512 .f32) (a8 : Vec Ideal S512x512 .f32) (a9 a10 a11 : Vec Ideal S512 .f32)
    (hG : V 3 c (Pipeline.arrRef spec7 0) = G) (h8 : V 3 c (Pipeline.arrRef spec7 1) = a8)
    (h9 : V 3 c (Pipeline.arrRef spec7 2) = shapeCast S1x512 a9 shapeCasts_S512_S1x512)
    (h10 : V 3 c (Pipeline.arrRef spec7 3) = shapeCast S1x512 a10 shapeCasts_S512_S1x512)
    (h11 : V 3 c (Pipeline.arrRef spec7 4) = shapeCast S1x512 a11 shapeCasts_S512_S1x512)
    (rG : ∀ j, ∃ x : ℝ, G j = (x : EReal)) (r8 : ∀ j, ∃ x : ℝ, a8 j = (x : EReal)) (r9 : ∀ j, ∃ x : ℝ, a9 j = (x : EReal))
    (R : Fin 100000) (cc : Fin 512) (hlo : 75264 ≤ R.val) (hhi : R.val < 100352) :
    fin7 (Ix := Ix) (Name := Name) (U := U) (Lvl := Lvl) V c 5 (ix2 (n0 := 100000) (n1 := 512) R cc)
      = rowFn (fun k => G (ix2 (n0 := 25088) (n1 := 512) ⟨R.val - 75264, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  have hR := R.isLt
  have hq : (R.val - 75264) / 896 < 28 := by omega
  obtain ⟨t, htv⟩ : ∃ t : Fin cfg7.N, t.val = (R.val - 75264) / 896 :=
    ⟨⟨(R.val - 75264) / 896, show (R.val - 75264) / 896 < grid7.N by rw [N_7]; exact hq⟩, rfl⟩
  have hlo' : (84 + t.val) * 896 ≤ R.val := by rw [htv]; omega
  have hhi' : R.val < (84 + t.val + 1) * 896 := by rw [htv]; omega
  have H0 : ∀ j, ∃ x : ℝ, iblk7 (V 3) c 0 t j = (x : EReal) := fun j => by
    have e : j = ix2 (n0 := 896) (n1 := 512) (j 0) (j 1) := eq_ix2 j
    have h := iblk7_0_apply (V 3) c t (j 0) (j 1)
    rw [← e] at h
    rw [h, hG]; exact rG _
  have H1 : ∀ j, ∃ x : ℝ, iblk7 (V 3) c 1 t j = (x : EReal) := fun j => by
    have e : j = ix2 (n0 := 512) (n1 := 512) (j 0) (j 1) := eq_ix2 j
    have h := iblk7_1_apply (V 3) c t (j 0) (j 1)
    rw [← e] at h
    rw [h, h8]; exact r8 _
  have H2 : ∀ j, ∃ x : ℝ, iblk7 (V 3) c 2 t j = (x : EReal) := fun j => by
    have e : j = ix2 (n0 := 1) (n1 := 512) (j 0) (j 1) := eq_ix2 j
    have h := iblk7_2_apply (V 3) c t (j 0) (j 1)
    rw [← e] at h
    rw [h, h9, row1_apply_idx]; exact r9 _
  have f0 : (fun k : Fin 512 => iblk7 (V 3) c 0 t (ix2 (n0 := 896) (n1 := 512) (⟨R.val - (84 + t.val) * 896, by omega⟩ : Fin 896) k))
      = fun k => G (ix2 (n0 := 25088) (n1 := 512) ⟨R.val - 75264, by omega⟩ k) := by
    funext k
    rw [iblk7_0_apply, hG]
    exact congrArg (fun r : Fin 25088 => G (ix2 (n0 := 25088) (n1 := 512) r k)) (Fin.ext (by
      show t.val * 896 + (R.val - (84 + t.val) * 896) = R.val - 75264
      rw [htv]; omega))
  have f1 : (fun (c' : Fin 512) (k : Fin 512) => iblk7 (V 3) c 1 t (ix2 (n0 := 512) (n1 := 512) c' k))
      = fun c' k => a8 (ix2 (n0 := 512) (n1 := 512) c' k) := by
    funext c' k; rw [iblk7_1_apply, h8]
  have f2 : (fun c' : Fin 512 => iblk7 (V 3) c 2 t (ix2 (n0 := 1) (n1 := 512) 0 c')) = fun c' => a9 (ix1 (n := 512) c') := by
    funext c'; rw [iblk7_2_apply, h9, row1_apply_idx]
  have f3 : (fun c' : Fin 512 => iblk7 (V 3) c 3 t (ix2 (n0 := 1) (n1 := 512) 0 c')) = fun c' => a10 (ix1 (n := 512) c') := by
    funext c'; rw [iblk7_3_apply, h10, row1_apply_idx]
  have f4 : (fun c' : Fin 512 => iblk7 (V 3) c 4 t (ix2 (n0 := 1) (n1 := 512) 0 c')) = fun c' => a11 (ix1 (n := 512) c') := by
    funext c'; rw [iblk7_4_apply, h11, row1_apply_idx]
  rw [fin7_row (Ix := Ix) (Name := Name) (U := U) (Lvl := Lvl) V c t R cc hlo' hhi']
  show out4_5 (F := Ideal) (iblk7 (V 3) c 0 t) (iblk7 (V 3) c 1 t) (iblk7 (V 3) c 2 t) (iblk7 (V 3) c 3 t) (iblk7 (V 3) c 4 t) (ix2 (n0 := 896) (n1 := 512) (⟨R.val - (84 + t.val) * 896, by omega⟩ : Fin 896) cc) = _
  rw [KerRow.out4_5_apply _ _ _ _ _ H0 H1 H2, f0, f1, f2, f3, f4]

end RowFn

/-! # The four regions and the three copies in order -/

section Chain

local notation "dr" => Proc.devRef (τ := τ) (sig := sig) Proc.tc

/-- A valuation of the device's buffers read at the TensorCore's references, the same for every region. -/
abbrev asV {F : FTy → Type} (W : Valuation τ sig (Elt F)) :
    Fin 4 → (c : Dev nD) → (b : Ref sig .tc) → Buf (Elt F) ((c.tc : Thread nD τ).loc b) := fun _ _ b => W (dr b)

variable (Ix Name U Lvl)
variable (d : Dev nD) (W : Valuation τ sig (Elt Ideal))

/-- The buffer contents after region 0: the first result buffer at what the region leaves. -/
def Wr0 : Valuation τ sig (Elt Ideal) := Function.update W (dr main_v47) (fin4 (Ix := Ix) (Name := Name) (U := U) (Lvl := Lvl) (asV W) d 5)
/-- After the copy into the second result buffer. -/
def Wc1 : Valuation τ sig (Elt Ideal) := after cp1 (Wr0 Ix Name U Lvl d W)
/-- After region 1. -/
def Wr1 : Valuation τ sig (Elt Ideal) := Function.update (Wc1 Ix Name U Lvl d W) (dr main_v48) (fin5 (Ix := Ix) (Name := Name) (U := U) (Lvl := Lvl) (asV (Wc1 Ix Name U Lvl d W)) d 5)
/-- After the copy into the third result buffer. -/
def Wc2 : Valuation τ sig (Elt Ideal) := after cp2 (Wr1 Ix Name U Lvl d W)
/-- After region 2. -/
def Wr2 : Valuation τ sig (Elt Ideal) := Function.update (Wc2 Ix Name U Lvl d W) (dr main_v49) (fin6 (Ix := Ix) (Name := Name) (U := U) (Lvl := Lvl) (asV (Wc2 Ix Name U Lvl d W)) d 5)
/-- After the copy into the last result buffer. -/
def Wc3 : Valuation τ sig (Elt Ideal) := after cp3 (Wr2 Ix Name U Lvl d W)
/-- After region 3: the program's result is its last result buffer. -/
def Wr3 : Valuation τ sig (Elt Ideal) := Function.update (Wc3 Ix Name U Lvl d W) (dr main_v50) (fin7 (Ix := Ix) (Name := Name) (U := U) (Lvl := Lvl) (asV (Wc3 Ix Name U Lvl d W)) d 5)

/-- A buffer that is none of the four result buffers holds, at each region's entry, what it held before region 0. -/
theorem chain_kept (b : Ref sig .tc) (h47 : b ≠ main_v47) (h48 : b ≠ main_v48) (h49 : b ≠ main_v49) (h50 : b ≠ main_v50) :
    Wc1 Ix Name U Lvl d W (dr b) = W (dr b) ∧ Wc2 Ix Name U Lvl d W (dr b) = W (dr b) ∧ Wc3 Ix Name U Lvl d W (dr b) = W (dr b) := by
  have r0 : Wr0 Ix Name U Lvl d W (dr b) = W (dr b) := Function.update_of_ne (StableHlo.devRef_ne_of_ne h47) _ _
  have c1 : Wc1 Ix Name U Lvl d W (dr b) = W (dr b) :=
    (cp1_keep _ b (fun hm => h48 (List.mem_singleton.mp hm))).trans r0
  have r1 : Wr1 Ix Name U Lvl d W (dr b) = W (dr b) := (Function.update_of_ne (StableHlo.devRef_ne_of_ne h48) _ _).trans c1
  have c2 : Wc2 Ix Name U Lvl d W (dr b) = W (dr b) :=
    (cp2_keep _ b (fun hm => h49 (List.mem_singleton.mp hm))).trans r1
  have r2 : Wr2 Ix Name U Lvl d W (dr b) = W (dr b) := (Function.update_of_ne (StableHlo.devRef_ne_of_ne h49) _ _).trans c2
  have c3 : Wc3 Ix Name U Lvl d W (dr b) = W (dr b) :=
    (cp3_keep _ b (fun hm => h50 (List.mem_singleton.mp hm))).trans r2
  exact ⟨c1, c2, c3⟩

set_option maxHeartbeats 2000000 in
/-- The rows region 0 writes, in the buffer it writes them to. -/
theorem stage0_in (G : Fin 4 → Vec Ideal S25088x512 .f32) (a8 : Vec Ideal S512x512 .f32) (a9 a10 a11 : Vec Ideal S512 .f32)
    (hG0 : W (dr main_v19) = G 0) (hG1 : W (dr main_v28) = G 1) (hG2 : W (dr main_v37) = G 2) (hG3 : W (dr main_v46) = G 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512)
    (rG : ∀ p j, ∃ x : ℝ, G p j = (x : EReal)) (r8 : ∀ j, ∃ x : ℝ, a8 j = (x : EReal)) (r9 : ∀ j, ∃ x : ℝ, a9 j = (x : EReal))
    (R : Fin 100000) (cc : Fin 512) (hlo : 0 ≤ R.val) (hhi : R.val < 25088) :
    Wr0 Ix Name U Lvl d W (dr main_v47) (ix2 (n0 := 100000) (n1 := 512) R cc)
      = rowFn (fun k => G 0 (ix2 (n0 := 25088) (n1 := 512) ⟨R.val - 0, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  unfold Wr0
  rw [Function.update_self]
  exact fin4_rowFn (Ix := Ix) (Name := Name) (U := U) (Lvl := Lvl) (asV W) d (G 0) a8 a9 a10 a11
    hG0 h8 h9 h10 h11
    (rG 0) r8 r9 R cc hlo hhi

set_option maxHeartbeats 2000000 in
/-- The rows region 1 writes, in the buffer it writes them to. -/
theorem stage1_in (G : Fin 4 → Vec Ideal S25088x512 .f32) (a8 : Vec Ideal S512x512 .f32) (a9 a10 a11 : Vec Ideal S512 .f32)
    (hG0 : W (dr main_v19) = G 0) (hG1 : W (dr main_v28) = G 1) (hG2 : W (dr main_v37) = G 2) (hG3 : W (dr main_v46) = G 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512)
    (rG : ∀ p j, ∃ x : ℝ, G p j = (x : EReal)) (r8 : ∀ j, ∃ x : ℝ, a8 j = (x : EReal)) (r9 : ∀ j, ∃ x : ℝ, a9 j = (x : EReal))
    (R : Fin 100000) (cc : Fin 512) (hlo : 25088 ≤ R.val) (hhi : R.val < 50176) :
    Wr1 Ix Name U Lvl d W (dr main_v48) (ix2 (n0 := 100000) (n1 := 512) R cc)
      = rowFn (fun k => G 1 (ix2 (n0 := 25088) (n1 := 512) ⟨R.val - 25088, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  unfold Wr1
  rw [Function.update_self]
  exact fin5_rowFn (Ix := Ix) (Name := Name) (U := U) (Lvl := Lvl) (asV (Wc1 Ix Name U Lvl d W)) d (G 1) a8 a9 a10 a11
    ((chain_kept Ix Name U Lvl d W main_v28 (by decide) (by decide) (by decide) (by decide)).1.trans hG1) ((chain_kept Ix Name U Lvl d W main_arg8 (by decide) (by decide) (by decide) (by decide)).1.trans h8) ((chain_kept Ix Name U Lvl d W main_v8 (by decide) (by decide) (by decide) (by decide)).1.trans h9) ((chain_kept Ix Name U Lvl d W main_v9 (by decide) (by decide) (by decide) (by decide)).1.trans h10) ((chain_kept Ix Name U Lvl d W main_v10 (by decide) (by decide) (by decide) (by decide)).1.trans h11)
    (rG 1) r8 r9 R cc hlo hhi

set_option maxHeartbeats 2000000 in
/-- The rows region 2 writes, in the buffer it writes them to. -/
theorem stage2_in (G : Fin 4 → Vec Ideal S25088x512 .f32) (a8 : Vec Ideal S512x512 .f32) (a9 a10 a11 : Vec Ideal S512 .f32)
    (hG0 : W (dr main_v19) = G 0) (hG1 : W (dr main_v28) = G 1) (hG2 : W (dr main_v37) = G 2) (hG3 : W (dr main_v46) = G 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512)
    (rG : ∀ p j, ∃ x : ℝ, G p j = (x : EReal)) (r8 : ∀ j, ∃ x : ℝ, a8 j = (x : EReal)) (r9 : ∀ j, ∃ x : ℝ, a9 j = (x : EReal))
    (R : Fin 100000) (cc : Fin 512) (hlo : 50176 ≤ R.val) (hhi : R.val < 75264) :
    Wr2 Ix Name U Lvl d W (dr main_v49) (ix2 (n0 := 100000) (n1 := 512) R cc)
      = rowFn (fun k => G 2 (ix2 (n0 := 25088) (n1 := 512) ⟨R.val - 50176, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  unfold Wr2
  rw [Function.update_self]
  exact fin6_rowFn (Ix := Ix) (Name := Name) (U := U) (Lvl := Lvl) (asV (Wc2 Ix Name U Lvl d W)) d (G 2) a8 a9 a10 a11
    ((chain_kept Ix Name U Lvl d W main_v37 (by decide) (by decide) (by decide) (by decide)).2.1.trans hG2) ((chain_kept Ix Name U Lvl d W main_arg8 (by decide) (by decide) (by decide) (by decide)).2.1.trans h8) ((chain_kept Ix Name U Lvl d W main_v8 (by decide) (by decide) (by decide) (by decide)).2.1.trans h9) ((chain_kept Ix Name U Lvl d W main_v9 (by decide) (by decide) (by decide) (by decide)).2.1.trans h10) ((chain_kept Ix Name U Lvl d W main_v10 (by decide) (by decide) (by decide) (by decide)).2.1.trans h11)
    (rG 2) r8 r9 R cc hlo hhi

set_option maxHeartbeats 2000000 in
/-- The rows region 3 writes, in the buffer it writes them to. -/
theorem stage3_in (G : Fin 4 → Vec Ideal S25088x512 .f32) (a8 : Vec Ideal S512x512 .f32) (a9 a10 a11 : Vec Ideal S512 .f32)
    (hG0 : W (dr main_v19) = G 0) (hG1 : W (dr main_v28) = G 1) (hG2 : W (dr main_v37) = G 2) (hG3 : W (dr main_v46) = G 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512)
    (rG : ∀ p j, ∃ x : ℝ, G p j = (x : EReal)) (r8 : ∀ j, ∃ x : ℝ, a8 j = (x : EReal)) (r9 : ∀ j, ∃ x : ℝ, a9 j = (x : EReal))
    (R : Fin 100000) (cc : Fin 512) (hlo : 75264 ≤ R.val) (hhi : R.val < 100352) :
    Wr3 Ix Name U Lvl d W (dr main_v50) (ix2 (n0 := 100000) (n1 := 512) R cc)
      = rowFn (fun k => G 3 (ix2 (n0 := 25088) (n1 := 512) ⟨R.val - 75264, by omega⟩ k))
          (fun c' k => a8 (ix2 (n0 := 512) (n1 := 512) c' k)) (fun c' => a9 (ix1 (n := 512) c'))
          (fun c' => a10 (ix1 (n := 512) c')) (fun c' => a11 (ix1 (n := 512) c')) cc := by
  unfold Wr3
  rw [Function.update_self]
  exact fin7_rowFn (Ix := Ix) (Name := Name) (U := U) (Lvl := Lvl) (asV (Wc3 Ix Name U Lvl d W)) d (G 3) a8 a9 a10 a11
    ((chain_kept Ix Name U Lvl d W main_v46 (by decide) (by decide) (by decide) (by decide)).2.2.trans hG3) ((chain_kept Ix Name U Lvl d W main_arg8 (by decide) (by decide) (by decide) (by decide)).2.2.trans h8) ((chain_kept Ix Name U Lvl d W main_v8 (by decide) (by decide) (by decide) (by decide)).2.2.trans h9) ((chain_kept Ix Name U Lvl d W main_v9 (by decide) (by decide) (by decide) (by decide)).2.2.trans h10) ((chain_kept Ix Name U Lvl d W main_v10 (by decide) (by decide) (by decide) (by decide)).2.2.trans h11)
    (rG 3) r8 r9 R cc hlo hhi

set_option maxHeartbeats 2000000 in
/-- The rows below region 1's are as the copy before it found them in the previous region's buffer. -/
theorem stage1_out (R : Fin 100000) (cc : Fin 512) (h : R.val < 25088) :
    Wr1 Ix Name U Lvl d W (dr main_v48) (ix2 (n0 := 100000) (n1 := 512) R cc) = Wr0 Ix Name U Lvl d W (dr main_v47) (ix2 (n0 := 100000) (n1 := 512) R cc) := by
  unfold Wr1
  rw [Function.update_self, fin5_outside (Ix := Ix) (Name := Name) (U := U) (Lvl := Lvl) (asV (Wc1 Ix Name U Lvl d W)) d R cc (Or.inl (by omega))]
  show Wc1 Ix Name U Lvl d W (dr main_v48) (ix2 (n0 := 100000) (n1 := 512) R cc) = _
  unfold Wc1
  rw [cp1_v48]

set_option maxHeartbeats 2000000 in
/-- The rows below region 2's are as the copy before it found them in the previous region's buffer. -/
theorem stage2_out (R : Fin 100000) (cc : Fin 512) (h : R.val < 50176) :
    Wr2 Ix Name U Lvl d W (dr main_v49) (ix2 (n0 := 100000) (n1 := 512) R cc) = Wr1 Ix Name U Lvl d W (dr main_v48) (ix2 (n0 := 100000) (n1 := 512) R cc) := by
  unfold Wr2
  rw [Function.update_self, fin6_outside (Ix := Ix) (Name := Name) (U := U) (Lvl := Lvl) (asV (Wc2 Ix Name U Lvl d W)) d R cc (Or.inl (by omega))]
  show Wc2 Ix Name U Lvl d W (dr main_v49) (ix2 (n0 := 100000) (n1 := 512) R cc) = _
  unfold Wc2
  rw [cp2_v49]

set_option maxHeartbeats 2000000 in
/-- The rows below region 3's are as the copy before it found them in the previous region's buffer. -/
theorem stage3_out (R : Fin 100000) (cc : Fin 512) (h : R.val < 75264) :
    Wr3 Ix Name U Lvl d W (dr main_v50) (ix2 (n0 := 100000) (n1 := 512) R cc) = Wr2 Ix Name U Lvl d W (dr main_v49) (ix2 (n0 := 100000) (n1 := 512) R cc) := by
  unfold Wr3
  rw [Function.update_self, fin7_outside (Ix := Ix) (Name := Name) (U := U) (Lvl := Lvl) (asV (Wc3 Ix Name U Lvl d W)) d R cc (Or.inl (by omega))]
  show Wc3 Ix Name U Lvl d W (dr main_v50) (ix2 (n0 := 100000) (n1 := 512) R cc) = _
  unfold Wc3
  rw [cp3_v50]

set_option maxHeartbeats 2000000 in
/-- EVERY ROW OF THE RESULT: row `R` of the last result buffer after the fourth region is the row function of row
    `R % 25088` of slab `R / 25088` and of the weight, bias, scale and shift — given what the four slabs and the
    parameters hold when the first region is entered, all of it real. -/
theorem final_row (G : Fin 4 → Vec Ideal S25088x512 .f32) (a8 : Vec Ideal S512x512 .f32) (a9 a10 a11 : Vec Ideal S512 .f32)
    (hG0 : W (dr main_v19) = G 0) (hG1 : W (dr main_v28) = G 1) (hG2 : W (dr main_v37) = G 2) (hG3 : W (dr main_v46) = G 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512)
    (rG : ∀ p j, ∃ x : ℝ, G p j = (x : EReal)) (r8 : ∀ j, ∃ x : ℝ, a8 j = (x : EReal)) (r9 : ∀ j, ∃ x : ℝ, a9 j = (x : EReal))
    (R : Fin 100000) (cc : Fin 512) :
    Wr3 Ix Name U Lvl d W (dr main_v50) (ix2 (n0 := 100000) (n1 := 512) R cc)
      = rowFn (fun k => G ⟨R.val / 25088, by have := R.isLt; omega⟩
            (ix2 (n0 := 25088) (n1 := 512) ⟨R.val % 25088, Nat.mod_lt _ (by decide)⟩ k))
          (fun c' k => a8 (ix2 (n0 := 512) (n1 := 512) c' k)) (fun c' => a9 (ix1 (n := 512) c'))
          (fun c' => a10 (ix1 (n := 512) c')) (fun c' => a11 (ix1 (n := 512) c')) cc := by
  have hR := R.isLt
  have key : ∀ (p : Fin 4) (lo : Nat), lo = 25088 * p.val → lo ≤ R.val → R.val < lo + 25088 → ∀ hlt : R.val - lo < 25088,
      (fun k : Fin 512 => G p (ix2 (n0 := 25088) (n1 := 512) ⟨R.val - lo, hlt⟩ k))
        = fun k => G ⟨R.val / 25088, by omega⟩ (ix2 (n0 := 25088) (n1 := 512) ⟨R.val % 25088, Nat.mod_lt _ (by decide)⟩ k) := by
    intro p lo hp h1 h2 hlt
    have e1 : (⟨R.val / 25088, by omega⟩ : Fin 4) = p := Fin.ext (by show R.val / 25088 = p.val; omega)
    have e2 : (⟨R.val % 25088, Nat.mod_lt _ (by decide)⟩ : Fin 25088) = ⟨R.val - lo, hlt⟩ :=
      Fin.ext (by show R.val % 25088 = R.val - lo; omega)
    funext k
    rw [e1, e2]
  rcases (by omega : R.val < 25088 ∨ (25088 ≤ R.val ∧ R.val < 50176) ∨ (50176 ≤ R.val ∧ R.val < 75264) ∨ 75264 ≤ R.val)
    with h | h | h | h
  · rw [stage3_out Ix Name U Lvl d W R cc (by omega), stage2_out Ix Name U Lvl d W R cc (by omega),
      stage1_out Ix Name U Lvl d W R cc (by omega),
      stage0_in Ix Name U Lvl d W G a8 a9 a10 a11 hG0 hG1 hG2 hG3 h8 h9 h10 h11 rG r8 r9 R cc (Nat.zero_le _) h,
      key 0 0 rfl (Nat.zero_le _) (by omega) (by omega)]
  · rw [stage3_out Ix Name U Lvl d W R cc (by omega), stage2_out Ix Name U Lvl d W R cc (by omega),
      stage1_in Ix Name U Lvl d W G a8 a9 a10 a11 hG0 hG1 hG2 hG3 h8 h9 h10 h11 rG r8 r9 R cc h.1 h.2,
      key 1 25088 rfl h.1 (by omega) (by omega)]
  · rw [stage3_out Ix Name U Lvl d W R cc (by omega),
      stage2_in Ix Name U Lvl d W G a8 a9 a10 a11 hG0 hG1 hG2 hG3 h8 h9 h10 h11 rG r8 r9 R cc h.1 h.2,
      key 2 50176 rfl h.1 (by omega) (by omega)]
  · rw [stage3_in Ix Name U Lvl d W G a8 a9 a10 a11 hG0 hG1 hG2 hG3 h8 h9 h10 h11 rG r8 r9 R cc h (by omega),
      key 3 75264 rfl h (by omega) (by omega)]

end Chain

end Cert.KernelIdeal.Tc

end
-- ==== Proof.TcAlg.lean ====
import proofs.«215994_g5102421148354_cont_8to1c4_853_29_alg».proof.Proof.TcFinalRow
import proofs.«215994_g5102421148354_cont_8to1c4_853_29_alg».proof.Proof.ScVal
import proofs.«215994_g5102421148354_cont_8to1c4_853_29_alg».proof.Proof.RefRow
import proofs.«215994_g5102421148354_cont_8to1c4_853_29_alg».proof.Proof.IdxSlab
import proofs.«215994_g5102421148354_cont_8to1c4_853_29_alg».proof.Proof.PreDecode

set_option maxRecDepth 16384

noncomputable section

namespace Cert.KernelIdeal.Tc

open Cert.KernelIdeal Cert.KernelIdeal.Gen
open Idealize.ShloMosaic Idealize.ShloMosaic.TcCoe Idealize.SL.Sem Idealize.ShloMosaic.StableHlo
open Idealize.ShloMosaic.ValueIdx Cert.RowSpec
open Idealize.ShloMosaic.SparseCore.Cfg (HIx)

local notation "dr" => Proc.devRef (τ := τ) (sig := sig) Proc.tc

/-! # The kernel's result is the reference's -/

/-- Every entry of a gathered slab is an entry of one of the four tables, hence real when they are. -/
theorem slabG_real (a0 a1 a2 a3 : FVec Ideal S100000x128 .f32) (s0 s1 s2 s3 : IVec S32x7x112 32)
    (r0 : ∀ j, ∃ x : ℝ, a0 j = (x : EReal)) (r1 : ∀ j, ∃ x : ℝ, a1 j = (x : EReal))
    (r2 : ∀ j, ∃ x : ℝ, a2 j = (x : EReal)) (r3 : ∀ j, ∃ x : ℝ, a3 j = (x : EReal)) (j : S25088x512.Idx) :
    ∃ x : ℝ, Sc.slabG (F := Ideal) a0 a1 a2 a3 s0 s1 s2 s3 j = (x : EReal) := by
  unfold Sc.slabG Sc.rowAt
  dsimp only
  split_ifs <;> first | exact r0 _ | exact r1 _ | exact r2 _ | exact r3 _

/-- The word of stretch `R / 25088` at the place of row `R % 25088` is word `R` of the index array. -/
theorem slab_word (p : Fin 4) (a : IVec S100000 32) (R : Fin 100000) (hp : p.val = R.val / 25088) :
    Idx.slab p a (ix3 (n0 := 32) (n1 := 7) (n2 := 112)
        ⟨R.val % 25088 / 784, by omega⟩ ⟨R.val % 25088 % 784 / 112, by omega⟩ ⟨R.val % 25088 % 112, by omega⟩)
      = a (ix1 (n := 100000) R) := by
  have hR := R.isLt
  rw [Idx.slab_apply]
  have hs : 25088 * p.val + 784 * (R.val % 25088 / 784) + 112 * (R.val % 25088 % 784 / 112) + R.val % 25088 % 112 = R.val := by
    rw [hp]; omega
  rw [dif_pos (show 25088 * p.val + 784 * (R.val % 25088 / 784) + 112 * (R.val % 25088 % 784 / 112) + R.val % 25088 % 112 < 100000 by omega)]
  exact congrArg a (congrArg ix1 (Fin.ext hs))

section Slab

variable (a0 a1 a2 a3 : FVec Ideal S100000x128 .f32) (a4 a5 a6 a7 : IVec S100000 32)

/-- The slab the gather call `p` leaves: rows of the four tables at stretch `p` of the four padded index arrays. -/
abbrev slabOf (p : Fin 4) : S25088x512.Idx → Ideal .f32 :=
  Sc.slabG (F := Ideal) a0 a1 a2 a3 (Idx.slab p a4) (Idx.slab p a5) (Idx.slab p a6) (Idx.slab p a7)

/-- Columns 0 to 127 of a slab row are the row of table 0 its index word names. -/
theorem slab_block0 (R : Fin 100000) (p : Fin 4) (hp : p.val = R.val / 25088) (hn : (a4 (ix1 (n := 100000) R)).toNat < 100000)
    (cc : Fin 128) (k : Fin 512) (hc : cc.val = k.val) :
    slabOf a0 a1 a2 a3 a4 a5 a6 a7 p (ix2 (n0 := 25088) (n1 := 512) ⟨R.val % 25088, Nat.mod_lt _ (by decide)⟩ k)
      = a0 (ix2 (n0 := 100000) (n1 := 128) ⟨(a4 (ix1 (n := 100000) R)).toNat, hn⟩ cc) := by
  have hcc := cc.isLt
  have hk := k.isLt
  have e1 : slabOf a0 a1 a2 a3 a4 a5 a6 a7 p (ix2 (n0 := 25088) (n1 := 512) ⟨R.val % 25088, Nat.mod_lt _ (by decide)⟩ k)
      = Sc.rowAt (F := Ideal) a0 (Idx.slab p a4 (ix3 (n0 := 32) (n1 := 7) (n2 := 112)
          ⟨R.val % 25088 / 784, by omega⟩ ⟨R.val % 25088 % 784 / 112, by omega⟩ ⟨R.val % 25088 % 112, by omega⟩)).toNat ⟨k.val % 128, by omega⟩ := by
    unfold slabOf Sc.slabG
    exact if_pos (show k.val < 128 by omega)
  rw [e1, slab_word p a4 R hp, Sc.rowAt_lt _ _ hn]
  exact congrArg (fun c => a0 (ix2 (n0 := 100000) (n1 := 128) ⟨(a4 (ix1 (n := 100000) R)).toNat, hn⟩ c))
    (Fin.ext (by show k.val % 128 = cc.val; omega))

/-- Columns 128 to 255 of a slab row are the row of table 1 its index word names. -/
theorem slab_block1 (R : Fin 100000) (p : Fin 4) (hp : p.val = R.val / 25088) (hn : (a5 (ix1 (n := 100000) R)).toNat < 100000)
    (cc : Fin 128) (k : Fin 512) (hc : 128 + cc.val = k.val) :
    slabOf a0 a1 a2 a3 a4 a5 a6 a7 p (ix2 (n0 := 25088) (n1 := 512) ⟨R.val % 25088, Nat.mod_lt _ (by decide)⟩ k)
      = a1 (ix2 (n0 := 100000) (n1 := 128) ⟨(a5 (ix1 (n := 100000) R)).toNat, hn⟩ cc) := by
  have hcc := cc.isLt
  have hk := k.isLt
  have e1 : slabOf a0 a1 a2 a3 a4 a5 a6 a7 p (ix2 (n0 := 25088) (n1 := 512) ⟨R.val % 25088, Nat.mod_lt _ (by decide)⟩ k)
      = Sc.rowAt (F := Ideal) a1 (Idx.slab p a5 (ix3 (n0 := 32) (n1 := 7) (n2 := 112)
          ⟨R.val % 25088 / 784, by omega⟩ ⟨R.val % 25088 % 784 / 112, by omega⟩ ⟨R.val % 25088 % 112, by omega⟩)).toNat ⟨k.val % 128, by omega⟩ := by
    unfold slabOf Sc.slabG
    exact (if_neg (show ¬ k.val < 128 by omega)).trans (if_pos (show k.val < 256 by omega))
  rw [e1, slab_word p a5 R hp, Sc.rowAt_lt _ _ hn]
  exact congrArg (fun c => a1 (ix2 (n0 := 100000) (n1 := 128) ⟨(a5 (ix1 (n := 100000) R)).toNat, hn⟩ c))
    (Fin.ext (by show k.val % 128 = cc.val; omega))

/-- Columns 256 to 383 of a slab row are the row of table 2 its index word names. -/
theorem slab_block2 (R : Fin 100000) (p : Fin 4) (hp : p.val = R.val / 25088) (hn : (a6 (ix1 (n := 100000) R)).toNat < 100000)
    (cc : Fin 128) (k : Fin 512) (hc : 256 + cc.val = k.val) :
    slabOf a0 a1 a2 a3 a4 a5 a6 a7 p (ix2 (n0 := 25088) (n1 := 512) ⟨R.val % 25088, Nat.mod_lt _ (by decide)⟩ k)
      = a2 (ix2 (n0 := 100000) (n1 := 128) ⟨(a6 (ix1 (n := 100000) R)).toNat, hn⟩ cc) := by
  have hcc := cc.isLt
  have hk := k.isLt
  have e1 : slabOf a0 a1 a2 a3 a4 a5 a6 a7 p (ix2 (n0 := 25088) (n1 := 512) ⟨R.val % 25088, Nat.mod_lt _ (by decide)⟩ k)
      = Sc.rowAt (F := Ideal) a2 (Idx.slab p a6 (ix3 (n0 := 32) (n1 := 7) (n2 := 112)
          ⟨R.val % 25088 / 784, by omega⟩ ⟨R.val % 25088 % 784 / 112, by omega⟩ ⟨R.val % 25088 % 112, by omega⟩)).toNat ⟨k.val % 128, by omega⟩ := by
    unfold slabOf Sc.slabG
    exact (if_neg (show ¬ k.val < 128 by omega)).trans ((if_neg (show ¬ k.val < 256 by omega)).trans (if_pos (show k.val < 384 by omega)))
  rw [e1, slab_word p a6 R hp, Sc.rowAt_lt _ _ hn]
  exact congrArg (fun c => a2 (ix2 (n0 := 100000) (n1 := 128) ⟨(a6 (ix1 (n := 100000) R)).toNat, hn⟩ c))
    (Fin.ext (by show k.val % 128 = cc.val; omega))

/-- Columns 384 to 511 of a slab row are the row of table 3 its index word names. -/
theorem slab_block3 (R : Fin 100000) (p : Fin 4) (hp : p.val = R.val / 25088) (hn : (a7 (ix1 (n := 100000) R)).toNat < 100000)
    (cc : Fin 128) (k : Fin 512) (hc : 384 + cc.val = k.val) :
    slabOf a0 a1 a2 a3 a4 a5 a6 a7 p (ix2 (n0 := 25088) (n1 := 512) ⟨R.val % 25088, Nat.mod_lt _ (by decide)⟩ k)
      = a3 (ix2 (n0 := 100000) (n1 := 128) ⟨(a7 (ix1 (n := 100000) R)).toNat, hn⟩ cc) := by
  have hcc := cc.isLt
  have hk := k.isLt
  have e1 : slabOf a0 a1 a2 a3 a4 a5 a6 a7 p (ix2 (n0 := 25088) (n1 := 512) ⟨R.val % 25088, Nat.mod_lt _ (by decide)⟩ k)
      = Sc.rowAt (F := Ideal) a3 (Idx.slab p a7 (ix3 (n0 := 32) (n1 := 7) (n2 := 112)
          ⟨R.val % 25088 / 784, by omega⟩ ⟨R.val % 25088 % 784 / 112, by omega⟩ ⟨R.val % 25088 % 112, by omega⟩)).toNat ⟨k.val % 128, by omega⟩ := by
    unfold slabOf Sc.slabG
    exact (if_neg (show ¬ k.val < 128 by omega)).trans ((if_neg (show ¬ k.val < 256 by omega)).trans (if_neg (show ¬ k.val < 384 by omega)))
  rw [e1, slab_word p a7 R hp, Sc.rowAt_lt _ _ hn]
  exact congrArg (fun c => a3 (ix2 (n0 := 100000) (n1 := 128) ⟨(a7 (ix1 (n := 100000) R)).toNat, hn⟩ c))
    (Fin.ext (by show k.val % 128 = cc.val; omega))

end Slab

set_option maxHeartbeats 4000000 in
/-- THE KERNEL'S RESULT IS THE REFERENCE'S: with the four slabs holding what the gather calls leave and the parameters
    in place when the first region is entered, and the inputs in their domain, the last result buffer after the fourth
    region is the reference's result, entry for entry. -/
theorem final_eq (d : Dev nD) (W : Valuation τ sig (Elt Ideal))
    (a0 a1 a2 a3 : FVec Ideal S100000x128 .f32) (a4 a5 a6 a7 : IVec S100000 32) (a8 : FVec Ideal S512x512 .f32) (a9 a10 a11 : FVec Ideal S512 .f32)
    (h : Cert.Pre_input_domain.fn (F := Ideal) a0 a1 a2 a3 a4 a5 a6 a7 a8 a9 a10 a11 = fun _ => 1#1)
    (hG0 : W (dr main_v19) = slabOf a0 a1 a2 a3 a4 a5 a6 a7 0) (hG1 : W (dr main_v28) = slabOf a0 a1 a2 a3 a4 a5 a6 a7 1)
    (hG2 : W (dr main_v37) = slabOf a0 a1 a2 a3 a4 a5 a6 a7 2) (hG3 : W (dr main_v46) = slabOf a0 a1 a2 a3 a4 a5 a6 a7 3)
    (h8 : W (dr main_arg8) = a8) (h9 : W (dr main_v8) = shapeCast S1x512 a9 shapeCasts_S512_S1x512)
    (h10 : W (dr main_v9) = shapeCast S1x512 a10 shapeCasts_S512_S1x512)
    (h11 : W (dr main_v10) = shapeCast S1x512 a11 shapeCasts_S512_S1x512) :
    Wr3 (HIx 4) ℕ Sc.UU ℕ d W (dr main_v50) = Cert.ReferenceIdeal.RefRun.res a0 a1 a2 a3 a4 a5 a6 a7 a8 a9 a10 a11 := by
  obtain ⟨⟨n4, n5, n6, n7⟩, r0, r1, r2, r3, r8, r9, r10, r11⟩ :=
    Cert.Pre_input_domain.Decode.decode a0 a1 a2 a3 a4 a5 a6 a7 a8 a9 a10 a11 h
  obtain ⟨-, -, -, -, g4, g5, g6, g7, -, -, -, -⟩ :=
    Cert.Pre_input_domain.Decode.conjuncts a0 a1 a2 a3 a4 a5 a6 a7 a8 a9 a10 a11 h
  funext j
  have ej : j = ix2 (n0 := 100000) (n1 := 512) (j 0) (j 1) := eq_ix2 j
  have hR : (j 0).val < 100000 := (j 0).isLt
  have hl := final_row (HIx 4) ℕ Sc.UU ℕ d W (slabOf a0 a1 a2 a3 a4 a5 a6 a7) a8 a9 a10 a11 hG0 hG1 hG2 hG3 h8 h9 h10 h11
    (fun p j' => slabG_real a0 a1 a2 a3 _ _ _ _ r0 r1 r2 r3 j') r8 r9 (j 0) (j 1)
  have hr := Cert.ReferenceIdeal.RefRun.res_apply a0 a1 a2 a3 a4 a5 a6 a7 a8 a9 a10 a11 g4 g5 g6 g7 (j 0)
    (n4 _) (n5 _) (n6 _) (n7 _)
    (fun k => slabOf a0 a1 a2 a3 a4 a5 a6 a7 ⟨(j 0).val / 25088, by omega⟩
      (ix2 (n0 := 25088) (n1 := 512) ⟨(j 0).val % 25088, Nat.mod_lt _ (by decide)⟩ k))
    (fun cc k hc => slab_block0 a0 a1 a2 a3 a4 a5 a6 a7 (j 0) _ rfl (n4 _) cc k hc)
    (fun cc k hc => slab_block1 a0 a1 a2 a3 a4 a5 a6 a7 (j 0) _ rfl (n5 _) cc k hc)
    (fun cc k hc => slab_block2 a0 a1 a2 a3 a4 a5 a6 a7 (j 0) _ rfl (n6 _) cc k hc)
    (fun cc k hc => slab_block3 a0 a1 a2 a3 a4 a5 a6 a7 (j 0) _ rfl (n7 _) cc k hc)
    (j 1)
  rw [← ej] at hl hr
  exact hl.trans hr.symm

end Cert.KernelIdeal.Tc

end
-- ==== Proof.ScMainG.lean ====
/-
  @main on the TensorCore with the value, at the idealized floats.  Threaded as before; what is kept now also includes the three
  reshaped parameter rows, and each call's result array stays at the gathered slab once the call has written it.  At the end the
  result array holds, block by block, the row function of the gathered rows, which is the reference's result.
-/
import proofs.«215994_g5102421148354_cont_8to1c4_853_29_alg».proof.Proof.ScMain
import proofs.«215994_g5102421148354_cont_8to1c4_853_29_alg».proof.Proof.ScLaunchG
import proofs.«215994_g5102421148354_cont_8to1c4_853_29_alg».proof.Proof.ScCallG0
import proofs.«215994_g5102421148354_cont_8to1c4_853_29_alg».proof.Proof.ScCallG1
import proofs.«215994_g5102421148354_cont_8to1c4_853_29_alg».proof.Proof.ScCallG2
import proofs.«215994_g5102421148354_cont_8to1c4_853_29_alg».proof.Proof.ScCallG3
import proofs.«215994_g5102421148354_cont_8to1c4_853_29_alg».proof.Proof.ScRegionG0
import proofs.«215994_g5102421148354_cont_8to1c4_853_29_alg».proof.Proof.ScRegionG1
import proofs.«215994_g5102421148354_cont_8to1c4_853_29_alg».proof.Proof.ScRegionG2
import proofs.«215994_g5102421148354_cont_8to1c4_853_29_alg».proof.Proof.ScRegionG3
import proofs.«215994_g5102421148354_cont_8to1c4_853_29_alg».proof.Proof.TcAlg

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq after held_sub_split held_congr)

variable [Cert.KernelIdeal.Facts] [Cert.Pre_input_domain.Facts]

local notation "𝕄" => MT nD τ sig (HIx 4) (Elt Ideal) ℕ UU ℕ
local notation "dr" => Proc.devRef (τ := τ) (sig := sig) Proc.tc

variable (m : (ℓ : Loc nD τ sig) → Buf (Elt Ideal) ℓ) (ρ : Dev nD → PrngReg)

/-- The reference's result of the launch contents of device `d`'s twelve arguments. -/
def RefRes (d : Dev nD) : Buf (Elt Ideal) ((SparseCore.T d : Thread nD τ).loc main_v50) :=
  Cert.ReferenceIdeal.RefRun.res (F := Ideal)
    (m ((SparseCore.T d : Thread nD τ).loc main_arg0) : FVec Ideal S100000x128 .f32) (m ((SparseCore.T d : Thread nD τ).loc main_arg1) : FVec Ideal S100000x128 .f32)
    (m ((SparseCore.T d : Thread nD τ).loc main_arg2) : FVec Ideal S100000x128 .f32) (m ((SparseCore.T d : Thread nD τ).loc main_arg3) : FVec Ideal S100000x128 .f32)
    (m ((SparseCore.T d : Thread nD τ).loc main_arg4) : IVec S100000 32) (m ((SparseCore.T d : Thread nD τ).loc main_arg5) : IVec S100000 32)
    (m ((SparseCore.T d : Thread nD τ).loc main_arg6) : IVec S100000 32) (m ((SparseCore.T d : Thread nD τ).loc main_arg7) : IVec S100000 32)
    (m ((SparseCore.T d : Thread nD τ).loc main_arg8) : FVec Ideal S512x512 .f32) (m ((SparseCore.T d : Thread nD τ).loc main_arg9) : FVec Ideal S512 .f32)
    (m ((SparseCore.T d : Thread nD τ).loc main_arg10) : FVec Ideal S512 .f32) (m ((SparseCore.T d : Thread nD τ).loc main_arg11) : FVec Ideal S512 .f32)

/-- The three reshaped parameter rows, which no later step writes either. -/
abbrev keepP : List (Ref sig .tc) := [main_v8, main_v9, main_v10]
theorem keepP_B1 : ∀ b ∈ keepP, b ∉ Tc.hostB1_W := by decide
theorem keepP_B2 : ∀ b ∈ keepP, b ∉ Tc.hostB2_W := by decide
theorem keepP_B3 : ∀ b ∈ keepP, b ∉ Tc.hostB3_W := by decide

/-- From any set of whole buffers holding the twelve arguments, at a kept valuation: the arguments at their launch contents. -/
theorem fin_of_heldS (d : Dev nD) (A : Finset (DevRef τ sig)) (hsub : ((argL).map dr).toFinset ⊆ A) (W : Valuation τ sig (Elt Ideal)) (h : Kept m d W) :
    (held (d.tc : Thread nD τ) A W : sProp 𝕄) ⊢ FIN m d := by
  rw [held_sub_split (c := (d.tc : Thread nD τ)) hsub W]
  unfold FIN held
  rw [bigSep_eq_bigSepL _ argD_nodup, bigSepL_map, bigSep_eq_bigSepL_of_eq argL argS_eq argL_nodup, chain12, chain12]
  iintro ⟨⟨H0, H1, H2, H3, H4, H5, H6, H7, H8, H9, H10, H11⟩, -⟩
  isplitl [H0]; · rw [← kept_arg m d h main_arg0 (by decide) (by decide)]; iexact H0
  isplitl [H1]; · rw [← kept_arg m d h main_arg1 (by decide) (by decide)]; iexact H1
  isplitl [H2]; · rw [← kept_arg m d h main_arg2 (by decide) (by decide)]; iexact H2
  isplitl [H3]; · rw [← kept_arg m d h main_arg3 (by decide) (by decide)]; iexact H3
  isplitl [H4]; · rw [← kept_arg m d h main_arg4 (by decide) (by decide)]; iexact H4
  isplitl [H5]; · rw [← kept_arg m d h main_arg5 (by decide) (by decide)]; iexact H5
  isplitl [H6]; · rw [← kept_arg m d h main_arg6 (by decide) (by decide)]; iexact H6
  isplitl [H7]; · rw [← kept_arg m d h main_arg7 (by decide) (by decide)]; iexact H7
  isplitl [H8]; · rw [← kept_arg m d h main_arg8 (by decide) (by decide)]; iexact H8
  isplitl [H9]; · rw [← kept_arg m d h main_arg9 (by decide) (by decide)]; iexact H9
  isplitl [H10]; · rw [← kept_arg m d h main_arg10 (by decide) (by decide)]; iexact H10
  rw [← kept_arg m d h main_arg11 (by decide) (by decide)]; iexact H11

/-- From the TensorCore's whole buffers at a kept valuation: the twelve arguments at their launch contents and the result array. -/
theorem finG_of_held (d : Dev nD) (W : Valuation τ sig (Elt Ideal)) (h : Kept m d W) :
    (held (d.tc : Thread nD τ) (Pipeline.ucRefs τ sig) W : sProp 𝕄) ⊢ iprop(FIN m d ∗ ((SparseCore.T d).loc main_v50 ↦{fullShare} W (dr main_v50))) := by
  rw [held_sub_split (c := (d.tc : Thread nD τ)) (T := {dr main_v50}) (by decide) W]
  have h1 := fin_of_heldS m d (Pipeline.ucRefs τ sig \ {dr main_v50}) (by decide) W h
  have h2 : (held (d.tc : Thread nD τ) {dr main_v50} W : sProp 𝕄) ⊢ ((SparseCore.T d).loc main_v50 ↦{fullShare} W (dr main_v50)) := by
    unfold held
    rw [bigSep_singleton]
  iintro ⟨Hv, Hrest⟩
  isplitl [Hrest]
  · iapply h1; iexact Hrest
  · iapply h2; iexact Hv

set_option maxHeartbeats 32000000 in
/-- @main on device `d`'s TensorCore, the result array ending at the reference's result. -/
theorem hmainG (hpre : ∀ d : Dev nD, Cert.Pre_input_domain.fn (F := Ideal) (m ((SparseCore.T d).loc main_arg0)) (m ((SparseCore.T d).loc main_arg1)) (m ((SparseCore.T d).loc main_arg2))
      (m ((SparseCore.T d).loc main_arg3)) (m ((SparseCore.T d).loc main_arg4)) (m ((SparseCore.T d).loc main_arg5)) (m ((SparseCore.T d).loc main_arg6)) (m ((SparseCore.T d).loc main_arg7))
      (m ((SparseCore.T d).loc main_arg8)) (m ((SparseCore.T d).loc main_arg9)) (m ((SparseCore.T d).loc main_arg10)) (m ((SparseCore.T d).loc main_arg11)) = fun _ => 1#1)
    (κ : GSem nD τ sig → ℕ) (d : Dev nD) :
    iprop((K (F := Ideal)).ctx EH (PG m) κ ∗ (K (F := Ideal)).tcSt EH d 0 ∗ (K (F := Ideal)).tcRes m ρ d ∗ G (F := Ideal) d)
      ⊢ wp frame (wpE ((K (F := Ideal)).defs (D (F := Ideal))) 𝒱 (SparseCore.T d) none) Set.univ (main d)
          fun _ => iprop((K (F := Ideal)).tcSt EH d 4 ∗ FING m (RefRes m) d) := by
  rw [Tc.main_eq]
  simp only [Prog.lift, Prog.bind_op, Prog.bind_ret, Prog.pure_eq_ret]
  unfold G
  rw [Tc.bigSep_P4]
  iintro ⟨#Hctx, Hst, Hres, ⟨Hcg0, Hti0⟩, ⟨Hcg1, Hti1⟩, ⟨Hcg2, Hti2⟩, ⟨Hcg3, Hti3⟩⟩
  ihave Hr := (Tc.tcRes_split m ρ d) $$ Hres
  icases Hr with ⟨Hb, Hub, -, -⟩
  ihave Hh := (Entails.of_eq (show (unscopedBufs d (fun b => m ((SparseCore.T d).loc b)) : sProp 𝕄) = held (d.tc : Thread nD τ) (Pipeline.ucRefs τ sig) (V0 m d) from Pipeline.unscopedBufs_held d (V0 m d))) $$ Hub
  ihave Hs0 := (wp_seq 𝒱 none Set.univ d (Pipeline.ucRefs τ sig) _ Tc.hostA Tc.hostA_sub Tc.hostA_fresh (V0 m d)) $$ [Hb Hh]
  · isplitl [Hb] <;> iassumption
  iapply Hs0
  iintro ⟨Hb, Hh⟩
  have hK0 : Kept m d (after Tc.hostA (V0 m d)) := kept_A m d
  have hP8_0 : after Tc.hostA (V0 m d) (dr main_v8) = shapeCast S1x512 (m ((SparseCore.T d).loc main_arg9)) shapeCasts_S512_S1x512 := Tc.hostA_v8 (V0 m d)
  have hP9_0 : after Tc.hostA (V0 m d) (dr main_v9) = shapeCast S1x512 (m ((SparseCore.T d).loc main_arg10)) shapeCasts_S512_S1x512 := Tc.hostA_v9 (V0 m d)
  have hP10_0 : after Tc.hostA (V0 m d) (dr main_v10) = shapeCast S1x512 (m ((SparseCore.T d).loc main_arg11)) shapeCasts_S512_S1x512 := Tc.hostA_v10 (V0 m d)
  generalize hWA : after Tc.hostA (V0 m d) = WA at hK0 hP8_0 hP9_0 hP10_0 ⊢
  rw [wp_bind]
  iapply (call_stepG0 m κ d WA (hWA ▸ Tc.hostA_v12 (V0 m d)) (hWA ▸ Tc.hostA_v14 (V0 m d)) (hWA ▸ Tc.hostA_v16 (V0 m d)) (hWA ▸ Tc.hostA_v18 (V0 m d)) (kept_arg m d hK0 main_arg0 (by decide) (by decide)) (kept_arg m d hK0 main_arg1 (by decide) (by decide)) (kept_arg m d hK0 main_arg2 (by decide) (by decide)) (kept_arg m d hK0 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro ⟨Hst, Hh⟩
  have hK1 : Kept m d (Function.update WA (dr main_v19) (slabOfM m 0 d)) := kept_update m d hK0 main_v19 (by decide) _
  have hP8_1 : Function.update WA (dr main_v19) (slabOfM m 0 d) (dr main_v8) = _ := (Function.update_of_ne (show dr main_v8 ≠ dr main_v19 by decide) _ _).trans hP8_0
  have hP9_1 : Function.update WA (dr main_v19) (slabOfM m 0 d) (dr main_v9) = _ := (Function.update_of_ne (show dr main_v9 ≠ dr main_v19 by decide) _ _).trans hP9_0
  have hP10_1 : Function.update WA (dr main_v19) (slabOfM m 0 d) (dr main_v10) = _ := (Function.update_of_ne (show dr main_v10 ≠ dr main_v19 by decide) _ _).trans hP10_0
  have hS0_1 : Function.update WA (dr main_v19) (slabOfM m 0 d) (dr main_v19) = slabOfM m 0 d := Function.update_self _ _ _
  generalize hW1 : Function.update WA (dr main_v19) (slabOfM m 0 d) = W1 at hK1 hP8_1 hP9_1 hP10_1 hS0_1 ⊢
  ihave Hs1 := (wp_seq 𝒱 none Set.univ d (Pipeline.ucRefs τ sig) _ Tc.hostB1 Tc.hostB1_sub Tc.hostB1_fresh W1) $$ [Hb Hh]
  · isplitl [Hb] <;> iassumption
  iapply Hs1
  iintro ⟨Hb, Hh⟩
  have hKB1 : Kept m d (after Tc.hostB1 W1) := kept_B1 m d hK1
  have hP8B1 : after Tc.hostB1 W1 (dr main_v8) = _ := (Tc.hostB1_keep W1 main_v8 (by decide)).trans hP8_1
  have hP9B1 : after Tc.hostB1 W1 (dr main_v9) = _ := (Tc.hostB1_keep W1 main_v9 (by decide)).trans hP9_1
  have hP10B1 : after Tc.hostB1 W1 (dr main_v10) = _ := (Tc.hostB1_keep W1 main_v10 (by decide)).trans hP10_1
  have hS0B1 : after Tc.hostB1 W1 (dr main_v19) = slabOfM m 0 d := (Tc.hostB1_keep W1 main_v19 (by decide)).trans hS0_1
  rw [wp_bind]
  iapply (call_stepG1 m κ d (after Tc.hostB1 W1) (Tc.hostB1_v21 W1 (m ((SparseCore.T d).loc main_arg4)) ((hK1 main_v1 (by decide)).trans (Tc.hostA_v1 (V0 m d)))) (Tc.hostB1_v23 W1 (m ((SparseCore.T d).loc main_arg5)) ((hK1 main_v3 (by decide)).trans (Tc.hostA_v3 (V0 m d)))) (Tc.hostB1_v25 W1 (m ((SparseCore.T d).loc main_arg6)) ((hK1 main_v5 (by decide)).trans (Tc.hostA_v5 (V0 m d)))) (Tc.hostB1_v27 W1 (m ((SparseCore.T d).loc main_arg7)) ((hK1 main_v7 (by decide)).trans (Tc.hostA_v7 (V0 m d)))) (kept_arg m d hKB1 main_arg0 (by decide) (by decide)) (kept_arg m d hKB1 main_arg1 (by decide) (by decide)) (kept_arg m d hKB1 main_arg2 (by decide) (by decide)) (kept_arg m d hKB1 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro ⟨Hst, Hh⟩
  have hK2 : Kept m d (Function.update (after Tc.hostB1 W1) (dr main_v28) (slabOfM m 1 d)) := kept_update m d hKB1 main_v28 (by decide) _
  have hP8_2 : Function.update (after Tc.hostB1 W1) (dr main_v28) (slabOfM m 1 d) (dr main_v8) = _ := (Function.update_of_ne (show dr main_v8 ≠ dr main_v28 by decide) _ _).trans hP8B1
  have hP9_2 : Function.update (after Tc.hostB1 W1) (dr main_v28) (slabOfM m 1 d) (dr main_v9) = _ := (Function.update_of_ne (show dr main_v9 ≠ dr main_v28 by decide) _ _).trans hP9B1
  have hP10_2 : Function.update (after Tc.hostB1 W1) (dr main_v28) (slabOfM m 1 d) (dr main_v10) = _ := (Function.update_of_ne (show dr main_v10 ≠ dr main_v28 by decide) _ _).trans hP10B1
  have hS0_2 : Function.update (after Tc.hostB1 W1) (dr main_v28) (slabOfM m 1 d) (dr main_v19) = slabOfM m 0 d := (Function.update_of_ne (show dr main_v19 ≠ dr main_v28 by decide) _ _).trans hS0B1
  have hS1_2 : Function.update (after Tc.hostB1 W1) (dr main_v28) (slabOfM m 1 d) (dr main_v28) = slabOfM m 1 d := Function.update_self _ _ _
  generalize hW2 : Function.update (after Tc.hostB1 W1) (dr main_v28) (slabOfM m 1 d) = W2 at hK2 hP8_2 hP9_2 hP10_2 hS0_2 hS1_2 ⊢
  ihave Hs2 := (wp_seq 𝒱 none Set.univ d (Pipeline.ucRefs τ sig) _ Tc.hostB2 Tc.hostB2_sub Tc.hostB2_fresh W2) $$ [Hb Hh]
  · isplitl [Hb] <;> iassumption
  iapply Hs2
  iintro ⟨Hb, Hh⟩
  have hKB2 : Kept m d (after Tc.hostB2 W2) := kept_B2 m d hK2
  have hP8B2 : after Tc.hostB2 W2 (dr main_v8) = _ := (Tc.hostB2_keep W2 main_v8 (by decide)).trans hP8_2
  have hP9B2 : after Tc.hostB2 W2 (dr main_v9) = _ := (Tc.hostB2_keep W2 main_v9 (by decide)).trans hP9_2
  have hP10B2 : after Tc.hostB2 W2 (dr main_v10) = _ := (Tc.hostB2_keep W2 main_v10 (by decide)).trans hP10_2
  have hS0B2 : after Tc.hostB2 W2 (dr main_v19) = slabOfM m 0 d := (Tc.hostB2_keep W2 main_v19 (by decide)).trans hS0_2
  have hS1B2 : after Tc.hostB2 W2 (dr main_v28) = slabOfM m 1 d := (Tc.hostB2_keep W2 main_v28 (by decide)).trans hS1_2
  rw [wp_bind]
  iapply (call_stepG2 m κ d (after Tc.hostB2 W2) (Tc.hostB2_v30 W2 (m ((SparseCore.T d).loc main_arg4)) ((hK2 main_v1 (by decide)).trans (Tc.hostA_v1 (V0 m d)))) (Tc.hostB2_v32 W2 (m ((SparseCore.T d).loc main_arg5)) ((hK2 main_v3 (by decide)).trans (Tc.hostA_v3 (V0 m d)))) (Tc.hostB2_v34 W2 (m ((SparseCore.T d).loc main_arg6)) ((hK2 main_v5 (by decide)).trans (Tc.hostA_v5 (V0 m d)))) (Tc.hostB2_v36 W2 (m ((SparseCore.T d).loc main_arg7)) ((hK2 main_v7 (by decide)).trans (Tc.hostA_v7 (V0 m d)))) (kept_arg m d hKB2 main_arg0 (by decide) (by decide)) (kept_arg m d hKB2 main_arg1 (by decide) (by decide)) (kept_arg m d hKB2 main_arg2 (by decide) (by decide)) (kept_arg m d hKB2 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro ⟨Hst, Hh⟩
  have hK3 : Kept m d (Function.update (after Tc.hostB2 W2) (dr main_v37) (slabOfM m 2 d)) := kept_update m d hKB2 main_v37 (by decide) _
  have hP8_3 : Function.update (after Tc.hostB2 W2) (dr main_v37) (slabOfM m 2 d) (dr main_v8) = _ := (Function.update_of_ne (show dr main_v8 ≠ dr main_v37 by decide) _ _).trans hP8B2
  have hP9_3 : Function.update (after Tc.hostB2 W2) (dr main_v37) (slabOfM m 2 d) (dr main_v9) = _ := (Function.update_of_ne (show dr main_v9 ≠ dr main_v37 by decide) _ _).trans hP9B2
  have hP10_3 : Function.update (after Tc.hostB2 W2) (dr main_v37) (slabOfM m 2 d) (dr main_v10) = _ := (Function.update_of_ne (show dr main_v10 ≠ dr main_v37 by decide) _ _).trans hP10B2
  have hS0_3 : Function.update (after Tc.hostB2 W2) (dr main_v37) (slabOfM m 2 d) (dr main_v19) = slabOfM m 0 d := (Function.update_of_ne (show dr main_v19 ≠ dr main_v37 by decide) _ _).trans hS0B2
  have hS1_3 : Function.update (after Tc.hostB2 W2) (dr main_v37) (slabOfM m 2 d) (dr main_v28) = slabOfM m 1 d := (Function.update_of_ne (show dr main_v28 ≠ dr main_v37 by decide) _ _).trans hS1B2
  have hS2_3 : Function.update (after Tc.hostB2 W2) (dr main_v37) (slabOfM m 2 d) (dr main_v37) = slabOfM m 2 d := Function.update_self _ _ _
  generalize hW3 : Function.update (after Tc.hostB2 W2) (dr main_v37) (slabOfM m 2 d) = W3 at hK3 hP8_3 hP9_3 hP10_3 hS0_3 hS1_3 hS2_3 ⊢
  ihave Hs3 := (wp_seq 𝒱 none Set.univ d (Pipeline.ucRefs τ sig) _ Tc.hostB3 Tc.hostB3_sub Tc.hostB3_fresh W3) $$ [Hb Hh]
  · isplitl [Hb] <;> iassumption
  iapply Hs3
  iintro ⟨Hb, Hh⟩
  have hKB3 : Kept m d (after Tc.hostB3 W3) := kept_B3 m d hK3
  have hP8B3 : after Tc.hostB3 W3 (dr main_v8) = _ := (Tc.hostB3_keep W3 main_v8 (by decide)).trans hP8_3
  have hP9B3 : after Tc.hostB3 W3 (dr main_v9) = _ := (Tc.hostB3_keep W3 main_v9 (by decide)).trans hP9_3
  have hP10B3 : after Tc.hostB3 W3 (dr main_v10) = _ := (Tc.hostB3_keep W3 main_v10 (by decide)).trans hP10_3
  have hS0B3 : after Tc.hostB3 W3 (dr main_v19) = slabOfM m 0 d := (Tc.hostB3_keep W3 main_v19 (by decide)).trans hS0_3
  have hS1B3 : after Tc.hostB3 W3 (dr main_v28) = slabOfM m 1 d := (Tc.hostB3_keep W3 main_v28 (by decide)).trans hS1_3
  have hS2B3 : after Tc.hostB3 W3 (dr main_v37) = slabOfM m 2 d := (Tc.hostB3_keep W3 main_v37 (by decide)).trans hS2_3
  rw [wp_bind]
  iapply (call_stepG3 m κ d (after Tc.hostB3 W3) (Tc.hostB3_v39 W3 (m ((SparseCore.T d).loc main_arg4)) ((hK3 main_v1 (by decide)).trans (Tc.hostA_v1 (V0 m d)))) (Tc.hostB3_v41 W3 (m ((SparseCore.T d).loc main_arg5)) ((hK3 main_v3 (by decide)).trans (Tc.hostA_v3 (V0 m d)))) (Tc.hostB3_v43 W3 (m ((SparseCore.T d).loc main_arg6)) ((hK3 main_v5 (by decide)).trans (Tc.hostA_v5 (V0 m d)))) (Tc.hostB3_v45 W3 (m ((SparseCore.T d).loc main_arg7)) ((hK3 main_v7 (by decide)).trans (Tc.hostA_v7 (V0 m d)))) (kept_arg m d hKB3 main_arg0 (by decide) (by decide)) (kept_arg m d hKB3 main_arg1 (by decide) (by decide)) (kept_arg m d hKB3 main_arg2 (by decide) (by decide)) (kept_arg m d hKB3 main_arg3 (by decide) (by decide))) $$ [Hst Hh Hb Hcg0 Hti0 Hcg1 Hti1 Hcg2 Hti2 Hcg3 Hti3]
  isplitr; · iexact Hctx
  isplitl [Hst]; · iexact Hst
  isplitl [Hh]; · iexact Hh
  iintro ⟨Hst, Hh⟩
  have hK4 : Kept m d (Function.update (after Tc.hostB3 W3) (dr main_v46) (slabOfM m 3 d)) := kept_update m d hKB3 main_v46 (by decide) _
  have hP8_4 : Function.update (after Tc.hostB3 W3) (dr main_v46) (slabOfM m 3 d) (dr main_v8) = _ := (Function.update_of_ne (show dr main_v8 ≠ dr main_v46 by decide) _ _).trans hP8B3
  have hP9_4 : Function.update (after Tc.hostB3 W3) (dr main_v46) (slabOfM m 3 d) (dr main_v9) = _ := (Function.update_of_ne (show dr main_v9 ≠ dr main_v46 by decide) _ _).trans hP9B3
  have hP10_4 : Function.update (after Tc.hostB3 W3) (dr main_v46) (slabOfM m 3 d) (dr main_v10) = _ := (Function.update_of_ne (show dr main_v10 ≠ dr main_v46 by decide) _ _).trans hP10B3
  have hS0_4 : Function.update (after Tc.hostB3 W3) (dr main_v46) (slabOfM m 3 d) (dr main_v19) = slabOfM m 0 d := (Function.update_of_ne (show dr main_v19 ≠ dr main_v46 by decide) _ _).trans hS0B3
  have hS1_4 : Function.update (after Tc.hostB3 W3) (dr main_v46) (slabOfM m 3 d) (dr main_v28) = slabOfM m 1 d := (Function.update_of_ne (show dr main_v28 ≠ dr main_v46 by decide) _ _).trans hS1B3
  have hS2_4 : Function.update (after Tc.hostB3 W3) (dr main_v46) (slabOfM m 3 d) (dr main_v37) = slabOfM m 2 d := (Function.update_of_ne (show dr main_v37 ≠ dr main_v46 by decide) _ _).trans hS2B3
  have hS3_4 : Function.update (after Tc.hostB3 W3) (dr main_v46) (slabOfM m 3 d) (dr main_v46) = slabOfM m 3 d := Function.update_self _ _ _
  generalize hW4 : Function.update (after Tc.hostB3 W3) (dr main_v46) (slabOfM m 3 d) = W4 at hK4 hP8_4 hP9_4 hP10_4 hS0_4 hS1_4 hS2_4 hS3_4 ⊢
  iapply (region_stepG0 (PG m) κ d W4 _ _) $$ [Hst Hb Hh Hcg0 Hti0 Hcg1 Hti1 Hcg2 Hti2 Hcg3 Hti3]
  isplitr; · iexact Hctx
  isplitl [Hst]; · iexact Hst
  isplitl [Hb]; · iexact Hb
  isplitl [Hh]; · iexact Hh
  isplitl [Hcg0]; · iexact Hcg0
  isplitl [Hti0]; · iexact Hti0
  iintro ⟨Hst, Hb, Hh⟩
  ihave Hs4 := (wp_seq 𝒱 none Set.univ d (Pipeline.ucRefs τ sig) _ Tc.cp1 Tc.cp1_sub Tc.cp1_fresh (Function.update W4 (dr main_v47) (Tc.fin4 (Ix := HIx 4) (Name := ℕ) (U := UU) (Lvl := ℕ) (asV W4) d 5))) $$ [Hb Hh]
  · isplitl [Hb] <;> iassumption
  iapply Hs4
  iintro ⟨Hb, Hh⟩
  iapply (region_stepG1 (PG m) κ d (after Tc.cp1 (Function.update W4 (dr main_v47) (Tc.fin4 (Ix := HIx 4) (Name := ℕ) (U := UU) (Lvl := ℕ) (asV W4) d 5))) _ _) $$ [Hst Hb Hh Hcg1 Hti1 Hcg2 Hti2 Hcg3 Hti3]
  isplitr; · iexact Hctx
  isplitl [Hst]; · iexact Hst
  isplitl [Hb]; · iexact Hb
  isplitl [Hh]; · iexact Hh
  isplitl [Hcg1]; · iexact Hcg1
  isplitl [Hti1]; · iexact Hti1
  iintro ⟨Hst, Hb, Hh⟩
  ihave Hs5 := (wp_seq 𝒱 none Set.univ d (Pipeline.ucRefs τ sig) _ Tc.cp2 Tc.cp2_sub Tc.cp2_fresh (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) $$ [Hb Hh]
  · isplitl [Hb] <;> iassumption
  iapply Hs5
  iintro ⟨Hb, Hh⟩
  iapply (region_stepG2 (PG m) κ d (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) _ _) $$ [Hst Hb Hh Hcg2 Hti2 Hcg3 Hti3]
  isplitr; · iexact Hctx
  isplitl [Hst]; · iexact Hst
  isplitl [Hb]; · iexact Hb
  isplitl [Hh]; · iexact Hh
  isplitl [Hcg2]; · iexact Hcg2
  isplitl [Hti2]; · iexact Hti2
  iintro ⟨Hst, Hb, Hh⟩
  ihave Hs6 := (wp_seq 𝒱 none Set.univ d (Pipeline.ucRefs τ sig) _ Tc.cp3 Tc.cp3_sub Tc.cp3_fresh (Function.update (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) (dr main_v49) (Tc.fin6 (Ix := HIx 4) (Name := ℕ) (U := UU) (Lvl := ℕ) (asV (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5)))) d 5))) $$ [Hb Hh]
  · isplitl [Hb] <;> iassumption
  iapply Hs6
  iintro ⟨Hb, Hh⟩
  iapply (region_stepG3 (PG m) κ d (after Tc.cp3 (Function.update (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) (dr main_v49) (Tc.fin6 (Ix := HIx 4) (Name := ℕ) (U := UU) (Lvl := ℕ) (asV (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5)))) d 5))) _ _) $$ [Hst Hb Hh Hcg3 Hti3]
  isplitr; · iexact Hctx
  isplitl [Hst]; · iexact Hst
  isplitl [Hb]; · iexact Hb
  isplitl [Hh]; · iexact Hh
  isplitl [Hcg3]; · iexact Hcg3
  isplitl [Hti3]; · iexact Hti3
  iintro ⟨Hst, Hb, Hh⟩
  -- the return: the last valuation is the four regions and three copies applied to the valuation the fourth call left
  rw [wp_ret]; imodintro
  isplitl [Hst]; · iexact Hst
  have hfin : Tc.Wr3 (HIx 4) ℕ UU ℕ d W4 (dr main_v50) = RefRes m d :=
    Tc.final_eq d W4 _ _ _ _ _ _ _ _ _ _ _ _ (hpre d) hS0_4 hS1_4 hS2_4 hS3_4 (kept_arg m d hK4 main_arg8 (by decide) (by decide)) hP8_4 hP9_4 hP10_4
  have hKf : Kept m d (Tc.Wr3 (HIx 4) ℕ UU ℕ d W4) :=
    kept_update m d (kept_c3 m d (kept_update m d (kept_c2 m d (kept_update m d (kept_c1 m d (kept_update m d hK4 main_v47 (by decide) _)) main_v48 (by decide) _)) main_v49 (by decide) _)) main_v50 (by decide) _
  ihave Hh' := (Entails.of_eq (show (held (d.tc : Thread nD τ) (Pipeline.ucRefs τ sig) (Function.update (after Tc.cp3 (Function.update (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) (dr main_v49) (Tc.fin6 (Ix := HIx 4) (Name := ℕ) (U := UU) (Lvl := ℕ) (asV (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5)))) d 5))) (dr main_v50) (Tc.fin7 (Ix := HIx 4) (Name := ℕ) (U := UU) (Lvl := ℕ) (asV (after Tc.cp3 (Function.update (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5))) (dr main_v49) (Tc.fin6 (Ix := HIx 4) (Name := ℕ) (U := UU) (Lvl := ℕ) (asV (after Tc.cp2 (Function.update (after Tc.cp1 (Function.update W4 (dr main_v47) (Tc.fin4 (Ix := HIx 4) (Name := ℕ) (U := UU) (Lvl := ℕ) (asV W4) d 5))) (dr main_v48) (Tc.fin5 (Ix := HIx 4) (Name := ℕ) (U := UU) (Lvl := ℕ) (asV (after Tc.cp1 (Function.update W4 (dr main_v47) (Tc.fin4 (Ix := HIx 4) (Name := ℕ) (U := UU) (Lvl := ℕ) (asV W4) d 5)))) d 5)))) d 5)))) d 5)) : sProp 𝕄) = held (d.tc : Thread nD τ) (Pipeline.ucRefs τ sig) (Tc.Wr3 (HIx 4) ℕ UU ℕ d W4) from rfl)) $$ Hh
  ihave Hf := (finG_of_held m d (Tc.Wr3 (HIx 4) ℕ UU ℕ d W4) hKf) $$ Hh'
  unfold FING
  rw [← hfin]
  iexact Hf

end Cert.KernelIdeal.Sc

end
-- ==== Proof.ScTileV0.lean ====
/-
  One vector subcore's task in gather call 0: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScVal

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_bodyV0 (d : Dev nD) (L : grid0.Coords) (O : CellTallies nD τ sig (HIx 4)) (W : Waits sig (HIx 4)) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    (G : Buf (Elt F) (((Memref.whole main_v19_scv : Memref sig .scVector .hbm S25088x512 .f32).slice (Rect.unit (s := S25088x512) (k0_off2 L 0#32) S112x128.size (k0_off2_inb L 0)) (fun _ => rfl)).view.loc (V d (cV0 L) (jV0 L))))
    (hG0_0 : ∀ y, ((Memref.whole main_v19_scv : Memref sig .scVector .hbm S25088x512 .f32).slice (Rect.unit (s := S25088x512) (k0_off2 L 0#32) S112x128.size (k0_off2_inb L 0)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v19_scv : Memref sig .scVector .hbm S25088x512 .f32).slice (Rect.unit (s := S25088x512) (k0_off2 L 112#32) S112x128.size (k0_off2_inb L 1)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v19_scv : Memref sig .scVector .hbm S25088x512 .f32).slice (Rect.unit (s := S25088x512) (k0_off2 L 224#32) S112x128.size (k0_off2_inb L 2)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v19_scv : Memref sig .scVector .hbm S25088x512 .f32).slice (Rect.unit (s := S25088x512) (k0_off2 L 336#32) S112x128.size (k0_off2_inb L 3)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v19_scv : Memref sig .scVector .hbm S25088x512 .f32).slice (Rect.unit (s := S25088x512) (k0_off2 L 448#32) S112x128.size (k0_off2_inb L 4)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v19_scv : Memref sig .scVector .hbm S25088x512 .f32).slice (Rect.unit (s := S25088x512) (k0_off2 L 560#32) S112x128.size (k0_off2_inb L 5)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v19_scv : Memref sig .scVector .hbm S25088x512 .f32).slice (Rect.unit (s := S25088x512) (k0_off2 L 672#32) S112x128.size (k0_off2_inb L 6)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v19_scv : Memref sig .scVector .hbm S25088x512 .f32).slice (Rect.unit (s := S25088x512) (k0_off3 L 0#32) S112x128.size (k0_off3_inb L 0)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v19_scv : Memref sig .scVector .hbm S25088x512 .f32).slice (Rect.unit (s := S25088x512) (k0_off3 L 112#32) S112x128.size (k0_off3_inb L 1)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v19_scv : Memref sig .scVector .hbm S25088x512 .f32).slice (Rect.unit (s := S25088x512) (k0_off3 L 224#32) S112x128.size (k0_off3_inb L 2)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v19_scv : Memref sig .scVector .hbm S25088x512 .f32).slice (Rect.unit (s := S25088x512) (k0_off3 L 336#32) S112x128.size (k0_off3_inb L 3)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v19_scv : Memref sig .scVector .hbm S25088x512 .f32).slice (Rect.unit (s := S25088x512) (k0_off3 L 448#32) S112x128.size (k0_off3_inb L 4)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v19_scv : Memref sig .scVector .hbm S25088x512 .f32).slice (Rect.unit (s := S25088x512) (k0_off3 L 560#32) S112x128.size (k0_off3_inb L 5)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v19_scv : Memref sig .scVector .hbm S25088x512 .f32).slice (Rect.unit (s := S25088x512) (k0_off3 L 672#32) S112x128.size (k0_off3_inb L 6)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v19_scv : Memref sig .scVector .hbm S25088x512 .f32).slice (Rect.unit (s := S25088x512) (k0_off4 L 0#32) S112x128.size (k0_off4_inb L 0)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v19_scv : Memref sig .scVector .hbm S25088x512 .f32).slice (Rect.unit (s := S25088x512) (k0_off4 L 112#32) S112x128.size (k0_off4_inb L 1)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v19_scv : Memref sig .scVector .hbm S25088x512 .f32).slice (Rect.unit (s := S25088x512) (k0_off4 L 224#32) S112x128.size (k0_off4_inb L 2)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v19_scv : Memref sig .scVector .hbm S25088x512 .f32).slice (Rect.unit (s := S25088x512) (k0_off4 L 336#32) S112x128.size (k0_off4_inb L 3)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v19_scv : Memref sig .scVector .hbm S25088x512 .f32).slice (Rect.unit (s := S25088x512) (k0_off4 L 448#32) S112x128.size (k0_off4_inb L 4)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v19_scv : Memref sig .scVector .hbm S25088x512 .f32).slice (Rect.unit (s := S25088x512) (k0_off4 L 560#32) S112x128.size (k0_off4_inb L 5)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v19_scv : Memref sig .scVector .hbm S25088x512 .f32).slice (Rect.unit (s := S25088x512) (k0_off4 L 672#32) S112x128.size (k0_off4_inb L 6)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v19_scv : Memref sig .scVector .hbm S25088x512 .f32).slice (Rect.unit (s := S25088x512) (k0_off5 L 0#32) S112x128.size (k0_off5_inb L 0)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v19_scv : Memref sig .scVector .hbm S25088x512 .f32).slice (Rect.unit (s := S25088x512) (k0_off5 L 112#32) S112x128.size (k0_off5_inb L 1)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v19_scv : Memref sig .scVector .hbm S25088x512 .f32).slice (Rect.unit (s := S25088x512) (k0_off5 L 224#32) S112x128.size (k0_off5_inb L 2)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v19_scv : Memref sig .scVector .hbm S25088x512 .f32).slice (Rect.unit (s := S25088x512) (k0_off5 L 336#32) S112x128.size (k0_off5_inb L 3)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v19_scv : Memref sig .scVector .hbm S25088x512 .f32).slice (Rect.unit (s := S25088x512) (k0_off5 L 448#32) S112x128.size (k0_off5_inb L 4)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v19_scv : Memref sig .scVector .hbm S25088x512 .f32).slice (Rect.unit (s := S25088x512) (k0_off5 L 560#32) S112x128.size (k0_off5_inb L 5)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v19_scv : Memref sig .scVector .hbm S25088x512 .f32).slice (Rect.unit (s := S25088x512) (k0_off5 L 672#32) S112x128.size (k0_off5_inb L 6)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(Transfers.MayWaits (V d (cV0 L) (jV0 L)) (none : HIx 4) O
        ∗ ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
        ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
        ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
        ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
        ∗ ((Memref.whole main_arg0_scv : Memref sig .scVector .hbm S100000x128 .f32).view.loc (V d (cV0 L) (jV0 L)) ↦{Transfers.shareTok qx 11 (4 : Fin 11)} fx0)
        ∗ ((Memref.whole main_arg0_scv : Memref sig .scVector .hbm S100000x128 .f32).view.loc (V d (cV0 L) (jV0 L)) ↦{Transfers.shareTok qx 11 (5 : Fin 11)} fx0)
        ∗ ((Memref.whole main_arg0_scv : Memref sig .scVector .hbm S100000x128 .f32).view.loc (V d (cV0 L) (jV0 L)) ↦{Transfers.shareTok qx 11 (6 : Fin 11)} fx0)
        ∗ ((Memref.whole main_arg0_scv : Memref sig .scVector .hbm S100000x128 .f32).view.loc (V d (cV0 L) (jV0 L)) ↦{Transfers.shareTok qx 11 (7 : Fin 11)} fx0)
        ∗ ((Memref.whole main_arg0_scv : Memref sig .scVector .hbm S100000x128 .f32).view.loc (V d (cV0 L) (jV0 L)) ↦{Transfers.shareTok qx 11 (8 : Fin 11)} fx0)
        ∗ ((Memref.whole main_arg0_scv : Memref sig .scVector .hbm S100000x128 .f32).view.loc (V d (cV0 L) (jV0 L)) ↦{Transfers.shareTok qx 11 (9 : Fin 11)} fx0)
        ∗ ((Memref.whole main_arg0_scv : Memref sig .scVector .hbm S100000x128 .f32).view.loc (V d (cV0 L) (jV0 L)) ↦{Transfers.shareTok qx 11 (10 : Fin 11)} fx0)
        ∗ ((Memref.whole main_arg1_scv : Memref sig .scVector .hbm S100000x128 .f32).view.loc (V d (cV0 L) (jV0 L)) ↦{Transfers.shareTok qx 11 (4 : Fin 11)} fx1)
        ∗ ((Memref.whole main_arg1_scv : Memref sig .scVector .hbm S100000x128 .f32).view.loc (V d (cV0 L) (jV0 L)) ↦{Transfers.shareTok qx 11 (5 : Fin 11)} fx1)
        ∗ ((Memref.whole main_arg1_scv : Memref sig .scVector .hbm S100000x128 .f32).view.loc (V d (cV0 L) (jV0 L)) ↦{Transfers.shareTok qx 11 (6 : Fin 11)} fx1)
        ∗ ((Memref.whole main_arg1_scv : Memref sig .scVector .hbm S100000x128 .f32).view.loc (V d (cV0 L) (jV0 L)) ↦{Transfers.shareTok qx 11 (7 : Fin 11)} fx1)
        ∗ ((Memref.whole main_arg1_scv : Memref sig .scVector .hbm S100000x128 .f32).view.loc (V d (cV0 L) (jV0 L)) ↦{Transfers.shareTok qx 11 (8 : Fin 11)} fx1)
        ∗ ((Memref.whole main_arg1_scv : Memref sig .scVector .hbm S100000x128 .f32).view.loc (V d (cV0 L) (jV0 L)) ↦{Transfers.shareTok qx 11 (9 : Fin 11)} fx1)
        ∗ ((Memref.whole main_arg1_scv : Memref sig .scVector .hbm S100000x128 .f32).view.loc (V d (cV0 L) (jV0 L)) ↦{Transfers.shareTok qx 11 (10 : Fin 11)} fx1)
        ∗ ((Memref.whole main_arg2_scv : Memref sig .scVector .hbm S100000x128 .f32).view.loc (V d (cV0 L) (jV0 L)) ↦{Transfers.shareTok qx 11 (4 : Fin 11)} fx2)
        ∗ ((Memref.whole main_arg2_scv : Memref sig .scVector .hbm S100000x128 .f32).view.loc (V d (cV0 L) (jV0 L)) ↦{Transfers.shareTok qx 11 (5 : Fin 11)} fx2)
        ∗ ((Memref.whole main_arg2_scv : Memref sig .scVector .hbm S100000x128 .f32).view.loc (V d (cV0 L) (jV0 L)) ↦{Transfers.shareTok qx 11 (6 : Fin 11)} fx2)
        ∗ ((Memref.whole main_arg2_scv : Memref sig .scVector .hbm S100000x128 .f32).view.loc (V d (cV0 L) (jV0 L)) ↦{Transfers.shareTok qx 11 (7 : Fin 11)} fx2)
        ∗ ((Memref.whole main_arg2_scv : Memref sig .scVector .hbm S100000x128 .f32).view.loc (V d (cV0 L) (jV0 L)) ↦{Transfers.shareTok qx 11 (8 : Fin 11)} fx2)
        ∗ ((Memref.whole main_arg2_scv : Memref sig .scVector .hbm S100000x128 .f32).view.loc (V d (cV0 L) (jV0 L)) ↦{Transfers.shareTok qx 11 (9 : Fin 11)} fx2)
        ∗ ((Memref.whole main_arg2_scv : Memref sig .scVector .hbm S100000x128 .f32).view.loc (V d (cV0 L) (jV0 L)) ↦{Transfers.shareTok qx 11 (10 : Fin 11)} fx2)
        ∗ ((Memref.whole main_arg3_scv : Memref sig .scVector .hbm S100000x128 .f32).view.loc (V d (cV0 L) (jV0 L)) ↦{Transfers.shareTok qx 11 (4 : Fin 11)} fx3)
        ∗ ((Memref.whole main_arg3_scv : Memref sig .scVector .hbm S100000x128 .f32).view.loc (V d (cV0 L) (jV0 L)) ↦{Transfers.shareTok qx 11 (5 : Fin 11)} fx3)
        ∗ ((Memref.whole main_arg3_scv : Memref sig .scVector .hbm S100000x128 .f32).view.loc (V d (cV0 L) (jV0 L)) ↦{Transfers.shareTok qx 11 (6 : Fin 11)} fx3)
        ∗ ((Memref.whole main_arg3_scv : Memref sig .scVector .hbm S100000x128 .f32).view.loc (V d (cV0 L) (jV0 L)) ↦{Transfers.shareTok qx 11 (7 : Fin 11)} fx3)
        ∗ ((Memref.whole main_arg3_scv : Memref sig .scVector .hbm S100000x128 .f32).view.loc (V d (cV0 L) (jV0 L)) ↦{Transfers.shareTok qx 11 (8 : Fin 11)} fx3)
        ∗ ((Memref.whole main_arg3_scv : Memref sig .scVector .hbm S100000x128 .f32).view.loc (V d (cV0 L) (jV0 L)) ↦{Transfers.shareTok qx 11 (9 : Fin 11)} fx3)
        ∗ ((Memref.whole main_arg3_scv : Memref sig .scVector .hbm S100000x128 .f32).view.loc (V d (cV0 L) (jV0 L)) ↦{Transfers.shareTok qx 11 (10 : Fin 11)} fx3)
        ∗ (∃ fo, ((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} fo)
        ∗ (∃ fo, ((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} fo)
        ∗ (∃ fo, ((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} fo)
        ∗ (∃ fo, ((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} fo)
        ∗ (∃ fo, ((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} fo)
        ∗ (∃ fo, ((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} fo)
        ∗ (∃ fo, ((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} fo)
        ∗ (∃ fo, ((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} fo)
        ∗ (∃ fo, ((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} fo)
        ∗ (∃ fo, ((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} fo)
        ∗ (∃ fo, ((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} fo)
        ∗ (∃ fo, ((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} fo)
        ∗ (∃ fo, ((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} fo)
        ∗ (∃ fo, ((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} fo)
        ∗ (∃ fo, ((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} fo)
        ∗ (∃ fo, ((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} fo)
        ∗ (∃ fo, ((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} fo)
        ∗ (∃ fo, ((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} fo)
        ∗ (∃ fo, ((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} fo)
        ∗ (∃ fo, ((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} fo)
        ∗ (∃ fo, ((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} fo)
        ∗ (∃ fo, ((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} fo)
        ∗ (∃ fo, ((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} fo)
        ∗ (∃ fo, ((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} fo)
        ∗ (∃ fo, ((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} fo)
        ∗ (∃ fo, ((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} fo)
        ∗ (∃ fo, ((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} fo)
        ∗ (∃ fo, ((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} fo)
        ∗ (∃ si, (Memref.whole cc0_scratch0 : Memref sig .scVector .vmem S7x112 .i32).view.loc (V d (cV0 L) (jV0 L)) ↦{fullShare} si)
        ∗ (∃ si, (Memref.whole cc0_scratch1 : Memref sig .scVector .vmem S7x112 .i32).view.loc (V d (cV0 L) (jV0 L)) ↦{fullShare} si)
        ∗ (∃ si, (Memref.whole cc0_scratch2 : Memref sig .scVector .vmem S7x112 .i32).view.loc (V d (cV0 L) (jV0 L)) ↦{fullShare} si)
        ∗ (∃ si, (Memref.whole cc0_scratch3 : Memref sig .scVector .vmem S7x112 .i32).view.loc (V d (cV0 L) (jV0 L)) ↦{fullShare} si)
        ∗ (∃ sb, (Memref.whole cc0_scratch4 : Memref sig .scVector .vmem S112x128 .f32).view.loc (V d (cV0 L) (jV0 L)) ↦{fullShare} sb)
        ∗ (∃ sb, (Memref.whole cc0_scratch5 : Memref sig .scVector .vmem S112x128 .f32).view.loc (V d (cV0 L) (jV0 L)) ↦{fullShare} sb)
        ∗ (∃ sb, (Memref.whole cc0_scratch6 : Memref sig .scVector .vmem S112x128 .f32).view.loc (V d (cV0 L) (jV0 L)) ↦{fullShare} sb)
        ∗ (∃ sb, (Memref.whole cc0_scratch7 : Memref sig .scVector .vmem S112x128 .f32).view.loc (V d (cV0 L) (jV0 L)) ↦{fullShare} sb)
        ∗ (∃ sb, (Memref.whole cc0_scratch8 : Memref sig .scVector .vmem S112x128 .f32).view.loc (V d (cV0 L) (jV0 L)) ↦{fullShare} sb)
        ∗ (∃ sb, (Memref.whole cc0_scratch9 : Memref sig .scVector .vmem S112x128 .f32).view.loc (V d (cV0 L) (jV0 L)) ↦{fullShare} sb)
        ∗ (∃ sb, (Memref.whole cc0_scratch10 : Memref sig .scVector .vmem S112x128 .f32).view.loc (V d (cV0 L) (jV0 L)) ↦{fullShare} sb)
        ∗ semVal ((V d (cV0 L) (jV0 L)), SemLoc.dma cc0_scratch11.sem) 0
        ∗ semVal ((V d (cV0 L) (jV0 L)), SemLoc.dma cc0_scratch12.sem) 0
        ∗ semVal ((V d (cV0 L) (jV0 L)), SemLoc.dma cc0_scratch13.sem) 0
        ∗ semVal ((V d (cV0 L) (jV0 L)), SemLoc.dma cc0_scratch14.sem) 0
        ∗ semVal ((V d (cV0 L) (jV0 L)), SemLoc.dma cc0_scratch15.sem) 0
        ∗ semVal ((V d (cV0 L) (jV0 L)), SemLoc.dma cc0_scratch16.sem) 0
        ∗ semVal ((V d (cV0 L) (jV0 L)), SemLoc.dma cc0_scratch17.sem) 0
        ∗ semVal ((V d (cV0 L) (jV0 L)), SemLoc.dma cc0_scratch18.sem) 0
        ∗ semVal ((V d (cV0 L) (jV0 L)), SemLoc.dma cc0_scratch19.sem) 0
        ∗ semVal ((V d (cV0 L) (jV0 L)), SemLoc.dma cc0_scratch20.sem) 0
        ∗ semVal ((V d (cV0 L) (jV0 L)), SemLoc.dma cc0_scratch21.sem) 0
        ∗ semVal ((V d (cV0 L) (jV0 L)), SemLoc.dma cc0_scratch22.sem) 0
        ∗ semVal ((V d (cV0 L) (jV0 L)), SemLoc.dma cc0_scratch23.sem) 0
        ∗ semVal ((V d (cV0 L) (jV0 L)), SemLoc.dma cc0_scratch24.sem) 0
        ∗ semVal ((V d (cV0 L) (jV0 L)), SemLoc.dma cc0_scratch25.sem) 0
        ∗ semVal ((V d (cV0 L) (jV0 L)), SemLoc.dma cc0_scratch26.sem) 0
        ∗ semVal ((V d (cV0 L) (jV0 L)), SemLoc.dma cc0_scratch27.sem) 0
        ∗ semVal ((V d (cV0 L) (jV0 L)), SemLoc.dma cc0_scratch28.sem) 0
        ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(
              ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi0)
            ∗ ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi1)
            ∗ ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi2)
            ∗ ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)) ↦[(((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.set]{fullShare} fi3)
            ∗ ((Memref.whole main_arg0_scv : Memref sig .scVector .hbm S100000x128 .f32).view.loc (V d (cV0 L) (jV0 L)) ↦{Transfers.shareTok qx 11 (4 : Fin 11)} fx0)
            ∗ ((Memref.whole main_arg0_scv : Memref sig .scVector .hbm S100000x128 .f32).view.loc (V d (cV0 L) (jV0 L)) ↦{Transfers.shareTok qx 11 (5 : Fin 11)} fx0)
            ∗ ((Memref.whole main_arg0_scv : Memref sig .scVector .hbm S100000x128 .f32).view.loc (V d (cV0 L) (jV0 L)) ↦{Transfers.shareTok qx 11 (6 : Fin 11)} fx0)
            ∗ ((Memref.whole main_arg0_scv : Memref sig .scVector .hbm S100000x128 .f32).view.loc (V d (cV0 L) (jV0 L)) ↦{Transfers.shareTok qx 11 (7 : Fin 11)} fx0)
            ∗ ((Memref.whole main_arg0_scv : Memref sig .scVector .hbm S100000x128 .f32).view.loc (V d (cV0 L) (jV0 L)) ↦{Transfers.shareTok qx 11 (8 : Fin 11)} fx0)
            ∗ ((Memref.whole main_arg0_scv : Memref sig .scVector .hbm S100000x128 .f32).view.loc (V d (cV0 L) (jV0 L)) ↦{Transfers.shareTok qx 11 (9 : Fin 11)} fx0)
            ∗ ((Memref.whole main_arg0_scv : Memref sig .scVector .hbm S100000x128 .f32).view.loc (V d (cV0 L) (jV0 L)) ↦{Transfers.shareTok qx 11 (10 : Fin 11)} fx0)
            ∗ ((Memref.whole main_arg1_scv : Memref sig .scVector .hbm S100000x128 .f32).view.loc (V d (cV0 L) (jV0 L)) ↦{Transfers.shareTok qx 11 (4 : Fin 11)} fx1)
            ∗ ((Memref.whole main_arg1_scv : Memref sig .scVector .hbm S100000x128 .f32).view.loc (V d (cV0 L) (jV0 L)) ↦{Transfers.shareTok qx 11 (5 : Fin 11)} fx1)
            ∗ ((Memref.whole main_arg1_scv : Memref sig .scVector .hbm S100000x128 .f32).view.loc (V d (cV0 L) (jV0 L)) ↦{Transfers.shareTok qx 11 (6 : Fin 11)} fx1)
            ∗ ((Memref.whole main_arg1_scv : Memref sig .scVector .hbm S100000x128 .f32).view.loc (V d (cV0 L) (jV0 L)) ↦{Transfers.shareTok qx 11 (7 : Fin 11)} fx1)
            ∗ ((Memref.whole main_arg1_scv : Memref sig .scVector .hbm S100000x128 .f32).view.loc (V d (cV0 L) (jV0 L)) ↦{Transfers.shareTok qx 11 (8 : Fin 11)} fx1)
            ∗ ((Memref.whole main_arg1_scv : Memref sig .scVector .hbm S100000x128 .f32).view.loc (V d (cV0 L) (jV0 L)) ↦{Transfers.shareTok qx 11 (9 : Fin 11)} fx1)
            ∗ ((Memref.whole main_arg1_scv : Memref sig .scVector .hbm S100000x128 .f32).view.loc (V d (cV0 L) (jV0 L)) ↦{Transfers.shareTok qx 11 (10 : Fin 11)} fx1)
            ∗ ((Memref.whole main_arg2_scv : Memref sig .scVector .hbm S100000x128 .f32).view.loc (V d (cV0 L) (jV0 L)) ↦{Transfers.shareTok qx 11 (4 : Fin 11)} fx2)
            ∗ ((Memref.whole main_arg2_scv : Memref sig .scVector .hbm S100000x128 .f32).view.loc (V d (cV0 L) (jV0 L)) ↦{Transfers.shareTok qx 11 (5 : Fin 11)} fx2)
            ∗ ((Memref.whole main_arg2_scv : Memref sig .scVector .hbm S100000x128 .f32).view.loc (V d (cV0 L) (jV0 L)) ↦{Transfers.shareTok qx 11 (6 : Fin 11)} fx2)
            ∗ ((Memref.whole main_arg2_scv : Memref sig .scVector .hbm S100000x128 .f32).view.loc (V d (cV0 L) (jV0 L)) ↦{Transfers.shareTok qx 11 (7 : Fin 11)} fx2)
            ∗ ((Memref.whole main_arg2_scv : Memref sig .scVector .hbm S100000x128 .f32).view.loc (V d (cV0 L) (jV0 L)) ↦{Transfers.shareTok qx 11 (8 : Fin 11)} fx2)
            ∗ ((Memref.whole main_arg2_scv : Memref sig .scVector .hbm S100000x128 .f32).view.loc (V d (cV0 L) (jV0 L)) ↦{Transfers.shareTok qx 11 (9 : Fin 11)} fx2)
            ∗ ((Memref.whole main_arg2_scv : Memref sig .scVector .hbm S100000x128 .f32).view.loc (V d (cV0 L) (jV0 L)) ↦{Transfers.shareTok qx 11 (10 : Fin 11)} fx2)
            ∗ ((Memref.whole main_arg3_scv : Memref sig .scVector .hbm S100000x128 .f32).view.loc (V d (cV0 L) (jV0 L)) ↦{Transfers.shareTok qx 11 (4 : Fin 11)} fx3)
            ∗ ((Memref.whole main_arg3_scv : Memref sig .scVector .hbm S100000x128 .f32).view.loc (V d (cV0 L) (jV0 L)) ↦{Transfers.shareTok qx 11 (5 : Fin 11)} fx3)
            ∗ ((Memref.whole main_arg3_scv : Memref sig .scVector .hbm S100000x128 .f32).view.loc (V d (cV0 L) (jV0 L)) ↦{Transfers.shareTok qx 11 (6 : Fin 11)} fx3)
            ∗ ((Memref.whole main_arg3_scv : Memref sig .scVector .hbm S100000x128 .f32).view.loc (V d (cV0 L) (jV0 L)) ↦{Transfers.shareTok qx 11 (7 : Fin 11)} fx3)
            ∗ ((Memref.whole main_arg3_scv : Memref sig .scVector .hbm S100000x128 .f32).view.loc (V d (cV0 L) (jV0 L)) ↦{Transfers.shareTok qx 11 (8 : Fin 11)} fx3)
            ∗ ((Memref.whole main_arg3_scv : Memref sig .scVector .hbm S100000x128 .f32).view.loc (V d (cV0 L) (jV0 L)) ↦{Transfers.shareTok qx 11 (9 : Fin 11)} fx3)
            ∗ ((Memref.whole main_arg3_scv : Memref sig .scVector .hbm S100000x128 .f32).view.loc (V d (cV0 L) (jV0 L)) ↦{Transfers.shareTok qx 11 (10 : Fin 11)} fx3)
            ∗ (((Memref.whole main_v19_scv : Memref sig .scVector .hbm S25088x512 .f32).slice (Rect.unit (s := S25088x512) (k0_off2 L 0#32) S112x128.size (k0_off2_inb L 0)) (fun _ => rfl)).view.loc (V d (cV0 L) (jV0 L)) ↦[((Memref.whole main_v19_scv : Memref sig .scVector .hbm S25088x512 .f32).slice (Rect.unit (s := S25088x512) (k0_off2 L 0#32) S112x128.size (k0_off2_inb L 0)) (fun _ => rfl)).view.set]{fullShare} G)
            ∗ (((Memref.whole main_v19_scv : Memref sig .scVector .hbm S25088x512 .f32).slice (Rect.unit (s := S25088x512) (k0_off2 L 112#32) S112x128.size (k0_off2_inb L 1)) (fun _ => rfl)).view.loc (V d (cV0 L) (jV0 L)) ↦[((Memref.whole main_v19_scv : Memref sig .scVector .hbm S25088x512 .f32).slice (Rect.unit (s := S25088x512) (k0_off2 L 112#32) S112x128.size (k0_off2_inb L 1)) (fun _ => rfl)).view.set]{fullShare} G)
            ∗ (((Memref.whole main_v19_scv : Memref sig .scVector .hbm S25088x512 .f32).slice (Rect.unit (s := S25088x512) (k0_off2 L 224#32) S112x128.size (k0_off2_inb L 2)) (fun _ => rfl)).view.loc (V d (cV0 L) (jV0 L)) ↦[((Memref.whole main_v19_scv : Memref sig .scVector .hbm S25088x512 .f32).slice (Rect.unit (s := S25088x512) (k0_off2 L 224#32) S112x128.size (k0_off2_inb L 2)) (fun _ => rfl)).view.set]{fullShare} G)
            ∗ (((Memref.whole main_v19_scv : Memref sig .scVector .hbm S25088x512 .f32).slice (Rect.unit (s := S25088x512) (k0_off2 L 336#32) S112x128.size (k0_off2_inb L 3)) (fun _ => rfl)).view.loc (V d (cV0 L) (jV0 L)) ↦[((Memref.whole main_v19_scv : Memref sig .scVector .hbm S25088x512 .f32).slice (Rect.unit (s := S25088x512) (k0_off2 L 336#32) S112x128.size (k0_off2_inb L 3)) (fun _ => rfl)).view.set]{fullShare} G)
            ∗ (((Memref.whole main_v19_scv : Memref sig .scVector .hbm S25088x512 .f32).slice (Rect.unit (s := S25088x512) (k0_off2 L 448#32) S112x128.size (k0_off2_inb L 4)) (fun _ => rfl)).view.loc (V d (cV0 L) (jV0 L)) ↦[((Memref.whole main_v19_scv : Memref sig .scVector .hbm S25088x512 .f32).slice (Rect.unit (s := S25088x512) (k0_off2 L 448#32) S112x128.size (k0_off2_inb L 4)) (fun _ => rfl)).view.set]{fullShare} G)
            ∗ (((Memref.whole main_v19_scv : Memref sig .scVector .hbm S25088x512 .f32).slice (Rect.unit (s := S25088x512) (k0_off2 L 560#32) S112x128.size (k0_off2_inb L 5)) (fun _ => rfl)).view.loc (V d (cV0 L) (jV0 L)) ↦[((Memref.whole main_v19_scv : Memref sig .scVector .hbm S25088x512 .f32).slice (Rect.unit (s := S25088x512) (k0_off2 L 560#32) S112x128.size (k0_off2_inb L 5)) (fun _ => rfl)).view.set]{fullShare} G)
            ∗ (((Memref.whole main_v19_scv : Memref sig .scVector .hbm S25088x512 .f32).slice (Rect.unit (s := S25088x512) (k0_off2 L 672#32) S112x128.size (k0_off2_inb L 6)) (fun _ => rfl)).view.loc (V d (cV0 L) (jV0 L)) ↦[((Memref.whole main_v19_scv : Memref sig .scVector .hbm S25088x512 .f32).slice (Rect.unit (s := S25088x512) (k0_off2 L 672#32) S112x128.size (k0_off2_inb L 6)) (fun _ => rfl)).view.set]{fullShare} G)
            ∗ (((Memref.whole main_v19_scv : Memref sig .scVector .hbm S25088x512 .f32).slice (Rect.unit (s := S25088x512) (k0_off3 L 0#32) S112x128.size (k0_off3_inb L 0)) (fun _ => rfl)).view.loc (V d (cV0 L) (jV0 L)) ↦[((Memref.whole main_v19_scv : Memref sig .scVector .hbm S25088x512 .f32).slice (Rect.unit (s := S25088x512) (k0_off3 L 0#32) S112x128.size (k0_off3_inb L 0)) (fun _ => rfl)).view.set]{fullShare} G)
            ∗ (((Memref.whole main_v19_scv : Memref sig .scVector .hbm S25088x512 .f32).slice (Rect.unit (s := S25088x512) (k0_off3 L 112#32) S112x128.size (k0_off3_inb L 1)) (fun _ => rfl)).view.loc (V d (cV0 L) (jV0 L)) ↦[((Memref.whole main_v19_scv : Memref sig .scVector .hbm S25088x512 .f32).slice (Rect.unit (s := S25088x512) (k0_off3 L 112#32) S112x128.size (k0_off3_inb L 1)) (fun _ => rfl)).view.set]{fullShare} G)
            ∗ (((Memref.whole main_v19_scv : Memref sig .scVector .hbm S25088x512 .f32).slice (Rect.unit (s := S25088x512) (k0_off3 L 224#32) S112x128.size (k0_off3_inb L 2)) (fun _ => rfl)).view.loc (V d (cV0 L) (jV0 L)) ↦[((Memref.whole main_v19_scv : Memref sig .scVector .hbm S25088x512 .f32).slice (Rect.unit (s := S25088x512) (k0_off3 L 224#32) S112x128.size (k0_off3_inb L 2)) (fun _ => rfl)).view.set]{fullShare} G)
            ∗ (((Memref.whole main_v19_scv : Memref sig .scVector .hbm S25088x512 .f32).slice (Rect.unit (s := S25088x512) (k0_off3 L 336#32) S112x128.size (k0_off3_inb L 3)) (fun _ => rfl)).view.loc (V d (cV0 L) (jV0 L)) ↦[((Memref.whole main_v19_scv : Memref sig .scVector .hbm S25088x512 .f32).slice (Rect.unit (s := S25088x512) (k0_off3 L 336#32) S112x128.size (k0_off3_inb L 3)) (fun _ => rfl)).view.set]{fullShare} G)
            ∗ (((Memref.whole main_v19_scv : Memref sig .scVector .hbm S25088x512 .f32).slice (Rect.unit (s := S25088x512) (k0_off3 L 448#32) S112x128.size (k0_off3_inb L 4)) (fun _ => rfl)).view.loc (V d (cV0 L) (jV0 L)) ↦[((Memref.whole main_v19_scv : Memref sig .scVector .hbm S25088x512 .f32).slice (Rect.unit (s := S25088x512) (k0_off3 L 448#32) S112x128.size (k0_off3_inb L 4)) (fun _ => rfl)).view.set]{fullShare} G)
            ∗ (((Memref.whole main_v19_scv : Memref sig .scVector .hbm S25088x512 .f32).slice (Rect.unit (s := S25088x512) (k0_off3 L 560#32) S112x128.size (k0_off3_inb L 5)) (fun _ => rfl)).view.loc (V d (cV0 L) (jV0 L)) ↦[((Memref.whole main_v19_scv : Memref sig .scVector .hbm S25088x512 .f32).slice (Rect.unit (s := S25088x512) (k0_off3 L 560#32) S112x128.size (k0_off3_inb L 5)) (fun _ => rfl)).view.set]{fullShare} G)
            ∗ (((Memref.whole main_v19_scv : Memref sig .scVector .hbm S25088x512 .f32).slice (Rect.unit (s := S25088x512) (k0_off3 L 672#32) S112x128.size (k0_off3_inb L 6)) (fun _ => rfl)).view.loc (V d (cV0 L) (jV0 L)) ↦[((Memref.whole main_v19_scv : Memref sig .scVector .hbm S25088x512 .f32).slice (Rect.unit (s := S25088x512) (k0_off3 L 672#32) S112x128.size (k0_off3_inb L 6)) (fun _ => rfl)).view.set]{fullShare} G)
            ∗ (((Memref.whole main_v19_scv : Memref sig .scVector .hbm S25088x512 .f32).slice (Rect.unit (s := S25088x512) (k0_off4 L 0#32) S112x128.size (k0_off4_inb L 0)) (fun _ => rfl)).view.loc (V d (cV0 L) (jV0 L)) ↦[((Memref.whole main_v19_scv : Memref sig .scVector .hbm S25088x512 .f32).slice (Rect.unit (s := S25088x512) (k0_off4 L 0#32) S112x128.size (k0_off4_inb L 0)) (fun _ => rfl)).view.set]{fullShare} G)
            ∗ (((Memref.whole main_v19_scv : Memref sig .scVector .hbm S25088x512 .f32).slice (Rect.unit (s := S25088x512) (k0_off4 L 112#32) S112x128.size (k0_off4_inb L 1)) (fun _ => rfl)).view.loc (V d (cV0 L) (jV0 L)) ↦[((Memref.whole main_v19_scv : Memref sig .scVector .hbm S25088x512 .f32).slice (Rect.unit (s := S25088x512) (k0_off4 L 112#32) S112x128.size (k0_off4_inb L 1)) (fun _ => rfl)).view.set]{fullShare} G)
            ∗ (((Memref.whole main_v19_scv : Memref sig .scVector .hbm S25088x512 .f32).slice (Rect.unit (s := S25088x512) (k0_off4 L 224#32) S112x128.size (k0_off4_inb L 2)) (fun _ => rfl)).view.loc (V d (cV0 L) (jV0 L)) ↦[((Memref.whole main_v19_scv : Memref sig .scVector .hbm S25088x512 .f32).slice (Rect.unit (s := S25088x512) (k0_off4 L 224#32) S112x128.size (k0_off4_inb L 2)) (fun _ => rfl)).view.set]{fullShare} G)
            ∗ (((Memref.whole main_v19_scv : Memref sig .scVector .hbm S25088x512 .f32).slice (Rect.unit (s := S25088x512) (k0_off4 L 336#32) S112x128.size (k0_off4_inb L 3)) (fun _ => rfl)).view.loc (V d (cV0 L) (jV0 L)) ↦[((Memref.whole main_v19_scv : Memref sig .scVector .hbm S25088x512 .f32).slice (Rect.unit (s := S25088x512) (k0_off4 L 336#32) S112x128.size (k0_off4_inb L 3)) (fun _ => rfl)).view.set]{fullShare} G)
            ∗ (((Memref.whole main_v19_scv : Memref sig .scVector .hbm S25088x512 .f32).slice (Rect.unit (s := S25088x512) (k0_off4 L 448#32) S112x128.size (k0_off4_inb L 4)) (fun _ => rfl)).view.loc (V d (cV0 L) (jV0 L)) ↦[((Memref.whole main_v19_scv : Memref sig .scVector .hbm S25088x512 .f32).slice (Rect.unit (s := S25088x512) (k0_off4 L 448#32) S112x128.size (k0_off4_inb L 4)) (fun _ => rfl)).view.set]{fullShare} G)
            ∗ (((Memref.whole main_v19_scv : Memref sig .scVector .hbm S25088x512 .f32).slice (Rect.unit (s := S25088x512) (k0_off4 L 560#32) S112x128.size (k0_off4_inb L 5)) (fun _ => rfl)).view.loc (V d (cV0 L) (jV0 L)) ↦[((Memref.whole main_v19_scv : Memref sig .scVector .hbm S25088x512 .f32).slice (Rect.unit (s := S25088x512) (k0_off4 L 560#32) S112x128.size (k0_off4_inb L 5)) (fun _ => rfl)).view.set]{fullShare} G)
            ∗ (((Memref.whole main_v19_scv : Memref sig .scVector .hbm S25088x512 .f32).slice (Rect.unit (s := S25088x512) (k0_off4 L 672#32) S112x128.size (k0_off4_inb L 6)) (fun _ => rfl)).view.loc (V d (cV0 L) (jV0 L)) ↦[((Memref.whole main_v19_scv : Memref sig .scVector .hbm S25088x512 .f32).slice (Rect.unit (s := S25088x512) (k0_off4 L 672#32) S112x128.size (k0_off4_inb L 6)) (fun _ => rfl)).view.set]{fullShare} G)
            ∗ (((Memref.whole main_v19_scv : Memref sig .scVector .hbm S25088x512 .f32).slice (Rect.unit (s := S25088x512) (k0_off5 L 0#32) S112x128.size (k0_off5_inb L 0)) (fun _ => rfl)).view.loc (V d (cV0 L) (jV0 L)) ↦[((Memref.whole main_v19_scv : Memref sig .scVector .hbm S25088x512 .f32).slice (Rect.unit (s := S25088x512) (k0_off5 L 0#32) S112x128.size (k0_off5_inb L 0)) (fun _ => rfl)).view.set]{fullShare} G)
            ∗ (((Memref.whole main_v19_scv : Memref sig .scVector .hbm S25088x512 .f32).slice (Rect.unit (s := S25088x512) (k0_off5 L 112#32) S112x128.size (k0_off5_inb L 1)) (fun _ => rfl)).view.loc (V d (cV0 L) (jV0 L)) ↦[((Memref.whole main_v19_scv : Memref sig .scVector .hbm S25088x512 .f32).slice (Rect.unit (s := S25088x512) (k0_off5 L 112#32) S112x128.size (k0_off5_inb L 1)) (fun _ => rfl)).view.set]{fullShare} G)
            ∗ (((Memref.whole main_v19_scv : Memref sig .scVector .hbm S25088x512 .f32).slice (Rect.unit (s := S25088x512) (k0_off5 L 224#32) S112x128.size (k0_off5_inb L 2)) (fun _ => rfl)).view.loc (V d (cV0 L) (jV0 L)) ↦[((Memref.whole main_v19_scv : Memref sig .scVector .hbm S25088x512 .f32).slice (Rect.unit (s := S25088x512) (k0_off5 L 224#32) S112x128.size (k0_off5_inb L 2)) (fun _ => rfl)).view.set]{fullShare} G)
            ∗ (((Memref.whole main_v19_scv : Memref sig .scVector .hbm S25088x512 .f32).slice (Rect.unit (s := S25088x512) (k0_off5 L 336#32) S112x128.size (k0_off5_inb L 3)) (fun _ => rfl)).view.loc (V d (cV0 L) (jV0 L)) ↦[((Memref.whole main_v19_scv : Memref sig .scVector .hbm S25088x512 .f32).slice (Rect.unit (s := S25088x512) (k0_off5 L 336#32) S112x128.size (k0_off5_inb L 3)) (fun _ => rfl)).view.set]{fullShare} G)
            ∗ (((Memref.whole main_v19_scv : Memref sig .scVector .hbm S25088x512 .f32).slice (Rect.unit (s := S25088x512) (k0_off5 L 448#32) S112x128.size (k0_off5_inb L 4)) (fun _ => rfl)).view.loc (V d (cV0 L) (jV0 L)) ↦[((Memref.whole main_v19_scv : Memref sig .scVector .hbm S25088x512 .f32).slice (Rect.unit (s := S25088x512) (k0_off5 L 448#32) S112x128.size (k0_off5_inb L 4)) (fun _ => rfl)).view.set]{fullShare} G)
            ∗ (((Memref.whole main_v19_scv : Memref sig .scVector .hbm S25088x512 .f32).slice (Rect.unit (s := S25088x512) (k0_off5 L 560#32) S112x128.size (k0_off5_inb L 5)) (fun _ => rfl)).view.loc (V d (cV0 L) (jV0 L)) ↦[((Memref.whole main_v19_scv : Memref sig .scVector .hbm S25088x512 .f32).slice (Rect.unit (s := S25088x512) (k0_off5 L 560#32) S112x128.size (k0_off5_inb L 5)) (fun _ => rfl)).view.set]{fullShare} G)
            ∗ (((Memref.whole main_v19_scv : Memref sig .scVector .hbm S25088x512 .f32).slice (Rect.unit (s := S25088x512) (k0_off5 L 672#32) S112x128.size (k0_off5_inb L 6)) (fun _ => rfl)).view.loc (V d (cV0 L) (jV0 L)) ↦[((Memref.whole main_v19_scv : Memref sig .scVector .hbm S25088x512 .f32).slice (Rect.unit (s := S25088x512) (k0_off5 L 672#32) S112x128.size (k0_off5_inb L 6)) (fun _ => rfl)).view.set]{fullShare} G)
            ∗ (∃ si, (Memref.whole cc0_scratch0 : Memref sig .scVector .vmem S7x112 .i32).view.loc (V d (cV0 L) (jV0 L)) ↦{fullShare} si)
            ∗ (∃ si, (Memref.whole cc0_scratch1 : Memref sig .scVector .vmem S7x112 .i32).view.loc (V d (cV0 L) (jV0 L)) ↦{fullShare} si)
            ∗ (∃ si, (Memref.whole cc0_scratch2 : Memref sig .scVector .vmem S7x112 .i32).view.loc (V d (cV0 L) (jV0 L)) ↦{fullShare} si)
            ∗ (∃ si, (Memref.whole cc0_scratch3 : Memref sig .scVector .vmem S7x112 .i32).view.loc (V d (cV0 L) (jV0 L)) ↦{fullShare} si)
            ∗ (∃ sb, (Memref.whole cc0_scratch4 : Memref sig .scVector .vmem S112x128 .f32).view.loc (V d (cV0 L) (jV0 L)) ↦{fullShare} sb)
            ∗ (∃ sb, (Memref.whole cc0_scratch5 : Memref sig .scVector .vmem S112x128 .f32).view.loc (V d (cV0 L) (jV0 L)) ↦{fullShare} sb)
            ∗ (∃ sb, (Memref.whole cc0_scratch6 : Memref sig .scVector .vmem S112x128 .f32).view.loc (V d (cV0 L) (jV0 L)) ↦{fullShare} sb)
            ∗ (∃ sb, (Memref.whole cc0_scratch7 : Memref sig .scVector .vmem S112x128 .f32).view.loc (V d (cV0 L) (jV0 L)) ↦{fullShare} sb)
            ∗ (∃ sb, (Memref.whole cc0_scratch8 : Memref sig .scVector .vmem S112x128 .f32).view.loc (V d (cV0 L) (jV0 L)) ↦{fullShare} sb)
            ∗ (∃ sb, (Memref.whole cc0_scratch9 : Memref sig .scVector .vmem S112x128 .f32).view.loc (V d (cV0 L) (jV0 L)) ↦{fullShare} sb)
            ∗ (∃ sb, (Memref.whole cc0_scratch10 : Memref sig .scVector .vmem S112x128 .f32).view.loc (V d (cV0 L) (jV0 L)) ↦{fullShare} sb)
            ∗ semVal ((V d (cV0 L) (jV0 L)), SemLoc.dma cc0_scratch11.sem) 0
            ∗ semVal ((V d (cV0 L) (jV0 L)), SemLoc.dma cc0_scratch12.sem) 0
            ∗ semVal ((V d (cV0 L) (jV0 L)), SemLoc.dma cc0_scratch13.sem) 0
            ∗ semVal ((V d (cV0 L) (jV0 L)), SemLoc.dma cc0_scratch14.sem) 0
            ∗ semVal ((V d (cV0 L) (jV0 L)), SemLoc.dma cc0_scratch15.sem) 0
            ∗ semVal ((V d (cV0 L) (jV0 L)), SemLoc.dma cc0_scratch16.sem) 0
            ∗ semVal ((V d (cV0 L) (jV0 L)), SemLoc.dma cc0_scratch17.sem) 0
            ∗ semVal ((V d (cV0 L) (jV0 L)), SemLoc.dma cc0_scratch18.sem) 0
            ∗ semVal ((V d (cV0 L) (jV0 L)), SemLoc.dma cc0_scratch19.sem) 0
            ∗ semVal ((V d (cV0 L) (jV0 L)), SemLoc.dma cc0_scratch20.sem) 0
            ∗ semVal ((V d (cV0 L) (jV0 L)), SemLoc.dma cc0_scratch21.sem) 0
            ∗ semVal ((V d (cV0 L) (jV0 L)), SemLoc.dma cc0_scratch22.sem) 0
            ∗ semVal ((V d (cV0 L) (jV0 L)), SemLoc.dma cc0_scratch23.sem) 0
            ∗ semVal ((V d (cV0 L) (jV0 L)), SemLoc.dma cc0_scratch24.sem) 0
            ∗ semVal ((V d (cV0 L) (jV0 L)), SemLoc.dma cc0_scratch25.sem) 0
            ∗ semVal ((V d (cV0 L) (jV0 L)), SemLoc.dma cc0_scratch26.sem) 0
            ∗ semVal ((V d (cV0 L) (jV0 L)), SemLoc.dma cc0_scratch27.sem) 0
            ∗ semVal ((V d (cV0 L) (jV0 L)), SemLoc.dma cc0_scratch28.sem) 0
            ∗ (∃ W', ⌜∀ p ∈ W', p ∈ W ∨ p.2 = none⌝ ∗ owes (V d (cV0 L) (jV0 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc0_sc_kernel_eq_skeleton, cc0_sc_kernel_skel]
  -- the offset lists' words in range: each list is a row of an index scratch holding the words of the task's index row
  have hin0 := fun Wm off h si x => hin_row (F := F) d (cV0 L) (jV0 L) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0) hfi0 Wm off h si x
  have hin1 := fun Wm off h si x => hin_row (F := F) d (cV0 L) (jV0 L) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1) hfi1 Wm off h si x
  have hin2 := fun Wm off h si x => hin_row (F := F) d (cV0 L) (jV0 L) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2) hfi2 Wm off h si x
  have hin3 := fun Wm off h si x => hin_row (F := F) d (cV0 L) (jV0 L) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3) hfi3 Wm off h si x
  sl_exec_parts
  sl_step
  iframe
  isplitl [HO0_0]
  · istop
    exact Entails.of_eq (pointsTo_congr (piece_congr ((Memref.whole main_v19_scv : Memref sig .scVector .hbm S25088x512 .f32).slice (Rect.unit (s := S25088x512) (k0_off2 L 0#32) S112x128.size (k0_off2_inb L 0)) (fun _ => rfl)).view _ G (fun y => by
      rw [View.read_writes_whole]
      exact (pay_val d (cV0 L) (jV0 L) (Memref.whole main_arg0_scv : Memref sig .scVector .hbm S100000x128 .f32) fx0 _ hfi0 _ (0 : Fin 7) _ _ _ _ _ _ _ y).trans (hG0_0 y).symm)))
  isplitl [HO0_1]
  · istop
    exact Entails.of_eq (pointsTo_congr (piece_congr ((Memref.whole main_v19_scv : Memref sig .scVector .hbm S25088x512 .f32).slice (Rect.unit (s := S25088x512) (k0_off2 L 112#32) S112x128.size (k0_off2_inb L 1)) (fun _ => rfl)).view _ G (fun y => by
      rw [View.read_writes_whole]
      exact (pay_val d (cV0 L) (jV0 L) (Memref.whole main_arg0_scv : Memref sig .scVector .hbm S100000x128 .f32) fx0 _ hfi0 _ (1 : Fin 7) _ _ _ _ _ _ _ y).trans (hG0_1 y).symm)))
  isplitl [HO0_2]
  · istop
    exact Entails.of_eq (pointsTo_congr (piece_congr ((Memref.whole main_v19_scv : Memref sig .scVector .hbm S25088x512 .f32).slice (Rect.unit (s := S25088x512) (k0_off2 L 224#32) S112x128.size (k0_off2_inb L 2)) (fun _ => rfl)).view _ G (fun y => by
      rw [View.read_writes_whole]
      exact (pay_val d (cV0 L) (jV0 L) (Memref.whole main_arg0_scv : Memref sig .scVector .hbm S100000x128 .f32) fx0 _ hfi0 _ (2 : Fin 7) _ _ _ _ _ _ _ y).trans (hG0_2 y).symm)))
  isplitl [HO0_3]
  · istop
    exact Entails.of_eq (pointsTo_congr (piece_congr ((Memref.whole main_v19_scv : Memref sig .scVector .hbm S25088x512 .f32).slice (Rect.unit (s := S25088x512) (k0_off2 L 336#32) S112x128.size (k0_off2_inb L 3)) (fun _ => rfl)).view _ G (fun y => by
      rw [View.read_writes_whole]
      exact (pay_val d (cV0 L) (jV0 L) (Memref.whole main_arg0_scv : Memref sig .scVector .hbm S100000x128 .f32) fx0 _ hfi0 _ (3 : Fin 7) _ _ _ _ _ _ _ y).trans (hG0_3 y).symm)))
  isplitl [HO0_4]
  · istop
    exact Entails.of_eq (pointsTo_congr (piece_congr ((Memref.whole main_v19_scv : Memref sig .scVector .hbm S25088x512 .f32).slice (Rect.unit (s := S25088x512) (k0_off2 L 448#32) S112x128.size (k0_off2_inb L 4)) (fun _ => rfl)).view _ G (fun y => by
      rw [View.read_writes_whole]
      exact (pay_val d (cV0 L) (jV0 L) (Memref.whole main_arg0_scv : Memref sig .scVector .hbm S100000x128 .f32) fx0 _ hfi0 _ (4 : Fin 7) _ _ _ _ _ _ _ y).trans (hG0_4 y).symm)))
  isplitl [HO0_5]
  · istop
    exact Entails.of_eq (pointsTo_congr (piece_congr ((Memref.whole main_v19_scv : Memref sig .scVector .hbm S25088x512 .f32).slice (Rect.unit (s := S25088x512) (k0_off2 L 560#32) S112x128.size (k0_off2_inb L 5)) (fun _ => rfl)).view _ G (fun y => by
      rw [View.read_writes_whole]
      exact (pay_val d (cV0 L) (jV0 L) (Memref.whole main_arg0_scv : Memref sig .scVector .hbm S100000x128 .f32) fx0 _ hfi0 _ (5 : Fin 7) _ _ _ _ _ _ _ y).trans (hG0_5 y).symm)))
  isplitl [HO0_6]
  · istop
    exact Entails.of_eq (pointsTo_congr (piece_congr ((Memref.whole main_v19_scv : Memref sig .scVector .hbm S25088x512 .f32).slice (Rect.unit (s := S25088x512) (k0_off2 L 672#32) S112x128.size (k0_off2_inb L 6)) (fun _ => rfl)).view _ G (fun y => by
      rw [View.read_writes_whole]
      exact (pay_val d (cV0 L) (jV0 L) (Memref.whole main_arg0_scv : Memref sig .scVector .hbm S100000x128 .f32) fx0 _ hfi0 _ (6 : Fin 7) _ _ _ _ _ _ _ y).trans (hG0_6 y).symm)))
  isplitl [HO1_0]
  · istop
    exact Entails.of_eq (pointsTo_congr (piece_congr ((Memref.whole main_v19_scv : Memref sig .scVector .hbm S25088x512 .f32).slice (Rect.unit (s := S25088x512) (k0_off3 L 0#32) S112x128.size (k0_off3_inb L 0)) (fun _ => rfl)).view _ G (fun y => by
      rw [View.read_writes_whole]
      exact (pay_val d (cV0 L) (jV0 L) (Memref.whole main_arg1_scv : Memref sig .scVector .hbm S100000x128 .f32) fx1 _ hfi1 _ (0 : Fin 7) _ _ _ _ _ _ _ y).trans (hG1_0 y).symm)))
  isplitl [HO1_1]
  · istop
    exact Entails.of_eq (pointsTo_congr (piece_congr ((Memref.whole main_v19_scv : Memref sig .scVector .hbm S25088x512 .f32).slice (Rect.unit (s := S25088x512) (k0_off3 L 112#32) S112x128.size (k0_off3_inb L 1)) (fun _ => rfl)).view _ G (fun y => by
      rw [View.read_writes_whole]
      exact (pay_val d (cV0 L) (jV0 L) (Memref.whole main_arg1_scv : Memref sig .scVector .hbm S100000x128 .f32) fx1 _ hfi1 _ (1 : Fin 7) _ _ _ _ _ _ _ y).trans (hG1_1 y).symm)))
  isplitl [HO1_2]
  · istop
    exact Entails.of_eq (pointsTo_congr (piece_congr ((Memref.whole main_v19_scv : Memref sig .scVector .hbm S25088x512 .f32).slice (Rect.unit (s := S25088x512) (k0_off3 L 224#32) S112x128.size (k0_off3_inb L 2)) (fun _ => rfl)).view _ G (fun y => by
      rw [View.read_writes_whole]
      exact (pay_val d (cV0 L) (jV0 L) (Memref.whole main_arg1_scv : Memref sig .scVector .hbm S100000x128 .f32) fx1 _ hfi1 _ (2 : Fin 7) _ _ _ _ _ _ _ y).trans (hG1_2 y).symm)))
  isplitl [HO1_3]
  · istop
    exact Entails.of_eq (pointsTo_congr (piece_congr ((Memref.whole main_v19_scv : Memref sig .scVector .hbm S25088x512 .f32).slice (Rect.unit (s := S25088x512) (k0_off3 L 336#32) S112x128.size (k0_off3_inb L 3)) (fun _ => rfl)).view _ G (fun y => by
      rw [View.read_writes_whole]
      exact (pay_val d (cV0 L) (jV0 L) (Memref.whole main_arg1_scv : Memref sig .scVector .hbm S100000x128 .f32) fx1 _ hfi1 _ (3 : Fin 7) _ _ _ _ _ _ _ y).trans (hG1_3 y).symm)))
  isplitl [HO1_4]
  · istop
    exact Entails.of_eq (pointsTo_congr (piece_congr ((Memref.whole main_v19_scv : Memref sig .scVector .hbm S25088x512 .f32).slice (Rect.unit (s := S25088x512) (k0_off3 L 448#32) S112x128.size (k0_off3_inb L 4)) (fun _ => rfl)).view _ G (fun y => by
      rw [View.read_writes_whole]
      exact (pay_val d (cV0 L) (jV0 L) (Memref.whole main_arg1_scv : Memref sig .scVector .hbm S100000x128 .f32) fx1 _ hfi1 _ (4 : Fin 7) _ _ _ _ _ _ _ y).trans (hG1_4 y).symm)))
  isplitl [HO1_5]
  · istop
    exact Entails.of_eq (pointsTo_congr (piece_congr ((Memref.whole main_v19_scv : Memref sig .scVector .hbm S25088x512 .f32).slice (Rect.unit (s := S25088x512) (k0_off3 L 560#32) S112x128.size (k0_off3_inb L 5)) (fun _ => rfl)).view _ G (fun y => by
      rw [View.read_writes_whole]
      exact (pay_val d (cV0 L) (jV0 L) (Memref.whole main_arg1_scv : Memref sig .scVector .hbm S100000x128 .f32) fx1 _ hfi1 _ (5 : Fin 7) _ _ _ _ _ _ _ y).trans (hG1_5 y).symm)))
  isplitl [HO1_6]
  · istop
    exact Entails.of_eq (pointsTo_congr (piece_congr ((Memref.whole main_v19_scv : Memref sig .scVector .hbm S25088x512 .f32).slice (Rect.unit (s := S25088x512) (k0_off3 L 672#32) S112x128.size (k0_off3_inb L 6)) (fun _ => rfl)).view _ G (fun y => by
      rw [View.read_writes_whole]
      exact (pay_val d (cV0 L) (jV0 L) (Memref.whole main_arg1_scv : Memref sig .scVector .hbm S100000x128 .f32) fx1 _ hfi1 _ (6 : Fin 7) _ _ _ _ _ _ _ y).trans (hG1_6 y).symm)))
  isplitl [HO2_0]
  · istop
    exact Entails.of_eq (pointsTo_congr (piece_congr ((Memref.whole main_v19_scv : Memref sig .scVector .hbm S25088x512 .f32).slice (Rect.unit (s := S25088x512) (k0_off4 L 0#32) S112x128.size (k0_off4_inb L 0)) (fun _ => rfl)).view _ G (fun y => by
      rw [View.read_writes_whole]
      exact (pay_val d (cV0 L) (jV0 L) (Memref.whole main_arg2_scv : Memref sig .scVector .hbm S100000x128 .f32) fx2 _ hfi2 _ (0 : Fin 7) _ _ _ _ _ _ _ y).trans (hG2_0 y).symm)))
  isplitl [HO2_1]
  · istop
    exact Entails.of_eq (pointsTo_congr (piece_congr ((Memref.whole main_v19_scv : Memref sig .scVector .hbm S25088x512 .f32).slice (Rect.unit (s := S25088x512) (k0_off4 L 112#32) S112x128.size (k0_off4_inb L 1)) (fun _ => rfl)).view _ G (fun y => by
      rw [View.read_writes_whole]
      exact (pay_val d (cV0 L) (jV0 L) (Memref.whole main_arg2_scv : Memref sig .scVector .hbm S100000x128 .f32) fx2 _ hfi2 _ (1 : Fin 7) _ _ _ _ _ _ _ y).trans (hG2_1 y).symm)))
  isplitl [HO2_2]
  · istop
    exact Entails.of_eq (pointsTo_congr (piece_congr ((Memref.whole main_v19_scv : Memref sig .scVector .hbm S25088x512 .f32).slice (Rect.unit (s := S25088x512) (k0_off4 L 224#32) S112x128.size (k0_off4_inb L 2)) (fun _ => rfl)).view _ G (fun y => by
      rw [View.read_writes_whole]
      exact (pay_val d (cV0 L) (jV0 L) (Memref.whole main_arg2_scv : Memref sig .scVector .hbm S100000x128 .f32) fx2 _ hfi2 _ (2 : Fin 7) _ _ _ _ _ _ _ y).trans (hG2_2 y).symm)))
  isplitl [HO2_3]
  · istop
    exact Entails.of_eq (pointsTo_congr (piece_congr ((Memref.whole main_v19_scv : Memref sig .scVector .hbm S25088x512 .f32).slice (Rect.unit (s := S25088x512) (k0_off4 L 336#32) S112x128.size (k0_off4_inb L 3)) (fun _ => rfl)).view _ G (fun y => by
      rw [View.read_writes_whole]
      exact (pay_val d (cV0 L) (jV0 L) (Memref.whole main_arg2_scv : Memref sig .scVector .hbm S100000x128 .f32) fx2 _ hfi2 _ (3 : Fin 7) _ _ _ _ _ _ _ y).trans (hG2_3 y).symm)))
  isplitl [HO2_4]
  · istop
    exact Entails.of_eq (pointsTo_congr (piece_congr ((Memref.whole main_v19_scv : Memref sig .scVector .hbm S25088x512 .f32).slice (Rect.unit (s := S25088x512) (k0_off4 L 448#32) S112x128.size (k0_off4_inb L 4)) (fun _ => rfl)).view _ G (fun y => by
      rw [View.read_writes_whole]
      exact (pay_val d (cV0 L) (jV0 L) (Memref.whole main_arg2_scv : Memref sig .scVector .hbm S100000x128 .f32) fx2 _ hfi2 _ (4 : Fin 7) _ _ _ _ _ _ _ y).trans (hG2_4 y).symm)))
  isplitl [HO2_5]
  · istop
    exact Entails.of_eq (pointsTo_congr (piece_congr ((Memref.whole main_v19_scv : Memref sig .scVector .hbm S25088x512 .f32).slice (Rect.unit (s := S25088x512) (k0_off4 L 560#32) S112x128.size (k0_off4_inb L 5)) (fun _ => rfl)).view _ G (fun y => by
      rw [View.read_writes_whole]
      exact (pay_val d (cV0 L) (jV0 L) (Memref.whole main_arg2_scv : Memref sig .scVector .hbm S100000x128 .f32) fx2 _ hfi2 _ (5 : Fin 7) _ _ _ _ _ _ _ y).trans (hG2_5 y).symm)))
  isplitl [HO2_6]
  · istop
    exact Entails.of_eq (pointsTo_congr (piece_congr ((Memref.whole main_v19_scv : Memref sig .scVector .hbm S25088x512 .f32).slice (Rect.unit (s := S25088x512) (k0_off4 L 672#32) S112x128.size (k0_off4_inb L 6)) (fun _ => rfl)).view _ G (fun y => by
      rw [View.read_writes_whole]
      exact (pay_val d (cV0 L) (jV0 L) (Memref.whole main_arg2_scv : Memref sig .scVector .hbm S100000x128 .f32) fx2 _ hfi2 _ (6 : Fin 7) _ _ _ _ _ _ _ y).trans (hG2_6 y).symm)))
  isplitl [HO3_0]
  · istop
    exact Entails.of_eq (pointsTo_congr (piece_congr ((Memref.whole main_v19_scv : Memref sig .scVector .hbm S25088x512 .f32).slice (Rect.unit (s := S25088x512) (k0_off5 L 0#32) S112x128.size (k0_off5_inb L 0)) (fun _ => rfl)).view _ G (fun y => by
      rw [View.read_writes_whole]
      exact (pay_val d (cV0 L) (jV0 L) (Memref.whole main_arg3_scv : Memref sig .scVector .hbm S100000x128 .f32) fx3 _ hfi3 _ (0 : Fin 7) _ _ _ _ _ _ _ y).trans (hG3_0 y).symm)))
  isplitl [HO3_1]
  · istop
    exact Entails.of_eq (pointsTo_congr (piece_congr ((Memref.whole main_v19_scv : Memref sig .scVector .hbm S25088x512 .f32).slice (Rect.unit (s := S25088x512) (k0_off5 L 112#32) S112x128.size (k0_off5_inb L 1)) (fun _ => rfl)).view _ G (fun y => by
      rw [View.read_writes_whole]
      exact (pay_val d (cV0 L) (jV0 L) (Memref.whole main_arg3_scv : Memref sig .scVector .hbm S100000x128 .f32) fx3 _ hfi3 _ (1 : Fin 7) _ _ _ _ _ _ _ y).trans (hG3_1 y).symm)))
  isplitl [HO3_2]
  · istop
    exact Entails.of_eq (pointsTo_congr (piece_congr ((Memref.whole main_v19_scv : Memref sig .scVector .hbm S25088x512 .f32).slice (Rect.unit (s := S25088x512) (k0_off5 L 224#32) S112x128.size (k0_off5_inb L 2)) (fun _ => rfl)).view _ G (fun y => by
      rw [View.read_writes_whole]
      exact (pay_val d (cV0 L) (jV0 L) (Memref.whole main_arg3_scv : Memref sig .scVector .hbm S100000x128 .f32) fx3 _ hfi3 _ (2 : Fin 7) _ _ _ _ _ _ _ y).trans (hG3_2 y).symm)))
  isplitl [HO3_3]
  · istop
    exact Entails.of_eq (pointsTo_congr (piece_congr ((Memref.whole main_v19_scv : Memref sig .scVector .hbm S25088x512 .f32).slice (Rect.unit (s := S25088x512) (k0_off5 L 336#32) S112x128.size (k0_off5_inb L 3)) (fun _ => rfl)).view _ G (fun y => by
      rw [View.read_writes_whole]
      exact (pay_val d (cV0 L) (jV0 L) (Memref.whole main_arg3_scv : Memref sig .scVector .hbm S100000x128 .f32) fx3 _ hfi3 _ (3 : Fin 7) _ _ _ _ _ _ _ y).trans (hG3_3 y).symm)))
  isplitl [HO3_4]
  · istop
    exact Entails.of_eq (pointsTo_congr (piece_congr ((Memref.whole main_v19_scv : Memref sig .scVector .hbm S25088x512 .f32).slice (Rect.unit (s := S25088x512) (k0_off5 L 448#32) S112x128.size (k0_off5_inb L 4)) (fun _ => rfl)).view _ G (fun y => by
      rw [View.read_writes_whole]
      exact (pay_val d (cV0 L) (jV0 L) (Memref.whole main_arg3_scv : Memref sig .scVector .hbm S100000x128 .f32) fx3 _ hfi3 _ (4 : Fin 7) _ _ _ _ _ _ _ y).trans (hG3_4 y).symm)))
  isplitl [HO3_5]
  · istop
    exact Entails.of_eq (pointsTo_congr (piece_congr ((Memref.whole main_v19_scv : Memref sig .scVector .hbm S25088x512 .f32).slice (Rect.unit (s := S25088x512) (k0_off5 L 560#32) S112x128.size (k0_off5_inb L 5)) (fun _ => rfl)).view _ G (fun y => by
      rw [View.read_writes_whole]
      exact (pay_val d (cV0 L) (jV0 L) (Memref.whole main_arg3_scv : Memref sig .scVector .hbm S100000x128 .f32) fx3 _ hfi3 _ (5 : Fin 7) _ _ _ _ _ _ _ y).trans (hG3_5 y).symm)))
  isplitl [HO3_6]
  · istop
    exact Entails.of_eq (pointsTo_congr (piece_congr ((Memref.whole main_v19_scv : Memref sig .scVector .hbm S25088x512 .f32).slice (Rect.unit (s := S25088x512) (k0_off5 L 672#32) S112x128.size (k0_off5_inb L 6)) (fun _ => rfl)).view _ G (fun y => by
      rw [View.read_writes_whole]
      exact (pay_val d (cV0 L) (jV0 L) (Memref.whole main_arg3_scv : Memref sig .scVector .hbm S100000x128 .f32) fx3 _ hfi3 _ (6 : Fin 7) _ _ _ _ _ _ _ y).trans (hG3_6 y).symm)))
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScValG.lean ====
import proofs.«215994_g5102421148354_cont_8to1c4_853_29_alg».proof.Proof.ScVal
import proofs.«215994_g5102421148354_cont_8to1c4_853_29_alg».proof.Proof.ScDealC

noncomputable section

namespace Cert.KernelIdeal.Sc

open Cert.KernelIdeal Cert.KernelIdeal.Gen
open Idealize.ShloMosaic Idealize.ShloMosaic.ValueIdx
open Idealize.ShloMosaic.SparseCore (S V T)

variable {F : FTy → Type} [FloatOps F] [Cert.KernelIdeal.Facts]

/-! ## The gathered slab at a task's blocks (gather call 0)

Entry `y` of the task's block `(r, t)` of the call's result is entry `(784 w + 112 r + y 0, 128 t + y 1)` of the slab, which
is table `t` at the row its index word `(w, r, y 0)` names, column `y 1`; and that word is what the task reads at `(r, y 0)`
of its own row of the index array. -/

section SlabAt
variable (x0 x1 x2 x3 : S100000x128.Idx → Elt F .f32) (s0 s1 s2 s3 : S32x7x112.Idx → Elt F .i32)
  (j : S25088x512.Idx) (w : Fin 32) (r : Fin 7) (p : Fin 112) (c : Fin 128)

private theorem slab_coords (h0 : (j 0).val = 784 * w.val + 112 * r.val + p.val) :
    (j 0).val / 784 = w.val ∧ (j 0).val % 784 / 112 = r.val ∧ (j 0).val % 112 = p.val := by
  have := r.isLt; have := p.isLt
  omega

/-- The slab at `(784 w + 112 r + p, c)`: the first table at the row index word `(w, r, p)` of the first index array names. -/
theorem slabG_at0 (h0 : (j 0).val = 784 * w.val + 112 * r.val + p.val) (h1 : (j 1).val = c.val) :
    slabG x0 x1 x2 x3 s0 s1 s2 s3 j = rowAt x0 (s0 (ix3 (n0 := 32) (n1 := 7) (n2 := 112) w r p)).toNat c := by
  obtain ⟨hw, hr, hp⟩ := slab_coords j w r p h0
  have hc : (j 1).val % 128 = c.val := by have := c.isLt; omega
  unfold slabG
  simp only [hw, hr, hp, hc, Fin.eta]
  rw [if_pos (by have := c.isLt; omega)]
/-- …at column `128 + c`: the second table and index array. -/
theorem slabG_at1 (h0 : (j 0).val = 784 * w.val + 112 * r.val + p.val) (h1 : (j 1).val = 128 + c.val) :
    slabG x0 x1 x2 x3 s0 s1 s2 s3 j = rowAt x1 (s1 (ix3 (n0 := 32) (n1 := 7) (n2 := 112) w r p)).toNat c := by
  obtain ⟨hw, hr, hp⟩ := slab_coords j w r p h0
  have hc : (j 1).val % 128 = c.val := by have := c.isLt; omega
  unfold slabG
  simp only [hw, hr, hp, hc, Fin.eta]
  rw [if_neg (by omega), if_pos (by have := c.isLt; omega)]
/-- …at column `256 + c`: the third. -/
theorem slabG_at2 (h0 : (j 0).val = 784 * w.val + 112 * r.val + p.val) (h1 : (j 1).val = 256 + c.val) :
    slabG x0 x1 x2 x3 s0 s1 s2 s3 j = rowAt x2 (s2 (ix3 (n0 := 32) (n1 := 7) (n2 := 112) w r p)).toNat c := by
  obtain ⟨hw, hr, hp⟩ := slab_coords j w r p h0
  have hc : (j 1).val % 128 = c.val := by have := c.isLt; omega
  unfold slabG
  simp only [hw, hr, hp, hc, Fin.eta]
  rw [if_neg (by omega), if_neg (by omega), if_pos (by have := c.isLt; omega)]
/-- …at column `384 + c`: the fourth. -/
theorem slabG_at3 (h0 : (j 0).val = 784 * w.val + 112 * r.val + p.val) (h1 : (j 1).val = 384 + c.val) :
    slabG x0 x1 x2 x3 s0 s1 s2 s3 j = rowAt x3 (s3 (ix3 (n0 := 32) (n1 := 7) (n2 := 112) w r p)).toNat c := by
  obtain ⟨hw, hr, hp⟩ := slab_coords j w r p h0
  have hc : (j 1).val % 128 = c.val := by have := c.isLt; omega
  unfold slabG
  simp only [hw, hr, hp, hc, Fin.eta]
  rw [if_neg (by omega), if_neg (by omega), if_neg (by omega)]

end SlabAt

section Reads0
variable (d : Dev nD) (L : grid0.Coords) (c : Fin τ.nSC) (i : Fin τ.nSub)

/-- The task's row of an index array read at `(r, p)` is the array at `(w, r, p)`, `w` the task's worker number. -/
theorem idxRow_read_main_v12 (fi : Buf (Elt F) ((Memref.whole main_v12_scv : Memref sig .scVector .hbm S32x7x112 .i32).view.loc (V d c i))) (r : Fin 7) (p : Fin 112) :
    (((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi (ix2 (n0 := 7) (n1 := 112) r p)
      = fi (ix3 (n0 := 32) (n1 := 7) (n2 := 112) (widL L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  have hw : (widL L).val = 2 * (L 1).val + (L 0).val := rfl
  show (Rect.unit (s := S32x7x112) (k0_off1 L) S1x7x112.size (k0_off1_inb L)).off a
      + (Rect.unit (s := S32x7x112) (k0_off1 L) S1x7x112.size (k0_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k0_off1 L 0 + 1 * 0 = (widL L).val
    omega
  · show k0_off1 L 1 + 1 * r.val = r.val
    omega
  · show k0_off1 L 2 + 1 * p.val = p.val
    omega
/-- The task's row of an index array read at `(r, p)` is the array at `(w, r, p)`, `w` the task's worker number. -/
theorem idxRow_read_main_v14 (fi : Buf (Elt F) ((Memref.whole main_v14_scv : Memref sig .scVector .hbm S32x7x112 .i32).view.loc (V d c i))) (r : Fin 7) (p : Fin 112) :
    (((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi (ix2 (n0 := 7) (n1 := 112) r p)
      = fi (ix3 (n0 := 32) (n1 := 7) (n2 := 112) (widL L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  have hw : (widL L).val = 2 * (L 1).val + (L 0).val := rfl
  show (Rect.unit (s := S32x7x112) (k0_off1 L) S1x7x112.size (k0_off1_inb L)).off a
      + (Rect.unit (s := S32x7x112) (k0_off1 L) S1x7x112.size (k0_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k0_off1 L 0 + 1 * 0 = (widL L).val
    omega
  · show k0_off1 L 1 + 1 * r.val = r.val
    omega
  · show k0_off1 L 2 + 1 * p.val = p.val
    omega
/-- The task's row of an index array read at `(r, p)` is the array at `(w, r, p)`, `w` the task's worker number. -/
theorem idxRow_read_main_v16 (fi : Buf (Elt F) ((Memref.whole main_v16_scv : Memref sig .scVector .hbm S32x7x112 .i32).view.loc (V d c i))) (r : Fin 7) (p : Fin 112) :
    (((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi (ix2 (n0 := 7) (n1 := 112) r p)
      = fi (ix3 (n0 := 32) (n1 := 7) (n2 := 112) (widL L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  have hw : (widL L).val = 2 * (L 1).val + (L 0).val := rfl
  show (Rect.unit (s := S32x7x112) (k0_off1 L) S1x7x112.size (k0_off1_inb L)).off a
      + (Rect.unit (s := S32x7x112) (k0_off1 L) S1x7x112.size (k0_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k0_off1 L 0 + 1 * 0 = (widL L).val
    omega
  · show k0_off1 L 1 + 1 * r.val = r.val
    omega
  · show k0_off1 L 2 + 1 * p.val = p.val
    omega
/-- The task's row of an index array read at `(r, p)` is the array at `(w, r, p)`, `w` the task's worker number. -/
theorem idxRow_read_main_v18 (fi : Buf (Elt F) ((Memref.whole main_v18_scv : Memref sig .scVector .hbm S32x7x112 .i32).view.loc (V d c i))) (r : Fin 7) (p : Fin 112) :
    (((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi (ix2 (n0 := 7) (n1 := 112) r p)
      = fi (ix3 (n0 := 32) (n1 := 7) (n2 := 112) (widL L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k0_off1 L 0 = 2 * (L 1).val + (L 0).val := congrFun (k0_off1_eq L) 0
  have e1 : k0_off1 L 1 = 0 := congrFun (k0_off1_eq L) 1
  have e2 : k0_off1 L 2 = 0 := congrFun (k0_off1_eq L) 2
  have hw : (widL L).val = 2 * (L 1).val + (L 0).val := rfl
  show (Rect.unit (s := S32x7x112) (k0_off1 L) S1x7x112.size (k0_off1_inb L)).off a
      + (Rect.unit (s := S32x7x112) (k0_off1 L) S1x7x112.size (k0_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k0_off1 L 0 + 1 * 0 = (widL L).val
    omega
  · show k0_off1 L 1 + 1 * r.val = r.val
    omega
  · show k0_off1 L 2 + 1 * p.val = p.val
    omega

/-- Where entry `y` of the task's block `r` of column block 0 sits in the result. -/
theorem piece0_2_emb (r : Fin 7) (y : S112x128.Idx) :
    ((((Memref.whole main_v19_scv : Memref sig .scVector .hbm S25088x512 .f32).slice (Rect.unit (s := S25088x512) (k0_off2 L (BitVec.ofNat 32 (112 * r.val))) S112x128.size (k0_off2_inb L r)) (fun _ => rfl)).view.emb y) 0).val = 784 * (widL L).val + 112 * r.val + (y 0).val
      ∧ ((((Memref.whole main_v19_scv : Memref sig .scVector .hbm S25088x512 .f32).slice (Rect.unit (s := S25088x512) (k0_off2 L (BitVec.ofNat 32 (112 * r.val))) S112x128.size (k0_off2_inb L r)) (fun _ => rfl)).view.emb y) 1).val = (y 1).val := by
  simp only [Memref.view_slice, View.emb_slice, Function.Embedding.trans_apply]
  refine ⟨?_, ?_⟩
  · show ((Rect.unit (s := S25088x512) (k0_off2 L (BitVec.ofNat 32 (112 * r.val))) S112x128.size (k0_off2_inb L r)).emb y 0 : Nat) = _
    rw [Rect.emb_apply, Rect.off_unit, Rect.stride_unit]
    have e0 : k0_off2 L (BitVec.ofNat 32 (112 * r.val)) 0 = 1568 * (L 1).val + 784 * (L 0).val + 112 * r.val := congrFun (k0_off2_eq L r) 0
    have hw : (widL L).val = 2 * (L 1).val + (L 0).val := rfl
    omega
  · show ((Rect.unit (s := S25088x512) (k0_off2 L (BitVec.ofNat 32 (112 * r.val))) S112x128.size (k0_off2_inb L r)).emb y 1 : Nat) = _
    rw [Rect.emb_apply, Rect.off_unit, Rect.stride_unit]
    have e1 : k0_off2 L (BitVec.ofNat 32 (112 * r.val)) 1 = 0 := congrFun (k0_off2_eq L r) 1
    omega
/-- Where entry `y` of the task's block `r` of column block 1 sits in the result. -/
theorem piece0_3_emb (r : Fin 7) (y : S112x128.Idx) :
    ((((Memref.whole main_v19_scv : Memref sig .scVector .hbm S25088x512 .f32).slice (Rect.unit (s := S25088x512) (k0_off3 L (BitVec.ofNat 32 (112 * r.val))) S112x128.size (k0_off3_inb L r)) (fun _ => rfl)).view.emb y) 0).val = 784 * (widL L).val + 112 * r.val + (y 0).val
      ∧ ((((Memref.whole main_v19_scv : Memref sig .scVector .hbm S25088x512 .f32).slice (Rect.unit (s := S25088x512) (k0_off3 L (BitVec.ofNat 32 (112 * r.val))) S112x128.size (k0_off3_inb L r)) (fun _ => rfl)).view.emb y) 1).val = 128 + (y 1).val := by
  simp only [Memref.view_slice, View.emb_slice, Function.Embedding.trans_apply]
  refine ⟨?_, ?_⟩
  · show ((Rect.unit (s := S25088x512) (k0_off3 L (BitVec.ofNat 32 (112 * r.val))) S112x128.size (k0_off3_inb L r)).emb y 0 : Nat) = _
    rw [Rect.emb_apply, Rect.off_unit, Rect.stride_unit]
    have e0 : k0_off3 L (BitVec.ofNat 32 (112 * r.val)) 0 = 1568 * (L 1).val + 784 * (L 0).val + 112 * r.val := congrFun (k0_off3_eq L r) 0
    have hw : (widL L).val = 2 * (L 1).val + (L 0).val := rfl
    omega
  · show ((Rect.unit (s := S25088x512) (k0_off3 L (BitVec.ofNat 32 (112 * r.val))) S112x128.size (k0_off3_inb L r)).emb y 1 : Nat) = _
    rw [Rect.emb_apply, Rect.off_unit, Rect.stride_unit]
    have e1 : k0_off3 L (BitVec.ofNat 32 (112 * r.val)) 1 = 128 := congrFun (k0_off3_eq L r) 1
    omega
/-- Where entry `y` of the task's block `r` of column block 2 sits in the result. -/
theorem piece0_4_emb (r : Fin 7) (y : S112x128.Idx) :
    ((((Memref.whole main_v19_scv : Memref sig .scVector .hbm S25088x512 .f32).slice (Rect.unit (s := S25088x512) (k0_off4 L (BitVec.ofNat 32 (112 * r.val))) S112x128.size (k0_off4_inb L r)) (fun _ => rfl)).view.emb y) 0).val = 784 * (widL L).val + 112 * r.val + (y 0).val
      ∧ ((((Memref.whole main_v19_scv : Memref sig .scVector .hbm S25088x512 .f32).slice (Rect.unit (s := S25088x512) (k0_off4 L (BitVec.ofNat 32 (112 * r.val))) S112x128.size (k0_off4_inb L r)) (fun _ => rfl)).view.emb y) 1).val = 256 + (y 1).val := by
  simp only [Memref.view_slice, View.emb_slice, Function.Embedding.trans_apply]
  refine ⟨?_, ?_⟩
  · show ((Rect.unit (s := S25088x512) (k0_off4 L (BitVec.ofNat 32 (112 * r.val))) S112x128.size (k0_off4_inb L r)).emb y 0 : Nat) = _
    rw [Rect.emb_apply, Rect.off_unit, Rect.stride_unit]
    have e0 : k0_off4 L (BitVec.ofNat 32 (112 * r.val)) 0 = 1568 * (L 1).val + 784 * (L 0).val + 112 * r.val := congrFun (k0_off4_eq L r) 0
    have hw : (widL L).val = 2 * (L 1).val + (L 0).val := rfl
    omega
  · show ((Rect.unit (s := S25088x512) (k0_off4 L (BitVec.ofNat 32 (112 * r.val))) S112x128.size (k0_off4_inb L r)).emb y 1 : Nat) = _
    rw [Rect.emb_apply, Rect.off_unit, Rect.stride_unit]
    have e1 : k0_off4 L (BitVec.ofNat 32 (112 * r.val)) 1 = 256 := congrFun (k0_off4_eq L r) 1
    omega
/-- Where entry `y` of the task's block `r` of column block 3 sits in the result. -/
theorem piece0_5_emb (r : Fin 7) (y : S112x128.Idx) :
    ((((Memref.whole main_v19_scv : Memref sig .scVector .hbm S25088x512 .f32).slice (Rect.unit (s := S25088x512) (k0_off5 L (BitVec.ofNat 32 (112 * r.val))) S112x128.size (k0_off5_inb L r)) (fun _ => rfl)).view.emb y) 0).val = 784 * (widL L).val + 112 * r.val + (y 0).val
      ∧ ((((Memref.whole main_v19_scv : Memref sig .scVector .hbm S25088x512 .f32).slice (Rect.unit (s := S25088x512) (k0_off5 L (BitVec.ofNat 32 (112 * r.val))) S112x128.size (k0_off5_inb L r)) (fun _ => rfl)).view.emb y) 1).val = 384 + (y 1).val := by
  simp only [Memref.view_slice, View.emb_slice, Function.Embedding.trans_apply]
  refine ⟨?_, ?_⟩
  · show ((Rect.unit (s := S25088x512) (k0_off5 L (BitVec.ofNat 32 (112 * r.val))) S112x128.size (k0_off5_inb L r)).emb y 0 : Nat) = _
    rw [Rect.emb_apply, Rect.off_unit, Rect.stride_unit]
    have e0 : k0_off5 L (BitVec.ofNat 32 (112 * r.val)) 0 = 1568 * (L 1).val + 784 * (L 0).val + 112 * r.val := congrFun (k0_off5_eq L r) 0
    have hw : (widL L).val = 2 * (L 1).val + (L 0).val := rfl
    omega
  · show ((Rect.unit (s := S25088x512) (k0_off5 L (BitVec.ofNat 32 (112 * r.val))) S112x128.size (k0_off5_inb L r)).emb y 1 : Nat) = _
    rw [Rect.emb_apply, Rect.off_unit, Rect.stride_unit]
    have e1 : k0_off5 L (BitVec.ofNat 32 (112 * r.val)) 1 = 384 := congrFun (k0_off5_eq L r) 1
    omega

/-- THE SLAB AT A TASK'S BLOCK of column block 0: table 0 at the row the task's own index word names. -/
theorem slabG_piece0_0 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v12_scv : Memref sig .scVector .hbm S32x7x112 .i32).view.loc (V d c i))) (fi1 : Buf (Elt F) ((Memref.whole main_v14_scv : Memref sig .scVector .hbm S32x7x112 .i32).view.loc (V d c i))) (fi2 : Buf (Elt F) ((Memref.whole main_v16_scv : Memref sig .scVector .hbm S32x7x112 .i32).view.loc (V d c i))) (fi3 : Buf (Elt F) ((Memref.whole main_v18_scv : Memref sig .scVector .hbm S32x7x112 .i32).view.loc (V d c i)))
    (hfi : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000) (r : Fin 7) (y : S112x128.Idx) :
    slabG fx0 fx1 fx2 fx3 fi0 fi1 fi2 fi3 (((Memref.whole main_v19_scv : Memref sig .scVector .hbm S25088x512 .f32).slice (Rect.unit (s := S25088x512) (k0_off2 L (BitVec.ofNat 32 (112 * r.val))) S112x128.size (k0_off2_inb L r)) (fun _ => rfl)).view.emb y)
      = (Memref.whole main_arg0_scv : Memref sig .scVector .hbm S100000x128 .f32).view.read (Elt F) fx0 (ix2 (n0 := 100000) (n1 := 128)
          ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) r (y 0))).toNat, hfi _⟩ (y 1)) := by
  have e := idxRow_read_main_v12 d L c i fi0 r (y 0)
  have hlt : (fi0 (ix3 (n0 := 32) (n1 := 7) (n2 := 112) (widL L) r (y 0))).toNat < 100000 := e ▸ hfi (ix2 (n0 := 7) (n1 := 112) r (y 0))
  obtain ⟨h0, h1⟩ := piece0_2_emb L r y
  refine (slabG_at0 fx0 fx1 fx2 fx3 fi0 fi1 fi2 fi3 _ (widL L) r (y 0) (y 1) h0 h1).trans ?_
  refine (rowAt_lt fx0 _ hlt (y 1)).trans ?_
  exact congrArg (fun v : Fin 100000 => fx0 (ix2 (n0 := 100000) (n1 := 128) v (y 1))) (Fin.ext (congrArg BitVec.toNat e.symm))
/-- THE SLAB AT A TASK'S BLOCK of column block 1: table 1 at the row the task's own index word names. -/
theorem slabG_piece0_1 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v12_scv : Memref sig .scVector .hbm S32x7x112 .i32).view.loc (V d c i))) (fi1 : Buf (Elt F) ((Memref.whole main_v14_scv : Memref sig .scVector .hbm S32x7x112 .i32).view.loc (V d c i))) (fi2 : Buf (Elt F) ((Memref.whole main_v16_scv : Memref sig .scVector .hbm S32x7x112 .i32).view.loc (V d c i))) (fi3 : Buf (Elt F) ((Memref.whole main_v18_scv : Memref sig .scVector .hbm S32x7x112 .i32).view.loc (V d c i)))
    (hfi : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000) (r : Fin 7) (y : S112x128.Idx) :
    slabG fx0 fx1 fx2 fx3 fi0 fi1 fi2 fi3 (((Memref.whole main_v19_scv : Memref sig .scVector .hbm S25088x512 .f32).slice (Rect.unit (s := S25088x512) (k0_off3 L (BitVec.ofNat 32 (112 * r.val))) S112x128.size (k0_off3_inb L r)) (fun _ => rfl)).view.emb y)
      = (Memref.whole main_arg1_scv : Memref sig .scVector .hbm S100000x128 .f32).view.read (Elt F) fx1 (ix2 (n0 := 100000) (n1 := 128)
          ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) r (y 0))).toNat, hfi _⟩ (y 1)) := by
  have e := idxRow_read_main_v14 d L c i fi1 r (y 0)
  have hlt : (fi1 (ix3 (n0 := 32) (n1 := 7) (n2 := 112) (widL L) r (y 0))).toNat < 100000 := e ▸ hfi (ix2 (n0 := 7) (n1 := 112) r (y 0))
  obtain ⟨h0, h1⟩ := piece0_3_emb L r y
  refine (slabG_at1 fx0 fx1 fx2 fx3 fi0 fi1 fi2 fi3 _ (widL L) r (y 0) (y 1) h0 h1).trans ?_
  refine (rowAt_lt fx1 _ hlt (y 1)).trans ?_
  exact congrArg (fun v : Fin 100000 => fx1 (ix2 (n0 := 100000) (n1 := 128) v (y 1))) (Fin.ext (congrArg BitVec.toNat e.symm))
/-- THE SLAB AT A TASK'S BLOCK of column block 2: table 2 at the row the task's own index word names. -/
theorem slabG_piece0_2 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v12_scv : Memref sig .scVector .hbm S32x7x112 .i32).view.loc (V d c i))) (fi1 : Buf (Elt F) ((Memref.whole main_v14_scv : Memref sig .scVector .hbm S32x7x112 .i32).view.loc (V d c i))) (fi2 : Buf (Elt F) ((Memref.whole main_v16_scv : Memref sig .scVector .hbm S32x7x112 .i32).view.loc (V d c i))) (fi3 : Buf (Elt F) ((Memref.whole main_v18_scv : Memref sig .scVector .hbm S32x7x112 .i32).view.loc (V d c i)))
    (hfi : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000) (r : Fin 7) (y : S112x128.Idx) :
    slabG fx0 fx1 fx2 fx3 fi0 fi1 fi2 fi3 (((Memref.whole main_v19_scv : Memref sig .scVector .hbm S25088x512 .f32).slice (Rect.unit (s := S25088x512) (k0_off4 L (BitVec.ofNat 32 (112 * r.val))) S112x128.size (k0_off4_inb L r)) (fun _ => rfl)).view.emb y)
      = (Memref.whole main_arg2_scv : Memref sig .scVector .hbm S100000x128 .f32).view.read (Elt F) fx2 (ix2 (n0 := 100000) (n1 := 128)
          ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) r (y 0))).toNat, hfi _⟩ (y 1)) := by
  have e := idxRow_read_main_v16 d L c i fi2 r (y 0)
  have hlt : (fi2 (ix3 (n0 := 32) (n1 := 7) (n2 := 112) (widL L) r (y 0))).toNat < 100000 := e ▸ hfi (ix2 (n0 := 7) (n1 := 112) r (y 0))
  obtain ⟨h0, h1⟩ := piece0_4_emb L r y
  refine (slabG_at2 fx0 fx1 fx2 fx3 fi0 fi1 fi2 fi3 _ (widL L) r (y 0) (y 1) h0 h1).trans ?_
  refine (rowAt_lt fx2 _ hlt (y 1)).trans ?_
  exact congrArg (fun v : Fin 100000 => fx2 (ix2 (n0 := 100000) (n1 := 128) v (y 1))) (Fin.ext (congrArg BitVec.toNat e.symm))
/-- THE SLAB AT A TASK'S BLOCK of column block 3: table 3 at the row the task's own index word names. -/
theorem slabG_piece0_3 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v12_scv : Memref sig .scVector .hbm S32x7x112 .i32).view.loc (V d c i))) (fi1 : Buf (Elt F) ((Memref.whole main_v14_scv : Memref sig .scVector .hbm S32x7x112 .i32).view.loc (V d c i))) (fi2 : Buf (Elt F) ((Memref.whole main_v16_scv : Memref sig .scVector .hbm S32x7x112 .i32).view.loc (V d c i))) (fi3 : Buf (Elt F) ((Memref.whole main_v18_scv : Memref sig .scVector .hbm S32x7x112 .i32).view.loc (V d c i)))
    (hfi : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000) (r : Fin 7) (y : S112x128.Idx) :
    slabG fx0 fx1 fx2 fx3 fi0 fi1 fi2 fi3 (((Memref.whole main_v19_scv : Memref sig .scVector .hbm S25088x512 .f32).slice (Rect.unit (s := S25088x512) (k0_off5 L (BitVec.ofNat 32 (112 * r.val))) S112x128.size (k0_off5_inb L r)) (fun _ => rfl)).view.emb y)
      = (Memref.whole main_arg3_scv : Memref sig .scVector .hbm S100000x128 .f32).view.read (Elt F) fx3 (ix2 (n0 := 100000) (n1 := 128)
          ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) r (y 0))).toNat, hfi _⟩ (y 1)) := by
  have e := idxRow_read_main_v18 d L c i fi3 r (y 0)
  have hlt : (fi3 (ix3 (n0 := 32) (n1 := 7) (n2 := 112) (widL L) r (y 0))).toNat < 100000 := e ▸ hfi (ix2 (n0 := 7) (n1 := 112) r (y 0))
  obtain ⟨h0, h1⟩ := piece0_5_emb L r y
  refine (slabG_at3 fx0 fx1 fx2 fx3 fi0 fi1 fi2 fi3 _ (widL L) r (y 0) (y 1) h0 h1).trans ?_
  refine (rowAt_lt fx3 _ hlt (y 1)).trans ?_
  exact congrArg (fun v : Fin 100000 => fx3 (ix2 (n0 := 100000) (n1 := 128) v (y 1))) (Fin.ext (congrArg BitVec.toNat e.symm))

end Reads0

end Cert.KernelIdeal.Sc

end
-- ==== Proof.ScOblG0.lean ====
/-
  The launch theorem's obligation for the tasks of gather call 0.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTileV0
import proofs.«215994_g5102421148354_cont_8to1c4_853_29_alg».proof.Proof.ScPayG
import proofs.«215994_g5102421148354_cont_8to1c4_853_29_alg».proof.Proof.ScValG
import proofs.«215994_g5102421148354_cont_8to1c4_853_29_alg».proof.Proof.ScScoped

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 0 names. -/
abbrev semLG0 : List (SemLoc sig) := [SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scratch23.sem, SemLoc.dma cc0_scratch24.sem, SemLoc.dma cc0_scratch25.sem, SemLoc.dma cc0_scratch26.sem, SemLoc.dma cc0_scratch27.sem, SemLoc.dma cc0_scratch28.sem]
abbrev bufLG0 (c : Fin τ.nSC) (i : Fin τ.nSub) : List (DevRef τ sig) := ([cc0_scratch0, cc0_scratch1, cc0_scratch2, cc0_scratch3, cc0_scratch4, cc0_scratch5, cc0_scratch6, cc0_scratch7, cc0_scratch8, cc0_scratch9, cc0_scratch10] : List (Ref sig .scVector)).map (Proc.scVector c i).devRef

theorem semLG0_nodup : (semLG0).Nodup := by decide
theorem semLG0_scoped : ∀ s ∈ semLG0, s.isScoped Kind.scVector = true := by decide
theorem bufLG0_nodup (c : Fin τ.nSC) (i : Fin τ.nSub) : (bufLG0 c i).Nodup :=
  (show ([cc0_scratch0, cc0_scratch1, cc0_scratch2, cc0_scratch3, cc0_scratch4, cc0_scratch5, cc0_scratch6, cc0_scratch7, cc0_scratch8, cc0_scratch9, cc0_scratch10] : List (Ref sig .scVector)).Nodup by decide).map (Proc.devRef_injective _)
theorem bufLG0_own (c : Fin τ.nSC) (i : Fin τ.nSub) : ∀ b ∈ bufLG0 c i, b ∈ ownRefs (sig := sig) (Proc.scVector c i) := by
  intro b hb
  simp only [bufLG0, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11G_0 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semLG0_chain (Φ : SemLoc sig → sProp 𝕄) : bigSepL semLG0 Φ = iprop(Φ (SemLoc.dma cc0_scratch11.sem) ∗ Φ (SemLoc.dma cc0_scratch12.sem) ∗ Φ (SemLoc.dma cc0_scratch13.sem) ∗ Φ (SemLoc.dma cc0_scratch14.sem) ∗ Φ (SemLoc.dma cc0_scratch15.sem) ∗ Φ (SemLoc.dma cc0_scratch16.sem) ∗ Φ (SemLoc.dma cc0_scratch17.sem) ∗ Φ (SemLoc.dma cc0_scratch18.sem) ∗ Φ (SemLoc.dma cc0_scratch19.sem) ∗ Φ (SemLoc.dma cc0_scratch20.sem) ∗ Φ (SemLoc.dma cc0_scratch21.sem) ∗ Φ (SemLoc.dma cc0_scratch22.sem) ∗ Φ (SemLoc.dma cc0_scratch23.sem) ∗ Φ (SemLoc.dma cc0_scratch24.sem) ∗ Φ (SemLoc.dma cc0_scratch25.sem) ∗ Φ (SemLoc.dma cc0_scratch26.sem) ∗ Φ (SemLoc.dma cc0_scratch27.sem) ∗ Φ (SemLoc.dma cc0_scratch28.sem)) := rfl
theorem bufLG0_chain (c : Fin τ.nSC) (i : Fin τ.nSub) (Φ : DevRef τ sig → sProp 𝕄) : bigSepL (bufLG0 c i) Φ = iprop(Φ ((Proc.scVector c i).devRef cc0_scratch0) ∗ Φ ((Proc.scVector c i).devRef cc0_scratch1) ∗ Φ ((Proc.scVector c i).devRef cc0_scratch2) ∗ Φ ((Proc.scVector c i).devRef cc0_scratch3) ∗ Φ ((Proc.scVector c i).devRef cc0_scratch4) ∗ Φ ((Proc.scVector c i).devRef cc0_scratch5) ∗ Φ ((Proc.scVector c i).devRef cc0_scratch6) ∗ Φ ((Proc.scVector c i).devRef cc0_scratch7) ∗ Φ ((Proc.scVector c i).devRef cc0_scratch8) ∗ Φ ((Proc.scVector c i).devRef cc0_scratch9) ∗ Φ ((Proc.scVector c i).devRef cc0_scratch10)) := rfl

set_option maxHeartbeats 4000000 in
/-- The task from what the launch hands it: its payload and its subcore's whole scoped storage. -/
theorem tile_fullG0 (hF : (K (F := F)).Facts) (d : Dev nD) (L : grid0.Coords) (O : CellTallies nD τ sig (HIx 4)) (W : Waits sig (HIx 4))
    (hO : ∀ g, O g none = 0) (qx : PosShare TreeShare)
    (fi0 : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi0 : ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 j).toNat < 100000)
    (fi1 : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi1 : ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 j).toNat < 100000)
    (fi2 : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi2 : ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 j).toNat < 100000)
    (fi3 : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) (hfi3 : ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV0 L) (jV0 L))))
    (fx1 : Buf (Elt F) ((Memref.whole main_arg1_scv : Memref sig .scVector .hbm S100000x128 .f32).view.loc (V d (cV0 L) (jV0 L))))
    (fx2 : Buf (Elt F) ((Memref.whole main_arg2_scv : Memref sig .scVector .hbm S100000x128 .f32).view.loc (V d (cV0 L) (jV0 L))))
    (fx3 : Buf (Elt F) ((Memref.whole main_arg3_scv : Memref sig .scVector .hbm S100000x128 .f32).view.loc (V d (cV0 L) (jV0 L))))
    (G : Buf (Elt F) (((Memref.whole main_v19_scv : Memref sig .scVector .hbm S25088x512 .f32).slice (Rect.unit (s := S25088x512) (k0_off2 L 0#32) S112x128.size (k0_off2_inb L 0)) (fun _ => rfl)).view.loc (V d (cV0 L) (jV0 L))))
    (hG0_0 : ∀ y, ((Memref.whole main_v19_scv : Memref sig .scVector .hbm S25088x512 .f32).slice (Rect.unit (s := S25088x512) (k0_off2 L 0#32) S112x128.size (k0_off2_inb L 0)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v19_scv : Memref sig .scVector .hbm S25088x512 .f32).slice (Rect.unit (s := S25088x512) (k0_off2 L 112#32) S112x128.size (k0_off2_inb L 1)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v19_scv : Memref sig .scVector .hbm S25088x512 .f32).slice (Rect.unit (s := S25088x512) (k0_off2 L 224#32) S112x128.size (k0_off2_inb L 2)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v19_scv : Memref sig .scVector .hbm S25088x512 .f32).slice (Rect.unit (s := S25088x512) (k0_off2 L 336#32) S112x128.size (k0_off2_inb L 3)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v19_scv : Memref sig .scVector .hbm S25088x512 .f32).slice (Rect.unit (s := S25088x512) (k0_off2 L 448#32) S112x128.size (k0_off2_inb L 4)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v19_scv : Memref sig .scVector .hbm S25088x512 .f32).slice (Rect.unit (s := S25088x512) (k0_off2 L 560#32) S112x128.size (k0_off2_inb L 5)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v19_scv : Memref sig .scVector .hbm S25088x512 .f32).slice (Rect.unit (s := S25088x512) (k0_off2 L 672#32) S112x128.size (k0_off2_inb L 6)) (fun _ => rfl)).view.read (Elt F) G y = (Memref.whole main_arg0_scv : Memref sig .scVector .hbm S100000x128 .f32).view.read (Elt F) fx0 (ix2 (n0 := 100000) (n1 := 128) ⟨((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v19_scv : Memref sig .scVector .hbm S25088x512 .f32).slice (Rect.unit (s := S25088x512) (k0_off3 L 0#32) S112x128.size (k0_off3_inb L 0)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v19_scv : Memref sig .scVector .hbm S25088x512 .f32).slice (Rect.unit (s := S25088x512) (k0_off3 L 112#32) S112x128.size (k0_off3_inb L 1)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v19_scv : Memref sig .scVector .hbm S25088x512 .f32).slice (Rect.unit (s := S25088x512) (k0_off3 L 224#32) S112x128.size (k0_off3_inb L 2)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v19_scv : Memref sig .scVector .hbm S25088x512 .f32).slice (Rect.unit (s := S25088x512) (k0_off3 L 336#32) S112x128.size (k0_off3_inb L 3)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v19_scv : Memref sig .scVector .hbm S25088x512 .f32).slice (Rect.unit (s := S25088x512) (k0_off3 L 448#32) S112x128.size (k0_off3_inb L 4)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v19_scv : Memref sig .scVector .hbm S25088x512 .f32).slice (Rect.unit (s := S25088x512) (k0_off3 L 560#32) S112x128.size (k0_off3_inb L 5)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v19_scv : Memref sig .scVector .hbm S25088x512 .f32).slice (Rect.unit (s := S25088x512) (k0_off3 L 672#32) S112x128.size (k0_off3_inb L 6)) (fun _ => rfl)).view.read (Elt F) G y = (Memref.whole main_arg1_scv : Memref sig .scVector .hbm S100000x128 .f32).view.read (Elt F) fx1 (ix2 (n0 := 100000) (n1 := 128) ⟨((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v19_scv : Memref sig .scVector .hbm S25088x512 .f32).slice (Rect.unit (s := S25088x512) (k0_off4 L 0#32) S112x128.size (k0_off4_inb L 0)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v19_scv : Memref sig .scVector .hbm S25088x512 .f32).slice (Rect.unit (s := S25088x512) (k0_off4 L 112#32) S112x128.size (k0_off4_inb L 1)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v19_scv : Memref sig .scVector .hbm S25088x512 .f32).slice (Rect.unit (s := S25088x512) (k0_off4 L 224#32) S112x128.size (k0_off4_inb L 2)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v19_scv : Memref sig .scVector .hbm S25088x512 .f32).slice (Rect.unit (s := S25088x512) (k0_off4 L 336#32) S112x128.size (k0_off4_inb L 3)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v19_scv : Memref sig .scVector .hbm S25088x512 .f32).slice (Rect.unit (s := S25088x512) (k0_off4 L 448#32) S112x128.size (k0_off4_inb L 4)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v19_scv : Memref sig .scVector .hbm S25088x512 .f32).slice (Rect.unit (s := S25088x512) (k0_off4 L 560#32) S112x128.size (k0_off4_inb L 5)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v19_scv : Memref sig .scVector .hbm S25088x512 .f32).slice (Rect.unit (s := S25088x512) (k0_off4 L 672#32) S112x128.size (k0_off4_inb L 6)) (fun _ => rfl)).view.read (Elt F) G y = (Memref.whole main_arg2_scv : Memref sig .scVector .hbm S100000x128 .f32).view.read (Elt F) fx2 (ix2 (n0 := 100000) (n1 := 128) ⟨((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v19_scv : Memref sig .scVector .hbm S25088x512 .f32).slice (Rect.unit (s := S25088x512) (k0_off5 L 0#32) S112x128.size (k0_off5_inb L 0)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v19_scv : Memref sig .scVector .hbm S25088x512 .f32).slice (Rect.unit (s := S25088x512) (k0_off5 L 112#32) S112x128.size (k0_off5_inb L 1)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v19_scv : Memref sig .scVector .hbm S25088x512 .f32).slice (Rect.unit (s := S25088x512) (k0_off5 L 224#32) S112x128.size (k0_off5_inb L 2)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v19_scv : Memref sig .scVector .hbm S25088x512 .f32).slice (Rect.unit (s := S25088x512) (k0_off5 L 336#32) S112x128.size (k0_off5_inb L 3)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v19_scv : Memref sig .scVector .hbm S25088x512 .f32).slice (Rect.unit (s := S25088x512) (k0_off5 L 448#32) S112x128.size (k0_off5_inb L 4)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v19_scv : Memref sig .scVector .hbm S25088x512 .f32).slice (Rect.unit (s := S25088x512) (k0_off5 L 560#32) S112x128.size (k0_off5_inb L 5)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v19_scv : Memref sig .scVector .hbm S25088x512 .f32).slice (Rect.unit (s := S25088x512) (k0_off5 L 672#32) S112x128.size (k0_off5_inb L 6)) (fun _ => rfl)).view.read (Elt F) G y = (Memref.whole main_arg3_scv : Memref sig .scVector .hbm S100000x128 .f32).view.read (Elt F) fx3 (ix2 (n0 := 100000) (n1 := 128) ⟨((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(levAts (K (F := F)).L (K (F := F)).lev ∗ emp ∗ tileRes0 d L qx fi0 fi1 fi2 fi3 fx0 fx1 fx2 fx3
        ∗ scopedBufs (V d (cV0 L) (jV0 L)) ∗ scopedSems0 (V d (cV0 L) (jV0 L)) ∗ owes (V d (cV0 L) (jV0 L)) O W : sProp 𝕄)
      ⊢ wp frame (wpE (defs₀ (F := F)) 𝒱₀ (V d (cV0 L) (jV0 L)) none) Set.univ
          (cc0_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28)
          fun _ => iprop(tileResG0 d L qx fi0 fi1 fi2 fi3 fx0 fx1 fx2 fx3 G ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  rw [(K (F := F)).scopedBufs_V hF d (cV0 L) (jV0 L), SparseCore.Cfg.scopedSems0_V (Val := Elt F) d (cV0 L) (jV0 L),
    ownSems0_take (V d (cV0 L) (jV0 L)) semLG0 semLG0_nodup semLG0_scoped,
    ownBufs_take (V d (cV0 L) (jV0 L)) (bufLG0 (cV0 L) (jV0 L)) (bufLG0_nodup _ _) (bufLG0_own _ _)]
  unfold tileRes0 tileResG0 ownedAny
  rw [semLG0_chain, bufLG0_chain]
  simp only [toks11G_0]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV0 L) (jV0 L))) hO) $$ Hlv
  ihave Hwp := (tile_bodyV0 (F := F) d L O W qx fi0 hfi0 fi1 hfi1 fi2 hfi2 fi3 hfi3 fx0 fx1 fx2 fx3 G hG0_0 hG0_1 hG0_2 hG0_3 hG0_4 hG0_5 hG0_6 hG1_0 hG1_1 hG1_2 hG1_3 hG1_4 hG1_5 hG1_6 hG2_0 hG2_1 hG2_2 hG2_3 hG2_4 hG2_5 hG2_6 hG3_0 hG3_1 hG3_2 hG3_3 hG3_4 hG3_5 hG3_6) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_postG0 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 0. -/
theorem defs₀_vectorG0 (c : Fin τ.nSC) (s : Fin τ.nSub) :
    defs₀ (F := F) (.scVector c s) 0 ()
      = SparseCore.onTile hcore0 hsub0 (fun c s => cc0_sc_kernel (coordsV0 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v12_scv) (Memref.isWhole_whole _) (Memref.whole main_v14_scv) (Memref.isWhole_whole _) (Memref.whole main_v16_scv) (Memref.isWhole_whole _) (Memref.whole main_v18_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) ⟨⟩ c s := rfl

/-- An index row of the task reads words of the call's index array, which are row numbers of the tables. -/
theorem row_ltG0 (d : Dev nD) (L : grid0.Coords) (a : IVec S100000 32) (ha : ∀ r, (a r).toNat < 100000) (t : Fin 4) :
    ((t = 0 → ∀ j, ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v12_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 1 → ∀ j, ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v14_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 2 → ∀ j, ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v16_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000)
    ∧ (t = 3 → ∀ j, ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.read (Elt F) (Idx.slab 0 a : Buf (Elt F) ((((Memref.whole main_v18_scv : Memref sig .scVector .hbm S32x7x112 .i32).slice (Rect.unit (s := S32x7x112) (k0_off1 L) S1x7x112.size (k0_off1_inb L)) (fun _ => rfl)).squeeze S7x112 squeezes_S1x7x112_S7x112).view.loc (V d (cV0 L) (jV0 L)))) j).toNat < 100000))
    := by
  refine ⟨?_, ?_, ?_, ?_⟩ <;> (intro _ j; rw [View.read_apply]; simp only [cast_eq]; exact Idx.slab_lt 0 a ha _)

set_option maxHeartbeats 4000000 in
/-- The launch theorem's obligation for the tasks of call 0, the index inputs holding row numbers. -/
theorem tileOblG0 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (PG m) v₀ 0 := by
  intro d c i O W hO _ _
  simp only [show (PG m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vectorG0]; simp only [SparseCore.onTile, hc, and_self, ↓reduceDIte]
  obtain ⟨h4, h5, h6, h7⟩ := hpre d
  exact (tile_fullG0 (F := F) facts d (coordsV0 ⟨_, hc.1⟩ ⟨_, hc.2⟩) O W hO (qTile (Fin.cast (nCore_eq 0) c) (Fin.cast (nSub_eq 0) i))
    (Idx.slab 0 (m ((SparseCore.T d).loc main_arg4))) ((row_ltG0 d _ _ h4 0).1 rfl)
    (Idx.slab 0 (m ((SparseCore.T d).loc main_arg5))) ((row_ltG0 d _ _ h5 1).2.1 rfl)
    (Idx.slab 0 (m ((SparseCore.T d).loc main_arg6))) ((row_ltG0 d _ _ h6 2).2.2.1 rfl)
    (Idx.slab 0 (m ((SparseCore.T d).loc main_arg7))) ((row_ltG0 d _ _ h7 3).2.2.2 rfl)
    (m ((SparseCore.T d).loc main_arg0)) (m ((SparseCore.T d).loc main_arg1)) (m ((SparseCore.T d).loc main_arg2)) (m ((SparseCore.T d).loc main_arg3))
    (slabOfM m 0 d)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨0, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨1, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨2, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨3, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨4, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨5, by decide⟩ : Fin 7) y)
    (fun y => by rw [View.read_apply]; simp only [cast_eq]; exact slabG_piece0_0 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨6, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨0, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨1, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨2, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨3, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨4, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨5, by decide⟩ : Fin 7) y)
    (fun y => by rw [View.read_apply]; simp only [cast_eq]; exact slabG_piece0_1 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨6, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨0, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨1, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨2, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨3, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨4, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨5, by decide⟩ : Fin 7) y)
    (fun y => by rw [View.read_apply]; simp only [cast_eq]; exact slabG_piece0_2 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨6, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨0, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨1, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨2, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨3, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨4, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨5, by decide⟩ : Fin 7) y)
    (fun y => by rw [View.read_apply]; simp only [cast_eq]; exact slabG_piece0_3 d (coordsV0 ⟨_, hc.1⟩ ⟨_, hc.2⟩) (cV0 (coordsV0 ⟨_, hc.1⟩ ⟨_, hc.2⟩)) (jV0 (coordsV0 ⟨_, hc.1⟩ ⟨_, hc.2⟩)) _ _ _ _ _ _ _ _ _ (⟨6, by decide⟩ : Fin 7) y)
    ).trans
    (wp_mono frame _ _ fun _ => obl_postG0)

end Cert.KernelIdeal.Sc

end
-- ==== Proof.ScTileV1.lean ====
/-
  One vector subcore's task in gather call 1: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScVal

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_bodyV1 (d : Dev nD) (L : grid1.Coords) (O : CellTallies nD τ sig (HIx 4)) (W : Waits sig (HIx 4)) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    (G : Buf (Elt F) (((Memref.whole main_v28_scv : Memref sig .scVector .hbm S25088x512 .f32).slice (Rect.unit (s := S25088x512) (k1_off2 L 0#32) S112x128.size (k1_off2_inb L 0)) (fun _ => rfl)).view.loc (V d (cV1 L) (jV1 L))))
    (hG0_0 : ∀ y, ((Memref.whole main_v28_scv : Memref sig .scVector .hbm S25088x512 .f32).slice (Rect.unit (s := S25088x512) (k1_off2 L 0#32) S112x128.size (k1_off2_inb L 0)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v28_scv : Memref sig .scVector .hbm S25088x512 .f32).slice (Rect.unit (s := S25088x512) (k1_off2 L 112#32) S112x128.size (k1_off2_inb L 1)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v28_scv : Memref sig .scVector .hbm S25088x512 .f32).slice (Rect.unit (s := S25088x512) (k1_off2 L 224#32) S112x128.size (k1_off2_inb L 2)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v28_scv : Memref sig .scVector .hbm S25088x512 .f32).slice (Rect.unit (s := S25088x512) (k1_off2 L 336#32) S112x128.size (k1_off2_inb L 3)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v28_scv : Memref sig .scVector .hbm S25088x512 .f32).slice (Rect.unit (s := S25088x512) (k1_off2 L 448#32) S112x128.size (k1_off2_inb L 4)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v28_scv : Memref sig .scVector .hbm S25088x512 .f32).slice (Rect.unit (s := S25088x512) (k1_off2 L 560#32) S112x128.size (k1_off2_inb L 5)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v28_scv : Memref sig .scVector .hbm S25088x512 .f32).slice (Rect.unit (s := S25088x512) (k1_off2 L 672#32) S112x128.size (k1_off2_inb L 6)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v28_scv : Memref sig .scVector .hbm S25088x512 .f32).slice (Rect.unit (s := S25088x512) (k1_off3 L 0#32) S112x128.size (k1_off3_inb L 0)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v28_scv : Memref sig .scVector .hbm S25088x512 .f32).slice (Rect.unit (s := S25088x512) (k1_off3 L 112#32) S112x128.size (k1_off3_inb L 1)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v28_scv : Memref sig .scVector .hbm S25088x512 .f32).slice (Rect.unit (s := S25088x512) (k1_off3 L 224#32) S112x128.size (k1_off3_inb L 2)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v28_scv : Memref sig .scVector .hbm S25088x512 .f32).slice (Rect.unit (s := S25088x512) (k1_off3 L 336#32) S112x128.size (k1_off3_inb L 3)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v28_scv : Memref sig .scVector .hbm S25088x512 .f32).slice (Rect.unit (s := S25088x512) (k1_off3 L 448#32) S112x128.size (k1_off3_inb L 4)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v28_scv : Memref sig .scVector .hbm S25088x512 .f32).slice (Rect.unit (s := S25088x512) (k1_off3 L 560#32) S112x128.size (k1_off3_inb L 5)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v28_scv : Memref sig .scVector .hbm S25088x512 .f32).slice (Rect.unit (s := S25088x512) (k1_off3 L 672#32) S112x128.size (k1_off3_inb L 6)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v28_scv : Memref sig .scVector .hbm S25088x512 .f32).slice (Rect.unit (s := S25088x512) (k1_off4 L 0#32) S112x128.size (k1_off4_inb L 0)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v28_scv : Memref sig .scVector .hbm S25088x512 .f32).slice (Rect.unit (s := S25088x512) (k1_off4 L 112#32) S112x128.size (k1_off4_inb L 1)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v28_scv : Memref sig .scVector .hbm S25088x512 .f32).slice (Rect.unit (s := S25088x512) (k1_off4 L 224#32) S112x128.size (k1_off4_inb L 2)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v28_scv : Memref sig .scVector .hbm S25088x512 .f32).slice (Rect.unit (s := S25088x512) (k1_off4 L 336#32) S112x128.size (k1_off4_inb L 3)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v28_scv : Memref sig .scVector .hbm S25088x512 .f32).slice (Rect.unit (s := S25088x512) (k1_off4 L 448#32) S112x128.size (k1_off4_inb L 4)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v28_scv : Memref sig .scVector .hbm S25088x512 .f32).slice (Rect.unit (s := S25088x512) (k1_off4 L 560#32) S112x128.size (k1_off4_inb L 5)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v28_scv : Memref sig .scVector .hbm S25088x512 .f32).slice (Rect.unit (s := S25088x512) (k1_off4 L 672#32) S112x128.size (k1_off4_inb L 6)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v28_scv : Memref sig .scVector .hbm S25088x512 .f32).slice (Rect.unit (s := S25088x512) (k1_off5 L 0#32) S112x128.size (k1_off5_inb L 0)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v28_scv : Memref sig .scVector .hbm S25088x512 .f32).slice (Rect.unit (s := S25088x512) (k1_off5 L 112#32) S112x128.size (k1_off5_inb L 1)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v28_scv : Memref sig .scVector .hbm S25088x512 .f32).slice (Rect.unit (s := S25088x512) (k1_off5 L 224#32) S112x128.size (k1_off5_inb L 2)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v28_scv : Memref sig .scVector .hbm S25088x512 .f32).slice (Rect.unit (s := S25088x512) (k1_off5 L 336#32) S112x128.size (k1_off5_inb L 3)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v28_scv : Memref sig .scVector .hbm S25088x512 .f32).slice (Rect.unit (s := S25088x512) (k1_off5 L 448#32) S112x128.size (k1_off5_inb L 4)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v28_scv : Memref sig .scVector .hbm S25088x512 .f32).slice (Rect.unit (s := S25088x512) (k1_off5 L 560#32) S112x128.size (k1_off5_inb L 5)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v28_scv : Memref sig .scVector .hbm S25088x512 .f32).slice (Rect.unit (s := S25088x512) (k1_off5 L 672#32) S112x128.size (k1_off5_inb L 6)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(Transfers.MayWaits (V d (cV1 L) (jV1 L)) (none : HIx 4) O
        ∗ ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
        ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
        ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
        ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
        ∗ ((Memref.whole main_arg0_scv : Memref sig .scVector .hbm S100000x128 .f32).view.loc (V d (cV1 L) (jV1 L)) ↦{Transfers.shareTok qx 11 (4 : Fin 11)} fx0)
        ∗ ((Memref.whole main_arg0_scv : Memref sig .scVector .hbm S100000x128 .f32).view.loc (V d (cV1 L) (jV1 L)) ↦{Transfers.shareTok qx 11 (5 : Fin 11)} fx0)
        ∗ ((Memref.whole main_arg0_scv : Memref sig .scVector .hbm S100000x128 .f32).view.loc (V d (cV1 L) (jV1 L)) ↦{Transfers.shareTok qx 11 (6 : Fin 11)} fx0)
        ∗ ((Memref.whole main_arg0_scv : Memref sig .scVector .hbm S100000x128 .f32).view.loc (V d (cV1 L) (jV1 L)) ↦{Transfers.shareTok qx 11 (7 : Fin 11)} fx0)
        ∗ ((Memref.whole main_arg0_scv : Memref sig .scVector .hbm S100000x128 .f32).view.loc (V d (cV1 L) (jV1 L)) ↦{Transfers.shareTok qx 11 (8 : Fin 11)} fx0)
        ∗ ((Memref.whole main_arg0_scv : Memref sig .scVector .hbm S100000x128 .f32).view.loc (V d (cV1 L) (jV1 L)) ↦{Transfers.shareTok qx 11 (9 : Fin 11)} fx0)
        ∗ ((Memref.whole main_arg0_scv : Memref sig .scVector .hbm S100000x128 .f32).view.loc (V d (cV1 L) (jV1 L)) ↦{Transfers.shareTok qx 11 (10 : Fin 11)} fx0)
        ∗ ((Memref.whole main_arg1_scv : Memref sig .scVector .hbm S100000x128 .f32).view.loc (V d (cV1 L) (jV1 L)) ↦{Transfers.shareTok qx 11 (4 : Fin 11)} fx1)
        ∗ ((Memref.whole main_arg1_scv : Memref sig .scVector .hbm S100000x128 .f32).view.loc (V d (cV1 L) (jV1 L)) ↦{Transfers.shareTok qx 11 (5 : Fin 11)} fx1)
        ∗ ((Memref.whole main_arg1_scv : Memref sig .scVector .hbm S100000x128 .f32).view.loc (V d (cV1 L) (jV1 L)) ↦{Transfers.shareTok qx 11 (6 : Fin 11)} fx1)
        ∗ ((Memref.whole main_arg1_scv : Memref sig .scVector .hbm S100000x128 .f32).view.loc (V d (cV1 L) (jV1 L)) ↦{Transfers.shareTok qx 11 (7 : Fin 11)} fx1)
        ∗ ((Memref.whole main_arg1_scv : Memref sig .scVector .hbm S100000x128 .f32).view.loc (V d (cV1 L) (jV1 L)) ↦{Transfers.shareTok qx 11 (8 : Fin 11)} fx1)
        ∗ ((Memref.whole main_arg1_scv : Memref sig .scVector .hbm S100000x128 .f32).view.loc (V d (cV1 L) (jV1 L)) ↦{Transfers.shareTok qx 11 (9 : Fin 11)} fx1)
        ∗ ((Memref.whole main_arg1_scv : Memref sig .scVector .hbm S100000x128 .f32).view.loc (V d (cV1 L) (jV1 L)) ↦{Transfers.shareTok qx 11 (10 : Fin 11)} fx1)
        ∗ ((Memref.whole main_arg2_scv : Memref sig .scVector .hbm S100000x128 .f32).view.loc (V d (cV1 L) (jV1 L)) ↦{Transfers.shareTok qx 11 (4 : Fin 11)} fx2)
        ∗ ((Memref.whole main_arg2_scv : Memref sig .scVector .hbm S100000x128 .f32).view.loc (V d (cV1 L) (jV1 L)) ↦{Transfers.shareTok qx 11 (5 : Fin 11)} fx2)
        ∗ ((Memref.whole main_arg2_scv : Memref sig .scVector .hbm S100000x128 .f32).view.loc (V d (cV1 L) (jV1 L)) ↦{Transfers.shareTok qx 11 (6 : Fin 11)} fx2)
        ∗ ((Memref.whole main_arg2_scv : Memref sig .scVector .hbm S100000x128 .f32).view.loc (V d (cV1 L) (jV1 L)) ↦{Transfers.shareTok qx 11 (7 : Fin 11)} fx2)
        ∗ ((Memref.whole main_arg2_scv : Memref sig .scVector .hbm S100000x128 .f32).view.loc (V d (cV1 L) (jV1 L)) ↦{Transfers.shareTok qx 11 (8 : Fin 11)} fx2)
        ∗ ((Memref.whole main_arg2_scv : Memref sig .scVector .hbm S100000x128 .f32).view.loc (V d (cV1 L) (jV1 L)) ↦{Transfers.shareTok qx 11 (9 : Fin 11)} fx2)
        ∗ ((Memref.whole main_arg2_scv : Memref sig .scVector .hbm S100000x128 .f32).view.loc (V d (cV1 L) (jV1 L)) ↦{Transfers.shareTok qx 11 (10 : Fin 11)} fx2)
        ∗ ((Memref.whole main_arg3_scv : Memref sig .scVector .hbm S100000x128 .f32).view.loc (V d (cV1 L) (jV1 L)) ↦{Transfers.shareTok qx 11 (4 : Fin 11)} fx3)
        ∗ ((Memref.whole main_arg3_scv : Memref sig .scVector .hbm S100000x128 .f32).view.loc (V d (cV1 L) (jV1 L)) ↦{Transfers.shareTok qx 11 (5 : Fin 11)} fx3)
        ∗ ((Memref.whole main_arg3_scv : Memref sig .scVector .hbm S100000x128 .f32).view.loc (V d (cV1 L) (jV1 L)) ↦{Transfers.shareTok qx 11 (6 : Fin 11)} fx3)
        ∗ ((Memref.whole main_arg3_scv : Memref sig .scVector .hbm S100000x128 .f32).view.loc (V d (cV1 L) (jV1 L)) ↦{Transfers.shareTok qx 11 (7 : Fin 11)} fx3)
        ∗ ((Memref.whole main_arg3_scv : Memref sig .scVector .hbm S100000x128 .f32).view.loc (V d (cV1 L) (jV1 L)) ↦{Transfers.shareTok qx 11 (8 : Fin 11)} fx3)
        ∗ ((Memref.whole main_arg3_scv : Memref sig .scVector .hbm S100000x128 .f32).view.loc (V d (cV1 L) (jV1 L)) ↦{Transfers.shareTok qx 11 (9 : Fin 11)} fx3)
        ∗ ((Memref.whole main_arg3_scv : Memref sig .scVector .hbm S100000x128 .f32).view.loc (V d (cV1 L) (jV1 L)) ↦{Transfers.shareTok qx 11 (10 : Fin 11)} fx3)
        ∗ (∃ fo, ((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} fo)
        ∗ (∃ fo, ((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} fo)
        ∗ (∃ fo, ((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} fo)
        ∗ (∃ fo, ((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} fo)
        ∗ (∃ fo, ((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} fo)
        ∗ (∃ fo, ((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} fo)
        ∗ (∃ fo, ((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} fo)
        ∗ (∃ fo, ((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} fo)
        ∗ (∃ fo, ((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} fo)
        ∗ (∃ fo, ((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} fo)
        ∗ (∃ fo, ((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} fo)
        ∗ (∃ fo, ((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} fo)
        ∗ (∃ fo, ((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} fo)
        ∗ (∃ fo, ((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} fo)
        ∗ (∃ fo, ((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} fo)
        ∗ (∃ fo, ((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} fo)
        ∗ (∃ fo, ((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} fo)
        ∗ (∃ fo, ((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} fo)
        ∗ (∃ fo, ((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} fo)
        ∗ (∃ fo, ((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} fo)
        ∗ (∃ fo, ((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} fo)
        ∗ (∃ fo, ((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} fo)
        ∗ (∃ fo, ((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} fo)
        ∗ (∃ fo, ((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} fo)
        ∗ (∃ fo, ((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} fo)
        ∗ (∃ fo, ((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} fo)
        ∗ (∃ fo, ((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} fo)
        ∗ (∃ fo, ((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} fo)
        ∗ (∃ si, (Memref.whole cc1_scratch0 : Memref sig .scVector .vmem S7x112 .i32).view.loc (V d (cV1 L) (jV1 L)) ↦{fullShare} si)
        ∗ (∃ si, (Memref.whole cc1_scratch1 : Memref sig .scVector .vmem S7x112 .i32).view.loc (V d (cV1 L) (jV1 L)) ↦{fullShare} si)
        ∗ (∃ si, (Memref.whole cc1_scratch2 : Memref sig .scVector .vmem S7x112 .i32).view.loc (V d (cV1 L) (jV1 L)) ↦{fullShare} si)
        ∗ (∃ si, (Memref.whole cc1_scratch3 : Memref sig .scVector .vmem S7x112 .i32).view.loc (V d (cV1 L) (jV1 L)) ↦{fullShare} si)
        ∗ (∃ sb, (Memref.whole cc1_scratch4 : Memref sig .scVector .vmem S112x128 .f32).view.loc (V d (cV1 L) (jV1 L)) ↦{fullShare} sb)
        ∗ (∃ sb, (Memref.whole cc1_scratch5 : Memref sig .scVector .vmem S112x128 .f32).view.loc (V d (cV1 L) (jV1 L)) ↦{fullShare} sb)
        ∗ (∃ sb, (Memref.whole cc1_scratch6 : Memref sig .scVector .vmem S112x128 .f32).view.loc (V d (cV1 L) (jV1 L)) ↦{fullShare} sb)
        ∗ (∃ sb, (Memref.whole cc1_scratch7 : Memref sig .scVector .vmem S112x128 .f32).view.loc (V d (cV1 L) (jV1 L)) ↦{fullShare} sb)
        ∗ (∃ sb, (Memref.whole cc1_scratch8 : Memref sig .scVector .vmem S112x128 .f32).view.loc (V d (cV1 L) (jV1 L)) ↦{fullShare} sb)
        ∗ (∃ sb, (Memref.whole cc1_scratch9 : Memref sig .scVector .vmem S112x128 .f32).view.loc (V d (cV1 L) (jV1 L)) ↦{fullShare} sb)
        ∗ (∃ sb, (Memref.whole cc1_scratch10 : Memref sig .scVector .vmem S112x128 .f32).view.loc (V d (cV1 L) (jV1 L)) ↦{fullShare} sb)
        ∗ semVal ((V d (cV1 L) (jV1 L)), SemLoc.dma cc1_scratch11.sem) 0
        ∗ semVal ((V d (cV1 L) (jV1 L)), SemLoc.dma cc1_scratch12.sem) 0
        ∗ semVal ((V d (cV1 L) (jV1 L)), SemLoc.dma cc1_scratch13.sem) 0
        ∗ semVal ((V d (cV1 L) (jV1 L)), SemLoc.dma cc1_scratch14.sem) 0
        ∗ semVal ((V d (cV1 L) (jV1 L)), SemLoc.dma cc1_scratch15.sem) 0
        ∗ semVal ((V d (cV1 L) (jV1 L)), SemLoc.dma cc1_scratch16.sem) 0
        ∗ semVal ((V d (cV1 L) (jV1 L)), SemLoc.dma cc1_scratch17.sem) 0
        ∗ semVal ((V d (cV1 L) (jV1 L)), SemLoc.dma cc1_scratch18.sem) 0
        ∗ semVal ((V d (cV1 L) (jV1 L)), SemLoc.dma cc1_scratch19.sem) 0
        ∗ semVal ((V d (cV1 L) (jV1 L)), SemLoc.dma cc1_scratch20.sem) 0
        ∗ semVal ((V d (cV1 L) (jV1 L)), SemLoc.dma cc1_scratch21.sem) 0
        ∗ semVal ((V d (cV1 L) (jV1 L)), SemLoc.dma cc1_scratch22.sem) 0
        ∗ semVal ((V d (cV1 L) (jV1 L)), SemLoc.dma cc1_scratch23.sem) 0
        ∗ semVal ((V d (cV1 L) (jV1 L)), SemLoc.dma cc1_scratch24.sem) 0
        ∗ semVal ((V d (cV1 L) (jV1 L)), SemLoc.dma cc1_scratch25.sem) 0
        ∗ semVal ((V d (cV1 L) (jV1 L)), SemLoc.dma cc1_scratch26.sem) 0
        ∗ semVal ((V d (cV1 L) (jV1 L)), SemLoc.dma cc1_scratch27.sem) 0
        ∗ semVal ((V d (cV1 L) (jV1 L)), SemLoc.dma cc1_scratch28.sem) 0
        ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(
              ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi0)
            ∗ ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi1)
            ∗ ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi2)
            ∗ ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)) ↦[(((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.set]{fullShare} fi3)
            ∗ ((Memref.whole main_arg0_scv : Memref sig .scVector .hbm S100000x128 .f32).view.loc (V d (cV1 L) (jV1 L)) ↦{Transfers.shareTok qx 11 (4 : Fin 11)} fx0)
            ∗ ((Memref.whole main_arg0_scv : Memref sig .scVector .hbm S100000x128 .f32).view.loc (V d (cV1 L) (jV1 L)) ↦{Transfers.shareTok qx 11 (5 : Fin 11)} fx0)
            ∗ ((Memref.whole main_arg0_scv : Memref sig .scVector .hbm S100000x128 .f32).view.loc (V d (cV1 L) (jV1 L)) ↦{Transfers.shareTok qx 11 (6 : Fin 11)} fx0)
            ∗ ((Memref.whole main_arg0_scv : Memref sig .scVector .hbm S100000x128 .f32).view.loc (V d (cV1 L) (jV1 L)) ↦{Transfers.shareTok qx 11 (7 : Fin 11)} fx0)
            ∗ ((Memref.whole main_arg0_scv : Memref sig .scVector .hbm S100000x128 .f32).view.loc (V d (cV1 L) (jV1 L)) ↦{Transfers.shareTok qx 11 (8 : Fin 11)} fx0)
            ∗ ((Memref.whole main_arg0_scv : Memref sig .scVector .hbm S100000x128 .f32).view.loc (V d (cV1 L) (jV1 L)) ↦{Transfers.shareTok qx 11 (9 : Fin 11)} fx0)
            ∗ ((Memref.whole main_arg0_scv : Memref sig .scVector .hbm S100000x128 .f32).view.loc (V d (cV1 L) (jV1 L)) ↦{Transfers.shareTok qx 11 (10 : Fin 11)} fx0)
            ∗ ((Memref.whole main_arg1_scv : Memref sig .scVector .hbm S100000x128 .f32).view.loc (V d (cV1 L) (jV1 L)) ↦{Transfers.shareTok qx 11 (4 : Fin 11)} fx1)
            ∗ ((Memref.whole main_arg1_scv : Memref sig .scVector .hbm S100000x128 .f32).view.loc (V d (cV1 L) (jV1 L)) ↦{Transfers.shareTok qx 11 (5 : Fin 11)} fx1)
            ∗ ((Memref.whole main_arg1_scv : Memref sig .scVector .hbm S100000x128 .f32).view.loc (V d (cV1 L) (jV1 L)) ↦{Transfers.shareTok qx 11 (6 : Fin 11)} fx1)
            ∗ ((Memref.whole main_arg1_scv : Memref sig .scVector .hbm S100000x128 .f32).view.loc (V d (cV1 L) (jV1 L)) ↦{Transfers.shareTok qx 11 (7 : Fin 11)} fx1)
            ∗ ((Memref.whole main_arg1_scv : Memref sig .scVector .hbm S100000x128 .f32).view.loc (V d (cV1 L) (jV1 L)) ↦{Transfers.shareTok qx 11 (8 : Fin 11)} fx1)
            ∗ ((Memref.whole main_arg1_scv : Memref sig .scVector .hbm S100000x128 .f32).view.loc (V d (cV1 L) (jV1 L)) ↦{Transfers.shareTok qx 11 (9 : Fin 11)} fx1)
            ∗ ((Memref.whole main_arg1_scv : Memref sig .scVector .hbm S100000x128 .f32).view.loc (V d (cV1 L) (jV1 L)) ↦{Transfers.shareTok qx 11 (10 : Fin 11)} fx1)
            ∗ ((Memref.whole main_arg2_scv : Memref sig .scVector .hbm S100000x128 .f32).view.loc (V d (cV1 L) (jV1 L)) ↦{Transfers.shareTok qx 11 (4 : Fin 11)} fx2)
            ∗ ((Memref.whole main_arg2_scv : Memref sig .scVector .hbm S100000x128 .f32).view.loc (V d (cV1 L) (jV1 L)) ↦{Transfers.shareTok qx 11 (5 : Fin 11)} fx2)
            ∗ ((Memref.whole main_arg2_scv : Memref sig .scVector .hbm S100000x128 .f32).view.loc (V d (cV1 L) (jV1 L)) ↦{Transfers.shareTok qx 11 (6 : Fin 11)} fx2)
            ∗ ((Memref.whole main_arg2_scv : Memref sig .scVector .hbm S100000x128 .f32).view.loc (V d (cV1 L) (jV1 L)) ↦{Transfers.shareTok qx 11 (7 : Fin 11)} fx2)
            ∗ ((Memref.whole main_arg2_scv : Memref sig .scVector .hbm S100000x128 .f32).view.loc (V d (cV1 L) (jV1 L)) ↦{Transfers.shareTok qx 11 (8 : Fin 11)} fx2)
            ∗ ((Memref.whole main_arg2_scv : Memref sig .scVector .hbm S100000x128 .f32).view.loc (V d (cV1 L) (jV1 L)) ↦{Transfers.shareTok qx 11 (9 : Fin 11)} fx2)
            ∗ ((Memref.whole main_arg2_scv : Memref sig .scVector .hbm S100000x128 .f32).view.loc (V d (cV1 L) (jV1 L)) ↦{Transfers.shareTok qx 11 (10 : Fin 11)} fx2)
            ∗ ((Memref.whole main_arg3_scv : Memref sig .scVector .hbm S100000x128 .f32).view.loc (V d (cV1 L) (jV1 L)) ↦{Transfers.shareTok qx 11 (4 : Fin 11)} fx3)
            ∗ ((Memref.whole main_arg3_scv : Memref sig .scVector .hbm S100000x128 .f32).view.loc (V d (cV1 L) (jV1 L)) ↦{Transfers.shareTok qx 11 (5 : Fin 11)} fx3)
            ∗ ((Memref.whole main_arg3_scv : Memref sig .scVector .hbm S100000x128 .f32).view.loc (V d (cV1 L) (jV1 L)) ↦{Transfers.shareTok qx 11 (6 : Fin 11)} fx3)
            ∗ ((Memref.whole main_arg3_scv : Memref sig .scVector .hbm S100000x128 .f32).view.loc (V d (cV1 L) (jV1 L)) ↦{Transfers.shareTok qx 11 (7 : Fin 11)} fx3)
            ∗ ((Memref.whole main_arg3_scv : Memref sig .scVector .hbm S100000x128 .f32).view.loc (V d (cV1 L) (jV1 L)) ↦{Transfers.shareTok qx 11 (8 : Fin 11)} fx3)
            ∗ ((Memref.whole main_arg3_scv : Memref sig .scVector .hbm S100000x128 .f32).view.loc (V d (cV1 L) (jV1 L)) ↦{Transfers.shareTok qx 11 (9 : Fin 11)} fx3)
            ∗ ((Memref.whole main_arg3_scv : Memref sig .scVector .hbm S100000x128 .f32).view.loc (V d (cV1 L) (jV1 L)) ↦{Transfers.shareTok qx 11 (10 : Fin 11)} fx3)
            ∗ (((Memref.whole main_v28_scv : Memref sig .scVector .hbm S25088x512 .f32).slice (Rect.unit (s := S25088x512) (k1_off2 L 0#32) S112x128.size (k1_off2_inb L 0)) (fun _ => rfl)).view.loc (V d (cV1 L) (jV1 L)) ↦[((Memref.whole main_v28_scv : Memref sig .scVector .hbm S25088x512 .f32).slice (Rect.unit (s := S25088x512) (k1_off2 L 0#32) S112x128.size (k1_off2_inb L 0)) (fun _ => rfl)).view.set]{fullShare} G)
            ∗ (((Memref.whole main_v28_scv : Memref sig .scVector .hbm S25088x512 .f32).slice (Rect.unit (s := S25088x512) (k1_off2 L 112#32) S112x128.size (k1_off2_inb L 1)) (fun _ => rfl)).view.loc (V d (cV1 L) (jV1 L)) ↦[((Memref.whole main_v28_scv : Memref sig .scVector .hbm S25088x512 .f32).slice (Rect.unit (s := S25088x512) (k1_off2 L 112#32) S112x128.size (k1_off2_inb L 1)) (fun _ => rfl)).view.set]{fullShare} G)
            ∗ (((Memref.whole main_v28_scv : Memref sig .scVector .hbm S25088x512 .f32).slice (Rect.unit (s := S25088x512) (k1_off2 L 224#32) S112x128.size (k1_off2_inb L 2)) (fun _ => rfl)).view.loc (V d (cV1 L) (jV1 L)) ↦[((Memref.whole main_v28_scv : Memref sig .scVector .hbm S25088x512 .f32).slice (Rect.unit (s := S25088x512) (k1_off2 L 224#32) S112x128.size (k1_off2_inb L 2)) (fun _ => rfl)).view.set]{fullShare} G)
            ∗ (((Memref.whole main_v28_scv : Memref sig .scVector .hbm S25088x512 .f32).slice (Rect.unit (s := S25088x512) (k1_off2 L 336#32) S112x128.size (k1_off2_inb L 3)) (fun _ => rfl)).view.loc (V d (cV1 L) (jV1 L)) ↦[((Memref.whole main_v28_scv : Memref sig .scVector .hbm S25088x512 .f32).slice (Rect.unit (s := S25088x512) (k1_off2 L 336#32) S112x128.size (k1_off2_inb L 3)) (fun _ => rfl)).view.set]{fullShare} G)
            ∗ (((Memref.whole main_v28_scv : Memref sig .scVector .hbm S25088x512 .f32).slice (Rect.unit (s := S25088x512) (k1_off2 L 448#32) S112x128.size (k1_off2_inb L 4)) (fun _ => rfl)).view.loc (V d (cV1 L) (jV1 L)) ↦[((Memref.whole main_v28_scv : Memref sig .scVector .hbm S25088x512 .f32).slice (Rect.unit (s := S25088x512) (k1_off2 L 448#32) S112x128.size (k1_off2_inb L 4)) (fun _ => rfl)).view.set]{fullShare} G)
            ∗ (((Memref.whole main_v28_scv : Memref sig .scVector .hbm S25088x512 .f32).slice (Rect.unit (s := S25088x512) (k1_off2 L 560#32) S112x128.size (k1_off2_inb L 5)) (fun _ => rfl)).view.loc (V d (cV1 L) (jV1 L)) ↦[((Memref.whole main_v28_scv : Memref sig .scVector .hbm S25088x512 .f32).slice (Rect.unit (s := S25088x512) (k1_off2 L 560#32) S112x128.size (k1_off2_inb L 5)) (fun _ => rfl)).view.set]{fullShare} G)
            ∗ (((Memref.whole main_v28_scv : Memref sig .scVector .hbm S25088x512 .f32).slice (Rect.unit (s := S25088x512) (k1_off2 L 672#32) S112x128.size (k1_off2_inb L 6)) (fun _ => rfl)).view.loc (V d (cV1 L) (jV1 L)) ↦[((Memref.whole main_v28_scv : Memref sig .scVector .hbm S25088x512 .f32).slice (Rect.unit (s := S25088x512) (k1_off2 L 672#32) S112x128.size (k1_off2_inb L 6)) (fun _ => rfl)).view.set]{fullShare} G)
            ∗ (((Memref.whole main_v28_scv : Memref sig .scVector .hbm S25088x512 .f32).slice (Rect.unit (s := S25088x512) (k1_off3 L 0#32) S112x128.size (k1_off3_inb L 0)) (fun _ => rfl)).view.loc (V d (cV1 L) (jV1 L)) ↦[((Memref.whole main_v28_scv : Memref sig .scVector .hbm S25088x512 .f32).slice (Rect.unit (s := S25088x512) (k1_off3 L 0#32) S112x128.size (k1_off3_inb L 0)) (fun _ => rfl)).view.set]{fullShare} G)
            ∗ (((Memref.whole main_v28_scv : Memref sig .scVector .hbm S25088x512 .f32).slice (Rect.unit (s := S25088x512) (k1_off3 L 112#32) S112x128.size (k1_off3_inb L 1)) (fun _ => rfl)).view.loc (V d (cV1 L) (jV1 L)) ↦[((Memref.whole main_v28_scv : Memref sig .scVector .hbm S25088x512 .f32).slice (Rect.unit (s := S25088x512) (k1_off3 L 112#32) S112x128.size (k1_off3_inb L 1)) (fun _ => rfl)).view.set]{fullShare} G)
            ∗ (((Memref.whole main_v28_scv : Memref sig .scVector .hbm S25088x512 .f32).slice (Rect.unit (s := S25088x512) (k1_off3 L 224#32) S112x128.size (k1_off3_inb L 2)) (fun _ => rfl)).view.loc (V d (cV1 L) (jV1 L)) ↦[((Memref.whole main_v28_scv : Memref sig .scVector .hbm S25088x512 .f32).slice (Rect.unit (s := S25088x512) (k1_off3 L 224#32) S112x128.size (k1_off3_inb L 2)) (fun _ => rfl)).view.set]{fullShare} G)
            ∗ (((Memref.whole main_v28_scv : Memref sig .scVector .hbm S25088x512 .f32).slice (Rect.unit (s := S25088x512) (k1_off3 L 336#32) S112x128.size (k1_off3_inb L 3)) (fun _ => rfl)).view.loc (V d (cV1 L) (jV1 L)) ↦[((Memref.whole main_v28_scv : Memref sig .scVector .hbm S25088x512 .f32).slice (Rect.unit (s := S25088x512) (k1_off3 L 336#32) S112x128.size (k1_off3_inb L 3)) (fun _ => rfl)).view.set]{fullShare} G)
            ∗ (((Memref.whole main_v28_scv : Memref sig .scVector .hbm S25088x512 .f32).slice (Rect.unit (s := S25088x512) (k1_off3 L 448#32) S112x128.size (k1_off3_inb L 4)) (fun _ => rfl)).view.loc (V d (cV1 L) (jV1 L)) ↦[((Memref.whole main_v28_scv : Memref sig .scVector .hbm S25088x512 .f32).slice (Rect.unit (s := S25088x512) (k1_off3 L 448#32) S112x128.size (k1_off3_inb L 4)) (fun _ => rfl)).view.set]{fullShare} G)
            ∗ (((Memref.whole main_v28_scv : Memref sig .scVector .hbm S25088x512 .f32).slice (Rect.unit (s := S25088x512) (k1_off3 L 560#32) S112x128.size (k1_off3_inb L 5)) (fun _ => rfl)).view.loc (V d (cV1 L) (jV1 L)) ↦[((Memref.whole main_v28_scv : Memref sig .scVector .hbm S25088x512 .f32).slice (Rect.unit (s := S25088x512) (k1_off3 L 560#32) S112x128.size (k1_off3_inb L 5)) (fun _ => rfl)).view.set]{fullShare} G)
            ∗ (((Memref.whole main_v28_scv : Memref sig .scVector .hbm S25088x512 .f32).slice (Rect.unit (s := S25088x512) (k1_off3 L 672#32) S112x128.size (k1_off3_inb L 6)) (fun _ => rfl)).view.loc (V d (cV1 L) (jV1 L)) ↦[((Memref.whole main_v28_scv : Memref sig .scVector .hbm S25088x512 .f32).slice (Rect.unit (s := S25088x512) (k1_off3 L 672#32) S112x128.size (k1_off3_inb L 6)) (fun _ => rfl)).view.set]{fullShare} G)
            ∗ (((Memref.whole main_v28_scv : Memref sig .scVector .hbm S25088x512 .f32).slice (Rect.unit (s := S25088x512) (k1_off4 L 0#32) S112x128.size (k1_off4_inb L 0)) (fun _ => rfl)).view.loc (V d (cV1 L) (jV1 L)) ↦[((Memref.whole main_v28_scv : Memref sig .scVector .hbm S25088x512 .f32).slice (Rect.unit (s := S25088x512) (k1_off4 L 0#32) S112x128.size (k1_off4_inb L 0)) (fun _ => rfl)).view.set]{fullShare} G)
            ∗ (((Memref.whole main_v28_scv : Memref sig .scVector .hbm S25088x512 .f32).slice (Rect.unit (s := S25088x512) (k1_off4 L 112#32) S112x128.size (k1_off4_inb L 1)) (fun _ => rfl)).view.loc (V d (cV1 L) (jV1 L)) ↦[((Memref.whole main_v28_scv : Memref sig .scVector .hbm S25088x512 .f32).slice (Rect.unit (s := S25088x512) (k1_off4 L 112#32) S112x128.size (k1_off4_inb L 1)) (fun _ => rfl)).view.set]{fullShare} G)
            ∗ (((Memref.whole main_v28_scv : Memref sig .scVector .hbm S25088x512 .f32).slice (Rect.unit (s := S25088x512) (k1_off4 L 224#32) S112x128.size (k1_off4_inb L 2)) (fun _ => rfl)).view.loc (V d (cV1 L) (jV1 L)) ↦[((Memref.whole main_v28_scv : Memref sig .scVector .hbm S25088x512 .f32).slice (Rect.unit (s := S25088x512) (k1_off4 L 224#32) S112x128.size (k1_off4_inb L 2)) (fun _ => rfl)).view.set]{fullShare} G)
            ∗ (((Memref.whole main_v28_scv : Memref sig .scVector .hbm S25088x512 .f32).slice (Rect.unit (s := S25088x512) (k1_off4 L 336#32) S112x128.size (k1_off4_inb L 3)) (fun _ => rfl)).view.loc (V d (cV1 L) (jV1 L)) ↦[((Memref.whole main_v28_scv : Memref sig .scVector .hbm S25088x512 .f32).slice (Rect.unit (s := S25088x512) (k1_off4 L 336#32) S112x128.size (k1_off4_inb L 3)) (fun _ => rfl)).view.set]{fullShare} G)
            ∗ (((Memref.whole main_v28_scv : Memref sig .scVector .hbm S25088x512 .f32).slice (Rect.unit (s := S25088x512) (k1_off4 L 448#32) S112x128.size (k1_off4_inb L 4)) (fun _ => rfl)).view.loc (V d (cV1 L) (jV1 L)) ↦[((Memref.whole main_v28_scv : Memref sig .scVector .hbm S25088x512 .f32).slice (Rect.unit (s := S25088x512) (k1_off4 L 448#32) S112x128.size (k1_off4_inb L 4)) (fun _ => rfl)).view.set]{fullShare} G)
            ∗ (((Memref.whole main_v28_scv : Memref sig .scVector .hbm S25088x512 .f32).slice (Rect.unit (s := S25088x512) (k1_off4 L 560#32) S112x128.size (k1_off4_inb L 5)) (fun _ => rfl)).view.loc (V d (cV1 L) (jV1 L)) ↦[((Memref.whole main_v28_scv : Memref sig .scVector .hbm S25088x512 .f32).slice (Rect.unit (s := S25088x512) (k1_off4 L 560#32) S112x128.size (k1_off4_inb L 5)) (fun _ => rfl)).view.set]{fullShare} G)
            ∗ (((Memref.whole main_v28_scv : Memref sig .scVector .hbm S25088x512 .f32).slice (Rect.unit (s := S25088x512) (k1_off4 L 672#32) S112x128.size (k1_off4_inb L 6)) (fun _ => rfl)).view.loc (V d (cV1 L) (jV1 L)) ↦[((Memref.whole main_v28_scv : Memref sig .scVector .hbm S25088x512 .f32).slice (Rect.unit (s := S25088x512) (k1_off4 L 672#32) S112x128.size (k1_off4_inb L 6)) (fun _ => rfl)).view.set]{fullShare} G)
            ∗ (((Memref.whole main_v28_scv : Memref sig .scVector .hbm S25088x512 .f32).slice (Rect.unit (s := S25088x512) (k1_off5 L 0#32) S112x128.size (k1_off5_inb L 0)) (fun _ => rfl)).view.loc (V d (cV1 L) (jV1 L)) ↦[((Memref.whole main_v28_scv : Memref sig .scVector .hbm S25088x512 .f32).slice (Rect.unit (s := S25088x512) (k1_off5 L 0#32) S112x128.size (k1_off5_inb L 0)) (fun _ => rfl)).view.set]{fullShare} G)
            ∗ (((Memref.whole main_v28_scv : Memref sig .scVector .hbm S25088x512 .f32).slice (Rect.unit (s := S25088x512) (k1_off5 L 112#32) S112x128.size (k1_off5_inb L 1)) (fun _ => rfl)).view.loc (V d (cV1 L) (jV1 L)) ↦[((Memref.whole main_v28_scv : Memref sig .scVector .hbm S25088x512 .f32).slice (Rect.unit (s := S25088x512) (k1_off5 L 112#32) S112x128.size (k1_off5_inb L 1)) (fun _ => rfl)).view.set]{fullShare} G)
            ∗ (((Memref.whole main_v28_scv : Memref sig .scVector .hbm S25088x512 .f32).slice (Rect.unit (s := S25088x512) (k1_off5 L 224#32) S112x128.size (k1_off5_inb L 2)) (fun _ => rfl)).view.loc (V d (cV1 L) (jV1 L)) ↦[((Memref.whole main_v28_scv : Memref sig .scVector .hbm S25088x512 .f32).slice (Rect.unit (s := S25088x512) (k1_off5 L 224#32) S112x128.size (k1_off5_inb L 2)) (fun _ => rfl)).view.set]{fullShare} G)
            ∗ (((Memref.whole main_v28_scv : Memref sig .scVector .hbm S25088x512 .f32).slice (Rect.unit (s := S25088x512) (k1_off5 L 336#32) S112x128.size (k1_off5_inb L 3)) (fun _ => rfl)).view.loc (V d (cV1 L) (jV1 L)) ↦[((Memref.whole main_v28_scv : Memref sig .scVector .hbm S25088x512 .f32).slice (Rect.unit (s := S25088x512) (k1_off5 L 336#32) S112x128.size (k1_off5_inb L 3)) (fun _ => rfl)).view.set]{fullShare} G)
            ∗ (((Memref.whole main_v28_scv : Memref sig .scVector .hbm S25088x512 .f32).slice (Rect.unit (s := S25088x512) (k1_off5 L 448#32) S112x128.size (k1_off5_inb L 4)) (fun _ => rfl)).view.loc (V d (cV1 L) (jV1 L)) ↦[((Memref.whole main_v28_scv : Memref sig .scVector .hbm S25088x512 .f32).slice (Rect.unit (s := S25088x512) (k1_off5 L 448#32) S112x128.size (k1_off5_inb L 4)) (fun _ => rfl)).view.set]{fullShare} G)
            ∗ (((Memref.whole main_v28_scv : Memref sig .scVector .hbm S25088x512 .f32).slice (Rect.unit (s := S25088x512) (k1_off5 L 560#32) S112x128.size (k1_off5_inb L 5)) (fun _ => rfl)).view.loc (V d (cV1 L) (jV1 L)) ↦[((Memref.whole main_v28_scv : Memref sig .scVector .hbm S25088x512 .f32).slice (Rect.unit (s := S25088x512) (k1_off5 L 560#32) S112x128.size (k1_off5_inb L 5)) (fun _ => rfl)).view.set]{fullShare} G)
            ∗ (((Memref.whole main_v28_scv : Memref sig .scVector .hbm S25088x512 .f32).slice (Rect.unit (s := S25088x512) (k1_off5 L 672#32) S112x128.size (k1_off5_inb L 6)) (fun _ => rfl)).view.loc (V d (cV1 L) (jV1 L)) ↦[((Memref.whole main_v28_scv : Memref sig .scVector .hbm S25088x512 .f32).slice (Rect.unit (s := S25088x512) (k1_off5 L 672#32) S112x128.size (k1_off5_inb L 6)) (fun _ => rfl)).view.set]{fullShare} G)
            ∗ (∃ si, (Memref.whole cc1_scratch0 : Memref sig .scVector .vmem S7x112 .i32).view.loc (V d (cV1 L) (jV1 L)) ↦{fullShare} si)
            ∗ (∃ si, (Memref.whole cc1_scratch1 : Memref sig .scVector .vmem S7x112 .i32).view.loc (V d (cV1 L) (jV1 L)) ↦{fullShare} si)
            ∗ (∃ si, (Memref.whole cc1_scratch2 : Memref sig .scVector .vmem S7x112 .i32).view.loc (V d (cV1 L) (jV1 L)) ↦{fullShare} si)
            ∗ (∃ si, (Memref.whole cc1_scratch3 : Memref sig .scVector .vmem S7x112 .i32).view.loc (V d (cV1 L) (jV1 L)) ↦{fullShare} si)
            ∗ (∃ sb, (Memref.whole cc1_scratch4 : Memref sig .scVector .vmem S112x128 .f32).view.loc (V d (cV1 L) (jV1 L)) ↦{fullShare} sb)
            ∗ (∃ sb, (Memref.whole cc1_scratch5 : Memref sig .scVector .vmem S112x128 .f32).view.loc (V d (cV1 L) (jV1 L)) ↦{fullShare} sb)
            ∗ (∃ sb, (Memref.whole cc1_scratch6 : Memref sig .scVector .vmem S112x128 .f32).view.loc (V d (cV1 L) (jV1 L)) ↦{fullShare} sb)
            ∗ (∃ sb, (Memref.whole cc1_scratch7 : Memref sig .scVector .vmem S112x128 .f32).view.loc (V d (cV1 L) (jV1 L)) ↦{fullShare} sb)
            ∗ (∃ sb, (Memref.whole cc1_scratch8 : Memref sig .scVector .vmem S112x128 .f32).view.loc (V d (cV1 L) (jV1 L)) ↦{fullShare} sb)
            ∗ (∃ sb, (Memref.whole cc1_scratch9 : Memref sig .scVector .vmem S112x128 .f32).view.loc (V d (cV1 L) (jV1 L)) ↦{fullShare} sb)
            ∗ (∃ sb, (Memref.whole cc1_scratch10 : Memref sig .scVector .vmem S112x128 .f32).view.loc (V d (cV1 L) (jV1 L)) ↦{fullShare} sb)
            ∗ semVal ((V d (cV1 L) (jV1 L)), SemLoc.dma cc1_scratch11.sem) 0
            ∗ semVal ((V d (cV1 L) (jV1 L)), SemLoc.dma cc1_scratch12.sem) 0
            ∗ semVal ((V d (cV1 L) (jV1 L)), SemLoc.dma cc1_scratch13.sem) 0
            ∗ semVal ((V d (cV1 L) (jV1 L)), SemLoc.dma cc1_scratch14.sem) 0
            ∗ semVal ((V d (cV1 L) (jV1 L)), SemLoc.dma cc1_scratch15.sem) 0
            ∗ semVal ((V d (cV1 L) (jV1 L)), SemLoc.dma cc1_scratch16.sem) 0
            ∗ semVal ((V d (cV1 L) (jV1 L)), SemLoc.dma cc1_scratch17.sem) 0
            ∗ semVal ((V d (cV1 L) (jV1 L)), SemLoc.dma cc1_scratch18.sem) 0
            ∗ semVal ((V d (cV1 L) (jV1 L)), SemLoc.dma cc1_scratch19.sem) 0
            ∗ semVal ((V d (cV1 L) (jV1 L)), SemLoc.dma cc1_scratch20.sem) 0
            ∗ semVal ((V d (cV1 L) (jV1 L)), SemLoc.dma cc1_scratch21.sem) 0
            ∗ semVal ((V d (cV1 L) (jV1 L)), SemLoc.dma cc1_scratch22.sem) 0
            ∗ semVal ((V d (cV1 L) (jV1 L)), SemLoc.dma cc1_scratch23.sem) 0
            ∗ semVal ((V d (cV1 L) (jV1 L)), SemLoc.dma cc1_scratch24.sem) 0
            ∗ semVal ((V d (cV1 L) (jV1 L)), SemLoc.dma cc1_scratch25.sem) 0
            ∗ semVal ((V d (cV1 L) (jV1 L)), SemLoc.dma cc1_scratch26.sem) 0
            ∗ semVal ((V d (cV1 L) (jV1 L)), SemLoc.dma cc1_scratch27.sem) 0
            ∗ semVal ((V d (cV1 L) (jV1 L)), SemLoc.dma cc1_scratch28.sem) 0
            ∗ (∃ W', ⌜∀ p ∈ W', p ∈ W ∨ p.2 = none⌝ ∗ owes (V d (cV1 L) (jV1 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc1_sc_kernel_eq_skeleton, cc1_sc_kernel_skel]
  -- the offset lists' words in range: each list is a row of an index scratch holding the words of the task's index row
  have hin0 := fun Wm off h si x => hin_row (F := F) d (cV1 L) (jV1 L) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0) hfi0 Wm off h si x
  have hin1 := fun Wm off h si x => hin_row (F := F) d (cV1 L) (jV1 L) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1) hfi1 Wm off h si x
  have hin2 := fun Wm off h si x => hin_row (F := F) d (cV1 L) (jV1 L) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2) hfi2 Wm off h si x
  have hin3 := fun Wm off h si x => hin_row (F := F) d (cV1 L) (jV1 L) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3) hfi3 Wm off h si x
  sl_exec_parts
  sl_step
  iframe
  isplitl [HO0_0]
  · istop
    exact Entails.of_eq (pointsTo_congr (piece_congr ((Memref.whole main_v28_scv : Memref sig .scVector .hbm S25088x512 .f32).slice (Rect.unit (s := S25088x512) (k1_off2 L 0#32) S112x128.size (k1_off2_inb L 0)) (fun _ => rfl)).view _ G (fun y => by
      rw [View.read_writes_whole]
      exact (pay_val d (cV1 L) (jV1 L) (Memref.whole main_arg0_scv : Memref sig .scVector .hbm S100000x128 .f32) fx0 _ hfi0 _ (0 : Fin 7) _ _ _ _ _ _ _ y).trans (hG0_0 y).symm)))
  isplitl [HO0_1]
  · istop
    exact Entails.of_eq (pointsTo_congr (piece_congr ((Memref.whole main_v28_scv : Memref sig .scVector .hbm S25088x512 .f32).slice (Rect.unit (s := S25088x512) (k1_off2 L 112#32) S112x128.size (k1_off2_inb L 1)) (fun _ => rfl)).view _ G (fun y => by
      rw [View.read_writes_whole]
      exact (pay_val d (cV1 L) (jV1 L) (Memref.whole main_arg0_scv : Memref sig .scVector .hbm S100000x128 .f32) fx0 _ hfi0 _ (1 : Fin 7) _ _ _ _ _ _ _ y).trans (hG0_1 y).symm)))
  isplitl [HO0_2]
  · istop
    exact Entails.of_eq (pointsTo_congr (piece_congr ((Memref.whole main_v28_scv : Memref sig .scVector .hbm S25088x512 .f32).slice (Rect.unit (s := S25088x512) (k1_off2 L 224#32) S112x128.size (k1_off2_inb L 2)) (fun _ => rfl)).view _ G (fun y => by
      rw [View.read_writes_whole]
      exact (pay_val d (cV1 L) (jV1 L) (Memref.whole main_arg0_scv : Memref sig .scVector .hbm S100000x128 .f32) fx0 _ hfi0 _ (2 : Fin 7) _ _ _ _ _ _ _ y).trans (hG0_2 y).symm)))
  isplitl [HO0_3]
  · istop
    exact Entails.of_eq (pointsTo_congr (piece_congr ((Memref.whole main_v28_scv : Memref sig .scVector .hbm S25088x512 .f32).slice (Rect.unit (s := S25088x512) (k1_off2 L 336#32) S112x128.size (k1_off2_inb L 3)) (fun _ => rfl)).view _ G (fun y => by
      rw [View.read_writes_whole]
      exact (pay_val d (cV1 L) (jV1 L) (Memref.whole main_arg0_scv : Memref sig .scVector .hbm S100000x128 .f32) fx0 _ hfi0 _ (3 : Fin 7) _ _ _ _ _ _ _ y).trans (hG0_3 y).symm)))
  isplitl [HO0_4]
  · istop
    exact Entails.of_eq (pointsTo_congr (piece_congr ((Memref.whole main_v28_scv : Memref sig .scVector .hbm S25088x512 .f32).slice (Rect.unit (s := S25088x512) (k1_off2 L 448#32) S112x128.size (k1_off2_inb L 4)) (fun _ => rfl)).view _ G (fun y => by
      rw [View.read_writes_whole]
      exact (pay_val d (cV1 L) (jV1 L) (Memref.whole main_arg0_scv : Memref sig .scVector .hbm S100000x128 .f32) fx0 _ hfi0 _ (4 : Fin 7) _ _ _ _ _ _ _ y).trans (hG0_4 y).symm)))
  isplitl [HO0_5]
  · istop
    exact Entails.of_eq (pointsTo_congr (piece_congr ((Memref.whole main_v28_scv : Memref sig .scVector .hbm S25088x512 .f32).slice (Rect.unit (s := S25088x512) (k1_off2 L 560#32) S112x128.size (k1_off2_inb L 5)) (fun _ => rfl)).view _ G (fun y => by
      rw [View.read_writes_whole]
      exact (pay_val d (cV1 L) (jV1 L) (Memref.whole main_arg0_scv : Memref sig .scVector .hbm S100000x128 .f32) fx0 _ hfi0 _ (5 : Fin 7) _ _ _ _ _ _ _ y).trans (hG0_5 y).symm)))
  isplitl [HO0_6]
  · istop
    exact Entails.of_eq (pointsTo_congr (piece_congr ((Memref.whole main_v28_scv : Memref sig .scVector .hbm S25088x512 .f32).slice (Rect.unit (s := S25088x512) (k1_off2 L 672#32) S112x128.size (k1_off2_inb L 6)) (fun _ => rfl)).view _ G (fun y => by
      rw [View.read_writes_whole]
      exact (pay_val d (cV1 L) (jV1 L) (Memref.whole main_arg0_scv : Memref sig .scVector .hbm S100000x128 .f32) fx0 _ hfi0 _ (6 : Fin 7) _ _ _ _ _ _ _ y).trans (hG0_6 y).symm)))
  isplitl [HO1_0]
  · istop
    exact Entails.of_eq (pointsTo_congr (piece_congr ((Memref.whole main_v28_scv : Memref sig .scVector .hbm S25088x512 .f32).slice (Rect.unit (s := S25088x512) (k1_off3 L 0#32) S112x128.size (k1_off3_inb L 0)) (fun _ => rfl)).view _ G (fun y => by
      rw [View.read_writes_whole]
      exact (pay_val d (cV1 L) (jV1 L) (Memref.whole main_arg1_scv : Memref sig .scVector .hbm S100000x128 .f32) fx1 _ hfi1 _ (0 : Fin 7) _ _ _ _ _ _ _ y).trans (hG1_0 y).symm)))
  isplitl [HO1_1]
  · istop
    exact Entails.of_eq (pointsTo_congr (piece_congr ((Memref.whole main_v28_scv : Memref sig .scVector .hbm S25088x512 .f32).slice (Rect.unit (s := S25088x512) (k1_off3 L 112#32) S112x128.size (k1_off3_inb L 1)) (fun _ => rfl)).view _ G (fun y => by
      rw [View.read_writes_whole]
      exact (pay_val d (cV1 L) (jV1 L) (Memref.whole main_arg1_scv : Memref sig .scVector .hbm S100000x128 .f32) fx1 _ hfi1 _ (1 : Fin 7) _ _ _ _ _ _ _ y).trans (hG1_1 y).symm)))
  isplitl [HO1_2]
  · istop
    exact Entails.of_eq (pointsTo_congr (piece_congr ((Memref.whole main_v28_scv : Memref sig .scVector .hbm S25088x512 .f32).slice (Rect.unit (s := S25088x512) (k1_off3 L 224#32) S112x128.size (k1_off3_inb L 2)) (fun _ => rfl)).view _ G (fun y => by
      rw [View.read_writes_whole]
      exact (pay_val d (cV1 L) (jV1 L) (Memref.whole main_arg1_scv : Memref sig .scVector .hbm S100000x128 .f32) fx1 _ hfi1 _ (2 : Fin 7) _ _ _ _ _ _ _ y).trans (hG1_2 y).symm)))
  isplitl [HO1_3]
  · istop
    exact Entails.of_eq (pointsTo_congr (piece_congr ((Memref.whole main_v28_scv : Memref sig .scVector .hbm S25088x512 .f32).slice (Rect.unit (s := S25088x512) (k1_off3 L 336#32) S112x128.size (k1_off3_inb L 3)) (fun _ => rfl)).view _ G (fun y => by
      rw [View.read_writes_whole]
      exact (pay_val d (cV1 L) (jV1 L) (Memref.whole main_arg1_scv : Memref sig .scVector .hbm S100000x128 .f32) fx1 _ hfi1 _ (3 : Fin 7) _ _ _ _ _ _ _ y).trans (hG1_3 y).symm)))
  isplitl [HO1_4]
  · istop
    exact Entails.of_eq (pointsTo_congr (piece_congr ((Memref.whole main_v28_scv : Memref sig .scVector .hbm S25088x512 .f32).slice (Rect.unit (s := S25088x512) (k1_off3 L 448#32) S112x128.size (k1_off3_inb L 4)) (fun _ => rfl)).view _ G (fun y => by
      rw [View.read_writes_whole]
      exact (pay_val d (cV1 L) (jV1 L) (Memref.whole main_arg1_scv : Memref sig .scVector .hbm S100000x128 .f32) fx1 _ hfi1 _ (4 : Fin 7) _ _ _ _ _ _ _ y).trans (hG1_4 y).symm)))
  isplitl [HO1_5]
  · istop
    exact Entails.of_eq (pointsTo_congr (piece_congr ((Memref.whole main_v28_scv : Memref sig .scVector .hbm S25088x512 .f32).slice (Rect.unit (s := S25088x512) (k1_off3 L 560#32) S112x128.size (k1_off3_inb L 5)) (fun _ => rfl)).view _ G (fun y => by
      rw [View.read_writes_whole]
      exact (pay_val d (cV1 L) (jV1 L) (Memref.whole main_arg1_scv : Memref sig .scVector .hbm S100000x128 .f32) fx1 _ hfi1 _ (5 : Fin 7) _ _ _ _ _ _ _ y).trans (hG1_5 y).symm)))
  isplitl [HO1_6]
  · istop
    exact Entails.of_eq (pointsTo_congr (piece_congr ((Memref.whole main_v28_scv : Memref sig .scVector .hbm S25088x512 .f32).slice (Rect.unit (s := S25088x512) (k1_off3 L 672#32) S112x128.size (k1_off3_inb L 6)) (fun _ => rfl)).view _ G (fun y => by
      rw [View.read_writes_whole]
      exact (pay_val d (cV1 L) (jV1 L) (Memref.whole main_arg1_scv : Memref sig .scVector .hbm S100000x128 .f32) fx1 _ hfi1 _ (6 : Fin 7) _ _ _ _ _ _ _ y).trans (hG1_6 y).symm)))
  isplitl [HO2_0]
  · istop
    exact Entails.of_eq (pointsTo_congr (piece_congr ((Memref.whole main_v28_scv : Memref sig .scVector .hbm S25088x512 .f32).slice (Rect.unit (s := S25088x512) (k1_off4 L 0#32) S112x128.size (k1_off4_inb L 0)) (fun _ => rfl)).view _ G (fun y => by
      rw [View.read_writes_whole]
      exact (pay_val d (cV1 L) (jV1 L) (Memref.whole main_arg2_scv : Memref sig .scVector .hbm S100000x128 .f32) fx2 _ hfi2 _ (0 : Fin 7) _ _ _ _ _ _ _ y).trans (hG2_0 y).symm)))
  isplitl [HO2_1]
  · istop
    exact Entails.of_eq (pointsTo_congr (piece_congr ((Memref.whole main_v28_scv : Memref sig .scVector .hbm S25088x512 .f32).slice (Rect.unit (s := S25088x512) (k1_off4 L 112#32) S112x128.size (k1_off4_inb L 1)) (fun _ => rfl)).view _ G (fun y => by
      rw [View.read_writes_whole]
      exact (pay_val d (cV1 L) (jV1 L) (Memref.whole main_arg2_scv : Memref sig .scVector .hbm S100000x128 .f32) fx2 _ hfi2 _ (1 : Fin 7) _ _ _ _ _ _ _ y).trans (hG2_1 y).symm)))
  isplitl [HO2_2]
  · istop
    exact Entails.of_eq (pointsTo_congr (piece_congr ((Memref.whole main_v28_scv : Memref sig .scVector .hbm S25088x512 .f32).slice (Rect.unit (s := S25088x512) (k1_off4 L 224#32) S112x128.size (k1_off4_inb L 2)) (fun _ => rfl)).view _ G (fun y => by
      rw [View.read_writes_whole]
      exact (pay_val d (cV1 L) (jV1 L) (Memref.whole main_arg2_scv : Memref sig .scVector .hbm S100000x128 .f32) fx2 _ hfi2 _ (2 : Fin 7) _ _ _ _ _ _ _ y).trans (hG2_2 y).symm)))
  isplitl [HO2_3]
  · istop
    exact Entails.of_eq (pointsTo_congr (piece_congr ((Memref.whole main_v28_scv : Memref sig .scVector .hbm S25088x512 .f32).slice (Rect.unit (s := S25088x512) (k1_off4 L 336#32) S112x128.size (k1_off4_inb L 3)) (fun _ => rfl)).view _ G (fun y => by
      rw [View.read_writes_whole]
      exact (pay_val d (cV1 L) (jV1 L) (Memref.whole main_arg2_scv : Memref sig .scVector .hbm S100000x128 .f32) fx2 _ hfi2 _ (3 : Fin 7) _ _ _ _ _ _ _ y).trans (hG2_3 y).symm)))
  isplitl [HO2_4]
  · istop
    exact Entails.of_eq (pointsTo_congr (piece_congr ((Memref.whole main_v28_scv : Memref sig .scVector .hbm S25088x512 .f32).slice (Rect.unit (s := S25088x512) (k1_off4 L 448#32) S112x128.size (k1_off4_inb L 4)) (fun _ => rfl)).view _ G (fun y => by
      rw [View.read_writes_whole]
      exact (pay_val d (cV1 L) (jV1 L) (Memref.whole main_arg2_scv : Memref sig .scVector .hbm S100000x128 .f32) fx2 _ hfi2 _ (4 : Fin 7) _ _ _ _ _ _ _ y).trans (hG2_4 y).symm)))
  isplitl [HO2_5]
  · istop
    exact Entails.of_eq (pointsTo_congr (piece_congr ((Memref.whole main_v28_scv : Memref sig .scVector .hbm S25088x512 .f32).slice (Rect.unit (s := S25088x512) (k1_off4 L 560#32) S112x128.size (k1_off4_inb L 5)) (fun _ => rfl)).view _ G (fun y => by
      rw [View.read_writes_whole]
      exact (pay_val d (cV1 L) (jV1 L) (Memref.whole main_arg2_scv : Memref sig .scVector .hbm S100000x128 .f32) fx2 _ hfi2 _ (5 : Fin 7) _ _ _ _ _ _ _ y).trans (hG2_5 y).symm)))
  isplitl [HO2_6]
  · istop
    exact Entails.of_eq (pointsTo_congr (piece_congr ((Memref.whole main_v28_scv : Memref sig .scVector .hbm S25088x512 .f32).slice (Rect.unit (s := S25088x512) (k1_off4 L 672#32) S112x128.size (k1_off4_inb L 6)) (fun _ => rfl)).view _ G (fun y => by
      rw [View.read_writes_whole]
      exact (pay_val d (cV1 L) (jV1 L) (Memref.whole main_arg2_scv : Memref sig .scVector .hbm S100000x128 .f32) fx2 _ hfi2 _ (6 : Fin 7) _ _ _ _ _ _ _ y).trans (hG2_6 y).symm)))
  isplitl [HO3_0]
  · istop
    exact Entails.of_eq (pointsTo_congr (piece_congr ((Memref.whole main_v28_scv : Memref sig .scVector .hbm S25088x512 .f32).slice (Rect.unit (s := S25088x512) (k1_off5 L 0#32) S112x128.size (k1_off5_inb L 0)) (fun _ => rfl)).view _ G (fun y => by
      rw [View.read_writes_whole]
      exact (pay_val d (cV1 L) (jV1 L) (Memref.whole main_arg3_scv : Memref sig .scVector .hbm S100000x128 .f32) fx3 _ hfi3 _ (0 : Fin 7) _ _ _ _ _ _ _ y).trans (hG3_0 y).symm)))
  isplitl [HO3_1]
  · istop
    exact Entails.of_eq (pointsTo_congr (piece_congr ((Memref.whole main_v28_scv : Memref sig .scVector .hbm S25088x512 .f32).slice (Rect.unit (s := S25088x512) (k1_off5 L 112#32) S112x128.size (k1_off5_inb L 1)) (fun _ => rfl)).view _ G (fun y => by
      rw [View.read_writes_whole]
      exact (pay_val d (cV1 L) (jV1 L) (Memref.whole main_arg3_scv : Memref sig .scVector .hbm S100000x128 .f32) fx3 _ hfi3 _ (1 : Fin 7) _ _ _ _ _ _ _ y).trans (hG3_1 y).symm)))
  isplitl [HO3_2]
  · istop
    exact Entails.of_eq (pointsTo_congr (piece_congr ((Memref.whole main_v28_scv : Memref sig .scVector .hbm S25088x512 .f32).slice (Rect.unit (s := S25088x512) (k1_off5 L 224#32) S112x128.size (k1_off5_inb L 2)) (fun _ => rfl)).view _ G (fun y => by
      rw [View.read_writes_whole]
      exact (pay_val d (cV1 L) (jV1 L) (Memref.whole main_arg3_scv : Memref sig .scVector .hbm S100000x128 .f32) fx3 _ hfi3 _ (2 : Fin 7) _ _ _ _ _ _ _ y).trans (hG3_2 y).symm)))
  isplitl [HO3_3]
  · istop
    exact Entails.of_eq (pointsTo_congr (piece_congr ((Memref.whole main_v28_scv : Memref sig .scVector .hbm S25088x512 .f32).slice (Rect.unit (s := S25088x512) (k1_off5 L 336#32) S112x128.size (k1_off5_inb L 3)) (fun _ => rfl)).view _ G (fun y => by
      rw [View.read_writes_whole]
      exact (pay_val d (cV1 L) (jV1 L) (Memref.whole main_arg3_scv : Memref sig .scVector .hbm S100000x128 .f32) fx3 _ hfi3 _ (3 : Fin 7) _ _ _ _ _ _ _ y).trans (hG3_3 y).symm)))
  isplitl [HO3_4]
  · istop
    exact Entails.of_eq (pointsTo_congr (piece_congr ((Memref.whole main_v28_scv : Memref sig .scVector .hbm S25088x512 .f32).slice (Rect.unit (s := S25088x512) (k1_off5 L 448#32) S112x128.size (k1_off5_inb L 4)) (fun _ => rfl)).view _ G (fun y => by
      rw [View.read_writes_whole]
      exact (pay_val d (cV1 L) (jV1 L) (Memref.whole main_arg3_scv : Memref sig .scVector .hbm S100000x128 .f32) fx3 _ hfi3 _ (4 : Fin 7) _ _ _ _ _ _ _ y).trans (hG3_4 y).symm)))
  isplitl [HO3_5]
  · istop
    exact Entails.of_eq (pointsTo_congr (piece_congr ((Memref.whole main_v28_scv : Memref sig .scVector .hbm S25088x512 .f32).slice (Rect.unit (s := S25088x512) (k1_off5 L 560#32) S112x128.size (k1_off5_inb L 5)) (fun _ => rfl)).view _ G (fun y => by
      rw [View.read_writes_whole]
      exact (pay_val d (cV1 L) (jV1 L) (Memref.whole main_arg3_scv : Memref sig .scVector .hbm S100000x128 .f32) fx3 _ hfi3 _ (5 : Fin 7) _ _ _ _ _ _ _ y).trans (hG3_5 y).symm)))
  isplitl [HO3_6]
  · istop
    exact Entails.of_eq (pointsTo_congr (piece_congr ((Memref.whole main_v28_scv : Memref sig .scVector .hbm S25088x512 .f32).slice (Rect.unit (s := S25088x512) (k1_off5 L 672#32) S112x128.size (k1_off5_inb L 6)) (fun _ => rfl)).view _ G (fun y => by
      rw [View.read_writes_whole]
      exact (pay_val d (cV1 L) (jV1 L) (Memref.whole main_arg3_scv : Memref sig .scVector .hbm S100000x128 .f32) fx3 _ hfi3 _ (6 : Fin 7) _ _ _ _ _ _ _ y).trans (hG3_6 y).symm)))
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScValG1.lean ====
import proofs.«215994_g5102421148354_cont_8to1c4_853_29_alg».proof.Proof.ScValG
import proofs.«215994_g5102421148354_cont_8to1c4_853_29_alg».proof.Proof.ScDeal1

noncomputable section

namespace Cert.KernelIdeal.Sc

open Cert.KernelIdeal Cert.KernelIdeal.Gen
open Idealize.ShloMosaic Idealize.ShloMosaic.ValueIdx
open Idealize.ShloMosaic.SparseCore (S V T)

variable {F : FTy → Type} [FloatOps F] [Cert.KernelIdeal.Facts]

/-! ## The gathered slab at a task's blocks (gather call 1)

Entry `y` of the task's block `(r, t)` of the call's result is entry `(784 w + 112 r + y 0, 128 t + y 1)` of the slab, which
is table `t` at the row its index word `(w, r, y 0)` names, column `y 1`; and that word is what the task reads at `(r, y 0)`
of its own row of the index array. -/

section Reads1
variable (d : Dev nD) (L : grid1.Coords) (c : Fin τ.nSC) (i : Fin τ.nSub)

/-- The task's row of an index array read at `(r, p)` is the array at `(w, r, p)`, `w` the task's worker number. -/
theorem idxRow_read_main_v21 (fi : Buf (Elt F) ((Memref.whole main_v21_scv : Memref sig .scVector .hbm S32x7x112 .i32).view.loc (V d c i))) (r : Fin 7) (p : Fin 112) :
    (((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi (ix2 (n0 := 7) (n1 := 112) r p)
      = fi (ix3 (n0 := 32) (n1 := 7) (n2 := 112) (widL1 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  have hw : (widL1 L).val = 2 * (L 1).val + (L 0).val := rfl
  show (Rect.unit (s := S32x7x112) (k1_off1 L) S1x7x112.size (k1_off1_inb L)).off a
      + (Rect.unit (s := S32x7x112) (k1_off1 L) S1x7x112.size (k1_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k1_off1 L 0 + 1 * 0 = (widL1 L).val
    omega
  · show k1_off1 L 1 + 1 * r.val = r.val
    omega
  · show k1_off1 L 2 + 1 * p.val = p.val
    omega
/-- The task's row of an index array read at `(r, p)` is the array at `(w, r, p)`, `w` the task's worker number. -/
theorem idxRow_read_main_v23 (fi : Buf (Elt F) ((Memref.whole main_v23_scv : Memref sig .scVector .hbm S32x7x112 .i32).view.loc (V d c i))) (r : Fin 7) (p : Fin 112) :
    (((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi (ix2 (n0 := 7) (n1 := 112) r p)
      = fi (ix3 (n0 := 32) (n1 := 7) (n2 := 112) (widL1 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  have hw : (widL1 L).val = 2 * (L 1).val + (L 0).val := rfl
  show (Rect.unit (s := S32x7x112) (k1_off1 L) S1x7x112.size (k1_off1_inb L)).off a
      + (Rect.unit (s := S32x7x112) (k1_off1 L) S1x7x112.size (k1_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k1_off1 L 0 + 1 * 0 = (widL1 L).val
    omega
  · show k1_off1 L 1 + 1 * r.val = r.val
    omega
  · show k1_off1 L 2 + 1 * p.val = p.val
    omega
/-- The task's row of an index array read at `(r, p)` is the array at `(w, r, p)`, `w` the task's worker number. -/
theorem idxRow_read_main_v25 (fi : Buf (Elt F) ((Memref.whole main_v25_scv : Memref sig .scVector .hbm S32x7x112 .i32).view.loc (V d c i))) (r : Fin 7) (p : Fin 112) :
    (((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi (ix2 (n0 := 7) (n1 := 112) r p)
      = fi (ix3 (n0 := 32) (n1 := 7) (n2 := 112) (widL1 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  have hw : (widL1 L).val = 2 * (L 1).val + (L 0).val := rfl
  show (Rect.unit (s := S32x7x112) (k1_off1 L) S1x7x112.size (k1_off1_inb L)).off a
      + (Rect.unit (s := S32x7x112) (k1_off1 L) S1x7x112.size (k1_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k1_off1 L 0 + 1 * 0 = (widL1 L).val
    omega
  · show k1_off1 L 1 + 1 * r.val = r.val
    omega
  · show k1_off1 L 2 + 1 * p.val = p.val
    omega
/-- The task's row of an index array read at `(r, p)` is the array at `(w, r, p)`, `w` the task's worker number. -/
theorem idxRow_read_main_v27 (fi : Buf (Elt F) ((Memref.whole main_v27_scv : Memref sig .scVector .hbm S32x7x112 .i32).view.loc (V d c i))) (r : Fin 7) (p : Fin 112) :
    (((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi (ix2 (n0 := 7) (n1 := 112) r p)
      = fi (ix3 (n0 := 32) (n1 := 7) (n2 := 112) (widL1 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  have hw : (widL1 L).val = 2 * (L 1).val + (L 0).val := rfl
  show (Rect.unit (s := S32x7x112) (k1_off1 L) S1x7x112.size (k1_off1_inb L)).off a
      + (Rect.unit (s := S32x7x112) (k1_off1 L) S1x7x112.size (k1_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k1_off1 L 0 + 1 * 0 = (widL1 L).val
    omega
  · show k1_off1 L 1 + 1 * r.val = r.val
    omega
  · show k1_off1 L 2 + 1 * p.val = p.val
    omega

/-- Where entry `y` of the task's block `r` of column block 0 sits in the result. -/
theorem piece1_2_emb (r : Fin 7) (y : S112x128.Idx) :
    ((((Memref.whole main_v28_scv : Memref sig .scVector .hbm S25088x512 .f32).slice (Rect.unit (s := S25088x512) (k1_off2 L (BitVec.ofNat 32 (112 * r.val))) S112x128.size (k1_off2_inb L r)) (fun _ => rfl)).view.emb y) 0).val = 784 * (widL1 L).val + 112 * r.val + (y 0).val
      ∧ ((((Memref.whole main_v28_scv : Memref sig .scVector .hbm S25088x512 .f32).slice (Rect.unit (s := S25088x512) (k1_off2 L (BitVec.ofNat 32 (112 * r.val))) S112x128.size (k1_off2_inb L r)) (fun _ => rfl)).view.emb y) 1).val = (y 1).val := by
  simp only [Memref.view_slice, View.emb_slice, Function.Embedding.trans_apply]
  refine ⟨?_, ?_⟩
  · show ((Rect.unit (s := S25088x512) (k1_off2 L (BitVec.ofNat 32 (112 * r.val))) S112x128.size (k1_off2_inb L r)).emb y 0 : Nat) = _
    rw [Rect.emb_apply, Rect.off_unit, Rect.stride_unit]
    have e0 : k1_off2 L (BitVec.ofNat 32 (112 * r.val)) 0 = 1568 * (L 1).val + 784 * (L 0).val + 112 * r.val := congrFun (k1_off2_eq L r) 0
    have hw : (widL1 L).val = 2 * (L 1).val + (L 0).val := rfl
    omega
  · show ((Rect.unit (s := S25088x512) (k1_off2 L (BitVec.ofNat 32 (112 * r.val))) S112x128.size (k1_off2_inb L r)).emb y 1 : Nat) = _
    rw [Rect.emb_apply, Rect.off_unit, Rect.stride_unit]
    have e1 : k1_off2 L (BitVec.ofNat 32 (112 * r.val)) 1 = 0 := congrFun (k1_off2_eq L r) 1
    omega
/-- Where entry `y` of the task's block `r` of column block 1 sits in the result. -/
theorem piece1_3_emb (r : Fin 7) (y : S112x128.Idx) :
    ((((Memref.whole main_v28_scv : Memref sig .scVector .hbm S25088x512 .f32).slice (Rect.unit (s := S25088x512) (k1_off3 L (BitVec.ofNat 32 (112 * r.val))) S112x128.size (k1_off3_inb L r)) (fun _ => rfl)).view.emb y) 0).val = 784 * (widL1 L).val + 112 * r.val + (y 0).val
      ∧ ((((Memref.whole main_v28_scv : Memref sig .scVector .hbm S25088x512 .f32).slice (Rect.unit (s := S25088x512) (k1_off3 L (BitVec.ofNat 32 (112 * r.val))) S112x128.size (k1_off3_inb L r)) (fun _ => rfl)).view.emb y) 1).val = 128 + (y 1).val := by
  simp only [Memref.view_slice, View.emb_slice, Function.Embedding.trans_apply]
  refine ⟨?_, ?_⟩
  · show ((Rect.unit (s := S25088x512) (k1_off3 L (BitVec.ofNat 32 (112 * r.val))) S112x128.size (k1_off3_inb L r)).emb y 0 : Nat) = _
    rw [Rect.emb_apply, Rect.off_unit, Rect.stride_unit]
    have e0 : k1_off3 L (BitVec.ofNat 32 (112 * r.val)) 0 = 1568 * (L 1).val + 784 * (L 0).val + 112 * r.val := congrFun (k1_off3_eq L r) 0
    have hw : (widL1 L).val = 2 * (L 1).val + (L 0).val := rfl
    omega
  · show ((Rect.unit (s := S25088x512) (k1_off3 L (BitVec.ofNat 32 (112 * r.val))) S112x128.size (k1_off3_inb L r)).emb y 1 : Nat) = _
    rw [Rect.emb_apply, Rect.off_unit, Rect.stride_unit]
    have e1 : k1_off3 L (BitVec.ofNat 32 (112 * r.val)) 1 = 128 := congrFun (k1_off3_eq L r) 1
    omega
/-- Where entry `y` of the task's block `r` of column block 2 sits in the result. -/
theorem piece1_4_emb (r : Fin 7) (y : S112x128.Idx) :
    ((((Memref.whole main_v28_scv : Memref sig .scVector .hbm S25088x512 .f32).slice (Rect.unit (s := S25088x512) (k1_off4 L (BitVec.ofNat 32 (112 * r.val))) S112x128.size (k1_off4_inb L r)) (fun _ => rfl)).view.emb y) 0).val = 784 * (widL1 L).val + 112 * r.val + (y 0).val
      ∧ ((((Memref.whole main_v28_scv : Memref sig .scVector .hbm S25088x512 .f32).slice (Rect.unit (s := S25088x512) (k1_off4 L (BitVec.ofNat 32 (112 * r.val))) S112x128.size (k1_off4_inb L r)) (fun _ => rfl)).view.emb y) 1).val = 256 + (y 1).val := by
  simp only [Memref.view_slice, View.emb_slice, Function.Embedding.trans_apply]
  refine ⟨?_, ?_⟩
  · show ((Rect.unit (s := S25088x512) (k1_off4 L (BitVec.ofNat 32 (112 * r.val))) S112x128.size (k1_off4_inb L r)).emb y 0 : Nat) = _
    rw [Rect.emb_apply, Rect.off_unit, Rect.stride_unit]
    have e0 : k1_off4 L (BitVec.ofNat 32 (112 * r.val)) 0 = 1568 * (L 1).val + 784 * (L 0).val + 112 * r.val := congrFun (k1_off4_eq L r) 0
    have hw : (widL1 L).val = 2 * (L 1).val + (L 0).val := rfl
    omega
  · show ((Rect.unit (s := S25088x512) (k1_off4 L (BitVec.ofNat 32 (112 * r.val))) S112x128.size (k1_off4_inb L r)).emb y 1 : Nat) = _
    rw [Rect.emb_apply, Rect.off_unit, Rect.stride_unit]
    have e1 : k1_off4 L (BitVec.ofNat 32 (112 * r.val)) 1 = 256 := congrFun (k1_off4_eq L r) 1
    omega
/-- Where entry `y` of the task's block `r` of column block 3 sits in the result. -/
theorem piece1_5_emb (r : Fin 7) (y : S112x128.Idx) :
    ((((Memref.whole main_v28_scv : Memref sig .scVector .hbm S25088x512 .f32).slice (Rect.unit (s := S25088x512) (k1_off5 L (BitVec.ofNat 32 (112 * r.val))) S112x128.size (k1_off5_inb L r)) (fun _ => rfl)).view.emb y) 0).val = 784 * (widL1 L).val + 112 * r.val + (y 0).val
      ∧ ((((Memref.whole main_v28_scv : Memref sig .scVector .hbm S25088x512 .f32).slice (Rect.unit (s := S25088x512) (k1_off5 L (BitVec.ofNat 32 (112 * r.val))) S112x128.size (k1_off5_inb L r)) (fun _ => rfl)).view.emb y) 1).val = 384 + (y 1).val := by
  simp only [Memref.view_slice, View.emb_slice, Function.Embedding.trans_apply]
  refine ⟨?_, ?_⟩
  · show ((Rect.unit (s := S25088x512) (k1_off5 L (BitVec.ofNat 32 (112 * r.val))) S112x128.size (k1_off5_inb L r)).emb y 0 : Nat) = _
    rw [Rect.emb_apply, Rect.off_unit, Rect.stride_unit]
    have e0 : k1_off5 L (BitVec.ofNat 32 (112 * r.val)) 0 = 1568 * (L 1).val + 784 * (L 0).val + 112 * r.val := congrFun (k1_off5_eq L r) 0
    have hw : (widL1 L).val = 2 * (L 1).val + (L 0).val := rfl
    omega
  · show ((Rect.unit (s := S25088x512) (k1_off5 L (BitVec.ofNat 32 (112 * r.val))) S112x128.size (k1_off5_inb L r)).emb y 1 : Nat) = _
    rw [Rect.emb_apply, Rect.off_unit, Rect.stride_unit]
    have e1 : k1_off5 L (BitVec.ofNat 32 (112 * r.val)) 1 = 384 := congrFun (k1_off5_eq L r) 1
    omega

/-- THE SLAB AT A TASK'S BLOCK of column block 0: table 0 at the row the task's own index word names. -/
theorem slabG_piece1_0 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v21_scv : Memref sig .scVector .hbm S32x7x112 .i32).view.loc (V d c i))) (fi1 : Buf (Elt F) ((Memref.whole main_v23_scv : Memref sig .scVector .hbm S32x7x112 .i32).view.loc (V d c i))) (fi2 : Buf (Elt F) ((Memref.whole main_v25_scv : Memref sig .scVector .hbm S32x7x112 .i32).view.loc (V d c i))) (fi3 : Buf (Elt F) ((Memref.whole main_v27_scv : Memref sig .scVector .hbm S32x7x112 .i32).view.loc (V d c i)))
    (hfi : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000) (r : Fin 7) (y : S112x128.Idx) :
    slabG fx0 fx1 fx2 fx3 fi0 fi1 fi2 fi3 (((Memref.whole main_v28_scv : Memref sig .scVector .hbm S25088x512 .f32).slice (Rect.unit (s := S25088x512) (k1_off2 L (BitVec.ofNat 32 (112 * r.val))) S112x128.size (k1_off2_inb L r)) (fun _ => rfl)).view.emb y)
      = (Memref.whole main_arg0_scv : Memref sig .scVector .hbm S100000x128 .f32).view.read (Elt F) fx0 (ix2 (n0 := 100000) (n1 := 128)
          ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) r (y 0))).toNat, hfi _⟩ (y 1)) := by
  have e := idxRow_read_main_v21 d L c i fi0 r (y 0)
  have hlt : (fi0 (ix3 (n0 := 32) (n1 := 7) (n2 := 112) (widL1 L) r (y 0))).toNat < 100000 := e ▸ hfi (ix2 (n0 := 7) (n1 := 112) r (y 0))
  obtain ⟨h0, h1⟩ := piece1_2_emb L r y
  refine (slabG_at0 fx0 fx1 fx2 fx3 fi0 fi1 fi2 fi3 _ (widL1 L) r (y 0) (y 1) h0 h1).trans ?_
  refine (rowAt_lt fx0 _ hlt (y 1)).trans ?_
  exact congrArg (fun v : Fin 100000 => fx0 (ix2 (n0 := 100000) (n1 := 128) v (y 1))) (Fin.ext (congrArg BitVec.toNat e.symm))
/-- THE SLAB AT A TASK'S BLOCK of column block 1: table 1 at the row the task's own index word names. -/
theorem slabG_piece1_1 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v21_scv : Memref sig .scVector .hbm S32x7x112 .i32).view.loc (V d c i))) (fi1 : Buf (Elt F) ((Memref.whole main_v23_scv : Memref sig .scVector .hbm S32x7x112 .i32).view.loc (V d c i))) (fi2 : Buf (Elt F) ((Memref.whole main_v25_scv : Memref sig .scVector .hbm S32x7x112 .i32).view.loc (V d c i))) (fi3 : Buf (Elt F) ((Memref.whole main_v27_scv : Memref sig .scVector .hbm S32x7x112 .i32).view.loc (V d c i)))
    (hfi : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000) (r : Fin 7) (y : S112x128.Idx) :
    slabG fx0 fx1 fx2 fx3 fi0 fi1 fi2 fi3 (((Memref.whole main_v28_scv : Memref sig .scVector .hbm S25088x512 .f32).slice (Rect.unit (s := S25088x512) (k1_off3 L (BitVec.ofNat 32 (112 * r.val))) S112x128.size (k1_off3_inb L r)) (fun _ => rfl)).view.emb y)
      = (Memref.whole main_arg1_scv : Memref sig .scVector .hbm S100000x128 .f32).view.read (Elt F) fx1 (ix2 (n0 := 100000) (n1 := 128)
          ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) r (y 0))).toNat, hfi _⟩ (y 1)) := by
  have e := idxRow_read_main_v23 d L c i fi1 r (y 0)
  have hlt : (fi1 (ix3 (n0 := 32) (n1 := 7) (n2 := 112) (widL1 L) r (y 0))).toNat < 100000 := e ▸ hfi (ix2 (n0 := 7) (n1 := 112) r (y 0))
  obtain ⟨h0, h1⟩ := piece1_3_emb L r y
  refine (slabG_at1 fx0 fx1 fx2 fx3 fi0 fi1 fi2 fi3 _ (widL1 L) r (y 0) (y 1) h0 h1).trans ?_
  refine (rowAt_lt fx1 _ hlt (y 1)).trans ?_
  exact congrArg (fun v : Fin 100000 => fx1 (ix2 (n0 := 100000) (n1 := 128) v (y 1))) (Fin.ext (congrArg BitVec.toNat e.symm))
/-- THE SLAB AT A TASK'S BLOCK of column block 2: table 2 at the row the task's own index word names. -/
theorem slabG_piece1_2 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v21_scv : Memref sig .scVector .hbm S32x7x112 .i32).view.loc (V d c i))) (fi1 : Buf (Elt F) ((Memref.whole main_v23_scv : Memref sig .scVector .hbm S32x7x112 .i32).view.loc (V d c i))) (fi2 : Buf (Elt F) ((Memref.whole main_v25_scv : Memref sig .scVector .hbm S32x7x112 .i32).view.loc (V d c i))) (fi3 : Buf (Elt F) ((Memref.whole main_v27_scv : Memref sig .scVector .hbm S32x7x112 .i32).view.loc (V d c i)))
    (hfi : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000) (r : Fin 7) (y : S112x128.Idx) :
    slabG fx0 fx1 fx2 fx3 fi0 fi1 fi2 fi3 (((Memref.whole main_v28_scv : Memref sig .scVector .hbm S25088x512 .f32).slice (Rect.unit (s := S25088x512) (k1_off4 L (BitVec.ofNat 32 (112 * r.val))) S112x128.size (k1_off4_inb L r)) (fun _ => rfl)).view.emb y)
      = (Memref.whole main_arg2_scv : Memref sig .scVector .hbm S100000x128 .f32).view.read (Elt F) fx2 (ix2 (n0 := 100000) (n1 := 128)
          ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) r (y 0))).toNat, hfi _⟩ (y 1)) := by
  have e := idxRow_read_main_v25 d L c i fi2 r (y 0)
  have hlt : (fi2 (ix3 (n0 := 32) (n1 := 7) (n2 := 112) (widL1 L) r (y 0))).toNat < 100000 := e ▸ hfi (ix2 (n0 := 7) (n1 := 112) r (y 0))
  obtain ⟨h0, h1⟩ := piece1_4_emb L r y
  refine (slabG_at2 fx0 fx1 fx2 fx3 fi0 fi1 fi2 fi3 _ (widL1 L) r (y 0) (y 1) h0 h1).trans ?_
  refine (rowAt_lt fx2 _ hlt (y 1)).trans ?_
  exact congrArg (fun v : Fin 100000 => fx2 (ix2 (n0 := 100000) (n1 := 128) v (y 1))) (Fin.ext (congrArg BitVec.toNat e.symm))
/-- THE SLAB AT A TASK'S BLOCK of column block 3: table 3 at the row the task's own index word names. -/
theorem slabG_piece1_3 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v21_scv : Memref sig .scVector .hbm S32x7x112 .i32).view.loc (V d c i))) (fi1 : Buf (Elt F) ((Memref.whole main_v23_scv : Memref sig .scVector .hbm S32x7x112 .i32).view.loc (V d c i))) (fi2 : Buf (Elt F) ((Memref.whole main_v25_scv : Memref sig .scVector .hbm S32x7x112 .i32).view.loc (V d c i))) (fi3 : Buf (Elt F) ((Memref.whole main_v27_scv : Memref sig .scVector .hbm S32x7x112 .i32).view.loc (V d c i)))
    (hfi : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000) (r : Fin 7) (y : S112x128.Idx) :
    slabG fx0 fx1 fx2 fx3 fi0 fi1 fi2 fi3 (((Memref.whole main_v28_scv : Memref sig .scVector .hbm S25088x512 .f32).slice (Rect.unit (s := S25088x512) (k1_off5 L (BitVec.ofNat 32 (112 * r.val))) S112x128.size (k1_off5_inb L r)) (fun _ => rfl)).view.emb y)
      = (Memref.whole main_arg3_scv : Memref sig .scVector .hbm S100000x128 .f32).view.read (Elt F) fx3 (ix2 (n0 := 100000) (n1 := 128)
          ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) r (y 0))).toNat, hfi _⟩ (y 1)) := by
  have e := idxRow_read_main_v27 d L c i fi3 r (y 0)
  have hlt : (fi3 (ix3 (n0 := 32) (n1 := 7) (n2 := 112) (widL1 L) r (y 0))).toNat < 100000 := e ▸ hfi (ix2 (n0 := 7) (n1 := 112) r (y 0))
  obtain ⟨h0, h1⟩ := piece1_5_emb L r y
  refine (slabG_at3 fx0 fx1 fx2 fx3 fi0 fi1 fi2 fi3 _ (widL1 L) r (y 0) (y 1) h0 h1).trans ?_
  refine (rowAt_lt fx3 _ hlt (y 1)).trans ?_
  exact congrArg (fun v : Fin 100000 => fx3 (ix2 (n0 := 100000) (n1 := 128) v (y 1))) (Fin.ext (congrArg BitVec.toNat e.symm))

end Reads1

end Cert.KernelIdeal.Sc

end
-- ==== Proof.ScOblG1.lean ====
/-
  The launch theorem's obligation for the tasks of gather call 1.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTileV1
import proofs.«215994_g5102421148354_cont_8to1c4_853_29_alg».proof.Proof.ScPayG
import proofs.«215994_g5102421148354_cont_8to1c4_853_29_alg».proof.Proof.ScValG1
import proofs.«215994_g5102421148354_cont_8to1c4_853_29_alg».proof.Proof.ScScoped

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 1 names. -/
abbrev semLG1 : List (SemLoc sig) := [SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem, SemLoc.dma cc1_scratch19.sem, SemLoc.dma cc1_scratch20.sem, SemLoc.dma cc1_scratch21.sem, SemLoc.dma cc1_scratch22.sem, SemLoc.dma cc1_scratch23.sem, SemLoc.dma cc1_scratch24.sem, SemLoc.dma cc1_scratch25.sem, SemLoc.dma cc1_scratch26.sem, SemLoc.dma cc1_scratch27.sem, SemLoc.dma cc1_scratch28.sem]
abbrev bufLG1 (c : Fin τ.nSC) (i : Fin τ.nSub) : List (DevRef τ sig) := ([cc1_scratch0, cc1_scratch1, cc1_scratch2, cc1_scratch3, cc1_scratch4, cc1_scratch5, cc1_scratch6, cc1_scratch7, cc1_scratch8, cc1_scratch9, cc1_scratch10] : List (Ref sig .scVector)).map (Proc.scVector c i).devRef

theorem semLG1_nodup : (semLG1).Nodup := by decide
theorem semLG1_scoped : ∀ s ∈ semLG1, s.isScoped Kind.scVector = true := by decide
theorem bufLG1_nodup (c : Fin τ.nSC) (i : Fin τ.nSub) : (bufLG1 c i).Nodup :=
  (show ([cc1_scratch0, cc1_scratch1, cc1_scratch2, cc1_scratch3, cc1_scratch4, cc1_scratch5, cc1_scratch6, cc1_scratch7, cc1_scratch8, cc1_scratch9, cc1_scratch10] : List (Ref sig .scVector)).Nodup by decide).map (Proc.devRef_injective _)
theorem bufLG1_own (c : Fin τ.nSC) (i : Fin τ.nSub) : ∀ b ∈ bufLG1 c i, b ∈ ownRefs (sig := sig) (Proc.scVector c i) := by
  intro b hb
  simp only [bufLG1, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11G_1 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semLG1_chain (Φ : SemLoc sig → sProp 𝕄) : bigSepL semLG1 Φ = iprop(Φ (SemLoc.dma cc1_scratch11.sem) ∗ Φ (SemLoc.dma cc1_scratch12.sem) ∗ Φ (SemLoc.dma cc1_scratch13.sem) ∗ Φ (SemLoc.dma cc1_scratch14.sem) ∗ Φ (SemLoc.dma cc1_scratch15.sem) ∗ Φ (SemLoc.dma cc1_scratch16.sem) ∗ Φ (SemLoc.dma cc1_scratch17.sem) ∗ Φ (SemLoc.dma cc1_scratch18.sem) ∗ Φ (SemLoc.dma cc1_scratch19.sem) ∗ Φ (SemLoc.dma cc1_scratch20.sem) ∗ Φ (SemLoc.dma cc1_scratch21.sem) ∗ Φ (SemLoc.dma cc1_scratch22.sem) ∗ Φ (SemLoc.dma cc1_scratch23.sem) ∗ Φ (SemLoc.dma cc1_scratch24.sem) ∗ Φ (SemLoc.dma cc1_scratch25.sem) ∗ Φ (SemLoc.dma cc1_scratch26.sem) ∗ Φ (SemLoc.dma cc1_scratch27.sem) ∗ Φ (SemLoc.dma cc1_scratch28.sem)) := rfl
theorem bufLG1_chain (c : Fin τ.nSC) (i : Fin τ.nSub) (Φ : DevRef τ sig → sProp 𝕄) : bigSepL (bufLG1 c i) Φ = iprop(Φ ((Proc.scVector c i).devRef cc1_scratch0) ∗ Φ ((Proc.scVector c i).devRef cc1_scratch1) ∗ Φ ((Proc.scVector c i).devRef cc1_scratch2) ∗ Φ ((Proc.scVector c i).devRef cc1_scratch3) ∗ Φ ((Proc.scVector c i).devRef cc1_scratch4) ∗ Φ ((Proc.scVector c i).devRef cc1_scratch5) ∗ Φ ((Proc.scVector c i).devRef cc1_scratch6) ∗ Φ ((Proc.scVector c i).devRef cc1_scratch7) ∗ Φ ((Proc.scVector c i).devRef cc1_scratch8) ∗ Φ ((Proc.scVector c i).devRef cc1_scratch9) ∗ Φ ((Proc.scVector c i).devRef cc1_scratch10)) := rfl

set_option maxHeartbeats 4000000 in
/-- The task from what the launch hands it: its payload and its subcore's whole scoped storage. -/
theorem tile_fullG1 (hF : (K (F := F)).Facts) (d : Dev nD) (L : grid1.Coords) (O : CellTallies nD τ sig (HIx 4)) (W : Waits sig (HIx 4))
    (hO : ∀ g, O g none = 0) (qx : PosShare TreeShare)
    (fi0 : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi0 : ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 j).toNat < 100000)
    (fi1 : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi1 : ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 j).toNat < 100000)
    (fi2 : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi2 : ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 j).toNat < 100000)
    (fi3 : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) (hfi3 : ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV1 L) (jV1 L))))
    (fx1 : Buf (Elt F) ((Memref.whole main_arg1_scv : Memref sig .scVector .hbm S100000x128 .f32).view.loc (V d (cV1 L) (jV1 L))))
    (fx2 : Buf (Elt F) ((Memref.whole main_arg2_scv : Memref sig .scVector .hbm S100000x128 .f32).view.loc (V d (cV1 L) (jV1 L))))
    (fx3 : Buf (Elt F) ((Memref.whole main_arg3_scv : Memref sig .scVector .hbm S100000x128 .f32).view.loc (V d (cV1 L) (jV1 L))))
    (G : Buf (Elt F) (((Memref.whole main_v28_scv : Memref sig .scVector .hbm S25088x512 .f32).slice (Rect.unit (s := S25088x512) (k1_off2 L 0#32) S112x128.size (k1_off2_inb L 0)) (fun _ => rfl)).view.loc (V d (cV1 L) (jV1 L))))
    (hG0_0 : ∀ y, ((Memref.whole main_v28_scv : Memref sig .scVector .hbm S25088x512 .f32).slice (Rect.unit (s := S25088x512) (k1_off2 L 0#32) S112x128.size (k1_off2_inb L 0)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v28_scv : Memref sig .scVector .hbm S25088x512 .f32).slice (Rect.unit (s := S25088x512) (k1_off2 L 112#32) S112x128.size (k1_off2_inb L 1)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v28_scv : Memref sig .scVector .hbm S25088x512 .f32).slice (Rect.unit (s := S25088x512) (k1_off2 L 224#32) S112x128.size (k1_off2_inb L 2)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v28_scv : Memref sig .scVector .hbm S25088x512 .f32).slice (Rect.unit (s := S25088x512) (k1_off2 L 336#32) S112x128.size (k1_off2_inb L 3)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v28_scv : Memref sig .scVector .hbm S25088x512 .f32).slice (Rect.unit (s := S25088x512) (k1_off2 L 448#32) S112x128.size (k1_off2_inb L 4)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v28_scv : Memref sig .scVector .hbm S25088x512 .f32).slice (Rect.unit (s := S25088x512) (k1_off2 L 560#32) S112x128.size (k1_off2_inb L 5)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v28_scv : Memref sig .scVector .hbm S25088x512 .f32).slice (Rect.unit (s := S25088x512) (k1_off2 L 672#32) S112x128.size (k1_off2_inb L 6)) (fun _ => rfl)).view.read (Elt F) G y = (Memref.whole main_arg0_scv : Memref sig .scVector .hbm S100000x128 .f32).view.read (Elt F) fx0 (ix2 (n0 := 100000) (n1 := 128) ⟨((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v28_scv : Memref sig .scVector .hbm S25088x512 .f32).slice (Rect.unit (s := S25088x512) (k1_off3 L 0#32) S112x128.size (k1_off3_inb L 0)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v28_scv : Memref sig .scVector .hbm S25088x512 .f32).slice (Rect.unit (s := S25088x512) (k1_off3 L 112#32) S112x128.size (k1_off3_inb L 1)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v28_scv : Memref sig .scVector .hbm S25088x512 .f32).slice (Rect.unit (s := S25088x512) (k1_off3 L 224#32) S112x128.size (k1_off3_inb L 2)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v28_scv : Memref sig .scVector .hbm S25088x512 .f32).slice (Rect.unit (s := S25088x512) (k1_off3 L 336#32) S112x128.size (k1_off3_inb L 3)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v28_scv : Memref sig .scVector .hbm S25088x512 .f32).slice (Rect.unit (s := S25088x512) (k1_off3 L 448#32) S112x128.size (k1_off3_inb L 4)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v28_scv : Memref sig .scVector .hbm S25088x512 .f32).slice (Rect.unit (s := S25088x512) (k1_off3 L 560#32) S112x128.size (k1_off3_inb L 5)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v28_scv : Memref sig .scVector .hbm S25088x512 .f32).slice (Rect.unit (s := S25088x512) (k1_off3 L 672#32) S112x128.size (k1_off3_inb L 6)) (fun _ => rfl)).view.read (Elt F) G y = (Memref.whole main_arg1_scv : Memref sig .scVector .hbm S100000x128 .f32).view.read (Elt F) fx1 (ix2 (n0 := 100000) (n1 := 128) ⟨((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v28_scv : Memref sig .scVector .hbm S25088x512 .f32).slice (Rect.unit (s := S25088x512) (k1_off4 L 0#32) S112x128.size (k1_off4_inb L 0)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v28_scv : Memref sig .scVector .hbm S25088x512 .f32).slice (Rect.unit (s := S25088x512) (k1_off4 L 112#32) S112x128.size (k1_off4_inb L 1)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v28_scv : Memref sig .scVector .hbm S25088x512 .f32).slice (Rect.unit (s := S25088x512) (k1_off4 L 224#32) S112x128.size (k1_off4_inb L 2)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v28_scv : Memref sig .scVector .hbm S25088x512 .f32).slice (Rect.unit (s := S25088x512) (k1_off4 L 336#32) S112x128.size (k1_off4_inb L 3)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v28_scv : Memref sig .scVector .hbm S25088x512 .f32).slice (Rect.unit (s := S25088x512) (k1_off4 L 448#32) S112x128.size (k1_off4_inb L 4)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v28_scv : Memref sig .scVector .hbm S25088x512 .f32).slice (Rect.unit (s := S25088x512) (k1_off4 L 560#32) S112x128.size (k1_off4_inb L 5)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v28_scv : Memref sig .scVector .hbm S25088x512 .f32).slice (Rect.unit (s := S25088x512) (k1_off4 L 672#32) S112x128.size (k1_off4_inb L 6)) (fun _ => rfl)).view.read (Elt F) G y = (Memref.whole main_arg2_scv : Memref sig .scVector .hbm S100000x128 .f32).view.read (Elt F) fx2 (ix2 (n0 := 100000) (n1 := 128) ⟨((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v28_scv : Memref sig .scVector .hbm S25088x512 .f32).slice (Rect.unit (s := S25088x512) (k1_off5 L 0#32) S112x128.size (k1_off5_inb L 0)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v28_scv : Memref sig .scVector .hbm S25088x512 .f32).slice (Rect.unit (s := S25088x512) (k1_off5 L 112#32) S112x128.size (k1_off5_inb L 1)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v28_scv : Memref sig .scVector .hbm S25088x512 .f32).slice (Rect.unit (s := S25088x512) (k1_off5 L 224#32) S112x128.size (k1_off5_inb L 2)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v28_scv : Memref sig .scVector .hbm S25088x512 .f32).slice (Rect.unit (s := S25088x512) (k1_off5 L 336#32) S112x128.size (k1_off5_inb L 3)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v28_scv : Memref sig .scVector .hbm S25088x512 .f32).slice (Rect.unit (s := S25088x512) (k1_off5 L 448#32) S112x128.size (k1_off5_inb L 4)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v28_scv : Memref sig .scVector .hbm S25088x512 .f32).slice (Rect.unit (s := S25088x512) (k1_off5 L 560#32) S112x128.size (k1_off5_inb L 5)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v28_scv : Memref sig .scVector .hbm S25088x512 .f32).slice (Rect.unit (s := S25088x512) (k1_off5 L 672#32) S112x128.size (k1_off5_inb L 6)) (fun _ => rfl)).view.read (Elt F) G y = (Memref.whole main_arg3_scv : Memref sig .scVector .hbm S100000x128 .f32).view.read (Elt F) fx3 (ix2 (n0 := 100000) (n1 := 128) ⟨((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(levAts (K (F := F)).L (K (F := F)).lev ∗ emp ∗ tileRes1 d L qx fi0 fi1 fi2 fi3 fx0 fx1 fx2 fx3
        ∗ scopedBufs (V d (cV1 L) (jV1 L)) ∗ scopedSems0 (V d (cV1 L) (jV1 L)) ∗ owes (V d (cV1 L) (jV1 L)) O W : sProp 𝕄)
      ⊢ wp frame (wpE (defs₀ (F := F)) 𝒱₀ (V d (cV1 L) (jV1 L)) none) Set.univ
          (cc1_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28)
          fun _ => iprop(tileResG1 d L qx fi0 fi1 fi2 fi3 fx0 fx1 fx2 fx3 G ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  rw [(K (F := F)).scopedBufs_V hF d (cV1 L) (jV1 L), SparseCore.Cfg.scopedSems0_V (Val := Elt F) d (cV1 L) (jV1 L),
    ownSems0_take (V d (cV1 L) (jV1 L)) semLG1 semLG1_nodup semLG1_scoped,
    ownBufs_take (V d (cV1 L) (jV1 L)) (bufLG1 (cV1 L) (jV1 L)) (bufLG1_nodup _ _) (bufLG1_own _ _)]
  unfold tileRes1 tileResG1 ownedAny
  rw [semLG1_chain, bufLG1_chain]
  simp only [toks11G_1]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV1 L) (jV1 L))) hO) $$ Hlv
  ihave Hwp := (tile_bodyV1 (F := F) d L O W qx fi0 hfi0 fi1 hfi1 fi2 hfi2 fi3 hfi3 fx0 fx1 fx2 fx3 G hG0_0 hG0_1 hG0_2 hG0_3 hG0_4 hG0_5 hG0_6 hG1_0 hG1_1 hG1_2 hG1_3 hG1_4 hG1_5 hG1_6 hG2_0 hG2_1 hG2_2 hG2_3 hG2_4 hG2_5 hG2_6 hG3_0 hG3_1 hG3_2 hG3_3 hG3_4 hG3_5 hG3_6) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_postG1 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 1. -/
theorem defs₀_vectorG1 (c : Fin τ.nSC) (s : Fin τ.nSub) :
    defs₀ (F := F) (.scVector c s) 1 ()
      = SparseCore.onTile hcore1 hsub1 (fun c s => cc1_sc_kernel (coordsV1 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v21_scv) (Memref.isWhole_whole _) (Memref.whole main_v23_scv) (Memref.isWhole_whole _) (Memref.whole main_v25_scv) (Memref.isWhole_whole _) (Memref.whole main_v27_scv) (Memref.isWhole_whole _) (Memref.whole main_v28_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scratch25 cc1_scratch26 cc1_scratch27 cc1_scratch28) ⟨⟩ c s := rfl

/-- An index row of the task reads words of the call's index array, which are row numbers of the tables. -/
theorem row_ltG1 (d : Dev nD) (L : grid1.Coords) (a : IVec S100000 32) (ha : ∀ r, (a r).toNat < 100000) (t : Fin 4) :
    ((t = 0 → ∀ j, ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v21_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 1 → ∀ j, ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v23_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 2 → ∀ j, ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v25_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000)
    ∧ (t = 3 → ∀ j, ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.read (Elt F) (Idx.slab 1 a : Buf (Elt F) ((((Memref.whole main_v27_scv : Memref sig .scVector .hbm S32x7x112 .i32).slice (Rect.unit (s := S32x7x112) (k1_off1 L) S1x7x112.size (k1_off1_inb L)) (fun _ => rfl)).squeeze S7x112 squeezes_S1x7x112_S7x112).view.loc (V d (cV1 L) (jV1 L)))) j).toNat < 100000))
    := by
  refine ⟨?_, ?_, ?_, ?_⟩ <;> (intro _ j; rw [View.read_apply]; simp only [cast_eq]; exact Idx.slab_lt 1 a ha _)

set_option maxHeartbeats 4000000 in
/-- The launch theorem's obligation for the tasks of call 1, the index inputs holding row numbers. -/
theorem tileOblG1 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (PG m) v₀ 1 := by
  intro d c i O W hO _ _
  simp only [show (PG m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vectorG1]; simp only [SparseCore.onTile, hc, and_self, ↓reduceDIte]
  obtain ⟨h4, h5, h6, h7⟩ := hpre d
  exact (tile_fullG1 (F := F) facts d (coordsV1 ⟨_, hc.1⟩ ⟨_, hc.2⟩) O W hO (qTile (Fin.cast (nCore_eq 1) c) (Fin.cast (nSub_eq 1) i))
    (Idx.slab 1 (m ((SparseCore.T d).loc main_arg4))) ((row_ltG1 d _ _ h4 0).1 rfl)
    (Idx.slab 1 (m ((SparseCore.T d).loc main_arg5))) ((row_ltG1 d _ _ h5 1).2.1 rfl)
    (Idx.slab 1 (m ((SparseCore.T d).loc main_arg6))) ((row_ltG1 d _ _ h6 2).2.2.1 rfl)
    (Idx.slab 1 (m ((SparseCore.T d).loc main_arg7))) ((row_ltG1 d _ _ h7 3).2.2.2 rfl)
    (m ((SparseCore.T d).loc main_arg0)) (m ((SparseCore.T d).loc main_arg1)) (m ((SparseCore.T d).loc main_arg2)) (m ((SparseCore.T d).loc main_arg3))
    (slabOfM m 1 d)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨0, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨1, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨2, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨3, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨4, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨5, by decide⟩ : Fin 7) y)
    (fun y => by rw [View.read_apply]; simp only [cast_eq]; exact slabG_piece1_0 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨6, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨0, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨1, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨2, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨3, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨4, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨5, by decide⟩ : Fin 7) y)
    (fun y => by rw [View.read_apply]; simp only [cast_eq]; exact slabG_piece1_1 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨6, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨0, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨1, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨2, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨3, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨4, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨5, by decide⟩ : Fin 7) y)
    (fun y => by rw [View.read_apply]; simp only [cast_eq]; exact slabG_piece1_2 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨6, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨0, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨1, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨2, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨3, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨4, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨5, by decide⟩ : Fin 7) y)
    (fun y => by rw [View.read_apply]; simp only [cast_eq]; exact slabG_piece1_3 d (coordsV1 ⟨_, hc.1⟩ ⟨_, hc.2⟩) (cV1 (coordsV1 ⟨_, hc.1⟩ ⟨_, hc.2⟩)) (jV1 (coordsV1 ⟨_, hc.1⟩ ⟨_, hc.2⟩)) _ _ _ _ _ _ _ _ _ (⟨6, by decide⟩ : Fin 7) y)
    ).trans
    (wp_mono frame _ _ fun _ => obl_postG1)

end Cert.KernelIdeal.Sc

end
-- ==== Proof.ScTileV2.lean ====
/-
  One vector subcore's task in gather call 2: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScVal

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_bodyV2 (d : Dev nD) (L : grid2.Coords) (O : CellTallies nD τ sig (HIx 4)) (W : Waits sig (HIx 4)) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    (G : Buf (Elt F) (((Memref.whole main_v37_scv : Memref sig .scVector .hbm S25088x512 .f32).slice (Rect.unit (s := S25088x512) (k2_off2 L 0#32) S112x128.size (k2_off2_inb L 0)) (fun _ => rfl)).view.loc (V d (cV2 L) (jV2 L))))
    (hG0_0 : ∀ y, ((Memref.whole main_v37_scv : Memref sig .scVector .hbm S25088x512 .f32).slice (Rect.unit (s := S25088x512) (k2_off2 L 0#32) S112x128.size (k2_off2_inb L 0)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v37_scv : Memref sig .scVector .hbm S25088x512 .f32).slice (Rect.unit (s := S25088x512) (k2_off2 L 112#32) S112x128.size (k2_off2_inb L 1)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v37_scv : Memref sig .scVector .hbm S25088x512 .f32).slice (Rect.unit (s := S25088x512) (k2_off2 L 224#32) S112x128.size (k2_off2_inb L 2)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v37_scv : Memref sig .scVector .hbm S25088x512 .f32).slice (Rect.unit (s := S25088x512) (k2_off2 L 336#32) S112x128.size (k2_off2_inb L 3)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v37_scv : Memref sig .scVector .hbm S25088x512 .f32).slice (Rect.unit (s := S25088x512) (k2_off2 L 448#32) S112x128.size (k2_off2_inb L 4)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v37_scv : Memref sig .scVector .hbm S25088x512 .f32).slice (Rect.unit (s := S25088x512) (k2_off2 L 560#32) S112x128.size (k2_off2_inb L 5)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v37_scv : Memref sig .scVector .hbm S25088x512 .f32).slice (Rect.unit (s := S25088x512) (k2_off2 L 672#32) S112x128.size (k2_off2_inb L 6)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v37_scv : Memref sig .scVector .hbm S25088x512 .f32).slice (Rect.unit (s := S25088x512) (k2_off3 L 0#32) S112x128.size (k2_off3_inb L 0)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v37_scv : Memref sig .scVector .hbm S25088x512 .f32).slice (Rect.unit (s := S25088x512) (k2_off3 L 112#32) S112x128.size (k2_off3_inb L 1)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v37_scv : Memref sig .scVector .hbm S25088x512 .f32).slice (Rect.unit (s := S25088x512) (k2_off3 L 224#32) S112x128.size (k2_off3_inb L 2)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v37_scv : Memref sig .scVector .hbm S25088x512 .f32).slice (Rect.unit (s := S25088x512) (k2_off3 L 336#32) S112x128.size (k2_off3_inb L 3)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v37_scv : Memref sig .scVector .hbm S25088x512 .f32).slice (Rect.unit (s := S25088x512) (k2_off3 L 448#32) S112x128.size (k2_off3_inb L 4)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v37_scv : Memref sig .scVector .hbm S25088x512 .f32).slice (Rect.unit (s := S25088x512) (k2_off3 L 560#32) S112x128.size (k2_off3_inb L 5)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v37_scv : Memref sig .scVector .hbm S25088x512 .f32).slice (Rect.unit (s := S25088x512) (k2_off3 L 672#32) S112x128.size (k2_off3_inb L 6)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v37_scv : Memref sig .scVector .hbm S25088x512 .f32).slice (Rect.unit (s := S25088x512) (k2_off4 L 0#32) S112x128.size (k2_off4_inb L 0)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v37_scv : Memref sig .scVector .hbm S25088x512 .f32).slice (Rect.unit (s := S25088x512) (k2_off4 L 112#32) S112x128.size (k2_off4_inb L 1)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v37_scv : Memref sig .scVector .hbm S25088x512 .f32).slice (Rect.unit (s := S25088x512) (k2_off4 L 224#32) S112x128.size (k2_off4_inb L 2)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v37_scv : Memref sig .scVector .hbm S25088x512 .f32).slice (Rect.unit (s := S25088x512) (k2_off4 L 336#32) S112x128.size (k2_off4_inb L 3)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v37_scv : Memref sig .scVector .hbm S25088x512 .f32).slice (Rect.unit (s := S25088x512) (k2_off4 L 448#32) S112x128.size (k2_off4_inb L 4)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v37_scv : Memref sig .scVector .hbm S25088x512 .f32).slice (Rect.unit (s := S25088x512) (k2_off4 L 560#32) S112x128.size (k2_off4_inb L 5)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v37_scv : Memref sig .scVector .hbm S25088x512 .f32).slice (Rect.unit (s := S25088x512) (k2_off4 L 672#32) S112x128.size (k2_off4_inb L 6)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v37_scv : Memref sig .scVector .hbm S25088x512 .f32).slice (Rect.unit (s := S25088x512) (k2_off5 L 0#32) S112x128.size (k2_off5_inb L 0)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v37_scv : Memref sig .scVector .hbm S25088x512 .f32).slice (Rect.unit (s := S25088x512) (k2_off5 L 112#32) S112x128.size (k2_off5_inb L 1)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v37_scv : Memref sig .scVector .hbm S25088x512 .f32).slice (Rect.unit (s := S25088x512) (k2_off5 L 224#32) S112x128.size (k2_off5_inb L 2)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v37_scv : Memref sig .scVector .hbm S25088x512 .f32).slice (Rect.unit (s := S25088x512) (k2_off5 L 336#32) S112x128.size (k2_off5_inb L 3)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v37_scv : Memref sig .scVector .hbm S25088x512 .f32).slice (Rect.unit (s := S25088x512) (k2_off5 L 448#32) S112x128.size (k2_off5_inb L 4)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v37_scv : Memref sig .scVector .hbm S25088x512 .f32).slice (Rect.unit (s := S25088x512) (k2_off5 L 560#32) S112x128.size (k2_off5_inb L 5)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v37_scv : Memref sig .scVector .hbm S25088x512 .f32).slice (Rect.unit (s := S25088x512) (k2_off5 L 672#32) S112x128.size (k2_off5_inb L 6)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(Transfers.MayWaits (V d (cV2 L) (jV2 L)) (none : HIx 4) O
        ∗ ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
        ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
        ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
        ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
        ∗ ((Memref.whole main_arg0_scv : Memref sig .scVector .hbm S100000x128 .f32).view.loc (V d (cV2 L) (jV2 L)) ↦{Transfers.shareTok qx 11 (4 : Fin 11)} fx0)
        ∗ ((Memref.whole main_arg0_scv : Memref sig .scVector .hbm S100000x128 .f32).view.loc (V d (cV2 L) (jV2 L)) ↦{Transfers.shareTok qx 11 (5 : Fin 11)} fx0)
        ∗ ((Memref.whole main_arg0_scv : Memref sig .scVector .hbm S100000x128 .f32).view.loc (V d (cV2 L) (jV2 L)) ↦{Transfers.shareTok qx 11 (6 : Fin 11)} fx0)
        ∗ ((Memref.whole main_arg0_scv : Memref sig .scVector .hbm S100000x128 .f32).view.loc (V d (cV2 L) (jV2 L)) ↦{Transfers.shareTok qx 11 (7 : Fin 11)} fx0)
        ∗ ((Memref.whole main_arg0_scv : Memref sig .scVector .hbm S100000x128 .f32).view.loc (V d (cV2 L) (jV2 L)) ↦{Transfers.shareTok qx 11 (8 : Fin 11)} fx0)
        ∗ ((Memref.whole main_arg0_scv : Memref sig .scVector .hbm S100000x128 .f32).view.loc (V d (cV2 L) (jV2 L)) ↦{Transfers.shareTok qx 11 (9 : Fin 11)} fx0)
        ∗ ((Memref.whole main_arg0_scv : Memref sig .scVector .hbm S100000x128 .f32).view.loc (V d (cV2 L) (jV2 L)) ↦{Transfers.shareTok qx 11 (10 : Fin 11)} fx0)
        ∗ ((Memref.whole main_arg1_scv : Memref sig .scVector .hbm S100000x128 .f32).view.loc (V d (cV2 L) (jV2 L)) ↦{Transfers.shareTok qx 11 (4 : Fin 11)} fx1)
        ∗ ((Memref.whole main_arg1_scv : Memref sig .scVector .hbm S100000x128 .f32).view.loc (V d (cV2 L) (jV2 L)) ↦{Transfers.shareTok qx 11 (5 : Fin 11)} fx1)
        ∗ ((Memref.whole main_arg1_scv : Memref sig .scVector .hbm S100000x128 .f32).view.loc (V d (cV2 L) (jV2 L)) ↦{Transfers.shareTok qx 11 (6 : Fin 11)} fx1)
        ∗ ((Memref.whole main_arg1_scv : Memref sig .scVector .hbm S100000x128 .f32).view.loc (V d (cV2 L) (jV2 L)) ↦{Transfers.shareTok qx 11 (7 : Fin 11)} fx1)
        ∗ ((Memref.whole main_arg1_scv : Memref sig .scVector .hbm S100000x128 .f32).view.loc (V d (cV2 L) (jV2 L)) ↦{Transfers.shareTok qx 11 (8 : Fin 11)} fx1)
        ∗ ((Memref.whole main_arg1_scv : Memref sig .scVector .hbm S100000x128 .f32).view.loc (V d (cV2 L) (jV2 L)) ↦{Transfers.shareTok qx 11 (9 : Fin 11)} fx1)
        ∗ ((Memref.whole main_arg1_scv : Memref sig .scVector .hbm S100000x128 .f32).view.loc (V d (cV2 L) (jV2 L)) ↦{Transfers.shareTok qx 11 (10 : Fin 11)} fx1)
        ∗ ((Memref.whole main_arg2_scv : Memref sig .scVector .hbm S100000x128 .f32).view.loc (V d (cV2 L) (jV2 L)) ↦{Transfers.shareTok qx 11 (4 : Fin 11)} fx2)
        ∗ ((Memref.whole main_arg2_scv : Memref sig .scVector .hbm S100000x128 .f32).view.loc (V d (cV2 L) (jV2 L)) ↦{Transfers.shareTok qx 11 (5 : Fin 11)} fx2)
        ∗ ((Memref.whole main_arg2_scv : Memref sig .scVector .hbm S100000x128 .f32).view.loc (V d (cV2 L) (jV2 L)) ↦{Transfers.shareTok qx 11 (6 : Fin 11)} fx2)
        ∗ ((Memref.whole main_arg2_scv : Memref sig .scVector .hbm S100000x128 .f32).view.loc (V d (cV2 L) (jV2 L)) ↦{Transfers.shareTok qx 11 (7 : Fin 11)} fx2)
        ∗ ((Memref.whole main_arg2_scv : Memref sig .scVector .hbm S100000x128 .f32).view.loc (V d (cV2 L) (jV2 L)) ↦{Transfers.shareTok qx 11 (8 : Fin 11)} fx2)
        ∗ ((Memref.whole main_arg2_scv : Memref sig .scVector .hbm S100000x128 .f32).view.loc (V d (cV2 L) (jV2 L)) ↦{Transfers.shareTok qx 11 (9 : Fin 11)} fx2)
        ∗ ((Memref.whole main_arg2_scv : Memref sig .scVector .hbm S100000x128 .f32).view.loc (V d (cV2 L) (jV2 L)) ↦{Transfers.shareTok qx 11 (10 : Fin 11)} fx2)
        ∗ ((Memref.whole main_arg3_scv : Memref sig .scVector .hbm S100000x128 .f32).view.loc (V d (cV2 L) (jV2 L)) ↦{Transfers.shareTok qx 11 (4 : Fin 11)} fx3)
        ∗ ((Memref.whole main_arg3_scv : Memref sig .scVector .hbm S100000x128 .f32).view.loc (V d (cV2 L) (jV2 L)) ↦{Transfers.shareTok qx 11 (5 : Fin 11)} fx3)
        ∗ ((Memref.whole main_arg3_scv : Memref sig .scVector .hbm S100000x128 .f32).view.loc (V d (cV2 L) (jV2 L)) ↦{Transfers.shareTok qx 11 (6 : Fin 11)} fx3)
        ∗ ((Memref.whole main_arg3_scv : Memref sig .scVector .hbm S100000x128 .f32).view.loc (V d (cV2 L) (jV2 L)) ↦{Transfers.shareTok qx 11 (7 : Fin 11)} fx3)
        ∗ ((Memref.whole main_arg3_scv : Memref sig .scVector .hbm S100000x128 .f32).view.loc (V d (cV2 L) (jV2 L)) ↦{Transfers.shareTok qx 11 (8 : Fin 11)} fx3)
        ∗ ((Memref.whole main_arg3_scv : Memref sig .scVector .hbm S100000x128 .f32).view.loc (V d (cV2 L) (jV2 L)) ↦{Transfers.shareTok qx 11 (9 : Fin 11)} fx3)
        ∗ ((Memref.whole main_arg3_scv : Memref sig .scVector .hbm S100000x128 .f32).view.loc (V d (cV2 L) (jV2 L)) ↦{Transfers.shareTok qx 11 (10 : Fin 11)} fx3)
        ∗ (∃ fo, ((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} fo)
        ∗ (∃ fo, ((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} fo)
        ∗ (∃ fo, ((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} fo)
        ∗ (∃ fo, ((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} fo)
        ∗ (∃ fo, ((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} fo)
        ∗ (∃ fo, ((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} fo)
        ∗ (∃ fo, ((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} fo)
        ∗ (∃ fo, ((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} fo)
        ∗ (∃ fo, ((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} fo)
        ∗ (∃ fo, ((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} fo)
        ∗ (∃ fo, ((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} fo)
        ∗ (∃ fo, ((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} fo)
        ∗ (∃ fo, ((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} fo)
        ∗ (∃ fo, ((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} fo)
        ∗ (∃ fo, ((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} fo)
        ∗ (∃ fo, ((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} fo)
        ∗ (∃ fo, ((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} fo)
        ∗ (∃ fo, ((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} fo)
        ∗ (∃ fo, ((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} fo)
        ∗ (∃ fo, ((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} fo)
        ∗ (∃ fo, ((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} fo)
        ∗ (∃ fo, ((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} fo)
        ∗ (∃ fo, ((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} fo)
        ∗ (∃ fo, ((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} fo)
        ∗ (∃ fo, ((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} fo)
        ∗ (∃ fo, ((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} fo)
        ∗ (∃ fo, ((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} fo)
        ∗ (∃ fo, ((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} fo)
        ∗ (∃ si, (Memref.whole cc2_scratch0 : Memref sig .scVector .vmem S7x112 .i32).view.loc (V d (cV2 L) (jV2 L)) ↦{fullShare} si)
        ∗ (∃ si, (Memref.whole cc2_scratch1 : Memref sig .scVector .vmem S7x112 .i32).view.loc (V d (cV2 L) (jV2 L)) ↦{fullShare} si)
        ∗ (∃ si, (Memref.whole cc2_scratch2 : Memref sig .scVector .vmem S7x112 .i32).view.loc (V d (cV2 L) (jV2 L)) ↦{fullShare} si)
        ∗ (∃ si, (Memref.whole cc2_scratch3 : Memref sig .scVector .vmem S7x112 .i32).view.loc (V d (cV2 L) (jV2 L)) ↦{fullShare} si)
        ∗ (∃ sb, (Memref.whole cc2_scratch4 : Memref sig .scVector .vmem S112x128 .f32).view.loc (V d (cV2 L) (jV2 L)) ↦{fullShare} sb)
        ∗ (∃ sb, (Memref.whole cc2_scratch5 : Memref sig .scVector .vmem S112x128 .f32).view.loc (V d (cV2 L) (jV2 L)) ↦{fullShare} sb)
        ∗ (∃ sb, (Memref.whole cc2_scratch6 : Memref sig .scVector .vmem S112x128 .f32).view.loc (V d (cV2 L) (jV2 L)) ↦{fullShare} sb)
        ∗ (∃ sb, (Memref.whole cc2_scratch7 : Memref sig .scVector .vmem S112x128 .f32).view.loc (V d (cV2 L) (jV2 L)) ↦{fullShare} sb)
        ∗ (∃ sb, (Memref.whole cc2_scratch8 : Memref sig .scVector .vmem S112x128 .f32).view.loc (V d (cV2 L) (jV2 L)) ↦{fullShare} sb)
        ∗ (∃ sb, (Memref.whole cc2_scratch9 : Memref sig .scVector .vmem S112x128 .f32).view.loc (V d (cV2 L) (jV2 L)) ↦{fullShare} sb)
        ∗ (∃ sb, (Memref.whole cc2_scratch10 : Memref sig .scVector .vmem S112x128 .f32).view.loc (V d (cV2 L) (jV2 L)) ↦{fullShare} sb)
        ∗ semVal ((V d (cV2 L) (jV2 L)), SemLoc.dma cc2_scratch11.sem) 0
        ∗ semVal ((V d (cV2 L) (jV2 L)), SemLoc.dma cc2_scratch12.sem) 0
        ∗ semVal ((V d (cV2 L) (jV2 L)), SemLoc.dma cc2_scratch13.sem) 0
        ∗ semVal ((V d (cV2 L) (jV2 L)), SemLoc.dma cc2_scratch14.sem) 0
        ∗ semVal ((V d (cV2 L) (jV2 L)), SemLoc.dma cc2_scratch15.sem) 0
        ∗ semVal ((V d (cV2 L) (jV2 L)), SemLoc.dma cc2_scratch16.sem) 0
        ∗ semVal ((V d (cV2 L) (jV2 L)), SemLoc.dma cc2_scratch17.sem) 0
        ∗ semVal ((V d (cV2 L) (jV2 L)), SemLoc.dma cc2_scratch18.sem) 0
        ∗ semVal ((V d (cV2 L) (jV2 L)), SemLoc.dma cc2_scratch19.sem) 0
        ∗ semVal ((V d (cV2 L) (jV2 L)), SemLoc.dma cc2_scratch20.sem) 0
        ∗ semVal ((V d (cV2 L) (jV2 L)), SemLoc.dma cc2_scratch21.sem) 0
        ∗ semVal ((V d (cV2 L) (jV2 L)), SemLoc.dma cc2_scratch22.sem) 0
        ∗ semVal ((V d (cV2 L) (jV2 L)), SemLoc.dma cc2_scratch23.sem) 0
        ∗ semVal ((V d (cV2 L) (jV2 L)), SemLoc.dma cc2_scratch24.sem) 0
        ∗ semVal ((V d (cV2 L) (jV2 L)), SemLoc.dma cc2_scratch25.sem) 0
        ∗ semVal ((V d (cV2 L) (jV2 L)), SemLoc.dma cc2_scratch26.sem) 0
        ∗ semVal ((V d (cV2 L) (jV2 L)), SemLoc.dma cc2_scratch27.sem) 0
        ∗ semVal ((V d (cV2 L) (jV2 L)), SemLoc.dma cc2_scratch28.sem) 0
        ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(
              ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi0)
            ∗ ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi1)
            ∗ ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi2)
            ∗ ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)) ↦[(((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.set]{fullShare} fi3)
            ∗ ((Memref.whole main_arg0_scv : Memref sig .scVector .hbm S100000x128 .f32).view.loc (V d (cV2 L) (jV2 L)) ↦{Transfers.shareTok qx 11 (4 : Fin 11)} fx0)
            ∗ ((Memref.whole main_arg0_scv : Memref sig .scVector .hbm S100000x128 .f32).view.loc (V d (cV2 L) (jV2 L)) ↦{Transfers.shareTok qx 11 (5 : Fin 11)} fx0)
            ∗ ((Memref.whole main_arg0_scv : Memref sig .scVector .hbm S100000x128 .f32).view.loc (V d (cV2 L) (jV2 L)) ↦{Transfers.shareTok qx 11 (6 : Fin 11)} fx0)
            ∗ ((Memref.whole main_arg0_scv : Memref sig .scVector .hbm S100000x128 .f32).view.loc (V d (cV2 L) (jV2 L)) ↦{Transfers.shareTok qx 11 (7 : Fin 11)} fx0)
            ∗ ((Memref.whole main_arg0_scv : Memref sig .scVector .hbm S100000x128 .f32).view.loc (V d (cV2 L) (jV2 L)) ↦{Transfers.shareTok qx 11 (8 : Fin 11)} fx0)
            ∗ ((Memref.whole main_arg0_scv : Memref sig .scVector .hbm S100000x128 .f32).view.loc (V d (cV2 L) (jV2 L)) ↦{Transfers.shareTok qx 11 (9 : Fin 11)} fx0)
            ∗ ((Memref.whole main_arg0_scv : Memref sig .scVector .hbm S100000x128 .f32).view.loc (V d (cV2 L) (jV2 L)) ↦{Transfers.shareTok qx 11 (10 : Fin 11)} fx0)
            ∗ ((Memref.whole main_arg1_scv : Memref sig .scVector .hbm S100000x128 .f32).view.loc (V d (cV2 L) (jV2 L)) ↦{Transfers.shareTok qx 11 (4 : Fin 11)} fx1)
            ∗ ((Memref.whole main_arg1_scv : Memref sig .scVector .hbm S100000x128 .f32).view.loc (V d (cV2 L) (jV2 L)) ↦{Transfers.shareTok qx 11 (5 : Fin 11)} fx1)
            ∗ ((Memref.whole main_arg1_scv : Memref sig .scVector .hbm S100000x128 .f32).view.loc (V d (cV2 L) (jV2 L)) ↦{Transfers.shareTok qx 11 (6 : Fin 11)} fx1)
            ∗ ((Memref.whole main_arg1_scv : Memref sig .scVector .hbm S100000x128 .f32).view.loc (V d (cV2 L) (jV2 L)) ↦{Transfers.shareTok qx 11 (7 : Fin 11)} fx1)
            ∗ ((Memref.whole main_arg1_scv : Memref sig .scVector .hbm S100000x128 .f32).view.loc (V d (cV2 L) (jV2 L)) ↦{Transfers.shareTok qx 11 (8 : Fin 11)} fx1)
            ∗ ((Memref.whole main_arg1_scv : Memref sig .scVector .hbm S100000x128 .f32).view.loc (V d (cV2 L) (jV2 L)) ↦{Transfers.shareTok qx 11 (9 : Fin 11)} fx1)
            ∗ ((Memref.whole main_arg1_scv : Memref sig .scVector .hbm S100000x128 .f32).view.loc (V d (cV2 L) (jV2 L)) ↦{Transfers.shareTok qx 11 (10 : Fin 11)} fx1)
            ∗ ((Memref.whole main_arg2_scv : Memref sig .scVector .hbm S100000x128 .f32).view.loc (V d (cV2 L) (jV2 L)) ↦{Transfers.shareTok qx 11 (4 : Fin 11)} fx2)
            ∗ ((Memref.whole main_arg2_scv : Memref sig .scVector .hbm S100000x128 .f32).view.loc (V d (cV2 L) (jV2 L)) ↦{Transfers.shareTok qx 11 (5 : Fin 11)} fx2)
            ∗ ((Memref.whole main_arg2_scv : Memref sig .scVector .hbm S100000x128 .f32).view.loc (V d (cV2 L) (jV2 L)) ↦{Transfers.shareTok qx 11 (6 : Fin 11)} fx2)
            ∗ ((Memref.whole main_arg2_scv : Memref sig .scVector .hbm S100000x128 .f32).view.loc (V d (cV2 L) (jV2 L)) ↦{Transfers.shareTok qx 11 (7 : Fin 11)} fx2)
            ∗ ((Memref.whole main_arg2_scv : Memref sig .scVector .hbm S100000x128 .f32).view.loc (V d (cV2 L) (jV2 L)) ↦{Transfers.shareTok qx 11 (8 : Fin 11)} fx2)
            ∗ ((Memref.whole main_arg2_scv : Memref sig .scVector .hbm S100000x128 .f32).view.loc (V d (cV2 L) (jV2 L)) ↦{Transfers.shareTok qx 11 (9 : Fin 11)} fx2)
            ∗ ((Memref.whole main_arg2_scv : Memref sig .scVector .hbm S100000x128 .f32).view.loc (V d (cV2 L) (jV2 L)) ↦{Transfers.shareTok qx 11 (10 : Fin 11)} fx2)
            ∗ ((Memref.whole main_arg3_scv : Memref sig .scVector .hbm S100000x128 .f32).view.loc (V d (cV2 L) (jV2 L)) ↦{Transfers.shareTok qx 11 (4 : Fin 11)} fx3)
            ∗ ((Memref.whole main_arg3_scv : Memref sig .scVector .hbm S100000x128 .f32).view.loc (V d (cV2 L) (jV2 L)) ↦{Transfers.shareTok qx 11 (5 : Fin 11)} fx3)
            ∗ ((Memref.whole main_arg3_scv : Memref sig .scVector .hbm S100000x128 .f32).view.loc (V d (cV2 L) (jV2 L)) ↦{Transfers.shareTok qx 11 (6 : Fin 11)} fx3)
            ∗ ((Memref.whole main_arg3_scv : Memref sig .scVector .hbm S100000x128 .f32).view.loc (V d (cV2 L) (jV2 L)) ↦{Transfers.shareTok qx 11 (7 : Fin 11)} fx3)
            ∗ ((Memref.whole main_arg3_scv : Memref sig .scVector .hbm S100000x128 .f32).view.loc (V d (cV2 L) (jV2 L)) ↦{Transfers.shareTok qx 11 (8 : Fin 11)} fx3)
            ∗ ((Memref.whole main_arg3_scv : Memref sig .scVector .hbm S100000x128 .f32).view.loc (V d (cV2 L) (jV2 L)) ↦{Transfers.shareTok qx 11 (9 : Fin 11)} fx3)
            ∗ ((Memref.whole main_arg3_scv : Memref sig .scVector .hbm S100000x128 .f32).view.loc (V d (cV2 L) (jV2 L)) ↦{Transfers.shareTok qx 11 (10 : Fin 11)} fx3)
            ∗ (((Memref.whole main_v37_scv : Memref sig .scVector .hbm S25088x512 .f32).slice (Rect.unit (s := S25088x512) (k2_off2 L 0#32) S112x128.size (k2_off2_inb L 0)) (fun _ => rfl)).view.loc (V d (cV2 L) (jV2 L)) ↦[((Memref.whole main_v37_scv : Memref sig .scVector .hbm S25088x512 .f32).slice (Rect.unit (s := S25088x512) (k2_off2 L 0#32) S112x128.size (k2_off2_inb L 0)) (fun _ => rfl)).view.set]{fullShare} G)
            ∗ (((Memref.whole main_v37_scv : Memref sig .scVector .hbm S25088x512 .f32).slice (Rect.unit (s := S25088x512) (k2_off2 L 112#32) S112x128.size (k2_off2_inb L 1)) (fun _ => rfl)).view.loc (V d (cV2 L) (jV2 L)) ↦[((Memref.whole main_v37_scv : Memref sig .scVector .hbm S25088x512 .f32).slice (Rect.unit (s := S25088x512) (k2_off2 L 112#32) S112x128.size (k2_off2_inb L 1)) (fun _ => rfl)).view.set]{fullShare} G)
            ∗ (((Memref.whole main_v37_scv : Memref sig .scVector .hbm S25088x512 .f32).slice (Rect.unit (s := S25088x512) (k2_off2 L 224#32) S112x128.size (k2_off2_inb L 2)) (fun _ => rfl)).view.loc (V d (cV2 L) (jV2 L)) ↦[((Memref.whole main_v37_scv : Memref sig .scVector .hbm S25088x512 .f32).slice (Rect.unit (s := S25088x512) (k2_off2 L 224#32) S112x128.size (k2_off2_inb L 2)) (fun _ => rfl)).view.set]{fullShare} G)
            ∗ (((Memref.whole main_v37_scv : Memref sig .scVector .hbm S25088x512 .f32).slice (Rect.unit (s := S25088x512) (k2_off2 L 336#32) S112x128.size (k2_off2_inb L 3)) (fun _ => rfl)).view.loc (V d (cV2 L) (jV2 L)) ↦[((Memref.whole main_v37_scv : Memref sig .scVector .hbm S25088x512 .f32).slice (Rect.unit (s := S25088x512) (k2_off2 L 336#32) S112x128.size (k2_off2_inb L 3)) (fun _ => rfl)).view.set]{fullShare} G)
            ∗ (((Memref.whole main_v37_scv : Memref sig .scVector .hbm S25088x512 .f32).slice (Rect.unit (s := S25088x512) (k2_off2 L 448#32) S112x128.size (k2_off2_inb L 4)) (fun _ => rfl)).view.loc (V d (cV2 L) (jV2 L)) ↦[((Memref.whole main_v37_scv : Memref sig .scVector .hbm S25088x512 .f32).slice (Rect.unit (s := S25088x512) (k2_off2 L 448#32) S112x128.size (k2_off2_inb L 4)) (fun _ => rfl)).view.set]{fullShare} G)
            ∗ (((Memref.whole main_v37_scv : Memref sig .scVector .hbm S25088x512 .f32).slice (Rect.unit (s := S25088x512) (k2_off2 L 560#32) S112x128.size (k2_off2_inb L 5)) (fun _ => rfl)).view.loc (V d (cV2 L) (jV2 L)) ↦[((Memref.whole main_v37_scv : Memref sig .scVector .hbm S25088x512 .f32).slice (Rect.unit (s := S25088x512) (k2_off2 L 560#32) S112x128.size (k2_off2_inb L 5)) (fun _ => rfl)).view.set]{fullShare} G)
            ∗ (((Memref.whole main_v37_scv : Memref sig .scVector .hbm S25088x512 .f32).slice (Rect.unit (s := S25088x512) (k2_off2 L 672#32) S112x128.size (k2_off2_inb L 6)) (fun _ => rfl)).view.loc (V d (cV2 L) (jV2 L)) ↦[((Memref.whole main_v37_scv : Memref sig .scVector .hbm S25088x512 .f32).slice (Rect.unit (s := S25088x512) (k2_off2 L 672#32) S112x128.size (k2_off2_inb L 6)) (fun _ => rfl)).view.set]{fullShare} G)
            ∗ (((Memref.whole main_v37_scv : Memref sig .scVector .hbm S25088x512 .f32).slice (Rect.unit (s := S25088x512) (k2_off3 L 0#32) S112x128.size (k2_off3_inb L 0)) (fun _ => rfl)).view.loc (V d (cV2 L) (jV2 L)) ↦[((Memref.whole main_v37_scv : Memref sig .scVector .hbm S25088x512 .f32).slice (Rect.unit (s := S25088x512) (k2_off3 L 0#32) S112x128.size (k2_off3_inb L 0)) (fun _ => rfl)).view.set]{fullShare} G)
            ∗ (((Memref.whole main_v37_scv : Memref sig .scVector .hbm S25088x512 .f32).slice (Rect.unit (s := S25088x512) (k2_off3 L 112#32) S112x128.size (k2_off3_inb L 1)) (fun _ => rfl)).view.loc (V d (cV2 L) (jV2 L)) ↦[((Memref.whole main_v37_scv : Memref sig .scVector .hbm S25088x512 .f32).slice (Rect.unit (s := S25088x512) (k2_off3 L 112#32) S112x128.size (k2_off3_inb L 1)) (fun _ => rfl)).view.set]{fullShare} G)
            ∗ (((Memref.whole main_v37_scv : Memref sig .scVector .hbm S25088x512 .f32).slice (Rect.unit (s := S25088x512) (k2_off3 L 224#32) S112x128.size (k2_off3_inb L 2)) (fun _ => rfl)).view.loc (V d (cV2 L) (jV2 L)) ↦[((Memref.whole main_v37_scv : Memref sig .scVector .hbm S25088x512 .f32).slice (Rect.unit (s := S25088x512) (k2_off3 L 224#32) S112x128.size (k2_off3_inb L 2)) (fun _ => rfl)).view.set]{fullShare} G)
            ∗ (((Memref.whole main_v37_scv : Memref sig .scVector .hbm S25088x512 .f32).slice (Rect.unit (s := S25088x512) (k2_off3 L 336#32) S112x128.size (k2_off3_inb L 3)) (fun _ => rfl)).view.loc (V d (cV2 L) (jV2 L)) ↦[((Memref.whole main_v37_scv : Memref sig .scVector .hbm S25088x512 .f32).slice (Rect.unit (s := S25088x512) (k2_off3 L 336#32) S112x128.size (k2_off3_inb L 3)) (fun _ => rfl)).view.set]{fullShare} G)
            ∗ (((Memref.whole main_v37_scv : Memref sig .scVector .hbm S25088x512 .f32).slice (Rect.unit (s := S25088x512) (k2_off3 L 448#32) S112x128.size (k2_off3_inb L 4)) (fun _ => rfl)).view.loc (V d (cV2 L) (jV2 L)) ↦[((Memref.whole main_v37_scv : Memref sig .scVector .hbm S25088x512 .f32).slice (Rect.unit (s := S25088x512) (k2_off3 L 448#32) S112x128.size (k2_off3_inb L 4)) (fun _ => rfl)).view.set]{fullShare} G)
            ∗ (((Memref.whole main_v37_scv : Memref sig .scVector .hbm S25088x512 .f32).slice (Rect.unit (s := S25088x512) (k2_off3 L 560#32) S112x128.size (k2_off3_inb L 5)) (fun _ => rfl)).view.loc (V d (cV2 L) (jV2 L)) ↦[((Memref.whole main_v37_scv : Memref sig .scVector .hbm S25088x512 .f32).slice (Rect.unit (s := S25088x512) (k2_off3 L 560#32) S112x128.size (k2_off3_inb L 5)) (fun _ => rfl)).view.set]{fullShare} G)
            ∗ (((Memref.whole main_v37_scv : Memref sig .scVector .hbm S25088x512 .f32).slice (Rect.unit (s := S25088x512) (k2_off3 L 672#32) S112x128.size (k2_off3_inb L 6)) (fun _ => rfl)).view.loc (V d (cV2 L) (jV2 L)) ↦[((Memref.whole main_v37_scv : Memref sig .scVector .hbm S25088x512 .f32).slice (Rect.unit (s := S25088x512) (k2_off3 L 672#32) S112x128.size (k2_off3_inb L 6)) (fun _ => rfl)).view.set]{fullShare} G)
            ∗ (((Memref.whole main_v37_scv : Memref sig .scVector .hbm S25088x512 .f32).slice (Rect.unit (s := S25088x512) (k2_off4 L 0#32) S112x128.size (k2_off4_inb L 0)) (fun _ => rfl)).view.loc (V d (cV2 L) (jV2 L)) ↦[((Memref.whole main_v37_scv : Memref sig .scVector .hbm S25088x512 .f32).slice (Rect.unit (s := S25088x512) (k2_off4 L 0#32) S112x128.size (k2_off4_inb L 0)) (fun _ => rfl)).view.set]{fullShare} G)
            ∗ (((Memref.whole main_v37_scv : Memref sig .scVector .hbm S25088x512 .f32).slice (Rect.unit (s := S25088x512) (k2_off4 L 112#32) S112x128.size (k2_off4_inb L 1)) (fun _ => rfl)).view.loc (V d (cV2 L) (jV2 L)) ↦[((Memref.whole main_v37_scv : Memref sig .scVector .hbm S25088x512 .f32).slice (Rect.unit (s := S25088x512) (k2_off4 L 112#32) S112x128.size (k2_off4_inb L 1)) (fun _ => rfl)).view.set]{fullShare} G)
            ∗ (((Memref.whole main_v37_scv : Memref sig .scVector .hbm S25088x512 .f32).slice (Rect.unit (s := S25088x512) (k2_off4 L 224#32) S112x128.size (k2_off4_inb L 2)) (fun _ => rfl)).view.loc (V d (cV2 L) (jV2 L)) ↦[((Memref.whole main_v37_scv : Memref sig .scVector .hbm S25088x512 .f32).slice (Rect.unit (s := S25088x512) (k2_off4 L 224#32) S112x128.size (k2_off4_inb L 2)) (fun _ => rfl)).view.set]{fullShare} G)
            ∗ (((Memref.whole main_v37_scv : Memref sig .scVector .hbm S25088x512 .f32).slice (Rect.unit (s := S25088x512) (k2_off4 L 336#32) S112x128.size (k2_off4_inb L 3)) (fun _ => rfl)).view.loc (V d (cV2 L) (jV2 L)) ↦[((Memref.whole main_v37_scv : Memref sig .scVector .hbm S25088x512 .f32).slice (Rect.unit (s := S25088x512) (k2_off4 L 336#32) S112x128.size (k2_off4_inb L 3)) (fun _ => rfl)).view.set]{fullShare} G)
            ∗ (((Memref.whole main_v37_scv : Memref sig .scVector .hbm S25088x512 .f32).slice (Rect.unit (s := S25088x512) (k2_off4 L 448#32) S112x128.size (k2_off4_inb L 4)) (fun _ => rfl)).view.loc (V d (cV2 L) (jV2 L)) ↦[((Memref.whole main_v37_scv : Memref sig .scVector .hbm S25088x512 .f32).slice (Rect.unit (s := S25088x512) (k2_off4 L 448#32) S112x128.size (k2_off4_inb L 4)) (fun _ => rfl)).view.set]{fullShare} G)
            ∗ (((Memref.whole main_v37_scv : Memref sig .scVector .hbm S25088x512 .f32).slice (Rect.unit (s := S25088x512) (k2_off4 L 560#32) S112x128.size (k2_off4_inb L 5)) (fun _ => rfl)).view.loc (V d (cV2 L) (jV2 L)) ↦[((Memref.whole main_v37_scv : Memref sig .scVector .hbm S25088x512 .f32).slice (Rect.unit (s := S25088x512) (k2_off4 L 560#32) S112x128.size (k2_off4_inb L 5)) (fun _ => rfl)).view.set]{fullShare} G)
            ∗ (((Memref.whole main_v37_scv : Memref sig .scVector .hbm S25088x512 .f32).slice (Rect.unit (s := S25088x512) (k2_off4 L 672#32) S112x128.size (k2_off4_inb L 6)) (fun _ => rfl)).view.loc (V d (cV2 L) (jV2 L)) ↦[((Memref.whole main_v37_scv : Memref sig .scVector .hbm S25088x512 .f32).slice (Rect.unit (s := S25088x512) (k2_off4 L 672#32) S112x128.size (k2_off4_inb L 6)) (fun _ => rfl)).view.set]{fullShare} G)
            ∗ (((Memref.whole main_v37_scv : Memref sig .scVector .hbm S25088x512 .f32).slice (Rect.unit (s := S25088x512) (k2_off5 L 0#32) S112x128.size (k2_off5_inb L 0)) (fun _ => rfl)).view.loc (V d (cV2 L) (jV2 L)) ↦[((Memref.whole main_v37_scv : Memref sig .scVector .hbm S25088x512 .f32).slice (Rect.unit (s := S25088x512) (k2_off5 L 0#32) S112x128.size (k2_off5_inb L 0)) (fun _ => rfl)).view.set]{fullShare} G)
            ∗ (((Memref.whole main_v37_scv : Memref sig .scVector .hbm S25088x512 .f32).slice (Rect.unit (s := S25088x512) (k2_off5 L 112#32) S112x128.size (k2_off5_inb L 1)) (fun _ => rfl)).view.loc (V d (cV2 L) (jV2 L)) ↦[((Memref.whole main_v37_scv : Memref sig .scVector .hbm S25088x512 .f32).slice (Rect.unit (s := S25088x512) (k2_off5 L 112#32) S112x128.size (k2_off5_inb L 1)) (fun _ => rfl)).view.set]{fullShare} G)
            ∗ (((Memref.whole main_v37_scv : Memref sig .scVector .hbm S25088x512 .f32).slice (Rect.unit (s := S25088x512) (k2_off5 L 224#32) S112x128.size (k2_off5_inb L 2)) (fun _ => rfl)).view.loc (V d (cV2 L) (jV2 L)) ↦[((Memref.whole main_v37_scv : Memref sig .scVector .hbm S25088x512 .f32).slice (Rect.unit (s := S25088x512) (k2_off5 L 224#32) S112x128.size (k2_off5_inb L 2)) (fun _ => rfl)).view.set]{fullShare} G)
            ∗ (((Memref.whole main_v37_scv : Memref sig .scVector .hbm S25088x512 .f32).slice (Rect.unit (s := S25088x512) (k2_off5 L 336#32) S112x128.size (k2_off5_inb L 3)) (fun _ => rfl)).view.loc (V d (cV2 L) (jV2 L)) ↦[((Memref.whole main_v37_scv : Memref sig .scVector .hbm S25088x512 .f32).slice (Rect.unit (s := S25088x512) (k2_off5 L 336#32) S112x128.size (k2_off5_inb L 3)) (fun _ => rfl)).view.set]{fullShare} G)
            ∗ (((Memref.whole main_v37_scv : Memref sig .scVector .hbm S25088x512 .f32).slice (Rect.unit (s := S25088x512) (k2_off5 L 448#32) S112x128.size (k2_off5_inb L 4)) (fun _ => rfl)).view.loc (V d (cV2 L) (jV2 L)) ↦[((Memref.whole main_v37_scv : Memref sig .scVector .hbm S25088x512 .f32).slice (Rect.unit (s := S25088x512) (k2_off5 L 448#32) S112x128.size (k2_off5_inb L 4)) (fun _ => rfl)).view.set]{fullShare} G)
            ∗ (((Memref.whole main_v37_scv : Memref sig .scVector .hbm S25088x512 .f32).slice (Rect.unit (s := S25088x512) (k2_off5 L 560#32) S112x128.size (k2_off5_inb L 5)) (fun _ => rfl)).view.loc (V d (cV2 L) (jV2 L)) ↦[((Memref.whole main_v37_scv : Memref sig .scVector .hbm S25088x512 .f32).slice (Rect.unit (s := S25088x512) (k2_off5 L 560#32) S112x128.size (k2_off5_inb L 5)) (fun _ => rfl)).view.set]{fullShare} G)
            ∗ (((Memref.whole main_v37_scv : Memref sig .scVector .hbm S25088x512 .f32).slice (Rect.unit (s := S25088x512) (k2_off5 L 672#32) S112x128.size (k2_off5_inb L 6)) (fun _ => rfl)).view.loc (V d (cV2 L) (jV2 L)) ↦[((Memref.whole main_v37_scv : Memref sig .scVector .hbm S25088x512 .f32).slice (Rect.unit (s := S25088x512) (k2_off5 L 672#32) S112x128.size (k2_off5_inb L 6)) (fun _ => rfl)).view.set]{fullShare} G)
            ∗ (∃ si, (Memref.whole cc2_scratch0 : Memref sig .scVector .vmem S7x112 .i32).view.loc (V d (cV2 L) (jV2 L)) ↦{fullShare} si)
            ∗ (∃ si, (Memref.whole cc2_scratch1 : Memref sig .scVector .vmem S7x112 .i32).view.loc (V d (cV2 L) (jV2 L)) ↦{fullShare} si)
            ∗ (∃ si, (Memref.whole cc2_scratch2 : Memref sig .scVector .vmem S7x112 .i32).view.loc (V d (cV2 L) (jV2 L)) ↦{fullShare} si)
            ∗ (∃ si, (Memref.whole cc2_scratch3 : Memref sig .scVector .vmem S7x112 .i32).view.loc (V d (cV2 L) (jV2 L)) ↦{fullShare} si)
            ∗ (∃ sb, (Memref.whole cc2_scratch4 : Memref sig .scVector .vmem S112x128 .f32).view.loc (V d (cV2 L) (jV2 L)) ↦{fullShare} sb)
            ∗ (∃ sb, (Memref.whole cc2_scratch5 : Memref sig .scVector .vmem S112x128 .f32).view.loc (V d (cV2 L) (jV2 L)) ↦{fullShare} sb)
            ∗ (∃ sb, (Memref.whole cc2_scratch6 : Memref sig .scVector .vmem S112x128 .f32).view.loc (V d (cV2 L) (jV2 L)) ↦{fullShare} sb)
            ∗ (∃ sb, (Memref.whole cc2_scratch7 : Memref sig .scVector .vmem S112x128 .f32).view.loc (V d (cV2 L) (jV2 L)) ↦{fullShare} sb)
            ∗ (∃ sb, (Memref.whole cc2_scratch8 : Memref sig .scVector .vmem S112x128 .f32).view.loc (V d (cV2 L) (jV2 L)) ↦{fullShare} sb)
            ∗ (∃ sb, (Memref.whole cc2_scratch9 : Memref sig .scVector .vmem S112x128 .f32).view.loc (V d (cV2 L) (jV2 L)) ↦{fullShare} sb)
            ∗ (∃ sb, (Memref.whole cc2_scratch10 : Memref sig .scVector .vmem S112x128 .f32).view.loc (V d (cV2 L) (jV2 L)) ↦{fullShare} sb)
            ∗ semVal ((V d (cV2 L) (jV2 L)), SemLoc.dma cc2_scratch11.sem) 0
            ∗ semVal ((V d (cV2 L) (jV2 L)), SemLoc.dma cc2_scratch12.sem) 0
            ∗ semVal ((V d (cV2 L) (jV2 L)), SemLoc.dma cc2_scratch13.sem) 0
            ∗ semVal ((V d (cV2 L) (jV2 L)), SemLoc.dma cc2_scratch14.sem) 0
            ∗ semVal ((V d (cV2 L) (jV2 L)), SemLoc.dma cc2_scratch15.sem) 0
            ∗ semVal ((V d (cV2 L) (jV2 L)), SemLoc.dma cc2_scratch16.sem) 0
            ∗ semVal ((V d (cV2 L) (jV2 L)), SemLoc.dma cc2_scratch17.sem) 0
            ∗ semVal ((V d (cV2 L) (jV2 L)), SemLoc.dma cc2_scratch18.sem) 0
            ∗ semVal ((V d (cV2 L) (jV2 L)), SemLoc.dma cc2_scratch19.sem) 0
            ∗ semVal ((V d (cV2 L) (jV2 L)), SemLoc.dma cc2_scratch20.sem) 0
            ∗ semVal ((V d (cV2 L) (jV2 L)), SemLoc.dma cc2_scratch21.sem) 0
            ∗ semVal ((V d (cV2 L) (jV2 L)), SemLoc.dma cc2_scratch22.sem) 0
            ∗ semVal ((V d (cV2 L) (jV2 L)), SemLoc.dma cc2_scratch23.sem) 0
            ∗ semVal ((V d (cV2 L) (jV2 L)), SemLoc.dma cc2_scratch24.sem) 0
            ∗ semVal ((V d (cV2 L) (jV2 L)), SemLoc.dma cc2_scratch25.sem) 0
            ∗ semVal ((V d (cV2 L) (jV2 L)), SemLoc.dma cc2_scratch26.sem) 0
            ∗ semVal ((V d (cV2 L) (jV2 L)), SemLoc.dma cc2_scratch27.sem) 0
            ∗ semVal ((V d (cV2 L) (jV2 L)), SemLoc.dma cc2_scratch28.sem) 0
            ∗ (∃ W', ⌜∀ p ∈ W', p ∈ W ∨ p.2 = none⌝ ∗ owes (V d (cV2 L) (jV2 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc2_sc_kernel_eq_skeleton, cc2_sc_kernel_skel]
  -- the offset lists' words in range: each list is a row of an index scratch holding the words of the task's index row
  have hin0 := fun Wm off h si x => hin_row (F := F) d (cV2 L) (jV2 L) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0) hfi0 Wm off h si x
  have hin1 := fun Wm off h si x => hin_row (F := F) d (cV2 L) (jV2 L) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1) hfi1 Wm off h si x
  have hin2 := fun Wm off h si x => hin_row (F := F) d (cV2 L) (jV2 L) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2) hfi2 Wm off h si x
  have hin3 := fun Wm off h si x => hin_row (F := F) d (cV2 L) (jV2 L) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3) hfi3 Wm off h si x
  sl_exec_parts
  sl_step
  iframe
  isplitl [HO0_0]
  · istop
    exact Entails.of_eq (pointsTo_congr (piece_congr ((Memref.whole main_v37_scv : Memref sig .scVector .hbm S25088x512 .f32).slice (Rect.unit (s := S25088x512) (k2_off2 L 0#32) S112x128.size (k2_off2_inb L 0)) (fun _ => rfl)).view _ G (fun y => by
      rw [View.read_writes_whole]
      exact (pay_val d (cV2 L) (jV2 L) (Memref.whole main_arg0_scv : Memref sig .scVector .hbm S100000x128 .f32) fx0 _ hfi0 _ (0 : Fin 7) _ _ _ _ _ _ _ y).trans (hG0_0 y).symm)))
  isplitl [HO0_1]
  · istop
    exact Entails.of_eq (pointsTo_congr (piece_congr ((Memref.whole main_v37_scv : Memref sig .scVector .hbm S25088x512 .f32).slice (Rect.unit (s := S25088x512) (k2_off2 L 112#32) S112x128.size (k2_off2_inb L 1)) (fun _ => rfl)).view _ G (fun y => by
      rw [View.read_writes_whole]
      exact (pay_val d (cV2 L) (jV2 L) (Memref.whole main_arg0_scv : Memref sig .scVector .hbm S100000x128 .f32) fx0 _ hfi0 _ (1 : Fin 7) _ _ _ _ _ _ _ y).trans (hG0_1 y).symm)))
  isplitl [HO0_2]
  · istop
    exact Entails.of_eq (pointsTo_congr (piece_congr ((Memref.whole main_v37_scv : Memref sig .scVector .hbm S25088x512 .f32).slice (Rect.unit (s := S25088x512) (k2_off2 L 224#32) S112x128.size (k2_off2_inb L 2)) (fun _ => rfl)).view _ G (fun y => by
      rw [View.read_writes_whole]
      exact (pay_val d (cV2 L) (jV2 L) (Memref.whole main_arg0_scv : Memref sig .scVector .hbm S100000x128 .f32) fx0 _ hfi0 _ (2 : Fin 7) _ _ _ _ _ _ _ y).trans (hG0_2 y).symm)))
  isplitl [HO0_3]
  · istop
    exact Entails.of_eq (pointsTo_congr (piece_congr ((Memref.whole main_v37_scv : Memref sig .scVector .hbm S25088x512 .f32).slice (Rect.unit (s := S25088x512) (k2_off2 L 336#32) S112x128.size (k2_off2_inb L 3)) (fun _ => rfl)).view _ G (fun y => by
      rw [View.read_writes_whole]
      exact (pay_val d (cV2 L) (jV2 L) (Memref.whole main_arg0_scv : Memref sig .scVector .hbm S100000x128 .f32) fx0 _ hfi0 _ (3 : Fin 7) _ _ _ _ _ _ _ y).trans (hG0_3 y).symm)))
  isplitl [HO0_4]
  · istop
    exact Entails.of_eq (pointsTo_congr (piece_congr ((Memref.whole main_v37_scv : Memref sig .scVector .hbm S25088x512 .f32).slice (Rect.unit (s := S25088x512) (k2_off2 L 448#32) S112x128.size (k2_off2_inb L 4)) (fun _ => rfl)).view _ G (fun y => by
      rw [View.read_writes_whole]
      exact (pay_val d (cV2 L) (jV2 L) (Memref.whole main_arg0_scv : Memref sig .scVector .hbm S100000x128 .f32) fx0 _ hfi0 _ (4 : Fin 7) _ _ _ _ _ _ _ y).trans (hG0_4 y).symm)))
  isplitl [HO0_5]
  · istop
    exact Entails.of_eq (pointsTo_congr (piece_congr ((Memref.whole main_v37_scv : Memref sig .scVector .hbm S25088x512 .f32).slice (Rect.unit (s := S25088x512) (k2_off2 L 560#32) S112x128.size (k2_off2_inb L 5)) (fun _ => rfl)).view _ G (fun y => by
      rw [View.read_writes_whole]
      exact (pay_val d (cV2 L) (jV2 L) (Memref.whole main_arg0_scv : Memref sig .scVector .hbm S100000x128 .f32) fx0 _ hfi0 _ (5 : Fin 7) _ _ _ _ _ _ _ y).trans (hG0_5 y).symm)))
  isplitl [HO0_6]
  · istop
    exact Entails.of_eq (pointsTo_congr (piece_congr ((Memref.whole main_v37_scv : Memref sig .scVector .hbm S25088x512 .f32).slice (Rect.unit (s := S25088x512) (k2_off2 L 672#32) S112x128.size (k2_off2_inb L 6)) (fun _ => rfl)).view _ G (fun y => by
      rw [View.read_writes_whole]
      exact (pay_val d (cV2 L) (jV2 L) (Memref.whole main_arg0_scv : Memref sig .scVector .hbm S100000x128 .f32) fx0 _ hfi0 _ (6 : Fin 7) _ _ _ _ _ _ _ y).trans (hG0_6 y).symm)))
  isplitl [HO1_0]
  · istop
    exact Entails.of_eq (pointsTo_congr (piece_congr ((Memref.whole main_v37_scv : Memref sig .scVector .hbm S25088x512 .f32).slice (Rect.unit (s := S25088x512) (k2_off3 L 0#32) S112x128.size (k2_off3_inb L 0)) (fun _ => rfl)).view _ G (fun y => by
      rw [View.read_writes_whole]
      exact (pay_val d (cV2 L) (jV2 L) (Memref.whole main_arg1_scv : Memref sig .scVector .hbm S100000x128 .f32) fx1 _ hfi1 _ (0 : Fin 7) _ _ _ _ _ _ _ y).trans (hG1_0 y).symm)))
  isplitl [HO1_1]
  · istop
    exact Entails.of_eq (pointsTo_congr (piece_congr ((Memref.whole main_v37_scv : Memref sig .scVector .hbm S25088x512 .f32).slice (Rect.unit (s := S25088x512) (k2_off3 L 112#32) S112x128.size (k2_off3_inb L 1)) (fun _ => rfl)).view _ G (fun y => by
      rw [View.read_writes_whole]
      exact (pay_val d (cV2 L) (jV2 L) (Memref.whole main_arg1_scv : Memref sig .scVector .hbm S100000x128 .f32) fx1 _ hfi1 _ (1 : Fin 7) _ _ _ _ _ _ _ y).trans (hG1_1 y).symm)))
  isplitl [HO1_2]
  · istop
    exact Entails.of_eq (pointsTo_congr (piece_congr ((Memref.whole main_v37_scv : Memref sig .scVector .hbm S25088x512 .f32).slice (Rect.unit (s := S25088x512) (k2_off3 L 224#32) S112x128.size (k2_off3_inb L 2)) (fun _ => rfl)).view _ G (fun y => by
      rw [View.read_writes_whole]
      exact (pay_val d (cV2 L) (jV2 L) (Memref.whole main_arg1_scv : Memref sig .scVector .hbm S100000x128 .f32) fx1 _ hfi1 _ (2 : Fin 7) _ _ _ _ _ _ _ y).trans (hG1_2 y).symm)))
  isplitl [HO1_3]
  · istop
    exact Entails.of_eq (pointsTo_congr (piece_congr ((Memref.whole main_v37_scv : Memref sig .scVector .hbm S25088x512 .f32).slice (Rect.unit (s := S25088x512) (k2_off3 L 336#32) S112x128.size (k2_off3_inb L 3)) (fun _ => rfl)).view _ G (fun y => by
      rw [View.read_writes_whole]
      exact (pay_val d (cV2 L) (jV2 L) (Memref.whole main_arg1_scv : Memref sig .scVector .hbm S100000x128 .f32) fx1 _ hfi1 _ (3 : Fin 7) _ _ _ _ _ _ _ y).trans (hG1_3 y).symm)))
  isplitl [HO1_4]
  · istop
    exact Entails.of_eq (pointsTo_congr (piece_congr ((Memref.whole main_v37_scv : Memref sig .scVector .hbm S25088x512 .f32).slice (Rect.unit (s := S25088x512) (k2_off3 L 448#32) S112x128.size (k2_off3_inb L 4)) (fun _ => rfl)).view _ G (fun y => by
      rw [View.read_writes_whole]
      exact (pay_val d (cV2 L) (jV2 L) (Memref.whole main_arg1_scv : Memref sig .scVector .hbm S100000x128 .f32) fx1 _ hfi1 _ (4 : Fin 7) _ _ _ _ _ _ _ y).trans (hG1_4 y).symm)))
  isplitl [HO1_5]
  · istop
    exact Entails.of_eq (pointsTo_congr (piece_congr ((Memref.whole main_v37_scv : Memref sig .scVector .hbm S25088x512 .f32).slice (Rect.unit (s := S25088x512) (k2_off3 L 560#32) S112x128.size (k2_off3_inb L 5)) (fun _ => rfl)).view _ G (fun y => by
      rw [View.read_writes_whole]
      exact (pay_val d (cV2 L) (jV2 L) (Memref.whole main_arg1_scv : Memref sig .scVector .hbm S100000x128 .f32) fx1 _ hfi1 _ (5 : Fin 7) _ _ _ _ _ _ _ y).trans (hG1_5 y).symm)))
  isplitl [HO1_6]
  · istop
    exact Entails.of_eq (pointsTo_congr (piece_congr ((Memref.whole main_v37_scv : Memref sig .scVector .hbm S25088x512 .f32).slice (Rect.unit (s := S25088x512) (k2_off3 L 672#32) S112x128.size (k2_off3_inb L 6)) (fun _ => rfl)).view _ G (fun y => by
      rw [View.read_writes_whole]
      exact (pay_val d (cV2 L) (jV2 L) (Memref.whole main_arg1_scv : Memref sig .scVector .hbm S100000x128 .f32) fx1 _ hfi1 _ (6 : Fin 7) _ _ _ _ _ _ _ y).trans (hG1_6 y).symm)))
  isplitl [HO2_0]
  · istop
    exact Entails.of_eq (pointsTo_congr (piece_congr ((Memref.whole main_v37_scv : Memref sig .scVector .hbm S25088x512 .f32).slice (Rect.unit (s := S25088x512) (k2_off4 L 0#32) S112x128.size (k2_off4_inb L 0)) (fun _ => rfl)).view _ G (fun y => by
      rw [View.read_writes_whole]
      exact (pay_val d (cV2 L) (jV2 L) (Memref.whole main_arg2_scv : Memref sig .scVector .hbm S100000x128 .f32) fx2 _ hfi2 _ (0 : Fin 7) _ _ _ _ _ _ _ y).trans (hG2_0 y).symm)))
  isplitl [HO2_1]
  · istop
    exact Entails.of_eq (pointsTo_congr (piece_congr ((Memref.whole main_v37_scv : Memref sig .scVector .hbm S25088x512 .f32).slice (Rect.unit (s := S25088x512) (k2_off4 L 112#32) S112x128.size (k2_off4_inb L 1)) (fun _ => rfl)).view _ G (fun y => by
      rw [View.read_writes_whole]
      exact (pay_val d (cV2 L) (jV2 L) (Memref.whole main_arg2_scv : Memref sig .scVector .hbm S100000x128 .f32) fx2 _ hfi2 _ (1 : Fin 7) _ _ _ _ _ _ _ y).trans (hG2_1 y).symm)))
  isplitl [HO2_2]
  · istop
    exact Entails.of_eq (pointsTo_congr (piece_congr ((Memref.whole main_v37_scv : Memref sig .scVector .hbm S25088x512 .f32).slice (Rect.unit (s := S25088x512) (k2_off4 L 224#32) S112x128.size (k2_off4_inb L 2)) (fun _ => rfl)).view _ G (fun y => by
      rw [View.read_writes_whole]
      exact (pay_val d (cV2 L) (jV2 L) (Memref.whole main_arg2_scv : Memref sig .scVector .hbm S100000x128 .f32) fx2 _ hfi2 _ (2 : Fin 7) _ _ _ _ _ _ _ y).trans (hG2_2 y).symm)))
  isplitl [HO2_3]
  · istop
    exact Entails.of_eq (pointsTo_congr (piece_congr ((Memref.whole main_v37_scv : Memref sig .scVector .hbm S25088x512 .f32).slice (Rect.unit (s := S25088x512) (k2_off4 L 336#32) S112x128.size (k2_off4_inb L 3)) (fun _ => rfl)).view _ G (fun y => by
      rw [View.read_writes_whole]
      exact (pay_val d (cV2 L) (jV2 L) (Memref.whole main_arg2_scv : Memref sig .scVector .hbm S100000x128 .f32) fx2 _ hfi2 _ (3 : Fin 7) _ _ _ _ _ _ _ y).trans (hG2_3 y).symm)))
  isplitl [HO2_4]
  · istop
    exact Entails.of_eq (pointsTo_congr (piece_congr ((Memref.whole main_v37_scv : Memref sig .scVector .hbm S25088x512 .f32).slice (Rect.unit (s := S25088x512) (k2_off4 L 448#32) S112x128.size (k2_off4_inb L 4)) (fun _ => rfl)).view _ G (fun y => by
      rw [View.read_writes_whole]
      exact (pay_val d (cV2 L) (jV2 L) (Memref.whole main_arg2_scv : Memref sig .scVector .hbm S100000x128 .f32) fx2 _ hfi2 _ (4 : Fin 7) _ _ _ _ _ _ _ y).trans (hG2_4 y).symm)))
  isplitl [HO2_5]
  · istop
    exact Entails.of_eq (pointsTo_congr (piece_congr ((Memref.whole main_v37_scv : Memref sig .scVector .hbm S25088x512 .f32).slice (Rect.unit (s := S25088x512) (k2_off4 L 560#32) S112x128.size (k2_off4_inb L 5)) (fun _ => rfl)).view _ G (fun y => by
      rw [View.read_writes_whole]
      exact (pay_val d (cV2 L) (jV2 L) (Memref.whole main_arg2_scv : Memref sig .scVector .hbm S100000x128 .f32) fx2 _ hfi2 _ (5 : Fin 7) _ _ _ _ _ _ _ y).trans (hG2_5 y).symm)))
  isplitl [HO2_6]
  · istop
    exact Entails.of_eq (pointsTo_congr (piece_congr ((Memref.whole main_v37_scv : Memref sig .scVector .hbm S25088x512 .f32).slice (Rect.unit (s := S25088x512) (k2_off4 L 672#32) S112x128.size (k2_off4_inb L 6)) (fun _ => rfl)).view _ G (fun y => by
      rw [View.read_writes_whole]
      exact (pay_val d (cV2 L) (jV2 L) (Memref.whole main_arg2_scv : Memref sig .scVector .hbm S100000x128 .f32) fx2 _ hfi2 _ (6 : Fin 7) _ _ _ _ _ _ _ y).trans (hG2_6 y).symm)))
  isplitl [HO3_0]
  · istop
    exact Entails.of_eq (pointsTo_congr (piece_congr ((Memref.whole main_v37_scv : Memref sig .scVector .hbm S25088x512 .f32).slice (Rect.unit (s := S25088x512) (k2_off5 L 0#32) S112x128.size (k2_off5_inb L 0)) (fun _ => rfl)).view _ G (fun y => by
      rw [View.read_writes_whole]
      exact (pay_val d (cV2 L) (jV2 L) (Memref.whole main_arg3_scv : Memref sig .scVector .hbm S100000x128 .f32) fx3 _ hfi3 _ (0 : Fin 7) _ _ _ _ _ _ _ y).trans (hG3_0 y).symm)))
  isplitl [HO3_1]
  · istop
    exact Entails.of_eq (pointsTo_congr (piece_congr ((Memref.whole main_v37_scv : Memref sig .scVector .hbm S25088x512 .f32).slice (Rect.unit (s := S25088x512) (k2_off5 L 112#32) S112x128.size (k2_off5_inb L 1)) (fun _ => rfl)).view _ G (fun y => by
      rw [View.read_writes_whole]
      exact (pay_val d (cV2 L) (jV2 L) (Memref.whole main_arg3_scv : Memref sig .scVector .hbm S100000x128 .f32) fx3 _ hfi3 _ (1 : Fin 7) _ _ _ _ _ _ _ y).trans (hG3_1 y).symm)))
  isplitl [HO3_2]
  · istop
    exact Entails.of_eq (pointsTo_congr (piece_congr ((Memref.whole main_v37_scv : Memref sig .scVector .hbm S25088x512 .f32).slice (Rect.unit (s := S25088x512) (k2_off5 L 224#32) S112x128.size (k2_off5_inb L 2)) (fun _ => rfl)).view _ G (fun y => by
      rw [View.read_writes_whole]
      exact (pay_val d (cV2 L) (jV2 L) (Memref.whole main_arg3_scv : Memref sig .scVector .hbm S100000x128 .f32) fx3 _ hfi3 _ (2 : Fin 7) _ _ _ _ _ _ _ y).trans (hG3_2 y).symm)))
  isplitl [HO3_3]
  · istop
    exact Entails.of_eq (pointsTo_congr (piece_congr ((Memref.whole main_v37_scv : Memref sig .scVector .hbm S25088x512 .f32).slice (Rect.unit (s := S25088x512) (k2_off5 L 336#32) S112x128.size (k2_off5_inb L 3)) (fun _ => rfl)).view _ G (fun y => by
      rw [View.read_writes_whole]
      exact (pay_val d (cV2 L) (jV2 L) (Memref.whole main_arg3_scv : Memref sig .scVector .hbm S100000x128 .f32) fx3 _ hfi3 _ (3 : Fin 7) _ _ _ _ _ _ _ y).trans (hG3_3 y).symm)))
  isplitl [HO3_4]
  · istop
    exact Entails.of_eq (pointsTo_congr (piece_congr ((Memref.whole main_v37_scv : Memref sig .scVector .hbm S25088x512 .f32).slice (Rect.unit (s := S25088x512) (k2_off5 L 448#32) S112x128.size (k2_off5_inb L 4)) (fun _ => rfl)).view _ G (fun y => by
      rw [View.read_writes_whole]
      exact (pay_val d (cV2 L) (jV2 L) (Memref.whole main_arg3_scv : Memref sig .scVector .hbm S100000x128 .f32) fx3 _ hfi3 _ (4 : Fin 7) _ _ _ _ _ _ _ y).trans (hG3_4 y).symm)))
  isplitl [HO3_5]
  · istop
    exact Entails.of_eq (pointsTo_congr (piece_congr ((Memref.whole main_v37_scv : Memref sig .scVector .hbm S25088x512 .f32).slice (Rect.unit (s := S25088x512) (k2_off5 L 560#32) S112x128.size (k2_off5_inb L 5)) (fun _ => rfl)).view _ G (fun y => by
      rw [View.read_writes_whole]
      exact (pay_val d (cV2 L) (jV2 L) (Memref.whole main_arg3_scv : Memref sig .scVector .hbm S100000x128 .f32) fx3 _ hfi3 _ (5 : Fin 7) _ _ _ _ _ _ _ y).trans (hG3_5 y).symm)))
  isplitl [HO3_6]
  · istop
    exact Entails.of_eq (pointsTo_congr (piece_congr ((Memref.whole main_v37_scv : Memref sig .scVector .hbm S25088x512 .f32).slice (Rect.unit (s := S25088x512) (k2_off5 L 672#32) S112x128.size (k2_off5_inb L 6)) (fun _ => rfl)).view _ G (fun y => by
      rw [View.read_writes_whole]
      exact (pay_val d (cV2 L) (jV2 L) (Memref.whole main_arg3_scv : Memref sig .scVector .hbm S100000x128 .f32) fx3 _ hfi3 _ (6 : Fin 7) _ _ _ _ _ _ _ y).trans (hG3_6 y).symm)))
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScValG2.lean ====
import proofs.«215994_g5102421148354_cont_8to1c4_853_29_alg».proof.Proof.ScValG
import proofs.«215994_g5102421148354_cont_8to1c4_853_29_alg».proof.Proof.ScDeal2

noncomputable section

namespace Cert.KernelIdeal.Sc

open Cert.KernelIdeal Cert.KernelIdeal.Gen
open Idealize.ShloMosaic Idealize.ShloMosaic.ValueIdx
open Idealize.ShloMosaic.SparseCore (S V T)

variable {F : FTy → Type} [FloatOps F] [Cert.KernelIdeal.Facts]

/-! ## The gathered slab at a task's blocks (gather call 2)

Entry `y` of the task's block `(r, t)` of the call's result is entry `(784 w + 112 r + y 0, 128 t + y 1)` of the slab, which
is table `t` at the row its index word `(w, r, y 0)` names, column `y 1`; and that word is what the task reads at `(r, y 0)`
of its own row of the index array. -/

section Reads2
variable (d : Dev nD) (L : grid2.Coords) (c : Fin τ.nSC) (i : Fin τ.nSub)

/-- The task's row of an index array read at `(r, p)` is the array at `(w, r, p)`, `w` the task's worker number. -/
theorem idxRow_read_main_v30 (fi : Buf (Elt F) ((Memref.whole main_v30_scv : Memref sig .scVector .hbm S32x7x112 .i32).view.loc (V d c i))) (r : Fin 7) (p : Fin 112) :
    (((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi (ix2 (n0 := 7) (n1 := 112) r p)
      = fi (ix3 (n0 := 32) (n1 := 7) (n2 := 112) (widL2 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k2_off1 L 0 = 2 * (L 1).val + (L 0).val := congrFun (k2_off1_eq L) 0
  have e1 : k2_off1 L 1 = 0 := congrFun (k2_off1_eq L) 1
  have e2 : k2_off1 L 2 = 0 := congrFun (k2_off1_eq L) 2
  have hw : (widL2 L).val = 2 * (L 1).val + (L 0).val := rfl
  show (Rect.unit (s := S32x7x112) (k2_off1 L) S1x7x112.size (k2_off1_inb L)).off a
      + (Rect.unit (s := S32x7x112) (k2_off1 L) S1x7x112.size (k2_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k2_off1 L 0 + 1 * 0 = (widL2 L).val
    omega
  · show k2_off1 L 1 + 1 * r.val = r.val
    omega
  · show k2_off1 L 2 + 1 * p.val = p.val
    omega
/-- The task's row of an index array read at `(r, p)` is the array at `(w, r, p)`, `w` the task's worker number. -/
theorem idxRow_read_main_v32 (fi : Buf (Elt F) ((Memref.whole main_v32_scv : Memref sig .scVector .hbm S32x7x112 .i32).view.loc (V d c i))) (r : Fin 7) (p : Fin 112) :
    (((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi (ix2 (n0 := 7) (n1 := 112) r p)
      = fi (ix3 (n0 := 32) (n1 := 7) (n2 := 112) (widL2 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k2_off1 L 0 = 2 * (L 1).val + (L 0).val := congrFun (k2_off1_eq L) 0
  have e1 : k2_off1 L 1 = 0 := congrFun (k2_off1_eq L) 1
  have e2 : k2_off1 L 2 = 0 := congrFun (k2_off1_eq L) 2
  have hw : (widL2 L).val = 2 * (L 1).val + (L 0).val := rfl
  show (Rect.unit (s := S32x7x112) (k2_off1 L) S1x7x112.size (k2_off1_inb L)).off a
      + (Rect.unit (s := S32x7x112) (k2_off1 L) S1x7x112.size (k2_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k2_off1 L 0 + 1 * 0 = (widL2 L).val
    omega
  · show k2_off1 L 1 + 1 * r.val = r.val
    omega
  · show k2_off1 L 2 + 1 * p.val = p.val
    omega
/-- The task's row of an index array read at `(r, p)` is the array at `(w, r, p)`, `w` the task's worker number. -/
theorem idxRow_read_main_v34 (fi : Buf (Elt F) ((Memref.whole main_v34_scv : Memref sig .scVector .hbm S32x7x112 .i32).view.loc (V d c i))) (r : Fin 7) (p : Fin 112) :
    (((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi (ix2 (n0 := 7) (n1 := 112) r p)
      = fi (ix3 (n0 := 32) (n1 := 7) (n2 := 112) (widL2 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k2_off1 L 0 = 2 * (L 1).val + (L 0).val := congrFun (k2_off1_eq L) 0
  have e1 : k2_off1 L 1 = 0 := congrFun (k2_off1_eq L) 1
  have e2 : k2_off1 L 2 = 0 := congrFun (k2_off1_eq L) 2
  have hw : (widL2 L).val = 2 * (L 1).val + (L 0).val := rfl
  show (Rect.unit (s := S32x7x112) (k2_off1 L) S1x7x112.size (k2_off1_inb L)).off a
      + (Rect.unit (s := S32x7x112) (k2_off1 L) S1x7x112.size (k2_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k2_off1 L 0 + 1 * 0 = (widL2 L).val
    omega
  · show k2_off1 L 1 + 1 * r.val = r.val
    omega
  · show k2_off1 L 2 + 1 * p.val = p.val
    omega
/-- The task's row of an index array read at `(r, p)` is the array at `(w, r, p)`, `w` the task's worker number. -/
theorem idxRow_read_main_v36 (fi : Buf (Elt F) ((Memref.whole main_v36_scv : Memref sig .scVector .hbm S32x7x112 .i32).view.loc (V d c i))) (r : Fin 7) (p : Fin 112) :
    (((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi (ix2 (n0 := 7) (n1 := 112) r p)
      = fi (ix3 (n0 := 32) (n1 := 7) (n2 := 112) (widL2 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k2_off1 L 0 = 2 * (L 1).val + (L 0).val := congrFun (k2_off1_eq L) 0
  have e1 : k2_off1 L 1 = 0 := congrFun (k2_off1_eq L) 1
  have e2 : k2_off1 L 2 = 0 := congrFun (k2_off1_eq L) 2
  have hw : (widL2 L).val = 2 * (L 1).val + (L 0).val := rfl
  show (Rect.unit (s := S32x7x112) (k2_off1 L) S1x7x112.size (k2_off1_inb L)).off a
      + (Rect.unit (s := S32x7x112) (k2_off1 L) S1x7x112.size (k2_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k2_off1 L 0 + 1 * 0 = (widL2 L).val
    omega
  · show k2_off1 L 1 + 1 * r.val = r.val
    omega
  · show k2_off1 L 2 + 1 * p.val = p.val
    omega

/-- Where entry `y` of the task's block `r` of column block 0 sits in the result. -/
theorem piece2_2_emb (r : Fin 7) (y : S112x128.Idx) :
    ((((Memref.whole main_v37_scv : Memref sig .scVector .hbm S25088x512 .f32).slice (Rect.unit (s := S25088x512) (k2_off2 L (BitVec.ofNat 32 (112 * r.val))) S112x128.size (k2_off2_inb L r)) (fun _ => rfl)).view.emb y) 0).val = 784 * (widL2 L).val + 112 * r.val + (y 0).val
      ∧ ((((Memref.whole main_v37_scv : Memref sig .scVector .hbm S25088x512 .f32).slice (Rect.unit (s := S25088x512) (k2_off2 L (BitVec.ofNat 32 (112 * r.val))) S112x128.size (k2_off2_inb L r)) (fun _ => rfl)).view.emb y) 1).val = (y 1).val := by
  simp only [Memref.view_slice, View.emb_slice, Function.Embedding.trans_apply]
  refine ⟨?_, ?_⟩
  · show ((Rect.unit (s := S25088x512) (k2_off2 L (BitVec.ofNat 32 (112 * r.val))) S112x128.size (k2_off2_inb L r)).emb y 0 : Nat) = _
    rw [Rect.emb_apply, Rect.off_unit, Rect.stride_unit]
    have e0 : k2_off2 L (BitVec.ofNat 32 (112 * r.val)) 0 = 1568 * (L 1).val + 784 * (L 0).val + 112 * r.val := congrFun (k2_off2_eq L r) 0
    have hw : (widL2 L).val = 2 * (L 1).val + (L 0).val := rfl
    omega
  · show ((Rect.unit (s := S25088x512) (k2_off2 L (BitVec.ofNat 32 (112 * r.val))) S112x128.size (k2_off2_inb L r)).emb y 1 : Nat) = _
    rw [Rect.emb_apply, Rect.off_unit, Rect.stride_unit]
    have e1 : k2_off2 L (BitVec.ofNat 32 (112 * r.val)) 1 = 0 := congrFun (k2_off2_eq L r) 1
    omega
/-- Where entry `y` of the task's block `r` of column block 1 sits in the result. -/
theorem piece2_3_emb (r : Fin 7) (y : S112x128.Idx) :
    ((((Memref.whole main_v37_scv : Memref sig .scVector .hbm S25088x512 .f32).slice (Rect.unit (s := S25088x512) (k2_off3 L (BitVec.ofNat 32 (112 * r.val))) S112x128.size (k2_off3_inb L r)) (fun _ => rfl)).view.emb y) 0).val = 784 * (widL2 L).val + 112 * r.val + (y 0).val
      ∧ ((((Memref.whole main_v37_scv : Memref sig .scVector .hbm S25088x512 .f32).slice (Rect.unit (s := S25088x512) (k2_off3 L (BitVec.ofNat 32 (112 * r.val))) S112x128.size (k2_off3_inb L r)) (fun _ => rfl)).view.emb y) 1).val = 128 + (y 1).val := by
  simp only [Memref.view_slice, View.emb_slice, Function.Embedding.trans_apply]
  refine ⟨?_, ?_⟩
  · show ((Rect.unit (s := S25088x512) (k2_off3 L (BitVec.ofNat 32 (112 * r.val))) S112x128.size (k2_off3_inb L r)).emb y 0 : Nat) = _
    rw [Rect.emb_apply, Rect.off_unit, Rect.stride_unit]
    have e0 : k2_off3 L (BitVec.ofNat 32 (112 * r.val)) 0 = 1568 * (L 1).val + 784 * (L 0).val + 112 * r.val := congrFun (k2_off3_eq L r) 0
    have hw : (widL2 L).val = 2 * (L 1).val + (L 0).val := rfl
    omega
  · show ((Rect.unit (s := S25088x512) (k2_off3 L (BitVec.ofNat 32 (112 * r.val))) S112x128.size (k2_off3_inb L r)).emb y 1 : Nat) = _
    rw [Rect.emb_apply, Rect.off_unit, Rect.stride_unit]
    have e1 : k2_off3 L (BitVec.ofNat 32 (112 * r.val)) 1 = 128 := congrFun (k2_off3_eq L r) 1
    omega
/-- Where entry `y` of the task's block `r` of column block 2 sits in the result. -/
theorem piece2_4_emb (r : Fin 7) (y : S112x128.Idx) :
    ((((Memref.whole main_v37_scv : Memref sig .scVector .hbm S25088x512 .f32).slice (Rect.unit (s := S25088x512) (k2_off4 L (BitVec.ofNat 32 (112 * r.val))) S112x128.size (k2_off4_inb L r)) (fun _ => rfl)).view.emb y) 0).val = 784 * (widL2 L).val + 112 * r.val + (y 0).val
      ∧ ((((Memref.whole main_v37_scv : Memref sig .scVector .hbm S25088x512 .f32).slice (Rect.unit (s := S25088x512) (k2_off4 L (BitVec.ofNat 32 (112 * r.val))) S112x128.size (k2_off4_inb L r)) (fun _ => rfl)).view.emb y) 1).val = 256 + (y 1).val := by
  simp only [Memref.view_slice, View.emb_slice, Function.Embedding.trans_apply]
  refine ⟨?_, ?_⟩
  · show ((Rect.unit (s := S25088x512) (k2_off4 L (BitVec.ofNat 32 (112 * r.val))) S112x128.size (k2_off4_inb L r)).emb y 0 : Nat) = _
    rw [Rect.emb_apply, Rect.off_unit, Rect.stride_unit]
    have e0 : k2_off4 L (BitVec.ofNat 32 (112 * r.val)) 0 = 1568 * (L 1).val + 784 * (L 0).val + 112 * r.val := congrFun (k2_off4_eq L r) 0
    have hw : (widL2 L).val = 2 * (L 1).val + (L 0).val := rfl
    omega
  · show ((Rect.unit (s := S25088x512) (k2_off4 L (BitVec.ofNat 32 (112 * r.val))) S112x128.size (k2_off4_inb L r)).emb y 1 : Nat) = _
    rw [Rect.emb_apply, Rect.off_unit, Rect.stride_unit]
    have e1 : k2_off4 L (BitVec.ofNat 32 (112 * r.val)) 1 = 256 := congrFun (k2_off4_eq L r) 1
    omega
/-- Where entry `y` of the task's block `r` of column block 3 sits in the result. -/
theorem piece2_5_emb (r : Fin 7) (y : S112x128.Idx) :
    ((((Memref.whole main_v37_scv : Memref sig .scVector .hbm S25088x512 .f32).slice (Rect.unit (s := S25088x512) (k2_off5 L (BitVec.ofNat 32 (112 * r.val))) S112x128.size (k2_off5_inb L r)) (fun _ => rfl)).view.emb y) 0).val = 784 * (widL2 L).val + 112 * r.val + (y 0).val
      ∧ ((((Memref.whole main_v37_scv : Memref sig .scVector .hbm S25088x512 .f32).slice (Rect.unit (s := S25088x512) (k2_off5 L (BitVec.ofNat 32 (112 * r.val))) S112x128.size (k2_off5_inb L r)) (fun _ => rfl)).view.emb y) 1).val = 384 + (y 1).val := by
  simp only [Memref.view_slice, View.emb_slice, Function.Embedding.trans_apply]
  refine ⟨?_, ?_⟩
  · show ((Rect.unit (s := S25088x512) (k2_off5 L (BitVec.ofNat 32 (112 * r.val))) S112x128.size (k2_off5_inb L r)).emb y 0 : Nat) = _
    rw [Rect.emb_apply, Rect.off_unit, Rect.stride_unit]
    have e0 : k2_off5 L (BitVec.ofNat 32 (112 * r.val)) 0 = 1568 * (L 1).val + 784 * (L 0).val + 112 * r.val := congrFun (k2_off5_eq L r) 0
    have hw : (widL2 L).val = 2 * (L 1).val + (L 0).val := rfl
    omega
  · show ((Rect.unit (s := S25088x512) (k2_off5 L (BitVec.ofNat 32 (112 * r.val))) S112x128.size (k2_off5_inb L r)).emb y 1 : Nat) = _
    rw [Rect.emb_apply, Rect.off_unit, Rect.stride_unit]
    have e1 : k2_off5 L (BitVec.ofNat 32 (112 * r.val)) 1 = 384 := congrFun (k2_off5_eq L r) 1
    omega

/-- THE SLAB AT A TASK'S BLOCK of column block 0: table 0 at the row the task's own index word names. -/
theorem slabG_piece2_0 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v30_scv : Memref sig .scVector .hbm S32x7x112 .i32).view.loc (V d c i))) (fi1 : Buf (Elt F) ((Memref.whole main_v32_scv : Memref sig .scVector .hbm S32x7x112 .i32).view.loc (V d c i))) (fi2 : Buf (Elt F) ((Memref.whole main_v34_scv : Memref sig .scVector .hbm S32x7x112 .i32).view.loc (V d c i))) (fi3 : Buf (Elt F) ((Memref.whole main_v36_scv : Memref sig .scVector .hbm S32x7x112 .i32).view.loc (V d c i)))
    (hfi : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000) (r : Fin 7) (y : S112x128.Idx) :
    slabG fx0 fx1 fx2 fx3 fi0 fi1 fi2 fi3 (((Memref.whole main_v37_scv : Memref sig .scVector .hbm S25088x512 .f32).slice (Rect.unit (s := S25088x512) (k2_off2 L (BitVec.ofNat 32 (112 * r.val))) S112x128.size (k2_off2_inb L r)) (fun _ => rfl)).view.emb y)
      = (Memref.whole main_arg0_scv : Memref sig .scVector .hbm S100000x128 .f32).view.read (Elt F) fx0 (ix2 (n0 := 100000) (n1 := 128)
          ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) r (y 0))).toNat, hfi _⟩ (y 1)) := by
  have e := idxRow_read_main_v30 d L c i fi0 r (y 0)
  have hlt : (fi0 (ix3 (n0 := 32) (n1 := 7) (n2 := 112) (widL2 L) r (y 0))).toNat < 100000 := e ▸ hfi (ix2 (n0 := 7) (n1 := 112) r (y 0))
  obtain ⟨h0, h1⟩ := piece2_2_emb L r y
  refine (slabG_at0 fx0 fx1 fx2 fx3 fi0 fi1 fi2 fi3 _ (widL2 L) r (y 0) (y 1) h0 h1).trans ?_
  refine (rowAt_lt fx0 _ hlt (y 1)).trans ?_
  exact congrArg (fun v : Fin 100000 => fx0 (ix2 (n0 := 100000) (n1 := 128) v (y 1))) (Fin.ext (congrArg BitVec.toNat e.symm))
/-- THE SLAB AT A TASK'S BLOCK of column block 1: table 1 at the row the task's own index word names. -/
theorem slabG_piece2_1 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v30_scv : Memref sig .scVector .hbm S32x7x112 .i32).view.loc (V d c i))) (fi1 : Buf (Elt F) ((Memref.whole main_v32_scv : Memref sig .scVector .hbm S32x7x112 .i32).view.loc (V d c i))) (fi2 : Buf (Elt F) ((Memref.whole main_v34_scv : Memref sig .scVector .hbm S32x7x112 .i32).view.loc (V d c i))) (fi3 : Buf (Elt F) ((Memref.whole main_v36_scv : Memref sig .scVector .hbm S32x7x112 .i32).view.loc (V d c i)))
    (hfi : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000) (r : Fin 7) (y : S112x128.Idx) :
    slabG fx0 fx1 fx2 fx3 fi0 fi1 fi2 fi3 (((Memref.whole main_v37_scv : Memref sig .scVector .hbm S25088x512 .f32).slice (Rect.unit (s := S25088x512) (k2_off3 L (BitVec.ofNat 32 (112 * r.val))) S112x128.size (k2_off3_inb L r)) (fun _ => rfl)).view.emb y)
      = (Memref.whole main_arg1_scv : Memref sig .scVector .hbm S100000x128 .f32).view.read (Elt F) fx1 (ix2 (n0 := 100000) (n1 := 128)
          ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) r (y 0))).toNat, hfi _⟩ (y 1)) := by
  have e := idxRow_read_main_v32 d L c i fi1 r (y 0)
  have hlt : (fi1 (ix3 (n0 := 32) (n1 := 7) (n2 := 112) (widL2 L) r (y 0))).toNat < 100000 := e ▸ hfi (ix2 (n0 := 7) (n1 := 112) r (y 0))
  obtain ⟨h0, h1⟩ := piece2_3_emb L r y
  refine (slabG_at1 fx0 fx1 fx2 fx3 fi0 fi1 fi2 fi3 _ (widL2 L) r (y 0) (y 1) h0 h1).trans ?_
  refine (rowAt_lt fx1 _ hlt (y 1)).trans ?_
  exact congrArg (fun v : Fin 100000 => fx1 (ix2 (n0 := 100000) (n1 := 128) v (y 1))) (Fin.ext (congrArg BitVec.toNat e.symm))
/-- THE SLAB AT A TASK'S BLOCK of column block 2: table 2 at the row the task's own index word names. -/
theorem slabG_piece2_2 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v30_scv : Memref sig .scVector .hbm S32x7x112 .i32).view.loc (V d c i))) (fi1 : Buf (Elt F) ((Memref.whole main_v32_scv : Memref sig .scVector .hbm S32x7x112 .i32).view.loc (V d c i))) (fi2 : Buf (Elt F) ((Memref.whole main_v34_scv : Memref sig .scVector .hbm S32x7x112 .i32).view.loc (V d c i))) (fi3 : Buf (Elt F) ((Memref.whole main_v36_scv : Memref sig .scVector .hbm S32x7x112 .i32).view.loc (V d c i)))
    (hfi : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000) (r : Fin 7) (y : S112x128.Idx) :
    slabG fx0 fx1 fx2 fx3 fi0 fi1 fi2 fi3 (((Memref.whole main_v37_scv : Memref sig .scVector .hbm S25088x512 .f32).slice (Rect.unit (s := S25088x512) (k2_off4 L (BitVec.ofNat 32 (112 * r.val))) S112x128.size (k2_off4_inb L r)) (fun _ => rfl)).view.emb y)
      = (Memref.whole main_arg2_scv : Memref sig .scVector .hbm S100000x128 .f32).view.read (Elt F) fx2 (ix2 (n0 := 100000) (n1 := 128)
          ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) r (y 0))).toNat, hfi _⟩ (y 1)) := by
  have e := idxRow_read_main_v34 d L c i fi2 r (y 0)
  have hlt : (fi2 (ix3 (n0 := 32) (n1 := 7) (n2 := 112) (widL2 L) r (y 0))).toNat < 100000 := e ▸ hfi (ix2 (n0 := 7) (n1 := 112) r (y 0))
  obtain ⟨h0, h1⟩ := piece2_4_emb L r y
  refine (slabG_at2 fx0 fx1 fx2 fx3 fi0 fi1 fi2 fi3 _ (widL2 L) r (y 0) (y 1) h0 h1).trans ?_
  refine (rowAt_lt fx2 _ hlt (y 1)).trans ?_
  exact congrArg (fun v : Fin 100000 => fx2 (ix2 (n0 := 100000) (n1 := 128) v (y 1))) (Fin.ext (congrArg BitVec.toNat e.symm))
/-- THE SLAB AT A TASK'S BLOCK of column block 3: table 3 at the row the task's own index word names. -/
theorem slabG_piece2_3 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v30_scv : Memref sig .scVector .hbm S32x7x112 .i32).view.loc (V d c i))) (fi1 : Buf (Elt F) ((Memref.whole main_v32_scv : Memref sig .scVector .hbm S32x7x112 .i32).view.loc (V d c i))) (fi2 : Buf (Elt F) ((Memref.whole main_v34_scv : Memref sig .scVector .hbm S32x7x112 .i32).view.loc (V d c i))) (fi3 : Buf (Elt F) ((Memref.whole main_v36_scv : Memref sig .scVector .hbm S32x7x112 .i32).view.loc (V d c i)))
    (hfi : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000) (r : Fin 7) (y : S112x128.Idx) :
    slabG fx0 fx1 fx2 fx3 fi0 fi1 fi2 fi3 (((Memref.whole main_v37_scv : Memref sig .scVector .hbm S25088x512 .f32).slice (Rect.unit (s := S25088x512) (k2_off5 L (BitVec.ofNat 32 (112 * r.val))) S112x128.size (k2_off5_inb L r)) (fun _ => rfl)).view.emb y)
      = (Memref.whole main_arg3_scv : Memref sig .scVector .hbm S100000x128 .f32).view.read (Elt F) fx3 (ix2 (n0 := 100000) (n1 := 128)
          ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) r (y 0))).toNat, hfi _⟩ (y 1)) := by
  have e := idxRow_read_main_v36 d L c i fi3 r (y 0)
  have hlt : (fi3 (ix3 (n0 := 32) (n1 := 7) (n2 := 112) (widL2 L) r (y 0))).toNat < 100000 := e ▸ hfi (ix2 (n0 := 7) (n1 := 112) r (y 0))
  obtain ⟨h0, h1⟩ := piece2_5_emb L r y
  refine (slabG_at3 fx0 fx1 fx2 fx3 fi0 fi1 fi2 fi3 _ (widL2 L) r (y 0) (y 1) h0 h1).trans ?_
  refine (rowAt_lt fx3 _ hlt (y 1)).trans ?_
  exact congrArg (fun v : Fin 100000 => fx3 (ix2 (n0 := 100000) (n1 := 128) v (y 1))) (Fin.ext (congrArg BitVec.toNat e.symm))

end Reads2

end Cert.KernelIdeal.Sc

end
-- ==== Proof.ScOblG2.lean ====
/-
  The launch theorem's obligation for the tasks of gather call 2.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTileV2
import proofs.«215994_g5102421148354_cont_8to1c4_853_29_alg».proof.Proof.ScPayG
import proofs.«215994_g5102421148354_cont_8to1c4_853_29_alg».proof.Proof.ScValG2
import proofs.«215994_g5102421148354_cont_8to1c4_853_29_alg».proof.Proof.ScScoped

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 2 names. -/
abbrev semLG2 : List (SemLoc sig) := [SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem, SemLoc.dma cc2_scratch19.sem, SemLoc.dma cc2_scratch20.sem, SemLoc.dma cc2_scratch21.sem, SemLoc.dma cc2_scratch22.sem, SemLoc.dma cc2_scratch23.sem, SemLoc.dma cc2_scratch24.sem, SemLoc.dma cc2_scratch25.sem, SemLoc.dma cc2_scratch26.sem, SemLoc.dma cc2_scratch27.sem, SemLoc.dma cc2_scratch28.sem]
abbrev bufLG2 (c : Fin τ.nSC) (i : Fin τ.nSub) : List (DevRef τ sig) := ([cc2_scratch0, cc2_scratch1, cc2_scratch2, cc2_scratch3, cc2_scratch4, cc2_scratch5, cc2_scratch6, cc2_scratch7, cc2_scratch8, cc2_scratch9, cc2_scratch10] : List (Ref sig .scVector)).map (Proc.scVector c i).devRef

theorem semLG2_nodup : (semLG2).Nodup := by decide
theorem semLG2_scoped : ∀ s ∈ semLG2, s.isScoped Kind.scVector = true := by decide
theorem bufLG2_nodup (c : Fin τ.nSC) (i : Fin τ.nSub) : (bufLG2 c i).Nodup :=
  (show ([cc2_scratch0, cc2_scratch1, cc2_scratch2, cc2_scratch3, cc2_scratch4, cc2_scratch5, cc2_scratch6, cc2_scratch7, cc2_scratch8, cc2_scratch9, cc2_scratch10] : List (Ref sig .scVector)).Nodup by decide).map (Proc.devRef_injective _)
theorem bufLG2_own (c : Fin τ.nSC) (i : Fin τ.nSub) : ∀ b ∈ bufLG2 c i, b ∈ ownRefs (sig := sig) (Proc.scVector c i) := by
  intro b hb
  simp only [bufLG2, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11G_2 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semLG2_chain (Φ : SemLoc sig → sProp 𝕄) : bigSepL semLG2 Φ = iprop(Φ (SemLoc.dma cc2_scratch11.sem) ∗ Φ (SemLoc.dma cc2_scratch12.sem) ∗ Φ (SemLoc.dma cc2_scratch13.sem) ∗ Φ (SemLoc.dma cc2_scratch14.sem) ∗ Φ (SemLoc.dma cc2_scratch15.sem) ∗ Φ (SemLoc.dma cc2_scratch16.sem) ∗ Φ (SemLoc.dma cc2_scratch17.sem) ∗ Φ (SemLoc.dma cc2_scratch18.sem) ∗ Φ (SemLoc.dma cc2_scratch19.sem) ∗ Φ (SemLoc.dma cc2_scratch20.sem) ∗ Φ (SemLoc.dma cc2_scratch21.sem) ∗ Φ (SemLoc.dma cc2_scratch22.sem) ∗ Φ (SemLoc.dma cc2_scratch23.sem) ∗ Φ (SemLoc.dma cc2_scratch24.sem) ∗ Φ (SemLoc.dma cc2_scratch25.sem) ∗ Φ (SemLoc.dma cc2_scratch26.sem) ∗ Φ (SemLoc.dma cc2_scratch27.sem) ∗ Φ (SemLoc.dma cc2_scratch28.sem)) := rfl
theorem bufLG2_chain (c : Fin τ.nSC) (i : Fin τ.nSub) (Φ : DevRef τ sig → sProp 𝕄) : bigSepL (bufLG2 c i) Φ = iprop(Φ ((Proc.scVector c i).devRef cc2_scratch0) ∗ Φ ((Proc.scVector c i).devRef cc2_scratch1) ∗ Φ ((Proc.scVector c i).devRef cc2_scratch2) ∗ Φ ((Proc.scVector c i).devRef cc2_scratch3) ∗ Φ ((Proc.scVector c i).devRef cc2_scratch4) ∗ Φ ((Proc.scVector c i).devRef cc2_scratch5) ∗ Φ ((Proc.scVector c i).devRef cc2_scratch6) ∗ Φ ((Proc.scVector c i).devRef cc2_scratch7) ∗ Φ ((Proc.scVector c i).devRef cc2_scratch8) ∗ Φ ((Proc.scVector c i).devRef cc2_scratch9) ∗ Φ ((Proc.scVector c i).devRef cc2_scratch10)) := rfl

set_option maxHeartbeats 4000000 in
/-- The task from what the launch hands it: its payload and its subcore's whole scoped storage. -/
theorem tile_fullG2 (hF : (K (F := F)).Facts) (d : Dev nD) (L : grid2.Coords) (O : CellTallies nD τ sig (HIx 4)) (W : Waits sig (HIx 4))
    (hO : ∀ g, O g none = 0) (qx : PosShare TreeShare)
    (fi0 : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi0 : ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 j).toNat < 100000)
    (fi1 : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi1 : ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 j).toNat < 100000)
    (fi2 : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi2 : ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 j).toNat < 100000)
    (fi3 : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) (hfi3 : ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV2 L) (jV2 L))))
    (fx1 : Buf (Elt F) ((Memref.whole main_arg1_scv : Memref sig .scVector .hbm S100000x128 .f32).view.loc (V d (cV2 L) (jV2 L))))
    (fx2 : Buf (Elt F) ((Memref.whole main_arg2_scv : Memref sig .scVector .hbm S100000x128 .f32).view.loc (V d (cV2 L) (jV2 L))))
    (fx3 : Buf (Elt F) ((Memref.whole main_arg3_scv : Memref sig .scVector .hbm S100000x128 .f32).view.loc (V d (cV2 L) (jV2 L))))
    (G : Buf (Elt F) (((Memref.whole main_v37_scv : Memref sig .scVector .hbm S25088x512 .f32).slice (Rect.unit (s := S25088x512) (k2_off2 L 0#32) S112x128.size (k2_off2_inb L 0)) (fun _ => rfl)).view.loc (V d (cV2 L) (jV2 L))))
    (hG0_0 : ∀ y, ((Memref.whole main_v37_scv : Memref sig .scVector .hbm S25088x512 .f32).slice (Rect.unit (s := S25088x512) (k2_off2 L 0#32) S112x128.size (k2_off2_inb L 0)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v37_scv : Memref sig .scVector .hbm S25088x512 .f32).slice (Rect.unit (s := S25088x512) (k2_off2 L 112#32) S112x128.size (k2_off2_inb L 1)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v37_scv : Memref sig .scVector .hbm S25088x512 .f32).slice (Rect.unit (s := S25088x512) (k2_off2 L 224#32) S112x128.size (k2_off2_inb L 2)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v37_scv : Memref sig .scVector .hbm S25088x512 .f32).slice (Rect.unit (s := S25088x512) (k2_off2 L 336#32) S112x128.size (k2_off2_inb L 3)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v37_scv : Memref sig .scVector .hbm S25088x512 .f32).slice (Rect.unit (s := S25088x512) (k2_off2 L 448#32) S112x128.size (k2_off2_inb L 4)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v37_scv : Memref sig .scVector .hbm S25088x512 .f32).slice (Rect.unit (s := S25088x512) (k2_off2 L 560#32) S112x128.size (k2_off2_inb L 5)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v37_scv : Memref sig .scVector .hbm S25088x512 .f32).slice (Rect.unit (s := S25088x512) (k2_off2 L 672#32) S112x128.size (k2_off2_inb L 6)) (fun _ => rfl)).view.read (Elt F) G y = (Memref.whole main_arg0_scv : Memref sig .scVector .hbm S100000x128 .f32).view.read (Elt F) fx0 (ix2 (n0 := 100000) (n1 := 128) ⟨((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v37_scv : Memref sig .scVector .hbm S25088x512 .f32).slice (Rect.unit (s := S25088x512) (k2_off3 L 0#32) S112x128.size (k2_off3_inb L 0)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v37_scv : Memref sig .scVector .hbm S25088x512 .f32).slice (Rect.unit (s := S25088x512) (k2_off3 L 112#32) S112x128.size (k2_off3_inb L 1)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v37_scv : Memref sig .scVector .hbm S25088x512 .f32).slice (Rect.unit (s := S25088x512) (k2_off3 L 224#32) S112x128.size (k2_off3_inb L 2)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v37_scv : Memref sig .scVector .hbm S25088x512 .f32).slice (Rect.unit (s := S25088x512) (k2_off3 L 336#32) S112x128.size (k2_off3_inb L 3)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v37_scv : Memref sig .scVector .hbm S25088x512 .f32).slice (Rect.unit (s := S25088x512) (k2_off3 L 448#32) S112x128.size (k2_off3_inb L 4)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v37_scv : Memref sig .scVector .hbm S25088x512 .f32).slice (Rect.unit (s := S25088x512) (k2_off3 L 560#32) S112x128.size (k2_off3_inb L 5)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v37_scv : Memref sig .scVector .hbm S25088x512 .f32).slice (Rect.unit (s := S25088x512) (k2_off3 L 672#32) S112x128.size (k2_off3_inb L 6)) (fun _ => rfl)).view.read (Elt F) G y = (Memref.whole main_arg1_scv : Memref sig .scVector .hbm S100000x128 .f32).view.read (Elt F) fx1 (ix2 (n0 := 100000) (n1 := 128) ⟨((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v37_scv : Memref sig .scVector .hbm S25088x512 .f32).slice (Rect.unit (s := S25088x512) (k2_off4 L 0#32) S112x128.size (k2_off4_inb L 0)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v37_scv : Memref sig .scVector .hbm S25088x512 .f32).slice (Rect.unit (s := S25088x512) (k2_off4 L 112#32) S112x128.size (k2_off4_inb L 1)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v37_scv : Memref sig .scVector .hbm S25088x512 .f32).slice (Rect.unit (s := S25088x512) (k2_off4 L 224#32) S112x128.size (k2_off4_inb L 2)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v37_scv : Memref sig .scVector .hbm S25088x512 .f32).slice (Rect.unit (s := S25088x512) (k2_off4 L 336#32) S112x128.size (k2_off4_inb L 3)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v37_scv : Memref sig .scVector .hbm S25088x512 .f32).slice (Rect.unit (s := S25088x512) (k2_off4 L 448#32) S112x128.size (k2_off4_inb L 4)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v37_scv : Memref sig .scVector .hbm S25088x512 .f32).slice (Rect.unit (s := S25088x512) (k2_off4 L 560#32) S112x128.size (k2_off4_inb L 5)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v37_scv : Memref sig .scVector .hbm S25088x512 .f32).slice (Rect.unit (s := S25088x512) (k2_off4 L 672#32) S112x128.size (k2_off4_inb L 6)) (fun _ => rfl)).view.read (Elt F) G y = (Memref.whole main_arg2_scv : Memref sig .scVector .hbm S100000x128 .f32).view.read (Elt F) fx2 (ix2 (n0 := 100000) (n1 := 128) ⟨((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v37_scv : Memref sig .scVector .hbm S25088x512 .f32).slice (Rect.unit (s := S25088x512) (k2_off5 L 0#32) S112x128.size (k2_off5_inb L 0)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v37_scv : Memref sig .scVector .hbm S25088x512 .f32).slice (Rect.unit (s := S25088x512) (k2_off5 L 112#32) S112x128.size (k2_off5_inb L 1)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v37_scv : Memref sig .scVector .hbm S25088x512 .f32).slice (Rect.unit (s := S25088x512) (k2_off5 L 224#32) S112x128.size (k2_off5_inb L 2)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v37_scv : Memref sig .scVector .hbm S25088x512 .f32).slice (Rect.unit (s := S25088x512) (k2_off5 L 336#32) S112x128.size (k2_off5_inb L 3)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v37_scv : Memref sig .scVector .hbm S25088x512 .f32).slice (Rect.unit (s := S25088x512) (k2_off5 L 448#32) S112x128.size (k2_off5_inb L 4)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v37_scv : Memref sig .scVector .hbm S25088x512 .f32).slice (Rect.unit (s := S25088x512) (k2_off5 L 560#32) S112x128.size (k2_off5_inb L 5)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v37_scv : Memref sig .scVector .hbm S25088x512 .f32).slice (Rect.unit (s := S25088x512) (k2_off5 L 672#32) S112x128.size (k2_off5_inb L 6)) (fun _ => rfl)).view.read (Elt F) G y = (Memref.whole main_arg3_scv : Memref sig .scVector .hbm S100000x128 .f32).view.read (Elt F) fx3 (ix2 (n0 := 100000) (n1 := 128) ⟨((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(levAts (K (F := F)).L (K (F := F)).lev ∗ emp ∗ tileRes2 d L qx fi0 fi1 fi2 fi3 fx0 fx1 fx2 fx3
        ∗ scopedBufs (V d (cV2 L) (jV2 L)) ∗ scopedSems0 (V d (cV2 L) (jV2 L)) ∗ owes (V d (cV2 L) (jV2 L)) O W : sProp 𝕄)
      ⊢ wp frame (wpE (defs₀ (F := F)) 𝒱₀ (V d (cV2 L) (jV2 L)) none) Set.univ
          (cc2_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28)
          fun _ => iprop(tileResG2 d L qx fi0 fi1 fi2 fi3 fx0 fx1 fx2 fx3 G ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') := by
  rw [(K (F := F)).scopedBufs_V hF d (cV2 L) (jV2 L), SparseCore.Cfg.scopedSems0_V (Val := Elt F) d (cV2 L) (jV2 L),
    ownSems0_take (V d (cV2 L) (jV2 L)) semLG2 semLG2_nodup semLG2_scoped,
    ownBufs_take (V d (cV2 L) (jV2 L)) (bufLG2 (cV2 L) (jV2 L)) (bufLG2_nodup _ _) (bufLG2_own _ _)]
  unfold tileRes2 tileResG2 ownedAny
  rw [semLG2_chain, bufLG2_chain]
  simp only [toks11G_2]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV2 L) (jV2 L))) hO) $$ Hlv
  ihave Hwp := (tile_bodyV2 (F := F) d L O W qx fi0 hfi0 fi1 hfi1 fi2 hfi2 fi3 hfi3 fx0 fx1 fx2 fx3 G hG0_0 hG0_1 hG0_2 hG0_3 hG0_4 hG0_5 hG0_6 hG1_0 hG1_1 hG1_2 hG1_3 hG1_4 hG1_5 hG1_6 hG2_0 hG2_1 hG2_2 hG2_3 hG2_4 hG2_5 hG2_6 hG3_0 hG3_1 hG3_2 hG3_3 hG3_4 hG3_5 hG3_6) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_postG2 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 2. -/
theorem defs₀_vectorG2 (c : Fin τ.nSC) (s : Fin τ.nSub) :
    defs₀ (F := F) (.scVector c s) 2 ()
      = SparseCore.onTile hcore2 hsub2 (fun c s => cc2_sc_kernel (coordsV2 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v30_scv) (Memref.isWhole_whole _) (Memref.whole main_v32_scv) (Memref.isWhole_whole _) (Memref.whole main_v34_scv) (Memref.isWhole_whole _) (Memref.whole main_v36_scv) (Memref.isWhole_whole _) (Memref.whole main_v37_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scratch25 cc2_scratch26 cc2_scratch27 cc2_scratch28) ⟨⟩ c s := rfl

/-- An index row of the task reads words of the call's index array, which are row numbers of the tables. -/
theorem row_ltG2 (d : Dev nD) (L : grid2.Coords) (a : IVec S100000 32) (ha : ∀ r, (a r).toNat < 100000) (t : Fin 4) :
    ((t = 0 → ∀ j, ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v30_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 1 → ∀ j, ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v32_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 2 → ∀ j, ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v34_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000)
    ∧ (t = 3 → ∀ j, ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.read (Elt F) (Idx.slab 2 a : Buf (Elt F) ((((Memref.whole main_v36_scv : Memref sig .scVector .hbm S32x7x112 .i32).slice (Rect.unit (s := S32x7x112) (k2_off1 L) S1x7x112.size (k2_off1_inb L)) (fun _ => rfl)).squeeze S7x112 squeezes_S1x7x112_S7x112).view.loc (V d (cV2 L) (jV2 L)))) j).toNat < 100000))
    := by
  refine ⟨?_, ?_, ?_, ?_⟩ <;> (intro _ j; rw [View.read_apply]; simp only [cast_eq]; exact Idx.slab_lt 2 a ha _)

set_option maxHeartbeats 4000000 in
/-- The launch theorem's obligation for the tasks of call 2, the index inputs holding row numbers. -/
theorem tileOblG2 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (PG m) v₀ 2 := by
  intro d c i O W hO _ _
  simp only [show (PG m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vectorG2]; simp only [SparseCore.onTile, hc, and_self, ↓reduceDIte]
  obtain ⟨h4, h5, h6, h7⟩ := hpre d
  exact (tile_fullG2 (F := F) facts d (coordsV2 ⟨_, hc.1⟩ ⟨_, hc.2⟩) O W hO (qTile (Fin.cast (nCore_eq 2) c) (Fin.cast (nSub_eq 2) i))
    (Idx.slab 2 (m ((SparseCore.T d).loc main_arg4))) ((row_ltG2 d _ _ h4 0).1 rfl)
    (Idx.slab 2 (m ((SparseCore.T d).loc main_arg5))) ((row_ltG2 d _ _ h5 1).2.1 rfl)
    (Idx.slab 2 (m ((SparseCore.T d).loc main_arg6))) ((row_ltG2 d _ _ h6 2).2.2.1 rfl)
    (Idx.slab 2 (m ((SparseCore.T d).loc main_arg7))) ((row_ltG2 d _ _ h7 3).2.2.2 rfl)
    (m ((SparseCore.T d).loc main_arg0)) (m ((SparseCore.T d).loc main_arg1)) (m ((SparseCore.T d).loc main_arg2)) (m ((SparseCore.T d).loc main_arg3))
    (slabOfM m 2 d)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨0, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨1, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨2, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨3, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨4, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨5, by decide⟩ : Fin 7) y)
    (fun y => by rw [View.read_apply]; simp only [cast_eq]; exact slabG_piece2_0 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨6, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨0, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨1, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨2, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨3, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨4, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨5, by decide⟩ : Fin 7) y)
    (fun y => by rw [View.read_apply]; simp only [cast_eq]; exact slabG_piece2_1 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨6, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨0, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨1, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨2, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨3, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨4, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨5, by decide⟩ : Fin 7) y)
    (fun y => by rw [View.read_apply]; simp only [cast_eq]; exact slabG_piece2_2 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨6, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨0, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨1, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨2, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨3, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨4, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨5, by decide⟩ : Fin 7) y)
    (fun y => by rw [View.read_apply]; simp only [cast_eq]; exact slabG_piece2_3 d (coordsV2 ⟨_, hc.1⟩ ⟨_, hc.2⟩) (cV2 (coordsV2 ⟨_, hc.1⟩ ⟨_, hc.2⟩)) (jV2 (coordsV2 ⟨_, hc.1⟩ ⟨_, hc.2⟩)) _ _ _ _ _ _ _ _ _ (⟨6, by decide⟩ : Fin 7) y)
    ).trans
    (wp_mono frame _ _ fun _ => obl_postG2)

end Cert.KernelIdeal.Sc

end
-- ==== Proof.ScTileV3.lean ====
/-
  One vector subcore's task in gather call 3: the subcore at grid point L = (core, subcore) is worker 2·subcore + core.
  It copies its own row of each of the four index arrays (7 × 112 words) into its index scratches; then, table by table,
  it gathers, for each of its seven chunks of 112 rows, the table's rows the chunk's index words name into one of seven row
  buffers — seven gathers in flight at once, each on a semaphore of its own, all reading the one table, each through a
  read share of its own — and, as each gather lands, copies the buffer out to the chunk's 112 × 128 piece of the result
  (rows 784·worker + 112·chunk on, columns 128·table on), waiting for every copy-out before the buffers are filled again.
  Every copy is issued on a semaphore standing at zero and awaited before its source or target is touched again, so the
  counters of the transfers suffice: no schedule is chosen.  An index word names a row of a table of 100000 rows: that is
  what keeps every gather's stream alive, and it is asked of the index rows' contents (hfi).
-/
import proofs.«215994_g5102421148354_cont_8to1c4_853_29_alg».proof.Proof.ScVal

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

set_option maxHeartbeats 16000000 in
set_option sl_exec.hypHeartbeats 20000 in
/-- The task, run from its resources to its return: the index rows and the tables' read shares come back as they went, the
    28 pieces of the result, the scratches and the 18 semaphores (at zero) come back, and the subcore owes what it owed. -/
theorem tile_bodyV3 (d : Dev nD) (L : grid3.Coords) (O : CellTallies nD τ sig (HIx 4)) (W : Waits sig (HIx 4)) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    (G : Buf (Elt F) (((Memref.whole main_v46_scv : Memref sig .scVector .hbm S25088x512 .f32).slice (Rect.unit (s := S25088x512) (k3_off2 L 0#32) S112x128.size (k3_off2_inb L 0)) (fun _ => rfl)).view.loc (V d (cV3 L) (jV3 L))))
    (hG0_0 : ∀ y, ((Memref.whole main_v46_scv : Memref sig .scVector .hbm S25088x512 .f32).slice (Rect.unit (s := S25088x512) (k3_off2 L 0#32) S112x128.size (k3_off2_inb L 0)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v46_scv : Memref sig .scVector .hbm S25088x512 .f32).slice (Rect.unit (s := S25088x512) (k3_off2 L 112#32) S112x128.size (k3_off2_inb L 1)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v46_scv : Memref sig .scVector .hbm S25088x512 .f32).slice (Rect.unit (s := S25088x512) (k3_off2 L 224#32) S112x128.size (k3_off2_inb L 2)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v46_scv : Memref sig .scVector .hbm S25088x512 .f32).slice (Rect.unit (s := S25088x512) (k3_off2 L 336#32) S112x128.size (k3_off2_inb L 3)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v46_scv : Memref sig .scVector .hbm S25088x512 .f32).slice (Rect.unit (s := S25088x512) (k3_off2 L 448#32) S112x128.size (k3_off2_inb L 4)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v46_scv : Memref sig .scVector .hbm S25088x512 .f32).slice (Rect.unit (s := S25088x512) (k3_off2 L 560#32) S112x128.size (k3_off2_inb L 5)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v46_scv : Memref sig .scVector .hbm S25088x512 .f32).slice (Rect.unit (s := S25088x512) (k3_off2 L 672#32) S112x128.size (k3_off2_inb L 6)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v46_scv : Memref sig .scVector .hbm S25088x512 .f32).slice (Rect.unit (s := S25088x512) (k3_off3 L 0#32) S112x128.size (k3_off3_inb L 0)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v46_scv : Memref sig .scVector .hbm S25088x512 .f32).slice (Rect.unit (s := S25088x512) (k3_off3 L 112#32) S112x128.size (k3_off3_inb L 1)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v46_scv : Memref sig .scVector .hbm S25088x512 .f32).slice (Rect.unit (s := S25088x512) (k3_off3 L 224#32) S112x128.size (k3_off3_inb L 2)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v46_scv : Memref sig .scVector .hbm S25088x512 .f32).slice (Rect.unit (s := S25088x512) (k3_off3 L 336#32) S112x128.size (k3_off3_inb L 3)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v46_scv : Memref sig .scVector .hbm S25088x512 .f32).slice (Rect.unit (s := S25088x512) (k3_off3 L 448#32) S112x128.size (k3_off3_inb L 4)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v46_scv : Memref sig .scVector .hbm S25088x512 .f32).slice (Rect.unit (s := S25088x512) (k3_off3 L 560#32) S112x128.size (k3_off3_inb L 5)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v46_scv : Memref sig .scVector .hbm S25088x512 .f32).slice (Rect.unit (s := S25088x512) (k3_off3 L 672#32) S112x128.size (k3_off3_inb L 6)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v46_scv : Memref sig .scVector .hbm S25088x512 .f32).slice (Rect.unit (s := S25088x512) (k3_off4 L 0#32) S112x128.size (k3_off4_inb L 0)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v46_scv : Memref sig .scVector .hbm S25088x512 .f32).slice (Rect.unit (s := S25088x512) (k3_off4 L 112#32) S112x128.size (k3_off4_inb L 1)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v46_scv : Memref sig .scVector .hbm S25088x512 .f32).slice (Rect.unit (s := S25088x512) (k3_off4 L 224#32) S112x128.size (k3_off4_inb L 2)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v46_scv : Memref sig .scVector .hbm S25088x512 .f32).slice (Rect.unit (s := S25088x512) (k3_off4 L 336#32) S112x128.size (k3_off4_inb L 3)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v46_scv : Memref sig .scVector .hbm S25088x512 .f32).slice (Rect.unit (s := S25088x512) (k3_off4 L 448#32) S112x128.size (k3_off4_inb L 4)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v46_scv : Memref sig .scVector .hbm S25088x512 .f32).slice (Rect.unit (s := S25088x512) (k3_off4 L 560#32) S112x128.size (k3_off4_inb L 5)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v46_scv : Memref sig .scVector .hbm S25088x512 .f32).slice (Rect.unit (s := S25088x512) (k3_off4 L 672#32) S112x128.size (k3_off4_inb L 6)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v46_scv : Memref sig .scVector .hbm S25088x512 .f32).slice (Rect.unit (s := S25088x512) (k3_off5 L 0#32) S112x128.size (k3_off5_inb L 0)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v46_scv : Memref sig .scVector .hbm S25088x512 .f32).slice (Rect.unit (s := S25088x512) (k3_off5 L 112#32) S112x128.size (k3_off5_inb L 1)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v46_scv : Memref sig .scVector .hbm S25088x512 .f32).slice (Rect.unit (s := S25088x512) (k3_off5 L 224#32) S112x128.size (k3_off5_inb L 2)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v46_scv : Memref sig .scVector .hbm S25088x512 .f32).slice (Rect.unit (s := S25088x512) (k3_off5 L 336#32) S112x128.size (k3_off5_inb L 3)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v46_scv : Memref sig .scVector .hbm S25088x512 .f32).slice (Rect.unit (s := S25088x512) (k3_off5 L 448#32) S112x128.size (k3_off5_inb L 4)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v46_scv : Memref sig .scVector .hbm S25088x512 .f32).slice (Rect.unit (s := S25088x512) (k3_off5 L 560#32) S112x128.size (k3_off5_inb L 5)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v46_scv : Memref sig .scVector .hbm S25088x512 .f32).slice (Rect.unit (s := S25088x512) (k3_off5 L 672#32) S112x128.size (k3_off5_inb L 6)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(Transfers.MayWaits (V d (cV3 L) (jV3 L)) (none : HIx 4) O
        ∗ ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
        ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
        ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
        ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
        ∗ ((Memref.whole main_arg0_scv : Memref sig .scVector .hbm S100000x128 .f32).view.loc (V d (cV3 L) (jV3 L)) ↦{Transfers.shareTok qx 11 (4 : Fin 11)} fx0)
        ∗ ((Memref.whole main_arg0_scv : Memref sig .scVector .hbm S100000x128 .f32).view.loc (V d (cV3 L) (jV3 L)) ↦{Transfers.shareTok qx 11 (5 : Fin 11)} fx0)
        ∗ ((Memref.whole main_arg0_scv : Memref sig .scVector .hbm S100000x128 .f32).view.loc (V d (cV3 L) (jV3 L)) ↦{Transfers.shareTok qx 11 (6 : Fin 11)} fx0)
        ∗ ((Memref.whole main_arg0_scv : Memref sig .scVector .hbm S100000x128 .f32).view.loc (V d (cV3 L) (jV3 L)) ↦{Transfers.shareTok qx 11 (7 : Fin 11)} fx0)
        ∗ ((Memref.whole main_arg0_scv : Memref sig .scVector .hbm S100000x128 .f32).view.loc (V d (cV3 L) (jV3 L)) ↦{Transfers.shareTok qx 11 (8 : Fin 11)} fx0)
        ∗ ((Memref.whole main_arg0_scv : Memref sig .scVector .hbm S100000x128 .f32).view.loc (V d (cV3 L) (jV3 L)) ↦{Transfers.shareTok qx 11 (9 : Fin 11)} fx0)
        ∗ ((Memref.whole main_arg0_scv : Memref sig .scVector .hbm S100000x128 .f32).view.loc (V d (cV3 L) (jV3 L)) ↦{Transfers.shareTok qx 11 (10 : Fin 11)} fx0)
        ∗ ((Memref.whole main_arg1_scv : Memref sig .scVector .hbm S100000x128 .f32).view.loc (V d (cV3 L) (jV3 L)) ↦{Transfers.shareTok qx 11 (4 : Fin 11)} fx1)
        ∗ ((Memref.whole main_arg1_scv : Memref sig .scVector .hbm S100000x128 .f32).view.loc (V d (cV3 L) (jV3 L)) ↦{Transfers.shareTok qx 11 (5 : Fin 11)} fx1)
        ∗ ((Memref.whole main_arg1_scv : Memref sig .scVector .hbm S100000x128 .f32).view.loc (V d (cV3 L) (jV3 L)) ↦{Transfers.shareTok qx 11 (6 : Fin 11)} fx1)
        ∗ ((Memref.whole main_arg1_scv : Memref sig .scVector .hbm S100000x128 .f32).view.loc (V d (cV3 L) (jV3 L)) ↦{Transfers.shareTok qx 11 (7 : Fin 11)} fx1)
        ∗ ((Memref.whole main_arg1_scv : Memref sig .scVector .hbm S100000x128 .f32).view.loc (V d (cV3 L) (jV3 L)) ↦{Transfers.shareTok qx 11 (8 : Fin 11)} fx1)
        ∗ ((Memref.whole main_arg1_scv : Memref sig .scVector .hbm S100000x128 .f32).view.loc (V d (cV3 L) (jV3 L)) ↦{Transfers.shareTok qx 11 (9 : Fin 11)} fx1)
        ∗ ((Memref.whole main_arg1_scv : Memref sig .scVector .hbm S100000x128 .f32).view.loc (V d (cV3 L) (jV3 L)) ↦{Transfers.shareTok qx 11 (10 : Fin 11)} fx1)
        ∗ ((Memref.whole main_arg2_scv : Memref sig .scVector .hbm S100000x128 .f32).view.loc (V d (cV3 L) (jV3 L)) ↦{Transfers.shareTok qx 11 (4 : Fin 11)} fx2)
        ∗ ((Memref.whole main_arg2_scv : Memref sig .scVector .hbm S100000x128 .f32).view.loc (V d (cV3 L) (jV3 L)) ↦{Transfers.shareTok qx 11 (5 : Fin 11)} fx2)
        ∗ ((Memref.whole main_arg2_scv : Memref sig .scVector .hbm S100000x128 .f32).view.loc (V d (cV3 L) (jV3 L)) ↦{Transfers.shareTok qx 11 (6 : Fin 11)} fx2)
        ∗ ((Memref.whole main_arg2_scv : Memref sig .scVector .hbm S100000x128 .f32).view.loc (V d (cV3 L) (jV3 L)) ↦{Transfers.shareTok qx 11 (7 : Fin 11)} fx2)
        ∗ ((Memref.whole main_arg2_scv : Memref sig .scVector .hbm S100000x128 .f32).view.loc (V d (cV3 L) (jV3 L)) ↦{Transfers.shareTok qx 11 (8 : Fin 11)} fx2)
        ∗ ((Memref.whole main_arg2_scv : Memref sig .scVector .hbm S100000x128 .f32).view.loc (V d (cV3 L) (jV3 L)) ↦{Transfers.shareTok qx 11 (9 : Fin 11)} fx2)
        ∗ ((Memref.whole main_arg2_scv : Memref sig .scVector .hbm S100000x128 .f32).view.loc (V d (cV3 L) (jV3 L)) ↦{Transfers.shareTok qx 11 (10 : Fin 11)} fx2)
        ∗ ((Memref.whole main_arg3_scv : Memref sig .scVector .hbm S100000x128 .f32).view.loc (V d (cV3 L) (jV3 L)) ↦{Transfers.shareTok qx 11 (4 : Fin 11)} fx3)
        ∗ ((Memref.whole main_arg3_scv : Memref sig .scVector .hbm S100000x128 .f32).view.loc (V d (cV3 L) (jV3 L)) ↦{Transfers.shareTok qx 11 (5 : Fin 11)} fx3)
        ∗ ((Memref.whole main_arg3_scv : Memref sig .scVector .hbm S100000x128 .f32).view.loc (V d (cV3 L) (jV3 L)) ↦{Transfers.shareTok qx 11 (6 : Fin 11)} fx3)
        ∗ ((Memref.whole main_arg3_scv : Memref sig .scVector .hbm S100000x128 .f32).view.loc (V d (cV3 L) (jV3 L)) ↦{Transfers.shareTok qx 11 (7 : Fin 11)} fx3)
        ∗ ((Memref.whole main_arg3_scv : Memref sig .scVector .hbm S100000x128 .f32).view.loc (V d (cV3 L) (jV3 L)) ↦{Transfers.shareTok qx 11 (8 : Fin 11)} fx3)
        ∗ ((Memref.whole main_arg3_scv : Memref sig .scVector .hbm S100000x128 .f32).view.loc (V d (cV3 L) (jV3 L)) ↦{Transfers.shareTok qx 11 (9 : Fin 11)} fx3)
        ∗ ((Memref.whole main_arg3_scv : Memref sig .scVector .hbm S100000x128 .f32).view.loc (V d (cV3 L) (jV3 L)) ↦{Transfers.shareTok qx 11 (10 : Fin 11)} fx3)
        ∗ (∃ fo, ((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} fo)
        ∗ (∃ fo, ((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} fo)
        ∗ (∃ fo, ((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} fo)
        ∗ (∃ fo, ((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} fo)
        ∗ (∃ fo, ((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} fo)
        ∗ (∃ fo, ((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} fo)
        ∗ (∃ fo, ((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} fo)
        ∗ (∃ fo, ((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} fo)
        ∗ (∃ fo, ((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} fo)
        ∗ (∃ fo, ((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} fo)
        ∗ (∃ fo, ((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} fo)
        ∗ (∃ fo, ((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} fo)
        ∗ (∃ fo, ((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} fo)
        ∗ (∃ fo, ((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} fo)
        ∗ (∃ fo, ((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} fo)
        ∗ (∃ fo, ((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} fo)
        ∗ (∃ fo, ((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} fo)
        ∗ (∃ fo, ((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} fo)
        ∗ (∃ fo, ((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} fo)
        ∗ (∃ fo, ((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} fo)
        ∗ (∃ fo, ((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} fo)
        ∗ (∃ fo, ((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} fo)
        ∗ (∃ fo, ((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} fo)
        ∗ (∃ fo, ((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} fo)
        ∗ (∃ fo, ((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} fo)
        ∗ (∃ fo, ((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} fo)
        ∗ (∃ fo, ((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} fo)
        ∗ (∃ fo, ((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} fo)
        ∗ (∃ si, (Memref.whole cc3_scratch0 : Memref sig .scVector .vmem S7x112 .i32).view.loc (V d (cV3 L) (jV3 L)) ↦{fullShare} si)
        ∗ (∃ si, (Memref.whole cc3_scratch1 : Memref sig .scVector .vmem S7x112 .i32).view.loc (V d (cV3 L) (jV3 L)) ↦{fullShare} si)
        ∗ (∃ si, (Memref.whole cc3_scratch2 : Memref sig .scVector .vmem S7x112 .i32).view.loc (V d (cV3 L) (jV3 L)) ↦{fullShare} si)
        ∗ (∃ si, (Memref.whole cc3_scratch3 : Memref sig .scVector .vmem S7x112 .i32).view.loc (V d (cV3 L) (jV3 L)) ↦{fullShare} si)
        ∗ (∃ sb, (Memref.whole cc3_scratch4 : Memref sig .scVector .vmem S112x128 .f32).view.loc (V d (cV3 L) (jV3 L)) ↦{fullShare} sb)
        ∗ (∃ sb, (Memref.whole cc3_scratch5 : Memref sig .scVector .vmem S112x128 .f32).view.loc (V d (cV3 L) (jV3 L)) ↦{fullShare} sb)
        ∗ (∃ sb, (Memref.whole cc3_scratch6 : Memref sig .scVector .vmem S112x128 .f32).view.loc (V d (cV3 L) (jV3 L)) ↦{fullShare} sb)
        ∗ (∃ sb, (Memref.whole cc3_scratch7 : Memref sig .scVector .vmem S112x128 .f32).view.loc (V d (cV3 L) (jV3 L)) ↦{fullShare} sb)
        ∗ (∃ sb, (Memref.whole cc3_scratch8 : Memref sig .scVector .vmem S112x128 .f32).view.loc (V d (cV3 L) (jV3 L)) ↦{fullShare} sb)
        ∗ (∃ sb, (Memref.whole cc3_scratch9 : Memref sig .scVector .vmem S112x128 .f32).view.loc (V d (cV3 L) (jV3 L)) ↦{fullShare} sb)
        ∗ (∃ sb, (Memref.whole cc3_scratch10 : Memref sig .scVector .vmem S112x128 .f32).view.loc (V d (cV3 L) (jV3 L)) ↦{fullShare} sb)
        ∗ semVal ((V d (cV3 L) (jV3 L)), SemLoc.dma cc3_scratch11.sem) 0
        ∗ semVal ((V d (cV3 L) (jV3 L)), SemLoc.dma cc3_scratch12.sem) 0
        ∗ semVal ((V d (cV3 L) (jV3 L)), SemLoc.dma cc3_scratch13.sem) 0
        ∗ semVal ((V d (cV3 L) (jV3 L)), SemLoc.dma cc3_scratch14.sem) 0
        ∗ semVal ((V d (cV3 L) (jV3 L)), SemLoc.dma cc3_scratch15.sem) 0
        ∗ semVal ((V d (cV3 L) (jV3 L)), SemLoc.dma cc3_scratch16.sem) 0
        ∗ semVal ((V d (cV3 L) (jV3 L)), SemLoc.dma cc3_scratch17.sem) 0
        ∗ semVal ((V d (cV3 L) (jV3 L)), SemLoc.dma cc3_scratch18.sem) 0
        ∗ semVal ((V d (cV3 L) (jV3 L)), SemLoc.dma cc3_scratch19.sem) 0
        ∗ semVal ((V d (cV3 L) (jV3 L)), SemLoc.dma cc3_scratch20.sem) 0
        ∗ semVal ((V d (cV3 L) (jV3 L)), SemLoc.dma cc3_scratch21.sem) 0
        ∗ semVal ((V d (cV3 L) (jV3 L)), SemLoc.dma cc3_scratch22.sem) 0
        ∗ semVal ((V d (cV3 L) (jV3 L)), SemLoc.dma cc3_scratch23.sem) 0
        ∗ semVal ((V d (cV3 L) (jV3 L)), SemLoc.dma cc3_scratch24.sem) 0
        ∗ semVal ((V d (cV3 L) (jV3 L)), SemLoc.dma cc3_scratch25.sem) 0
        ∗ semVal ((V d (cV3 L) (jV3 L)), SemLoc.dma cc3_scratch26.sem) 0
        ∗ semVal ((V d (cV3 L) (jV3 L)), SemLoc.dma cc3_scratch27.sem) 0
        ∗ semVal ((V d (cV3 L) (jV3 L)), SemLoc.dma cc3_scratch28.sem) 0
        ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(
              ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi0)
            ∗ ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi1)
            ∗ ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi2)
            ∗ ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)) ↦[(((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.set]{fullShare} fi3)
            ∗ ((Memref.whole main_arg0_scv : Memref sig .scVector .hbm S100000x128 .f32).view.loc (V d (cV3 L) (jV3 L)) ↦{Transfers.shareTok qx 11 (4 : Fin 11)} fx0)
            ∗ ((Memref.whole main_arg0_scv : Memref sig .scVector .hbm S100000x128 .f32).view.loc (V d (cV3 L) (jV3 L)) ↦{Transfers.shareTok qx 11 (5 : Fin 11)} fx0)
            ∗ ((Memref.whole main_arg0_scv : Memref sig .scVector .hbm S100000x128 .f32).view.loc (V d (cV3 L) (jV3 L)) ↦{Transfers.shareTok qx 11 (6 : Fin 11)} fx0)
            ∗ ((Memref.whole main_arg0_scv : Memref sig .scVector .hbm S100000x128 .f32).view.loc (V d (cV3 L) (jV3 L)) ↦{Transfers.shareTok qx 11 (7 : Fin 11)} fx0)
            ∗ ((Memref.whole main_arg0_scv : Memref sig .scVector .hbm S100000x128 .f32).view.loc (V d (cV3 L) (jV3 L)) ↦{Transfers.shareTok qx 11 (8 : Fin 11)} fx0)
            ∗ ((Memref.whole main_arg0_scv : Memref sig .scVector .hbm S100000x128 .f32).view.loc (V d (cV3 L) (jV3 L)) ↦{Transfers.shareTok qx 11 (9 : Fin 11)} fx0)
            ∗ ((Memref.whole main_arg0_scv : Memref sig .scVector .hbm S100000x128 .f32).view.loc (V d (cV3 L) (jV3 L)) ↦{Transfers.shareTok qx 11 (10 : Fin 11)} fx0)
            ∗ ((Memref.whole main_arg1_scv : Memref sig .scVector .hbm S100000x128 .f32).view.loc (V d (cV3 L) (jV3 L)) ↦{Transfers.shareTok qx 11 (4 : Fin 11)} fx1)
            ∗ ((Memref.whole main_arg1_scv : Memref sig .scVector .hbm S100000x128 .f32).view.loc (V d (cV3 L) (jV3 L)) ↦{Transfers.shareTok qx 11 (5 : Fin 11)} fx1)
            ∗ ((Memref.whole main_arg1_scv : Memref sig .scVector .hbm S100000x128 .f32).view.loc (V d (cV3 L) (jV3 L)) ↦{Transfers.shareTok qx 11 (6 : Fin 11)} fx1)
            ∗ ((Memref.whole main_arg1_scv : Memref sig .scVector .hbm S100000x128 .f32).view.loc (V d (cV3 L) (jV3 L)) ↦{Transfers.shareTok qx 11 (7 : Fin 11)} fx1)
            ∗ ((Memref.whole main_arg1_scv : Memref sig .scVector .hbm S100000x128 .f32).view.loc (V d (cV3 L) (jV3 L)) ↦{Transfers.shareTok qx 11 (8 : Fin 11)} fx1)
            ∗ ((Memref.whole main_arg1_scv : Memref sig .scVector .hbm S100000x128 .f32).view.loc (V d (cV3 L) (jV3 L)) ↦{Transfers.shareTok qx 11 (9 : Fin 11)} fx1)
            ∗ ((Memref.whole main_arg1_scv : Memref sig .scVector .hbm S100000x128 .f32).view.loc (V d (cV3 L) (jV3 L)) ↦{Transfers.shareTok qx 11 (10 : Fin 11)} fx1)
            ∗ ((Memref.whole main_arg2_scv : Memref sig .scVector .hbm S100000x128 .f32).view.loc (V d (cV3 L) (jV3 L)) ↦{Transfers.shareTok qx 11 (4 : Fin 11)} fx2)
            ∗ ((Memref.whole main_arg2_scv : Memref sig .scVector .hbm S100000x128 .f32).view.loc (V d (cV3 L) (jV3 L)) ↦{Transfers.shareTok qx 11 (5 : Fin 11)} fx2)
            ∗ ((Memref.whole main_arg2_scv : Memref sig .scVector .hbm S100000x128 .f32).view.loc (V d (cV3 L) (jV3 L)) ↦{Transfers.shareTok qx 11 (6 : Fin 11)} fx2)
            ∗ ((Memref.whole main_arg2_scv : Memref sig .scVector .hbm S100000x128 .f32).view.loc (V d (cV3 L) (jV3 L)) ↦{Transfers.shareTok qx 11 (7 : Fin 11)} fx2)
            ∗ ((Memref.whole main_arg2_scv : Memref sig .scVector .hbm S100000x128 .f32).view.loc (V d (cV3 L) (jV3 L)) ↦{Transfers.shareTok qx 11 (8 : Fin 11)} fx2)
            ∗ ((Memref.whole main_arg2_scv : Memref sig .scVector .hbm S100000x128 .f32).view.loc (V d (cV3 L) (jV3 L)) ↦{Transfers.shareTok qx 11 (9 : Fin 11)} fx2)
            ∗ ((Memref.whole main_arg2_scv : Memref sig .scVector .hbm S100000x128 .f32).view.loc (V d (cV3 L) (jV3 L)) ↦{Transfers.shareTok qx 11 (10 : Fin 11)} fx2)
            ∗ ((Memref.whole main_arg3_scv : Memref sig .scVector .hbm S100000x128 .f32).view.loc (V d (cV3 L) (jV3 L)) ↦{Transfers.shareTok qx 11 (4 : Fin 11)} fx3)
            ∗ ((Memref.whole main_arg3_scv : Memref sig .scVector .hbm S100000x128 .f32).view.loc (V d (cV3 L) (jV3 L)) ↦{Transfers.shareTok qx 11 (5 : Fin 11)} fx3)
            ∗ ((Memref.whole main_arg3_scv : Memref sig .scVector .hbm S100000x128 .f32).view.loc (V d (cV3 L) (jV3 L)) ↦{Transfers.shareTok qx 11 (6 : Fin 11)} fx3)
            ∗ ((Memref.whole main_arg3_scv : Memref sig .scVector .hbm S100000x128 .f32).view.loc (V d (cV3 L) (jV3 L)) ↦{Transfers.shareTok qx 11 (7 : Fin 11)} fx3)
            ∗ ((Memref.whole main_arg3_scv : Memref sig .scVector .hbm S100000x128 .f32).view.loc (V d (cV3 L) (jV3 L)) ↦{Transfers.shareTok qx 11 (8 : Fin 11)} fx3)
            ∗ ((Memref.whole main_arg3_scv : Memref sig .scVector .hbm S100000x128 .f32).view.loc (V d (cV3 L) (jV3 L)) ↦{Transfers.shareTok qx 11 (9 : Fin 11)} fx3)
            ∗ ((Memref.whole main_arg3_scv : Memref sig .scVector .hbm S100000x128 .f32).view.loc (V d (cV3 L) (jV3 L)) ↦{Transfers.shareTok qx 11 (10 : Fin 11)} fx3)
            ∗ (((Memref.whole main_v46_scv : Memref sig .scVector .hbm S25088x512 .f32).slice (Rect.unit (s := S25088x512) (k3_off2 L 0#32) S112x128.size (k3_off2_inb L 0)) (fun _ => rfl)).view.loc (V d (cV3 L) (jV3 L)) ↦[((Memref.whole main_v46_scv : Memref sig .scVector .hbm S25088x512 .f32).slice (Rect.unit (s := S25088x512) (k3_off2 L 0#32) S112x128.size (k3_off2_inb L 0)) (fun _ => rfl)).view.set]{fullShare} G)
            ∗ (((Memref.whole main_v46_scv : Memref sig .scVector .hbm S25088x512 .f32).slice (Rect.unit (s := S25088x512) (k3_off2 L 112#32) S112x128.size (k3_off2_inb L 1)) (fun _ => rfl)).view.loc (V d (cV3 L) (jV3 L)) ↦[((Memref.whole main_v46_scv : Memref sig .scVector .hbm S25088x512 .f32).slice (Rect.unit (s := S25088x512) (k3_off2 L 112#32) S112x128.size (k3_off2_inb L 1)) (fun _ => rfl)).view.set]{fullShare} G)
            ∗ (((Memref.whole main_v46_scv : Memref sig .scVector .hbm S25088x512 .f32).slice (Rect.unit (s := S25088x512) (k3_off2 L 224#32) S112x128.size (k3_off2_inb L 2)) (fun _ => rfl)).view.loc (V d (cV3 L) (jV3 L)) ↦[((Memref.whole main_v46_scv : Memref sig .scVector .hbm S25088x512 .f32).slice (Rect.unit (s := S25088x512) (k3_off2 L 224#32) S112x128.size (k3_off2_inb L 2)) (fun _ => rfl)).view.set]{fullShare} G)
            ∗ (((Memref.whole main_v46_scv : Memref sig .scVector .hbm S25088x512 .f32).slice (Rect.unit (s := S25088x512) (k3_off2 L 336#32) S112x128.size (k3_off2_inb L 3)) (fun _ => rfl)).view.loc (V d (cV3 L) (jV3 L)) ↦[((Memref.whole main_v46_scv : Memref sig .scVector .hbm S25088x512 .f32).slice (Rect.unit (s := S25088x512) (k3_off2 L 336#32) S112x128.size (k3_off2_inb L 3)) (fun _ => rfl)).view.set]{fullShare} G)
            ∗ (((Memref.whole main_v46_scv : Memref sig .scVector .hbm S25088x512 .f32).slice (Rect.unit (s := S25088x512) (k3_off2 L 448#32) S112x128.size (k3_off2_inb L 4)) (fun _ => rfl)).view.loc (V d (cV3 L) (jV3 L)) ↦[((Memref.whole main_v46_scv : Memref sig .scVector .hbm S25088x512 .f32).slice (Rect.unit (s := S25088x512) (k3_off2 L 448#32) S112x128.size (k3_off2_inb L 4)) (fun _ => rfl)).view.set]{fullShare} G)
            ∗ (((Memref.whole main_v46_scv : Memref sig .scVector .hbm S25088x512 .f32).slice (Rect.unit (s := S25088x512) (k3_off2 L 560#32) S112x128.size (k3_off2_inb L 5)) (fun _ => rfl)).view.loc (V d (cV3 L) (jV3 L)) ↦[((Memref.whole main_v46_scv : Memref sig .scVector .hbm S25088x512 .f32).slice (Rect.unit (s := S25088x512) (k3_off2 L 560#32) S112x128.size (k3_off2_inb L 5)) (fun _ => rfl)).view.set]{fullShare} G)
            ∗ (((Memref.whole main_v46_scv : Memref sig .scVector .hbm S25088x512 .f32).slice (Rect.unit (s := S25088x512) (k3_off2 L 672#32) S112x128.size (k3_off2_inb L 6)) (fun _ => rfl)).view.loc (V d (cV3 L) (jV3 L)) ↦[((Memref.whole main_v46_scv : Memref sig .scVector .hbm S25088x512 .f32).slice (Rect.unit (s := S25088x512) (k3_off2 L 672#32) S112x128.size (k3_off2_inb L 6)) (fun _ => rfl)).view.set]{fullShare} G)
            ∗ (((Memref.whole main_v46_scv : Memref sig .scVector .hbm S25088x512 .f32).slice (Rect.unit (s := S25088x512) (k3_off3 L 0#32) S112x128.size (k3_off3_inb L 0)) (fun _ => rfl)).view.loc (V d (cV3 L) (jV3 L)) ↦[((Memref.whole main_v46_scv : Memref sig .scVector .hbm S25088x512 .f32).slice (Rect.unit (s := S25088x512) (k3_off3 L 0#32) S112x128.size (k3_off3_inb L 0)) (fun _ => rfl)).view.set]{fullShare} G)
            ∗ (((Memref.whole main_v46_scv : Memref sig .scVector .hbm S25088x512 .f32).slice (Rect.unit (s := S25088x512) (k3_off3 L 112#32) S112x128.size (k3_off3_inb L 1)) (fun _ => rfl)).view.loc (V d (cV3 L) (jV3 L)) ↦[((Memref.whole main_v46_scv : Memref sig .scVector .hbm S25088x512 .f32).slice (Rect.unit (s := S25088x512) (k3_off3 L 112#32) S112x128.size (k3_off3_inb L 1)) (fun _ => rfl)).view.set]{fullShare} G)
            ∗ (((Memref.whole main_v46_scv : Memref sig .scVector .hbm S25088x512 .f32).slice (Rect.unit (s := S25088x512) (k3_off3 L 224#32) S112x128.size (k3_off3_inb L 2)) (fun _ => rfl)).view.loc (V d (cV3 L) (jV3 L)) ↦[((Memref.whole main_v46_scv : Memref sig .scVector .hbm S25088x512 .f32).slice (Rect.unit (s := S25088x512) (k3_off3 L 224#32) S112x128.size (k3_off3_inb L 2)) (fun _ => rfl)).view.set]{fullShare} G)
            ∗ (((Memref.whole main_v46_scv : Memref sig .scVector .hbm S25088x512 .f32).slice (Rect.unit (s := S25088x512) (k3_off3 L 336#32) S112x128.size (k3_off3_inb L 3)) (fun _ => rfl)).view.loc (V d (cV3 L) (jV3 L)) ↦[((Memref.whole main_v46_scv : Memref sig .scVector .hbm S25088x512 .f32).slice (Rect.unit (s := S25088x512) (k3_off3 L 336#32) S112x128.size (k3_off3_inb L 3)) (fun _ => rfl)).view.set]{fullShare} G)
            ∗ (((Memref.whole main_v46_scv : Memref sig .scVector .hbm S25088x512 .f32).slice (Rect.unit (s := S25088x512) (k3_off3 L 448#32) S112x128.size (k3_off3_inb L 4)) (fun _ => rfl)).view.loc (V d (cV3 L) (jV3 L)) ↦[((Memref.whole main_v46_scv : Memref sig .scVector .hbm S25088x512 .f32).slice (Rect.unit (s := S25088x512) (k3_off3 L 448#32) S112x128.size (k3_off3_inb L 4)) (fun _ => rfl)).view.set]{fullShare} G)
            ∗ (((Memref.whole main_v46_scv : Memref sig .scVector .hbm S25088x512 .f32).slice (Rect.unit (s := S25088x512) (k3_off3 L 560#32) S112x128.size (k3_off3_inb L 5)) (fun _ => rfl)).view.loc (V d (cV3 L) (jV3 L)) ↦[((Memref.whole main_v46_scv : Memref sig .scVector .hbm S25088x512 .f32).slice (Rect.unit (s := S25088x512) (k3_off3 L 560#32) S112x128.size (k3_off3_inb L 5)) (fun _ => rfl)).view.set]{fullShare} G)
            ∗ (((Memref.whole main_v46_scv : Memref sig .scVector .hbm S25088x512 .f32).slice (Rect.unit (s := S25088x512) (k3_off3 L 672#32) S112x128.size (k3_off3_inb L 6)) (fun _ => rfl)).view.loc (V d (cV3 L) (jV3 L)) ↦[((Memref.whole main_v46_scv : Memref sig .scVector .hbm S25088x512 .f32).slice (Rect.unit (s := S25088x512) (k3_off3 L 672#32) S112x128.size (k3_off3_inb L 6)) (fun _ => rfl)).view.set]{fullShare} G)
            ∗ (((Memref.whole main_v46_scv : Memref sig .scVector .hbm S25088x512 .f32).slice (Rect.unit (s := S25088x512) (k3_off4 L 0#32) S112x128.size (k3_off4_inb L 0)) (fun _ => rfl)).view.loc (V d (cV3 L) (jV3 L)) ↦[((Memref.whole main_v46_scv : Memref sig .scVector .hbm S25088x512 .f32).slice (Rect.unit (s := S25088x512) (k3_off4 L 0#32) S112x128.size (k3_off4_inb L 0)) (fun _ => rfl)).view.set]{fullShare} G)
            ∗ (((Memref.whole main_v46_scv : Memref sig .scVector .hbm S25088x512 .f32).slice (Rect.unit (s := S25088x512) (k3_off4 L 112#32) S112x128.size (k3_off4_inb L 1)) (fun _ => rfl)).view.loc (V d (cV3 L) (jV3 L)) ↦[((Memref.whole main_v46_scv : Memref sig .scVector .hbm S25088x512 .f32).slice (Rect.unit (s := S25088x512) (k3_off4 L 112#32) S112x128.size (k3_off4_inb L 1)) (fun _ => rfl)).view.set]{fullShare} G)
            ∗ (((Memref.whole main_v46_scv : Memref sig .scVector .hbm S25088x512 .f32).slice (Rect.unit (s := S25088x512) (k3_off4 L 224#32) S112x128.size (k3_off4_inb L 2)) (fun _ => rfl)).view.loc (V d (cV3 L) (jV3 L)) ↦[((Memref.whole main_v46_scv : Memref sig .scVector .hbm S25088x512 .f32).slice (Rect.unit (s := S25088x512) (k3_off4 L 224#32) S112x128.size (k3_off4_inb L 2)) (fun _ => rfl)).view.set]{fullShare} G)
            ∗ (((Memref.whole main_v46_scv : Memref sig .scVector .hbm S25088x512 .f32).slice (Rect.unit (s := S25088x512) (k3_off4 L 336#32) S112x128.size (k3_off4_inb L 3)) (fun _ => rfl)).view.loc (V d (cV3 L) (jV3 L)) ↦[((Memref.whole main_v46_scv : Memref sig .scVector .hbm S25088x512 .f32).slice (Rect.unit (s := S25088x512) (k3_off4 L 336#32) S112x128.size (k3_off4_inb L 3)) (fun _ => rfl)).view.set]{fullShare} G)
            ∗ (((Memref.whole main_v46_scv : Memref sig .scVector .hbm S25088x512 .f32).slice (Rect.unit (s := S25088x512) (k3_off4 L 448#32) S112x128.size (k3_off4_inb L 4)) (fun _ => rfl)).view.loc (V d (cV3 L) (jV3 L)) ↦[((Memref.whole main_v46_scv : Memref sig .scVector .hbm S25088x512 .f32).slice (Rect.unit (s := S25088x512) (k3_off4 L 448#32) S112x128.size (k3_off4_inb L 4)) (fun _ => rfl)).view.set]{fullShare} G)
            ∗ (((Memref.whole main_v46_scv : Memref sig .scVector .hbm S25088x512 .f32).slice (Rect.unit (s := S25088x512) (k3_off4 L 560#32) S112x128.size (k3_off4_inb L 5)) (fun _ => rfl)).view.loc (V d (cV3 L) (jV3 L)) ↦[((Memref.whole main_v46_scv : Memref sig .scVector .hbm S25088x512 .f32).slice (Rect.unit (s := S25088x512) (k3_off4 L 560#32) S112x128.size (k3_off4_inb L 5)) (fun _ => rfl)).view.set]{fullShare} G)
            ∗ (((Memref.whole main_v46_scv : Memref sig .scVector .hbm S25088x512 .f32).slice (Rect.unit (s := S25088x512) (k3_off4 L 672#32) S112x128.size (k3_off4_inb L 6)) (fun _ => rfl)).view.loc (V d (cV3 L) (jV3 L)) ↦[((Memref.whole main_v46_scv : Memref sig .scVector .hbm S25088x512 .f32).slice (Rect.unit (s := S25088x512) (k3_off4 L 672#32) S112x128.size (k3_off4_inb L 6)) (fun _ => rfl)).view.set]{fullShare} G)
            ∗ (((Memref.whole main_v46_scv : Memref sig .scVector .hbm S25088x512 .f32).slice (Rect.unit (s := S25088x512) (k3_off5 L 0#32) S112x128.size (k3_off5_inb L 0)) (fun _ => rfl)).view.loc (V d (cV3 L) (jV3 L)) ↦[((Memref.whole main_v46_scv : Memref sig .scVector .hbm S25088x512 .f32).slice (Rect.unit (s := S25088x512) (k3_off5 L 0#32) S112x128.size (k3_off5_inb L 0)) (fun _ => rfl)).view.set]{fullShare} G)
            ∗ (((Memref.whole main_v46_scv : Memref sig .scVector .hbm S25088x512 .f32).slice (Rect.unit (s := S25088x512) (k3_off5 L 112#32) S112x128.size (k3_off5_inb L 1)) (fun _ => rfl)).view.loc (V d (cV3 L) (jV3 L)) ↦[((Memref.whole main_v46_scv : Memref sig .scVector .hbm S25088x512 .f32).slice (Rect.unit (s := S25088x512) (k3_off5 L 112#32) S112x128.size (k3_off5_inb L 1)) (fun _ => rfl)).view.set]{fullShare} G)
            ∗ (((Memref.whole main_v46_scv : Memref sig .scVector .hbm S25088x512 .f32).slice (Rect.unit (s := S25088x512) (k3_off5 L 224#32) S112x128.size (k3_off5_inb L 2)) (fun _ => rfl)).view.loc (V d (cV3 L) (jV3 L)) ↦[((Memref.whole main_v46_scv : Memref sig .scVector .hbm S25088x512 .f32).slice (Rect.unit (s := S25088x512) (k3_off5 L 224#32) S112x128.size (k3_off5_inb L 2)) (fun _ => rfl)).view.set]{fullShare} G)
            ∗ (((Memref.whole main_v46_scv : Memref sig .scVector .hbm S25088x512 .f32).slice (Rect.unit (s := S25088x512) (k3_off5 L 336#32) S112x128.size (k3_off5_inb L 3)) (fun _ => rfl)).view.loc (V d (cV3 L) (jV3 L)) ↦[((Memref.whole main_v46_scv : Memref sig .scVector .hbm S25088x512 .f32).slice (Rect.unit (s := S25088x512) (k3_off5 L 336#32) S112x128.size (k3_off5_inb L 3)) (fun _ => rfl)).view.set]{fullShare} G)
            ∗ (((Memref.whole main_v46_scv : Memref sig .scVector .hbm S25088x512 .f32).slice (Rect.unit (s := S25088x512) (k3_off5 L 448#32) S112x128.size (k3_off5_inb L 4)) (fun _ => rfl)).view.loc (V d (cV3 L) (jV3 L)) ↦[((Memref.whole main_v46_scv : Memref sig .scVector .hbm S25088x512 .f32).slice (Rect.unit (s := S25088x512) (k3_off5 L 448#32) S112x128.size (k3_off5_inb L 4)) (fun _ => rfl)).view.set]{fullShare} G)
            ∗ (((Memref.whole main_v46_scv : Memref sig .scVector .hbm S25088x512 .f32).slice (Rect.unit (s := S25088x512) (k3_off5 L 560#32) S112x128.size (k3_off5_inb L 5)) (fun _ => rfl)).view.loc (V d (cV3 L) (jV3 L)) ↦[((Memref.whole main_v46_scv : Memref sig .scVector .hbm S25088x512 .f32).slice (Rect.unit (s := S25088x512) (k3_off5 L 560#32) S112x128.size (k3_off5_inb L 5)) (fun _ => rfl)).view.set]{fullShare} G)
            ∗ (((Memref.whole main_v46_scv : Memref sig .scVector .hbm S25088x512 .f32).slice (Rect.unit (s := S25088x512) (k3_off5 L 672#32) S112x128.size (k3_off5_inb L 6)) (fun _ => rfl)).view.loc (V d (cV3 L) (jV3 L)) ↦[((Memref.whole main_v46_scv : Memref sig .scVector .hbm S25088x512 .f32).slice (Rect.unit (s := S25088x512) (k3_off5 L 672#32) S112x128.size (k3_off5_inb L 6)) (fun _ => rfl)).view.set]{fullShare} G)
            ∗ (∃ si, (Memref.whole cc3_scratch0 : Memref sig .scVector .vmem S7x112 .i32).view.loc (V d (cV3 L) (jV3 L)) ↦{fullShare} si)
            ∗ (∃ si, (Memref.whole cc3_scratch1 : Memref sig .scVector .vmem S7x112 .i32).view.loc (V d (cV3 L) (jV3 L)) ↦{fullShare} si)
            ∗ (∃ si, (Memref.whole cc3_scratch2 : Memref sig .scVector .vmem S7x112 .i32).view.loc (V d (cV3 L) (jV3 L)) ↦{fullShare} si)
            ∗ (∃ si, (Memref.whole cc3_scratch3 : Memref sig .scVector .vmem S7x112 .i32).view.loc (V d (cV3 L) (jV3 L)) ↦{fullShare} si)
            ∗ (∃ sb, (Memref.whole cc3_scratch4 : Memref sig .scVector .vmem S112x128 .f32).view.loc (V d (cV3 L) (jV3 L)) ↦{fullShare} sb)
            ∗ (∃ sb, (Memref.whole cc3_scratch5 : Memref sig .scVector .vmem S112x128 .f32).view.loc (V d (cV3 L) (jV3 L)) ↦{fullShare} sb)
            ∗ (∃ sb, (Memref.whole cc3_scratch6 : Memref sig .scVector .vmem S112x128 .f32).view.loc (V d (cV3 L) (jV3 L)) ↦{fullShare} sb)
            ∗ (∃ sb, (Memref.whole cc3_scratch7 : Memref sig .scVector .vmem S112x128 .f32).view.loc (V d (cV3 L) (jV3 L)) ↦{fullShare} sb)
            ∗ (∃ sb, (Memref.whole cc3_scratch8 : Memref sig .scVector .vmem S112x128 .f32).view.loc (V d (cV3 L) (jV3 L)) ↦{fullShare} sb)
            ∗ (∃ sb, (Memref.whole cc3_scratch9 : Memref sig .scVector .vmem S112x128 .f32).view.loc (V d (cV3 L) (jV3 L)) ↦{fullShare} sb)
            ∗ (∃ sb, (Memref.whole cc3_scratch10 : Memref sig .scVector .vmem S112x128 .f32).view.loc (V d (cV3 L) (jV3 L)) ↦{fullShare} sb)
            ∗ semVal ((V d (cV3 L) (jV3 L)), SemLoc.dma cc3_scratch11.sem) 0
            ∗ semVal ((V d (cV3 L) (jV3 L)), SemLoc.dma cc3_scratch12.sem) 0
            ∗ semVal ((V d (cV3 L) (jV3 L)), SemLoc.dma cc3_scratch13.sem) 0
            ∗ semVal ((V d (cV3 L) (jV3 L)), SemLoc.dma cc3_scratch14.sem) 0
            ∗ semVal ((V d (cV3 L) (jV3 L)), SemLoc.dma cc3_scratch15.sem) 0
            ∗ semVal ((V d (cV3 L) (jV3 L)), SemLoc.dma cc3_scratch16.sem) 0
            ∗ semVal ((V d (cV3 L) (jV3 L)), SemLoc.dma cc3_scratch17.sem) 0
            ∗ semVal ((V d (cV3 L) (jV3 L)), SemLoc.dma cc3_scratch18.sem) 0
            ∗ semVal ((V d (cV3 L) (jV3 L)), SemLoc.dma cc3_scratch19.sem) 0
            ∗ semVal ((V d (cV3 L) (jV3 L)), SemLoc.dma cc3_scratch20.sem) 0
            ∗ semVal ((V d (cV3 L) (jV3 L)), SemLoc.dma cc3_scratch21.sem) 0
            ∗ semVal ((V d (cV3 L) (jV3 L)), SemLoc.dma cc3_scratch22.sem) 0
            ∗ semVal ((V d (cV3 L) (jV3 L)), SemLoc.dma cc3_scratch23.sem) 0
            ∗ semVal ((V d (cV3 L) (jV3 L)), SemLoc.dma cc3_scratch24.sem) 0
            ∗ semVal ((V d (cV3 L) (jV3 L)), SemLoc.dma cc3_scratch25.sem) 0
            ∗ semVal ((V d (cV3 L) (jV3 L)), SemLoc.dma cc3_scratch26.sem) 0
            ∗ semVal ((V d (cV3 L) (jV3 L)), SemLoc.dma cc3_scratch27.sem) 0
            ∗ semVal ((V d (cV3 L) (jV3 L)), SemLoc.dma cc3_scratch28.sem) 0
            ∗ (∃ W', ⌜∀ p ∈ W', p ∈ W ∨ p.2 = none⌝ ∗ owes (V d (cV3 L) (jV3 L)) O W')) := by
  iintro ⟨Hmw, HI0, HI1, HI2, HI3, HX0_4, HX0_5, HX0_6, HX0_7, HX0_8, HX0_9, HX0_10, HX1_4, HX1_5, HX1_6, HX1_7, HX1_8, HX1_9, HX1_10, HX2_4, HX2_5, HX2_6, HX2_7, HX2_8, HX2_9, HX2_10, HX3_4, HX3_5, HX3_6, HX3_7, HX3_8, HX3_9, HX3_10, ⟨%fo0_0, HO0_0⟩, ⟨%fo0_1, HO0_1⟩, ⟨%fo0_2, HO0_2⟩, ⟨%fo0_3, HO0_3⟩, ⟨%fo0_4, HO0_4⟩, ⟨%fo0_5, HO0_5⟩, ⟨%fo0_6, HO0_6⟩, ⟨%fo1_0, HO1_0⟩, ⟨%fo1_1, HO1_1⟩, ⟨%fo1_2, HO1_2⟩, ⟨%fo1_3, HO1_3⟩, ⟨%fo1_4, HO1_4⟩, ⟨%fo1_5, HO1_5⟩, ⟨%fo1_6, HO1_6⟩, ⟨%fo2_0, HO2_0⟩, ⟨%fo2_1, HO2_1⟩, ⟨%fo2_2, HO2_2⟩, ⟨%fo2_3, HO2_3⟩, ⟨%fo2_4, HO2_4⟩, ⟨%fo2_5, HO2_5⟩, ⟨%fo2_6, HO2_6⟩, ⟨%fo3_0, HO3_0⟩, ⟨%fo3_1, HO3_1⟩, ⟨%fo3_2, HO3_2⟩, ⟨%fo3_3, HO3_3⟩, ⟨%fo3_4, HO3_4⟩, ⟨%fo3_5, HO3_5⟩, ⟨%fo3_6, HO3_6⟩, ⟨%si0, SI0⟩, ⟨%si1, SI1⟩, ⟨%si2, SI2⟩, ⟨%si3, SI3⟩, ⟨%sb0, SB0⟩, ⟨%sb1, SB1⟩, ⟨%sb2, SB2⟩, ⟨%sb3, SB3⟩, ⟨%sb4, SB4⟩, ⟨%sb5, SB5⟩, ⟨%sb6, SB6⟩, E11, E12, E13, E14, E15, E16, E17, E18, E19, E20, E21, E22, E23, E24, E25, E26, E27, E28, HO⟩
  rw [cc3_sc_kernel_eq_skeleton, cc3_sc_kernel_skel]
  -- the offset lists' words in range: each list is a row of an index scratch holding the words of the task's index row
  have hin0 := fun Wm off h si x => hin_row (F := F) d (cV3 L) (jV3 L) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0) hfi0 Wm off h si x
  have hin1 := fun Wm off h si x => hin_row (F := F) d (cV3 L) (jV3 L) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1) hfi1 Wm off h si x
  have hin2 := fun Wm off h si x => hin_row (F := F) d (cV3 L) (jV3 L) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2) hfi2 Wm off h si x
  have hin3 := fun Wm off h si x => hin_row (F := F) d (cV3 L) (jV3 L) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3) hfi3 Wm off h si x
  sl_exec_parts
  sl_step
  iframe
  isplitl [HO0_0]
  · istop
    exact Entails.of_eq (pointsTo_congr (piece_congr ((Memref.whole main_v46_scv : Memref sig .scVector .hbm S25088x512 .f32).slice (Rect.unit (s := S25088x512) (k3_off2 L 0#32) S112x128.size (k3_off2_inb L 0)) (fun _ => rfl)).view _ G (fun y => by
      rw [View.read_writes_whole]
      exact (pay_val d (cV3 L) (jV3 L) (Memref.whole main_arg0_scv : Memref sig .scVector .hbm S100000x128 .f32) fx0 _ hfi0 _ (0 : Fin 7) _ _ _ _ _ _ _ y).trans (hG0_0 y).symm)))
  isplitl [HO0_1]
  · istop
    exact Entails.of_eq (pointsTo_congr (piece_congr ((Memref.whole main_v46_scv : Memref sig .scVector .hbm S25088x512 .f32).slice (Rect.unit (s := S25088x512) (k3_off2 L 112#32) S112x128.size (k3_off2_inb L 1)) (fun _ => rfl)).view _ G (fun y => by
      rw [View.read_writes_whole]
      exact (pay_val d (cV3 L) (jV3 L) (Memref.whole main_arg0_scv : Memref sig .scVector .hbm S100000x128 .f32) fx0 _ hfi0 _ (1 : Fin 7) _ _ _ _ _ _ _ y).trans (hG0_1 y).symm)))
  isplitl [HO0_2]
  · istop
    exact Entails.of_eq (pointsTo_congr (piece_congr ((Memref.whole main_v46_scv : Memref sig .scVector .hbm S25088x512 .f32).slice (Rect.unit (s := S25088x512) (k3_off2 L 224#32) S112x128.size (k3_off2_inb L 2)) (fun _ => rfl)).view _ G (fun y => by
      rw [View.read_writes_whole]
      exact (pay_val d (cV3 L) (jV3 L) (Memref.whole main_arg0_scv : Memref sig .scVector .hbm S100000x128 .f32) fx0 _ hfi0 _ (2 : Fin 7) _ _ _ _ _ _ _ y).trans (hG0_2 y).symm)))
  isplitl [HO0_3]
  · istop
    exact Entails.of_eq (pointsTo_congr (piece_congr ((Memref.whole main_v46_scv : Memref sig .scVector .hbm S25088x512 .f32).slice (Rect.unit (s := S25088x512) (k3_off2 L 336#32) S112x128.size (k3_off2_inb L 3)) (fun _ => rfl)).view _ G (fun y => by
      rw [View.read_writes_whole]
      exact (pay_val d (cV3 L) (jV3 L) (Memref.whole main_arg0_scv : Memref sig .scVector .hbm S100000x128 .f32) fx0 _ hfi0 _ (3 : Fin 7) _ _ _ _ _ _ _ y).trans (hG0_3 y).symm)))
  isplitl [HO0_4]
  · istop
    exact Entails.of_eq (pointsTo_congr (piece_congr ((Memref.whole main_v46_scv : Memref sig .scVector .hbm S25088x512 .f32).slice (Rect.unit (s := S25088x512) (k3_off2 L 448#32) S112x128.size (k3_off2_inb L 4)) (fun _ => rfl)).view _ G (fun y => by
      rw [View.read_writes_whole]
      exact (pay_val d (cV3 L) (jV3 L) (Memref.whole main_arg0_scv : Memref sig .scVector .hbm S100000x128 .f32) fx0 _ hfi0 _ (4 : Fin 7) _ _ _ _ _ _ _ y).trans (hG0_4 y).symm)))
  isplitl [HO0_5]
  · istop
    exact Entails.of_eq (pointsTo_congr (piece_congr ((Memref.whole main_v46_scv : Memref sig .scVector .hbm S25088x512 .f32).slice (Rect.unit (s := S25088x512) (k3_off2 L 560#32) S112x128.size (k3_off2_inb L 5)) (fun _ => rfl)).view _ G (fun y => by
      rw [View.read_writes_whole]
      exact (pay_val d (cV3 L) (jV3 L) (Memref.whole main_arg0_scv : Memref sig .scVector .hbm S100000x128 .f32) fx0 _ hfi0 _ (5 : Fin 7) _ _ _ _ _ _ _ y).trans (hG0_5 y).symm)))
  isplitl [HO0_6]
  · istop
    exact Entails.of_eq (pointsTo_congr (piece_congr ((Memref.whole main_v46_scv : Memref sig .scVector .hbm S25088x512 .f32).slice (Rect.unit (s := S25088x512) (k3_off2 L 672#32) S112x128.size (k3_off2_inb L 6)) (fun _ => rfl)).view _ G (fun y => by
      rw [View.read_writes_whole]
      exact (pay_val d (cV3 L) (jV3 L) (Memref.whole main_arg0_scv : Memref sig .scVector .hbm S100000x128 .f32) fx0 _ hfi0 _ (6 : Fin 7) _ _ _ _ _ _ _ y).trans (hG0_6 y).symm)))
  isplitl [HO1_0]
  · istop
    exact Entails.of_eq (pointsTo_congr (piece_congr ((Memref.whole main_v46_scv : Memref sig .scVector .hbm S25088x512 .f32).slice (Rect.unit (s := S25088x512) (k3_off3 L 0#32) S112x128.size (k3_off3_inb L 0)) (fun _ => rfl)).view _ G (fun y => by
      rw [View.read_writes_whole]
      exact (pay_val d (cV3 L) (jV3 L) (Memref.whole main_arg1_scv : Memref sig .scVector .hbm S100000x128 .f32) fx1 _ hfi1 _ (0 : Fin 7) _ _ _ _ _ _ _ y).trans (hG1_0 y).symm)))
  isplitl [HO1_1]
  · istop
    exact Entails.of_eq (pointsTo_congr (piece_congr ((Memref.whole main_v46_scv : Memref sig .scVector .hbm S25088x512 .f32).slice (Rect.unit (s := S25088x512) (k3_off3 L 112#32) S112x128.size (k3_off3_inb L 1)) (fun _ => rfl)).view _ G (fun y => by
      rw [View.read_writes_whole]
      exact (pay_val d (cV3 L) (jV3 L) (Memref.whole main_arg1_scv : Memref sig .scVector .hbm S100000x128 .f32) fx1 _ hfi1 _ (1 : Fin 7) _ _ _ _ _ _ _ y).trans (hG1_1 y).symm)))
  isplitl [HO1_2]
  · istop
    exact Entails.of_eq (pointsTo_congr (piece_congr ((Memref.whole main_v46_scv : Memref sig .scVector .hbm S25088x512 .f32).slice (Rect.unit (s := S25088x512) (k3_off3 L 224#32) S112x128.size (k3_off3_inb L 2)) (fun _ => rfl)).view _ G (fun y => by
      rw [View.read_writes_whole]
      exact (pay_val d (cV3 L) (jV3 L) (Memref.whole main_arg1_scv : Memref sig .scVector .hbm S100000x128 .f32) fx1 _ hfi1 _ (2 : Fin 7) _ _ _ _ _ _ _ y).trans (hG1_2 y).symm)))
  isplitl [HO1_3]
  · istop
    exact Entails.of_eq (pointsTo_congr (piece_congr ((Memref.whole main_v46_scv : Memref sig .scVector .hbm S25088x512 .f32).slice (Rect.unit (s := S25088x512) (k3_off3 L 336#32) S112x128.size (k3_off3_inb L 3)) (fun _ => rfl)).view _ G (fun y => by
      rw [View.read_writes_whole]
      exact (pay_val d (cV3 L) (jV3 L) (Memref.whole main_arg1_scv : Memref sig .scVector .hbm S100000x128 .f32) fx1 _ hfi1 _ (3 : Fin 7) _ _ _ _ _ _ _ y).trans (hG1_3 y).symm)))
  isplitl [HO1_4]
  · istop
    exact Entails.of_eq (pointsTo_congr (piece_congr ((Memref.whole main_v46_scv : Memref sig .scVector .hbm S25088x512 .f32).slice (Rect.unit (s := S25088x512) (k3_off3 L 448#32) S112x128.size (k3_off3_inb L 4)) (fun _ => rfl)).view _ G (fun y => by
      rw [View.read_writes_whole]
      exact (pay_val d (cV3 L) (jV3 L) (Memref.whole main_arg1_scv : Memref sig .scVector .hbm S100000x128 .f32) fx1 _ hfi1 _ (4 : Fin 7) _ _ _ _ _ _ _ y).trans (hG1_4 y).symm)))
  isplitl [HO1_5]
  · istop
    exact Entails.of_eq (pointsTo_congr (piece_congr ((Memref.whole main_v46_scv : Memref sig .scVector .hbm S25088x512 .f32).slice (Rect.unit (s := S25088x512) (k3_off3 L 560#32) S112x128.size (k3_off3_inb L 5)) (fun _ => rfl)).view _ G (fun y => by
      rw [View.read_writes_whole]
      exact (pay_val d (cV3 L) (jV3 L) (Memref.whole main_arg1_scv : Memref sig .scVector .hbm S100000x128 .f32) fx1 _ hfi1 _ (5 : Fin 7) _ _ _ _ _ _ _ y).trans (hG1_5 y).symm)))
  isplitl [HO1_6]
  · istop
    exact Entails.of_eq (pointsTo_congr (piece_congr ((Memref.whole main_v46_scv : Memref sig .scVector .hbm S25088x512 .f32).slice (Rect.unit (s := S25088x512) (k3_off3 L 672#32) S112x128.size (k3_off3_inb L 6)) (fun _ => rfl)).view _ G (fun y => by
      rw [View.read_writes_whole]
      exact (pay_val d (cV3 L) (jV3 L) (Memref.whole main_arg1_scv : Memref sig .scVector .hbm S100000x128 .f32) fx1 _ hfi1 _ (6 : Fin 7) _ _ _ _ _ _ _ y).trans (hG1_6 y).symm)))
  isplitl [HO2_0]
  · istop
    exact Entails.of_eq (pointsTo_congr (piece_congr ((Memref.whole main_v46_scv : Memref sig .scVector .hbm S25088x512 .f32).slice (Rect.unit (s := S25088x512) (k3_off4 L 0#32) S112x128.size (k3_off4_inb L 0)) (fun _ => rfl)).view _ G (fun y => by
      rw [View.read_writes_whole]
      exact (pay_val d (cV3 L) (jV3 L) (Memref.whole main_arg2_scv : Memref sig .scVector .hbm S100000x128 .f32) fx2 _ hfi2 _ (0 : Fin 7) _ _ _ _ _ _ _ y).trans (hG2_0 y).symm)))
  isplitl [HO2_1]
  · istop
    exact Entails.of_eq (pointsTo_congr (piece_congr ((Memref.whole main_v46_scv : Memref sig .scVector .hbm S25088x512 .f32).slice (Rect.unit (s := S25088x512) (k3_off4 L 112#32) S112x128.size (k3_off4_inb L 1)) (fun _ => rfl)).view _ G (fun y => by
      rw [View.read_writes_whole]
      exact (pay_val d (cV3 L) (jV3 L) (Memref.whole main_arg2_scv : Memref sig .scVector .hbm S100000x128 .f32) fx2 _ hfi2 _ (1 : Fin 7) _ _ _ _ _ _ _ y).trans (hG2_1 y).symm)))
  isplitl [HO2_2]
  · istop
    exact Entails.of_eq (pointsTo_congr (piece_congr ((Memref.whole main_v46_scv : Memref sig .scVector .hbm S25088x512 .f32).slice (Rect.unit (s := S25088x512) (k3_off4 L 224#32) S112x128.size (k3_off4_inb L 2)) (fun _ => rfl)).view _ G (fun y => by
      rw [View.read_writes_whole]
      exact (pay_val d (cV3 L) (jV3 L) (Memref.whole main_arg2_scv : Memref sig .scVector .hbm S100000x128 .f32) fx2 _ hfi2 _ (2 : Fin 7) _ _ _ _ _ _ _ y).trans (hG2_2 y).symm)))
  isplitl [HO2_3]
  · istop
    exact Entails.of_eq (pointsTo_congr (piece_congr ((Memref.whole main_v46_scv : Memref sig .scVector .hbm S25088x512 .f32).slice (Rect.unit (s := S25088x512) (k3_off4 L 336#32) S112x128.size (k3_off4_inb L 3)) (fun _ => rfl)).view _ G (fun y => by
      rw [View.read_writes_whole]
      exact (pay_val d (cV3 L) (jV3 L) (Memref.whole main_arg2_scv : Memref sig .scVector .hbm S100000x128 .f32) fx2 _ hfi2 _ (3 : Fin 7) _ _ _ _ _ _ _ y).trans (hG2_3 y).symm)))
  isplitl [HO2_4]
  · istop
    exact Entails.of_eq (pointsTo_congr (piece_congr ((Memref.whole main_v46_scv : Memref sig .scVector .hbm S25088x512 .f32).slice (Rect.unit (s := S25088x512) (k3_off4 L 448#32) S112x128.size (k3_off4_inb L 4)) (fun _ => rfl)).view _ G (fun y => by
      rw [View.read_writes_whole]
      exact (pay_val d (cV3 L) (jV3 L) (Memref.whole main_arg2_scv : Memref sig .scVector .hbm S100000x128 .f32) fx2 _ hfi2 _ (4 : Fin 7) _ _ _ _ _ _ _ y).trans (hG2_4 y).symm)))
  isplitl [HO2_5]
  · istop
    exact Entails.of_eq (pointsTo_congr (piece_congr ((Memref.whole main_v46_scv : Memref sig .scVector .hbm S25088x512 .f32).slice (Rect.unit (s := S25088x512) (k3_off4 L 560#32) S112x128.size (k3_off4_inb L 5)) (fun _ => rfl)).view _ G (fun y => by
      rw [View.read_writes_whole]
      exact (pay_val d (cV3 L) (jV3 L) (Memref.whole main_arg2_scv : Memref sig .scVector .hbm S100000x128 .f32) fx2 _ hfi2 _ (5 : Fin 7) _ _ _ _ _ _ _ y).trans (hG2_5 y).symm)))
  isplitl [HO2_6]
  · istop
    exact Entails.of_eq (pointsTo_congr (piece_congr ((Memref.whole main_v46_scv : Memref sig .scVector .hbm S25088x512 .f32).slice (Rect.unit (s := S25088x512) (k3_off4 L 672#32) S112x128.size (k3_off4_inb L 6)) (fun _ => rfl)).view _ G (fun y => by
      rw [View.read_writes_whole]
      exact (pay_val d (cV3 L) (jV3 L) (Memref.whole main_arg2_scv : Memref sig .scVector .hbm S100000x128 .f32) fx2 _ hfi2 _ (6 : Fin 7) _ _ _ _ _ _ _ y).trans (hG2_6 y).symm)))
  isplitl [HO3_0]
  · istop
    exact Entails.of_eq (pointsTo_congr (piece_congr ((Memref.whole main_v46_scv : Memref sig .scVector .hbm S25088x512 .f32).slice (Rect.unit (s := S25088x512) (k3_off5 L 0#32) S112x128.size (k3_off5_inb L 0)) (fun _ => rfl)).view _ G (fun y => by
      rw [View.read_writes_whole]
      exact (pay_val d (cV3 L) (jV3 L) (Memref.whole main_arg3_scv : Memref sig .scVector .hbm S100000x128 .f32) fx3 _ hfi3 _ (0 : Fin 7) _ _ _ _ _ _ _ y).trans (hG3_0 y).symm)))
  isplitl [HO3_1]
  · istop
    exact Entails.of_eq (pointsTo_congr (piece_congr ((Memref.whole main_v46_scv : Memref sig .scVector .hbm S25088x512 .f32).slice (Rect.unit (s := S25088x512) (k3_off5 L 112#32) S112x128.size (k3_off5_inb L 1)) (fun _ => rfl)).view _ G (fun y => by
      rw [View.read_writes_whole]
      exact (pay_val d (cV3 L) (jV3 L) (Memref.whole main_arg3_scv : Memref sig .scVector .hbm S100000x128 .f32) fx3 _ hfi3 _ (1 : Fin 7) _ _ _ _ _ _ _ y).trans (hG3_1 y).symm)))
  isplitl [HO3_2]
  · istop
    exact Entails.of_eq (pointsTo_congr (piece_congr ((Memref.whole main_v46_scv : Memref sig .scVector .hbm S25088x512 .f32).slice (Rect.unit (s := S25088x512) (k3_off5 L 224#32) S112x128.size (k3_off5_inb L 2)) (fun _ => rfl)).view _ G (fun y => by
      rw [View.read_writes_whole]
      exact (pay_val d (cV3 L) (jV3 L) (Memref.whole main_arg3_scv : Memref sig .scVector .hbm S100000x128 .f32) fx3 _ hfi3 _ (2 : Fin 7) _ _ _ _ _ _ _ y).trans (hG3_2 y).symm)))
  isplitl [HO3_3]
  · istop
    exact Entails.of_eq (pointsTo_congr (piece_congr ((Memref.whole main_v46_scv : Memref sig .scVector .hbm S25088x512 .f32).slice (Rect.unit (s := S25088x512) (k3_off5 L 336#32) S112x128.size (k3_off5_inb L 3)) (fun _ => rfl)).view _ G (fun y => by
      rw [View.read_writes_whole]
      exact (pay_val d (cV3 L) (jV3 L) (Memref.whole main_arg3_scv : Memref sig .scVector .hbm S100000x128 .f32) fx3 _ hfi3 _ (3 : Fin 7) _ _ _ _ _ _ _ y).trans (hG3_3 y).symm)))
  isplitl [HO3_4]
  · istop
    exact Entails.of_eq (pointsTo_congr (piece_congr ((Memref.whole main_v46_scv : Memref sig .scVector .hbm S25088x512 .f32).slice (Rect.unit (s := S25088x512) (k3_off5 L 448#32) S112x128.size (k3_off5_inb L 4)) (fun _ => rfl)).view _ G (fun y => by
      rw [View.read_writes_whole]
      exact (pay_val d (cV3 L) (jV3 L) (Memref.whole main_arg3_scv : Memref sig .scVector .hbm S100000x128 .f32) fx3 _ hfi3 _ (4 : Fin 7) _ _ _ _ _ _ _ y).trans (hG3_4 y).symm)))
  isplitl [HO3_5]
  · istop
    exact Entails.of_eq (pointsTo_congr (piece_congr ((Memref.whole main_v46_scv : Memref sig .scVector .hbm S25088x512 .f32).slice (Rect.unit (s := S25088x512) (k3_off5 L 560#32) S112x128.size (k3_off5_inb L 5)) (fun _ => rfl)).view _ G (fun y => by
      rw [View.read_writes_whole]
      exact (pay_val d (cV3 L) (jV3 L) (Memref.whole main_arg3_scv : Memref sig .scVector .hbm S100000x128 .f32) fx3 _ hfi3 _ (5 : Fin 7) _ _ _ _ _ _ _ y).trans (hG3_5 y).symm)))
  isplitl [HO3_6]
  · istop
    exact Entails.of_eq (pointsTo_congr (piece_congr ((Memref.whole main_v46_scv : Memref sig .scVector .hbm S25088x512 .f32).slice (Rect.unit (s := S25088x512) (k3_off5 L 672#32) S112x128.size (k3_off5_inb L 6)) (fun _ => rfl)).view _ G (fun y => by
      rw [View.read_writes_whole]
      exact (pay_val d (cV3 L) (jV3 L) (Memref.whole main_arg3_scv : Memref sig .scVector .hbm S100000x128 .f32) fx3 _ hfi3 _ (6 : Fin 7) _ _ _ _ _ _ _ y).trans (hG3_6 y).symm)))
  isplitl [SI0]; · iexists _; iexact SI0
  isplitl [SI1]; · iexists _; iexact SI1
  isplitl [SI2]; · iexists _; iexact SI2
  isplitl [SI3]; · iexists _; iexact SI3
  isplitl [SB0]; · iexists _; iexact SB0
  isplitl [SB1]; · iexists _; iexact SB1
  isplitl [SB2]; · iexists _; iexact SB2
  isplitl [SB3]; · iexists _; iexact SB3
  isplitl [SB4]; · iexists _; iexact SB4
  isplitl [SB5]; · iexists _; iexact SB5
  isplitl [SB6]; · iexists _; iexact SB6
  isplitl [E11]; · iexact E11
  isplitl [E12]; · iexact E12
  isplitl [E13]; · iexact E13
  isplitl [E14]; · iexact E14
  isplitl [E15]; · iexact E15
  isplitl [E16]; · iexact E16
  isplitl [E17]; · iexact E17
  isplitl [E18]; · iexact E18
  isplitl [E19]; · iexact E19
  isplitl [E20]; · iexact E20
  isplitl [E21]; · iexact E21
  isplitl [E22]; · iexact E22
  isplitl [E23]; · iexact E23
  isplitl [E24]; · iexact E24
  isplitl [E25]; · iexact E25
  isplitl [E26]; · iexact E26
  isplitl [E27]; · iexact E27
  isplitl [E28]; · iexact E28
  iexists _; isplitr
  rotate_left
  · iexact HO
  · ipureintro; repeat (first | exact fun p hp => Or.inl hp | apply waits_insert)

end Cert.KernelIdeal.Sc

end
-- ==== Proof.ScValG3.lean ====
import proofs.«215994_g5102421148354_cont_8to1c4_853_29_alg».proof.Proof.ScValG
import proofs.«215994_g5102421148354_cont_8to1c4_853_29_alg».proof.Proof.ScDeal3

noncomputable section

namespace Cert.KernelIdeal.Sc

open Cert.KernelIdeal Cert.KernelIdeal.Gen
open Idealize.ShloMosaic Idealize.ShloMosaic.ValueIdx
open Idealize.ShloMosaic.SparseCore (S V T)

variable {F : FTy → Type} [FloatOps F] [Cert.KernelIdeal.Facts]

/-! ## The gathered slab at a task's blocks (gather call 3)

Entry `y` of the task's block `(r, t)` of the call's result is entry `(784 w + 112 r + y 0, 128 t + y 1)` of the slab, which
is table `t` at the row its index word `(w, r, y 0)` names, column `y 1`; and that word is what the task reads at `(r, y 0)`
of its own row of the index array. -/

section Reads3
variable (d : Dev nD) (L : grid3.Coords) (c : Fin τ.nSC) (i : Fin τ.nSub)

/-- The task's row of an index array read at `(r, p)` is the array at `(w, r, p)`, `w` the task's worker number. -/
theorem idxRow_read_main_v39 (fi : Buf (Elt F) ((Memref.whole main_v39_scv : Memref sig .scVector .hbm S32x7x112 .i32).view.loc (V d c i))) (r : Fin 7) (p : Fin 112) :
    (((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi (ix2 (n0 := 7) (n1 := 112) r p)
      = fi (ix3 (n0 := 32) (n1 := 7) (n2 := 112) (widL3 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  have hw : (widL3 L).val = 2 * (L 1).val + (L 0).val := rfl
  show (Rect.unit (s := S32x7x112) (k3_off1 L) S1x7x112.size (k3_off1_inb L)).off a
      + (Rect.unit (s := S32x7x112) (k3_off1 L) S1x7x112.size (k3_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k3_off1 L 0 + 1 * 0 = (widL3 L).val
    omega
  · show k3_off1 L 1 + 1 * r.val = r.val
    omega
  · show k3_off1 L 2 + 1 * p.val = p.val
    omega
/-- The task's row of an index array read at `(r, p)` is the array at `(w, r, p)`, `w` the task's worker number. -/
theorem idxRow_read_main_v41 (fi : Buf (Elt F) ((Memref.whole main_v41_scv : Memref sig .scVector .hbm S32x7x112 .i32).view.loc (V d c i))) (r : Fin 7) (p : Fin 112) :
    (((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi (ix2 (n0 := 7) (n1 := 112) r p)
      = fi (ix3 (n0 := 32) (n1 := 7) (n2 := 112) (widL3 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  have hw : (widL3 L).val = 2 * (L 1).val + (L 0).val := rfl
  show (Rect.unit (s := S32x7x112) (k3_off1 L) S1x7x112.size (k3_off1_inb L)).off a
      + (Rect.unit (s := S32x7x112) (k3_off1 L) S1x7x112.size (k3_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k3_off1 L 0 + 1 * 0 = (widL3 L).val
    omega
  · show k3_off1 L 1 + 1 * r.val = r.val
    omega
  · show k3_off1 L 2 + 1 * p.val = p.val
    omega
/-- The task's row of an index array read at `(r, p)` is the array at `(w, r, p)`, `w` the task's worker number. -/
theorem idxRow_read_main_v43 (fi : Buf (Elt F) ((Memref.whole main_v43_scv : Memref sig .scVector .hbm S32x7x112 .i32).view.loc (V d c i))) (r : Fin 7) (p : Fin 112) :
    (((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi (ix2 (n0 := 7) (n1 := 112) r p)
      = fi (ix3 (n0 := 32) (n1 := 7) (n2 := 112) (widL3 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  have hw : (widL3 L).val = 2 * (L 1).val + (L 0).val := rfl
  show (Rect.unit (s := S32x7x112) (k3_off1 L) S1x7x112.size (k3_off1_inb L)).off a
      + (Rect.unit (s := S32x7x112) (k3_off1 L) S1x7x112.size (k3_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k3_off1 L 0 + 1 * 0 = (widL3 L).val
    omega
  · show k3_off1 L 1 + 1 * r.val = r.val
    omega
  · show k3_off1 L 2 + 1 * p.val = p.val
    omega
/-- The task's row of an index array read at `(r, p)` is the array at `(w, r, p)`, `w` the task's worker number. -/
theorem idxRow_read_main_v45 (fi : Buf (Elt F) ((Memref.whole main_v45_scv : Memref sig .scVector .hbm S32x7x112 .i32).view.loc (V d c i))) (r : Fin 7) (p : Fin 112) :
    (((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi (ix2 (n0 := 7) (n1 := 112) r p)
      = fi (ix3 (n0 := 32) (n1 := 7) (n2 := 112) (widL3 L) r p) := by
  rw [View.read_apply]
  simp only [Memref.view_squeeze, Memref.view_slice, View.emb_reshape, View.emb_slice, Function.Embedding.trans_apply]
  simp only [cast_eq]
  congr 1
  funext a
  apply Fin.ext
  have hx : (Shape.reshapeEquiv (squeezes_S1x7x112_S7x112.numel_eq) (ix2 (n0 := 7) (n1 := 112) r p))
      = Fin.cons ⟨0, Nat.one_pos⟩ (ix2 (n0 := 7) (n1 := 112) r p) := Shape.reshapeEquiv_cons_one _ _
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  have hw : (widL3 L).val = 2 * (L 1).val + (L 0).val := rfl
  show (Rect.unit (s := S32x7x112) (k3_off1 L) S1x7x112.size (k3_off1_inb L)).off a
      + (Rect.unit (s := S32x7x112) (k3_off1 L) S1x7x112.size (k3_off1_inb L)).stride a
        * ((Shape.reshapeEquiv (squeezes_S1x7x112_S7x112.numel_eq) (ix2 (n0 := 7) (n1 := 112) r p)) a : Nat) = _
  rw [hx, Rect.off_unit, Rect.stride_unit]
  fin_cases a
  · show k3_off1 L 0 + 1 * 0 = (widL3 L).val
    omega
  · show k3_off1 L 1 + 1 * r.val = r.val
    omega
  · show k3_off1 L 2 + 1 * p.val = p.val
    omega

/-- Where entry `y` of the task's block `r` of column block 0 sits in the result. -/
theorem piece3_2_emb (r : Fin 7) (y : S112x128.Idx) :
    ((((Memref.whole main_v46_scv : Memref sig .scVector .hbm S25088x512 .f32).slice (Rect.unit (s := S25088x512) (k3_off2 L (BitVec.ofNat 32 (112 * r.val))) S112x128.size (k3_off2_inb L r)) (fun _ => rfl)).view.emb y) 0).val = 784 * (widL3 L).val + 112 * r.val + (y 0).val
      ∧ ((((Memref.whole main_v46_scv : Memref sig .scVector .hbm S25088x512 .f32).slice (Rect.unit (s := S25088x512) (k3_off2 L (BitVec.ofNat 32 (112 * r.val))) S112x128.size (k3_off2_inb L r)) (fun _ => rfl)).view.emb y) 1).val = (y 1).val := by
  simp only [Memref.view_slice, View.emb_slice, Function.Embedding.trans_apply]
  refine ⟨?_, ?_⟩
  · show ((Rect.unit (s := S25088x512) (k3_off2 L (BitVec.ofNat 32 (112 * r.val))) S112x128.size (k3_off2_inb L r)).emb y 0 : Nat) = _
    rw [Rect.emb_apply, Rect.off_unit, Rect.stride_unit]
    have e0 : k3_off2 L (BitVec.ofNat 32 (112 * r.val)) 0 = 1568 * (L 1).val + 784 * (L 0).val + 112 * r.val := congrFun (k3_off2_eq L r) 0
    have hw : (widL3 L).val = 2 * (L 1).val + (L 0).val := rfl
    omega
  · show ((Rect.unit (s := S25088x512) (k3_off2 L (BitVec.ofNat 32 (112 * r.val))) S112x128.size (k3_off2_inb L r)).emb y 1 : Nat) = _
    rw [Rect.emb_apply, Rect.off_unit, Rect.stride_unit]
    have e1 : k3_off2 L (BitVec.ofNat 32 (112 * r.val)) 1 = 0 := congrFun (k3_off2_eq L r) 1
    omega
/-- Where entry `y` of the task's block `r` of column block 1 sits in the result. -/
theorem piece3_3_emb (r : Fin 7) (y : S112x128.Idx) :
    ((((Memref.whole main_v46_scv : Memref sig .scVector .hbm S25088x512 .f32).slice (Rect.unit (s := S25088x512) (k3_off3 L (BitVec.ofNat 32 (112 * r.val))) S112x128.size (k3_off3_inb L r)) (fun _ => rfl)).view.emb y) 0).val = 784 * (widL3 L).val + 112 * r.val + (y 0).val
      ∧ ((((Memref.whole main_v46_scv : Memref sig .scVector .hbm S25088x512 .f32).slice (Rect.unit (s := S25088x512) (k3_off3 L (BitVec.ofNat 32 (112 * r.val))) S112x128.size (k3_off3_inb L r)) (fun _ => rfl)).view.emb y) 1).val = 128 + (y 1).val := by
  simp only [Memref.view_slice, View.emb_slice, Function.Embedding.trans_apply]
  refine ⟨?_, ?_⟩
  · show ((Rect.unit (s := S25088x512) (k3_off3 L (BitVec.ofNat 32 (112 * r.val))) S112x128.size (k3_off3_inb L r)).emb y 0 : Nat) = _
    rw [Rect.emb_apply, Rect.off_unit, Rect.stride_unit]
    have e0 : k3_off3 L (BitVec.ofNat 32 (112 * r.val)) 0 = 1568 * (L 1).val + 784 * (L 0).val + 112 * r.val := congrFun (k3_off3_eq L r) 0
    have hw : (widL3 L).val = 2 * (L 1).val + (L 0).val := rfl
    omega
  · show ((Rect.unit (s := S25088x512) (k3_off3 L (BitVec.ofNat 32 (112 * r.val))) S112x128.size (k3_off3_inb L r)).emb y 1 : Nat) = _
    rw [Rect.emb_apply, Rect.off_unit, Rect.stride_unit]
    have e1 : k3_off3 L (BitVec.ofNat 32 (112 * r.val)) 1 = 128 := congrFun (k3_off3_eq L r) 1
    omega
/-- Where entry `y` of the task's block `r` of column block 2 sits in the result. -/
theorem piece3_4_emb (r : Fin 7) (y : S112x128.Idx) :
    ((((Memref.whole main_v46_scv : Memref sig .scVector .hbm S25088x512 .f32).slice (Rect.unit (s := S25088x512) (k3_off4 L (BitVec.ofNat 32 (112 * r.val))) S112x128.size (k3_off4_inb L r)) (fun _ => rfl)).view.emb y) 0).val = 784 * (widL3 L).val + 112 * r.val + (y 0).val
      ∧ ((((Memref.whole main_v46_scv : Memref sig .scVector .hbm S25088x512 .f32).slice (Rect.unit (s := S25088x512) (k3_off4 L (BitVec.ofNat 32 (112 * r.val))) S112x128.size (k3_off4_inb L r)) (fun _ => rfl)).view.emb y) 1).val = 256 + (y 1).val := by
  simp only [Memref.view_slice, View.emb_slice, Function.Embedding.trans_apply]
  refine ⟨?_, ?_⟩
  · show ((Rect.unit (s := S25088x512) (k3_off4 L (BitVec.ofNat 32 (112 * r.val))) S112x128.size (k3_off4_inb L r)).emb y 0 : Nat) = _
    rw [Rect.emb_apply, Rect.off_unit, Rect.stride_unit]
    have e0 : k3_off4 L (BitVec.ofNat 32 (112 * r.val)) 0 = 1568 * (L 1).val + 784 * (L 0).val + 112 * r.val := congrFun (k3_off4_eq L r) 0
    have hw : (widL3 L).val = 2 * (L 1).val + (L 0).val := rfl
    omega
  · show ((Rect.unit (s := S25088x512) (k3_off4 L (BitVec.ofNat 32 (112 * r.val))) S112x128.size (k3_off4_inb L r)).emb y 1 : Nat) = _
    rw [Rect.emb_apply, Rect.off_unit, Rect.stride_unit]
    have e1 : k3_off4 L (BitVec.ofNat 32 (112 * r.val)) 1 = 256 := congrFun (k3_off4_eq L r) 1
    omega
/-- Where entry `y` of the task's block `r` of column block 3 sits in the result. -/
theorem piece3_5_emb (r : Fin 7) (y : S112x128.Idx) :
    ((((Memref.whole main_v46_scv : Memref sig .scVector .hbm S25088x512 .f32).slice (Rect.unit (s := S25088x512) (k3_off5 L (BitVec.ofNat 32 (112 * r.val))) S112x128.size (k3_off5_inb L r)) (fun _ => rfl)).view.emb y) 0).val = 784 * (widL3 L).val + 112 * r.val + (y 0).val
      ∧ ((((Memref.whole main_v46_scv : Memref sig .scVector .hbm S25088x512 .f32).slice (Rect.unit (s := S25088x512) (k3_off5 L (BitVec.ofNat 32 (112 * r.val))) S112x128.size (k3_off5_inb L r)) (fun _ => rfl)).view.emb y) 1).val = 384 + (y 1).val := by
  simp only [Memref.view_slice, View.emb_slice, Function.Embedding.trans_apply]
  refine ⟨?_, ?_⟩
  · show ((Rect.unit (s := S25088x512) (k3_off5 L (BitVec.ofNat 32 (112 * r.val))) S112x128.size (k3_off5_inb L r)).emb y 0 : Nat) = _
    rw [Rect.emb_apply, Rect.off_unit, Rect.stride_unit]
    have e0 : k3_off5 L (BitVec.ofNat 32 (112 * r.val)) 0 = 1568 * (L 1).val + 784 * (L 0).val + 112 * r.val := congrFun (k3_off5_eq L r) 0
    have hw : (widL3 L).val = 2 * (L 1).val + (L 0).val := rfl
    omega
  · show ((Rect.unit (s := S25088x512) (k3_off5 L (BitVec.ofNat 32 (112 * r.val))) S112x128.size (k3_off5_inb L r)).emb y 1 : Nat) = _
    rw [Rect.emb_apply, Rect.off_unit, Rect.stride_unit]
    have e1 : k3_off5 L (BitVec.ofNat 32 (112 * r.val)) 1 = 384 := congrFun (k3_off5_eq L r) 1
    omega

/-- THE SLAB AT A TASK'S BLOCK of column block 0: table 0 at the row the task's own index word names. -/
theorem slabG_piece3_0 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v39_scv : Memref sig .scVector .hbm S32x7x112 .i32).view.loc (V d c i))) (fi1 : Buf (Elt F) ((Memref.whole main_v41_scv : Memref sig .scVector .hbm S32x7x112 .i32).view.loc (V d c i))) (fi2 : Buf (Elt F) ((Memref.whole main_v43_scv : Memref sig .scVector .hbm S32x7x112 .i32).view.loc (V d c i))) (fi3 : Buf (Elt F) ((Memref.whole main_v45_scv : Memref sig .scVector .hbm S32x7x112 .i32).view.loc (V d c i)))
    (hfi : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000) (r : Fin 7) (y : S112x128.Idx) :
    slabG fx0 fx1 fx2 fx3 fi0 fi1 fi2 fi3 (((Memref.whole main_v46_scv : Memref sig .scVector .hbm S25088x512 .f32).slice (Rect.unit (s := S25088x512) (k3_off2 L (BitVec.ofNat 32 (112 * r.val))) S112x128.size (k3_off2_inb L r)) (fun _ => rfl)).view.emb y)
      = (Memref.whole main_arg0_scv : Memref sig .scVector .hbm S100000x128 .f32).view.read (Elt F) fx0 (ix2 (n0 := 100000) (n1 := 128)
          ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) r (y 0))).toNat, hfi _⟩ (y 1)) := by
  have e := idxRow_read_main_v39 d L c i fi0 r (y 0)
  have hlt : (fi0 (ix3 (n0 := 32) (n1 := 7) (n2 := 112) (widL3 L) r (y 0))).toNat < 100000 := e ▸ hfi (ix2 (n0 := 7) (n1 := 112) r (y 0))
  obtain ⟨h0, h1⟩ := piece3_2_emb L r y
  refine (slabG_at0 fx0 fx1 fx2 fx3 fi0 fi1 fi2 fi3 _ (widL3 L) r (y 0) (y 1) h0 h1).trans ?_
  refine (rowAt_lt fx0 _ hlt (y 1)).trans ?_
  exact congrArg (fun v : Fin 100000 => fx0 (ix2 (n0 := 100000) (n1 := 128) v (y 1))) (Fin.ext (congrArg BitVec.toNat e.symm))
/-- THE SLAB AT A TASK'S BLOCK of column block 1: table 1 at the row the task's own index word names. -/
theorem slabG_piece3_1 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v39_scv : Memref sig .scVector .hbm S32x7x112 .i32).view.loc (V d c i))) (fi1 : Buf (Elt F) ((Memref.whole main_v41_scv : Memref sig .scVector .hbm S32x7x112 .i32).view.loc (V d c i))) (fi2 : Buf (Elt F) ((Memref.whole main_v43_scv : Memref sig .scVector .hbm S32x7x112 .i32).view.loc (V d c i))) (fi3 : Buf (Elt F) ((Memref.whole main_v45_scv : Memref sig .scVector .hbm S32x7x112 .i32).view.loc (V d c i)))
    (hfi : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000) (r : Fin 7) (y : S112x128.Idx) :
    slabG fx0 fx1 fx2 fx3 fi0 fi1 fi2 fi3 (((Memref.whole main_v46_scv : Memref sig .scVector .hbm S25088x512 .f32).slice (Rect.unit (s := S25088x512) (k3_off3 L (BitVec.ofNat 32 (112 * r.val))) S112x128.size (k3_off3_inb L r)) (fun _ => rfl)).view.emb y)
      = (Memref.whole main_arg1_scv : Memref sig .scVector .hbm S100000x128 .f32).view.read (Elt F) fx1 (ix2 (n0 := 100000) (n1 := 128)
          ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) r (y 0))).toNat, hfi _⟩ (y 1)) := by
  have e := idxRow_read_main_v41 d L c i fi1 r (y 0)
  have hlt : (fi1 (ix3 (n0 := 32) (n1 := 7) (n2 := 112) (widL3 L) r (y 0))).toNat < 100000 := e ▸ hfi (ix2 (n0 := 7) (n1 := 112) r (y 0))
  obtain ⟨h0, h1⟩ := piece3_3_emb L r y
  refine (slabG_at1 fx0 fx1 fx2 fx3 fi0 fi1 fi2 fi3 _ (widL3 L) r (y 0) (y 1) h0 h1).trans ?_
  refine (rowAt_lt fx1 _ hlt (y 1)).trans ?_
  exact congrArg (fun v : Fin 100000 => fx1 (ix2 (n0 := 100000) (n1 := 128) v (y 1))) (Fin.ext (congrArg BitVec.toNat e.symm))
/-- THE SLAB AT A TASK'S BLOCK of column block 2: table 2 at the row the task's own index word names. -/
theorem slabG_piece3_2 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v39_scv : Memref sig .scVector .hbm S32x7x112 .i32).view.loc (V d c i))) (fi1 : Buf (Elt F) ((Memref.whole main_v41_scv : Memref sig .scVector .hbm S32x7x112 .i32).view.loc (V d c i))) (fi2 : Buf (Elt F) ((Memref.whole main_v43_scv : Memref sig .scVector .hbm S32x7x112 .i32).view.loc (V d c i))) (fi3 : Buf (Elt F) ((Memref.whole main_v45_scv : Memref sig .scVector .hbm S32x7x112 .i32).view.loc (V d c i)))
    (hfi : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000) (r : Fin 7) (y : S112x128.Idx) :
    slabG fx0 fx1 fx2 fx3 fi0 fi1 fi2 fi3 (((Memref.whole main_v46_scv : Memref sig .scVector .hbm S25088x512 .f32).slice (Rect.unit (s := S25088x512) (k3_off4 L (BitVec.ofNat 32 (112 * r.val))) S112x128.size (k3_off4_inb L r)) (fun _ => rfl)).view.emb y)
      = (Memref.whole main_arg2_scv : Memref sig .scVector .hbm S100000x128 .f32).view.read (Elt F) fx2 (ix2 (n0 := 100000) (n1 := 128)
          ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) r (y 0))).toNat, hfi _⟩ (y 1)) := by
  have e := idxRow_read_main_v43 d L c i fi2 r (y 0)
  have hlt : (fi2 (ix3 (n0 := 32) (n1 := 7) (n2 := 112) (widL3 L) r (y 0))).toNat < 100000 := e ▸ hfi (ix2 (n0 := 7) (n1 := 112) r (y 0))
  obtain ⟨h0, h1⟩ := piece3_4_emb L r y
  refine (slabG_at2 fx0 fx1 fx2 fx3 fi0 fi1 fi2 fi3 _ (widL3 L) r (y 0) (y 1) h0 h1).trans ?_
  refine (rowAt_lt fx2 _ hlt (y 1)).trans ?_
  exact congrArg (fun v : Fin 100000 => fx2 (ix2 (n0 := 100000) (n1 := 128) v (y 1))) (Fin.ext (congrArg BitVec.toNat e.symm))
/-- THE SLAB AT A TASK'S BLOCK of column block 3: table 3 at the row the task's own index word names. -/
theorem slabG_piece3_3 (fx0 : Buf (Elt F) ((Memref.whole main_arg0_scv : Memref sig .scVector .hbm S100000x128 .f32).view.loc (V d c i))) (fx1 : Buf (Elt F) ((Memref.whole main_arg1_scv : Memref sig .scVector .hbm S100000x128 .f32).view.loc (V d c i))) (fx2 : Buf (Elt F) ((Memref.whole main_arg2_scv : Memref sig .scVector .hbm S100000x128 .f32).view.loc (V d c i))) (fx3 : Buf (Elt F) ((Memref.whole main_arg3_scv : Memref sig .scVector .hbm S100000x128 .f32).view.loc (V d c i)))
    (fi0 : Buf (Elt F) ((Memref.whole main_v39_scv : Memref sig .scVector .hbm S32x7x112 .i32).view.loc (V d c i))) (fi1 : Buf (Elt F) ((Memref.whole main_v41_scv : Memref sig .scVector .hbm S32x7x112 .i32).view.loc (V d c i))) (fi2 : Buf (Elt F) ((Memref.whole main_v43_scv : Memref sig .scVector .hbm S32x7x112 .i32).view.loc (V d c i))) (fi3 : Buf (Elt F) ((Memref.whole main_v45_scv : Memref sig .scVector .hbm S32x7x112 .i32).view.loc (V d c i)))
    (hfi : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000) (r : Fin 7) (y : S112x128.Idx) :
    slabG fx0 fx1 fx2 fx3 fi0 fi1 fi2 fi3 (((Memref.whole main_v46_scv : Memref sig .scVector .hbm S25088x512 .f32).slice (Rect.unit (s := S25088x512) (k3_off5 L (BitVec.ofNat 32 (112 * r.val))) S112x128.size (k3_off5_inb L r)) (fun _ => rfl)).view.emb y)
      = (Memref.whole main_arg3_scv : Memref sig .scVector .hbm S100000x128 .f32).view.read (Elt F) fx3 (ix2 (n0 := 100000) (n1 := 128)
          ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) r (y 0))).toNat, hfi _⟩ (y 1)) := by
  have e := idxRow_read_main_v45 d L c i fi3 r (y 0)
  have hlt : (fi3 (ix3 (n0 := 32) (n1 := 7) (n2 := 112) (widL3 L) r (y 0))).toNat < 100000 := e ▸ hfi (ix2 (n0 := 7) (n1 := 112) r (y 0))
  obtain ⟨h0, h1⟩ := piece3_5_emb L r y
  refine (slabG_at3 fx0 fx1 fx2 fx3 fi0 fi1 fi2 fi3 _ (widL3 L) r (y 0) (y 1) h0 h1).trans ?_
  refine (rowAt_lt fx3 _ hlt (y 1)).trans ?_
  exact congrArg (fun v : Fin 100000 => fx3 (ix2 (n0 := 100000) (n1 := 128) v (y 1))) (Fin.ext (congrArg BitVec.toNat e.symm))

end Reads3

end Cert.KernelIdeal.Sc

end
-- ==== Proof.ScOblG3.lean ====
/-
  The launch theorem's obligation for the tasks of gather call 3.  A task is handed its payload and its subcore's whole scoped
  storage; of the storage the kernel names four index scratches, seven row buffers and eighteen semaphores, and of each
  table's eleven read tokens its seven gathers use the last seven.  What it does not name comes back untouched.
-/
import proofs.«215994_g5102421148354_cont_8to1c4_853_29_alg».proof.Proof.ScTileV3
import proofs.«215994_g5102421148354_cont_8to1c4_853_29_alg».proof.Proof.ScPayG
import proofs.«215994_g5102421148354_cont_8to1c4_853_29_alg».proof.Proof.ScValG3
import proofs.«215994_g5102421148354_cont_8to1c4_853_29_alg».proof.Proof.ScScoped

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.KernelIdeal.Facts]

local notation "𝕄" => MT nD τ sig (HIx 4) (Elt F) ℕ UU ℕ

/-- The eighteen semaphores and the eleven scratch buffers the kernel of call 3 names. -/
abbrev semLG3 : List (SemLoc sig) := [SemLoc.dma cc3_scratch11.sem, SemLoc.dma cc3_scratch12.sem, SemLoc.dma cc3_scratch13.sem, SemLoc.dma cc3_scratch14.sem, SemLoc.dma cc3_scratch15.sem, SemLoc.dma cc3_scratch16.sem, SemLoc.dma cc3_scratch17.sem, SemLoc.dma cc3_scratch18.sem, SemLoc.dma cc3_scratch19.sem, SemLoc.dma cc3_scratch20.sem, SemLoc.dma cc3_scratch21.sem, SemLoc.dma cc3_scratch22.sem, SemLoc.dma cc3_scratch23.sem, SemLoc.dma cc3_scratch24.sem, SemLoc.dma cc3_scratch25.sem, SemLoc.dma cc3_scratch26.sem, SemLoc.dma cc3_scratch27.sem, SemLoc.dma cc3_scratch28.sem]
abbrev bufLG3 (c : Fin τ.nSC) (i : Fin τ.nSub) : List (DevRef τ sig) := ([cc3_scratch0, cc3_scratch1, cc3_scratch2, cc3_scratch3, cc3_scratch4, cc3_scratch5, cc3_scratch6, cc3_scratch7, cc3_scratch8, cc3_scratch9, cc3_scratch10] : List (Ref sig .scVector)).map (Proc.scVector c i).devRef

theorem semLG3_nodup : (semLG3).Nodup := by decide
theorem semLG3_scoped : ∀ s ∈ semLG3, s.isScoped Kind.scVector = true := by decide
theorem bufLG3_nodup (c : Fin τ.nSC) (i : Fin τ.nSub) : (bufLG3 c i).Nodup :=
  (show ([cc3_scratch0, cc3_scratch1, cc3_scratch2, cc3_scratch3, cc3_scratch4, cc3_scratch5, cc3_scratch6, cc3_scratch7, cc3_scratch8, cc3_scratch9, cc3_scratch10] : List (Ref sig .scVector)).Nodup by decide).map (Proc.devRef_injective _)
theorem bufLG3_own (c : Fin τ.nSC) (i : Fin τ.nSub) : ∀ b ∈ bufLG3 c i, b ∈ ownRefs (sig := sig) (Proc.scVector c i) := by
  intro b hb
  simp only [bufLG3, List.map_cons, List.map_nil, List.mem_cons, List.not_mem_nil, or_false] at hb
  rcases hb with rfl | rfl | rfl | rfl | rfl | rfl | rfl | rfl | rfl | rfl | rfl <;> exact SparseCore.Cfg.mem_ownRefs_of_owner rfl

theorem toks11G_3 (Φ : Fin 11 → sProp 𝕄) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
theorem semLG3_chain (Φ : SemLoc sig → sProp 𝕄) : bigSepL semLG3 Φ = iprop(Φ (SemLoc.dma cc3_scratch11.sem) ∗ Φ (SemLoc.dma cc3_scratch12.sem) ∗ Φ (SemLoc.dma cc3_scratch13.sem) ∗ Φ (SemLoc.dma cc3_scratch14.sem) ∗ Φ (SemLoc.dma cc3_scratch15.sem) ∗ Φ (SemLoc.dma cc3_scratch16.sem) ∗ Φ (SemLoc.dma cc3_scratch17.sem) ∗ Φ (SemLoc.dma cc3_scratch18.sem) ∗ Φ (SemLoc.dma cc3_scratch19.sem) ∗ Φ (SemLoc.dma cc3_scratch20.sem) ∗ Φ (SemLoc.dma cc3_scratch21.sem) ∗ Φ (SemLoc.dma cc3_scratch22.sem) ∗ Φ (SemLoc.dma cc3_scratch23.sem) ∗ Φ (SemLoc.dma cc3_scratch24.sem) ∗ Φ (SemLoc.dma cc3_scratch25.sem) ∗ Φ (SemLoc.dma cc3_scratch26.sem) ∗ Φ (SemLoc.dma cc3_scratch27.sem) ∗ Φ (SemLoc.dma cc3_scratch28.sem)) := rfl
theorem bufLG3_chain (c : Fin τ.nSC) (i : Fin τ.nSub) (Φ : DevRef τ sig → sProp 𝕄) : bigSepL (bufLG3 c i) Φ = iprop(Φ ((Proc.scVector c i).devRef cc3_scratch0) ∗ Φ ((Proc.scVector c i).devRef cc3_scratch1) ∗ Φ ((Proc.scVector c i).devRef cc3_scratch2) ∗ Φ ((Proc.scVector c i).devRef cc3_scratch3) ∗ Φ ((Proc.scVector c i).devRef cc3_scratch4) ∗ Φ ((Proc.scVector c i).devRef cc3_scratch5) ∗ Φ ((Proc.scVector c i).devRef cc3_scratch6) ∗ Φ ((Proc.scVector c i).devRef cc3_scratch7) ∗ Φ ((Proc.scVector c i).devRef cc3_scratch8) ∗ Φ ((Proc.scVector c i).devRef cc3_scratch9) ∗ Φ ((Proc.scVector c i).devRef cc3_scratch10)) := rfl

set_option maxHeartbeats 4000000 in
/-- The task from what the launch hands it: its payload and its subcore's whole scoped storage. -/
theorem tile_fullG3 (hF : (K (F := F)).Facts) (d : Dev nD) (L : grid3.Coords) (O : CellTallies nD τ sig (HIx 4)) (W : Waits sig (HIx 4))
    (hO : ∀ g, O g none = 0) (qx : PosShare TreeShare)
    (fi0 : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi0 : ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 j).toNat < 100000)
    (fi1 : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi1 : ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 j).toNat < 100000)
    (fi2 : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi2 : ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 j).toNat < 100000)
    (fi3 : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) (hfi3 : ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 j).toNat < 100000)
    (fx0 : Buf (Elt F) ((Memref.whole main_arg0_scv : Memref sig .scVector .hbm S100000x128 .f32).view.loc (V d (cV3 L) (jV3 L))))
    (fx1 : Buf (Elt F) ((Memref.whole main_arg1_scv : Memref sig .scVector .hbm S100000x128 .f32).view.loc (V d (cV3 L) (jV3 L))))
    (fx2 : Buf (Elt F) ((Memref.whole main_arg2_scv : Memref sig .scVector .hbm S100000x128 .f32).view.loc (V d (cV3 L) (jV3 L))))
    (fx3 : Buf (Elt F) ((Memref.whole main_arg3_scv : Memref sig .scVector .hbm S100000x128 .f32).view.loc (V d (cV3 L) (jV3 L))))
    (G : Buf (Elt F) (((Memref.whole main_v46_scv : Memref sig .scVector .hbm S25088x512 .f32).slice (Rect.unit (s := S25088x512) (k3_off2 L 0#32) S112x128.size (k3_off2_inb L 0)) (fun _ => rfl)).view.loc (V d (cV3 L) (jV3 L))))
    (hG0_0 : ∀ y, ((Memref.whole main_v46_scv : Memref sig .scVector .hbm S25088x512 .f32).slice (Rect.unit (s := S25088x512) (k3_off2 L 0#32) S112x128.size (k3_off2_inb L 0)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (0 : Fin 7) (y 0))).toNat, hfi0 _⟩ (y 1)))
    (hG0_1 : ∀ y, ((Memref.whole main_v46_scv : Memref sig .scVector .hbm S25088x512 .f32).slice (Rect.unit (s := S25088x512) (k3_off2 L 112#32) S112x128.size (k3_off2_inb L 1)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (1 : Fin 7) (y 0))).toNat, hfi0 _⟩ (y 1)))
    (hG0_2 : ∀ y, ((Memref.whole main_v46_scv : Memref sig .scVector .hbm S25088x512 .f32).slice (Rect.unit (s := S25088x512) (k3_off2 L 224#32) S112x128.size (k3_off2_inb L 2)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (2 : Fin 7) (y 0))).toNat, hfi0 _⟩ (y 1)))
    (hG0_3 : ∀ y, ((Memref.whole main_v46_scv : Memref sig .scVector .hbm S25088x512 .f32).slice (Rect.unit (s := S25088x512) (k3_off2 L 336#32) S112x128.size (k3_off2_inb L 3)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (3 : Fin 7) (y 0))).toNat, hfi0 _⟩ (y 1)))
    (hG0_4 : ∀ y, ((Memref.whole main_v46_scv : Memref sig .scVector .hbm S25088x512 .f32).slice (Rect.unit (s := S25088x512) (k3_off2 L 448#32) S112x128.size (k3_off2_inb L 4)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (4 : Fin 7) (y 0))).toNat, hfi0 _⟩ (y 1)))
    (hG0_5 : ∀ y, ((Memref.whole main_v46_scv : Memref sig .scVector .hbm S25088x512 .f32).slice (Rect.unit (s := S25088x512) (k3_off2 L 560#32) S112x128.size (k3_off2_inb L 5)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (5 : Fin 7) (y 0))).toNat, hfi0 _⟩ (y 1)))
    (hG0_6 : ∀ y, ((Memref.whole main_v46_scv : Memref sig .scVector .hbm S25088x512 .f32).slice (Rect.unit (s := S25088x512) (k3_off2 L 672#32) S112x128.size (k3_off2_inb L 6)) (fun _ => rfl)).view.read (Elt F) G y = (Memref.whole main_arg0_scv : Memref sig .scVector .hbm S100000x128 .f32).view.read (Elt F) fx0 (ix2 (n0 := 100000) (n1 := 128) ⟨((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) fi0 (ix2 (n0 := 7) (n1 := 112) (6 : Fin 7) (y 0))).toNat, hfi0 _⟩ (y 1)))
    (hG1_0 : ∀ y, ((Memref.whole main_v46_scv : Memref sig .scVector .hbm S25088x512 .f32).slice (Rect.unit (s := S25088x512) (k3_off3 L 0#32) S112x128.size (k3_off3_inb L 0)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (0 : Fin 7) (y 0))).toNat, hfi1 _⟩ (y 1)))
    (hG1_1 : ∀ y, ((Memref.whole main_v46_scv : Memref sig .scVector .hbm S25088x512 .f32).slice (Rect.unit (s := S25088x512) (k3_off3 L 112#32) S112x128.size (k3_off3_inb L 1)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (1 : Fin 7) (y 0))).toNat, hfi1 _⟩ (y 1)))
    (hG1_2 : ∀ y, ((Memref.whole main_v46_scv : Memref sig .scVector .hbm S25088x512 .f32).slice (Rect.unit (s := S25088x512) (k3_off3 L 224#32) S112x128.size (k3_off3_inb L 2)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (2 : Fin 7) (y 0))).toNat, hfi1 _⟩ (y 1)))
    (hG1_3 : ∀ y, ((Memref.whole main_v46_scv : Memref sig .scVector .hbm S25088x512 .f32).slice (Rect.unit (s := S25088x512) (k3_off3 L 336#32) S112x128.size (k3_off3_inb L 3)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (3 : Fin 7) (y 0))).toNat, hfi1 _⟩ (y 1)))
    (hG1_4 : ∀ y, ((Memref.whole main_v46_scv : Memref sig .scVector .hbm S25088x512 .f32).slice (Rect.unit (s := S25088x512) (k3_off3 L 448#32) S112x128.size (k3_off3_inb L 4)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (4 : Fin 7) (y 0))).toNat, hfi1 _⟩ (y 1)))
    (hG1_5 : ∀ y, ((Memref.whole main_v46_scv : Memref sig .scVector .hbm S25088x512 .f32).slice (Rect.unit (s := S25088x512) (k3_off3 L 560#32) S112x128.size (k3_off3_inb L 5)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (5 : Fin 7) (y 0))).toNat, hfi1 _⟩ (y 1)))
    (hG1_6 : ∀ y, ((Memref.whole main_v46_scv : Memref sig .scVector .hbm S25088x512 .f32).slice (Rect.unit (s := S25088x512) (k3_off3 L 672#32) S112x128.size (k3_off3_inb L 6)) (fun _ => rfl)).view.read (Elt F) G y = (Memref.whole main_arg1_scv : Memref sig .scVector .hbm S100000x128 .f32).view.read (Elt F) fx1 (ix2 (n0 := 100000) (n1 := 128) ⟨((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) fi1 (ix2 (n0 := 7) (n1 := 112) (6 : Fin 7) (y 0))).toNat, hfi1 _⟩ (y 1)))
    (hG2_0 : ∀ y, ((Memref.whole main_v46_scv : Memref sig .scVector .hbm S25088x512 .f32).slice (Rect.unit (s := S25088x512) (k3_off4 L 0#32) S112x128.size (k3_off4_inb L 0)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (0 : Fin 7) (y 0))).toNat, hfi2 _⟩ (y 1)))
    (hG2_1 : ∀ y, ((Memref.whole main_v46_scv : Memref sig .scVector .hbm S25088x512 .f32).slice (Rect.unit (s := S25088x512) (k3_off4 L 112#32) S112x128.size (k3_off4_inb L 1)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (1 : Fin 7) (y 0))).toNat, hfi2 _⟩ (y 1)))
    (hG2_2 : ∀ y, ((Memref.whole main_v46_scv : Memref sig .scVector .hbm S25088x512 .f32).slice (Rect.unit (s := S25088x512) (k3_off4 L 224#32) S112x128.size (k3_off4_inb L 2)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (2 : Fin 7) (y 0))).toNat, hfi2 _⟩ (y 1)))
    (hG2_3 : ∀ y, ((Memref.whole main_v46_scv : Memref sig .scVector .hbm S25088x512 .f32).slice (Rect.unit (s := S25088x512) (k3_off4 L 336#32) S112x128.size (k3_off4_inb L 3)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (3 : Fin 7) (y 0))).toNat, hfi2 _⟩ (y 1)))
    (hG2_4 : ∀ y, ((Memref.whole main_v46_scv : Memref sig .scVector .hbm S25088x512 .f32).slice (Rect.unit (s := S25088x512) (k3_off4 L 448#32) S112x128.size (k3_off4_inb L 4)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (4 : Fin 7) (y 0))).toNat, hfi2 _⟩ (y 1)))
    (hG2_5 : ∀ y, ((Memref.whole main_v46_scv : Memref sig .scVector .hbm S25088x512 .f32).slice (Rect.unit (s := S25088x512) (k3_off4 L 560#32) S112x128.size (k3_off4_inb L 5)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (5 : Fin 7) (y 0))).toNat, hfi2 _⟩ (y 1)))
    (hG2_6 : ∀ y, ((Memref.whole main_v46_scv : Memref sig .scVector .hbm S25088x512 .f32).slice (Rect.unit (s := S25088x512) (k3_off4 L 672#32) S112x128.size (k3_off4_inb L 6)) (fun _ => rfl)).view.read (Elt F) G y = (Memref.whole main_arg2_scv : Memref sig .scVector .hbm S100000x128 .f32).view.read (Elt F) fx2 (ix2 (n0 := 100000) (n1 := 128) ⟨((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) fi2 (ix2 (n0 := 7) (n1 := 112) (6 : Fin 7) (y 0))).toNat, hfi2 _⟩ (y 1)))
    (hG3_0 : ∀ y, ((Memref.whole main_v46_scv : Memref sig .scVector .hbm S25088x512 .f32).slice (Rect.unit (s := S25088x512) (k3_off5 L 0#32) S112x128.size (k3_off5_inb L 0)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (0 : Fin 7) (y 0))).toNat, hfi3 _⟩ (y 1)))
    (hG3_1 : ∀ y, ((Memref.whole main_v46_scv : Memref sig .scVector .hbm S25088x512 .f32).slice (Rect.unit (s := S25088x512) (k3_off5 L 112#32) S112x128.size (k3_off5_inb L 1)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (1 : Fin 7) (y 0))).toNat, hfi3 _⟩ (y 1)))
    (hG3_2 : ∀ y, ((Memref.whole main_v46_scv : Memref sig .scVector .hbm S25088x512 .f32).slice (Rect.unit (s := S25088x512) (k3_off5 L 224#32) S112x128.size (k3_off5_inb L 2)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (2 : Fin 7) (y 0))).toNat, hfi3 _⟩ (y 1)))
    (hG3_3 : ∀ y, ((Memref.whole main_v46_scv : Memref sig .scVector .hbm S25088x512 .f32).slice (Rect.unit (s := S25088x512) (k3_off5 L 336#32) S112x128.size (k3_off5_inb L 3)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (3 : Fin 7) (y 0))).toNat, hfi3 _⟩ (y 1)))
    (hG3_4 : ∀ y, ((Memref.whole main_v46_scv : Memref sig .scVector .hbm S25088x512 .f32).slice (Rect.unit (s := S25088x512) (k3_off5 L 448#32) S112x128.size (k3_off5_inb L 4)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (4 : Fin 7) (y 0))).toNat, hfi3 _⟩ (y 1)))
    (hG3_5 : ∀ y, ((Memref.whole main_v46_scv : Memref sig .scVector .hbm S25088x512 .f32).slice (Rect.unit (s := S25088x512) (k3_off5 L 560#32) S112x128.size (k3_off5_inb L 5)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (5 : Fin 7) (y 0))).toNat, hfi3 _⟩ (y 1)))
    (hG3_6 : ∀ y, ((Memref.whole main_v46_scv : Memref sig .scVector .hbm S25088x512 .f32).slice (Rect.unit (s := S25088x512) (k3_off5 L 672#32) S112x128.size (k3_off5_inb L 6)) (fun _ => rfl)).view.read (Elt F) G y = (Memref.whole main_arg3_scv : Memref sig .scVector .hbm S100000x128 .f32).view.read (Elt F) fx3 (ix2 (n0 := 100000) (n1 := 128) ⟨((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) fi3 (ix2 (n0 := 7) (n1 := 112) (6 : Fin 7) (y 0))).toNat, hfi3 _⟩ (y 1)))
    :
    iprop(levAts (K (F := F)).L (K (F := F)).lev ∗ emp ∗ tileRes3 d L qx fi0 fi1 fi2 fi3 fx0 fx1 fx2 fx3
        ∗ scopedBufs (V d (cV3 L) (jV3 L)) ∗ scopedSems0 (V d (cV3 L) (jV3 L)) ∗ owes (V d (cV3 L) (jV3 L)) O W : sProp 𝕄)
      ⊢ wp frame (wpE (defs₀ (F := F)) 𝒱₀ (V d (cV3 L) (jV3 L)) none) Set.univ
          (cc3_sc_kernel L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28)
          fun _ => iprop(tileResG3 d L qx fi0 fi1 fi2 fi3 fx0 fx1 fx2 fx3 G ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') := by
  rw [(K (F := F)).scopedBufs_V hF d (cV3 L) (jV3 L), SparseCore.Cfg.scopedSems0_V (Val := Elt F) d (cV3 L) (jV3 L),
    ownSems0_take (V d (cV3 L) (jV3 L)) semLG3 semLG3_nodup semLG3_scoped,
    ownBufs_take (V d (cV3 L) (jV3 L)) (bufLG3 (cV3 L) (jV3 L)) (bufLG3_nodup _ _) (bufLG3_own _ _)]
  unfold tileRes3 tileResG3 ownedAny
  rw [semLG3_chain, bufLG3_chain]
  simp only [toks11G_3]
  iintro ⟨#Hlv, -, ⟨HI0, HI1, HI2, HI3, XD0, ⟨T0_0, T0_1, T0_2, T0_3, T0_4, T0_5, T0_6, T0_7, T0_8, T0_9, T0_10⟩, XD1, ⟨T1_0, T1_1, T1_2, T1_3, T1_4, T1_5, T1_6, T1_7, T1_8, T1_9, T1_10⟩, XD2, ⟨T2_0, T2_1, T2_2, T2_3, T2_4, T2_5, T2_6, T2_7, T2_8, T2_9, T2_10⟩, XD3, ⟨T3_0, T3_1, T3_2, T3_3, T3_4, T3_5, T3_6, T3_7, T3_8, T3_9, T3_10⟩, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6⟩, ⟨⟨B0, B1, B2, B3, B4, B5, B6, B7, B8, B9, B10⟩, Hbrest⟩, ⟨⟨E11, E12, E13, E14, E15, E16, E17, E18, E19, E20, E21, E22, E23, E24, E25, E26, E27, E28⟩, Hsrest⟩, HO⟩
  ihave Hmw := ((K (F := F)).mayWaits_none (thr := (V d (cV3 L) (jV3 L))) hO) $$ Hlv
  ihave Hwp := (tile_bodyV3 (F := F) d L O W qx fi0 hfi0 fi1 hfi1 fi2 hfi2 fi3 hfi3 fx0 fx1 fx2 fx3 G hG0_0 hG0_1 hG0_2 hG0_3 hG0_4 hG0_5 hG0_6 hG1_0 hG1_1 hG1_2 hG1_3 hG1_4 hG1_5 hG1_6 hG2_0 hG2_1 hG2_2 hG2_3 hG2_4 hG2_5 hG2_6 hG3_0 hG3_1 hG3_2 hG3_3 hG3_4 hG3_5 hG3_6) $$ [Hmw HI0 HI1 HI2 HI3 T0_4 T0_5 T0_6 T0_7 T0_8 T0_9 T0_10 T1_4 T1_5 T1_6 T1_7 T1_8 T1_9 T1_10 T2_4 T2_5 T2_6 T2_7 T2_8 T2_9 T2_10 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6 B0 B1 B2 B3 B4 B5 B6 B7 B8 B9 B10 E11 E12 E13 E14 E15 E16 E17 E18 E19 E20 E21 E22 E23 E24 E25 E26 E27 E28 HO]
  · isplitl [Hmw]; · iexact Hmw
    isplitl [HI0]; · iexact HI0
    isplitl [HI1]; · iexact HI1
    isplitl [HI2]; · iexact HI2
    isplitl [HI3]; · iexact HI3
    isplitl [T0_4]; · iexact T0_4
    isplitl [T0_5]; · iexact T0_5
    isplitl [T0_6]; · iexact T0_6
    isplitl [T0_7]; · iexact T0_7
    isplitl [T0_8]; · iexact T0_8
    isplitl [T0_9]; · iexact T0_9
    isplitl [T0_10]; · iexact T0_10
    isplitl [T1_4]; · iexact T1_4
    isplitl [T1_5]; · iexact T1_5
    isplitl [T1_6]; · iexact T1_6
    isplitl [T1_7]; · iexact T1_7
    isplitl [T1_8]; · iexact T1_8
    isplitl [T1_9]; · iexact T1_9
    isplitl [T1_10]; · iexact T1_10
    isplitl [T2_4]; · iexact T2_4
    isplitl [T2_5]; · iexact T2_5
    isplitl [T2_6]; · iexact T2_6
    isplitl [T2_7]; · iexact T2_7
    isplitl [T2_8]; · iexact T2_8
    isplitl [T2_9]; · iexact T2_9
    isplitl [T2_10]; · iexact T2_10
    isplitl [T3_4]; · iexact T3_4
    isplitl [T3_5]; · iexact T3_5
    isplitl [T3_6]; · iexact T3_6
    isplitl [T3_7]; · iexact T3_7
    isplitl [T3_8]; · iexact T3_8
    isplitl [T3_9]; · iexact T3_9
    isplitl [T3_10]; · iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    isplitl [HO3_6]; · iexact HO3_6
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [E11]; · iexact E11
    isplitl [E12]; · iexact E12
    isplitl [E13]; · iexact E13
    isplitl [E14]; · iexact E14
    isplitl [E15]; · iexact E15
    isplitl [E16]; · iexact E16
    isplitl [E17]; · iexact E17
    isplitl [E18]; · iexact E18
    isplitl [E19]; · iexact E19
    isplitl [E20]; · iexact E20
    isplitl [E21]; · iexact E21
    isplitl [E22]; · iexact E22
    isplitl [E23]; · iexact E23
    isplitl [E24]; · iexact E24
    isplitl [E25]; · iexact E25
    isplitl [E26]; · iexact E26
    isplitl [E27]; · iexact E27
    isplitl [E28]; · iexact E28
    iexact HO
  ihave Hw := (wp_wand frame _ _) $$ Hwp
  iapply Hw
  iintro %_ ⟨HI0, HI1, HI2, HI3, T0_4, T0_5, T0_6, T0_7, T0_8, T0_9, T0_10, T1_4, T1_5, T1_6, T1_7, T1_8, T1_9, T1_10, T2_4, T2_5, T2_6, T2_7, T2_8, T2_9, T2_10, T3_4, T3_5, T3_6, T3_7, T3_8, T3_9, T3_10, HO0_0, HO0_1, HO0_2, HO0_3, HO0_4, HO0_5, HO0_6, HO1_0, HO1_1, HO1_2, HO1_3, HO1_4, HO1_5, HO1_6, HO2_0, HO2_1, HO2_2, HO2_3, HO2_4, HO2_5, HO2_6, HO3_0, HO3_1, HO3_2, HO3_3, HO3_4, HO3_5, HO3_6, B0, B1, B2, B3, B4, B5, B6, B7, B8, B9, B10, E11, E12, E13, E14, E15, E16, E17, E18, E19, E20, E21, E22, E23, E24, E25, E26, E27, E28, HO⟩
  isplitl [HI0 HI1 HI2 HI3 XD0 T0_0 T0_1 T0_2 T0_3 T0_4 T0_5 T0_6 T0_7 T0_8 T0_9 T0_10 XD1 T1_0 T1_1 T1_2 T1_3 T1_4 T1_5 T1_6 T1_7 T1_8 T1_9 T1_10 XD2 T2_0 T2_1 T2_2 T2_3 T2_4 T2_5 T2_6 T2_7 T2_8 T2_9 T2_10 XD3 T3_0 T3_1 T3_2 T3_3 T3_4 T3_5 T3_6 T3_7 T3_8 T3_9 T3_10 HO0_0 HO0_1 HO0_2 HO0_3 HO0_4 HO0_5 HO0_6 HO1_0 HO1_1 HO1_2 HO1_3 HO1_4 HO1_5 HO1_6 HO2_0 HO2_1 HO2_2 HO2_3 HO2_4 HO2_5 HO2_6 HO3_0 HO3_1 HO3_2 HO3_3 HO3_4 HO3_5 HO3_6]
  · isplitl [HI0]; · iexact HI0
    isplitl [HI1]; · iexact HI1
    isplitl [HI2]; · iexact HI2
    isplitl [HI3]; · iexact HI3
    isplitl [XD0]; · iexact XD0
    isplitl [T0_0 T0_1 T0_2 T0_3 T0_4 T0_5 T0_6 T0_7 T0_8 T0_9 T0_10]
    · isplitl [T0_0]; · iexact T0_0
      isplitl [T0_1]; · iexact T0_1
      isplitl [T0_2]; · iexact T0_2
      isplitl [T0_3]; · iexact T0_3
      isplitl [T0_4]; · iexact T0_4
      isplitl [T0_5]; · iexact T0_5
      isplitl [T0_6]; · iexact T0_6
      isplitl [T0_7]; · iexact T0_7
      isplitl [T0_8]; · iexact T0_8
      isplitl [T0_9]; · iexact T0_9
      iexact T0_10
    isplitl [XD1]; · iexact XD1
    isplitl [T1_0 T1_1 T1_2 T1_3 T1_4 T1_5 T1_6 T1_7 T1_8 T1_9 T1_10]
    · isplitl [T1_0]; · iexact T1_0
      isplitl [T1_1]; · iexact T1_1
      isplitl [T1_2]; · iexact T1_2
      isplitl [T1_3]; · iexact T1_3
      isplitl [T1_4]; · iexact T1_4
      isplitl [T1_5]; · iexact T1_5
      isplitl [T1_6]; · iexact T1_6
      isplitl [T1_7]; · iexact T1_7
      isplitl [T1_8]; · iexact T1_8
      isplitl [T1_9]; · iexact T1_9
      iexact T1_10
    isplitl [XD2]; · iexact XD2
    isplitl [T2_0 T2_1 T2_2 T2_3 T2_4 T2_5 T2_6 T2_7 T2_8 T2_9 T2_10]
    · isplitl [T2_0]; · iexact T2_0
      isplitl [T2_1]; · iexact T2_1
      isplitl [T2_2]; · iexact T2_2
      isplitl [T2_3]; · iexact T2_3
      isplitl [T2_4]; · iexact T2_4
      isplitl [T2_5]; · iexact T2_5
      isplitl [T2_6]; · iexact T2_6
      isplitl [T2_7]; · iexact T2_7
      isplitl [T2_8]; · iexact T2_8
      isplitl [T2_9]; · iexact T2_9
      iexact T2_10
    isplitl [XD3]; · iexact XD3
    isplitl [T3_0 T3_1 T3_2 T3_3 T3_4 T3_5 T3_6 T3_7 T3_8 T3_9 T3_10]
    · isplitl [T3_0]; · iexact T3_0
      isplitl [T3_1]; · iexact T3_1
      isplitl [T3_2]; · iexact T3_2
      isplitl [T3_3]; · iexact T3_3
      isplitl [T3_4]; · iexact T3_4
      isplitl [T3_5]; · iexact T3_5
      isplitl [T3_6]; · iexact T3_6
      isplitl [T3_7]; · iexact T3_7
      isplitl [T3_8]; · iexact T3_8
      isplitl [T3_9]; · iexact T3_9
      iexact T3_10
    isplitl [HO0_0]; · iexact HO0_0
    isplitl [HO0_1]; · iexact HO0_1
    isplitl [HO0_2]; · iexact HO0_2
    isplitl [HO0_3]; · iexact HO0_3
    isplitl [HO0_4]; · iexact HO0_4
    isplitl [HO0_5]; · iexact HO0_5
    isplitl [HO0_6]; · iexact HO0_6
    isplitl [HO1_0]; · iexact HO1_0
    isplitl [HO1_1]; · iexact HO1_1
    isplitl [HO1_2]; · iexact HO1_2
    isplitl [HO1_3]; · iexact HO1_3
    isplitl [HO1_4]; · iexact HO1_4
    isplitl [HO1_5]; · iexact HO1_5
    isplitl [HO1_6]; · iexact HO1_6
    isplitl [HO2_0]; · iexact HO2_0
    isplitl [HO2_1]; · iexact HO2_1
    isplitl [HO2_2]; · iexact HO2_2
    isplitl [HO2_3]; · iexact HO2_3
    isplitl [HO2_4]; · iexact HO2_4
    isplitl [HO2_5]; · iexact HO2_5
    isplitl [HO2_6]; · iexact HO2_6
    isplitl [HO3_0]; · iexact HO3_0
    isplitl [HO3_1]; · iexact HO3_1
    isplitl [HO3_2]; · iexact HO3_2
    isplitl [HO3_3]; · iexact HO3_3
    isplitl [HO3_4]; · iexact HO3_4
    isplitl [HO3_5]; · iexact HO3_5
    iexact HO3_6
  isplitl [B0 B1 B2 B3 B4 B5 B6 B7 B8 B9 B10 Hbrest]
  · isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hbrest
  isplitl [E11 E12 E13 E14 E15 E16 E17 E18 E19 E20 E21 E22 E23 E24 E25 E26 E27 E28 Hsrest]
  · isplitl [E11 E12 E13 E14 E15 E16 E17 E18 E19 E20 E21 E22 E23 E24 E25 E26 E27 E28]
    · isplitl [E11]; · iexact E11
      isplitl [E12]; · iexact E12
      isplitl [E13]; · iexact E13
      isplitl [E14]; · iexact E14
      isplitl [E15]; · iexact E15
      isplitl [E16]; · iexact E16
      isplitl [E17]; · iexact E17
      isplitl [E18]; · iexact E18
      isplitl [E19]; · iexact E19
      isplitl [E20]; · iexact E20
      isplitl [E21]; · iexact E21
      isplitl [E22]; · iexact E22
      isplitl [E23]; · iexact E23
      isplitl [E24]; · iexact E24
      isplitl [E25]; · iexact E25
      isplitl [E26]; · iexact E26
      isplitl [E27]; · iexact E27
      iexact E28
    iexact Hsrest
  iexact HO

/-- A task's recorded waits, all at the kernel's own index, are admissible for the launch. -/
theorem obl_postG3 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body table's row for a vector subcore at call 3. -/
theorem defs₀_vectorG3 (c : Fin τ.nSC) (s : Fin τ.nSub) :
    defs₀ (F := F) (.scVector c s) 3 ()
      = SparseCore.onTile hcore3 hsub3 (fun c s => cc3_sc_kernel (coordsV3 c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v39_scv) (Memref.isWhole_whole _) (Memref.whole main_v41_scv) (Memref.isWhole_whole _) (Memref.whole main_v43_scv) (Memref.isWhole_whole _) (Memref.whole main_v45_scv) (Memref.isWhole_whole _) (Memref.whole main_v46_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) (Memref.whole cc3_scratch6) (Memref.isWhole_whole _) (Memref.whole cc3_scratch7) (Memref.isWhole_whole _) (Memref.whole cc3_scratch8) (Memref.isWhole_whole _) (Memref.whole cc3_scratch9) (Memref.isWhole_whole _) (Memref.whole cc3_scratch10) (Memref.isWhole_whole _) cc3_scratch11 cc3_scratch12 cc3_scratch13 cc3_scratch14 cc3_scratch15 cc3_scratch16 cc3_scratch17 cc3_scratch18 cc3_scratch19 cc3_scratch20 cc3_scratch21 cc3_scratch22 cc3_scratch23 cc3_scratch24 cc3_scratch25 cc3_scratch26 cc3_scratch27 cc3_scratch28) ⟨⟩ c s := rfl

/-- An index row of the task reads words of the call's index array, which are row numbers of the tables. -/
theorem row_ltG3 (d : Dev nD) (L : grid3.Coords) (a : IVec S100000 32) (ha : ∀ r, (a r).toNat < 100000) (t : Fin 4) :
    ((t = 0 → ∀ j, ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v39_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 1 → ∀ j, ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v41_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 2 → ∀ j, ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v43_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000)
    ∧ (t = 3 → ∀ j, ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.read (Elt F) (Idx.slab 3 a : Buf (Elt F) ((((Memref.whole main_v45_scv : Memref sig .scVector .hbm S32x7x112 .i32).slice (Rect.unit (s := S32x7x112) (k3_off1 L) S1x7x112.size (k3_off1_inb L)) (fun _ => rfl)).squeeze S7x112 squeezes_S1x7x112_S7x112).view.loc (V d (cV3 L) (jV3 L)))) j).toNat < 100000))
    := by
  refine ⟨?_, ?_, ?_, ?_⟩ <;> (intro _ j; rw [View.read_apply]; simp only [cast_eq]; exact Idx.slab_lt 3 a ha _)

set_option maxHeartbeats 4000000 in
/-- The launch theorem's obligation for the tasks of call 3, the index inputs holding row numbers. -/
theorem tileOblG3 (m : (ℓ : Loc nD τ sig) → Buf (Elt F) ℓ)
    (hpre : ∀ (d : Dev nD), (∀ r, (m ((SparseCore.T d).loc main_arg4) r).toNat < 100000) ∧ (∀ r, (m ((SparseCore.T d).loc main_arg5) r).toNat < 100000)
      ∧ (∀ r, (m ((SparseCore.T d).loc main_arg6) r).toNat < 100000) ∧ (∀ r, (m ((SparseCore.T d).loc main_arg7) r).toNat < 100000)) :
    (K (F := F)).TileObl (D (F := F)) 𝒱 (PG m) v₀ 3 := by
  intro d c i O W hO _ _
  simp only [show (PG m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vectorG3]; simp only [SparseCore.onTile, hc, and_self, ↓reduceDIte]
  obtain ⟨h4, h5, h6, h7⟩ := hpre d
  exact (tile_fullG3 (F := F) facts d (coordsV3 ⟨_, hc.1⟩ ⟨_, hc.2⟩) O W hO (qTile (Fin.cast (nCore_eq 3) c) (Fin.cast (nSub_eq 3) i))
    (Idx.slab 3 (m ((SparseCore.T d).loc main_arg4))) ((row_ltG3 d _ _ h4 0).1 rfl)
    (Idx.slab 3 (m ((SparseCore.T d).loc main_arg5))) ((row_ltG3 d _ _ h5 1).2.1 rfl)
    (Idx.slab 3 (m ((SparseCore.T d).loc main_arg6))) ((row_ltG3 d _ _ h6 2).2.2.1 rfl)
    (Idx.slab 3 (m ((SparseCore.T d).loc main_arg7))) ((row_ltG3 d _ _ h7 3).2.2.2 rfl)
    (m ((SparseCore.T d).loc main_arg0)) (m ((SparseCore.T d).loc main_arg1)) (m ((SparseCore.T d).loc main_arg2)) (m ((SparseCore.T d).loc main_arg3))
    (slabOfM m 3 d)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨0, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨1, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨2, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨3, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨4, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨5, by decide⟩ : Fin 7) y)
    (fun y => by rw [View.read_apply]; simp only [cast_eq]; exact slabG_piece3_0 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨6, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨0, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨1, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨2, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨3, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨4, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨5, by decide⟩ : Fin 7) y)
    (fun y => by rw [View.read_apply]; simp only [cast_eq]; exact slabG_piece3_1 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨6, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨0, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨1, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨2, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨3, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨4, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨5, by decide⟩ : Fin 7) y)
    (fun y => by rw [View.read_apply]; simp only [cast_eq]; exact slabG_piece3_2 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨6, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨0, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨1, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨2, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨3, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨4, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨5, by decide⟩ : Fin 7) y)
    (fun y => by rw [View.read_apply]; simp only [cast_eq]; exact slabG_piece3_3 d (coordsV3 ⟨_, hc.1⟩ ⟨_, hc.2⟩) (cV3 (coordsV3 ⟨_, hc.1⟩ ⟨_, hc.2⟩)) (jV3 (coordsV3 ⟨_, hc.1⟩ ⟨_, hc.2⟩)) _ _ _ _ _ _ _ _ _ (⟨6, by decide⟩ : Fin 7) y)
    ).trans
    (wp_mono frame _ _ fun _ => obl_postG3)

end Cert.KernelIdeal.Sc

end
-- ==== Proof.ScAlg.lean ====
/-
  The algebraic agreement: under the precondition and on equal arguments the idealized kernel's run and the idealized
  reference's run both end with the result at one value — the reference's result of the arguments — and all arguments unchanged.
-/
import proofs.«215994_g5102421148354_cont_8to1c4_853_29_alg».proof.Proof.ScMainG
import proofs.«215994_g5102421148354_cont_8to1c4_853_29_alg».proof.Proof.ScOblG0
import proofs.«215994_g5102421148354_cont_8to1c4_853_29_alg».proof.Proof.ScOblG1
import proofs.«215994_g5102421148354_cont_8to1c4_853_29_alg».proof.Proof.ScOblG2
import proofs.«215994_g5102421148354_cont_8to1c4_853_29_alg».proof.Proof.ScOblG3
import proofs.«215994_g5102421148354_cont_8to1c4_853_29_alg».proof.Proof.ScFrame
import proofs.«215994_g5102421148354_cont_8to1c4_853_29_alg».proof.Proof.RefRun

noncomputable section

namespace Cert.Proof

open Cert.KernelIdeal Cert.KernelIdeal.Sc Idealize.ShloMosaic Idealize.SL.Sem

set_option maxHeartbeats 4000000 in
/-- `algebraic_KernelIdeal_ReferenceIdeal` (Defs.lean). -/
theorem algebraic [hKernelIdeal : Cert.KernelIdeal.Facts] [hReferenceIdeal : Cert.ReferenceIdeal.Facts] [hPre_input_domain : Cert.Pre_input_domain.Facts] :
    Cert.algebraic_KernelIdeal_ReferenceIdeal := by
  intro m g m' g' hpre hagree
  refine ⟨fun c => Cert.KernelIdeal.Sc.RefRes m c, ?_, ?_⟩
  · exact (θ_run Cert.KernelIdeal.defs _ _).mono (fun _ h c =>
      ⟨(h c).2, (h c).1 main_arg0 (by decide), (h c).1 main_arg1 (by decide), (h c).1 main_arg2 (by decide), (h c).1 main_arg3 (by decide), (h c).1 main_arg4 (by decide),
        (h c).1 main_arg5 (by decide), (h c).1 main_arg6 (by decide), (h c).1 main_arg7 (by decide), (h c).1 main_arg8 (by decide), (h c).1 main_arg9 (by decide),
        (h c).1 main_arg10 (by decide), (h c).1 main_arg11 (by decide)⟩)
      (Cert.KernelIdeal.Sc.run_mainG (F := Ideal) m g (Cert.KernelIdeal.Sc.RefRes m) (fun q => match q with
        | 0 => tileOblG0 m (idx_of_pre m hpre) | 1 => tileOblG1 m (idx_of_pre m hpre) | 2 => tileOblG2 m (idx_of_pre m hpre) | 3 => tileOblG3 m (idx_of_pre m hpre))
        (hmainG m g hpre))
  · refine (θ_run Cert.ReferenceIdeal.defs _ _).mono (fun _ h c => ⟨(h c).1.trans ?_, (h c).2⟩) (Cert.ReferenceIdeal.RefRun.run (F := Ideal) m' g')
    obtain ⟨h0, h1, h2, h3, h4, h5, h6, h7, h8, h9, h10, h11⟩ := hagree c
    unfold Cert.KernelIdeal.Sc.RefRes
    rw [h0, h1, h2, h3, h4, h5, h6, h7, h8, h9, h10, h11]

end Cert.Proof

end
-- ==== Proof.lean ====
/-
  The claim: three frames, the idealization's soundness, and the algebraic agreement of the idealized kernel with the idealized
  reference.

  The kernel gathers rows of four tables by four index arrays on the SparseCores (four calls, thirty-two tasks each, seven
  gathers in flight per table, every copy on a semaphore of its own), then computes relu (g · Wᵀ + b) and a layer norm over
  the 512 columns on the TensorCore (four regions of 28 blocks of 896 rows).  The reference takes the rows with jnp.take,
  concatenates, applies the same dense layer and normalisation.

  Frames.  The reference's run is its host operations composed (RefRun); the kernels' frames are the SparseCore launch theorem
  applied to the tasks' obligations (ScTile, ScObl), the deal of each call's arrays among its tasks (ScDeal), the regions
  (TcBody, TcRegion, TcLift) and @main threaded through them (ScCall, ScRegion, ScMain, ScFrame), once per float instance.
  The idealization rewrote nothing, so its soundness is trivial.

  Agreement.  Both sides meet at one function of a gathered row (RowSpec.rowFn): the reference's result read at an index
  (RefRow.res_apply) and the TensorCore body's term read at an index (KerRowOut.out4_5_apply, under finiteness: y / sqrt v is
  y · rsqrt v for v real and positive).  The tasks leave the gathered rows in the four slabs (ScVal, ScTileV, ScDealG); the result array's blocks (TcFin, TcFinalRow,
  TcAlg) are then the row function of the gathered rows, which is the reference's (ScMainG, ScAlg).
-/
import proofs.«215994_g5102421148354_cont_8to1c4_853_29_alg».proof.Proof.ScFrame
import proofs.«215994_g5102421148354_cont_8to1c4_853_29_alg».proof.Proof.KScFrame
import proofs.«215994_g5102421148354_cont_8to1c4_853_29_alg».proof.Proof.RefFrame
import proofs.«215994_g5102421148354_cont_8to1c4_853_29_alg».proof.Proof.RefRow
import proofs.«215994_g5102421148354_cont_8to1c4_853_29_alg».proof.Proof.KerRowOut
import proofs.«215994_g5102421148354_cont_8to1c4_853_29_alg».proof.Proof.TcFin
import proofs.«215994_g5102421148354_cont_8to1c4_853_29_alg».proof.Proof.TcRows
import proofs.«215994_g5102421148354_cont_8to1c4_853_29_alg».proof.Proof.ScAlg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.frame_Kernel, Cert.Proof.frame_KernelIdeal, Cert.ReferenceIdeal.RefRun.frame, trivial, Cert.Proof.algebraic⟩

end Cert.Proof

end
